-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S256x784 : Shape := ⟨2, ![256, 784]⟩
abbrev S256x256 : Shape := ⟨2, ![256, 256]⟩
abbrev S10x256 : Shape := ⟨2, ![10, 256]⟩
abbrev S256 : Shape := ⟨1, ![256]⟩
abbrev S10 : Shape := ⟨1, ![10]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S256x784 : S_.BroadcastsInDim S256x784 (![] : Fin 0 → Fin S256x784.rank)
  reducesTo_S256x784_S_d0_1 : S256x784.ReducesTo [0, 1] S_
  bcast_S_S256x256 : S_.BroadcastsInDim S256x256 (![] : Fin 0 → Fin S256x256.rank)
  reducesTo_S256x256_S_d0_1 : S256x256.ReducesTo [0, 1] S_
  bcast_S_S10x256 : S_.BroadcastsInDim S10x256 (![] : Fin 0 → Fin S10x256.rank)
  reducesTo_S10x256_S_d0_1 : S10x256.ReducesTo [0, 1] S_
  bcast_S_S256 : S_.BroadcastsInDim S256 (![] : Fin 0 → Fin S256.rank)
  reducesTo_S256_S_d0 : S256.ReducesTo [0] S_
  bcast_S_S10 : S_.BroadcastsInDim S10 (![] : Fin 0 → Fin S10.rank)
  reducesTo_S10_S_d0 : S10.ReducesTo [0] S_

variable [Facts]

def fn_part4 {F : FTy → Type} [FloatOps F] (main_arg14 : FVec F S256 .f32) (main_arg15 : FVec F S10 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S10 .f32 := Host.absf main_arg15
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  main_v78

def fn_part3 {F : FTy → Type} [FloatOps F] (main_arg11 : FVec F S256 .f32) (main_arg12 : FVec F S256 .f32) (main_arg13 : FVec F S256 .f32) (main_arg14 : FVec F S256 .f32) (main_arg15 : FVec F S10 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_v63 main_v67

def fn_part2 {F : FTy → Type} [FloatOps F] (main_arg7 : FVec F S256 .f32) (main_arg8 : FVec F S256 .f32) (main_arg9 : FVec F S256 .f32) (main_arg10 : FVec F S10 .f32) (main_arg11 : FVec F S256 .f32) (main_arg12 : FVec F S256 .f32) (main_arg13 : FVec F S256 .f32) (main_arg14 : FVec F S256 .f32) (main_arg15 : FVec F S10 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_arg11 main_arg12 main_arg13 main_arg14 main_arg15 main_v48 main_v49 main_v50

def fn_part1 {F : FTy → Type} [FloatOps F] (main_arg4 : FVec F S256x256 .f32) (main_arg5 : FVec F S10x256 .f32) (main_arg6 : FVec F S256 .f32) (main_arg7 : FVec F S256 .f32) (main_arg8 : FVec F S256 .f32) (main_arg9 : FVec F S256 .f32) (main_arg10 : FVec F S10 .f32) (main_arg11 : FVec F S256 .f32) (main_arg12 : FVec F S256 .f32) (main_arg13 : FVec F S256 .f32) (main_arg14 : FVec F S256 .f32) (main_arg15 : FVec F S10 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S10x256 .f32 := Host.absf main_arg5
  let main_cst_8 : FVec F S_ .f32 := constant S_ .f32 0x7F800000#32
  let main_v25 : FVec F S10x256 .f32 := broadcastInDim S10x256 ![] bcast_S_S10x256 main_cst_8
  let main_v26 : IVec S10x256 1 := cmpf .olt main_v24 main_v25
  let main_c_9 : IVec S_ 1 := constantI S_ 1 1#1
  let main_v27 : IVec S_ 1 := (fun x v => Host.reduce IntOp.andi x v reducesTo_S10x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S65536x784 .f32) (main_arg1 : FVec F S256x784 .f32) (main_arg2 : FVec F S256x256 .f32) (main_arg3 : FVec F S256x256 .f32) (main_arg4 : FVec F S256x256 .f32) (main_arg5 : FVec F S10x256 .f32) (main_arg6 : FVec F S256 .f32) (main_arg7 : FVec F S256 .f32) (main_arg8 : FVec F S256 .f32) (main_arg9 : FVec F S256 .f32) (main_arg10 : FVec F S10 .f32) (main_arg11 : FVec F S256 .f32) (main_arg12 : FVec F S256 .f32) (main_arg13 : FVec F S256 .f32) (main_arg14 : FVec F S256 .f32) (main_arg15 : FVec F S10 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S256x784 .f32 := Host.absf main_arg1
  let main_cst_0 : FVec F S_ .f32 := constant S_ .f32 0x7F800000#32
  let main_v5 : FVec F S256x784 .f32 := broadcastInDim S256x784 ![] bcast_S_S256x784 main_cst_0
  let main_v6 : IVec S256x784 1 := cmpf .olt main_v4 main_v5
  let main_c_1 : IVec S_ 1 := constantI S_ 1 1#1
  let main_v7 : IVec S_ 1 := (fun x v => Host.reduce IntOp.andi x v reducesTo_S256x784_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S65536x784 : Shape := ⟨2, ![65536, 784]⟩
abbrev S256x784 : Shape := ⟨2, ![256, 784]⟩
abbrev S256x256 : Shape := ⟨2, ![256, 256]⟩
abbrev S10x256 : Shape := ⟨2, ![10, 256]⟩
abbrev S256 : Shape := ⟨1, ![256]⟩
abbrev S10 : Shape := ⟨1, ![10]⟩
abbrev S_ : Shape := ⟨0, ![]⟩
abbrev S65536x256 : Shape := ⟨2, ![65536, 256]⟩
abbrev S16x256 : Shape := ⟨2, ![16, 256]⟩
abbrev S2048x784 : Shape := ⟨2, ![2048, 784]⟩
abbrev S2048x256 : Shape := ⟨2, ![2048, 256]⟩
abbrev S8x256 : Shape := ⟨2, ![8, 256]⟩
abbrev S1x256 : Shape := ⟨2, ![1, 256]⟩
abbrev S2x8x256 : Shape := ⟨3, ![2, 8, 256]⟩
abbrev S2x1x256 : Shape := ⟨3, ![2, 1, 256]⟩
abbrev S2x256 : Shape := ⟨2, ![2, 256]⟩
abbrev S65536x10 : Shape := ⟨2, ![65536, 10]⟩
abbrev S16x10 : Shape := ⟨2, ![16, 10]⟩
abbrev S2048x10 : Shape := ⟨2, ![2048, 10]⟩
abbrev S8x10 : Shape := ⟨2, ![8, 10]⟩
abbrev S1x10 : Shape := ⟨2, ![1, 10]⟩
abbrev S2x8x10 : Shape := ⟨3, ![2, 8, 10]⟩
abbrev S2x1x10 : Shape := ⟨3, ![2, 1, 10]⟩
abbrev S2x10 : Shape := ⟨2, ![2, 10]⟩

abbrev nBuf : Space → Nat
  | .hbm => 220
  | .vmem => 93
  | .smem => 0
  | _ => 0

abbrev hbmTy0_0 (i : Nat) : BufTy := match i % 128 with
  | 0 => ⟨S65536x784, .f32⟩
  | 1 => ⟨S256x784, .f32⟩
  | 2 => ⟨S256x256, .f32⟩
  | 3 => ⟨S256x256, .f32⟩
  | 4 => ⟨S256x256, .f32⟩
  | 5 => ⟨S10x256, .f32⟩
  | 6 => ⟨S256, .f32⟩
  | 7 => ⟨S256, .f32⟩
  | 8 => ⟨S256, .f32⟩
  | 9 => ⟨S256, .f32⟩
  | 10 => ⟨S10, .f32⟩
  | 11 => ⟨S256, .f32⟩
  | 12 => ⟨S256, .f32⟩
  | 13 => ⟨S256, .f32⟩
  | 14 => ⟨S256, .f32⟩
  | 15 => ⟨S10, .f32⟩
  | 16 => ⟨S_, .f32⟩
  | 17 => ⟨S256x784, .f32⟩
  | 18 => ⟨S256x784, .i1⟩
  | 19 => ⟨S_, .f32⟩
  | 20 => ⟨S_, .f32⟩
  | 21 => ⟨S256x784, .f32⟩
  | 22 => ⟨S256x784, .f32⟩
  | 23 => ⟨S256x784, .f32⟩
  | 24 => ⟨S256x784, .bf16⟩
  | 25 => ⟨S_, .f32⟩
  | 26 => ⟨S256x256, .f32⟩
  | 27 => ⟨S256x256, .i1⟩
  | 28 => ⟨S_, .f32⟩
  | 29 => ⟨S_, .f32⟩
  | 30 => ⟨S256x256, .f32⟩
  | 31 => ⟨S256x256, .f32⟩
  | 32 => ⟨S256x256, .f32⟩
  | 33 => ⟨S256x256, .bf16⟩
  | 34 => ⟨S_, .f32⟩
  | 35 => ⟨S256x256, .f32⟩
  | 36 => ⟨S256x256, .i1⟩
  | 37 => ⟨S_, .f32⟩
  | 38 => ⟨S_, .f32⟩
  | 39 => ⟨S256x256, .f32⟩
  | 40 => ⟨S256x256, .f32⟩
  | 41 => ⟨S256x256, .f32⟩
  | 42 => ⟨S256x256, .bf16⟩
  | 43 => ⟨S_, .f32⟩
  | 44 => ⟨S256x256, .f32⟩
  | 45 => ⟨S256x256, .i1⟩
  | 46 => ⟨S_, .f32⟩
  | 47 => ⟨S_, .f32⟩
  | 48 => ⟨S256x256, .f32⟩
  | 49 => ⟨S256x256, .f32⟩
  | 50 => ⟨S256x256, .f32⟩
  | 51 => ⟨S256x256, .bf16⟩
  | 52 => ⟨S_, .f32⟩
  | 53 => ⟨S10x256, .f32⟩
  | 54 => ⟨S10x256, .i1⟩
  | 55 => ⟨S_, .f32⟩
  | 56 => ⟨S_, .f32⟩
  | 57 => ⟨S10x256, .f32⟩
  | 58 => ⟨S10x256, .f32⟩
  | 59 => ⟨S10x256, .f32⟩
  | 60 => ⟨S10x256, .bf16⟩
  | 61 => ⟨S65536x256, .f32⟩
  | 62 => ⟨S16x256, .f32⟩
  | 63 => ⟨S16x256, .f32⟩
  | 64 => ⟨S2x8x256, .f32⟩
  | 65 => ⟨S2x1x256, .f32⟩
  | 66 => ⟨S2x256, .f32⟩
  | 67 => ⟨S2x8x256, .f32⟩
  | 68 => ⟨S2x1x256, .f32⟩
  | 69 => ⟨S2x256, .f32⟩
  | 70 => ⟨S_, .f32⟩
  | 71 => ⟨S256, .f32⟩
  | 72 => ⟨S1x256, .f32⟩
  | 73 => ⟨S_, .f32⟩
  | 74 => ⟨S256, .f32⟩
  | 75 => ⟨S1x256, .f32⟩
  | 76 => ⟨S_, .f32⟩
  | 77 => ⟨S1x256, .f32⟩
  | 78 => ⟨S1x256, .f32⟩
  | 79 => ⟨S_, .f32⟩
  | 80 => ⟨S1x256, .f32⟩
  | 81 => ⟨S1x256, .f32⟩
  | 82 => ⟨S1x256, .f32⟩
  | 83 => ⟨S1x256, .f32⟩
  | 84 => ⟨S_, .f32⟩
  | 85 => ⟨S1x256, .f32⟩
  | 86 => ⟨S1x256, .f32⟩
  | 87 => ⟨S1x256, .f32⟩
  | 88 => ⟨S1x256, .f32⟩
  | 89 => ⟨S65536x256, .f32⟩
  | 90 => ⟨S16x256, .f32⟩
  | 91 => ⟨S16x256, .f32⟩
  | 92 => ⟨S2x8x256, .f32⟩
  | 93 => ⟨S2x1x256, .f32⟩
  | 94 => ⟨S2x256, .f32⟩
  | 95 => ⟨S2x8x256, .f32⟩
  | 96 => ⟨S2x1x256, .f32⟩
  | 97 => ⟨S2x256, .f32⟩
  | 98 => ⟨S_, .f32⟩
  | 99 => ⟨S256, .f32⟩
  | 100 => ⟨S1x256, .f32⟩
  | 101 => ⟨S_, .f32⟩
  | 102 => ⟨S256, .f32⟩
  | 103 => ⟨S1x256, .f32⟩
  | 104 => ⟨S_, .f32⟩
  | 105 => ⟨S1x256, .f32⟩
  | 106 => ⟨S1x256, .f32⟩
  | 107 => ⟨S_, .f32⟩
  | 108 => ⟨S1x256, .f32⟩
  | 109 => ⟨S1x256, .f32⟩
  | 110 => ⟨S1x256, .f32⟩
  | 111 => ⟨S1x256, .f32⟩
  | 112 => ⟨S_, .f32⟩
  | 113 => ⟨S1x256, .f32⟩
  | 114 => ⟨S1x256, .f32⟩
  | 115 => ⟨S1x256, .f32⟩
  | 116 => ⟨S1x256, .f32⟩
  | 117 => ⟨S65536x256, .f32⟩
  | 118 => ⟨S16x256, .f32⟩
  | 119 => ⟨S16x256, .f32⟩
  | 120 => ⟨S2x8x256, .f32⟩
  | 121 => ⟨S2x1x256, .f32⟩
  | 122 => ⟨S2x256, .f32⟩
  | 123 => ⟨S2x8x256, .f32⟩
  | 124 => ⟨S2x1x256, .f32⟩
  | 125 => ⟨S2x256, .f32⟩
  | 126 => ⟨S_, .f32⟩
  | 127 => ⟨S256, .f32⟩
  | _ => ⟨S65536x784, .f32⟩

abbrev hbmTy0_1 (i : Nat) : BufTy := match i % 128 with
  | 0 => ⟨S1x256, .f32⟩
  | 1 => ⟨S_, .f32⟩
  | 2 => ⟨S256, .f32⟩
  | 3 => ⟨S1x256, .f32⟩
  | 4 => ⟨S_, .f32⟩
  | 5 => ⟨S1x256, .f32⟩
  | 6 => ⟨S1x256, .f32⟩
  | 7 => ⟨S_, .f32⟩
  | 8 => ⟨S1x256, .f32⟩
  | 9 => ⟨S1x256, .f32⟩
  | 10 => ⟨S1x256, .f32⟩
  | 11 => ⟨S1x256, .f32⟩
  | 12 => ⟨S_, .f32⟩
  | 13 => ⟨S1x256, .f32⟩
  | 14 => ⟨S1x256, .f32⟩
  | 15 => ⟨S1x256, .f32⟩
  | 16 => ⟨S1x256, .f32⟩
  | 17 => ⟨S65536x256, .f32⟩
  | 18 => ⟨S16x256, .f32⟩
  | 19 => ⟨S16x256, .f32⟩
  | 20 => ⟨S2x8x256, .f32⟩
  | 21 => ⟨S2x1x256, .f32⟩
  | 22 => ⟨S2x256, .f32⟩
  | 23 => ⟨S2x8x256, .f32⟩
  | 24 => ⟨S2x1x256, .f32⟩
  | 25 => ⟨S2x256, .f32⟩
  | 26 => ⟨S_, .f32⟩
  | 27 => ⟨S256, .f32⟩
  | 28 => ⟨S1x256, .f32⟩
  | 29 => ⟨S_, .f32⟩
  | 30 => ⟨S256, .f32⟩
  | 31 => ⟨S1x256, .f32⟩
  | 32 => ⟨S_, .f32⟩
  | 33 => ⟨S1x256, .f32⟩
  | 34 => ⟨S1x256, .f32⟩
  | 35 => ⟨S_, .f32⟩
  | 36 => ⟨S1x256, .f32⟩
  | 37 => ⟨S1x256, .f32⟩
  | 38 => ⟨S1x256, .f32⟩
  | 39 => ⟨S1x256, .f32⟩
  | 40 => ⟨S_, .f32⟩
  | 41 => ⟨S1x256, .f32⟩
  | 42 => ⟨S1x256, .f32⟩
  | 43 => ⟨S1x256, .f32⟩
  | 44 => ⟨S1x256, .f32⟩
  | 45 => ⟨S65536x10, .f32⟩
  | 46 => ⟨S16x10, .f32⟩
  | 47 => ⟨S16x10, .f32⟩
  | 48 => ⟨S2x8x10, .f32⟩
  | 49 => ⟨S2x1x10, .f32⟩
  | 50 => ⟨S2x10, .f32⟩
  | 51 => ⟨S2x8x10, .f32⟩
  | 52 => ⟨S2x1x10, .f32⟩
  | 53 => ⟨S2x10, .f32⟩
  | 54 => ⟨S_, .f32⟩
  | 55 => ⟨S10, .f32⟩
  | 56 => ⟨S1x10, .f32⟩
  | 57 => ⟨S_, .f32⟩
  | 58 => ⟨S10, .f32⟩
  | 59 => ⟨S1x10, .f32⟩
  | 60 => ⟨S_, .f32⟩
  | 61 => ⟨S1x10, .f32⟩
  | 62 => ⟨S1x10, .f32⟩
  | 63 => ⟨S_, .f32⟩
  | 64 => ⟨S1x10, .f32⟩
  | 65 => ⟨S1x10, .f32⟩
  | 66 => ⟨S1x10, .f32⟩
  | 67 => ⟨S1x10, .f32⟩
  | 68 => ⟨S_, .f32⟩
  | 69 => ⟨S1x10, .f32⟩
  | 70 => ⟨S1x10, .f32⟩
  | 71 => ⟨S1x10, .f32⟩
  | 72 => ⟨S1x10, .f32⟩
  | 73 => ⟨S16x10, .f32⟩
  | 74 => ⟨S16x10, .f32⟩
  | 75 => ⟨S2x8x10, .f32⟩
  | 76 => ⟨S2x1x10, .f32⟩
  | 77 => ⟨S2x10, .f32⟩
  | 78 => ⟨S2x8x10, .f32⟩
  | 79 => ⟨S2x1x10, .f32⟩
  | 80 => ⟨S2x10, .f32⟩
  | 81 => ⟨S_, .f32⟩
  | 82 => ⟨S10, .f32⟩
  | 83 => ⟨S1x10, .f32⟩
  | 84 => ⟨S2x10, .f32⟩
  | 85 => ⟨S2x10, .f32⟩
  | 86 => ⟨S2x10, .f32⟩
  | 87 => ⟨S2x10, .f32⟩
  | 88 => ⟨S_, .f32⟩
  | 89 => ⟨S10, .f32⟩
  | 90 => ⟨S1x10, .f32⟩
  | 91 => ⟨S65536x10, .f32⟩
  | _ => ⟨S65536x784, .f32⟩

abbrev hbmTy (i : Nat) : BufTy := match i / 128 with
  | 0 => hbmTy0_0 i
  | 1 => hbmTy0_1 i
  | _ => ⟨S65536x784, .f32⟩

abbrev bufTy : (tb : Table) → Fin (tcTables nBuf tb) → BufTy
  | .hbm, ⟨i, _⟩ => hbmTy i
  | .local _ .vmem, ⟨0, _⟩ => ⟨S2048x784, .f32⟩
  | .local _ .vmem, ⟨1, _⟩ => ⟨S2048x784, .f32⟩
  | .local _ .vmem, ⟨2, _⟩ => ⟨S256x784, .bf16⟩
  | .local _ .vmem, ⟨3, _⟩ => ⟨S2048x256, .f32⟩
  | .local _ .vmem, ⟨4, _⟩ => ⟨S2048x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S1x256, .f32⟩
  | .local _ .vmem, ⟨10, _⟩ => ⟨S1x256, .f32⟩
  | .local _ .vmem, ⟨11, _⟩ => ⟨S2048x256, .f32⟩
  | .local _ .vmem, ⟨12, _⟩ => ⟨S2048x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S256x256, .bf16⟩
  | .local _ .vmem, ⟨18, _⟩ => ⟨S2048x256, .f32⟩
  | .local _ .vmem, ⟨19, _⟩ => ⟨S2048x256, .f32⟩
  | .local _ .vmem, ⟨20, _⟩ => ⟨S8x256, .f32⟩
  | .local _ .vmem, ⟨21, _⟩ => ⟨S8x256, .f32⟩
  | .local _ .vmem, ⟨22, _⟩ => ⟨S8x256, .f32⟩
  | .local _ .vmem, ⟨23, _⟩ => ⟨S8x256, .f32⟩
  | .local _ .vmem, ⟨24, _⟩ => ⟨S1x256, .f32⟩
  | .local _ .vmem, ⟨25, _⟩ => ⟨S1x256, .f32⟩
  | .local _ .vmem, ⟨26, _⟩ => ⟨S2048x256, .f32⟩
  | .local _ .vmem, ⟨27, _⟩ => ⟨S2048x256, .f32⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S256x256, .bf16⟩
  | .local _ .vmem, ⟨33, _⟩ => ⟨S2048x256, .f32⟩
  | .local _ .vmem, ⟨34, _⟩ => ⟨S2048x256, .f32⟩
  | .local _ .vmem, ⟨35, _⟩ => ⟨S8x256, .f32⟩
  | .local _ .vmem, ⟨36, _⟩ => ⟨S8x256, .f32⟩
  | .local _ .vmem, ⟨37, _⟩ => ⟨S8x256, .f32⟩
  | .local _ .vmem, ⟨38, _⟩ => ⟨S8x256, .f32⟩
  | .local _ .vmem, ⟨39, _⟩ => ⟨S1x256, .f32⟩
  | .local _ .vmem, ⟨40, _⟩ => ⟨S1x256, .f32⟩
  | .local _ .vmem, ⟨41, _⟩ => ⟨S2048x256, .f32⟩
  | .local _ .vmem, ⟨42, _⟩ => ⟨S2048x256, .f32⟩
  | .local _ .vmem, ⟨43, _⟩ => ⟨S1x256, .f32⟩
  | .local _ .vmem, ⟨44, _⟩ => ⟨S1x256, .f32⟩
  | .local _ .vmem, ⟨45, _⟩ => ⟨S1x256, .f32⟩
  | .local _ .vmem, ⟨46, _⟩ => ⟨S1x256, .f32⟩
  | .local _ .vmem, ⟨47, _⟩ => ⟨S256x256, .bf16⟩
  | .local _ .vmem, ⟨48, _⟩ => ⟨S2048x256, .f32⟩
  | .local _ .vmem, ⟨49, _⟩ => ⟨S2048x256, .f32⟩
  | .local _ .vmem, ⟨50, _⟩ => ⟨S8x256, .f32⟩
  | .local _ .vmem, ⟨51, _⟩ => ⟨S8x256, .f32⟩
  | .local _ .vmem, ⟨52, _⟩ => ⟨S8x256, .f32⟩
  | .local _ .vmem, ⟨53, _⟩ => ⟨S8x256, .f32⟩
  | .local _ .vmem, ⟨54, _⟩ => ⟨S1x256, .f32⟩
  | .local _ .vmem, ⟨55, _⟩ => ⟨S1x256, .f32⟩
  | .local _ .vmem, ⟨56, _⟩ => ⟨S2048x256, .f32⟩
  | .local _ .vmem, ⟨57, _⟩ => ⟨S2048x256, .f32⟩
  | .local _ .vmem, ⟨58, _⟩ => ⟨S1x256, .f32⟩
  | .local _ .vmem, ⟨59, _⟩ => ⟨S1x256, .f32⟩
  | .local _ .vmem, ⟨60, _⟩ => ⟨S1x256, .f32⟩
  | .local _ .vmem, ⟨61, _⟩ => ⟨S1x256, .f32⟩
  | .local _ .vmem, ⟨62, _⟩ => ⟨S10x256, .bf16⟩
  | .local _ .vmem, ⟨63, _⟩ => ⟨S2048x10, .f32⟩
  | .local _ .vmem, ⟨64, _⟩ => ⟨S2048x10, .f32⟩
  | .local _ .vmem, ⟨65, _⟩ => ⟨S8x10, .f32⟩
  | .local _ .vmem, ⟨66, _⟩ => ⟨S8x10, .f32⟩
  | .local _ .vmem, ⟨67, _⟩ => ⟨S8x10, .f32⟩
  | .local _ .vmem, ⟨68, _⟩ => ⟨S8x10, .f32⟩
  | .local _ .vmem, ⟨69, _⟩ => ⟨S1x10, .f32⟩
  | .local _ .vmem, ⟨70, _⟩ => ⟨S1x10, .f32⟩
  | .local _ .vmem, ⟨71, _⟩ => ⟨S2048x10, .f32⟩
  | .local _ .vmem, ⟨72, _⟩ => ⟨S2048x10, .f32⟩
  | .local _ .vmem, ⟨73, _⟩ => ⟨S1x10, .f32⟩
  | .local _ .vmem, ⟨74, _⟩ => ⟨S1x10, .f32⟩
  | .local _ .vmem, ⟨75, _⟩ => ⟨S1x10, .f32⟩
  | .local _ .vmem, ⟨76, _⟩ => ⟨S1x10, .f32⟩
  | .local _ .vmem, ⟨77, _⟩ => ⟨S8x10, .f32⟩
  | .local _ .vmem, ⟨78, _⟩ => ⟨S8x10, .f32⟩
  | .local _ .vmem, ⟨79, _⟩ => ⟨S8x10, .f32⟩
  | .local _ .vmem, ⟨80, _⟩ => ⟨S8x10, .f32⟩
  | .local _ .vmem, ⟨81, _⟩ => ⟨S1x10, .f32⟩
  | .local _ .vmem, ⟨82, _⟩ => ⟨S1x10, .f32⟩
  | .local _ .vmem, ⟨83, _⟩ => ⟨S2048x10, .f32⟩
  | .local _ .vmem, ⟨84, _⟩ => ⟨S2048x10, .f32⟩
  | .local _ .vmem, ⟨85, _⟩ => ⟨S1x10, .f32⟩
  | .local _ .vmem, ⟨86, _⟩ => ⟨S1x10, .f32⟩
  | .local _ .vmem, ⟨87, _⟩ => ⟨S1x10, .f32⟩
  | .local _ .vmem, ⟨88, _⟩ => ⟨S1x10, .f32⟩
  | .local _ .vmem, ⟨89, _⟩ => ⟨S1x10, .f32⟩
  | .local _ .vmem, ⟨90, _⟩ => ⟨S1x10, .f32⟩
  | .local _ .vmem, ⟨91, _⟩ => ⟨S2048x10, .f32⟩
  | .local _ .vmem, ⟨92, _⟩ => ⟨S2048x10, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | _, _ => false

abbrev semScoped : Fin 0 → Bool
  | ⟨_, h⟩ => absurd h (Nat.not_lt_zero _)

abbrev dmaSemScoped : Fin 81 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTc nBuf bufTy 0 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v2 : Ref sig .tc := ⟨.hbm, 23, rfl⟩
abbrev main_v3 : Ref sig .tc := ⟨.hbm, 24, rfl⟩
abbrev main_cst_2 : Ref sig .tc := ⟨.hbm, 25, rfl⟩
abbrev main_v4 : Ref sig .tc := ⟨.hbm, 26, rfl⟩
abbrev main_v5 : Ref sig .tc := ⟨.hbm, 27, rfl⟩
abbrev main_cst_3 : Ref sig .tc := ⟨.hbm, 28, rfl⟩
abbrev main_cst_4 : Ref sig .tc := ⟨.hbm, 29, rfl⟩
abbrev main_call1_v0 : Ref sig .tc := ⟨.hbm, 30, rfl⟩
abbrev main_call1_v1 : Ref sig .tc := ⟨.hbm, 31, rfl⟩
abbrev main_v6 : Ref sig .tc := ⟨.hbm, 32, rfl⟩
abbrev main_v7 : Ref sig .tc := ⟨.hbm, 33, rfl⟩
abbrev main_cst_5 : Ref sig .tc := ⟨.hbm, 34, rfl⟩
abbrev main_v8 : Ref sig .tc := ⟨.hbm, 35, rfl⟩
abbrev main_v9 : Ref sig .tc := ⟨.hbm, 36, rfl⟩
abbrev main_cst_6 : Ref sig .tc := ⟨.hbm, 37, rfl⟩
abbrev main_cst_7 : Ref sig .tc := ⟨.hbm, 38, rfl⟩
abbrev main_call2_v0 : Ref sig .tc := ⟨.hbm, 39, rfl⟩
abbrev main_call2_v1 : Ref sig .tc := ⟨.hbm, 40, rfl⟩
abbrev main_v10 : Ref sig .tc := ⟨.hbm, 41, rfl⟩
abbrev main_v11 : Ref sig .tc := ⟨.hbm, 42, rfl⟩
abbrev main_cst_8 : Ref sig .tc := ⟨.hbm, 43, rfl⟩
abbrev main_v12 : Ref sig .tc := ⟨.hbm, 44, rfl⟩
abbrev main_v13 : Ref sig .tc := ⟨.hbm, 45, rfl⟩
abbrev main_cst_9 : Ref sig .tc := ⟨.hbm, 46, rfl⟩
abbrev main_cst_10 : Ref sig .tc := ⟨.hbm, 47, rfl⟩
abbrev main_call3_v0 : Ref sig .tc := ⟨.hbm, 48, rfl⟩
abbrev main_call3_v1 : Ref sig .tc := ⟨.hbm, 49, rfl⟩
abbrev main_v14 : Ref sig .tc := ⟨.hbm, 50, rfl⟩
abbrev main_v15 : Ref sig .tc := ⟨.hbm, 51, rfl⟩
abbrev main_cst_11 : Ref sig .tc := ⟨.hbm, 52, rfl⟩
abbrev main_v16 : Ref sig .tc := ⟨.hbm, 53, rfl⟩
abbrev main_v17 : Ref sig .tc := ⟨.hbm, 54, rfl⟩
abbrev main_cst_12 : Ref sig .tc := ⟨.hbm, 55, rfl⟩
abbrev main_cst_13 : Ref sig .tc := ⟨.hbm, 56, rfl⟩
abbrev main_call4_v0 : Ref sig .tc := ⟨.hbm, 57, rfl⟩
abbrev main_call4_v1 : Ref sig .tc := ⟨.hbm, 58, rfl⟩
abbrev main_v18 : Ref sig .tc := ⟨.hbm, 59, rfl⟩
abbrev main_v19 : Ref sig .tc := ⟨.hbm, 60, rfl⟩
abbrev main_v20_0 : Ref sig .tc := ⟨.hbm, 61, rfl⟩
abbrev main_v20_1 : Ref sig .tc := ⟨.hbm, 62, rfl⟩
abbrev main_v20_2 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_cst_14 : Ref sig .tc := ⟨.hbm, 70, rfl⟩
abbrev main_v27 : Ref sig .tc := ⟨.hbm, 71, rfl⟩
abbrev main_v28 : Ref sig .tc := ⟨.hbm, 72, rfl⟩
abbrev main_cst_15 : Ref sig .tc := ⟨.hbm, 73, rfl⟩
abbrev main_v29 : Ref sig .tc := ⟨.hbm, 74, rfl⟩
abbrev main_v30 : Ref sig .tc := ⟨.hbm, 75, rfl⟩
abbrev main_cst_16 : Ref sig .tc := ⟨.hbm, 76, rfl⟩
abbrev main_v31 : Ref sig .tc := ⟨.hbm, 77, rfl⟩
abbrev main_v32 : Ref sig .tc := ⟨.hbm, 78, rfl⟩
abbrev main_cst_17 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_cst_18 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41_0 : Ref sig .tc := ⟨.hbm, 89, rfl⟩
abbrev main_v41_1 : Ref sig .tc := ⟨.hbm, 90, rfl⟩
abbrev main_v41_2 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_cst_19 : Ref sig .tc := ⟨.hbm, 98, rfl⟩
abbrev main_v48 : Ref sig .tc := ⟨.hbm, 99, rfl⟩
abbrev main_v49 : Ref sig .tc := ⟨.hbm, 100, rfl⟩
abbrev main_cst_20 : Ref sig .tc := ⟨.hbm, 101, rfl⟩
abbrev main_v50 : Ref sig .tc := ⟨.hbm, 102, rfl⟩
abbrev main_v51 : Ref sig .tc := ⟨.hbm, 103, rfl⟩
abbrev main_cst_21 : Ref sig .tc := ⟨.hbm, 104, rfl⟩
abbrev main_v52 : Ref sig .tc := ⟨.hbm, 105, rfl⟩
abbrev main_v53 : Ref sig .tc := ⟨.hbm, 106, rfl⟩
abbrev main_cst_22 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_cst_23 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62_0 : Ref sig .tc := ⟨.hbm, 117, rfl⟩
abbrev main_v62_1 : Ref sig .tc := ⟨.hbm, 118, rfl⟩
abbrev main_v62_2 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_cst_24 : Ref sig .tc := ⟨.hbm, 126, rfl⟩
abbrev main_v69 : Ref sig .tc := ⟨.hbm, 127, rfl⟩
abbrev main_v70 : Ref sig .tc := ⟨.hbm, 128, rfl⟩
abbrev main_cst_25 : Ref sig .tc := ⟨.hbm, 129, rfl⟩
abbrev main_v71 : Ref sig .tc := ⟨.hbm, 130, rfl⟩
abbrev main_v72 : Ref sig .tc := ⟨.hbm, 131, rfl⟩
abbrev main_cst_26 : Ref sig .tc := ⟨.hbm, 132, rfl⟩
abbrev main_v73 : Ref sig .tc := ⟨.hbm, 133, rfl⟩
abbrev main_v74 : Ref sig .tc := ⟨.hbm, 134, rfl⟩
abbrev main_cst_27 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_cst_28 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83_0 : Ref sig .tc := ⟨.hbm, 145, rfl⟩
abbrev main_v83_1 : Ref sig .tc := ⟨.hbm, 146, rfl⟩
abbrev main_v83_2 : Ref sig .tc := ⟨.hbm, 147, rfl⟩
abbrev main_v84 : Ref sig .tc := ⟨.hbm, 148, rfl⟩
abbrev main_v85 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_cst_29 : Ref sig .tc := ⟨.hbm, 154, rfl⟩
abbrev main_v90 : Ref sig .tc := ⟨.hbm, 155, rfl⟩
abbrev main_v91 : Ref sig .tc := ⟨.hbm, 156, rfl⟩
abbrev main_cst_30 : Ref sig .tc := ⟨.hbm, 157, rfl⟩
abbrev main_v92 : Ref sig .tc := ⟨.hbm, 158, rfl⟩
abbrev main_v93 : Ref sig .tc := ⟨.hbm, 159, rfl⟩
abbrev main_cst_31 : Ref sig .tc := ⟨.hbm, 160, rfl⟩
abbrev main_v94 : Ref sig .tc := ⟨.hbm, 161, rfl⟩
abbrev main_v95 : Ref sig .tc := ⟨.hbm, 162, rfl⟩
abbrev main_cst_32 : Ref sig .tc := ⟨.hbm, 163, rfl⟩
abbrev main_v96 : Ref sig .tc := ⟨.hbm, 164, rfl⟩
abbrev main_v97 : Ref sig .tc := ⟨.hbm, 165, rfl⟩
abbrev main_v98 : Ref sig .tc := ⟨.hbm, 166, rfl⟩
abbrev main_v99 : Ref sig .tc := ⟨.hbm, 167, rfl⟩
abbrev main_cst_33 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104_0 : Ref sig .tc := ⟨.hbm, 173, rfl⟩
abbrev main_v104_1 : Ref sig .tc := ⟨.hbm, 174, rfl⟩
abbrev main_v104_2 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_cst_34 : Ref sig .tc := ⟨.hbm, 182, rfl⟩
abbrev main_v111 : Ref sig .tc := ⟨.hbm, 183, rfl⟩
abbrev main_v112 : Ref sig .tc := ⟨.hbm, 184, rfl⟩
abbrev main_cst_35 : Ref sig .tc := ⟨.hbm, 185, rfl⟩
abbrev main_v113 : Ref sig .tc := ⟨.hbm, 186, rfl⟩
abbrev main_v114 : Ref sig .tc := ⟨.hbm, 187, rfl⟩
abbrev main_cst_36 : Ref sig .tc := ⟨.hbm, 188, rfl⟩
abbrev main_v115 : Ref sig .tc := ⟨.hbm, 189, rfl⟩
abbrev main_v116 : Ref sig .tc := ⟨.hbm, 190, rfl⟩
abbrev main_cst_37 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_cst_38 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_v124 : Ref sig .tc := ⟨.hbm, 200, rfl⟩
abbrev main_v125_0 : Ref sig .tc := ⟨.hbm, 201, rfl⟩
abbrev main_v125_1 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_cst_39 : Ref sig .tc := ⟨.hbm, 209, rfl⟩
abbrev main_v132 : Ref sig .tc := ⟨.hbm, 210, rfl⟩
abbrev main_v133 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_v137 : Ref sig .tc := ⟨.hbm, 215, rfl⟩
abbrev main_cst_40 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_scratch0 : Ref sig .tc := ⟨.vmem, 24, rfl⟩
abbrev cc1_scratch1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_stg7_1 : Ref sig .tc := ⟨.vmem, 36, rfl⟩
abbrev cc2_stg8_0 : Ref sig .tc := ⟨.vmem, 37, rfl⟩
abbrev cc2_stg8_1 : Ref sig .tc := ⟨.vmem, 38, rfl⟩
abbrev cc2_scratch0 : Ref sig .tc := ⟨.vmem, 39, rfl⟩
abbrev cc2_scratch1 : Ref sig .tc := ⟨.vmem, 40, rfl⟩
abbrev cc3_stg0_0 : Ref sig .tc := ⟨.vmem, 41, rfl⟩
abbrev cc3_stg0_1 : Ref sig .tc := ⟨.vmem, 42, rfl⟩
abbrev cc3_stg1_0 : Ref sig .tc := ⟨.vmem, 43, rfl⟩
abbrev cc3_stg2_0 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg6_1 : Ref sig .tc := ⟨.vmem, 49, rfl⟩
abbrev cc3_stg7_0 : Ref sig .tc := ⟨.vmem, 50, rfl⟩
abbrev cc3_stg7_1 : Ref sig .tc := ⟨.vmem, 51, rfl⟩
abbrev cc3_stg8_0 : Ref sig .tc := ⟨.vmem, 52, rfl⟩
abbrev cc3_stg8_1 : Ref sig .tc := ⟨.vmem, 53, rfl⟩
abbrev cc3_scratch0 : Ref sig .tc := ⟨.vmem, 54, rfl⟩
abbrev cc3_scratch1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg2_0 : Ref sig .tc := ⟨.vmem, 59, rfl⟩
abbrev cc4_stg3_0 : Ref sig .tc := ⟨.vmem, 60, rfl⟩
abbrev cc4_stg4_0 : Ref sig .tc := ⟨.vmem, 61, rfl⟩
abbrev cc4_stg5_0 : Ref sig .tc := ⟨.vmem, 62, rfl⟩
abbrev cc4_stg6_0 : Ref sig .tc := ⟨.vmem, 63, rfl⟩
abbrev cc4_stg6_1 : Ref sig .tc := ⟨.vmem, 64, rfl⟩
abbrev cc4_stg7_0 : Ref sig .tc := ⟨.vmem, 65, rfl⟩
abbrev cc4_stg7_1 : Ref sig .tc := ⟨.vmem, 66, rfl⟩
abbrev cc4_stg8_0 : Ref sig .tc := ⟨.vmem, 67, rfl⟩
abbrev cc4_stg8_1 : Ref sig .tc := ⟨.vmem, 68, rfl⟩
abbrev cc4_scratch0 : Ref sig .tc := ⟨.vmem, 69, rfl⟩
abbrev cc4_scratch1 : Ref sig .tc := ⟨.vmem, 70, rfl⟩
abbrev cc5_stg0_0 : Ref sig .tc := ⟨.vmem, 71, rfl⟩
abbrev cc5_stg0_1 : Ref sig .tc := ⟨.vmem, 72, rfl⟩
abbrev cc5_stg1_0 : Ref sig .tc := ⟨.vmem, 73, rfl⟩
abbrev cc5_stg2_0 : Ref sig .tc := ⟨.vmem, 74, rfl⟩
abbrev cc5_stg3_0 : Ref sig .tc := ⟨.vmem, 75, rfl⟩
abbrev cc5_stg4_0 : Ref sig .tc := ⟨.vmem, 76, rfl⟩
abbrev cc5_stg5_0 : Ref sig .tc := ⟨.vmem, 77, rfl⟩
abbrev cc5_stg5_1 : Ref sig .tc := ⟨.vmem, 78, rfl⟩
abbrev cc5_stg6_0 : Ref sig .tc := ⟨.vmem, 79, rfl⟩
abbrev cc5_stg6_1 : Ref sig .tc := ⟨.vmem, 80, rfl⟩
abbrev cc5_scratch0 : Ref sig .tc := ⟨.vmem, 81, rfl⟩
abbrev cc5_scratch1 : Ref sig .tc := ⟨.vmem, 82, rfl⟩
abbrev cc6_stg0_0 : Ref sig .tc := ⟨.vmem, 83, rfl⟩
abbrev cc6_stg0_1 : Ref sig .tc := ⟨.vmem, 84, rfl⟩
abbrev cc6_stg1_0 : Ref sig .tc := ⟨.vmem, 85, rfl⟩
abbrev cc6_stg2_0 : Ref sig .tc := ⟨.vmem, 86, rfl⟩
abbrev cc6_stg3_0 : Ref sig .tc := ⟨.vmem, 87, rfl⟩
abbrev cc6_stg4_0 : Ref sig .tc := ⟨.vmem, 88, rfl⟩
abbrev cc6_stg5_0 : Ref sig .tc := ⟨.vmem, 89, rfl⟩
abbrev cc6_stg6_0 : Ref sig .tc := ⟨.vmem, 90, rfl⟩
abbrev cc6_stg7_0 : Ref sig .tc := ⟨.vmem, 91, rfl⟩
abbrev cc6_stg7_1 : Ref sig .tc := ⟨.vmem, 92, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem6_1 : DmaSem sig := 30
abbrev cc2_sem7_0 : DmaSem sig := 31
abbrev cc2_sem7_1 : DmaSem sig := 32
abbrev cc2_sem8_0 : DmaSem sig := 33
abbrev cc2_sem8_1 : DmaSem sig := 34
abbrev cc3_sem0_0 : DmaSem sig := 35
abbrev cc3_sem0_1 : DmaSem sig := 36
abbrev cc3_sem1_0 : DmaSem sig := 37
abbrev cc3_sem2_0 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc3_sem7_0 : DmaSem sig := 44
abbrev cc3_sem7_1 : DmaSem sig := 45
abbrev cc3_sem8_0 : DmaSem sig := 46
abbrev cc3_sem8_1 : DmaSem sig := 47
abbrev cc4_sem0_0 : DmaSem sig := 48
abbrev cc4_sem0_1 : DmaSem sig := 49
abbrev cc4_sem1_0 : DmaSem sig := 50
abbrev cc4_sem2_0 : DmaSem sig := 51
abbrev cc4_sem3_0 : DmaSem sig := 52
abbrev cc4_sem4_0 : DmaSem sig := 53
abbrev cc4_sem5_0 : DmaSem sig := 54
abbrev cc4_sem6_0 : DmaSem sig := 55
abbrev cc4_sem6_1 : DmaSem sig := 56
abbrev cc4_sem7_0 : DmaSem sig := 57
abbrev cc4_sem7_1 : DmaSem sig := 58
abbrev cc4_sem8_0 : DmaSem sig := 59
abbrev cc4_sem8_1 : DmaSem sig := 60
abbrev cc5_sem0_0 : DmaSem sig := 61
abbrev cc5_sem0_1 : DmaSem sig := 62
abbrev cc5_sem1_0 : DmaSem sig := 63
abbrev cc5_sem2_0 : DmaSem sig := 64
abbrev cc5_sem3_0 : DmaSem sig := 65
abbrev cc5_sem4_0 : DmaSem sig := 66
abbrev cc5_sem5_0 : DmaSem sig := 67
abbrev cc5_sem5_1 : DmaSem sig := 68
abbrev cc5_sem6_0 : DmaSem sig := 69
abbrev cc5_sem6_1 : DmaSem sig := 70
abbrev cc6_sem0_0 : DmaSem sig := 71
abbrev cc6_sem0_1 : DmaSem sig := 72
abbrev cc6_sem1_0 : DmaSem sig := 73
abbrev cc6_sem2_0 : DmaSem sig := 74
abbrev cc6_sem3_0 : DmaSem sig := 75
abbrev cc6_sem4_0 : DmaSem sig := 76
abbrev cc6_sem5_0 : DmaSem sig := 77
abbrev cc6_sem6_0 : DmaSem sig := 78
abbrev cc6_sem7_0 : DmaSem sig := 79
abbrev cc6_sem7_1 : DmaSem sig := 80

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_20 : BitVec 32 := 0#32
  let v33 : BitVec 1 := Scalar.cmpi .ne v32 c0_i32_20
  v33

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x784 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 16], ![false, false]⟩

def k1_cond2 (i : grid1.Coords) : BitVec 1 :=
  let arg1 : BitVec 32 := BitVec.ofNat 32 (i 1).val
  let c15_i32 : BitVec 32 := 15#32
  let v49 : BitVec 1 := Scalar.cmpi .eq arg1 c15_i32
  let v50 : BitVec 32 := Scalar.extui v49
  let c0_i32_28 : BitVec 32 := 0#32
  let v51 : BitVec 1 := Scalar.cmpi .ne v50 c0_i32_28
  v51

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S2048x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S8x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S8x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨2, ![2, 16], ![false, false]⟩

def k2_cond2 (i : grid2.Coords) : BitVec 1 :=
  let arg1 : BitVec 32 := BitVec.ofNat 32 (i 1).val
  let c15_i32 : BitVec 32 := 15#32
  let v49 : BitVec 1 := Scalar.cmpi .eq arg1 c15_i32
  let v50 : BitVec 32 := Scalar.extui v49
  let c0_i32_28 : BitVec 32 := 0#32
  let v51 : BitVec 1 := Scalar.cmpi .ne v50 c0_i32_28
  v51

def cc2_transform_0 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S2048x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S8x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S8x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev grid3 : Pipeline.Grid := ⟨2, ![2, 16], ![false, false]⟩

def k3_cond2 (i : grid3.Coords) : BitVec 1 :=
  let arg1 : BitVec 32 := BitVec.ofNat 32 (i 1).val
  let c15_i32 : BitVec 32 := 15#32
  let v49 : BitVec 1 := Scalar.cmpi .eq arg1 c15_i32
  let v50 : BitVec 32 := Scalar.extui v49
  let c0_i32_28 : BitVec 32 := 0#32
  let v51 : BitVec 1 := Scalar.cmpi .ne v50 c0_i32_28
  v51

def cc3_transform_0 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S256x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 2 → Memref sig .tc .vmem S2048x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S8x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, false]

abbrev stage3_8 : Fin 2 → Memref sig .tc .vmem S8x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, false]

abbrev grid4 : Pipeline.Grid := ⟨2, ![2, 16], ![false, false]⟩

def k4_cond2 (i : grid4.Coords) : BitVec 1 :=
  let arg1 : BitVec 32 := BitVec.ofNat 32 (i 1).val
  let c15_i32 : BitVec 32 := 15#32
  let v49 : BitVec 1 := Scalar.cmpi .eq arg1 c15_i32
  let v50 : BitVec 32 := Scalar.extui v49
  let c0_i32_28 : BitVec 32 := 0#32
  let v51 : BitVec 1 := Scalar.cmpi .ne v50 c0_i32_28
  v51

def cc4_transform_0 (i : grid4.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S10x256 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 2 → Memref sig .tc .vmem S2048x10 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 2 → Memref sig .tc .vmem S8x10 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, false]

abbrev stage4_8 : Fin 2 → Memref sig .tc .vmem S8x10 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, false]

abbrev grid5 : Pipeline.Grid := ⟨2, ![2, 16], ![false, false]⟩

def k5_cond2 (i : grid5.Coords) : BitVec 1 :=
  let arg1 : BitVec 32 := BitVec.ofNat 32 (i 1).val
  let c15_i32 : BitVec 32 := 15#32
  let v45 : BitVec 1 := Scalar.cmpi .eq arg1 c15_i32
  let v46 : BitVec 32 := Scalar.extui v45
  let c0_i32_22 : BitVec 32 := 0#32
  let v47 : BitVec 1 := Scalar.cmpi .ne v46 c0_i32_22
  v47

def cc5_transform_0 (i : grid5.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S2048x10 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S1x10 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 1 → Memref sig .tc .vmem S1x10 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S1x10 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S1x10 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 2 → Memref sig .tc .vmem S8x10 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev stage5_6 : Fin 2 → Memref sig .tc .vmem S8x10 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, false]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x10 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x10 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x10 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x10 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x10 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x10 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S2048x10 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  bcast_S_S256x784 : S_.BroadcastsInDim S256x784 (![] : Fin 0 → Fin S256x784.rank)
  bitsLt_bf16_f32 : FTy.bits .bf16 < FTy.bits .f32
  bcast_S_S256x256 : S_.BroadcastsInDim S256x256 (![] : Fin 0 → Fin S256x256.rank)
  bcast_S_S10x256 : S_.BroadcastsInDim S10x256 (![] : Fin 0 → Fin S10x256.rank)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2048x784_S2048x784_0_0 : ∀ a, (![0, 0] : Fin 2 → Nat) a + S2048x784.size a ≤ S2048x784.size a
  h_S2048x784 : 0 < S2048x784.numel
  inb_S256x784_S256x784_0_0 : ∀ a, (![0, 0] : Fin 2 → Nat) a + S256x784.size a ≤ S256x784.size a
  h_S256x784 : 0 < S256x784.numel
  shapeCasts_S256x784_S256x784 : S256x784.ShapeCasts S256x784
  inb_S2048x256_S2048x256_0_0 : ∀ a, (![0, 0] : Fin 2 → Nat) a + S2048x256.size a ≤ S2048x256.size a
  h_S2048x256 : 0 < S2048x256.numel
  reduces_S2048x256_S256 : S2048x256.Reduces [0] S256
  shapeCasts_S256_S1x256 : S256.ShapeCasts S1x256
  broadcasts_S1x256_S8x256 : S1x256.Broadcasts S8x256
  inb_S8x256_S8x256_0_0 : ∀ a, (![0, 0] : Fin 2 → Nat) a + S8x256.size a ≤ S8x256.size a
  h_S8x256 : 0 < S8x256.numel
  shapeCasts_S16x256_S2x8x256 : S16x256.ShapeCasts S2x8x256
  slices_S2x8x256_S2x1x256_0_0_0 : S2x8x256.Slices ![0, 0, 0] S2x1x256
  shapeCasts_S2x1x256_S2x256 : S2x1x256.ShapeCasts S2x256
  reducesTo_S2x256_S256_d0 : S2x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  shapeCasts_S2048x256_S2048x256 : S2048x256.ShapeCasts S2048x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x10_S1x10_0_0 : ∀ a, (![0, 0] : Fin 2 → Nat) a + S1x10.size a ≤ S1x10.size a
  h_S1x10 : 0 < S1x10.numel
  shapeCasts_S1x10_S1x10 : S1x10.ShapeCasts S1x10
  inb_S10x256_S10x256_0_0 : ∀ a, (![0, 0] : Fin 2 → Nat) a + S10x256.size a ≤ S10x256.size a
  h_S10x256 : 0 < S10x256.numel
  shapeCasts_S10x256_S10x256 : S10x256.ShapeCasts S10x256
  inb_S2048x10_S2048x10_0_0 : ∀ a, (![0, 0] : Fin 2 → Nat) a + S2048x10.size a ≤ S2048x10.size a
  h_S2048x10 : 0 < S2048x10.numel
  reduces_S2048x10_S10 : S2048x10.Reduces [0] S10
  shapeCasts_S10_S1x10 : S10.ShapeCasts S1x10
  broadcasts_S1x10_S8x10 : S1x10.Broadcasts S8x10
  inb_S8x10_S8x10_0_0 : ∀ a, (![0, 0] : Fin 2 → Nat) a + S8x10.size a ≤ S8x10.size a
  h_S8x10 : 0 < S8x10.numel
  shapeCasts_S16x10_S2x8x10 : S16x10.ShapeCasts S2x8x10
  slices_S2x8x10_S2x1x10_0_0_0 : S2x8x10.Slices ![0, 0, 0] S2x1x10
  shapeCasts_S2x1x10_S2x10 : S2x1x10.ShapeCasts S2x10
  reducesTo_S2x10_S10_d0 : S2x10.ReducesTo [0] S10
  bcast_S10_S1x10_1 : S10.BroadcastsInDim S1x10 (![1] : Fin 1 → Fin S1x10.rank)
  bcast_S_S1x10 : S_.BroadcastsInDim S1x10 (![] : Fin 0 → Fin S1x10.rank)
  shapeCasts_S2048x10_S2048x10 : S2048x10.ShapeCasts S2048x10
  broadcasts_S1x10_S2048x10 : S1x10.Broadcasts S2048x10
  bcast_S1x10_S2x10_0_1 : S1x10.BroadcastsInDim S2x10 (![0, 1] : Fin 2 → Fin S2x10.rank)
  dot_S2048x784_S256x784_S2048x256_1_1_0_0_n_n_wf : DotDims.WF S2048x784 S256x784 S2048x256 [1] [1] [0] [0] [] []
  dot_S2048x256_S256x256_S2048x256_1_1_0_0_n_n_wf : DotDims.WF S2048x256 S256x256 S2048x256 [1] [1] [0] [0] [] []
  dot_S2048x256_S10x256_S2048x10_1_1_0_0_n_n_wf : DotDims.WF S2048x256 S10x256 S2048x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S65536x784.size a
  hwx0_0 : ∀ i : grid0.Coords, EltTy.bits .f32 = 32 ∨ (Rect.block (s := S65536x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x784.size a ≤ S256x784.size a
  hwx0_1 : ∀ i : grid0.Coords, EltTy.bits .bf16 = 32 ∨ (Rect.block (s := S256x784) S256x784.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S65536x256.size a
  hwx0_2 : ∀ i : grid0.Coords, EltTy.bits .f32 = 32 ∨ (Rect.block (s := S65536x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S16x256.size a
  hwx0_3 : ∀ i : grid0.Coords, EltTy.bits .f32 = 32 ∨ (Rect.block (s := S16x256) S8x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x256.size a ≤ S16x256.size a
  hwx0_4 : ∀ i : grid0.Coords, EltTy.bits .f32 = 32 ∨ (Rect.block (s := S16x256) S8x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S65536x256.size a
  hwx1_0 : ∀ i : grid1.Coords, EltTy.bits .f32 = 32 ∨ (Rect.block (s := S65536x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x256.size a ≤ S65536x256.size a
  hwx1_6 : ∀ i : grid1.Coords, EltTy.bits .f32 = 32 ∨ (Rect.block (s := S65536x256) S2048x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S8x256.size a ≤ S16x256.size a
  hwx1_7 : ∀ i : grid1.Coords, EltTy.bits .f32 = 32 ∨ (Rect.block (s := S16x256) S8x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S8x256.size a ≤ S16x256.size a
  hwx1_8 : ∀ i : grid1.Coords, EltTy.bits .f32 = 32 ∨ (Rect.block (s := S16x256) S8x256.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S65536x256.size a
  hwx2_0 : ∀ i : grid2.Coords, EltTy.bits .f32 = 32 ∨ (Rect.block (s := S65536x256) S2048x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x256.size a ≤ S65536x256.size a
  hwx2_6 : ∀ i : grid2.Coords, EltTy.bits .f32 = 32 ∨ (Rect.block (s := S65536x256) S2048x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S8x256.size a ≤ S16x256.size a
  hwx2_7 : ∀ i : grid2.Coords, EltTy.bits .f32 = 32 ∨ (Rect.block (s := S16x256) S8x256.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S8x256.size a ≤ S16x256.size a
  hwx2_8 : ∀ i : grid2.Coords, EltTy.bits .f32 = 32 ∨ (Rect.block (s := S16x256) S8x256.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S65536x256.size a
  hwx3_0 : ∀ i : grid3.Coords, EltTy.bits .f32 = 32 ∨ (Rect.block (s := S65536x256) S2048x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .bf16 = 32 ∨ (Rect.block (s := S256x256) S256x256.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2048x256.size a ≤ S65536x256.size a
  hwx3_6 : ∀ i : grid3.Coords, EltTy.bits .f32 = 32 ∨ (Rect.block (s := S65536x256) S2048x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S8x256.size a ≤ S16x256.size a
  hwx3_7 : ∀ i : grid3.Coords, EltTy.bits .f32 = 32 ∨ (Rect.block (s := S16x256) S8x256.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S8x256.size a ≤ S16x256.size a
  hwx3_8 : ∀ i : grid3.Coords, EltTy.bits .f32 = 32 ∨ (Rect.block (s := S16x256) S8x256.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x256.size a ≤ S65536x256.size a
  hwx4_0 : ∀ i : grid4.Coords, EltTy.bits .f32 = 32 ∨ (Rect.block (s := S65536x256) S2048x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S10x256.size a ≤ S10x256.size a
  hwx4_5 : ∀ i : grid4.Coords, EltTy.bits .bf16 = 32 ∨ (Rect.block (s := S10x256) S10x256.size (cc4_transform_5 i) (hinb4_5 i)).WholeWords (EltTy.packing .bf16)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2048x10.size a ≤ S65536x10.size a
  hwx4_6 : ∀ i : grid4.Coords, EltTy.bits .f32 = 32 ∨ (Rect.block (s := S65536x10) S2048x10.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S8x10.size a ≤ S16x10.size a
  hwx4_7 : ∀ i : grid4.Coords, EltTy.bits .f32 = 32 ∨ (Rect.block (s := S16x10) S8x10.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S8x10.size a ≤ S16x10.size a
  hwx4_8 : ∀ i : grid4.Coords, EltTy.bits .f32 = 32 ∨ (Rect.block (s := S16x10) S8x10.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x10.size a ≤ S65536x10.size a
  hwx5_0 : ∀ i : grid5.Coords, EltTy.bits .f32 = 32 ∨ (Rect.block (s := S65536x10) S2048x10.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x10.size a ≤ S1x10.size a
  hwx5_1 : ∀ i : grid5.Coords, EltTy.bits .f32 = 32 ∨ (Rect.block (s := S1x10) S1x10.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x10.size a ≤ S1x10.size a
  hwx5_2 : ∀ i : grid5.Coords, EltTy.bits .f32 = 32 ∨ (Rect.block (s := S1x10) S1x10.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x10.size a ≤ S1x10.size a
  hwx5_3 : ∀ i : grid5.Coords, EltTy.bits .f32 = 32 ∨ (Rect.block (s := S1x10) S1x10.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x10.size a ≤ S1x10.size a
  hwx5_4 : ∀ i : grid5.Coords, EltTy.bits .f32 = 32 ∨ (Rect.block (s := S1x10) S1x10.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S8x10.size a ≤ S16x10.size a
  hwx5_5 : ∀ i : grid5.Coords, EltTy.bits .f32 = 32 ∨ (Rect.block (s := S16x10) S8x10.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S8x10.size a ≤ S16x10.size a
  hwx5_6 : ∀ i : grid5.Coords, EltTy.bits .f32 = 32 ∨ (Rect.block (s := S16x10) S8x10.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x10.size a ≤ S65536x10.size a
  hwx6_0 : ∀ i : grid6.Coords, EltTy.bits .f32 = 32 ∨ (Rect.block (s := S65536x10) S2048x10.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x10.size a ≤ S1x10.size a
  hwx6_1 : ∀ i : grid6.Coords, EltTy.bits .f32 = 32 ∨ (Rect.block (s := S1x10) S1x10.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x10.size a ≤ S1x10.size a
  hwx6_2 : ∀ i : grid6.Coords, EltTy.bits .f32 = 32 ∨ (Rect.block (s := S1x10) S1x10.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x10.size a ≤ S1x10.size a
  hwx6_3 : ∀ i : grid6.Coords, EltTy.bits .f32 = 32 ∨ (Rect.block (s := S1x10) S1x10.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x10.size a ≤ S1x10.size a
  hwx6_4 : ∀ i : grid6.Coords, EltTy.bits .f32 = 32 ∨ (Rect.block (s := S1x10) S1x10.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x10.size a ≤ S1x10.size a
  hwx6_5 : ∀ i : grid6.Coords, EltTy.bits .f32 = 32 ∨ (Rect.block (s := S1x10) S1x10.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x10.size a ≤ S1x10.size a
  hwx6_6 : ∀ i : grid6.Coords, EltTy.bits .f32 = 32 ∨ (Rect.block (s := S1x10) S1x10.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S2048x10.size a ≤ S65536x10.size a
  hwx6_7 : ∀ i : grid6.Coords, EltTy.bits .f32 = 32 ∨ (Rect.block (s := S65536x10) S2048x10.size (cc6_transform_7 i) (hinb6_7 i)).WholeWords (EltTy.packing .f32)

variable [Facts₀]

def dot_S2048x784_S256x784_S2048x256_1_1_0_0_n_n : DotDims S2048x784 S256x784 S2048x256 where
  lhsContracting := [1]
  rhsContracting := [1]
  lhsNonContracting := [0]
  rhsNonContracting := [0]
  lhsBatch := []
  rhsBatch := []
  wf := dot_S2048x784_S256x784_S2048x256_1_1_0_0_n_n_wf
def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf
def dot_S2048x256_S10x256_S2048x10_1_1_0_0_n_n : DotDims S2048x256 S10x256 S2048x10 where
  lhsContracting := [1]
  rhsContracting := [1]
  lhsNonContracting := [0]
  rhsNonContracting := [0]
  lhsBatch := []
  rhsBatch := []
  wf := dot_S2048x256_S10x256_S2048x10_1_1_0_0_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20_0) S2048x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20_1) S8x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_2) S8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v20_0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v41_0) S2048x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v41_1) S8x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v41_2) S8x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun i => !(k1_cond2 i == 1#1) | 8 => fun i => !(k1_cond2 i == 1#1) | ⟨_ + 9, h⟩ => absurd h (Nat.not_lt.2 (Nat.le_add_left _ _))

abbrev win2_0 : Pipeline.Window sig grid2 :=
  Pipeline.Window.ofSpec (Memref.whole main_v41_0) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v53) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v11) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v62_0) S2048x256.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v62_1) S8x256.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v62_2) S8x256.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev idle2 : Fin 9 → grid2.Coords → Bool := fun | 0 => fun _ => false | 1 => fun _ => false | 2 => fun _ => false | 3 => fun _ => false | 4 => fun _ => false | 5 => fun _ => false | 6 => fun _ => false | 7 => fun i => !(k2_cond2 i == 1#1) | 8 => fun i => !(k2_cond2 i == 1#1) | ⟨_ + 9, h⟩ => absurd h (Nat.not_lt.2 (Nat.le_add_left _ _))

abbrev win3_0 : Pipeline.Window sig grid3 :=
  Pipeline.Window.ofSpec (Memref.whole main_v62_0) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v82) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v15) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v83_0) S2048x256.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v83_1) S8x256.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v83_2) S8x256.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev idle3 : Fin 9 → grid3.Coords → Bool := fun | 0 => fun _ => false | 1 => fun _ => false | 2 => fun _ => false | 3 => fun _ => false | 4 => fun _ => false | 5 => fun _ => false | 6 => fun _ => false | 7 => fun i => !(k3_cond2 i == 1#1) | 8 => fun i => !(k3_cond2 i == 1#1) | ⟨_ + 9, h⟩ => absurd h (Nat.not_lt.2 (Nat.le_add_left _ _))

abbrev win4_0 : Pipeline.Window sig grid4 :=
  Pipeline.Window.ofSpec (Memref.whole main_v83_0) S2048x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v95) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v101) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v102) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v103) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v19) S10x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v104_0) S2048x10.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v104_1) S8x10.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v104_2) S8x10.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev idle4 : Fin 9 → grid4.Coords → Bool := fun | 0 => fun _ => false | 1 => fun _ => false | 2 => fun _ => false | 3 => fun _ => false | 4 => fun _ => false | 5 => fun _ => false | 6 => fun _ => false | 7 => fun i => !(k4_cond2 i == 1#1) | 8 => fun i => !(k4_cond2 i == 1#1) | ⟨_ + 9, h⟩ => absurd h (Nat.not_lt.2 (Nat.le_add_left _ _))

abbrev win5_0 : Pipeline.Window sig grid5 :=
  Pipeline.Window.ofSpec (Memref.whole main_v104_0) S2048x10.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v116) S1x10.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v122) S1x10.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v123) S1x10.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v124) S1x10.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v125_0) S8x10.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v125_1) S8x10.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev idle5 : Fin 7 → grid5.Coords → Bool := fun | 0 => fun _ => false | 1 => fun _ => false | 2 => fun _ => false | 3 => fun _ => false | 4 => fun _ => false | 5 => fun i => !(k5_cond2 i == 1#1) | 6 => fun i => !(k5_cond2 i == 1#1) | ⟨_ + 7, h⟩ => absurd h (Nat.not_lt.2 (Nat.le_add_left _ _))

abbrev win6_0 : Pipeline.Window sig grid6 :=
  Pipeline.Window.ofSpec (Memref.whole main_v104_0) S2048x10.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v116) S1x10.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v122) S1x10.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v123) S1x10.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v124) S1x10.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v133) S1x10.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v139) S1x10.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v140) S2048x10.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S65536x784 : Shape := ⟨2, ![65536, 784]⟩
abbrev S256x784 : Shape := ⟨2, ![256, 784]⟩
abbrev S256x256 : Shape := ⟨2, ![256, 256]⟩
abbrev S10x256 : Shape := ⟨2, ![10, 256]⟩
abbrev S256 : Shape := ⟨1, ![256]⟩
abbrev S10 : Shape := ⟨1, ![10]⟩
abbrev S_ : Shape := ⟨0, ![]⟩
abbrev S784x256 : Shape := ⟨2, ![784, 256]⟩
abbrev S65536x256 : Shape := ⟨2, ![65536, 256]⟩
abbrev S1x256 : Shape := ⟨2, ![1, 256]⟩
abbrev S256x10 : Shape := ⟨2, ![256, 10]⟩
abbrev S65536x10 : Shape := ⟨2, ![65536, 10]⟩
abbrev S1x10 : Shape := ⟨2, ![1, 10]⟩

abbrev nBuf : Space → Nat
  | .hbm => 353
  | .vmem => 0
  | .smem => 0
  | _ => 0

abbrev hbmTy0_0 (i : Nat) : BufTy := match i % 128 with
  | 0 => ⟨S65536x784, .f32⟩
  | 1 => ⟨S256x784, .f32⟩
  | 2 => ⟨S256x256, .f32⟩
  | 3 => ⟨S256x256, .f32⟩
  | 4 => ⟨S256x256, .f32⟩
  | 5 => ⟨S10x256, .f32⟩
  | 6 => ⟨S256, .f32⟩
  | 7 => ⟨S256, .f32⟩
  | 8 => ⟨S256, .f32⟩
  | 9 => ⟨S256, .f32⟩
  | 10 => ⟨S10, .f32⟩
  | 11 => ⟨S256, .f32⟩
  | 12 => ⟨S256, .f32⟩
  | 13 => ⟨S256, .f32⟩
  | 14 => ⟨S256, .f32⟩
  | 15 => ⟨S10, .f32⟩
  | 16 => ⟨S_, .f32⟩
  | 17 => ⟨S65536x784, .f32⟩
  | 18 => ⟨S65536x784, .f32⟩
  | 19 => ⟨S_, .f32⟩
  | 20 => ⟨S65536x784, .f32⟩
  | 21 => ⟨S65536x784, .i1⟩
  | 22 => ⟨S_, .f32⟩
  | 23 => ⟨S_, .f32⟩
  | 24 => ⟨S65536x784, .f32⟩
  | 25 => ⟨S65536x784, .f32⟩
  | 26 => ⟨S65536x784, .f32⟩
  | 27 => ⟨S65536x784, .f32⟩
  | 28 => ⟨S_, .f32⟩
  | 29 => ⟨S256x784, .f32⟩
  | 30 => ⟨S256x784, .i1⟩
  | 31 => ⟨S_, .f32⟩
  | 32 => ⟨S_, .f32⟩
  | 33 => ⟨S256x784, .f32⟩
  | 34 => ⟨S256x784, .f32⟩
  | 35 => ⟨S256x784, .f32⟩
  | 36 => ⟨S256x784, .f32⟩
  | 37 => ⟨S784x256, .f32⟩
  | 38 => ⟨S65536x256, .f32⟩
  | 39 => ⟨S_, .f32⟩
  | 40 => ⟨S256, .f32⟩
  | 41 => ⟨S_, .f32⟩
  | 42 => ⟨S256, .f32⟩
  | 43 => ⟨S256, .f32⟩
  | 44 => ⟨S_, .i32⟩
  | 45 => ⟨S_, .f32⟩
  | 46 => ⟨S256, .f32⟩
  | 47 => ⟨S1x256, .f32⟩
  | 48 => ⟨S_, .f32⟩
  | 49 => ⟨S1x256, .f32⟩
  | 50 => ⟨S1x256, .f32⟩
  | 51 => ⟨S65536x256, .f32⟩
  | 52 => ⟨S65536x256, .f32⟩
  | 53 => ⟨S65536x256, .f32⟩
  | 54 => ⟨S_, .f32⟩
  | 55 => ⟨S_, .f32⟩
  | 56 => ⟨S_, .f32⟩
  | 57 => ⟨S_, .f32⟩
  | 58 => ⟨S256, .f32⟩
  | 59 => ⟨S256, .f32⟩
  | 60 => ⟨S256, .f32⟩
  | 61 => ⟨S_, .f32⟩
  | 62 => ⟨S_, .i1⟩
  | 63 => ⟨S_, .f32⟩
  | 64 => ⟨S_, .f32⟩
  | 65 => ⟨S256, .f32⟩
  | 66 => ⟨S256, .f32⟩
  | 67 => ⟨S1x256, .f32⟩
  | 68 => ⟨S65536x256, .f32⟩
  | 69 => ⟨S65536x256, .f32⟩
  | 70 => ⟨S1x256, .f32⟩
  | 71 => ⟨S65536x256, .f32⟩
  | 72 => ⟨S65536x256, .f32⟩
  | 73 => ⟨S_, .f32⟩
  | 74 => ⟨S256, .f32⟩
  | 75 => ⟨S256, .f32⟩
  | 76 => ⟨S256, .f32⟩
  | 77 => ⟨S1x256, .f32⟩
  | 78 => ⟨S65536x256, .f32⟩
  | 79 => ⟨S65536x256, .f32⟩
  | 80 => ⟨S1x256, .f32⟩
  | 81 => ⟨S65536x256, .f32⟩
  | 82 => ⟨S65536x256, .f32⟩
  | 83 => ⟨S_, .f32⟩
  | 84 => ⟨S65536x256, .f32⟩
  | 85 => ⟨S65536x256, .i1⟩
  | 86 => ⟨S_, .f32⟩
  | 87 => ⟨S_, .f32⟩
  | 88 => ⟨S65536x256, .f32⟩
  | 89 => ⟨S65536x256, .f32⟩
  | 90 => ⟨S65536x256, .f32⟩
  | 91 => ⟨S65536x256, .f32⟩
  | 92 => ⟨S_, .f32⟩
  | 93 => ⟨S256x256, .f32⟩
  | 94 => ⟨S256x256, .i1⟩
  | 95 => ⟨S_, .f32⟩
  | 96 => ⟨S_, .f32⟩
  | 97 => ⟨S256x256, .f32⟩
  | 98 => ⟨S256x256, .f32⟩
  | 99 => ⟨S256x256, .f32⟩
  | 100 => ⟨S256x256, .f32⟩
  | 101 => ⟨S256x256, .f32⟩
  | 102 => ⟨S65536x256, .f32⟩
  | 103 => ⟨S_, .f32⟩
  | 104 => ⟨S256, .f32⟩
  | 105 => ⟨S_, .f32⟩
  | 106 => ⟨S256, .f32⟩
  | 107 => ⟨S256, .f32⟩
  | 108 => ⟨S_, .i32⟩
  | 109 => ⟨S_, .f32⟩
  | 110 => ⟨S256, .f32⟩
  | 111 => ⟨S1x256, .f32⟩
  | 112 => ⟨S_, .f32⟩
  | 113 => ⟨S1x256, .f32⟩
  | 114 => ⟨S1x256, .f32⟩
  | 115 => ⟨S65536x256, .f32⟩
  | 116 => ⟨S65536x256, .f32⟩
  | 117 => ⟨S65536x256, .f32⟩
  | 118 => ⟨S_, .f32⟩
  | 119 => ⟨S_, .f32⟩
  | 120 => ⟨S_, .f32⟩
  | 121 => ⟨S_, .f32⟩
  | 122 => ⟨S256, .f32⟩
  | 123 => ⟨S256, .f32⟩
  | 124 => ⟨S256, .f32⟩
  | 125 => ⟨S_, .f32⟩
  | 126 => ⟨S_, .i1⟩
  | 127 => ⟨S_, .f32⟩
  | _ => ⟨S65536x784, .f32⟩

abbrev hbmTy0_1 (i : Nat) : BufTy := match i % 128 with
  | 0 => ⟨S_, .f32⟩
  | 1 => ⟨S256, .f32⟩
  | 2 => ⟨S256, .f32⟩
  | 3 => ⟨S1x256, .f32⟩
  | 4 => ⟨S65536x256, .f32⟩
  | 5 => ⟨S65536x256, .f32⟩
  | 6 => ⟨S1x256, .f32⟩
  | 7 => ⟨S65536x256, .f32⟩
  | 8 => ⟨S65536x256, .f32⟩
  | 9 => ⟨S_, .f32⟩
  | 10 => ⟨S256, .f32⟩
  | 11 => ⟨S256, .f32⟩
  | 12 => ⟨S256, .f32⟩
  | 13 => ⟨S1x256, .f32⟩
  | 14 => ⟨S65536x256, .f32⟩
  | 15 => ⟨S65536x256, .f32⟩
  | 16 => ⟨S1x256, .f32⟩
  | 17 => ⟨S65536x256, .f32⟩
  | 18 => ⟨S65536x256, .f32⟩
  | 19 => ⟨S_, .f32⟩
  | 20 => ⟨S65536x256, .f32⟩
  | 21 => ⟨S65536x256, .i1⟩
  | 22 => ⟨S_, .f32⟩
  | 23 => ⟨S_, .f32⟩
  | 24 => ⟨S65536x256, .f32⟩
  | 25 => ⟨S65536x256, .f32⟩
  | 26 => ⟨S65536x256, .f32⟩
  | 27 => ⟨S65536x256, .f32⟩
  | 28 => ⟨S_, .f32⟩
  | 29 => ⟨S256x256, .f32⟩
  | 30 => ⟨S256x256, .i1⟩
  | 31 => ⟨S_, .f32⟩
  | 32 => ⟨S_, .f32⟩
  | 33 => ⟨S256x256, .f32⟩
  | 34 => ⟨S256x256, .f32⟩
  | 35 => ⟨S256x256, .f32⟩
  | 36 => ⟨S256x256, .f32⟩
  | 37 => ⟨S256x256, .f32⟩
  | 38 => ⟨S65536x256, .f32⟩
  | 39 => ⟨S_, .f32⟩
  | 40 => ⟨S256, .f32⟩
  | 41 => ⟨S_, .f32⟩
  | 42 => ⟨S256, .f32⟩
  | 43 => ⟨S256, .f32⟩
  | 44 => ⟨S_, .i32⟩
  | 45 => ⟨S_, .f32⟩
  | 46 => ⟨S256, .f32⟩
  | 47 => ⟨S1x256, .f32⟩
  | 48 => ⟨S_, .f32⟩
  | 49 => ⟨S1x256, .f32⟩
  | 50 => ⟨S1x256, .f32⟩
  | 51 => ⟨S65536x256, .f32⟩
  | 52 => ⟨S65536x256, .f32⟩
  | 53 => ⟨S65536x256, .f32⟩
  | 54 => ⟨S_, .f32⟩
  | 55 => ⟨S_, .f32⟩
  | 56 => ⟨S_, .f32⟩
  | 57 => ⟨S_, .f32⟩
  | 58 => ⟨S256, .f32⟩
  | 59 => ⟨S256, .f32⟩
  | 60 => ⟨S256, .f32⟩
  | 61 => ⟨S_, .f32⟩
  | 62 => ⟨S_, .i1⟩
  | 63 => ⟨S_, .f32⟩
  | 64 => ⟨S_, .f32⟩
  | 65 => ⟨S256, .f32⟩
  | 66 => ⟨S256, .f32⟩
  | 67 => ⟨S1x256, .f32⟩
  | 68 => ⟨S65536x256, .f32⟩
  | 69 => ⟨S65536x256, .f32⟩
  | 70 => ⟨S1x256, .f32⟩
  | 71 => ⟨S65536x256, .f32⟩
  | 72 => ⟨S65536x256, .f32⟩
  | 73 => ⟨S_, .f32⟩
  | 74 => ⟨S256, .f32⟩
  | 75 => ⟨S256, .f32⟩
  | 76 => ⟨S256, .f32⟩
  | 77 => ⟨S1x256, .f32⟩
  | 78 => ⟨S65536x256, .f32⟩
  | 79 => ⟨S65536x256, .f32⟩
  | 80 => ⟨S1x256, .f32⟩
  | 81 => ⟨S65536x256, .f32⟩
  | 82 => ⟨S65536x256, .f32⟩
  | 83 => ⟨S_, .f32⟩
  | 84 => ⟨S65536x256, .f32⟩
  | 85 => ⟨S65536x256, .i1⟩
  | 86 => ⟨S_, .f32⟩
  | 87 => ⟨S_, .f32⟩
  | 88 => ⟨S65536x256, .f32⟩
  | 89 => ⟨S65536x256, .f32⟩
  | 90 => ⟨S65536x256, .f32⟩
  | 91 => ⟨S65536x256, .f32⟩
  | 92 => ⟨S_, .f32⟩
  | 93 => ⟨S256x256, .f32⟩
  | 94 => ⟨S256x256, .i1⟩
  | 95 => ⟨S_, .f32⟩
  | 96 => ⟨S_, .f32⟩
  | 97 => ⟨S256x256, .f32⟩
  | 98 => ⟨S256x256, .f32⟩
  | 99 => ⟨S256x256, .f32⟩
  | 100 => ⟨S256x256, .f32⟩
  | 101 => ⟨S256x256, .f32⟩
  | 102 => ⟨S65536x256, .f32⟩
  | 103 => ⟨S_, .f32⟩
  | 104 => ⟨S256, .f32⟩
  | 105 => ⟨S_, .f32⟩
  | 106 => ⟨S256, .f32⟩
  | 107 => ⟨S256, .f32⟩
  | 108 => ⟨S_, .i32⟩
  | 109 => ⟨S_, .f32⟩
  | 110 => ⟨S256, .f32⟩
  | 111 => ⟨S1x256, .f32⟩
  | 112 => ⟨S_, .f32⟩
  | 113 => ⟨S1x256, .f32⟩
  | 114 => ⟨S1x256, .f32⟩
  | 115 => ⟨S65536x256, .f32⟩
  | 116 => ⟨S65536x256, .f32⟩
  | 117 => ⟨S65536x256, .f32⟩
  | 118 => ⟨S_, .f32⟩
  | 119 => ⟨S_, .f32⟩
  | 120 => ⟨S_, .f32⟩
  | 121 => ⟨S_, .f32⟩
  | 122 => ⟨S256, .f32⟩
  | 123 => ⟨S256, .f32⟩
  | 124 => ⟨S256, .f32⟩
  | 125 => ⟨S_, .f32⟩
  | 126 => ⟨S_, .i1⟩
  | 127 => ⟨S_, .f32⟩
  | _ => ⟨S65536x784, .f32⟩

abbrev hbmTy0_2 (i : Nat) : BufTy := match i % 128 with
  | 0 => ⟨S_, .f32⟩
  | 1 => ⟨S256, .f32⟩
  | 2 => ⟨S256, .f32⟩
  | 3 => ⟨S1x256, .f32⟩
  | 4 => ⟨S65536x256, .f32⟩
  | 5 => ⟨S65536x256, .f32⟩
  | 6 => ⟨S1x256, .f32⟩
  | 7 => ⟨S65536x256, .f32⟩
  | 8 => ⟨S65536x256, .f32⟩
  | 9 => ⟨S_, .f32⟩
  | 10 => ⟨S256, .f32⟩
  | 11 => ⟨S256, .f32⟩
  | 12 => ⟨S256, .f32⟩
  | 13 => ⟨S1x256, .f32⟩
  | 14 => ⟨S65536x256, .f32⟩
  | 15 => ⟨S65536x256, .f32⟩
  | 16 => ⟨S1x256, .f32⟩
  | 17 => ⟨S65536x256, .f32⟩
  | 18 => ⟨S65536x256, .f32⟩
  | 19 => ⟨S_, .f32⟩
  | 20 => ⟨S65536x256, .f32⟩
  | 21 => ⟨S65536x256, .i1⟩
  | 22 => ⟨S_, .f32⟩
  | 23 => ⟨S_, .f32⟩
  | 24 => ⟨S65536x256, .f32⟩
  | 25 => ⟨S65536x256, .f32⟩
  | 26 => ⟨S65536x256, .f32⟩
  | 27 => ⟨S65536x256, .f32⟩
  | 28 => ⟨S_, .f32⟩
  | 29 => ⟨S10x256, .f32⟩
  | 30 => ⟨S10x256, .i1⟩
  | 31 => ⟨S_, .f32⟩
  | 32 => ⟨S_, .f32⟩
  | 33 => ⟨S10x256, .f32⟩
  | 34 => ⟨S10x256, .f32⟩
  | 35 => ⟨S10x256, .f32⟩
  | 36 => ⟨S10x256, .f32⟩
  | 37 => ⟨S256x10, .f32⟩
  | 38 => ⟨S65536x10, .f32⟩
  | 39 => ⟨S_, .f32⟩
  | 40 => ⟨S10, .f32⟩
  | 41 => ⟨S_, .f32⟩
  | 42 => ⟨S10, .f32⟩
  | 43 => ⟨S10, .f32⟩
  | 44 => ⟨S_, .i32⟩
  | 45 => ⟨S_, .f32⟩
  | 46 => ⟨S10, .f32⟩
  | 47 => ⟨S1x10, .f32⟩
  | 48 => ⟨S_, .f32⟩
  | 49 => ⟨S1x10, .f32⟩
  | 50 => ⟨S1x10, .f32⟩
  | 51 => ⟨S65536x10, .f32⟩
  | 52 => ⟨S65536x10, .f32⟩
  | 53 => ⟨S65536x10, .f32⟩
  | 54 => ⟨S_, .f32⟩
  | 55 => ⟨S_, .f32⟩
  | 56 => ⟨S_, .f32⟩
  | 57 => ⟨S_, .f32⟩
  | 58 => ⟨S10, .f32⟩
  | 59 => ⟨S10, .f32⟩
  | 60 => ⟨S10, .f32⟩
  | 61 => ⟨S_, .f32⟩
  | 62 => ⟨S_, .i1⟩
  | 63 => ⟨S_, .f32⟩
  | 64 => ⟨S_, .f32⟩
  | 65 => ⟨S10, .f32⟩
  | 66 => ⟨S10, .f32⟩
  | 67 => ⟨S1x10, .f32⟩
  | 68 => ⟨S65536x10, .f32⟩
  | 69 => ⟨S65536x10, .f32⟩
  | 70 => ⟨S1x10, .f32⟩
  | 71 => ⟨S65536x10, .f32⟩
  | 72 => ⟨S65536x10, .f32⟩
  | 73 => ⟨S_, .f32⟩
  | 74 => ⟨S10, .f32⟩
  | 75 => ⟨S10, .f32⟩
  | 76 => ⟨S10, .f32⟩
  | 77 => ⟨S1x10, .f32⟩
  | 78 => ⟨S65536x10, .f32⟩
  | 79 => ⟨S65536x10, .f32⟩
  | 80 => ⟨S1x10, .f32⟩
  | 81 => ⟨S65536x10, .f32⟩
  | 82 => ⟨S65536x10, .f32⟩
  | 83 => ⟨S_, .f32⟩
  | 84 => ⟨S10, .f32⟩
  | 85 => ⟨S_, .f32⟩
  | 86 => ⟨S10, .f32⟩
  | 87 => ⟨S10, .f32⟩
  | 88 => ⟨S1x10, .f32⟩
  | 89 => ⟨S65536x10, .f32⟩
  | 90 => ⟨S65536x10, .f32⟩
  | 91 => ⟨S65536x10, .f32⟩
  | 92 => ⟨S_, .f32⟩
  | 93 => ⟨S10, .f32⟩
  | 94 => ⟨S1x10, .f32⟩
  | 95 => ⟨S65536x10, .f32⟩
  | 96 => ⟨S65536x10, .f32⟩
  | _ => ⟨S65536x784, .f32⟩

abbrev hbmTy (i : Nat) : BufTy := match i / 128 with
  | 0 => hbmTy0_0 i
  | 1 => hbmTy0_1 i
  | 2 => hbmTy0_2 i
  | _ => ⟨S65536x784, .f32⟩

abbrev bufTy : (tb : Table) → Fin (tcTables nBuf tb) → BufTy
  | .hbm, ⟨i, _⟩ => hbmTy i
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v4 : Ref sig .tc := ⟨.hbm, 26, rfl⟩
abbrev main_v5 : Ref sig .tc := ⟨.hbm, 27, rfl⟩
abbrev main_cst_3 : Ref sig .tc := ⟨.hbm, 28, rfl⟩
abbrev main_v6 : Ref sig .tc := ⟨.hbm, 29, rfl⟩
abbrev main_v7 : Ref sig .tc := ⟨.hbm, 30, rfl⟩
abbrev main_cst_4 : Ref sig .tc := ⟨.hbm, 31, rfl⟩
abbrev main_cst_5 : Ref sig .tc := ⟨.hbm, 32, rfl⟩
abbrev main_call1_v0 : Ref sig .tc := ⟨.hbm, 33, rfl⟩
abbrev main_call1_v1 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst_6 : Ref sig .tc := ⟨.hbm, 39, rfl⟩
abbrev main_v12 : Ref sig .tc := ⟨.hbm, 40, rfl⟩
abbrev main_cst_7 : Ref sig .tc := ⟨.hbm, 41, rfl⟩
abbrev main_v13 : Ref sig .tc := ⟨.hbm, 42, rfl⟩
abbrev main_v14 : Ref sig .tc := ⟨.hbm, 43, rfl⟩
abbrev main_c : Ref sig .tc := ⟨.hbm, 44, rfl⟩
abbrev main_call2_cst : Ref sig .tc := ⟨.hbm, 45, rfl⟩
abbrev main_call2_v0 : Ref sig .tc := ⟨.hbm, 46, rfl⟩
abbrev main_call2_v1 : Ref sig .tc := ⟨.hbm, 47, rfl⟩
abbrev main_call2_cst_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_cst_1 : Ref sig .tc := ⟨.hbm, 55, rfl⟩
abbrev main_call2_v8 : Ref sig .tc := ⟨.hbm, 56, rfl⟩
abbrev main_call2_cst_2 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_cst_3 : Ref sig .tc := ⟨.hbm, 61, rfl⟩
abbrev main_call2_v12 : Ref sig .tc := ⟨.hbm, 62, rfl⟩
abbrev main_call2_cst_4 : Ref sig .tc := ⟨.hbm, 63, rfl⟩
abbrev main_call2_call0_v0 : Ref sig .tc := ⟨.hbm, 64, rfl⟩
abbrev main_call2_call0_v1 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_cst_8 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_cst_9 : Ref sig .tc := ⟨.hbm, 83, rfl⟩
abbrev main_v31 : Ref sig .tc := ⟨.hbm, 84, rfl⟩
abbrev main_v32 : Ref sig .tc := ⟨.hbm, 85, rfl⟩
abbrev main_cst_10 : Ref sig .tc := ⟨.hbm, 86, rfl⟩
abbrev main_cst_11 : Ref sig .tc := ⟨.hbm, 87, rfl⟩
abbrev main_call3_v0 : Ref sig .tc := ⟨.hbm, 88, rfl⟩
abbrev main_call3_v1 : Ref sig .tc := ⟨.hbm, 89, rfl⟩
abbrev main_v33 : Ref sig .tc := ⟨.hbm, 90, rfl⟩
abbrev main_v34 : Ref sig .tc := ⟨.hbm, 91, rfl⟩
abbrev main_cst_12 : Ref sig .tc := ⟨.hbm, 92, rfl⟩
abbrev main_v35 : Ref sig .tc := ⟨.hbm, 93, rfl⟩
abbrev main_v36 : Ref sig .tc := ⟨.hbm, 94, rfl⟩
abbrev main_cst_13 : Ref sig .tc := ⟨.hbm, 95, rfl⟩
abbrev main_cst_14 : Ref sig .tc := ⟨.hbm, 96, rfl⟩
abbrev main_call4_v0 : Ref sig .tc := ⟨.hbm, 97, rfl⟩
abbrev main_call4_v1 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_cst_15 : Ref sig .tc := ⟨.hbm, 103, rfl⟩
abbrev main_v41 : Ref sig .tc := ⟨.hbm, 104, rfl⟩
abbrev main_cst_16 : Ref sig .tc := ⟨.hbm, 105, rfl⟩
abbrev main_v42 : Ref sig .tc := ⟨.hbm, 106, rfl⟩
abbrev main_v43 : Ref sig .tc := ⟨.hbm, 107, rfl⟩
abbrev main_c_17 : Ref sig .tc := ⟨.hbm, 108, rfl⟩
abbrev main_call5_cst : Ref sig .tc := ⟨.hbm, 109, rfl⟩
abbrev main_call5_v0 : Ref sig .tc := ⟨.hbm, 110, rfl⟩
abbrev main_call5_v1 : Ref sig .tc := ⟨.hbm, 111, rfl⟩
abbrev main_call5_cst_0 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_call5_v5 : Ref sig .tc := ⟨.hbm, 116, rfl⟩
abbrev main_call5_v6 : Ref sig .tc := ⟨.hbm, 117, rfl⟩
abbrev main_call5_v7 : Ref sig .tc := ⟨.hbm, 118, rfl⟩
abbrev main_call5_cst_1 : Ref sig .tc := ⟨.hbm, 119, rfl⟩
abbrev main_call5_v8 : Ref sig .tc := ⟨.hbm, 120, rfl⟩
abbrev main_call5_cst_2 : Ref sig .tc := ⟨.hbm, 121, rfl⟩
abbrev main_call5_v9 : Ref sig .tc := ⟨.hbm, 122, rfl⟩
abbrev main_call5_v10 : Ref sig .tc := ⟨.hbm, 123, rfl⟩
abbrev main_call5_v11 : Ref sig .tc := ⟨.hbm, 124, rfl⟩
abbrev main_call5_cst_3 : Ref sig .tc := ⟨.hbm, 125, rfl⟩
abbrev main_call5_v12 : Ref sig .tc := ⟨.hbm, 126, rfl⟩
abbrev main_call5_cst_4 : Ref sig .tc := ⟨.hbm, 127, rfl⟩
abbrev main_call5_call0_v0 : Ref sig .tc := ⟨.hbm, 128, rfl⟩
abbrev main_call5_call0_v1 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_v48 : Ref sig .tc := ⟨.hbm, 134, rfl⟩
abbrev main_v49 : Ref sig .tc := ⟨.hbm, 135, rfl⟩
abbrev main_v50 : Ref sig .tc := ⟨.hbm, 136, rfl⟩
abbrev main_cst_18 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_v59 : Ref sig .tc := ⟨.hbm, 146, rfl⟩
abbrev main_cst_19 : Ref sig .tc := ⟨.hbm, 147, rfl⟩
abbrev main_v60 : Ref sig .tc := ⟨.hbm, 148, rfl⟩
abbrev main_v61 : Ref sig .tc := ⟨.hbm, 149, rfl⟩
abbrev main_cst_20 : Ref sig .tc := ⟨.hbm, 150, rfl⟩
abbrev main_cst_21 : Ref sig .tc := ⟨.hbm, 151, rfl⟩
abbrev main_call6_v0 : Ref sig .tc := ⟨.hbm, 152, rfl⟩
abbrev main_call6_v1 : Ref sig .tc := ⟨.hbm, 153, rfl⟩
abbrev main_v62 : Ref sig .tc := ⟨.hbm, 154, rfl⟩
abbrev main_v63 : Ref sig .tc := ⟨.hbm, 155, rfl⟩
abbrev main_cst_22 : Ref sig .tc := ⟨.hbm, 156, rfl⟩
abbrev main_v64 : Ref sig .tc := ⟨.hbm, 157, rfl⟩
abbrev main_v65 : Ref sig .tc := ⟨.hbm, 158, rfl⟩
abbrev main_cst_23 : Ref sig .tc := ⟨.hbm, 159, rfl⟩
abbrev main_cst_24 : Ref sig .tc := ⟨.hbm, 160, rfl⟩
abbrev main_call7_v0 : Ref sig .tc := ⟨.hbm, 161, rfl⟩
abbrev main_call7_v1 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_v69 : Ref sig .tc := ⟨.hbm, 166, rfl⟩
abbrev main_cst_25 : Ref sig .tc := ⟨.hbm, 167, rfl⟩
abbrev main_v70 : Ref sig .tc := ⟨.hbm, 168, rfl⟩
abbrev main_cst_26 : Ref sig .tc := ⟨.hbm, 169, rfl⟩
abbrev main_v71 : Ref sig .tc := ⟨.hbm, 170, rfl⟩
abbrev main_v72 : Ref sig .tc := ⟨.hbm, 171, rfl⟩
abbrev main_c_27 : Ref sig .tc := ⟨.hbm, 172, rfl⟩
abbrev main_call8_cst : Ref sig .tc := ⟨.hbm, 173, rfl⟩
abbrev main_call8_v0 : Ref sig .tc := ⟨.hbm, 174, rfl⟩
abbrev main_call8_v1 : Ref sig .tc := ⟨.hbm, 175, rfl⟩
abbrev main_call8_cst_0 : Ref sig .tc := ⟨.hbm, 176, rfl⟩
abbrev main_call8_v2 : Ref sig .tc := ⟨.hbm, 177, rfl⟩
abbrev main_call8_v3 : Ref sig .tc := ⟨.hbm, 178, rfl⟩
abbrev main_call8_v4 : Ref sig .tc := ⟨.hbm, 179, rfl⟩
abbrev main_call8_v5 : Ref sig .tc := ⟨.hbm, 180, rfl⟩
abbrev main_call8_v6 : Ref sig .tc := ⟨.hbm, 181, rfl⟩
abbrev main_call8_v7 : Ref sig .tc := ⟨.hbm, 182, rfl⟩
abbrev main_call8_cst_1 : Ref sig .tc := ⟨.hbm, 183, rfl⟩
abbrev main_call8_v8 : Ref sig .tc := ⟨.hbm, 184, rfl⟩
abbrev main_call8_cst_2 : Ref sig .tc := ⟨.hbm, 185, rfl⟩
abbrev main_call8_v9 : Ref sig .tc := ⟨.hbm, 186, rfl⟩
abbrev main_call8_v10 : Ref sig .tc := ⟨.hbm, 187, rfl⟩
abbrev main_call8_v11 : Ref sig .tc := ⟨.hbm, 188, rfl⟩
abbrev main_call8_cst_3 : Ref sig .tc := ⟨.hbm, 189, rfl⟩
abbrev main_call8_v12 : Ref sig .tc := ⟨.hbm, 190, rfl⟩
abbrev main_call8_cst_4 : Ref sig .tc := ⟨.hbm, 191, rfl⟩
abbrev main_call8_call0_v0 : Ref sig .tc := ⟨.hbm, 192, rfl⟩
abbrev main_call8_call0_v1 : Ref sig .tc := ⟨.hbm, 193, rfl⟩
abbrev main_v73 : Ref sig .tc := ⟨.hbm, 194, rfl⟩
abbrev main_v74 : Ref sig .tc := ⟨.hbm, 195, rfl⟩
abbrev main_v75 : Ref sig .tc := ⟨.hbm, 196, rfl⟩
abbrev main_v76 : Ref sig .tc := ⟨.hbm, 197, rfl⟩
abbrev main_v77 : Ref sig .tc := ⟨.hbm, 198, rfl⟩
abbrev main_v78 : Ref sig .tc := ⟨.hbm, 199, rfl⟩
abbrev main_v79 : Ref sig .tc := ⟨.hbm, 200, rfl⟩
abbrev main_cst_28 : Ref sig .tc := ⟨.hbm, 201, rfl⟩
abbrev main_v80 : Ref sig .tc := ⟨.hbm, 202, rfl⟩
abbrev main_v81 : Ref sig .tc := ⟨.hbm, 203, rfl⟩
abbrev main_v82 : Ref sig .tc := ⟨.hbm, 204, rfl⟩
abbrev main_v83 : Ref sig .tc := ⟨.hbm, 205, rfl⟩
abbrev main_v84 : Ref sig .tc := ⟨.hbm, 206, rfl⟩
abbrev main_v85 : Ref sig .tc := ⟨.hbm, 207, rfl⟩
abbrev main_v86 : Ref sig .tc := ⟨.hbm, 208, rfl⟩
abbrev main_v87 : Ref sig .tc := ⟨.hbm, 209, rfl⟩
abbrev main_v88 : Ref sig .tc := ⟨.hbm, 210, rfl⟩
abbrev main_cst_29 : Ref sig .tc := ⟨.hbm, 211, rfl⟩
abbrev main_v89 : Ref sig .tc := ⟨.hbm, 212, rfl⟩
abbrev main_v90 : Ref sig .tc := ⟨.hbm, 213, rfl⟩
abbrev main_cst_30 : Ref sig .tc := ⟨.hbm, 214, rfl⟩
abbrev main_cst_31 : Ref sig .tc := ⟨.hbm, 215, rfl⟩
abbrev main_call9_v0 : Ref sig .tc := ⟨.hbm, 216, rfl⟩
abbrev main_call9_v1 : Ref sig .tc := ⟨.hbm, 217, rfl⟩
abbrev main_v91 : Ref sig .tc := ⟨.hbm, 218, rfl⟩
abbrev main_v92 : Ref sig .tc := ⟨.hbm, 219, rfl⟩
abbrev main_cst_32 : Ref sig .tc := ⟨.hbm, 220, rfl⟩
abbrev main_v93 : Ref sig .tc := ⟨.hbm, 221, rfl⟩
abbrev main_v94 : Ref sig .tc := ⟨.hbm, 222, rfl⟩
abbrev main_cst_33 : Ref sig .tc := ⟨.hbm, 223, rfl⟩
abbrev main_cst_34 : Ref sig .tc := ⟨.hbm, 224, rfl⟩
abbrev main_call10_v0 : Ref sig .tc := ⟨.hbm, 225, rfl⟩
abbrev main_call10_v1 : Ref sig .tc := ⟨.hbm, 226, rfl⟩
abbrev main_v95 : Ref sig .tc := ⟨.hbm, 227, rfl⟩
abbrev main_v96 : Ref sig .tc := ⟨.hbm, 228, rfl⟩
abbrev main_v97 : Ref sig .tc := ⟨.hbm, 229, rfl⟩
abbrev main_v98 : Ref sig .tc := ⟨.hbm, 230, rfl⟩
abbrev main_cst_35 : Ref sig .tc := ⟨.hbm, 231, rfl⟩
abbrev main_v99 : Ref sig .tc := ⟨.hbm, 232, rfl⟩
abbrev main_cst_36 : Ref sig .tc := ⟨.hbm, 233, rfl⟩
abbrev main_v100 : Ref sig .tc := ⟨.hbm, 234, rfl⟩
abbrev main_v101 : Ref sig .tc := ⟨.hbm, 235, rfl⟩
abbrev main_c_37 : Ref sig .tc := ⟨.hbm, 236, rfl⟩
abbrev main_call11_cst : Ref sig .tc := ⟨.hbm, 237, rfl⟩
abbrev main_call11_v0 : Ref sig .tc := ⟨.hbm, 238, rfl⟩
abbrev main_call11_v1 : Ref sig .tc := ⟨.hbm, 239, rfl⟩
abbrev main_call11_cst_0 : Ref sig .tc := ⟨.hbm, 240, rfl⟩
abbrev main_call11_v2 : Ref sig .tc := ⟨.hbm, 241, rfl⟩
abbrev main_call11_v3 : Ref sig .tc := ⟨.hbm, 242, rfl⟩
abbrev main_call11_v4 : Ref sig .tc := ⟨.hbm, 243, rfl⟩
abbrev main_call11_v5 : Ref sig .tc := ⟨.hbm, 244, rfl⟩
abbrev main_call11_v6 : Ref sig .tc := ⟨.hbm, 245, rfl⟩
abbrev main_call11_v7 : Ref sig .tc := ⟨.hbm, 246, rfl⟩
abbrev main_call11_cst_1 : Ref sig .tc := ⟨.hbm, 247, rfl⟩
abbrev main_call11_v8 : Ref sig .tc := ⟨.hbm, 248, rfl⟩
abbrev main_call11_cst_2 : Ref sig .tc := ⟨.hbm, 249, rfl⟩
abbrev main_call11_v9 : Ref sig .tc := ⟨.hbm, 250, rfl⟩
abbrev main_call11_v10 : Ref sig .tc := ⟨.hbm, 251, rfl⟩
abbrev main_call11_v11 : Ref sig .tc := ⟨.hbm, 252, rfl⟩
abbrev main_call11_cst_3 : Ref sig .tc := ⟨.hbm, 253, rfl⟩
abbrev main_call11_v12 : Ref sig .tc := ⟨.hbm, 254, rfl⟩
abbrev main_call11_cst_4 : Ref sig .tc := ⟨.hbm, 255, rfl⟩
abbrev main_call11_call0_v0 : Ref sig .tc := ⟨.hbm, 256, rfl⟩
abbrev main_call11_call0_v1 : Ref sig .tc := ⟨.hbm, 257, rfl⟩
abbrev main_v102 : Ref sig .tc := ⟨.hbm, 258, rfl⟩
abbrev main_v103 : Ref sig .tc := ⟨.hbm, 259, rfl⟩
abbrev main_v104 : Ref sig .tc := ⟨.hbm, 260, rfl⟩
abbrev main_v105 : Ref sig .tc := ⟨.hbm, 261, rfl⟩
abbrev main_v106 : Ref sig .tc := ⟨.hbm, 262, rfl⟩
abbrev main_v107 : Ref sig .tc := ⟨.hbm, 263, rfl⟩
abbrev main_v108 : Ref sig .tc := ⟨.hbm, 264, rfl⟩
abbrev main_cst_38 : Ref sig .tc := ⟨.hbm, 265, rfl⟩
abbrev main_v109 : Ref sig .tc := ⟨.hbm, 266, rfl⟩
abbrev main_v110 : Ref sig .tc := ⟨.hbm, 267, rfl⟩
abbrev main_v111 : Ref sig .tc := ⟨.hbm, 268, rfl⟩
abbrev main_v112 : Ref sig .tc := ⟨.hbm, 269, rfl⟩
abbrev main_v113 : Ref sig .tc := ⟨.hbm, 270, rfl⟩
abbrev main_v114 : Ref sig .tc := ⟨.hbm, 271, rfl⟩
abbrev main_v115 : Ref sig .tc := ⟨.hbm, 272, rfl⟩
abbrev main_v116 : Ref sig .tc := ⟨.hbm, 273, rfl⟩
abbrev main_v117 : Ref sig .tc := ⟨.hbm, 274, rfl⟩
abbrev main_cst_39 : Ref sig .tc := ⟨.hbm, 275, rfl⟩
abbrev main_v118 : Ref sig .tc := ⟨.hbm, 276, rfl⟩
abbrev main_v119 : Ref sig .tc := ⟨.hbm, 277, rfl⟩
abbrev main_cst_40 : Ref sig .tc := ⟨.hbm, 278, rfl⟩
abbrev main_cst_41 : Ref sig .tc := ⟨.hbm, 279, rfl⟩
abbrev main_call12_v0 : Ref sig .tc := ⟨.hbm, 280, rfl⟩
abbrev main_call12_v1 : Ref sig .tc := ⟨.hbm, 281, rfl⟩
abbrev main_v120 : Ref sig .tc := ⟨.hbm, 282, rfl⟩
abbrev main_v121 : Ref sig .tc := ⟨.hbm, 283, rfl⟩
abbrev main_cst_42 : Ref sig .tc := ⟨.hbm, 284, rfl⟩
abbrev main_v122 : Ref sig .tc := ⟨.hbm, 285, rfl⟩
abbrev main_v123 : Ref sig .tc := ⟨.hbm, 286, rfl⟩
abbrev main_cst_43 : Ref sig .tc := ⟨.hbm, 287, rfl⟩
abbrev main_cst_44 : Ref sig .tc := ⟨.hbm, 288, rfl⟩
abbrev main_call13_v0 : Ref sig .tc := ⟨.hbm, 289, rfl⟩
abbrev main_call13_v1 : Ref sig .tc := ⟨.hbm, 290, rfl⟩
abbrev main_v124 : Ref sig .tc := ⟨.hbm, 291, rfl⟩
abbrev main_v125 : Ref sig .tc := ⟨.hbm, 292, rfl⟩
abbrev main_v126 : Ref sig .tc := ⟨.hbm, 293, rfl⟩
abbrev main_v127 : Ref sig .tc := ⟨.hbm, 294, rfl⟩
abbrev main_cst_45 : Ref sig .tc := ⟨.hbm, 295, rfl⟩
abbrev main_v128 : Ref sig .tc := ⟨.hbm, 296, rfl⟩
abbrev main_cst_46 : Ref sig .tc := ⟨.hbm, 297, rfl⟩
abbrev main_v129 : Ref sig .tc := ⟨.hbm, 298, rfl⟩
abbrev main_v130 : Ref sig .tc := ⟨.hbm, 299, rfl⟩
abbrev main_c_47 : Ref sig .tc := ⟨.hbm, 300, rfl⟩
abbrev main_call14_cst : Ref sig .tc := ⟨.hbm, 301, rfl⟩
abbrev main_call14_v0 : Ref sig .tc := ⟨.hbm, 302, rfl⟩
abbrev main_call14_v1 : Ref sig .tc := ⟨.hbm, 303, rfl⟩
abbrev main_call14_cst_0 : Ref sig .tc := ⟨.hbm, 304, rfl⟩
abbrev main_call14_v2 : Ref sig .tc := ⟨.hbm, 305, rfl⟩
abbrev main_call14_v3 : Ref sig .tc := ⟨.hbm, 306, rfl⟩
abbrev main_call14_v4 : Ref sig .tc := ⟨.hbm, 307, rfl⟩
abbrev main_call14_v5 : Ref sig .tc := ⟨.hbm, 308, rfl⟩
abbrev main_call14_v6 : Ref sig .tc := ⟨.hbm, 309, rfl⟩
abbrev main_call14_v7 : Ref sig .tc := ⟨.hbm, 310, rfl⟩
abbrev main_call14_cst_1 : Ref sig .tc := ⟨.hbm, 311, rfl⟩
abbrev main_call14_v8 : Ref sig .tc := ⟨.hbm, 312, rfl⟩
abbrev main_call14_cst_2 : Ref sig .tc := ⟨.hbm, 313, rfl⟩
abbrev main_call14_v9 : Ref sig .tc := ⟨.hbm, 314, rfl⟩
abbrev main_call14_v10 : Ref sig .tc := ⟨.hbm, 315, rfl⟩
abbrev main_call14_v11 : Ref sig .tc := ⟨.hbm, 316, rfl⟩
abbrev main_call14_cst_3 : Ref sig .tc := ⟨.hbm, 317, rfl⟩
abbrev main_call14_v12 : Ref sig .tc := ⟨.hbm, 318, rfl⟩
abbrev main_call14_cst_4 : Ref sig .tc := ⟨.hbm, 319, rfl⟩
abbrev main_call14_call0_v0 : Ref sig .tc := ⟨.hbm, 320, rfl⟩
abbrev main_call14_call0_v1 : Ref sig .tc := ⟨.hbm, 321, rfl⟩
abbrev main_v131 : Ref sig .tc := ⟨.hbm, 322, rfl⟩
abbrev main_v132 : Ref sig .tc := ⟨.hbm, 323, rfl⟩
abbrev main_v133 : Ref sig .tc := ⟨.hbm, 324, rfl⟩
abbrev main_v134 : Ref sig .tc := ⟨.hbm, 325, rfl⟩
abbrev main_v135 : Ref sig .tc := ⟨.hbm, 326, rfl⟩
abbrev main_v136 : Ref sig .tc := ⟨.hbm, 327, rfl⟩
abbrev main_v137 : Ref sig .tc := ⟨.hbm, 328, rfl⟩
abbrev main_cst_48 : Ref sig .tc := ⟨.hbm, 329, rfl⟩
abbrev main_v138 : Ref sig .tc := ⟨.hbm, 330, rfl⟩
abbrev main_v139 : Ref sig .tc := ⟨.hbm, 331, rfl⟩
abbrev main_v140 : Ref sig .tc := ⟨.hbm, 332, rfl⟩
abbrev main_v141 : Ref sig .tc := ⟨.hbm, 333, rfl⟩
abbrev main_v142 : Ref sig .tc := ⟨.hbm, 334, rfl⟩
abbrev main_v143 : Ref sig .tc := ⟨.hbm, 335, rfl⟩
abbrev main_v144 : Ref sig .tc := ⟨.hbm, 336, rfl⟩
abbrev main_v145 : Ref sig .tc := ⟨.hbm, 337, rfl⟩
abbrev main_v146 : Ref sig .tc := ⟨.hbm, 338, rfl⟩
abbrev main_cst_49 : Ref sig .tc := ⟨.hbm, 339, rfl⟩
abbrev main_v147 : Ref sig .tc := ⟨.hbm, 340, rfl⟩
abbrev main_cst_50 : Ref sig .tc := ⟨.hbm, 341, rfl⟩
abbrev main_v148 : Ref sig .tc := ⟨.hbm, 342, rfl⟩
abbrev main_v149 : Ref sig .tc := ⟨.hbm, 343, rfl⟩
abbrev main_v150 : Ref sig .tc := ⟨.hbm, 344, rfl⟩
abbrev main_v151 : Ref sig .tc := ⟨.hbm, 345, rfl⟩
abbrev main_v152 : Ref sig .tc := ⟨.hbm, 346, rfl⟩
abbrev main_v153 : Ref sig .tc := ⟨.hbm, 347, rfl⟩
abbrev main_cst_51 : Ref sig .tc := ⟨.hbm, 348, rfl⟩
abbrev main_v154 : Ref sig .tc := ⟨.hbm, 349, rfl⟩
abbrev main_v155 : Ref sig .tc := ⟨.hbm, 350, rfl⟩
abbrev main_v156 : Ref sig .tc := ⟨.hbm, 351, rfl⟩
abbrev main_v157 : Ref sig .tc := ⟨.hbm, 352, rfl⟩

abbrev nD : Nat := 1
abbrev τ : Topo := Topo.v7x

variable {F : FTy → Type} [FloatOps F]

class Facts₀ : Prop where
  bcast_S_S65536x784 : S_.BroadcastsInDim S65536x784 (![] : Fin 0 → Fin S65536x784.rank)
  bcast_S_S256x784 : S_.BroadcastsInDim S256x784 (![] : Fin 0 → Fin S256x784.rank)
  transposes_S256x784_S784x256_1_0 : S256x784.Transposes [1, 0] S784x256
  reducesTo_S65536x256_S256_d0 : S65536x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S_S256x256 : S_.BroadcastsInDim S256x256 (![] : Fin 0 → Fin S256x256.rank)
  transposes_S256x256_S256x256_1_0 : S256x256.Transposes [1, 0] S256x256
  bcast_S_S10x256 : S_.BroadcastsInDim S10x256 (![] : Fin 0 → Fin S10x256.rank)
  transposes_S10x256_S256x10_1_0 : S10x256.Transposes [1, 0] S256x10
  reducesTo_S65536x10_S10_d0 : S65536x10.ReducesTo [0] S10
  bcast_S_S10 : S_.BroadcastsInDim S10 (![] : Fin 0 → Fin S10.rank)
  bcast_S10_S1x10_1 : S10.BroadcastsInDim S1x10 (![1] : Fin 1 → Fin S1x10.rank)
  bcast_S_S1x10 : S_.BroadcastsInDim S1x10 (![] : Fin 0 → Fin S1x10.rank)
  bcast_S1x10_S65536x10_0_1 : S1x10.BroadcastsInDim S65536x10 (![0, 1] : Fin 2 → Fin S65536x10.rank)
  dot_S65536x784_S784x256_S65536x256_1_0_0_1_n_n_wf : DotDims.WF S65536x784 S784x256 S65536x256 [1] [0] [0] [1] [] []
  dot_S65536x256_S256x256_S65536x256_1_0_0_1_n_n_wf : DotDims.WF S65536x256 S256x256 S65536x256 [1] [0] [0] [1] [] []
  dot_S65536x256_S256x10_S65536x10_1_0_0_1_n_n_wf : DotDims.WF S65536x256 S256x10 S65536x10 [1] [0] [0] [1] [] []

variable [Facts₀]

def dot_S65536x784_S784x256_S65536x256_1_0_0_1_n_n : DotDims S65536x784 S784x256 S65536x256 where
  lhsContracting := [1]
  rhsContracting := [0]
  lhsNonContracting := [0]
  rhsNonContracting := [1]
  lhsBatch := []
  rhsBatch := []
  wf := dot_S65536x784_S784x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x10_S65536x10_1_0_0_1_n_n : DotDims S65536x256 S256x10 S65536x10 where
  lhsContracting := [1]
  rhsContracting := [0]
  lhsNonContracting := [0]
  rhsNonContracting := [1]
  lhsBatch := []
  rhsBatch := []
  wf := dot_S65536x256_S256x10_S65536x10_1_0_0_1_n_n_wf

class Facts : Prop extends Facts₀ where

variable [Facts]
-- ==== Proof.K.R0.Runs.lean ====
/- Region 0 of KernelIdeal (the first layer's matrix product with per-core column sums and sums of squares):
   what the three control cases of its body share. The window blocks read off the region-entry contents,
   the two branch conditions in closed form over the 32 grid points, where the two partial-sum windows are
   idle, the staging and scratch memrefs, and the region invariant with the two accumulators split out. -/
import proofs.«118595_j1726576853663_2_alg».proof.Proof.Gen.Kernel.Launch
import proofs.«118595_j1726576853663_2_alg».proof.Proof.Gen.Kernel.Skeleton
import proofs.«118595_j1726576853663_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input rows' staging buffer holds the point's block of rows at every point (it is fetched at each). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight matrix at every point: fetched at the first point only,
    its block index never moves, so what the body leaves in place is still the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first conditional (zero the accumulators): the inner grid coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional (store the accumulators into the partial-sum windows): the inner coordinate is 15. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The two inputs and the raw output are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last inner step the sum window is idle and not written back; at the last it is live. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel
/-- The same for the sum-of-squares window. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

/-! ## The staging and scratch memrefs -/

/-- One staging buffer of each output window, through which its contents are stated (the choice does not matter). -/
abbrev VO0_2 : View sig .tc .vmem S2048x256 .f32 := (Memref.whole cc0_stg2_0 : Memref sig .tc .vmem S2048x256 .f32).view
abbrev VO0_3 : View sig .tc .vmem S8x256 .f32 := (Memref.whole cc0_stg3_0 : Memref sig .tc .vmem S8x256 .f32).view
abbrev VO0_4 : View sig .tc .vmem S8x256 .f32 := (Memref.whole cc0_stg4_0 : Memref sig .tc .vmem S8x256 .f32).view
/-- Each window's current staging memref at point `t`, as the pipeline passes it, and its wholeness. -/
abbrev ms0_0 (t : Fin cfg0.N) : Memref sig .tc .vmem S2048x784 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x784 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x256 .f32 := win0_4.stage (cfg0.slots t 4)
abbrev hs0_4 (t : Fin cfg0.N) : (ms0_4 t).IsWhole := hstage0_4 ((cfg0.slots t 4).cast nbuf0_4)
/-- The two accumulators (column sums, column sums of squares): whole scoped buffers passed beside the windows. -/
abbrev scM0_0 : Memref sig .tc .vmem S1x256 .f32 := Memref.whole cc0_scratch0
abbrev scM0_1 : Memref sig .tc .vmem S1x256 .f32 := Memref.whole cc0_scratch1
/-- The accumulators as views: what each holds between points is stated through them. -/
abbrev VS0_0 : View sig .tc .vmem S1x256 .f32 := scM0_0.view
abbrev VS0_1 : View sig .tc .vmem S1x256 .f32 := scM0_1.view

/-- The region invariant with the two accumulators as memrefs owned at some contents, the other scoped buffers
    unopened, and the generator register at some state. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.Kernel.Hand

end
-- ==== Proof.K.R0.RunA.lean ====
/- Region 0, the body's run at the first inner step of a core (the accumulators are zeroed, then the step's
   column sums are added; the partial-sum windows are left untouched). -/
import proofs.«118595_j1726576853663_2_alg».proof.Proof.K.R0.Runs

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the raw output's staging buffer and in the two accumulators at the first
    inner step, with the proof that from the inputs at their contents, the raw output and both accumulators at
    anything, and the partial-sum windows at contents handed back untouched, the body runs to those pieces written. -/
noncomputable def kernelRun0_A (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S2048x784 .f32) (x1 : Vec F S256x784 .bf16) :
    Σ' (L2 : List (View.Piece (Elt F) S2048x256 .f32)) (L3 : List (View.Piece (Elt F) S8x256 .f32)) (L4 : List (View.Piece (Elt F) S8x256 .f32)) (LS0 : List (View.Piece (Elt F) S1x256 .f32)), { LS1 : List (View.Piece (Elt F) S1x256 .f32) //
      ∀ (xi3 : Vec F S8x256 .f32) (xi4 : Vec F S8x256 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__layer0_kernel i arg2 harg2 arg3 harg3 arg4 harg4 arg5 harg5 arg6 harg6 arg7 harg7 arg8 harg8) K } := by
  refine ⟨?_, [], [], ?_, ?_, fun xi3 xi4 E K => ?run⟩
  case run =>
    simp only [cc0__layer0_kernel_eq_skeleton]; unfold cc0__layer0_kernel_skel
    simp only [k0_part1_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.K.R0.RunB.lean ====
/- Region 0, the body's run at a middle inner step (the step's column sums are added to the accumulators; the
   partial-sum windows are left untouched). -/
import proofs.«118595_j1726576853663_2_alg».proof.Proof.K.R0.RunA

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the raw output's staging buffer and in the two accumulators at a middle
    inner step, with the proof that from the inputs at their contents, the raw output at anything, the accumulators
    at what the step before left, and the partial-sum windows at contents handed back untouched, the body runs to
    those pieces written. -/
noncomputable def kernelRun0_B (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S2048x784 .f32) (x1 : Vec F S256x784 .bf16) (xs0 : Vec F S1x256 .f32) (xs1 : Vec F S1x256 .f32) :
    Σ' (L2 : List (View.Piece (Elt F) S2048x256 .f32)) (L3 : List (View.Piece (Elt F) S8x256 .f32)) (L4 : List (View.Piece (Elt F) S8x256 .f32)) (LS0 : List (View.Piece (Elt F) S1x256 .f32)), { LS1 : List (View.Piece (Elt F) S1x256 .f32) //
      ∀ (xi3 : Vec F S8x256 .f32) (xi4 : Vec F S8x256 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__layer0_kernel i arg2 harg2 arg3 harg3 arg4 harg4 arg5 harg5 arg6 harg6 arg7 harg7 arg8 harg8) K } := by
  refine ⟨?_, [], [], ?_, ?_, fun xi3 xi4 E K => ?run⟩
  case run =>
    simp only [cc0__layer0_kernel_eq_skeleton]; unfold cc0__layer0_kernel_skel
    simp only [k0_part1_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.K.R0.RunC.lean ====
/- Region 0, the body's run at the last inner step of a core (the step's column sums are added to the
   accumulators, which are then stored, broadcast to eight rows, into the two partial-sum windows). -/
import proofs.«118595_j1726576853663_2_alg».proof.Proof.K.R0.RunB

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three outputs' staging buffers and in the two accumulators at the
    last inner step, with the proof that from the inputs at their contents, the outputs at anything and the
    accumulators at what the step before left, the body runs to those pieces written. -/
noncomputable def kernelRun0_C (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) :
    Σ' (L2 : List (View.Piece (Elt F) S2048x256 .f32)) (L3 : List (View.Piece (Elt F) S8x256 .f32)) (L4 : List (View.Piece (Elt F) S8x256 .f32)) (LS0 : List (View.Piece (Elt F) S1x256 .f32)), { LS1 : List (View.Piece (Elt F) S1x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__layer0_kernel i arg2 harg2 arg3 harg3 arg4 harg4 arg5 harg5 arg6 harg6 arg7 harg7 arg8 harg8) K } := by
  refine ⟨?_, ?_, ?_, ?_, ?_, fun E K => ?run⟩
  case run =>
    simp only [cc0__layer0_kernel_eq_skeleton]; unfold cc0__layer0_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    iexists _; iexact HS1

end Cert.Kernel.Hand

end
-- ==== Proof.K.R0.Frame.lean ====
/- Region 0 of KernelIdeal: what its three outputs and two accumulators hold case by case and point by point,
   the pipeline's proof data over the region-entry contents, the body obligation, and the passage between the
   launch invariant and the point invariant (the accumulators' contents named after the first point). -/
import proofs.«118595_j1726576853663_2_alg».proof.Proof.K.R0.RunC

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves, buffer by buffer -/

/-- At the first inner step the body's one whole-block store into the raw output's staging buffer covers it. -/
theorem cover0_A_2 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S2048x784 .f32) (x1 : Vec F S256x784 .bf16) (y : S2048x256.Idx) :
    ∃ pc ∈ (kernelRun0_A c i arg2 harg2 arg3 harg3 arg4 harg4 arg5 harg5 arg6 harg6 arg7 harg7 arg8 harg8 hc0 hc1 x0 x1).1, y ∈ pc.1.set :=
  View.cover_of_tiledL (kernelRun0_A c i arg2 harg2 arg3 harg3 arg4 harg4 arg5 harg5 arg6 harg6 arg7 harg7 arg8 harg8 hc0 hc1 x0 x1).1 S2048x256.size (by sl_kernel_rfl) y

/-- What the first inner step leaves in the raw output's staging buffer: its pieces read back. -/
def out0_A_2 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S2048x784 .f32) (x1 : Vec F S256x784 .bf16) : Vec F S2048x256 .f32 :=
  VO0_2.read (Elt F) (VO0_2.writes (Elt F) VO0_2.junk (kernelRun0_A c i arg2 harg2 arg3 harg3 arg4 harg4 arg5 harg5 arg6 harg6 arg7 harg7 arg8 harg8 hc0 hc1 x0 x1).1)

/-- At the first inner step nothing is stored into the column-sum window's staging buffer (the window is idle there and not written back):
    a placeholder that nothing consults. -/
def out0_A_3 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S2048x784 .f32) (x1 : Vec F S256x784 .bf16) : Vec F S8x256 .f32 :=
  VO0_3.read (Elt F) (VO0_3.writes (Elt F) VO0_3.junk (kernelRun0_A c i arg2 harg2 arg3 harg3 arg4 harg4 arg5 harg5 arg6 harg6 arg7 harg7 arg8 harg8 hc0 hc1 x0 x1).2.1)

/-- At the first inner step nothing is stored into the sum-of-squares window's staging buffer (the window is idle there and not written back):
    a placeholder that nothing consults. -/
def out0_A_4 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S2048x784 .f32) (x1 : Vec F S256x784 .bf16) : Vec F S8x256 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1).2.2.1)

/-- At the first inner step the body's one whole-block store into the column-sum accumulator covers it. -/
theorem scover0_A_0 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S2048x784 .f32) (x1 : Vec F S256x784 .bf16) (y : S1x256.Idx) :
    ∃ pc ∈ (kernelRun0_A c i arg2 harg2 arg3 harg3 arg4 harg4 arg5 harg5 arg6 harg6 arg7 harg7 arg8 harg8 hc0 hc1 x0 x1).2.2.2.1, y ∈ pc.1.set :=
  View.cover_of_tiledL (kernelRun0_A c i arg2 harg2 arg3 harg3 arg4 harg4 arg5 harg5 arg6 harg6 arg7 harg7 arg8 harg8 hc0 hc1 x0 x1).2.2.2.1 S1x256.size (by sl_kernel_rfl) y

/-- What the first inner step leaves in the column-sum accumulator: its pieces read back. -/
def sout0_A_0 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S2048x784 .f32) (x1 : Vec F S256x784 .bf16) : Vec F S1x256 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1).2.2.2.1)

/-- At the first inner step the body's one whole-block store into the sum-of-squares accumulator covers it. -/
theorem scover0_A_1 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S2048x784 .f32) (x1 : Vec F S256x784 .bf16) (y : S1x256.Idx) :
    ∃ pc ∈ (kernelRun0_A c i arg2 harg2 arg3 harg3 arg4 harg4 arg5 harg5 arg6 harg6 arg7 harg7 arg8 harg8 hc0 hc1 x0 x1).2.2.2.2.1, y ∈ pc.1.set :=
  View.cover_of_tiledL (kernelRun0_A c i arg2 harg2 arg3 harg3 arg4 harg4 arg5 harg5 arg6 harg6 arg7 harg7 arg8 harg8 hc0 hc1 x0 x1).2.2.2.2.1 S1x256.size (by sl_kernel_rfl) y

/-- What the first inner step leaves in the sum-of-squares accumulator: its pieces read back. -/
def sout0_A_1 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S2048x784 .f32) (x1 : Vec F S256x784 .bf16) : Vec F S1x256 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1).2.2.2.2.1)

/-- At a middle inner step the body's one whole-block store into the raw output's staging buffer covers it. -/
theorem cover0_B_2 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S2048x784 .f32) (x1 : Vec F S256x784 .bf16) (xs0 : Vec F S1x256 .f32) (xs1 : Vec F S1x256 .f32) (y : S2048x256.Idx) :
    ∃ pc ∈ (kernelRun0_B c i arg2 harg2 arg3 harg3 arg4 harg4 arg5 harg5 arg6 harg6 arg7 harg7 arg8 harg8 hc0 hc1 x0 x1 xs0 xs1).1, y ∈ pc.1.set :=
  View.cover_of_tiledL (kernelRun0_B c i arg2 harg2 arg3 harg3 arg4 harg4 arg5 harg5 arg6 harg6 arg7 harg7 arg8 harg8 hc0 hc1 x0 x1 xs0 xs1).1 S2048x256.size (by sl_kernel_rfl) y

/-- What a middle inner step leaves in the raw output's staging buffer: its pieces read back. -/
def out0_B_2 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S2048x784 .f32) (x1 : Vec F S256x784 .bf16) (xs0 : Vec F S1x256 .f32) (xs1 : Vec F S1x256 .f32) : Vec F S2048x256 .f32 :=
  VO0_2.read (Elt F) (VO0_2.writes (Elt F) VO0_2.junk (kernelRun0_B c i arg2 harg2 arg3 harg3 arg4 harg4 arg5 harg5 arg6 harg6 arg7 harg7 arg8 harg8 hc0 hc1 x0 x1 xs0 xs1).1)

/-- At a middle inner step nothing is stored into the column-sum window's staging buffer (the window is idle there and not written back):
    a placeholder that nothing consults. -/
def out0_B_3 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S2048x784 .f32) (x1 : Vec F S256x784 .bf16) (xs0 : Vec F S1x256 .f32) (xs1 : Vec F S1x256 .f32) : Vec F S8x256 .f32 :=
  VO0_3.read (Elt F) (VO0_3.writes (Elt F) VO0_3.junk (kernelRun0_B c i arg2 harg2 arg3 harg3 arg4 harg4 arg5 harg5 arg6 harg6 arg7 harg7 arg8 harg8 hc0 hc1 x0 x1 xs0 xs1).2.1)

/-- At a middle inner step nothing is stored into the sum-of-squares window's staging buffer (the window is idle there and not written back):
    a placeholder that nothing consults. -/
def out0_B_4 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S2048x784 .f32) (x1 : Vec F S256x784 .bf16) (xs0 : Vec F S1x256 .f32) (xs1 : Vec F S1x256 .f32) : Vec F S8x256 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 xs0 xs1).2.2.1)

/-- At a middle inner step the body's one whole-block store into the column-sum accumulator covers it. -/
theorem scover0_B_0 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S2048x784 .f32) (x1 : Vec F S256x784 .bf16) (xs0 : Vec F S1x256 .f32) (xs1 : Vec F S1x256 .f32) (y : S1x256.Idx) :
    ∃ pc ∈ (kernelRun0_B c i arg2 harg2 arg3 harg3 arg4 harg4 arg5 harg5 arg6 harg6 arg7 harg7 arg8 harg8 hc0 hc1 x0 x1 xs0 xs1).2.2.2.1, y ∈ pc.1.set :=
  View.cover_of_tiledL (kernelRun0_B c i arg2 harg2 arg3 harg3 arg4 harg4 arg5 harg5 arg6 harg6 arg7 harg7 arg8 harg8 hc0 hc1 x0 x1 xs0 xs1).2.2.2.1 S1x256.size (by sl_kernel_rfl) y

/-- What a middle inner step leaves in the column-sum accumulator: its pieces read back. -/
def sout0_B_0 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S2048x784 .f32) (x1 : Vec F S256x784 .bf16) (xs0 : Vec F S1x256 .f32) (xs1 : Vec F S1x256 .f32) : Vec F S1x256 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 xs0 xs1).2.2.2.1)

/-- At a middle inner step the body's one whole-block store into the sum-of-squares accumulator covers it. -/
theorem scover0_B_1 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S2048x784 .f32) (x1 : Vec F S256x784 .bf16) (xs0 : Vec F S1x256 .f32) (xs1 : Vec F S1x256 .f32) (y : S1x256.Idx) :
    ∃ pc ∈ (kernelRun0_B c i arg2 harg2 arg3 harg3 arg4 harg4 arg5 harg5 arg6 harg6 arg7 harg7 arg8 harg8 hc0 hc1 x0 x1 xs0 xs1).2.2.2.2.1, y ∈ pc.1.set :=
  View.cover_of_tiledL (kernelRun0_B c i arg2 harg2 arg3 harg3 arg4 harg4 arg5 harg5 arg6 harg6 arg7 harg7 arg8 harg8 hc0 hc1 x0 x1 xs0 xs1).2.2.2.2.1 S1x256.size (by sl_kernel_rfl) y

/-- What a middle inner step leaves in the sum-of-squares accumulator: its pieces read back. -/
def sout0_B_1 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S2048x784 .f32) (x1 : Vec F S256x784 .bf16) (xs0 : Vec F S1x256 .f32) (xs1 : Vec F S1x256 .f32) : Vec F S1x256 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 xs0 xs1).2.2.2.2.1)

/-- At the last inner step the body's one whole-block store into the raw output's staging buffer covers it. -/
theorem cover0_C_2 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) (y : S2048x256.Idx) :
    ∃ pc ∈ (kernelRun0_C c i arg2 harg2 arg3 harg3 arg4 harg4 arg5 harg5 arg6 harg6 arg7 harg7 arg8 harg8 hc0 hc1 x0 x1 xs0 xs1).1, y ∈ pc.1.set :=
  View.cover_of_tiledL (kernelRun0_C c i arg2 harg2 arg3 harg3 arg4 harg4 arg5 harg5 arg6 harg6 arg7 harg7 arg8 harg8 hc0 hc1 x0 x1 xs0 xs1).1 S2048x256.size (by sl_kernel_rfl) y

/-- What the last inner step leaves in the raw output's staging buffer: its pieces read back. -/
def out0_C_2 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) : Vec F S2048x256 .f32 :=
  VO0_2.read (Elt F) (VO0_2.writes (Elt F) VO0_2.junk (kernelRun0_C c i arg2 harg2 arg3 harg3 arg4 harg4 arg5 harg5 arg6 harg6 arg7 harg7 arg8 harg8 hc0 hc1 x0 x1 xs0 xs1).1)

/-- At the last inner step the body's one whole-block store into the column-sum window's staging buffer covers it. -/
theorem cover0_C_3 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) (y : S8x256.Idx) :
    ∃ pc ∈ (kernelRun0_C c i arg2 harg2 arg3 harg3 arg4 harg4 arg5 harg5 arg6 harg6 arg7 harg7 arg8 harg8 hc0 hc1 x0 x1 xs0 xs1).2.1, y ∈ pc.1.set :=
  View.cover_of_tiledL (kernelRun0_C c i arg2 harg2 arg3 harg3 arg4 harg4 arg5 harg5 arg6 harg6 arg7 harg7 arg8 harg8 hc0 hc1 x0 x1 xs0 xs1).2.1 S8x256.size (by sl_kernel_rfl) y

/-- What the last inner step leaves in the column-sum window's staging buffer: its pieces read back. -/
def out0_C_3 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) : Vec F S8x256 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 xs0 xs1).2.1)

/-- At the last inner step the body's one whole-block store into the sum-of-squares window's staging buffer covers it. -/
theorem cover0_C_4 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) (y : S8x256.Idx) :
    ∃ pc ∈ (kernelRun0_C c i arg2 harg2 arg3 harg3 arg4 harg4 arg5 harg5 arg6 harg6 arg7 harg7 arg8 harg8 hc0 hc1 x0 x1 xs0 xs1).2.2.1, y ∈ pc.1.set :=
  View.cover_of_tiledL (kernelRun0_C c i arg2 harg2 arg3 harg3 arg4 harg4 arg5 harg5 arg6 harg6 arg7 harg7 arg8 harg8 hc0 hc1 x0 x1 xs0 xs1).2.2.1 S8x256.size (by sl_kernel_rfl) y

/-- What the last inner step leaves in the sum-of-squares window's staging buffer: its pieces read back. -/
def out0_C_4 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) : Vec F S8x256 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 xs0 xs1).2.2.1)

/-- At the last inner step the body's one whole-block store into the column-sum accumulator covers it. -/
theorem scover0_C_0 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) (y : S1x256.Idx) :
    ∃ pc ∈ (kernelRun0_C c i arg2 harg2 arg3 harg3 arg4 harg4 arg5 harg5 arg6 harg6 arg7 harg7 arg8 harg8 hc0 hc1 x0 x1 xs0 xs1).2.2.2.1, y ∈ pc.1.set :=
  View.cover_of_tiledL (kernelRun0_C c i arg2 harg2 arg3 harg3 arg4 harg4 arg5 harg5 arg6 harg6 arg7 harg7 arg8 harg8 hc0 hc1 x0 x1 xs0 xs1).2.2.2.1 S1x256.size (by sl_kernel_rfl) y

/-- What the last inner step leaves in the column-sum accumulator: its pieces read back. -/
def sout0_C_0 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) : Vec F S1x256 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 xs0 xs1).2.2.2.1)

/-- At the last inner step the body's one whole-block store into the sum-of-squares accumulator covers it. -/
theorem scover0_C_1 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) (y : S1x256.Idx) :
    ∃ pc ∈ (kernelRun0_C c i arg2 harg2 arg3 harg3 arg4 harg4 arg5 harg5 arg6 harg6 arg7 harg7 arg8 harg8 hc0 hc1 x0 x1 xs0 xs1).2.2.2.2.1, y ∈ pc.1.set :=
  View.cover_of_tiledL (kernelRun0_C c i arg2 harg2 arg3 harg3 arg4 harg4 arg5 harg5 arg6 harg6 arg7 harg7 arg8 harg8 hc0 hc1 x0 x1 xs0 xs1).2.2.2.2.1 S1x256.size (by sl_kernel_rfl) y

/-- What the last inner step leaves in the sum-of-squares accumulator: its pieces read back. -/
def sout0_C_1 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) : Vec F S1x256 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 xs0 xs1).2.2.2.2.1)

/-! ## What the outputs and the accumulators hold after each point -/

/-- After the body at position `n`: the raw output's, the column-sum window's and the sum-of-squares window's
    staging buffers, then the two accumulators. The case is selected by `n` mod 16; a case that reads the accumulators
    reads what position `n - 1` left in them. -/
def outsAt0 (c : Dev nD) : (n : ℕ) → n < cfg0.N → Vec F S2048x256 .f32 × Vec F S8x256 .f32 × Vec F S8x256 .f32 × Vec F S1x256 .f32 × Vec F S1x256 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.1 (outsAt0 c n (Nat.lt_of_succ_lt hn)).2.2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.2.1 (outsAt0 c n (Nat.lt_of_succ_lt hn)).2.2.2.2)

/-- `outsAt0` at a first inner step. -/
theorem outsAt0_A (c : Dev nD) (t : Fin cfg0.N) (h0 : t.val % 16 = 0) (h1 : ¬t.val % 16 = 15) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a middle inner step: over what the point before left in the accumulators. -/
theorem outsAt0_B (c : Dev nD) (t : Fin cfg0.N) (h0 : ¬t.val % 16 = 0) (h1 : ¬t.val % 16 = 15) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last inner step: over what the point before left in the accumulators. -/
theorem outsAt0_C (c : Dev nD) (t : Fin cfg0.N) (h0 : ¬t.val % 16 = 0) (h1 : t.val % 16 = 15) :
    outsAt0 V c t.val t.isLt = (out0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch invariant (every scoped buffer at
    anything); afterwards the two accumulators at what the point before left in them, the other scoped buffers
    unopened, and the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2)) ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2)) ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2)) ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of the region's pipeline on core `c`: the arrays as the region finds them; after the body at point
    `t` each input's buffer at its block and the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The post of a window that is live at the point: its buffer at what the body leaves. -/
theorem leaves0_0 (c : Dev nD) (t : Fin cfg0.N) :
    (dat0 V c).leavesExact 0 t = owns (c : Thread nD τ) (ms0_0 t) fullShare ((dat0 V c).after 0 t) := by
  unfold Dat.leavesExact; rw [liveAt0_0 t]
theorem leaves0_1 (c : Dev nD) (t : Fin cfg0.N) :
    (dat0 V c).leavesExact 1 t = owns (c : Thread nD τ) (ms0_1 t) fullShare ((dat0 V c).after 1 t) := by
  unfold Dat.leavesExact; rw [liveAt0_1 t]
theorem leaves0_2 (c : Dev nD) (t : Fin cfg0.N) :
    (dat0 V c).leavesExact 2 t = owns (c : Thread nD τ) (ms0_2 t) fullShare ((dat0 V c).after 2 t) := by
  unfold Dat.leavesExact; rw [liveAt0_2 t]
theorem leaves0_3_C (c : Dev nD) (t : Fin cfg0.N) (h0 : ¬cond0_0 (grid0.coords t)) (h1 : cond0_1 (grid0.coords t)) :
    (dat0 V c).leavesExact 3 t = owns (c : Thread nD τ) (ms0_3 t) fullShare ((dat0 V c).after 3 t) := by
  unfold Dat.leavesExact; rw [liveAt0_3_C t h0 h1]
theorem leaves0_4_C (c : Dev nD) (t : Fin cfg0.N) (h0 : ¬cond0_0 (grid0.coords t)) (h1 : cond0_1 (grid0.coords t)) :
    (dat0 V c).leavesExact 4 t = owns (c : Thread nD τ) (ms0_4 t) fullShare ((dat0 V c).after 4 t) := by
  unfold Dat.leavesExact; rw [liveAt0_4_C t h0 h1]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' buffers hold their blocks; `t` mod 16 says which case the point is in; the
    invariant hands the body the accumulators (at anything at the very first point, at what the point before left
    afterwards) and takes them back at this point's contents; where the partial-sum windows are idle their buffers
    pass through untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, after0_0, after0_1, after0_2]
  have hN : t.val < 32 := lt_of_lt_of_eq t.isLt (show cfg0.N = 32 from N_0)
  by_cases h0 : t.val % 16 = 0
  · by_cases h1 : t.val % 16 = 15
    · exfalso; omega
    · rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold out0_A_2 sout0_A_0 sout0_A_1; (try dsimp only)
      by_cases hz : t.val = 0
      · rw [PhiS0_castSucc V c t, PhiS0_zero V c _ _ hz, PhiA0_eq]
        iintro ⟨⟨⟨⟨HS0, HS1⟩, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t)).2.2.2.2.2 _ _ Set.univ _)
        isplitl [H0]; · iexact H0
        isplitl [H1]; · iexact H1
        isplitl [H2]; · iexists _; iexact H2
        isplitl [H3]; · iexact H3
        isplitl [H4]; · iexact H4
        isplitl [HS0]; · iexact HS0
        isplitl [HS1]; · iexact HS1
        iintro ⟨H0, H1, ⟨%e2, H2⟩, H3, H4, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _ _ _ _ _)
        isplitl [H3]; · iexists _; iexact H3
        iexists _; iexact H4
      · rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t)).2.2.2.2.2 _ _ Set.univ _)
        isplitl [H0]; · iexact H0
        isplitl [H1]; · iexact H1
        isplitl [H2]; · iexists _; iexact H2
        isplitl [H3]; · iexact H3
        isplitl [H4]; · iexact H4
        isplitl [HS0]; · iexists _; iexact HS0
        isplitl [HS1]; · iexists _; iexact HS1
        iintro ⟨H0, H1, ⟨%e2, H2⟩, H3, H4, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _ _ _ _ _)
        isplitl [H3]; · iexists _; iexact H3
        iexists _; iexact H4
  · have hz : t.val ≠ 0 := fun e => h0 (by rw [e])
    by_cases h1 : t.val % 16 = 15
    · rw [leaves0_3_C V c t (fun h => h0 ((hcond0_0 t).mp h)) ((hcond0_1 t).mpr h1), leaves0_4_C V c t (fun h => h0 ((hcond0_0 t).mp h)) ((hcond0_1 t).mpr h1), after0_3, after0_4]
      rw [outsAt0_C V c t h0 h1]
      unfold out0_C_2 out0_C_3 out0_C_4 sout0_C_0 sout0_C_1; (try dsimp only)
      · rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) _ _).2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexact HS1
        iintro ⟨H0, H1, ⟨%e2, H2⟩, ⟨%e3, H3⟩, ⟨%e4, H4⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _)
              unfold owns; iexists _; isplitr
              swap; · iexact HS1
              ipureintro; exact View.read_writes_of_cover _ _ _ _ _ (scover0_C_1 c _ _ _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _ _ _)
        isplitl [H3]
        · unfold owns; iexists _; isplitr
          swap; · iexact H3
          ipureintro; exact View.read_writes_of_cover _ _ _ _ _ (cover0_C_3 c _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _)
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold out0_B_2 sout0_B_0 sout0_B_1; (try dsimp only)
      · rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) _ _).2.2.2.2.2 _ _ Set.univ _)
        isplitl [H0]; · iexact H0
        isplitl [H1]; · iexact H1
        isplitl [H2]; · iexists _; iexact H2
        isplitl [H3]; · iexact H3
        isplitl [H4]; · iexact H4
        isplitl [HS0]; · iexact HS0
        isplitl [HS1]; · iexact HS1
        iintro ⟨H0, H1, ⟨%e2, H2⟩, H3, H4, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _)
              unfold owns; iexists _; isplitr
              swap; · iexact HS1
              ipureintro; exact View.read_writes_of_cover _ _ _ _ _ (scover0_B_1 c _ _ _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_B_2 c _ _ _ _ _ _ _ _ _ _ _ _ _ _ _ _ _ _ _ _ _)
        isplitl [H3]; · iexists _; iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch invariant back: the accumulators' named contents
    are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.Kernel.Hand

end
-- ==== Proof.K.R1.Runs.lean ====
/- Region 1 of the program (custom_call 1, `cc1__fused_layer_kernel`): what the three runs of its body share. The windows' blocks read off
   the region-entry contents `V`; the two branch conditions of the body in closed form over the grid (the first holds exactly at the
   points t with t % 16 = 0, where the two accumulators are zeroed; the second exactly at t % 16 = 15, where they are stored,
   broadcast to eight rows, into windows 7 and 8); where windows 7 and 8 are idle and not written back; the staging and scratch
   memrefs; and the region invariant with the two accumulators split out of the scoped rest. -/
import proofs.«118595_j1726576853663_2_alg».proof.Proof.Gen.Kernel.Launch
import proofs.«118595_j1726576853663_2_alg».proof.Proof.Gen.Kernel.Skeleton
import proofs.«118595_j1726576853663_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data whose
    array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data whose
    array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data whose
    array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data whose
    array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data whose
    array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data whose
    array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the accumulators are zeroed under it), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16): decided over the grid. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second conditional (the accumulators are stored into windows 7 and 8 under it). -/
abbrev cond1_1 (i : grid1.Coords) : Prop := k1_cond2 i = 1#1
/-- It holds at the points ≡ 15 (mod 16): decided over the grid. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- Window 0 is never idle. -/
theorem liveAt1_0 : ∀ t : Fin cfg1.N, cfg1.idle 0 (grid1.coords t) = false := by decide +kernel
/-- Window 1 is never idle. -/
theorem liveAt1_1 : ∀ t : Fin cfg1.N, cfg1.idle 1 (grid1.coords t) = false := by decide +kernel
/-- Window 2 is never idle. -/
theorem liveAt1_2 : ∀ t : Fin cfg1.N, cfg1.idle 2 (grid1.coords t) = false := by decide +kernel
/-- Window 3 is never idle. -/
theorem liveAt1_3 : ∀ t : Fin cfg1.N, cfg1.idle 3 (grid1.coords t) = false := by decide +kernel
/-- Window 4 is never idle. -/
theorem liveAt1_4 : ∀ t : Fin cfg1.N, cfg1.idle 4 (grid1.coords t) = false := by decide +kernel
/-- Window 5 is never idle. -/
theorem liveAt1_5 : ∀ t : Fin cfg1.N, cfg1.idle 5 (grid1.coords t) = false := by decide +kernel
/-- Window 6 is never idle. -/
theorem liveAt1_6 : ∀ t : Fin cfg1.N, cfg1.idle 6 (grid1.coords t) = false := by decide +kernel
/-- At the points where the first condition holds and the second does not, window 7 is idle (nothing is stored into it) -/
theorem idleAt1_7_A : ∀ t : Fin cfg1.N, cond1_0 (grid1.coords t) → ¬cond1_1 (grid1.coords t) → cfg1.idle 7 (grid1.coords t) = true := by decide +kernel
/-- and its block is not written back. -/
theorem noFlush1_7_A : ∀ t : Fin cfg1.N, cond1_0 (grid1.coords t) → ¬cond1_1 (grid1.coords t) → (cfg1.win 7).flush t = false := by decide +kernel
/-- The same where neither condition holds. -/
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
/-- Where the second condition holds (and the first does not) window 7 is live: the body stores into it. -/
theorem liveAt1_7_C : ∀ t : Fin cfg1.N, ¬cond1_0 (grid1.coords t) → cond1_1 (grid1.coords t) → cfg1.idle 7 (grid1.coords t) = false := by decide +kernel
/-- At the points where the first condition holds and the second does not, window 8 is idle (nothing is stored into it) -/
theorem idleAt1_8_A : ∀ t : Fin cfg1.N, cond1_0 (grid1.coords t) → ¬cond1_1 (grid1.coords t) → cfg1.idle 8 (grid1.coords t) = true := by decide +kernel
/-- and its block is not written back. -/
theorem noFlush1_8_A : ∀ t : Fin cfg1.N, cond1_0 (grid1.coords t) → ¬cond1_1 (grid1.coords t) → (cfg1.win 8).flush t = false := by decide +kernel
/-- The same where neither condition holds. -/
theorem idleAt1_8_B : ∀ t : Fin cfg1.N, ¬cond1_0 (grid1.coords t) → ¬cond1_1 (grid1.coords t) → cfg1.idle 8 (grid1.coords t) = true := by decide +kernel
theorem noFlush1_8_B : ∀ t : Fin cfg1.N, ¬cond1_0 (grid1.coords t) → ¬cond1_1 (grid1.coords t) → (cfg1.win 8).flush t = false := by decide +kernel
/-- Where the second condition holds (and the first does not) window 8 is live: the body stores into it. -/
theorem liveAt1_8_C : ∀ t : Fin cfg1.N, ¬cond1_0 (grid1.coords t) → cond1_1 (grid1.coords t) → cfg1.idle 8 (grid1.coords t) = false := by decide +kernel

/-! ## The staging and scratch memrefs -/

/-- One staging buffer of output window 6, through which its contents are stated (the choice does not matter). -/
abbrev VO1_6 : View sig .tc .vmem S2048x256 .f32 := (Memref.whole cc1_stg6_0 : Memref sig .tc .vmem S2048x256 .f32).view
/-- One staging buffer of output window 7, through which its contents are stated (the choice does not matter). -/
abbrev VO1_7 : View sig .tc .vmem S8x256 .f32 := (Memref.whole cc1_stg7_0 : Memref sig .tc .vmem S8x256 .f32).view
/-- One staging buffer of output window 8, through which its contents are stated (the choice does not matter). -/
abbrev VO1_8 : View sig .tc .vmem S8x256 .f32 := (Memref.whole cc1_stg8_0 : Memref sig .tc .vmem S8x256 .f32).view
/-- Each window's current staging memref at point `t`, spelled as the pipeline passes it, and its wholeness. -/
abbrev ms1_0 (t : Fin cfg1.N) : Memref sig .tc .vmem S2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S8x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S8x256 .f32 := win1_8.stage (cfg1.slots t 8)
abbrev hs1_8 (t : Fin cfg1.N) : (ms1_8 t).IsWhole := hstage1_8 ((cfg1.slots t 8).cast nbuf1_8)
/-- The scratch operands (the two accumulators): whole scoped buffers of the kernel's own, passed beside the windows. -/
abbrev scM1_0 : Memref sig .tc .vmem S1x256 .f32 := Memref.whole cc1_scratch0
abbrev VS1_0 : View sig .tc .vmem S1x256 .f32 := scM1_0.view
abbrev scM1_1 : Memref sig .tc .vmem S1x256 .f32 := Memref.whole cc1_scratch1
abbrev VS1_1 : View sig .tc .vmem S1x256 .f32 := scM1_1.view

/-- The region invariant with the two accumulators as memrefs owned at some contents, the remainder of the scoped rest unopened
    beside them, and the generator register at some state: what the body obligation hands the run and takes back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.Kernel.Hand

end
-- ==== Proof.K.R1.RunA.lean ====
/- Region 1: the whole-body run of `cc1__fused_layer_kernel` in control case A. -/
import proofs.«118595_j1726576853663_2_alg».proof.Proof.K.R1.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the first condition holds and the second does not (t % 16 = 0: the accumulators are zeroed, then
    added to; nothing is stored into windows 7 and 8).
    What the body's stores leave in each output's staging memref and in each accumulator, as pieces (last first), WITH the proof
    that on whole memrefs — the inputs' at their contents `x·`, output 6's at anything, outputs 7 and 8 at contents `xi·` handed back untouched,
    the accumulators at anything — the body runs to the continuation holding the inputs' as they were
    and every stored buffer with its pieces written. The printed function and its part are their skeletons; each conditional is decided
    by the case's hypotheses; the pieces are the witness the run finds. -/
noncomputable def kernelRun1_A (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) :
    Σ' (L6 : List (View.Piece (Elt F) S2048x256 .f32)), Σ' (L7 : List (View.Piece (Elt F) S8x256 .f32)), Σ' (L8 : List (View.Piece (Elt F) S8x256 .f32)), Σ' (LS0 : List (View.Piece (Elt F) S1x256 .f32)), { LS1 : List (View.Piece (Elt F) S1x256 .f32) //
      ∀ (xi7 xi8 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__fused_layer_kernel i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc1__fused_layer_kernel_eq_skeleton]; unfold cc1__fused_layer_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.Kernel.Hand

end
-- ==== Proof.K.R1.RunB.lean ====
/- Region 1: the whole-body run of `cc1__fused_layer_kernel` in control case B. -/
import proofs.«118595_j1726576853663_2_alg».proof.Proof.K.R1.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where neither condition holds (0 < t % 16 < 15: the accumulators, carried from the point before, are
    added to; nothing is stored into windows 7 and 8).
    What the body's stores leave in each output's staging memref and in each accumulator, as pieces (last first), WITH the proof
    that on whole memrefs — the inputs' at their contents `x·`, output 6's at anything, outputs 7 and 8 at contents `xi·` handed back untouched,
    the accumulators at the contents `xs·` the point before left — the body runs to the continuation holding the inputs' as they were
    and every stored buffer with its pieces written. The printed function and its part are their skeletons; each conditional is decided
    by the case's hypotheses; the pieces are the witness the run finds. -/
noncomputable def kernelRun1_B (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    Σ' (L6 : List (View.Piece (Elt F) S2048x256 .f32)), Σ' (L7 : List (View.Piece (Elt F) S8x256 .f32)), Σ' (L8 : List (View.Piece (Elt F) S8x256 .f32)), Σ' (LS0 : List (View.Piece (Elt F) S1x256 .f32)), { LS1 : List (View.Piece (Elt F) S1x256 .f32) //
      ∀ (xi7 xi8 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__fused_layer_kernel i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc1__fused_layer_kernel_eq_skeleton]; unfold cc1__fused_layer_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.Kernel.Hand

end
-- ==== Proof.K.R1.RunC.lean ====
/- Region 1: the whole-body run of `cc1__fused_layer_kernel` in control case C. -/
import proofs.«118595_j1726576853663_2_alg».proof.Proof.K.R1.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the second condition holds and the first does not (t % 16 = 15: the accumulators, carried from the
    point before, are added to and then stored, broadcast to eight rows, into windows 7 and 8).
    What the body's stores leave in each output's staging memref and in each accumulator, as pieces (last first), WITH the proof
    that on whole memrefs — the inputs' at their contents `x·`, output 6's at anything, outputs 7 and 8 at anything,
    the accumulators at the contents `xs·` the point before left — the body runs to the continuation holding the inputs' as they were
    and every stored buffer with its pieces written. The printed function and its part are their skeletons; each conditional is decided
    by the case's hypotheses; the pieces are the witness the run finds. -/
noncomputable def kernelRun1_C (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    Σ' (L6 : List (View.Piece (Elt F) S2048x256 .f32)), Σ' (L7 : List (View.Piece (Elt F) S8x256 .f32)), Σ' (L8 : List (View.Piece (Elt F) S8x256 .f32)), Σ' (LS0 : List (View.Piece (Elt F) S1x256 .f32)), { LS1 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__fused_layer_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1__fused_layer_kernel_eq_skeleton]; unfold cc1__fused_layer_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.R1.Frame.lean ====
/- Region 1: the frame lemmas of custom_call 1 at the region-entry contents `V`. What each control case leaves in the outputs' staging
   buffers and in the two accumulators (the pieces the runs found, read back; they cover each buffer), the same point by point along the
   grid (`outsAt1`: an accumulator at a point other than the first of a core continues from what the point before left), the region
   invariant carrying the accumulators at those contents, the pipeline's proof data, and the body obligation with its entry and exit. -/
import proofs.«118595_j1726576853663_2_alg».proof.Proof.K.R1.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces for output 6 tile its block (one store of the whole block), so they cover it. -/
theorem cover1_A_6 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (y : S2048x256.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).1 S2048x256.size (by sl_kernel_rfl) y

/-- What case A leaves in output 6's staging buffer: its pieces read back over junk. -/
def out1_A_6 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) : Vec F S2048x256 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).1)

/-- Case A stores nothing into output 7 (the window is idle at its points and not written back there): no pieces, a
    placeholder that nothing consults. -/
def out1_A_7 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) : Vec F S8x256 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.1)

/-- Case A stores nothing into output 8 (the window is idle at its points and not written back there): no pieces, a
    placeholder that nothing consults. -/
def out1_A_8 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) : Vec F S8x256 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.2.1)

/-- Case A's pieces for accumulator 0 cover it. -/
theorem scover1_A_0 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (y : S1x256.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1 S1x256.size (by sl_kernel_rfl) y

/-- What case A leaves in accumulator 0: its pieces read back over junk. -/
def sout1_A_0 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) : Vec F S1x256 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1)

/-- Case A's pieces for accumulator 1 cover it. -/
theorem scover1_A_1 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (y : S1x256.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1 S1x256.size (by sl_kernel_rfl) y

/-- What case A leaves in accumulator 1: its pieces read back over junk. -/
def sout1_A_1 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) : Vec F S1x256 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1)

/-- Case B's pieces for output 6 tile its block (one store of the whole block), so they cover it. -/
theorem cover1_B_6 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S2048x256.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S2048x256.size (by sl_kernel_rfl) y

/-- What case B leaves in output 6's staging buffer: its pieces read back over junk. -/
def out1_B_6 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S2048x256 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case B stores nothing into output 7 (the window is idle at its points and not written back there): no pieces, a
    placeholder that nothing consults. -/
def out1_B_7 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case B stores nothing into output 8 (the window is idle at its points and not written back there): no pieces, a
    placeholder that nothing consults. -/
def out1_B_8 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case B's pieces for accumulator 0 cover it. -/
theorem scover1_B_0 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 S1x256.size (by sl_kernel_rfl) y

/-- What case B leaves in accumulator 0: its pieces read back over junk. -/
def sout1_B_0 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-- Case B's pieces for accumulator 1 cover it. -/
theorem scover1_B_1 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S1x256.size (by sl_kernel_rfl) y

/-- What case B leaves in accumulator 1: its pieces read back over junk. -/
def sout1_B_1 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

/-- Case C's pieces for output 6 tile its block (one store of the whole block), so they cover it. -/
theorem cover1_C_6 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S2048x256.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S2048x256.size (by sl_kernel_rfl) y

/-- What case C leaves in output 6's staging buffer: its pieces read back over junk. -/
def out1_C_6 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S2048x256 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case C's pieces for output 7 tile its block (one store of the whole block), so they cover it. -/
theorem cover1_C_7 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S8x256.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 S8x256.size (by sl_kernel_rfl) y

/-- What case C leaves in output 7's staging buffer: its pieces read back over junk. -/
def out1_C_7 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case C's pieces for output 8 tile its block (one store of the whole block), so they cover it. -/
theorem cover1_C_8 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S8x256.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1 S8x256.size (by sl_kernel_rfl) y

/-- What case C leaves in output 8's staging buffer: its pieces read back over junk. -/
def out1_C_8 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case C's pieces for accumulator 0 cover it. -/
theorem scover1_C_0 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 S1x256.size (by sl_kernel_rfl) y

/-- What case C leaves in accumulator 0: its pieces read back over junk. -/
def sout1_C_0 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-- Case C's pieces for accumulator 1 cover it. -/
theorem scover1_C_1 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S1x256.size (by sl_kernel_rfl) y

/-- What case C leaves in accumulator 1: its pieces read back over junk. -/
def sout1_C_1 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

/-! ## What the outputs and the accumulators hold after each point -/

/-- THE ACCUMULATION. What the outputs' staging buffers and the two accumulators hold after the body at position `n` (the outputs in window
    order, then the accumulators): the case the closed forms select at `n`, run at the point's memrefs and input blocks, an accumulator
    at a point other than a core's first continuing from what this leaves at `n - 1`. Both conditions at once is no point. -/
def outsAt1 (c : Dev nD) : (n : ℕ) → n < cfg1.N → Vec F S2048x256 .f32 × Vec F S8x256 .f32 × Vec F S8x256 .f32 × Vec F S1x256 .f32 × Vec F S1x256 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 16 = 0 then
      if h1 : (n + 1) % 16 = 15 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 16 = 15 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2)

/-- `outsAt1` at a point of case A: that case's contents. -/
theorem outsAt1_A (c : Dev nD) (t : Fin cfg1.N) (h0 : t.val % 16 = 0) (h1 : ¬t.val % 16 = 15) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 16 = 0) (h1 : ¬t.val % 16 = 15) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 16 = 0) (h1 : t.val % 16 = 15) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the class's (every scratch at anything); afterwards the two
    accumulators at what the point before left in them, the remainder of the scoped rest unopened, and the generator register at
    some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2))
          ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = iprop(iprop(iprop(owns (c : Thread nD τ) scM1_0 fullShare ((outsAt1 V c n hn).2.2.2.1) ∗ owns (c : Thread nD τ) scM1_1 fullShare ((outsAt1 V c n hn).2.2.2.2))
          ∗ Pipeline.scopedRestBut (Ix := Unit) (Name := ℕ) (U := UR sig nD τ) (Lvl := ℕ) (Val := Elt F) spec1 c [cc1_scratch0, cc1_scratch1]) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2))
          ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

/-- The proof data of pipeline 1 on core `c`: the arrays as the region finds them (`V`); after the body at point `t` each input's
    buffer at its block and the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
    | ⟨8, _⟩ => (outsAt1 V c t.val t.isLt).2.2.1
  Φ t := PhiS1 V c t.val (Nat.le_of_lt_succ t.isLt)
  q _ := fullShare
  owed _ := 0

/-- The proof data's arrays are the region-entry contents . -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]
theorem after1_8 (c : Dev nD) (t : Fin cfg1.N) : (dat1 V c).after 8 t = (outsAt1 V c t.val t.isLt).2.2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- A window live at a point is left at what the body leaves in it. -/
theorem leaves1_0 (c : Dev nD) (t : Fin cfg1.N) : (dat1 V c).leavesExact 0 t = owns (c : Thread nD τ) (ms1_0 t) fullShare ((dat1 V c).after 0 t) := by
  unfold Dat.leavesExact; rw [liveAt1_0 t]
theorem leaves1_1 (c : Dev nD) (t : Fin cfg1.N) : (dat1 V c).leavesExact 1 t = owns (c : Thread nD τ) (ms1_1 t) fullShare ((dat1 V c).after 1 t) := by
  unfold Dat.leavesExact; rw [liveAt1_1 t]
theorem leaves1_2 (c : Dev nD) (t : Fin cfg1.N) : (dat1 V c).leavesExact 2 t = owns (c : Thread nD τ) (ms1_2 t) fullShare ((dat1 V c).after 2 t) := by
  unfold Dat.leavesExact; rw [liveAt1_2 t]
theorem leaves1_3 (c : Dev nD) (t : Fin cfg1.N) : (dat1 V c).leavesExact 3 t = owns (c : Thread nD τ) (ms1_3 t) fullShare ((dat1 V c).after 3 t) := by
  unfold Dat.leavesExact; rw [liveAt1_3 t]
theorem leaves1_4 (c : Dev nD) (t : Fin cfg1.N) : (dat1 V c).leavesExact 4 t = owns (c : Thread nD τ) (ms1_4 t) fullShare ((dat1 V c).after 4 t) := by
  unfold Dat.leavesExact; rw [liveAt1_4 t]
theorem leaves1_5 (c : Dev nD) (t : Fin cfg1.N) : (dat1 V c).leavesExact 5 t = owns (c : Thread nD τ) (ms1_5 t) fullShare ((dat1 V c).after 5 t) := by
  unfold Dat.leavesExact; rw [liveAt1_5 t]
theorem leaves1_6 (c : Dev nD) (t : Fin cfg1.N) : (dat1 V c).leavesExact 6 t = owns (c : Thread nD τ) (ms1_6 t) fullShare ((dat1 V c).after 6 t) := by
  unfold Dat.leavesExact; rw [liveAt1_6 t]
theorem leaves1_7_C (c : Dev nD) (t : Fin cfg1.N) (h0 : ¬cond1_0 (grid1.coords t)) (h1 : cond1_1 (grid1.coords t)) : (dat1 V c).leavesExact 7 t = owns (c : Thread nD τ) (ms1_7 t) fullShare ((dat1 V c).after 7 t) := by
  unfold Dat.leavesExact; rw [liveAt1_7_C t h0 h1]
theorem leaves1_8_C (c : Dev nD) (t : Fin cfg1.N) (h0 : ¬cond1_0 (grid1.coords t)) (h1 : cond1_1 (grid1.coords t)) : (dat1 V c).leavesExact 8 t = owns (c : Thread nD τ) (ms1_8 t) fullShare ((dat1 V c).after 8 t) := by
  unfold Dat.leavesExact; rw [liveAt1_8_C t h0 h1]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point: the inputs' memrefs hold their blocks; the closed forms say which case the point is in, so that case's run
    applies; the invariant hands the body the accumulators at what the point before left (at anything at the first point) and the
    generator register, and takes the accumulators back at this point's contents (their pieces cover them); a window idle at the point
    is handed back untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 16 = 0
  · by_cases h1 : t.val % 16 = 15
    · exfalso; omega
    · rw [leaves1_0 V c t, leaves1_1 V c t, leaves1_2 V c t, leaves1_3 V c t, leaves1_4 V c t, leaves1_5 V c t, leaves1_6 V c t, after1_0, after1_1, after1_2, after1_3, after1_4, after1_5, after1_6]
      rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      rw [Dat.leavesExact_idle (dat1 V c) 8 t (idleAt1_8_A t ((hcond1_0 t).mpr h0) (fun h => h1 ((hcond1_1 t).mp h))) (noFlush1_8_A t ((hcond1_0 t).mpr h0) (fun h => h1 ((hcond1_1 t).mp h)))]
      rw [outsAt1_A V c t h0 h1]
      unfold out1_A_6 sout1_A_0 sout1_A_1; (try dsimp only)
      by_cases hz : t.val = 0
      · rw [PhiS1_castSucc V c t, PhiS1_zero V c _ _ hz, PhiA1_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover1_A_6 c _ _ _ _ _ _ _ _ _ _ _ _ _ _ _ _ _ _ _ _ _ _ _ _ _ _ _ _ _ _ _)
        isplitl [H7]; · iexists _; iexact H7
        iexists _; iexact H8
      · rw [PhiS1_castSucc V c t, PhiS1_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexists _; iexact HS0
        isplitl [HS1]; · iexists _; iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover1_A_6 c _ _ _ _ _ _ _ _ _ _ _ _ _ _ _ _ _ _ _ _ _ _ _ _ _ _ _ _ _ _ _)
        isplitl [H7]; · iexists _; iexact H7
        iexists _; iexact H8
  · by_cases h1 : t.val % 16 = 15
    · rw [leaves1_0 V c t, leaves1_1 V c t, leaves1_2 V c t, leaves1_3 V c t, leaves1_4 V c t, leaves1_5 V c t, leaves1_6 V c t, after1_0, after1_1, after1_2, after1_3, after1_4, after1_5, after1_6]
      rw [leaves1_7_C V c t (fun h => h0 ((hcond1_0 t).mp h)) ((hcond1_1 t).mpr h1), leaves1_8_C V c t (fun h => h0 ((hcond1_0 t).mp h)) ((hcond1_1 t).mpr h1), after1_7, after1_8]
      rw [outsAt1_C V c t h0 h1]
      unfold out1_C_6 out1_C_7 out1_C_8 sout1_C_0 sout1_C_1; (try dsimp only)
      have hz : t.val ≠ 0 := by omega
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover1_C_8 c _ _ _ _ _ _ _ _ _ _ _ _ _ _ _ _ _ _ _ _ _ _ _ _ _ _ _ _ _ _ _ _ _)
    · rw [leaves1_0 V c t, leaves1_1 V c t, leaves1_2 V c t, leaves1_3 V c t, leaves1_4 V c t, leaves1_5 V c t, leaves1_6 V c t, after1_0, after1_1, after1_2, after1_3, after1_4, after1_5, after1_6]
      rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [Dat.leavesExact_idle (dat1 V c) 8 t (idleAt1_8_B t (fun h => h0 ((hcond1_0 t).mp h)) (fun h => h1 ((hcond1_1 t).mp h))) (noFlush1_8_B t (fun h => h0 ((hcond1_0 t).mp h)) (fun h => h1 ((hcond1_1 t).mp h)))]
      rw [outsAt1_B V c t h0 h1]
      unfold out1_B_6 sout1_B_0 sout1_B_1; (try dsimp only)
      have hz : t.val ≠ 0 := by omega
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.K.R2.Runs.lean ====
/- Region 2 of the program (custom_call 2, `cc2__fused_layer_kernel`): what the three runs of its body share. The windows' blocks read off
   the region-entry contents `V`; the two branch conditions of the body in closed form over the grid (the first holds exactly at the
   points t with t % 16 = 0, where the two accumulators are zeroed; the second exactly at t % 16 = 15, where they are stored,
   broadcast to eight rows, into windows 7 and 8); where windows 7 and 8 are idle and not written back; the staging and scratch
   memrefs; and the region invariant with the two accumulators split out of the scoped rest. -/
import proofs.«118595_j1726576853663_2_alg».proof.Proof.Gen.Kernel.Launch
import proofs.«118595_j1726576853663_2_alg».proof.Proof.Gen.Kernel.Skeleton
import proofs.«118595_j1726576853663_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data whose
    array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data whose
    array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data whose
    array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data whose
    array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data whose
    array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data whose
    array is `V`'s and whose body leaves the block in place: unfetched, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first conditional (the accumulators are zeroed under it), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 16): decided over the grid. -/
theorem hcond2_0 : ∀ t : Fin cfg2.N, cond2_0 (grid2.coords t) ↔ t.val % 16 = 0 :=
  (by decide +kernel : ∀ t : Fin grid2.N, cond2_0 (grid2.coords t) ↔ t.val % 16 = 0)

/-- The condition of the body's second conditional (the accumulators are stored into windows 7 and 8 under it). -/
abbrev cond2_1 (i : grid2.Coords) : Prop := k2_cond2 i = 1#1
/-- It holds at the points ≡ 15 (mod 16): decided over the grid. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

/-- Window 0 is never idle. -/
theorem liveAt2_0 : ∀ t : Fin cfg2.N, cfg2.idle 0 (grid2.coords t) = false := by decide +kernel
/-- Window 1 is never idle. -/
theorem liveAt2_1 : ∀ t : Fin cfg2.N, cfg2.idle 1 (grid2.coords t) = false := by decide +kernel
/-- Window 2 is never idle. -/
theorem liveAt2_2 : ∀ t : Fin cfg2.N, cfg2.idle 2 (grid2.coords t) = false := by decide +kernel
/-- Window 3 is never idle. -/
theorem liveAt2_3 : ∀ t : Fin cfg2.N, cfg2.idle 3 (grid2.coords t) = false := by decide +kernel
/-- Window 4 is never idle. -/
theorem liveAt2_4 : ∀ t : Fin cfg2.N, cfg2.idle 4 (grid2.coords t) = false := by decide +kernel
/-- Window 5 is never idle. -/
theorem liveAt2_5 : ∀ t : Fin cfg2.N, cfg2.idle 5 (grid2.coords t) = false := by decide +kernel
/-- Window 6 is never idle. -/
theorem liveAt2_6 : ∀ t : Fin cfg2.N, cfg2.idle 6 (grid2.coords t) = false := by decide +kernel
/-- At the points where the first condition holds and the second does not, window 7 is idle (nothing is stored into it) -/
theorem idleAt2_7_A : ∀ t : Fin cfg2.N, cond2_0 (grid2.coords t) → ¬cond2_1 (grid2.coords t) → cfg2.idle 7 (grid2.coords t) = true := by decide +kernel
/-- and its block is not written back. -/
theorem noFlush2_7_A : ∀ t : Fin cfg2.N, cond2_0 (grid2.coords t) → ¬cond2_1 (grid2.coords t) → (cfg2.win 7).flush t = false := by decide +kernel
/-- The same where neither condition holds. -/
theorem idleAt2_7_B : ∀ t : Fin cfg2.N, ¬cond2_0 (grid2.coords t) → ¬cond2_1 (grid2.coords t) → cfg2.idle 7 (grid2.coords t) = true := by decide +kernel
theorem noFlush2_7_B : ∀ t : Fin cfg2.N, ¬cond2_0 (grid2.coords t) → ¬cond2_1 (grid2.coords t) → (cfg2.win 7).flush t = false := by decide +kernel
/-- Where the second condition holds (and the first does not) window 7 is live: the body stores into it. -/
theorem liveAt2_7_C : ∀ t : Fin cfg2.N, ¬cond2_0 (grid2.coords t) → cond2_1 (grid2.coords t) → cfg2.idle 7 (grid2.coords t) = false := by decide +kernel
/-- At the points where the first condition holds and the second does not, window 8 is idle (nothing is stored into it) -/
theorem idleAt2_8_A : ∀ t : Fin cfg2.N, cond2_0 (grid2.coords t) → ¬cond2_1 (grid2.coords t) → cfg2.idle 8 (grid2.coords t) = true := by decide +kernel
/-- and its block is not written back. -/
theorem noFlush2_8_A : ∀ t : Fin cfg2.N, cond2_0 (grid2.coords t) → ¬cond2_1 (grid2.coords t) → (cfg2.win 8).flush t = false := by decide +kernel
/-- The same where neither condition holds. -/
theorem idleAt2_8_B : ∀ t : Fin cfg2.N, ¬cond2_0 (grid2.coords t) → ¬cond2_1 (grid2.coords t) → cfg2.idle 8 (grid2.coords t) = true := by decide +kernel
theorem noFlush2_8_B : ∀ t : Fin cfg2.N, ¬cond2_0 (grid2.coords t) → ¬cond2_1 (grid2.coords t) → (cfg2.win 8).flush t = false := by decide +kernel
/-- Where the second condition holds (and the first does not) window 8 is live: the body stores into it. -/
theorem liveAt2_8_C : ∀ t : Fin cfg2.N, ¬cond2_0 (grid2.coords t) → cond2_1 (grid2.coords t) → cfg2.idle 8 (grid2.coords t) = false := by decide +kernel

/-! ## The staging and scratch memrefs -/

/-- One staging buffer of output window 6, through which its contents are stated (the choice does not matter). -/
abbrev VO2_6 : View sig .tc .vmem S2048x256 .f32 := (Memref.whole cc2_stg6_0 : Memref sig .tc .vmem S2048x256 .f32).view
/-- One staging buffer of output window 7, through which its contents are stated (the choice does not matter). -/
abbrev VO2_7 : View sig .tc .vmem S8x256 .f32 := (Memref.whole cc2_stg7_0 : Memref sig .tc .vmem S8x256 .f32).view
/-- One staging buffer of output window 8, through which its contents are stated (the choice does not matter). -/
abbrev VO2_8 : View sig .tc .vmem S8x256 .f32 := (Memref.whole cc2_stg8_0 : Memref sig .tc .vmem S8x256 .f32).view
/-- Each window's current staging memref at point `t`, spelled as the pipeline passes it, and its wholeness. -/
abbrev ms2_0 (t : Fin cfg2.N) : Memref sig .tc .vmem S2048x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S256x256 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2048x256 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S8x256 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S8x256 .f32 := win2_8.stage (cfg2.slots t 8)
abbrev hs2_8 (t : Fin cfg2.N) : (ms2_8 t).IsWhole := hstage2_8 ((cfg2.slots t 8).cast nbuf2_8)
/-- The scratch operands (the two accumulators): whole scoped buffers of the kernel's own, passed beside the windows. -/
abbrev scM2_0 : Memref sig .tc .vmem S1x256 .f32 := Memref.whole cc2_scratch0
abbrev VS2_0 : View sig .tc .vmem S1x256 .f32 := scM2_0.view
abbrev scM2_1 : Memref sig .tc .vmem S1x256 .f32 := Memref.whole cc2_scratch1
abbrev VS2_1 : View sig .tc .vmem S1x256 .f32 := scM2_1.view

/-- The region invariant with the two accumulators as memrefs owned at some contents, the remainder of the scoped rest unopened
    beside them, and the generator register at some state: what the body obligation hands the run and takes back. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.Kernel.Hand

end
-- ==== Proof.K.R2.RunA.lean ====
/- Region 2: the whole-body run of `cc2__fused_layer_kernel` in control case A. -/
import proofs.«118595_j1726576853663_2_alg».proof.Proof.K.R2.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the first condition holds and the second does not (t % 16 = 0: the accumulators are zeroed, then
    added to; nothing is stored into windows 7 and 8).
    What the body's stores leave in each output's staging memref and in each accumulator, as pieces (last first), WITH the proof
    that on whole memrefs — the inputs' at their contents `x·`, output 6's at anything, outputs 7 and 8 at contents `xi·` handed back untouched,
    the accumulators at anything — the body runs to the continuation holding the inputs' as they were
    and every stored buffer with its pieces written. The printed function and its part are their skeletons; each conditional is decided
    by the case's hypotheses; the pieces are the witness the run finds. -/
noncomputable def kernelRun2_A (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) :
    Σ' (L6 : List (View.Piece (Elt F) S2048x256 .f32)), Σ' (L7 : List (View.Piece (Elt F) S8x256 .f32)), Σ' (L8 : List (View.Piece (Elt F) S8x256 .f32)), Σ' (LS0 : List (View.Piece (Elt F) S1x256 .f32)), { LS1 : List (View.Piece (Elt F) S1x256 .f32) //
      ∀ (xi7 xi8 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc2__fused_layer_kernel i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc2__fused_layer_kernel_eq_skeleton]; unfold cc2__fused_layer_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.Kernel.Hand

end
-- ==== Proof.K.R2.RunB.lean ====
/- Region 2: the whole-body run of `cc2__fused_layer_kernel` in control case B. -/
import proofs.«118595_j1726576853663_2_alg».proof.Proof.K.R2.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where neither condition holds (0 < t % 16 < 15: the accumulators, carried from the point before, are
    added to; nothing is stored into windows 7 and 8).
    What the body's stores leave in each output's staging memref and in each accumulator, as pieces (last first), WITH the proof
    that on whole memrefs — the inputs' at their contents `x·`, output 6's at anything, outputs 7 and 8 at contents `xi·` handed back untouched,
    the accumulators at the contents `xs·` the point before left — the body runs to the continuation holding the inputs' as they were
    and every stored buffer with its pieces written. The printed function and its part are their skeletons; each conditional is decided
    by the case's hypotheses; the pieces are the witness the run finds. -/
noncomputable def kernelRun2_B (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    Σ' (L6 : List (View.Piece (Elt F) S2048x256 .f32)), Σ' (L7 : List (View.Piece (Elt F) S8x256 .f32)), Σ' (L8 : List (View.Piece (Elt F) S8x256 .f32)), Σ' (LS0 : List (View.Piece (Elt F) S1x256 .f32)), { LS1 : List (View.Piece (Elt F) S1x256 .f32) //
      ∀ (xi7 xi8 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc2__fused_layer_kernel i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc2__fused_layer_kernel_eq_skeleton]; unfold cc2__fused_layer_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.Kernel.Hand

end
-- ==== Proof.K.R2.RunC.lean ====
/- Region 2: the whole-body run of `cc2__fused_layer_kernel` in control case C. -/
import proofs.«118595_j1726576853663_2_alg».proof.Proof.K.R2.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the second condition holds and the first does not (t % 16 = 15: the accumulators, carried from the
    point before, are added to and then stored, broadcast to eight rows, into windows 7 and 8).
    What the body's stores leave in each output's staging memref and in each accumulator, as pieces (last first), WITH the proof
    that on whole memrefs — the inputs' at their contents `x·`, output 6's at anything, outputs 7 and 8 at anything,
    the accumulators at the contents `xs·` the point before left — the body runs to the continuation holding the inputs' as they were
    and every stored buffer with its pieces written. The printed function and its part are their skeletons; each conditional is decided
    by the case's hypotheses; the pieces are the witness the run finds. -/
noncomputable def kernelRun2_C (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    Σ' (L6 : List (View.Piece (Elt F) S2048x256 .f32)), Σ' (L7 : List (View.Piece (Elt F) S8x256 .f32)), Σ' (L8 : List (View.Piece (Elt F) S8x256 .f32)), Σ' (LS0 : List (View.Piece (Elt F) S1x256 .f32)), { LS1 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc2__fused_layer_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc2__fused_layer_kernel_eq_skeleton]; unfold cc2__fused_layer_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.R2.Frame.lean ====
/- Region 2: the frame lemmas of custom_call 2 at the region-entry contents `V`. What each control case leaves in the outputs' staging
   buffers and in the two accumulators (the pieces the runs found, read back; they cover each buffer), the same point by point along the
   grid (`outsAt2`: an accumulator at a point other than the first of a core continues from what the point before left), the region
   invariant carrying the accumulators at those contents, the pipeline's proof data, and the body obligation with its entry and exit. -/
import proofs.«118595_j1726576853663_2_alg».proof.Proof.K.R2.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces for output 6 tile its block (one store of the whole block), so they cover it. -/
theorem cover2_A_6 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (y : S2048x256.Idx) :
    ∃ pc ∈ (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).1 S2048x256.size (by sl_kernel_rfl) y

/-- What case A leaves in output 6's staging buffer: its pieces read back over junk. -/
def out2_A_6 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) : Vec F S2048x256 .f32 :=
  VO2_6.read (Elt F) (VO2_6.writes (Elt F) VO2_6.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).1)

/-- Case A stores nothing into output 7 (the window is idle at its points and not written back there): no pieces, a
    placeholder that nothing consults. -/
def out2_A_7 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) : Vec F S8x256 .f32 :=
  VO2_7.read (Elt F) (VO2_7.writes (Elt F) VO2_7.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).2.1)

/-- Case A stores nothing into output 8 (the window is idle at its points and not written back there): no pieces, a
    placeholder that nothing consults. -/
def out2_A_8 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) : Vec F S8x256 .f32 :=
  VO2_8.read (Elt F) (VO2_8.writes (Elt F) VO2_8.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).2.2.1)

/-- Case A's pieces for accumulator 0 cover it. -/
theorem scover2_A_0 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (y : S1x256.Idx) :
    ∃ pc ∈ (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1 S1x256.size (by sl_kernel_rfl) y

/-- What case A leaves in accumulator 0: its pieces read back over junk. -/
def sout2_A_0 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) : Vec F S1x256 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1)

/-- Case A's pieces for accumulator 1 cover it. -/
theorem scover2_A_1 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (y : S1x256.Idx) :
    ∃ pc ∈ (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1 S1x256.size (by sl_kernel_rfl) y

/-- What case A leaves in accumulator 1: its pieces read back over junk. -/
def sout2_A_1 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) : Vec F S1x256 .f32 :=
  VS2_1.read (Elt F) (VS2_1.writes (Elt F) VS2_1.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1)

/-- Case B's pieces for output 6 tile its block (one store of the whole block), so they cover it. -/
theorem cover2_B_6 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S2048x256.Idx) :
    ∃ pc ∈ (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S2048x256.size (by sl_kernel_rfl) y

/-- What case B leaves in output 6's staging buffer: its pieces read back over junk. -/
def out2_B_6 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S2048x256 .f32 :=
  VO2_6.read (Elt F) (VO2_6.writes (Elt F) VO2_6.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case B stores nothing into output 7 (the window is idle at its points and not written back there): no pieces, a
    placeholder that nothing consults. -/
def out2_B_7 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO2_7.read (Elt F) (VO2_7.writes (Elt F) VO2_7.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case B stores nothing into output 8 (the window is idle at its points and not written back there): no pieces, a
    placeholder that nothing consults. -/
def out2_B_8 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO2_8.read (Elt F) (VO2_8.writes (Elt F) VO2_8.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case B's pieces for accumulator 0 cover it. -/
theorem scover2_B_0 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 S1x256.size (by sl_kernel_rfl) y

/-- What case B leaves in accumulator 0: its pieces read back over junk. -/
def sout2_B_0 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-- Case B's pieces for accumulator 1 cover it. -/
theorem scover2_B_1 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S1x256.size (by sl_kernel_rfl) y

/-- What case B leaves in accumulator 1: its pieces read back over junk. -/
def sout2_B_1 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS2_1.read (Elt F) (VS2_1.writes (Elt F) VS2_1.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

/-- Case C's pieces for output 6 tile its block (one store of the whole block), so they cover it. -/
theorem cover2_C_6 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S2048x256.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S2048x256.size (by sl_kernel_rfl) y

/-- What case C leaves in output 6's staging buffer: its pieces read back over junk. -/
def out2_C_6 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S2048x256 .f32 :=
  VO2_6.read (Elt F) (VO2_6.writes (Elt F) VO2_6.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case C's pieces for output 7 tile its block (one store of the whole block), so they cover it. -/
theorem cover2_C_7 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S8x256.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 S8x256.size (by sl_kernel_rfl) y

/-- What case C leaves in output 7's staging buffer: its pieces read back over junk. -/
def out2_C_7 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO2_7.read (Elt F) (VO2_7.writes (Elt F) VO2_7.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case C's pieces for output 8 tile its block (one store of the whole block), so they cover it. -/
theorem cover2_C_8 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S8x256.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1 S8x256.size (by sl_kernel_rfl) y

/-- What case C leaves in output 8's staging buffer: its pieces read back over junk. -/
def out2_C_8 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO2_8.read (Elt F) (VO2_8.writes (Elt F) VO2_8.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case C's pieces for accumulator 0 cover it. -/
theorem scover2_C_0 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 S1x256.size (by sl_kernel_rfl) y

/-- What case C leaves in accumulator 0: its pieces read back over junk. -/
def sout2_C_0 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-- Case C's pieces for accumulator 1 cover it. -/
theorem scover2_C_1 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S1x256.size (by sl_kernel_rfl) y

/-- What case C leaves in accumulator 1: its pieces read back over junk. -/
def sout2_C_1 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS2_1.read (Elt F) (VS2_1.writes (Elt F) VS2_1.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

/-! ## What the outputs and the accumulators hold after each point -/

/-- THE ACCUMULATION. What the outputs' staging buffers and the two accumulators hold after the body at position `n` (the outputs in window
    order, then the accumulators): the case the closed forms select at `n`, run at the point's memrefs and input blocks, an accumulator
    at a point other than a core's first continuing from what this leaves at `n - 1`. Both conditions at once is no point. -/
def outsAt2 (c : Dev nD) : (n : ℕ) → n < cfg2.N → Vec F S2048x256 .f32 × Vec F S8x256 .f32 × Vec F S8x256 .f32 × Vec F S1x256 .f32 × Vec F S1x256 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 16 = 0 then
      if h1 : (n + 1) % 16 = 15 then
        False.elim (by omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 16 = 15 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)

/-- `outsAt2` at a point of case A: that case's contents. -/
theorem outsAt2_A (c : Dev nD) (t : Fin cfg2.N) (h0 : t.val % 16 = 0) (h1 : ¬t.val % 16 = 15) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 16 = 0) (h1 : ¬t.val % 16 = 15) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 16 = 0) (h1 : t.val % 16 = 15) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the class's (every scratch at anything); afterwards the two
    accumulators at what the point before left in them, the remainder of the scoped rest unopened, and the generator register at
    some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2))
          ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulators at that point's contents. -/
theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2))
          ∗ Pipeline.scopedRestBut (Ix := Unit) (Name := ℕ) (U := UR sig nD τ) (Lvl := ℕ) (Val := Elt F) spec2 c [cc2_scratch0, cc2_scratch1]) ∗ (∃ r, prngReg c r)) := rfl

/-- Before a point that is not the first: the accumulators at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2))
          ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The proof data of pipeline 2 on core `c`: the arrays as the region finds them (`V`); after the body at point `t` each input's
    buffer at its block and the outputs' at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2.1
  Φ t := PhiS2 V c t.val (Nat.le_of_lt_succ t.isLt)
  q _ := fullShare
  owed _ := 0

/-- The proof data's arrays are the region-entry contents . -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- A window live at a point is left at what the body leaves in it. -/
theorem leaves2_0 (c : Dev nD) (t : Fin cfg2.N) : (dat2 V c).leavesExact 0 t = owns (c : Thread nD τ) (ms2_0 t) fullShare ((dat2 V c).after 0 t) := by
  unfold Dat.leavesExact; rw [liveAt2_0 t]
theorem leaves2_1 (c : Dev nD) (t : Fin cfg2.N) : (dat2 V c).leavesExact 1 t = owns (c : Thread nD τ) (ms2_1 t) fullShare ((dat2 V c).after 1 t) := by
  unfold Dat.leavesExact; rw [liveAt2_1 t]
theorem leaves2_2 (c : Dev nD) (t : Fin cfg2.N) : (dat2 V c).leavesExact 2 t = owns (c : Thread nD τ) (ms2_2 t) fullShare ((dat2 V c).after 2 t) := by
  unfold Dat.leavesExact; rw [liveAt2_2 t]
theorem leaves2_3 (c : Dev nD) (t : Fin cfg2.N) : (dat2 V c).leavesExact 3 t = owns (c : Thread nD τ) (ms2_3 t) fullShare ((dat2 V c).after 3 t) := by
  unfold Dat.leavesExact; rw [liveAt2_3 t]
theorem leaves2_4 (c : Dev nD) (t : Fin cfg2.N) : (dat2 V c).leavesExact 4 t = owns (c : Thread nD τ) (ms2_4 t) fullShare ((dat2 V c).after 4 t) := by
  unfold Dat.leavesExact; rw [liveAt2_4 t]
theorem leaves2_5 (c : Dev nD) (t : Fin cfg2.N) : (dat2 V c).leavesExact 5 t = owns (c : Thread nD τ) (ms2_5 t) fullShare ((dat2 V c).after 5 t) := by
  unfold Dat.leavesExact; rw [liveAt2_5 t]
theorem leaves2_6 (c : Dev nD) (t : Fin cfg2.N) : (dat2 V c).leavesExact 6 t = owns (c : Thread nD τ) (ms2_6 t) fullShare ((dat2 V c).after 6 t) := by
  unfold Dat.leavesExact; rw [liveAt2_6 t]
theorem leaves2_7_C (c : Dev nD) (t : Fin cfg2.N) (h0 : ¬cond2_0 (grid2.coords t)) (h1 : cond2_1 (grid2.coords t)) : (dat2 V c).leavesExact 7 t = owns (c : Thread nD τ) (ms2_7 t) fullShare ((dat2 V c).after 7 t) := by
  unfold Dat.leavesExact; rw [liveAt2_7_C t h0 h1]
theorem leaves2_8_C (c : Dev nD) (t : Fin cfg2.N) (h0 : ¬cond2_0 (grid2.coords t)) (h1 : cond2_1 (grid2.coords t)) : (dat2 V c).leavesExact 8 t = owns (c : Thread nD τ) (ms2_8 t) fullShare ((dat2 V c).after 8 t) := by
  unfold Dat.leavesExact; rw [liveAt2_8_C t h0 h1]

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4800000 in
/-- The body at any point: the inputs' memrefs hold their blocks; the closed forms say which case the point is in, so that case's run
    applies; the invariant hands the body the accumulators at what the point before left (at anything at the first point) and the
    generator register, and takes the accumulators back at this point's contents (their pieces cover them); a window idle at the point
    is handed back untouched; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 16 = 0
  · by_cases h1 : t.val % 16 = 15
    · exfalso; omega
    · rw [leaves2_0 V c t, leaves2_1 V c t, leaves2_2 V c t, leaves2_3 V c t, leaves2_4 V c t, leaves2_5 V c t, leaves2_6 V c t, after2_0, after2_1, after2_2, after2_3, after2_4, after2_5, after2_6]
      rw [Dat.leavesExact_idle (dat2 V c) 7 t (idleAt2_7_A t ((hcond2_0 t).mpr h0) (fun h => h1 ((hcond2_1 t).mp h))) (noFlush2_7_A t ((hcond2_0 t).mpr h0) (fun h => h1 ((hcond2_1 t).mp h)))]
      rw [Dat.leavesExact_idle (dat2 V c) 8 t (idleAt2_8_A t ((hcond2_0 t).mpr h0) (fun h => h1 ((hcond2_1 t).mp h))) (noFlush2_8_A t ((hcond2_0 t).mpr h0) (fun h => h1 ((hcond2_1 t).mp h)))]
      rw [outsAt2_A V c t h0 h1]
      unfold out2_A_6 sout2_A_0 sout2_A_1; (try dsimp only)
      by_cases hz : t.val = 0
      · rw [PhiS2_castSucc V c t, PhiS2_zero V c _ _ hz, PhiA2_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover2_A_1 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover2_A_6 c _ _ _ _ _ _ _ _ _ _ _ _ _ _ _ _ _ _ _ _ _ _ _ _ _ _ _ _ _ _ _)
        isplitl [H7]; · iexists _; iexact H7
        iexists _; iexact H8
      · rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexists _; iexact HS0
        isplitl [HS1]; · iexists _; iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover2_A_1 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover2_A_6 c _ _ _ _ _ _ _ _ _ _ _ _ _ _ _ _ _ _ _ _ _ _ _ _ _ _ _ _ _ _ _)
        isplitl [H7]; · iexists _; iexact H7
        iexists _; iexact H8
  · by_cases h1 : t.val % 16 = 15
    · rw [leaves2_0 V c t, leaves2_1 V c t, leaves2_2 V c t, leaves2_3 V c t, leaves2_4 V c t, leaves2_5 V c t, leaves2_6 V c t, after2_0, after2_1, after2_2, after2_3, after2_4, after2_5, after2_6]
      rw [leaves2_7_C V c t (fun h => h0 ((hcond2_0 t).mp h)) ((hcond2_1 t).mpr h1), leaves2_8_C V c t (fun h => h0 ((hcond2_0 t).mp h)) ((hcond2_1 t).mpr h1), after2_7, after2_8]
      rw [outsAt2_C V c t h0 h1]
      unfold out2_C_6 out2_C_7 out2_C_8 sout2_C_0 sout2_C_1; (try dsimp only)
      have hz : t.val ≠ 0 := by omega
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover2_C_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover2_C_8 c _ _ _ _ _ _ _ _ _ _ _ _ _ _ _ _ _ _ _ _ _ _ _ _ _ _ _ _ _ _ _ _ _)
    · rw [leaves2_0 V c t, leaves2_1 V c t, leaves2_2 V c t, leaves2_3 V c t, leaves2_4 V c t, leaves2_5 V c t, leaves2_6 V c t, after2_0, after2_1, after2_2, after2_3, after2_4, after2_5, after2_6]
      rw [Dat.leavesExact_idle (dat2 V c) 7 t (idleAt2_7_B t (fun h => h0 ((hcond2_0 t).mp h)) (fun h => h1 ((hcond2_1 t).mp h))) (noFlush2_7_B t (fun h => h0 ((hcond2_0 t).mp h)) (fun h => h1 ((hcond2_1 t).mp h)))]
      rw [Dat.leavesExact_idle (dat2 V c) 8 t (idleAt2_8_B t (fun h => h0 ((hcond2_0 t).mp h)) (fun h => h1 ((hcond2_1 t).mp h))) (noFlush2_8_B t (fun h => h0 ((hcond2_0 t).mp h)) (fun h => h1 ((hcond2_1 t).mp h)))]
      rw [outsAt2_B V c t h0 h1]
      unfold out2_B_6 sout2_B_0 sout2_B_1; (try dsimp only)
      have hz : t.val ≠ 0 := by omega
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover2_B_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulators' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end Cert.Kernel.Hand

end
-- ==== Proof.K.R3.Runs.lean ====
/- Region 3 of the program (custom_call 3, `cc3__fused_layer_kernel`): what the three runs of its body share. The windows' blocks read off
   the region-entry contents `V`; the two branch conditions of the body in closed form over the grid (the first holds exactly at the
   points t with t % 16 = 0, where the two accumulators are zeroed; the second exactly at t % 16 = 15, where they are stored,
   broadcast to eight rows, into windows 7 and 8); where windows 7 and 8 are idle and not written back; the staging and scratch
   memrefs; and the region invariant with the two accumulators split out of the scoped rest. -/
import proofs.«118595_j1726576853663_2_alg».proof.Proof.Gen.Kernel.Launch
import proofs.«118595_j1726576853663_2_alg».proof.Proof.Gen.Kernel.Skeleton
import proofs.«118595_j1726576853663_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data whose
    array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data whose
    array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data whose
    array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data whose
    array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof data whose
    array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof data whose
    array is `V`'s and whose body leaves the block in place: unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's first conditional (the accumulators are zeroed under it), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 16): decided over the grid. -/
theorem hcond3_0 : ∀ t : Fin cfg3.N, cond3_0 (grid3.coords t) ↔ t.val % 16 = 0 :=
  (by decide +kernel : ∀ t : Fin grid3.N, cond3_0 (grid3.coords t) ↔ t.val % 16 = 0)

/-- The condition of the body's second conditional (the accumulators are stored into windows 7 and 8 under it). -/
abbrev cond3_1 (i : grid3.Coords) : Prop := k3_cond2 i = 1#1
/-- It holds at the points ≡ 15 (mod 16): decided over the grid. -/
theorem hcond3_1 : ∀ t : Fin cfg3.N, cond3_1 (grid3.coords t) ↔ t.val % 16 = 15 :=
  (by decide +kernel : ∀ t : Fin grid3.N, cond3_1 (grid3.coords t) ↔ t.val % 16 = 15)

/-! ## Where the windows are idle -/

/-- Window 0 is never idle. -/
theorem liveAt3_0 : ∀ t : Fin cfg3.N, cfg3.idle 0 (grid3.coords t) = false := by decide +kernel
/-- Window 1 is never idle. -/
theorem liveAt3_1 : ∀ t : Fin cfg3.N, cfg3.idle 1 (grid3.coords t) = false := by decide +kernel
/-- Window 2 is never idle. -/
theorem liveAt3_2 : ∀ t : Fin cfg3.N, cfg3.idle 2 (grid3.coords t) = false := by decide +kernel
/-- Window 3 is never idle. -/
theorem liveAt3_3 : ∀ t : Fin cfg3.N, cfg3.idle 3 (grid3.coords t) = false := by decide +kernel
/-- Window 4 is never idle. -/
theorem liveAt3_4 : ∀ t : Fin cfg3.N, cfg3.idle 4 (grid3.coords t) = false := by decide +kernel
/-- Window 5 is never idle. -/
theorem liveAt3_5 : ∀ t : Fin cfg3.N, cfg3.idle 5 (grid3.coords t) = false := by decide +kernel
/-- Window 6 is never idle. -/
theorem liveAt3_6 : ∀ t : Fin cfg3.N, cfg3.idle 6 (grid3.coords t) = false := by decide +kernel
/-- At the points where the first condition holds and the second does not, window 7 is idle (nothing is stored into it) -/
theorem idleAt3_7_A : ∀ t : Fin cfg3.N, cond3_0 (grid3.coords t) → ¬cond3_1 (grid3.coords t) → cfg3.idle 7 (grid3.coords t) = true := by decide +kernel
/-- and its block is not written back. -/
theorem noFlush3_7_A : ∀ t : Fin cfg3.N, cond3_0 (grid3.coords t) → ¬cond3_1 (grid3.coords t) → (cfg3.win 7).flush t = false := by decide +kernel
/-- The same where neither condition holds. -/
theorem idleAt3_7_B : ∀ t : Fin cfg3.N, ¬cond3_0 (grid3.coords t) → ¬cond3_1 (grid3.coords t) → cfg3.idle 7 (grid3.coords t) = true := by decide +kernel
theorem noFlush3_7_B : ∀ t : Fin cfg3.N, ¬cond3_0 (grid3.coords t) → ¬cond3_1 (grid3.coords t) → (cfg3.win 7).flush t = false := by decide +kernel
/-- Where the second condition holds (and the first does not) window 7 is live: the body stores into it. -/
theorem liveAt3_7_C : ∀ t : Fin cfg3.N, ¬cond3_0 (grid3.coords t) → cond3_1 (grid3.coords t) → cfg3.idle 7 (grid3.coords t) = false := by decide +kernel
/-- At the points where the first condition holds and the second does not, window 8 is idle (nothing is stored into it) -/
theorem idleAt3_8_A : ∀ t : Fin cfg3.N, cond3_0 (grid3.coords t) → ¬cond3_1 (grid3.coords t) → cfg3.idle 8 (grid3.coords t) = true := by decide +kernel
/-- and its block is not written back. -/
theorem noFlush3_8_A : ∀ t : Fin cfg3.N, cond3_0 (grid3.coords t) → ¬cond3_1 (grid3.coords t) → (cfg3.win 8).flush t = false := by decide +kernel
/-- The same where neither condition holds. -/
theorem idleAt3_8_B : ∀ t : Fin cfg3.N, ¬cond3_0 (grid3.coords t) → ¬cond3_1 (grid3.coords t) → cfg3.idle 8 (grid3.coords t) = true := by decide +kernel
theorem noFlush3_8_B : ∀ t : Fin cfg3.N, ¬cond3_0 (grid3.coords t) → ¬cond3_1 (grid3.coords t) → (cfg3.win 8).flush t = false := by decide +kernel
/-- Where the second condition holds (and the first does not) window 8 is live: the body stores into it. -/
theorem liveAt3_8_C : ∀ t : Fin cfg3.N, ¬cond3_0 (grid3.coords t) → cond3_1 (grid3.coords t) → cfg3.idle 8 (grid3.coords t) = false := by decide +kernel

/-! ## The staging and scratch memrefs -/

/-- One staging buffer of output window 6, through which its contents are stated (the choice does not matter). -/
abbrev VO3_6 : View sig .tc .vmem S2048x256 .f32 := (Memref.whole cc3_stg6_0 : Memref sig .tc .vmem S2048x256 .f32).view
/-- One staging buffer of output window 7, through which its contents are stated (the choice does not matter). -/
abbrev VO3_7 : View sig .tc .vmem S8x256 .f32 := (Memref.whole cc3_stg7_0 : Memref sig .tc .vmem S8x256 .f32).view
/-- One staging buffer of output window 8, through which its contents are stated (the choice does not matter). -/
abbrev VO3_8 : View sig .tc .vmem S8x256 .f32 := (Memref.whole cc3_stg8_0 : Memref sig .tc .vmem S8x256 .f32).view
/-- Each window's current staging memref at point `t`, spelled as the pipeline passes it, and its wholeness. -/
abbrev ms3_0 (t : Fin cfg3.N) : Memref sig .tc .vmem S2048x256 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x256 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x256 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S256x256 .bf16 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S2048x256 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S8x256 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S8x256 .f32 := win3_8.stage (cfg3.slots t 8)
abbrev hs3_8 (t : Fin cfg3.N) : (ms3_8 t).IsWhole := hstage3_8 ((cfg3.slots t 8).cast nbuf3_8)
/-- The scratch operands (the two accumulators): whole scoped buffers of the kernel's own, passed beside the windows. -/
abbrev scM3_0 : Memref sig .tc .vmem S1x256 .f32 := Memref.whole cc3_scratch0
abbrev VS3_0 : View sig .tc .vmem S1x256 .f32 := scM3_0.view
abbrev scM3_1 : Memref sig .tc .vmem S1x256 .f32 := Memref.whole cc3_scratch1
abbrev VS3_1 : View sig .tc .vmem S1x256 .f32 := scM3_1.view

/-- The region invariant with the two accumulators as memrefs owned at some contents, the remainder of the scoped rest unopened
    beside them, and the generator register at some state: what the body obligation hands the run and takes back. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Cert.Kernel.Hand

end
-- ==== Proof.K.R3.RunA.lean ====
/- Region 3: the whole-body run of `cc3__fused_layer_kernel` in control case A. -/
import proofs.«118595_j1726576853663_2_alg».proof.Proof.K.R3.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the first condition holds and the second does not (t % 16 = 0: the accumulators are zeroed, then
    added to; nothing is stored into windows 7 and 8).
    What the body's stores leave in each output's staging memref and in each accumulator, as pieces (last first), WITH the proof
    that on whole memrefs — the inputs' at their contents `x·`, output 6's at anything, outputs 7 and 8 at contents `xi·` handed back untouched,
    the accumulators at anything — the body runs to the continuation holding the inputs' as they were
    and every stored buffer with its pieces written. The printed function and its part are their skeletons; each conditional is decided
    by the case's hypotheses; the pieces are the witness the run finds. -/
noncomputable def kernelRun3_A (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) :
    Σ' (L6 : List (View.Piece (Elt F) S2048x256 .f32)), Σ' (L7 : List (View.Piece (Elt F) S8x256 .f32)), Σ' (L8 : List (View.Piece (Elt F) S8x256 .f32)), Σ' (LS0 : List (View.Piece (Elt F) S1x256 .f32)), { LS1 : List (View.Piece (Elt F) S1x256 .f32) //
      ∀ (xi7 xi8 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc3__fused_layer_kernel i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc3__fused_layer_kernel_eq_skeleton]; unfold cc3__fused_layer_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.Kernel.Hand

end
-- ==== Proof.K.R3.RunB.lean ====
/- Region 3: the whole-body run of `cc3__fused_layer_kernel` in control case B. -/
import proofs.«118595_j1726576853663_2_alg».proof.Proof.K.R3.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where neither condition holds (0 < t % 16 < 15: the accumulators, carried from the point before, are
    added to; nothing is stored into windows 7 and 8).
    What the body's stores leave in each output's staging memref and in each accumulator, as pieces (last first), WITH the proof
    that on whole memrefs — the inputs' at their contents `x·`, output 6's at anything, outputs 7 and 8 at contents `xi·` handed back untouched,
    the accumulators at the contents `xs·` the point before left — the body runs to the continuation holding the inputs' as they were
    and every stored buffer with its pieces written. The printed function and its part are their skeletons; each conditional is decided
    by the case's hypotheses; the pieces are the witness the run finds. -/
noncomputable def kernelRun3_B (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    Σ' (L6 : List (View.Piece (Elt F) S2048x256 .f32)), Σ' (L7 : List (View.Piece (Elt F) S8x256 .f32)), Σ' (L8 : List (View.Piece (Elt F) S8x256 .f32)), Σ' (LS0 : List (View.Piece (Elt F) S1x256 .f32)), { LS1 : List (View.Piece (Elt F) S1x256 .f32) //
      ∀ (xi7 xi8 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc3__fused_layer_kernel i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc3__fused_layer_kernel_eq_skeleton]; unfold cc3__fused_layer_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.Kernel.Hand

end
-- ==== Proof.K.R3.RunC.lean ====
/- Region 3: the whole-body run of `cc3__fused_layer_kernel` in control case C. -/
import proofs.«118595_j1726576853663_2_alg».proof.Proof.K.R3.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the second condition holds and the first does not (t % 16 = 15: the accumulators, carried from the
    point before, are added to and then stored, broadcast to eight rows, into windows 7 and 8).
    What the body's stores leave in each output's staging memref and in each accumulator, as pieces (last first), WITH the proof
    that on whole memrefs — the inputs' at their contents `x·`, output 6's at anything, outputs 7 and 8 at anything,
    the accumulators at the contents `xs·` the point before left — the body runs to the continuation holding the inputs' as they were
    and every stored buffer with its pieces written. The printed function and its part are their skeletons; each conditional is decided
    by the case's hypotheses; the pieces are the witness the run finds. -/
noncomputable def kernelRun3_C (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    Σ' (L6 : List (View.Piece (Elt F) S2048x256 .f32)), Σ' (L7 : List (View.Piece (Elt F) S8x256 .f32)), Σ' (L8 : List (View.Piece (Elt F) S8x256 .f32)), Σ' (LS0 : List (View.Piece (Elt F) S1x256 .f32)), { LS1 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc3__fused_layer_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc3__fused_layer_kernel_eq_skeleton]; unfold cc3__fused_layer_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.R3.Frame.lean ====
/- Region 3: the frame lemmas of custom_call 3 at the region-entry contents `V`. What each control case leaves in the outputs' staging
   buffers and in the two accumulators (the pieces the runs found, read back; they cover each buffer), the same point by point along the
   grid (`outsAt3`: an accumulator at a point other than the first of a core continues from what the point before left), the region
   invariant carrying the accumulators at those contents, the pipeline's proof data, and the body obligation with its entry and exit. -/
import proofs.«118595_j1726576853663_2_alg».proof.Proof.K.R3.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces for output 6 tile its block (one store of the whole block), so they cover it. -/
theorem cover3_A_6 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (y : S2048x256.Idx) :
    ∃ pc ∈ (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).1 S2048x256.size (by sl_kernel_rfl) y

/-- What case A leaves in output 6's staging buffer: its pieces read back over junk. -/
def out3_A_6 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) : Vec F S2048x256 .f32 :=
  VO3_6.read (Elt F) (VO3_6.writes (Elt F) VO3_6.junk (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).1)

/-- Case A stores nothing into output 7 (the window is idle at its points and not written back there): no pieces, a
    placeholder that nothing consults. -/
def out3_A_7 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) : Vec F S8x256 .f32 :=
  VO3_7.read (Elt F) (VO3_7.writes (Elt F) VO3_7.junk (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).2.1)

/-- Case A stores nothing into output 8 (the window is idle at its points and not written back there): no pieces, a
    placeholder that nothing consults. -/
def out3_A_8 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) : Vec F S8x256 .f32 :=
  VO3_8.read (Elt F) (VO3_8.writes (Elt F) VO3_8.junk (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).2.2.1)

/-- Case A's pieces for accumulator 0 cover it. -/
theorem scover3_A_0 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (y : S1x256.Idx) :
    ∃ pc ∈ (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1 S1x256.size (by sl_kernel_rfl) y

/-- What case A leaves in accumulator 0: its pieces read back over junk. -/
def sout3_A_0 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) : Vec F S1x256 .f32 :=
  VS3_0.read (Elt F) (VS3_0.writes (Elt F) VS3_0.junk (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1)

/-- Case A's pieces for accumulator 1 cover it. -/
theorem scover3_A_1 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (y : S1x256.Idx) :
    ∃ pc ∈ (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1, y ∈ pc.1.set :=
  View.cover_of_tiledL (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1 S1x256.size (by sl_kernel_rfl) y

/-- What case A leaves in accumulator 1: its pieces read back over junk. -/
def sout3_A_1 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) : Vec F S1x256 .f32 :=
  VS3_1.read (Elt F) (VS3_1.writes (Elt F) VS3_1.junk (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1)

/-- Case B's pieces for output 6 tile its block (one store of the whole block), so they cover it. -/
theorem cover3_B_6 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S2048x256.Idx) :
    ∃ pc ∈ (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S2048x256.size (by sl_kernel_rfl) y

/-- What case B leaves in output 6's staging buffer: its pieces read back over junk. -/
def out3_B_6 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S2048x256 .f32 :=
  VO3_6.read (Elt F) (VO3_6.writes (Elt F) VO3_6.junk (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case B stores nothing into output 7 (the window is idle at its points and not written back there): no pieces, a
    placeholder that nothing consults. -/
def out3_B_7 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO3_7.read (Elt F) (VO3_7.writes (Elt F) VO3_7.junk (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case B stores nothing into output 8 (the window is idle at its points and not written back there): no pieces, a
    placeholder that nothing consults. -/
def out3_B_8 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO3_8.read (Elt F) (VO3_8.writes (Elt F) VO3_8.junk (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case B's pieces for accumulator 0 cover it. -/
theorem scover3_B_0 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 S1x256.size (by sl_kernel_rfl) y

/-- What case B leaves in accumulator 0: its pieces read back over junk. -/
def sout3_B_0 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS3_0.read (Elt F) (VS3_0.writes (Elt F) VS3_0.junk (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-- Case B's pieces for accumulator 1 cover it. -/
theorem scover3_B_1 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S1x256.size (by sl_kernel_rfl) y

/-- What case B leaves in accumulator 1: its pieces read back over junk. -/
def sout3_B_1 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS3_1.read (Elt F) (VS3_1.writes (Elt F) VS3_1.junk (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

/-- Case C's pieces for output 6 tile its block (one store of the whole block), so they cover it. -/
theorem cover3_C_6 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S2048x256.Idx) :
    ∃ pc ∈ (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S2048x256.size (by sl_kernel_rfl) y

/-- What case C leaves in output 6's staging buffer: its pieces read back over junk. -/
def out3_C_6 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S2048x256 .f32 :=
  VO3_6.read (Elt F) (VO3_6.writes (Elt F) VO3_6.junk (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case C's pieces for output 7 tile its block (one store of the whole block), so they cover it. -/
theorem cover3_C_7 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S8x256.Idx) :
    ∃ pc ∈ (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 S8x256.size (by sl_kernel_rfl) y

/-- What case C leaves in output 7's staging buffer: its pieces read back over junk. -/
def out3_C_7 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO3_7.read (Elt F) (VO3_7.writes (Elt F) VO3_7.junk (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case C's pieces for output 8 tile its block (one store of the whole block), so they cover it. -/
theorem cover3_C_8 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S8x256.Idx) :
    ∃ pc ∈ (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1 S8x256.size (by sl_kernel_rfl) y

/-- What case C leaves in output 8's staging buffer: its pieces read back over junk. -/
def out3_C_8 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO3_8.read (Elt F) (VO3_8.writes (Elt F) VO3_8.junk (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case C's pieces for accumulator 0 cover it. -/
theorem scover3_C_0 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 S1x256.size (by sl_kernel_rfl) y

/-- What case C leaves in accumulator 0: its pieces read back over junk. -/
def sout3_C_0 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS3_0.read (Elt F) (VS3_0.writes (Elt F) VS3_0.junk (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-- Case C's pieces for accumulator 1 cover it. -/
theorem scover3_C_1 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S1x256.size (by sl_kernel_rfl) y

/-- What case C leaves in accumulator 1: its pieces read back over junk. -/
def sout3_C_1 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS3_1.read (Elt F) (VS3_1.writes (Elt F) VS3_1.junk (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

/-! ## What the outputs and the accumulators hold after each point -/

/-- THE ACCUMULATION. What the outputs' staging buffers and the two accumulators hold after the body at position `n` (the outputs in window
    order, then the accumulators): the case the closed forms select at `n`, run at the point's memrefs and input blocks, an accumulator
    at a point other than a core's first continuing from what this leaves at `n - 1`. Both conditions at once is no point. -/
def outsAt3 (c : Dev nD) : (n : ℕ) → n < cfg3.N → Vec F S2048x256 .f32 × Vec F S8x256 .f32 × Vec F S8x256 .f32 × Vec F S1x256 .f32 × Vec F S1x256 .f32
  | 0, hn => (out3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), out3_A_7 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), out3_A_8 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩))
  | n + 1, hn =>
    if h0 : (n + 1) % 16 = 0 then
      if h1 : (n + 1) % 16 = 15 then
        False.elim (by omega)
      else
        (out3_A_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), out3_A_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), out3_A_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩))
    else
      if h1 : (n + 1) % 16 = 15 then
        (out3_C_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2.2.1 (outsAt3 c n (Nat.lt_of_succ_lt hn)).2.2.2.2, out3_C_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2.2.1 (outsAt3 c n (Nat.lt_of_succ_lt hn)).2.2.2.2, out3_C_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2.2.1 (outsAt3 c n (Nat.lt_of_succ_lt hn)).2.2.2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2.2.1 (outsAt3 c n (Nat.lt_of_succ_lt hn)).2.2.2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2.2.1 (outsAt3 c n (Nat.lt_of_succ_lt hn)).2.2.2.2)
      else
        (out3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2.2.1 (outsAt3 c n (Nat.lt_of_succ_lt hn)).2.2.2.2, out3_B_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2.2.1 (outsAt3 c n (Nat.lt_of_succ_lt hn)).2.2.2.2, out3_B_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2.2.1 (outsAt3 c n (Nat.lt_of_succ_lt hn)).2.2.2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2.2.1 (outsAt3 c n (Nat.lt_of_succ_lt hn)).2.2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2.2.1 (outsAt3 c n (Nat.lt_of_succ_lt hn)).2.2.2.2)

/-- `outsAt3` at a point of case A: that case's contents. -/
theorem outsAt3_A (c : Dev nD) (t : Fin cfg3.N) (h0 : t.val % 16 = 0) (h1 : ¬t.val % 16 = 15) :
    outsAt3 V c t.val t.isLt = (out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), out3_A_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 16 = 0) (h1 : ¬t.val % 16 = 15) :
    outsAt3 V c t.val t.isLt = (out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, out3_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, out3_B_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 16 = 0) (h1 : t.val % 16 = 15) :
    outsAt3 V c t.val t.isLt = (out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, out3_C_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, out3_C_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the class's (every scratch at anything); afterwards the two
    accumulators at what the point before left in them, the remainder of the scoped rest unopened, and the generator register at
    some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2.2.1) ∗ owns (c : Thread nD τ) scM3_1 fullShare ((outsAt3 V c n hn).2.2.2.2))
          ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the accumulators at that point's contents. -/
theorem PhiS3_succ (c : Dev nD) (n : ℕ) (hn : n < cfg3.N) :
    PhiS3 V c (n + 1) hn = iprop(iprop(iprop(owns (c : Thread nD τ) scM3_0 fullShare ((outsAt3 V c n hn).2.2.2.1) ∗ owns (c : Thread nD τ) scM3_1 fullShare ((outsAt3 V c n hn).2.2.2.2))
          ∗ Pipeline.scopedRestBut (Ix := Unit) (Name := ℕ) (U := UR sig nD τ) (Lvl := ℕ) (Val := Elt F) spec3 c [cc3_scratch0, cc3_scratch1]) ∗ (∃ r, prngReg c r)) := rfl

/-- Before a point that is not the first: the accumulators at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2.2.1) ∗ owns (c : Thread nD τ) scM3_1 fullShare ((outsAt3 V c (n - 1) (by omega)).2.2.2.2))
          ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The pipeline's proof data -/

/-- The proof data of pipeline 3 on core `c`: the arrays as the region finds them (`V`); after the body at point `t` each input's
    buffer at its block and the outputs' at `outsAt3`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
    | ⟨7, _⟩ => (outsAt3 V c t.val t.isLt).2.1
    | ⟨8, _⟩ => (outsAt3 V c t.val t.isLt).2.2.1
  Φ t := PhiS3 V c t.val (Nat.le_of_lt_succ t.isLt)
  q _ := fullShare
  owed _ := 0

/-- The proof data's arrays are the region-entry contents . -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = (outsAt3 V c t.val t.isLt).1 := by dsimp only [dat3]
theorem after3_7 (c : Dev nD) (t : Fin cfg3.N) : (dat3 V c).after 7 t = (outsAt3 V c t.val t.isLt).2.1 := by dsimp only [dat3]
theorem after3_8 (c : Dev nD) (t : Fin cfg3.N) : (dat3 V c).after 8 t = (outsAt3 V c t.val t.isLt).2.2.1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- A window live at a point is left at what the body leaves in it. -/
theorem leaves3_0 (c : Dev nD) (t : Fin cfg3.N) : (dat3 V c).leavesExact 0 t = owns (c : Thread nD τ) (ms3_0 t) fullShare ((dat3 V c).after 0 t) := by
  unfold Dat.leavesExact; rw [liveAt3_0 t]
theorem leaves3_1 (c : Dev nD) (t : Fin cfg3.N) : (dat3 V c).leavesExact 1 t = owns (c : Thread nD τ) (ms3_1 t) fullShare ((dat3 V c).after 1 t) := by
  unfold Dat.leavesExact; rw [liveAt3_1 t]
theorem leaves3_2 (c : Dev nD) (t : Fin cfg3.N) : (dat3 V c).leavesExact 2 t = owns (c : Thread nD τ) (ms3_2 t) fullShare ((dat3 V c).after 2 t) := by
  unfold Dat.leavesExact; rw [liveAt3_2 t]
theorem leaves3_3 (c : Dev nD) (t : Fin cfg3.N) : (dat3 V c).leavesExact 3 t = owns (c : Thread nD τ) (ms3_3 t) fullShare ((dat3 V c).after 3 t) := by
  unfold Dat.leavesExact; rw [liveAt3_3 t]
theorem leaves3_4 (c : Dev nD) (t : Fin cfg3.N) : (dat3 V c).leavesExact 4 t = owns (c : Thread nD τ) (ms3_4 t) fullShare ((dat3 V c).after 4 t) := by
  unfold Dat.leavesExact; rw [liveAt3_4 t]
theorem leaves3_5 (c : Dev nD) (t : Fin cfg3.N) : (dat3 V c).leavesExact 5 t = owns (c : Thread nD τ) (ms3_5 t) fullShare ((dat3 V c).after 5 t) := by
  unfold Dat.leavesExact; rw [liveAt3_5 t]
theorem leaves3_6 (c : Dev nD) (t : Fin cfg3.N) : (dat3 V c).leavesExact 6 t = owns (c : Thread nD τ) (ms3_6 t) fullShare ((dat3 V c).after 6 t) := by
  unfold Dat.leavesExact; rw [liveAt3_6 t]
theorem leaves3_7_C (c : Dev nD) (t : Fin cfg3.N) (h0 : ¬cond3_0 (grid3.coords t)) (h1 : cond3_1 (grid3.coords t)) : (dat3 V c).leavesExact 7 t = owns (c : Thread nD τ) (ms3_7 t) fullShare ((dat3 V c).after 7 t) := by
  unfold Dat.leavesExact; rw [liveAt3_7_C t h0 h1]
theorem leaves3_8_C (c : Dev nD) (t : Fin cfg3.N) (h0 : ¬cond3_0 (grid3.coords t)) (h1 : cond3_1 (grid3.coords t)) : (dat3 V c).leavesExact 8 t = owns (c : Thread nD τ) (ms3_8 t) fullShare ((dat3 V c).after 8 t) := by
  unfold Dat.leavesExact; rw [liveAt3_8_C t h0 h1]

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t)

set_option maxHeartbeats 4800000 in
/-- The body at any point: the inputs' memrefs hold their blocks; the closed forms say which case the point is in, so that case's run
    applies; the invariant hands the body the accumulators at what the point before left (at anything at the first point) and the
    generator register, and takes the accumulators back at this point's contents (their pieces cover them); a window idle at the point
    is handed back untouched; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  by_cases h0 : t.val % 16 = 0
  · by_cases h1 : t.val % 16 = 15
    · exfalso; omega
    · rw [leaves3_0 V c t, leaves3_1 V c t, leaves3_2 V c t, leaves3_3 V c t, leaves3_4 V c t, leaves3_5 V c t, leaves3_6 V c t, after3_0, after3_1, after3_2, after3_3, after3_4, after3_5, after3_6]
      rw [Dat.leavesExact_idle (dat3 V c) 7 t (idleAt3_7_A t ((hcond3_0 t).mpr h0) (fun h => h1 ((hcond3_1 t).mp h))) (noFlush3_7_A t ((hcond3_0 t).mpr h0) (fun h => h1 ((hcond3_1 t).mp h)))]
      rw [Dat.leavesExact_idle (dat3 V c) 8 t (idleAt3_8_A t ((hcond3_0 t).mpr h0) (fun h => h1 ((hcond3_1 t).mp h))) (noFlush3_8_A t ((hcond3_0 t).mpr h0) (fun h => h1 ((hcond3_1 t).mp h)))]
      rw [outsAt3_A V c t h0 h1]
      unfold out3_A_6 sout3_A_0 sout3_A_1; (try dsimp only)
      by_cases hz : t.val = 0
      · rw [PhiS3_castSucc V c t, PhiS3_zero V c _ _ hz, PhiA3_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun3_A c (grid3.coords t) _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover3_A_0 c _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover3_A_1 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover3_A_6 c _ _ _ _ _ _ _ _ _ _ _ _ _ _ _ _ _ _ _ _ _ _ _ _ _ _ _ _ _ _ _)
        isplitl [H7]; · iexists _; iexact H7
        iexists _; iexact H8
      · rw [PhiS3_castSucc V c t, PhiS3_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun3_A c (grid3.coords t) _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexists _; iexact HS0
        isplitl [HS1]; · iexists _; iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover3_A_0 c _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover3_A_1 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover3_A_6 c _ _ _ _ _ _ _ _ _ _ _ _ _ _ _ _ _ _ _ _ _ _ _ _ _ _ _ _ _ _ _)
        isplitl [H7]; · iexists _; iexact H7
        iexists _; iexact H8
  · by_cases h1 : t.val % 16 = 15
    · rw [leaves3_0 V c t, leaves3_1 V c t, leaves3_2 V c t, leaves3_3 V c t, leaves3_4 V c t, leaves3_5 V c t, leaves3_6 V c t, after3_0, after3_1, after3_2, after3_3, after3_4, after3_5, after3_6]
      rw [leaves3_7_C V c t (fun h => h0 ((hcond3_0 t).mp h)) ((hcond3_1 t).mpr h1), leaves3_8_C V c t (fun h => h0 ((hcond3_0 t).mp h)) ((hcond3_1 t).mpr h1), after3_7, after3_8]
      rw [outsAt3_C V c t h0 h1]
      unfold out3_C_6 out3_C_7 out3_C_8 sout3_C_0 sout3_C_1; (try dsimp only)
      have hz : t.val ≠ 0 := by omega
      rw [PhiS3_castSucc V c t, PhiS3_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun3_C c (grid3.coords t) _ _ _ _ _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover3_C_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover3_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover3_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover3_C_8 c _ _ _ _ _ _ _ _ _ _ _ _ _ _ _ _ _ _ _ _ _ _ _ _ _ _ _ _ _ _ _ _ _)
    · rw [leaves3_0 V c t, leaves3_1 V c t, leaves3_2 V c t, leaves3_3 V c t, leaves3_4 V c t, leaves3_5 V c t, leaves3_6 V c t, after3_0, after3_1, after3_2, after3_3, after3_4, after3_5, after3_6]
      rw [Dat.leavesExact_idle (dat3 V c) 7 t (idleAt3_7_B t (fun h => h0 ((hcond3_0 t).mp h)) (fun h => h1 ((hcond3_1 t).mp h))) (noFlush3_7_B t (fun h => h0 ((hcond3_0 t).mp h)) (fun h => h1 ((hcond3_1 t).mp h)))]
      rw [Dat.leavesExact_idle (dat3 V c) 8 t (idleAt3_8_B t (fun h => h0 ((hcond3_0 t).mp h)) (fun h => h1 ((hcond3_1 t).mp h))) (noFlush3_8_B t (fun h => h0 ((hcond3_0 t).mp h)) (fun h => h1 ((hcond3_1 t).mp h)))]
      rw [outsAt3_B V c t h0 h1]
      unfold out3_B_6 sout3_B_0 sout3_B_1; (try dsimp only)
      have hz : t.val ≠ 0 := by omega
      rw [PhiS3_castSucc V c t, PhiS3_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun3_B c (grid3.coords t) _ _ _ _ _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover3_B_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover3_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulators' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 32 := N_3; omega)

end Cert.Kernel.Hand

end
-- ==== Proof.K.R4.Runs.lean ====
/- Region 4 of the program (custom_call 4, `cc4__fused_layer_kernel`): what the three runs of its body share. The windows' blocks read off
   the region-entry contents `V`; the two branch conditions of the body in closed form over the grid (the first holds exactly at the
   points t with t % 16 = 0, where the two accumulators are zeroed; the second exactly at t % 16 = 15, where they are stored,
   broadcast to eight rows, into windows 7 and 8); where windows 7 and 8 are idle and not written back; the staging and scratch
   memrefs; and the region invariant with the two accumulators split out of the scoped rest. -/
import proofs.«118595_j1726576853663_2_alg».proof.Proof.Gen.Kernel.Launch
import proofs.«118595_j1726576853663_2_alg».proof.Proof.Gen.Kernel.Skeleton
import proofs.«118595_j1726576853663_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data whose
    array is `V`'s and whose body leaves the block in place: unfetched, the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data whose
    array is `V`'s and whose body leaves the block in place: unfetched, the block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data whose
    array is `V`'s and whose body leaves the block in place: unfetched, the block index has not moved. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof data whose
    array is `V`'s and whose body leaves the block in place: unfetched, the block index has not moved. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof data whose
    array is `V`'s and whose body leaves the block in place: unfetched, the block index has not moved. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof data whose
    array is `V`'s and whose body leaves the block in place: unfetched, the block index has not moved. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first conditional (the accumulators are zeroed under it), from the grid coordinates. -/
abbrev cond4_0 (i : grid4.Coords) : Prop := (Scalar.cmpi .ne (Scalar.extui (Scalar.cmpi .eq (BitVec.ofNat 32 (i 1).val) 0#32)) 0#32) = 1#1
/-- It holds at the points ≡ 0 (mod 16): decided over the grid. -/
theorem hcond4_0 : ∀ t : Fin cfg4.N, cond4_0 (grid4.coords t) ↔ t.val % 16 = 0 :=
  (by decide +kernel : ∀ t : Fin grid4.N, cond4_0 (grid4.coords t) ↔ t.val % 16 = 0)

/-- The condition of the body's second conditional (the accumulators are stored into windows 7 and 8 under it). -/
abbrev cond4_1 (i : grid4.Coords) : Prop := k4_cond2 i = 1#1
/-- It holds at the points ≡ 15 (mod 16): decided over the grid. -/
theorem hcond4_1 : ∀ t : Fin cfg4.N, cond4_1 (grid4.coords t) ↔ t.val % 16 = 15 :=
  (by decide +kernel : ∀ t : Fin grid4.N, cond4_1 (grid4.coords t) ↔ t.val % 16 = 15)

/-! ## Where the windows are idle -/

/-- Window 0 is never idle. -/
theorem liveAt4_0 : ∀ t : Fin cfg4.N, cfg4.idle 0 (grid4.coords t) = false := by decide +kernel
/-- Window 1 is never idle. -/
theorem liveAt4_1 : ∀ t : Fin cfg4.N, cfg4.idle 1 (grid4.coords t) = false := by decide +kernel
/-- Window 2 is never idle. -/
theorem liveAt4_2 : ∀ t : Fin cfg4.N, cfg4.idle 2 (grid4.coords t) = false := by decide +kernel
/-- Window 3 is never idle. -/
theorem liveAt4_3 : ∀ t : Fin cfg4.N, cfg4.idle 3 (grid4.coords t) = false := by decide +kernel
/-- Window 4 is never idle. -/
theorem liveAt4_4 : ∀ t : Fin cfg4.N, cfg4.idle 4 (grid4.coords t) = false := by decide +kernel
/-- Window 5 is never idle. -/
theorem liveAt4_5 : ∀ t : Fin cfg4.N, cfg4.idle 5 (grid4.coords t) = false := by decide +kernel
/-- Window 6 is never idle. -/
theorem liveAt4_6 : ∀ t : Fin cfg4.N, cfg4.idle 6 (grid4.coords t) = false := by decide +kernel
/-- At the points where the first condition holds and the second does not, window 7 is idle (nothing is stored into it) -/
theorem idleAt4_7_A : ∀ t : Fin cfg4.N, cond4_0 (grid4.coords t) → ¬cond4_1 (grid4.coords t) → cfg4.idle 7 (grid4.coords t) = true := by decide +kernel
/-- and its block is not written back. -/
theorem noFlush4_7_A : ∀ t : Fin cfg4.N, cond4_0 (grid4.coords t) → ¬cond4_1 (grid4.coords t) → (cfg4.win 7).flush t = false := by decide +kernel
/-- The same where neither condition holds. -/
theorem idleAt4_7_B : ∀ t : Fin cfg4.N, ¬cond4_0 (grid4.coords t) → ¬cond4_1 (grid4.coords t) → cfg4.idle 7 (grid4.coords t) = true := by decide +kernel
theorem noFlush4_7_B : ∀ t : Fin cfg4.N, ¬cond4_0 (grid4.coords t) → ¬cond4_1 (grid4.coords t) → (cfg4.win 7).flush t = false := by decide +kernel
/-- Where the second condition holds (and the first does not) window 7 is live: the body stores into it. -/
theorem liveAt4_7_C : ∀ t : Fin cfg4.N, ¬cond4_0 (grid4.coords t) → cond4_1 (grid4.coords t) → cfg4.idle 7 (grid4.coords t) = false := by decide +kernel
/-- At the points where the first condition holds and the second does not, window 8 is idle (nothing is stored into it) -/
theorem idleAt4_8_A : ∀ t : Fin cfg4.N, cond4_0 (grid4.coords t) → ¬cond4_1 (grid4.coords t) → cfg4.idle 8 (grid4.coords t) = true := by decide +kernel
/-- and its block is not written back. -/
theorem noFlush4_8_A : ∀ t : Fin cfg4.N, cond4_0 (grid4.coords t) → ¬cond4_1 (grid4.coords t) → (cfg4.win 8).flush t = false := by decide +kernel
/-- The same where neither condition holds. -/
theorem idleAt4_8_B : ∀ t : Fin cfg4.N, ¬cond4_0 (grid4.coords t) → ¬cond4_1 (grid4.coords t) → cfg4.idle 8 (grid4.coords t) = true := by decide +kernel
theorem noFlush4_8_B : ∀ t : Fin cfg4.N, ¬cond4_0 (grid4.coords t) → ¬cond4_1 (grid4.coords t) → (cfg4.win 8).flush t = false := by decide +kernel
/-- Where the second condition holds (and the first does not) window 8 is live: the body stores into it. -/
theorem liveAt4_8_C : ∀ t : Fin cfg4.N, ¬cond4_0 (grid4.coords t) → cond4_1 (grid4.coords t) → cfg4.idle 8 (grid4.coords t) = false := by decide +kernel

/-! ## The staging and scratch memrefs -/

/-- One staging buffer of output window 6, through which its contents are stated (the choice does not matter). -/
abbrev VO4_6 : View sig .tc .vmem S2048x10 .f32 := (Memref.whole cc4_stg6_0 : Memref sig .tc .vmem S2048x10 .f32).view
/-- One staging buffer of output window 7, through which its contents are stated (the choice does not matter). -/
abbrev VO4_7 : View sig .tc .vmem S8x10 .f32 := (Memref.whole cc4_stg7_0 : Memref sig .tc .vmem S8x10 .f32).view
/-- One staging buffer of output window 8, through which its contents are stated (the choice does not matter). -/
abbrev VO4_8 : View sig .tc .vmem S8x10 .f32 := (Memref.whole cc4_stg8_0 : Memref sig .tc .vmem S8x10 .f32).view
/-- Each window's current staging memref at point `t`, spelled as the pipeline passes it, and its wholeness. -/
abbrev ms4_0 (t : Fin cfg4.N) : Memref sig .tc .vmem S2048x256 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x256 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S10x256 .bf16 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2048x10 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S8x10 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S8x10 .f32 := win4_8.stage (cfg4.slots t 8)
abbrev hs4_8 (t : Fin cfg4.N) : (ms4_8 t).IsWhole := hstage4_8 ((cfg4.slots t 8).cast nbuf4_8)
/-- The scratch operands (the two accumulators): whole scoped buffers of the kernel's own, passed beside the windows. -/
abbrev scM4_0 : Memref sig .tc .vmem S1x10 .f32 := Memref.whole cc4_scratch0
abbrev VS4_0 : View sig .tc .vmem S1x10 .f32 := scM4_0.view
abbrev scM4_1 : Memref sig .tc .vmem S1x10 .f32 := Memref.whole cc4_scratch1
abbrev VS4_1 : View sig .tc .vmem S1x10 .f32 := scM4_1.view

/-- The region invariant with the two accumulators as memrefs owned at some contents, the remainder of the scoped rest unopened
    beside them, and the generator register at some state: what the body obligation hands the run and takes back. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.Kernel.Hand

end
-- ==== Proof.K.R4.RunA.lean ====
/- Region 4: the whole-body run of `cc4__fused_layer_kernel` in control case A. -/
import proofs.«118595_j1726576853663_2_alg».proof.Proof.K.R4.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the first condition holds and the second does not (t % 16 = 0: the accumulators are zeroed, then
    added to; nothing is stored into windows 7 and 8).
    What the body's stores leave in each output's staging memref and in each accumulator, as pieces (last first), WITH the proof
    that on whole memrefs — the inputs' at their contents `x·`, output 6's at anything, outputs 7 and 8 at contents `xi·` handed back untouched,
    the accumulators at anything — the body runs to the continuation holding the inputs' as they were
    and every stored buffer with its pieces written. The printed function and its part are their skeletons; each conditional is decided
    by the case's hypotheses; the pieces are the witness the run finds. -/
noncomputable def kernelRun4_A (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) :
    Σ' (L6 : List (View.Piece (Elt F) S2048x10 .f32)), Σ' (L7 : List (View.Piece (Elt F) S8x10 .f32)), Σ' (L8 : List (View.Piece (Elt F) S8x10 .f32)), Σ' (LS0 : List (View.Piece (Elt F) S1x10 .f32)), { LS1 : List (View.Piece (Elt F) S1x10 .f32) //
      ∀ (xi7 xi8 : Vec F S8x10 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc4__fused_layer_kernel i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc4__fused_layer_kernel_eq_skeleton]; unfold cc4__fused_layer_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.Kernel.Hand

end
-- ==== Proof.K.R4.RunB.lean ====
/- Region 4: the whole-body run of `cc4__fused_layer_kernel` in control case B. -/
import proofs.«118595_j1726576853663_2_alg».proof.Proof.K.R4.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where neither condition holds (0 < t % 16 < 15: the accumulators, carried from the point before, are
    added to; nothing is stored into windows 7 and 8).
    What the body's stores leave in each output's staging memref and in each accumulator, as pieces (last first), WITH the proof
    that on whole memrefs — the inputs' at their contents `x·`, output 6's at anything, outputs 7 and 8 at contents `xi·` handed back untouched,
    the accumulators at the contents `xs·` the point before left — the body runs to the continuation holding the inputs' as they were
    and every stored buffer with its pieces written. The printed function and its part are their skeletons; each conditional is decided
    by the case's hypotheses; the pieces are the witness the run finds. -/
noncomputable def kernelRun4_B (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) :
    Σ' (L6 : List (View.Piece (Elt F) S2048x10 .f32)), Σ' (L7 : List (View.Piece (Elt F) S8x10 .f32)), Σ' (L8 : List (View.Piece (Elt F) S8x10 .f32)), Σ' (LS0 : List (View.Piece (Elt F) S1x10 .f32)), { LS1 : List (View.Piece (Elt F) S1x10 .f32) //
      ∀ (xi7 xi8 : Vec F S8x10 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc4__fused_layer_kernel i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc4__fused_layer_kernel_eq_skeleton]; unfold cc4__fused_layer_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.Kernel.Hand

end
-- ==== Proof.K.R4.RunC.lean ====
/- Region 4: the whole-body run of `cc4__fused_layer_kernel` in control case C. -/
import proofs.«118595_j1726576853663_2_alg».proof.Proof.K.R4.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the second condition holds and the first does not (t % 16 = 15: the accumulators, carried from the
    point before, are added to and then stored, broadcast to eight rows, into windows 7 and 8).
    What the body's stores leave in each output's staging memref and in each accumulator, as pieces (last first), WITH the proof
    that on whole memrefs — the inputs' at their contents `x·`, output 6's at anything, outputs 7 and 8 at anything,
    the accumulators at the contents `xs·` the point before left — the body runs to the continuation holding the inputs' as they were
    and every stored buffer with its pieces written. The printed function and its part are their skeletons; each conditional is decided
    by the case's hypotheses; the pieces are the witness the run finds. -/
noncomputable def kernelRun4_C (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) :
    Σ' (L6 : List (View.Piece (Elt F) S2048x10 .f32)), Σ' (L7 : List (View.Piece (Elt F) S8x10 .f32)), Σ' (L8 : List (View.Piece (Elt F) S8x10 .f32)), Σ' (LS0 : List (View.Piece (Elt F) S1x10 .f32)), { LS1 : List (View.Piece (Elt F) S1x10 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc4__fused_layer_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc4__fused_layer_kernel_eq_skeleton]; unfold cc4__fused_layer_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexists _; iexact HS0
    iexists _; iexact HS1

end Cert.Kernel.Hand

end
-- ==== Proof.K.R4.Frame.lean ====
/- Region 4: the frame lemmas of custom_call 4 at the region-entry contents `V`. What each control case leaves in the outputs' staging
   buffers and in the two accumulators (the pieces the runs found, read back; they cover each buffer), the same point by point along the
   grid (`outsAt4`: an accumulator at a point other than the first of a core continues from what the point before left), the region
   invariant carrying the accumulators at those contents, the pipeline's proof data, and the body obligation with its entry and exit. -/
import proofs.«118595_j1726576853663_2_alg».proof.Proof.K.R4.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces for output 6 tile its block (one store of the whole block), so they cover it. -/
theorem cover4_A_6 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (y : S2048x10.Idx) :
    ∃ pc ∈ (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).1 S2048x10.size (by sl_kernel_rfl) y

/-- What case A leaves in output 6's staging buffer: its pieces read back over junk. -/
def out4_A_6 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) : Vec F S2048x10 .f32 :=
  VO4_6.read (Elt F) (VO4_6.writes (Elt F) VO4_6.junk (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).1)

/-- Case A stores nothing into output 7 (the window is idle at its points and not written back there): no pieces, a
    placeholder that nothing consults. -/
def out4_A_7 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) : Vec F S8x10 .f32 :=
  VO4_7.read (Elt F) (VO4_7.writes (Elt F) VO4_7.junk (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).2.1)

/-- Case A stores nothing into output 8 (the window is idle at its points and not written back there): no pieces, a
    placeholder that nothing consults. -/
def out4_A_8 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) : Vec F S8x10 .f32 :=
  VO4_8.read (Elt F) (VO4_8.writes (Elt F) VO4_8.junk (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).2.2.1)

/-- Case A's pieces for accumulator 0 cover it. -/
theorem scover4_A_0 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (y : S1x10.Idx) :
    ∃ pc ∈ (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1 S1x10.size (by sl_kernel_rfl) y

/-- What case A leaves in accumulator 0: its pieces read back over junk. -/
def sout4_A_0 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) : Vec F S1x10 .f32 :=
  VS4_0.read (Elt F) (VS4_0.writes (Elt F) VS4_0.junk (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1)

/-- Case A's pieces for accumulator 1 cover it. -/
theorem scover4_A_1 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (y : S1x10.Idx) :
    ∃ pc ∈ (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1, y ∈ pc.1.set :=
  View.cover_of_tiledL (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1 S1x10.size (by sl_kernel_rfl) y

/-- What case A leaves in accumulator 1: its pieces read back over junk. -/
def sout4_A_1 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) : Vec F S1x10 .f32 :=
  VS4_1.read (Elt F) (VS4_1.writes (Elt F) VS4_1.junk (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1)

/-- Case B's pieces for output 6 tile its block (one store of the whole block), so they cover it. -/
theorem cover4_B_6 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) (y : S2048x10.Idx) :
    ∃ pc ∈ (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S2048x10.size (by sl_kernel_rfl) y

/-- What case B leaves in output 6's staging buffer: its pieces read back over junk. -/
def out4_B_6 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) : Vec F S2048x10 .f32 :=
  VO4_6.read (Elt F) (VO4_6.writes (Elt F) VO4_6.junk (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case B stores nothing into output 7 (the window is idle at its points and not written back there): no pieces, a
    placeholder that nothing consults. -/
def out4_B_7 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) : Vec F S8x10 .f32 :=
  VO4_7.read (Elt F) (VO4_7.writes (Elt F) VO4_7.junk (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case B stores nothing into output 8 (the window is idle at its points and not written back there): no pieces, a
    placeholder that nothing consults. -/
def out4_B_8 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) : Vec F S8x10 .f32 :=
  VO4_8.read (Elt F) (VO4_8.writes (Elt F) VO4_8.junk (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case B's pieces for accumulator 0 cover it. -/
theorem scover4_B_0 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) (y : S1x10.Idx) :
    ∃ pc ∈ (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 S1x10.size (by sl_kernel_rfl) y

/-- What case B leaves in accumulator 0: its pieces read back over junk. -/
def sout4_B_0 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) : Vec F S1x10 .f32 :=
  VS4_0.read (Elt F) (VS4_0.writes (Elt F) VS4_0.junk (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-- Case B's pieces for accumulator 1 cover it. -/
theorem scover4_B_1 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) (y : S1x10.Idx) :
    ∃ pc ∈ (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S1x10.size (by sl_kernel_rfl) y

/-- What case B leaves in accumulator 1: its pieces read back over junk. -/
def sout4_B_1 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) : Vec F S1x10 .f32 :=
  VS4_1.read (Elt F) (VS4_1.writes (Elt F) VS4_1.junk (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

/-- Case C's pieces for output 6 tile its block (one store of the whole block), so they cover it. -/
theorem cover4_C_6 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) (y : S2048x10.Idx) :
    ∃ pc ∈ (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S2048x10.size (by sl_kernel_rfl) y

/-- What case C leaves in output 6's staging buffer: its pieces read back over junk. -/
def out4_C_6 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) : Vec F S2048x10 .f32 :=
  VO4_6.read (Elt F) (VO4_6.writes (Elt F) VO4_6.junk (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case C's pieces for output 7 tile its block (one store of the whole block), so they cover it. -/
theorem cover4_C_7 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) (y : S8x10.Idx) :
    ∃ pc ∈ (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 S8x10.size (by sl_kernel_rfl) y

/-- What case C leaves in output 7's staging buffer: its pieces read back over junk. -/
def out4_C_7 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) : Vec F S8x10 .f32 :=
  VO4_7.read (Elt F) (VO4_7.writes (Elt F) VO4_7.junk (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case C's pieces for output 8 tile its block (one store of the whole block), so they cover it. -/
theorem cover4_C_8 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) (y : S8x10.Idx) :
    ∃ pc ∈ (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1 S8x10.size (by sl_kernel_rfl) y

/-- What case C leaves in output 8's staging buffer: its pieces read back over junk. -/
def out4_C_8 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) : Vec F S8x10 .f32 :=
  VO4_8.read (Elt F) (VO4_8.writes (Elt F) VO4_8.junk (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case C's pieces for accumulator 0 cover it. -/
theorem scover4_C_0 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) (y : S1x10.Idx) :
    ∃ pc ∈ (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 S1x10.size (by sl_kernel_rfl) y

/-- What case C leaves in accumulator 0: its pieces read back over junk. -/
def sout4_C_0 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) : Vec F S1x10 .f32 :=
  VS4_0.read (Elt F) (VS4_0.writes (Elt F) VS4_0.junk (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-- Case C's pieces for accumulator 1 cover it. -/
theorem scover4_C_1 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) (y : S1x10.Idx) :
    ∃ pc ∈ (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S1x10.size (by sl_kernel_rfl) y

/-- What case C leaves in accumulator 1: its pieces read back over junk. -/
def sout4_C_1 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) : Vec F S1x10 .f32 :=
  VS4_1.read (Elt F) (VS4_1.writes (Elt F) VS4_1.junk (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

/-! ## What the outputs and the accumulators hold after each point -/

/-- THE ACCUMULATION. What the outputs' staging buffers and the two accumulators hold after the body at position `n` (the outputs in window
    order, then the accumulators): the case the closed forms select at `n`, run at the point's memrefs and input blocks, an accumulator
    at a point other than a core's first continuing from what this leaves at `n - 1`. Both conditions at once is no point. -/
def outsAt4 (c : Dev nD) : (n : ℕ) → n < cfg4.N → Vec F S2048x10 .f32 × Vec F S8x10 .f32 × Vec F S8x10 .f32 × Vec F S1x10 .f32 × Vec F S1x10 .f32
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), out4_A_8 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h0 : (n + 1) % 16 = 0 then
      if h1 : (n + 1) % 16 = 15 then
        False.elim (by omega)
      else
        (out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), out4_A_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), out4_A_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩))
    else
      if h1 : (n + 1) % 16 = 15 then
        (out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, out4_C_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, out4_C_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2)
      else
        (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, out4_B_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2)

/-- `outsAt4` at a point of case A: that case's contents. -/
theorem outsAt4_A (c : Dev nD) (t : Fin cfg4.N) (h0 : t.val % 16 = 0) (h1 : ¬t.val % 16 = 15) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 16 = 0) (h1 : ¬t.val % 16 = 15) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 16 = 0) (h1 : t.val % 16 = 15) :
    outsAt4 V c t.val t.isLt = (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the class's (every scratch at anything); afterwards the two
    accumulators at what the point before left in them, the remainder of the scoped rest unopened, and the generator register at
    some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2))
          ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulators at that point's contents. -/
theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2))
          ∗ Pipeline.scopedRestBut (Ix := Unit) (Name := ℕ) (U := UR sig nD τ) (Lvl := ℕ) (Val := Elt F) spec4 c [cc4_scratch0, cc4_scratch1]) ∗ (∃ r, prngReg c r)) := rfl

/-- Before a point that is not the first: the accumulators at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2))
          ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of pipeline 4 on core `c`: the arrays as the region finds them (`V`); after the body at point `t` each input's
    buffer at its block and the outputs' at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
    | ⟨8, _⟩ => (outsAt4 V c t.val t.isLt).2.2.1
  Φ t := PhiS4 V c t.val (Nat.le_of_lt_succ t.isLt)
  q _ := fullShare
  owed _ := 0

/-- The proof data's arrays are the region-entry contents . -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]
theorem after4_8 (c : Dev nD) (t : Fin cfg4.N) : (dat4 V c).after 8 t = (outsAt4 V c t.val t.isLt).2.2.1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- A window live at a point is left at what the body leaves in it. -/
theorem leaves4_0 (c : Dev nD) (t : Fin cfg4.N) : (dat4 V c).leavesExact 0 t = owns (c : Thread nD τ) (ms4_0 t) fullShare ((dat4 V c).after 0 t) := by
  unfold Dat.leavesExact; rw [liveAt4_0 t]
theorem leaves4_1 (c : Dev nD) (t : Fin cfg4.N) : (dat4 V c).leavesExact 1 t = owns (c : Thread nD τ) (ms4_1 t) fullShare ((dat4 V c).after 1 t) := by
  unfold Dat.leavesExact; rw [liveAt4_1 t]
theorem leaves4_2 (c : Dev nD) (t : Fin cfg4.N) : (dat4 V c).leavesExact 2 t = owns (c : Thread nD τ) (ms4_2 t) fullShare ((dat4 V c).after 2 t) := by
  unfold Dat.leavesExact; rw [liveAt4_2 t]
theorem leaves4_3 (c : Dev nD) (t : Fin cfg4.N) : (dat4 V c).leavesExact 3 t = owns (c : Thread nD τ) (ms4_3 t) fullShare ((dat4 V c).after 3 t) := by
  unfold Dat.leavesExact; rw [liveAt4_3 t]
theorem leaves4_4 (c : Dev nD) (t : Fin cfg4.N) : (dat4 V c).leavesExact 4 t = owns (c : Thread nD τ) (ms4_4 t) fullShare ((dat4 V c).after 4 t) := by
  unfold Dat.leavesExact; rw [liveAt4_4 t]
theorem leaves4_5 (c : Dev nD) (t : Fin cfg4.N) : (dat4 V c).leavesExact 5 t = owns (c : Thread nD τ) (ms4_5 t) fullShare ((dat4 V c).after 5 t) := by
  unfold Dat.leavesExact; rw [liveAt4_5 t]
theorem leaves4_6 (c : Dev nD) (t : Fin cfg4.N) : (dat4 V c).leavesExact 6 t = owns (c : Thread nD τ) (ms4_6 t) fullShare ((dat4 V c).after 6 t) := by
  unfold Dat.leavesExact; rw [liveAt4_6 t]
theorem leaves4_7_C (c : Dev nD) (t : Fin cfg4.N) (h0 : ¬cond4_0 (grid4.coords t)) (h1 : cond4_1 (grid4.coords t)) : (dat4 V c).leavesExact 7 t = owns (c : Thread nD τ) (ms4_7 t) fullShare ((dat4 V c).after 7 t) := by
  unfold Dat.leavesExact; rw [liveAt4_7_C t h0 h1]
theorem leaves4_8_C (c : Dev nD) (t : Fin cfg4.N) (h0 : ¬cond4_0 (grid4.coords t)) (h1 : cond4_1 (grid4.coords t)) : (dat4 V c).leavesExact 8 t = owns (c : Thread nD τ) (ms4_8 t) fullShare ((dat4 V c).after 8 t) := by
  unfold Dat.leavesExact; rw [liveAt4_8_C t h0 h1]

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 4800000 in
/-- The body at any point: the inputs' memrefs hold their blocks; the closed forms say which case the point is in, so that case's run
    applies; the invariant hands the body the accumulators at what the point before left (at anything at the first point) and the
    generator register, and takes the accumulators back at this point's contents (their pieces cover them); a window idle at the point
    is handed back untouched; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 32 := lt_of_lt_of_eq t.isLt (show cfg4.N = 32 from N_4)
  by_cases h0 : t.val % 16 = 0
  · by_cases h1 : t.val % 16 = 15
    · exfalso; omega
    · rw [leaves4_0 V c t, leaves4_1 V c t, leaves4_2 V c t, leaves4_3 V c t, leaves4_4 V c t, leaves4_5 V c t, leaves4_6 V c t, after4_0, after4_1, after4_2, after4_3, after4_4, after4_5, after4_6]
      rw [Dat.leavesExact_idle (dat4 V c) 7 t (idleAt4_7_A t ((hcond4_0 t).mpr h0) (fun h => h1 ((hcond4_1 t).mp h))) (noFlush4_7_A t ((hcond4_0 t).mpr h0) (fun h => h1 ((hcond4_1 t).mp h)))]
      rw [Dat.leavesExact_idle (dat4 V c) 8 t (idleAt4_8_A t ((hcond4_0 t).mpr h0) (fun h => h1 ((hcond4_1 t).mp h))) (noFlush4_8_A t ((hcond4_0 t).mpr h0) (fun h => h1 ((hcond4_1 t).mp h)))]
      rw [outsAt4_A V c t h0 h1]
      unfold out4_A_6 sout4_A_0 sout4_A_1; (try dsimp only)
      by_cases hz : t.val = 0
      · rw [PhiS4_castSucc V c t, PhiS4_zero V c _ _ hz, PhiA4_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun4_A c (grid4.coords t) _ _ _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover4_A_1 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover4_A_6 c _ _ _ _ _ _ _ _ _ _ _ _ _ _ _ _ _ _ _ _ _ _ _ _ _ _ _ _ _ _ _)
        isplitl [H7]; · iexists _; iexact H7
        iexists _; iexact H8
      · rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun4_A c (grid4.coords t) _ _ _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexists _; iexact HS0
        isplitl [HS1]; · iexists _; iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover4_A_1 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover4_A_6 c _ _ _ _ _ _ _ _ _ _ _ _ _ _ _ _ _ _ _ _ _ _ _ _ _ _ _ _ _ _ _)
        isplitl [H7]; · iexists _; iexact H7
        iexists _; iexact H8
  · by_cases h1 : t.val % 16 = 15
    · rw [leaves4_0 V c t, leaves4_1 V c t, leaves4_2 V c t, leaves4_3 V c t, leaves4_4 V c t, leaves4_5 V c t, leaves4_6 V c t, after4_0, after4_1, after4_2, after4_3, after4_4, after4_5, after4_6]
      rw [leaves4_7_C V c t (fun h => h0 ((hcond4_0 t).mp h)) ((hcond4_1 t).mpr h1), leaves4_8_C V c t (fun h => h0 ((hcond4_0 t).mp h)) ((hcond4_1 t).mpr h1), after4_7, after4_8]
      rw [outsAt4_C V c t h0 h1]
      unfold out4_C_6 out4_C_7 out4_C_8 sout4_C_0 sout4_C_1; (try dsimp only)
      have hz : t.val ≠ 0 := by omega
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_C c (grid4.coords t) _ _ _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover4_C_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover4_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover4_C_8 c _ _ _ _ _ _ _ _ _ _ _ _ _ _ _ _ _ _ _ _ _ _ _ _ _ _ _ _ _ _ _ _ _)
    · rw [leaves4_0 V c t, leaves4_1 V c t, leaves4_2 V c t, leaves4_3 V c t, leaves4_4 V c t, leaves4_5 V c t, leaves4_6 V c t, after4_0, after4_1, after4_2, after4_3, after4_4, after4_5, after4_6]
      rw [Dat.leavesExact_idle (dat4 V c) 7 t (idleAt4_7_B t (fun h => h0 ((hcond4_0 t).mp h)) (fun h => h1 ((hcond4_1 t).mp h))) (noFlush4_7_B t (fun h => h0 ((hcond4_0 t).mp h)) (fun h => h1 ((hcond4_1 t).mp h)))]
      rw [Dat.leavesExact_idle (dat4 V c) 8 t (idleAt4_8_B t (fun h => h0 ((hcond4_0 t).mp h)) (fun h => h1 ((hcond4_1 t).mp h))) (noFlush4_8_B t (fun h => h0 ((hcond4_0 t).mp h)) (fun h => h1 ((hcond4_1 t).mp h)))]
      rw [outsAt4_B V c t h0 h1]
      unfold out4_B_6 sout4_B_0 sout4_B_1; (try dsimp only)
      have hz : t.val ≠ 0 := by omega
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_B c (grid4.coords t) _ _ _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover4_B_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 32 := N_4; omega)

end Cert.Kernel.Hand

end
-- ==== Proof.K.R5.Runs.lean ====
/- What the three runs of REGION 5 of @main (custom_call 5, the softmax statistics) share. The region is a pipeline over
   a grid of 2 x 16 points t = 16 * i0 + i1 with seven windows — window 0 the raw block of 2048 rows, fetched at every
   point; windows 1-4 the row vectors mean, variance, scale and shift, fetched at the first point only; windows 5 and
   6 the blocks of the running maximum and the running sum, written back at the last point of each row of the grid
   (i1 = 15) — and two row-vector accumulators of the body's own, kept between points: the running maximum, set to
   minus infinity where i1 = 0, and the running sum, set to zero there. The body has two conditionals, on i1 = 0 and
   on i1 = 15, hence three kinds of point: A (i1 = 0), B (0 < i1 < 15), C (i1 = 15).
   Everything is stated at a parameter V, the buffer contents when the region is entered, and at any F. -/
import proofs.«118595_j1726576853663_2_alg».proof.Proof.Gen.Kernel.Launch
import proofs.«118595_j1726576853663_2_alg».proof.Proof.Gen.Kernel.Skeleton
import proofs.«118595_j1726576853663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether the point fetches it or not
    (where it is not fetched its block index has not moved and the body left the block in place), for any proof
    data whose array is `V`'s and whose body leaves the block as it found it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether the point fetches it or not
    (where it is not fetched its block index has not moved and the body left the block in place), for any proof
    data whose array is `V`'s and whose body leaves the block as it found it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether the point fetches it or not
    (where it is not fetched its block index has not moved and the body left the block in place), for any proof
    data whose array is `V`'s and whose body leaves the block as it found it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether the point fetches it or not
    (where it is not fetched its block index has not moved and the body left the block in place), for any proof
    data whose array is `V`'s and whose body leaves the block as it found it. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether the point fetches it or not
    (where it is not fetched its block index has not moved and the body left the block in place), for any proof
    data whose array is `V`'s and whose body leaves the block as it found it. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions -/

/-- The first conditional's condition, from the grid coordinates: i1 = 0, as the body computes it. -/
abbrev cond5_0 (i : grid5.Coords) : Prop := (Scalar.cmpi .ne (Scalar.extui (Scalar.cmpi .eq (BitVec.ofNat 32 (i 1).val) 0#32)) 0#32) = 1#1
/-- It holds at the points ≡ 0 (mod 16). -/
theorem hcond5_0 : ∀ t : Fin cfg5.N, cond5_0 (grid5.coords t) ↔ t.val % 16 = 0 :=
  (by decide +kernel : ∀ t : Fin grid5.N, cond5_0 (grid5.coords t) ↔ t.val % 16 = 0)

/-- The second conditional's condition: i1 = 15. -/
abbrev cond5_1 (i : grid5.Coords) : Prop := k5_cond2 i = 1#1
/-- It holds at the points ≡ 15 (mod 16). -/
theorem hcond5_1 : ∀ t : Fin cfg5.N, cond5_1 (grid5.coords t) ↔ t.val % 16 = 15 :=
  (by decide +kernel : ∀ t : Fin grid5.N, cond5_1 (grid5.coords t) ↔ t.val % 16 = 15)

/-! ## Where the windows are idle -/

/-- Window 0 is never idle (an input). -/
theorem liveAt5_0 : ∀ t : Fin cfg5.N, cfg5.idle 0 (grid5.coords t) = false := by decide +kernel
/-- Window 1 is never idle (an input). -/
theorem liveAt5_1 : ∀ t : Fin cfg5.N, cfg5.idle 1 (grid5.coords t) = false := by decide +kernel
/-- Window 2 is never idle (an input). -/
theorem liveAt5_2 : ∀ t : Fin cfg5.N, cfg5.idle 2 (grid5.coords t) = false := by decide +kernel
/-- Window 3 is never idle (an input). -/
theorem liveAt5_3 : ∀ t : Fin cfg5.N, cfg5.idle 3 (grid5.coords t) = false := by decide +kernel
/-- Window 4 is never idle (an input). -/
theorem liveAt5_4 : ∀ t : Fin cfg5.N, cfg5.idle 4 (grid5.coords t) = false := by decide +kernel
/-- At the points of kind A output 5 is idle: the body stores nothing into it there, -/
theorem idleAt5_5_A : ∀ t : Fin cfg5.N, cond5_0 (grid5.coords t) → ¬cond5_1 (grid5.coords t) → cfg5.idle 5 (grid5.coords t) = true := by decide +kernel
/-- and the pipeline does not write its block back. -/
theorem noFlush5_5_A : ∀ t : Fin cfg5.N, cond5_0 (grid5.coords t) → ¬cond5_1 (grid5.coords t) → (cfg5.win 5).flush t = false := by decide +kernel
/-- At the points of kind B output 5 is idle: the body stores nothing into it there, -/
theorem idleAt5_5_B : ∀ t : Fin cfg5.N, ¬cond5_0 (grid5.coords t) → ¬cond5_1 (grid5.coords t) → cfg5.idle 5 (grid5.coords t) = true := by decide +kernel
/-- and the pipeline does not write its block back. -/
theorem noFlush5_5_B : ∀ t : Fin cfg5.N, ¬cond5_0 (grid5.coords t) → ¬cond5_1 (grid5.coords t) → (cfg5.win 5).flush t = false := by decide +kernel
/-- At the points of kind C output 5 is live: the body stores into it. -/
theorem liveAt5_5_C : ∀ t : Fin cfg5.N, ¬cond5_0 (grid5.coords t) → cond5_1 (grid5.coords t) → cfg5.idle 5 (grid5.coords t) = false := by decide +kernel
/-- At the points of kind A output 6 is idle: the body stores nothing into it there, -/
theorem idleAt5_6_A : ∀ t : Fin cfg5.N, cond5_0 (grid5.coords t) → ¬cond5_1 (grid5.coords t) → cfg5.idle 6 (grid5.coords t) = true := by decide +kernel
/-- and the pipeline does not write its block back. -/
theorem noFlush5_6_A : ∀ t : Fin cfg5.N, cond5_0 (grid5.coords t) → ¬cond5_1 (grid5.coords t) → (cfg5.win 6).flush t = false := by decide +kernel
/-- At the points of kind B output 6 is idle: the body stores nothing into it there, -/
theorem idleAt5_6_B : ∀ t : Fin cfg5.N, ¬cond5_0 (grid5.coords t) → ¬cond5_1 (grid5.coords t) → cfg5.idle 6 (grid5.coords t) = true := by decide +kernel
/-- and the pipeline does not write its block back. -/
theorem noFlush5_6_B : ∀ t : Fin cfg5.N, ¬cond5_0 (grid5.coords t) → ¬cond5_1 (grid5.coords t) → (cfg5.win 6).flush t = false := by decide +kernel
/-- At the points of kind C output 6 is live: the body stores into it. -/
theorem liveAt5_6_C : ∀ t : Fin cfg5.N, ¬cond5_0 (grid5.coords t) → cond5_1 (grid5.coords t) → cfg5.idle 6 (grid5.coords t) = false := by decide +kernel

/-! ## The memrefs the body is called on -/

/-- One staging buffer of each output window, through which its contents are stated (the choice does not matter). -/
abbrev VO5_5 : View sig .tc .vmem S8x10 .f32 := (Memref.whole cc5_stg5_0 : Memref sig .tc .vmem S8x10 .f32).view
abbrev VO5_6 : View sig .tc .vmem S8x10 .f32 := (Memref.whole cc5_stg6_0 : Memref sig .tc .vmem S8x10 .f32).view
/-- Each window's current staging memref at point `t`, spelled as the pipeline passes it, and its wholeness. -/
abbrev ms5_0 (t : Fin cfg5.N) : Memref sig .tc .vmem S2048x10 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x10 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x10 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x10 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x10 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S8x10 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S8x10 .f32 := win5_6.stage (cfg5.slots t 6)
abbrev hs5_6 (t : Fin cfg5.N) : (ms5_6 t).IsWhole := hstage5_6 ((cfg5.slots t 6).cast nbuf5_6)
/-- The two accumulators: whole buffers of the body's own, passed beside the windows — the running maximum and the
    running sum — and each as a view, through which what it holds is stated. -/
abbrev scM5_0 : Memref sig .tc .vmem S1x10 .f32 := Memref.whole cc5_scratch0
abbrev scM5_1 : Memref sig .tc .vmem S1x10 .f32 := Memref.whole cc5_scratch1
abbrev VS5_0 : View sig .tc .vmem S1x10 .f32 := scM5_0.view
abbrev VS5_1 : View sig .tc .vmem S1x10 .f32 := scM5_1.view

/-- The rest of the core's scoped buffers once the two accumulators are taken out: carried unopened through the region. -/
abbrev rest5 (c : Dev nD) : sProp 𝕄 :=
  Pipeline.scopedRestBut (Ix := Unit) (Name := ℕ) (U := UR sig nD τ) (Lvl := ℕ) (Val := Elt F) spec5 c [cc5_scratch0, cc5_scratch1]

/-- The invariant the launch hands the region, with the two accumulators as memrefs owned at some contents, the
    other scoped buffers unopened, and the generator register at some state. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d)) ∗ rest5 c) ∗ (∃ r, prngReg c r)) := by
  unfold Pipeline.ΦA; rw [scopedRest5_split]; simp only [scM5_0, scM5_1, owns_whole]; try rfl

end Cert.Kernel.Hand

end
-- ==== Proof.K.R5.RunA.lean ====
/- The run of REGION 5's body at a point of kind A (the first conditional taken, the second not: i1 = 0): on whole staging memrefs — the five inputs' at their
   contents, the two outputs' at contents handed back untouched (the body stores nothing into them here), the two accumulators' at anything (the body resets them here) —
   the body runs to the continuation holding the inputs' as they were, and each accumulator's buffer with its
   pieces written. The pieces are found by the run itself: they are the witnesses of the statement. -/
import proofs.«118595_j1726576853663_2_alg».proof.Proof.K.R5.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

set_option maxHeartbeats 1000000 in
/-- What the body's stores leave, as pieces (last first), at a point of kind A, with the body's triple there. -/
noncomputable def kernelRun5_A (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : cond5_0 i) (hc1 : ¬cond5_1 i)
    (x0 : Vec F S2048x10 .f32) (x1 : Vec F S1x10 .f32) (x2 : Vec F S1x10 .f32) (x3 : Vec F S1x10 .f32) (x4 : Vec F S1x10 .f32) :
    Σ' (L5 : List (View.Piece (Elt F) S8x10 .f32)) (L6 : List (View.Piece (Elt F) S8x10 .f32)) (LS0 : List (View.Piece (Elt F) S1x10 .f32)), { LS1 : List (View.Piece (Elt F) S1x10 .f32) //
      ∀ (xi5 : Vec F S8x10 .f32) (xi6 : Vec F S8x10 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc5__softmax_stats_kernel i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc5__softmax_stats_kernel_eq_skeleton]; unfold cc5__softmax_stats_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.K.R5.RunB.lean ====
/- The run of REGION 5's body at a point of kind B (neither conditional taken: 0 < i1 < 15): on whole staging memrefs — the five inputs' at their
   contents, the two outputs' at contents handed back untouched (the body stores nothing into them here), the two accumulators' at what the point before left —
   the body runs to the continuation holding the inputs' as they were, and each accumulator's buffer with its
   pieces written. The pieces are found by the run itself: they are the witnesses of the statement. -/
import proofs.«118595_j1726576853663_2_alg».proof.Proof.K.R5.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

set_option maxHeartbeats 1000000 in
/-- What the body's stores leave, as pieces (last first), at a point of kind B, with the body's triple there. -/
noncomputable def kernelRun5_B (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : ¬cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) :
    Σ' (L5 : List (View.Piece (Elt F) S8x10 .f32)) (L6 : List (View.Piece (Elt F) S8x10 .f32)) (LS0 : List (View.Piece (Elt F) S1x10 .f32)), { LS1 : List (View.Piece (Elt F) S1x10 .f32) //
      ∀ (xi5 : Vec F S8x10 .f32) (xi6 : Vec F S8x10 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc5__softmax_stats_kernel i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc5__softmax_stats_kernel_eq_skeleton]; unfold cc5__softmax_stats_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.K.R5.RunC.lean ====
/- The run of REGION 5's body at a point of kind C (the first conditional not taken, the second taken: i1 = 15): on whole staging memrefs — the five inputs' at their
   contents, the two outputs' at anything, the two accumulators' at what the point before left —
   the body runs to the continuation holding the inputs' as they were, each output's buffer with its pieces written, and each accumulator's buffer with its
   pieces written. The pieces are found by the run itself: they are the witnesses of the statement. -/
import proofs.«118595_j1726576853663_2_alg».proof.Proof.K.R5.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

set_option maxHeartbeats 1000000 in
/-- What the body's stores leave, as pieces (last first), at a point of kind C, with the body's triple there. -/
noncomputable def kernelRun5_C (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) :
    Σ' (L5 : List (View.Piece (Elt F) S8x10 .f32)) (L6 : List (View.Piece (Elt F) S8x10 .f32)) (LS0 : List (View.Piece (Elt F) S1x10 .f32)), { LS1 : List (View.Piece (Elt F) S1x10 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc5__softmax_stats_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc5__softmax_stats_kernel_eq_skeleton]; unfold cc5__softmax_stats_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    iexists _; iexact HS1

end Cert.Kernel.Hand

end
-- ==== Proof.K.R5.Frame.lean ====
/- The frame lemmas of REGION 5 of @main (custom_call 5, the softmax statistics): what the two outputs and the two
   accumulators hold at each kind of point and point by point, the region's invariant (before the first point what the
   launch hands it; afterwards the two accumulators at what the point before left, the other scoped buffers unopened,
   the generator register at some state), the proof data, the body obligation, and the invariant at the region's ends. -/
import proofs.«118595_j1726576853663_2_alg».proof.Proof.K.R5.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- A point of kind A stores nothing into output 5 (the window is idle there and not written back): no pieces — a
    placeholder that nothing consults. -/
def out5_A_5 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : cond5_0 i) (hc1 : ¬cond5_1 i)
    (x0 : Vec F S2048x10 .f32) (x1 : Vec F S1x10 .f32) (x2 : Vec F S1x10 .f32) (x3 : Vec F S1x10 .f32) (x4 : Vec F S1x10 .f32) : Vec F S8x10 .f32 :=
  VO5_5.read (Elt F) (VO5_5.writes (Elt F) VO5_5.junk (kernelRun5_A c i arg2 harg2 arg3 harg3 arg4 harg4 arg5 harg5 arg6 harg6 arg7 harg7 arg8 harg8 arg9 harg9 arg10 harg10 hc0 hc1 x0 x1 x2 x3 x4).1)

/-- A point of kind A stores nothing into output 6 (the window is idle there and not written back): no pieces — a
    placeholder that nothing consults. -/
def out5_A_6 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : cond5_0 i) (hc1 : ¬cond5_1 i)
    (x0 : Vec F S2048x10 .f32) (x1 : Vec F S1x10 .f32) (x2 : Vec F S1x10 .f32) (x3 : Vec F S1x10 .f32) (x4 : Vec F S1x10 .f32) : Vec F S8x10 .f32 :=
  VO5_6.read (Elt F) (VO5_6.writes (Elt F) VO5_6.junk (kernelRun5_A c i arg2 harg2 arg3 harg3 arg4 harg4 arg5 harg5 arg6 harg6 arg7 harg7 arg8 harg8 arg9 harg9 arg10 harg10 hc0 hc1 x0 x1 x2 x3 x4).2.1)

/-- At a point of kind A the pieces for the running maximum tile it (whole-buffer stores), so they cover it. -/
theorem scover5_A_0 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : cond5_0 i) (hc1 : ¬cond5_1 i)
    (x0 : Vec F S2048x10 .f32) (x1 : Vec F S1x10 .f32) (x2 : Vec F S1x10 .f32) (x3 : Vec F S1x10 .f32) (x4 : Vec F S1x10 .f32) (y : S1x10.Idx) :
    ∃ pc ∈ (kernelRun5_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun5_A c i arg2 harg2 arg3 harg3 arg4 harg4 arg5 harg5 arg6 harg6 arg7 harg7 arg8 harg8 arg9 harg9 arg10 harg10 hc0 hc1 x0 x1 x2 x3 x4).2.2.1 S1x10.size (by sl_kernel_rfl) y

/-- What a point of kind A leaves in the running maximum: its pieces read back over junk. -/
def sout5_A_0 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : cond5_0 i) (hc1 : ¬cond5_1 i)
    (x0 : Vec F S2048x10 .f32) (x1 : Vec F S1x10 .f32) (x2 : Vec F S1x10 .f32) (x3 : Vec F S1x10 .f32) (x4 : Vec F S1x10 .f32) : Vec F S1x10 .f32 :=
  VS5_0.read (Elt F) (VS5_0.writes (Elt F) VS5_0.junk (kernelRun5_A c i arg2 harg2 arg3 harg3 arg4 harg4 arg5 harg5 arg6 harg6 arg7 harg7 arg8 harg8 arg9 harg9 arg10 harg10 hc0 hc1 x0 x1 x2 x3 x4).2.2.1)

/-- At a point of kind A the pieces for the running sum tile it (whole-buffer stores), so they cover it. -/
theorem scover5_A_1 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : cond5_0 i) (hc1 : ¬cond5_1 i)
    (x0 : Vec F S2048x10 .f32) (x1 : Vec F S1x10 .f32) (x2 : Vec F S1x10 .f32) (x3 : Vec F S1x10 .f32) (x4 : Vec F S1x10 .f32) (y : S1x10.Idx) :
    ∃ pc ∈ (kernelRun5_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun5_A c i arg2 harg2 arg3 harg3 arg4 harg4 arg5 harg5 arg6 harg6 arg7 harg7 arg8 harg8 arg9 harg9 arg10 harg10 hc0 hc1 x0 x1 x2 x3 x4).2.2.2.1 S1x10.size (by sl_kernel_rfl) y

/-- What a point of kind A leaves in the running sum: its pieces read back over junk. -/
def sout5_A_1 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : cond5_0 i) (hc1 : ¬cond5_1 i)
    (x0 : Vec F S2048x10 .f32) (x1 : Vec F S1x10 .f32) (x2 : Vec F S1x10 .f32) (x3 : Vec F S1x10 .f32) (x4 : Vec F S1x10 .f32) : Vec F S1x10 .f32 :=
  VS5_1.read (Elt F) (VS5_1.writes (Elt F) VS5_1.junk (kernelRun5_A c i arg2 harg2 arg3 harg3 arg4 harg4 arg5 harg5 arg6 harg6 arg7 harg7 arg8 harg8 arg9 harg9 arg10 harg10 hc0 hc1 x0 x1 x2 x3 x4).2.2.2.1)

/-- A point of kind B stores nothing into output 5 (the window is idle there and not written back): no pieces — a
    placeholder that nothing consults. -/
def out5_B_5 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : ¬cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) : Vec F S8x10 .f32 :=
  VO5_5.read (Elt F) (VO5_5.writes (Elt F) VO5_5.junk (kernelRun5_B c i arg2 harg2 arg3 harg3 arg4 harg4 arg5 harg5 arg6 harg6 arg7 harg7 arg8 harg8 arg9 harg9 arg10 harg10 hc0 hc1 x0 x1 x2 x3 x4 xs0 xs1).1)

/-- A point of kind B stores nothing into output 6 (the window is idle there and not written back): no pieces — a
    placeholder that nothing consults. -/
def out5_B_6 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : ¬cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) : Vec F S8x10 .f32 :=
  VO5_6.read (Elt F) (VO5_6.writes (Elt F) VO5_6.junk (kernelRun5_B c i arg2 harg2 arg3 harg3 arg4 harg4 arg5 harg5 arg6 harg6 arg7 harg7 arg8 harg8 arg9 harg9 arg10 harg10 hc0 hc1 x0 x1 x2 x3 x4 xs0 xs1).2.1)

/-- At a point of kind B the pieces for the running maximum tile it (whole-buffer stores), so they cover it. -/
theorem scover5_B_0 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : ¬cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) (y : S1x10.Idx) :
    ∃ pc ∈ (kernelRun5_B c i arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun5_B c i arg2 harg2 arg3 harg3 arg4 harg4 arg5 harg5 arg6 harg6 arg7 harg7 arg8 harg8 arg9 harg9 arg10 harg10 hc0 hc1 x0 x1 x2 x3 x4 xs0 xs1).2.2.1 S1x10.size (by sl_kernel_rfl) y

/-- What a point of kind B leaves in the running maximum: its pieces read back over junk. -/
def sout5_B_0 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : ¬cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) : Vec F S1x10 .f32 :=
  VS5_0.read (Elt F) (VS5_0.writes (Elt F) VS5_0.junk (kernelRun5_B c i arg2 harg2 arg3 harg3 arg4 harg4 arg5 harg5 arg6 harg6 arg7 harg7 arg8 harg8 arg9 harg9 arg10 harg10 hc0 hc1 x0 x1 x2 x3 x4 xs0 xs1).2.2.1)

/-- At a point of kind B the pieces for the running sum tile it (whole-buffer stores), so they cover it. -/
theorem scover5_B_1 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : ¬cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) (y : S1x10.Idx) :
    ∃ pc ∈ (kernelRun5_B c i arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun5_B c i arg2 harg2 arg3 harg3 arg4 harg4 arg5 harg5 arg6 harg6 arg7 harg7 arg8 harg8 arg9 harg9 arg10 harg10 hc0 hc1 x0 x1 x2 x3 x4 xs0 xs1).2.2.2.1 S1x10.size (by sl_kernel_rfl) y

/-- What a point of kind B leaves in the running sum: its pieces read back over junk. -/
def sout5_B_1 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : ¬cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) : Vec F S1x10 .f32 :=
  VS5_1.read (Elt F) (VS5_1.writes (Elt F) VS5_1.junk (kernelRun5_B c i arg2 harg2 arg3 harg3 arg4 harg4 arg5 harg5 arg6 harg6 arg7 harg7 arg8 harg8 arg9 harg9 arg10 harg10 hc0 hc1 x0 x1 x2 x3 x4 xs0 xs1).2.2.2.1)

/-- At a point of kind C the pieces for output 5 tile its block (one store of the whole block), so they cover it. -/
theorem cover5_C_5 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) (y : S8x10.Idx) :
    ∃ pc ∈ (kernelRun5_C c i arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun5_C c i arg2 harg2 arg3 harg3 arg4 harg4 arg5 harg5 arg6 harg6 arg7 harg7 arg8 harg8 arg9 harg9 arg10 harg10 hc0 hc1 x0 x1 x2 x3 x4 xs0 xs1).1 S8x10.size (by sl_kernel_rfl) y

/-- What a point of kind C leaves in output 5's staging buffer: its pieces read back over junk. -/
def out5_C_5 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) : Vec F S8x10 .f32 :=
  VO5_5.read (Elt F) (VO5_5.writes (Elt F) VO5_5.junk (kernelRun5_C c i arg2 harg2 arg3 harg3 arg4 harg4 arg5 harg5 arg6 harg6 arg7 harg7 arg8 harg8 arg9 harg9 arg10 harg10 hc0 hc1 x0 x1 x2 x3 x4 xs0 xs1).1)

/-- At a point of kind C the pieces for output 6 tile its block (one store of the whole block), so they cover it. -/
theorem cover5_C_6 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) (y : S8x10.Idx) :
    ∃ pc ∈ (kernelRun5_C c i arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun5_C c i arg2 harg2 arg3 harg3 arg4 harg4 arg5 harg5 arg6 harg6 arg7 harg7 arg8 harg8 arg9 harg9 arg10 harg10 hc0 hc1 x0 x1 x2 x3 x4 xs0 xs1).2.1 S8x10.size (by sl_kernel_rfl) y

/-- What a point of kind C leaves in output 6's staging buffer: its pieces read back over junk. -/
def out5_C_6 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) : Vec F S8x10 .f32 :=
  VO5_6.read (Elt F) (VO5_6.writes (Elt F) VO5_6.junk (kernelRun5_C c i arg2 harg2 arg3 harg3 arg4 harg4 arg5 harg5 arg6 harg6 arg7 harg7 arg8 harg8 arg9 harg9 arg10 harg10 hc0 hc1 x0 x1 x2 x3 x4 xs0 xs1).2.1)

/-- At a point of kind C the pieces for the running maximum tile it (whole-buffer stores), so they cover it. -/
theorem scover5_C_0 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) (y : S1x10.Idx) :
    ∃ pc ∈ (kernelRun5_C c i arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun5_C c i arg2 harg2 arg3 harg3 arg4 harg4 arg5 harg5 arg6 harg6 arg7 harg7 arg8 harg8 arg9 harg9 arg10 harg10 hc0 hc1 x0 x1 x2 x3 x4 xs0 xs1).2.2.1 S1x10.size (by sl_kernel_rfl) y

/-- What a point of kind C leaves in the running maximum: its pieces read back over junk. -/
def sout5_C_0 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) : Vec F S1x10 .f32 :=
  VS5_0.read (Elt F) (VS5_0.writes (Elt F) VS5_0.junk (kernelRun5_C c i arg2 harg2 arg3 harg3 arg4 harg4 arg5 harg5 arg6 harg6 arg7 harg7 arg8 harg8 arg9 harg9 arg10 harg10 hc0 hc1 x0 x1 x2 x3 x4 xs0 xs1).2.2.1)

/-- At a point of kind C the pieces for the running sum tile it (whole-buffer stores), so they cover it. -/
theorem scover5_C_1 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) (y : S1x10.Idx) :
    ∃ pc ∈ (kernelRun5_C c i arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun5_C c i arg2 harg2 arg3 harg3 arg4 harg4 arg5 harg5 arg6 harg6 arg7 harg7 arg8 harg8 arg9 harg9 arg10 harg10 hc0 hc1 x0 x1 x2 x3 x4 xs0 xs1).2.2.2.1 S1x10.size (by sl_kernel_rfl) y

/-- What a point of kind C leaves in the running sum: its pieces read back over junk. -/
def sout5_C_1 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) : Vec F S1x10 .f32 :=
  VS5_1.read (Elt F) (VS5_1.writes (Elt F) VS5_1.junk (kernelRun5_C c i arg2 harg2 arg3 harg3 arg4 harg4 arg5 harg5 arg6 harg6 arg7 harg7 arg8 harg8 arg9 harg9 arg10 harg10 hc0 hc1 x0 x1 x2 x3 x4 xs0 xs1).2.2.2.1)

/-! ## What the outputs and the accumulators hold after each point -/

/-- THE ACCUMULATION. What the two outputs' staging buffers and the two accumulators hold after the body at position
    `n` (output 5, output 6, the running maximum, the running sum): the kind of point the closed forms select at `n`, run
    at the point's memrefs and input blocks, the accumulators entering at what this leaves at `n - 1`. No point is of both
    kinds A and C. -/
def outsAt5 (c : Dev nD) : (n : ℕ) → n < cfg5.N → Vec F S8x10 .f32 × Vec F S8x10 .f32 × Vec F S1x10 .f32 × Vec F S1x10 .f32
  | 0, hn => (out5_A_5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) scM5_1 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩), out5_A_6 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) scM5_1 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) scM5_1 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩), sout5_A_1 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) scM5_1 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩))
  | n + 1, hn =>
    if h0 : (n + 1) % 16 = 0 then
      if h1 : (n + 1) % 16 = 15 then
        False.elim (by omega)
      else
        (out5_A_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩), out5_A_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩), sout5_A_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩))
    else
      if h1 : (n + 1) % 16 = 15 then
        (out5_C_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2.1 (outsAt5 c n (Nat.lt_of_succ_lt hn)).2.2.2, out5_C_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2.1 (outsAt5 c n (Nat.lt_of_succ_lt hn)).2.2.2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2.1 (outsAt5 c n (Nat.lt_of_succ_lt hn)).2.2.2, sout5_C_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2.1 (outsAt5 c n (Nat.lt_of_succ_lt hn)).2.2.2)
      else
        (out5_B_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2.1 (outsAt5 c n (Nat.lt_of_succ_lt hn)).2.2.2, out5_B_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2.1 (outsAt5 c n (Nat.lt_of_succ_lt hn)).2.2.2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2.1 (outsAt5 c n (Nat.lt_of_succ_lt hn)).2.2.2, sout5_B_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2.1 (outsAt5 c n (Nat.lt_of_succ_lt hn)).2.2.2)

/-- `outsAt5` at a point of kind A: that kind's contents. -/
theorem outsAt5_A (c : Dev nD) (t : Fin cfg5.N) (h0 : t.val % 16 = 0) (h1 : ¬t.val % 16 = 15) :
    outsAt5 V c t.val t.isLt = (out5_A_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t), out5_A_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t), sout5_A_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t)) := by
  obtain ⟨n, hn⟩ := t
  cases n with
  | zero => exact rfl
  | succ n => exact (dif_pos h0).trans ((dif_neg h1).trans rfl)

/-- `outsAt5` at a point of kind B: that kind's contents, over what the point before left. -/
theorem outsAt5_B (c : Dev nD) (t : Fin cfg5.N) (h0 : ¬t.val % 16 = 0) (h1 : ¬t.val % 16 = 15) :
    outsAt5 V c t.val t.isLt = (out5_B_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2.2.1 (outsAt5 V c (t.val - 1) (Nat.lt_of_le_of_lt (Nat.sub_le _ _) t.isLt)).2.2.2, out5_B_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2.2.1 (outsAt5 V c (t.val - 1) (Nat.lt_of_le_of_lt (Nat.sub_le _ _) t.isLt)).2.2.2, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2.2.1 (outsAt5 V c (t.val - 1) (Nat.lt_of_le_of_lt (Nat.sub_le _ _) t.isLt)).2.2.2, sout5_B_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2.2.1 (outsAt5 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt5` at a point of kind C: that kind's contents, over what the point before left. -/
theorem outsAt5_C (c : Dev nD) (t : Fin cfg5.N) (h0 : ¬t.val % 16 = 0) (h1 : t.val % 16 = 15) :
    outsAt5 V c t.val t.isLt = (out5_C_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2.2.1 (outsAt5 V c (t.val - 1) (Nat.lt_of_le_of_lt (Nat.sub_le _ _) t.isLt)).2.2.2, out5_C_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2.2.1 (outsAt5 V c (t.val - 1) (Nat.lt_of_le_of_lt (Nat.sub_le _ _) t.isLt)).2.2.2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2.2.1 (outsAt5 V c (t.val - 1) (Nat.lt_of_le_of_lt (Nat.sub_le _ _) t.isLt)).2.2.2, sout5_C_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2.2.1 (outsAt5 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands the region (every scoped
    buffer at anything); afterwards the two accumulators at what the point before left in them, the other scoped buffers
    unopened, and the generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare (outsAt5 V c n hn).2.2.1 ∗ owns (c : Thread nD τ) scM5_1 fullShare (outsAt5 V c n hn).2.2.2) ∗ rest5 c) ∗ (∃ r, prngReg c r))

theorem PhiS5_zero (c : Dev nD) (n : ℕ) (h : n ≤ cfg5.N) (hz : n = 0) : PhiS5 V c n h = Pipeline.ΦA spec5 c := by
  subst hz; rfl

/-- After point `n` (before point `n + 1`): the accumulators at that point's contents. -/
theorem PhiS5_succ (c : Dev nD) (n : ℕ) (hn : n < cfg5.N) :
    PhiS5 V c (n + 1) hn = iprop(iprop(iprop(owns (c : Thread nD τ) scM5_0 fullShare (outsAt5 V c n hn).2.2.1 ∗ owns (c : Thread nD τ) scM5_1 fullShare (outsAt5 V c n hn).2.2.2) ∗ rest5 c) ∗ (∃ r, prngReg c r)) := rfl

/-- Before a point that is not the first: the accumulators at what the point before left. -/
theorem PhiS5_pos (c : Dev nD) (n : ℕ) (h : n ≤ cfg5.N) (hz : n ≠ 0) :
    PhiS5 V c n h = iprop(iprop(iprop(owns (c : Thread nD τ) scM5_0 fullShare (outsAt5 V c (n - 1) (by omega)).2.2.1 ∗ owns (c : Thread nD τ) scM5_1 fullShare (outsAt5 V c (n - 1) (by omega)).2.2.2) ∗ rest5 c) ∗ (∃ r, prngReg c r)) := by
  cases n with
  | zero => exact absurd rfl hz
  | succ n => rfl

/-! ## The pipeline's proof data -/

/-- The proof data of pipeline 5 on core `c`: the arrays as the region finds them; after the body at point `t` each
    input's buffer at its block and the outputs' at `outsAt5`'s first two components; the invariant `PhiS5`; nothing
    owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
    | ⟨6, _⟩ => (outsAt5 V c t.val t.isLt).2.1
  Φ t := PhiS5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

/-- The invariant at a point's start, restated at `t.val`. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt).1 := by dsimp only [dat5]
theorem after5_6 (c : Dev nD) (t : Fin cfg5.N) : (dat5 V c).after 6 t = (outsAt5 V c t.val t.isLt).2.1 := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t)

set_option maxHeartbeats 4800000 in
/-- The body at any point: the inputs' memrefs hold their blocks; the closed forms say which kind the point is of; so that
    kind's run applies; the invariant hands the body the two accumulators at what the point before left (at anything
    at the first point) and takes them back at this point's contents; the other scoped buffers, the generator register
    and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  have hN : t.val < 32 := lt_of_lt_of_eq t.isLt (show cfg5.N = 32 from N_5)
  by_cases h0 : t.val % 16 = 0
  · by_cases h1 : t.val % 16 = 15
    · exfalso; omega
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t], after5_4]
      rw [Dat.leavesExact_idle (dat5 V c) 5 t (idleAt5_5_A t ((hcond5_0 t).mpr h0) (fun h => h1 ((hcond5_1 t).mp h))) (noFlush5_5_A t ((hcond5_0 t).mpr h0) (fun h => h1 ((hcond5_1 t).mp h)))]
      rw [Dat.leavesExact_idle (dat5 V c) 6 t (idleAt5_6_A t ((hcond5_0 t).mpr h0) (fun h => h1 ((hcond5_1 t).mp h))) (noFlush5_6_A t ((hcond5_0 t).mpr h0) (fun h => h1 ((hcond5_1 t).mp h)))]
      rw [outsAt5_A V c t h0 h1]
      unfold sout5_A_0 sout5_A_1; (try dsimp only)
      by_cases hz : t.val = 0
      ·
        rw [PhiS5_castSucc V c t, PhiS5_zero V c _ _ hz, PhiA5_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun5_A c (grid5.coords t) _ _ _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover5_A_0 c _ _ _ _ _ _ _ _ _ _ _ _ _ _ _ _ _ _ _ _ _ _ _ _ _ _)
              unfold owns; iexists _; isplitr
              swap; · iexact HS1
              ipureintro; exact View.read_writes_of_cover _ _ _ _ _ (scover5_A_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      ·
        rw [PhiS5_castSucc V c t, PhiS5_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun5_A c (grid5.coords t) _ _ _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover5_A_0 c _ _ _ _ _ _ _ _ _ _ _ _ _ _ _ _ _ _ _ _ _ _ _ _ _ _)
              unfold owns; iexists _; isplitr
              swap; · iexact HS1
              ipureintro; exact View.read_writes_of_cover _ _ _ _ _ (scover5_A_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · by_cases h1 : t.val % 16 = 15
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t], after5_4]
      rw [show (dat5 V c).leavesExact 5 t = owns (c : Thread nD τ) (ms5_5 t) fullShare ((dat5 V c).after 5 t) from by
        unfold Dat.leavesExact; rw [liveAt5_5_C t (fun h => h0 ((hcond5_0 t).mp h)) ((hcond5_1 t).mpr h1)], after5_5]
      rw [show (dat5 V c).leavesExact 6 t = owns (c : Thread nD τ) (ms5_6 t) fullShare ((dat5 V c).after 6 t) from by
        unfold Dat.leavesExact; rw [liveAt5_6_C t (fun h => h0 ((hcond5_0 t).mp h)) ((hcond5_1 t).mpr h1)], after5_6]
      rw [outsAt5_C V c t h0 h1]
      unfold out5_C_5 out5_C_6 sout5_C_0 sout5_C_1; (try dsimp only)
      by_cases hz : t.val = 0
      · exfalso; omega
      ·
        rw [PhiS5_castSucc V c t, PhiS5_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun5_C c (grid5.coords t) _ _ _ _ _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        isplitl [HS1]; · iexact HS1
        iintro ⟨H0, H1, H2, H3, H4, ⟨%e5, H5⟩, ⟨%e6, H6⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover5_C_0 c _ _ _ _ _ _ _ _ _ _ _ _ _ _ _ _ _ _ _ _ _ _ _ _ _ _ _ _)
              unfold owns; iexists _; isplitr
              swap; · iexact HS1
              ipureintro; exact View.read_writes_of_cover _ _ _ _ _ (scover5_C_1 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover5_C_5 c _ _ _ _ _ _ _ _ _ _ _ _ _ _ _ _ _ _ _ _ _ _ _ _ _ _ _ _)
        unfold owns; iexists _; isplitr
        swap; · iexact H6
        ipureintro; exact View.read_writes_of_cover _ _ _ _ _ (cover5_C_6 c _ _ _ _ _ _ _ _ _ _ _ _ _ _ _ _ _ _ _ _ _ _ _ _ _ _ _ _)
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t], after5_4]
      rw [Dat.leavesExact_idle (dat5 V c) 5 t (idleAt5_5_B t (fun h => h0 ((hcond5_0 t).mp h)) (fun h => h1 ((hcond5_1 t).mp h))) (noFlush5_5_B t (fun h => h0 ((hcond5_0 t).mp h)) (fun h => h1 ((hcond5_1 t).mp h)))]
      rw [Dat.leavesExact_idle (dat5 V c) 6 t (idleAt5_6_B t (fun h => h0 ((hcond5_0 t).mp h)) (fun h => h1 ((hcond5_1 t).mp h))) (noFlush5_6_B t (fun h => h0 ((hcond5_0 t).mp h)) (fun h => h1 ((hcond5_1 t).mp h)))]
      rw [outsAt5_B V c t h0 h1]
      unfold sout5_B_0 sout5_B_1; (try dsimp only)
      by_cases hz : t.val = 0
      · exfalso; omega
      ·
        rw [PhiS5_castSucc V c t, PhiS5_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun5_B c (grid5.coords t) _ _ _ _ _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover5_B_0 c _ _ _ _ _ _ _ _ _ _ _ _ _ _ _ _ _ _ _ _ _ _ _ _ _ _ _ _)
              unfold owns; iexists _; isplitr
              swap; · iexact HS1
              ipureintro; exact View.read_writes_of_cover _ _ _ _ _ (scover5_B_1 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the region's ends -/

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives back what the launch handed: the accumulators' named contents are
    forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout5 (c : Dev nD) : (dat5 V c).Φ (Fin.last cfg5.N) ⊢ Pipeline.ΦA spec5 c :=
  Phi_out5 V c _ (by rw [Fin.val_last]; have : cfg5.N = 32 := N_5; omega)

end Cert.Kernel.Hand

end
-- ==== Proof.K.R6.Frame.lean ====
/- The frame lemmas of REGION 6 of @main (custom_call 6, the softmax normalisation): a pipeline over a grid of 32
   points with eight windows — window 0 the raw block of 2048 rows, fetched at every point; windows 1-6 the row
   vectors mean, variance, scale, shift, maximum and sum, fetched at the first point only; window 7 the output block,
   written back at every point. The body keeps no state between points and has no conditional: at every point it
   reads its seven inputs and stores, over the whole output block, the quotient
   exp(scale * (x - mean) * rsqrt(variance + eps) + shift - maximum) / sum.
   Everything is stated at a parameter V, the buffer contents when the region is entered, and at any F. -/
import proofs.«118595_j1726576853663_2_alg».proof.Proof.Gen.Kernel.Launch
import proofs.«118595_j1726576853663_2_alg».proof.Proof.Gen.Kernel.Skeleton
import proofs.«118595_j1726576853663_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether the point fetches it or not
    (where it is not fetched its block index has not moved and the body left the block in place), for any proof
    data whose array is `V`'s and whose body leaves the block as it found it. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, whether the point fetches it or not
    (where it is not fetched its block index has not moved and the body left the block in place), for any proof
    data whose array is `V`'s and whose body leaves the block as it found it. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, whether the point fetches it or not
    (where it is not fetched its block index has not moved and the body left the block in place), for any proof
    data whose array is `V`'s and whose body leaves the block as it found it. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, whether the point fetches it or not
    (where it is not fetched its block index has not moved and the body left the block in place), for any proof
    data whose array is `V`'s and whose body leaves the block as it found it. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, whether the point fetches it or not
    (where it is not fetched its block index has not moved and the body left the block in place), for any proof
    data whose array is `V`'s and whose body leaves the block as it found it. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, whether the point fetches it or not
    (where it is not fetched its block index has not moved and the body left the block in place), for any proof
    data whose array is `V`'s and whose body leaves the block as it found it. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, whether the point fetches it or not
    (where it is not fetched its block index has not moved and the body left the block in place), for any proof
    data whose array is `V`'s and whose body leaves the block as it found it. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole block of 2048 rows, and the whole row vector: the only two rectangles the body touches. -/
abbrev r6_0 : Rect S2048x10 := Rect.unit (s := S2048x10) ![0, 0] S2048x10.size inb_S2048x10_S2048x10_0_0
abbrev r6_1 : Rect S1x10 := Rect.unit (s := S1x10) ![0, 0] S1x10.size inb_S1x10_S1x10_0_0

/-! ## What the body leaves in the output window's buffer -/

/-- Window 7's staging buffer after the body, from the input windows' blocks: its one store, of the quotient
    computed from the raw block `x0` and the row vectors mean `x1`, variance `x2`, scale `x3`, shift `x4`,
    maximum `x5` and sum `x6`, over the whole block. -/
def out6_7 (x0 : Vec F S2048x10 .f32) (x1 : Vec F S1x10 .f32) (x2 : Vec F S1x10 .f32) (x3 : Vec F S1x10 .f32) (x4 : Vec F S1x10 .f32) (x5 : Vec F S1x10 .f32) (x6 : Vec F S1x10 .f32) : Vec F S2048x10 .f32 :=
  View.canon [⟨r6_0, k6_pay1 (View.ld x0 r6_0) (View.ld x2 r6_1) (View.ld x3 r6_1) (View.ld x1 r6_1) (View.ld x4 r6_1) (View.ld x5 r6_1) (View.ld x6 r6_1)⟩]

/-- The one store is of the whole block, so it covers it. -/
theorem cover6_7 (p0 : Vec F S2048x10 .f32) (y : S2048x10.Idx) :
    ∃ pc ∈ ([⟨r6_0, p0⟩] : List (View.Piece (Elt F) S2048x10 .f32)), y ∈ pc.1.set :=
  View.cover_of_tiled [⟨r6_0, p0⟩] S2048x10.size (by rfl) y

/-! ## The body's triple -/

set_option maxHeartbeats 1000000 in
/-- The kernel body on whole staging memrefs, the inputs' at contents `x0 … x6` and the output's at anything, runs to
    the continuation holding the inputs' as they were and the output's at `out6_7` of the inputs'. -/
theorem sound_kernel6 (c : Dev nD) (E : Set ℕ) (i : grid6.Coords) (arg1 : Memref sig .tc .vmem S2048x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S1x10 .f32) (harg7 : arg7.IsWhole) (arg8 : Memref sig .tc .vmem S2048x10 .f32) (harg8 : arg8.IsWhole)
    (x0 : Vec F S2048x10 .f32) (x1 : Vec F S1x10 .f32) (x2 : Vec F S1x10 .f32) (x3 : Vec F S1x10 .f32) (x4 : Vec F S1x10 .f32) (x5 : Vec F S1x10 .f32) (x6 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out6_7 x0 x1 x2 x3 x4 x5 x6)) -∗ K ⟨⟩))
      ⊢ wp frame (wpE (defs₀ (F := F)) Variants.none c none) E (cc6__softmax_norm_kernel i arg1 harg1 arg2 harg2 arg3 harg3 arg4 harg4 arg5 harg5 arg6 harg6 arg7 harg7 arg8 harg8) K := by
  simp only [cc6__softmax_norm_kernel_eq_skeleton]; unfold cc6__softmax_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The pipeline's proof data -/

/-- The proof data of pipeline 6 on core `c`: the arrays as the region finds them; after the body at point `t`
    each input's buffer at its block and the output's at `out6_7` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The invariant at the region's ends -/

/-- What the launch hands the region is the invariant before the first point, -/
theorem hin6 (c : Dev nD) : Pipeline.ΦA spec6 c ⊢ (dat6 V c).Φ 0 := .rfl

/-- and the invariant after the last point is what the region hands back. -/
theorem hout6 (c : Dev nD) : (dat6 V c).Φ (Fin.last cfg6.N) ⊢ Pipeline.ΦA spec6 c := .rfl

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ (grid6.coords t) _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.K.Assembly.lean ====
/- The seven kernel regions of @main put together. Between two items of @main (a stretch of host operations, or a
   kernel region) core c's unscoped buffers hold a valuation W j: the launch memory, then each stretch applied, and after a
   region its windows' arrays at what the write-backs of its 32 points fold to, every other buffer untouched. Each region
   is entered from all unscoped buffers at W j: its arrays are split out and put back at the exit contents; the generator
   register and the scoped buffers go into the region's invariant and come back; nothing is owed and the kernels have no
   semaphore of their own. The run then says: every weakly fair execution of @main terminates without a fault and every
   unscoped buffer ends at the last valuation; the argument arrays are read back through the fold to the launch memory
   (no stretch writes one; region 0 only reads the first through an input window). Stated at any F. -/
import proofs.«118595_j1726576853663_2_alg».proof.Proof.Gen.Kernel.Launch
import proofs.«118595_j1726576853663_2_alg».proof.Proof.Gen.Kernel.Skeleton
import proofs.«118595_j1726576853663_2_alg».proof.Proof.Gen.Kernel.Points
import proofs.«118595_j1726576853663_2_alg».proof.Proof.Gen.Kernel.Regions
import proofs.«118595_j1726576853663_2_alg».proof.Proof.K.R0.Frame
import proofs.«118595_j1726576853663_2_alg».proof.Proof.K.R1.Frame
import proofs.«118595_j1726576853663_2_alg».proof.Proof.K.R2.Frame
import proofs.«118595_j1726576853663_2_alg».proof.Proof.K.R3.Frame
import proofs.«118595_j1726576853663_2_alg».proof.Proof.K.R4.Frame
import proofs.«118595_j1726576853663_2_alg».proof.Proof.K.R5.Frame
import proofs.«118595_j1726576853663_2_alg».proof.Proof.K.R6.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The class invariant from, and back to, what a region boundary hands over -/

theorem toPhiA {gr : Nat} {Wn : Nat} (win : Fin Wn → Pipeline.WinSpec sig gr) (c : Dev nD) (P : sProp 𝕄) :
    (iprop((∃ r, prngReg c r) ∗ P ∗ Pipeline.scopedRest (Ix := Unit) (Name := ℕ) (U := UR sig nD τ) (Lvl := ℕ) (Val := Elt F) win c) : sProp 𝕄)
      ⊢ Pipeline.ΦA win c := by
  unfold Pipeline.ΦA
  iintro ⟨Hp, -, Hr⟩
  isplitl [Hr]; · iexact Hr
  iexact Hp

theorem ofPhiA {gr : Nat} {Wn : Nat} (win : Fin Wn → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

variable (m : (ℓ : Loc nD τ sig) → Buf (Elt F) ℓ) (ρ : Dev nD → PrngReg)

/-! # The buffer contents at each boundary of @main: a fold from the launch memory

`W j` is what core `c`'s unscoped buffers hold before item `j` of @main (after item `j - 1`): a stretch of host
operations applies them; a kernel region leaves its windows' arrays at what its write-backs fold to and every other
buffer as it found it. -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After item 0, the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c r = W0 m ρ c r :=
  StableHlo.after_of_writes_sub hostOps0 _ hostOps0_writes h

/-- After item 1, the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
theorem W2_of (c : Dev nD) (r : Ref sig .tc) (h : r ∉ hostOps0_1_W) : W2 m ρ c r = W1 m ρ c r :=
  StableHlo.after_of_writes_sub hostOps0_1 _ hostOps0_1_writes h

/-- After item 2, the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
theorem W3_of (c : Dev nD) (r : Ref sig .tc) (h : r ∉ hostOps0_2_W) : W3 m ρ c r = W2 m ρ c r :=
  StableHlo.after_of_writes_sub hostOps0_2 _ hostOps0_2_writes h

/-- After item 3, the host stretch `hostOps0_3`. -/
abbrev W4 : Dev nD → Valuation τ sig (Elt F) := fun c => StableHlo.after hostOps0_3 (W3 m ρ c)
abbrev V4 : (c : Dev nD) → (b : Ref sig .tc) → Buf (Elt F) ((c : Thread nD τ).loc b) := fun c b => W4 m ρ c b
theorem W4_of (c : Dev nD) (r : Ref sig .tc) (h : r ∉ hostOps0_3_W) : W4 m ρ c r = W3 m ρ c r :=
  StableHlo.after_of_writes_sub hostOps0_3 _ hostOps0_3_writes h

/-- After item 4, the host stretch `hostOps0_4`. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
theorem W5_of (c : Dev nD) (r : Ref sig .tc) (h : r ∉ hostOps0_4_W) : W5 m ρ c r = W4 m ρ c r :=
  StableHlo.after_of_writes_sub hostOps0_4 _ hostOps0_4_writes h

/-- After item 5, the host stretch `hostOps0_5`. -/
abbrev W6 : Dev nD → Valuation τ sig (Elt F) := fun c => StableHlo.after hostOps0_5 (W5 m ρ c)
abbrev V6 : (c : Dev nD) → (b : Ref sig .tc) → Buf (Elt F) ((c : Thread nD τ).loc b) := fun c b => W6 m ρ c b
theorem W6_of (c : Dev nD) (r : Ref sig .tc) (h : r ∉ hostOps0_5_W) : W6 m ρ c r = W5 m ρ c r :=
  StableHlo.after_of_writes_sub hostOps0_5 _ hostOps0_5_writes h

/-- After item 6, the host stretch `hostOps0_6`. -/
abbrev W7 : Dev nD → Valuation τ sig (Elt F) := fun c => StableHlo.after hostOps0_6 (W6 m ρ c)
abbrev V7 : (c : Dev nD) → (b : Ref sig .tc) → Buf (Elt F) ((c : Thread nD τ).loc b) := fun c b => W7 m ρ c b
theorem W7_of (c : Dev nD) (r : Ref sig .tc) (h : r ∉ hostOps0_6_W) : W7 m ρ c r = W6 m ρ c r :=
  StableHlo.after_of_writes_sub hostOps0_6 _ hostOps0_6_writes h

/-- After item 7, the host stretch `hostOps0_7`. -/
abbrev W8 : Dev nD → Valuation τ sig (Elt F) := fun c => StableHlo.after hostOps0_7 (W7 m ρ c)
abbrev V8 : (c : Dev nD) → (b : Ref sig .tc) → Buf (Elt F) ((c : Thread nD τ).loc b) := fun c b => W8 m ρ c b
theorem W8_of (c : Dev nD) (r : Ref sig .tc) (h : r ∉ hostOps0_7_W) : W8 m ρ c r = W7 m ρ c r :=
  StableHlo.after_of_writes_sub hostOps0_7 _ hostOps0_7_writes h

/-- After item 8, the host stretch `hostOps0_8`. -/
abbrev W9 : Dev nD → Valuation τ sig (Elt F) := fun c => StableHlo.after hostOps0_8 (W8 m ρ c)
abbrev V9 : (c : Dev nD) → (b : Ref sig .tc) → Buf (Elt F) ((c : Thread nD τ).loc b) := fun c b => W9 m ρ c b
theorem W9_of (c : Dev nD) (r : Ref sig .tc) (h : r ∉ hostOps0_8_W) : W9 m ρ c r = W8 m ρ c r :=
  StableHlo.after_of_writes_sub hostOps0_8 _ hostOps0_8_writes h

/-- After item 9, the host stretch `hostOps0_9`. -/
abbrev W10 : Dev nD → Valuation τ sig (Elt F) := fun c => StableHlo.after hostOps0_9 (W9 m ρ c)
abbrev V10 : (c : Dev nD) → (b : Ref sig .tc) → Buf (Elt F) ((c : Thread nD τ).loc b) := fun c b => W10 m ρ c b
theorem W10_of (c : Dev nD) (r : Ref sig .tc) (h : r ∉ hostOps0_9_W) : W10 m ρ c r = W9 m ρ c r :=
  StableHlo.after_of_writes_sub hostOps0_9 _ hostOps0_9_writes h

/-- After item 10, the host stretch `hostOps0_10`. -/
abbrev W11 : Dev nD → Valuation τ sig (Elt F) := fun c => StableHlo.after hostOps0_10 (W10 m ρ c)
abbrev V11 : (c : Dev nD) → (b : Ref sig .tc) → Buf (Elt F) ((c : Thread nD τ).loc b) := fun c b => W11 m ρ c b
theorem W11_of (c : Dev nD) (r : Ref sig .tc) (h : r ∉ hostOps0_10_W) : W11 m ρ c r = W10 m ρ c r :=
  StableHlo.after_of_writes_sub hostOps0_10 _ hostOps0_10_writes h

/-- After item 11, kernel region 0: its arrays at what the pipeline leaves, every other buffer as entered. -/
def W12 (c : Dev nD) : Valuation τ sig (Elt F) :=
  Pipeline.withArrays spec0 c (W11 m ρ c) fun w => (dat0 (V11 m ρ) c).arrAt w cfg0.N
theorem W12_arr (c : Dev nD) (w : Fin cfg0.W) :
    W12 m ρ c (Proc.devRef .tc (Pipeline.arrRef spec0 w)) = (dat0 (V11 m ρ) c).arrAt w cfg0.N := by
  unfold W12; exact Pipeline.withArrays_arr spec0 launch0.win.arr_inj c _ _ w
theorem W12_of_ne (c : Dev nD) (b : Ref sig .tc) (hb : ∀ w, Pipeline.arrRef spec0 w ≠ b) :
    W12 m ρ c (Proc.devRef .tc b) = W11 m ρ c (Proc.devRef .tc b) := by
  unfold W12; exact Pipeline.withArrays_of_ne spec0 c _ _ b hb
abbrev V12 : (c : Dev nD) → (b : Ref sig .tc) → Buf (Elt F) ((c : Thread nD τ).loc b) := fun c b => W12 m ρ c b
theorem hF0 (c : Dev nD) (w : Fin cfg0.W) : (dat0 (V11 m ρ) c).arrAt w cfg0.N = V12 m ρ c (Pipeline.arrRef spec0 w) :=
  (W12_arr m ρ c w).symm
theorem hrest0 (c : Dev nD) : ∀ b, b ∉ Finset.univ.image (Pipeline.arrRef spec0) → V12 m ρ c b = V11 m ρ c b :=
  fun b hb => W12_of_ne m ρ c b fun w e => hb (Finset.mem_image.mpr ⟨w, Finset.mem_univ _, e⟩)

/-- After item 12, the host stretch `hostOps1`. -/
abbrev W13 : Dev nD → Valuation τ sig (Elt F) := fun c => StableHlo.after hostOps1 (W12 m ρ c)
abbrev V13 : (c : Dev nD) → (b : Ref sig .tc) → Buf (Elt F) ((c : Thread nD τ).loc b) := fun c b => W13 m ρ c b
theorem W13_of (c : Dev nD) (r : Ref sig .tc) (h : r ∉ hostOps1_W) : W13 m ρ c r = W12 m ρ c r :=
  StableHlo.after_of_writes_sub hostOps1 _ hostOps1_writes h

/-- After item 13, kernel region 1: its arrays at what the pipeline leaves, every other buffer as entered. -/
def W14 (c : Dev nD) : Valuation τ sig (Elt F) :=
  Pipeline.withArrays spec1 c (W13 m ρ c) fun w => (dat1 (V13 m ρ) c).arrAt w cfg1.N
theorem W14_arr (c : Dev nD) (w : Fin cfg1.W) :
    W14 m ρ c (Proc.devRef .tc (Pipeline.arrRef spec1 w)) = (dat1 (V13 m ρ) c).arrAt w cfg1.N := by
  unfold W14; exact Pipeline.withArrays_arr spec1 launch1.win.arr_inj c _ _ w
theorem W14_of_ne (c : Dev nD) (b : Ref sig .tc) (hb : ∀ w, Pipeline.arrRef spec1 w ≠ b) :
    W14 m ρ c (Proc.devRef .tc b) = W13 m ρ c (Proc.devRef .tc b) := by
  unfold W14; exact Pipeline.withArrays_of_ne spec1 c _ _ b hb
abbrev V14 : (c : Dev nD) → (b : Ref sig .tc) → Buf (Elt F) ((c : Thread nD τ).loc b) := fun c b => W14 m ρ c b
theorem hF1 (c : Dev nD) (w : Fin cfg1.W) : (dat1 (V13 m ρ) c).arrAt w cfg1.N = V14 m ρ c (Pipeline.arrRef spec1 w) :=
  (W14_arr m ρ c w).symm
theorem hrest1 (c : Dev nD) : ∀ b, b ∉ Finset.univ.image (Pipeline.arrRef spec1) → V14 m ρ c b = V13 m ρ c b :=
  fun b hb => W14_of_ne m ρ c b fun w e => hb (Finset.mem_image.mpr ⟨w, Finset.mem_univ _, e⟩)

/-- After item 14, the host stretch `hostOps2`. -/
abbrev W15 : Dev nD → Valuation τ sig (Elt F) := fun c => StableHlo.after hostOps2 (W14 m ρ c)
abbrev V15 : (c : Dev nD) → (b : Ref sig .tc) → Buf (Elt F) ((c : Thread nD τ).loc b) := fun c b => W15 m ρ c b
theorem W15_of (c : Dev nD) (r : Ref sig .tc) (h : r ∉ hostOps2_W) : W15 m ρ c r = W14 m ρ c r :=
  StableHlo.after_of_writes_sub hostOps2 _ hostOps2_writes h

/-- After item 15, kernel region 2: its arrays at what the pipeline leaves, every other buffer as entered. -/
def W16 (c : Dev nD) : Valuation τ sig (Elt F) :=
  Pipeline.withArrays spec2 c (W15 m ρ c) fun w => (dat2 (V15 m ρ) c).arrAt w cfg2.N
theorem W16_arr (c : Dev nD) (w : Fin cfg2.W) :
    W16 m ρ c (Proc.devRef .tc (Pipeline.arrRef spec2 w)) = (dat2 (V15 m ρ) c).arrAt w cfg2.N := by
  unfold W16; exact Pipeline.withArrays_arr spec2 launch2.win.arr_inj c _ _ w
theorem W16_of_ne (c : Dev nD) (b : Ref sig .tc) (hb : ∀ w, Pipeline.arrRef spec2 w ≠ b) :
    W16 m ρ c (Proc.devRef .tc b) = W15 m ρ c (Proc.devRef .tc b) := by
  unfold W16; exact Pipeline.withArrays_of_ne spec2 c _ _ b hb
abbrev V16 : (c : Dev nD) → (b : Ref sig .tc) → Buf (Elt F) ((c : Thread nD τ).loc b) := fun c b => W16 m ρ c b
theorem hF2 (c : Dev nD) (w : Fin cfg2.W) : (dat2 (V15 m ρ) c).arrAt w cfg2.N = V16 m ρ c (Pipeline.arrRef spec2 w) :=
  (W16_arr m ρ c w).symm
theorem hrest2 (c : Dev nD) : ∀ b, b ∉ Finset.univ.image (Pipeline.arrRef spec2) → V16 m ρ c b = V15 m ρ c b :=
  fun b hb => W16_of_ne m ρ c b fun w e => hb (Finset.mem_image.mpr ⟨w, Finset.mem_univ _, e⟩)

/-- After item 16, the host stretch `hostOps3`. -/
abbrev W17 : Dev nD → Valuation τ sig (Elt F) := fun c => StableHlo.after hostOps3 (W16 m ρ c)
abbrev V17 : (c : Dev nD) → (b : Ref sig .tc) → Buf (Elt F) ((c : Thread nD τ).loc b) := fun c b => W17 m ρ c b
theorem W17_of (c : Dev nD) (r : Ref sig .tc) (h : r ∉ hostOps3_W) : W17 m ρ c r = W16 m ρ c r :=
  StableHlo.after_of_writes_sub hostOps3 _ hostOps3_writes h

/-- After item 17, kernel region 3: its arrays at what the pipeline leaves, every other buffer as entered. -/
def W18 (c : Dev nD) : Valuation τ sig (Elt F) :=
  Pipeline.withArrays spec3 c (W17 m ρ c) fun w => (dat3 (V17 m ρ) c).arrAt w cfg3.N
theorem W18_arr (c : Dev nD) (w : Fin cfg3.W) :
    W18 m ρ c (Proc.devRef .tc (Pipeline.arrRef spec3 w)) = (dat3 (V17 m ρ) c).arrAt w cfg3.N := by
  unfold W18; exact Pipeline.withArrays_arr spec3 launch3.win.arr_inj c _ _ w
theorem W18_of_ne (c : Dev nD) (b : Ref sig .tc) (hb : ∀ w, Pipeline.arrRef spec3 w ≠ b) :
    W18 m ρ c (Proc.devRef .tc b) = W17 m ρ c (Proc.devRef .tc b) := by
  unfold W18; exact Pipeline.withArrays_of_ne spec3 c _ _ b hb
abbrev V18 : (c : Dev nD) → (b : Ref sig .tc) → Buf (Elt F) ((c : Thread nD τ).loc b) := fun c b => W18 m ρ c b
theorem hF3 (c : Dev nD) (w : Fin cfg3.W) : (dat3 (V17 m ρ) c).arrAt w cfg3.N = V18 m ρ c (Pipeline.arrRef spec3 w) :=
  (W18_arr m ρ c w).symm
theorem hrest3 (c : Dev nD) : ∀ b, b ∉ Finset.univ.image (Pipeline.arrRef spec3) → V18 m ρ c b = V17 m ρ c b :=
  fun b hb => W18_of_ne m ρ c b fun w e => hb (Finset.mem_image.mpr ⟨w, Finset.mem_univ _, e⟩)

/-- After item 18, the host stretch `hostOps4`. -/
abbrev W19 : Dev nD → Valuation τ sig (Elt F) := fun c => StableHlo.after hostOps4 (W18 m ρ c)
abbrev V19 : (c : Dev nD) → (b : Ref sig .tc) → Buf (Elt F) ((c : Thread nD τ).loc b) := fun c b => W19 m ρ c b
theorem W19_of (c : Dev nD) (r : Ref sig .tc) (h : r ∉ hostOps4_W) : W19 m ρ c r = W18 m ρ c r :=
  StableHlo.after_of_writes_sub hostOps4 _ hostOps4_writes h

/-- After item 19, kernel region 4: its arrays at what the pipeline leaves, every other buffer as entered. -/
def W20 (c : Dev nD) : Valuation τ sig (Elt F) :=
  Pipeline.withArrays spec4 c (W19 m ρ c) fun w => (dat4 (V19 m ρ) c).arrAt w cfg4.N
theorem W20_arr (c : Dev nD) (w : Fin cfg4.W) :
    W20 m ρ c (Proc.devRef .tc (Pipeline.arrRef spec4 w)) = (dat4 (V19 m ρ) c).arrAt w cfg4.N := by
  unfold W20; exact Pipeline.withArrays_arr spec4 launch4.win.arr_inj c _ _ w
theorem W20_of_ne (c : Dev nD) (b : Ref sig .tc) (hb : ∀ w, Pipeline.arrRef spec4 w ≠ b) :
    W20 m ρ c (Proc.devRef .tc b) = W19 m ρ c (Proc.devRef .tc b) := by
  unfold W20; exact Pipeline.withArrays_of_ne spec4 c _ _ b hb
abbrev V20 : (c : Dev nD) → (b : Ref sig .tc) → Buf (Elt F) ((c : Thread nD τ).loc b) := fun c b => W20 m ρ c b
theorem hF4 (c : Dev nD) (w : Fin cfg4.W) : (dat4 (V19 m ρ) c).arrAt w cfg4.N = V20 m ρ c (Pipeline.arrRef spec4 w) :=
  (W20_arr m ρ c w).symm
theorem hrest4 (c : Dev nD) : ∀ b, b ∉ Finset.univ.image (Pipeline.arrRef spec4) → V20 m ρ c b = V19 m ρ c b :=
  fun b hb => W20_of_ne m ρ c b fun w e => hb (Finset.mem_image.mpr ⟨w, Finset.mem_univ _, e⟩)

/-- After item 20, the host stretch `hostOps5`. -/
abbrev W21 : Dev nD → Valuation τ sig (Elt F) := fun c => StableHlo.after hostOps5 (W20 m ρ c)
abbrev V21 : (c : Dev nD) → (b : Ref sig .tc) → Buf (Elt F) ((c : Thread nD τ).loc b) := fun c b => W21 m ρ c b
theorem W21_of (c : Dev nD) (r : Ref sig .tc) (h : r ∉ hostOps5_W) : W21 m ρ c r = W20 m ρ c r :=
  StableHlo.after_of_writes_sub hostOps5 _ hostOps5_writes h

/-- After item 21, kernel region 5: its arrays at what the pipeline leaves, every other buffer as entered. -/
def W22 (c : Dev nD) : Valuation τ sig (Elt F) :=
  Pipeline.withArrays spec5 c (W21 m ρ c) fun w => (dat5 (V21 m ρ) c).arrAt w cfg5.N
theorem W22_arr (c : Dev nD) (w : Fin cfg5.W) :
    W22 m ρ c (Proc.devRef .tc (Pipeline.arrRef spec5 w)) = (dat5 (V21 m ρ) c).arrAt w cfg5.N := by
  unfold W22; exact Pipeline.withArrays_arr spec5 launch5.win.arr_inj c _ _ w
theorem W22_of_ne (c : Dev nD) (b : Ref sig .tc) (hb : ∀ w, Pipeline.arrRef spec5 w ≠ b) :
    W22 m ρ c (Proc.devRef .tc b) = W21 m ρ c (Proc.devRef .tc b) := by
  unfold W22; exact Pipeline.withArrays_of_ne spec5 c _ _ b hb
abbrev V22 : (c : Dev nD) → (b : Ref sig .tc) → Buf (Elt F) ((c : Thread nD τ).loc b) := fun c b => W22 m ρ c b
theorem hF5 (c : Dev nD) (w : Fin cfg5.W) : (dat5 (V21 m ρ) c).arrAt w cfg5.N = V22 m ρ c (Pipeline.arrRef spec5 w) :=
  (W22_arr m ρ c w).symm
theorem hrest5 (c : Dev nD) : ∀ b, b ∉ Finset.univ.image (Pipeline.arrRef spec5) → V22 m ρ c b = V21 m ρ c b :=
  fun b hb => W22_of_ne m ρ c b fun w e => hb (Finset.mem_image.mpr ⟨w, Finset.mem_univ _, e⟩)

/-- After item 22, the host stretch `hostOps6`. -/
abbrev W23 : Dev nD → Valuation τ sig (Elt F) := fun c => StableHlo.after hostOps6 (W22 m ρ c)
abbrev V23 : (c : Dev nD) → (b : Ref sig .tc) → Buf (Elt F) ((c : Thread nD τ).loc b) := fun c b => W23 m ρ c b
theorem W23_of (c : Dev nD) (r : Ref sig .tc) (h : r ∉ hostOps6_W) : W23 m ρ c r = W22 m ρ c r :=
  StableHlo.after_of_writes_sub hostOps6 _ hostOps6_writes h

/-- After item 23, kernel region 6: its arrays at what the pipeline leaves, every other buffer as entered. -/
def W24 (c : Dev nD) : Valuation τ sig (Elt F) :=
  Pipeline.withArrays spec6 c (W23 m ρ c) fun w => (dat6 (V23 m ρ) c).arrAt w cfg6.N
theorem W24_arr (c : Dev nD) (w : Fin cfg6.W) :
    W24 m ρ c (Proc.devRef .tc (Pipeline.arrRef spec6 w)) = (dat6 (V23 m ρ) c).arrAt w cfg6.N := by
  unfold W24; exact Pipeline.withArrays_arr spec6 launch6.win.arr_inj c _ _ w
theorem W24_of_ne (c : Dev nD) (b : Ref sig .tc) (hb : ∀ w, Pipeline.arrRef spec6 w ≠ b) :
    W24 m ρ c (Proc.devRef .tc b) = W23 m ρ c (Proc.devRef .tc b) := by
  unfold W24; exact Pipeline.withArrays_of_ne spec6 c _ _ b hb
abbrev V24 : (c : Dev nD) → (b : Ref sig .tc) → Buf (Elt F) ((c : Thread nD τ).loc b) := fun c b => W24 m ρ c b
theorem hF6 (c : Dev nD) (w : Fin cfg6.W) : (dat6 (V23 m ρ) c).arrAt w cfg6.N = V24 m ρ c (Pipeline.arrRef spec6 w) :=
  (W24_arr m ρ c w).symm
theorem hrest6 (c : Dev nD) : ∀ b, b ∉ Finset.univ.image (Pipeline.arrRef spec6) → V24 m ρ c b = V23 m ρ c b :=
  fun b hb => W24_of_ne m ρ c b fun w e => hb (Finset.mem_image.mpr ⟨w, Finset.mem_univ _, e⟩)

/-! ## The arguments end as launched: no host operation writes one, and a region only reads one (through an input window) -/
theorem W24_main_arg0 (c : Dev nD) : W24 m ρ c (Proc.devRef .tc main_arg0) = m ((c : Thread nD τ).loc main_arg0) :=
  (W24_of_ne m ρ c main_arg0 (by decide)).trans <| (W23_of m ρ c main_arg0 (by decide)).trans <| (W22_of_ne m ρ c main_arg0 (by decide)).trans <| (W21_of m ρ c main_arg0 (by decide)).trans <| (W20_of_ne m ρ c main_arg0 (by decide)).trans <| (W19_of m ρ c main_arg0 (by decide)).trans <| (W18_of_ne m ρ c main_arg0 (by decide)).trans <| (W17_of m ρ c main_arg0 (by decide)).trans <| (W16_of_ne m ρ c main_arg0 (by decide)).trans <| (W15_of m ρ c main_arg0 (by decide)).trans <| (W14_of_ne m ρ c main_arg0 (by decide)).trans <| (W13_of m ρ c main_arg0 (by decide)).trans <| ((W12_arr m ρ c 0).trans (((dat0 (V11 m ρ) c).arrAt_in 0 rfl _).trans (A_eq0 (V11 m ρ) c 0))).trans <| (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of m ρ c main_arg0 (by decide)).trans <| (W5_of m ρ c main_arg0 (by decide)).trans <| (W4_of m ρ c main_arg0 (by decide)).trans <| (W3_of m ρ c main_arg0 (by decide)).trans <| (W2_of m ρ c main_arg0 (by decide)).trans <| (W1_of m ρ c main_arg0 (by decide)).trans <| rfl
theorem W24_main_arg1 (c : Dev nD) : W24 m ρ c (Proc.devRef .tc main_arg1) = m ((c : Thread nD τ).loc main_arg1) :=
  (W24_of_ne m ρ c main_arg1 (by decide)).trans <| (W23_of m ρ c main_arg1 (by decide)).trans <| (W22_of_ne m ρ c main_arg1 (by decide)).trans <| (W21_of m ρ c main_arg1 (by decide)).trans <| (W20_of_ne m ρ c main_arg1 (by decide)).trans <| (W19_of m ρ c main_arg1 (by decide)).trans <| (W18_of_ne m ρ c main_arg1 (by decide)).trans <| (W17_of m ρ c main_arg1 (by decide)).trans <| (W16_of_ne m ρ c main_arg1 (by decide)).trans <| (W15_of m ρ c main_arg1 (by decide)).trans <| (W14_of_ne m ρ c main_arg1 (by decide)).trans <| (W13_of m ρ c main_arg1 (by decide)).trans <| (W12_of_ne m ρ c main_arg1 (by decide)).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide)).trans <| rfl
theorem W24_main_arg2 (c : Dev nD) : W24 m ρ c (Proc.devRef .tc main_arg2) = m ((c : Thread nD τ).loc main_arg2) :=
  (W24_of_ne m ρ c main_arg2 (by decide)).trans <| (W23_of m ρ c main_arg2 (by decide)).trans <| (W22_of_ne m ρ c main_arg2 (by decide)).trans <| (W21_of m ρ c main_arg2 (by decide)).trans <| (W20_of_ne m ρ c main_arg2 (by decide)).trans <| (W19_of m ρ c main_arg2 (by decide)).trans <| (W18_of_ne m ρ c main_arg2 (by decide)).trans <| (W17_of m ρ c main_arg2 (by decide)).trans <| (W16_of_ne m ρ c main_arg2 (by decide)).trans <| (W15_of m ρ c main_arg2 (by decide)).trans <| (W14_of_ne m ρ c main_arg2 (by decide)).trans <| (W13_of m ρ c main_arg2 (by decide)).trans <| (W12_of_ne m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide)).trans <| rfl
theorem W24_main_arg3 (c : Dev nD) : W24 m ρ c (Proc.devRef .tc main_arg3) = m ((c : Thread nD τ).loc main_arg3) :=
  (W24_of_ne m ρ c main_arg3 (by decide)).trans <| (W23_of m ρ c main_arg3 (by decide)).trans <| (W22_of_ne m ρ c main_arg3 (by decide)).trans <| (W21_of m ρ c main_arg3 (by decide)).trans <| (W20_of_ne m ρ c main_arg3 (by decide)).trans <| (W19_of m ρ c main_arg3 (by decide)).trans <| (W18_of_ne m ρ c main_arg3 (by decide)).trans <| (W17_of m ρ c main_arg3 (by decide)).trans <| (W16_of_ne m ρ c main_arg3 (by decide)).trans <| (W15_of m ρ c main_arg3 (by decide)).trans <| (W14_of_ne m ρ c main_arg3 (by decide)).trans <| (W13_of m ρ c main_arg3 (by decide)).trans <| (W12_of_ne m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide)).trans <| rfl
theorem W24_main_arg4 (c : Dev nD) : W24 m ρ c (Proc.devRef .tc main_arg4) = m ((c : Thread nD τ).loc main_arg4) :=
  (W24_of_ne m ρ c main_arg4 (by decide)).trans <| (W23_of m ρ c main_arg4 (by decide)).trans <| (W22_of_ne m ρ c main_arg4 (by decide)).trans <| (W21_of m ρ c main_arg4 (by decide)).trans <| (W20_of_ne m ρ c main_arg4 (by decide)).trans <| (W19_of m ρ c main_arg4 (by decide)).trans <| (W18_of_ne m ρ c main_arg4 (by decide)).trans <| (W17_of m ρ c main_arg4 (by decide)).trans <| (W16_of_ne m ρ c main_arg4 (by decide)).trans <| (W15_of m ρ c main_arg4 (by decide)).trans <| (W14_of_ne m ρ c main_arg4 (by decide)).trans <| (W13_of m ρ c main_arg4 (by decide)).trans <| (W12_of_ne m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)).trans <| rfl
theorem W24_main_arg5 (c : Dev nD) : W24 m ρ c (Proc.devRef .tc main_arg5) = m ((c : Thread nD τ).loc main_arg5) :=
  (W24_of_ne m ρ c main_arg5 (by decide)).trans <| (W23_of m ρ c main_arg5 (by decide)).trans <| (W22_of_ne m ρ c main_arg5 (by decide)).trans <| (W21_of m ρ c main_arg5 (by decide)).trans <| (W20_of_ne m ρ c main_arg5 (by decide)).trans <| (W19_of m ρ c main_arg5 (by decide)).trans <| (W18_of_ne m ρ c main_arg5 (by decide)).trans <| (W17_of m ρ c main_arg5 (by decide)).trans <| (W16_of_ne m ρ c main_arg5 (by decide)).trans <| (W15_of m ρ c main_arg5 (by decide)).trans <| (W14_of_ne m ρ c main_arg5 (by decide)).trans <| (W13_of m ρ c main_arg5 (by decide)).trans <| (W12_of_ne m ρ c main_arg5 (by decide)).trans <| (W11_of m ρ c main_arg5 (by decide)).trans <| (W10_of m ρ c main_arg5 (by decide)).trans <| (W9_of m ρ c main_arg5 (by decide)).trans <| (W8_of m ρ c main_arg5 (by decide)).trans <| (W7_of m ρ c main_arg5 (by decide)).trans <| (W6_of m ρ c main_arg5 (by decide)).trans <| (W5_of m ρ c main_arg5 (by decide)).trans <| (W4_of m ρ c main_arg5 (by decide)).trans <| (W3_of m ρ c main_arg5 (by decide)).trans <| (W2_of m ρ c main_arg5 (by decide)).trans <| (W1_of m ρ c main_arg5 (by decide)).trans <| rfl
theorem W24_main_arg6 (c : Dev nD) : W24 m ρ c (Proc.devRef .tc main_arg6) = m ((c : Thread nD τ).loc main_arg6) :=
  (W24_of_ne m ρ c main_arg6 (by decide)).trans <| (W23_of m ρ c main_arg6 (by decide)).trans <| (W22_of_ne m ρ c main_arg6 (by decide)).trans <| (W21_of m ρ c main_arg6 (by decide)).trans <| (W20_of_ne m ρ c main_arg6 (by decide)).trans <| (W19_of m ρ c main_arg6 (by decide)).trans <| (W18_of_ne m ρ c main_arg6 (by decide)).trans <| (W17_of m ρ c main_arg6 (by decide)).trans <| (W16_of_ne m ρ c main_arg6 (by decide)).trans <| (W15_of m ρ c main_arg6 (by decide)).trans <| (W14_of_ne m ρ c main_arg6 (by decide)).trans <| (W13_of m ρ c main_arg6 (by decide)).trans <| (W12_of_ne m ρ c main_arg6 (by decide)).trans <| (W11_of m ρ c main_arg6 (by decide)).trans <| (W10_of m ρ c main_arg6 (by decide)).trans <| (W9_of m ρ c main_arg6 (by decide)).trans <| (W8_of m ρ c main_arg6 (by decide)).trans <| (W7_of m ρ c main_arg6 (by decide)).trans <| (W6_of m ρ c main_arg6 (by decide)).trans <| (W5_of m ρ c main_arg6 (by decide)).trans <| (W4_of m ρ c main_arg6 (by decide)).trans <| (W3_of m ρ c main_arg6 (by decide)).trans <| (W2_of m ρ c main_arg6 (by decide)).trans <| (W1_of m ρ c main_arg6 (by decide)).trans <| rfl
theorem W24_main_arg7 (c : Dev nD) : W24 m ρ c (Proc.devRef .tc main_arg7) = m ((c : Thread nD τ).loc main_arg7) :=
  (W24_of_ne m ρ c main_arg7 (by decide)).trans <| (W23_of m ρ c main_arg7 (by decide)).trans <| (W22_of_ne m ρ c main_arg7 (by decide)).trans <| (W21_of m ρ c main_arg7 (by decide)).trans <| (W20_of_ne m ρ c main_arg7 (by decide)).trans <| (W19_of m ρ c main_arg7 (by decide)).trans <| (W18_of_ne m ρ c main_arg7 (by decide)).trans <| (W17_of m ρ c main_arg7 (by decide)).trans <| (W16_of_ne m ρ c main_arg7 (by decide)).trans <| (W15_of m ρ c main_arg7 (by decide)).trans <| (W14_of_ne m ρ c main_arg7 (by decide)).trans <| (W13_of m ρ c main_arg7 (by decide)).trans <| (W12_of_ne m ρ c main_arg7 (by decide)).trans <| (W11_of m ρ c main_arg7 (by decide)).trans <| (W10_of m ρ c main_arg7 (by decide)).trans <| (W9_of m ρ c main_arg7 (by decide)).trans <| (W8_of m ρ c main_arg7 (by decide)).trans <| (W7_of m ρ c main_arg7 (by decide)).trans <| (W6_of m ρ c main_arg7 (by decide)).trans <| (W5_of m ρ c main_arg7 (by decide)).trans <| (W4_of m ρ c main_arg7 (by decide)).trans <| (W3_of m ρ c main_arg7 (by decide)).trans <| (W2_of m ρ c main_arg7 (by decide)).trans <| (W1_of m ρ c main_arg7 (by decide)).trans <| rfl
theorem W24_main_arg8 (c : Dev nD) : W24 m ρ c (Proc.devRef .tc main_arg8) = m ((c : Thread nD τ).loc main_arg8) :=
  (W24_of_ne m ρ c main_arg8 (by decide)).trans <| (W23_of m ρ c main_arg8 (by decide)).trans <| (W22_of_ne m ρ c main_arg8 (by decide)).trans <| (W21_of m ρ c main_arg8 (by decide)).trans <| (W20_of_ne m ρ c main_arg8 (by decide)).trans <| (W19_of m ρ c main_arg8 (by decide)).trans <| (W18_of_ne m ρ c main_arg8 (by decide)).trans <| (W17_of m ρ c main_arg8 (by decide)).trans <| (W16_of_ne m ρ c main_arg8 (by decide)).trans <| (W15_of m ρ c main_arg8 (by decide)).trans <| (W14_of_ne m ρ c main_arg8 (by decide)).trans <| (W13_of m ρ c main_arg8 (by decide)).trans <| (W12_of_ne m ρ c main_arg8 (by decide)).trans <| (W11_of m ρ c main_arg8 (by decide)).trans <| (W10_of m ρ c main_arg8 (by decide)).trans <| (W9_of m ρ c main_arg8 (by decide)).trans <| (W8_of m ρ c main_arg8 (by decide)).trans <| (W7_of m ρ c main_arg8 (by decide)).trans <| (W6_of m ρ c main_arg8 (by decide)).trans <| (W5_of m ρ c main_arg8 (by decide)).trans <| (W4_of m ρ c main_arg8 (by decide)).trans <| (W3_of m ρ c main_arg8 (by decide)).trans <| (W2_of m ρ c main_arg8 (by decide)).trans <| (W1_of m ρ c main_arg8 (by decide)).trans <| rfl
theorem W24_main_arg9 (c : Dev nD) : W24 m ρ c (Proc.devRef .tc main_arg9) = m ((c : Thread nD τ).loc main_arg9) :=
  (W24_of_ne m ρ c main_arg9 (by decide)).trans <| (W23_of m ρ c main_arg9 (by decide)).trans <| (W22_of_ne m ρ c main_arg9 (by decide)).trans <| (W21_of m ρ c main_arg9 (by decide)).trans <| (W20_of_ne m ρ c main_arg9 (by decide)).trans <| (W19_of m ρ c main_arg9 (by decide)).trans <| (W18_of_ne m ρ c main_arg9 (by decide)).trans <| (W17_of m ρ c main_arg9 (by decide)).trans <| (W16_of_ne m ρ c main_arg9 (by decide)).trans <| (W15_of m ρ c main_arg9 (by decide)).trans <| (W14_of_ne m ρ c main_arg9 (by decide)).trans <| (W13_of m ρ c main_arg9 (by decide)).trans <| (W12_of_ne m ρ c main_arg9 (by decide)).trans <| (W11_of m ρ c main_arg9 (by decide)).trans <| (W10_of m ρ c main_arg9 (by decide)).trans <| (W9_of m ρ c main_arg9 (by decide)).trans <| (W8_of m ρ c main_arg9 (by decide)).trans <| (W7_of m ρ c main_arg9 (by decide)).trans <| (W6_of m ρ c main_arg9 (by decide)).trans <| (W5_of m ρ c main_arg9 (by decide)).trans <| (W4_of m ρ c main_arg9 (by decide)).trans <| (W3_of m ρ c main_arg9 (by decide)).trans <| (W2_of m ρ c main_arg9 (by decide)).trans <| (W1_of m ρ c main_arg9 (by decide)).trans <| rfl
theorem W24_main_arg10 (c : Dev nD) : W24 m ρ c (Proc.devRef .tc main_arg10) = m ((c : Thread nD τ).loc main_arg10) :=
  (W24_of_ne m ρ c main_arg10 (by decide)).trans <| (W23_of m ρ c main_arg10 (by decide)).trans <| (W22_of_ne m ρ c main_arg10 (by decide)).trans <| (W21_of m ρ c main_arg10 (by decide)).trans <| (W20_of_ne m ρ c main_arg10 (by decide)).trans <| (W19_of m ρ c main_arg10 (by decide)).trans <| (W18_of_ne m ρ c main_arg10 (by decide)).trans <| (W17_of m ρ c main_arg10 (by decide)).trans <| (W16_of_ne m ρ c main_arg10 (by decide)).trans <| (W15_of m ρ c main_arg10 (by decide)).trans <| (W14_of_ne m ρ c main_arg10 (by decide)).trans <| (W13_of m ρ c main_arg10 (by decide)).trans <| (W12_of_ne m ρ c main_arg10 (by decide)).trans <| (W11_of m ρ c main_arg10 (by decide)).trans <| (W10_of m ρ c main_arg10 (by decide)).trans <| (W9_of m ρ c main_arg10 (by decide)).trans <| (W8_of m ρ c main_arg10 (by decide)).trans <| (W7_of m ρ c main_arg10 (by decide)).trans <| (W6_of m ρ c main_arg10 (by decide)).trans <| (W5_of m ρ c main_arg10 (by decide)).trans <| (W4_of m ρ c main_arg10 (by decide)).trans <| (W3_of m ρ c main_arg10 (by decide)).trans <| (W2_of m ρ c main_arg10 (by decide)).trans <| (W1_of m ρ c main_arg10 (by decide)).trans <| rfl
theorem W24_main_arg11 (c : Dev nD) : W24 m ρ c (Proc.devRef .tc main_arg11) = m ((c : Thread nD τ).loc main_arg11) :=
  (W24_of_ne m ρ c main_arg11 (by decide)).trans <| (W23_of m ρ c main_arg11 (by decide)).trans <| (W22_of_ne m ρ c main_arg11 (by decide)).trans <| (W21_of m ρ c main_arg11 (by decide)).trans <| (W20_of_ne m ρ c main_arg11 (by decide)).trans <| (W19_of m ρ c main_arg11 (by decide)).trans <| (W18_of_ne m ρ c main_arg11 (by decide)).trans <| (W17_of m ρ c main_arg11 (by decide)).trans <| (W16_of_ne m ρ c main_arg11 (by decide)).trans <| (W15_of m ρ c main_arg11 (by decide)).trans <| (W14_of_ne m ρ c main_arg11 (by decide)).trans <| (W13_of m ρ c main_arg11 (by decide)).trans <| (W12_of_ne m ρ c main_arg11 (by decide)).trans <| (W11_of m ρ c main_arg11 (by decide)).trans <| (W10_of m ρ c main_arg11 (by decide)).trans <| (W9_of m ρ c main_arg11 (by decide)).trans <| (W8_of m ρ c main_arg11 (by decide)).trans <| (W7_of m ρ c main_arg11 (by decide)).trans <| (W6_of m ρ c main_arg11 (by decide)).trans <| (W5_of m ρ c main_arg11 (by decide)).trans <| (W4_of m ρ c main_arg11 (by decide)).trans <| (W3_of m ρ c main_arg11 (by decide)).trans <| (W2_of m ρ c main_arg11 (by decide)).trans <| (W1_of m ρ c main_arg11 (by decide)).trans <| rfl
theorem W24_main_arg12 (c : Dev nD) : W24 m ρ c (Proc.devRef .tc main_arg12) = m ((c : Thread nD τ).loc main_arg12) :=
  (W24_of_ne m ρ c main_arg12 (by decide)).trans <| (W23_of m ρ c main_arg12 (by decide)).trans <| (W22_of_ne m ρ c main_arg12 (by decide)).trans <| (W21_of m ρ c main_arg12 (by decide)).trans <| (W20_of_ne m ρ c main_arg12 (by decide)).trans <| (W19_of m ρ c main_arg12 (by decide)).trans <| (W18_of_ne m ρ c main_arg12 (by decide)).trans <| (W17_of m ρ c main_arg12 (by decide)).trans <| (W16_of_ne m ρ c main_arg12 (by decide)).trans <| (W15_of m ρ c main_arg12 (by decide)).trans <| (W14_of_ne m ρ c main_arg12 (by decide)).trans <| (W13_of m ρ c main_arg12 (by decide)).trans <| (W12_of_ne m ρ c main_arg12 (by decide)).trans <| (W11_of m ρ c main_arg12 (by decide)).trans <| (W10_of m ρ c main_arg12 (by decide)).trans <| (W9_of m ρ c main_arg12 (by decide)).trans <| (W8_of m ρ c main_arg12 (by decide)).trans <| (W7_of m ρ c main_arg12 (by decide)).trans <| (W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide)).trans <| rfl
theorem W24_main_arg13 (c : Dev nD) : W24 m ρ c (Proc.devRef .tc main_arg13) = m ((c : Thread nD τ).loc main_arg13) :=
  (W24_of_ne m ρ c main_arg13 (by decide)).trans <| (W23_of m ρ c main_arg13 (by decide)).trans <| (W22_of_ne m ρ c main_arg13 (by decide)).trans <| (W21_of m ρ c main_arg13 (by decide)).trans <| (W20_of_ne m ρ c main_arg13 (by decide)).trans <| (W19_of m ρ c main_arg13 (by decide)).trans <| (W18_of_ne m ρ c main_arg13 (by decide)).trans <| (W17_of m ρ c main_arg13 (by decide)).trans <| (W16_of_ne m ρ c main_arg13 (by decide)).trans <| (W15_of m ρ c main_arg13 (by decide)).trans <| (W14_of_ne m ρ c main_arg13 (by decide)).trans <| (W13_of m ρ c main_arg13 (by decide)).trans <| (W12_of_ne m ρ c main_arg13 (by decide)).trans <| (W11_of m ρ c main_arg13 (by decide)).trans <| (W10_of m ρ c main_arg13 (by decide)).trans <| (W9_of m ρ c main_arg13 (by decide)).trans <| (W8_of m ρ c main_arg13 (by decide)).trans <| (W7_of m ρ c main_arg13 (by decide)).trans <| (W6_of m ρ c main_arg13 (by decide)).trans <| (W5_of m ρ c main_arg13 (by decide)).trans <| (W4_of m ρ c main_arg13 (by decide)).trans <| (W3_of m ρ c main_arg13 (by decide)).trans <| (W2_of m ρ c main_arg13 (by decide)).trans <| (W1_of m ρ c main_arg13 (by decide)).trans <| rfl
theorem W24_main_arg14 (c : Dev nD) : W24 m ρ c (Proc.devRef .tc main_arg14) = m ((c : Thread nD τ).loc main_arg14) :=
  (W24_of_ne m ρ c main_arg14 (by decide)).trans <| (W23_of m ρ c main_arg14 (by decide)).trans <| (W22_of_ne m ρ c main_arg14 (by decide)).trans <| (W21_of m ρ c main_arg14 (by decide)).trans <| (W20_of_ne m ρ c main_arg14 (by decide)).trans <| (W19_of m ρ c main_arg14 (by decide)).trans <| (W18_of_ne m ρ c main_arg14 (by decide)).trans <| (W17_of m ρ c main_arg14 (by decide)).trans <| (W16_of_ne m ρ c main_arg14 (by decide)).trans <| (W15_of m ρ c main_arg14 (by decide)).trans <| (W14_of_ne m ρ c main_arg14 (by decide)).trans <| (W13_of m ρ c main_arg14 (by decide)).trans <| (W12_of_ne m ρ c main_arg14 (by decide)).trans <| (W11_of m ρ c main_arg14 (by decide)).trans <| (W10_of m ρ c main_arg14 (by decide)).trans <| (W9_of m ρ c main_arg14 (by decide)).trans <| (W8_of m ρ c main_arg14 (by decide)).trans <| (W7_of m ρ c main_arg14 (by decide)).trans <| (W6_of m ρ c main_arg14 (by decide)).trans <| (W5_of m ρ c main_arg14 (by decide)).trans <| (W4_of m ρ c main_arg14 (by decide)).trans <| (W3_of m ρ c main_arg14 (by decide)).trans <| (W2_of m ρ c main_arg14 (by decide)).trans <| (W1_of m ρ c main_arg14 (by decide)).trans <| rfl
theorem W24_main_arg15 (c : Dev nD) : W24 m ρ c (Proc.devRef .tc main_arg15) = m ((c : Thread nD τ).loc main_arg15) :=
  (W24_of_ne m ρ c main_arg15 (by decide)).trans <| (W23_of m ρ c main_arg15 (by decide)).trans <| (W22_of_ne m ρ c main_arg15 (by decide)).trans <| (W21_of m ρ c main_arg15 (by decide)).trans <| (W20_of_ne m ρ c main_arg15 (by decide)).trans <| (W19_of m ρ c main_arg15 (by decide)).trans <| (W18_of_ne m ρ c main_arg15 (by decide)).trans <| (W17_of m ρ c main_arg15 (by decide)).trans <| (W16_of_ne m ρ c main_arg15 (by decide)).trans <| (W15_of m ρ c main_arg15 (by decide)).trans <| (W14_of_ne m ρ c main_arg15 (by decide)).trans <| (W13_of m ρ c main_arg15 (by decide)).trans <| (W12_of_ne m ρ c main_arg15 (by decide)).trans <| (W11_of m ρ c main_arg15 (by decide)).trans <| (W10_of m ρ c main_arg15 (by decide)).trans <| (W9_of m ρ c main_arg15 (by decide)).trans <| (W8_of m ρ c main_arg15 (by decide)).trans <| (W7_of m ρ c main_arg15 (by decide)).trans <| (W6_of m ρ c main_arg15 (by decide)).trans <| (W5_of m ρ c main_arg15 (by decide)).trans <| (W4_of m ρ c main_arg15 (by decide)).trans <| (W3_of m ρ c main_arg15 (by decide)).trans <| (W2_of m ρ c main_arg15 (by decide)).trans <| (W1_of m ρ c main_arg15 (by decide)).trans <| rfl

/-! ## The proof data family and the thread state -/

/-- No pipeline has a prefetched table. -/
abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V11 m ρ) c
  | ⟨1, _⟩ => fun c => dat1 (V13 m ρ) c
  | ⟨2, _⟩ => fun c => dat2 (V15 m ρ) c
  | ⟨3, _⟩ => fun c => dat3 (V17 m ρ) c
  | ⟨4, _⟩ => fun c => dat4 (V19 m ρ) c
  | ⟨5, _⟩ => fun c => dat5 (V21 m ρ) c
  | ⟨6, _⟩ => fun c => dat6 (V23 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W24 m ρ c) ∗ ∃ r, prngReg c r)

/-! ## The regions as segments

Each region is entered from every unscoped buffer at the boundary's contents: its windows' arrays are split out of
them and put back at the exit contents; the generator register and the scoped buffers no window stages go into the
region's invariant and come back; nothing is owed; the kernels have no semaphore of their own. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V11 m ρ) c).loose
  hwaits := Pipeline.hwaits_of_owed_zero _ _ _ _ L lv 0 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec0 c (V11 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec0 c _).trans (hin0 (V11 m ρ) c)
  hout c := by
    rw [Pipeline.ownSems0_none]
    exact (hout0 (V11 m ρ) c).trans (ofPhiA spec0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V11 m ρ c) (V12 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V13 m ρ) c).loose
  hwaits := Pipeline.hwaits_of_owed_zero _ _ _ _ L lv 1 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec1 c (V13 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec1 c _).trans (hin1 (V13 m ρ) c)
  hout c := by
    rw [Pipeline.ownSems0_none]
    exact (hout1 (V13 m ρ) c).trans (ofPhiA spec1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V13 m ρ c) (V14 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V15 m ρ) c).loose
  hwaits := Pipeline.hwaits_of_owed_zero _ _ _ _ L lv 2 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec2 c (V15 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec2 c _).trans (hin2 (V15 m ρ) c)
  hout c := by
    rw [Pipeline.ownSems0_none]
    exact (hout2 (V15 m ρ) c).trans (ofPhiA spec2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V15 m ρ c) (V16 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V17 m ρ) c).loose
  hwaits := Pipeline.hwaits_of_owed_zero _ _ _ _ L lv 3 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec3 c (V17 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec3 c _).trans (hin3 (V17 m ρ) c)
  hout c := by
    rw [Pipeline.ownSems0_none]
    exact (hout3 (V17 m ρ) c).trans (ofPhiA spec3 c)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V17 m ρ c) (V18 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V19 m ρ) c).loose
  hwaits := Pipeline.hwaits_of_owed_zero _ _ _ _ L lv 4 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec4 c (V19 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec4 c _).trans (hin4 (V19 m ρ) c)
  hout c := by
    rw [Pipeline.ownSems0_none]
    exact (hout4 (V19 m ρ) c).trans (ofPhiA spec4 c)
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V19 m ρ c) (V20 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V21 m ρ) c).loose
  hwaits := Pipeline.hwaits_of_owed_zero _ _ _ _ L lv 5 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec5 c (V21 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec5 c _).trans (hin5 (V21 m ρ) c)
  hout c := by
    rw [Pipeline.ownSems0_none]
    exact (hout5 (V21 m ρ) c).trans (ofPhiA spec5 c)
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V21 m ρ c) (V22 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V23 m ρ) c).loose
  hwaits := Pipeline.hwaits_of_owed_zero _ _ _ _ L lv 6 fun _ _ => rfl
  pre c := iprop(StableHlo.held (c : Thread nD τ) (Pipeline.ucRefs τ sig) (W23 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V23 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec6 c _).trans (hin6 (V23 m ρ) c)
  hout c := by
    rw [Pipeline.ownSems0_none]
    exact (hout6 (V23 m ρ) c).trans (ofPhiA spec6 c)
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V23 m ρ c) (V24 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .region (reg0 m ρ),
    .host (hseg hostOps1 hostOps1_sub hostOps1_fresh (W12 m ρ)),
    .region (reg1 m ρ),
    .host (hseg hostOps2 hostOps2_sub hostOps2_fresh (W14 m ρ)),
    .region (reg2 m ρ),
    .host (hseg hostOps3 hostOps3_sub hostOps3_fresh (W16 m ρ)),
    .region (reg3 m ρ),
    .host (hseg hostOps4 hostOps4_sub hostOps4_fresh (W18 m ρ)),
    .region (reg4 m ρ),
    .host (hseg hostOps5 hostOps5_sub hostOps5_fresh (W20 m ρ)),
    .region (reg5 m ρ),
    .host (hseg hostOps6 hostOps6_sub hostOps6_fresh (W22 m ρ)),
    .region (reg6 m ρ) ]

set_option backward.isDefEq.respectTransparency.types false in
/-- THE RUN with every unscoped buffer named at the end: at the compiled mesh, from any memory with zero counters, every
    weakly fair execution of @main on the TensorCores terminates, nothing faulting, and in every final state each unscoped
    buffer of core `c` holds the last boundary's contents `W24 m ρ c`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W24 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c => h c)

/-- THE FRAME at any `F`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_arg0 (by decide))).trans (W24_main_arg0 m ρ c),
    (h c _ (mem_uc main_arg1 (by decide))).trans (W24_main_arg1 m ρ c),
    (h c _ (mem_uc main_arg2 (by decide))).trans (W24_main_arg2 m ρ c),
    (h c _ (mem_uc main_arg3 (by decide))).trans (W24_main_arg3 m ρ c),
    (h c _ (mem_uc main_arg4 (by decide))).trans (W24_main_arg4 m ρ c),
    (h c _ (mem_uc main_arg5 (by decide))).trans (W24_main_arg5 m ρ c),
    (h c _ (mem_uc main_arg6 (by decide))).trans (W24_main_arg6 m ρ c),
    (h c _ (mem_uc main_arg7 (by decide))).trans (W24_main_arg7 m ρ c),
    (h c _ (mem_uc main_arg8 (by decide))).trans (W24_main_arg8 m ρ c),
    (h c _ (mem_uc main_arg9 (by decide))).trans (W24_main_arg9 m ρ c),
    (h c _ (mem_uc main_arg10 (by decide))).trans (W24_main_arg10 m ρ c),
    (h c _ (mem_uc main_arg11 (by decide))).trans (W24_main_arg11 m ρ c),
    (h c _ (mem_uc main_arg12 (by decide))).trans (W24_main_arg12 m ρ c),
    (h c _ (mem_uc main_arg13 (by decide))).trans (W24_main_arg13 m ρ c),
    (h c _ (mem_uc main_arg14 (by decide))).trans (W24_main_arg14 m ρ c),
    (h c _ (mem_uc main_arg15 (by decide))).trans (W24_main_arg15 m ρ c)⟩) (run_main m ρ)

end Cert.Kernel.Hand

end
-- ==== Proof.KI.R0.Runs.lean ====
/- Region 0 of KernelIdeal (the first layer's matrix product with per-core column sums and sums of squares):
   what the three control cases of its body share. The window blocks read off the region-entry contents,
   the two branch conditions in closed form over the 32 grid points, where the two partial-sum windows are
   idle, the staging and scratch memrefs, and the region invariant with the two accumulators split out. -/
import proofs.«118595_j1726576853663_2_alg».proof.Proof.Gen.KernelIdeal.Launch
import proofs.«118595_j1726576853663_2_alg».proof.Proof.Gen.KernelIdeal.Skeleton
import proofs.«118595_j1726576853663_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input rows' staging buffer holds the point's block of rows at every point (it is fetched at each). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weights' staging buffer holds the whole weight matrix at every point: fetched at the first point only,
    its block index never moves, so what the body leaves in place is still the block. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The first conditional (zero the accumulators): the inner grid coordinate is 0. -/
abbrev cond0_0 (i : grid0.Coords) : Prop := (Scalar.cmpi .ne (Scalar.extui (Scalar.cmpi .eq (BitVec.ofNat 32 (i 1).val) 0#32)) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)

/-- The second conditional (store the accumulators into the partial-sum windows): the inner coordinate is 15. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are idle -/

/-- The two inputs and the raw output are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last inner step the sum window is idle and not written back; at the last it is live. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
theorem idleAt0_3_B : ∀ t : Fin cfg0.N, ¬cond0_0 (grid0.coords t) → ¬cond0_1 (grid0.coords t) → cfg0.idle 3 (grid0.coords t) = true := by decide +kernel
theorem noFlush0_3_B : ∀ t : Fin cfg0.N, ¬cond0_0 (grid0.coords t) → ¬cond0_1 (grid0.coords t) → (cfg0.win 3).flush t = false := by decide +kernel
theorem liveAt0_3_C : ∀ t : Fin cfg0.N, ¬cond0_0 (grid0.coords t) → cond0_1 (grid0.coords t) → cfg0.idle 3 (grid0.coords t) = false := by decide +kernel
/-- The same for the sum-of-squares window. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

/-! ## The staging and scratch memrefs -/

/-- One staging buffer of each output window, through which its contents are stated (the choice does not matter). -/
abbrev VO0_2 : View sig .tc .vmem S2048x256 .f32 := (Memref.whole cc0_stg2_0 : Memref sig .tc .vmem S2048x256 .f32).view
abbrev VO0_3 : View sig .tc .vmem S8x256 .f32 := (Memref.whole cc0_stg3_0 : Memref sig .tc .vmem S8x256 .f32).view
abbrev VO0_4 : View sig .tc .vmem S8x256 .f32 := (Memref.whole cc0_stg4_0 : Memref sig .tc .vmem S8x256 .f32).view
/-- Each window's current staging memref at point `t`, as the pipeline passes it, and its wholeness. -/
abbrev ms0_0 (t : Fin cfg0.N) : Memref sig .tc .vmem S2048x784 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x784 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x256 .f32 := win0_4.stage (cfg0.slots t 4)
abbrev hs0_4 (t : Fin cfg0.N) : (ms0_4 t).IsWhole := hstage0_4 ((cfg0.slots t 4).cast nbuf0_4)
/-- The two accumulators (column sums, column sums of squares): whole scoped buffers passed beside the windows. -/
abbrev scM0_0 : Memref sig .tc .vmem S1x256 .f32 := Memref.whole cc0_scratch0
abbrev scM0_1 : Memref sig .tc .vmem S1x256 .f32 := Memref.whole cc0_scratch1
/-- The accumulators as views: what each holds between points is stated through them. -/
abbrev VS0_0 : View sig .tc .vmem S1x256 .f32 := scM0_0.view
abbrev VS0_1 : View sig .tc .vmem S1x256 .f32 := scM0_1.view

/-- The region invariant with the two accumulators as memrefs owned at some contents, the other scoped buffers
    unopened, and the generator register at some state. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := UR sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

end Cert.KernelIdeal.Hand

end
-- ==== Proof.KI.R0.RunA.lean ====
/- Region 0, the body's run at the first inner step of a core (the accumulators are zeroed, then the step's
   column sums are added; the partial-sum windows are left untouched). -/
import proofs.«118595_j1726576853663_2_alg».proof.Proof.KI.R0.Runs

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the raw output's staging buffer and in the two accumulators at the first
    inner step, with the proof that from the inputs at their contents, the raw output and both accumulators at
    anything, and the partial-sum windows at contents handed back untouched, the body runs to those pieces written. -/
noncomputable def kernelRun0_A (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S2048x784 .f32) (x1 : Vec F S256x784 .bf16) :
    Σ' (L2 : List (View.Piece (Elt F) S2048x256 .f32)) (L3 : List (View.Piece (Elt F) S8x256 .f32)) (L4 : List (View.Piece (Elt F) S8x256 .f32)) (LS0 : List (View.Piece (Elt F) S1x256 .f32)), { LS1 : List (View.Piece (Elt F) S1x256 .f32) //
      ∀ (xi3 : Vec F S8x256 .f32) (xi4 : Vec F S8x256 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xi4 ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__layer0_kernel i arg2 harg2 arg3 harg3 arg4 harg4 arg5 harg5 arg6 harg6 arg7 harg7 arg8 harg8) K } := by
  refine ⟨?_, [], [], ?_, ?_, fun xi3 xi4 E K => ?run⟩
  case run =>
    simp only [cc0__layer0_kernel_eq_skeleton]; unfold cc0__layer0_kernel_skel
    simp only [k0_part1_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.R0.RunB.lean ====
/- Region 0, the body's run at a middle inner step (the step's column sums are added to the accumulators; the
   partial-sum windows are left untouched). -/
import proofs.«118595_j1726576853663_2_alg».proof.Proof.KI.R0.RunA

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the raw output's staging buffer and in the two accumulators at a middle
    inner step, with the proof that from the inputs at their contents, the raw output at anything, the accumulators
    at what the step before left, and the partial-sum windows at contents handed back untouched, the body runs to
    those pieces written. -/
noncomputable def kernelRun0_B (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S2048x784 .f32) (x1 : Vec F S256x784 .bf16) (xs0 : Vec F S1x256 .f32) (xs1 : Vec F S1x256 .f32) :
    Σ' (L2 : List (View.Piece (Elt F) S2048x256 .f32)) (L3 : List (View.Piece (Elt F) S8x256 .f32)) (L4 : List (View.Piece (Elt F) S8x256 .f32)) (LS0 : List (View.Piece (Elt F) S1x256 .f32)), { LS1 : List (View.Piece (Elt F) S1x256 .f32) //
      ∀ (xi3 : Vec F S8x256 .f32) (xi4 : Vec F S8x256 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xi4 ∗ owns (c : Thread nD τ) arg7 fullShare xs0 ∗ owns (c : Thread nD τ) arg8 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ owns (c : Thread nD τ) arg6 fullShare xi4 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__layer0_kernel i arg2 harg2 arg3 harg3 arg4 harg4 arg5 harg5 arg6 harg6 arg7 harg7 arg8 harg8) K } := by
  refine ⟨?_, [], [], ?_, ?_, fun xi3 xi4 E K => ?run⟩
  case run =>
    simp only [cc0__layer0_kernel_eq_skeleton]; unfold cc0__layer0_kernel_skel
    simp only [k0_part1_eq_skeleton]
    unfold owns
    iintro ⟨⟨%f0, %hf0, H0⟩, ⟨%f1, %hf1, H1⟩, ⟨%d2, %f2, -, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.R0.RunC.lean ====
/- Region 0, the body's run at the last inner step of a core (the step's column sums are added to the
   accumulators, which are then stored, broadcast to eight rows, into the two partial-sum windows). -/
import proofs.«118595_j1726576853663_2_alg».proof.Proof.KI.R0.RunB

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three outputs' staging buffers and in the two accumulators at the
    last inner step, with the proof that from the inputs at their contents, the outputs at anything and the
    accumulators at what the step before left, the body runs to those pieces written. -/
noncomputable def kernelRun0_C (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) :
    Σ' (L2 : List (View.Piece (Elt F) S2048x256 .f32)) (L3 : List (View.Piece (Elt F) S8x256 .f32)) (L4 : List (View.Piece (Elt F) S8x256 .f32)) (LS0 : List (View.Piece (Elt F) S1x256 .f32)), { LS1 : List (View.Piece (Elt F) S1x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__layer0_kernel i arg2 harg2 arg3 harg3 arg4 harg4 arg5 harg5 arg6 harg6 arg7 harg7 arg8 harg8) K } := by
  refine ⟨?_, ?_, ?_, ?_, ?_, fun E K => ?run⟩
  case run =>
    simp only [cc0__layer0_kernel_eq_skeleton]; unfold cc0__layer0_kernel_skel
    simp only [k0_part1_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [H4]; · iexists _; iexact H4
    isplitl [HS0]; · iexists _; iexact HS0
    iexists _; iexact HS1

end Cert.KernelIdeal.Hand

end
-- ==== Proof.KI.R0.Frame.lean ====
/- Region 0 of KernelIdeal: what its three outputs and two accumulators hold case by case and point by point,
   the pipeline's proof data over the region-entry contents, the body obligation, and the passage between the
   launch invariant and the point invariant (the accumulators' contents named after the first point). -/
import proofs.«118595_j1726576853663_2_alg».proof.Proof.KI.R0.RunC

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## What each case leaves, buffer by buffer -/

/-- At the first inner step the body's one whole-block store into the raw output's staging buffer covers it. -/
theorem cover0_A_2 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S2048x784 .f32) (x1 : Vec F S256x784 .bf16) (y : S2048x256.Idx) :
    ∃ pc ∈ (kernelRun0_A c i arg2 harg2 arg3 harg3 arg4 harg4 arg5 harg5 arg6 harg6 arg7 harg7 arg8 harg8 hc0 hc1 x0 x1).1, y ∈ pc.1.set :=
  View.cover_of_tiledL (kernelRun0_A c i arg2 harg2 arg3 harg3 arg4 harg4 arg5 harg5 arg6 harg6 arg7 harg7 arg8 harg8 hc0 hc1 x0 x1).1 S2048x256.size (by sl_kernel_rfl) y

/-- What the first inner step leaves in the raw output's staging buffer: its pieces read back. -/
def out0_A_2 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S2048x784 .f32) (x1 : Vec F S256x784 .bf16) : Vec F S2048x256 .f32 :=
  VO0_2.read (Elt F) (VO0_2.writes (Elt F) VO0_2.junk (kernelRun0_A c i arg2 harg2 arg3 harg3 arg4 harg4 arg5 harg5 arg6 harg6 arg7 harg7 arg8 harg8 hc0 hc1 x0 x1).1)

/-- At the first inner step nothing is stored into the column-sum window's staging buffer (the window is idle there and not written back):
    a placeholder that nothing consults. -/
def out0_A_3 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S2048x784 .f32) (x1 : Vec F S256x784 .bf16) : Vec F S8x256 .f32 :=
  VO0_3.read (Elt F) (VO0_3.writes (Elt F) VO0_3.junk (kernelRun0_A c i arg2 harg2 arg3 harg3 arg4 harg4 arg5 harg5 arg6 harg6 arg7 harg7 arg8 harg8 hc0 hc1 x0 x1).2.1)

/-- At the first inner step nothing is stored into the sum-of-squares window's staging buffer (the window is idle there and not written back):
    a placeholder that nothing consults. -/
def out0_A_4 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S2048x784 .f32) (x1 : Vec F S256x784 .bf16) : Vec F S8x256 .f32 :=
  VO0_4.read (Elt F) (VO0_4.writes (Elt F) VO0_4.junk (kernelRun0_A c i arg2 harg2 arg3 harg3 arg4 harg4 arg5 harg5 arg6 harg6 arg7 harg7 arg8 harg8 hc0 hc1 x0 x1).2.2.1)

/-- At the first inner step the body's one whole-block store into the column-sum accumulator covers it. -/
theorem scover0_A_0 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S2048x784 .f32) (x1 : Vec F S256x784 .bf16) (y : S1x256.Idx) :
    ∃ pc ∈ (kernelRun0_A c i arg2 harg2 arg3 harg3 arg4 harg4 arg5 harg5 arg6 harg6 arg7 harg7 arg8 harg8 hc0 hc1 x0 x1).2.2.2.1, y ∈ pc.1.set :=
  View.cover_of_tiledL (kernelRun0_A c i arg2 harg2 arg3 harg3 arg4 harg4 arg5 harg5 arg6 harg6 arg7 harg7 arg8 harg8 hc0 hc1 x0 x1).2.2.2.1 S1x256.size (by sl_kernel_rfl) y

/-- What the first inner step leaves in the column-sum accumulator: its pieces read back. -/
def sout0_A_0 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S2048x784 .f32) (x1 : Vec F S256x784 .bf16) : Vec F S1x256 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1).2.2.2.1)

/-- At the first inner step the body's one whole-block store into the sum-of-squares accumulator covers it. -/
theorem scover0_A_1 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S2048x784 .f32) (x1 : Vec F S256x784 .bf16) (y : S1x256.Idx) :
    ∃ pc ∈ (kernelRun0_A c i arg2 harg2 arg3 harg3 arg4 harg4 arg5 harg5 arg6 harg6 arg7 harg7 arg8 harg8 hc0 hc1 x0 x1).2.2.2.2.1, y ∈ pc.1.set :=
  View.cover_of_tiledL (kernelRun0_A c i arg2 harg2 arg3 harg3 arg4 harg4 arg5 harg5 arg6 harg6 arg7 harg7 arg8 harg8 hc0 hc1 x0 x1).2.2.2.2.1 S1x256.size (by sl_kernel_rfl) y

/-- What the first inner step leaves in the sum-of-squares accumulator: its pieces read back. -/
def sout0_A_1 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S2048x784 .f32) (x1 : Vec F S256x784 .bf16) : Vec F S1x256 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1).2.2.2.2.1)

/-- At a middle inner step the body's one whole-block store into the raw output's staging buffer covers it. -/
theorem cover0_B_2 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S2048x784 .f32) (x1 : Vec F S256x784 .bf16) (xs0 : Vec F S1x256 .f32) (xs1 : Vec F S1x256 .f32) (y : S2048x256.Idx) :
    ∃ pc ∈ (kernelRun0_B c i arg2 harg2 arg3 harg3 arg4 harg4 arg5 harg5 arg6 harg6 arg7 harg7 arg8 harg8 hc0 hc1 x0 x1 xs0 xs1).1, y ∈ pc.1.set :=
  View.cover_of_tiledL (kernelRun0_B c i arg2 harg2 arg3 harg3 arg4 harg4 arg5 harg5 arg6 harg6 arg7 harg7 arg8 harg8 hc0 hc1 x0 x1 xs0 xs1).1 S2048x256.size (by sl_kernel_rfl) y

/-- What a middle inner step leaves in the raw output's staging buffer: its pieces read back. -/
def out0_B_2 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S2048x784 .f32) (x1 : Vec F S256x784 .bf16) (xs0 : Vec F S1x256 .f32) (xs1 : Vec F S1x256 .f32) : Vec F S2048x256 .f32 :=
  VO0_2.read (Elt F) (VO0_2.writes (Elt F) VO0_2.junk (kernelRun0_B c i arg2 harg2 arg3 harg3 arg4 harg4 arg5 harg5 arg6 harg6 arg7 harg7 arg8 harg8 hc0 hc1 x0 x1 xs0 xs1).1)

/-- At a middle inner step nothing is stored into the column-sum window's staging buffer (the window is idle there and not written back):
    a placeholder that nothing consults. -/
def out0_B_3 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S2048x784 .f32) (x1 : Vec F S256x784 .bf16) (xs0 : Vec F S1x256 .f32) (xs1 : Vec F S1x256 .f32) : Vec F S8x256 .f32 :=
  VO0_3.read (Elt F) (VO0_3.writes (Elt F) VO0_3.junk (kernelRun0_B c i arg2 harg2 arg3 harg3 arg4 harg4 arg5 harg5 arg6 harg6 arg7 harg7 arg8 harg8 hc0 hc1 x0 x1 xs0 xs1).2.1)

/-- At a middle inner step nothing is stored into the sum-of-squares window's staging buffer (the window is idle there and not written back):
    a placeholder that nothing consults. -/
def out0_B_4 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S2048x784 .f32) (x1 : Vec F S256x784 .bf16) (xs0 : Vec F S1x256 .f32) (xs1 : Vec F S1x256 .f32) : Vec F S8x256 .f32 :=
  VO0_4.read (Elt F) (VO0_4.writes (Elt F) VO0_4.junk (kernelRun0_B c i arg2 harg2 arg3 harg3 arg4 harg4 arg5 harg5 arg6 harg6 arg7 harg7 arg8 harg8 hc0 hc1 x0 x1 xs0 xs1).2.2.1)

/-- At a middle inner step the body's one whole-block store into the column-sum accumulator covers it. -/
theorem scover0_B_0 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S2048x784 .f32) (x1 : Vec F S256x784 .bf16) (xs0 : Vec F S1x256 .f32) (xs1 : Vec F S1x256 .f32) (y : S1x256.Idx) :
    ∃ pc ∈ (kernelRun0_B c i arg2 harg2 arg3 harg3 arg4 harg4 arg5 harg5 arg6 harg6 arg7 harg7 arg8 harg8 hc0 hc1 x0 x1 xs0 xs1).2.2.2.1, y ∈ pc.1.set :=
  View.cover_of_tiledL (kernelRun0_B c i arg2 harg2 arg3 harg3 arg4 harg4 arg5 harg5 arg6 harg6 arg7 harg7 arg8 harg8 hc0 hc1 x0 x1 xs0 xs1).2.2.2.1 S1x256.size (by sl_kernel_rfl) y

/-- What a middle inner step leaves in the column-sum accumulator: its pieces read back. -/
def sout0_B_0 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S2048x784 .f32) (x1 : Vec F S256x784 .bf16) (xs0 : Vec F S1x256 .f32) (xs1 : Vec F S1x256 .f32) : Vec F S1x256 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 xs0 xs1).2.2.2.1)

/-- At a middle inner step the body's one whole-block store into the sum-of-squares accumulator covers it. -/
theorem scover0_B_1 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S2048x784 .f32) (x1 : Vec F S256x784 .bf16) (xs0 : Vec F S1x256 .f32) (xs1 : Vec F S1x256 .f32) (y : S1x256.Idx) :
    ∃ pc ∈ (kernelRun0_B c i arg2 harg2 arg3 harg3 arg4 harg4 arg5 harg5 arg6 harg6 arg7 harg7 arg8 harg8 hc0 hc1 x0 x1 xs0 xs1).2.2.2.2.1, y ∈ pc.1.set :=
  View.cover_of_tiledL (kernelRun0_B c i arg2 harg2 arg3 harg3 arg4 harg4 arg5 harg5 arg6 harg6 arg7 harg7 arg8 harg8 hc0 hc1 x0 x1 xs0 xs1).2.2.2.2.1 S1x256.size (by sl_kernel_rfl) y

/-- What a middle inner step leaves in the sum-of-squares accumulator: its pieces read back. -/
def sout0_B_1 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S2048x784 .f32) (x1 : Vec F S256x784 .bf16) (xs0 : Vec F S1x256 .f32) (xs1 : Vec F S1x256 .f32) : Vec F S1x256 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 xs0 xs1).2.2.2.2.1)

/-- At the last inner step the body's one whole-block store into the raw output's staging buffer covers it. -/
theorem cover0_C_2 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) (y : S2048x256.Idx) :
    ∃ pc ∈ (kernelRun0_C c i arg2 harg2 arg3 harg3 arg4 harg4 arg5 harg5 arg6 harg6 arg7 harg7 arg8 harg8 hc0 hc1 x0 x1 xs0 xs1).1, y ∈ pc.1.set :=
  View.cover_of_tiledL (kernelRun0_C c i arg2 harg2 arg3 harg3 arg4 harg4 arg5 harg5 arg6 harg6 arg7 harg7 arg8 harg8 hc0 hc1 x0 x1 xs0 xs1).1 S2048x256.size (by sl_kernel_rfl) y

/-- What the last inner step leaves in the raw output's staging buffer: its pieces read back. -/
def out0_C_2 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) : Vec F S2048x256 .f32 :=
  VO0_2.read (Elt F) (VO0_2.writes (Elt F) VO0_2.junk (kernelRun0_C c i arg2 harg2 arg3 harg3 arg4 harg4 arg5 harg5 arg6 harg6 arg7 harg7 arg8 harg8 hc0 hc1 x0 x1 xs0 xs1).1)

/-- At the last inner step the body's one whole-block store into the column-sum window's staging buffer covers it. -/
theorem cover0_C_3 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) (y : S8x256.Idx) :
    ∃ pc ∈ (kernelRun0_C c i arg2 harg2 arg3 harg3 arg4 harg4 arg5 harg5 arg6 harg6 arg7 harg7 arg8 harg8 hc0 hc1 x0 x1 xs0 xs1).2.1, y ∈ pc.1.set :=
  View.cover_of_tiledL (kernelRun0_C c i arg2 harg2 arg3 harg3 arg4 harg4 arg5 harg5 arg6 harg6 arg7 harg7 arg8 harg8 hc0 hc1 x0 x1 xs0 xs1).2.1 S8x256.size (by sl_kernel_rfl) y

/-- What the last inner step leaves in the column-sum window's staging buffer: its pieces read back. -/
def out0_C_3 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) : Vec F S8x256 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 xs0 xs1).2.1)

/-- At the last inner step the body's one whole-block store into the sum-of-squares window's staging buffer covers it. -/
theorem cover0_C_4 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) (y : S8x256.Idx) :
    ∃ pc ∈ (kernelRun0_C c i arg2 harg2 arg3 harg3 arg4 harg4 arg5 harg5 arg6 harg6 arg7 harg7 arg8 harg8 hc0 hc1 x0 x1 xs0 xs1).2.2.1, y ∈ pc.1.set :=
  View.cover_of_tiledL (kernelRun0_C c i arg2 harg2 arg3 harg3 arg4 harg4 arg5 harg5 arg6 harg6 arg7 harg7 arg8 harg8 hc0 hc1 x0 x1 xs0 xs1).2.2.1 S8x256.size (by sl_kernel_rfl) y

/-- What the last inner step leaves in the sum-of-squares window's staging buffer: its pieces read back. -/
def out0_C_4 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) : Vec F S8x256 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 xs0 xs1).2.2.1)

/-- At the last inner step the body's one whole-block store into the column-sum accumulator covers it. -/
theorem scover0_C_0 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) (y : S1x256.Idx) :
    ∃ pc ∈ (kernelRun0_C c i arg2 harg2 arg3 harg3 arg4 harg4 arg5 harg5 arg6 harg6 arg7 harg7 arg8 harg8 hc0 hc1 x0 x1 xs0 xs1).2.2.2.1, y ∈ pc.1.set :=
  View.cover_of_tiledL (kernelRun0_C c i arg2 harg2 arg3 harg3 arg4 harg4 arg5 harg5 arg6 harg6 arg7 harg7 arg8 harg8 hc0 hc1 x0 x1 xs0 xs1).2.2.2.1 S1x256.size (by sl_kernel_rfl) y

/-- What the last inner step leaves in the column-sum accumulator: its pieces read back. -/
def sout0_C_0 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) : Vec F S1x256 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 xs0 xs1).2.2.2.1)

/-- At the last inner step the body's one whole-block store into the sum-of-squares accumulator covers it. -/
theorem scover0_C_1 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) (y : S1x256.Idx) :
    ∃ pc ∈ (kernelRun0_C c i arg2 harg2 arg3 harg3 arg4 harg4 arg5 harg5 arg6 harg6 arg7 harg7 arg8 harg8 hc0 hc1 x0 x1 xs0 xs1).2.2.2.2.1, y ∈ pc.1.set :=
  View.cover_of_tiledL (kernelRun0_C c i arg2 harg2 arg3 harg3 arg4 harg4 arg5 harg5 arg6 harg6 arg7 harg7 arg8 harg8 hc0 hc1 x0 x1 xs0 xs1).2.2.2.2.1 S1x256.size (by sl_kernel_rfl) y

/-- What the last inner step leaves in the sum-of-squares accumulator: its pieces read back. -/
def sout0_C_1 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) : Vec F S1x256 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 xs0 xs1).2.2.2.2.1)

/-! ## What the outputs and the accumulators hold after each point -/

/-- After the body at position `n`: the raw output's, the column-sum window's and the sum-of-squares window's
    staging buffers, then the two accumulators. The case is selected by `n` mod 16; a case that reads the accumulators
    reads what position `n - 1` left in them. -/
def outsAt0 (c : Dev nD) : (n : ℕ) → n < cfg0.N → Vec F S2048x256 .f32 × Vec F S8x256 .f32 × Vec F S8x256 .f32 × Vec F S1x256 .f32 × Vec F S1x256 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2.2.1 (outsAt0 c n (Nat.lt_of_succ_lt hn)).2.2.2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2.2.1 (outsAt0 c n (Nat.lt_of_succ_lt hn)).2.2.2.2)

/-- `outsAt0` at a first inner step. -/
theorem outsAt0_A (c : Dev nD) (t : Fin cfg0.N) (h0 : t.val % 16 = 0) (h1 : ¬t.val % 16 = 15) :
    outsAt0 V c t.val t.isLt = (out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t), out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t), out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a middle inner step: over what the point before left in the accumulators. -/
theorem outsAt0_B (c : Dev nD) (t : Fin cfg0.N) (h0 : ¬t.val % 16 = 0) (h1 : ¬t.val % 16 = 15) :
    outsAt0 V c t.val t.isLt = (out0_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last inner step: over what the point before left in the accumulators. -/
theorem outsAt0_C (c : Dev nD) (t : Fin cfg0.N) (h0 : ¬t.val % 16 = 0) (h1 : t.val % 16 = 15) :
    outsAt0 V c t.val t.isLt = (out0_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch invariant (every scoped buffer at
    anything); afterwards the two accumulators at what the point before left in them, the other scoped buffers
    unopened, and the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((outsAt0 V c n hn).2.2.2.1) ∗ owns (c : Thread nD τ) scM0_1 fullShare ((outsAt0 V c n hn).2.2.2.2)) ∗ Pipeline.scopedRestBut (Ix := Unit) (Name := ℕ) (U := UR sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(iprop(owns (c : Thread nD τ) scM0_0 fullShare ((outsAt0 V c n hn).2.2.2.1) ∗ owns (c : Thread nD τ) scM0_1 fullShare ((outsAt0 V c n hn).2.2.2.2)) ∗ Pipeline.scopedRestBut (Ix := Unit) (Name := ℕ) (U := UR sig nD τ) (Lvl := ℕ) (Val := Elt F) spec0 c [cc0_scratch0, cc0_scratch1]) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare ((outsAt0 V c (n - 1) (by omega)).2.2.2.1) ∗ owns (c : Thread nD τ) scM0_1 fullShare ((outsAt0 V c (n - 1) (by omega)).2.2.2.2)) ∗ Pipeline.scopedRestBut (Ix := Unit) (Name := ℕ) (U := UR sig nD τ) (Lvl := ℕ) (Val := Elt F) spec0 c [cc0_scratch0, cc0_scratch1]) ∗ (∃ r, prngReg c r)) := by
  cases n with
  | zero => exact absurd rfl hz
  | succ n => rfl

/-! ## The pipeline's proof data -/

/-- The proof data of the region's pipeline on core `c`: the arrays as the region finds them; after the body at point
    `t` each input's buffer at its block and the outputs' at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
    | ⟨4, _⟩ => (outsAt0 V c t.val t.isLt).2.2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem after0_4 (c : Dev nD) (t : Fin cfg0.N) : (dat0 V c).after 4 t = (outsAt0 V c t.val t.isLt).2.2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- The post of a window that is live at the point: its buffer at what the body leaves. -/
theorem leaves0_0 (c : Dev nD) (t : Fin cfg0.N) :
    (dat0 V c).leavesExact 0 t = owns (c : Thread nD τ) (ms0_0 t) fullShare ((dat0 V c).after 0 t) := by
  unfold Dat.leavesExact; rw [liveAt0_0 t]
theorem leaves0_1 (c : Dev nD) (t : Fin cfg0.N) :
    (dat0 V c).leavesExact 1 t = owns (c : Thread nD τ) (ms0_1 t) fullShare ((dat0 V c).after 1 t) := by
  unfold Dat.leavesExact; rw [liveAt0_1 t]
theorem leaves0_2 (c : Dev nD) (t : Fin cfg0.N) :
    (dat0 V c).leavesExact 2 t = owns (c : Thread nD τ) (ms0_2 t) fullShare ((dat0 V c).after 2 t) := by
  unfold Dat.leavesExact; rw [liveAt0_2 t]
theorem leaves0_3_C (c : Dev nD) (t : Fin cfg0.N) (h0 : ¬cond0_0 (grid0.coords t)) (h1 : cond0_1 (grid0.coords t)) :
    (dat0 V c).leavesExact 3 t = owns (c : Thread nD τ) (ms0_3 t) fullShare ((dat0 V c).after 3 t) := by
  unfold Dat.leavesExact; rw [liveAt0_3_C t h0 h1]
theorem leaves0_4_C (c : Dev nD) (t : Fin cfg0.N) (h0 : ¬cond0_0 (grid0.coords t)) (h1 : cond0_1 (grid0.coords t)) :
    (dat0 V c).leavesExact 4 t = owns (c : Thread nD τ) (ms0_4 t) fullShare ((dat0 V c).after 4 t) := by
  unfold Dat.leavesExact; rw [liveAt0_4_C t h0 h1]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The inputs' buffers hold their blocks; `t` mod 16 says which case the point is in; the
    invariant hands the body the accumulators (at anything at the very first point, at what the point before left
    afterwards) and takes them back at this point's contents; where the partial-sum windows are idle their buffers
    pass through untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, after0_0, after0_1, after0_2]
  have hN : t.val < 32 := lt_of_lt_of_eq t.isLt (show cfg0.N = 32 from N_0)
  by_cases h0 : t.val % 16 = 0
  · by_cases h1 : t.val % 16 = 15
    · exfalso; omega
    · rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold out0_A_2 sout0_A_0 sout0_A_1; (try dsimp only)
      by_cases hz : t.val = 0
      · rw [PhiS0_castSucc V c t, PhiS0_zero V c _ _ hz, PhiA0_eq]
        iintro ⟨⟨⟨⟨HS0, HS1⟩, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t)).2.2.2.2.2 _ _ Set.univ _)
        isplitl [H0]; · iexact H0
        isplitl [H1]; · iexact H1
        isplitl [H2]; · iexists _; iexact H2
        isplitl [H3]; · iexact H3
        isplitl [H4]; · iexact H4
        isplitl [HS0]; · iexact HS0
        isplitl [HS1]; · iexact HS1
        iintro ⟨H0, H1, ⟨%e2, H2⟩, H3, H4, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _ _ _ _ _)
        isplitl [H3]; · iexists _; iexact H3
        iexists _; iexact H4
      · rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t)).2.2.2.2.2 _ _ Set.univ _)
        isplitl [H0]; · iexact H0
        isplitl [H1]; · iexact H1
        isplitl [H2]; · iexists _; iexact H2
        isplitl [H3]; · iexact H3
        isplitl [H4]; · iexact H4
        isplitl [HS0]; · iexists _; iexact HS0
        isplitl [HS1]; · iexists _; iexact HS1
        iintro ⟨H0, H1, ⟨%e2, H2⟩, H3, H4, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _ _ _ _ _)
        isplitl [H3]; · iexists _; iexact H3
        iexists _; iexact H4
  · have hz : t.val ≠ 0 := fun e => h0 (by rw [e])
    by_cases h1 : t.val % 16 = 15
    · rw [leaves0_3_C V c t (fun h => h0 ((hcond0_0 t).mp h)) ((hcond0_1 t).mpr h1), leaves0_4_C V c t (fun h => h0 ((hcond0_0 t).mp h)) ((hcond0_1 t).mpr h1), after0_3, after0_4]
      rw [outsAt0_C V c t h0 h1]
      unfold out0_C_2 out0_C_3 out0_C_4 sout0_C_0 sout0_C_1; (try dsimp only)
      · rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) _ _).2.2.2.2.2 Set.univ _)
        isplitl [H0]; · iexact H0
        isplitl [H1]; · iexact H1
        isplitl [H2]; · iexists _; iexact H2
        isplitl [H3]; · iexists _; iexact H3
        isplitl [H4]; · iexists _; iexact H4
        isplitl [HS0]; · iexact HS0
        isplitl [HS1]; · iexact HS1
        iintro ⟨H0, H1, ⟨%e2, H2⟩, ⟨%e3, H3⟩, ⟨%e4, H4⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _)
              unfold owns; iexists _; isplitr
              swap; · iexact HS1
              ipureintro; exact View.read_writes_of_cover _ _ _ _ _ (scover0_C_1 c _ _ _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_C_2 c _ _ _ _ _ _ _ _ _ _ _ _ _ _ _ _ _ _ _ _ _)
        isplitl [H3]
        · unfold owns; iexists _; isplitr
          swap; · iexact H3
          ipureintro; exact View.read_writes_of_cover _ _ _ _ _ (cover0_C_3 c _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _)
    · rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold out0_B_2 sout0_B_0 sout0_B_1; (try dsimp only)
      · rw [PhiS0_castSucc V c t, PhiS0_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) _ _).2.2.2.2.2 _ _ Set.univ _)
        isplitl [H0]; · iexact H0
        isplitl [H1]; · iexact H1
        isplitl [H2]; · iexists _; iexact H2
        isplitl [H3]; · iexact H3
        isplitl [H4]; · iexact H4
        isplitl [HS0]; · iexact HS0
        isplitl [HS1]; · iexact HS1
        iintro ⟨H0, H1, ⟨%e2, H2⟩, H3, H4, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover0_B_0 c _ _ _ _ _ _ _ _ _ _ _ _ _ _ _ _ _ _ _ _ _)
              unfold owns; iexists _; isplitr
              swap; · iexact HS1
              ipureintro; exact View.read_writes_of_cover _ _ _ _ _ (scover0_B_1 c _ _ _ _ _ _ _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_B_2 c _ _ _ _ _ _ _ _ _ _ _ _ _ _ _ _ _ _ _ _ _)
        isplitl [H3]; · iexists _; iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the launch invariant back: the accumulators' named contents
    are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand

end
-- ==== Proof.KI.R1.Runs.lean ====
/- Region 1 of the program (custom_call 1, `cc1__fused_layer_kernel`): what the three runs of its body share. The windows' blocks read off
   the region-entry contents `V`; the two branch conditions of the body in closed form over the grid (the first holds exactly at the
   points t with t % 16 = 0, where the two accumulators are zeroed; the second exactly at t % 16 = 15, where they are stored,
   broadcast to eight rows, into windows 7 and 8); where windows 7 and 8 are idle and not written back; the staging and scratch
   memrefs; and the region invariant with the two accumulators split out of the scoped rest. -/
import proofs.«118595_j1726576853663_2_alg».proof.Proof.Gen.KernelIdeal.Launch
import proofs.«118595_j1726576853663_2_alg».proof.Proof.Gen.KernelIdeal.Skeleton
import proofs.«118595_j1726576853663_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data whose
    array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data whose
    array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data whose
    array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data whose
    array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data whose
    array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data whose
    array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the accumulators are zeroed under it), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16): decided over the grid. -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second conditional (the accumulators are stored into windows 7 and 8 under it). -/
abbrev cond1_1 (i : grid1.Coords) : Prop := k1_cond2 i = 1#1
/-- It holds at the points ≡ 15 (mod 16): decided over the grid. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- Window 0 is never idle. -/
theorem liveAt1_0 : ∀ t : Fin cfg1.N, cfg1.idle 0 (grid1.coords t) = false := by decide +kernel
/-- Window 1 is never idle. -/
theorem liveAt1_1 : ∀ t : Fin cfg1.N, cfg1.idle 1 (grid1.coords t) = false := by decide +kernel
/-- Window 2 is never idle. -/
theorem liveAt1_2 : ∀ t : Fin cfg1.N, cfg1.idle 2 (grid1.coords t) = false := by decide +kernel
/-- Window 3 is never idle. -/
theorem liveAt1_3 : ∀ t : Fin cfg1.N, cfg1.idle 3 (grid1.coords t) = false := by decide +kernel
/-- Window 4 is never idle. -/
theorem liveAt1_4 : ∀ t : Fin cfg1.N, cfg1.idle 4 (grid1.coords t) = false := by decide +kernel
/-- Window 5 is never idle. -/
theorem liveAt1_5 : ∀ t : Fin cfg1.N, cfg1.idle 5 (grid1.coords t) = false := by decide +kernel
/-- Window 6 is never idle. -/
theorem liveAt1_6 : ∀ t : Fin cfg1.N, cfg1.idle 6 (grid1.coords t) = false := by decide +kernel
/-- At the points where the first condition holds and the second does not, window 7 is idle (nothing is stored into it) -/
theorem idleAt1_7_A : ∀ t : Fin cfg1.N, cond1_0 (grid1.coords t) → ¬cond1_1 (grid1.coords t) → cfg1.idle 7 (grid1.coords t) = true := by decide +kernel
/-- and its block is not written back. -/
theorem noFlush1_7_A : ∀ t : Fin cfg1.N, cond1_0 (grid1.coords t) → ¬cond1_1 (grid1.coords t) → (cfg1.win 7).flush t = false := by decide +kernel
/-- The same where neither condition holds. -/
theorem idleAt1_7_B : ∀ t : Fin cfg1.N, ¬cond1_0 (grid1.coords t) → ¬cond1_1 (grid1.coords t) → cfg1.idle 7 (grid1.coords t) = true := by decide +kernel
theorem noFlush1_7_B : ∀ t : Fin cfg1.N, ¬cond1_0 (grid1.coords t) → ¬cond1_1 (grid1.coords t) → (cfg1.win 7).flush t = false := by decide +kernel
/-- Where the second condition holds (and the first does not) window 7 is live: the body stores into it. -/
theorem liveAt1_7_C : ∀ t : Fin cfg1.N, ¬cond1_0 (grid1.coords t) → cond1_1 (grid1.coords t) → cfg1.idle 7 (grid1.coords t) = false := by decide +kernel
/-- At the points where the first condition holds and the second does not, window 8 is idle (nothing is stored into it) -/
theorem idleAt1_8_A : ∀ t : Fin cfg1.N, cond1_0 (grid1.coords t) → ¬cond1_1 (grid1.coords t) → cfg1.idle 8 (grid1.coords t) = true := by decide +kernel
/-- and its block is not written back. -/
theorem noFlush1_8_A : ∀ t : Fin cfg1.N, cond1_0 (grid1.coords t) → ¬cond1_1 (grid1.coords t) → (cfg1.win 8).flush t = false := by decide +kernel
/-- The same where neither condition holds. -/
theorem idleAt1_8_B : ∀ t : Fin cfg1.N, ¬cond1_0 (grid1.coords t) → ¬cond1_1 (grid1.coords t) → cfg1.idle 8 (grid1.coords t) = true := by decide +kernel
theorem noFlush1_8_B : ∀ t : Fin cfg1.N, ¬cond1_0 (grid1.coords t) → ¬cond1_1 (grid1.coords t) → (cfg1.win 8).flush t = false := by decide +kernel
/-- Where the second condition holds (and the first does not) window 8 is live: the body stores into it. -/
theorem liveAt1_8_C : ∀ t : Fin cfg1.N, ¬cond1_0 (grid1.coords t) → cond1_1 (grid1.coords t) → cfg1.idle 8 (grid1.coords t) = false := by decide +kernel

/-! ## The staging and scratch memrefs -/

/-- One staging buffer of output window 6, through which its contents are stated (the choice does not matter). -/
abbrev VO1_6 : View sig .tc .vmem S2048x256 .f32 := (Memref.whole cc1_stg6_0 : Memref sig .tc .vmem S2048x256 .f32).view
/-- One staging buffer of output window 7, through which its contents are stated (the choice does not matter). -/
abbrev VO1_7 : View sig .tc .vmem S8x256 .f32 := (Memref.whole cc1_stg7_0 : Memref sig .tc .vmem S8x256 .f32).view
/-- One staging buffer of output window 8, through which its contents are stated (the choice does not matter). -/
abbrev VO1_8 : View sig .tc .vmem S8x256 .f32 := (Memref.whole cc1_stg8_0 : Memref sig .tc .vmem S8x256 .f32).view
/-- Each window's current staging memref at point `t`, spelled as the pipeline passes it, and its wholeness. -/
abbrev ms1_0 (t : Fin cfg1.N) : Memref sig .tc .vmem S2048x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x256 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S8x256 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S8x256 .f32 := win1_8.stage (cfg1.slots t 8)
abbrev hs1_8 (t : Fin cfg1.N) : (ms1_8 t).IsWhole := hstage1_8 ((cfg1.slots t 8).cast nbuf1_8)
/-- The scratch operands (the two accumulators): whole scoped buffers of the kernel's own, passed beside the windows. -/
abbrev scM1_0 : Memref sig .tc .vmem S1x256 .f32 := Memref.whole cc1_scratch0
abbrev VS1_0 : View sig .tc .vmem S1x256 .f32 := scM1_0.view
abbrev scM1_1 : Memref sig .tc .vmem S1x256 .f32 := Memref.whole cc1_scratch1
abbrev VS1_1 : View sig .tc .vmem S1x256 .f32 := scM1_1.view

/-- The region invariant with the two accumulators as memrefs owned at some contents, the remainder of the scoped rest unopened
    beside them, and the generator register at some state: what the body obligation hands the run and takes back. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.KernelIdeal.Hand

end
-- ==== Proof.KI.R1.RunA.lean ====
/- Region 1: the whole-body run of `cc1__fused_layer_kernel` in control case A. -/
import proofs.«118595_j1726576853663_2_alg».proof.Proof.KI.R1.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the first condition holds and the second does not (t % 16 = 0: the accumulators are zeroed, then
    added to; nothing is stored into windows 7 and 8).
    What the body's stores leave in each output's staging memref and in each accumulator, as pieces (last first), WITH the proof
    that on whole memrefs — the inputs' at their contents `x·`, output 6's at anything, outputs 7 and 8 at contents `xi·` handed back untouched,
    the accumulators at anything — the body runs to the continuation holding the inputs' as they were
    and every stored buffer with its pieces written. The printed function and its part are their skeletons; each conditional is decided
    by the case's hypotheses; the pieces are the witness the run finds. -/
noncomputable def kernelRun1_A (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) :
    Σ' (L6 : List (View.Piece (Elt F) S2048x256 .f32)), Σ' (L7 : List (View.Piece (Elt F) S8x256 .f32)), Σ' (L8 : List (View.Piece (Elt F) S8x256 .f32)), Σ' (LS0 : List (View.Piece (Elt F) S1x256 .f32)), { LS1 : List (View.Piece (Elt F) S1x256 .f32) //
      ∀ (xi7 xi8 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__fused_layer_kernel i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc1__fused_layer_kernel_eq_skeleton]; unfold cc1__fused_layer_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.KernelIdeal.Hand

end
-- ==== Proof.KI.R1.RunB.lean ====
/- Region 1: the whole-body run of `cc1__fused_layer_kernel` in control case B. -/
import proofs.«118595_j1726576853663_2_alg».proof.Proof.KI.R1.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where neither condition holds (0 < t % 16 < 15: the accumulators, carried from the point before, are
    added to; nothing is stored into windows 7 and 8).
    What the body's stores leave in each output's staging memref and in each accumulator, as pieces (last first), WITH the proof
    that on whole memrefs — the inputs' at their contents `x·`, output 6's at anything, outputs 7 and 8 at contents `xi·` handed back untouched,
    the accumulators at the contents `xs·` the point before left — the body runs to the continuation holding the inputs' as they were
    and every stored buffer with its pieces written. The printed function and its part are their skeletons; each conditional is decided
    by the case's hypotheses; the pieces are the witness the run finds. -/
noncomputable def kernelRun1_B (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    Σ' (L6 : List (View.Piece (Elt F) S2048x256 .f32)), Σ' (L7 : List (View.Piece (Elt F) S8x256 .f32)), Σ' (L8 : List (View.Piece (Elt F) S8x256 .f32)), Σ' (LS0 : List (View.Piece (Elt F) S1x256 .f32)), { LS1 : List (View.Piece (Elt F) S1x256 .f32) //
      ∀ (xi7 xi8 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__fused_layer_kernel i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc1__fused_layer_kernel_eq_skeleton]; unfold cc1__fused_layer_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.KernelIdeal.Hand

end
-- ==== Proof.KI.R1.RunC.lean ====
/- Region 1: the whole-body run of `cc1__fused_layer_kernel` in control case C. -/
import proofs.«118595_j1726576853663_2_alg».proof.Proof.KI.R1.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the second condition holds and the first does not (t % 16 = 15: the accumulators, carried from the
    point before, are added to and then stored, broadcast to eight rows, into windows 7 and 8).
    What the body's stores leave in each output's staging memref and in each accumulator, as pieces (last first), WITH the proof
    that on whole memrefs — the inputs' at their contents `x·`, output 6's at anything, outputs 7 and 8 at anything,
    the accumulators at the contents `xs·` the point before left — the body runs to the continuation holding the inputs' as they were
    and every stored buffer with its pieces written. The printed function and its part are their skeletons; each conditional is decided
    by the case's hypotheses; the pieces are the witness the run finds. -/
noncomputable def kernelRun1_C (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    Σ' (L6 : List (View.Piece (Elt F) S2048x256 .f32)), Σ' (L7 : List (View.Piece (Elt F) S8x256 .f32)), Σ' (L8 : List (View.Piece (Elt F) S8x256 .f32)), Σ' (LS0 : List (View.Piece (Elt F) S1x256 .f32)), { LS1 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc1__fused_layer_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc1__fused_layer_kernel_eq_skeleton]; unfold cc1__fused_layer_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.R1.Frame.lean ====
/- Region 1: the frame lemmas of custom_call 1 at the region-entry contents `V`. What each control case leaves in the outputs' staging
   buffers and in the two accumulators (the pieces the runs found, read back; they cover each buffer), the same point by point along the
   grid (`outsAt1`: an accumulator at a point other than the first of a core continues from what the point before left), the region
   invariant carrying the accumulators at those contents, the pipeline's proof data, and the body obligation with its entry and exit. -/
import proofs.«118595_j1726576853663_2_alg».proof.Proof.KI.R1.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces for output 6 tile its block (one store of the whole block), so they cover it. -/
theorem cover1_A_6 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (y : S2048x256.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).1 S2048x256.size (by sl_kernel_rfl) y

/-- What case A leaves in output 6's staging buffer: its pieces read back over junk. -/
def out1_A_6 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) : Vec F S2048x256 .f32 :=
  VO1_6.read (Elt F) (VO1_6.writes (Elt F) VO1_6.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).1)

/-- Case A stores nothing into output 7 (the window is idle at its points and not written back there): no pieces, a
    placeholder that nothing consults. -/
def out1_A_7 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) : Vec F S8x256 .f32 :=
  VO1_7.read (Elt F) (VO1_7.writes (Elt F) VO1_7.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.1)

/-- Case A stores nothing into output 8 (the window is idle at its points and not written back there): no pieces, a
    placeholder that nothing consults. -/
def out1_A_8 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) : Vec F S8x256 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.2.1)

/-- Case A's pieces for accumulator 0 cover it. -/
theorem scover1_A_0 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (y : S1x256.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1 S1x256.size (by sl_kernel_rfl) y

/-- What case A leaves in accumulator 0: its pieces read back over junk. -/
def sout1_A_0 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) : Vec F S1x256 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1)

/-- Case A's pieces for accumulator 1 cover it. -/
theorem scover1_A_1 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (y : S1x256.Idx) :
    ∃ pc ∈ (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1 S1x256.size (by sl_kernel_rfl) y

/-- What case A leaves in accumulator 1: its pieces read back over junk. -/
def sout1_A_1 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) : Vec F S1x256 .f32 :=
  VS1_1.read (Elt F) (VS1_1.writes (Elt F) VS1_1.junk (kernelRun1_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1)

/-- Case B's pieces for output 6 tile its block (one store of the whole block), so they cover it. -/
theorem cover1_B_6 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S2048x256.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S2048x256.size (by sl_kernel_rfl) y

/-- What case B leaves in output 6's staging buffer: its pieces read back over junk. -/
def out1_B_6 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S2048x256 .f32 :=
  VO1_6.read (Elt F) (VO1_6.writes (Elt F) VO1_6.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case B stores nothing into output 7 (the window is idle at its points and not written back there): no pieces, a
    placeholder that nothing consults. -/
def out1_B_7 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO1_7.read (Elt F) (VO1_7.writes (Elt F) VO1_7.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case B stores nothing into output 8 (the window is idle at its points and not written back there): no pieces, a
    placeholder that nothing consults. -/
def out1_B_8 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case B's pieces for accumulator 0 cover it. -/
theorem scover1_B_0 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 S1x256.size (by sl_kernel_rfl) y

/-- What case B leaves in accumulator 0: its pieces read back over junk. -/
def sout1_B_0 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-- Case B's pieces for accumulator 1 cover it. -/
theorem scover1_B_1 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S1x256.size (by sl_kernel_rfl) y

/-- What case B leaves in accumulator 1: its pieces read back over junk. -/
def sout1_B_1 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS1_1.read (Elt F) (VS1_1.writes (Elt F) VS1_1.junk (kernelRun1_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

/-- Case C's pieces for output 6 tile its block (one store of the whole block), so they cover it. -/
theorem cover1_C_6 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S2048x256.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S2048x256.size (by sl_kernel_rfl) y

/-- What case C leaves in output 6's staging buffer: its pieces read back over junk. -/
def out1_C_6 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S2048x256 .f32 :=
  VO1_6.read (Elt F) (VO1_6.writes (Elt F) VO1_6.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case C's pieces for output 7 tile its block (one store of the whole block), so they cover it. -/
theorem cover1_C_7 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S8x256.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 S8x256.size (by sl_kernel_rfl) y

/-- What case C leaves in output 7's staging buffer: its pieces read back over junk. -/
def out1_C_7 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO1_7.read (Elt F) (VO1_7.writes (Elt F) VO1_7.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case C's pieces for output 8 tile its block (one store of the whole block), so they cover it. -/
theorem cover1_C_8 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S8x256.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1 S8x256.size (by sl_kernel_rfl) y

/-- What case C leaves in output 8's staging buffer: its pieces read back over junk. -/
def out1_C_8 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case C's pieces for accumulator 0 cover it. -/
theorem scover1_C_0 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 S1x256.size (by sl_kernel_rfl) y

/-- What case C leaves in accumulator 0: its pieces read back over junk. -/
def sout1_C_0 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-- Case C's pieces for accumulator 1 cover it. -/
theorem scover1_C_1 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S1x256.size (by sl_kernel_rfl) y

/-- What case C leaves in accumulator 1: its pieces read back over junk. -/
def sout1_C_1 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS1_1.read (Elt F) (VS1_1.writes (Elt F) VS1_1.junk (kernelRun1_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

/-! ## What the outputs and the accumulators hold after each point -/

/-- THE ACCUMULATION. What the outputs' staging buffers and the two accumulators hold after the body at position `n` (the outputs in window
    order, then the accumulators): the case the closed forms select at `n`, run at the point's memrefs and input blocks, an accumulator
    at a point other than a core's first continuing from what this leaves at `n - 1`. Both conditions at once is no point. -/
def outsAt1 (c : Dev nD) : (n : ℕ) → n < cfg1.N → Vec F S2048x256 .f32 × Vec F S8x256 .f32 × Vec F S8x256 .f32 × Vec F S1x256 .f32 × Vec F S1x256 .f32
  | 0, hn => (out1_A_6 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_7 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩))
  | n + 1, hn =>
    if h0 : (n + 1) % 16 = 0 then
      if h1 : (n + 1) % 16 = 15 then
        False.elim (by omega)
      else
        (out1_A_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩))
    else
      if h1 : (n + 1) % 16 = 15 then
        (out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, out1_C_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2)
      else
        (out1_B_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, out1_B_7 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (outsAt1 c n (Nat.lt_of_succ_lt hn)).2.2.2.1 (outsAt1 c n (Nat.lt_of_succ_lt hn)).2.2.2.2)

/-- `outsAt1` at a point of case A: that case's contents. -/
theorem outsAt1_A (c : Dev nD) (t : Fin cfg1.N) (h0 : t.val % 16 = 0) (h1 : ¬t.val % 16 = 15) :
    outsAt1 V c t.val t.isLt = (out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 16 = 0) (h1 : ¬t.val % 16 = 15) :
    outsAt1 V c t.val t.isLt = (out1_B_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_B_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 16 = 0) (h1 : t.val % 16 = 15) :
    outsAt1 V c t.val t.isLt = (out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the class's (every scratch at anything); afterwards the two
    accumulators at what the point before left in them, the remainder of the scoped rest unopened, and the generator register at
    some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2.2.2.1) ∗ owns (c : Thread nD τ) scM1_1 fullShare ((outsAt1 V c n hn).2.2.2.2))
          ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = iprop(iprop(iprop(owns (c : Thread nD τ) scM1_0 fullShare ((outsAt1 V c n hn).2.2.2.1) ∗ owns (c : Thread nD τ) scM1_1 fullShare ((outsAt1 V c n hn).2.2.2.2))
          ∗ Pipeline.scopedRestBut (Ix := Unit) (Name := ℕ) (U := UR sig nD τ) (Lvl := ℕ) (Val := Elt F) spec1 c [cc1_scratch0, cc1_scratch1]) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2.2.2.1) ∗ owns (c : Thread nD τ) scM1_1 fullShare ((outsAt1 V c (n - 1) (by omega)).2.2.2.2))
          ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

/-- The proof data of pipeline 1 on core `c`: the arrays as the region finds them (`V`); after the body at point `t` each input's
    buffer at its block and the outputs' at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
    | ⟨7, _⟩ => (outsAt1 V c t.val t.isLt).2.1
    | ⟨8, _⟩ => (outsAt1 V c t.val t.isLt).2.2.1
  Φ t := PhiS1 V c t.val (Nat.le_of_lt_succ t.isLt)
  q _ := fullShare
  owed _ := 0

/-- The proof data's arrays are the region-entry contents . -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]
theorem after1_7 (c : Dev nD) (t : Fin cfg1.N) : (dat1 V c).after 7 t = (outsAt1 V c t.val t.isLt).2.1 := by dsimp only [dat1]
theorem after1_8 (c : Dev nD) (t : Fin cfg1.N) : (dat1 V c).after 8 t = (outsAt1 V c t.val t.isLt).2.2.1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- A window live at a point is left at what the body leaves in it. -/
theorem leaves1_0 (c : Dev nD) (t : Fin cfg1.N) : (dat1 V c).leavesExact 0 t = owns (c : Thread nD τ) (ms1_0 t) fullShare ((dat1 V c).after 0 t) := by
  unfold Dat.leavesExact; rw [liveAt1_0 t]
theorem leaves1_1 (c : Dev nD) (t : Fin cfg1.N) : (dat1 V c).leavesExact 1 t = owns (c : Thread nD τ) (ms1_1 t) fullShare ((dat1 V c).after 1 t) := by
  unfold Dat.leavesExact; rw [liveAt1_1 t]
theorem leaves1_2 (c : Dev nD) (t : Fin cfg1.N) : (dat1 V c).leavesExact 2 t = owns (c : Thread nD τ) (ms1_2 t) fullShare ((dat1 V c).after 2 t) := by
  unfold Dat.leavesExact; rw [liveAt1_2 t]
theorem leaves1_3 (c : Dev nD) (t : Fin cfg1.N) : (dat1 V c).leavesExact 3 t = owns (c : Thread nD τ) (ms1_3 t) fullShare ((dat1 V c).after 3 t) := by
  unfold Dat.leavesExact; rw [liveAt1_3 t]
theorem leaves1_4 (c : Dev nD) (t : Fin cfg1.N) : (dat1 V c).leavesExact 4 t = owns (c : Thread nD τ) (ms1_4 t) fullShare ((dat1 V c).after 4 t) := by
  unfold Dat.leavesExact; rw [liveAt1_4 t]
theorem leaves1_5 (c : Dev nD) (t : Fin cfg1.N) : (dat1 V c).leavesExact 5 t = owns (c : Thread nD τ) (ms1_5 t) fullShare ((dat1 V c).after 5 t) := by
  unfold Dat.leavesExact; rw [liveAt1_5 t]
theorem leaves1_6 (c : Dev nD) (t : Fin cfg1.N) : (dat1 V c).leavesExact 6 t = owns (c : Thread nD τ) (ms1_6 t) fullShare ((dat1 V c).after 6 t) := by
  unfold Dat.leavesExact; rw [liveAt1_6 t]
theorem leaves1_7_C (c : Dev nD) (t : Fin cfg1.N) (h0 : ¬cond1_0 (grid1.coords t)) (h1 : cond1_1 (grid1.coords t)) : (dat1 V c).leavesExact 7 t = owns (c : Thread nD τ) (ms1_7 t) fullShare ((dat1 V c).after 7 t) := by
  unfold Dat.leavesExact; rw [liveAt1_7_C t h0 h1]
theorem leaves1_8_C (c : Dev nD) (t : Fin cfg1.N) (h0 : ¬cond1_0 (grid1.coords t)) (h1 : cond1_1 (grid1.coords t)) : (dat1 V c).leavesExact 8 t = owns (c : Thread nD τ) (ms1_8 t) fullShare ((dat1 V c).after 8 t) := by
  unfold Dat.leavesExact; rw [liveAt1_8_C t h0 h1]

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point: the inputs' memrefs hold their blocks; the closed forms say which case the point is in, so that case's run
    applies; the invariant hands the body the accumulators at what the point before left (at anything at the first point) and the
    generator register, and takes the accumulators back at this point's contents (their pieces cover them); a window idle at the point
    is handed back untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 16 = 0
  · by_cases h1 : t.val % 16 = 15
    · exfalso; omega
    · rw [leaves1_0 V c t, leaves1_1 V c t, leaves1_2 V c t, leaves1_3 V c t, leaves1_4 V c t, leaves1_5 V c t, leaves1_6 V c t, after1_0, after1_1, after1_2, after1_3, after1_4, after1_5, after1_6]
      rw [Dat.leavesExact_idle (dat1 V c) 7 t (idleAt1_7_A t ((hcond1_0 t).mpr h0) (fun h => h1 ((hcond1_1 t).mp h))) (noFlush1_7_A t ((hcond1_0 t).mpr h0) (fun h => h1 ((hcond1_1 t).mp h)))]
      rw [Dat.leavesExact_idle (dat1 V c) 8 t (idleAt1_8_A t ((hcond1_0 t).mpr h0) (fun h => h1 ((hcond1_1 t).mp h))) (noFlush1_8_A t ((hcond1_0 t).mpr h0) (fun h => h1 ((hcond1_1 t).mp h)))]
      rw [outsAt1_A V c t h0 h1]
      unfold out1_A_6 sout1_A_0 sout1_A_1; (try dsimp only)
      by_cases hz : t.val = 0
      · rw [PhiS1_castSucc V c t, PhiS1_zero V c _ _ hz, PhiA1_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover1_A_6 c _ _ _ _ _ _ _ _ _ _ _ _ _ _ _ _ _ _ _ _ _ _ _ _ _ _ _ _ _ _ _)
        isplitl [H7]; · iexists _; iexact H7
        iexists _; iexact H8
      · rw [PhiS1_castSucc V c t, PhiS1_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) (iblk1 V c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexists _; iexact HS0
        isplitl [HS1]; · iexists _; iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover1_A_0 c _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover1_A_1 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover1_A_6 c _ _ _ _ _ _ _ _ _ _ _ _ _ _ _ _ _ _ _ _ _ _ _ _ _ _ _ _ _ _ _)
        isplitl [H7]; · iexists _; iexact H7
        iexists _; iexact H8
  · by_cases h1 : t.val % 16 = 15
    · rw [leaves1_0 V c t, leaves1_1 V c t, leaves1_2 V c t, leaves1_3 V c t, leaves1_4 V c t, leaves1_5 V c t, leaves1_6 V c t, after1_0, after1_1, after1_2, after1_3, after1_4, after1_5, after1_6]
      rw [leaves1_7_C V c t (fun h => h0 ((hcond1_0 t).mp h)) ((hcond1_1 t).mpr h1), leaves1_8_C V c t (fun h => h0 ((hcond1_0 t).mp h)) ((hcond1_1 t).mpr h1), after1_7, after1_8]
      rw [outsAt1_C V c t h0 h1]
      unfold out1_C_6 out1_C_7 out1_C_8 sout1_C_0 sout1_C_1; (try dsimp only)
      have hz : t.val ≠ 0 := by omega
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) (iblk1 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover1_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover1_C_8 c _ _ _ _ _ _ _ _ _ _ _ _ _ _ _ _ _ _ _ _ _ _ _ _ _ _ _ _ _ _ _ _ _)
    · rw [leaves1_0 V c t, leaves1_1 V c t, leaves1_2 V c t, leaves1_3 V c t, leaves1_4 V c t, leaves1_5 V c t, leaves1_6 V c t, after1_0, after1_1, after1_2, after1_3, after1_4, after1_5, after1_6]
      rw [Dat.leavesExact_idle (dat1 V c) 7 t (idleAt1_7_B t (fun h => h0 ((hcond1_0 t).mp h)) (fun h => h1 ((hcond1_1 t).mp h))) (noFlush1_7_B t (fun h => h0 ((hcond1_0 t).mp h)) (fun h => h1 ((hcond1_1 t).mp h)))]
      rw [Dat.leavesExact_idle (dat1 V c) 8 t (idleAt1_8_B t (fun h => h0 ((hcond1_0 t).mp h)) (fun h => h1 ((hcond1_1 t).mp h))) (noFlush1_8_B t (fun h => h0 ((hcond1_0 t).mp h)) (fun h => h1 ((hcond1_1 t).mp h)))]
      rw [outsAt1_B V c t h0 h1]
      unfold out1_B_6 sout1_B_0 sout1_B_1; (try dsimp only)
      have hz : t.val ≠ 0 := by omega
      rw [PhiS1_castSucc V c t, PhiS1_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover1_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.KI.R2.Runs.lean ====
/- Region 2 of the program (custom_call 2, `cc2__fused_layer_kernel`): what the three runs of its body share. The windows' blocks read off
   the region-entry contents `V`; the two branch conditions of the body in closed form over the grid (the first holds exactly at the
   points t with t % 16 = 0, where the two accumulators are zeroed; the second exactly at t % 16 = 15, where they are stored,
   broadcast to eight rows, into windows 7 and 8); where windows 7 and 8 are idle and not written back; the staging and scratch
   memrefs; and the region invariant with the two accumulators split out of the scoped rest. -/
import proofs.«118595_j1726576853663_2_alg».proof.Proof.Gen.KernelIdeal.Launch
import proofs.«118595_j1726576853663_2_alg».proof.Proof.Gen.KernelIdeal.Skeleton
import proofs.«118595_j1726576853663_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data whose
    array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data whose
    array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data whose
    array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data whose
    array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data whose
    array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof data whose
    array is `V`'s and whose body leaves the block in place: unfetched, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first conditional (the accumulators are zeroed under it), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 16): decided over the grid. -/
theorem hcond2_0 : ∀ t : Fin cfg2.N, cond2_0 (grid2.coords t) ↔ t.val % 16 = 0 :=
  (by decide +kernel : ∀ t : Fin grid2.N, cond2_0 (grid2.coords t) ↔ t.val % 16 = 0)

/-- The condition of the body's second conditional (the accumulators are stored into windows 7 and 8 under it). -/
abbrev cond2_1 (i : grid2.Coords) : Prop := k2_cond2 i = 1#1
/-- It holds at the points ≡ 15 (mod 16): decided over the grid. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

/-- Window 0 is never idle. -/
theorem liveAt2_0 : ∀ t : Fin cfg2.N, cfg2.idle 0 (grid2.coords t) = false := by decide +kernel
/-- Window 1 is never idle. -/
theorem liveAt2_1 : ∀ t : Fin cfg2.N, cfg2.idle 1 (grid2.coords t) = false := by decide +kernel
/-- Window 2 is never idle. -/
theorem liveAt2_2 : ∀ t : Fin cfg2.N, cfg2.idle 2 (grid2.coords t) = false := by decide +kernel
/-- Window 3 is never idle. -/
theorem liveAt2_3 : ∀ t : Fin cfg2.N, cfg2.idle 3 (grid2.coords t) = false := by decide +kernel
/-- Window 4 is never idle. -/
theorem liveAt2_4 : ∀ t : Fin cfg2.N, cfg2.idle 4 (grid2.coords t) = false := by decide +kernel
/-- Window 5 is never idle. -/
theorem liveAt2_5 : ∀ t : Fin cfg2.N, cfg2.idle 5 (grid2.coords t) = false := by decide +kernel
/-- Window 6 is never idle. -/
theorem liveAt2_6 : ∀ t : Fin cfg2.N, cfg2.idle 6 (grid2.coords t) = false := by decide +kernel
/-- At the points where the first condition holds and the second does not, window 7 is idle (nothing is stored into it) -/
theorem idleAt2_7_A : ∀ t : Fin cfg2.N, cond2_0 (grid2.coords t) → ¬cond2_1 (grid2.coords t) → cfg2.idle 7 (grid2.coords t) = true := by decide +kernel
/-- and its block is not written back. -/
theorem noFlush2_7_A : ∀ t : Fin cfg2.N, cond2_0 (grid2.coords t) → ¬cond2_1 (grid2.coords t) → (cfg2.win 7).flush t = false := by decide +kernel
/-- The same where neither condition holds. -/
theorem idleAt2_7_B : ∀ t : Fin cfg2.N, ¬cond2_0 (grid2.coords t) → ¬cond2_1 (grid2.coords t) → cfg2.idle 7 (grid2.coords t) = true := by decide +kernel
theorem noFlush2_7_B : ∀ t : Fin cfg2.N, ¬cond2_0 (grid2.coords t) → ¬cond2_1 (grid2.coords t) → (cfg2.win 7).flush t = false := by decide +kernel
/-- Where the second condition holds (and the first does not) window 7 is live: the body stores into it. -/
theorem liveAt2_7_C : ∀ t : Fin cfg2.N, ¬cond2_0 (grid2.coords t) → cond2_1 (grid2.coords t) → cfg2.idle 7 (grid2.coords t) = false := by decide +kernel
/-- At the points where the first condition holds and the second does not, window 8 is idle (nothing is stored into it) -/
theorem idleAt2_8_A : ∀ t : Fin cfg2.N, cond2_0 (grid2.coords t) → ¬cond2_1 (grid2.coords t) → cfg2.idle 8 (grid2.coords t) = true := by decide +kernel
/-- and its block is not written back. -/
theorem noFlush2_8_A : ∀ t : Fin cfg2.N, cond2_0 (grid2.coords t) → ¬cond2_1 (grid2.coords t) → (cfg2.win 8).flush t = false := by decide +kernel
/-- The same where neither condition holds. -/
theorem idleAt2_8_B : ∀ t : Fin cfg2.N, ¬cond2_0 (grid2.coords t) → ¬cond2_1 (grid2.coords t) → cfg2.idle 8 (grid2.coords t) = true := by decide +kernel
theorem noFlush2_8_B : ∀ t : Fin cfg2.N, ¬cond2_0 (grid2.coords t) → ¬cond2_1 (grid2.coords t) → (cfg2.win 8).flush t = false := by decide +kernel
/-- Where the second condition holds (and the first does not) window 8 is live: the body stores into it. -/
theorem liveAt2_8_C : ∀ t : Fin cfg2.N, ¬cond2_0 (grid2.coords t) → cond2_1 (grid2.coords t) → cfg2.idle 8 (grid2.coords t) = false := by decide +kernel

/-! ## The staging and scratch memrefs -/

/-- One staging buffer of output window 6, through which its contents are stated (the choice does not matter). -/
abbrev VO2_6 : View sig .tc .vmem S2048x256 .f32 := (Memref.whole cc2_stg6_0 : Memref sig .tc .vmem S2048x256 .f32).view
/-- One staging buffer of output window 7, through which its contents are stated (the choice does not matter). -/
abbrev VO2_7 : View sig .tc .vmem S8x256 .f32 := (Memref.whole cc2_stg7_0 : Memref sig .tc .vmem S8x256 .f32).view
/-- One staging buffer of output window 8, through which its contents are stated (the choice does not matter). -/
abbrev VO2_8 : View sig .tc .vmem S8x256 .f32 := (Memref.whole cc2_stg8_0 : Memref sig .tc .vmem S8x256 .f32).view
/-- Each window's current staging memref at point `t`, spelled as the pipeline passes it, and its wholeness. -/
abbrev ms2_0 (t : Fin cfg2.N) : Memref sig .tc .vmem S2048x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x256 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S256x256 .bf16 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S2048x256 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S8x256 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S8x256 .f32 := win2_8.stage (cfg2.slots t 8)
abbrev hs2_8 (t : Fin cfg2.N) : (ms2_8 t).IsWhole := hstage2_8 ((cfg2.slots t 8).cast nbuf2_8)
/-- The scratch operands (the two accumulators): whole scoped buffers of the kernel's own, passed beside the windows. -/
abbrev scM2_0 : Memref sig .tc .vmem S1x256 .f32 := Memref.whole cc2_scratch0
abbrev VS2_0 : View sig .tc .vmem S1x256 .f32 := scM2_0.view
abbrev scM2_1 : Memref sig .tc .vmem S1x256 .f32 := Memref.whole cc2_scratch1
abbrev VS2_1 : View sig .tc .vmem S1x256 .f32 := scM2_1.view

/-- The region invariant with the two accumulators as memrefs owned at some contents, the remainder of the scoped rest unopened
    beside them, and the generator register at some state: what the body obligation hands the run and takes back. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

end Cert.KernelIdeal.Hand

end
-- ==== Proof.KI.R2.RunA.lean ====
/- Region 2: the whole-body run of `cc2__fused_layer_kernel` in control case A. -/
import proofs.«118595_j1726576853663_2_alg».proof.Proof.KI.R2.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the first condition holds and the second does not (t % 16 = 0: the accumulators are zeroed, then
    added to; nothing is stored into windows 7 and 8).
    What the body's stores leave in each output's staging memref and in each accumulator, as pieces (last first), WITH the proof
    that on whole memrefs — the inputs' at their contents `x·`, output 6's at anything, outputs 7 and 8 at contents `xi·` handed back untouched,
    the accumulators at anything — the body runs to the continuation holding the inputs' as they were
    and every stored buffer with its pieces written. The printed function and its part are their skeletons; each conditional is decided
    by the case's hypotheses; the pieces are the witness the run finds. -/
noncomputable def kernelRun2_A (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) :
    Σ' (L6 : List (View.Piece (Elt F) S2048x256 .f32)), Σ' (L7 : List (View.Piece (Elt F) S8x256 .f32)), Σ' (L8 : List (View.Piece (Elt F) S8x256 .f32)), Σ' (LS0 : List (View.Piece (Elt F) S1x256 .f32)), { LS1 : List (View.Piece (Elt F) S1x256 .f32) //
      ∀ (xi7 xi8 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc2__fused_layer_kernel i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc2__fused_layer_kernel_eq_skeleton]; unfold cc2__fused_layer_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.KernelIdeal.Hand

end
-- ==== Proof.KI.R2.RunB.lean ====
/- Region 2: the whole-body run of `cc2__fused_layer_kernel` in control case B. -/
import proofs.«118595_j1726576853663_2_alg».proof.Proof.KI.R2.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where neither condition holds (0 < t % 16 < 15: the accumulators, carried from the point before, are
    added to; nothing is stored into windows 7 and 8).
    What the body's stores leave in each output's staging memref and in each accumulator, as pieces (last first), WITH the proof
    that on whole memrefs — the inputs' at their contents `x·`, output 6's at anything, outputs 7 and 8 at contents `xi·` handed back untouched,
    the accumulators at the contents `xs·` the point before left — the body runs to the continuation holding the inputs' as they were
    and every stored buffer with its pieces written. The printed function and its part are their skeletons; each conditional is decided
    by the case's hypotheses; the pieces are the witness the run finds. -/
noncomputable def kernelRun2_B (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    Σ' (L6 : List (View.Piece (Elt F) S2048x256 .f32)), Σ' (L7 : List (View.Piece (Elt F) S8x256 .f32)), Σ' (L8 : List (View.Piece (Elt F) S8x256 .f32)), Σ' (LS0 : List (View.Piece (Elt F) S1x256 .f32)), { LS1 : List (View.Piece (Elt F) S1x256 .f32) //
      ∀ (xi7 xi8 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc2__fused_layer_kernel i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc2__fused_layer_kernel_eq_skeleton]; unfold cc2__fused_layer_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.KernelIdeal.Hand

end
-- ==== Proof.KI.R2.RunC.lean ====
/- Region 2: the whole-body run of `cc2__fused_layer_kernel` in control case C. -/
import proofs.«118595_j1726576853663_2_alg».proof.Proof.KI.R2.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the second condition holds and the first does not (t % 16 = 15: the accumulators, carried from the
    point before, are added to and then stored, broadcast to eight rows, into windows 7 and 8).
    What the body's stores leave in each output's staging memref and in each accumulator, as pieces (last first), WITH the proof
    that on whole memrefs — the inputs' at their contents `x·`, output 6's at anything, outputs 7 and 8 at anything,
    the accumulators at the contents `xs·` the point before left — the body runs to the continuation holding the inputs' as they were
    and every stored buffer with its pieces written. The printed function and its part are their skeletons; each conditional is decided
    by the case's hypotheses; the pieces are the witness the run finds. -/
noncomputable def kernelRun2_C (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    Σ' (L6 : List (View.Piece (Elt F) S2048x256 .f32)), Σ' (L7 : List (View.Piece (Elt F) S8x256 .f32)), Σ' (L8 : List (View.Piece (Elt F) S8x256 .f32)), Σ' (LS0 : List (View.Piece (Elt F) S1x256 .f32)), { LS1 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc2__fused_layer_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc2__fused_layer_kernel_eq_skeleton]; unfold cc2__fused_layer_kernel_skel
    simp only [k2_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.R2.Frame.lean ====
/- Region 2: the frame lemmas of custom_call 2 at the region-entry contents `V`. What each control case leaves in the outputs' staging
   buffers and in the two accumulators (the pieces the runs found, read back; they cover each buffer), the same point by point along the
   grid (`outsAt2`: an accumulator at a point other than the first of a core continues from what the point before left), the region
   invariant carrying the accumulators at those contents, the pipeline's proof data, and the body obligation with its entry and exit. -/
import proofs.«118595_j1726576853663_2_alg».proof.Proof.KI.R2.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces for output 6 tile its block (one store of the whole block), so they cover it. -/
theorem cover2_A_6 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (y : S2048x256.Idx) :
    ∃ pc ∈ (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).1 S2048x256.size (by sl_kernel_rfl) y

/-- What case A leaves in output 6's staging buffer: its pieces read back over junk. -/
def out2_A_6 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) : Vec F S2048x256 .f32 :=
  VO2_6.read (Elt F) (VO2_6.writes (Elt F) VO2_6.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).1)

/-- Case A stores nothing into output 7 (the window is idle at its points and not written back there): no pieces, a
    placeholder that nothing consults. -/
def out2_A_7 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) : Vec F S8x256 .f32 :=
  VO2_7.read (Elt F) (VO2_7.writes (Elt F) VO2_7.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).2.1)

/-- Case A stores nothing into output 8 (the window is idle at its points and not written back there): no pieces, a
    placeholder that nothing consults. -/
def out2_A_8 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) : Vec F S8x256 .f32 :=
  VO2_8.read (Elt F) (VO2_8.writes (Elt F) VO2_8.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).2.2.1)

/-- Case A's pieces for accumulator 0 cover it. -/
theorem scover2_A_0 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (y : S1x256.Idx) :
    ∃ pc ∈ (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1 S1x256.size (by sl_kernel_rfl) y

/-- What case A leaves in accumulator 0: its pieces read back over junk. -/
def sout2_A_0 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) : Vec F S1x256 .f32 :=
  VS2_0.read (Elt F) (VS2_0.writes (Elt F) VS2_0.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1)

/-- Case A's pieces for accumulator 1 cover it. -/
theorem scover2_A_1 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (y : S1x256.Idx) :
    ∃ pc ∈ (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1 S1x256.size (by sl_kernel_rfl) y

/-- What case A leaves in accumulator 1: its pieces read back over junk. -/
def sout2_A_1 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) : Vec F S1x256 .f32 :=
  VS2_1.read (Elt F) (VS2_1.writes (Elt F) VS2_1.junk (kernelRun2_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1)

/-- Case B's pieces for output 6 tile its block (one store of the whole block), so they cover it. -/
theorem cover2_B_6 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S2048x256.Idx) :
    ∃ pc ∈ (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S2048x256.size (by sl_kernel_rfl) y

/-- What case B leaves in output 6's staging buffer: its pieces read back over junk. -/
def out2_B_6 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S2048x256 .f32 :=
  VO2_6.read (Elt F) (VO2_6.writes (Elt F) VO2_6.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case B stores nothing into output 7 (the window is idle at its points and not written back there): no pieces, a
    placeholder that nothing consults. -/
def out2_B_7 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO2_7.read (Elt F) (VO2_7.writes (Elt F) VO2_7.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case B stores nothing into output 8 (the window is idle at its points and not written back there): no pieces, a
    placeholder that nothing consults. -/
def out2_B_8 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO2_8.read (Elt F) (VO2_8.writes (Elt F) VO2_8.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case B's pieces for accumulator 0 cover it. -/
theorem scover2_B_0 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 S1x256.size (by sl_kernel_rfl) y

/-- What case B leaves in accumulator 0: its pieces read back over junk. -/
def sout2_B_0 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS2_0.read (Elt F) (VS2_0.writes (Elt F) VS2_0.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-- Case B's pieces for accumulator 1 cover it. -/
theorem scover2_B_1 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S1x256.size (by sl_kernel_rfl) y

/-- What case B leaves in accumulator 1: its pieces read back over junk. -/
def sout2_B_1 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS2_1.read (Elt F) (VS2_1.writes (Elt F) VS2_1.junk (kernelRun2_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

/-- Case C's pieces for output 6 tile its block (one store of the whole block), so they cover it. -/
theorem cover2_C_6 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S2048x256.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S2048x256.size (by sl_kernel_rfl) y

/-- What case C leaves in output 6's staging buffer: its pieces read back over junk. -/
def out2_C_6 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S2048x256 .f32 :=
  VO2_6.read (Elt F) (VO2_6.writes (Elt F) VO2_6.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case C's pieces for output 7 tile its block (one store of the whole block), so they cover it. -/
theorem cover2_C_7 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S8x256.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 S8x256.size (by sl_kernel_rfl) y

/-- What case C leaves in output 7's staging buffer: its pieces read back over junk. -/
def out2_C_7 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO2_7.read (Elt F) (VO2_7.writes (Elt F) VO2_7.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case C's pieces for output 8 tile its block (one store of the whole block), so they cover it. -/
theorem cover2_C_8 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S8x256.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1 S8x256.size (by sl_kernel_rfl) y

/-- What case C leaves in output 8's staging buffer: its pieces read back over junk. -/
def out2_C_8 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO2_8.read (Elt F) (VO2_8.writes (Elt F) VO2_8.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case C's pieces for accumulator 0 cover it. -/
theorem scover2_C_0 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 S1x256.size (by sl_kernel_rfl) y

/-- What case C leaves in accumulator 0: its pieces read back over junk. -/
def sout2_C_0 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS2_0.read (Elt F) (VS2_0.writes (Elt F) VS2_0.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-- Case C's pieces for accumulator 1 cover it. -/
theorem scover2_C_1 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S1x256.size (by sl_kernel_rfl) y

/-- What case C leaves in accumulator 1: its pieces read back over junk. -/
def sout2_C_1 (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS2_1.read (Elt F) (VS2_1.writes (Elt F) VS2_1.junk (kernelRun2_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

/-! ## What the outputs and the accumulators hold after each point -/

/-- THE ACCUMULATION. What the outputs' staging buffers and the two accumulators hold after the body at position `n` (the outputs in window
    order, then the accumulators): the case the closed forms select at `n`, run at the point's memrefs and input blocks, an accumulator
    at a point other than a core's first continuing from what this leaves at `n - 1`. Both conditions at once is no point. -/
def outsAt2 (c : Dev nD) : (n : ℕ) → n < cfg2.N → Vec F S2048x256 .f32 × Vec F S8x256 .f32 × Vec F S8x256 .f32 × Vec F S1x256 .f32 × Vec F S1x256 .f32
  | 0, hn => (out2_A_6 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), out2_A_7 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) scM2_0 (Memref.isWhole_whole _) scM2_1 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩))
  | n + 1, hn =>
    if h0 : (n + 1) % 16 = 0 then
      if h1 : (n + 1) % 16 = 15 then
        False.elim (by omega)
      else
        (out2_A_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), out2_A_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩), sout2_A_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩))
    else
      if h1 : (n + 1) % 16 = 15 then
        (out2_C_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_C_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)
      else
        (out2_B_6 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_B_7 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (outsAt2 c n (Nat.lt_of_succ_lt hn)).2.2.2.1 (outsAt2 c n (Nat.lt_of_succ_lt hn)).2.2.2.2)

/-- `outsAt2` at a point of case A: that case's contents. -/
theorem outsAt2_A (c : Dev nD) (t : Fin cfg2.N) (h0 : t.val % 16 = 0) (h1 : ¬t.val % 16 = 15) :
    outsAt2 V c t.val t.isLt = (out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), out2_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 16 = 0) (h1 : ¬t.val % 16 = 15) :
    outsAt2 V c t.val t.isLt = (out2_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 16 = 0) (h1 : t.val % 16 = 15) :
    outsAt2 V c t.val t.isLt = (out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, out2_C_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the class's (every scratch at anything); afterwards the two
    accumulators at what the point before left in them, the remainder of the scoped rest unopened, and the generator register at
    some state. -/
def PhiS2 (c : Dev nD) : (n : ℕ) → n ≤ cfg2.N → sProp 𝕄
  | 0, _ => Pipeline.ΦA spec2 c
  | n + 1, hn => iprop(iprop(iprop(owns (c : Thread nD τ) scM2_0 fullShare ((outsAt2 V c n hn).2.2.2.1) ∗ owns (c : Thread nD τ) scM2_1 fullShare ((outsAt2 V c n hn).2.2.2.2))
          ∗ Pipeline.scopedRestBut (Ix := Unit) (Name := ℕ) (U := UR sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulators at that point's contents. -/
theorem PhiS2_succ (c : Dev nD) (n : ℕ) (hn : n < cfg2.N) :
    PhiS2 V c (n + 1) hn = iprop(iprop(iprop(owns (c : Thread nD τ) scM2_0 fullShare ((outsAt2 V c n hn).2.2.2.1) ∗ owns (c : Thread nD τ) scM2_1 fullShare ((outsAt2 V c n hn).2.2.2.2))
          ∗ Pipeline.scopedRestBut (Ix := Unit) (Name := ℕ) (U := UR sig nD τ) (Lvl := ℕ) (Val := Elt F) spec2 c [cc2_scratch0, cc2_scratch1]) ∗ (∃ r, prngReg c r)) := rfl

/-- Before a point that is not the first: the accumulators at what the point before left. -/
theorem PhiS2_pos (c : Dev nD) (n : ℕ) (h : n ≤ cfg2.N) (hz : n ≠ 0) :
    PhiS2 V c n h = iprop(iprop(iprop(owns (c : Thread nD τ) scM2_0 fullShare ((outsAt2 V c (n - 1) (by omega)).2.2.2.1) ∗ owns (c : Thread nD τ) scM2_1 fullShare ((outsAt2 V c (n - 1) (by omega)).2.2.2.2))
          ∗ Pipeline.scopedRestBut (Ix := Unit) (Name := ℕ) (U := UR sig nD τ) (Lvl := ℕ) (Val := Elt F) spec2 c [cc2_scratch0, cc2_scratch1]) ∗ (∃ r, prngReg c r)) := by
  cases n with
  | zero => exact absurd rfl hz
  | succ n => rfl

/-! ## The pipeline's proof data -/

/-- The proof data of pipeline 2 on core `c`: the arrays as the region finds them (`V`); after the body at point `t` each input's
    buffer at its block and the outputs' at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => (outsAt2 V c t.val t.isLt).1
    | ⟨7, _⟩ => (outsAt2 V c t.val t.isLt).2.1
    | ⟨8, _⟩ => (outsAt2 V c t.val t.isLt).2.2.1
  Φ t := PhiS2 V c t.val (Nat.le_of_lt_succ t.isLt)
  q _ := fullShare
  owed _ := 0

/-- The proof data's arrays are the region-entry contents . -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = (outsAt2 V c t.val t.isLt).1 := by dsimp only [dat2]
theorem after2_7 (c : Dev nD) (t : Fin cfg2.N) : (dat2 V c).after 7 t = (outsAt2 V c t.val t.isLt).2.1 := by dsimp only [dat2]
theorem after2_8 (c : Dev nD) (t : Fin cfg2.N) : (dat2 V c).after 8 t = (outsAt2 V c t.val t.isLt).2.2.1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- A window live at a point is left at what the body leaves in it. -/
theorem leaves2_0 (c : Dev nD) (t : Fin cfg2.N) : (dat2 V c).leavesExact 0 t = owns (c : Thread nD τ) (ms2_0 t) fullShare ((dat2 V c).after 0 t) := by
  unfold Dat.leavesExact; rw [liveAt2_0 t]
theorem leaves2_1 (c : Dev nD) (t : Fin cfg2.N) : (dat2 V c).leavesExact 1 t = owns (c : Thread nD τ) (ms2_1 t) fullShare ((dat2 V c).after 1 t) := by
  unfold Dat.leavesExact; rw [liveAt2_1 t]
theorem leaves2_2 (c : Dev nD) (t : Fin cfg2.N) : (dat2 V c).leavesExact 2 t = owns (c : Thread nD τ) (ms2_2 t) fullShare ((dat2 V c).after 2 t) := by
  unfold Dat.leavesExact; rw [liveAt2_2 t]
theorem leaves2_3 (c : Dev nD) (t : Fin cfg2.N) : (dat2 V c).leavesExact 3 t = owns (c : Thread nD τ) (ms2_3 t) fullShare ((dat2 V c).after 3 t) := by
  unfold Dat.leavesExact; rw [liveAt2_3 t]
theorem leaves2_4 (c : Dev nD) (t : Fin cfg2.N) : (dat2 V c).leavesExact 4 t = owns (c : Thread nD τ) (ms2_4 t) fullShare ((dat2 V c).after 4 t) := by
  unfold Dat.leavesExact; rw [liveAt2_4 t]
theorem leaves2_5 (c : Dev nD) (t : Fin cfg2.N) : (dat2 V c).leavesExact 5 t = owns (c : Thread nD τ) (ms2_5 t) fullShare ((dat2 V c).after 5 t) := by
  unfold Dat.leavesExact; rw [liveAt2_5 t]
theorem leaves2_6 (c : Dev nD) (t : Fin cfg2.N) : (dat2 V c).leavesExact 6 t = owns (c : Thread nD τ) (ms2_6 t) fullShare ((dat2 V c).after 6 t) := by
  unfold Dat.leavesExact; rw [liveAt2_6 t]
theorem leaves2_7_C (c : Dev nD) (t : Fin cfg2.N) (h0 : ¬cond2_0 (grid2.coords t)) (h1 : cond2_1 (grid2.coords t)) : (dat2 V c).leavesExact 7 t = owns (c : Thread nD τ) (ms2_7 t) fullShare ((dat2 V c).after 7 t) := by
  unfold Dat.leavesExact; rw [liveAt2_7_C t h0 h1]
theorem leaves2_8_C (c : Dev nD) (t : Fin cfg2.N) (h0 : ¬cond2_0 (grid2.coords t)) (h1 : cond2_1 (grid2.coords t)) : (dat2 V c).leavesExact 8 t = owns (c : Thread nD τ) (ms2_8 t) fullShare ((dat2 V c).after 8 t) := by
  unfold Dat.leavesExact; rw [liveAt2_8_C t h0 h1]

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t
    ∗ (dat2 V c).leavesExact 8 t)

set_option maxHeartbeats 4800000 in
/-- The body at any point: the inputs' memrefs hold their blocks; the closed forms say which case the point is in, so that case's run
    applies; the invariant hands the body the accumulators at what the point before left (at anything at the first point) and the
    generator register, and takes the accumulators back at this point's contents (their pieces cover them); a window idle at the point
    is handed back untouched; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 16 = 0
  · by_cases h1 : t.val % 16 = 15
    · exfalso; omega
    · rw [leaves2_0 V c t, leaves2_1 V c t, leaves2_2 V c t, leaves2_3 V c t, leaves2_4 V c t, leaves2_5 V c t, leaves2_6 V c t, after2_0, after2_1, after2_2, after2_3, after2_4, after2_5, after2_6]
      rw [Dat.leavesExact_idle (dat2 V c) 7 t (idleAt2_7_A t ((hcond2_0 t).mpr h0) (fun h => h1 ((hcond2_1 t).mp h))) (noFlush2_7_A t ((hcond2_0 t).mpr h0) (fun h => h1 ((hcond2_1 t).mp h)))]
      rw [Dat.leavesExact_idle (dat2 V c) 8 t (idleAt2_8_A t ((hcond2_0 t).mpr h0) (fun h => h1 ((hcond2_1 t).mp h))) (noFlush2_8_A t ((hcond2_0 t).mpr h0) (fun h => h1 ((hcond2_1 t).mp h)))]
      rw [outsAt2_A V c t h0 h1]
      unfold out2_A_6 sout2_A_0 sout2_A_1; (try dsimp only)
      by_cases hz : t.val = 0
      · rw [PhiS2_castSucc V c t, PhiS2_zero V c _ _ hz, PhiA2_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover2_A_1 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover2_A_6 c _ _ _ _ _ _ _ _ _ _ _ _ _ _ _ _ _ _ _ _ _ _ _ _ _ _ _ _ _ _ _)
        isplitl [H7]; · iexists _; iexact H7
        iexists _; iexact H8
      · rw [PhiS2_castSucc V c t, PhiS2_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun2_A c (grid2.coords t) _ _ _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexists _; iexact HS0
        isplitl [HS1]; · iexists _; iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover2_A_0 c _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover2_A_1 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover2_A_6 c _ _ _ _ _ _ _ _ _ _ _ _ _ _ _ _ _ _ _ _ _ _ _ _ _ _ _ _ _ _ _)
        isplitl [H7]; · iexists _; iexact H7
        iexists _; iexact H8
  · by_cases h1 : t.val % 16 = 15
    · rw [leaves2_0 V c t, leaves2_1 V c t, leaves2_2 V c t, leaves2_3 V c t, leaves2_4 V c t, leaves2_5 V c t, leaves2_6 V c t, after2_0, after2_1, after2_2, after2_3, after2_4, after2_5, after2_6]
      rw [leaves2_7_C V c t (fun h => h0 ((hcond2_0 t).mp h)) ((hcond2_1 t).mpr h1), leaves2_8_C V c t (fun h => h0 ((hcond2_0 t).mp h)) ((hcond2_1 t).mpr h1), after2_7, after2_8]
      rw [outsAt2_C V c t h0 h1]
      unfold out2_C_6 out2_C_7 out2_C_8 sout2_C_0 sout2_C_1; (try dsimp only)
      have hz : t.val ≠ 0 := by omega
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_C c (grid2.coords t) _ _ _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover2_C_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover2_C_8 c _ _ _ _ _ _ _ _ _ _ _ _ _ _ _ _ _ _ _ _ _ _ _ _ _ _ _ _ _ _ _ _ _)
    · rw [leaves2_0 V c t, leaves2_1 V c t, leaves2_2 V c t, leaves2_3 V c t, leaves2_4 V c t, leaves2_5 V c t, leaves2_6 V c t, after2_0, after2_1, after2_2, after2_3, after2_4, after2_5, after2_6]
      rw [Dat.leavesExact_idle (dat2 V c) 7 t (idleAt2_7_B t (fun h => h0 ((hcond2_0 t).mp h)) (fun h => h1 ((hcond2_1 t).mp h))) (noFlush2_7_B t (fun h => h0 ((hcond2_0 t).mp h)) (fun h => h1 ((hcond2_1 t).mp h)))]
      rw [Dat.leavesExact_idle (dat2 V c) 8 t (idleAt2_8_B t (fun h => h0 ((hcond2_0 t).mp h)) (fun h => h1 ((hcond2_1 t).mp h))) (noFlush2_8_B t (fun h => h0 ((hcond2_0 t).mp h)) (fun h => h1 ((hcond2_1 t).mp h)))]
      rw [outsAt2_B V c t h0 h1]
      unfold out2_B_6 sout2_B_0 sout2_B_1; (try dsimp only)
      have hz : t.val ≠ 0 := by omega
      rw [PhiS2_castSucc V c t, PhiS2_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun2_B c (grid2.coords t) _ _ _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover2_B_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover2_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulators' named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end Cert.KernelIdeal.Hand

end
-- ==== Proof.KI.R3.Runs.lean ====
/- Region 3 of the program (custom_call 3, `cc3__fused_layer_kernel`): what the three runs of its body share. The windows' blocks read off
   the region-entry contents `V`; the two branch conditions of the body in closed form over the grid (the first holds exactly at the
   points t with t % 16 = 0, where the two accumulators are zeroed; the second exactly at t % 16 = 15, where they are stored,
   broadcast to eight rows, into windows 7 and 8); where windows 7 and 8 are idle and not written back; the staging and scratch
   memrefs; and the region invariant with the two accumulators split out of the scoped rest. -/
import proofs.«118595_j1726576853663_2_alg».proof.Proof.Gen.KernelIdeal.Launch
import proofs.«118595_j1726576853663_2_alg».proof.Proof.Gen.KernelIdeal.Skeleton
import proofs.«118595_j1726576853663_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof data whose
    array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof data whose
    array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof data whose
    array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof data whose
    array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof data whose
    array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's current staging buffer holds its block at every point, fetched there or not, for any proof data whose
    array is `V`'s and whose body leaves the block in place: unfetched, the block index has not moved. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions -/

/-- The condition of the body's first conditional (the accumulators are zeroed under it), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 16): decided over the grid. -/
theorem hcond3_0 : ∀ t : Fin cfg3.N, cond3_0 (grid3.coords t) ↔ t.val % 16 = 0 :=
  (by decide +kernel : ∀ t : Fin grid3.N, cond3_0 (grid3.coords t) ↔ t.val % 16 = 0)

/-- The condition of the body's second conditional (the accumulators are stored into windows 7 and 8 under it). -/
abbrev cond3_1 (i : grid3.Coords) : Prop := k3_cond2 i = 1#1
/-- It holds at the points ≡ 15 (mod 16): decided over the grid. -/
theorem hcond3_1 : ∀ t : Fin cfg3.N, cond3_1 (grid3.coords t) ↔ t.val % 16 = 15 :=
  (by decide +kernel : ∀ t : Fin grid3.N, cond3_1 (grid3.coords t) ↔ t.val % 16 = 15)

/-! ## Where the windows are idle -/

/-- Window 0 is never idle. -/
theorem liveAt3_0 : ∀ t : Fin cfg3.N, cfg3.idle 0 (grid3.coords t) = false := by decide +kernel
/-- Window 1 is never idle. -/
theorem liveAt3_1 : ∀ t : Fin cfg3.N, cfg3.idle 1 (grid3.coords t) = false := by decide +kernel
/-- Window 2 is never idle. -/
theorem liveAt3_2 : ∀ t : Fin cfg3.N, cfg3.idle 2 (grid3.coords t) = false := by decide +kernel
/-- Window 3 is never idle. -/
theorem liveAt3_3 : ∀ t : Fin cfg3.N, cfg3.idle 3 (grid3.coords t) = false := by decide +kernel
/-- Window 4 is never idle. -/
theorem liveAt3_4 : ∀ t : Fin cfg3.N, cfg3.idle 4 (grid3.coords t) = false := by decide +kernel
/-- Window 5 is never idle. -/
theorem liveAt3_5 : ∀ t : Fin cfg3.N, cfg3.idle 5 (grid3.coords t) = false := by decide +kernel
/-- Window 6 is never idle. -/
theorem liveAt3_6 : ∀ t : Fin cfg3.N, cfg3.idle 6 (grid3.coords t) = false := by decide +kernel
/-- At the points where the first condition holds and the second does not, window 7 is idle (nothing is stored into it) -/
theorem idleAt3_7_A : ∀ t : Fin cfg3.N, cond3_0 (grid3.coords t) → ¬cond3_1 (grid3.coords t) → cfg3.idle 7 (grid3.coords t) = true := by decide +kernel
/-- and its block is not written back. -/
theorem noFlush3_7_A : ∀ t : Fin cfg3.N, cond3_0 (grid3.coords t) → ¬cond3_1 (grid3.coords t) → (cfg3.win 7).flush t = false := by decide +kernel
/-- The same where neither condition holds. -/
theorem idleAt3_7_B : ∀ t : Fin cfg3.N, ¬cond3_0 (grid3.coords t) → ¬cond3_1 (grid3.coords t) → cfg3.idle 7 (grid3.coords t) = true := by decide +kernel
theorem noFlush3_7_B : ∀ t : Fin cfg3.N, ¬cond3_0 (grid3.coords t) → ¬cond3_1 (grid3.coords t) → (cfg3.win 7).flush t = false := by decide +kernel
/-- Where the second condition holds (and the first does not) window 7 is live: the body stores into it. -/
theorem liveAt3_7_C : ∀ t : Fin cfg3.N, ¬cond3_0 (grid3.coords t) → cond3_1 (grid3.coords t) → cfg3.idle 7 (grid3.coords t) = false := by decide +kernel
/-- At the points where the first condition holds and the second does not, window 8 is idle (nothing is stored into it) -/
theorem idleAt3_8_A : ∀ t : Fin cfg3.N, cond3_0 (grid3.coords t) → ¬cond3_1 (grid3.coords t) → cfg3.idle 8 (grid3.coords t) = true := by decide +kernel
/-- and its block is not written back. -/
theorem noFlush3_8_A : ∀ t : Fin cfg3.N, cond3_0 (grid3.coords t) → ¬cond3_1 (grid3.coords t) → (cfg3.win 8).flush t = false := by decide +kernel
/-- The same where neither condition holds. -/
theorem idleAt3_8_B : ∀ t : Fin cfg3.N, ¬cond3_0 (grid3.coords t) → ¬cond3_1 (grid3.coords t) → cfg3.idle 8 (grid3.coords t) = true := by decide +kernel
theorem noFlush3_8_B : ∀ t : Fin cfg3.N, ¬cond3_0 (grid3.coords t) → ¬cond3_1 (grid3.coords t) → (cfg3.win 8).flush t = false := by decide +kernel
/-- Where the second condition holds (and the first does not) window 8 is live: the body stores into it. -/
theorem liveAt3_8_C : ∀ t : Fin cfg3.N, ¬cond3_0 (grid3.coords t) → cond3_1 (grid3.coords t) → cfg3.idle 8 (grid3.coords t) = false := by decide +kernel

/-! ## The staging and scratch memrefs -/

/-- One staging buffer of output window 6, through which its contents are stated (the choice does not matter). -/
abbrev VO3_6 : View sig .tc .vmem S2048x256 .f32 := (Memref.whole cc3_stg6_0 : Memref sig .tc .vmem S2048x256 .f32).view
/-- One staging buffer of output window 7, through which its contents are stated (the choice does not matter). -/
abbrev VO3_7 : View sig .tc .vmem S8x256 .f32 := (Memref.whole cc3_stg7_0 : Memref sig .tc .vmem S8x256 .f32).view
/-- One staging buffer of output window 8, through which its contents are stated (the choice does not matter). -/
abbrev VO3_8 : View sig .tc .vmem S8x256 .f32 := (Memref.whole cc3_stg8_0 : Memref sig .tc .vmem S8x256 .f32).view
/-- Each window's current staging memref at point `t`, spelled as the pipeline passes it, and its wholeness. -/
abbrev ms3_0 (t : Fin cfg3.N) : Memref sig .tc .vmem S2048x256 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x256 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x256 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x256 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S256x256 .bf16 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S2048x256 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S8x256 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S8x256 .f32 := win3_8.stage (cfg3.slots t 8)
abbrev hs3_8 (t : Fin cfg3.N) : (ms3_8 t).IsWhole := hstage3_8 ((cfg3.slots t 8).cast nbuf3_8)
/-- The scratch operands (the two accumulators): whole scoped buffers of the kernel's own, passed beside the windows. -/
abbrev scM3_0 : Memref sig .tc .vmem S1x256 .f32 := Memref.whole cc3_scratch0
abbrev VS3_0 : View sig .tc .vmem S1x256 .f32 := scM3_0.view
abbrev scM3_1 : Memref sig .tc .vmem S1x256 .f32 := Memref.whole cc3_scratch1
abbrev VS3_1 : View sig .tc .vmem S1x256 .f32 := scM3_1.view

/-- The region invariant with the two accumulators as memrefs owned at some contents, the remainder of the scoped rest unopened
    beside them, and the generator register at some state: what the body obligation hands the run and takes back. -/
theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Cert.KernelIdeal.Hand

end
-- ==== Proof.KI.R3.RunA.lean ====
/- Region 3: the whole-body run of `cc3__fused_layer_kernel` in control case A. -/
import proofs.«118595_j1726576853663_2_alg».proof.Proof.KI.R3.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the first condition holds and the second does not (t % 16 = 0: the accumulators are zeroed, then
    added to; nothing is stored into windows 7 and 8).
    What the body's stores leave in each output's staging memref and in each accumulator, as pieces (last first), WITH the proof
    that on whole memrefs — the inputs' at their contents `x·`, output 6's at anything, outputs 7 and 8 at contents `xi·` handed back untouched,
    the accumulators at anything — the body runs to the continuation holding the inputs' as they were
    and every stored buffer with its pieces written. The printed function and its part are their skeletons; each conditional is decided
    by the case's hypotheses; the pieces are the witness the run finds. -/
noncomputable def kernelRun3_A (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) :
    Σ' (L6 : List (View.Piece (Elt F) S2048x256 .f32)), Σ' (L7 : List (View.Piece (Elt F) S8x256 .f32)), Σ' (L8 : List (View.Piece (Elt F) S8x256 .f32)), Σ' (LS0 : List (View.Piece (Elt F) S1x256 .f32)), { LS1 : List (View.Piece (Elt F) S1x256 .f32) //
      ∀ (xi7 xi8 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc3__fused_layer_kernel i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc3__fused_layer_kernel_eq_skeleton]; unfold cc3__fused_layer_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.KernelIdeal.Hand

end
-- ==== Proof.KI.R3.RunB.lean ====
/- Region 3: the whole-body run of `cc3__fused_layer_kernel` in control case B. -/
import proofs.«118595_j1726576853663_2_alg».proof.Proof.KI.R3.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where neither condition holds (0 < t % 16 < 15: the accumulators, carried from the point before, are
    added to; nothing is stored into windows 7 and 8).
    What the body's stores leave in each output's staging memref and in each accumulator, as pieces (last first), WITH the proof
    that on whole memrefs — the inputs' at their contents `x·`, output 6's at anything, outputs 7 and 8 at contents `xi·` handed back untouched,
    the accumulators at the contents `xs·` the point before left — the body runs to the continuation holding the inputs' as they were
    and every stored buffer with its pieces written. The printed function and its part are their skeletons; each conditional is decided
    by the case's hypotheses; the pieces are the witness the run finds. -/
noncomputable def kernelRun3_B (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    Σ' (L6 : List (View.Piece (Elt F) S2048x256 .f32)), Σ' (L7 : List (View.Piece (Elt F) S8x256 .f32)), Σ' (L8 : List (View.Piece (Elt F) S8x256 .f32)), Σ' (LS0 : List (View.Piece (Elt F) S1x256 .f32)), { LS1 : List (View.Piece (Elt F) S1x256 .f32) //
      ∀ (xi7 xi8 : Vec F S8x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc3__fused_layer_kernel i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc3__fused_layer_kernel_eq_skeleton]; unfold cc3__fused_layer_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.KernelIdeal.Hand

end
-- ==== Proof.KI.R3.RunC.lean ====
/- Region 3: the whole-body run of `cc3__fused_layer_kernel` in control case C. -/
import proofs.«118595_j1726576853663_2_alg».proof.Proof.KI.R3.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the second condition holds and the first does not (t % 16 = 15: the accumulators, carried from the
    point before, are added to and then stored, broadcast to eight rows, into windows 7 and 8).
    What the body's stores leave in each output's staging memref and in each accumulator, as pieces (last first), WITH the proof
    that on whole memrefs — the inputs' at their contents `x·`, output 6's at anything, outputs 7 and 8 at anything,
    the accumulators at the contents `xs·` the point before left — the body runs to the continuation holding the inputs' as they were
    and every stored buffer with its pieces written. The printed function and its part are their skeletons; each conditional is decided
    by the case's hypotheses; the pieces are the witness the run finds. -/
noncomputable def kernelRun3_C (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    Σ' (L6 : List (View.Piece (Elt F) S2048x256 .f32)), Σ' (L7 : List (View.Piece (Elt F) S8x256 .f32)), Σ' (L8 : List (View.Piece (Elt F) S8x256 .f32)), Σ' (LS0 : List (View.Piece (Elt F) S1x256 .f32)), { LS1 : List (View.Piece (Elt F) S1x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc3__fused_layer_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc3__fused_layer_kernel_eq_skeleton]; unfold cc3__fused_layer_kernel_skel
    simp only [k3_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.R3.Frame.lean ====
/- Region 3: the frame lemmas of custom_call 3 at the region-entry contents `V`. What each control case leaves in the outputs' staging
   buffers and in the two accumulators (the pieces the runs found, read back; they cover each buffer), the same point by point along the
   grid (`outsAt3`: an accumulator at a point other than the first of a core continues from what the point before left), the region
   invariant carrying the accumulators at those contents, the pipeline's proof data, and the body obligation with its entry and exit. -/
import proofs.«118595_j1726576853663_2_alg».proof.Proof.KI.R3.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces for output 6 tile its block (one store of the whole block), so they cover it. -/
theorem cover3_A_6 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (y : S2048x256.Idx) :
    ∃ pc ∈ (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).1 S2048x256.size (by sl_kernel_rfl) y

/-- What case A leaves in output 6's staging buffer: its pieces read back over junk. -/
def out3_A_6 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) : Vec F S2048x256 .f32 :=
  VO3_6.read (Elt F) (VO3_6.writes (Elt F) VO3_6.junk (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).1)

/-- Case A stores nothing into output 7 (the window is idle at its points and not written back there): no pieces, a
    placeholder that nothing consults. -/
def out3_A_7 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) : Vec F S8x256 .f32 :=
  VO3_7.read (Elt F) (VO3_7.writes (Elt F) VO3_7.junk (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).2.1)

/-- Case A stores nothing into output 8 (the window is idle at its points and not written back there): no pieces, a
    placeholder that nothing consults. -/
def out3_A_8 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) : Vec F S8x256 .f32 :=
  VO3_8.read (Elt F) (VO3_8.writes (Elt F) VO3_8.junk (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).2.2.1)

/-- Case A's pieces for accumulator 0 cover it. -/
theorem scover3_A_0 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (y : S1x256.Idx) :
    ∃ pc ∈ (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1 S1x256.size (by sl_kernel_rfl) y

/-- What case A leaves in accumulator 0: its pieces read back over junk. -/
def sout3_A_0 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) : Vec F S1x256 .f32 :=
  VS3_0.read (Elt F) (VS3_0.writes (Elt F) VS3_0.junk (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1)

/-- Case A's pieces for accumulator 1 cover it. -/
theorem scover3_A_1 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (y : S1x256.Idx) :
    ∃ pc ∈ (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1, y ∈ pc.1.set :=
  View.cover_of_tiledL (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1 S1x256.size (by sl_kernel_rfl) y

/-- What case A leaves in accumulator 1: its pieces read back over junk. -/
def sout3_A_1 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) : Vec F S1x256 .f32 :=
  VS3_1.read (Elt F) (VS3_1.writes (Elt F) VS3_1.junk (kernelRun3_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1)

/-- Case B's pieces for output 6 tile its block (one store of the whole block), so they cover it. -/
theorem cover3_B_6 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S2048x256.Idx) :
    ∃ pc ∈ (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S2048x256.size (by sl_kernel_rfl) y

/-- What case B leaves in output 6's staging buffer: its pieces read back over junk. -/
def out3_B_6 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S2048x256 .f32 :=
  VO3_6.read (Elt F) (VO3_6.writes (Elt F) VO3_6.junk (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case B stores nothing into output 7 (the window is idle at its points and not written back there): no pieces, a
    placeholder that nothing consults. -/
def out3_B_7 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO3_7.read (Elt F) (VO3_7.writes (Elt F) VO3_7.junk (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case B stores nothing into output 8 (the window is idle at its points and not written back there): no pieces, a
    placeholder that nothing consults. -/
def out3_B_8 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO3_8.read (Elt F) (VO3_8.writes (Elt F) VO3_8.junk (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case B's pieces for accumulator 0 cover it. -/
theorem scover3_B_0 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 S1x256.size (by sl_kernel_rfl) y

/-- What case B leaves in accumulator 0: its pieces read back over junk. -/
def sout3_B_0 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS3_0.read (Elt F) (VS3_0.writes (Elt F) VS3_0.junk (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-- Case B's pieces for accumulator 1 cover it. -/
theorem scover3_B_1 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S1x256.size (by sl_kernel_rfl) y

/-- What case B leaves in accumulator 1: its pieces read back over junk. -/
def sout3_B_1 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS3_1.read (Elt F) (VS3_1.writes (Elt F) VS3_1.junk (kernelRun3_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

/-- Case C's pieces for output 6 tile its block (one store of the whole block), so they cover it. -/
theorem cover3_C_6 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S2048x256.Idx) :
    ∃ pc ∈ (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S2048x256.size (by sl_kernel_rfl) y

/-- What case C leaves in output 6's staging buffer: its pieces read back over junk. -/
def out3_C_6 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S2048x256 .f32 :=
  VO3_6.read (Elt F) (VO3_6.writes (Elt F) VO3_6.junk (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case C's pieces for output 7 tile its block (one store of the whole block), so they cover it. -/
theorem cover3_C_7 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S8x256.Idx) :
    ∃ pc ∈ (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 S8x256.size (by sl_kernel_rfl) y

/-- What case C leaves in output 7's staging buffer: its pieces read back over junk. -/
def out3_C_7 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO3_7.read (Elt F) (VO3_7.writes (Elt F) VO3_7.junk (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case C's pieces for output 8 tile its block (one store of the whole block), so they cover it. -/
theorem cover3_C_8 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S8x256.Idx) :
    ∃ pc ∈ (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1 S8x256.size (by sl_kernel_rfl) y

/-- What case C leaves in output 8's staging buffer: its pieces read back over junk. -/
def out3_C_8 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S8x256 .f32 :=
  VO3_8.read (Elt F) (VO3_8.writes (Elt F) VO3_8.junk (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case C's pieces for accumulator 0 cover it. -/
theorem scover3_C_0 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 S1x256.size (by sl_kernel_rfl) y

/-- What case C leaves in accumulator 0: its pieces read back over junk. -/
def sout3_C_0 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS3_0.read (Elt F) (VS3_0.writes (Elt F) VS3_0.junk (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-- Case C's pieces for accumulator 1 cover it. -/
theorem scover3_C_1 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) (y : S1x256.Idx) :
    ∃ pc ∈ (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S1x256.size (by sl_kernel_rfl) y

/-- What case C leaves in accumulator 1: its pieces read back over junk. -/
def sout3_C_1 (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) : Vec F S1x256 .f32 :=
  VS3_1.read (Elt F) (VS3_1.writes (Elt F) VS3_1.junk (kernelRun3_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

/-! ## What the outputs and the accumulators hold after each point -/

/-- THE ACCUMULATION. What the outputs' staging buffers and the two accumulators hold after the body at position `n` (the outputs in window
    order, then the accumulators): the case the closed forms select at `n`, run at the point's memrefs and input blocks, an accumulator
    at a point other than a core's first continuing from what this leaves at `n - 1`. Both conditions at once is no point. -/
def outsAt3 (c : Dev nD) : (n : ℕ) → n < cfg3.N → Vec F S2048x256 .f32 × Vec F S8x256 .f32 × Vec F S8x256 .f32 × Vec F S1x256 .f32 × Vec F S1x256 .f32
  | 0, hn => (out3_A_6 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), out3_A_7 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), out3_A_8 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩), sout3_A_1 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) scM3_0 (Memref.isWhole_whole _) scM3_1 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩))
  | n + 1, hn =>
    if h0 : (n + 1) % 16 = 0 then
      if h1 : (n + 1) % 16 = 15 then
        False.elim (by omega)
      else
        (out3_A_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), out3_A_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), out3_A_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩), sout3_A_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩))
    else
      if h1 : (n + 1) % 16 = 15 then
        (out3_C_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2.2.1 (outsAt3 c n (Nat.lt_of_succ_lt hn)).2.2.2.2, out3_C_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2.2.1 (outsAt3 c n (Nat.lt_of_succ_lt hn)).2.2.2.2, out3_C_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2.2.1 (outsAt3 c n (Nat.lt_of_succ_lt hn)).2.2.2.2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2.2.1 (outsAt3 c n (Nat.lt_of_succ_lt hn)).2.2.2.2, sout3_C_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2.2.1 (outsAt3 c n (Nat.lt_of_succ_lt hn)).2.2.2.2)
      else
        (out3_B_6 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2.2.1 (outsAt3 c n (Nat.lt_of_succ_lt hn)).2.2.2.2, out3_B_7 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2.2.1 (outsAt3 c n (Nat.lt_of_succ_lt hn)).2.2.2.2, out3_B_8 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2.2.1 (outsAt3 c n (Nat.lt_of_succ_lt hn)).2.2.2.2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2.2.1 (outsAt3 c n (Nat.lt_of_succ_lt hn)).2.2.2.2, sout3_B_1 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) scM3_0 (Memref.isWhole_whole _) scM3_1 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (outsAt3 c n (Nat.lt_of_succ_lt hn)).2.2.2.1 (outsAt3 c n (Nat.lt_of_succ_lt hn)).2.2.2.2)

/-- `outsAt3` at a point of case A: that case's contents. -/
theorem outsAt3_A (c : Dev nD) (t : Fin cfg3.N) (h0 : t.val % 16 = 0) (h1 : ¬t.val % 16 = 15) :
    outsAt3 V c t.val t.isLt = (out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), out3_A_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), out3_A_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t), sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 16 = 0) (h1 : ¬t.val % 16 = 15) :
    outsAt3 V c t.val t.isLt = (out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, out3_B_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, out3_B_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 16 = 0) (h1 : t.val % 16 = 15) :
    outsAt3 V c t.val t.isLt = (out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, out3_C_7 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, out3_C_8 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2, sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the class's (every scratch at anything); afterwards the two
    accumulators at what the point before left in them, the remainder of the scoped rest unopened, and the generator register at
    some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2.2.2.1) ∗ owns (c : Thread nD τ) scM3_1 fullShare ((outsAt3 V c n hn).2.2.2.2))
          ∗ Pipeline.scopedRestBut (Ix := Unit) (Name := ℕ) (U := UR sig nD τ) (Lvl := ℕ) (Val := Elt F) spec3 c [cc3_scratch0, cc3_scratch1]) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the accumulators at that point's contents. -/
theorem PhiS3_succ (c : Dev nD) (n : ℕ) (hn : n < cfg3.N) :
    PhiS3 V c (n + 1) hn = iprop(iprop(iprop(owns (c : Thread nD τ) scM3_0 fullShare ((outsAt3 V c n hn).2.2.2.1) ∗ owns (c : Thread nD τ) scM3_1 fullShare ((outsAt3 V c n hn).2.2.2.2))
          ∗ Pipeline.scopedRestBut (Ix := Unit) (Name := ℕ) (U := UR sig nD τ) (Lvl := ℕ) (Val := Elt F) spec3 c [cc3_scratch0, cc3_scratch1]) ∗ (∃ r, prngReg c r)) := rfl

/-- Before a point that is not the first: the accumulators at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2.2.2.1) ∗ owns (c : Thread nD τ) scM3_1 fullShare ((outsAt3 V c (n - 1) (by omega)).2.2.2.2))
          ∗ Pipeline.scopedRestBut (Ix := Unit) (Name := ℕ) (U := UR sig nD τ) (Lvl := ℕ) (Val := Elt F) spec3 c [cc3_scratch0, cc3_scratch1]) ∗ (∃ r, prngReg c r)) := by
  cases n with
  | zero => exact absurd rfl hz
  | succ n => rfl

/-! ## The pipeline's proof data -/

/-- The proof data of pipeline 3 on core `c`: the arrays as the region finds them (`V`); after the body at point `t` each input's
    buffer at its block and the outputs' at `outsAt3`; the invariant `PhiS3`; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
    | ⟨7, _⟩ => (outsAt3 V c t.val t.isLt).2.1
    | ⟨8, _⟩ => (outsAt3 V c t.val t.isLt).2.2.1
  Φ t := PhiS3 V c t.val (Nat.le_of_lt_succ t.isLt)
  q _ := fullShare
  owed _ := 0

/-- The proof data's arrays are the region-entry contents . -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = (outsAt3 V c t.val t.isLt).1 := by dsimp only [dat3]
theorem after3_7 (c : Dev nD) (t : Fin cfg3.N) : (dat3 V c).after 7 t = (outsAt3 V c t.val t.isLt).2.1 := by dsimp only [dat3]
theorem after3_8 (c : Dev nD) (t : Fin cfg3.N) : (dat3 V c).after 8 t = (outsAt3 V c t.val t.isLt).2.2.1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-- A window live at a point is left at what the body leaves in it. -/
theorem leaves3_0 (c : Dev nD) (t : Fin cfg3.N) : (dat3 V c).leavesExact 0 t = owns (c : Thread nD τ) (ms3_0 t) fullShare ((dat3 V c).after 0 t) := by
  unfold Dat.leavesExact; rw [liveAt3_0 t]
theorem leaves3_1 (c : Dev nD) (t : Fin cfg3.N) : (dat3 V c).leavesExact 1 t = owns (c : Thread nD τ) (ms3_1 t) fullShare ((dat3 V c).after 1 t) := by
  unfold Dat.leavesExact; rw [liveAt3_1 t]
theorem leaves3_2 (c : Dev nD) (t : Fin cfg3.N) : (dat3 V c).leavesExact 2 t = owns (c : Thread nD τ) (ms3_2 t) fullShare ((dat3 V c).after 2 t) := by
  unfold Dat.leavesExact; rw [liveAt3_2 t]
theorem leaves3_3 (c : Dev nD) (t : Fin cfg3.N) : (dat3 V c).leavesExact 3 t = owns (c : Thread nD τ) (ms3_3 t) fullShare ((dat3 V c).after 3 t) := by
  unfold Dat.leavesExact; rw [liveAt3_3 t]
theorem leaves3_4 (c : Dev nD) (t : Fin cfg3.N) : (dat3 V c).leavesExact 4 t = owns (c : Thread nD τ) (ms3_4 t) fullShare ((dat3 V c).after 4 t) := by
  unfold Dat.leavesExact; rw [liveAt3_4 t]
theorem leaves3_5 (c : Dev nD) (t : Fin cfg3.N) : (dat3 V c).leavesExact 5 t = owns (c : Thread nD τ) (ms3_5 t) fullShare ((dat3 V c).after 5 t) := by
  unfold Dat.leavesExact; rw [liveAt3_5 t]
theorem leaves3_6 (c : Dev nD) (t : Fin cfg3.N) : (dat3 V c).leavesExact 6 t = owns (c : Thread nD τ) (ms3_6 t) fullShare ((dat3 V c).after 6 t) := by
  unfold Dat.leavesExact; rw [liveAt3_6 t]
theorem leaves3_7_C (c : Dev nD) (t : Fin cfg3.N) (h0 : ¬cond3_0 (grid3.coords t)) (h1 : cond3_1 (grid3.coords t)) : (dat3 V c).leavesExact 7 t = owns (c : Thread nD τ) (ms3_7 t) fullShare ((dat3 V c).after 7 t) := by
  unfold Dat.leavesExact; rw [liveAt3_7_C t h0 h1]
theorem leaves3_8_C (c : Dev nD) (t : Fin cfg3.N) (h0 : ¬cond3_0 (grid3.coords t)) (h1 : cond3_1 (grid3.coords t)) : (dat3 V c).leavesExact 8 t = owns (c : Thread nD τ) (ms3_8 t) fullShare ((dat3 V c).after 8 t) := by
  unfold Dat.leavesExact; rw [liveAt3_8_C t h0 h1]

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t)

set_option maxHeartbeats 4800000 in
/-- The body at any point: the inputs' memrefs hold their blocks; the closed forms say which case the point is in, so that case's run
    applies; the invariant hands the body the accumulators at what the point before left (at anything at the first point) and the
    generator register, and takes the accumulators back at this point's contents (their pieces cover them); a window idle at the point
    is handed back untouched; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  by_cases h0 : t.val % 16 = 0
  · by_cases h1 : t.val % 16 = 15
    · exfalso; omega
    · rw [leaves3_0 V c t, leaves3_1 V c t, leaves3_2 V c t, leaves3_3 V c t, leaves3_4 V c t, leaves3_5 V c t, leaves3_6 V c t, after3_0, after3_1, after3_2, after3_3, after3_4, after3_5, after3_6]
      rw [Dat.leavesExact_idle (dat3 V c) 7 t (idleAt3_7_A t ((hcond3_0 t).mpr h0) (fun h => h1 ((hcond3_1 t).mp h))) (noFlush3_7_A t ((hcond3_0 t).mpr h0) (fun h => h1 ((hcond3_1 t).mp h)))]
      rw [Dat.leavesExact_idle (dat3 V c) 8 t (idleAt3_8_A t ((hcond3_0 t).mpr h0) (fun h => h1 ((hcond3_1 t).mp h))) (noFlush3_8_A t ((hcond3_0 t).mpr h0) (fun h => h1 ((hcond3_1 t).mp h)))]
      rw [outsAt3_A V c t h0 h1]
      unfold out3_A_6 sout3_A_0 sout3_A_1; (try dsimp only)
      by_cases hz : t.val = 0
      · rw [PhiS3_castSucc V c t, PhiS3_zero V c _ _ hz, PhiA3_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun3_A c (grid3.coords t) _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover3_A_0 c _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover3_A_1 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover3_A_6 c _ _ _ _ _ _ _ _ _ _ _ _ _ _ _ _ _ _ _ _ _ _ _ _ _ _ _ _ _ _ _)
        isplitl [H7]; · iexists _; iexact H7
        iexists _; iexact H8
      · rw [PhiS3_castSucc V c t, PhiS3_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun3_A c (grid3.coords t) _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexists _; iexact HS0
        isplitl [HS1]; · iexists _; iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover3_A_0 c _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover3_A_1 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover3_A_6 c _ _ _ _ _ _ _ _ _ _ _ _ _ _ _ _ _ _ _ _ _ _ _ _ _ _ _ _ _ _ _)
        isplitl [H7]; · iexists _; iexact H7
        iexists _; iexact H8
  · by_cases h1 : t.val % 16 = 15
    · rw [leaves3_0 V c t, leaves3_1 V c t, leaves3_2 V c t, leaves3_3 V c t, leaves3_4 V c t, leaves3_5 V c t, leaves3_6 V c t, after3_0, after3_1, after3_2, after3_3, after3_4, after3_5, after3_6]
      rw [leaves3_7_C V c t (fun h => h0 ((hcond3_0 t).mp h)) ((hcond3_1 t).mpr h1), leaves3_8_C V c t (fun h => h0 ((hcond3_0 t).mp h)) ((hcond3_1 t).mpr h1), after3_7, after3_8]
      rw [outsAt3_C V c t h0 h1]
      unfold out3_C_6 out3_C_7 out3_C_8 sout3_C_0 sout3_C_1; (try dsimp only)
      have hz : t.val ≠ 0 := by omega
      rw [PhiS3_castSucc V c t, PhiS3_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun3_C c (grid3.coords t) _ _ _ _ _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover3_C_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover3_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover3_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover3_C_8 c _ _ _ _ _ _ _ _ _ _ _ _ _ _ _ _ _ _ _ _ _ _ _ _ _ _ _ _ _ _ _ _ _)
    · rw [leaves3_0 V c t, leaves3_1 V c t, leaves3_2 V c t, leaves3_3 V c t, leaves3_4 V c t, leaves3_5 V c t, leaves3_6 V c t, after3_0, after3_1, after3_2, after3_3, after3_4, after3_5, after3_6]
      rw [Dat.leavesExact_idle (dat3 V c) 7 t (idleAt3_7_B t (fun h => h0 ((hcond3_0 t).mp h)) (fun h => h1 ((hcond3_1 t).mp h))) (noFlush3_7_B t (fun h => h0 ((hcond3_0 t).mp h)) (fun h => h1 ((hcond3_1 t).mp h)))]
      rw [Dat.leavesExact_idle (dat3 V c) 8 t (idleAt3_8_B t (fun h => h0 ((hcond3_0 t).mp h)) (fun h => h1 ((hcond3_1 t).mp h))) (noFlush3_8_B t (fun h => h0 ((hcond3_0 t).mp h)) (fun h => h1 ((hcond3_1 t).mp h)))]
      rw [outsAt3_B V c t h0 h1]
      unfold out3_B_6 sout3_B_0 sout3_B_1; (try dsimp only)
      have hz : t.val ≠ 0 := by omega
      rw [PhiS3_castSucc V c t, PhiS3_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun3_B c (grid3.coords t) _ _ _ _ _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover3_B_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover3_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the class's back: the accumulators' named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout3 (c : Dev nD) : (dat3 V c).Φ (Fin.last cfg3.N) ⊢ Pipeline.ΦA spec3 c :=
  Phi_out3 V c _ (by rw [Fin.val_last]; have : cfg3.N = 32 := N_3; omega)

end Cert.KernelIdeal.Hand

end
-- ==== Proof.KI.R4.Runs.lean ====
/- Region 4 of the program (custom_call 4, `cc4__fused_layer_kernel`): what the three runs of its body share. The windows' blocks read off
   the region-entry contents `V`; the two branch conditions of the body in closed form over the grid (the first holds exactly at the
   points t with t % 16 = 0, where the two accumulators are zeroed; the second exactly at t % 16 = 15, where they are stored,
   broadcast to eight rows, into windows 7 and 8); where windows 7 and 8 are idle and not written back; the staging and scratch
   memrefs; and the region invariant with the two accumulators split out of the scoped rest. -/
import proofs.«118595_j1726576853663_2_alg».proof.Proof.Gen.KernelIdeal.Launch
import proofs.«118595_j1726576853663_2_alg».proof.Proof.Gen.KernelIdeal.Skeleton
import proofs.«118595_j1726576853663_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data whose
    array is `V`'s and whose body leaves the block in place: unfetched, the block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data whose
    array is `V`'s and whose body leaves the block in place: unfetched, the block index has not moved. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data whose
    array is `V`'s and whose body leaves the block in place: unfetched, the block index has not moved. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof data whose
    array is `V`'s and whose body leaves the block in place: unfetched, the block index has not moved. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof data whose
    array is `V`'s and whose body leaves the block in place: unfetched, the block index has not moved. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-- Input window 5's current staging buffer holds its block at every point, fetched there or not, for any proof data whose
    array is `V`'s and whose body leaves the block in place: unfetched, the block index has not moved. -/
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first conditional (the accumulators are zeroed under it), from the grid coordinates. -/
abbrev cond4_0 (i : grid4.Coords) : Prop := (Scalar.cmpi .ne (Scalar.extui (Scalar.cmpi .eq (BitVec.ofNat 32 (i 1).val) 0#32)) 0#32) = 1#1
/-- It holds at the points ≡ 0 (mod 16): decided over the grid. -/
theorem hcond4_0 : ∀ t : Fin cfg4.N, cond4_0 (grid4.coords t) ↔ t.val % 16 = 0 :=
  (by decide +kernel : ∀ t : Fin grid4.N, cond4_0 (grid4.coords t) ↔ t.val % 16 = 0)

/-- The condition of the body's second conditional (the accumulators are stored into windows 7 and 8 under it). -/
abbrev cond4_1 (i : grid4.Coords) : Prop := k4_cond2 i = 1#1
/-- It holds at the points ≡ 15 (mod 16): decided over the grid. -/
theorem hcond4_1 : ∀ t : Fin cfg4.N, cond4_1 (grid4.coords t) ↔ t.val % 16 = 15 :=
  (by decide +kernel : ∀ t : Fin grid4.N, cond4_1 (grid4.coords t) ↔ t.val % 16 = 15)

/-! ## Where the windows are idle -/

/-- Window 0 is never idle. -/
theorem liveAt4_0 : ∀ t : Fin cfg4.N, cfg4.idle 0 (grid4.coords t) = false := by decide +kernel
/-- Window 1 is never idle. -/
theorem liveAt4_1 : ∀ t : Fin cfg4.N, cfg4.idle 1 (grid4.coords t) = false := by decide +kernel
/-- Window 2 is never idle. -/
theorem liveAt4_2 : ∀ t : Fin cfg4.N, cfg4.idle 2 (grid4.coords t) = false := by decide +kernel
/-- Window 3 is never idle. -/
theorem liveAt4_3 : ∀ t : Fin cfg4.N, cfg4.idle 3 (grid4.coords t) = false := by decide +kernel
/-- Window 4 is never idle. -/
theorem liveAt4_4 : ∀ t : Fin cfg4.N, cfg4.idle 4 (grid4.coords t) = false := by decide +kernel
/-- Window 5 is never idle. -/
theorem liveAt4_5 : ∀ t : Fin cfg4.N, cfg4.idle 5 (grid4.coords t) = false := by decide +kernel
/-- Window 6 is never idle. -/
theorem liveAt4_6 : ∀ t : Fin cfg4.N, cfg4.idle 6 (grid4.coords t) = false := by decide +kernel
/-- At the points where the first condition holds and the second does not, window 7 is idle (nothing is stored into it) -/
theorem idleAt4_7_A : ∀ t : Fin cfg4.N, cond4_0 (grid4.coords t) → ¬cond4_1 (grid4.coords t) → cfg4.idle 7 (grid4.coords t) = true := by decide +kernel
/-- and its block is not written back. -/
theorem noFlush4_7_A : ∀ t : Fin cfg4.N, cond4_0 (grid4.coords t) → ¬cond4_1 (grid4.coords t) → (cfg4.win 7).flush t = false := by decide +kernel
/-- The same where neither condition holds. -/
theorem idleAt4_7_B : ∀ t : Fin cfg4.N, ¬cond4_0 (grid4.coords t) → ¬cond4_1 (grid4.coords t) → cfg4.idle 7 (grid4.coords t) = true := by decide +kernel
theorem noFlush4_7_B : ∀ t : Fin cfg4.N, ¬cond4_0 (grid4.coords t) → ¬cond4_1 (grid4.coords t) → (cfg4.win 7).flush t = false := by decide +kernel
/-- Where the second condition holds (and the first does not) window 7 is live: the body stores into it. -/
theorem liveAt4_7_C : ∀ t : Fin cfg4.N, ¬cond4_0 (grid4.coords t) → cond4_1 (grid4.coords t) → cfg4.idle 7 (grid4.coords t) = false := by decide +kernel
/-- At the points where the first condition holds and the second does not, window 8 is idle (nothing is stored into it) -/
theorem idleAt4_8_A : ∀ t : Fin cfg4.N, cond4_0 (grid4.coords t) → ¬cond4_1 (grid4.coords t) → cfg4.idle 8 (grid4.coords t) = true := by decide +kernel
/-- and its block is not written back. -/
theorem noFlush4_8_A : ∀ t : Fin cfg4.N, cond4_0 (grid4.coords t) → ¬cond4_1 (grid4.coords t) → (cfg4.win 8).flush t = false := by decide +kernel
/-- The same where neither condition holds. -/
theorem idleAt4_8_B : ∀ t : Fin cfg4.N, ¬cond4_0 (grid4.coords t) → ¬cond4_1 (grid4.coords t) → cfg4.idle 8 (grid4.coords t) = true := by decide +kernel
theorem noFlush4_8_B : ∀ t : Fin cfg4.N, ¬cond4_0 (grid4.coords t) → ¬cond4_1 (grid4.coords t) → (cfg4.win 8).flush t = false := by decide +kernel
/-- Where the second condition holds (and the first does not) window 8 is live: the body stores into it. -/
theorem liveAt4_8_C : ∀ t : Fin cfg4.N, ¬cond4_0 (grid4.coords t) → cond4_1 (grid4.coords t) → cfg4.idle 8 (grid4.coords t) = false := by decide +kernel

/-! ## The staging and scratch memrefs -/

/-- One staging buffer of output window 6, through which its contents are stated (the choice does not matter). -/
abbrev VO4_6 : View sig .tc .vmem S2048x10 .f32 := (Memref.whole cc4_stg6_0 : Memref sig .tc .vmem S2048x10 .f32).view
/-- One staging buffer of output window 7, through which its contents are stated (the choice does not matter). -/
abbrev VO4_7 : View sig .tc .vmem S8x10 .f32 := (Memref.whole cc4_stg7_0 : Memref sig .tc .vmem S8x10 .f32).view
/-- One staging buffer of output window 8, through which its contents are stated (the choice does not matter). -/
abbrev VO4_8 : View sig .tc .vmem S8x10 .f32 := (Memref.whole cc4_stg8_0 : Memref sig .tc .vmem S8x10 .f32).view
/-- Each window's current staging memref at point `t`, spelled as the pipeline passes it, and its wholeness. -/
abbrev ms4_0 (t : Fin cfg4.N) : Memref sig .tc .vmem S2048x256 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x256 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x256 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S10x256 .bf16 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S2048x10 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S8x10 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .vmem S8x10 .f32 := win4_8.stage (cfg4.slots t 8)
abbrev hs4_8 (t : Fin cfg4.N) : (ms4_8 t).IsWhole := hstage4_8 ((cfg4.slots t 8).cast nbuf4_8)
/-- The scratch operands (the two accumulators): whole scoped buffers of the kernel's own, passed beside the windows. -/
abbrev scM4_0 : Memref sig .tc .vmem S1x10 .f32 := Memref.whole cc4_scratch0
abbrev VS4_0 : View sig .tc .vmem S1x10 .f32 := scM4_0.view
abbrev scM4_1 : Memref sig .tc .vmem S1x10 .f32 := Memref.whole cc4_scratch1
abbrev VS4_1 : View sig .tc .vmem S1x10 .f32 := scM4_1.view

/-- The region invariant with the two accumulators as memrefs owned at some contents, the remainder of the scoped rest unopened
    beside them, and the generator register at some state: what the body obligation hands the run and takes back. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.KernelIdeal.Hand

end
-- ==== Proof.KI.R4.RunA.lean ====
/- Region 4: the whole-body run of `cc4__fused_layer_kernel` in control case A. -/
import proofs.«118595_j1726576853663_2_alg».proof.Proof.KI.R4.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the first condition holds and the second does not (t % 16 = 0: the accumulators are zeroed, then
    added to; nothing is stored into windows 7 and 8).
    What the body's stores leave in each output's staging memref and in each accumulator, as pieces (last first), WITH the proof
    that on whole memrefs — the inputs' at their contents `x·`, output 6's at anything, outputs 7 and 8 at contents `xi·` handed back untouched,
    the accumulators at anything — the body runs to the continuation holding the inputs' as they were
    and every stored buffer with its pieces written. The printed function and its part are their skeletons; each conditional is decided
    by the case's hypotheses; the pieces are the witness the run finds. -/
noncomputable def kernelRun4_A (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) :
    Σ' (L6 : List (View.Piece (Elt F) S2048x10 .f32)), Σ' (L7 : List (View.Piece (Elt F) S8x10 .f32)), Σ' (L8 : List (View.Piece (Elt F) S8x10 .f32)), Σ' (LS0 : List (View.Piece (Elt F) S1x10 .f32)), { LS1 : List (View.Piece (Elt F) S1x10 .f32) //
      ∀ (xi7 xi8 : Vec F S8x10 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc4__fused_layer_kernel i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc4__fused_layer_kernel_eq_skeleton]; unfold cc4__fused_layer_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.KernelIdeal.Hand

end
-- ==== Proof.KI.R4.RunB.lean ====
/- Region 4: the whole-body run of `cc4__fused_layer_kernel` in control case B. -/
import proofs.«118595_j1726576853663_2_alg».proof.Proof.KI.R4.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where neither condition holds (0 < t % 16 < 15: the accumulators, carried from the point before, are
    added to; nothing is stored into windows 7 and 8).
    What the body's stores leave in each output's staging memref and in each accumulator, as pieces (last first), WITH the proof
    that on whole memrefs — the inputs' at their contents `x·`, output 6's at anything, outputs 7 and 8 at contents `xi·` handed back untouched,
    the accumulators at the contents `xs·` the point before left — the body runs to the continuation holding the inputs' as they were
    and every stored buffer with its pieces written. The printed function and its part are their skeletons; each conditional is decided
    by the case's hypotheses; the pieces are the witness the run finds. -/
noncomputable def kernelRun4_B (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) :
    Σ' (L6 : List (View.Piece (Elt F) S2048x10 .f32)), Σ' (L7 : List (View.Piece (Elt F) S8x10 .f32)), Σ' (L8 : List (View.Piece (Elt F) S8x10 .f32)), Σ' (LS0 : List (View.Piece (Elt F) S1x10 .f32)), { LS1 : List (View.Piece (Elt F) S1x10 .f32) //
      ∀ (xi7 xi8 : Vec F S8x10 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc4__fused_layer_kernel i arg2 harg2 arg3 harg3 arg4 harg4 arg5 harg5 arg6 harg6 arg7 harg7 arg8 harg8 arg9 harg9 arg10 harg10 arg11 harg11 arg12 harg12) K } := by
  refine ⟨?_, [], [], ?_, ?_, fun xi7 xi8 E K => ?run⟩
  case run =>
    simp only [cc4__fused_layer_kernel_eq_skeleton]; unfold cc4__fused_layer_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    iexists _; iexact HS1

end Cert.KernelIdeal.Hand

end
-- ==== Proof.KI.R4.RunC.lean ====
/- Region 4: the whole-body run of `cc4__fused_layer_kernel` in control case C. -/
import proofs.«118595_j1726576853663_2_alg».proof.Proof.KI.R4.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a point where the second condition holds and the first does not (t % 16 = 15: the accumulators, carried from the
    point before, are added to and then stored, broadcast to eight rows, into windows 7 and 8).
    What the body's stores leave in each output's staging memref and in each accumulator, as pieces (last first), WITH the proof
    that on whole memrefs — the inputs' at their contents `x·`, output 6's at anything, outputs 7 and 8 at anything,
    the accumulators at the contents `xs·` the point before left — the body runs to the continuation holding the inputs' as they were
    and every stored buffer with its pieces written. The printed function and its part are their skeletons; each conditional is decided
    by the case's hypotheses; the pieces are the witness the run finds. -/
noncomputable def kernelRun4_C (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) :
    Σ' (L6 : List (View.Piece (Elt F) S2048x10 .f32)), Σ' (L7 : List (View.Piece (Elt F) S8x10 .f32)), Σ' (L8 : List (View.Piece (Elt F) S8x10 .f32)), Σ' (LS0 : List (View.Piece (Elt F) S1x10 .f32)), { LS1 : List (View.Piece (Elt F) S1x10 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc4__fused_layer_kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc4__fused_layer_kernel_eq_skeleton]; unfold cc4__fused_layer_kernel_skel
    simp only [k4_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexists _; iexact HS0
    iexists _; iexact HS1

end Cert.KernelIdeal.Hand

end
-- ==== Proof.KI.R4.Frame.lean ====
/- Region 4: the frame lemmas of custom_call 4 at the region-entry contents `V`. What each control case leaves in the outputs' staging
   buffers and in the two accumulators (the pieces the runs found, read back; they cover each buffer), the same point by point along the
   grid (`outsAt4`: an accumulator at a point other than the first of a core continues from what the point before left), the region
   invariant carrying the accumulators at those contents, the pipeline's proof data, and the body obligation with its entry and exit. -/
import proofs.«118595_j1726576853663_2_alg».proof.Proof.KI.R4.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces for output 6 tile its block (one store of the whole block), so they cover it. -/
theorem cover4_A_6 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (y : S2048x10.Idx) :
    ∃ pc ∈ (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).1 S2048x10.size (by sl_kernel_rfl) y

/-- What case A leaves in output 6's staging buffer: its pieces read back over junk. -/
def out4_A_6 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) : Vec F S2048x10 .f32 :=
  VO4_6.read (Elt F) (VO4_6.writes (Elt F) VO4_6.junk (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).1)

/-- Case A stores nothing into output 7 (the window is idle at its points and not written back there): no pieces, a
    placeholder that nothing consults. -/
def out4_A_7 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) : Vec F S8x10 .f32 :=
  VO4_7.read (Elt F) (VO4_7.writes (Elt F) VO4_7.junk (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).2.1)

/-- Case A stores nothing into output 8 (the window is idle at its points and not written back there): no pieces, a
    placeholder that nothing consults. -/
def out4_A_8 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) : Vec F S8x10 .f32 :=
  VO4_8.read (Elt F) (VO4_8.writes (Elt F) VO4_8.junk (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).2.2.1)

/-- Case A's pieces for accumulator 0 cover it. -/
theorem scover4_A_0 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (y : S1x10.Idx) :
    ∃ pc ∈ (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1, y ∈ pc.1.set :=
  View.cover_of_tiledL (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1 S1x10.size (by sl_kernel_rfl) y

/-- What case A leaves in accumulator 0: its pieces read back over junk. -/
def sout4_A_0 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) : Vec F S1x10 .f32 :=
  VS4_0.read (Elt F) (VS4_0.writes (Elt F) VS4_0.junk (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).2.2.2.1)

/-- Case A's pieces for accumulator 1 cover it. -/
theorem scover4_A_1 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (y : S1x10.Idx) :
    ∃ pc ∈ (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1, y ∈ pc.1.set :=
  View.cover_of_tiledL (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1 S1x10.size (by sl_kernel_rfl) y

/-- What case A leaves in accumulator 1: its pieces read back over junk. -/
def sout4_A_1 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) : Vec F S1x10 .f32 :=
  VS4_1.read (Elt F) (VS4_1.writes (Elt F) VS4_1.junk (kernelRun4_A c i arg2 harg2 arg3 harg3 arg4 harg4 arg5 harg5 arg6 harg6 arg7 harg7 arg8 harg8 arg9 harg9 arg10 harg10 arg11 harg11 arg12 harg12 hc0 hc1 x0 x1 x2 x3 x4 x5).2.2.2.2.1)

/-- Case B's pieces for output 6 tile its block (one store of the whole block), so they cover it. -/
theorem cover4_B_6 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) (y : S2048x10.Idx) :
    ∃ pc ∈ (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S2048x10.size (by sl_kernel_rfl) y

/-- What case B leaves in output 6's staging buffer: its pieces read back over junk. -/
def out4_B_6 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) : Vec F S2048x10 .f32 :=
  VO4_6.read (Elt F) (VO4_6.writes (Elt F) VO4_6.junk (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case B stores nothing into output 7 (the window is idle at its points and not written back there): no pieces, a
    placeholder that nothing consults. -/
def out4_B_7 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) : Vec F S8x10 .f32 :=
  VO4_7.read (Elt F) (VO4_7.writes (Elt F) VO4_7.junk (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case B stores nothing into output 8 (the window is idle at its points and not written back there): no pieces, a
    placeholder that nothing consults. -/
def out4_B_8 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) : Vec F S8x10 .f32 :=
  VO4_8.read (Elt F) (VO4_8.writes (Elt F) VO4_8.junk (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case B's pieces for accumulator 0 cover it. -/
theorem scover4_B_0 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) (y : S1x10.Idx) :
    ∃ pc ∈ (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 S1x10.size (by sl_kernel_rfl) y

/-- What case B leaves in accumulator 0: its pieces read back over junk. -/
def sout4_B_0 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) : Vec F S1x10 .f32 :=
  VS4_0.read (Elt F) (VS4_0.writes (Elt F) VS4_0.junk (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-- Case B's pieces for accumulator 1 cover it. -/
theorem scover4_B_1 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) (y : S1x10.Idx) :
    ∃ pc ∈ (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S1x10.size (by sl_kernel_rfl) y

/-- What case B leaves in accumulator 1: its pieces read back over junk. -/
def sout4_B_1 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) : Vec F S1x10 .f32 :=
  VS4_1.read (Elt F) (VS4_1.writes (Elt F) VS4_1.junk (kernelRun4_B c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

/-- Case C's pieces for output 6 tile its block (one store of the whole block), so they cover it. -/
theorem cover4_C_6 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) (y : S2048x10.Idx) :
    ∃ pc ∈ (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1 S2048x10.size (by sl_kernel_rfl) y

/-- What case C leaves in output 6's staging buffer: its pieces read back over junk. -/
def out4_C_6 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) : Vec F S2048x10 .f32 :=
  VO4_6.read (Elt F) (VO4_6.writes (Elt F) VO4_6.junk (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).1)

/-- Case C's pieces for output 7 tile its block (one store of the whole block), so they cover it. -/
theorem cover4_C_7 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) (y : S8x10.Idx) :
    ∃ pc ∈ (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1 S8x10.size (by sl_kernel_rfl) y

/-- What case C leaves in output 7's staging buffer: its pieces read back over junk. -/
def out4_C_7 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) : Vec F S8x10 .f32 :=
  VO4_7.read (Elt F) (VO4_7.writes (Elt F) VO4_7.junk (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.1)

/-- Case C's pieces for output 8 tile its block (one store of the whole block), so they cover it. -/
theorem cover4_C_8 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) (y : S8x10.Idx) :
    ∃ pc ∈ (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1 S8x10.size (by sl_kernel_rfl) y

/-- What case C leaves in output 8's staging buffer: its pieces read back over junk. -/
def out4_C_8 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) : Vec F S8x10 .f32 :=
  VO4_8.read (Elt F) (VO4_8.writes (Elt F) VO4_8.junk (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.1)

/-- Case C's pieces for accumulator 0 cover it. -/
theorem scover4_C_0 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) (y : S1x10.Idx) :
    ∃ pc ∈ (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1 S1x10.size (by sl_kernel_rfl) y

/-- What case C leaves in accumulator 0: its pieces read back over junk. -/
def sout4_C_0 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) : Vec F S1x10 .f32 :=
  VS4_0.read (Elt F) (VS4_0.writes (Elt F) VS4_0.junk (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.1)

/-- Case C's pieces for accumulator 1 cover it. -/
theorem scover4_C_1 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) (y : S1x10.Idx) :
    ∃ pc ∈ (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1, y ∈ pc.1.set :=
  View.cover_of_tiledL (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1 S1x10.size (by sl_kernel_rfl) y

/-- What case C leaves in accumulator 1: its pieces read back over junk. -/
def sout4_C_1 (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) : Vec F S1x10 .f32 :=
  VS4_1.read (Elt F) (VS4_1.writes (Elt F) VS4_1.junk (kernelRun4_C c i arg2 harg2 arg3 harg3 arg4 harg4 arg5 harg5 arg6 harg6 arg7 harg7 arg8 harg8 arg9 harg9 arg10 harg10 arg11 harg11 arg12 harg12 hc0 hc1 x0 x1 x2 x3 x4 x5 xs0 xs1).2.2.2.2.1)

/-! ## What the outputs and the accumulators hold after each point -/

/-- THE ACCUMULATION. What the outputs' staging buffers and the two accumulators hold after the body at position `n` (the outputs in window
    order, then the accumulators): the case the closed forms select at `n`, run at the point's memrefs and input blocks, an accumulator
    at a point other than a core's first continuing from what this leaves at `n - 1`. Both conditions at once is no point. -/
def outsAt4 (c : Dev nD) : (n : ℕ) → n < cfg4.N → Vec F S2048x10 .f32 × Vec F S8x10 .f32 × Vec F S8x10 .f32 × Vec F S1x10 .f32 × Vec F S1x10 .f32
  | 0, hn => (out4_A_6 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), out4_A_7 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), out4_A_8 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) scM4_0 (Memref.isWhole_whole _) scM4_1 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩))
  | n + 1, hn =>
    if h0 : (n + 1) % 16 = 0 then
      if h1 : (n + 1) % 16 = 15 then
        False.elim (by omega)
      else
        (out4_A_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), out4_A_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), out4_A_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩), sout4_A_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩))
    else
      if h1 : (n + 1) % 16 = 15 then
        (out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, out4_C_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, out4_C_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2)
      else
        (out4_B_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, out4_B_7 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, out4_B_8 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (outsAt4 c n (Nat.lt_of_succ_lt hn)).2.2.2.1 (outsAt4 c n (Nat.lt_of_succ_lt hn)).2.2.2.2)

/-- `outsAt4` at a point of case A: that case's contents. -/
theorem outsAt4_A (c : Dev nD) (t : Fin cfg4.N) (h0 : t.val % 16 = 0) (h1 : ¬t.val % 16 = 15) :
    outsAt4 V c t.val t.isLt = (out4_A_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), out4_A_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), out4_A_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 16 = 0) (h1 : ¬t.val % 16 = 15) :
    outsAt4 V c t.val t.isLt = (out4_B_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_B_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_B_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 16 = 0) (h1 : t.val % 16 = 15) :
    outsAt4 V c t.val t.isLt = (out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_8 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point the class's (every scratch at anything); afterwards the two
    accumulators at what the point before left in them, the remainder of the scoped rest unopened, and the generator register at
    some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2.2.2.1) ∗ owns (c : Thread nD τ) scM4_1 fullShare ((outsAt4 V c n hn).2.2.2.2))
          ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulators at that point's contents. -/
theorem PhiS4_succ (c : Dev nD) (n : ℕ) (hn : n < cfg4.N) :
    PhiS4 V c (n + 1) hn = iprop(iprop(iprop(owns (c : Thread nD τ) scM4_0 fullShare ((outsAt4 V c n hn).2.2.2.1) ∗ owns (c : Thread nD τ) scM4_1 fullShare ((outsAt4 V c n hn).2.2.2.2))
          ∗ Pipeline.scopedRestBut (Ix := Unit) (Name := ℕ) (U := UR sig nD τ) (Lvl := ℕ) (Val := Elt F) spec4 c [cc4_scratch0, cc4_scratch1]) ∗ (∃ r, prngReg c r)) := rfl

/-- Before a point that is not the first: the accumulators at what the point before left. -/
theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2.2.2.1) ∗ owns (c : Thread nD τ) scM4_1 fullShare ((outsAt4 V c (n - 1) (by omega)).2.2.2.2))
          ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of pipeline 4 on core `c`: the arrays as the region finds them (`V`); after the body at point `t` each input's
    buffer at its block and the outputs' at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => (outsAt4 V c t.val t.isLt).1
    | ⟨7, _⟩ => (outsAt4 V c t.val t.isLt).2.1
    | ⟨8, _⟩ => (outsAt4 V c t.val t.isLt).2.2.1
  Φ t := PhiS4 V c t.val (Nat.le_of_lt_succ t.isLt)
  q _ := fullShare
  owed _ := 0

/-- The proof data's arrays are the region-entry contents . -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = (outsAt4 V c t.val t.isLt).1 := by dsimp only [dat4]
theorem after4_7 (c : Dev nD) (t : Fin cfg4.N) : (dat4 V c).after 7 t = (outsAt4 V c t.val t.isLt).2.1 := by dsimp only [dat4]
theorem after4_8 (c : Dev nD) (t : Fin cfg4.N) : (dat4 V c).after 8 t = (outsAt4 V c t.val t.isLt).2.2.1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-- A window live at a point is left at what the body leaves in it. -/
theorem leaves4_0 (c : Dev nD) (t : Fin cfg4.N) : (dat4 V c).leavesExact 0 t = owns (c : Thread nD τ) (ms4_0 t) fullShare ((dat4 V c).after 0 t) := by
  unfold Dat.leavesExact; rw [liveAt4_0 t]
theorem leaves4_1 (c : Dev nD) (t : Fin cfg4.N) : (dat4 V c).leavesExact 1 t = owns (c : Thread nD τ) (ms4_1 t) fullShare ((dat4 V c).after 1 t) := by
  unfold Dat.leavesExact; rw [liveAt4_1 t]
theorem leaves4_2 (c : Dev nD) (t : Fin cfg4.N) : (dat4 V c).leavesExact 2 t = owns (c : Thread nD τ) (ms4_2 t) fullShare ((dat4 V c).after 2 t) := by
  unfold Dat.leavesExact; rw [liveAt4_2 t]
theorem leaves4_3 (c : Dev nD) (t : Fin cfg4.N) : (dat4 V c).leavesExact 3 t = owns (c : Thread nD τ) (ms4_3 t) fullShare ((dat4 V c).after 3 t) := by
  unfold Dat.leavesExact; rw [liveAt4_3 t]
theorem leaves4_4 (c : Dev nD) (t : Fin cfg4.N) : (dat4 V c).leavesExact 4 t = owns (c : Thread nD τ) (ms4_4 t) fullShare ((dat4 V c).after 4 t) := by
  unfold Dat.leavesExact; rw [liveAt4_4 t]
theorem leaves4_5 (c : Dev nD) (t : Fin cfg4.N) : (dat4 V c).leavesExact 5 t = owns (c : Thread nD τ) (ms4_5 t) fullShare ((dat4 V c).after 5 t) := by
  unfold Dat.leavesExact; rw [liveAt4_5 t]
theorem leaves4_6 (c : Dev nD) (t : Fin cfg4.N) : (dat4 V c).leavesExact 6 t = owns (c : Thread nD τ) (ms4_6 t) fullShare ((dat4 V c).after 6 t) := by
  unfold Dat.leavesExact; rw [liveAt4_6 t]
theorem leaves4_7_C (c : Dev nD) (t : Fin cfg4.N) (h0 : ¬cond4_0 (grid4.coords t)) (h1 : cond4_1 (grid4.coords t)) : (dat4 V c).leavesExact 7 t = owns (c : Thread nD τ) (ms4_7 t) fullShare ((dat4 V c).after 7 t) := by
  unfold Dat.leavesExact; rw [liveAt4_7_C t h0 h1]
theorem leaves4_8_C (c : Dev nD) (t : Fin cfg4.N) (h0 : ¬cond4_0 (grid4.coords t)) (h1 : cond4_1 (grid4.coords t)) : (dat4 V c).leavesExact 8 t = owns (c : Thread nD τ) (ms4_8 t) fullShare ((dat4 V c).after 8 t) := by
  unfold Dat.leavesExact; rw [liveAt4_8_C t h0 h1]

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 4800000 in
/-- The body at any point: the inputs' memrefs hold their blocks; the closed forms say which case the point is in, so that case's run
    applies; the invariant hands the body the accumulators at what the point before left (at anything at the first point) and the
    generator register, and takes the accumulators back at this point's contents (their pieces cover them); a window idle at the point
    is handed back untouched; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).owesAt () t.succ = (dat4 V c).owesAt () t.castSucc from rfl]
  rw [show (dat4 V c).Φ t.succ = PhiS4 V c (t.val + 1) t.isLt from rfl, PhiS4_succ]
  have hN : t.val < 32 := lt_of_lt_of_eq t.isLt (show cfg4.N = 32 from N_4)
  by_cases h0 : t.val % 16 = 0
  · by_cases h1 : t.val % 16 = 15
    · exfalso; omega
    · rw [leaves4_0 V c t, leaves4_1 V c t, leaves4_2 V c t, leaves4_3 V c t, leaves4_4 V c t, leaves4_5 V c t, leaves4_6 V c t, after4_0, after4_1, after4_2, after4_3, after4_4, after4_5, after4_6]
      rw [Dat.leavesExact_idle (dat4 V c) 7 t (idleAt4_7_A t ((hcond4_0 t).mpr h0) (fun h => h1 ((hcond4_1 t).mp h))) (noFlush4_7_A t ((hcond4_0 t).mpr h0) (fun h => h1 ((hcond4_1 t).mp h)))]
      rw [Dat.leavesExact_idle (dat4 V c) 8 t (idleAt4_8_A t ((hcond4_0 t).mpr h0) (fun h => h1 ((hcond4_1 t).mp h))) (noFlush4_8_A t ((hcond4_0 t).mpr h0) (fun h => h1 ((hcond4_1 t).mp h)))]
      rw [outsAt4_A V c t h0 h1]
      unfold out4_A_6 sout4_A_0 sout4_A_1; (try dsimp only)
      by_cases hz : t.val = 0
      · rw [PhiS4_castSucc V c t, PhiS4_zero V c _ _ hz, PhiA4_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun4_A c (grid4.coords t) _ _ _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexact HS0
        isplitl [HS1]; · iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover4_A_1 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover4_A_6 c _ _ _ _ _ _ _ _ _ _ _ _ _ _ _ _ _ _ _ _ _ _ _ _ _ _ _ _ _ _ _)
        isplitl [H7]; · iexists _; iexact H7
        iexists _; iexact H8
      · rw [PhiS4_castSucc V c t, PhiS4_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun4_A c (grid4.coords t) _ _ _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t) (iblk4 V c 5 t)).2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [H8]; · iexact H8
        isplitl [HS0]; · iexists _; iexact HS0
        isplitl [HS1]; · iexists _; iexact HS1
        iintro ⟨H0, H1, H2, H3, H4, H5, ⟨%e6, H6⟩, H7, H8, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover4_A_0 c _ _ _ _ _ _ _ _ _ _ _ _ _ _ _ _ _ _ _ _ _ _ _ _ _ _ _ _ _ _ _)
              unfold owns; iexists _; isplitr
              swap; · iexact HS1
              ipureintro; exact View.read_writes_of_cover _ _ _ _ _ (scover4_A_1 c _ _ _ _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover4_A_6 c _ _ _ _ _ _ _ _ _ _ _ _ _ _ _ _ _ _ _ _ _ _ _ _ _ _ _ _ _ _ _)
        isplitl [H7]; · iexists _; iexact H7
        iexists _; iexact H8
  · by_cases h1 : t.val % 16 = 15
    · rw [leaves4_0 V c t, leaves4_1 V c t, leaves4_2 V c t, leaves4_3 V c t, leaves4_4 V c t, leaves4_5 V c t, leaves4_6 V c t, after4_0, after4_1, after4_2, after4_3, after4_4, after4_5, after4_6]
      rw [leaves4_7_C V c t (fun h => h0 ((hcond4_0 t).mp h)) ((hcond4_1 t).mpr h1), leaves4_8_C V c t (fun h => h0 ((hcond4_0 t).mp h)) ((hcond4_1 t).mpr h1), after4_7, after4_8]
      rw [outsAt4_C V c t h0 h1]
      unfold out4_C_6 out4_C_7 out4_C_8 sout4_C_0 sout4_C_1; (try dsimp only)
      have hz : t.val ≠ 0 := by omega
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_C c (grid4.coords t) _ _ _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) (iblk4 V c 5 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, ⟨%e6, H6⟩, ⟨%e7, H7⟩, ⟨%e8, H8⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover4_C_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_C_6 c _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (cover4_C_7 c _ _ _ _ _ _ _ _ _ _ _ _ _ _ _ _ _ _ _ _ _ _ _ _ _ _ _ _ _ _ _ _ _)
      unfold owns; iexists _; isplitr
      swap; · iexact H8
      ipureintro; exact View.read_writes_of_cover _ _ _ _ _ (cover4_C_8 c _ _ _ _ _ _ _ _ _ _ _ _ _ _ _ _ _ _ _ _ _ _ _ _ _ _ _ _ _ _ _ _ _)
    · rw [leaves4_0 V c t, leaves4_1 V c t, leaves4_2 V c t, leaves4_3 V c t, leaves4_4 V c t, leaves4_5 V c t, leaves4_6 V c t, after4_0, after4_1, after4_2, after4_3, after4_4, after4_5, after4_6]
      rw [Dat.leavesExact_idle (dat4 V c) 7 t (idleAt4_7_B t (fun h => h0 ((hcond4_0 t).mp h)) (fun h => h1 ((hcond4_1 t).mp h))) (noFlush4_7_B t (fun h => h0 ((hcond4_0 t).mp h)) (fun h => h1 ((hcond4_1 t).mp h)))]
      rw [Dat.leavesExact_idle (dat4 V c) 8 t (idleAt4_8_B t (fun h => h0 ((hcond4_0 t).mp h)) (fun h => h1 ((hcond4_1 t).mp h))) (noFlush4_8_B t (fun h => h0 ((hcond4_0 t).mp h)) (fun h => h1 ((hcond4_1 t).mp h)))]
      rw [outsAt4_B V c t h0 h1]
      unfold out4_B_6 sout4_B_0 sout4_B_1; (try dsimp only)
      have hz : t.val ≠ 0 := by omega
      rw [PhiS4_castSucc V c t, PhiS4_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun4_B c (grid4.coords t) _ _ _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) _ _).2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, ⟨%e6, H6⟩, H7, H8, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _ _ _ _ _ _)
            unfold owns; iexists _; isplitr
            swap; · iexact HS1
            ipureintro; exact View.read_writes_of_cover _ _ _ _ _ (scover4_B_1 c _ _ _ _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover4_B_6 c _ _ _ _ _ _ _ _ _ _ _ _ _ _ _ _ _ _ _ _ _ _ _ _ _ _ _ _ _ _ _ _ _)
      isplitl [H7]; · iexists _; iexact H7
      iexists _; iexact H8

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 32 := N_4; omega)

end Cert.KernelIdeal.Hand

end
-- ==== Proof.KI.R5.Runs.lean ====
/- What the three runs of REGION 5 of @main (custom_call 5, the softmax statistics) share. The region is a pipeline over
   a grid of 2 x 16 points t = 16 * i0 + i1 with seven windows — window 0 the raw block of 2048 rows, fetched at every
   point; windows 1-4 the row vectors mean, variance, scale and shift, fetched at the first point only; windows 5 and
   6 the blocks of the running maximum and the running sum, written back at the last point of each row of the grid
   (i1 = 15) — and two row-vector accumulators of the body's own, kept between points: the running maximum, set to
   minus infinity where i1 = 0, and the running sum, set to zero there. The body has two conditionals, on i1 = 0 and
   on i1 = 15, hence three kinds of point: A (i1 = 0), B (0 < i1 < 15), C (i1 = 15).
   Everything is stated at a parameter V, the buffer contents when the region is entered, and at any F. -/
import proofs.«118595_j1726576853663_2_alg».proof.Proof.Gen.KernelIdeal.Launch
import proofs.«118595_j1726576853663_2_alg».proof.Proof.Gen.KernelIdeal.Skeleton
import proofs.«118595_j1726576853663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether the point fetches it or not
    (where it is not fetched its block index has not moved and the body left the block in place), for any proof
    data whose array is `V`'s and whose body leaves the block as it found it. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether the point fetches it or not
    (where it is not fetched its block index has not moved and the body left the block in place), for any proof
    data whose array is `V`'s and whose body leaves the block as it found it. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether the point fetches it or not
    (where it is not fetched its block index has not moved and the body left the block in place), for any proof
    data whose array is `V`'s and whose body leaves the block as it found it. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether the point fetches it or not
    (where it is not fetched its block index has not moved and the body left the block in place), for any proof
    data whose array is `V`'s and whose body leaves the block as it found it. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether the point fetches it or not
    (where it is not fetched its block index has not moved and the body left the block in place), for any proof
    data whose array is `V`'s and whose body leaves the block as it found it. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions -/

/-- The first conditional's condition, from the grid coordinates: i1 = 0, as the body computes it. -/
abbrev cond5_0 (i : grid5.Coords) : Prop := (Scalar.cmpi .ne (Scalar.extui (Scalar.cmpi .eq (BitVec.ofNat 32 (i 1).val) 0#32)) 0#32) = 1#1
/-- It holds at the points ≡ 0 (mod 16). -/
theorem hcond5_0 : ∀ t : Fin cfg5.N, cond5_0 (grid5.coords t) ↔ t.val % 16 = 0 :=
  (by decide +kernel : ∀ t : Fin grid5.N, cond5_0 (grid5.coords t) ↔ t.val % 16 = 0)

/-- The second conditional's condition: i1 = 15. -/
abbrev cond5_1 (i : grid5.Coords) : Prop := k5_cond2 i = 1#1
/-- It holds at the points ≡ 15 (mod 16). -/
theorem hcond5_1 : ∀ t : Fin cfg5.N, cond5_1 (grid5.coords t) ↔ t.val % 16 = 15 :=
  (by decide +kernel : ∀ t : Fin grid5.N, cond5_1 (grid5.coords t) ↔ t.val % 16 = 15)

/-! ## Where the windows are idle -/

/-- Window 0 is never idle (an input). -/
theorem liveAt5_0 : ∀ t : Fin cfg5.N, cfg5.idle 0 (grid5.coords t) = false := by decide +kernel
/-- Window 1 is never idle (an input). -/
theorem liveAt5_1 : ∀ t : Fin cfg5.N, cfg5.idle 1 (grid5.coords t) = false := by decide +kernel
/-- Window 2 is never idle (an input). -/
theorem liveAt5_2 : ∀ t : Fin cfg5.N, cfg5.idle 2 (grid5.coords t) = false := by decide +kernel
/-- Window 3 is never idle (an input). -/
theorem liveAt5_3 : ∀ t : Fin cfg5.N, cfg5.idle 3 (grid5.coords t) = false := by decide +kernel
/-- Window 4 is never idle (an input). -/
theorem liveAt5_4 : ∀ t : Fin cfg5.N, cfg5.idle 4 (grid5.coords t) = false := by decide +kernel
/-- At the points of kind A output 5 is idle: the body stores nothing into it there, -/
theorem idleAt5_5_A : ∀ t : Fin cfg5.N, cond5_0 (grid5.coords t) → ¬cond5_1 (grid5.coords t) → cfg5.idle 5 (grid5.coords t) = true := by decide +kernel
/-- and the pipeline does not write its block back. -/
theorem noFlush5_5_A : ∀ t : Fin cfg5.N, cond5_0 (grid5.coords t) → ¬cond5_1 (grid5.coords t) → (cfg5.win 5).flush t = false := by decide +kernel
/-- At the points of kind B output 5 is idle: the body stores nothing into it there, -/
theorem idleAt5_5_B : ∀ t : Fin cfg5.N, ¬cond5_0 (grid5.coords t) → ¬cond5_1 (grid5.coords t) → cfg5.idle 5 (grid5.coords t) = true := by decide +kernel
/-- and the pipeline does not write its block back. -/
theorem noFlush5_5_B : ∀ t : Fin cfg5.N, ¬cond5_0 (grid5.coords t) → ¬cond5_1 (grid5.coords t) → (cfg5.win 5).flush t = false := by decide +kernel
/-- At the points of kind C output 5 is live: the body stores into it. -/
theorem liveAt5_5_C : ∀ t : Fin cfg5.N, ¬cond5_0 (grid5.coords t) → cond5_1 (grid5.coords t) → cfg5.idle 5 (grid5.coords t) = false := by decide +kernel
/-- At the points of kind A output 6 is idle: the body stores nothing into it there, -/
theorem idleAt5_6_A : ∀ t : Fin cfg5.N, cond5_0 (grid5.coords t) → ¬cond5_1 (grid5.coords t) → cfg5.idle 6 (grid5.coords t) = true := by decide +kernel
/-- and the pipeline does not write its block back. -/
theorem noFlush5_6_A : ∀ t : Fin cfg5.N, cond5_0 (grid5.coords t) → ¬cond5_1 (grid5.coords t) → (cfg5.win 6).flush t = false := by decide +kernel
/-- At the points of kind B output 6 is idle: the body stores nothing into it there, -/
theorem idleAt5_6_B : ∀ t : Fin cfg5.N, ¬cond5_0 (grid5.coords t) → ¬cond5_1 (grid5.coords t) → cfg5.idle 6 (grid5.coords t) = true := by decide +kernel
/-- and the pipeline does not write its block back. -/
theorem noFlush5_6_B : ∀ t : Fin cfg5.N, ¬cond5_0 (grid5.coords t) → ¬cond5_1 (grid5.coords t) → (cfg5.win 6).flush t = false := by decide +kernel
/-- At the points of kind C output 6 is live: the body stores into it. -/
theorem liveAt5_6_C : ∀ t : Fin cfg5.N, ¬cond5_0 (grid5.coords t) → cond5_1 (grid5.coords t) → cfg5.idle 6 (grid5.coords t) = false := by decide +kernel

/-! ## The memrefs the body is called on -/

/-- One staging buffer of each output window, through which its contents are stated (the choice does not matter). -/
abbrev VO5_5 : View sig .tc .vmem S8x10 .f32 := (Memref.whole cc5_stg5_0 : Memref sig .tc .vmem S8x10 .f32).view
abbrev VO5_6 : View sig .tc .vmem S8x10 .f32 := (Memref.whole cc5_stg6_0 : Memref sig .tc .vmem S8x10 .f32).view
/-- Each window's current staging memref at point `t`, spelled as the pipeline passes it, and its wholeness. -/
abbrev ms5_0 (t : Fin cfg5.N) : Memref sig .tc .vmem S2048x10 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1x10 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1x10 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1x10 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x10 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S8x10 .f32 := win5_5.stage (cfg5.slots t 5)
abbrev hs5_5 (t : Fin cfg5.N) : (ms5_5 t).IsWhole := hstage5_5 ((cfg5.slots t 5).cast nbuf5_5)
abbrev ms5_6 (t : Fin cfg5.N) : Memref sig .tc .vmem S8x10 .f32 := win5_6.stage (cfg5.slots t 6)
abbrev hs5_6 (t : Fin cfg5.N) : (ms5_6 t).IsWhole := hstage5_6 ((cfg5.slots t 6).cast nbuf5_6)
/-- The two accumulators: whole buffers of the body's own, passed beside the windows — the running maximum and the
    running sum — and each as a view, through which what it holds is stated. -/
abbrev scM5_0 : Memref sig .tc .vmem S1x10 .f32 := Memref.whole cc5_scratch0
abbrev scM5_1 : Memref sig .tc .vmem S1x10 .f32 := Memref.whole cc5_scratch1
abbrev VS5_0 : View sig .tc .vmem S1x10 .f32 := scM5_0.view
abbrev VS5_1 : View sig .tc .vmem S1x10 .f32 := scM5_1.view

/-- The rest of the core's scoped buffers once the two accumulators are taken out: carried unopened through the region. -/
abbrev rest5 (c : Dev nD) : sProp 𝕄 :=
  Pipeline.scopedRestBut (Ix := Unit) (Name := ℕ) (U := UR sig nD τ) (Lvl := ℕ) (Val := Elt F) spec5 c [cc5_scratch0, cc5_scratch1]

/-- The invariant the launch hands the region, with the two accumulators as memrefs owned at some contents, the
    other scoped buffers unopened, and the generator register at some state. -/
theorem PhiA5_eq (c : Dev nD) :
    (Pipeline.ΦA spec5 c : sProp 𝕄)
      = iprop(iprop(iprop((∃ d, owns (c : Thread nD τ) scM5_0 fullShare d) ∗ (∃ d, owns (c : Thread nD τ) scM5_1 fullShare d)) ∗ rest5 c) ∗ (∃ r, prngReg c r)) := by
  unfold Pipeline.ΦA; rw [scopedRest5_split]; simp only [scM5_0, scM5_1, owns_whole]; try rfl

end Cert.KernelIdeal.Hand

end
-- ==== Proof.KI.R5.RunA.lean ====
/- The run of REGION 5's body at a point of kind A (the first conditional taken, the second not: i1 = 0): on whole staging memrefs — the five inputs' at their
   contents, the two outputs' at contents handed back untouched (the body stores nothing into them here), the two accumulators' at anything (the body resets them here) —
   the body runs to the continuation holding the inputs' as they were, and each accumulator's buffer with its
   pieces written. The pieces are found by the run itself: they are the witnesses of the statement. -/
import proofs.«118595_j1726576853663_2_alg».proof.Proof.KI.R5.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

set_option maxHeartbeats 1000000 in
/-- What the body's stores leave, as pieces (last first), at a point of kind A, with the body's triple there. -/
noncomputable def kernelRun5_A (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : cond5_0 i) (hc1 : ¬cond5_1 i)
    (x0 : Vec F S2048x10 .f32) (x1 : Vec F S1x10 .f32) (x2 : Vec F S1x10 .f32) (x3 : Vec F S1x10 .f32) (x4 : Vec F S1x10 .f32) :
    Σ' (L5 : List (View.Piece (Elt F) S8x10 .f32)) (L6 : List (View.Piece (Elt F) S8x10 .f32)) (LS0 : List (View.Piece (Elt F) S1x10 .f32)), { LS1 : List (View.Piece (Elt F) S1x10 .f32) //
      ∀ (xi5 : Vec F S8x10 .f32) (xi6 : Vec F S8x10 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc5__softmax_stats_kernel i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc5__softmax_stats_kernel_eq_skeleton]; unfold cc5__softmax_stats_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.KI.R5.RunB.lean ====
/- The run of REGION 5's body at a point of kind B (neither conditional taken: 0 < i1 < 15): on whole staging memrefs — the five inputs' at their
   contents, the two outputs' at contents handed back untouched (the body stores nothing into them here), the two accumulators' at what the point before left —
   the body runs to the continuation holding the inputs' as they were, and each accumulator's buffer with its
   pieces written. The pieces are found by the run itself: they are the witnesses of the statement. -/
import proofs.«118595_j1726576853663_2_alg».proof.Proof.KI.R5.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

set_option maxHeartbeats 1000000 in
/-- What the body's stores leave, as pieces (last first), at a point of kind B, with the body's triple there. -/
noncomputable def kernelRun5_B (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : ¬cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) :
    Σ' (L5 : List (View.Piece (Elt F) S8x10 .f32)) (L6 : List (View.Piece (Elt F) S8x10 .f32)) (LS0 : List (View.Piece (Elt F) S1x10 .f32)), { LS1 : List (View.Piece (Elt F) S1x10 .f32) //
      ∀ (xi5 : Vec F S8x10 .f32) (xi6 : Vec F S8x10 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc5__softmax_stats_kernel i arg2 harg2 arg3 harg3 arg4 harg4 arg5 harg5 arg6 harg6 arg7 harg7 arg8 harg8 arg9 harg9 arg10 harg10) K } := by
  refine ⟨[], [], ?_, ?_, fun xi5 xi6 E K => ?run⟩
  case run =>
    simp only [cc5__softmax_stats_kernel_eq_skeleton]; unfold cc5__softmax_stats_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.KI.R5.RunC.lean ====
/- The run of REGION 5's body at a point of kind C (the first conditional not taken, the second taken: i1 = 15): on whole staging memrefs — the five inputs' at their
   contents, the two outputs' at anything, the two accumulators' at what the point before left —
   the body runs to the continuation holding the inputs' as they were, each output's buffer with its pieces written, and each accumulator's buffer with its
   pieces written. The pieces are found by the run itself: they are the witnesses of the statement. -/
import proofs.«118595_j1726576853663_2_alg».proof.Proof.KI.R5.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

set_option maxHeartbeats 1000000 in
/-- What the body's stores leave, as pieces (last first), at a point of kind C, with the body's triple there. -/
noncomputable def kernelRun5_C (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) :
    Σ' (L5 : List (View.Piece (Elt F) S8x10 .f32)) (L6 : List (View.Piece (Elt F) S8x10 .f32)) (LS0 : List (View.Piece (Elt F) S1x10 .f32)), { LS1 : List (View.Piece (Elt F) S1x10 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc5__softmax_stats_kernel i arg2 harg2 arg3 harg3 arg4 harg4 arg5 harg5 arg6 harg6 arg7 harg7 arg8 harg8 arg9 harg9 arg10 harg10) K } := by
  refine ⟨?_, ?_, ?_, ?_, fun E K => ?run⟩
  case run =>
    simp only [cc5__softmax_stats_kernel_eq_skeleton]; unfold cc5__softmax_stats_kernel_skel
    simp only [k5_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexists _; iexact HS0
    iexists _; iexact HS1

end Cert.KernelIdeal.Hand

end
-- ==== Proof.KI.R5.Frame.lean ====
/- The frame lemmas of REGION 5 of @main (custom_call 5, the softmax statistics): what the two outputs and the two
   accumulators hold at each kind of point and point by point, the region's invariant (before the first point what the
   launch hands it; afterwards the two accumulators at what the point before left, the other scoped buffers unopened,
   the generator register at some state), the proof data, the body obligation, and the invariant at the region's ends. -/
import proofs.«118595_j1726576853663_2_alg».proof.Proof.KI.R5.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-- A point of kind A stores nothing into output 5 (the window is idle there and not written back): no pieces — a
    placeholder that nothing consults. -/
def out5_A_5 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : cond5_0 i) (hc1 : ¬cond5_1 i)
    (x0 : Vec F S2048x10 .f32) (x1 : Vec F S1x10 .f32) (x2 : Vec F S1x10 .f32) (x3 : Vec F S1x10 .f32) (x4 : Vec F S1x10 .f32) : Vec F S8x10 .f32 :=
  VO5_5.read (Elt F) (VO5_5.writes (Elt F) VO5_5.junk (kernelRun5_A c i arg2 harg2 arg3 harg3 arg4 harg4 arg5 harg5 arg6 harg6 arg7 harg7 arg8 harg8 arg9 harg9 arg10 harg10 hc0 hc1 x0 x1 x2 x3 x4).1)

/-- A point of kind A stores nothing into output 6 (the window is idle there and not written back): no pieces — a
    placeholder that nothing consults. -/
def out5_A_6 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : cond5_0 i) (hc1 : ¬cond5_1 i)
    (x0 : Vec F S2048x10 .f32) (x1 : Vec F S1x10 .f32) (x2 : Vec F S1x10 .f32) (x3 : Vec F S1x10 .f32) (x4 : Vec F S1x10 .f32) : Vec F S8x10 .f32 :=
  VO5_6.read (Elt F) (VO5_6.writes (Elt F) VO5_6.junk (kernelRun5_A c i arg2 harg2 arg3 harg3 arg4 harg4 arg5 harg5 arg6 harg6 arg7 harg7 arg8 harg8 arg9 harg9 arg10 harg10 hc0 hc1 x0 x1 x2 x3 x4).2.1)

/-- At a point of kind A the pieces for the running maximum tile it (whole-buffer stores), so they cover it. -/
theorem scover5_A_0 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : cond5_0 i) (hc1 : ¬cond5_1 i)
    (x0 : Vec F S2048x10 .f32) (x1 : Vec F S1x10 .f32) (x2 : Vec F S1x10 .f32) (x3 : Vec F S1x10 .f32) (x4 : Vec F S1x10 .f32) (y : S1x10.Idx) :
    ∃ pc ∈ (kernelRun5_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun5_A c i arg2 harg2 arg3 harg3 arg4 harg4 arg5 harg5 arg6 harg6 arg7 harg7 arg8 harg8 arg9 harg9 arg10 harg10 hc0 hc1 x0 x1 x2 x3 x4).2.2.1 S1x10.size (by sl_kernel_rfl) y

/-- What a point of kind A leaves in the running maximum: its pieces read back over junk. -/
def sout5_A_0 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : cond5_0 i) (hc1 : ¬cond5_1 i)
    (x0 : Vec F S2048x10 .f32) (x1 : Vec F S1x10 .f32) (x2 : Vec F S1x10 .f32) (x3 : Vec F S1x10 .f32) (x4 : Vec F S1x10 .f32) : Vec F S1x10 .f32 :=
  VS5_0.read (Elt F) (VS5_0.writes (Elt F) VS5_0.junk (kernelRun5_A c i arg2 harg2 arg3 harg3 arg4 harg4 arg5 harg5 arg6 harg6 arg7 harg7 arg8 harg8 arg9 harg9 arg10 harg10 hc0 hc1 x0 x1 x2 x3 x4).2.2.1)

/-- At a point of kind A the pieces for the running sum tile it (whole-buffer stores), so they cover it. -/
theorem scover5_A_1 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : cond5_0 i) (hc1 : ¬cond5_1 i)
    (x0 : Vec F S2048x10 .f32) (x1 : Vec F S1x10 .f32) (x2 : Vec F S1x10 .f32) (x3 : Vec F S1x10 .f32) (x4 : Vec F S1x10 .f32) (y : S1x10.Idx) :
    ∃ pc ∈ (kernelRun5_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun5_A c i arg2 harg2 arg3 harg3 arg4 harg4 arg5 harg5 arg6 harg6 arg7 harg7 arg8 harg8 arg9 harg9 arg10 harg10 hc0 hc1 x0 x1 x2 x3 x4).2.2.2.1 S1x10.size (by sl_kernel_rfl) y

/-- What a point of kind A leaves in the running sum: its pieces read back over junk. -/
def sout5_A_1 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : cond5_0 i) (hc1 : ¬cond5_1 i)
    (x0 : Vec F S2048x10 .f32) (x1 : Vec F S1x10 .f32) (x2 : Vec F S1x10 .f32) (x3 : Vec F S1x10 .f32) (x4 : Vec F S1x10 .f32) : Vec F S1x10 .f32 :=
  VS5_1.read (Elt F) (VS5_1.writes (Elt F) VS5_1.junk (kernelRun5_A c i arg2 harg2 arg3 harg3 arg4 harg4 arg5 harg5 arg6 harg6 arg7 harg7 arg8 harg8 arg9 harg9 arg10 harg10 hc0 hc1 x0 x1 x2 x3 x4).2.2.2.1)

/-- A point of kind B stores nothing into output 5 (the window is idle there and not written back): no pieces — a
    placeholder that nothing consults. -/
def out5_B_5 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : ¬cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) : Vec F S8x10 .f32 :=
  VO5_5.read (Elt F) (VO5_5.writes (Elt F) VO5_5.junk (kernelRun5_B c i arg2 harg2 arg3 harg3 arg4 harg4 arg5 harg5 arg6 harg6 arg7 harg7 arg8 harg8 arg9 harg9 arg10 harg10 hc0 hc1 x0 x1 x2 x3 x4 xs0 xs1).1)

/-- A point of kind B stores nothing into output 6 (the window is idle there and not written back): no pieces — a
    placeholder that nothing consults. -/
def out5_B_6 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : ¬cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) : Vec F S8x10 .f32 :=
  VO5_6.read (Elt F) (VO5_6.writes (Elt F) VO5_6.junk (kernelRun5_B c i arg2 harg2 arg3 harg3 arg4 harg4 arg5 harg5 arg6 harg6 arg7 harg7 arg8 harg8 arg9 harg9 arg10 harg10 hc0 hc1 x0 x1 x2 x3 x4 xs0 xs1).2.1)

/-- At a point of kind B the pieces for the running maximum tile it (whole-buffer stores), so they cover it. -/
theorem scover5_B_0 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : ¬cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) (y : S1x10.Idx) :
    ∃ pc ∈ (kernelRun5_B c i arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun5_B c i arg2 harg2 arg3 harg3 arg4 harg4 arg5 harg5 arg6 harg6 arg7 harg7 arg8 harg8 arg9 harg9 arg10 harg10 hc0 hc1 x0 x1 x2 x3 x4 xs0 xs1).2.2.1 S1x10.size (by sl_kernel_rfl) y

/-- What a point of kind B leaves in the running maximum: its pieces read back over junk. -/
def sout5_B_0 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : ¬cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) : Vec F S1x10 .f32 :=
  VS5_0.read (Elt F) (VS5_0.writes (Elt F) VS5_0.junk (kernelRun5_B c i arg2 harg2 arg3 harg3 arg4 harg4 arg5 harg5 arg6 harg6 arg7 harg7 arg8 harg8 arg9 harg9 arg10 harg10 hc0 hc1 x0 x1 x2 x3 x4 xs0 xs1).2.2.1)

/-- At a point of kind B the pieces for the running sum tile it (whole-buffer stores), so they cover it. -/
theorem scover5_B_1 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : ¬cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) (y : S1x10.Idx) :
    ∃ pc ∈ (kernelRun5_B c i arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun5_B c i arg2 harg2 arg3 harg3 arg4 harg4 arg5 harg5 arg6 harg6 arg7 harg7 arg8 harg8 arg9 harg9 arg10 harg10 hc0 hc1 x0 x1 x2 x3 x4 xs0 xs1).2.2.2.1 S1x10.size (by sl_kernel_rfl) y

/-- What a point of kind B leaves in the running sum: its pieces read back over junk. -/
def sout5_B_1 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : ¬cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) : Vec F S1x10 .f32 :=
  VS5_1.read (Elt F) (VS5_1.writes (Elt F) VS5_1.junk (kernelRun5_B c i arg2 harg2 arg3 harg3 arg4 harg4 arg5 harg5 arg6 harg6 arg7 harg7 arg8 harg8 arg9 harg9 arg10 harg10 hc0 hc1 x0 x1 x2 x3 x4 xs0 xs1).2.2.2.1)

/-- At a point of kind C the pieces for output 5 tile its block (one store of the whole block), so they cover it. -/
theorem cover5_C_5 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) (y : S8x10.Idx) :
    ∃ pc ∈ (kernelRun5_C c i arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun5_C c i arg2 harg2 arg3 harg3 arg4 harg4 arg5 harg5 arg6 harg6 arg7 harg7 arg8 harg8 arg9 harg9 arg10 harg10 hc0 hc1 x0 x1 x2 x3 x4 xs0 xs1).1 S8x10.size (by sl_kernel_rfl) y

/-- What a point of kind C leaves in output 5's staging buffer: its pieces read back over junk. -/
def out5_C_5 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) : Vec F S8x10 .f32 :=
  VO5_5.read (Elt F) (VO5_5.writes (Elt F) VO5_5.junk (kernelRun5_C c i arg2 harg2 arg3 harg3 arg4 harg4 arg5 harg5 arg6 harg6 arg7 harg7 arg8 harg8 arg9 harg9 arg10 harg10 hc0 hc1 x0 x1 x2 x3 x4 xs0 xs1).1)

/-- At a point of kind C the pieces for output 6 tile its block (one store of the whole block), so they cover it. -/
theorem cover5_C_6 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) (y : S8x10.Idx) :
    ∃ pc ∈ (kernelRun5_C c i arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun5_C c i arg2 harg2 arg3 harg3 arg4 harg4 arg5 harg5 arg6 harg6 arg7 harg7 arg8 harg8 arg9 harg9 arg10 harg10 hc0 hc1 x0 x1 x2 x3 x4 xs0 xs1).2.1 S8x10.size (by sl_kernel_rfl) y

/-- What a point of kind C leaves in output 6's staging buffer: its pieces read back over junk. -/
def out5_C_6 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) : Vec F S8x10 .f32 :=
  VO5_6.read (Elt F) (VO5_6.writes (Elt F) VO5_6.junk (kernelRun5_C c i arg2 harg2 arg3 harg3 arg4 harg4 arg5 harg5 arg6 harg6 arg7 harg7 arg8 harg8 arg9 harg9 arg10 harg10 hc0 hc1 x0 x1 x2 x3 x4 xs0 xs1).2.1)

/-- At a point of kind C the pieces for the running maximum tile it (whole-buffer stores), so they cover it. -/
theorem scover5_C_0 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) (y : S1x10.Idx) :
    ∃ pc ∈ (kernelRun5_C c i arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun5_C c i arg2 harg2 arg3 harg3 arg4 harg4 arg5 harg5 arg6 harg6 arg7 harg7 arg8 harg8 arg9 harg9 arg10 harg10 hc0 hc1 x0 x1 x2 x3 x4 xs0 xs1).2.2.1 S1x10.size (by sl_kernel_rfl) y

/-- What a point of kind C leaves in the running maximum: its pieces read back over junk. -/
def sout5_C_0 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) : Vec F S1x10 .f32 :=
  VS5_0.read (Elt F) (VS5_0.writes (Elt F) VS5_0.junk (kernelRun5_C c i arg2 harg2 arg3 harg3 arg4 harg4 arg5 harg5 arg6 harg6 arg7 harg7 arg8 harg8 arg9 harg9 arg10 harg10 hc0 hc1 x0 x1 x2 x3 x4 xs0 xs1).2.2.1)

/-- At a point of kind C the pieces for the running sum tile it (whole-buffer stores), so they cover it. -/
theorem scover5_C_1 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) (y : S1x10.Idx) :
    ∃ pc ∈ (kernelRun5_C c i arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun5_C c i arg2 harg2 arg3 harg3 arg4 harg4 arg5 harg5 arg6 harg6 arg7 harg7 arg8 harg8 arg9 harg9 arg10 harg10 hc0 hc1 x0 x1 x2 x3 x4 xs0 xs1).2.2.2.1 S1x10.size (by sl_kernel_rfl) y

/-- What a point of kind C leaves in the running sum: its pieces read back over junk. -/
def sout5_C_1 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i)
    (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) : Vec F S1x10 .f32 :=
  VS5_1.read (Elt F) (VS5_1.writes (Elt F) VS5_1.junk (kernelRun5_C c i arg2 harg2 arg3 harg3 arg4 harg4 arg5 harg5 arg6 harg6 arg7 harg7 arg8 harg8 arg9 harg9 arg10 harg10 hc0 hc1 x0 x1 x2 x3 x4 xs0 xs1).2.2.2.1)

/-! ## What the outputs and the accumulators hold after each point -/

/-- THE ACCUMULATION. What the two outputs' staging buffers and the two accumulators hold after the body at position
    `n` (output 5, output 6, the running maximum, the running sum): the kind of point the closed forms select at `n`, run
    at the point's memrefs and input blocks, the accumulators entering at what this leaves at `n - 1`. No point is of both
    kinds A and C. -/
def outsAt5 (c : Dev nD) : (n : ℕ) → n < cfg5.N → Vec F S8x10 .f32 × Vec F S8x10 .f32 × Vec F S1x10 .f32 × Vec F S1x10 .f32
  | 0, hn => (out5_A_5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) scM5_1 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩), out5_A_6 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) scM5_1 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) scM5_1 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩), sout5_A_1 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) (ms5_6 ⟨0, hn⟩) (hs5_6 ⟨0, hn⟩) scM5_0 (Memref.isWhole_whole _) scM5_1 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩))
  | n + 1, hn =>
    if h0 : (n + 1) % 16 = 0 then
      if h1 : (n + 1) % 16 = 15 then
        False.elim (by omega)
      else
        (out5_A_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩), out5_A_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩), sout5_A_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩))
    else
      if h1 : (n + 1) % 16 = 15 then
        (out5_C_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2.1 (outsAt5 c n (Nat.lt_of_succ_lt hn)).2.2.2, out5_C_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2.1 (outsAt5 c n (Nat.lt_of_succ_lt hn)).2.2.2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2.1 (outsAt5 c n (Nat.lt_of_succ_lt hn)).2.2.2, sout5_C_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2.1 (outsAt5 c n (Nat.lt_of_succ_lt hn)).2.2.2)
      else
        (out5_B_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2.1 (outsAt5 c n (Nat.lt_of_succ_lt hn)).2.2.2, out5_B_6 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2.1 (outsAt5 c n (Nat.lt_of_succ_lt hn)).2.2.2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2.1 (outsAt5 c n (Nat.lt_of_succ_lt hn)).2.2.2, sout5_B_1 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (ms5_6 ⟨n + 1, hn⟩) (hs5_6 ⟨n + 1, hn⟩) scM5_0 (Memref.isWhole_whole _) scM5_1 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2.2.1 (outsAt5 c n (Nat.lt_of_succ_lt hn)).2.2.2)

/-- `outsAt5` at a point of kind A: that kind's contents. -/
theorem outsAt5_A (c : Dev nD) (t : Fin cfg5.N) (h0 : t.val % 16 = 0) (h1 : ¬t.val % 16 = 15) :
    outsAt5 V c t.val t.isLt = (out5_A_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t), out5_A_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t), sout5_A_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t)) := by
  obtain ⟨n, hn⟩ := t
  cases n with
  | zero => exact rfl
  | succ n => exact (dif_pos h0).trans ((dif_neg h1).trans rfl)

/-- `outsAt5` at a point of kind B: that kind's contents, over what the point before left. -/
theorem outsAt5_B (c : Dev nD) (t : Fin cfg5.N) (h0 : ¬t.val % 16 = 0) (h1 : ¬t.val % 16 = 15) :
    outsAt5 V c t.val t.isLt = (out5_B_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2.2.1 (outsAt5 V c (t.val - 1) (Nat.lt_of_le_of_lt (Nat.sub_le _ _) t.isLt)).2.2.2, out5_B_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2.2.1 (outsAt5 V c (t.val - 1) (Nat.lt_of_le_of_lt (Nat.sub_le _ _) t.isLt)).2.2.2, sout5_B_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2.2.1 (outsAt5 V c (t.val - 1) (Nat.lt_of_le_of_lt (Nat.sub_le _ _) t.isLt)).2.2.2, sout5_B_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)).2.2.1 (outsAt5 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt5` at a point of kind C: that kind's contents, over what the point before left. -/
theorem outsAt5_C (c : Dev nD) (t : Fin cfg5.N) (h0 : ¬t.val % 16 = 0) (h1 : t.val % 16 = 15) :
    outsAt5 V c t.val t.isLt = (out5_C_5 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2.2.1 (outsAt5 V c (t.val - 1) (Nat.lt_of_le_of_lt (Nat.sub_le _ _) t.isLt)).2.2.2, out5_C_6 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2.2.1 (outsAt5 V c (t.val - 1) (Nat.lt_of_le_of_lt (Nat.sub_le _ _) t.isLt)).2.2.2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2.2.1 (outsAt5 V c (t.val - 1) (Nat.lt_of_le_of_lt (Nat.sub_le _ _) t.isLt)).2.2.2, sout5_C_1 c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)).2.2.1 (outsAt5 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands the region (every scoped
    buffer at anything); afterwards the two accumulators at what the point before left in them, the other scoped buffers
    unopened, and the generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare (outsAt5 V c n hn).2.2.1 ∗ owns (c : Thread nD τ) scM5_1 fullShare (outsAt5 V c n hn).2.2.2) ∗ rest5 c) ∗ (∃ r, prngReg c r))

theorem PhiS5_zero (c : Dev nD) (n : ℕ) (h : n ≤ cfg5.N) (hz : n = 0) : PhiS5 V c n h = Pipeline.ΦA spec5 c := by
  subst hz; rfl

/-- After point `n` (before point `n + 1`): the accumulators at that point's contents. -/
theorem PhiS5_succ (c : Dev nD) (n : ℕ) (hn : n < cfg5.N) :
    PhiS5 V c (n + 1) hn = iprop(iprop(iprop(owns (c : Thread nD τ) scM5_0 fullShare (outsAt5 V c n hn).2.2.1 ∗ owns (c : Thread nD τ) scM5_1 fullShare (outsAt5 V c n hn).2.2.2) ∗ rest5 c) ∗ (∃ r, prngReg c r)) := rfl

/-- Before a point that is not the first: the accumulators at what the point before left. -/
theorem PhiS5_pos (c : Dev nD) (n : ℕ) (h : n ≤ cfg5.N) (hz : n ≠ 0) :
    PhiS5 V c n h = iprop(iprop(iprop(owns (c : Thread nD τ) scM5_0 fullShare (outsAt5 V c (n - 1) (by omega)).2.2.1 ∗ owns (c : Thread nD τ) scM5_1 fullShare (outsAt5 V c (n - 1) (by omega)).2.2.2) ∗ rest5 c) ∗ (∃ r, prngReg c r)) := by
  cases n with
  | zero => exact absurd rfl hz
  | succ n => rfl

/-! ## The pipeline's proof data -/

/-- The proof data of pipeline 5 on core `c`: the arrays as the region finds them; after the body at point `t` each
    input's buffer at its block and the outputs' at `outsAt5`'s first two components; the invariant `PhiS5`; nothing
    owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
    | ⟨6, _⟩ => (outsAt5 V c t.val t.isLt).2.1
  Φ t := PhiS5 V c t.val (Nat.le_of_lt_succ t.isLt)
  q _ := fullShare
  owed _ := 0

/-- The proof data's arrays are the region-entry contents. -/
theorem A_eq5 (c : Dev nD) (w : Fin cfg5.W) : (dat5 V c).A w = V c (Pipeline.arrRef spec5 w) := by
  dsimp only [dat5]

/-- The invariant at a point's start, restated at `t.val`. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt).1 := by dsimp only [dat5]
theorem after5_6 (c : Dev nD) (t : Fin cfg5.N) : (dat5 V c).after 6 t = (outsAt5 V c t.val t.isLt).2.1 := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d))
    ∗ (∃ d, owns (c : Thread nD τ) (ms5_6 t) fullShare ((dat5 V c).before 6 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t
    ∗ (dat5 V c).leavesExact 6 t)

set_option maxHeartbeats 4800000 in
/-- The body at any point: the inputs' memrefs hold their blocks; the closed forms say which kind the point is of; so that
    kind's run applies; the invariant hands the body the two accumulators at what the point before left (at anything
    at the first point) and takes them back at this point's contents; the other scoped buffers, the generator register
    and the core's `owes` pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  have hN : t.val < 32 := lt_of_lt_of_eq t.isLt (show cfg5.N = 32 from N_5)
  by_cases h0 : t.val % 16 = 0
  · by_cases h1 : t.val % 16 = 15
    · exfalso; omega
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t], after5_4]
      rw [Dat.leavesExact_idle (dat5 V c) 5 t (idleAt5_5_A t ((hcond5_0 t).mpr h0) (fun h => h1 ((hcond5_1 t).mp h))) (noFlush5_5_A t ((hcond5_0 t).mpr h0) (fun h => h1 ((hcond5_1 t).mp h)))]
      rw [Dat.leavesExact_idle (dat5 V c) 6 t (idleAt5_6_A t ((hcond5_0 t).mpr h0) (fun h => h1 ((hcond5_1 t).mp h))) (noFlush5_6_A t ((hcond5_0 t).mpr h0) (fun h => h1 ((hcond5_1 t).mp h)))]
      rw [outsAt5_A V c t h0 h1]
      unfold sout5_A_0 sout5_A_1; (try dsimp only)
      by_cases hz : t.val = 0
      ·
        rw [PhiS5_castSucc V c t, PhiS5_zero V c _ _ hz, PhiA5_eq]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun5_A c (grid5.coords t) _ _ _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover5_A_0 c _ _ _ _ _ _ _ _ _ _ _ _ _ _ _ _ _ _ _ _ _ _ _ _ _ _)
              unfold owns; iexists _; isplitr
              swap; · iexact HS1
              ipureintro; exact View.read_writes_of_cover _ _ _ _ _ (scover5_A_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
      ·
        rw [PhiS5_castSucc V c t, PhiS5_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun5_A c (grid5.coords t) _ _ _ _ _ _ _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover5_A_0 c _ _ _ _ _ _ _ _ _ _ _ _ _ _ _ _ _ _ _ _ _ _ _ _ _ _)
              unfold owns; iexists _; isplitr
              swap; · iexact HS1
              ipureintro; exact View.read_writes_of_cover _ _ _ _ _ (scover5_A_1 c _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6
  · by_cases h1 : t.val % 16 = 15
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t], after5_4]
      rw [show (dat5 V c).leavesExact 5 t = owns (c : Thread nD τ) (ms5_5 t) fullShare ((dat5 V c).after 5 t) from by
        unfold Dat.leavesExact; rw [liveAt5_5_C t (fun h => h0 ((hcond5_0 t).mp h)) ((hcond5_1 t).mpr h1)], after5_5]
      rw [show (dat5 V c).leavesExact 6 t = owns (c : Thread nD τ) (ms5_6 t) fullShare ((dat5 V c).after 6 t) from by
        unfold Dat.leavesExact; rw [liveAt5_6_C t (fun h => h0 ((hcond5_0 t).mp h)) ((hcond5_1 t).mpr h1)], after5_6]
      rw [outsAt5_C V c t h0 h1]
      unfold out5_C_5 out5_C_6 sout5_C_0 sout5_C_1; (try dsimp only)
      by_cases hz : t.val = 0
      · exfalso; omega
      ·
        rw [PhiS5_castSucc V c t, PhiS5_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun5_C c (grid5.coords t) _ _ _ _ _ _ _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [HS0]; · iexact HS0
        isplitl [HS1]; · iexact HS1
        iintro ⟨H0, H1, H2, H3, H4, ⟨%e5, H5⟩, ⟨%e6, H6⟩, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover5_C_0 c _ _ _ _ _ _ _ _ _ _ _ _ _ _ _ _ _ _ _ _ _ _ _ _ _ _ _ _)
              unfold owns; iexists _; isplitr
              swap; · iexact HS1
              ipureintro; exact View.read_writes_of_cover _ _ _ _ _ (scover5_C_1 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover5_C_5 c _ _ _ _ _ _ _ _ _ _ _ _ _ _ _ _ _ _ _ _ _ _ _ _ _ _ _ _)
        unfold owns; iexists _; isplitr
        swap; · iexact H6
        ipureintro; exact View.read_writes_of_cover _ _ _ _ _ (cover5_C_6 c _ _ _ _ _ _ _ _ _ _ _ _ _ _ _ _ _ _ _ _ _ _ _ _ _ _ _ _)
    ·
      rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4 t], after5_4]
      rw [Dat.leavesExact_idle (dat5 V c) 5 t (idleAt5_5_B t (fun h => h0 ((hcond5_0 t).mp h)) (fun h => h1 ((hcond5_1 t).mp h))) (noFlush5_5_B t (fun h => h0 ((hcond5_0 t).mp h)) (fun h => h1 ((hcond5_1 t).mp h)))]
      rw [Dat.leavesExact_idle (dat5 V c) 6 t (idleAt5_6_B t (fun h => h0 ((hcond5_0 t).mp h)) (fun h => h1 ((hcond5_1 t).mp h))) (noFlush5_6_B t (fun h => h0 ((hcond5_0 t).mp h)) (fun h => h1 ((hcond5_1 t).mp h)))]
      rw [outsAt5_B V c t h0 h1]
      unfold sout5_B_0 sout5_B_1; (try dsimp only)
      by_cases hz : t.val = 0
      · exfalso; omega
      ·
        rw [PhiS5_castSucc V c t, PhiS5_pos V c _ _ hz]
        iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
        iapply ((kernelRun5_B c (grid5.coords t) _ _ _ _ _ _ _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) _ _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1 HR Hg]
        · isplitl [HS0 HS1 HR]
          · isplitl [HS0 HS1]
            · isplitl [HS0]
              · unfold owns; iexists _; isplitr
                swap; · iexact HS0
                ipureintro; exact View.read_writes_of_cover _ _ _ _ _ (scover5_B_0 c _ _ _ _ _ _ _ _ _ _ _ _ _ _ _ _ _ _ _ _ _ _ _ _ _ _ _ _)
              unfold owns; iexists _; isplitr
              swap; · iexact HS1
              ipureintro; exact View.read_writes_of_cover _ _ _ _ _ (scover5_B_1 c _ _ _ _ _ _ _ _ _ _ _ _ _ _ _ _ _ _ _ _ _ _ _ _ _ _ _ _)
            iexact HR
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        iexists _; iexact H6

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## The invariant at the region's ends -/

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives back what the launch handed: the accumulators' named contents are
    forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout5 (c : Dev nD) : (dat5 V c).Φ (Fin.last cfg5.N) ⊢ Pipeline.ΦA spec5 c :=
  Phi_out5 V c _ (by rw [Fin.val_last]; have : cfg5.N = 32 := N_5; omega)

end Cert.KernelIdeal.Hand

end
-- ==== Proof.KI.R6.Frame.lean ====
/- The frame lemmas of REGION 6 of @main (custom_call 6, the softmax normalisation): a pipeline over a grid of 32
   points with eight windows — window 0 the raw block of 2048 rows, fetched at every point; windows 1-6 the row
   vectors mean, variance, scale, shift, maximum and sum, fetched at the first point only; window 7 the output block,
   written back at every point. The body keeps no state between points and has no conditional: at every point it
   reads its seven inputs and stores, over the whole output block, the quotient
   exp(scale * (x - mean) * rsqrt(variance + eps) + shift - maximum) / sum.
   Everything is stated at a parameter V, the buffer contents when the region is entered, and at any F. -/
import proofs.«118595_j1726576853663_2_alg».proof.Proof.Gen.KernelIdeal.Launch
import proofs.«118595_j1726576853663_2_alg».proof.Proof.Gen.KernelIdeal.Skeleton
import proofs.«118595_j1726576853663_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, whether the point fetches it or not
    (where it is not fetched its block index has not moved and the body left the block in place), for any proof
    data whose array is `V`'s and whose body leaves the block as it found it. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, whether the point fetches it or not
    (where it is not fetched its block index has not moved and the body left the block in place), for any proof
    data whose array is `V`'s and whose body leaves the block as it found it. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, whether the point fetches it or not
    (where it is not fetched its block index has not moved and the body left the block in place), for any proof
    data whose array is `V`'s and whose body leaves the block as it found it. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, whether the point fetches it or not
    (where it is not fetched its block index has not moved and the body left the block in place), for any proof
    data whose array is `V`'s and whose body leaves the block as it found it. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, whether the point fetches it or not
    (where it is not fetched its block index has not moved and the body left the block in place), for any proof
    data whose array is `V`'s and whose body leaves the block as it found it. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, whether the point fetches it or not
    (where it is not fetched its block index has not moved and the body left the block in place), for any proof
    data whose array is `V`'s and whose body leaves the block as it found it. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, whether the point fetches it or not
    (where it is not fetched its block index has not moved and the body left the block in place), for any proof
    data whose array is `V`'s and whose body leaves the block as it found it. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses -/

/-- The whole block of 2048 rows, and the whole row vector: the only two rectangles the body touches. -/
abbrev r6_0 : Rect S2048x10 := Rect.unit (s := S2048x10) ![0, 0] S2048x10.size inb_S2048x10_S2048x10_0_0
abbrev r6_1 : Rect S1x10 := Rect.unit (s := S1x10) ![0, 0] S1x10.size inb_S1x10_S1x10_0_0

/-! ## What the body leaves in the output window's buffer -/

/-- Window 7's staging buffer after the body, from the input windows' blocks: its one store, of the quotient
    computed from the raw block `x0` and the row vectors mean `x1`, variance `x2`, scale `x3`, shift `x4`,
    maximum `x5` and sum `x6`, over the whole block. -/
def out6_7 (x0 : Vec F S2048x10 .f32) (x1 : Vec F S1x10 .f32) (x2 : Vec F S1x10 .f32) (x3 : Vec F S1x10 .f32) (x4 : Vec F S1x10 .f32) (x5 : Vec F S1x10 .f32) (x6 : Vec F S1x10 .f32) : Vec F S2048x10 .f32 :=
  View.canon [⟨r6_0, k6_pay1 (View.ld x0 r6_0) (View.ld x2 r6_1) (View.ld x3 r6_1) (View.ld x1 r6_1) (View.ld x4 r6_1) (View.ld x5 r6_1) (View.ld x6 r6_1)⟩]

/-- The one store is of the whole block, so it covers it. -/
theorem cover6_7 (p0 : Vec F S2048x10 .f32) (y : S2048x10.Idx) :
    ∃ pc ∈ ([⟨r6_0, p0⟩] : List (View.Piece (Elt F) S2048x10 .f32)), y ∈ pc.1.set :=
  View.cover_of_tiled [⟨r6_0, p0⟩] S2048x10.size (by rfl) y

/-! ## The body's triple -/

set_option maxHeartbeats 1000000 in
/-- The kernel body on whole staging memrefs, the inputs' at contents `x0 … x6` and the output's at anything, runs to
    the continuation holding the inputs' as they were and the output's at `out6_7` of the inputs'. -/
theorem sound_kernel6 (c : Dev nD) (E : Set ℕ) (i : grid6.Coords) (arg1 : Memref sig .tc .vmem S2048x10 .f32) (harg1 : arg1.IsWhole) (arg2 : Memref sig .tc .vmem S1x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S1x10 .f32) (harg7 : arg7.IsWhole) (arg8 : Memref sig .tc .vmem S2048x10 .f32) (harg8 : arg8.IsWhole)
    (x0 : Vec F S2048x10 .f32) (x1 : Vec F S1x10 .f32) (x2 : Vec F S1x10 .f32) (x3 : Vec F S1x10 .f32) (x4 : Vec F S1x10 .f32) (x5 : Vec F S1x10 .f32) (x6 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out6_7 x0 x1 x2 x3 x4 x5 x6)) -∗ K ⟨⟩))
      ⊢ wp frame (wpE (defs₀ (F := F)) Variants.none c none) E (cc6__softmax_norm_kernel i arg1 harg1 arg2 harg2 arg3 harg3 arg4 harg4 arg5 harg5 arg6 harg6 arg7 harg7 arg8 harg8) K := by
  simp only [cc6__softmax_norm_kernel_eq_skeleton]; unfold cc6__softmax_norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The pipeline's proof data -/

/-- The proof data of pipeline 6 on core `c`: the arrays as the region finds them; after the body at point `t`
    each input's buffer at its block and the output's at `out6_7` of the input blocks; the invariant the scoped
    rest and the generator register, untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The invariant at the region's ends -/

/-- What the launch hands the region is the invariant before the first point, -/
theorem hin6 (c : Dev nD) : Pipeline.ΦA spec6 c ⊢ (dat6 V c).Φ 0 := .rfl

/-- and the invariant after the last point is what the region hands back. -/
theorem hout6 (c : Dev nD) : (dat6 V c).Φ (Fin.last cfg6.N) ⊢ Pipeline.ΦA spec6 c := .rfl

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' memrefs hold their blocks, so `sound_kernel6` applies; the invariant and the
    core's `owes` pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ (grid6.coords t) _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.Assembly.lean ====
/- The seven kernel regions of @main put together. Between two items of @main (a stretch of host operations, or a
   kernel region) core c's unscoped buffers hold a valuation W j: the launch memory, then each stretch applied, and after a
   region its windows' arrays at what the write-backs of its 32 points fold to, every other buffer untouched. Each region
   is entered from all unscoped buffers at W j: its arrays are split out and put back at the exit contents; the generator
   register and the scoped buffers go into the region's invariant and come back; nothing is owed and the kernels have no
   semaphore of their own. The run then says: every weakly fair execution of @main terminates without a fault and every
   unscoped buffer ends at the last valuation; the argument arrays are read back through the fold to the launch memory
   (no stretch writes one; region 0 only reads the first through an input window). Stated at any F. -/
import proofs.«118595_j1726576853663_2_alg».proof.Proof.Gen.KernelIdeal.Launch
import proofs.«118595_j1726576853663_2_alg».proof.Proof.Gen.KernelIdeal.Skeleton
import proofs.«118595_j1726576853663_2_alg».proof.Proof.Gen.KernelIdeal.Points
import proofs.«118595_j1726576853663_2_alg».proof.Proof.Gen.KernelIdeal.Regions
import proofs.«118595_j1726576853663_2_alg».proof.Proof.KI.R0.Frame
import proofs.«118595_j1726576853663_2_alg».proof.Proof.KI.R1.Frame
import proofs.«118595_j1726576853663_2_alg».proof.Proof.KI.R2.Frame
import proofs.«118595_j1726576853663_2_alg».proof.Proof.KI.R3.Frame
import proofs.«118595_j1726576853663_2_alg».proof.Proof.KI.R4.Frame
import proofs.«118595_j1726576853663_2_alg».proof.Proof.KI.R5.Frame
import proofs.«118595_j1726576853663_2_alg».proof.Proof.KI.R6.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The class invariant from, and back to, what a region boundary hands over -/

theorem toPhiA {gr : Nat} {Wn : Nat} (win : Fin Wn → Pipeline.WinSpec sig gr) (c : Dev nD) (P : sProp 𝕄) :
    (iprop((∃ r, prngReg c r) ∗ P ∗ Pipeline.scopedRest (Ix := Unit) (Name := ℕ) (U := UR sig nD τ) (Lvl := ℕ) (Val := Elt F) win c) : sProp 𝕄)
      ⊢ Pipeline.ΦA win c := by
  unfold Pipeline.ΦA
  iintro ⟨Hp, -, Hr⟩
  isplitl [Hr]; · iexact Hr
  iexact Hp

theorem ofPhiA {gr : Nat} {Wn : Nat} (win : Fin Wn → Pipeline.WinSpec sig gr) (c : Dev nD) :
    (Pipeline.ΦA win c : sProp 𝕄)
      ⊢ iprop((∃ r, prngReg c r) ∗ BI.emp ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

variable (m : (ℓ : Loc nD τ sig) → Buf (Elt F) ℓ) (ρ : Dev nD → PrngReg)

/-! # The buffer contents at each boundary of @main: a fold from the launch memory

`W j` is what core `c`'s unscoped buffers hold before item `j` of @main (after item `j - 1`): a stretch of host
operations applies them; a kernel region leaves its windows' arrays at what its write-backs fold to and every other
buffer as it found it. -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After item 0, the host stretch `hostOps0`. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c r = W0 m ρ c r :=
  StableHlo.after_of_writes_sub hostOps0 _ hostOps0_writes h

/-- After item 1, the host stretch `hostOps0_1`. -/
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
theorem W2_of (c : Dev nD) (r : Ref sig .tc) (h : r ∉ hostOps0_1_W) : W2 m ρ c r = W1 m ρ c r :=
  StableHlo.after_of_writes_sub hostOps0_1 _ hostOps0_1_writes h

/-- After item 2, the host stretch `hostOps0_2`. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
theorem W3_of (c : Dev nD) (r : Ref sig .tc) (h : r ∉ hostOps0_2_W) : W3 m ρ c r = W2 m ρ c r :=
  StableHlo.after_of_writes_sub hostOps0_2 _ hostOps0_2_writes h

/-- After item 3, the host stretch `hostOps0_3`. -/
abbrev W4 : Dev nD → Valuation τ sig (Elt F) := fun c => StableHlo.after hostOps0_3 (W3 m ρ c)
abbrev V4 : (c : Dev nD) → (b : Ref sig .tc) → Buf (Elt F) ((c : Thread nD τ).loc b) := fun c b => W4 m ρ c b
theorem W4_of (c : Dev nD) (r : Ref sig .tc) (h : r ∉ hostOps0_3_W) : W4 m ρ c r = W3 m ρ c r :=
  StableHlo.after_of_writes_sub hostOps0_3 _ hostOps0_3_writes h

/-- After item 4, the host stretch `hostOps0_4`. -/
abbrev W5 : Dev nD → Valuation τ sig (Elt F) := fun c => StableHlo.after hostOps0_4 (W4 m ρ c)
abbrev V5 : (c : Dev nD) → (b : Ref sig .tc) → Buf (Elt F) ((c : Thread nD τ).loc b) := fun c b => W5 m ρ c b
theorem W5_of (c : Dev nD) (r : Ref sig .tc) (h : r ∉ hostOps0_4_W) : W5 m ρ c r = W4 m ρ c r :=
  StableHlo.after_of_writes_sub hostOps0_4 _ hostOps0_4_writes h

/-- After item 5, the host stretch `hostOps0_5`. -/
abbrev W6 : Dev nD → Valuation τ sig (Elt F) := fun c => StableHlo.after hostOps0_5 (W5 m ρ c)
abbrev V6 : (c : Dev nD) → (b : Ref sig .tc) → Buf (Elt F) ((c : Thread nD τ).loc b) := fun c b => W6 m ρ c b
theorem W6_of (c : Dev nD) (r : Ref sig .tc) (h : r ∉ hostOps0_5_W) : W6 m ρ c r = W5 m ρ c r :=
  StableHlo.after_of_writes_sub hostOps0_5 _ hostOps0_5_writes h

/-- After item 6, the host stretch `hostOps0_6`. -/
abbrev W7 : Dev nD → Valuation τ sig (Elt F) := fun c => StableHlo.after hostOps0_6 (W6 m ρ c)
abbrev V7 : (c : Dev nD) → (b : Ref sig .tc) → Buf (Elt F) ((c : Thread nD τ).loc b) := fun c b => W7 m ρ c b
theorem W7_of (c : Dev nD) (r : Ref sig .tc) (h : r ∉ hostOps0_6_W) : W7 m ρ c r = W6 m ρ c r :=
  StableHlo.after_of_writes_sub hostOps0_6 _ hostOps0_6_writes h

/-- After item 7, the host stretch `hostOps0_7`. -/
abbrev W8 : Dev nD → Valuation τ sig (Elt F) := fun c => StableHlo.after hostOps0_7 (W7 m ρ c)
abbrev V8 : (c : Dev nD) → (b : Ref sig .tc) → Buf (Elt F) ((c : Thread nD τ).loc b) := fun c b => W8 m ρ c b
theorem W8_of (c : Dev nD) (r : Ref sig .tc) (h : r ∉ hostOps0_7_W) : W8 m ρ c r = W7 m ρ c r :=
  StableHlo.after_of_writes_sub hostOps0_7 _ hostOps0_7_writes h

/-- After item 8, the host stretch `hostOps0_8`. -/
abbrev W9 : Dev nD → Valuation τ sig (Elt F) := fun c => StableHlo.after hostOps0_8 (W8 m ρ c)
abbrev V9 : (c : Dev nD) → (b : Ref sig .tc) → Buf (Elt F) ((c : Thread nD τ).loc b) := fun c b => W9 m ρ c b
theorem W9_of (c : Dev nD) (r : Ref sig .tc) (h : r ∉ hostOps0_8_W) : W9 m ρ c r = W8 m ρ c r :=
  StableHlo.after_of_writes_sub hostOps0_8 _ hostOps0_8_writes h

/-- After item 9, the host stretch `hostOps0_9`. -/
abbrev W10 : Dev nD → Valuation τ sig (Elt F) := fun c => StableHlo.after hostOps0_9 (W9 m ρ c)
abbrev V10 : (c : Dev nD) → (b : Ref sig .tc) → Buf (Elt F) ((c : Thread nD τ).loc b) := fun c b => W10 m ρ c b
theorem W10_of (c : Dev nD) (r : Ref sig .tc) (h : r ∉ hostOps0_9_W) : W10 m ρ c r = W9 m ρ c r :=
  StableHlo.after_of_writes_sub hostOps0_9 _ hostOps0_9_writes h

/-- After item 10, the host stretch `hostOps0_10`. -/
abbrev W11 : Dev nD → Valuation τ sig (Elt F) := fun c => StableHlo.after hostOps0_10 (W10 m ρ c)
abbrev V11 : (c : Dev nD) → (b : Ref sig .tc) → Buf (Elt F) ((c : Thread nD τ).loc b) := fun c b => W11 m ρ c b
theorem W11_of (c : Dev nD) (r : Ref sig .tc) (h : r ∉ hostOps0_10_W) : W11 m ρ c r = W10 m ρ c r :=
  StableHlo.after_of_writes_sub hostOps0_10 _ hostOps0_10_writes h

/-- After item 11, kernel region 0: its arrays at what the pipeline leaves, every other buffer as entered. -/
def W12 (c : Dev nD) : Valuation τ sig (Elt F) :=
  Pipeline.withArrays spec0 c (W11 m ρ c) fun w => (dat0 (V11 m ρ) c).arrAt w cfg0.N
theorem W12_arr (c : Dev nD) (w : Fin cfg0.W) :
    W12 m ρ c (Proc.devRef .tc (Pipeline.arrRef spec0 w)) = (dat0 (V11 m ρ) c).arrAt w cfg0.N := by
  unfold W12; exact Pipeline.withArrays_arr spec0 launch0.win.arr_inj c _ _ w
theorem W12_of_ne (c : Dev nD) (b : Ref sig .tc) (hb : ∀ w, Pipeline.arrRef spec0 w ≠ b) :
    W12 m ρ c (Proc.devRef .tc b) = W11 m ρ c (Proc.devRef .tc b) := by
  unfold W12; exact Pipeline.withArrays_of_ne spec0 c _ _ b hb
abbrev V12 : (c : Dev nD) → (b : Ref sig .tc) → Buf (Elt F) ((c : Thread nD τ).loc b) := fun c b => W12 m ρ c b
theorem hF0 (c : Dev nD) (w : Fin cfg0.W) : (dat0 (V11 m ρ) c).arrAt w cfg0.N = V12 m ρ c (Pipeline.arrRef spec0 w) :=
  (W12_arr m ρ c w).symm
theorem hrest0 (c : Dev nD) : ∀ b, b ∉ Finset.univ.image (Pipeline.arrRef spec0) → V12 m ρ c b = V11 m ρ c b :=
  fun b hb => W12_of_ne m ρ c b fun w e => hb (Finset.mem_image.mpr ⟨w, Finset.mem_univ _, e⟩)

/-- After item 12, the host stretch `hostOps1`. -/
abbrev W13 : Dev nD → Valuation τ sig (Elt F) := fun c => StableHlo.after hostOps1 (W12 m ρ c)
abbrev V13 : (c : Dev nD) → (b : Ref sig .tc) → Buf (Elt F) ((c : Thread nD τ).loc b) := fun c b => W13 m ρ c b
theorem W13_of (c : Dev nD) (r : Ref sig .tc) (h : r ∉ hostOps1_W) : W13 m ρ c r = W12 m ρ c r :=
  StableHlo.after_of_writes_sub hostOps1 _ hostOps1_writes h

/-- After item 13, kernel region 1: its arrays at what the pipeline leaves, every other buffer as entered. -/
def W14 (c : Dev nD) : Valuation τ sig (Elt F) :=
  Pipeline.withArrays spec1 c (W13 m ρ c) fun w => (dat1 (V13 m ρ) c).arrAt w cfg1.N
theorem W14_arr (c : Dev nD) (w : Fin cfg1.W) :
    W14 m ρ c (Proc.devRef .tc (Pipeline.arrRef spec1 w)) = (dat1 (V13 m ρ) c).arrAt w cfg1.N := by
  unfold W14; exact Pipeline.withArrays_arr spec1 launch1.win.arr_inj c _ _ w
theorem W14_of_ne (c : Dev nD) (b : Ref sig .tc) (hb : ∀ w, Pipeline.arrRef spec1 w ≠ b) :
    W14 m ρ c (Proc.devRef .tc b) = W13 m ρ c (Proc.devRef .tc b) := by
  unfold W14; exact Pipeline.withArrays_of_ne spec1 c _ _ b hb
abbrev V14 : (c : Dev nD) → (b : Ref sig .tc) → Buf (Elt F) ((c : Thread nD τ).loc b) := fun c b => W14 m ρ c b
theorem hF1 (c : Dev nD) (w : Fin cfg1.W) : (dat1 (V13 m ρ) c).arrAt w cfg1.N = V14 m ρ c (Pipeline.arrRef spec1 w) :=
  (W14_arr m ρ c w).symm
theorem hrest1 (c : Dev nD) : ∀ b, b ∉ Finset.univ.image (Pipeline.arrRef spec1) → V14 m ρ c b = V13 m ρ c b :=
  fun b hb => W14_of_ne m ρ c b fun w e => hb (Finset.mem_image.mpr ⟨w, Finset.mem_univ _, e⟩)

/-- After item 14, the host stretch `hostOps2`. -/
abbrev W15 : Dev nD → Valuation τ sig (Elt F) := fun c => StableHlo.after hostOps2 (W14 m ρ c)
abbrev V15 : (c : Dev nD) → (b : Ref sig .tc) → Buf (Elt F) ((c : Thread nD τ).loc b) := fun c b => W15 m ρ c b
theorem W15_of (c : Dev nD) (r : Ref sig .tc) (h : r ∉ hostOps2_W) : W15 m ρ c r = W14 m ρ c r :=
  StableHlo.after_of_writes_sub hostOps2 _ hostOps2_writes h

/-- After item 15, kernel region 2: its arrays at what the pipeline leaves, every other buffer as entered. -/
def W16 (c : Dev nD) : Valuation τ sig (Elt F) :=
  Pipeline.withArrays spec2 c (W15 m ρ c) fun w => (dat2 (V15 m ρ) c).arrAt w cfg2.N
theorem W16_arr (c : Dev nD) (w : Fin cfg2.W) :
    W16 m ρ c (Proc.devRef .tc (Pipeline.arrRef spec2 w)) = (dat2 (V15 m ρ) c).arrAt w cfg2.N := by
  unfold W16; exact Pipeline.withArrays_arr spec2 launch2.win.arr_inj c _ _ w
theorem W16_of_ne (c : Dev nD) (b : Ref sig .tc) (hb : ∀ w, Pipeline.arrRef spec2 w ≠ b) :
    W16 m ρ c (Proc.devRef .tc b) = W15 m ρ c (Proc.devRef .tc b) := by
  unfold W16; exact Pipeline.withArrays_of_ne spec2 c _ _ b hb
abbrev V16 : (c : Dev nD) → (b : Ref sig .tc) → Buf (Elt F) ((c : Thread nD τ).loc b) := fun c b => W16 m ρ c b
theorem hF2 (c : Dev nD) (w : Fin cfg2.W) : (dat2 (V15 m ρ) c).arrAt w cfg2.N = V16 m ρ c (Pipeline.arrRef spec2 w) :=
  (W16_arr m ρ c w).symm
theorem hrest2 (c : Dev nD) : ∀ b, b ∉ Finset.univ.image (Pipeline.arrRef spec2) → V16 m ρ c b = V15 m ρ c b :=
  fun b hb => W16_of_ne m ρ c b fun w e => hb (Finset.mem_image.mpr ⟨w, Finset.mem_univ _, e⟩)

/-- After item 16, the host stretch `hostOps3`. -/
abbrev W17 : Dev nD → Valuation τ sig (Elt F) := fun c => StableHlo.after hostOps3 (W16 m ρ c)
abbrev V17 : (c : Dev nD) → (b : Ref sig .tc) → Buf (Elt F) ((c : Thread nD τ).loc b) := fun c b => W17 m ρ c b
theorem W17_of (c : Dev nD) (r : Ref sig .tc) (h : r ∉ hostOps3_W) : W17 m ρ c r = W16 m ρ c r :=
  StableHlo.after_of_writes_sub hostOps3 _ hostOps3_writes h

/-- After item 17, kernel region 3: its arrays at what the pipeline leaves, every other buffer as entered. -/
def W18 (c : Dev nD) : Valuation τ sig (Elt F) :=
  Pipeline.withArrays spec3 c (W17 m ρ c) fun w => (dat3 (V17 m ρ) c).arrAt w cfg3.N
theorem W18_arr (c : Dev nD) (w : Fin cfg3.W) :
    W18 m ρ c (Proc.devRef .tc (Pipeline.arrRef spec3 w)) = (dat3 (V17 m ρ) c).arrAt w cfg3.N := by
  unfold W18; exact Pipeline.withArrays_arr spec3 launch3.win.arr_inj c _ _ w
theorem W18_of_ne (c : Dev nD) (b : Ref sig .tc) (hb : ∀ w, Pipeline.arrRef spec3 w ≠ b) :
    W18 m ρ c (Proc.devRef .tc b) = W17 m ρ c (Proc.devRef .tc b) := by
  unfold W18; exact Pipeline.withArrays_of_ne spec3 c _ _ b hb
abbrev V18 : (c : Dev nD) → (b : Ref sig .tc) → Buf (Elt F) ((c : Thread nD τ).loc b) := fun c b => W18 m ρ c b
theorem hF3 (c : Dev nD) (w : Fin cfg3.W) : (dat3 (V17 m ρ) c).arrAt w cfg3.N = V18 m ρ c (Pipeline.arrRef spec3 w) :=
  (W18_arr m ρ c w).symm
theorem hrest3 (c : Dev nD) : ∀ b, b ∉ Finset.univ.image (Pipeline.arrRef spec3) → V18 m ρ c b = V17 m ρ c b :=
  fun b hb => W18_of_ne m ρ c b fun w e => hb (Finset.mem_image.mpr ⟨w, Finset.mem_univ _, e⟩)

/-- After item 18, the host stretch `hostOps4`. -/
abbrev W19 : Dev nD → Valuation τ sig (Elt F) := fun c => StableHlo.after hostOps4 (W18 m ρ c)
abbrev V19 : (c : Dev nD) → (b : Ref sig .tc) → Buf (Elt F) ((c : Thread nD τ).loc b) := fun c b => W19 m ρ c b
theorem W19_of (c : Dev nD) (r : Ref sig .tc) (h : r ∉ hostOps4_W) : W19 m ρ c r = W18 m ρ c r :=
  StableHlo.after_of_writes_sub hostOps4 _ hostOps4_writes h

/-- After item 19, kernel region 4: its arrays at what the pipeline leaves, every other buffer as entered. -/
def W20 (c : Dev nD) : Valuation τ sig (Elt F) :=
  Pipeline.withArrays spec4 c (W19 m ρ c) fun w => (dat4 (V19 m ρ) c).arrAt w cfg4.N
theorem W20_arr (c : Dev nD) (w : Fin cfg4.W) :
    W20 m ρ c (Proc.devRef .tc (Pipeline.arrRef spec4 w)) = (dat4 (V19 m ρ) c).arrAt w cfg4.N := by
  unfold W20; exact Pipeline.withArrays_arr spec4 launch4.win.arr_inj c _ _ w
theorem W20_of_ne (c : Dev nD) (b : Ref sig .tc) (hb : ∀ w, Pipeline.arrRef spec4 w ≠ b) :
    W20 m ρ c (Proc.devRef .tc b) = W19 m ρ c (Proc.devRef .tc b) := by
  unfold W20; exact Pipeline.withArrays_of_ne spec4 c _ _ b hb
abbrev V20 : (c : Dev nD) → (b : Ref sig .tc) → Buf (Elt F) ((c : Thread nD τ).loc b) := fun c b => W20 m ρ c b
theorem hF4 (c : Dev nD) (w : Fin cfg4.W) : (dat4 (V19 m ρ) c).arrAt w cfg4.N = V20 m ρ c (Pipeline.arrRef spec4 w) :=
  (W20_arr m ρ c w).symm
theorem hrest4 (c : Dev nD) : ∀ b, b ∉ Finset.univ.image (Pipeline.arrRef spec4) → V20 m ρ c b = V19 m ρ c b :=
  fun b hb => W20_of_ne m ρ c b fun w e => hb (Finset.mem_image.mpr ⟨w, Finset.mem_univ _, e⟩)

/-- After item 20, the host stretch `hostOps5`. -/
abbrev W21 : Dev nD → Valuation τ sig (Elt F) := fun c => StableHlo.after hostOps5 (W20 m ρ c)
abbrev V21 : (c : Dev nD) → (b : Ref sig .tc) → Buf (Elt F) ((c : Thread nD τ).loc b) := fun c b => W21 m ρ c b
theorem W21_of (c : Dev nD) (r : Ref sig .tc) (h : r ∉ hostOps5_W) : W21 m ρ c r = W20 m ρ c r :=
  StableHlo.after_of_writes_sub hostOps5 _ hostOps5_writes h

/-- After item 21, kernel region 5: its arrays at what the pipeline leaves, every other buffer as entered. -/
def W22 (c : Dev nD) : Valuation τ sig (Elt F) :=
  Pipeline.withArrays spec5 c (W21 m ρ c) fun w => (dat5 (V21 m ρ) c).arrAt w cfg5.N
theorem W22_arr (c : Dev nD) (w : Fin cfg5.W) :
    W22 m ρ c (Proc.devRef .tc (Pipeline.arrRef spec5 w)) = (dat5 (V21 m ρ) c).arrAt w cfg5.N := by
  unfold W22; exact Pipeline.withArrays_arr spec5 launch5.win.arr_inj c _ _ w
theorem W22_of_ne (c : Dev nD) (b : Ref sig .tc) (hb : ∀ w, Pipeline.arrRef spec5 w ≠ b) :
    W22 m ρ c (Proc.devRef .tc b) = W21 m ρ c (Proc.devRef .tc b) := by
  unfold W22; exact Pipeline.withArrays_of_ne spec5 c _ _ b hb
abbrev V22 : (c : Dev nD) → (b : Ref sig .tc) → Buf (Elt F) ((c : Thread nD τ).loc b) := fun c b => W22 m ρ c b
theorem hF5 (c : Dev nD) (w : Fin cfg5.W) : (dat5 (V21 m ρ) c).arrAt w cfg5.N = V22 m ρ c (Pipeline.arrRef spec5 w) :=
  (W22_arr m ρ c w).symm
theorem hrest5 (c : Dev nD) : ∀ b, b ∉ Finset.univ.image (Pipeline.arrRef spec5) → V22 m ρ c b = V21 m ρ c b :=
  fun b hb => W22_of_ne m ρ c b fun w e => hb (Finset.mem_image.mpr ⟨w, Finset.mem_univ _, e⟩)

/-- After item 22, the host stretch `hostOps6`. -/
abbrev W23 : Dev nD → Valuation τ sig (Elt F) := fun c => StableHlo.after hostOps6 (W22 m ρ c)
abbrev V23 : (c : Dev nD) → (b : Ref sig .tc) → Buf (Elt F) ((c : Thread nD τ).loc b) := fun c b => W23 m ρ c b
theorem W23_of (c : Dev nD) (r : Ref sig .tc) (h : r ∉ hostOps6_W) : W23 m ρ c r = W22 m ρ c r :=
  StableHlo.after_of_writes_sub hostOps6 _ hostOps6_writes h

/-- After item 23, kernel region 6: its arrays at what the pipeline leaves, every other buffer as entered. -/
def W24 (c : Dev nD) : Valuation τ sig (Elt F) :=
  Pipeline.withArrays spec6 c (W23 m ρ c) fun w => (dat6 (V23 m ρ) c).arrAt w cfg6.N
theorem W24_arr (c : Dev nD) (w : Fin cfg6.W) :
    W24 m ρ c (Proc.devRef .tc (Pipeline.arrRef spec6 w)) = (dat6 (V23 m ρ) c).arrAt w cfg6.N := by
  unfold W24; exact Pipeline.withArrays_arr spec6 launch6.win.arr_inj c _ _ w
theorem W24_of_ne (c : Dev nD) (b : Ref sig .tc) (hb : ∀ w, Pipeline.arrRef spec6 w ≠ b) :
    W24 m ρ c (Proc.devRef .tc b) = W23 m ρ c (Proc.devRef .tc b) := by
  unfold W24; exact Pipeline.withArrays_of_ne spec6 c _ _ b hb
abbrev V24 : (c : Dev nD) → (b : Ref sig .tc) → Buf (Elt F) ((c : Thread nD τ).loc b) := fun c b => W24 m ρ c b
theorem hF6 (c : Dev nD) (w : Fin cfg6.W) : (dat6 (V23 m ρ) c).arrAt w cfg6.N = V24 m ρ c (Pipeline.arrRef spec6 w) :=
  (W24_arr m ρ c w).symm
theorem hrest6 (c : Dev nD) : ∀ b, b ∉ Finset.univ.image (Pipeline.arrRef spec6) → V24 m ρ c b = V23 m ρ c b :=
  fun b hb => W24_of_ne m ρ c b fun w e => hb (Finset.mem_image.mpr ⟨w, Finset.mem_univ _, e⟩)

/-! ## The arguments end as launched: no host operation writes one, and a region only reads one (through an input window) -/
theorem W24_main_arg0 (c : Dev nD) : W24 m ρ c (Proc.devRef .tc main_arg0) = m ((c : Thread nD τ).loc main_arg0) :=
  (W24_of_ne m ρ c main_arg0 (by decide)).trans <| (W23_of m ρ c main_arg0 (by decide)).trans <| (W22_of_ne m ρ c main_arg0 (by decide)).trans <| (W21_of m ρ c main_arg0 (by decide)).trans <| (W20_of_ne m ρ c main_arg0 (by decide)).trans <| (W19_of m ρ c main_arg0 (by decide)).trans <| (W18_of_ne m ρ c main_arg0 (by decide)).trans <| (W17_of m ρ c main_arg0 (by decide)).trans <| (W16_of_ne m ρ c main_arg0 (by decide)).trans <| (W15_of m ρ c main_arg0 (by decide)).trans <| (W14_of_ne m ρ c main_arg0 (by decide)).trans <| (W13_of m ρ c main_arg0 (by decide)).trans <| ((W12_arr m ρ c 0).trans (((dat0 (V11 m ρ) c).arrAt_in 0 rfl _).trans (A_eq0 (V11 m ρ) c 0))).trans <| (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of m ρ c main_arg0 (by decide)).trans <| (W5_of m ρ c main_arg0 (by decide)).trans <| (W4_of m ρ c main_arg0 (by decide)).trans <| (W3_of m ρ c main_arg0 (by decide)).trans <| (W2_of m ρ c main_arg0 (by decide)).trans <| (W1_of m ρ c main_arg0 (by decide)).trans <| rfl
theorem W24_main_arg1 (c : Dev nD) : W24 m ρ c (Proc.devRef .tc main_arg1) = m ((c : Thread nD τ).loc main_arg1) :=
  (W24_of_ne m ρ c main_arg1 (by decide)).trans <| (W23_of m ρ c main_arg1 (by decide)).trans <| (W22_of_ne m ρ c main_arg1 (by decide)).trans <| (W21_of m ρ c main_arg1 (by decide)).trans <| (W20_of_ne m ρ c main_arg1 (by decide)).trans <| (W19_of m ρ c main_arg1 (by decide)).trans <| (W18_of_ne m ρ c main_arg1 (by decide)).trans <| (W17_of m ρ c main_arg1 (by decide)).trans <| (W16_of_ne m ρ c main_arg1 (by decide)).trans <| (W15_of m ρ c main_arg1 (by decide)).trans <| (W14_of_ne m ρ c main_arg1 (by decide)).trans <| (W13_of m ρ c main_arg1 (by decide)).trans <| (W12_of_ne m ρ c main_arg1 (by decide)).trans <| (W11_of m ρ c main_arg1 (by decide)).trans <| (W10_of m ρ c main_arg1 (by decide)).trans <| (W9_of m ρ c main_arg1 (by decide)).trans <| (W8_of m ρ c main_arg1 (by decide)).trans <| (W7_of m ρ c main_arg1 (by decide)).trans <| (W6_of m ρ c main_arg1 (by decide)).trans <| (W5_of m ρ c main_arg1 (by decide)).trans <| (W4_of m ρ c main_arg1 (by decide)).trans <| (W3_of m ρ c main_arg1 (by decide)).trans <| (W2_of m ρ c main_arg1 (by decide)).trans <| (W1_of m ρ c main_arg1 (by decide)).trans <| rfl
theorem W24_main_arg2 (c : Dev nD) : W24 m ρ c (Proc.devRef .tc main_arg2) = m ((c : Thread nD τ).loc main_arg2) :=
  (W24_of_ne m ρ c main_arg2 (by decide)).trans <| (W23_of m ρ c main_arg2 (by decide)).trans <| (W22_of_ne m ρ c main_arg2 (by decide)).trans <| (W21_of m ρ c main_arg2 (by decide)).trans <| (W20_of_ne m ρ c main_arg2 (by decide)).trans <| (W19_of m ρ c main_arg2 (by decide)).trans <| (W18_of_ne m ρ c main_arg2 (by decide)).trans <| (W17_of m ρ c main_arg2 (by decide)).trans <| (W16_of_ne m ρ c main_arg2 (by decide)).trans <| (W15_of m ρ c main_arg2 (by decide)).trans <| (W14_of_ne m ρ c main_arg2 (by decide)).trans <| (W13_of m ρ c main_arg2 (by decide)).trans <| (W12_of_ne m ρ c main_arg2 (by decide)).trans <| (W11_of m ρ c main_arg2 (by decide)).trans <| (W10_of m ρ c main_arg2 (by decide)).trans <| (W9_of m ρ c main_arg2 (by decide)).trans <| (W8_of m ρ c main_arg2 (by decide)).trans <| (W7_of m ρ c main_arg2 (by decide)).trans <| (W6_of m ρ c main_arg2 (by decide)).trans <| (W5_of m ρ c main_arg2 (by decide)).trans <| (W4_of m ρ c main_arg2 (by decide)).trans <| (W3_of m ρ c main_arg2 (by decide)).trans <| (W2_of m ρ c main_arg2 (by decide)).trans <| (W1_of m ρ c main_arg2 (by decide)).trans <| rfl
theorem W24_main_arg3 (c : Dev nD) : W24 m ρ c (Proc.devRef .tc main_arg3) = m ((c : Thread nD τ).loc main_arg3) :=
  (W24_of_ne m ρ c main_arg3 (by decide)).trans <| (W23_of m ρ c main_arg3 (by decide)).trans <| (W22_of_ne m ρ c main_arg3 (by decide)).trans <| (W21_of m ρ c main_arg3 (by decide)).trans <| (W20_of_ne m ρ c main_arg3 (by decide)).trans <| (W19_of m ρ c main_arg3 (by decide)).trans <| (W18_of_ne m ρ c main_arg3 (by decide)).trans <| (W17_of m ρ c main_arg3 (by decide)).trans <| (W16_of_ne m ρ c main_arg3 (by decide)).trans <| (W15_of m ρ c main_arg3 (by decide)).trans <| (W14_of_ne m ρ c main_arg3 (by decide)).trans <| (W13_of m ρ c main_arg3 (by decide)).trans <| (W12_of_ne m ρ c main_arg3 (by decide)).trans <| (W11_of m ρ c main_arg3 (by decide)).trans <| (W10_of m ρ c main_arg3 (by decide)).trans <| (W9_of m ρ c main_arg3 (by decide)).trans <| (W8_of m ρ c main_arg3 (by decide)).trans <| (W7_of m ρ c main_arg3 (by decide)).trans <| (W6_of m ρ c main_arg3 (by decide)).trans <| (W5_of m ρ c main_arg3 (by decide)).trans <| (W4_of m ρ c main_arg3 (by decide)).trans <| (W3_of m ρ c main_arg3 (by decide)).trans <| (W2_of m ρ c main_arg3 (by decide)).trans <| (W1_of m ρ c main_arg3 (by decide)).trans <| rfl
theorem W24_main_arg4 (c : Dev nD) : W24 m ρ c (Proc.devRef .tc main_arg4) = m ((c : Thread nD τ).loc main_arg4) :=
  (W24_of_ne m ρ c main_arg4 (by decide)).trans <| (W23_of m ρ c main_arg4 (by decide)).trans <| (W22_of_ne m ρ c main_arg4 (by decide)).trans <| (W21_of m ρ c main_arg4 (by decide)).trans <| (W20_of_ne m ρ c main_arg4 (by decide)).trans <| (W19_of m ρ c main_arg4 (by decide)).trans <| (W18_of_ne m ρ c main_arg4 (by decide)).trans <| (W17_of m ρ c main_arg4 (by decide)).trans <| (W16_of_ne m ρ c main_arg4 (by decide)).trans <| (W15_of m ρ c main_arg4 (by decide)).trans <| (W14_of_ne m ρ c main_arg4 (by decide)).trans <| (W13_of m ρ c main_arg4 (by decide)).trans <| (W12_of_ne m ρ c main_arg4 (by decide)).trans <| (W11_of m ρ c main_arg4 (by decide)).trans <| (W10_of m ρ c main_arg4 (by decide)).trans <| (W9_of m ρ c main_arg4 (by decide)).trans <| (W8_of m ρ c main_arg4 (by decide)).trans <| (W7_of m ρ c main_arg4 (by decide)).trans <| (W6_of m ρ c main_arg4 (by decide)).trans <| (W5_of m ρ c main_arg4 (by decide)).trans <| (W4_of m ρ c main_arg4 (by decide)).trans <| (W3_of m ρ c main_arg4 (by decide)).trans <| (W2_of m ρ c main_arg4 (by decide)).trans <| (W1_of m ρ c main_arg4 (by decide)).trans <| rfl
theorem W24_main_arg5 (c : Dev nD) : W24 m ρ c (Proc.devRef .tc main_arg5) = m ((c : Thread nD τ).loc main_arg5) :=
  (W24_of_ne m ρ c main_arg5 (by decide)).trans <| (W23_of m ρ c main_arg5 (by decide)).trans <| (W22_of_ne m ρ c main_arg5 (by decide)).trans <| (W21_of m ρ c main_arg5 (by decide)).trans <| (W20_of_ne m ρ c main_arg5 (by decide)).trans <| (W19_of m ρ c main_arg5 (by decide)).trans <| (W18_of_ne m ρ c main_arg5 (by decide)).trans <| (W17_of m ρ c main_arg5 (by decide)).trans <| (W16_of_ne m ρ c main_arg5 (by decide)).trans <| (W15_of m ρ c main_arg5 (by decide)).trans <| (W14_of_ne m ρ c main_arg5 (by decide)).trans <| (W13_of m ρ c main_arg5 (by decide)).trans <| (W12_of_ne m ρ c main_arg5 (by decide)).trans <| (W11_of m ρ c main_arg5 (by decide)).trans <| (W10_of m ρ c main_arg5 (by decide)).trans <| (W9_of m ρ c main_arg5 (by decide)).trans <| (W8_of m ρ c main_arg5 (by decide)).trans <| (W7_of m ρ c main_arg5 (by decide)).trans <| (W6_of m ρ c main_arg5 (by decide)).trans <| (W5_of m ρ c main_arg5 (by decide)).trans <| (W4_of m ρ c main_arg5 (by decide)).trans <| (W3_of m ρ c main_arg5 (by decide)).trans <| (W2_of m ρ c main_arg5 (by decide)).trans <| (W1_of m ρ c main_arg5 (by decide)).trans <| rfl
theorem W24_main_arg6 (c : Dev nD) : W24 m ρ c (Proc.devRef .tc main_arg6) = m ((c : Thread nD τ).loc main_arg6) :=
  (W24_of_ne m ρ c main_arg6 (by decide)).trans <| (W23_of m ρ c main_arg6 (by decide)).trans <| (W22_of_ne m ρ c main_arg6 (by decide)).trans <| (W21_of m ρ c main_arg6 (by decide)).trans <| (W20_of_ne m ρ c main_arg6 (by decide)).trans <| (W19_of m ρ c main_arg6 (by decide)).trans <| (W18_of_ne m ρ c main_arg6 (by decide)).trans <| (W17_of m ρ c main_arg6 (by decide)).trans <| (W16_of_ne m ρ c main_arg6 (by decide)).trans <| (W15_of m ρ c main_arg6 (by decide)).trans <| (W14_of_ne m ρ c main_arg6 (by decide)).trans <| (W13_of m ρ c main_arg6 (by decide)).trans <| (W12_of_ne m ρ c main_arg6 (by decide)).trans <| (W11_of m ρ c main_arg6 (by decide)).trans <| (W10_of m ρ c main_arg6 (by decide)).trans <| (W9_of m ρ c main_arg6 (by decide)).trans <| (W8_of m ρ c main_arg6 (by decide)).trans <| (W7_of m ρ c main_arg6 (by decide)).trans <| (W6_of m ρ c main_arg6 (by decide)).trans <| (W5_of m ρ c main_arg6 (by decide)).trans <| (W4_of m ρ c main_arg6 (by decide)).trans <| (W3_of m ρ c main_arg6 (by decide)).trans <| (W2_of m ρ c main_arg6 (by decide)).trans <| (W1_of m ρ c main_arg6 (by decide)).trans <| rfl
theorem W24_main_arg7 (c : Dev nD) : W24 m ρ c (Proc.devRef .tc main_arg7) = m ((c : Thread nD τ).loc main_arg7) :=
  (W24_of_ne m ρ c main_arg7 (by decide)).trans <| (W23_of m ρ c main_arg7 (by decide)).trans <| (W22_of_ne m ρ c main_arg7 (by decide)).trans <| (W21_of m ρ c main_arg7 (by decide)).trans <| (W20_of_ne m ρ c main_arg7 (by decide)).trans <| (W19_of m ρ c main_arg7 (by decide)).trans <| (W18_of_ne m ρ c main_arg7 (by decide)).trans <| (W17_of m ρ c main_arg7 (by decide)).trans <| (W16_of_ne m ρ c main_arg7 (by decide)).trans <| (W15_of m ρ c main_arg7 (by decide)).trans <| (W14_of_ne m ρ c main_arg7 (by decide)).trans <| (W13_of m ρ c main_arg7 (by decide)).trans <| (W12_of_ne m ρ c main_arg7 (by decide)).trans <| (W11_of m ρ c main_arg7 (by decide)).trans <| (W10_of m ρ c main_arg7 (by decide)).trans <| (W9_of m ρ c main_arg7 (by decide)).trans <| (W8_of m ρ c main_arg7 (by decide)).trans <| (W7_of m ρ c main_arg7 (by decide)).trans <| (W6_of m ρ c main_arg7 (by decide)).trans <| (W5_of m ρ c main_arg7 (by decide)).trans <| (W4_of m ρ c main_arg7 (by decide)).trans <| (W3_of m ρ c main_arg7 (by decide)).trans <| (W2_of m ρ c main_arg7 (by decide)).trans <| (W1_of m ρ c main_arg7 (by decide)).trans <| rfl
theorem W24_main_arg8 (c : Dev nD) : W24 m ρ c (Proc.devRef .tc main_arg8) = m ((c : Thread nD τ).loc main_arg8) :=
  (W24_of_ne m ρ c main_arg8 (by decide)).trans <| (W23_of m ρ c main_arg8 (by decide)).trans <| (W22_of_ne m ρ c main_arg8 (by decide)).trans <| (W21_of m ρ c main_arg8 (by decide)).trans <| (W20_of_ne m ρ c main_arg8 (by decide)).trans <| (W19_of m ρ c main_arg8 (by decide)).trans <| (W18_of_ne m ρ c main_arg8 (by decide)).trans <| (W17_of m ρ c main_arg8 (by decide)).trans <| (W16_of_ne m ρ c main_arg8 (by decide)).trans <| (W15_of m ρ c main_arg8 (by decide)).trans <| (W14_of_ne m ρ c main_arg8 (by decide)).trans <| (W13_of m ρ c main_arg8 (by decide)).trans <| (W12_of_ne m ρ c main_arg8 (by decide)).trans <| (W11_of m ρ c main_arg8 (by decide)).trans <| (W10_of m ρ c main_arg8 (by decide)).trans <| (W9_of m ρ c main_arg8 (by decide)).trans <| (W8_of m ρ c main_arg8 (by decide)).trans <| (W7_of m ρ c main_arg8 (by decide)).trans <| (W6_of m ρ c main_arg8 (by decide)).trans <| (W5_of m ρ c main_arg8 (by decide)).trans <| (W4_of m ρ c main_arg8 (by decide)).trans <| (W3_of m ρ c main_arg8 (by decide)).trans <| (W2_of m ρ c main_arg8 (by decide)).trans <| (W1_of m ρ c main_arg8 (by decide)).trans <| rfl
theorem W24_main_arg9 (c : Dev nD) : W24 m ρ c (Proc.devRef .tc main_arg9) = m ((c : Thread nD τ).loc main_arg9) :=
  (W24_of_ne m ρ c main_arg9 (by decide)).trans <| (W23_of m ρ c main_arg9 (by decide)).trans <| (W22_of_ne m ρ c main_arg9 (by decide)).trans <| (W21_of m ρ c main_arg9 (by decide)).trans <| (W20_of_ne m ρ c main_arg9 (by decide)).trans <| (W19_of m ρ c main_arg9 (by decide)).trans <| (W18_of_ne m ρ c main_arg9 (by decide)).trans <| (W17_of m ρ c main_arg9 (by decide)).trans <| (W16_of_ne m ρ c main_arg9 (by decide)).trans <| (W15_of m ρ c main_arg9 (by decide)).trans <| (W14_of_ne m ρ c main_arg9 (by decide)).trans <| (W13_of m ρ c main_arg9 (by decide)).trans <| (W12_of_ne m ρ c main_arg9 (by decide)).trans <| (W11_of m ρ c main_arg9 (by decide)).trans <| (W10_of m ρ c main_arg9 (by decide)).trans <| (W9_of m ρ c main_arg9 (by decide)).trans <| (W8_of m ρ c main_arg9 (by decide)).trans <| (W7_of m ρ c main_arg9 (by decide)).trans <| (W6_of m ρ c main_arg9 (by decide)).trans <| (W5_of m ρ c main_arg9 (by decide)).trans <| (W4_of m ρ c main_arg9 (by decide)).trans <| (W3_of m ρ c main_arg9 (by decide)).trans <| (W2_of m ρ c main_arg9 (by decide)).trans <| (W1_of m ρ c main_arg9 (by decide)).trans <| rfl
theorem W24_main_arg10 (c : Dev nD) : W24 m ρ c (Proc.devRef .tc main_arg10) = m ((c : Thread nD τ).loc main_arg10) :=
  (W24_of_ne m ρ c main_arg10 (by decide)).trans <| (W23_of m ρ c main_arg10 (by decide)).trans <| (W22_of_ne m ρ c main_arg10 (by decide)).trans <| (W21_of m ρ c main_arg10 (by decide)).trans <| (W20_of_ne m ρ c main_arg10 (by decide)).trans <| (W19_of m ρ c main_arg10 (by decide)).trans <| (W18_of_ne m ρ c main_arg10 (by decide)).trans <| (W17_of m ρ c main_arg10 (by decide)).trans <| (W16_of_ne m ρ c main_arg10 (by decide)).trans <| (W15_of m ρ c main_arg10 (by decide)).trans <| (W14_of_ne m ρ c main_arg10 (by decide)).trans <| (W13_of m ρ c main_arg10 (by decide)).trans <| (W12_of_ne m ρ c main_arg10 (by decide)).trans <| (W11_of m ρ c main_arg10 (by decide)).trans <| (W10_of m ρ c main_arg10 (by decide)).trans <| (W9_of m ρ c main_arg10 (by decide)).trans <| (W8_of m ρ c main_arg10 (by decide)).trans <| (W7_of m ρ c main_arg10 (by decide)).trans <| (W6_of m ρ c main_arg10 (by decide)).trans <| (W5_of m ρ c main_arg10 (by decide)).trans <| (W4_of m ρ c main_arg10 (by decide)).trans <| (W3_of m ρ c main_arg10 (by decide)).trans <| (W2_of m ρ c main_arg10 (by decide)).trans <| (W1_of m ρ c main_arg10 (by decide)).trans <| rfl
theorem W24_main_arg11 (c : Dev nD) : W24 m ρ c (Proc.devRef .tc main_arg11) = m ((c : Thread nD τ).loc main_arg11) :=
  (W24_of_ne m ρ c main_arg11 (by decide)).trans <| (W23_of m ρ c main_arg11 (by decide)).trans <| (W22_of_ne m ρ c main_arg11 (by decide)).trans <| (W21_of m ρ c main_arg11 (by decide)).trans <| (W20_of_ne m ρ c main_arg11 (by decide)).trans <| (W19_of m ρ c main_arg11 (by decide)).trans <| (W18_of_ne m ρ c main_arg11 (by decide)).trans <| (W17_of m ρ c main_arg11 (by decide)).trans <| (W16_of_ne m ρ c main_arg11 (by decide)).trans <| (W15_of m ρ c main_arg11 (by decide)).trans <| (W14_of_ne m ρ c main_arg11 (by decide)).trans <| (W13_of m ρ c main_arg11 (by decide)).trans <| (W12_of_ne m ρ c main_arg11 (by decide)).trans <| (W11_of m ρ c main_arg11 (by decide)).trans <| (W10_of m ρ c main_arg11 (by decide)).trans <| (W9_of m ρ c main_arg11 (by decide)).trans <| (W8_of m ρ c main_arg11 (by decide)).trans <| (W7_of m ρ c main_arg11 (by decide)).trans <| (W6_of m ρ c main_arg11 (by decide)).trans <| (W5_of m ρ c main_arg11 (by decide)).trans <| (W4_of m ρ c main_arg11 (by decide)).trans <| (W3_of m ρ c main_arg11 (by decide)).trans <| (W2_of m ρ c main_arg11 (by decide)).trans <| (W1_of m ρ c main_arg11 (by decide)).trans <| rfl
theorem W24_main_arg12 (c : Dev nD) : W24 m ρ c (Proc.devRef .tc main_arg12) = m ((c : Thread nD τ).loc main_arg12) :=
  (W24_of_ne m ρ c main_arg12 (by decide)).trans <| (W23_of m ρ c main_arg12 (by decide)).trans <| (W22_of_ne m ρ c main_arg12 (by decide)).trans <| (W21_of m ρ c main_arg12 (by decide)).trans <| (W20_of_ne m ρ c main_arg12 (by decide)).trans <| (W19_of m ρ c main_arg12 (by decide)).trans <| (W18_of_ne m ρ c main_arg12 (by decide)).trans <| (W17_of m ρ c main_arg12 (by decide)).trans <| (W16_of_ne m ρ c main_arg12 (by decide)).trans <| (W15_of m ρ c main_arg12 (by decide)).trans <| (W14_of_ne m ρ c main_arg12 (by decide)).trans <| (W13_of m ρ c main_arg12 (by decide)).trans <| (W12_of_ne m ρ c main_arg12 (by decide)).trans <| (W11_of m ρ c main_arg12 (by decide)).trans <| (W10_of m ρ c main_arg12 (by decide)).trans <| (W9_of m ρ c main_arg12 (by decide)).trans <| (W8_of m ρ c main_arg12 (by decide)).trans <| (W7_of m ρ c main_arg12 (by decide)).trans <| (W6_of m ρ c main_arg12 (by decide)).trans <| (W5_of m ρ c main_arg12 (by decide)).trans <| (W4_of m ρ c main_arg12 (by decide)).trans <| (W3_of m ρ c main_arg12 (by decide)).trans <| (W2_of m ρ c main_arg12 (by decide)).trans <| (W1_of m ρ c main_arg12 (by decide)).trans <| rfl
theorem W24_main_arg13 (c : Dev nD) : W24 m ρ c (Proc.devRef .tc main_arg13) = m ((c : Thread nD τ).loc main_arg13) :=
  (W24_of_ne m ρ c main_arg13 (by decide)).trans <| (W23_of m ρ c main_arg13 (by decide)).trans <| (W22_of_ne m ρ c main_arg13 (by decide)).trans <| (W21_of m ρ c main_arg13 (by decide)).trans <| (W20_of_ne m ρ c main_arg13 (by decide)).trans <| (W19_of m ρ c main_arg13 (by decide)).trans <| (W18_of_ne m ρ c main_arg13 (by decide)).trans <| (W17_of m ρ c main_arg13 (by decide)).trans <| (W16_of_ne m ρ c main_arg13 (by decide)).trans <| (W15_of m ρ c main_arg13 (by decide)).trans <| (W14_of_ne m ρ c main_arg13 (by decide)).trans <| (W13_of m ρ c main_arg13 (by decide)).trans <| (W12_of_ne m ρ c main_arg13 (by decide)).trans <| (W11_of m ρ c main_arg13 (by decide)).trans <| (W10_of m ρ c main_arg13 (by decide)).trans <| (W9_of m ρ c main_arg13 (by decide)).trans <| (W8_of m ρ c main_arg13 (by decide)).trans <| (W7_of m ρ c main_arg13 (by decide)).trans <| (W6_of m ρ c main_arg13 (by decide)).trans <| (W5_of m ρ c main_arg13 (by decide)).trans <| (W4_of m ρ c main_arg13 (by decide)).trans <| (W3_of m ρ c main_arg13 (by decide)).trans <| (W2_of m ρ c main_arg13 (by decide)).trans <| (W1_of m ρ c main_arg13 (by decide)).trans <| rfl
theorem W24_main_arg14 (c : Dev nD) : W24 m ρ c (Proc.devRef .tc main_arg14) = m ((c : Thread nD τ).loc main_arg14) :=
  (W24_of_ne m ρ c main_arg14 (by decide)).trans <| (W23_of m ρ c main_arg14 (by decide)).trans <| (W22_of_ne m ρ c main_arg14 (by decide)).trans <| (W21_of m ρ c main_arg14 (by decide)).trans <| (W20_of_ne m ρ c main_arg14 (by decide)).trans <| (W19_of m ρ c main_arg14 (by decide)).trans <| (W18_of_ne m ρ c main_arg14 (by decide)).trans <| (W17_of m ρ c main_arg14 (by decide)).trans <| (W16_of_ne m ρ c main_arg14 (by decide)).trans <| (W15_of m ρ c main_arg14 (by decide)).trans <| (W14_of_ne m ρ c main_arg14 (by decide)).trans <| (W13_of m ρ c main_arg14 (by decide)).trans <| (W12_of_ne m ρ c main_arg14 (by decide)).trans <| (W11_of m ρ c main_arg14 (by decide)).trans <| (W10_of m ρ c main_arg14 (by decide)).trans <| (W9_of m ρ c main_arg14 (by decide)).trans <| (W8_of m ρ c main_arg14 (by decide)).trans <| (W7_of m ρ c main_arg14 (by decide)).trans <| (W6_of m ρ c main_arg14 (by decide)).trans <| (W5_of m ρ c main_arg14 (by decide)).trans <| (W4_of m ρ c main_arg14 (by decide)).trans <| (W3_of m ρ c main_arg14 (by decide)).trans <| (W2_of m ρ c main_arg14 (by decide)).trans <| (W1_of m ρ c main_arg14 (by decide)).trans <| rfl
theorem W24_main_arg15 (c : Dev nD) : W24 m ρ c (Proc.devRef .tc main_arg15) = m ((c : Thread nD τ).loc main_arg15) :=
  (W24_of_ne m ρ c main_arg15 (by decide)).trans <| (W23_of m ρ c main_arg15 (by decide)).trans <| (W22_of_ne m ρ c main_arg15 (by decide)).trans <| (W21_of m ρ c main_arg15 (by decide)).trans <| (W20_of_ne m ρ c main_arg15 (by decide)).trans <| (W19_of m ρ c main_arg15 (by decide)).trans <| (W18_of_ne m ρ c main_arg15 (by decide)).trans <| (W17_of m ρ c main_arg15 (by decide)).trans <| (W16_of_ne m ρ c main_arg15 (by decide)).trans <| (W15_of m ρ c main_arg15 (by decide)).trans <| (W14_of_ne m ρ c main_arg15 (by decide)).trans <| (W13_of m ρ c main_arg15 (by decide)).trans <| (W12_of_ne m ρ c main_arg15 (by decide)).trans <| (W11_of m ρ c main_arg15 (by decide)).trans <| (W10_of m ρ c main_arg15 (by decide)).trans <| (W9_of m ρ c main_arg15 (by decide)).trans <| (W8_of m ρ c main_arg15 (by decide)).trans <| (W7_of m ρ c main_arg15 (by decide)).trans <| (W6_of m ρ c main_arg15 (by decide)).trans <| (W5_of m ρ c main_arg15 (by decide)).trans <| (W4_of m ρ c main_arg15 (by decide)).trans <| (W3_of m ρ c main_arg15 (by decide)).trans <| (W2_of m ρ c main_arg15 (by decide)).trans <| (W1_of m ρ c main_arg15 (by decide)).trans <| rfl

/-! ## The proof data family and the thread state -/

/-- No pipeline has a prefetched table. -/
abbrev adm : (p : Fin 7) → (pcfgs (F := F) p).Adm := fun p => (cfgs p).toPCfg_adm
/-- Every pipeline's proof data, each at its region's entry contents. -/
def pdats : (p : Fin 7) → (c : Dev nD) → Dat τ (Elt F) Unit ℕ (UR sig nD τ) ℕ (Pipeline.pin (pcfgs (F := F)) adm p) c
  | ⟨0, _⟩ => fun c => dat0 (V11 m ρ) c
  | ⟨1, _⟩ => fun c => dat1 (V13 m ρ) c
  | ⟨2, _⟩ => fun c => dat2 (V15 m ρ) c
  | ⟨3, _⟩ => fun c => dat3 (V17 m ρ) c
  | ⟨4, _⟩ => fun c => dat4 (V19 m ρ) c
  | ⟨5, _⟩ => fun c => dat5 (V21 m ρ) c
  | ⟨6, _⟩ => fun c => dat6 (V23 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W24 m ρ c) ∗ ∃ r, prngReg c r)

/-! ## The regions as segments

Each region is entered from every unscoped buffer at the boundary's contents: its windows' arrays are split out of
them and put back at the exit contents; the generator register and the scoped buffers no window stages go into the
region's invariant and come back; nothing is owed; the kernels have no semaphore of their own. -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V11 m ρ) c).loose
  hwaits := Pipeline.hwaits_of_owed_zero _ _ _ _ L lv 0 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec0 c (V11 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec0 c _).trans (hin0 (V11 m ρ) c)
  hout c := by
    rw [Pipeline.ownSems0_none]
    exact (hout0 (V11 m ρ) c).trans (ofPhiA spec0 c)
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V11 m ρ c) (V12 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V13 m ρ) c).loose
  hwaits := Pipeline.hwaits_of_owed_zero _ _ _ _ L lv 1 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec1 c (V13 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec1 c _).trans (hin1 (V13 m ρ) c)
  hout c := by
    rw [Pipeline.ownSems0_none]
    exact (hout1 (V13 m ρ) c).trans (ofPhiA spec1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V13 m ρ c) (V14 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V15 m ρ) c).loose
  hwaits := Pipeline.hwaits_of_owed_zero _ _ _ _ L lv 2 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec2 c (V15 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec2 c _).trans (hin2 (V15 m ρ) c)
  hout c := by
    rw [Pipeline.ownSems0_none]
    exact (hout2 (V15 m ρ) c).trans (ofPhiA spec2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V15 m ρ c) (V16 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V17 m ρ) c).loose
  hwaits := Pipeline.hwaits_of_owed_zero _ _ _ _ L lv 3 fun _ _ => rfl
  pre c := iprop(StableHlo.held (c : Thread nD τ) (Pipeline.ucRefs τ sig) (W17 m ρ c) ∗ R c)
  post c := iprop(StableHlo.held (c : Thread nD τ) (Pipeline.ucRefs τ sig) (W18 m ρ c) ∗ R c)
  X c := iprop(∃ r, prngReg c r)
  Y c := iprop(∃ r, prngReg c r)
  Z c := Pipeline.unscopedRest (Ix := Unit) (Name := ℕ) (U := UR sig nD τ) (Lvl := ℕ) spec3 c (V17 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec3 c _).trans (hin3 (V17 m ρ) c)
  hout c := by
    rw [Pipeline.ownSems0_none]
    exact (hout3 (V17 m ρ) c).trans (ofPhiA spec3 c)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V17 m ρ c) (V18 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V19 m ρ) c).loose
  hwaits := Pipeline.hwaits_of_owed_zero _ _ _ _ L lv 4 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec4 c (V19 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec4 c _).trans (hin4 (V19 m ρ) c)
  hout c := by
    rw [Pipeline.ownSems0_none]
    exact (hout4 (V19 m ρ) c).trans (ofPhiA spec4 c)
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V19 m ρ c) (V20 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V21 m ρ) c).loose
  hwaits := Pipeline.hwaits_of_owed_zero _ _ _ _ L lv 5 fun _ _ => rfl
  pre c := iprop(StableHlo.held (c : Thread nD τ) (Pipeline.ucRefs τ sig) (W21 m ρ c) ∗ R c)
  post c := iprop(StableHlo.held (c : Thread nD τ) (Pipeline.ucRefs τ sig) (W22 m ρ c) ∗ R c)
  X c := iprop(∃ r, prngReg c r)
  Y c := iprop(∃ r, prngReg c r)
  Z c := Pipeline.unscopedRest (Ix := Unit) (Name := ℕ) (U := UR sig nD τ) (Lvl := ℕ) spec5 c (V21 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (V21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec5 c _).trans (hin5 (V21 m ρ) c)
  hout c := by
    rw [Pipeline.ownSems0_none]
    exact (hout5 (V21 m ρ) c).trans (ofPhiA spec5 c)
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (V21 m ρ c) (V22 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (V23 m ρ) c).loose
  hwaits := Pipeline.hwaits_of_owed_zero _ _ _ _ L lv 6 fun _ _ => rfl
  pre c := iprop(StableHlo.held (c : Thread nD τ) (Pipeline.ucRefs τ sig) (W23 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (V23 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (V23 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (toPhiA spec6 c _).trans (hin6 (V23 m ρ) c)
  hout c := by
    rw [Pipeline.ownSems0_none]
    exact (hout6 (V23 m ρ) c).trans (ofPhiA spec6 c)
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (V23 m ρ c) (V24 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .region (reg0 m ρ),
    .host (hseg hostOps1 hostOps1_sub hostOps1_fresh (W12 m ρ)),
    .region (reg1 m ρ),
    .host (hseg hostOps2 hostOps2_sub hostOps2_fresh (W14 m ρ)),
    .region (reg2 m ρ),
    .host (hseg hostOps3 hostOps3_sub hostOps3_fresh (W16 m ρ)),
    .region (reg3 m ρ),
    .host (hseg hostOps4 hostOps4_sub hostOps4_fresh (W18 m ρ)),
    .region (reg4 m ρ),
    .host (hseg hostOps5 hostOps5_sub hostOps5_fresh (W20 m ρ)),
    .region (reg5 m ρ),
    .host (hseg hostOps6 hostOps6_sub hostOps6_fresh (W22 m ρ)),
    .region (reg6 m ρ) ]

set_option backward.isDefEq.respectTransparency.types false in
/-- THE RUN with every unscoped buffer named at the end: at the compiled mesh, from any memory with zero counters, every
    weakly fair execution of @main on the TensorCores terminates, nothing faulting, and in every final state each unscoped
    buffer of core `c` holds the last boundary's contents `W24 m ρ c`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W24 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h c => h c)

/-- THE FRAME at any `F`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_arg0 (by decide))).trans (W24_main_arg0 m ρ c),
    (h c _ (mem_uc main_arg1 (by decide))).trans (W24_main_arg1 m ρ c),
    (h c _ (mem_uc main_arg2 (by decide))).trans (W24_main_arg2 m ρ c),
    (h c _ (mem_uc main_arg3 (by decide))).trans (W24_main_arg3 m ρ c),
    (h c _ (mem_uc main_arg4 (by decide))).trans (W24_main_arg4 m ρ c),
    (h c _ (mem_uc main_arg5 (by decide))).trans (W24_main_arg5 m ρ c),
    (h c _ (mem_uc main_arg6 (by decide))).trans (W24_main_arg6 m ρ c),
    (h c _ (mem_uc main_arg7 (by decide))).trans (W24_main_arg7 m ρ c),
    (h c _ (mem_uc main_arg8 (by decide))).trans (W24_main_arg8 m ρ c),
    (h c _ (mem_uc main_arg9 (by decide))).trans (W24_main_arg9 m ρ c),
    (h c _ (mem_uc main_arg10 (by decide))).trans (W24_main_arg10 m ρ c),
    (h c _ (mem_uc main_arg11 (by decide))).trans (W24_main_arg11 m ρ c),
    (h c _ (mem_uc main_arg12 (by decide))).trans (W24_main_arg12 m ρ c),
    (h c _ (mem_uc main_arg13 (by decide))).trans (W24_main_arg13 m ρ c),
    (h c _ (mem_uc main_arg14 (by decide))).trans (W24_main_arg14 m ρ c),
    (h c _ (mem_uc main_arg15 (by decide))).trans (W24_main_arg15 m ρ c)⟩) (run_main m ρ)

end Cert.KernelIdeal.Hand

end
-- ==== Proof.Ref.Common.lean ====
/- The reference's run: what the window modules share. The fold of a concatenated line, and the
   bookkeeping that no operation of the reference writes one of the sixteen argument buffers (the first sixteen
   buffers of the signature), so that each argument ends as it began. -/
import proofs.«118595_j1726576853663_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The fold over two lines run one after the other is the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- An operation every buffer it writes has index at least sixteen: it writes no argument of @main,
    whose sixteen arguments are the buffers of index 0 … 15. -/
def ArgSafe (op : HloOp τ sig (Elt F)) : Prop :=
  ∀ r : Ref sig .tc, Proc.devRef (τ := τ) .tc r ∈ op.writes → 16 ≤ r.idx.val

/-- An operation whose one written buffer is `y`, of index at least sixteen. -/
theorem argSafe_of_writes {op : HloOp τ sig (Elt F)} (y : Ref sig .tc)
    (hw : op.writes = {Proc.devRef (τ := τ) .tc y}) (hy : 16 ≤ y.idx.val) : ArgSafe op := by
  intro r hr
  rw [hw, Finset.mem_singleton] at hr
  rw [Proc.devRef_injective _ hr]
  exact hy

/-- A line of such operations leaves every buffer of index below sixteen at what it held. -/
theorem after_of_argSafe {ops : List (HloOp τ sig (Elt F))} (h : ∀ op ∈ ops, ArgSafe op)
    (V : Valuation τ sig (Elt F)) (r : Ref sig .tc) (hr : r.idx.val < 16) :
    after ops V (Proc.devRef .tc r) = V (Proc.devRef .tc r) :=
  after_of_forall_not_mem ops V fun op hop hb => absurd (h op hop r hb) (by omega)

end Cert.ReferenceIdeal.Hand

end
-- ==== Proof.Ref.W0.lean ====
/- The reference's run: the statements of @main's window 0 (`main_part0`) as a list of its 89 host
   operations, each call of an outlined function replaced by the callee's operations over that call's buffer
   record (a call nested in the callee likewise), in order. -/
import proofs.«118595_j1726576853663_2_alg».proof.Proof.Ref.Common

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 0's 89 operations, in order. -/
abbrev ops0 : List (HloOp τ sig (Elt F)) :=
  [ StableHlo.nullary main_cst (constant S_ .f32 0x3F000000#32),
    StableHlo.unary main_cst main_v0 (broadcastInDim S65536x784 ![] bcast_S_S65536x784 : (⟨S_, .f32⟩ : BufTy).Contents (Elt F) → (⟨S65536x784, .f32⟩ : BufTy).Contents (Elt F)),
    StableHlo.binary main_arg0 main_v0 main_v1 (subf : (⟨S65536x784, .f32⟩ : BufTy).Contents (Elt F) → (⟨S65536x784, .f32⟩ : BufTy).Contents (Elt F) → (⟨S65536x784, .f32⟩ : BufTy).Contents (Elt F)),
    StableHlo.nullary main_cst_0 (constant S_ .f32 0x00000000#32),
    StableHlo.unary main_cst_0 main_v2 (broadcastInDim S65536x784 ![] bcast_S_S65536x784 : (⟨S_, .f32⟩ : BufTy).Contents (Elt F) → (⟨S65536x784, .f32⟩ : BufTy).Contents (Elt F)),
    StableHlo.binary main_v1 main_v2 main_v3 (cmpf .oge : (⟨S65536x784, .f32⟩ : BufTy).Contents (Elt F) → (⟨S65536x784, .f32⟩ : BufTy).Contents (Elt F) → (⟨S65536x784, .i1⟩ : BufTy).Contents (Elt F)),
    StableHlo.nullary main_cst_1 (constant S_ .f32 0x3F800000#32),
    StableHlo.nullary main_cst_2 (constant S_ .f32 0xBF800000#32),
    StableHlo.TRef.unary (.of main_cst_1 : StableHlo.TRef sig ⟨S_, .f32⟩) main_call0.v0 (broadcastInDim S65536x784 ![] bcast_S_S65536x784),
    StableHlo.TRef.unary (.of main_cst_2 : StableHlo.TRef sig ⟨S_, .f32⟩) main_call0.v1 (broadcastInDim S65536x784 ![] bcast_S_S65536x784),
    StableHlo.TRef.ternary (.of main_v3 : StableHlo.TRef sig ⟨S65536x784, .i1⟩) main_call0.v0 main_call0.v1 main_call0.v2 select,
    StableHlo.unary main_v4 main_v5 (id : (⟨S65536x784, .f32⟩ : BufTy).Contents (Elt F) → (⟨S65536x784, .f32⟩ : BufTy).Contents (Elt F)),
    StableHlo.nullary main_cst_3 (constant S_ .f32 0x00000000#32),
    StableHlo.unary main_cst_3 main_v6 (broadcastInDim S256x784 ![] bcast_S_S256x784 : (⟨S_, .f32⟩ : BufTy).Contents (Elt F) → (⟨S256x784, .f32⟩ : BufTy).Contents (Elt F)),
    StableHlo.binary main_arg1 main_v6 main_v7 (cmpf .oge : (⟨S256x784, .f32⟩ : BufTy).Contents (Elt F) → (⟨S256x784, .f32⟩ : BufTy).Contents (Elt F) → (⟨S256x784, .i1⟩ : BufTy).Contents (Elt F)),
    StableHlo.nullary main_cst_4 (constant S_ .f32 0x3F800000#32),
    StableHlo.nullary main_cst_5 (constant S_ .f32 0xBF800000#32),
    StableHlo.TRef.unary (.of main_cst_4 : StableHlo.TRef sig ⟨S_, .f32⟩) main_call1.v0 (broadcastInDim S256x784 ![] bcast_S_S256x784),
    StableHlo.TRef.unary (.of main_cst_5 : StableHlo.TRef sig ⟨S_, .f32⟩) main_call1.v1 (broadcastInDim S256x784 ![] bcast_S_S256x784),
    StableHlo.TRef.ternary (.of main_v7 : StableHlo.TRef sig ⟨S256x784, .i1⟩) main_call1.v0 main_call1.v1 main_call1.v2 select,
    StableHlo.unary main_v8 main_v9 (id : (⟨S256x784, .f32⟩ : BufTy).Contents (Elt F) → (⟨S256x784, .f32⟩ : BufTy).Contents (Elt F)),
    StableHlo.unary main_v9 main_v10 ((transpose S784x256 [1, 0] · transposes_S256x784_S784x256_1_0) : (⟨S256x784, .f32⟩ : BufTy).Contents (Elt F) → (⟨S784x256, .f32⟩ : BufTy).Contents (Elt F)),
    StableHlo.binary main_v5 main_v10 main_v11 ((fun l r => Host.dotGeneral dot_S65536x784_S784x256_S65536x256_1_0_0_1_n_n none l r) : (⟨S65536x784, .f32⟩ : BufTy).Contents (Elt F) → (⟨S784x256, .f32⟩ : BufTy).Contents (Elt F) → (⟨S65536x256, .f32⟩ : BufTy).Contents (Elt F)),
    StableHlo.nullary main_cst_6 (constant S_ .f32 0x00000000#32),
    StableHlo.binary main_v11 main_cst_6 main_v12 ((fun x v => Host.reduceAdd x v reducesTo_S65536x256_S256_d0 h_S_) : (⟨S65536x256, .f32⟩ : BufTy).Contents (Elt F) → (⟨S_, .f32⟩ : BufTy).Contents (Elt F) → (⟨S256, .f32⟩ : BufTy).Contents (Elt F)),
    StableHlo.nullary main_cst_7 (constant S_ .f32 0x47800000#32),
    StableHlo.unary main_cst_7 main_v13 (broadcastInDim S256 ![] bcast_S_S256 : (⟨S_, .f32⟩ : BufTy).Contents (Elt F) → (⟨S256, .f32⟩ : BufTy).Contents (Elt F)),
    StableHlo.binary main_v12 main_v13 main_v14 (Host.divf : (⟨S256, .f32⟩ : BufTy).Contents (Elt F) → (⟨S256, .f32⟩ : BufTy).Contents (Elt F) → (⟨S256, .f32⟩ : BufTy).Contents (Elt F)),
    StableHlo.nullary main_c (constantI S_ 32 0#32),
    StableHlo.TRef.nullary main_call2.cst (constant S_ .f32 0x00000000#32),
    StableHlo.TRef.binary (.of main_v11 : StableHlo.TRef sig ⟨S65536x256, .f32⟩) main_call2.cst main_call2.v0 (fun x v => Host.reduceAdd x v reducesTo_S65536x256_S256_d0 h_S_),
    StableHlo.TRef.unary main_call2.v0 main_call2.v1 (broadcastInDim S1x256 ![1] bcast_S256_S1x256_1),
    StableHlo.TRef.nullary main_call2.cst_0 (constant S_ .f32 0x47800000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S65536x256 ![0, 1] bcast_S1x256_S65536x256_0_1),
    StableHlo.TRef.binary (.of main_v11 : StableHlo.TRef sig ⟨S65536x256, .f32⟩) main_call2.v4 main_call2.v5 subf,
    StableHlo.TRef.binary main_call2.v5 main_call2.v5 main_call2.v6 mulf,
    StableHlo.TRef.unary (.of main_c : StableHlo.TRef sig ⟨S_, .i32⟩) main_call2.v7 (sitofp .f32),
    StableHlo.TRef.nullary main_call2.cst_1 (constant S_ .f32 0x47800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S65536x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v14 main_v16 (broadcastInDim S1x256 ![1] bcast_S256_S1x256_1 : (⟨S256, .f32⟩ : BufTy).Contents (Elt F) → (⟨S1x256, .f32⟩ : BufTy).Contents (Elt F)),
    StableHlo.unary main_v16 main_v17 (broadcastInDim S65536x256 ![0, 1] bcast_S1x256_S65536x256_0_1 : (⟨S1x256, .f32⟩ : BufTy).Contents (Elt F) → (⟨S65536x256, .f32⟩ : BufTy).Contents (Elt F)),
    StableHlo.binary main_v11 main_v17 main_v18 (subf : (⟨S65536x256, .f32⟩ : BufTy).Contents (Elt F) → (⟨S65536x256, .f32⟩ : BufTy).Contents (Elt F) → (⟨S65536x256, .f32⟩ : BufTy).Contents (Elt F)),
    StableHlo.unary main_arg6 main_v19 (broadcastInDim S1x256 ![1] bcast_S256_S1x256_1 : (⟨S256, .f32⟩ : BufTy).Contents (Elt F) → (⟨S1x256, .f32⟩ : BufTy).Contents (Elt F)),
    StableHlo.unary main_v19 main_v20 (broadcastInDim S65536x256 ![0, 1] bcast_S1x256_S65536x256_0_1 : (⟨S1x256, .f32⟩ : BufTy).Contents (Elt F) → (⟨S65536x256, .f32⟩ : BufTy).Contents (Elt F)),
    StableHlo.binary main_v20 main_v18 main_v21 (mulf : (⟨S65536x256, .f32⟩ : BufTy).Contents (Elt F) → (⟨S65536x256, .f32⟩ : BufTy).Contents (Elt F) → (⟨S65536x256, .f32⟩ : BufTy).Contents (Elt F)),
    StableHlo.nullary main_cst_8 (constant S_ .f32 0x3727C5AC#32),
    StableHlo.unary main_cst_8 main_v22 (broadcastInDim S256 ![] bcast_S_S256 : (⟨S_, .f32⟩ : BufTy).Contents (Elt F) → (⟨S256, .f32⟩ : BufTy).Contents (Elt F)),
    StableHlo.binary main_v15 main_v22 main_v23 (addf : (⟨S256, .f32⟩ : BufTy).Contents (Elt F) → (⟨S256, .f32⟩ : BufTy).Contents (Elt F) → (⟨S256, .f32⟩ : BufTy).Contents (Elt F)),
    StableHlo.unary main_v23 main_v24 (Host.rsqrt : (⟨S256, .f32⟩ : BufTy).Contents (Elt F) → (⟨S256, .f32⟩ : BufTy).Contents (Elt F)),
    StableHlo.unary main_v24 main_v25 (broadcastInDim S1x256 ![1] bcast_S256_S1x256_1 : (⟨S256, .f32⟩ : BufTy).Contents (Elt F) → (⟨S1x256, .f32⟩ : BufTy).Contents (Elt F)),
    StableHlo.unary main_v25 main_v26 (broadcastInDim S65536x256 ![0, 1] bcast_S1x256_S65536x256_0_1 : (⟨S1x256, .f32⟩ : BufTy).Contents (Elt F) → (⟨S65536x256, .f32⟩ : BufTy).Contents (Elt F)),
    StableHlo.binary main_v21 main_v26 main_v27 (mulf : (⟨S65536x256, .f32⟩ : BufTy).Contents (Elt F) → (⟨S65536x256, .f32⟩ : BufTy).Contents (Elt F) → (⟨S65536x256, .f32⟩ : BufTy).Contents (Elt F)),
    StableHlo.unary main_arg11 main_v28 (broadcastInDim S1x256 ![1] bcast_S256_S1x256_1 : (⟨S256, .f32⟩ : BufTy).Contents (Elt F) → (⟨S1x256, .f32⟩ : BufTy).Contents (Elt F)),
    StableHlo.unary main_v28 main_v29 (broadcastInDim S65536x256 ![0, 1] bcast_S1x256_S65536x256_0_1 : (⟨S1x256, .f32⟩ : BufTy).Contents (Elt F) → (⟨S65536x256, .f32⟩ : BufTy).Contents (Elt F)),
    StableHlo.binary main_v27 main_v29 main_v30 (addf : (⟨S65536x256, .f32⟩ : BufTy).Contents (Elt F) → (⟨S65536x256, .f32⟩ : BufTy).Contents (Elt F) → (⟨S65536x256, .f32⟩ : BufTy).Contents (Elt F)),
    StableHlo.nullary main_cst_9 (constant S_ .f32 0x00000000#32),
    StableHlo.unary main_cst_9 main_v31 (broadcastInDim S65536x256 ![] bcast_S_S65536x256 : (⟨S_, .f32⟩ : BufTy).Contents (Elt F) → (⟨S65536x256, .f32⟩ : BufTy).Contents (Elt F)),
    StableHlo.binary main_v30 main_v31 main_v32 (cmpf .oge : (⟨S65536x256, .f32⟩ : BufTy).Contents (Elt F) → (⟨S65536x256, .f32⟩ : BufTy).Contents (Elt F) → (⟨S65536x256, .i1⟩ : BufTy).Contents (Elt F)),
    StableHlo.nullary main_cst_10 (constant S_ .f32 0x3F800000#32),
    StableHlo.nullary main_cst_11 (constant S_ .f32 0xBF800000#32),
    StableHlo.TRef.unary (.of main_cst_10 : StableHlo.TRef sig ⟨S_, .f32⟩) main_call3.v0 (broadcastInDim S65536x256 ![] bcast_S_S65536x256),
    StableHlo.TRef.unary (.of main_cst_11 : StableHlo.TRef sig ⟨S_, .f32⟩) main_call3.v1 (broadcastInDim S65536x256 ![] bcast_S_S65536x256),
    StableHlo.TRef.ternary (.of main_v32 : StableHlo.TRef sig ⟨S65536x256, .i1⟩) main_call3.v0 main_call3.v1 main_call3.v2 select,
    StableHlo.unary main_v33 main_v34 (id : (⟨S65536x256, .f32⟩ : BufTy).Contents (Elt F) → (⟨S65536x256, .f32⟩ : BufTy).Contents (Elt F)),
    StableHlo.nullary main_cst_12 (constant S_ .f32 0x00000000#32),
    StableHlo.unary main_cst_12 main_v35 (broadcastInDim S256x256 ![] bcast_S_S256x256 : (⟨S_, .f32⟩ : BufTy).Contents (Elt F) → (⟨S256x256, .f32⟩ : BufTy).Contents (Elt F)),
    StableHlo.binary main_arg2 main_v35 main_v36 (cmpf .oge : (⟨S256x256, .f32⟩ : BufTy).Contents (Elt F) → (⟨S256x256, .f32⟩ : BufTy).Contents (Elt F) → (⟨S256x256, .i1⟩ : BufTy).Contents (Elt F)),
    StableHlo.nullary main_cst_13 (constant S_ .f32 0x3F800000#32),
    StableHlo.nullary main_cst_14 (constant S_ .f32 0xBF800000#32),
    StableHlo.TRef.unary (.of main_cst_13 : StableHlo.TRef sig ⟨S_, .f32⟩) main_call4.v0 (broadcastInDim S256x256 ![] bcast_S_S256x256),
    StableHlo.TRef.unary (.of main_cst_14 : StableHlo.TRef sig ⟨S_, .f32⟩) main_call4.v1 (broadcastInDim S256x256 ![] bcast_S_S256x256),
    StableHlo.TRef.ternary (.of main_v36 : StableHlo.TRef sig ⟨S256x256, .i1⟩) main_call4.v0 main_call4.v1 main_call4.v2 select,
    StableHlo.unary main_v37 main_v38 (id : (⟨S256x256, .f32⟩ : BufTy).Contents (Elt F) → (⟨S256x256, .f32⟩ : BufTy).Contents (Elt F)),
    StableHlo.unary main_v38 main_v39 ((transpose S256x256 [1, 0] · transposes_S256x256_S256x256_1_0) : (⟨S256x256, .f32⟩ : BufTy).Contents (Elt F) → (⟨S256x256, .f32⟩ : BufTy).Contents (Elt F)),
    StableHlo.binary main_v34 main_v39 main_v40 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.nullary main_cst_15 (constant S_ .f32 0x00000000#32),
    StableHlo.binary main_v40 main_cst_15 main_v41 ((fun x v => Host.reduceAdd x v reducesTo_S65536x256_S256_d0 h_S_) : (⟨S65536x256, .f32⟩ : BufTy).Contents (Elt F) → (⟨S_, .f32⟩ : BufTy).Contents (Elt F) → (⟨S256, .f32⟩ : BufTy).Contents (Elt F)) ]

/-- The window is that straight line: the functions unfolded at their calls, sequencing reassociated. -/
theorem part0_eq (c : Dev nD) : main_part0 (F := F) c = seq ops0 := rfl

/-- Every operation touches TensorCore references only. -/
theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., nullary_bufs_sub .., unary_bufs_sub .., unary_bufs_sub .., ternary_bufs_sub .., unary_bufs_sub ..,
    nullary_bufs_sub .., unary_bufs_sub .., binary_bufs_sub .., nullary_bufs_sub .., nullary_bufs_sub .., unary_bufs_sub ..,
    unary_bufs_sub .., ternary_bufs_sub .., unary_bufs_sub .., unary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., nullary_bufs_sub ..,
    unary_bufs_sub .., unary_bufs_sub .., ternary_bufs_sub .., unary_bufs_sub .., nullary_bufs_sub .., unary_bufs_sub ..,
    binary_bufs_sub .., nullary_bufs_sub .., nullary_bufs_sub .., unary_bufs_sub .., unary_bufs_sub .., ternary_bufs_sub ..,
    unary_bufs_sub .., unary_bufs_sub .., binary_bufs_sub .., nullary_bufs_sub .., binary_bufs_sub ..⟩

/-- Every operation determines its result. -/
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl⟩

/-- No operation writes an argument of @main. -/
theorem ops0_safe : (ops0 : List (HloOp τ sig (Elt F))).Forall ArgSafe :=
  ⟨argSafe_of_writes main_cst rfl (by decide), argSafe_of_writes main_v0 rfl (by decide), argSafe_of_writes main_v1 rfl (by decide),
    argSafe_of_writes main_cst_0 rfl (by decide), argSafe_of_writes main_v2 rfl (by decide), argSafe_of_writes main_v3 rfl (by decide),
    argSafe_of_writes main_cst_1 rfl (by decide), argSafe_of_writes main_cst_2 rfl (by decide), argSafe_of_writes main_call0.v0.ref rfl (by decide),
    argSafe_of_writes main_call0.v1.ref rfl (by decide), argSafe_of_writes main_call0.v2.ref rfl (by decide), argSafe_of_writes main_v5 rfl (by decide),
    argSafe_of_writes main_cst_3 rfl (by decide), argSafe_of_writes main_v6 rfl (by decide), argSafe_of_writes main_v7 rfl (by decide),
    argSafe_of_writes main_cst_4 rfl (by decide), argSafe_of_writes main_cst_5 rfl (by decide), argSafe_of_writes main_call1.v0.ref rfl (by decide),
    argSafe_of_writes main_call1.v1.ref rfl (by decide), argSafe_of_writes main_call1.v2.ref rfl (by decide), argSafe_of_writes main_v9 rfl (by decide),
    argSafe_of_writes main_v10 rfl (by decide), argSafe_of_writes main_v11 rfl (by decide), argSafe_of_writes main_cst_6 rfl (by decide),
    argSafe_of_writes main_v12 rfl (by decide), argSafe_of_writes main_cst_7 rfl (by decide), argSafe_of_writes main_v13 rfl (by decide),
    argSafe_of_writes main_v14 rfl (by decide), argSafe_of_writes main_c rfl (by decide), argSafe_of_writes main_call2.cst.ref rfl (by decide),
    argSafe_of_writes main_call2.v0.ref rfl (by decide), argSafe_of_writes main_call2.v1.ref rfl (by decide), argSafe_of_writes main_call2.cst_0.ref rfl (by decide),
    argSafe_of_writes main_call2.v2.ref rfl (by decide), argSafe_of_writes main_call2.v3.ref rfl (by decide), argSafe_of_writes main_call2.v4.ref rfl (by decide),
    argSafe_of_writes main_call2.v5.ref rfl (by decide), argSafe_of_writes main_call2.v6.ref rfl (by decide), argSafe_of_writes main_call2.v7.ref rfl (by decide),
    argSafe_of_writes main_call2.cst_1.ref rfl (by decide), argSafe_of_writes main_call2.v8.ref rfl (by decide), argSafe_of_writes main_call2.cst_2.ref rfl (by decide),
    argSafe_of_writes main_call2.v9.ref rfl (by decide), argSafe_of_writes main_call2.v10.ref rfl (by decide), argSafe_of_writes main_call2.v11.ref rfl (by decide),
    argSafe_of_writes main_call2.cst_3.ref rfl (by decide), argSafe_of_writes main_call2.v12.ref rfl (by decide), argSafe_of_writes main_call2.cst_4.ref rfl (by decide),
    argSafe_of_writes main_call2.call0.v0.ref rfl (by decide), argSafe_of_writes main_call2.call0.v1.ref rfl (by decide), argSafe_of_writes main_call2.call0.v2.ref rfl (by decide),
    argSafe_of_writes main_v16 rfl (by decide), argSafe_of_writes main_v17 rfl (by decide), argSafe_of_writes main_v18 rfl (by decide),
    argSafe_of_writes main_v19 rfl (by decide), argSafe_of_writes main_v20 rfl (by decide), argSafe_of_writes main_v21 rfl (by decide),
    argSafe_of_writes main_cst_8 rfl (by decide), argSafe_of_writes main_v22 rfl (by decide), argSafe_of_writes main_v23 rfl (by decide),
    argSafe_of_writes main_v24 rfl (by decide), argSafe_of_writes main_v25 rfl (by decide), argSafe_of_writes main_v26 rfl (by decide),
    argSafe_of_writes main_v27 rfl (by decide), argSafe_of_writes main_v28 rfl (by decide), argSafe_of_writes main_v29 rfl (by decide),
    argSafe_of_writes main_v30 rfl (by decide), argSafe_of_writes main_cst_9 rfl (by decide), argSafe_of_writes main_v31 rfl (by decide),
    argSafe_of_writes main_v32 rfl (by decide), argSafe_of_writes main_cst_10 rfl (by decide), argSafe_of_writes main_cst_11 rfl (by decide),
    argSafe_of_writes main_call3.v0.ref rfl (by decide), argSafe_of_writes main_call3.v1.ref rfl (by decide), argSafe_of_writes main_call3.v2.ref rfl (by decide),
    argSafe_of_writes main_v34 rfl (by decide), argSafe_of_writes main_cst_12 rfl (by decide), argSafe_of_writes main_v35 rfl (by decide),
    argSafe_of_writes main_v36 rfl (by decide), argSafe_of_writes main_cst_13 rfl (by decide), argSafe_of_writes main_cst_14 rfl (by decide),
    argSafe_of_writes main_call4.v0.ref rfl (by decide), argSafe_of_writes main_call4.v1.ref rfl (by decide), argSafe_of_writes main_call4.v2.ref rfl (by decide),
    argSafe_of_writes main_v38 rfl (by decide), argSafe_of_writes main_v39 rfl (by decide), argSafe_of_writes main_v40 rfl (by decide),
    argSafe_of_writes main_cst_15 rfl (by decide), argSafe_of_writes main_v41 rfl (by decide)⟩

end Cert.ReferenceIdeal.Hand

end
-- ==== Proof.Ref.W1.lean ====
/- The reference's run: the statements of @main's window 1 (`main_part1`) as a list of its 106 host
   operations, each call of an outlined function replaced by the callee's operations over that call's buffer
   record (a call nested in the callee likewise), in order. -/
import proofs.«118595_j1726576853663_2_alg».proof.Proof.Ref.Common

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 1's 106 operations, in order. -/
abbrev ops1 : List (HloOp τ sig (Elt F)) :=
  [ StableHlo.nullary main_cst_16 (constant S_ .f32 0x47800000#32),
    StableHlo.unary main_cst_16 main_v42 (broadcastInDim S256 ![] bcast_S_S256 : (⟨S_, .f32⟩ : BufTy).Contents (Elt F) → (⟨S256, .f32⟩ : BufTy).Contents (Elt F)),
    StableHlo.binary main_v41 main_v42 main_v43 (Host.divf : (⟨S256, .f32⟩ : BufTy).Contents (Elt F) → (⟨S256, .f32⟩ : BufTy).Contents (Elt F) → (⟨S256, .f32⟩ : BufTy).Contents (Elt F)),
    StableHlo.nullary main_c_17 (constantI S_ 32 0#32),
    StableHlo.TRef.nullary main_call5.cst (constant S_ .f32 0x00000000#32),
    StableHlo.TRef.binary (.of main_v40 : StableHlo.TRef sig ⟨S65536x256, .f32⟩) main_call5.cst main_call5.v0 (fun x v => Host.reduceAdd x v reducesTo_S65536x256_S256_d0 h_S_),
    StableHlo.TRef.unary main_call5.v0 main_call5.v1 (broadcastInDim S1x256 ![1] bcast_S256_S1x256_1),
    StableHlo.TRef.nullary main_call5.cst_0 (constant S_ .f32 0x47800000#32),
    StableHlo.TRef.unary main_call5.cst_0 main_call5.v2 (broadcastInDim S1x256 ![] bcast_S_S1x256),
    StableHlo.TRef.binary main_call5.v1 main_call5.v2 main_call5.v3 Host.divf,
    StableHlo.TRef.unary main_call5.v3 main_call5.v4 (broadcastInDim S65536x256 ![0, 1] bcast_S1x256_S65536x256_0_1),
    StableHlo.TRef.binary (.of main_v40 : StableHlo.TRef sig ⟨S65536x256, .f32⟩) main_call5.v4 main_call5.v5 subf,
    StableHlo.TRef.binary main_call5.v5 main_call5.v5 main_call5.v6 mulf,
    StableHlo.TRef.unary (.of main_c_17 : StableHlo.TRef sig ⟨S_, .i32⟩) main_call5.v7 (sitofp .f32),
    StableHlo.TRef.nullary main_call5.cst_1 (constant S_ .f32 0x47800000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S65536x256_S256_d0 h_S_),
    StableHlo.TRef.unary main_call5.v8 main_call5.v10 (broadcastInDim S256 ![] bcast_S_S256),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S256 ![] bcast_S_S256),
    StableHlo.TRef.ternary main_call5.v12 main_call5.v11 main_call5.call0.v1 main_call5.call0.v2 (fun p a b => select (broadcastInDim S256 ![] bcast_S_S256 p) a b),
    StableHlo.unary main_v43 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S65536x256 ![0, 1] bcast_S1x256_S65536x256_0_1 : (⟨S1x256, .f32⟩ : BufTy).Contents (Elt F) → (⟨S65536x256, .f32⟩ : BufTy).Contents (Elt F)),
    StableHlo.binary main_v40 main_v46 main_v47 (subf : (⟨S65536x256, .f32⟩ : BufTy).Contents (Elt F) → (⟨S65536x256, .f32⟩ : BufTy).Contents (Elt F) → (⟨S65536x256, .f32⟩ : BufTy).Contents (Elt F)),
    StableHlo.unary main_arg7 main_v48 (broadcastInDim S1x256 ![1] bcast_S256_S1x256_1 : (⟨S256, .f32⟩ : BufTy).Contents (Elt F) → (⟨S1x256, .f32⟩ : BufTy).Contents (Elt F)),
    StableHlo.unary main_v48 main_v49 (broadcastInDim S65536x256 ![0, 1] bcast_S1x256_S65536x256_0_1 : (⟨S1x256, .f32⟩ : BufTy).Contents (Elt F) → (⟨S65536x256, .f32⟩ : BufTy).Contents (Elt F)),
    StableHlo.binary main_v49 main_v47 main_v50 (mulf : (⟨S65536x256, .f32⟩ : BufTy).Contents (Elt F) → (⟨S65536x256, .f32⟩ : BufTy).Contents (Elt F) → (⟨S65536x256, .f32⟩ : BufTy).Contents (Elt F)),
    StableHlo.nullary main_cst_18 (constant S_ .f32 0x3727C5AC#32),
    StableHlo.unary main_cst_18 main_v51 (broadcastInDim S256 ![] bcast_S_S256 : (⟨S_, .f32⟩ : BufTy).Contents (Elt F) → (⟨S256, .f32⟩ : BufTy).Contents (Elt F)),
    StableHlo.binary main_v44 main_v51 main_v52 (addf : (⟨S256, .f32⟩ : BufTy).Contents (Elt F) → (⟨S256, .f32⟩ : BufTy).Contents (Elt F) → (⟨S256, .f32⟩ : BufTy).Contents (Elt F)),
    StableHlo.unary main_v52 main_v53 (Host.rsqrt : (⟨S256, .f32⟩ : BufTy).Contents (Elt F) → (⟨S256, .f32⟩ : BufTy).Contents (Elt F)),
    StableHlo.unary main_v53 main_v54 (broadcastInDim S1x256 ![1] bcast_S256_S1x256_1 : (⟨S256, .f32⟩ : BufTy).Contents (Elt F) → (⟨S1x256, .f32⟩ : BufTy).Contents (Elt F)),
    StableHlo.unary main_v54 main_v55 (broadcastInDim S65536x256 ![0, 1] bcast_S1x256_S65536x256_0_1 : (⟨S1x256, .f32⟩ : BufTy).Contents (Elt F) → (⟨S65536x256, .f32⟩ : BufTy).Contents (Elt F)),
    StableHlo.binary main_v50 main_v55 main_v56 (mulf : (⟨S65536x256, .f32⟩ : BufTy).Contents (Elt F) → (⟨S65536x256, .f32⟩ : BufTy).Contents (Elt F) → (⟨S65536x256, .f32⟩ : BufTy).Contents (Elt F)),
    StableHlo.unary main_arg12 main_v57 (broadcastInDim S1x256 ![1] bcast_S256_S1x256_1 : (⟨S256, .f32⟩ : BufTy).Contents (Elt F) → (⟨S1x256, .f32⟩ : BufTy).Contents (Elt F)),
    StableHlo.unary main_v57 main_v58 (broadcastInDim S65536x256 ![0, 1] bcast_S1x256_S65536x256_0_1 : (⟨S1x256, .f32⟩ : BufTy).Contents (Elt F) → (⟨S65536x256, .f32⟩ : BufTy).Contents (Elt F)),
    StableHlo.binary main_v56 main_v58 main_v59 (addf : (⟨S65536x256, .f32⟩ : BufTy).Contents (Elt F) → (⟨S65536x256, .f32⟩ : BufTy).Contents (Elt F) → (⟨S65536x256, .f32⟩ : BufTy).Contents (Elt F)),
    StableHlo.nullary main_cst_19 (constant S_ .f32 0x00000000#32),
    StableHlo.unary main_cst_19 main_v60 (broadcastInDim S65536x256 ![] bcast_S_S65536x256 : (⟨S_, .f32⟩ : BufTy).Contents (Elt F) → (⟨S65536x256, .f32⟩ : BufTy).Contents (Elt F)),
    StableHlo.binary main_v59 main_v60 main_v61 (cmpf .oge : (⟨S65536x256, .f32⟩ : BufTy).Contents (Elt F) → (⟨S65536x256, .f32⟩ : BufTy).Contents (Elt F) → (⟨S65536x256, .i1⟩ : BufTy).Contents (Elt F)),
    StableHlo.nullary main_cst_20 (constant S_ .f32 0x3F800000#32),
    StableHlo.nullary main_cst_21 (constant S_ .f32 0xBF800000#32),
    StableHlo.TRef.unary (.of main_cst_20 : StableHlo.TRef sig ⟨S_, .f32⟩) main_call6.v0 (broadcastInDim S65536x256 ![] bcast_S_S65536x256),
    StableHlo.TRef.unary (.of main_cst_21 : StableHlo.TRef sig ⟨S_, .f32⟩) main_call6.v1 (broadcastInDim S65536x256 ![] bcast_S_S65536x256),
    StableHlo.TRef.ternary (.of main_v61 : StableHlo.TRef sig ⟨S65536x256, .i1⟩) main_call6.v0 main_call6.v1 main_call6.v2 select,
    StableHlo.unary main_v62 main_v63 (id : (⟨S65536x256, .f32⟩ : BufTy).Contents (Elt F) → (⟨S65536x256, .f32⟩ : BufTy).Contents (Elt F)),
    StableHlo.nullary main_cst_22 (constant S_ .f32 0x00000000#32),
    StableHlo.unary main_cst_22 main_v64 (broadcastInDim S256x256 ![] bcast_S_S256x256 : (⟨S_, .f32⟩ : BufTy).Contents (Elt F) → (⟨S256x256, .f32⟩ : BufTy).Contents (Elt F)),
    StableHlo.binary main_arg3 main_v64 main_v65 (cmpf .oge : (⟨S256x256, .f32⟩ : BufTy).Contents (Elt F) → (⟨S256x256, .f32⟩ : BufTy).Contents (Elt F) → (⟨S256x256, .i1⟩ : BufTy).Contents (Elt F)),
    StableHlo.nullary main_cst_23 (constant S_ .f32 0x3F800000#32),
    StableHlo.nullary main_cst_24 (constant S_ .f32 0xBF800000#32),
    StableHlo.TRef.unary (.of main_cst_23 : StableHlo.TRef sig ⟨S_, .f32⟩) main_call7.v0 (broadcastInDim S256x256 ![] bcast_S_S256x256),
    StableHlo.TRef.unary (.of main_cst_24 : StableHlo.TRef sig ⟨S_, .f32⟩) main_call7.v1 (broadcastInDim S256x256 ![] bcast_S_S256x256),
    StableHlo.TRef.ternary (.of main_v65 : StableHlo.TRef sig ⟨S256x256, .i1⟩) main_call7.v0 main_call7.v1 main_call7.v2 select,
    StableHlo.unary main_v66 main_v67 (id : (⟨S256x256, .f32⟩ : BufTy).Contents (Elt F) → (⟨S256x256, .f32⟩ : BufTy).Contents (Elt F)),
    StableHlo.unary main_v67 main_v68 ((transpose S256x256 [1, 0] · transposes_S256x256_S256x256_1_0) : (⟨S256x256, .f32⟩ : BufTy).Contents (Elt F) → (⟨S256x256, .f32⟩ : BufTy).Contents (Elt F)),
    StableHlo.binary main_v63 main_v68 main_v69 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.nullary main_cst_25 (constant S_ .f32 0x00000000#32),
    StableHlo.binary main_v69 main_cst_25 main_v70 ((fun x v => Host.reduceAdd x v reducesTo_S65536x256_S256_d0 h_S_) : (⟨S65536x256, .f32⟩ : BufTy).Contents (Elt F) → (⟨S_, .f32⟩ : BufTy).Contents (Elt F) → (⟨S256, .f32⟩ : BufTy).Contents (Elt F)),
    StableHlo.nullary main_cst_26 (constant S_ .f32 0x47800000#32),
    StableHlo.unary main_cst_26 main_v71 (broadcastInDim S256 ![] bcast_S_S256 : (⟨S_, .f32⟩ : BufTy).Contents (Elt F) → (⟨S256, .f32⟩ : BufTy).Contents (Elt F)),
    StableHlo.binary main_v70 main_v71 main_v72 (Host.divf : (⟨S256, .f32⟩ : BufTy).Contents (Elt F) → (⟨S256, .f32⟩ : BufTy).Contents (Elt F) → (⟨S256, .f32⟩ : BufTy).Contents (Elt F)),
    StableHlo.nullary main_c_27 (constantI S_ 32 0#32),
    StableHlo.TRef.nullary main_call8.cst (constant S_ .f32 0x00000000#32),
    StableHlo.TRef.binary (.of main_v69 : StableHlo.TRef sig ⟨S65536x256, .f32⟩) main_call8.cst main_call8.v0 (fun x v => Host.reduceAdd x v reducesTo_S65536x256_S256_d0 h_S_),
    StableHlo.TRef.unary main_call8.v0 main_call8.v1 (broadcastInDim S1x256 ![1] bcast_S256_S1x256_1),
    StableHlo.TRef.nullary main_call8.cst_0 (constant S_ .f32 0x47800000#32),
    StableHlo.TRef.unary main_call8.cst_0 main_call8.v2 (broadcastInDim S1x256 ![] bcast_S_S1x256),
    StableHlo.TRef.binary main_call8.v1 main_call8.v2 main_call8.v3 Host.divf,
    StableHlo.TRef.unary main_call8.v3 main_call8.v4 (broadcastInDim S65536x256 ![0, 1] bcast_S1x256_S65536x256_0_1),
    StableHlo.TRef.binary (.of main_v69 : StableHlo.TRef sig ⟨S65536x256, .f32⟩) main_call8.v4 main_call8.v5 subf,
    StableHlo.TRef.binary main_call8.v5 main_call8.v5 main_call8.v6 mulf,
    StableHlo.TRef.unary (.of main_c_27 : StableHlo.TRef sig ⟨S_, .i32⟩) main_call8.v7 (sitofp .f32),
    StableHlo.TRef.nullary main_call8.cst_1 (constant S_ .f32 0x47800000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S65536x256_S256_d0 h_S_),
    StableHlo.TRef.unary main_call8.v8 main_call8.v10 (broadcastInDim S256 ![] bcast_S_S256),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S256 ![] bcast_S_S256),
    StableHlo.TRef.ternary main_call8.v12 main_call8.v11 main_call8.call0.v1 main_call8.call0.v2 (fun p a b => select (broadcastInDim S256 ![] bcast_S_S256 p) a b),
    StableHlo.unary main_v72 main_v74 (broadcastInDim S1x256 ![1] bcast_S256_S1x256_1 : (⟨S256, .f32⟩ : BufTy).Contents (Elt F) → (⟨S1x256, .f32⟩ : BufTy).Contents (Elt F)),
    StableHlo.unary main_v74 main_v75 (broadcastInDim S65536x256 ![0, 1] bcast_S1x256_S65536x256_0_1 : (⟨S1x256, .f32⟩ : BufTy).Contents (Elt F) → (⟨S65536x256, .f32⟩ : BufTy).Contents (Elt F)),
    StableHlo.binary main_v69 main_v75 main_v76 (subf : (⟨S65536x256, .f32⟩ : BufTy).Contents (Elt F) → (⟨S65536x256, .f32⟩ : BufTy).Contents (Elt F) → (⟨S65536x256, .f32⟩ : BufTy).Contents (Elt F)),
    StableHlo.unary main_arg8 main_v77 (broadcastInDim S1x256 ![1] bcast_S256_S1x256_1 : (⟨S256, .f32⟩ : BufTy).Contents (Elt F) → (⟨S1x256, .f32⟩ : BufTy).Contents (Elt F)),
    StableHlo.unary main_v77 main_v78 (broadcastInDim S65536x256 ![0, 1] bcast_S1x256_S65536x256_0_1 : (⟨S1x256, .f32⟩ : BufTy).Contents (Elt F) → (⟨S65536x256, .f32⟩ : BufTy).Contents (Elt F)),
    StableHlo.binary main_v78 main_v76 main_v79 (mulf : (⟨S65536x256, .f32⟩ : BufTy).Contents (Elt F) → (⟨S65536x256, .f32⟩ : BufTy).Contents (Elt F) → (⟨S65536x256, .f32⟩ : BufTy).Contents (Elt F)),
    StableHlo.nullary main_cst_28 (constant S_ .f32 0x3727C5AC#32),
    StableHlo.unary main_cst_28 main_v80 (broadcastInDim S256 ![] bcast_S_S256 : (⟨S_, .f32⟩ : BufTy).Contents (Elt F) → (⟨S256, .f32⟩ : BufTy).Contents (Elt F)),
    StableHlo.binary main_v73 main_v80 main_v81 (addf : (⟨S256, .f32⟩ : BufTy).Contents (Elt F) → (⟨S256, .f32⟩ : BufTy).Contents (Elt F) → (⟨S256, .f32⟩ : BufTy).Contents (Elt F)),
    StableHlo.unary main_v81 main_v82 (Host.rsqrt : (⟨S256, .f32⟩ : BufTy).Contents (Elt F) → (⟨S256, .f32⟩ : BufTy).Contents (Elt F)),
    StableHlo.unary main_v82 main_v83 (broadcastInDim S1x256 ![1] bcast_S256_S1x256_1 : (⟨S256, .f32⟩ : BufTy).Contents (Elt F) → (⟨S1x256, .f32⟩ : BufTy).Contents (Elt F)),
    StableHlo.unary main_v83 main_v84 (broadcastInDim S65536x256 ![0, 1] bcast_S1x256_S65536x256_0_1 : (⟨S1x256, .f32⟩ : BufTy).Contents (Elt F) → (⟨S65536x256, .f32⟩ : BufTy).Contents (Elt F)),
    StableHlo.binary main_v79 main_v84 main_v85 (mulf : (⟨S65536x256, .f32⟩ : BufTy).Contents (Elt F) → (⟨S65536x256, .f32⟩ : BufTy).Contents (Elt F) → (⟨S65536x256, .f32⟩ : BufTy).Contents (Elt F)),
    StableHlo.unary main_arg13 main_v86 (broadcastInDim S1x256 ![1] bcast_S256_S1x256_1 : (⟨S256, .f32⟩ : BufTy).Contents (Elt F) → (⟨S1x256, .f32⟩ : BufTy).Contents (Elt F)),
    StableHlo.unary main_v86 main_v87 (broadcastInDim S65536x256 ![0, 1] bcast_S1x256_S65536x256_0_1 : (⟨S1x256, .f32⟩ : BufTy).Contents (Elt F) → (⟨S65536x256, .f32⟩ : BufTy).Contents (Elt F)),
    StableHlo.binary main_v85 main_v87 main_v88 (addf : (⟨S65536x256, .f32⟩ : BufTy).Contents (Elt F) → (⟨S65536x256, .f32⟩ : BufTy).Contents (Elt F) → (⟨S65536x256, .f32⟩ : BufTy).Contents (Elt F)) ]

/-- The window is that straight line: the functions unfolded at their calls, sequencing reassociated. -/
theorem part1_eq (c : Dev nD) : main_part1 (F := F) c = seq ops1 := rfl

/-- Every operation touches TensorCore references only. -/
theorem ops1_sub : (ops1 : List (HloOp τ sig (Elt F))).Forall fun op => op.bufs ⊆ tcRefs τ sig :=
  ⟨nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., nullary_bufs_sub .., unary_bufs_sub ..,
    unary_bufs_sub .., ternary_bufs_sub .., unary_bufs_sub .., nullary_bufs_sub .., unary_bufs_sub .., binary_bufs_sub ..,
    nullary_bufs_sub .., nullary_bufs_sub .., unary_bufs_sub .., unary_bufs_sub .., ternary_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub ..⟩

/-- Every operation determines its result. -/
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl⟩

/-- No operation writes an argument of @main. -/
theorem ops1_safe : (ops1 : List (HloOp τ sig (Elt F))).Forall ArgSafe :=
  ⟨argSafe_of_writes main_cst_16 rfl (by decide), argSafe_of_writes main_v42 rfl (by decide), argSafe_of_writes main_v43 rfl (by decide),
    argSafe_of_writes main_c_17 rfl (by decide), argSafe_of_writes main_call5.cst.ref rfl (by decide), argSafe_of_writes main_call5.v0.ref rfl (by decide),
    argSafe_of_writes main_call5.v1.ref rfl (by decide), argSafe_of_writes main_call5.cst_0.ref rfl (by decide), argSafe_of_writes main_call5.v2.ref rfl (by decide),
    argSafe_of_writes main_call5.v3.ref rfl (by decide), argSafe_of_writes main_call5.v4.ref rfl (by decide), argSafe_of_writes main_call5.v5.ref rfl (by decide),
    argSafe_of_writes main_call5.v6.ref rfl (by decide), argSafe_of_writes main_call5.v7.ref rfl (by decide), argSafe_of_writes main_call5.cst_1.ref rfl (by decide),
    argSafe_of_writes main_call5.v8.ref rfl (by decide), argSafe_of_writes main_call5.cst_2.ref rfl (by decide), argSafe_of_writes main_call5.v9.ref rfl (by decide),
    argSafe_of_writes main_call5.v10.ref rfl (by decide), argSafe_of_writes main_call5.v11.ref rfl (by decide), argSafe_of_writes main_call5.cst_3.ref rfl (by decide),
    argSafe_of_writes main_call5.v12.ref rfl (by decide), argSafe_of_writes main_call5.cst_4.ref rfl (by decide), argSafe_of_writes main_call5.call0.v0.ref rfl (by decide),
    argSafe_of_writes main_call5.call0.v1.ref rfl (by decide), argSafe_of_writes main_call5.call0.v2.ref rfl (by decide), argSafe_of_writes main_v45 rfl (by decide),
    argSafe_of_writes main_v46 rfl (by decide), argSafe_of_writes main_v47 rfl (by decide), argSafe_of_writes main_v48 rfl (by decide),
    argSafe_of_writes main_v49 rfl (by decide), argSafe_of_writes main_v50 rfl (by decide), argSafe_of_writes main_cst_18 rfl (by decide),
    argSafe_of_writes main_v51 rfl (by decide), argSafe_of_writes main_v52 rfl (by decide), argSafe_of_writes main_v53 rfl (by decide),
    argSafe_of_writes main_v54 rfl (by decide), argSafe_of_writes main_v55 rfl (by decide), argSafe_of_writes main_v56 rfl (by decide),
    argSafe_of_writes main_v57 rfl (by decide), argSafe_of_writes main_v58 rfl (by decide), argSafe_of_writes main_v59 rfl (by decide),
    argSafe_of_writes main_cst_19 rfl (by decide), argSafe_of_writes main_v60 rfl (by decide), argSafe_of_writes main_v61 rfl (by decide),
    argSafe_of_writes main_cst_20 rfl (by decide), argSafe_of_writes main_cst_21 rfl (by decide), argSafe_of_writes main_call6.v0.ref rfl (by decide),
    argSafe_of_writes main_call6.v1.ref rfl (by decide), argSafe_of_writes main_call6.v2.ref rfl (by decide), argSafe_of_writes main_v63 rfl (by decide),
    argSafe_of_writes main_cst_22 rfl (by decide), argSafe_of_writes main_v64 rfl (by decide), argSafe_of_writes main_v65 rfl (by decide),
    argSafe_of_writes main_cst_23 rfl (by decide), argSafe_of_writes main_cst_24 rfl (by decide), argSafe_of_writes main_call7.v0.ref rfl (by decide),
    argSafe_of_writes main_call7.v1.ref rfl (by decide), argSafe_of_writes main_call7.v2.ref rfl (by decide), argSafe_of_writes main_v67 rfl (by decide),
    argSafe_of_writes main_v68 rfl (by decide), argSafe_of_writes main_v69 rfl (by decide), argSafe_of_writes main_cst_25 rfl (by decide),
    argSafe_of_writes main_v70 rfl (by decide), argSafe_of_writes main_cst_26 rfl (by decide), argSafe_of_writes main_v71 rfl (by decide),
    argSafe_of_writes main_v72 rfl (by decide), argSafe_of_writes main_c_27 rfl (by decide), argSafe_of_writes main_call8.cst.ref rfl (by decide),
    argSafe_of_writes main_call8.v0.ref rfl (by decide), argSafe_of_writes main_call8.v1.ref rfl (by decide), argSafe_of_writes main_call8.cst_0.ref rfl (by decide),
    argSafe_of_writes main_call8.v2.ref rfl (by decide), argSafe_of_writes main_call8.v3.ref rfl (by decide), argSafe_of_writes main_call8.v4.ref rfl (by decide),
    argSafe_of_writes main_call8.v5.ref rfl (by decide), argSafe_of_writes main_call8.v6.ref rfl (by decide), argSafe_of_writes main_call8.v7.ref rfl (by decide),
    argSafe_of_writes main_call8.cst_1.ref rfl (by decide), argSafe_of_writes main_call8.v8.ref rfl (by decide), argSafe_of_writes main_call8.cst_2.ref rfl (by decide),
    argSafe_of_writes main_call8.v9.ref rfl (by decide), argSafe_of_writes main_call8.v10.ref rfl (by decide), argSafe_of_writes main_call8.v11.ref rfl (by decide),
    argSafe_of_writes main_call8.cst_3.ref rfl (by decide), argSafe_of_writes main_call8.v12.ref rfl (by decide), argSafe_of_writes main_call8.cst_4.ref rfl (by decide),
    argSafe_of_writes main_call8.call0.v0.ref rfl (by decide), argSafe_of_writes main_call8.call0.v1.ref rfl (by decide), argSafe_of_writes main_call8.call0.v2.ref rfl (by decide),
    argSafe_of_writes main_v74 rfl (by decide), argSafe_of_writes main_v75 rfl (by decide), argSafe_of_writes main_v76 rfl (by decide),
    argSafe_of_writes main_v77 rfl (by decide), argSafe_of_writes main_v78 rfl (by decide), argSafe_of_writes main_v79 rfl (by decide),
    argSafe_of_writes main_cst_28 rfl (by decide), argSafe_of_writes main_v80 rfl (by decide), argSafe_of_writes main_v81 rfl (by decide),
    argSafe_of_writes main_v82 rfl (by decide), argSafe_of_writes main_v83 rfl (by decide), argSafe_of_writes main_v84 rfl (by decide),
    argSafe_of_writes main_v85 rfl (by decide), argSafe_of_writes main_v86 rfl (by decide), argSafe_of_writes main_v87 rfl (by decide),
    argSafe_of_writes main_v88 rfl (by decide)⟩

end Cert.ReferenceIdeal.Hand

end
-- ==== Proof.Ref.W2.lean ====
/- The reference's run: the statements of @main's window 2 (`main_part2`) as a list of its 89 host
   operations, each call of an outlined function replaced by the callee's operations over that call's buffer
   record (a call nested in the callee likewise), in order. -/
import proofs.«118595_j1726576853663_2_alg».proof.Proof.Ref.Common

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 2's 89 operations, in order. -/
abbrev ops2 : List (HloOp τ sig (Elt F)) :=
  [ StableHlo.nullary main_cst_29 (constant S_ .f32 0x00000000#32),
    StableHlo.unary main_cst_29 main_v89 (broadcastInDim S65536x256 ![] bcast_S_S65536x256 : (⟨S_, .f32⟩ : BufTy).Contents (Elt F) → (⟨S65536x256, .f32⟩ : BufTy).Contents (Elt F)),
    StableHlo.binary main_v88 main_v89 main_v90 (cmpf .oge : (⟨S65536x256, .f32⟩ : BufTy).Contents (Elt F) → (⟨S65536x256, .f32⟩ : BufTy).Contents (Elt F) → (⟨S65536x256, .i1⟩ : BufTy).Contents (Elt F)),
    StableHlo.nullary main_cst_30 (constant S_ .f32 0x3F800000#32),
    StableHlo.nullary main_cst_31 (constant S_ .f32 0xBF800000#32),
    StableHlo.TRef.unary (.of main_cst_30 : StableHlo.TRef sig ⟨S_, .f32⟩) main_call9.v0 (broadcastInDim S65536x256 ![] bcast_S_S65536x256),
    StableHlo.TRef.unary (.of main_cst_31 : StableHlo.TRef sig ⟨S_, .f32⟩) main_call9.v1 (broadcastInDim S65536x256 ![] bcast_S_S65536x256),
    StableHlo.TRef.ternary (.of main_v90 : StableHlo.TRef sig ⟨S65536x256, .i1⟩) main_call9.v0 main_call9.v1 main_call9.v2 select,
    StableHlo.unary main_v91 main_v92 (id : (⟨S65536x256, .f32⟩ : BufTy).Contents (Elt F) → (⟨S65536x256, .f32⟩ : BufTy).Contents (Elt F)),
    StableHlo.nullary main_cst_32 (constant S_ .f32 0x00000000#32),
    StableHlo.unary main_cst_32 main_v93 (broadcastInDim S256x256 ![] bcast_S_S256x256 : (⟨S_, .f32⟩ : BufTy).Contents (Elt F) → (⟨S256x256, .f32⟩ : BufTy).Contents (Elt F)),
    StableHlo.binary main_arg4 main_v93 main_v94 (cmpf .oge : (⟨S256x256, .f32⟩ : BufTy).Contents (Elt F) → (⟨S256x256, .f32⟩ : BufTy).Contents (Elt F) → (⟨S256x256, .i1⟩ : BufTy).Contents (Elt F)),
    StableHlo.nullary main_cst_33 (constant S_ .f32 0x3F800000#32),
    StableHlo.nullary main_cst_34 (constant S_ .f32 0xBF800000#32),
    StableHlo.TRef.unary (.of main_cst_33 : StableHlo.TRef sig ⟨S_, .f32⟩) main_call10.v0 (broadcastInDim S256x256 ![] bcast_S_S256x256),
    StableHlo.TRef.unary (.of main_cst_34 : StableHlo.TRef sig ⟨S_, .f32⟩) main_call10.v1 (broadcastInDim S256x256 ![] bcast_S_S256x256),
    StableHlo.TRef.ternary (.of main_v94 : StableHlo.TRef sig ⟨S256x256, .i1⟩) main_call10.v0 main_call10.v1 main_call10.v2 select,
    StableHlo.unary main_v95 main_v96 (id : (⟨S256x256, .f32⟩ : BufTy).Contents (Elt F) → (⟨S256x256, .f32⟩ : BufTy).Contents (Elt F)),
    StableHlo.unary main_v96 main_v97 ((transpose S256x256 [1, 0] · transposes_S256x256_S256x256_1_0) : (⟨S256x256, .f32⟩ : BufTy).Contents (Elt F) → (⟨S256x256, .f32⟩ : BufTy).Contents (Elt F)),
    StableHlo.binary main_v92 main_v97 main_v98 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.nullary main_cst_35 (constant S_ .f32 0x00000000#32),
    StableHlo.binary main_v98 main_cst_35 main_v99 ((fun x v => Host.reduceAdd x v reducesTo_S65536x256_S256_d0 h_S_) : (⟨S65536x256, .f32⟩ : BufTy).Contents (Elt F) → (⟨S_, .f32⟩ : BufTy).Contents (Elt F) → (⟨S256, .f32⟩ : BufTy).Contents (Elt F)),
    StableHlo.nullary main_cst_36 (constant S_ .f32 0x47800000#32),
    StableHlo.unary main_cst_36 main_v100 (broadcastInDim S256 ![] bcast_S_S256 : (⟨S_, .f32⟩ : BufTy).Contents (Elt F) → (⟨S256, .f32⟩ : BufTy).Contents (Elt F)),
    StableHlo.binary main_v99 main_v100 main_v101 (Host.divf : (⟨S256, .f32⟩ : BufTy).Contents (Elt F) → (⟨S256, .f32⟩ : BufTy).Contents (Elt F) → (⟨S256, .f32⟩ : BufTy).Contents (Elt F)),
    StableHlo.nullary main_c_37 (constantI S_ 32 0#32),
    StableHlo.TRef.nullary main_call11.cst (constant S_ .f32 0x00000000#32),
    StableHlo.TRef.binary (.of main_v98 : StableHlo.TRef sig ⟨S65536x256, .f32⟩) main_call11.cst main_call11.v0 (fun x v => Host.reduceAdd x v reducesTo_S65536x256_S256_d0 h_S_),
    StableHlo.TRef.unary main_call11.v0 main_call11.v1 (broadcastInDim S1x256 ![1] bcast_S256_S1x256_1),
    StableHlo.TRef.nullary main_call11.cst_0 (constant S_ .f32 0x47800000#32),
    StableHlo.TRef.unary main_call11.cst_0 main_call11.v2 (broadcastInDim S1x256 ![] bcast_S_S1x256),
    StableHlo.TRef.binary main_call11.v1 main_call11.v2 main_call11.v3 Host.divf,
    StableHlo.TRef.unary main_call11.v3 main_call11.v4 (broadcastInDim S65536x256 ![0, 1] bcast_S1x256_S65536x256_0_1),
    StableHlo.TRef.binary (.of main_v98 : StableHlo.TRef sig ⟨S65536x256, .f32⟩) main_call11.v4 main_call11.v5 subf,
    StableHlo.TRef.binary main_call11.v5 main_call11.v5 main_call11.v6 mulf,
    StableHlo.TRef.unary (.of main_c_37 : StableHlo.TRef sig ⟨S_, .i32⟩) main_call11.v7 (sitofp .f32),
    StableHlo.TRef.nullary main_call11.cst_1 (constant S_ .f32 0x47800000#32),
    StableHlo.TRef.binary main_call11.cst_1 main_call11.v7 main_call11.v8 subf,
    StableHlo.TRef.nullary main_call11.cst_2 (constant S_ .f32 0x00000000#32),
    StableHlo.TRef.binary main_call11.v6 main_call11.cst_2 main_call11.v9 (fun x v => Host.reduceAdd x v reducesTo_S65536x256_S256_d0 h_S_),
    StableHlo.TRef.unary main_call11.v8 main_call11.v10 (broadcastInDim S256 ![] bcast_S_S256),
    StableHlo.TRef.binary main_call11.v9 main_call11.v10 main_call11.v11 Host.divf,
    StableHlo.TRef.nullary main_call11.cst_3 (constant S_ .f32 0x00000000#32),
    StableHlo.TRef.binary main_call11.v8 main_call11.cst_3 main_call11.v12 (cmpf .ogt),
    StableHlo.TRef.nullary main_call11.cst_4 (constant S_ .f32 0x7FC00000#32),
    StableHlo.TRef.unary main_call11.cst_4 main_call11.call0.v0 id,
    StableHlo.TRef.unary main_call11.call0.v0 main_call11.call0.v1 (broadcastInDim S256 ![] bcast_S_S256),
    StableHlo.TRef.ternary main_call11.v12 main_call11.v11 main_call11.call0.v1 main_call11.call0.v2 (fun p a b => select (broadcastInDim S256 ![] bcast_S_S256 p) a b),
    StableHlo.unary main_v101 main_v103 (broadcastInDim S1x256 ![1] bcast_S256_S1x256_1 : (⟨S256, .f32⟩ : BufTy).Contents (Elt F) → (⟨S1x256, .f32⟩ : BufTy).Contents (Elt F)),
    StableHlo.unary main_v103 main_v104 (broadcastInDim S65536x256 ![0, 1] bcast_S1x256_S65536x256_0_1 : (⟨S1x256, .f32⟩ : BufTy).Contents (Elt F) → (⟨S65536x256, .f32⟩ : BufTy).Contents (Elt F)),
    StableHlo.binary main_v98 main_v104 main_v105 (subf : (⟨S65536x256, .f32⟩ : BufTy).Contents (Elt F) → (⟨S65536x256, .f32⟩ : BufTy).Contents (Elt F) → (⟨S65536x256, .f32⟩ : BufTy).Contents (Elt F)),
    StableHlo.unary main_arg9 main_v106 (broadcastInDim S1x256 ![1] bcast_S256_S1x256_1 : (⟨S256, .f32⟩ : BufTy).Contents (Elt F) → (⟨S1x256, .f32⟩ : BufTy).Contents (Elt F)),
    StableHlo.unary main_v106 main_v107 (broadcastInDim S65536x256 ![0, 1] bcast_S1x256_S65536x256_0_1 : (⟨S1x256, .f32⟩ : BufTy).Contents (Elt F) → (⟨S65536x256, .f32⟩ : BufTy).Contents (Elt F)),
    StableHlo.binary main_v107 main_v105 main_v108 (mulf : (⟨S65536x256, .f32⟩ : BufTy).Contents (Elt F) → (⟨S65536x256, .f32⟩ : BufTy).Contents (Elt F) → (⟨S65536x256, .f32⟩ : BufTy).Contents (Elt F)),
    StableHlo.nullary main_cst_38 (constant S_ .f32 0x3727C5AC#32),
    StableHlo.unary main_cst_38 main_v109 (broadcastInDim S256 ![] bcast_S_S256 : (⟨S_, .f32⟩ : BufTy).Contents (Elt F) → (⟨S256, .f32⟩ : BufTy).Contents (Elt F)),
    StableHlo.binary main_v102 main_v109 main_v110 (addf : (⟨S256, .f32⟩ : BufTy).Contents (Elt F) → (⟨S256, .f32⟩ : BufTy).Contents (Elt F) → (⟨S256, .f32⟩ : BufTy).Contents (Elt F)),
    StableHlo.unary main_v110 main_v111 (Host.rsqrt : (⟨S256, .f32⟩ : BufTy).Contents (Elt F) → (⟨S256, .f32⟩ : BufTy).Contents (Elt F)),
    StableHlo.unary main_v111 main_v112 (broadcastInDim S1x256 ![1] bcast_S256_S1x256_1 : (⟨S256, .f32⟩ : BufTy).Contents (Elt F) → (⟨S1x256, .f32⟩ : BufTy).Contents (Elt F)),
    StableHlo.unary main_v112 main_v113 (broadcastInDim S65536x256 ![0, 1] bcast_S1x256_S65536x256_0_1 : (⟨S1x256, .f32⟩ : BufTy).Contents (Elt F) → (⟨S65536x256, .f32⟩ : BufTy).Contents (Elt F)),
    StableHlo.binary main_v108 main_v113 main_v114 (mulf : (⟨S65536x256, .f32⟩ : BufTy).Contents (Elt F) → (⟨S65536x256, .f32⟩ : BufTy).Contents (Elt F) → (⟨S65536x256, .f32⟩ : BufTy).Contents (Elt F)),
    StableHlo.unary main_arg14 main_v115 (broadcastInDim S1x256 ![1] bcast_S256_S1x256_1 : (⟨S256, .f32⟩ : BufTy).Contents (Elt F) → (⟨S1x256, .f32⟩ : BufTy).Contents (Elt F)),
    StableHlo.unary main_v115 main_v116 (broadcastInDim S65536x256 ![0, 1] bcast_S1x256_S65536x256_0_1 : (⟨S1x256, .f32⟩ : BufTy).Contents (Elt F) → (⟨S65536x256, .f32⟩ : BufTy).Contents (Elt F)),
    StableHlo.binary main_v114 main_v116 main_v117 (addf : (⟨S65536x256, .f32⟩ : BufTy).Contents (Elt F) → (⟨S65536x256, .f32⟩ : BufTy).Contents (Elt F) → (⟨S65536x256, .f32⟩ : BufTy).Contents (Elt F)),
    StableHlo.nullary main_cst_39 (constant S_ .f32 0x00000000#32),
    StableHlo.unary main_cst_39 main_v118 (broadcastInDim S65536x256 ![] bcast_S_S65536x256 : (⟨S_, .f32⟩ : BufTy).Contents (Elt F) → (⟨S65536x256, .f32⟩ : BufTy).Contents (Elt F)),
    StableHlo.binary main_v117 main_v118 main_v119 (cmpf .oge : (⟨S65536x256, .f32⟩ : BufTy).Contents (Elt F) → (⟨S65536x256, .f32⟩ : BufTy).Contents (Elt F) → (⟨S65536x256, .i1⟩ : BufTy).Contents (Elt F)),
    StableHlo.nullary main_cst_40 (constant S_ .f32 0x3F800000#32),
    StableHlo.nullary main_cst_41 (constant S_ .f32 0xBF800000#32),
    StableHlo.TRef.unary (.of main_cst_40 : StableHlo.TRef sig ⟨S_, .f32⟩) main_call12.v0 (broadcastInDim S65536x256 ![] bcast_S_S65536x256),
    StableHlo.TRef.unary (.of main_cst_41 : StableHlo.TRef sig ⟨S_, .f32⟩) main_call12.v1 (broadcastInDim S65536x256 ![] bcast_S_S65536x256),
    StableHlo.TRef.ternary (.of main_v119 : StableHlo.TRef sig ⟨S65536x256, .i1⟩) main_call12.v0 main_call12.v1 main_call12.v2 select,
    StableHlo.unary main_v120 main_v121 (id : (⟨S65536x256, .f32⟩ : BufTy).Contents (Elt F) → (⟨S65536x256, .f32⟩ : BufTy).Contents (Elt F)),
    StableHlo.nullary main_cst_42 (constant S_ .f32 0x00000000#32),
    StableHlo.unary main_cst_42 main_v122 (broadcastInDim S10x256 ![] bcast_S_S10x256 : (⟨S_, .f32⟩ : BufTy).Contents (Elt F) → (⟨S10x256, .f32⟩ : BufTy).Contents (Elt F)),
    StableHlo.binary main_arg5 main_v122 main_v123 (cmpf .oge : (⟨S10x256, .f32⟩ : BufTy).Contents (Elt F) → (⟨S10x256, .f32⟩ : BufTy).Contents (Elt F) → (⟨S10x256, .i1⟩ : BufTy).Contents (Elt F)),
    StableHlo.nullary main_cst_43 (constant S_ .f32 0x3F800000#32),
    StableHlo.nullary main_cst_44 (constant S_ .f32 0xBF800000#32),
    StableHlo.TRef.unary (.of main_cst_43 : StableHlo.TRef sig ⟨S_, .f32⟩) main_call13.v0 (broadcastInDim S10x256 ![] bcast_S_S10x256),
    StableHlo.TRef.unary (.of main_cst_44 : StableHlo.TRef sig ⟨S_, .f32⟩) main_call13.v1 (broadcastInDim S10x256 ![] bcast_S_S10x256),
    StableHlo.TRef.ternary (.of main_v123 : StableHlo.TRef sig ⟨S10x256, .i1⟩) main_call13.v0 main_call13.v1 main_call13.v2 select,
    StableHlo.unary main_v124 main_v125 (id : (⟨S10x256, .f32⟩ : BufTy).Contents (Elt F) → (⟨S10x256, .f32⟩ : BufTy).Contents (Elt F)),
    StableHlo.unary main_v125 main_v126 ((transpose S256x10 [1, 0] · transposes_S10x256_S256x10_1_0) : (⟨S10x256, .f32⟩ : BufTy).Contents (Elt F) → (⟨S256x10, .f32⟩ : BufTy).Contents (Elt F)),
    StableHlo.binary main_v121 main_v126 main_v127 ((fun l r => Host.dotGeneral dot_S65536x256_S256x10_S65536x10_1_0_0_1_n_n none l r) : (⟨S65536x256, .f32⟩ : BufTy).Contents (Elt F) → (⟨S256x10, .f32⟩ : BufTy).Contents (Elt F) → (⟨S65536x10, .f32⟩ : BufTy).Contents (Elt F)),
    StableHlo.nullary main_cst_45 (constant S_ .f32 0x00000000#32),
    StableHlo.binary main_v127 main_cst_45 main_v128 ((fun x v => Host.reduceAdd x v reducesTo_S65536x10_S10_d0 h_S_) : (⟨S65536x10, .f32⟩ : BufTy).Contents (Elt F) → (⟨S_, .f32⟩ : BufTy).Contents (Elt F) → (⟨S10, .f32⟩ : BufTy).Contents (Elt F)),
    StableHlo.nullary main_cst_46 (constant S_ .f32 0x47800000#32),
    StableHlo.unary main_cst_46 main_v129 (broadcastInDim S10 ![] bcast_S_S10 : (⟨S_, .f32⟩ : BufTy).Contents (Elt F) → (⟨S10, .f32⟩ : BufTy).Contents (Elt F)),
    StableHlo.binary main_v128 main_v129 main_v130 (Host.divf : (⟨S10, .f32⟩ : BufTy).Contents (Elt F) → (⟨S10, .f32⟩ : BufTy).Contents (Elt F) → (⟨S10, .f32⟩ : BufTy).Contents (Elt F)) ]

/-- The window is that straight line: the functions unfolded at their calls, sequencing reassociated. -/
theorem part2_eq (c : Dev nD) : main_part2 (F := F) c = seq ops2 := rfl

/-- Every operation touches TensorCore references only. -/
theorem ops2_sub : (ops2 : List (HloOp τ sig (Elt F))).Forall fun op => op.bufs ⊆ tcRefs τ sig :=
  ⟨nullary_bufs_sub .., unary_bufs_sub .., binary_bufs_sub .., nullary_bufs_sub .., nullary_bufs_sub .., unary_bufs_sub ..,
    unary_bufs_sub .., ternary_bufs_sub .., unary_bufs_sub .., nullary_bufs_sub .., unary_bufs_sub .., binary_bufs_sub ..,
    nullary_bufs_sub .., nullary_bufs_sub .., unary_bufs_sub .., unary_bufs_sub .., ternary_bufs_sub .., unary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., nullary_bufs_sub .., unary_bufs_sub .., unary_bufs_sub .., ternary_bufs_sub ..,
    unary_bufs_sub .., nullary_bufs_sub .., unary_bufs_sub .., binary_bufs_sub .., nullary_bufs_sub .., nullary_bufs_sub ..,
    unary_bufs_sub .., unary_bufs_sub .., ternary_bufs_sub .., unary_bufs_sub .., unary_bufs_sub .., binary_bufs_sub ..,
    nullary_bufs_sub .., binary_bufs_sub .., nullary_bufs_sub .., unary_bufs_sub .., binary_bufs_sub ..⟩

/-- Every operation determines its result. -/
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl⟩

/-- No operation writes an argument of @main. -/
theorem ops2_safe : (ops2 : List (HloOp τ sig (Elt F))).Forall ArgSafe :=
  ⟨argSafe_of_writes main_cst_29 rfl (by decide), argSafe_of_writes main_v89 rfl (by decide), argSafe_of_writes main_v90 rfl (by decide),
    argSafe_of_writes main_cst_30 rfl (by decide), argSafe_of_writes main_cst_31 rfl (by decide), argSafe_of_writes main_call9.v0.ref rfl (by decide),
    argSafe_of_writes main_call9.v1.ref rfl (by decide), argSafe_of_writes main_call9.v2.ref rfl (by decide), argSafe_of_writes main_v92 rfl (by decide),
    argSafe_of_writes main_cst_32 rfl (by decide), argSafe_of_writes main_v93 rfl (by decide), argSafe_of_writes main_v94 rfl (by decide),
    argSafe_of_writes main_cst_33 rfl (by decide), argSafe_of_writes main_cst_34 rfl (by decide), argSafe_of_writes main_call10.v0.ref rfl (by decide),
    argSafe_of_writes main_call10.v1.ref rfl (by decide), argSafe_of_writes main_call10.v2.ref rfl (by decide), argSafe_of_writes main_v96 rfl (by decide),
    argSafe_of_writes main_v97 rfl (by decide), argSafe_of_writes main_v98 rfl (by decide), argSafe_of_writes main_cst_35 rfl (by decide),
    argSafe_of_writes main_v99 rfl (by decide), argSafe_of_writes main_cst_36 rfl (by decide), argSafe_of_writes main_v100 rfl (by decide),
    argSafe_of_writes main_v101 rfl (by decide), argSafe_of_writes main_c_37 rfl (by decide), argSafe_of_writes main_call11.cst.ref rfl (by decide),
    argSafe_of_writes main_call11.v0.ref rfl (by decide), argSafe_of_writes main_call11.v1.ref rfl (by decide), argSafe_of_writes main_call11.cst_0.ref rfl (by decide),
    argSafe_of_writes main_call11.v2.ref rfl (by decide), argSafe_of_writes main_call11.v3.ref rfl (by decide), argSafe_of_writes main_call11.v4.ref rfl (by decide),
    argSafe_of_writes main_call11.v5.ref rfl (by decide), argSafe_of_writes main_call11.v6.ref rfl (by decide), argSafe_of_writes main_call11.v7.ref rfl (by decide),
    argSafe_of_writes main_call11.cst_1.ref rfl (by decide), argSafe_of_writes main_call11.v8.ref rfl (by decide), argSafe_of_writes main_call11.cst_2.ref rfl (by decide),
    argSafe_of_writes main_call11.v9.ref rfl (by decide), argSafe_of_writes main_call11.v10.ref rfl (by decide), argSafe_of_writes main_call11.v11.ref rfl (by decide),
    argSafe_of_writes main_call11.cst_3.ref rfl (by decide), argSafe_of_writes main_call11.v12.ref rfl (by decide), argSafe_of_writes main_call11.cst_4.ref rfl (by decide),
    argSafe_of_writes main_call11.call0.v0.ref rfl (by decide), argSafe_of_writes main_call11.call0.v1.ref rfl (by decide), argSafe_of_writes main_call11.call0.v2.ref rfl (by decide),
    argSafe_of_writes main_v103 rfl (by decide), argSafe_of_writes main_v104 rfl (by decide), argSafe_of_writes main_v105 rfl (by decide),
    argSafe_of_writes main_v106 rfl (by decide), argSafe_of_writes main_v107 rfl (by decide), argSafe_of_writes main_v108 rfl (by decide),
    argSafe_of_writes main_cst_38 rfl (by decide), argSafe_of_writes main_v109 rfl (by decide), argSafe_of_writes main_v110 rfl (by decide),
    argSafe_of_writes main_v111 rfl (by decide), argSafe_of_writes main_v112 rfl (by decide), argSafe_of_writes main_v113 rfl (by decide),
    argSafe_of_writes main_v114 rfl (by decide), argSafe_of_writes main_v115 rfl (by decide), argSafe_of_writes main_v116 rfl (by decide),
    argSafe_of_writes main_v117 rfl (by decide), argSafe_of_writes main_cst_39 rfl (by decide), argSafe_of_writes main_v118 rfl (by decide),
    argSafe_of_writes main_v119 rfl (by decide), argSafe_of_writes main_cst_40 rfl (by decide), argSafe_of_writes main_cst_41 rfl (by decide),
    argSafe_of_writes main_call12.v0.ref rfl (by decide), argSafe_of_writes main_call12.v1.ref rfl (by decide), argSafe_of_writes main_call12.v2.ref rfl (by decide),
    argSafe_of_writes main_v121 rfl (by decide), argSafe_of_writes main_cst_42 rfl (by decide), argSafe_of_writes main_v122 rfl (by decide),
    argSafe_of_writes main_v123 rfl (by decide), argSafe_of_writes main_cst_43 rfl (by decide), argSafe_of_writes main_cst_44 rfl (by decide),
    argSafe_of_writes main_call13.v0.ref rfl (by decide), argSafe_of_writes main_call13.v1.ref rfl (by decide), argSafe_of_writes main_call13.v2.ref rfl (by decide),
    argSafe_of_writes main_v125 rfl (by decide), argSafe_of_writes main_v126 rfl (by decide), argSafe_of_writes main_v127 rfl (by decide),
    argSafe_of_writes main_cst_45 rfl (by decide), argSafe_of_writes main_v128 rfl (by decide), argSafe_of_writes main_cst_46 rfl (by decide),
    argSafe_of_writes main_v129 rfl (by decide), argSafe_of_writes main_v130 rfl (by decide)⟩

end Cert.ReferenceIdeal.Hand

end
-- ==== Proof.Ref.W3.lean ====
/- The reference's run: the statements of @main's window 3 (`main_part3`) as a list of its 53 host
   operations, each call of an outlined function replaced by the callee's operations over that call's buffer
   record (a call nested in the callee likewise), in order. -/
import proofs.«118595_j1726576853663_2_alg».proof.Proof.Ref.Common

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Window 3's 53 operations, in order. -/
abbrev ops3 : List (HloOp τ sig (Elt F)) :=
  [ StableHlo.nullary main_c_47 (constantI S_ 32 0#32),
    StableHlo.TRef.nullary main_call14.cst (constant S_ .f32 0x00000000#32),
    StableHlo.TRef.binary (.of main_v127 : StableHlo.TRef sig ⟨S65536x10, .f32⟩) main_call14.cst main_call14.v0 (fun x v => Host.reduceAdd x v reducesTo_S65536x10_S10_d0 h_S_),
    StableHlo.TRef.unary main_call14.v0 main_call14.v1 (broadcastInDim S1x10 ![1] bcast_S10_S1x10_1),
    StableHlo.TRef.nullary main_call14.cst_0 (constant S_ .f32 0x47800000#32),
    StableHlo.TRef.unary main_call14.cst_0 main_call14.v2 (broadcastInDim S1x10 ![] bcast_S_S1x10),
    StableHlo.TRef.binary main_call14.v1 main_call14.v2 main_call14.v3 Host.divf,
    StableHlo.TRef.unary main_call14.v3 main_call14.v4 (broadcastInDim S65536x10 ![0, 1] bcast_S1x10_S65536x10_0_1),
    StableHlo.TRef.binary (.of main_v127 : StableHlo.TRef sig ⟨S65536x10, .f32⟩) main_call14.v4 main_call14.v5 subf,
    StableHlo.TRef.binary main_call14.v5 main_call14.v5 main_call14.v6 mulf,
    StableHlo.TRef.unary (.of main_c_47 : StableHlo.TRef sig ⟨S_, .i32⟩) main_call14.v7 (sitofp .f32),
    StableHlo.TRef.nullary main_call14.cst_1 (constant S_ .f32 0x47800000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S65536x10_S10_d0 h_S_),
    StableHlo.TRef.unary main_call14.v8 main_call14.v10 (broadcastInDim S10 ![] bcast_S_S10),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S10 ![] bcast_S_S10),
    StableHlo.TRef.ternary main_call14.v12 main_call14.v11 main_call14.call0.v1 main_call14.call0.v2 (fun p a b => select (broadcastInDim S10 ![] bcast_S_S10 p) a b),
    StableHlo.unary main_v130 main_v132 (broadcastInDim S1x10 ![1] bcast_S10_S1x10_1 : (⟨S10, .f32⟩ : BufTy).Contents (Elt F) → (⟨S1x10, .f32⟩ : BufTy).Contents (Elt F)),
    StableHlo.unary main_v132 main_v133 (broadcastInDim S65536x10 ![0, 1] bcast_S1x10_S65536x10_0_1 : (⟨S1x10, .f32⟩ : BufTy).Contents (Elt F) → (⟨S65536x10, .f32⟩ : BufTy).Contents (Elt F)),
    StableHlo.binary main_v127 main_v133 main_v134 (subf : (⟨S65536x10, .f32⟩ : BufTy).Contents (Elt F) → (⟨S65536x10, .f32⟩ : BufTy).Contents (Elt F) → (⟨S65536x10, .f32⟩ : BufTy).Contents (Elt F)),
    StableHlo.unary main_arg10 main_v135 (broadcastInDim S1x10 ![1] bcast_S10_S1x10_1 : (⟨S10, .f32⟩ : BufTy).Contents (Elt F) → (⟨S1x10, .f32⟩ : BufTy).Contents (Elt F)),
    StableHlo.unary main_v135 main_v136 (broadcastInDim S65536x10 ![0, 1] bcast_S1x10_S65536x10_0_1 : (⟨S1x10, .f32⟩ : BufTy).Contents (Elt F) → (⟨S65536x10, .f32⟩ : BufTy).Contents (Elt F)),
    StableHlo.binary main_v136 main_v134 main_v137 (mulf : (⟨S65536x10, .f32⟩ : BufTy).Contents (Elt F) → (⟨S65536x10, .f32⟩ : BufTy).Contents (Elt F) → (⟨S65536x10, .f32⟩ : BufTy).Contents (Elt F)),
    StableHlo.nullary main_cst_48 (constant S_ .f32 0x3727C5AC#32),
    StableHlo.unary main_cst_48 main_v138 (broadcastInDim S10 ![] bcast_S_S10 : (⟨S_, .f32⟩ : BufTy).Contents (Elt F) → (⟨S10, .f32⟩ : BufTy).Contents (Elt F)),
    StableHlo.binary main_v131 main_v138 main_v139 (addf : (⟨S10, .f32⟩ : BufTy).Contents (Elt F) → (⟨S10, .f32⟩ : BufTy).Contents (Elt F) → (⟨S10, .f32⟩ : BufTy).Contents (Elt F)),
    StableHlo.unary main_v139 main_v140 (Host.rsqrt : (⟨S10, .f32⟩ : BufTy).Contents (Elt F) → (⟨S10, .f32⟩ : BufTy).Contents (Elt F)),
    StableHlo.unary main_v140 main_v141 (broadcastInDim S1x10 ![1] bcast_S10_S1x10_1 : (⟨S10, .f32⟩ : BufTy).Contents (Elt F) → (⟨S1x10, .f32⟩ : BufTy).Contents (Elt F)),
    StableHlo.unary main_v141 main_v142 (broadcastInDim S65536x10 ![0, 1] bcast_S1x10_S65536x10_0_1 : (⟨S1x10, .f32⟩ : BufTy).Contents (Elt F) → (⟨S65536x10, .f32⟩ : BufTy).Contents (Elt F)),
    StableHlo.binary main_v137 main_v142 main_v143 (mulf : (⟨S65536x10, .f32⟩ : BufTy).Contents (Elt F) → (⟨S65536x10, .f32⟩ : BufTy).Contents (Elt F) → (⟨S65536x10, .f32⟩ : BufTy).Contents (Elt F)),
    StableHlo.unary main_arg15 main_v144 (broadcastInDim S1x10 ![1] bcast_S10_S1x10_1 : (⟨S10, .f32⟩ : BufTy).Contents (Elt F) → (⟨S1x10, .f32⟩ : BufTy).Contents (Elt F)),
    StableHlo.unary main_v144 main_v145 (broadcastInDim S65536x10 ![0, 1] bcast_S1x10_S65536x10_0_1 : (⟨S1x10, .f32⟩ : BufTy).Contents (Elt F) → (⟨S65536x10, .f32⟩ : BufTy).Contents (Elt F)),
    StableHlo.binary main_v143 main_v145 main_v146 (addf : (⟨S65536x10, .f32⟩ : BufTy).Contents (Elt F) → (⟨S65536x10, .f32⟩ : BufTy).Contents (Elt F) → (⟨S65536x10, .f32⟩ : BufTy).Contents (Elt F)),
    StableHlo.nullary main_cst_49 (constant S_ .f32 0xFF800000#32),
    StableHlo.binary main_v146 main_cst_49 main_v147 ((fun x v => Host.reduce FloatOps.maximumf x v reducesTo_S65536x10_S10_d0 h_S_) : (⟨S65536x10, .f32⟩ : BufTy).Contents (Elt F) → (⟨S_, .f32⟩ : BufTy).Contents (Elt F) → (⟨S10, .f32⟩ : BufTy).Contents (Elt F)),
    StableHlo.nullary main_cst_50 (constant S_ .f32 0xFF800000#32),
    StableHlo.unary main_cst_50 main_v148 (broadcastInDim S10 ![] bcast_S_S10 : (⟨S_, .f32⟩ : BufTy).Contents (Elt F) → (⟨S10, .f32⟩ : BufTy).Contents (Elt F)),
    StableHlo.binary main_v148 main_v147 main_v149 (maximumf : (⟨S10, .f32⟩ : BufTy).Contents (Elt F) → (⟨S10, .f32⟩ : BufTy).Contents (Elt F) → (⟨S10, .f32⟩ : BufTy).Contents (Elt F)),
    StableHlo.unary main_v149 main_v150 (broadcastInDim S1x10 ![1] bcast_S10_S1x10_1 : (⟨S10, .f32⟩ : BufTy).Contents (Elt F) → (⟨S1x10, .f32⟩ : BufTy).Contents (Elt F)),
    StableHlo.unary main_v150 main_v151 (broadcastInDim S65536x10 ![0, 1] bcast_S1x10_S65536x10_0_1 : (⟨S1x10, .f32⟩ : BufTy).Contents (Elt F) → (⟨S65536x10, .f32⟩ : BufTy).Contents (Elt F)),
    StableHlo.binary main_v146 main_v151 main_v152 (subf : (⟨S65536x10, .f32⟩ : BufTy).Contents (Elt F) → (⟨S65536x10, .f32⟩ : BufTy).Contents (Elt F) → (⟨S65536x10, .f32⟩ : BufTy).Contents (Elt F)),
    StableHlo.unary main_v152 main_v153 (Host.exp : (⟨S65536x10, .f32⟩ : BufTy).Contents (Elt F) → (⟨S65536x10, .f32⟩ : BufTy).Contents (Elt F)),
    StableHlo.nullary main_cst_51 (constant S_ .f32 0x00000000#32),
    StableHlo.binary main_v153 main_cst_51 main_v154 ((fun x v => Host.reduceAdd x v reducesTo_S65536x10_S10_d0 h_S_) : (⟨S65536x10, .f32⟩ : BufTy).Contents (Elt F) → (⟨S_, .f32⟩ : BufTy).Contents (Elt F) → (⟨S10, .f32⟩ : BufTy).Contents (Elt F)),
    StableHlo.unary main_v154 main_v155 (broadcastInDim S1x10 ![1] bcast_S10_S1x10_1 : (⟨S10, .f32⟩ : BufTy).Contents (Elt F) → (⟨S1x10, .f32⟩ : BufTy).Contents (Elt F)),
    StableHlo.unary main_v155 main_v156 (broadcastInDim S65536x10 ![0, 1] bcast_S1x10_S65536x10_0_1 : (⟨S1x10, .f32⟩ : BufTy).Contents (Elt F) → (⟨S65536x10, .f32⟩ : BufTy).Contents (Elt F)),
    StableHlo.binary main_v153 main_v156 main_v157 (Host.divf : (⟨S65536x10, .f32⟩ : BufTy).Contents (Elt F) → (⟨S65536x10, .f32⟩ : BufTy).Contents (Elt F) → (⟨S65536x10, .f32⟩ : BufTy).Contents (Elt F)) ]

/-- The window is that straight line: the functions unfolded at their calls, sequencing reassociated. -/
theorem part3_eq (c : Dev nD) : main_part3 (F := F) c = seq ops3 := rfl

/-- Every operation touches TensorCore references only. -/
theorem ops3_sub : (ops3 : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub ..⟩

/-- Every operation determines its result. -/
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl⟩

/-- No operation writes an argument of @main. -/
theorem ops3_safe : (ops3 : List (HloOp τ sig (Elt F))).Forall ArgSafe :=
  ⟨argSafe_of_writes main_c_47 rfl (by decide), argSafe_of_writes main_call14.cst.ref rfl (by decide), argSafe_of_writes main_call14.v0.ref rfl (by decide),
    argSafe_of_writes main_call14.v1.ref rfl (by decide), argSafe_of_writes main_call14.cst_0.ref rfl (by decide), argSafe_of_writes main_call14.v2.ref rfl (by decide),
    argSafe_of_writes main_call14.v3.ref rfl (by decide), argSafe_of_writes main_call14.v4.ref rfl (by decide), argSafe_of_writes main_call14.v5.ref rfl (by decide),
    argSafe_of_writes main_call14.v6.ref rfl (by decide), argSafe_of_writes main_call14.v7.ref rfl (by decide), argSafe_of_writes main_call14.cst_1.ref rfl (by decide),
    argSafe_of_writes main_call14.v8.ref rfl (by decide), argSafe_of_writes main_call14.cst_2.ref rfl (by decide), argSafe_of_writes main_call14.v9.ref rfl (by decide),
    argSafe_of_writes main_call14.v10.ref rfl (by decide), argSafe_of_writes main_call14.v11.ref rfl (by decide), argSafe_of_writes main_call14.cst_3.ref rfl (by decide),
    argSafe_of_writes main_call14.v12.ref rfl (by decide), argSafe_of_writes main_call14.cst_4.ref rfl (by decide), argSafe_of_writes main_call14.call0.v0.ref rfl (by decide),
    argSafe_of_writes main_call14.call0.v1.ref rfl (by decide), argSafe_of_writes main_call14.call0.v2.ref rfl (by decide), argSafe_of_writes main_v132 rfl (by decide),
    argSafe_of_writes main_v133 rfl (by decide), argSafe_of_writes main_v134 rfl (by decide), argSafe_of_writes main_v135 rfl (by decide),
    argSafe_of_writes main_v136 rfl (by decide), argSafe_of_writes main_v137 rfl (by decide), argSafe_of_writes main_cst_48 rfl (by decide),
    argSafe_of_writes main_v138 rfl (by decide), argSafe_of_writes main_v139 rfl (by decide), argSafe_of_writes main_v140 rfl (by decide),
    argSafe_of_writes main_v141 rfl (by decide), argSafe_of_writes main_v142 rfl (by decide), argSafe_of_writes main_v143 rfl (by decide),
    argSafe_of_writes main_v144 rfl (by decide), argSafe_of_writes main_v145 rfl (by decide), argSafe_of_writes main_v146 rfl (by decide),
    argSafe_of_writes main_cst_49 rfl (by decide), argSafe_of_writes main_v147 rfl (by decide), argSafe_of_writes main_cst_50 rfl (by decide),
    argSafe_of_writes main_v148 rfl (by decide), argSafe_of_writes main_v149 rfl (by decide), argSafe_of_writes main_v150 rfl (by decide),
    argSafe_of_writes main_v151 rfl (by decide), argSafe_of_writes main_v152 rfl (by decide), argSafe_of_writes main_v153 rfl (by decide),
    argSafe_of_writes main_cst_51 rfl (by decide), argSafe_of_writes main_v154 rfl (by decide), argSafe_of_writes main_v155 rfl (by decide),
    argSafe_of_writes main_v156 rfl (by decide), argSafe_of_writes main_v157 rfl (by decide)⟩

end Cert.ReferenceIdeal.Hand

end
-- ==== Proof.Ref.Run.lean ====
/- The reference's run: @main is its four windows in order, so its operations are the windows' lists
   concatenated; it is a straight line of host operations over a signature that scopes nothing, so every weakly
   fair execution terminates with each buffer at the fold of the operations over the launch contents. The result
   buffer is left as that fold; each of the sixteen arguments is written by no operation and ends as it began. -/
import proofs.«118595_j1726576853663_2_alg».proof.Proof.Ref.W0
import proofs.«118595_j1726576853663_2_alg».proof.Proof.Ref.W1
import proofs.«118595_j1726576853663_2_alg».proof.Proof.Ref.W2
import proofs.«118595_j1726576853663_2_alg».proof.Proof.Ref.W3
import proofs.«118595_j1726576853663_2_alg».proof.Proof.Gen.Pre_finite_inputs
import proofs.«118595_j1726576853663_2_alg».proof.Defs

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 337 operations, in order: the four windows' lists, one after the other. -/
abbrev ops : List (HloOp τ sig (Elt F)) := ops0 ++ (ops1 ++ (ops2 ++ ops3))

/-- @main is that straight line: it runs its windows in order, each the line of its own list. -/
theorem main_eq (c : Dev nD) : main (F := F) c = seq ops := by
  simp only [ops, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

private theorem forall_append {α : Type} {p : α → Prop} {l₁ l₂ : List α} (h₁ : ∀ x ∈ l₁, p x) (h₂ : ∀ x ∈ l₂, p x) :
    ∀ x ∈ l₁ ++ l₂, p x := fun x hx => (List.mem_append.mp hx).elim (h₁ x) (h₂ x)

theorem ops_sub : (ops : List (HloOp τ sig (Elt F))).Forall fun op => op.bufs ⊆ tcRefs τ sig :=
  List.forall_iff_forall_mem.mpr (forall_append (List.forall_iff_forall_mem.mp ops0_sub)
    (forall_append (List.forall_iff_forall_mem.mp ops1_sub)
      (forall_append (List.forall_iff_forall_mem.mp ops2_sub) (List.forall_iff_forall_mem.mp ops3_sub))))

theorem ops_fresh : ∀ op ∈ (ops : List (HloOp τ sig (Elt F))), op.fresh = ∅ :=
  forall_append (List.forall_iff_forall_mem.mp ops0_fresh)
    (forall_append (List.forall_iff_forall_mem.mp ops1_fresh)
      (forall_append (List.forall_iff_forall_mem.mp ops2_fresh) (List.forall_iff_forall_mem.mp ops3_fresh)))

theorem ops_safe : ∀ op ∈ (ops : List (HloOp τ sig (Elt F))), ArgSafe op :=
  forall_append (List.forall_iff_forall_mem.mp ops0_safe)
    (forall_append (List.forall_iff_forall_mem.mp ops1_safe)
      (forall_append (List.forall_iff_forall_mem.mp ops2_safe) (List.forall_iff_forall_mem.mp ops3_safe)))

/-- The fold of @main's operations window by window. -/
theorem after_ops (V : Valuation τ sig (Elt F)) :
    after ops V = after ops3 (after ops2 (after ops1 (after ops0 V))) := by
  simp only [ops, after_append]

/-- An argument of @main (index below sixteen) is at its launch contents after the operations. -/
theorem after_ops_arg (V : Valuation τ sig (Elt F)) (r : Ref sig .tc) (hr : r.idx.val < 16) :
    after ops V (Proc.devRef .tc r) = V (Proc.devRef .tc r) := after_of_argSafe ops_safe V r hr

/-- On every device, for any float values, from any memory with zero counters: every weakly fair execution of
    @main terminates with the result buffer at the fold of the operations over the launch contents and the
    sixteen arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v157) = after ops (fun b => m (c, b)) (Proc.devRef .tc main_v157)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨h c main_v157,
      (h c main_arg0).trans (after_ops_arg _ main_arg0 (by decide)),
      (h c main_arg1).trans (after_ops_arg _ main_arg1 (by decide)),
      (h c main_arg2).trans (after_ops_arg _ main_arg2 (by decide)),
      (h c main_arg3).trans (after_ops_arg _ main_arg3 (by decide)),
      (h c main_arg4).trans (after_ops_arg _ main_arg4 (by decide)),
      (h c main_arg5).trans (after_ops_arg _ main_arg5 (by decide)),
      (h c main_arg6).trans (after_ops_arg _ main_arg6 (by decide)),
      (h c main_arg7).trans (after_ops_arg _ main_arg7 (by decide)),
      (h c main_arg8).trans (after_ops_arg _ main_arg8 (by decide)),
      (h c main_arg9).trans (after_ops_arg _ main_arg9 (by decide)),
      (h c main_arg10).trans (after_ops_arg _ main_arg10 (by decide)),
      (h c main_arg11).trans (after_ops_arg _ main_arg11 (by decide)),
      (h c main_arg12).trans (after_ops_arg _ main_arg12 (by decide)),
      (h c main_arg13).trans (after_ops_arg _ main_arg13 (by decide)),
      (h c main_arg14).trans (after_ops_arg _ main_arg14 (by decide)),
      (h c main_arg15).trans (after_ops_arg _ main_arg15 (by decide))⟩)
    (run_seq scopedRefs_eq scopedSems_eq defs main (fun _ => ops) main_eq (fun _ => ops_sub) m ρ (fun _ => ops_fresh))

/-- The reference runs and its arguments end unchanged: the run without its result conjunct. -/
theorem frame_ri : Cert.frame_ReferenceIdeal := fun m g _ =>
  (θ_run _ _ _).mono (fun _ h c => (h c).2) (run (F := Ideal) m g)

end Cert.ReferenceIdeal.Hand

end
-- ==== Proof.KI.Chain.lean ====
/- Where each kernel region's input arrays come from, through the boundaries of @main: a buffer written at one boundary is
   still there at every later boundary up to the next item that writes it; and every argument array holds its launch
   contents at every boundary. -/
import proofs.«118595_j1726576853663_2_alg».proof.Proof.KI.Assembly

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-! ## Where each region's inputs come from

A buffer written at one boundary is still there, unchanged, at every later boundary up to the next item that writes it:
a host stretch that does not write it leaves it; a kernel region that stages it as an INPUT window leaves it; a region
none of whose windows' arrays it is leaves it. -/
theorem W11_main_arg0_from0 (c : Dev nD) : W11 m ρ c (Proc.devRef .tc main_arg0) = W0 m ρ c (Proc.devRef .tc main_arg0) :=
  (W11_of m ρ c main_arg0 (by decide)).trans <| (W10_of m ρ c main_arg0 (by decide)).trans <| (W9_of m ρ c main_arg0 (by decide)).trans <| (W8_of m ρ c main_arg0 (by decide)).trans <| (W7_of m ρ c main_arg0 (by decide)).trans <| (W6_of m ρ c main_arg0 (by decide)).trans <| (W5_of m ρ c main_arg0 (by decide)).trans <| (W4_of m ρ c main_arg0 (by decide)).trans <| (W3_of m ρ c main_arg0 (by decide)).trans <| (W2_of m ρ c main_arg0 (by decide)).trans <| (W1_of m ρ c main_arg0 (by decide))
theorem W11_main_v3_from3 (c : Dev nD) : W11 m ρ c (Proc.devRef .tc main_v3) = W3 m ρ c (Proc.devRef .tc main_v3) :=
  (W11_of m ρ c main_v3 (by decide)).trans <| (W10_of m ρ c main_v3 (by decide)).trans <| (W9_of m ρ c main_v3 (by decide)).trans <| (W8_of m ρ c main_v3 (by decide)).trans <| (W7_of m ρ c main_v3 (by decide)).trans <| (W6_of m ρ c main_v3 (by decide)).trans <| (W5_of m ρ c main_v3 (by decide)).trans <| (W4_of m ρ c main_v3 (by decide))
theorem W13_main_v20_0_from12 (c : Dev nD) : W13 m ρ c (Proc.devRef .tc main_v20_0) = W12 m ρ c (Proc.devRef .tc main_v20_0) :=
  (W13_of m ρ c main_v20_0 (by decide))
theorem W13_main_v7_from5 (c : Dev nD) : W13 m ρ c (Proc.devRef .tc main_v7) = W5 m ρ c (Proc.devRef .tc main_v7) :=
  (W13_of m ρ c main_v7 (by decide)).trans <| (W12_of_ne m ρ c main_v7 (by decide)).trans <| (W11_of m ρ c main_v7 (by decide)).trans <| (W10_of m ρ c main_v7 (by decide)).trans <| (W9_of m ρ c main_v7 (by decide)).trans <| (W8_of m ρ c main_v7 (by decide)).trans <| (W7_of m ρ c main_v7 (by decide)).trans <| (W6_of m ρ c main_v7 (by decide))
theorem W15_main_v41_0_from14 (c : Dev nD) : W15 m ρ c (Proc.devRef .tc main_v41_0) = W14 m ρ c (Proc.devRef .tc main_v41_0) :=
  (W15_of m ρ c main_v41_0 (by decide))
theorem W15_main_v11_from7 (c : Dev nD) : W15 m ρ c (Proc.devRef .tc main_v11) = W7 m ρ c (Proc.devRef .tc main_v11) :=
  (W15_of m ρ c main_v11 (by decide)).trans <| (W14_of_ne m ρ c main_v11 (by decide)).trans <| (W13_of m ρ c main_v11 (by decide)).trans <| (W12_of_ne m ρ c main_v11 (by decide)).trans <| (W11_of m ρ c main_v11 (by decide)).trans <| (W10_of m ρ c main_v11 (by decide)).trans <| (W9_of m ρ c main_v11 (by decide)).trans <| (W8_of m ρ c main_v11 (by decide))
theorem W17_main_v62_0_from16 (c : Dev nD) : W17 m ρ c (Proc.devRef .tc main_v62_0) = W16 m ρ c (Proc.devRef .tc main_v62_0) :=
  (W17_of m ρ c main_v62_0 (by decide))
theorem W17_main_v15_from9 (c : Dev nD) : W17 m ρ c (Proc.devRef .tc main_v15) = W9 m ρ c (Proc.devRef .tc main_v15) :=
  (W17_of m ρ c main_v15 (by decide)).trans <| (W16_of_ne m ρ c main_v15 (by decide)).trans <| (W15_of m ρ c main_v15 (by decide)).trans <| (W14_of_ne m ρ c main_v15 (by decide)).trans <| (W13_of m ρ c main_v15 (by decide)).trans <| (W12_of_ne m ρ c main_v15 (by decide)).trans <| (W11_of m ρ c main_v15 (by decide)).trans <| (W10_of m ρ c main_v15 (by decide))
theorem W19_main_v83_0_from18 (c : Dev nD) : W19 m ρ c (Proc.devRef .tc main_v83_0) = W18 m ρ c (Proc.devRef .tc main_v83_0) :=
  (W19_of m ρ c main_v83_0 (by decide))
theorem W19_main_v19_from11 (c : Dev nD) : W19 m ρ c (Proc.devRef .tc main_v19) = W11 m ρ c (Proc.devRef .tc main_v19) :=
  (W19_of m ρ c main_v19 (by decide)).trans <| (W18_of_ne m ρ c main_v19 (by decide)).trans <| (W17_of m ρ c main_v19 (by decide)).trans <| (W16_of_ne m ρ c main_v19 (by decide)).trans <| (W15_of m ρ c main_v19 (by decide)).trans <| (W14_of_ne m ρ c main_v19 (by decide)).trans <| (W13_of m ρ c main_v19 (by decide)).trans <| (W12_of_ne m ρ c main_v19 (by decide))
theorem W21_main_v104_0_from20 (c : Dev nD) : W21 m ρ c (Proc.devRef .tc main_v104_0) = W20 m ρ c (Proc.devRef .tc main_v104_0) :=
  (W21_of m ρ c main_v104_0 (by decide))
theorem W23_main_v104_0_from20 (c : Dev nD) : W23 m ρ c (Proc.devRef .tc main_v104_0) = W20 m ρ c (Proc.devRef .tc main_v104_0) :=
  (W23_of m ρ c main_v104_0 (by decide)).trans <| ((W22_arr m ρ c 0).trans (((dat5 (V21 m ρ) c).arrAt_in 0 rfl _).trans (A_eq5 (V21 m ρ) c 0))).trans <| (W21_of m ρ c main_v104_0 (by decide))
theorem W23_main_v116_from21 (c : Dev nD) : W23 m ρ c (Proc.devRef .tc main_v116) = W21 m ρ c (Proc.devRef .tc main_v116) :=
  (W23_of m ρ c main_v116 (by decide)).trans <| ((W22_arr m ρ c 1).trans (((dat5 (V21 m ρ) c).arrAt_in 1 rfl _).trans (A_eq5 (V21 m ρ) c 1)))
theorem W23_main_v122_from21 (c : Dev nD) : W23 m ρ c (Proc.devRef .tc main_v122) = W21 m ρ c (Proc.devRef .tc main_v122) :=
  (W23_of m ρ c main_v122 (by decide)).trans <| ((W22_arr m ρ c 2).trans (((dat5 (V21 m ρ) c).arrAt_in 2 rfl _).trans (A_eq5 (V21 m ρ) c 2)))
theorem W23_main_v123_from21 (c : Dev nD) : W23 m ρ c (Proc.devRef .tc main_v123) = W21 m ρ c (Proc.devRef .tc main_v123) :=
  (W23_of m ρ c main_v123 (by decide)).trans <| ((W22_arr m ρ c 3).trans (((dat5 (V21 m ρ) c).arrAt_in 3 rfl _).trans (A_eq5 (V21 m ρ) c 3)))
theorem W23_main_v124_from21 (c : Dev nD) : W23 m ρ c (Proc.devRef .tc main_v124) = W21 m ρ c (Proc.devRef .tc main_v124) :=
  (W23_of m ρ c main_v124 (by decide)).trans <| ((W22_arr m ρ c 4).trans (((dat5 (V21 m ρ) c).arrAt_in 4 rfl _).trans (A_eq5 (V21 m ρ) c 4)))

/-! ## The argument arrays at every boundary -/
theorem W0_main_arg0 (c : Dev nD) : W0 m ρ c (Proc.devRef .tc main_arg0) = m ((c : Thread nD τ).loc main_arg0) := rfl
theorem W1_main_arg0_b (c : Dev nD) : W1 m ρ c (Proc.devRef .tc main_arg0) = m ((c : Thread nD τ).loc main_arg0) := (W1_of m ρ c main_arg0 (by decide)).trans (W0_main_arg0 m ρ c)
theorem W2_main_arg0_b (c : Dev nD) : W2 m ρ c (Proc.devRef .tc main_arg0) = m ((c : Thread nD τ).loc main_arg0) := (W2_of m ρ c main_arg0 (by decide)).trans (W1_main_arg0_b m ρ c)
theorem W3_main_arg0_b (c : Dev nD) : W3 m ρ c (Proc.devRef .tc main_arg0) = m ((c : Thread nD τ).loc main_arg0) := (W3_of m ρ c main_arg0 (by decide)).trans (W2_main_arg0_b m ρ c)
theorem W4_main_arg0_b (c : Dev nD) : W4 m ρ c (Proc.devRef .tc main_arg0) = m ((c : Thread nD τ).loc main_arg0) := (W4_of m ρ c main_arg0 (by decide)).trans (W3_main_arg0_b m ρ c)
theorem W5_main_arg0_b (c : Dev nD) : W5 m ρ c (Proc.devRef .tc main_arg0) = m ((c : Thread nD τ).loc main_arg0) := (W5_of m ρ c main_arg0 (by decide)).trans (W4_main_arg0_b m ρ c)
theorem W6_main_arg0_b (c : Dev nD) : W6 m ρ c (Proc.devRef .tc main_arg0) = m ((c : Thread nD τ).loc main_arg0) := (W6_of m ρ c main_arg0 (by decide)).trans (W5_main_arg0_b m ρ c)
theorem W7_main_arg0_b (c : Dev nD) : W7 m ρ c (Proc.devRef .tc main_arg0) = m ((c : Thread nD τ).loc main_arg0) := (W7_of m ρ c main_arg0 (by decide)).trans (W6_main_arg0_b m ρ c)
theorem W8_main_arg0_b (c : Dev nD) : W8 m ρ c (Proc.devRef .tc main_arg0) = m ((c : Thread nD τ).loc main_arg0) := (W8_of m ρ c main_arg0 (by decide)).trans (W7_main_arg0_b m ρ c)
theorem W9_main_arg0_b (c : Dev nD) : W9 m ρ c (Proc.devRef .tc main_arg0) = m ((c : Thread nD τ).loc main_arg0) := (W9_of m ρ c main_arg0 (by decide)).trans (W8_main_arg0_b m ρ c)
theorem W10_main_arg0_b (c : Dev nD) : W10 m ρ c (Proc.devRef .tc main_arg0) = m ((c : Thread nD τ).loc main_arg0) := (W10_of m ρ c main_arg0 (by decide)).trans (W9_main_arg0_b m ρ c)
theorem W11_main_arg0_b (c : Dev nD) : W11 m ρ c (Proc.devRef .tc main_arg0) = m ((c : Thread nD τ).loc main_arg0) := (W11_of m ρ c main_arg0 (by decide)).trans (W10_main_arg0_b m ρ c)
theorem W12_main_arg0_b (c : Dev nD) : W12 m ρ c (Proc.devRef .tc main_arg0) = m ((c : Thread nD τ).loc main_arg0) := ((W12_arr m ρ c 0).trans (((dat0 (V11 m ρ) c).arrAt_in 0 rfl _).trans (A_eq0 (V11 m ρ) c 0))).trans (W11_main_arg0_b m ρ c)
theorem W13_main_arg0_b (c : Dev nD) : W13 m ρ c (Proc.devRef .tc main_arg0) = m ((c : Thread nD τ).loc main_arg0) := (W13_of m ρ c main_arg0 (by decide)).trans (W12_main_arg0_b m ρ c)
theorem W14_main_arg0_b (c : Dev nD) : W14 m ρ c (Proc.devRef .tc main_arg0) = m ((c : Thread nD τ).loc main_arg0) := (W14_of_ne m ρ c main_arg0 (by decide)).trans (W13_main_arg0_b m ρ c)
theorem W15_main_arg0_b (c : Dev nD) : W15 m ρ c (Proc.devRef .tc main_arg0) = m ((c : Thread nD τ).loc main_arg0) := (W15_of m ρ c main_arg0 (by decide)).trans (W14_main_arg0_b m ρ c)
theorem W16_main_arg0_b (c : Dev nD) : W16 m ρ c (Proc.devRef .tc main_arg0) = m ((c : Thread nD τ).loc main_arg0) := (W16_of_ne m ρ c main_arg0 (by decide)).trans (W15_main_arg0_b m ρ c)
theorem W17_main_arg0_b (c : Dev nD) : W17 m ρ c (Proc.devRef .tc main_arg0) = m ((c : Thread nD τ).loc main_arg0) := (W17_of m ρ c main_arg0 (by decide)).trans (W16_main_arg0_b m ρ c)
theorem W18_main_arg0_b (c : Dev nD) : W18 m ρ c (Proc.devRef .tc main_arg0) = m ((c : Thread nD τ).loc main_arg0) := (W18_of_ne m ρ c main_arg0 (by decide)).trans (W17_main_arg0_b m ρ c)
theorem W19_main_arg0_b (c : Dev nD) : W19 m ρ c (Proc.devRef .tc main_arg0) = m ((c : Thread nD τ).loc main_arg0) := (W19_of m ρ c main_arg0 (by decide)).trans (W18_main_arg0_b m ρ c)
theorem W20_main_arg0_b (c : Dev nD) : W20 m ρ c (Proc.devRef .tc main_arg0) = m ((c : Thread nD τ).loc main_arg0) := (W20_of_ne m ρ c main_arg0 (by decide)).trans (W19_main_arg0_b m ρ c)
theorem W21_main_arg0_b (c : Dev nD) : W21 m ρ c (Proc.devRef .tc main_arg0) = m ((c : Thread nD τ).loc main_arg0) := (W21_of m ρ c main_arg0 (by decide)).trans (W20_main_arg0_b m ρ c)
theorem W22_main_arg0_b (c : Dev nD) : W22 m ρ c (Proc.devRef .tc main_arg0) = m ((c : Thread nD τ).loc main_arg0) := (W22_of_ne m ρ c main_arg0 (by decide)).trans (W21_main_arg0_b m ρ c)
theorem W23_main_arg0_b (c : Dev nD) : W23 m ρ c (Proc.devRef .tc main_arg0) = m ((c : Thread nD τ).loc main_arg0) := (W23_of m ρ c main_arg0 (by decide)).trans (W22_main_arg0_b m ρ c)
theorem W0_main_arg1 (c : Dev nD) : W0 m ρ c (Proc.devRef .tc main_arg1) = m ((c : Thread nD τ).loc main_arg1) := rfl
theorem W1_main_arg1_b (c : Dev nD) : W1 m ρ c (Proc.devRef .tc main_arg1) = m ((c : Thread nD τ).loc main_arg1) := (W1_of m ρ c main_arg1 (by decide)).trans (W0_main_arg1 m ρ c)
theorem W2_main_arg1_b (c : Dev nD) : W2 m ρ c (Proc.devRef .tc main_arg1) = m ((c : Thread nD τ).loc main_arg1) := (W2_of m ρ c main_arg1 (by decide)).trans (W1_main_arg1_b m ρ c)
theorem W3_main_arg1_b (c : Dev nD) : W3 m ρ c (Proc.devRef .tc main_arg1) = m ((c : Thread nD τ).loc main_arg1) := (W3_of m ρ c main_arg1 (by decide)).trans (W2_main_arg1_b m ρ c)
theorem W4_main_arg1_b (c : Dev nD) : W4 m ρ c (Proc.devRef .tc main_arg1) = m ((c : Thread nD τ).loc main_arg1) := (W4_of m ρ c main_arg1 (by decide)).trans (W3_main_arg1_b m ρ c)
theorem W5_main_arg1_b (c : Dev nD) : W5 m ρ c (Proc.devRef .tc main_arg1) = m ((c : Thread nD τ).loc main_arg1) := (W5_of m ρ c main_arg1 (by decide)).trans (W4_main_arg1_b m ρ c)
theorem W6_main_arg1_b (c : Dev nD) : W6 m ρ c (Proc.devRef .tc main_arg1) = m ((c : Thread nD τ).loc main_arg1) := (W6_of m ρ c main_arg1 (by decide)).trans (W5_main_arg1_b m ρ c)
theorem W7_main_arg1_b (c : Dev nD) : W7 m ρ c (Proc.devRef .tc main_arg1) = m ((c : Thread nD τ).loc main_arg1) := (W7_of m ρ c main_arg1 (by decide)).trans (W6_main_arg1_b m ρ c)
theorem W8_main_arg1_b (c : Dev nD) : W8 m ρ c (Proc.devRef .tc main_arg1) = m ((c : Thread nD τ).loc main_arg1) := (W8_of m ρ c main_arg1 (by decide)).trans (W7_main_arg1_b m ρ c)
theorem W9_main_arg1_b (c : Dev nD) : W9 m ρ c (Proc.devRef .tc main_arg1) = m ((c : Thread nD τ).loc main_arg1) := (W9_of m ρ c main_arg1 (by decide)).trans (W8_main_arg1_b m ρ c)
theorem W10_main_arg1_b (c : Dev nD) : W10 m ρ c (Proc.devRef .tc main_arg1) = m ((c : Thread nD τ).loc main_arg1) := (W10_of m ρ c main_arg1 (by decide)).trans (W9_main_arg1_b m ρ c)
theorem W11_main_arg1_b (c : Dev nD) : W11 m ρ c (Proc.devRef .tc main_arg1) = m ((c : Thread nD τ).loc main_arg1) := (W11_of m ρ c main_arg1 (by decide)).trans (W10_main_arg1_b m ρ c)
theorem W12_main_arg1_b (c : Dev nD) : W12 m ρ c (Proc.devRef .tc main_arg1) = m ((c : Thread nD τ).loc main_arg1) := (W12_of_ne m ρ c main_arg1 (by decide)).trans (W11_main_arg1_b m ρ c)
theorem W13_main_arg1_b (c : Dev nD) : W13 m ρ c (Proc.devRef .tc main_arg1) = m ((c : Thread nD τ).loc main_arg1) := (W13_of m ρ c main_arg1 (by decide)).trans (W12_main_arg1_b m ρ c)
theorem W14_main_arg1_b (c : Dev nD) : W14 m ρ c (Proc.devRef .tc main_arg1) = m ((c : Thread nD τ).loc main_arg1) := (W14_of_ne m ρ c main_arg1 (by decide)).trans (W13_main_arg1_b m ρ c)
theorem W15_main_arg1_b (c : Dev nD) : W15 m ρ c (Proc.devRef .tc main_arg1) = m ((c : Thread nD τ).loc main_arg1) := (W15_of m ρ c main_arg1 (by decide)).trans (W14_main_arg1_b m ρ c)
theorem W16_main_arg1_b (c : Dev nD) : W16 m ρ c (Proc.devRef .tc main_arg1) = m ((c : Thread nD τ).loc main_arg1) := (W16_of_ne m ρ c main_arg1 (by decide)).trans (W15_main_arg1_b m ρ c)
theorem W17_main_arg1_b (c : Dev nD) : W17 m ρ c (Proc.devRef .tc main_arg1) = m ((c : Thread nD τ).loc main_arg1) := (W17_of m ρ c main_arg1 (by decide)).trans (W16_main_arg1_b m ρ c)
theorem W18_main_arg1_b (c : Dev nD) : W18 m ρ c (Proc.devRef .tc main_arg1) = m ((c : Thread nD τ).loc main_arg1) := (W18_of_ne m ρ c main_arg1 (by decide)).trans (W17_main_arg1_b m ρ c)
theorem W19_main_arg1_b (c : Dev nD) : W19 m ρ c (Proc.devRef .tc main_arg1) = m ((c : Thread nD τ).loc main_arg1) := (W19_of m ρ c main_arg1 (by decide)).trans (W18_main_arg1_b m ρ c)
theorem W20_main_arg1_b (c : Dev nD) : W20 m ρ c (Proc.devRef .tc main_arg1) = m ((c : Thread nD τ).loc main_arg1) := (W20_of_ne m ρ c main_arg1 (by decide)).trans (W19_main_arg1_b m ρ c)
theorem W21_main_arg1_b (c : Dev nD) : W21 m ρ c (Proc.devRef .tc main_arg1) = m ((c : Thread nD τ).loc main_arg1) := (W21_of m ρ c main_arg1 (by decide)).trans (W20_main_arg1_b m ρ c)
theorem W22_main_arg1_b (c : Dev nD) : W22 m ρ c (Proc.devRef .tc main_arg1) = m ((c : Thread nD τ).loc main_arg1) := (W22_of_ne m ρ c main_arg1 (by decide)).trans (W21_main_arg1_b m ρ c)
theorem W23_main_arg1_b (c : Dev nD) : W23 m ρ c (Proc.devRef .tc main_arg1) = m ((c : Thread nD τ).loc main_arg1) := (W23_of m ρ c main_arg1 (by decide)).trans (W22_main_arg1_b m ρ c)
theorem W0_main_arg2 (c : Dev nD) : W0 m ρ c (Proc.devRef .tc main_arg2) = m ((c : Thread nD τ).loc main_arg2) := rfl
theorem W1_main_arg2_b (c : Dev nD) : W1 m ρ c (Proc.devRef .tc main_arg2) = m ((c : Thread nD τ).loc main_arg2) := (W1_of m ρ c main_arg2 (by decide)).trans (W0_main_arg2 m ρ c)
theorem W2_main_arg2_b (c : Dev nD) : W2 m ρ c (Proc.devRef .tc main_arg2) = m ((c : Thread nD τ).loc main_arg2) := (W2_of m ρ c main_arg2 (by decide)).trans (W1_main_arg2_b m ρ c)
theorem W3_main_arg2_b (c : Dev nD) : W3 m ρ c (Proc.devRef .tc main_arg2) = m ((c : Thread nD τ).loc main_arg2) := (W3_of m ρ c main_arg2 (by decide)).trans (W2_main_arg2_b m ρ c)
theorem W4_main_arg2_b (c : Dev nD) : W4 m ρ c (Proc.devRef .tc main_arg2) = m ((c : Thread nD τ).loc main_arg2) := (W4_of m ρ c main_arg2 (by decide)).trans (W3_main_arg2_b m ρ c)
theorem W5_main_arg2_b (c : Dev nD) : W5 m ρ c (Proc.devRef .tc main_arg2) = m ((c : Thread nD τ).loc main_arg2) := (W5_of m ρ c main_arg2 (by decide)).trans (W4_main_arg2_b m ρ c)
theorem W6_main_arg2_b (c : Dev nD) : W6 m ρ c (Proc.devRef .tc main_arg2) = m ((c : Thread nD τ).loc main_arg2) := (W6_of m ρ c main_arg2 (by decide)).trans (W5_main_arg2_b m ρ c)
theorem W7_main_arg2_b (c : Dev nD) : W7 m ρ c (Proc.devRef .tc main_arg2) = m ((c : Thread nD τ).loc main_arg2) := (W7_of m ρ c main_arg2 (by decide)).trans (W6_main_arg2_b m ρ c)
theorem W8_main_arg2_b (c : Dev nD) : W8 m ρ c (Proc.devRef .tc main_arg2) = m ((c : Thread nD τ).loc main_arg2) := (W8_of m ρ c main_arg2 (by decide)).trans (W7_main_arg2_b m ρ c)
theorem W9_main_arg2_b (c : Dev nD) : W9 m ρ c (Proc.devRef .tc main_arg2) = m ((c : Thread nD τ).loc main_arg2) := (W9_of m ρ c main_arg2 (by decide)).trans (W8_main_arg2_b m ρ c)
theorem W10_main_arg2_b (c : Dev nD) : W10 m ρ c (Proc.devRef .tc main_arg2) = m ((c : Thread nD τ).loc main_arg2) := (W10_of m ρ c main_arg2 (by decide)).trans (W9_main_arg2_b m ρ c)
theorem W11_main_arg2_b (c : Dev nD) : W11 m ρ c (Proc.devRef .tc main_arg2) = m ((c : Thread nD τ).loc main_arg2) := (W11_of m ρ c main_arg2 (by decide)).trans (W10_main_arg2_b m ρ c)
theorem W12_main_arg2_b (c : Dev nD) : W12 m ρ c (Proc.devRef .tc main_arg2) = m ((c : Thread nD τ).loc main_arg2) := (W12_of_ne m ρ c main_arg2 (by decide)).trans (W11_main_arg2_b m ρ c)
theorem W13_main_arg2_b (c : Dev nD) : W13 m ρ c (Proc.devRef .tc main_arg2) = m ((c : Thread nD τ).loc main_arg2) := (W13_of m ρ c main_arg2 (by decide)).trans (W12_main_arg2_b m ρ c)
theorem W14_main_arg2_b (c : Dev nD) : W14 m ρ c (Proc.devRef .tc main_arg2) = m ((c : Thread nD τ).loc main_arg2) := (W14_of_ne m ρ c main_arg2 (by decide)).trans (W13_main_arg2_b m ρ c)
theorem W15_main_arg2_b (c : Dev nD) : W15 m ρ c (Proc.devRef .tc main_arg2) = m ((c : Thread nD τ).loc main_arg2) := (W15_of m ρ c main_arg2 (by decide)).trans (W14_main_arg2_b m ρ c)
theorem W16_main_arg2_b (c : Dev nD) : W16 m ρ c (Proc.devRef .tc main_arg2) = m ((c : Thread nD τ).loc main_arg2) := (W16_of_ne m ρ c main_arg2 (by decide)).trans (W15_main_arg2_b m ρ c)
theorem W17_main_arg2_b (c : Dev nD) : W17 m ρ c (Proc.devRef .tc main_arg2) = m ((c : Thread nD τ).loc main_arg2) := (W17_of m ρ c main_arg2 (by decide)).trans (W16_main_arg2_b m ρ c)
theorem W18_main_arg2_b (c : Dev nD) : W18 m ρ c (Proc.devRef .tc main_arg2) = m ((c : Thread nD τ).loc main_arg2) := (W18_of_ne m ρ c main_arg2 (by decide)).trans (W17_main_arg2_b m ρ c)
theorem W19_main_arg2_b (c : Dev nD) : W19 m ρ c (Proc.devRef .tc main_arg2) = m ((c : Thread nD τ).loc main_arg2) := (W19_of m ρ c main_arg2 (by decide)).trans (W18_main_arg2_b m ρ c)
theorem W20_main_arg2_b (c : Dev nD) : W20 m ρ c (Proc.devRef .tc main_arg2) = m ((c : Thread nD τ).loc main_arg2) := (W20_of_ne m ρ c main_arg2 (by decide)).trans (W19_main_arg2_b m ρ c)
theorem W21_main_arg2_b (c : Dev nD) : W21 m ρ c (Proc.devRef .tc main_arg2) = m ((c : Thread nD τ).loc main_arg2) := (W21_of m ρ c main_arg2 (by decide)).trans (W20_main_arg2_b m ρ c)
theorem W22_main_arg2_b (c : Dev nD) : W22 m ρ c (Proc.devRef .tc main_arg2) = m ((c : Thread nD τ).loc main_arg2) := (W22_of_ne m ρ c main_arg2 (by decide)).trans (W21_main_arg2_b m ρ c)
theorem W23_main_arg2_b (c : Dev nD) : W23 m ρ c (Proc.devRef .tc main_arg2) = m ((c : Thread nD τ).loc main_arg2) := (W23_of m ρ c main_arg2 (by decide)).trans (W22_main_arg2_b m ρ c)
theorem W0_main_arg3 (c : Dev nD) : W0 m ρ c (Proc.devRef .tc main_arg3) = m ((c : Thread nD τ).loc main_arg3) := rfl
theorem W1_main_arg3_b (c : Dev nD) : W1 m ρ c (Proc.devRef .tc main_arg3) = m ((c : Thread nD τ).loc main_arg3) := (W1_of m ρ c main_arg3 (by decide)).trans (W0_main_arg3 m ρ c)
theorem W2_main_arg3_b (c : Dev nD) : W2 m ρ c (Proc.devRef .tc main_arg3) = m ((c : Thread nD τ).loc main_arg3) := (W2_of m ρ c main_arg3 (by decide)).trans (W1_main_arg3_b m ρ c)
theorem W3_main_arg3_b (c : Dev nD) : W3 m ρ c (Proc.devRef .tc main_arg3) = m ((c : Thread nD τ).loc main_arg3) := (W3_of m ρ c main_arg3 (by decide)).trans (W2_main_arg3_b m ρ c)
theorem W4_main_arg3_b (c : Dev nD) : W4 m ρ c (Proc.devRef .tc main_arg3) = m ((c : Thread nD τ).loc main_arg3) := (W4_of m ρ c main_arg3 (by decide)).trans (W3_main_arg3_b m ρ c)
theorem W5_main_arg3_b (c : Dev nD) : W5 m ρ c (Proc.devRef .tc main_arg3) = m ((c : Thread nD τ).loc main_arg3) := (W5_of m ρ c main_arg3 (by decide)).trans (W4_main_arg3_b m ρ c)
theorem W6_main_arg3_b (c : Dev nD) : W6 m ρ c (Proc.devRef .tc main_arg3) = m ((c : Thread nD τ).loc main_arg3) := (W6_of m ρ c main_arg3 (by decide)).trans (W5_main_arg3_b m ρ c)
theorem W7_main_arg3_b (c : Dev nD) : W7 m ρ c (Proc.devRef .tc main_arg3) = m ((c : Thread nD τ).loc main_arg3) := (W7_of m ρ c main_arg3 (by decide)).trans (W6_main_arg3_b m ρ c)
theorem W8_main_arg3_b (c : Dev nD) : W8 m ρ c (Proc.devRef .tc main_arg3) = m ((c : Thread nD τ).loc main_arg3) := (W8_of m ρ c main_arg3 (by decide)).trans (W7_main_arg3_b m ρ c)
theorem W9_main_arg3_b (c : Dev nD) : W9 m ρ c (Proc.devRef .tc main_arg3) = m ((c : Thread nD τ).loc main_arg3) := (W9_of m ρ c main_arg3 (by decide)).trans (W8_main_arg3_b m ρ c)
theorem W10_main_arg3_b (c : Dev nD) : W10 m ρ c (Proc.devRef .tc main_arg3) = m ((c : Thread nD τ).loc main_arg3) := (W10_of m ρ c main_arg3 (by decide)).trans (W9_main_arg3_b m ρ c)
theorem W11_main_arg3_b (c : Dev nD) : W11 m ρ c (Proc.devRef .tc main_arg3) = m ((c : Thread nD τ).loc main_arg3) := (W11_of m ρ c main_arg3 (by decide)).trans (W10_main_arg3_b m ρ c)
theorem W12_main_arg3_b (c : Dev nD) : W12 m ρ c (Proc.devRef .tc main_arg3) = m ((c : Thread nD τ).loc main_arg3) := (W12_of_ne m ρ c main_arg3 (by decide)).trans (W11_main_arg3_b m ρ c)
theorem W13_main_arg3_b (c : Dev nD) : W13 m ρ c (Proc.devRef .tc main_arg3) = m ((c : Thread nD τ).loc main_arg3) := (W13_of m ρ c main_arg3 (by decide)).trans (W12_main_arg3_b m ρ c)
theorem W14_main_arg3_b (c : Dev nD) : W14 m ρ c (Proc.devRef .tc main_arg3) = m ((c : Thread nD τ).loc main_arg3) := (W14_of_ne m ρ c main_arg3 (by decide)).trans (W13_main_arg3_b m ρ c)
theorem W15_main_arg3_b (c : Dev nD) : W15 m ρ c (Proc.devRef .tc main_arg3) = m ((c : Thread nD τ).loc main_arg3) := (W15_of m ρ c main_arg3 (by decide)).trans (W14_main_arg3_b m ρ c)
theorem W16_main_arg3_b (c : Dev nD) : W16 m ρ c (Proc.devRef .tc main_arg3) = m ((c : Thread nD τ).loc main_arg3) := (W16_of_ne m ρ c main_arg3 (by decide)).trans (W15_main_arg3_b m ρ c)
theorem W17_main_arg3_b (c : Dev nD) : W17 m ρ c (Proc.devRef .tc main_arg3) = m ((c : Thread nD τ).loc main_arg3) := (W17_of m ρ c main_arg3 (by decide)).trans (W16_main_arg3_b m ρ c)
theorem W18_main_arg3_b (c : Dev nD) : W18 m ρ c (Proc.devRef .tc main_arg3) = m ((c : Thread nD τ).loc main_arg3) := (W18_of_ne m ρ c main_arg3 (by decide)).trans (W17_main_arg3_b m ρ c)
theorem W19_main_arg3_b (c : Dev nD) : W19 m ρ c (Proc.devRef .tc main_arg3) = m ((c : Thread nD τ).loc main_arg3) := (W19_of m ρ c main_arg3 (by decide)).trans (W18_main_arg3_b m ρ c)
theorem W20_main_arg3_b (c : Dev nD) : W20 m ρ c (Proc.devRef .tc main_arg3) = m ((c : Thread nD τ).loc main_arg3) := (W20_of_ne m ρ c main_arg3 (by decide)).trans (W19_main_arg3_b m ρ c)
theorem W21_main_arg3_b (c : Dev nD) : W21 m ρ c (Proc.devRef .tc main_arg3) = m ((c : Thread nD τ).loc main_arg3) := (W21_of m ρ c main_arg3 (by decide)).trans (W20_main_arg3_b m ρ c)
theorem W22_main_arg3_b (c : Dev nD) : W22 m ρ c (Proc.devRef .tc main_arg3) = m ((c : Thread nD τ).loc main_arg3) := (W22_of_ne m ρ c main_arg3 (by decide)).trans (W21_main_arg3_b m ρ c)
theorem W23_main_arg3_b (c : Dev nD) : W23 m ρ c (Proc.devRef .tc main_arg3) = m ((c : Thread nD τ).loc main_arg3) := (W23_of m ρ c main_arg3 (by decide)).trans (W22_main_arg3_b m ρ c)
theorem W0_main_arg4 (c : Dev nD) : W0 m ρ c (Proc.devRef .tc main_arg4) = m ((c : Thread nD τ).loc main_arg4) := rfl
theorem W1_main_arg4_b (c : Dev nD) : W1 m ρ c (Proc.devRef .tc main_arg4) = m ((c : Thread nD τ).loc main_arg4) := (W1_of m ρ c main_arg4 (by decide)).trans (W0_main_arg4 m ρ c)
theorem W2_main_arg4_b (c : Dev nD) : W2 m ρ c (Proc.devRef .tc main_arg4) = m ((c : Thread nD τ).loc main_arg4) := (W2_of m ρ c main_arg4 (by decide)).trans (W1_main_arg4_b m ρ c)
theorem W3_main_arg4_b (c : Dev nD) : W3 m ρ c (Proc.devRef .tc main_arg4) = m ((c : Thread nD τ).loc main_arg4) := (W3_of m ρ c main_arg4 (by decide)).trans (W2_main_arg4_b m ρ c)
theorem W4_main_arg4_b (c : Dev nD) : W4 m ρ c (Proc.devRef .tc main_arg4) = m ((c : Thread nD τ).loc main_arg4) := (W4_of m ρ c main_arg4 (by decide)).trans (W3_main_arg4_b m ρ c)
theorem W5_main_arg4_b (c : Dev nD) : W5 m ρ c (Proc.devRef .tc main_arg4) = m ((c : Thread nD τ).loc main_arg4) := (W5_of m ρ c main_arg4 (by decide)).trans (W4_main_arg4_b m ρ c)
theorem W6_main_arg4_b (c : Dev nD) : W6 m ρ c (Proc.devRef .tc main_arg4) = m ((c : Thread nD τ).loc main_arg4) := (W6_of m ρ c main_arg4 (by decide)).trans (W5_main_arg4_b m ρ c)
theorem W7_main_arg4_b (c : Dev nD) : W7 m ρ c (Proc.devRef .tc main_arg4) = m ((c : Thread nD τ).loc main_arg4) := (W7_of m ρ c main_arg4 (by decide)).trans (W6_main_arg4_b m ρ c)
theorem W8_main_arg4_b (c : Dev nD) : W8 m ρ c (Proc.devRef .tc main_arg4) = m ((c : Thread nD τ).loc main_arg4) := (W8_of m ρ c main_arg4 (by decide)).trans (W7_main_arg4_b m ρ c)
theorem W9_main_arg4_b (c : Dev nD) : W9 m ρ c (Proc.devRef .tc main_arg4) = m ((c : Thread nD τ).loc main_arg4) := (W9_of m ρ c main_arg4 (by decide)).trans (W8_main_arg4_b m ρ c)
theorem W10_main_arg4_b (c : Dev nD) : W10 m ρ c (Proc.devRef .tc main_arg4) = m ((c : Thread nD τ).loc main_arg4) := (W10_of m ρ c main_arg4 (by decide)).trans (W9_main_arg4_b m ρ c)
theorem W11_main_arg4_b (c : Dev nD) : W11 m ρ c (Proc.devRef .tc main_arg4) = m ((c : Thread nD τ).loc main_arg4) := (W11_of m ρ c main_arg4 (by decide)).trans (W10_main_arg4_b m ρ c)
theorem W12_main_arg4_b (c : Dev nD) : W12 m ρ c (Proc.devRef .tc main_arg4) = m ((c : Thread nD τ).loc main_arg4) := (W12_of_ne m ρ c main_arg4 (by decide)).trans (W11_main_arg4_b m ρ c)
theorem W13_main_arg4_b (c : Dev nD) : W13 m ρ c (Proc.devRef .tc main_arg4) = m ((c : Thread nD τ).loc main_arg4) := (W13_of m ρ c main_arg4 (by decide)).trans (W12_main_arg4_b m ρ c)
theorem W14_main_arg4_b (c : Dev nD) : W14 m ρ c (Proc.devRef .tc main_arg4) = m ((c : Thread nD τ).loc main_arg4) := (W14_of_ne m ρ c main_arg4 (by decide)).trans (W13_main_arg4_b m ρ c)
theorem W15_main_arg4_b (c : Dev nD) : W15 m ρ c (Proc.devRef .tc main_arg4) = m ((c : Thread nD τ).loc main_arg4) := (W15_of m ρ c main_arg4 (by decide)).trans (W14_main_arg4_b m ρ c)
theorem W16_main_arg4_b (c : Dev nD) : W16 m ρ c (Proc.devRef .tc main_arg4) = m ((c : Thread nD τ).loc main_arg4) := (W16_of_ne m ρ c main_arg4 (by decide)).trans (W15_main_arg4_b m ρ c)
theorem W17_main_arg4_b (c : Dev nD) : W17 m ρ c (Proc.devRef .tc main_arg4) = m ((c : Thread nD τ).loc main_arg4) := (W17_of m ρ c main_arg4 (by decide)).trans (W16_main_arg4_b m ρ c)
theorem W18_main_arg4_b (c : Dev nD) : W18 m ρ c (Proc.devRef .tc main_arg4) = m ((c : Thread nD τ).loc main_arg4) := (W18_of_ne m ρ c main_arg4 (by decide)).trans (W17_main_arg4_b m ρ c)
theorem W19_main_arg4_b (c : Dev nD) : W19 m ρ c (Proc.devRef .tc main_arg4) = m ((c : Thread nD τ).loc main_arg4) := (W19_of m ρ c main_arg4 (by decide)).trans (W18_main_arg4_b m ρ c)
theorem W20_main_arg4_b (c : Dev nD) : W20 m ρ c (Proc.devRef .tc main_arg4) = m ((c : Thread nD τ).loc main_arg4) := (W20_of_ne m ρ c main_arg4 (by decide)).trans (W19_main_arg4_b m ρ c)
theorem W21_main_arg4_b (c : Dev nD) : W21 m ρ c (Proc.devRef .tc main_arg4) = m ((c : Thread nD τ).loc main_arg4) := (W21_of m ρ c main_arg4 (by decide)).trans (W20_main_arg4_b m ρ c)
theorem W22_main_arg4_b (c : Dev nD) : W22 m ρ c (Proc.devRef .tc main_arg4) = m ((c : Thread nD τ).loc main_arg4) := (W22_of_ne m ρ c main_arg4 (by decide)).trans (W21_main_arg4_b m ρ c)
theorem W23_main_arg4_b (c : Dev nD) : W23 m ρ c (Proc.devRef .tc main_arg4) = m ((c : Thread nD τ).loc main_arg4) := (W23_of m ρ c main_arg4 (by decide)).trans (W22_main_arg4_b m ρ c)
theorem W0_main_arg5 (c : Dev nD) : W0 m ρ c (Proc.devRef .tc main_arg5) = m ((c : Thread nD τ).loc main_arg5) := rfl
theorem W1_main_arg5_b (c : Dev nD) : W1 m ρ c (Proc.devRef .tc main_arg5) = m ((c : Thread nD τ).loc main_arg5) := (W1_of m ρ c main_arg5 (by decide)).trans (W0_main_arg5 m ρ c)
theorem W2_main_arg5_b (c : Dev nD) : W2 m ρ c (Proc.devRef .tc main_arg5) = m ((c : Thread nD τ).loc main_arg5) := (W2_of m ρ c main_arg5 (by decide)).trans (W1_main_arg5_b m ρ c)
theorem W3_main_arg5_b (c : Dev nD) : W3 m ρ c (Proc.devRef .tc main_arg5) = m ((c : Thread nD τ).loc main_arg5) := (W3_of m ρ c main_arg5 (by decide)).trans (W2_main_arg5_b m ρ c)
theorem W4_main_arg5_b (c : Dev nD) : W4 m ρ c (Proc.devRef .tc main_arg5) = m ((c : Thread nD τ).loc main_arg5) := (W4_of m ρ c main_arg5 (by decide)).trans (W3_main_arg5_b m ρ c)
theorem W5_main_arg5_b (c : Dev nD) : W5 m ρ c (Proc.devRef .tc main_arg5) = m ((c : Thread nD τ).loc main_arg5) := (W5_of m ρ c main_arg5 (by decide)).trans (W4_main_arg5_b m ρ c)
theorem W6_main_arg5_b (c : Dev nD) : W6 m ρ c (Proc.devRef .tc main_arg5) = m ((c : Thread nD τ).loc main_arg5) := (W6_of m ρ c main_arg5 (by decide)).trans (W5_main_arg5_b m ρ c)
theorem W7_main_arg5_b (c : Dev nD) : W7 m ρ c (Proc.devRef .tc main_arg5) = m ((c : Thread nD τ).loc main_arg5) := (W7_of m ρ c main_arg5 (by decide)).trans (W6_main_arg5_b m ρ c)
theorem W8_main_arg5_b (c : Dev nD) : W8 m ρ c (Proc.devRef .tc main_arg5) = m ((c : Thread nD τ).loc main_arg5) := (W8_of m ρ c main_arg5 (by decide)).trans (W7_main_arg5_b m ρ c)
theorem W9_main_arg5_b (c : Dev nD) : W9 m ρ c (Proc.devRef .tc main_arg5) = m ((c : Thread nD τ).loc main_arg5) := (W9_of m ρ c main_arg5 (by decide)).trans (W8_main_arg5_b m ρ c)
theorem W10_main_arg5_b (c : Dev nD) : W10 m ρ c (Proc.devRef .tc main_arg5) = m ((c : Thread nD τ).loc main_arg5) := (W10_of m ρ c main_arg5 (by decide)).trans (W9_main_arg5_b m ρ c)
theorem W11_main_arg5_b (c : Dev nD) : W11 m ρ c (Proc.devRef .tc main_arg5) = m ((c : Thread nD τ).loc main_arg5) := (W11_of m ρ c main_arg5 (by decide)).trans (W10_main_arg5_b m ρ c)
theorem W12_main_arg5_b (c : Dev nD) : W12 m ρ c (Proc.devRef .tc main_arg5) = m ((c : Thread nD τ).loc main_arg5) := (W12_of_ne m ρ c main_arg5 (by decide)).trans (W11_main_arg5_b m ρ c)
theorem W13_main_arg5_b (c : Dev nD) : W13 m ρ c (Proc.devRef .tc main_arg5) = m ((c : Thread nD τ).loc main_arg5) := (W13_of m ρ c main_arg5 (by decide)).trans (W12_main_arg5_b m ρ c)
theorem W14_main_arg5_b (c : Dev nD) : W14 m ρ c (Proc.devRef .tc main_arg5) = m ((c : Thread nD τ).loc main_arg5) := (W14_of_ne m ρ c main_arg5 (by decide)).trans (W13_main_arg5_b m ρ c)
theorem W15_main_arg5_b (c : Dev nD) : W15 m ρ c (Proc.devRef .tc main_arg5) = m ((c : Thread nD τ).loc main_arg5) := (W15_of m ρ c main_arg5 (by decide)).trans (W14_main_arg5_b m ρ c)
theorem W16_main_arg5_b (c : Dev nD) : W16 m ρ c (Proc.devRef .tc main_arg5) = m ((c : Thread nD τ).loc main_arg5) := (W16_of_ne m ρ c main_arg5 (by decide)).trans (W15_main_arg5_b m ρ c)
theorem W17_main_arg5_b (c : Dev nD) : W17 m ρ c (Proc.devRef .tc main_arg5) = m ((c : Thread nD τ).loc main_arg5) := (W17_of m ρ c main_arg5 (by decide)).trans (W16_main_arg5_b m ρ c)
theorem W18_main_arg5_b (c : Dev nD) : W18 m ρ c (Proc.devRef .tc main_arg5) = m ((c : Thread nD τ).loc main_arg5) := (W18_of_ne m ρ c main_arg5 (by decide)).trans (W17_main_arg5_b m ρ c)
theorem W19_main_arg5_b (c : Dev nD) : W19 m ρ c (Proc.devRef .tc main_arg5) = m ((c : Thread nD τ).loc main_arg5) := (W19_of m ρ c main_arg5 (by decide)).trans (W18_main_arg5_b m ρ c)
theorem W20_main_arg5_b (c : Dev nD) : W20 m ρ c (Proc.devRef .tc main_arg5) = m ((c : Thread nD τ).loc main_arg5) := (W20_of_ne m ρ c main_arg5 (by decide)).trans (W19_main_arg5_b m ρ c)
theorem W21_main_arg5_b (c : Dev nD) : W21 m ρ c (Proc.devRef .tc main_arg5) = m ((c : Thread nD τ).loc main_arg5) := (W21_of m ρ c main_arg5 (by decide)).trans (W20_main_arg5_b m ρ c)
theorem W22_main_arg5_b (c : Dev nD) : W22 m ρ c (Proc.devRef .tc main_arg5) = m ((c : Thread nD τ).loc main_arg5) := (W22_of_ne m ρ c main_arg5 (by decide)).trans (W21_main_arg5_b m ρ c)
theorem W23_main_arg5_b (c : Dev nD) : W23 m ρ c (Proc.devRef .tc main_arg5) = m ((c : Thread nD τ).loc main_arg5) := (W23_of m ρ c main_arg5 (by decide)).trans (W22_main_arg5_b m ρ c)
theorem W0_main_arg6 (c : Dev nD) : W0 m ρ c (Proc.devRef .tc main_arg6) = m ((c : Thread nD τ).loc main_arg6) := rfl
theorem W1_main_arg6_b (c : Dev nD) : W1 m ρ c (Proc.devRef .tc main_arg6) = m ((c : Thread nD τ).loc main_arg6) := (W1_of m ρ c main_arg6 (by decide)).trans (W0_main_arg6 m ρ c)
theorem W2_main_arg6_b (c : Dev nD) : W2 m ρ c (Proc.devRef .tc main_arg6) = m ((c : Thread nD τ).loc main_arg6) := (W2_of m ρ c main_arg6 (by decide)).trans (W1_main_arg6_b m ρ c)
theorem W3_main_arg6_b (c : Dev nD) : W3 m ρ c (Proc.devRef .tc main_arg6) = m ((c : Thread nD τ).loc main_arg6) := (W3_of m ρ c main_arg6 (by decide)).trans (W2_main_arg6_b m ρ c)
theorem W4_main_arg6_b (c : Dev nD) : W4 m ρ c (Proc.devRef .tc main_arg6) = m ((c : Thread nD τ).loc main_arg6) := (W4_of m ρ c main_arg6 (by decide)).trans (W3_main_arg6_b m ρ c)
theorem W5_main_arg6_b (c : Dev nD) : W5 m ρ c (Proc.devRef .tc main_arg6) = m ((c : Thread nD τ).loc main_arg6) := (W5_of m ρ c main_arg6 (by decide)).trans (W4_main_arg6_b m ρ c)
theorem W6_main_arg6_b (c : Dev nD) : W6 m ρ c (Proc.devRef .tc main_arg6) = m ((c : Thread nD τ).loc main_arg6) := (W6_of m ρ c main_arg6 (by decide)).trans (W5_main_arg6_b m ρ c)
theorem W7_main_arg6_b (c : Dev nD) : W7 m ρ c (Proc.devRef .tc main_arg6) = m ((c : Thread nD τ).loc main_arg6) := (W7_of m ρ c main_arg6 (by decide)).trans (W6_main_arg6_b m ρ c)
theorem W8_main_arg6_b (c : Dev nD) : W8 m ρ c (Proc.devRef .tc main_arg6) = m ((c : Thread nD τ).loc main_arg6) := (W8_of m ρ c main_arg6 (by decide)).trans (W7_main_arg6_b m ρ c)
theorem W9_main_arg6_b (c : Dev nD) : W9 m ρ c (Proc.devRef .tc main_arg6) = m ((c : Thread nD τ).loc main_arg6) := (W9_of m ρ c main_arg6 (by decide)).trans (W8_main_arg6_b m ρ c)
theorem W10_main_arg6_b (c : Dev nD) : W10 m ρ c (Proc.devRef .tc main_arg6) = m ((c : Thread nD τ).loc main_arg6) := (W10_of m ρ c main_arg6 (by decide)).trans (W9_main_arg6_b m ρ c)
theorem W11_main_arg6_b (c : Dev nD) : W11 m ρ c (Proc.devRef .tc main_arg6) = m ((c : Thread nD τ).loc main_arg6) := (W11_of m ρ c main_arg6 (by decide)).trans (W10_main_arg6_b m ρ c)
theorem W12_main_arg6_b (c : Dev nD) : W12 m ρ c (Proc.devRef .tc main_arg6) = m ((c : Thread nD τ).loc main_arg6) := (W12_of_ne m ρ c main_arg6 (by decide)).trans (W11_main_arg6_b m ρ c)
theorem W13_main_arg6_b (c : Dev nD) : W13 m ρ c (Proc.devRef .tc main_arg6) = m ((c : Thread nD τ).loc main_arg6) := (W13_of m ρ c main_arg6 (by decide)).trans (W12_main_arg6_b m ρ c)
theorem W14_main_arg6_b (c : Dev nD) : W14 m ρ c (Proc.devRef .tc main_arg6) = m ((c : Thread nD τ).loc main_arg6) := (W14_of_ne m ρ c main_arg6 (by decide)).trans (W13_main_arg6_b m ρ c)
theorem W15_main_arg6_b (c : Dev nD) : W15 m ρ c (Proc.devRef .tc main_arg6) = m ((c : Thread nD τ).loc main_arg6) := (W15_of m ρ c main_arg6 (by decide)).trans (W14_main_arg6_b m ρ c)
theorem W16_main_arg6_b (c : Dev nD) : W16 m ρ c (Proc.devRef .tc main_arg6) = m ((c : Thread nD τ).loc main_arg6) := (W16_of_ne m ρ c main_arg6 (by decide)).trans (W15_main_arg6_b m ρ c)
theorem W17_main_arg6_b (c : Dev nD) : W17 m ρ c (Proc.devRef .tc main_arg6) = m ((c : Thread nD τ).loc main_arg6) := (W17_of m ρ c main_arg6 (by decide)).trans (W16_main_arg6_b m ρ c)
theorem W18_main_arg6_b (c : Dev nD) : W18 m ρ c (Proc.devRef .tc main_arg6) = m ((c : Thread nD τ).loc main_arg6) := (W18_of_ne m ρ c main_arg6 (by decide)).trans (W17_main_arg6_b m ρ c)
theorem W19_main_arg6_b (c : Dev nD) : W19 m ρ c (Proc.devRef .tc main_arg6) = m ((c : Thread nD τ).loc main_arg6) := (W19_of m ρ c main_arg6 (by decide)).trans (W18_main_arg6_b m ρ c)
theorem W20_main_arg6_b (c : Dev nD) : W20 m ρ c (Proc.devRef .tc main_arg6) = m ((c : Thread nD τ).loc main_arg6) := (W20_of_ne m ρ c main_arg6 (by decide)).trans (W19_main_arg6_b m ρ c)
theorem W21_main_arg6_b (c : Dev nD) : W21 m ρ c (Proc.devRef .tc main_arg6) = m ((c : Thread nD τ).loc main_arg6) := (W21_of m ρ c main_arg6 (by decide)).trans (W20_main_arg6_b m ρ c)
theorem W22_main_arg6_b (c : Dev nD) : W22 m ρ c (Proc.devRef .tc main_arg6) = m ((c : Thread nD τ).loc main_arg6) := (W22_of_ne m ρ c main_arg6 (by decide)).trans (W21_main_arg6_b m ρ c)
theorem W23_main_arg6_b (c : Dev nD) : W23 m ρ c (Proc.devRef .tc main_arg6) = m ((c : Thread nD τ).loc main_arg6) := (W23_of m ρ c main_arg6 (by decide)).trans (W22_main_arg6_b m ρ c)
theorem W0_main_arg7 (c : Dev nD) : W0 m ρ c (Proc.devRef .tc main_arg7) = m ((c : Thread nD τ).loc main_arg7) := rfl
theorem W1_main_arg7_b (c : Dev nD) : W1 m ρ c (Proc.devRef .tc main_arg7) = m ((c : Thread nD τ).loc main_arg7) := (W1_of m ρ c main_arg7 (by decide)).trans (W0_main_arg7 m ρ c)
theorem W2_main_arg7_b (c : Dev nD) : W2 m ρ c (Proc.devRef .tc main_arg7) = m ((c : Thread nD τ).loc main_arg7) := (W2_of m ρ c main_arg7 (by decide)).trans (W1_main_arg7_b m ρ c)
theorem W3_main_arg7_b (c : Dev nD) : W3 m ρ c (Proc.devRef .tc main_arg7) = m ((c : Thread nD τ).loc main_arg7) := (W3_of m ρ c main_arg7 (by decide)).trans (W2_main_arg7_b m ρ c)
theorem W4_main_arg7_b (c : Dev nD) : W4 m ρ c (Proc.devRef .tc main_arg7) = m ((c : Thread nD τ).loc main_arg7) := (W4_of m ρ c main_arg7 (by decide)).trans (W3_main_arg7_b m ρ c)
theorem W5_main_arg7_b (c : Dev nD) : W5 m ρ c (Proc.devRef .tc main_arg7) = m ((c : Thread nD τ).loc main_arg7) := (W5_of m ρ c main_arg7 (by decide)).trans (W4_main_arg7_b m ρ c)
theorem W6_main_arg7_b (c : Dev nD) : W6 m ρ c (Proc.devRef .tc main_arg7) = m ((c : Thread nD τ).loc main_arg7) := (W6_of m ρ c main_arg7 (by decide)).trans (W5_main_arg7_b m ρ c)
theorem W7_main_arg7_b (c : Dev nD) : W7 m ρ c (Proc.devRef .tc main_arg7) = m ((c : Thread nD τ).loc main_arg7) := (W7_of m ρ c main_arg7 (by decide)).trans (W6_main_arg7_b m ρ c)
theorem W8_main_arg7_b (c : Dev nD) : W8 m ρ c (Proc.devRef .tc main_arg7) = m ((c : Thread nD τ).loc main_arg7) := (W8_of m ρ c main_arg7 (by decide)).trans (W7_main_arg7_b m ρ c)
theorem W9_main_arg7_b (c : Dev nD) : W9 m ρ c (Proc.devRef .tc main_arg7) = m ((c : Thread nD τ).loc main_arg7) := (W9_of m ρ c main_arg7 (by decide)).trans (W8_main_arg7_b m ρ c)
theorem W10_main_arg7_b (c : Dev nD) : W10 m ρ c (Proc.devRef .tc main_arg7) = m ((c : Thread nD τ).loc main_arg7) := (W10_of m ρ c main_arg7 (by decide)).trans (W9_main_arg7_b m ρ c)
theorem W11_main_arg7_b (c : Dev nD) : W11 m ρ c (Proc.devRef .tc main_arg7) = m ((c : Thread nD τ).loc main_arg7) := (W11_of m ρ c main_arg7 (by decide)).trans (W10_main_arg7_b m ρ c)
theorem W12_main_arg7_b (c : Dev nD) : W12 m ρ c (Proc.devRef .tc main_arg7) = m ((c : Thread nD τ).loc main_arg7) := (W12_of_ne m ρ c main_arg7 (by decide)).trans (W11_main_arg7_b m ρ c)
theorem W13_main_arg7_b (c : Dev nD) : W13 m ρ c (Proc.devRef .tc main_arg7) = m ((c : Thread nD τ).loc main_arg7) := (W13_of m ρ c main_arg7 (by decide)).trans (W12_main_arg7_b m ρ c)
theorem W14_main_arg7_b (c : Dev nD) : W14 m ρ c (Proc.devRef .tc main_arg7) = m ((c : Thread nD τ).loc main_arg7) := (W14_of_ne m ρ c main_arg7 (by decide)).trans (W13_main_arg7_b m ρ c)
theorem W15_main_arg7_b (c : Dev nD) : W15 m ρ c (Proc.devRef .tc main_arg7) = m ((c : Thread nD τ).loc main_arg7) := (W15_of m ρ c main_arg7 (by decide)).trans (W14_main_arg7_b m ρ c)
theorem W16_main_arg7_b (c : Dev nD) : W16 m ρ c (Proc.devRef .tc main_arg7) = m ((c : Thread nD τ).loc main_arg7) := (W16_of_ne m ρ c main_arg7 (by decide)).trans (W15_main_arg7_b m ρ c)
theorem W17_main_arg7_b (c : Dev nD) : W17 m ρ c (Proc.devRef .tc main_arg7) = m ((c : Thread nD τ).loc main_arg7) := (W17_of m ρ c main_arg7 (by decide)).trans (W16_main_arg7_b m ρ c)
theorem W18_main_arg7_b (c : Dev nD) : W18 m ρ c (Proc.devRef .tc main_arg7) = m ((c : Thread nD τ).loc main_arg7) := (W18_of_ne m ρ c main_arg7 (by decide)).trans (W17_main_arg7_b m ρ c)
theorem W19_main_arg7_b (c : Dev nD) : W19 m ρ c (Proc.devRef .tc main_arg7) = m ((c : Thread nD τ).loc main_arg7) := (W19_of m ρ c main_arg7 (by decide)).trans (W18_main_arg7_b m ρ c)
theorem W20_main_arg7_b (c : Dev nD) : W20 m ρ c (Proc.devRef .tc main_arg7) = m ((c : Thread nD τ).loc main_arg7) := (W20_of_ne m ρ c main_arg7 (by decide)).trans (W19_main_arg7_b m ρ c)
theorem W21_main_arg7_b (c : Dev nD) : W21 m ρ c (Proc.devRef .tc main_arg7) = m ((c : Thread nD τ).loc main_arg7) := (W21_of m ρ c main_arg7 (by decide)).trans (W20_main_arg7_b m ρ c)
theorem W22_main_arg7_b (c : Dev nD) : W22 m ρ c (Proc.devRef .tc main_arg7) = m ((c : Thread nD τ).loc main_arg7) := (W22_of_ne m ρ c main_arg7 (by decide)).trans (W21_main_arg7_b m ρ c)
theorem W23_main_arg7_b (c : Dev nD) : W23 m ρ c (Proc.devRef .tc main_arg7) = m ((c : Thread nD τ).loc main_arg7) := (W23_of m ρ c main_arg7 (by decide)).trans (W22_main_arg7_b m ρ c)
theorem W0_main_arg8 (c : Dev nD) : W0 m ρ c (Proc.devRef .tc main_arg8) = m ((c : Thread nD τ).loc main_arg8) := rfl
theorem W1_main_arg8_b (c : Dev nD) : W1 m ρ c (Proc.devRef .tc main_arg8) = m ((c : Thread nD τ).loc main_arg8) := (W1_of m ρ c main_arg8 (by decide)).trans (W0_main_arg8 m ρ c)
theorem W2_main_arg8_b (c : Dev nD) : W2 m ρ c (Proc.devRef .tc main_arg8) = m ((c : Thread nD τ).loc main_arg8) := (W2_of m ρ c main_arg8 (by decide)).trans (W1_main_arg8_b m ρ c)
theorem W3_main_arg8_b (c : Dev nD) : W3 m ρ c (Proc.devRef .tc main_arg8) = m ((c : Thread nD τ).loc main_arg8) := (W3_of m ρ c main_arg8 (by decide)).trans (W2_main_arg8_b m ρ c)
theorem W4_main_arg8_b (c : Dev nD) : W4 m ρ c (Proc.devRef .tc main_arg8) = m ((c : Thread nD τ).loc main_arg8) := (W4_of m ρ c main_arg8 (by decide)).trans (W3_main_arg8_b m ρ c)
theorem W5_main_arg8_b (c : Dev nD) : W5 m ρ c (Proc.devRef .tc main_arg8) = m ((c : Thread nD τ).loc main_arg8) := (W5_of m ρ c main_arg8 (by decide)).trans (W4_main_arg8_b m ρ c)
theorem W6_main_arg8_b (c : Dev nD) : W6 m ρ c (Proc.devRef .tc main_arg8) = m ((c : Thread nD τ).loc main_arg8) := (W6_of m ρ c main_arg8 (by decide)).trans (W5_main_arg8_b m ρ c)
theorem W7_main_arg8_b (c : Dev nD) : W7 m ρ c (Proc.devRef .tc main_arg8) = m ((c : Thread nD τ).loc main_arg8) := (W7_of m ρ c main_arg8 (by decide)).trans (W6_main_arg8_b m ρ c)
theorem W8_main_arg8_b (c : Dev nD) : W8 m ρ c (Proc.devRef .tc main_arg8) = m ((c : Thread nD τ).loc main_arg8) := (W8_of m ρ c main_arg8 (by decide)).trans (W7_main_arg8_b m ρ c)
theorem W9_main_arg8_b (c : Dev nD) : W9 m ρ c (Proc.devRef .tc main_arg8) = m ((c : Thread nD τ).loc main_arg8) := (W9_of m ρ c main_arg8 (by decide)).trans (W8_main_arg8_b m ρ c)
theorem W10_main_arg8_b (c : Dev nD) : W10 m ρ c (Proc.devRef .tc main_arg8) = m ((c : Thread nD τ).loc main_arg8) := (W10_of m ρ c main_arg8 (by decide)).trans (W9_main_arg8_b m ρ c)
theorem W11_main_arg8_b (c : Dev nD) : W11 m ρ c (Proc.devRef .tc main_arg8) = m ((c : Thread nD τ).loc main_arg8) := (W11_of m ρ c main_arg8 (by decide)).trans (W10_main_arg8_b m ρ c)
theorem W12_main_arg8_b (c : Dev nD) : W12 m ρ c (Proc.devRef .tc main_arg8) = m ((c : Thread nD τ).loc main_arg8) := (W12_of_ne m ρ c main_arg8 (by decide)).trans (W11_main_arg8_b m ρ c)
theorem W13_main_arg8_b (c : Dev nD) : W13 m ρ c (Proc.devRef .tc main_arg8) = m ((c : Thread nD τ).loc main_arg8) := (W13_of m ρ c main_arg8 (by decide)).trans (W12_main_arg8_b m ρ c)
theorem W14_main_arg8_b (c : Dev nD) : W14 m ρ c (Proc.devRef .tc main_arg8) = m ((c : Thread nD τ).loc main_arg8) := (W14_of_ne m ρ c main_arg8 (by decide)).trans (W13_main_arg8_b m ρ c)
theorem W15_main_arg8_b (c : Dev nD) : W15 m ρ c (Proc.devRef .tc main_arg8) = m ((c : Thread nD τ).loc main_arg8) := (W15_of m ρ c main_arg8 (by decide)).trans (W14_main_arg8_b m ρ c)
theorem W16_main_arg8_b (c : Dev nD) : W16 m ρ c (Proc.devRef .tc main_arg8) = m ((c : Thread nD τ).loc main_arg8) := (W16_of_ne m ρ c main_arg8 (by decide)).trans (W15_main_arg8_b m ρ c)
theorem W17_main_arg8_b (c : Dev nD) : W17 m ρ c (Proc.devRef .tc main_arg8) = m ((c : Thread nD τ).loc main_arg8) := (W17_of m ρ c main_arg8 (by decide)).trans (W16_main_arg8_b m ρ c)
theorem W18_main_arg8_b (c : Dev nD) : W18 m ρ c (Proc.devRef .tc main_arg8) = m ((c : Thread nD τ).loc main_arg8) := (W18_of_ne m ρ c main_arg8 (by decide)).trans (W17_main_arg8_b m ρ c)
theorem W19_main_arg8_b (c : Dev nD) : W19 m ρ c (Proc.devRef .tc main_arg8) = m ((c : Thread nD τ).loc main_arg8) := (W19_of m ρ c main_arg8 (by decide)).trans (W18_main_arg8_b m ρ c)
theorem W20_main_arg8_b (c : Dev nD) : W20 m ρ c (Proc.devRef .tc main_arg8) = m ((c : Thread nD τ).loc main_arg8) := (W20_of_ne m ρ c main_arg8 (by decide)).trans (W19_main_arg8_b m ρ c)
theorem W21_main_arg8_b (c : Dev nD) : W21 m ρ c (Proc.devRef .tc main_arg8) = m ((c : Thread nD τ).loc main_arg8) := (W21_of m ρ c main_arg8 (by decide)).trans (W20_main_arg8_b m ρ c)
theorem W22_main_arg8_b (c : Dev nD) : W22 m ρ c (Proc.devRef .tc main_arg8) = m ((c : Thread nD τ).loc main_arg8) := (W22_of_ne m ρ c main_arg8 (by decide)).trans (W21_main_arg8_b m ρ c)
theorem W23_main_arg8_b (c : Dev nD) : W23 m ρ c (Proc.devRef .tc main_arg8) = m ((c : Thread nD τ).loc main_arg8) := (W23_of m ρ c main_arg8 (by decide)).trans (W22_main_arg8_b m ρ c)
theorem W0_main_arg9 (c : Dev nD) : W0 m ρ c (Proc.devRef .tc main_arg9) = m ((c : Thread nD τ).loc main_arg9) := rfl
theorem W1_main_arg9_b (c : Dev nD) : W1 m ρ c (Proc.devRef .tc main_arg9) = m ((c : Thread nD τ).loc main_arg9) := (W1_of m ρ c main_arg9 (by decide)).trans (W0_main_arg9 m ρ c)
theorem W2_main_arg9_b (c : Dev nD) : W2 m ρ c (Proc.devRef .tc main_arg9) = m ((c : Thread nD τ).loc main_arg9) := (W2_of m ρ c main_arg9 (by decide)).trans (W1_main_arg9_b m ρ c)
theorem W3_main_arg9_b (c : Dev nD) : W3 m ρ c (Proc.devRef .tc main_arg9) = m ((c : Thread nD τ).loc main_arg9) := (W3_of m ρ c main_arg9 (by decide)).trans (W2_main_arg9_b m ρ c)
theorem W4_main_arg9_b (c : Dev nD) : W4 m ρ c (Proc.devRef .tc main_arg9) = m ((c : Thread nD τ).loc main_arg9) := (W4_of m ρ c main_arg9 (by decide)).trans (W3_main_arg9_b m ρ c)
theorem W5_main_arg9_b (c : Dev nD) : W5 m ρ c (Proc.devRef .tc main_arg9) = m ((c : Thread nD τ).loc main_arg9) := (W5_of m ρ c main_arg9 (by decide)).trans (W4_main_arg9_b m ρ c)
theorem W6_main_arg9_b (c : Dev nD) : W6 m ρ c (Proc.devRef .tc main_arg9) = m ((c : Thread nD τ).loc main_arg9) := (W6_of m ρ c main_arg9 (by decide)).trans (W5_main_arg9_b m ρ c)
theorem W7_main_arg9_b (c : Dev nD) : W7 m ρ c (Proc.devRef .tc main_arg9) = m ((c : Thread nD τ).loc main_arg9) := (W7_of m ρ c main_arg9 (by decide)).trans (W6_main_arg9_b m ρ c)
theorem W8_main_arg9_b (c : Dev nD) : W8 m ρ c (Proc.devRef .tc main_arg9) = m ((c : Thread nD τ).loc main_arg9) := (W8_of m ρ c main_arg9 (by decide)).trans (W7_main_arg9_b m ρ c)
theorem W9_main_arg9_b (c : Dev nD) : W9 m ρ c (Proc.devRef .tc main_arg9) = m ((c : Thread nD τ).loc main_arg9) := (W9_of m ρ c main_arg9 (by decide)).trans (W8_main_arg9_b m ρ c)
theorem W10_main_arg9_b (c : Dev nD) : W10 m ρ c (Proc.devRef .tc main_arg9) = m ((c : Thread nD τ).loc main_arg9) := (W10_of m ρ c main_arg9 (by decide)).trans (W9_main_arg9_b m ρ c)
theorem W11_main_arg9_b (c : Dev nD) : W11 m ρ c (Proc.devRef .tc main_arg9) = m ((c : Thread nD τ).loc main_arg9) := (W11_of m ρ c main_arg9 (by decide)).trans (W10_main_arg9_b m ρ c)
theorem W12_main_arg9_b (c : Dev nD) : W12 m ρ c (Proc.devRef .tc main_arg9) = m ((c : Thread nD τ).loc main_arg9) := (W12_of_ne m ρ c main_arg9 (by decide)).trans (W11_main_arg9_b m ρ c)
theorem W13_main_arg9_b (c : Dev nD) : W13 m ρ c (Proc.devRef .tc main_arg9) = m ((c : Thread nD τ).loc main_arg9) := (W13_of m ρ c main_arg9 (by decide)).trans (W12_main_arg9_b m ρ c)
theorem W14_main_arg9_b (c : Dev nD) : W14 m ρ c (Proc.devRef .tc main_arg9) = m ((c : Thread nD τ).loc main_arg9) := (W14_of_ne m ρ c main_arg9 (by decide)).trans (W13_main_arg9_b m ρ c)
theorem W15_main_arg9_b (c : Dev nD) : W15 m ρ c (Proc.devRef .tc main_arg9) = m ((c : Thread nD τ).loc main_arg9) := (W15_of m ρ c main_arg9 (by decide)).trans (W14_main_arg9_b m ρ c)
theorem W16_main_arg9_b (c : Dev nD) : W16 m ρ c (Proc.devRef .tc main_arg9) = m ((c : Thread nD τ).loc main_arg9) := (W16_of_ne m ρ c main_arg9 (by decide)).trans (W15_main_arg9_b m ρ c)
theorem W17_main_arg9_b (c : Dev nD) : W17 m ρ c (Proc.devRef .tc main_arg9) = m ((c : Thread nD τ).loc main_arg9) := (W17_of m ρ c main_arg9 (by decide)).trans (W16_main_arg9_b m ρ c)
theorem W18_main_arg9_b (c : Dev nD) : W18 m ρ c (Proc.devRef .tc main_arg9) = m ((c : Thread nD τ).loc main_arg9) := (W18_of_ne m ρ c main_arg9 (by decide)).trans (W17_main_arg9_b m ρ c)
theorem W19_main_arg9_b (c : Dev nD) : W19 m ρ c (Proc.devRef .tc main_arg9) = m ((c : Thread nD τ).loc main_arg9) := (W19_of m ρ c main_arg9 (by decide)).trans (W18_main_arg9_b m ρ c)
theorem W20_main_arg9_b (c : Dev nD) : W20 m ρ c (Proc.devRef .tc main_arg9) = m ((c : Thread nD τ).loc main_arg9) := (W20_of_ne m ρ c main_arg9 (by decide)).trans (W19_main_arg9_b m ρ c)
theorem W21_main_arg9_b (c : Dev nD) : W21 m ρ c (Proc.devRef .tc main_arg9) = m ((c : Thread nD τ).loc main_arg9) := (W21_of m ρ c main_arg9 (by decide)).trans (W20_main_arg9_b m ρ c)
theorem W22_main_arg9_b (c : Dev nD) : W22 m ρ c (Proc.devRef .tc main_arg9) = m ((c : Thread nD τ).loc main_arg9) := (W22_of_ne m ρ c main_arg9 (by decide)).trans (W21_main_arg9_b m ρ c)
theorem W23_main_arg9_b (c : Dev nD) : W23 m ρ c (Proc.devRef .tc main_arg9) = m ((c : Thread nD τ).loc main_arg9) := (W23_of m ρ c main_arg9 (by decide)).trans (W22_main_arg9_b m ρ c)
theorem W0_main_arg10 (c : Dev nD) : W0 m ρ c (Proc.devRef .tc main_arg10) = m ((c : Thread nD τ).loc main_arg10) := rfl
theorem W1_main_arg10_b (c : Dev nD) : W1 m ρ c (Proc.devRef .tc main_arg10) = m ((c : Thread nD τ).loc main_arg10) := (W1_of m ρ c main_arg10 (by decide)).trans (W0_main_arg10 m ρ c)
theorem W2_main_arg10_b (c : Dev nD) : W2 m ρ c (Proc.devRef .tc main_arg10) = m ((c : Thread nD τ).loc main_arg10) := (W2_of m ρ c main_arg10 (by decide)).trans (W1_main_arg10_b m ρ c)
theorem W3_main_arg10_b (c : Dev nD) : W3 m ρ c (Proc.devRef .tc main_arg10) = m ((c : Thread nD τ).loc main_arg10) := (W3_of m ρ c main_arg10 (by decide)).trans (W2_main_arg10_b m ρ c)
theorem W4_main_arg10_b (c : Dev nD) : W4 m ρ c (Proc.devRef .tc main_arg10) = m ((c : Thread nD τ).loc main_arg10) := (W4_of m ρ c main_arg10 (by decide)).trans (W3_main_arg10_b m ρ c)
theorem W5_main_arg10_b (c : Dev nD) : W5 m ρ c (Proc.devRef .tc main_arg10) = m ((c : Thread nD τ).loc main_arg10) := (W5_of m ρ c main_arg10 (by decide)).trans (W4_main_arg10_b m ρ c)
theorem W6_main_arg10_b (c : Dev nD) : W6 m ρ c (Proc.devRef .tc main_arg10) = m ((c : Thread nD τ).loc main_arg10) := (W6_of m ρ c main_arg10 (by decide)).trans (W5_main_arg10_b m ρ c)
theorem W7_main_arg10_b (c : Dev nD) : W7 m ρ c (Proc.devRef .tc main_arg10) = m ((c : Thread nD τ).loc main_arg10) := (W7_of m ρ c main_arg10 (by decide)).trans (W6_main_arg10_b m ρ c)
theorem W8_main_arg10_b (c : Dev nD) : W8 m ρ c (Proc.devRef .tc main_arg10) = m ((c : Thread nD τ).loc main_arg10) := (W8_of m ρ c main_arg10 (by decide)).trans (W7_main_arg10_b m ρ c)
theorem W9_main_arg10_b (c : Dev nD) : W9 m ρ c (Proc.devRef .tc main_arg10) = m ((c : Thread nD τ).loc main_arg10) := (W9_of m ρ c main_arg10 (by decide)).trans (W8_main_arg10_b m ρ c)
theorem W10_main_arg10_b (c : Dev nD) : W10 m ρ c (Proc.devRef .tc main_arg10) = m ((c : Thread nD τ).loc main_arg10) := (W10_of m ρ c main_arg10 (by decide)).trans (W9_main_arg10_b m ρ c)
theorem W11_main_arg10_b (c : Dev nD) : W11 m ρ c (Proc.devRef .tc main_arg10) = m ((c : Thread nD τ).loc main_arg10) := (W11_of m ρ c main_arg10 (by decide)).trans (W10_main_arg10_b m ρ c)
theorem W12_main_arg10_b (c : Dev nD) : W12 m ρ c (Proc.devRef .tc main_arg10) = m ((c : Thread nD τ).loc main_arg10) := (W12_of_ne m ρ c main_arg10 (by decide)).trans (W11_main_arg10_b m ρ c)
theorem W13_main_arg10_b (c : Dev nD) : W13 m ρ c (Proc.devRef .tc main_arg10) = m ((c : Thread nD τ).loc main_arg10) := (W13_of m ρ c main_arg10 (by decide)).trans (W12_main_arg10_b m ρ c)
theorem W14_main_arg10_b (c : Dev nD) : W14 m ρ c (Proc.devRef .tc main_arg10) = m ((c : Thread nD τ).loc main_arg10) := (W14_of_ne m ρ c main_arg10 (by decide)).trans (W13_main_arg10_b m ρ c)
theorem W15_main_arg10_b (c : Dev nD) : W15 m ρ c (Proc.devRef .tc main_arg10) = m ((c : Thread nD τ).loc main_arg10) := (W15_of m ρ c main_arg10 (by decide)).trans (W14_main_arg10_b m ρ c)
theorem W16_main_arg10_b (c : Dev nD) : W16 m ρ c (Proc.devRef .tc main_arg10) = m ((c : Thread nD τ).loc main_arg10) := (W16_of_ne m ρ c main_arg10 (by decide)).trans (W15_main_arg10_b m ρ c)
theorem W17_main_arg10_b (c : Dev nD) : W17 m ρ c (Proc.devRef .tc main_arg10) = m ((c : Thread nD τ).loc main_arg10) := (W17_of m ρ c main_arg10 (by decide)).trans (W16_main_arg10_b m ρ c)
theorem W18_main_arg10_b (c : Dev nD) : W18 m ρ c (Proc.devRef .tc main_arg10) = m ((c : Thread nD τ).loc main_arg10) := (W18_of_ne m ρ c main_arg10 (by decide)).trans (W17_main_arg10_b m ρ c)
theorem W19_main_arg10_b (c : Dev nD) : W19 m ρ c (Proc.devRef .tc main_arg10) = m ((c : Thread nD τ).loc main_arg10) := (W19_of m ρ c main_arg10 (by decide)).trans (W18_main_arg10_b m ρ c)
theorem W20_main_arg10_b (c : Dev nD) : W20 m ρ c (Proc.devRef .tc main_arg10) = m ((c : Thread nD τ).loc main_arg10) := (W20_of_ne m ρ c main_arg10 (by decide)).trans (W19_main_arg10_b m ρ c)
theorem W21_main_arg10_b (c : Dev nD) : W21 m ρ c (Proc.devRef .tc main_arg10) = m ((c : Thread nD τ).loc main_arg10) := (W21_of m ρ c main_arg10 (by decide)).trans (W20_main_arg10_b m ρ c)
theorem W22_main_arg10_b (c : Dev nD) : W22 m ρ c (Proc.devRef .tc main_arg10) = m ((c : Thread nD τ).loc main_arg10) := (W22_of_ne m ρ c main_arg10 (by decide)).trans (W21_main_arg10_b m ρ c)
theorem W23_main_arg10_b (c : Dev nD) : W23 m ρ c (Proc.devRef .tc main_arg10) = m ((c : Thread nD τ).loc main_arg10) := (W23_of m ρ c main_arg10 (by decide)).trans (W22_main_arg10_b m ρ c)
theorem W0_main_arg11 (c : Dev nD) : W0 m ρ c (Proc.devRef .tc main_arg11) = m ((c : Thread nD τ).loc main_arg11) := rfl
theorem W1_main_arg11_b (c : Dev nD) : W1 m ρ c (Proc.devRef .tc main_arg11) = m ((c : Thread nD τ).loc main_arg11) := (W1_of m ρ c main_arg11 (by decide)).trans (W0_main_arg11 m ρ c)
theorem W2_main_arg11_b (c : Dev nD) : W2 m ρ c (Proc.devRef .tc main_arg11) = m ((c : Thread nD τ).loc main_arg11) := (W2_of m ρ c main_arg11 (by decide)).trans (W1_main_arg11_b m ρ c)
theorem W3_main_arg11_b (c : Dev nD) : W3 m ρ c (Proc.devRef .tc main_arg11) = m ((c : Thread nD τ).loc main_arg11) := (W3_of m ρ c main_arg11 (by decide)).trans (W2_main_arg11_b m ρ c)
theorem W4_main_arg11_b (c : Dev nD) : W4 m ρ c (Proc.devRef .tc main_arg11) = m ((c : Thread nD τ).loc main_arg11) := (W4_of m ρ c main_arg11 (by decide)).trans (W3_main_arg11_b m ρ c)
theorem W5_main_arg11_b (c : Dev nD) : W5 m ρ c (Proc.devRef .tc main_arg11) = m ((c : Thread nD τ).loc main_arg11) := (W5_of m ρ c main_arg11 (by decide)).trans (W4_main_arg11_b m ρ c)
theorem W6_main_arg11_b (c : Dev nD) : W6 m ρ c (Proc.devRef .tc main_arg11) = m ((c : Thread nD τ).loc main_arg11) := (W6_of m ρ c main_arg11 (by decide)).trans (W5_main_arg11_b m ρ c)
theorem W7_main_arg11_b (c : Dev nD) : W7 m ρ c (Proc.devRef .tc main_arg11) = m ((c : Thread nD τ).loc main_arg11) := (W7_of m ρ c main_arg11 (by decide)).trans (W6_main_arg11_b m ρ c)
theorem W8_main_arg11_b (c : Dev nD) : W8 m ρ c (Proc.devRef .tc main_arg11) = m ((c : Thread nD τ).loc main_arg11) := (W8_of m ρ c main_arg11 (by decide)).trans (W7_main_arg11_b m ρ c)
theorem W9_main_arg11_b (c : Dev nD) : W9 m ρ c (Proc.devRef .tc main_arg11) = m ((c : Thread nD τ).loc main_arg11) := (W9_of m ρ c main_arg11 (by decide)).trans (W8_main_arg11_b m ρ c)
theorem W10_main_arg11_b (c : Dev nD) : W10 m ρ c (Proc.devRef .tc main_arg11) = m ((c : Thread nD τ).loc main_arg11) := (W10_of m ρ c main_arg11 (by decide)).trans (W9_main_arg11_b m ρ c)
theorem W11_main_arg11_b (c : Dev nD) : W11 m ρ c (Proc.devRef .tc main_arg11) = m ((c : Thread nD τ).loc main_arg11) := (W11_of m ρ c main_arg11 (by decide)).trans (W10_main_arg11_b m ρ c)
theorem W12_main_arg11_b (c : Dev nD) : W12 m ρ c (Proc.devRef .tc main_arg11) = m ((c : Thread nD τ).loc main_arg11) := (W12_of_ne m ρ c main_arg11 (by decide)).trans (W11_main_arg11_b m ρ c)
theorem W13_main_arg11_b (c : Dev nD) : W13 m ρ c (Proc.devRef .tc main_arg11) = m ((c : Thread nD τ).loc main_arg11) := (W13_of m ρ c main_arg11 (by decide)).trans (W12_main_arg11_b m ρ c)
theorem W14_main_arg11_b (c : Dev nD) : W14 m ρ c (Proc.devRef .tc main_arg11) = m ((c : Thread nD τ).loc main_arg11) := (W14_of_ne m ρ c main_arg11 (by decide)).trans (W13_main_arg11_b m ρ c)
theorem W15_main_arg11_b (c : Dev nD) : W15 m ρ c (Proc.devRef .tc main_arg11) = m ((c : Thread nD τ).loc main_arg11) := (W15_of m ρ c main_arg11 (by decide)).trans (W14_main_arg11_b m ρ c)
theorem W16_main_arg11_b (c : Dev nD) : W16 m ρ c (Proc.devRef .tc main_arg11) = m ((c : Thread nD τ).loc main_arg11) := (W16_of_ne m ρ c main_arg11 (by decide)).trans (W15_main_arg11_b m ρ c)
theorem W17_main_arg11_b (c : Dev nD) : W17 m ρ c (Proc.devRef .tc main_arg11) = m ((c : Thread nD τ).loc main_arg11) := (W17_of m ρ c main_arg11 (by decide)).trans (W16_main_arg11_b m ρ c)
theorem W18_main_arg11_b (c : Dev nD) : W18 m ρ c (Proc.devRef .tc main_arg11) = m ((c : Thread nD τ).loc main_arg11) := (W18_of_ne m ρ c main_arg11 (by decide)).trans (W17_main_arg11_b m ρ c)
theorem W19_main_arg11_b (c : Dev nD) : W19 m ρ c (Proc.devRef .tc main_arg11) = m ((c : Thread nD τ).loc main_arg11) := (W19_of m ρ c main_arg11 (by decide)).trans (W18_main_arg11_b m ρ c)
theorem W20_main_arg11_b (c : Dev nD) : W20 m ρ c (Proc.devRef .tc main_arg11) = m ((c : Thread nD τ).loc main_arg11) := (W20_of_ne m ρ c main_arg11 (by decide)).trans (W19_main_arg11_b m ρ c)
theorem W21_main_arg11_b (c : Dev nD) : W21 m ρ c (Proc.devRef .tc main_arg11) = m ((c : Thread nD τ).loc main_arg11) := (W21_of m ρ c main_arg11 (by decide)).trans (W20_main_arg11_b m ρ c)
theorem W22_main_arg11_b (c : Dev nD) : W22 m ρ c (Proc.devRef .tc main_arg11) = m ((c : Thread nD τ).loc main_arg11) := (W22_of_ne m ρ c main_arg11 (by decide)).trans (W21_main_arg11_b m ρ c)
theorem W23_main_arg11_b (c : Dev nD) : W23 m ρ c (Proc.devRef .tc main_arg11) = m ((c : Thread nD τ).loc main_arg11) := (W23_of m ρ c main_arg11 (by decide)).trans (W22_main_arg11_b m ρ c)
theorem W0_main_arg12 (c : Dev nD) : W0 m ρ c (Proc.devRef .tc main_arg12) = m ((c : Thread nD τ).loc main_arg12) := rfl
theorem W1_main_arg12_b (c : Dev nD) : W1 m ρ c (Proc.devRef .tc main_arg12) = m ((c : Thread nD τ).loc main_arg12) := (W1_of m ρ c main_arg12 (by decide)).trans (W0_main_arg12 m ρ c)
theorem W2_main_arg12_b (c : Dev nD) : W2 m ρ c (Proc.devRef .tc main_arg12) = m ((c : Thread nD τ).loc main_arg12) := (W2_of m ρ c main_arg12 (by decide)).trans (W1_main_arg12_b m ρ c)
theorem W3_main_arg12_b (c : Dev nD) : W3 m ρ c (Proc.devRef .tc main_arg12) = m ((c : Thread nD τ).loc main_arg12) := (W3_of m ρ c main_arg12 (by decide)).trans (W2_main_arg12_b m ρ c)
theorem W4_main_arg12_b (c : Dev nD) : W4 m ρ c (Proc.devRef .tc main_arg12) = m ((c : Thread nD τ).loc main_arg12) := (W4_of m ρ c main_arg12 (by decide)).trans (W3_main_arg12_b m ρ c)
theorem W5_main_arg12_b (c : Dev nD) : W5 m ρ c (Proc.devRef .tc main_arg12) = m ((c : Thread nD τ).loc main_arg12) := (W5_of m ρ c main_arg12 (by decide)).trans (W4_main_arg12_b m ρ c)
theorem W6_main_arg12_b (c : Dev nD) : W6 m ρ c (Proc.devRef .tc main_arg12) = m ((c : Thread nD τ).loc main_arg12) := (W6_of m ρ c main_arg12 (by decide)).trans (W5_main_arg12_b m ρ c)
theorem W7_main_arg12_b (c : Dev nD) : W7 m ρ c (Proc.devRef .tc main_arg12) = m ((c : Thread nD τ).loc main_arg12) := (W7_of m ρ c main_arg12 (by decide)).trans (W6_main_arg12_b m ρ c)
theorem W8_main_arg12_b (c : Dev nD) : W8 m ρ c (Proc.devRef .tc main_arg12) = m ((c : Thread nD τ).loc main_arg12) := (W8_of m ρ c main_arg12 (by decide)).trans (W7_main_arg12_b m ρ c)
theorem W9_main_arg12_b (c : Dev nD) : W9 m ρ c (Proc.devRef .tc main_arg12) = m ((c : Thread nD τ).loc main_arg12) := (W9_of m ρ c main_arg12 (by decide)).trans (W8_main_arg12_b m ρ c)
theorem W10_main_arg12_b (c : Dev nD) : W10 m ρ c (Proc.devRef .tc main_arg12) = m ((c : Thread nD τ).loc main_arg12) := (W10_of m ρ c main_arg12 (by decide)).trans (W9_main_arg12_b m ρ c)
theorem W11_main_arg12_b (c : Dev nD) : W11 m ρ c (Proc.devRef .tc main_arg12) = m ((c : Thread nD τ).loc main_arg12) := (W11_of m ρ c main_arg12 (by decide)).trans (W10_main_arg12_b m ρ c)
theorem W12_main_arg12_b (c : Dev nD) : W12 m ρ c (Proc.devRef .tc main_arg12) = m ((c : Thread nD τ).loc main_arg12) := (W12_of_ne m ρ c main_arg12 (by decide)).trans (W11_main_arg12_b m ρ c)
theorem W13_main_arg12_b (c : Dev nD) : W13 m ρ c (Proc.devRef .tc main_arg12) = m ((c : Thread nD τ).loc main_arg12) := (W13_of m ρ c main_arg12 (by decide)).trans (W12_main_arg12_b m ρ c)
theorem W14_main_arg12_b (c : Dev nD) : W14 m ρ c (Proc.devRef .tc main_arg12) = m ((c : Thread nD τ).loc main_arg12) := (W14_of_ne m ρ c main_arg12 (by decide)).trans (W13_main_arg12_b m ρ c)
theorem W15_main_arg12_b (c : Dev nD) : W15 m ρ c (Proc.devRef .tc main_arg12) = m ((c : Thread nD τ).loc main_arg12) := (W15_of m ρ c main_arg12 (by decide)).trans (W14_main_arg12_b m ρ c)
theorem W16_main_arg12_b (c : Dev nD) : W16 m ρ c (Proc.devRef .tc main_arg12) = m ((c : Thread nD τ).loc main_arg12) := (W16_of_ne m ρ c main_arg12 (by decide)).trans (W15_main_arg12_b m ρ c)
theorem W17_main_arg12_b (c : Dev nD) : W17 m ρ c (Proc.devRef .tc main_arg12) = m ((c : Thread nD τ).loc main_arg12) := (W17_of m ρ c main_arg12 (by decide)).trans (W16_main_arg12_b m ρ c)
theorem W18_main_arg12_b (c : Dev nD) : W18 m ρ c (Proc.devRef .tc main_arg12) = m ((c : Thread nD τ).loc main_arg12) := (W18_of_ne m ρ c main_arg12 (by decide)).trans (W17_main_arg12_b m ρ c)
theorem W19_main_arg12_b (c : Dev nD) : W19 m ρ c (Proc.devRef .tc main_arg12) = m ((c : Thread nD τ).loc main_arg12) := (W19_of m ρ c main_arg12 (by decide)).trans (W18_main_arg12_b m ρ c)
theorem W20_main_arg12_b (c : Dev nD) : W20 m ρ c (Proc.devRef .tc main_arg12) = m ((c : Thread nD τ).loc main_arg12) := (W20_of_ne m ρ c main_arg12 (by decide)).trans (W19_main_arg12_b m ρ c)
theorem W21_main_arg12_b (c : Dev nD) : W21 m ρ c (Proc.devRef .tc main_arg12) = m ((c : Thread nD τ).loc main_arg12) := (W21_of m ρ c main_arg12 (by decide)).trans (W20_main_arg12_b m ρ c)
theorem W22_main_arg12_b (c : Dev nD) : W22 m ρ c (Proc.devRef .tc main_arg12) = m ((c : Thread nD τ).loc main_arg12) := (W22_of_ne m ρ c main_arg12 (by decide)).trans (W21_main_arg12_b m ρ c)
theorem W23_main_arg12_b (c : Dev nD) : W23 m ρ c (Proc.devRef .tc main_arg12) = m ((c : Thread nD τ).loc main_arg12) := (W23_of m ρ c main_arg12 (by decide)).trans (W22_main_arg12_b m ρ c)
theorem W0_main_arg13 (c : Dev nD) : W0 m ρ c (Proc.devRef .tc main_arg13) = m ((c : Thread nD τ).loc main_arg13) := rfl
theorem W1_main_arg13_b (c : Dev nD) : W1 m ρ c (Proc.devRef .tc main_arg13) = m ((c : Thread nD τ).loc main_arg13) := (W1_of m ρ c main_arg13 (by decide)).trans (W0_main_arg13 m ρ c)
theorem W2_main_arg13_b (c : Dev nD) : W2 m ρ c (Proc.devRef .tc main_arg13) = m ((c : Thread nD τ).loc main_arg13) := (W2_of m ρ c main_arg13 (by decide)).trans (W1_main_arg13_b m ρ c)
theorem W3_main_arg13_b (c : Dev nD) : W3 m ρ c (Proc.devRef .tc main_arg13) = m ((c : Thread nD τ).loc main_arg13) := (W3_of m ρ c main_arg13 (by decide)).trans (W2_main_arg13_b m ρ c)
theorem W4_main_arg13_b (c : Dev nD) : W4 m ρ c (Proc.devRef .tc main_arg13) = m ((c : Thread nD τ).loc main_arg13) := (W4_of m ρ c main_arg13 (by decide)).trans (W3_main_arg13_b m ρ c)
theorem W5_main_arg13_b (c : Dev nD) : W5 m ρ c (Proc.devRef .tc main_arg13) = m ((c : Thread nD τ).loc main_arg13) := (W5_of m ρ c main_arg13 (by decide)).trans (W4_main_arg13_b m ρ c)
theorem W6_main_arg13_b (c : Dev nD) : W6 m ρ c (Proc.devRef .tc main_arg13) = m ((c : Thread nD τ).loc main_arg13) := (W6_of m ρ c main_arg13 (by decide)).trans (W5_main_arg13_b m ρ c)
theorem W7_main_arg13_b (c : Dev nD) : W7 m ρ c (Proc.devRef .tc main_arg13) = m ((c : Thread nD τ).loc main_arg13) := (W7_of m ρ c main_arg13 (by decide)).trans (W6_main_arg13_b m ρ c)
theorem W8_main_arg13_b (c : Dev nD) : W8 m ρ c (Proc.devRef .tc main_arg13) = m ((c : Thread nD τ).loc main_arg13) := (W8_of m ρ c main_arg13 (by decide)).trans (W7_main_arg13_b m ρ c)
theorem W9_main_arg13_b (c : Dev nD) : W9 m ρ c (Proc.devRef .tc main_arg13) = m ((c : Thread nD τ).loc main_arg13) := (W9_of m ρ c main_arg13 (by decide)).trans (W8_main_arg13_b m ρ c)
theorem W10_main_arg13_b (c : Dev nD) : W10 m ρ c (Proc.devRef .tc main_arg13) = m ((c : Thread nD τ).loc main_arg13) := (W10_of m ρ c main_arg13 (by decide)).trans (W9_main_arg13_b m ρ c)
theorem W11_main_arg13_b (c : Dev nD) : W11 m ρ c (Proc.devRef .tc main_arg13) = m ((c : Thread nD τ).loc main_arg13) := (W11_of m ρ c main_arg13 (by decide)).trans (W10_main_arg13_b m ρ c)
theorem W12_main_arg13_b (c : Dev nD) : W12 m ρ c (Proc.devRef .tc main_arg13) = m ((c : Thread nD τ).loc main_arg13) := (W12_of_ne m ρ c main_arg13 (by decide)).trans (W11_main_arg13_b m ρ c)
theorem W13_main_arg13_b (c : Dev nD) : W13 m ρ c (Proc.devRef .tc main_arg13) = m ((c : Thread nD τ).loc main_arg13) := (W13_of m ρ c main_arg13 (by decide)).trans (W12_main_arg13_b m ρ c)
theorem W14_main_arg13_b (c : Dev nD) : W14 m ρ c (Proc.devRef .tc main_arg13) = m ((c : Thread nD τ).loc main_arg13) := (W14_of_ne m ρ c main_arg13 (by decide)).trans (W13_main_arg13_b m ρ c)
theorem W15_main_arg13_b (c : Dev nD) : W15 m ρ c (Proc.devRef .tc main_arg13) = m ((c : Thread nD τ).loc main_arg13) := (W15_of m ρ c main_arg13 (by decide)).trans (W14_main_arg13_b m ρ c)
theorem W16_main_arg13_b (c : Dev nD) : W16 m ρ c (Proc.devRef .tc main_arg13) = m ((c : Thread nD τ).loc main_arg13) := (W16_of_ne m ρ c main_arg13 (by decide)).trans (W15_main_arg13_b m ρ c)
theorem W17_main_arg13_b (c : Dev nD) : W17 m ρ c (Proc.devRef .tc main_arg13) = m ((c : Thread nD τ).loc main_arg13) := (W17_of m ρ c main_arg13 (by decide)).trans (W16_main_arg13_b m ρ c)
theorem W18_main_arg13_b (c : Dev nD) : W18 m ρ c (Proc.devRef .tc main_arg13) = m ((c : Thread nD τ).loc main_arg13) := (W18_of_ne m ρ c main_arg13 (by decide)).trans (W17_main_arg13_b m ρ c)
theorem W19_main_arg13_b (c : Dev nD) : W19 m ρ c (Proc.devRef .tc main_arg13) = m ((c : Thread nD τ).loc main_arg13) := (W19_of m ρ c main_arg13 (by decide)).trans (W18_main_arg13_b m ρ c)
theorem W20_main_arg13_b (c : Dev nD) : W20 m ρ c (Proc.devRef .tc main_arg13) = m ((c : Thread nD τ).loc main_arg13) := (W20_of_ne m ρ c main_arg13 (by decide)).trans (W19_main_arg13_b m ρ c)
theorem W21_main_arg13_b (c : Dev nD) : W21 m ρ c (Proc.devRef .tc main_arg13) = m ((c : Thread nD τ).loc main_arg13) := (W21_of m ρ c main_arg13 (by decide)).trans (W20_main_arg13_b m ρ c)
theorem W22_main_arg13_b (c : Dev nD) : W22 m ρ c (Proc.devRef .tc main_arg13) = m ((c : Thread nD τ).loc main_arg13) := (W22_of_ne m ρ c main_arg13 (by decide)).trans (W21_main_arg13_b m ρ c)
theorem W23_main_arg13_b (c : Dev nD) : W23 m ρ c (Proc.devRef .tc main_arg13) = m ((c : Thread nD τ).loc main_arg13) := (W23_of m ρ c main_arg13 (by decide)).trans (W22_main_arg13_b m ρ c)
theorem W0_main_arg14 (c : Dev nD) : W0 m ρ c (Proc.devRef .tc main_arg14) = m ((c : Thread nD τ).loc main_arg14) := rfl
theorem W1_main_arg14_b (c : Dev nD) : W1 m ρ c (Proc.devRef .tc main_arg14) = m ((c : Thread nD τ).loc main_arg14) := (W1_of m ρ c main_arg14 (by decide)).trans (W0_main_arg14 m ρ c)
theorem W2_main_arg14_b (c : Dev nD) : W2 m ρ c (Proc.devRef .tc main_arg14) = m ((c : Thread nD τ).loc main_arg14) := (W2_of m ρ c main_arg14 (by decide)).trans (W1_main_arg14_b m ρ c)
theorem W3_main_arg14_b (c : Dev nD) : W3 m ρ c (Proc.devRef .tc main_arg14) = m ((c : Thread nD τ).loc main_arg14) := (W3_of m ρ c main_arg14 (by decide)).trans (W2_main_arg14_b m ρ c)
theorem W4_main_arg14_b (c : Dev nD) : W4 m ρ c (Proc.devRef .tc main_arg14) = m ((c : Thread nD τ).loc main_arg14) := (W4_of m ρ c main_arg14 (by decide)).trans (W3_main_arg14_b m ρ c)
theorem W5_main_arg14_b (c : Dev nD) : W5 m ρ c (Proc.devRef .tc main_arg14) = m ((c : Thread nD τ).loc main_arg14) := (W5_of m ρ c main_arg14 (by decide)).trans (W4_main_arg14_b m ρ c)
theorem W6_main_arg14_b (c : Dev nD) : W6 m ρ c (Proc.devRef .tc main_arg14) = m ((c : Thread nD τ).loc main_arg14) := (W6_of m ρ c main_arg14 (by decide)).trans (W5_main_arg14_b m ρ c)
theorem W7_main_arg14_b (c : Dev nD) : W7 m ρ c (Proc.devRef .tc main_arg14) = m ((c : Thread nD τ).loc main_arg14) := (W7_of m ρ c main_arg14 (by decide)).trans (W6_main_arg14_b m ρ c)
theorem W8_main_arg14_b (c : Dev nD) : W8 m ρ c (Proc.devRef .tc main_arg14) = m ((c : Thread nD τ).loc main_arg14) := (W8_of m ρ c main_arg14 (by decide)).trans (W7_main_arg14_b m ρ c)
theorem W9_main_arg14_b (c : Dev nD) : W9 m ρ c (Proc.devRef .tc main_arg14) = m ((c : Thread nD τ).loc main_arg14) := (W9_of m ρ c main_arg14 (by decide)).trans (W8_main_arg14_b m ρ c)
theorem W10_main_arg14_b (c : Dev nD) : W10 m ρ c (Proc.devRef .tc main_arg14) = m ((c : Thread nD τ).loc main_arg14) := (W10_of m ρ c main_arg14 (by decide)).trans (W9_main_arg14_b m ρ c)
theorem W11_main_arg14_b (c : Dev nD) : W11 m ρ c (Proc.devRef .tc main_arg14) = m ((c : Thread nD τ).loc main_arg14) := (W11_of m ρ c main_arg14 (by decide)).trans (W10_main_arg14_b m ρ c)
theorem W12_main_arg14_b (c : Dev nD) : W12 m ρ c (Proc.devRef .tc main_arg14) = m ((c : Thread nD τ).loc main_arg14) := (W12_of_ne m ρ c main_arg14 (by decide)).trans (W11_main_arg14_b m ρ c)
theorem W13_main_arg14_b (c : Dev nD) : W13 m ρ c (Proc.devRef .tc main_arg14) = m ((c : Thread nD τ).loc main_arg14) := (W13_of m ρ c main_arg14 (by decide)).trans (W12_main_arg14_b m ρ c)
theorem W14_main_arg14_b (c : Dev nD) : W14 m ρ c (Proc.devRef .tc main_arg14) = m ((c : Thread nD τ).loc main_arg14) := (W14_of_ne m ρ c main_arg14 (by decide)).trans (W13_main_arg14_b m ρ c)
theorem W15_main_arg14_b (c : Dev nD) : W15 m ρ c (Proc.devRef .tc main_arg14) = m ((c : Thread nD τ).loc main_arg14) := (W15_of m ρ c main_arg14 (by decide)).trans (W14_main_arg14_b m ρ c)
theorem W16_main_arg14_b (c : Dev nD) : W16 m ρ c (Proc.devRef .tc main_arg14) = m ((c : Thread nD τ).loc main_arg14) := (W16_of_ne m ρ c main_arg14 (by decide)).trans (W15_main_arg14_b m ρ c)
theorem W17_main_arg14_b (c : Dev nD) : W17 m ρ c (Proc.devRef .tc main_arg14) = m ((c : Thread nD τ).loc main_arg14) := (W17_of m ρ c main_arg14 (by decide)).trans (W16_main_arg14_b m ρ c)
theorem W18_main_arg14_b (c : Dev nD) : W18 m ρ c (Proc.devRef .tc main_arg14) = m ((c : Thread nD τ).loc main_arg14) := (W18_of_ne m ρ c main_arg14 (by decide)).trans (W17_main_arg14_b m ρ c)
theorem W19_main_arg14_b (c : Dev nD) : W19 m ρ c (Proc.devRef .tc main_arg14) = m ((c : Thread nD τ).loc main_arg14) := (W19_of m ρ c main_arg14 (by decide)).trans (W18_main_arg14_b m ρ c)
theorem W20_main_arg14_b (c : Dev nD) : W20 m ρ c (Proc.devRef .tc main_arg14) = m ((c : Thread nD τ).loc main_arg14) := (W20_of_ne m ρ c main_arg14 (by decide)).trans (W19_main_arg14_b m ρ c)
theorem W21_main_arg14_b (c : Dev nD) : W21 m ρ c (Proc.devRef .tc main_arg14) = m ((c : Thread nD τ).loc main_arg14) := (W21_of m ρ c main_arg14 (by decide)).trans (W20_main_arg14_b m ρ c)
theorem W22_main_arg14_b (c : Dev nD) : W22 m ρ c (Proc.devRef .tc main_arg14) = m ((c : Thread nD τ).loc main_arg14) := (W22_of_ne m ρ c main_arg14 (by decide)).trans (W21_main_arg14_b m ρ c)
theorem W23_main_arg14_b (c : Dev nD) : W23 m ρ c (Proc.devRef .tc main_arg14) = m ((c : Thread nD τ).loc main_arg14) := (W23_of m ρ c main_arg14 (by decide)).trans (W22_main_arg14_b m ρ c)
theorem W0_main_arg15 (c : Dev nD) : W0 m ρ c (Proc.devRef .tc main_arg15) = m ((c : Thread nD τ).loc main_arg15) := rfl
theorem W1_main_arg15_b (c : Dev nD) : W1 m ρ c (Proc.devRef .tc main_arg15) = m ((c : Thread nD τ).loc main_arg15) := (W1_of m ρ c main_arg15 (by decide)).trans (W0_main_arg15 m ρ c)
theorem W2_main_arg15_b (c : Dev nD) : W2 m ρ c (Proc.devRef .tc main_arg15) = m ((c : Thread nD τ).loc main_arg15) := (W2_of m ρ c main_arg15 (by decide)).trans (W1_main_arg15_b m ρ c)
theorem W3_main_arg15_b (c : Dev nD) : W3 m ρ c (Proc.devRef .tc main_arg15) = m ((c : Thread nD τ).loc main_arg15) := (W3_of m ρ c main_arg15 (by decide)).trans (W2_main_arg15_b m ρ c)
theorem W4_main_arg15_b (c : Dev nD) : W4 m ρ c (Proc.devRef .tc main_arg15) = m ((c : Thread nD τ).loc main_arg15) := (W4_of m ρ c main_arg15 (by decide)).trans (W3_main_arg15_b m ρ c)
theorem W5_main_arg15_b (c : Dev nD) : W5 m ρ c (Proc.devRef .tc main_arg15) = m ((c : Thread nD τ).loc main_arg15) := (W5_of m ρ c main_arg15 (by decide)).trans (W4_main_arg15_b m ρ c)
theorem W6_main_arg15_b (c : Dev nD) : W6 m ρ c (Proc.devRef .tc main_arg15) = m ((c : Thread nD τ).loc main_arg15) := (W6_of m ρ c main_arg15 (by decide)).trans (W5_main_arg15_b m ρ c)
theorem W7_main_arg15_b (c : Dev nD) : W7 m ρ c (Proc.devRef .tc main_arg15) = m ((c : Thread nD τ).loc main_arg15) := (W7_of m ρ c main_arg15 (by decide)).trans (W6_main_arg15_b m ρ c)
theorem W8_main_arg15_b (c : Dev nD) : W8 m ρ c (Proc.devRef .tc main_arg15) = m ((c : Thread nD τ).loc main_arg15) := (W8_of m ρ c main_arg15 (by decide)).trans (W7_main_arg15_b m ρ c)
theorem W9_main_arg15_b (c : Dev nD) : W9 m ρ c (Proc.devRef .tc main_arg15) = m ((c : Thread nD τ).loc main_arg15) := (W9_of m ρ c main_arg15 (by decide)).trans (W8_main_arg15_b m ρ c)
theorem W10_main_arg15_b (c : Dev nD) : W10 m ρ c (Proc.devRef .tc main_arg15) = m ((c : Thread nD τ).loc main_arg15) := (W10_of m ρ c main_arg15 (by decide)).trans (W9_main_arg15_b m ρ c)
theorem W11_main_arg15_b (c : Dev nD) : W11 m ρ c (Proc.devRef .tc main_arg15) = m ((c : Thread nD τ).loc main_arg15) := (W11_of m ρ c main_arg15 (by decide)).trans (W10_main_arg15_b m ρ c)
theorem W12_main_arg15_b (c : Dev nD) : W12 m ρ c (Proc.devRef .tc main_arg15) = m ((c : Thread nD τ).loc main_arg15) := (W12_of_ne m ρ c main_arg15 (by decide)).trans (W11_main_arg15_b m ρ c)
theorem W13_main_arg15_b (c : Dev nD) : W13 m ρ c (Proc.devRef .tc main_arg15) = m ((c : Thread nD τ).loc main_arg15) := (W13_of m ρ c main_arg15 (by decide)).trans (W12_main_arg15_b m ρ c)
theorem W14_main_arg15_b (c : Dev nD) : W14 m ρ c (Proc.devRef .tc main_arg15) = m ((c : Thread nD τ).loc main_arg15) := (W14_of_ne m ρ c main_arg15 (by decide)).trans (W13_main_arg15_b m ρ c)
theorem W15_main_arg15_b (c : Dev nD) : W15 m ρ c (Proc.devRef .tc main_arg15) = m ((c : Thread nD τ).loc main_arg15) := (W15_of m ρ c main_arg15 (by decide)).trans (W14_main_arg15_b m ρ c)
theorem W16_main_arg15_b (c : Dev nD) : W16 m ρ c (Proc.devRef .tc main_arg15) = m ((c : Thread nD τ).loc main_arg15) := (W16_of_ne m ρ c main_arg15 (by decide)).trans (W15_main_arg15_b m ρ c)
theorem W17_main_arg15_b (c : Dev nD) : W17 m ρ c (Proc.devRef .tc main_arg15) = m ((c : Thread nD τ).loc main_arg15) := (W17_of m ρ c main_arg15 (by decide)).trans (W16_main_arg15_b m ρ c)
theorem W18_main_arg15_b (c : Dev nD) : W18 m ρ c (Proc.devRef .tc main_arg15) = m ((c : Thread nD τ).loc main_arg15) := (W18_of_ne m ρ c main_arg15 (by decide)).trans (W17_main_arg15_b m ρ c)
theorem W19_main_arg15_b (c : Dev nD) : W19 m ρ c (Proc.devRef .tc main_arg15) = m ((c : Thread nD τ).loc main_arg15) := (W19_of m ρ c main_arg15 (by decide)).trans (W18_main_arg15_b m ρ c)
theorem W20_main_arg15_b (c : Dev nD) : W20 m ρ c (Proc.devRef .tc main_arg15) = m ((c : Thread nD τ).loc main_arg15) := (W20_of_ne m ρ c main_arg15 (by decide)).trans (W19_main_arg15_b m ρ c)
theorem W21_main_arg15_b (c : Dev nD) : W21 m ρ c (Proc.devRef .tc main_arg15) = m ((c : Thread nD τ).loc main_arg15) := (W21_of m ρ c main_arg15 (by decide)).trans (W20_main_arg15_b m ρ c)
theorem W22_main_arg15_b (c : Dev nD) : W22 m ρ c (Proc.devRef .tc main_arg15) = m ((c : Thread nD τ).loc main_arg15) := (W22_of_ne m ρ c main_arg15 (by decide)).trans (W21_main_arg15_b m ρ c)
theorem W23_main_arg15_b (c : Dev nD) : W23 m ρ c (Proc.devRef .tc main_arg15) = m ((c : Thread nD τ).loc main_arg15) := (W23_of m ρ c main_arg15 (by decide)).trans (W22_main_arg15_b m ρ c)

end Cert.KernelIdeal.Hand

end
-- ==== Proof.Spec.lean ====
/- The mathematics both programs compute, as plain functions on extended reals, indexed by row and column.
   A layer takes ±1 activations a (M rows of K entries) and ±1 weights w (N rows of K entries) to the raw products
   raw r o = Σ_i a r i * w o i; the batch statistics of a raw array x are its column sums and column sums of squares;
   the normalised value is γ o * (x r o − mean o) * rsqrt (var o + ε) + β o; the next layer's activations are its signs.
   The variance is written in two ways: the kernel's, mean of squares minus square of the mean clamped below at 0, and the
   reference's, mean of squared deviations. The last layer is followed by a softmax down each column. -/
import Idealize.ShloMosaic.PureOps.Ideal

noncomputable section

namespace Cert.Spec

open Idealize.ShloMosaic

/-- Binarisation: +1 where the entry is at least 0, else −1. -/
def sgn (v : EReal) : EReal := if 0 ≤ v then 1 else -1

variable {M N K : ℕ}

/-- One output entry of a layer: a row of activations against a row of weights. -/
def raw (a : Fin M → Fin K → EReal) (w : Fin N → Fin K → EReal) (r : Fin M) (o : Fin N) : EReal := ∑ i, a r i * w o i

/-- Column sums and column sums of squares over the batch. -/
def colSum (x : Fin M → Fin N → EReal) (o : Fin N) : EReal := ∑ r, x r o
def colSumSq (x : Fin M → Fin N → EReal) (o : Fin N) : EReal := ∑ r, x r o * x r o

/-- The batch size 65536 as an extended real. -/
def bsz : EReal := ((65536 : ℝ) : EReal)

/-- The stabiliser under the square root: the binary32 number nearest 1e-5, the same literal in both programs. -/
def eps : EReal := Ideal.ofBits .f32 0x3727C5AC#32

/-- The mean from a column sum. -/
def meanOf (S : Fin N → EReal) (o : Fin N) : EReal := Ideal.div (S o) bsz

/-- The variance as the kernel computes it: mean of squares minus square of the mean, clamped below at 0. -/
def varK (S Q : Fin N → EReal) (o : Fin N) : EReal := max (Ideal.div (Q o) bsz - meanOf S o * meanOf S o) 0

/-- The variance as the reference computes it: the mean of the squared deviations from the mean. -/
def varR (x : Fin M → Fin N → EReal) (o : Fin N) : EReal :=
  Ideal.div (∑ r, (x r o - meanOf (colSum x) o) * (x r o - meanOf (colSum x) o)) bsz

/-- Batch normalisation applied. -/
def norm (γ β mean var : Fin N → EReal) (x : Fin M → Fin N → EReal) (r : Fin M) (o : Fin N) : EReal :=
  γ o * (x r o - mean o) * Ideal.rsqrt (var o + eps) + β o

/-- The largest entry of a column (the bottom element for an empty batch). -/
def colMax (y : Fin M → Fin N → EReal) (o : Fin N) : EReal := Finset.univ.sup fun r => y r o

/-- Softmax down each column. -/
def softmax0 (y : Fin M → Fin N → EReal) (r : Fin M) (o : Fin N) : EReal :=
  Ideal.div (Ideal.exp (y r o - colMax y o)) (∑ r', Ideal.exp (y r' o - colMax y o))

end Cert.Spec

end
-- ==== Proof.SpecNet.lean ====
/- The whole network as one function of its sixteen arguments, written twice: with the variance as the reference
   computes it (mean of squared deviations) and as the kernel computes it (mean of squares minus square of the mean,
   clamped at 0). Layer k binarises its input, multiplies by the binarised weights, and normalises with the batch
   statistics of the products; the last layer's normalised values go through a softmax down each column. -/
import proofs.«118595_j1726576853663_2_alg».proof.Proof.Spec

noncomputable section

namespace Cert.Spec

open Idealize.ShloMosaic

/-- The shift applied to the pixels before the first binarisation: one half. -/
def half : EReal := Ideal.ofBits .f32 0x3F000000#32

/-- The arguments, as curried arrays of extended reals. -/
structure Params where
  x : Fin 65536 → Fin 784 → EReal
  w0 : Fin 256 → Fin 784 → EReal
  w1 : Fin 256 → Fin 256 → EReal
  w2 : Fin 256 → Fin 256 → EReal
  w3 : Fin 256 → Fin 256 → EReal
  w4 : Fin 10 → Fin 256 → EReal
  g0 : Fin 256 → EReal
  g1 : Fin 256 → EReal
  g2 : Fin 256 → EReal
  g3 : Fin 256 → EReal
  g4 : Fin 10 → EReal
  b0 : Fin 256 → EReal
  b1 : Fin 256 → EReal
  b2 : Fin 256 → EReal
  b3 : Fin 256 → EReal
  b4 : Fin 10 → EReal

variable {M N K : ℕ}

/-- The binarised weights. -/
def wbin (w : Fin N → Fin K → EReal) (o : Fin N) (i : Fin K) : EReal := sgn (w o i)

/-- A layer's products from the previous layer's normalised values. -/
def rawNext (y : Fin M → Fin K → EReal) (w : Fin N → Fin K → EReal) : Fin M → Fin N → EReal :=
  raw (fun r i => sgn (y r i)) (wbin w)

/-- Normalisation with the reference's statistics, -/
def normR (γ β : Fin N → EReal) (x : Fin M → Fin N → EReal) : Fin M → Fin N → EReal :=
  norm γ β (meanOf (colSum x)) (varR x) x

/-- and with the kernel's. -/
def normK (γ β : Fin N → EReal) (x : Fin M → Fin N → EReal) : Fin M → Fin N → EReal :=
  norm γ β (meanOf (colSum x)) (varK (colSum x) (colSumSq x)) x

namespace Params

variable (P : Params)

def raw0 : Fin 65536 → Fin 256 → EReal := raw (fun r i => sgn (P.x r i - half)) (wbin P.w0)

def raw1R := rawNext (normR P.g0 P.b0 P.raw0) P.w1
def raw2R := rawNext (normR P.g1 P.b1 P.raw1R) P.w2
def raw3R := rawNext (normR P.g2 P.b2 P.raw2R) P.w3
def raw4R := rawNext (normR P.g3 P.b3 P.raw3R) P.w4
def y4R := normR P.g4 P.b4 P.raw4R
/-- The reference's result. -/
def outR : Fin 65536 → Fin 10 → EReal := softmax0 P.y4R

def raw1K := rawNext (normK P.g0 P.b0 P.raw0) P.w1
def raw2K := rawNext (normK P.g1 P.b1 P.raw1K) P.w2
def raw3K := rawNext (normK P.g2 P.b2 P.raw2K) P.w3
def raw4K := rawNext (normK P.g3 P.b3 P.raw3K) P.w4
def y4K := normK P.g4 P.b4 P.raw4K
/-- The kernel's result, once its two-core online softmax is known to be the softmax. -/
def outK : Fin 65536 → Fin 10 → EReal := softmax0 P.y4K

end Params

end Cert.Spec

end
-- ==== Proof.SpecArgs.lean ====
/- The network's arguments read off the sixteen argument arrays: entry (r, i) of a matrix at the index built from the
   two coordinates, entry o of a vector at the index built from the one. -/
import proofs.«118595_j1726576853663_2_alg».proof.Proof.SpecNet
import Idealize.ShloMosaic.Lib.ValueIdx

noncomputable section

namespace Cert.Spec

open Idealize.ShloMosaic Idealize.ShloMosaic.ValueIdx

/-- A matrix array as a curried function of its two coordinates, -/
def mat {n0 n1 : ℕ} (a : (⟨2, ![n0, n1]⟩ : Shape).Idx → EReal) (r : Fin n0) (i : Fin n1) : EReal := a (ix2 r i)
/-- and a vector array as a function of its coordinate. -/
def vec {n : ℕ} (a : (⟨1, ![n]⟩ : Shape).Idx → EReal) (o : Fin n) : EReal := a (ix1 o)

/-- The network's arguments from the sixteen argument arrays, in the programs' argument order. -/
def Params.ofArgs
    (a0 : (⟨2, ![65536, 784]⟩ : Shape).Idx → EReal) (a1 : (⟨2, ![256, 784]⟩ : Shape).Idx → EReal)
    (a2 a3 a4 : (⟨2, ![256, 256]⟩ : Shape).Idx → EReal) (a5 : (⟨2, ![10, 256]⟩ : Shape).Idx → EReal)
    (a6 a7 a8 a9 : (⟨1, ![256]⟩ : Shape).Idx → EReal) (a10 : (⟨1, ![10]⟩ : Shape).Idx → EReal)
    (a11 a12 a13 a14 : (⟨1, ![256]⟩ : Shape).Idx → EReal) (a15 : (⟨1, ![10]⟩ : Shape).Idx → EReal) : Params where
  x := mat a0
  w0 := mat a1
  w1 := mat a2
  w2 := mat a3
  w3 := mat a4
  w4 := mat a5
  g0 := vec a6
  g1 := vec a7
  g2 := vec a8
  g3 := vec a9
  g4 := vec a10
  b0 := vec a11
  b1 := vec a12
  b2 := vec a13
  b3 := vec a14
  b4 := vec a15

end Cert.Spec

end
-- ==== Proof.KI.Params.lean ====
/- The network's arguments read off the kernel's launch memory on core c. -/
import proofs.«118595_j1726576853663_2_alg».proof.KernelIdeal
import proofs.«118595_j1726576853663_2_alg».proof.Proof.SpecArgs

noncomputable section

namespace Cert.KernelIdeal.Hand

open Cert.KernelIdeal Idealize.ShloMosaic Idealize.SL.Sem

/-- The sixteen argument arrays of core c's launch memory as the network's parameters. -/
abbrev PK (m : (ℓ : Loc nD τ sig) → Buf (Elt Ideal) ℓ) (c : Dev nD) : Cert.Spec.Params :=
  Cert.Spec.Params.ofArgs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))

end Cert.KernelIdeal.Hand

end
-- ==== Proof.KI.R0.ValuePieces.lean ====
/- Region 0: what each control case of the body leaves in each buffer, as the body's arithmetic applied to what
   the case read — the raw products of the step's rows against the weights; the accumulators plus the step's
   column sums (from zero at a core's first step); at a core's last step the accumulators laid along eight rows. -/
import proofs.«118595_j1726576853663_2_alg».proof.Proof.KI.R0.Frame
import Idealize.ShloMosaic.Lib.Pipeline.Value

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A zero offset in both coordinates. -/
theorem hz2 : (![0, 0] : Fin 2 → Nat) = fun _ => 0 := funext fun a => by fin_cases a <;> rfl

/-! ## The raw output: the step's product, in every case -/
theorem out_A_2 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S2048x784 .f32) (x1 : Vec F S256x784 .bf16) :
    out0_A_2 c i arg2 harg2 arg3 harg3 arg4 harg4 arg5 harg5 arg6 harg6 arg7 harg7 arg8 harg8 hc0 hc1 x0 x1 = k0_pay5 x0 x1 := by
  unfold out0_A_2
  rw [View.read_writes_eq_canon _ _ _ (cover0_A_2 c i arg2 harg2 arg3 harg3 arg4 harg4 arg5 harg5 arg6 harg6 arg7 harg7 arg8 harg8 hc0 hc1 x0 x1)]
  unfold kernelRun0_A
  dsimp only
  rw [View.canon_unit_zero hz2]
  simp only [View.readAt_eq_ld, harg2.read_unread, harg3.read_unread, harg7.read_unread, harg8.read_unread, View.ld_unit_zero (S := S2048x784) hz2, View.ld_unit_zero (S := S256x784) hz2, View.ld_unit_zero (S := S1x256) hz2]

theorem out_B_2 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S2048x784 .f32) (x1 : Vec F S256x784 .bf16) (xs0 : Vec F S1x256 .f32) (xs1 : Vec F S1x256 .f32) :
    out0_B_2 c i arg2 harg2 arg3 harg3 arg4 harg4 arg5 harg5 arg6 harg6 arg7 harg7 arg8 harg8 hc0 hc1 x0 x1 xs0 xs1 = k0_pay5 x0 x1 := by
  unfold out0_B_2
  rw [View.read_writes_eq_canon _ _ _ (cover0_B_2 c i arg2 harg2 arg3 harg3 arg4 harg4 arg5 harg5 arg6 harg6 arg7 harg7 arg8 harg8 hc0 hc1 x0 x1 xs0 xs1)]
  unfold kernelRun0_B
  dsimp only
  rw [View.canon_unit_zero hz2]
  simp only [View.readAt_eq_ld, harg2.read_unread, harg3.read_unread, harg7.read_unread, harg8.read_unread, View.ld_unit_zero (S := S2048x784) hz2, View.ld_unit_zero (S := S256x784) hz2, View.ld_unit_zero (S := S1x256) hz2]

theorem out_C_2 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) :
    out0_C_2 c i arg2 harg2 arg3 harg3 arg4 harg4 arg5 harg5 arg6 harg6 arg7 harg7 arg8 harg8 hc0 hc1 x0 x1 xs0 xs1 = k0_pay5 x0 x1 := by
  unfold out0_C_2
  rw [View.read_writes_eq_canon _ _ _ (cover0_C_2 c i arg2 harg2 arg3 harg3 arg4 harg4 arg5 harg5 arg6 harg6 arg7 harg7 arg8 harg8 hc0 hc1 x0 x1 xs0 xs1)]
  unfold kernelRun0_C
  dsimp only
  rw [View.canon_unit_zero hz2]
  simp only [View.readAt_eq_ld, harg2.read_unread, harg3.read_unread, harg7.read_unread, harg8.read_unread, View.ld_unit_zero (S := S2048x784) hz2, View.ld_unit_zero (S := S256x784) hz2, View.ld_unit_zero (S := S1x256) hz2]

/-! ## The accumulators: from zero at a first step, from what the step before left otherwise -/
theorem sout_A_0 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S2048x784 .f32) (x1 : Vec F S256x784 .bf16) :
    sout0_A_0 c i arg2 harg2 arg3 harg3 arg4 harg4 arg5 harg5 arg6 harg6 arg7 harg7 arg8 harg8 hc0 hc1 x0 x1 = k0_pay6 x0 x1 (k0_pay3 (F := F)) := by
  unfold sout0_A_0
  rw [View.read_writes_eq_canon _ _ _ (scover0_A_0 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1x256) hz2, View.readCov_unit_zero (S := S1x256) _ hz2]
  simp only [View.readAt_eq_ld, harg2.read_unread, harg3.read_unread, harg7.read_unread, harg8.read_unread, View.ld_unit_zero (S := S2048x784) hz2, View.ld_unit_zero (S := S256x784) hz2, View.ld_unit_zero (S := S1x256) hz2]

theorem sout_A_1 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : cond0_0 i) (hc1 : ¬cond0_1 i)
    (x0 : Vec F S2048x784 .f32) (x1 : Vec F S256x784 .bf16) :
    sout0_A_1 c i arg2 harg2 arg3 harg3 arg4 harg4 arg5 harg5 arg6 harg6 arg7 harg7 arg8 harg8 hc0 hc1 x0 x1 = k0_pay7 x0 x1 (k0_pay4 (F := F)) := by
  unfold sout0_A_1
  rw [View.read_writes_eq_canon _ _ _ (scover0_A_1 c i arg2 harg2 arg3 harg3 arg4 harg4 arg5 harg5 arg6 harg6 arg7 harg7 arg8 harg8 hc0 hc1 x0 x1)]
  unfold kernelRun0_A
  dsimp only
  sl_unfold_words
  rw [View.canon_cons_unit_zero (S := S1x256) hz2, View.readCov_unit_zero (S := S1x256) _ hz2]
  simp only [View.readAt_eq_ld, harg2.read_unread, harg3.read_unread, harg7.read_unread, harg8.read_unread, View.ld_unit_zero (S := S2048x784) hz2, View.ld_unit_zero (S := S256x784) hz2, View.ld_unit_zero (S := S1x256) hz2]

theorem sout_B_0 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S2048x784 .f32) (x1 : Vec F S256x784 .bf16) (xs0 : Vec F S1x256 .f32) (xs1 : Vec F S1x256 .f32) :
    sout0_B_0 c i arg2 harg2 arg3 harg3 arg4 harg4 arg5 harg5 arg6 harg6 arg7 harg7 arg8 harg8 hc0 hc1 x0 x1 xs0 xs1 = k0_pay6 x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 xs0 xs1)]
  unfold kernelRun0_B
  dsimp only
  rw [View.canon_unit_zero hz2]
  simp only [View.readAt_eq_ld, harg2.read_unread, harg3.read_unread, harg7.read_unread, harg8.read_unread, View.ld_unit_zero (S := S2048x784) hz2, View.ld_unit_zero (S := S256x784) hz2, View.ld_unit_zero (S := S1x256) hz2]

theorem sout_B_1 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : ¬cond0_1 i)
    (x0 : Vec F S2048x784 .f32) (x1 : Vec F S256x784 .bf16) (xs0 : Vec F S1x256 .f32) (xs1 : Vec F S1x256 .f32) :
    sout0_B_1 c i arg2 harg2 arg3 harg3 arg4 harg4 arg5 harg5 arg6 harg6 arg7 harg7 arg8 harg8 hc0 hc1 x0 x1 xs0 xs1 = k0_pay7 x0 x1 xs1 := by
  unfold sout0_B_1
  rw [View.read_writes_eq_canon _ _ _ (scover0_B_1 c i arg2 harg2 arg3 harg3 arg4 harg4 arg5 harg5 arg6 harg6 arg7 harg7 arg8 harg8 hc0 hc1 x0 x1 xs0 xs1)]
  unfold kernelRun0_B
  dsimp only
  rw [View.canon_unit_zero hz2]
  simp only [View.readAt_eq_ld, harg2.read_unread, harg3.read_unread, harg7.read_unread, harg8.read_unread, View.ld_unit_zero (S := S2048x784) hz2, View.ld_unit_zero (S := S256x784) hz2, View.ld_unit_zero (S := S1x256) hz2]

theorem sout_C_0 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) :
    sout0_C_0 c i arg2 harg2 arg3 harg3 arg4 harg4 arg5 harg5 arg6 harg6 arg7 harg7 arg8 harg8 hc0 hc1 x0 x1 xs0 xs1 = k0_pay6 x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 xs0 xs1)]
  unfold kernelRun0_C
  dsimp only
  sl_unfold_words
  rw [View.canon_unit_zero hz2]
  simp only [View.readAt_eq_ld, harg2.read_unread, harg3.read_unread, harg7.read_unread, harg8.read_unread, View.ld_unit_zero (S := S2048x784) hz2, View.ld_unit_zero (S := S256x784) hz2, View.ld_unit_zero (S := S1x256) hz2]

theorem sout_C_1 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) :
    sout0_C_1 c i arg2 harg2 arg3 harg3 arg4 harg4 arg5 harg5 arg6 harg6 arg7 harg7 arg8 harg8 hc0 hc1 x0 x1 xs0 xs1 = k0_pay7 x0 x1 xs1 := by
  unfold sout0_C_1
  rw [View.read_writes_eq_canon _ _ _ (scover0_C_1 c i arg2 harg2 arg3 harg3 arg4 harg4 arg5 harg5 arg6 harg6 arg7 harg7 arg8 harg8 hc0 hc1 x0 x1 xs0 xs1)]
  unfold kernelRun0_C
  dsimp only
  sl_unfold_words
  rw [View.canon_unit_zero hz2]
  simp only [View.readAt_eq_ld, harg2.read_unread, harg3.read_unread, harg7.read_unread, harg8.read_unread, View.ld_unit_zero (S := S2048x784) hz2, View.ld_unit_zero (S := S256x784) hz2, View.ld_unit_zero (S := S1x256) hz2]

/-! ## The partial-sum windows at a last step: the updated accumulators laid along eight rows -/
theorem out_C_3 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) :
    out0_C_3 c i arg2 harg2 arg3 harg3 arg4 harg4 arg5 harg5 arg6 harg6 arg7 harg7 arg8 harg8 hc0 hc1 x0 x1 xs0 xs1 = k0_pay1 (k0_pay6 x0 x1 xs0) := by
  unfold out0_C_3
  rw [View.read_writes_eq_canon _ _ _ (cover0_C_3 c i arg2 harg2 arg3 harg3 arg4 harg4 arg5 harg5 arg6 harg6 arg7 harg7 arg8 harg8 hc0 hc1 x0 x1 xs0 xs1)]
  unfold kernelRun0_C
  dsimp only
  sl_unfold_words
  rw [View.canon_unit_zero hz2, View.readCov_unit_zero (S := S1x256) _ hz2]
  simp only [View.readAt_eq_ld, harg2.read_unread, harg3.read_unread, harg7.read_unread, harg8.read_unread, View.ld_unit_zero (S := S2048x784) hz2, View.ld_unit_zero (S := S256x784) hz2, View.ld_unit_zero (S := S1x256) hz2]

theorem out_C_4 (c : Dev nD) (i : grid0.Coords) (arg2 : Memref sig .tc .vmem S2048x784 .f32) (harg2 : arg2.IsWhole) (arg3 : Memref sig .tc .vmem S256x784 .bf16) (harg3 : arg3.IsWhole) (arg4 : Memref sig .tc .vmem S2048x256 .f32) (harg4 : arg4.IsWhole) (arg5 : Memref sig .tc .vmem S8x256 .f32) (harg5 : arg5.IsWhole) (arg6 : Memref sig .tc .vmem S8x256 .f32) (harg6 : arg6.IsWhole) (arg7 : Memref sig .tc .vmem S1x256 .f32) (harg7 : arg7.IsWhole) (arg8 : Memref sig .tc .vmem S1x256 .f32) (harg8 : arg8.IsWhole) (hc0 : ¬cond0_0 i) (hc1 : cond0_1 i)
    (x0 : Vec F S2048x784 .f32) (x1 : Vec F S256x784 .bf16) (xs0 : Vec F S1x256 .f32) (xs1 : Vec F S1x256 .f32) :
    out0_C_4 c i arg2 harg2 arg3 harg3 arg4 harg4 arg5 harg5 arg6 harg6 arg7 harg7 arg8 harg8 hc0 hc1 x0 x1 xs0 xs1 = k0_pay2 (k0_pay7 x0 x1 xs1) := by
  unfold out0_C_4
  rw [View.read_writes_eq_canon _ _ _ (cover0_C_4 c i arg2 harg2 arg3 harg3 arg4 harg4 arg5 harg5 arg6 harg6 arg7 harg7 arg8 harg8 hc0 hc1 x0 x1 xs0 xs1)]
  unfold kernelRun0_C
  dsimp only
  sl_unfold_words
  rw [View.canon_unit_zero hz2, View.readCov_unit_zero (S := S1x256) _ hz2]
  simp only [View.readAt_eq_ld, harg2.read_unread, harg3.read_unread, harg7.read_unread, harg8.read_unread, View.ld_unit_zero (S := S2048x784) hz2, View.ld_unit_zero (S := S256x784) hz2, View.ld_unit_zero (S := S1x256) hz2]

end Cert.KernelIdeal.Hand

end
-- ==== Proof.KI.GlueLib.lean ====
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

/-!
Layout operations and two-row reductions read at an index, for arrays of the shapes the two cores' partial
results take between the kernel's regions: a [16, n] array holds core c's row of results in row 8c
(rows 8c+1 … 8c+7 are padding), and the host combines rows 0 and 8.

* `coreRow_apply`: [16, n] cast to [2, 8, n], cut to [2, 1, n] at row 0 of each group, cast to [2, n],
  reads at (c, j) the array at (8c, j).
* `hostReduceAdd_two_apply`, `hostReduceMax_two_apply`: a host reduction of a [2, n] array over its first axis
  from an initial scalar, as the initial value joined with the two rows.
* `bcast_vec_row_apply`: a vector laid as the one row of a [1, n] array.
* the values of the float words 0xFF800000 (−∞), 0x47800000 (65536 = 2¹⁶), 0x3F800000 (1), 0xBF800000 (−1),
  and the host quotient by 65536.
-/

namespace Cert.KernelIdeal.Hand.Glue

open Idealize.ShloMosaic Idealize.ShloMosaic.ValueIdx

variable {α : Type}

/-! ## Layout -/

/-- A vector laid as the one row of a [1, n] array reads, at (u, j), the vector at j. -/
theorem bcast_vec_row_apply {n : ℕ} (h : (⟨1, ![n]⟩ : Shape).BroadcastsInDim ⟨2, ![1, n]⟩ ![1])
    (x : (⟨1, ![n]⟩ : Shape).Idx → α) (u : Fin 1) (j : Fin n) :
    broadcastInDim ⟨2, ![1, n]⟩ ![1] h x (ix2 u j) = x (ix1 j) := by
  refine broadcastInDim_apply ![1] h x (ix2 u j) (ix1 j) ?_
  intro a
  match a with
  | ⟨0, _⟩ =>
    show j.val = if n = 1 then 0 else j.val
    split_ifs with hn
    · have := j.isLt; omega
    · rfl

/-- A [16, n] array cast to [2, 8, n] reads, at (c, r, j), the array at (8c + r, j). -/
theorem cast_16n_28n_apply {n : ℕ} (x : (⟨2, ![16, n]⟩ : Shape).Idx → α)
    (h : (⟨2, ![16, n]⟩ : Shape).ShapeCasts ⟨3, ![2, 8, n]⟩) (c : Fin 2) (r : Fin 8) (j : Fin n) (k : Fin 16)
    (hk : k.val = 8 * c.val + r.val) :
    shapeCast ⟨3, ![2, 8, n]⟩ x h (ix3 c r j) = x (ix2 k j) :=
  shapeCast_apply x h _ _ (by
    rw [Shape.rowMajor_val_two, Shape.rowMajor_val_three]
    show k.val * n + j.val = (c.val * 8 + r.val) * n + j.val
    rw [hk, Nat.mul_comm 8])

/-- A [2, 1, n] array cast to [2, n] reads, at (c, j), the array at (c, 0, j). -/
theorem cast_21n_2n_apply {n : ℕ} (x : (⟨3, ![2, 1, n]⟩ : Shape).Idx → α)
    (h : (⟨3, ![2, 1, n]⟩ : Shape).ShapeCasts ⟨2, ![2, n]⟩) (c : Fin 2) (j : Fin n) :
    shapeCast ⟨2, ![2, n]⟩ x h (ix2 c j) = x (ix3 c (0 : Fin 1) j) :=
  shapeCast_apply x h _ _ (by
    rw [Shape.rowMajor_val_three, Shape.rowMajor_val_two]
    show (c.val * 1 + 0) * n + j.val = c.val * n + j.val
    rw [Nat.mul_one, Nat.add_zero])

/-- Row 0 of each core's group of eight rows: at (c, j) the [16, n] array at (8c, j). -/
theorem coreRow_apply {n : ℕ} (x : (⟨2, ![16, n]⟩ : Shape).Idx → α)
    (h1 : (⟨2, ![16, n]⟩ : Shape).ShapeCasts ⟨3, ![2, 8, n]⟩)
    (h2 : (⟨3, ![2, 8, n]⟩ : Shape).Slices ![0, 0, 0] ⟨3, ![2, 1, n]⟩)
    (h3 : (⟨3, ![2, 1, n]⟩ : Shape).ShapeCasts ⟨2, ![2, n]⟩) (c : Fin 2) (j : Fin n) (k : Fin 16) (hk : k.val = 8 * c.val) :
    shapeCast ⟨2, ![2, n]⟩ (extractStridedSlice ⟨3, ![2, 1, n]⟩ ![0, 0, 0] (shapeCast ⟨3, ![2, 8, n]⟩ x h1) h2) h3 (ix2 c j)
      = x (ix2 k j) :=
  (cast_21n_2n_apply _ h3 c j).trans
    ((slice3_axis1_apply 0 _ h2 c (0 : Fin 1) j (0 : Fin 8) rfl).trans
      (cast_16n_28n_apply x h1 c (0 : Fin 8) j k (by rw [hk]; rfl)))

/-! ## Two rows reduced by the host -/

/-- The reduced index j with row k put back is (k, j). -/
theorem lift_row {m n : ℕ} (h : (⟨2, ![m, n]⟩ : Shape).Reduces [0] (⟨1, ![n]⟩ : Shape)) (j : Fin n)
    (k : Fin ((⟨2, ![m, n]⟩ : Shape).size 0)) : h.lift (ix1 j) k = ix2 (⟨k.val, k.isLt⟩ : Fin m) j := by
  funext c; apply Fin.ext
  fin_cases c <;> rfl

/-- A fold over Fin 2. -/
theorem fold_univ_fin2 (f : α → α → α) [Std.Commutative f] [Std.Associative f] (b : α) (g : Fin 2 → α) :
    (Finset.univ : Finset (Fin 2)).fold f b g = f (g 0) (f (g 1) b) := by
  simp only [Fin.univ_succ, Finset.fold_cons, Finset.fold_map, Finset.univ_unique, Finset.fold_singleton]
  rfl

/-- The host's sum of a [2, n] array over its rows from an initial scalar: the scalar plus the two rows. -/
theorem hostReduceAdd_two_apply {n : ℕ} (x : FVec Ideal ⟨2, ![2, n]⟩ .f32) (init : (⟨0, ![]⟩ : Shape).Idx → Ideal .f32)
    (h' : (⟨2, ![2, n]⟩ : Shape).ReducesTo [0] (⟨1, ![n]⟩ : Shape)) (h : (⟨2, ![2, n]⟩ : Shape).Reduces [0] (⟨1, ![n]⟩ : Shape))
    (hu : 0 < (⟨0, ![]⟩ : Shape).numel) (j : Fin n) :
    Host.reduceAdd x init h' hu (ix1 j) = init ix0 + (x (ix2 (0 : Fin 2) j) + x (ix2 (1 : Fin 2) j)) := by
  rw [hostReduceAdd_apply, Ideal.hostReduceAdd_single h' h]
  have e0 : init (Shape.Idx.first hu) = init ix0 := congrArg init (funext fun a => a.elim0)
  rw [e0]
  refine congrArg (init ix0 + ·) ?_
  show ∑ k : Fin 2, x (h.lift (ix1 j) k) = _
  rw [Fin.sum_univ_two]
  exact congrArg₂ (· + ·) (congrArg x (lift_row h j (0 : Fin 2))) (congrArg x (lift_row h j (1 : Fin 2)))

/-- The host's maximum of a [2, n] array over its rows from an initial scalar. -/
theorem hostReduceMax_two_apply {n : ℕ} (x : FVec Ideal ⟨2, ![2, n]⟩ .f32) (init : (⟨0, ![]⟩ : Shape).Idx → Ideal .f32)
    (h' : (⟨2, ![2, n]⟩ : Shape).ReducesTo [0] (⟨1, ![n]⟩ : Shape)) (h : (⟨2, ![2, n]⟩ : Shape).Reduces [0] (⟨1, ![n]⟩ : Shape))
    (hu : 0 < (⟨0, ![]⟩ : Shape).numel) (j : Fin n) :
    Host.reduce FloatOps.maximumf x init h' hu (ix1 j)
      = max (x (ix2 (0 : Fin 2) j)) (max (x (ix2 (1 : Fin 2) j)) (init ix0)) := by
  rw [Host.reduce_eq_fold_single FloatOps.maximumf x init h' h hu]
  have e0 : init (Shape.Idx.first hu) = init ix0 := congrArg init (funext fun a => a.elim0)
  rw [e0]
  show (Finset.univ : Finset (Fin 2)).fold FloatOps.maximumf (init ix0) (fun k : Fin 2 => x (h.lift (ix1 j) k)) = _
  refine (fold_univ_fin2 FloatOps.maximumf (init ix0) (fun k : Fin 2 => x (h.lift (ix1 j) k))).trans ?_
  exact congrArg₂ max (congrArg x (lift_row h j (0 : Fin 2))) (congrArg₂ max (congrArg x (lift_row h j (1 : Fin 2))) rfl)

/-! ## Float words -/

/-- The word 0xFF800000 is −∞. -/
theorem ofBits_neg_inf_f32 : Ideal.ofBits .f32 0xFF800000#32 = (⊥ : EReal) := by
  simp [Ideal.ofBits, Ideal.ieee]

/-- The word 0x47800000 is 65536 = 2¹⁶. -/
theorem ofBits_65536_f32 : Ideal.ofBits .f32 0x47800000#32 = ((65536 : ℝ) : EReal) := by
  simp [Ideal.ofBits, Ideal.ieee, -EReal.coe_mul]; norm_num

/-- The word 0x3F800000 is one. -/
theorem ofBits_one_f32 : Ideal.ofBits .f32 0x3F800000#32 = (1 : EReal) := by
  rw [show (1 : EReal) = ((1 : ℝ) : EReal) by norm_cast]
  simp [Ideal.ofBits, Ideal.ieee, -EReal.coe_mul]; norm_num

/-- The word 0xBF800000 is minus one. -/
theorem ofBits_neg_one_f32 : Ideal.ofBits .f32 0xBF800000#32 = (-1 : EReal) := by
  rw [show (-1 : EReal) = ((-1 : ℝ) : EReal) by rw [EReal.coe_neg, EReal.coe_one]]
  simp [Ideal.ofBits, Ideal.ieee, -EReal.coe_mul, -EReal.coe_neg]; norm_num

/-- The host's quotient by 65536 is the extended reals' quotient. -/
theorem div_65536 (x : EReal) : Ideal.div x ((65536 : ℝ) : EReal) = x / ((65536 : ℝ) : EReal) := by
  unfold Ideal.div
  rw [if_neg (by norm_num), div_eq_mul_inv]

/-! ## The two cores' partial results combined: the pure terms, and their entries

The shape facts are arguments: any proofs of them give the same functions. -/

section Combine

variable {n : ℕ}
  (h1 : (⟨2, ![16, n]⟩ : Shape).ShapeCasts ⟨3, ![2, 8, n]⟩)
  (h2 : (⟨3, ![2, 8, n]⟩ : Shape).Slices ![0, 0, 0] ⟨3, ![2, 1, n]⟩)
  (h3 : (⟨3, ![2, 1, n]⟩ : Shape).ShapeCasts ⟨2, ![2, n]⟩)
  (hr' : (⟨2, ![2, n]⟩ : Shape).ReducesTo [0] (⟨1, ![n]⟩ : Shape))
  (hu : 0 < (⟨0, ![]⟩ : Shape).numel)
  (hb1 : (⟨1, ![n]⟩ : Shape).BroadcastsInDim ⟨2, ![1, n]⟩ ![1])
  (hb0 : (⟨0, ![]⟩ : Shape).BroadcastsInDim ⟨2, ![1, n]⟩ ![])
  (hb2 : (⟨2, ![1, n]⟩ : Shape).BroadcastsInDim ⟨2, ![2, n]⟩ ![0, 1])

/-- Rows 0 and 8 of a [16, n] array, as a [2, n] array. -/
def coreRows (X : (⟨2, ![16, n]⟩ : Shape).Idx → α) : (⟨2, ![2, n]⟩ : Shape).Idx → α :=
  shapeCast ⟨2, ![2, n]⟩ (extractStridedSlice ⟨3, ![2, 1, n]⟩ ![0, 0, 0] (shapeCast ⟨3, ![2, 8, n]⟩ X h1) h2) h3

theorem coreRows_apply (X : (⟨2, ![16, n]⟩ : Shape).Idx → α) (c : Fin 2) (j : Fin n) (k : Fin 16) (hk : k.val = 8 * c.val) :
    coreRows h1 h2 h3 X (ix2 c j) = X (ix2 k j) := coreRow_apply X h1 h2 h3 c j k hk

/-- The two cores' rows added from zero, laid as a [1, n] row. -/
noncomputable def coreSum (X : FVec Ideal ⟨2, ![16, n]⟩ .f32) : FVec Ideal ⟨2, ![1, n]⟩ .f32 :=
  broadcastInDim ⟨2, ![1, n]⟩ ![1] hb1
    (Host.reduceAdd (coreRows h1 h2 h3 X) (constant (F := Ideal) ⟨0, ![]⟩ .f32 0x00000000#32) hr' hu)

theorem coreSum_apply (hr : (⟨2, ![2, n]⟩ : Shape).Reduces [0] (⟨1, ![n]⟩ : Shape)) (X : FVec Ideal ⟨2, ![16, n]⟩ .f32) (u : Fin 1) (j : Fin n) :
    coreSum h1 h2 h3 hr' hu hb1 X (ix2 u j) = X (ix2 (0 : Fin 16) j) + X (ix2 (8 : Fin 16) j) := by
  unfold coreSum
  rw [bcast_vec_row_apply, hostReduceAdd_two_apply _ _ hr' hr hu j,
    coreRows_apply h1 h2 h3 X (0 : Fin 2) j (0 : Fin 16) rfl, coreRows_apply h1 h2 h3 X (1 : Fin 2) j (8 : Fin 16) rfl]
  show Ideal.ofBits .f32 0x00000000#32 + _ = _
  rw [Ideal.ofBits_zero_f32, zero_add]

/-- The batch mean: the combined sum over 65536. -/
noncomputable def coreMean (X : FVec Ideal ⟨2, ![16, n]⟩ .f32) : FVec Ideal ⟨2, ![1, n]⟩ .f32 :=
  Host.divf (coreSum h1 h2 h3 hr' hu hb1 X)
    (broadcastInDim ⟨2, ![1, n]⟩ ![] hb0 (constant (F := Ideal) ⟨0, ![]⟩ .f32 0x47800000#32))

theorem coreMean_apply (hr : (⟨2, ![2, n]⟩ : Shape).Reduces [0] (⟨1, ![n]⟩ : Shape)) (X : FVec Ideal ⟨2, ![16, n]⟩ .f32) (u : Fin 1) (j : Fin n) :
    coreMean h1 h2 h3 hr' hu hb1 hb0 X (ix2 u j)
      = Ideal.div (X (ix2 (0 : Fin 16) j) + X (ix2 (8 : Fin 16) j)) ((65536 : ℝ) : EReal) := by
  unfold coreMean
  show Ideal.div (coreSum h1 h2 h3 hr' hu hb1 X (ix2 u j)) (broadcastInDim (s := ⟨0, ![]⟩) ⟨2, ![1, n]⟩ ![] hb0 _ (ix2 u j)) = _
  rw [coreSum_apply h1 h2 h3 hr' hu hb1 hr, broadcastInDim_scalar_apply]
  show Ideal.div _ (Ideal.ofBits .f32 0x47800000#32) = _
  rw [ofBits_65536_f32]

/-- The batch variance as the kernel's host code forms it: mean of squares minus square of the mean, not below zero. -/
noncomputable def coreVar (X Y : FVec Ideal ⟨2, ![16, n]⟩ .f32) : FVec Ideal ⟨2, ![1, n]⟩ .f32 :=
  maximumf (subf (coreMean h1 h2 h3 hr' hu hb1 hb0 Y) (mulf (coreMean h1 h2 h3 hr' hu hb1 hb0 X) (coreMean h1 h2 h3 hr' hu hb1 hb0 X)))
    (broadcastInDim ⟨2, ![1, n]⟩ ![] hb0 (constant (F := Ideal) ⟨0, ![]⟩ .f32 0x00000000#32))

theorem coreVar_apply (hr : (⟨2, ![2, n]⟩ : Shape).Reduces [0] (⟨1, ![n]⟩ : Shape)) (X Y : FVec Ideal ⟨2, ![16, n]⟩ .f32) (u : Fin 1) (j : Fin n) :
    coreVar h1 h2 h3 hr' hu hb1 hb0 X Y (ix2 u j)
      = max (Ideal.div (Y (ix2 (0 : Fin 16) j) + Y (ix2 (8 : Fin 16) j)) ((65536 : ℝ) : EReal)
              - Ideal.div (X (ix2 (0 : Fin 16) j) + X (ix2 (8 : Fin 16) j)) ((65536 : ℝ) : EReal)
                * Ideal.div (X (ix2 (0 : Fin 16) j) + X (ix2 (8 : Fin 16) j)) ((65536 : ℝ) : EReal)) 0 := by
  unfold coreVar
  show max (coreMean h1 h2 h3 hr' hu hb1 hb0 Y (ix2 u j)
        - coreMean h1 h2 h3 hr' hu hb1 hb0 X (ix2 u j) * coreMean h1 h2 h3 hr' hu hb1 hb0 X (ix2 u j))
      (broadcastInDim (s := ⟨0, ![]⟩) ⟨2, ![1, n]⟩ ![] hb0 _ (ix2 u j)) = _
  rw [coreMean_apply h1 h2 h3 hr' hu hb1 hb0 hr, coreMean_apply h1 h2 h3 hr' hu hb1 hb0 hr, broadcastInDim_scalar_apply]
  show max _ (Ideal.ofBits .f32 0x00000000#32) = _
  rw [Ideal.ofBits_zero_f32]

/-- The host's exponential at an entry. -/
theorem hostExp_apply {s : Shape} (y : FVec Ideal s .f32) (i : s.Idx) : Host.exp y i = Ideal.exp (y i) := rfl

/-- A [1, n] row copied down two rows reads, at (c, j), the row at (0, j). -/
theorem bcast_row_two_apply (y : (⟨2, ![1, n]⟩ : Shape).Idx → α) (c : Fin 2) (j : Fin n) :
    broadcastInDim ⟨2, ![2, n]⟩ ![0, 1] hb2 y (ix2 c j) = y (ix2 (0 : Fin 1) j) := by
  refine broadcastInDim_apply ![0, 1] hb2 y (ix2 c j) (ix2 (0 : Fin 1) j) ?_
  intro a
  match a with
  | ⟨0, _⟩ => show (0 : ℕ) = if (1 : ℕ) = 1 then 0 else _; rw [if_pos rfl]
  | ⟨1, _⟩ =>
    show j.val = if n = 1 then 0 else j.val
    split_ifs with hn
    · have := j.isLt; omega
    · rfl

/-- The larger of the two cores' maxima, from −∞, laid as a [1, n] row. -/
noncomputable def coreMax (M : FVec Ideal ⟨2, ![16, n]⟩ .f32) : FVec Ideal ⟨2, ![1, n]⟩ .f32 :=
  broadcastInDim ⟨2, ![1, n]⟩ ![1] hb1
    (Host.reduce FloatOps.maximumf (coreRows h1 h2 h3 M) (constant (F := Ideal) ⟨0, ![]⟩ .f32 0xFF800000#32) hr' hu)

theorem coreMax_apply (hr : (⟨2, ![2, n]⟩ : Shape).Reduces [0] (⟨1, ![n]⟩ : Shape)) (M : FVec Ideal ⟨2, ![16, n]⟩ .f32) (u : Fin 1) (j : Fin n) :
    coreMax h1 h2 h3 hr' hu hb1 M (ix2 u j) = max (M (ix2 (0 : Fin 16) j)) (M (ix2 (8 : Fin 16) j)) := by
  unfold coreMax
  rw [bcast_vec_row_apply, hostReduceMax_two_apply _ _ hr' hr hu j,
    coreRows_apply h1 h2 h3 M (0 : Fin 2) j (0 : Fin 16) rfl, coreRows_apply h1 h2 h3 M (1 : Fin 2) j (8 : Fin 16) rfl]
  show max _ (max _ (Ideal.ofBits .f32 0xFF800000#32)) = _
  rw [ofBits_neg_inf_f32, max_bot_right]

/-- Each core's sum of exponentials rescaled to the common maximum, the two added from zero, laid as a [1, n] row. -/
noncomputable def coreExpSum (M S : FVec Ideal ⟨2, ![16, n]⟩ .f32) : FVec Ideal ⟨2, ![1, n]⟩ .f32 :=
  broadcastInDim ⟨2, ![1, n]⟩ ![1] hb1
    (Host.reduceAdd
      (mulf (coreRows h1 h2 h3 S)
        (Host.exp (subf (coreRows h1 h2 h3 M) (broadcastInDim ⟨2, ![2, n]⟩ ![0, 1] hb2 (coreMax h1 h2 h3 hr' hu hb1 M)))))
      (constant (F := Ideal) ⟨0, ![]⟩ .f32 0x00000000#32) hr' hu)

theorem coreExpSum_apply (hr : (⟨2, ![2, n]⟩ : Shape).Reduces [0] (⟨1, ![n]⟩ : Shape)) (M S : FVec Ideal ⟨2, ![16, n]⟩ .f32) (u : Fin 1) (j : Fin n) :
    coreExpSum h1 h2 h3 hr' hu hb1 hb2 M S (ix2 u j)
      = S (ix2 (0 : Fin 16) j) * Ideal.exp (M (ix2 (0 : Fin 16) j) - max (M (ix2 (0 : Fin 16) j)) (M (ix2 (8 : Fin 16) j)))
        + S (ix2 (8 : Fin 16) j) * Ideal.exp (M (ix2 (8 : Fin 16) j) - max (M (ix2 (0 : Fin 16) j)) (M (ix2 (8 : Fin 16) j))) := by
  unfold coreExpSum
  rw [bcast_vec_row_apply, hostReduceAdd_two_apply _ _ hr' hr hu j]
  have hterm : ∀ c : Fin 2,
      mulf (coreRows h1 h2 h3 S)
          (Host.exp (subf (coreRows h1 h2 h3 M) (broadcastInDim ⟨2, ![2, n]⟩ ![0, 1] hb2 (coreMax h1 h2 h3 hr' hu hb1 M)))) (ix2 c j)
        = coreRows h1 h2 h3 S (ix2 c j)
          * Ideal.exp (coreRows h1 h2 h3 M (ix2 c j) - coreMax h1 h2 h3 hr' hu hb1 M (ix2 (0 : Fin 1) j)) := by
    intro c
    rw [mulf_apply, hostExp_apply, subf_apply, bcast_row_two_apply hb2]
  rw [hterm, hterm, coreMax_apply h1 h2 h3 hr' hu hb1 hr,
    coreRows_apply h1 h2 h3 S (0 : Fin 2) j (0 : Fin 16) rfl, coreRows_apply h1 h2 h3 S (1 : Fin 2) j (8 : Fin 16) rfl,
    coreRows_apply h1 h2 h3 M (0 : Fin 2) j (0 : Fin 16) rfl, coreRows_apply h1 h2 h3 M (1 : Fin 2) j (8 : Fin 16) rfl]
  show Ideal.ofBits .f32 0x00000000#32 + _ = _
  rw [Ideal.ofBits_zero_f32, zero_add]

end Combine

/-! ## Binarisation: +1 where an entry is at least 0, else −1 -/

section Binarize

variable {t : Shape}

/-- A select on the comparison with zero is an if on the order. -/
theorem select_cmp_oge_zero (x a b : EReal) : Scalar.select (Ideal.cmp .oge x 0) a b = if 0 ≤ x then a else b := by
  unfold Scalar.select Ideal.cmp
  by_cases h : (0 : EReal) ≤ x
  · simp [h]
  · simp [h]

/-- The binarised array as the operations' term: the comparison with a zero array selects between a +1 array and a −1 array. -/
noncomputable def binarized (hb : (⟨0, ![]⟩ : Shape).BroadcastsInDim t ![]) (w : FVec Ideal t .f32) : FVec Ideal t .f32 :=
  select (cmpf .oge w (broadcastInDim (s := ⟨0, ![]⟩) t ![] hb (constant (F := Ideal) ⟨0, ![]⟩ .f32 0x00000000#32)))
    (broadcastInDim (s := ⟨0, ![]⟩) t ![] hb (constant (F := Ideal) ⟨0, ![]⟩ .f32 0x3F800000#32))
    (broadcastInDim (s := ⟨0, ![]⟩) t ![] hb (constant (F := Ideal) ⟨0, ![]⟩ .f32 0xBF800000#32))

/-- Its entries: 1 where the weight is at least 0, else −1. -/
theorem binarized_apply (hb : (⟨0, ![]⟩ : Shape).BroadcastsInDim t ![]) (w : FVec Ideal t .f32) (i : t.Idx) :
    binarized hb w i = if 0 ≤ w i then 1 else -1 := by
  unfold binarized
  rw [select_apply, cmpf_apply, broadcastInDim_scalar_apply, broadcastInDim_scalar_apply, broadcastInDim_scalar_apply,
    constant_apply, constant_apply, constant_apply, Ideal.cmpf_def, Ideal.ofBits_zero_f32, ofBits_one_f32, ofBits_neg_one_f32,
    select_cmp_oge_zero]

end Binarize

end Cert.KernelIdeal.Hand.Glue
-- ==== Proof.KI.R0.ValuePay.lean ====
/- Region 0, the body's arithmetic read entry by entry over the extended reals: a raw product entry is the sum over
   the 784 input features of the binarised shifted input times the weight; the accumulators gain the step's 2048
   rows' column sums (of the raw products, and of their squares); the stored partial sums lay an accumulator along
   eight rows. -/
import proofs.«118595_j1726576853663_2_alg».proof.Proof.Gen.KernelIdeal.Skeleton
import proofs.«118595_j1726576853663_2_alg».proof.Proof.KI.GlueLib
import proofs.«118595_j1726576853663_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-- The shift one half, as the kernel writes it. -/
abbrev half : EReal := Ideal.ofBits .f32 0x3F000000#32

/-- Selecting +1 where an entry is at least zero and −1 elsewhere is the sign function of the specification. -/
theorem sgn_select (v : EReal) :
    Scalar.select (Ideal.cmp .oge v (Ideal.ofBits .f32 0x00000000#32)) (Ideal.ofBits .f32 0x3F800000#32) (Ideal.ofBits .f32 0xBF800000#32)
      = Spec.sgn v := by
  rw [Ideal.ofBits_zero_f32, Glue.ofBits_one_f32, Glue.ofBits_neg_one_f32]
  unfold Scalar.select Ideal.cmp Spec.sgn
  by_cases h : (0 : EReal) ≤ v
  · simp [h]
  · simp [h]

/-- The operand indices of the product at output entry (r, o) and feature i: row r of the activations at i, row o of
    the weights at i. -/
theorem lhsIdx0 (r : Fin 2048) (o : Fin 256) (i : Fin 784) :
    dot_S2048x784_S256x784_S2048x256_1_1_0_0_n_n.lhsIdx (ix2 r o) ((contrEquiv1 dot_S2048x784_S256x784_S2048x256_1_1_0_0_n_n 784 rfl rfl).symm i) = ix2 r i :=
  funext fun a => Fin.ext (by match a with | ⟨0, _⟩ => rfl | ⟨1, _⟩ => rfl)
theorem rhsIdx0 (r : Fin 2048) (o : Fin 256) (i : Fin 784) :
    dot_S2048x784_S256x784_S2048x256_1_1_0_0_n_n.rhsIdx (ix2 r o) ((contrEquiv1 dot_S2048x784_S256x784_S2048x256_1_1_0_0_n_n 784 rfl rfl).symm i) = ix2 o i :=
  funext fun a => Fin.ext (by match a with | ⟨0, _⟩ => rfl | ⟨1, _⟩ => rfl)

/-- A raw product entry: the sum over the features of the binarised shifted input times the weight. -/
theorem pay5_apply (x0 : Vec Ideal S2048x784 .f32) (x1 : Vec Ideal S256x784 .bf16) (r : Fin 2048) (o : Fin 256) :
    k0_pay5 (F := Ideal) x0 x1 (ix2 r o) = ∑ i : Fin 784, Spec.sgn (x0 (ix2 r i) - half) * x1 (ix2 o i) := by
  unfold k0_pay5
  refine (Ideal.matmul_constant_zero_apply dot_S2048x784_S256x784_S2048x256_1_1_0_0_n_n none _ _ (ix2 r o)).trans ?_
  refine (Equiv.sum_comp (contrEquiv1 dot_S2048x784_S256x784_S2048x256_1_1_0_0_n_n 784 rfl rfl).symm _).symm.trans ?_
  refine Finset.sum_congr rfl fun i _ => ?_
  beta_reduce
  rw [lhsIdx0 r o i, rhsIdx0 r o i]
  refine congrArg₂ (· * ·) ?_ ?_
  · exact sgn_select _
  · exact congrFun (shapeCast_self x1 _) _

/-- The column-sum accumulator after a step: what it held plus the step's 2048 raw products in that column. -/
theorem pay6_apply (x0 : Vec Ideal S2048x784 .f32) (x1 : Vec Ideal S256x784 .bf16) (acc : Vec Ideal S1x256 .f32)
    (u : Fin 1) (o : Fin 256) :
    k0_pay6 (F := Ideal) x0 x1 acc (ix2 u o) = acc (ix2 u o) + ∑ r : Fin 2048, k0_pay5 (F := Ideal) x0 x1 (ix2 r o) := by
  unfold k0_pay6
  refine (congrFun (shapeCast_self _ shapeCasts_S1x256_S1x256) (ix2 u o)).trans ?_
  refine congrArg (acc (ix2 u o) + ·) ?_
  refine (shapeCast_apply _ shapeCasts_S256_S1x256 (ix2 u o) (ix1 o) ?_).trans ?_
  · rw [Shape.rowMajor_val_one, Shape.rowMajor_val_two]
    show o.val = u.val * 256 + o.val
    have := u.isLt; omega
  refine (Ideal.multiReduction_add_single (k0_pay5 (F := Ideal) x0 x1) _ reduces_S2048x256_S256 _ _ (ix1 o)).trans ?_
  exact Finset.sum_congr rfl fun r _ => congrArg (k0_pay5 (F := Ideal) x0 x1) (Glue.lift_row reduces_S2048x256_S256 o r)

/-- The sum-of-squares accumulator after a step: what it held plus the squares of the step's raw products. -/
theorem pay7_apply (x0 : Vec Ideal S2048x784 .f32) (x1 : Vec Ideal S256x784 .bf16) (acc : Vec Ideal S1x256 .f32)
    (u : Fin 1) (o : Fin 256) :
    k0_pay7 (F := Ideal) x0 x1 acc (ix2 u o)
      = acc (ix2 u o) + ∑ r : Fin 2048, k0_pay5 (F := Ideal) x0 x1 (ix2 r o) * k0_pay5 (F := Ideal) x0 x1 (ix2 r o) := by
  unfold k0_pay7
  refine (congrFun (shapeCast_self _ shapeCasts_S1x256_S1x256) (ix2 u o)).trans ?_
  refine congrArg (acc (ix2 u o) + ·) ?_
  refine (shapeCast_apply _ shapeCasts_S256_S1x256 (ix2 u o) (ix1 o) ?_).trans ?_
  · rw [Shape.rowMajor_val_one, Shape.rowMajor_val_two]
    show o.val = u.val * 256 + o.val
    have := u.isLt; omega
  refine (Ideal.multiReduction_add_single (mulf (k0_pay5 (F := Ideal) x0 x1) (k0_pay5 (F := Ideal) x0 x1)) _ reduces_S2048x256_S256 _ _ (ix1 o)).trans ?_
  exact Finset.sum_congr rfl fun r _ =>
    congrArg (fun j => k0_pay5 (F := Ideal) x0 x1 j * k0_pay5 (F := Ideal) x0 x1 j) (Glue.lift_row reduces_S2048x256_S256 o r)

/-- The zeroed accumulators. -/
theorem pay3_apply (j : S1x256.Idx) : k0_pay3 (F := Ideal) j = 0 := by
  unfold k0_pay3
  refine (congrFun (shapeCast_self _ shapeCasts_S1x256_S1x256) j).trans ?_
  exact Ideal.ofBits_zero_f32
theorem pay4_apply (j : S1x256.Idx) : k0_pay4 (F := Ideal) j = 0 := by
  unfold k0_pay4
  refine (congrFun (shapeCast_self _ shapeCasts_S1x256_S1x256) j).trans ?_
  exact Ideal.ofBits_zero_f32

/-- An accumulator laid along eight rows reads, in every row, the accumulator's entry of the column. -/
theorem pay1_apply (v : Vec Ideal S1x256 .f32) (p : Fin 8) (o : Fin 256) :
    k0_pay1 (F := Ideal) v (ix2 p o) = v (ix2 (0 : Fin 1) o) := by
  unfold k0_pay1
  refine (broadcastTo_apply _ broadcasts_S1x256_S8x256 (ix2 p o) (ix2 (0 : Fin 1) o) ?_).trans ?_
  · intro a
    match a with
    | ⟨0, _⟩ => rfl
    | ⟨1, _⟩ => rfl
  exact congrFun (shapeCast_self v _) _
theorem pay2_apply (v : Vec Ideal S1x256 .f32) (p : Fin 8) (o : Fin 256) :
    k0_pay2 (F := Ideal) v (ix2 p o) = v (ix2 (0 : Fin 1) o) := by
  unfold k0_pay2
  refine (broadcastTo_apply _ broadcasts_S1x256_S8x256 (ix2 p o) (ix2 (0 : Fin 1) o) ?_).trans ?_
  · intro a
    match a with
    | ⟨0, _⟩ => rfl
    | ⟨1, _⟩ => rfl
  exact congrFun (shapeCast_self v _) _

end Cert.KernelIdeal.Hand

end
-- ==== Proof.KI.R0.ValueBlk.lean ====
/- Region 0 over the extended reals, the raw output: at grid point t the body reads rows 2048 t … 2048 t + 2047 of the
   input and the whole weight matrix, and writes back those rows of the raw products; the 32 points cover all 65536 rows. -/
import proofs.«118595_j1726576853663_2_alg».proof.Proof.KI.R0.ValuePieces
import proofs.«118595_j1726576853663_2_alg».proof.Proof.KI.R0.ValuePay

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the TensorCore's buffer contents when the region is entered, over the extended reals
variable (V : (c : Dev nD) → (b : Ref sig .tc) → Buf (Elt Ideal) ((c : Thread nD τ).loc b))

/-- The input rows and the weights as the region finds them. -/
abbrev A0_0 (c : Dev nD) : S65536x784.Idx → EReal := V c (Pipeline.arrRef spec0 0)
abbrev A0_1 (c : Dev nD) : S256x784.Idx → EReal := V c (Pipeline.arrRef spec0 1)

/-- The first layer's raw products: binarised shifted inputs against the weights. -/
def RAW0 (c : Dev nD) : Fin 65536 → Fin 256 → EReal :=
  Spec.raw (fun r i => Spec.sgn (A0_0 V c (ix2 r i) - half)) (fun o i => A0_1 V c (ix2 o i))

/-! ## The printed index maps, decided over the grid -/

theorem idx0_0 : ∀ t : Fin cfg0.N, win0_0.index t (0 : Fin 2) = t.val ∧ win0_0.index t (1 : Fin 2) = 0 :=
  (by decide +kernel : ∀ t : Fin grid0.N, _)
theorem idx0_1 : ∀ t : Fin cfg0.N, win0_1.index t (0 : Fin 2) = 0 ∧ win0_1.index t (1 : Fin 2) = 0 :=
  (by decide +kernel : ∀ t : Fin grid0.N, _)
theorem idx0_2 : ∀ t : Fin cfg0.N, win0_2.index t (0 : Fin 2) = t.val ∧ win0_2.index t (1 : Fin 2) = 0 :=
  (by decide +kernel : ∀ t : Fin grid0.N, _)
theorem idx0_3 : ∀ t : Fin cfg0.N, win0_3.index t (0 : Fin 2) = t.val / 16 ∧ win0_3.index t (1 : Fin 2) = 0 :=
  (by decide +kernel : ∀ t : Fin grid0.N, _)
theorem idx0_4 : ∀ t : Fin cfg0.N, win0_4.index t (0 : Fin 2) = t.val / 16 ∧ win0_4.index t (1 : Fin 2) = 0 :=
  (by decide +kernel : ∀ t : Fin grid0.N, _)

theorem lt_N0 (t : Fin cfg0.N) : t.val < 32 := lt_of_lt_of_eq t.isLt (show cfg0.N = 32 from N_0)

/-! ## The input blocks -/

/-- Row r of the input block at point t is row 2048 t + r of the input. -/
theorem iblk0_0_apply (c : Dev nD) (t : Fin cfg0.N) (r : Fin 2048) (i : Fin 784) (hr : 2048 * t.val + r.val < 65536) :
    (iblk0 V c 0 t : Vec Ideal S2048x784 .f32) (ix2 r i) = A0_0 V c (ix2 ⟨2048 * t.val + r.val, hr⟩ i) := by
  show V c (Pipeline.arrRef spec0 0) (((cfg0.win 0).blk t).view.emb (ix2 r i)) = V c (Pipeline.arrRef spec0 0) _
  refine congrArg (V c (Pipeline.arrRef spec0 0)) ?_
  funext a; apply Fin.ext
  match a with
  | ⟨0, _⟩ => show win0_0.index t (0 : Fin 2) * 2048 + 1 * r.val = 2048 * t.val + r.val; rw [(idx0_0 t).1]; omega
  | ⟨1, _⟩ => show win0_0.index t (1 : Fin 2) * 784 + 1 * i.val = i.val; rw [(idx0_0 t).2]; omega

/-- The weights' block is the whole weight matrix, at every point. -/
theorem iblk0_1_apply (c : Dev nD) (t : Fin cfg0.N) (o : Fin 256) (i : Fin 784) :
    (iblk0 V c 1 t : Vec Ideal S256x784 .bf16) (ix2 o i) = A0_1 V c (ix2 o i) := by
  show V c (Pipeline.arrRef spec0 1) (((cfg0.win 1).blk t).view.emb (ix2 o i)) = V c (Pipeline.arrRef spec0 1) _
  refine congrArg (V c (Pipeline.arrRef spec0 1)) ?_
  funext a; apply Fin.ext
  match a with
  | ⟨0, _⟩ => show win0_1.index t (0 : Fin 2) * 256 + 1 * o.val = o.val; rw [(idx0_1 t).1]; omega
  | ⟨1, _⟩ => show win0_1.index t (1 : Fin 2) * 784 + 1 * i.val = i.val; rw [(idx0_1 t).2]; omega

/-- The step's product at point t: rows 2048 t … of the raw products. -/
theorem pay5_blk (c : Dev nD) (t : Fin cfg0.N) (r : Fin 2048) (o : Fin 256) (hr : 2048 * t.val + r.val < 65536) :
    k0_pay5 (F := Ideal) (iblk0 V c 0 t) (iblk0 V c 1 t) (ix2 r o) = RAW0 V c ⟨2048 * t.val + r.val, hr⟩ o := by
  refine (pay5_apply (iblk0 V c 0 t) (iblk0 V c 1 t) r o).trans ?_
  unfold RAW0 Spec.raw
  refine Finset.sum_congr rfl fun i _ => ?_
  exact congrArg₂ (· * ·) (congrArg (fun v => Spec.sgn (v - half)) (iblk0_0_apply V c t r i hr)) (iblk0_1_apply V c t o i)

end Cert.KernelIdeal.Hand

end
-- ==== Proof.KI.R0.ValueRaw.lean ====
/- Region 0 over the extended reals, the raw output: after grid point t its staging buffer holds rows
   2048 t … 2048 t + 2047 of the raw products, which the point writes back; the 32 points cover all 65536 rows. -/
import proofs.«118595_j1726576853663_2_alg».proof.Proof.KI.R0.ValueBlk

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the TensorCore's buffer contents when the region is entered, over the extended reals
variable (V : (c : Dev nD) → (b : Ref sig .tc) → Buf (Elt Ideal) ((c : Thread nD τ).loc b))

/-! ## What the raw output's staging buffer holds after point t -/

set_option maxHeartbeats 1000000 in
theorem outs_2 (c : Dev nD) (t : Fin cfg0.N) : (outsAt0 V c t.val t.isLt).1 = k0_pay5 (F := Ideal) (iblk0 V c 0 t) (iblk0 V c 1 t) := by
  by_cases h0 : t.val % 16 = 0
  · have h1 : ¬t.val % 16 = 15 := by omega
    rw [outsAt0_A V c t h0 h1]
    dsimp only
    exact out_A_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t)
  · by_cases h1 : t.val % 16 = 15
    · rw [outsAt0_C V c t h0 h1]
      dsimp only
      exact out_C_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
    · rw [outsAt0_B V c t h0 h1]
      dsimp only
      exact out_B_2 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2
/-! ## From the blocks to the array -/

/-- The raw products as contents of the raw output's array. -/
def G0_2 (c : Dev nD) : S65536x256.Idx → EReal := fun j => RAW0 V c (j 0) (j 1)

theorem flushed0_2_eq (c : Dev nD) (t : Fin cfg0.N) :
    (dat0 V c).flushed 2 t = ((cfg0.win 2).blk t).view.read (Elt Ideal) (G0_2 V c) := by
  show (cfg0.win 2).cut (grid0.coords t) ((dat0 V c).after 2 t) = _
  rw [after0_2, outs_2]
  funext j
  obtain ⟨r, o, rfl⟩ : ∃ (r : Fin 2048) (o : Fin 256), j = ix2 r o := ⟨j 0, j 1, eq_ix2 j⟩
  have hN := lt_N0 t
  have hr : 2048 * t.val + r.val < 65536 := by have := r.isLt; omega
  refine (pay5_blk V c t r o hr).trans ?_
  show RAW0 V c _ _ = G0_2 V c (((cfg0.win 2).blk t).view.emb (ix2 r o))
  unfold G0_2
  refine congrArg₂ (RAW0 V c) (Fin.ext ?_) (Fin.ext ?_)
  · show 2048 * t.val + r.val = win0_2.index t (0 : Fin 2) * 2048 + 1 * r.val; rw [(idx0_2 t).1]; omega
  · show o.val = win0_2.index t (1 : Fin 2) * 256 + 1 * o.val; rw [(idx0_2 t).2]; omega

theorem mem_blk0_2 (t : Fin cfg0.N) (i : S65536x256.Idx) :
    i ∈ ((cfg0.win 2).blk t).view.set ↔ ∀ a : Fin 2, win0_2.index t a * S2048x256.size a ≤ (i a).val ∧ (i a).val < win0_2.index t a * S2048x256.size a + S2048x256.size a := by
  show i ∈ ((View.whole main_v20_0).slice (win0_2.rect t)).set ↔ _
  rw [View.set_slice_whole, Rect.mem_set_unit]
  exact Iff.rfl

/-- THE RAW OUTPUT after the region: the raw products, every entry. -/
theorem final0_2 (c : Dev nD) : (dat0 V c).arrAt 2 cfg0.N = G0_2 V c :=
  (dat0 V c).arrAt_eq_of_cover 2 (G0_2 V c) (fun t _ => flushed0_2_eq V c t) fun i => by
    have hi0 : (i 0).val < 65536 := (i 0).isLt
    have hi1 : (i 1).val < 256 := (i 1).isLt
    refine ⟨⟨(i 0).val / 2048, by rw [show cfg0.N = 32 from N_0]; omega⟩, flush0_2 _, ?_⟩
    rw [mem_blk0_2]
    intro a
    match a with
    | ⟨0, _⟩ => show win0_2.index _ (0 : Fin 2) * 2048 ≤ (i 0).val ∧ (i 0).val < win0_2.index _ (0 : Fin 2) * 2048 + 2048; rw [(idx0_2 _).1]; dsimp only; omega
    | ⟨1, _⟩ => show win0_2.index _ (1 : Fin 2) * 256 ≤ (i 1).val ∧ (i 1).val < win0_2.index _ (1 : Fin 2) * 256 + 256; rw [(idx0_2 _).2]; omega

/-- The same entry by entry. -/
theorem value0_2 (c : Dev nD) (r : Fin 65536) (o : Fin 256) :
    (dat0 V c).arrAt 2 cfg0.N (ix2 r o) = RAW0 V c r o :=
  congrFun (final0_2 V c) (ix2 r o)

end Cert.KernelIdeal.Hand

end
-- ==== Proof.LibTileSum.lean ====
/-
  Finite sums over an additive commutative monoid, cut into tiles (general: nothing here mentions a program). Three families of facts, each true in EVERY additive commutative monoid `M` — in particular
  in the extended reals, whose addition is commutative and associative everywhere, the infinities included, so that
  no finiteness hypothesis appears anywhere below:

  § 1  REGROUPING. A sum over `T * B` consecutive indices is the sum over the `T` tiles of the sums over each
       tile's `B` indices; index `r` of tile `t` is the index `t * B + r` (`sum_tiles`), also written
       `B * t + r` against a length `N` known to be `T * B` (`sum_tiles_of_eq`), and at the literal sizes
       `160000 = 50 * 3200` (`sum_tiles_50_3200`).
  § 2  THE RUNNING ACCUMULATOR. A sequence that starts at `0 + a 0` and adds `a (t + 1)` at step `t + 1` is, at
       step `n`, the sum of `a 0, …, a n` (`running_sum`, `running_sum_of_lt`); at `n = 49` that is the sum over
       `Fin 50` (`running_sum_49`).
  § 3  ZERO PADDING. A family over `Fin n` extended by `0` to `Fin N` (`pad`) and a matrix's columns likewise
       (`padCols`) read, below `n`, the family itself (`pad_of_lt`, `pad_mk`, `padCols_mk`) and `0` from `n` on
       (`pad_of_le`); cut into tiles of `B` columns, column `c` of tile `t` is column `B * t + c`
       (`pad_tile`, `padCols_tile`), and every column below `T * B` is one of those (`exists_tile`); last the
       literal sizes `10000 ≤ 10240 = 10 * 1024`.
-/
import Mathlib.Algebra.BigOperators.Fin
import Mathlib.Logic.Equiv.Fin.Basic

open scoped BigOperators

namespace Cert.LibTileSum

variable {M : Type*} [AddCommMonoid M]

/-! ## § 1 Regrouping a sum by tiles -/

/-- Index `r` of tile `t`, among `T` tiles of `B` indices each, is below `T * B`:
    `t * B + r < t * B + B = (t + 1) * B ≤ T * B`. -/
theorem tile_lt {T B : ℕ} (t : Fin T) (r : Fin B) : t.val * B + r.val < T * B :=
  calc t.val * B + r.val < t.val * B + B := Nat.add_lt_add_left r.isLt _
    _ = (t.val + 1) * B := (Nat.succ_mul _ _).symm
    _ ≤ T * B := Nat.mul_le_mul_right _ t.isLt

/-- The same with the product written `B * t`, against a length `N` that is `T * B`. -/
theorem tile_lt' {N T B : ℕ} (h : N = T * B) (t : Fin T) (r : Fin B) : B * t.val + r.val < N := by
  rw [h, Nat.mul_comm B]; exact tile_lt t r

/-- REGROUPING: a sum over `T * B` indices is the sum, over the `T` tiles, of the sum over each tile's `B` indices,
    index `r` of tile `t` being `t * B + r`. (The pairs `(t, r)` are in bijection with the indices below `T * B`
    by `(t, r) ↦ r + B * t`; a sum is invariant under a bijection of its index set, and a sum over pairs is the
    iterated sum. Commutativity of `+` is all that is used.) -/
theorem sum_tiles {T B : ℕ} (f : Fin (T * B) → M) :
    ∑ k, f k = ∑ t : Fin T, ∑ r : Fin B, f ⟨t.val * B + r.val, tile_lt t r⟩ := by
  rw [← Equiv.sum_comp finProdFinEquiv f, Fintype.sum_prod_type]
  refine Finset.sum_congr rfl fun t _ => Finset.sum_congr rfl fun r _ => ?_
  congr 1
  apply Fin.ext
  show r.val + B * t.val = t.val * B + r.val
  rw [Nat.add_comm, Nat.mul_comm]

/-- REGROUPING against a length `N = T * B`, the tile's offset written `B * t`: the form in which a literal length
    (`160000`) and literal tile sizes (`50`, `3200`) meet without a product inside the index type. -/
theorem sum_tiles_of_eq {N T B : ℕ} (h : N = T * B) (f : Fin N → M) :
    ∑ k, f k = ∑ t : Fin T, ∑ r : Fin B, f ⟨B * t.val + r.val, tile_lt' h t r⟩ := by
  subst h
  rw [sum_tiles f]
  refine Finset.sum_congr rfl fun t _ => Finset.sum_congr rfl fun r _ => ?_
  congr 1
  apply Fin.ext
  show t.val * B + r.val = B * t.val + r.val
  rw [Nat.mul_comm]

/-- REGROUPING at `160000 = 50 * 3200`: a sum over `Fin 160000` is the sum over 50 tiles of the sums over each
    tile's 3200 indices `3200 * t + r`. -/
theorem sum_tiles_50_3200 (f : Fin 160000 → M) :
    ∑ q, f q = ∑ t : Fin 50, ∑ r : Fin 3200, f ⟨3200 * t.val + r.val, by have := t.isLt; have := r.isLt; omega⟩ :=
  sum_tiles_of_eq (N := 160000) (T := 50) (B := 3200) rfl f

/-! ## § 2 The running accumulator -/

/-- THE RUNNING ACCUMULATOR, as far as it is known to run: a sequence `S` with `S 0 = 0 + a 0` and
    `S (t + 1) = S t + a (t + 1)` for every `t < n` has `S n = a 0 + a 1 + ⋯ + a n`. (Induction on `n`;
    `0 + x = x` and the sum over `range (n + 2)` is the sum over `range (n + 1)` plus the last term.) -/
theorem running_sum_of_lt (S a : ℕ → M) (h0 : S 0 = 0 + a 0) (n : ℕ)
    (hs : ∀ t, t < n → S (t + 1) = S t + a (t + 1)) :
    S n = ∑ t ∈ Finset.range (n + 1), a t := by
  induction n with
  | zero => rw [h0, zero_add, Finset.sum_range_one]
  | succ n ih =>
    rw [hs n (Nat.lt_succ_self n), ih fun t ht => hs t (Nat.lt_succ_of_lt ht), Finset.sum_range_succ _ (n + 1)]

/-- THE RUNNING ACCUMULATOR with the step known at every index. -/
theorem running_sum (S a : ℕ → M) (h0 : S 0 = 0 + a 0) (hs : ∀ t, S (t + 1) = S t + a (t + 1)) (n : ℕ) :
    S n = ∑ t ∈ Finset.range (n + 1), a t :=
  running_sum_of_lt S a h0 n fun t _ => hs t

/-- THE RUNNING ACCUMULATOR after 50 steps: `S 49` is the sum of the 50 terms, written over `Fin 50`. Only the
    steps `t < 49` are asked for. -/
theorem running_sum_49 (S a : ℕ → M) (h0 : S 0 = 0 + a 0) (hs : ∀ t, t < 49 → S (t + 1) = S t + a (t + 1)) :
    S 49 = ∑ t : Fin 50, a t.val := by
  rw [running_sum_of_lt S a h0 49 hs, Fin.sum_univ_eq_sum_range]

/-- The same over any number of steps: `S n` is the sum over `Fin (n + 1)`. -/
theorem running_sum_fin (S a : ℕ → M) (h0 : S 0 = 0 + a 0) (n : ℕ)
    (hs : ∀ t, t < n → S (t + 1) = S t + a (t + 1)) :
    S n = ∑ t : Fin (n + 1), a t.val := by
  rw [running_sum_of_lt S a h0 n hs, Fin.sum_univ_eq_sum_range]

/-! ## § 3 Zero padding -/

/-- A family over `Fin n` extended by `0` to `Fin N`: the family below `n`, `0` from `n` on. -/
def pad (n N : ℕ) (b : Fin n → M) : Fin N → M := fun j => if h : j.val < n then b ⟨j.val, h⟩ else 0

/-- A matrix's columns extended by `0` from `n` to `N` columns, row by row. -/
def padCols {K : ℕ} (n N : ℕ) (W : Fin K → Fin n → M) : Fin K → Fin N → M := fun k => pad n N (W k)

variable {n N : ℕ}

/-- Below `n` the padded family is the family. -/
theorem pad_of_lt (b : Fin n → M) (j : Fin N) (h : j.val < n) : pad n N b j = b ⟨j.val, h⟩ := dif_pos h

/-- From `n` on the padded family is `0`. -/
theorem pad_of_le (b : Fin n → M) (j : Fin N) (h : n ≤ j.val) : pad n N b j = 0 := dif_neg (Nat.not_lt.mpr h)

/-- The padded family at an index of the unpadded one, carried over by its value: the family there. -/
theorem pad_mk (b : Fin n → M) (j : Fin n) (hj : j.val < N) : pad n N b ⟨j.val, hj⟩ = b j := dif_pos j.isLt

/-- The padded matrix at a column of the unpadded one: the matrix there. -/
theorem padCols_mk {K : ℕ} (W : Fin K → Fin n → M) (k : Fin K) (j : Fin n) (hj : j.val < N) :
    padCols n N W k ⟨j.val, hj⟩ = W k j := pad_mk (W k) j hj

/-- Below `n` the padded matrix is the matrix. -/
theorem padCols_of_lt {K : ℕ} (W : Fin K → Fin n → M) (k : Fin K) (j : Fin N) (h : j.val < n) :
    padCols n N W k j = W k ⟨j.val, h⟩ := dif_pos h

/-- From column `n` on the padded matrix is `0`. -/
theorem padCols_of_le {K : ℕ} (W : Fin K → Fin n → M) (k : Fin K) (j : Fin N) (h : n ≤ j.val) :
    padCols n N W k j = 0 := dif_neg (Nat.not_lt.mpr h)

/-- TILES OF THE PADDED FAMILY: with `N = T * B`, entry `c` of tile `t` is entry `B * t + c`, and where that is
    below `n` it is the unpadded family there. -/
theorem pad_tile {T B : ℕ} (hN : N = T * B) (b : Fin n → M) (t : Fin T) (c : Fin B) (h : B * t.val + c.val < n) :
    pad n N b ⟨B * t.val + c.val, tile_lt' hN t c⟩ = b ⟨B * t.val + c.val, h⟩ := dif_pos h

/-- TILES OF THE PADDED MATRIX: column `c` of column-tile `t` is column `B * t + c`, and where that is below `n`
    it is the unpadded matrix's column. -/
theorem padCols_tile {K T B : ℕ} (hN : N = T * B) (W : Fin K → Fin n → M) (k : Fin K) (t : Fin T) (c : Fin B)
    (h : B * t.val + c.val < n) :
    padCols n N W k ⟨B * t.val + c.val, tile_lt' hN t c⟩ = W k ⟨B * t.val + c.val, h⟩ := dif_pos h

/-- Every index below `T * B` is entry `c` of tile `t` for some pair `(t, c)`: `t` the quotient by `B`, `c` the
    remainder. -/
theorem exists_tile {T B : ℕ} (j : ℕ) (hj : j < T * B) : ∃ (t : Fin T) (c : Fin B), j = B * t.val + c.val := by
  have hB : 0 < B := Nat.pos_of_ne_zero fun h => by subst h; simp at hj
  exact ⟨⟨j / B, Nat.div_lt_of_lt_mul (by rwa [Nat.mul_comm] at hj)⟩, ⟨j % B, Nat.mod_lt _ hB⟩,
    (Nat.div_add_mod j B).symm⟩

/-! ### The literal sizes `10000 ≤ 10240 = 10 * 1024` -/

/-- The padded family over `Fin 10240` at a column of the unpadded one over `Fin 10000`. -/
theorem pad_10000_mk (b : Fin 10000 → M) (j : Fin 10000) :
    pad 10000 10240 b ⟨j.val, by have := j.isLt; omega⟩ = b j := dif_pos j.isLt

/-- The padded matrix over `Fin 10240` columns at a column of the unpadded one over `Fin 10000`. -/
theorem padCols_10000_mk {K : ℕ} (W : Fin K → Fin 10000 → M) (k : Fin K) (j : Fin 10000) :
    padCols 10000 10240 W k ⟨j.val, by have := j.isLt; omega⟩ = W k j := dif_pos j.isLt

/-- Column `c` of tile `t` of the 10 tiles of 1024 columns is column `1024 * t + c` of the 10240. -/
theorem tile_1024_lt (t : Fin 10) (c : Fin 1024) : 1024 * t.val + c.val < 10240 := by
  have := t.isLt; have := c.isLt; omega

/-- TILES at the literal sizes: where column `1024 * t + c` is below `10000`, the padded family there is the
    unpadded family there. -/
theorem pad_tile_1024 (b : Fin 10000 → M) (t : Fin 10) (c : Fin 1024) (h : 1024 * t.val + c.val < 10000) :
    pad 10000 10240 b ⟨1024 * t.val + c.val, tile_1024_lt t c⟩ = b ⟨1024 * t.val + c.val, h⟩ := dif_pos h

/-- TILES at the literal sizes, for the matrix. -/
theorem padCols_tile_1024 {K : ℕ} (W : Fin K → Fin 10000 → M) (k : Fin K) (t : Fin 10) (c : Fin 1024)
    (h : 1024 * t.val + c.val < 10000) :
    padCols 10000 10240 W k ⟨1024 * t.val + c.val, tile_1024_lt t c⟩ = W k ⟨1024 * t.val + c.val, h⟩ := dif_pos h

/-- Every column `j` of the 10000 is column `c` of tile `t` for `t = j / 1024` and `c = j % 1024`. -/
theorem exists_tile_1024 (j : Fin 10000) : ∃ (t : Fin 10) (c : Fin 1024), j.val = 1024 * t.val + c.val :=
  ⟨⟨j.val / 1024, by have := j.isLt; omega⟩, ⟨j.val % 1024, by omega⟩,
    (Nat.div_add_mod j.val 1024).symm⟩

end Cert.LibTileSum
-- ==== Proof.KI.R0.ValueAcc.lean ====
/- Region 0 over the extended reals, the two accumulators and the two partial-sum windows. After grid point t the
   column-sum accumulator holds the sum of the raw products' columns over the rows of the tiles 16 (t / 16) … t of
   the point's core (it is zeroed at a core's first step), the other accumulator the same for the squares; at a core's
   last step both are stored along the eight rows of the core's block of the partial-sum windows. -/
import proofs.«118595_j1726576853663_2_alg».proof.Proof.KI.R0.ValueRaw
import proofs.«118595_j1726576853663_2_alg».proof.Proof.LibTileSum

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the TensorCore's buffer contents when the region is entered, over the extended reals
variable (V : (c : Dev nD) → (b : Ref sig .tc) → Buf (Elt Ideal) ((c : Thread nD τ).loc b))

/-- Tile k's column sums: rows 2048 k … 2048 k + 2047 of the raw products (nothing beyond the 32 tiles). -/
def tile0 (c : Dev nD) (o : Fin 256) (k : ℕ) : EReal :=
  if h : k < 32 then ∑ r : Fin 2048, RAW0 V c ⟨2048 * k + r.val, by have := r.isLt; omega⟩ o else 0
/-- The same for the squares. -/
def tileSq0 (c : Dev nD) (o : Fin 256) (k : ℕ) : EReal :=
  if h : k < 32 then ∑ r : Fin 2048, RAW0 V c ⟨2048 * k + r.val, by have := r.isLt; omega⟩ o * RAW0 V c ⟨2048 * k + r.val, by have := r.isLt; omega⟩ o else 0

/-- One step of the column-sum accumulator at point t: the tile's column sums are added. -/
theorem step_pay6 (c : Dev nD) (t : Fin cfg0.N) (acc : Vec Ideal S1x256 .f32) (u : Fin 1) (o : Fin 256) :
    k0_pay6 (F := Ideal) (iblk0 V c 0 t) (iblk0 V c 1 t) acc (ix2 u o) = acc (ix2 u o) + tile0 V c o t.val := by
  refine (pay6_apply (iblk0 V c 0 t) (iblk0 V c 1 t) acc u o).trans ?_
  refine congrArg (acc (ix2 u o) + ·) ?_
  unfold tile0; rw [dif_pos (lt_N0 t)]
  exact Finset.sum_congr rfl fun r _ => pay5_blk V c t r o _
theorem step_pay7 (c : Dev nD) (t : Fin cfg0.N) (acc : Vec Ideal S1x256 .f32) (u : Fin 1) (o : Fin 256) :
    k0_pay7 (F := Ideal) (iblk0 V c 0 t) (iblk0 V c 1 t) acc (ix2 u o) = acc (ix2 u o) + tileSq0 V c o t.val := by
  refine (pay7_apply (iblk0 V c 0 t) (iblk0 V c 1 t) acc u o).trans ?_
  refine congrArg (acc (ix2 u o) + ·) ?_
  unfold tileSq0; rw [dif_pos (lt_N0 t)]
  exact Finset.sum_congr rfl fun r _ => congrArg₂ (· * ·) (pay5_blk V c t r o _) (pay5_blk V c t r o _)

/-! ## The accumulators point by point -/

set_option maxHeartbeats 1000000 in
/-- At a core's first step the column-sum accumulator is the first tile's column sums (from zero). -/
theorem acc0_first (c : Dev nD) (t : Fin cfg0.N) (h0 : t.val % 16 = 0) (u : Fin 1) (o : Fin 256) :
    (outsAt0 V c t.val t.isLt).2.2.2.1 (ix2 u o) = 0 + tile0 V c o t.val := by
  have h1 : ¬t.val % 16 = 15 := by omega
  rw [outsAt0_A V c t h0 h1]
  dsimp only
  refine (congrFun (sout_A_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t)) (ix2 u o)).trans ?_
  refine (step_pay6 V c t _ u o).trans ?_
  rw [pay3_apply]
set_option maxHeartbeats 1000000 in
theorem acc1_first (c : Dev nD) (t : Fin cfg0.N) (h0 : t.val % 16 = 0) (u : Fin 1) (o : Fin 256) :
    (outsAt0 V c t.val t.isLt).2.2.2.2 (ix2 u o) = 0 + tileSq0 V c o t.val := by
  have h1 : ¬t.val % 16 = 15 := by omega
  rw [outsAt0_A V c t h0 h1]
  dsimp only
  refine (congrFun (sout_A_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t)) (ix2 u o)).trans ?_
  refine (step_pay7 V c t _ u o).trans ?_
  rw [pay4_apply]

set_option maxHeartbeats 1000000 in
/-- At any later step the tile's column sums are added to what the step before left. -/
theorem acc0_next (c : Dev nD) (t : Fin cfg0.N) (h0 : ¬t.val % 16 = 0) (u : Fin 1) (o : Fin 256) :
    (outsAt0 V c t.val t.isLt).2.2.2.1 (ix2 u o) = (outsAt0 V c (t.val - 1) (Nat.lt_of_le_of_lt (Nat.sub_le _ _) t.isLt)).2.2.2.1 (ix2 u o) + tile0 V c o t.val := by
  by_cases h1 : t.val % 16 = 15
  · rw [outsAt0_C V c t h0 h1]
    dsimp only
    refine (congrFun (sout_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 u o)).trans ?_
    exact step_pay6 V c t _ u o
  · rw [outsAt0_B V c t h0 h1]
    dsimp only
    refine (congrFun (sout_B_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 u o)).trans ?_
    exact step_pay6 V c t _ u o
set_option maxHeartbeats 1000000 in
theorem acc1_next (c : Dev nD) (t : Fin cfg0.N) (h0 : ¬t.val % 16 = 0) (u : Fin 1) (o : Fin 256) :
    (outsAt0 V c t.val t.isLt).2.2.2.2 (ix2 u o) = (outsAt0 V c (t.val - 1) (Nat.lt_of_le_of_lt (Nat.sub_le _ _) t.isLt)).2.2.2.2 (ix2 u o) + tileSq0 V c o t.val := by
  by_cases h1 : t.val % 16 = 15
  · rw [outsAt0_C V c t h0 h1]
    dsimp only
    refine (congrFun (sout_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 u o)).trans ?_
    exact step_pay7 V c t _ u o
  · rw [outsAt0_B V c t h0 h1]
    dsimp only
    refine (congrFun (sout_B_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 u o)).trans ?_
    exact step_pay7 V c t _ u o

/-! ## The accumulators in closed form: by induction on the point -/

/-- A sequence that restarts at `0 + a n` when n is a multiple of 16 and otherwise adds `a n` to its predecessor is,
    at n, the sum of `a` over the steps 16 (n / 16) … n. -/
theorem restart_sum (S a : ℕ → EReal) (N : ℕ)
    (hA : ∀ n, n < N → n % 16 = 0 → S n = 0 + a n)
    (hB : ∀ n, n < N → ¬n % 16 = 0 → S n = S (n - 1) + a n) :
    ∀ n, n < N → S n = ∑ k ∈ Finset.range (n % 16 + 1), a (16 * (n / 16) + k) := by
  intro n
  induction n with
  | zero => intro h; rw [hA 0 h rfl, zero_add]; simp
  | succ n ih =>
    intro h
    by_cases h0 : (n + 1) % 16 = 0
    · rw [hA _ h h0, zero_add, h0, Finset.sum_range_succ, Finset.sum_range_zero, zero_add]
      exact congrArg a (by omega)
    · rw [hB _ h h0, show n + 1 - 1 = n from rfl, ih (by omega)]
      have e1 : (n + 1) % 16 = n % 16 + 1 := by omega
      have e2 : (n + 1) / 16 = n / 16 := by omega
      rw [e1, e2, Finset.sum_range_succ _ (n % 16 + 1)]
      exact congrArg (_ + a ·) (by omega)

/-- The column-sum accumulator after point n: the tiles 16 (n / 16) … n of the point's core. -/
theorem acc0_eq (c : Dev nD) (u : Fin 1) (o : Fin 256) (n : ℕ) (h : n < cfg0.N) :
    (outsAt0 V c n h).2.2.2.1 (ix2 u o) = ∑ k ∈ Finset.range (n % 16 + 1), tile0 V c o (16 * (n / 16) + k) := by
  have key := restart_sum (fun n => if h : n < cfg0.N then (outsAt0 V c n h).2.2.2.1 (ix2 u o) else 0) (tile0 V c o) cfg0.N
    (fun n hn h0 => by beta_reduce; rw [dif_pos hn]; exact acc0_first V c ⟨n, hn⟩ h0 u o)
    (fun n hn h0 => by
      beta_reduce
      rw [dif_pos hn, dif_pos (show n - 1 < cfg0.N by omega)]
      exact acc0_next V c ⟨n, hn⟩ h0 u o) n h
  beta_reduce at key
  rw [dif_pos h] at key
  exact key
theorem acc1_eq (c : Dev nD) (u : Fin 1) (o : Fin 256) (n : ℕ) (h : n < cfg0.N) :
    (outsAt0 V c n h).2.2.2.2 (ix2 u o) = ∑ k ∈ Finset.range (n % 16 + 1), tileSq0 V c o (16 * (n / 16) + k) := by
  have key := restart_sum (fun n => if h : n < cfg0.N then (outsAt0 V c n h).2.2.2.2 (ix2 u o) else 0) (tileSq0 V c o) cfg0.N
    (fun n hn h0 => by beta_reduce; rw [dif_pos hn]; exact acc1_first V c ⟨n, hn⟩ h0 u o)
    (fun n hn h0 => by
      beta_reduce
      rw [dif_pos hn, dif_pos (show n - 1 < cfg0.N by omega)]
      exact acc1_next V c ⟨n, hn⟩ h0 u o) n h
  beta_reduce at key
  rw [dif_pos h] at key
  exact key

/-- A core's sixteen tiles are its 32768 rows. -/
theorem core_tiles (c : Dev nD) (o : Fin 256) (g : ℕ) (hg : g < 2) :
    ∑ k ∈ Finset.range 16, tile0 V c o (16 * g + k)
      = ∑ r' : Fin 32768, RAW0 V c ⟨g * 32768 + r'.val, by have := r'.isLt; omega⟩ o := by
  rw [Finset.sum_range, Cert.LibTileSum.sum_tiles_of_eq (N := 32768) (T := 16) (B := 2048) rfl]
  refine Finset.sum_congr rfl fun k _ => ?_
  unfold tile0; rw [dif_pos (by have := k.isLt; omega)]
  refine Finset.sum_congr rfl fun r _ => ?_
  have e : (⟨2048 * (16 * g + k.val) + r.val, by have := k.isLt; have := r.isLt; omega⟩ : Fin 65536)
      = ⟨g * 32768 + (2048 * k.val + r.val), by have := k.isLt; have := r.isLt; omega⟩ := Fin.ext (by show 2048 * (16 * g + k.val) + r.val = g * 32768 + (2048 * k.val + r.val); omega)
  exact congrArg (fun q => RAW0 V c q o) e
theorem core_tilesSq (c : Dev nD) (o : Fin 256) (g : ℕ) (hg : g < 2) :
    ∑ k ∈ Finset.range 16, tileSq0 V c o (16 * g + k)
      = ∑ r' : Fin 32768, RAW0 V c ⟨g * 32768 + r'.val, by have := r'.isLt; omega⟩ o * RAW0 V c ⟨g * 32768 + r'.val, by have := r'.isLt; omega⟩ o := by
  rw [Finset.sum_range, Cert.LibTileSum.sum_tiles_of_eq (N := 32768) (T := 16) (B := 2048) rfl]
  refine Finset.sum_congr rfl fun k _ => ?_
  unfold tileSq0; rw [dif_pos (by have := k.isLt; omega)]
  refine Finset.sum_congr rfl fun r _ => ?_
  have e : (⟨2048 * (16 * g + k.val) + r.val, by have := k.isLt; have := r.isLt; omega⟩ : Fin 65536)
      = ⟨g * 32768 + (2048 * k.val + r.val), by have := k.isLt; have := r.isLt; omega⟩ := Fin.ext (by show 2048 * (16 * g + k.val) + r.val = g * 32768 + (2048 * k.val + r.val); omega)
  exact congrArg (fun q => RAW0 V c q o * RAW0 V c q o) e

end Cert.KernelIdeal.Hand

end
-- ==== Proof.KI.R0.Value.lean ====
/- Region 0 over the extended reals, what its three output arrays hold after the region:
   * the raw output: entry (r, o) is the raw product Σ_i sgn (x r i − ½) · w o i;
   * the column-sum window: row p, column o is the sum of the raw products of column o over the 32768 rows of core p / 8
     (rows (p / 8) · 32768 + r'), the same in each of a core's eight rows;
   * the sum-of-squares window: the same sums of the squares.
   The per-core sums are stated over Fin 32768 with the core's offset inside the row index, the form in which the two
   halves of a column sum add up (a sum over 65536 rows cut into 2 tiles of 32768); inside a core the sixteen steps are
   regrouped by the tiling of a sum over T · B indices into T tiles of B. -/
import proofs.«118595_j1726576853663_2_alg».proof.Proof.KI.R0.ValueAcc

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the TensorCore's buffer contents when the region is entered, over the extended reals
variable (V : (c : Dev nD) → (b : Ref sig .tc) → Buf (Elt Ideal) ((c : Thread nD τ).loc b))

set_option maxHeartbeats 1000000 in
/-- At a core's last step window 3's buffer holds, in each of its eight rows, the accumulator it was stored from. -/
theorem outs_3 (c : Dev nD) (t : Fin cfg0.N) (h1 : t.val % 16 = 15) (p : Fin 8) (o : Fin 256) :
    (outsAt0 V c t.val t.isLt).2.1 (ix2 p o) = (outsAt0 V c t.val t.isLt).2.2.2.1 (ix2 (0 : Fin 1) o) := by
  have h0 : ¬t.val % 16 = 0 := by omega
  rw [outsAt0_C V c t h0 h1]
  dsimp only
  refine (congrFun (out_C_3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 p o)).trans ?_
  refine (pay1_apply _ p o).trans ?_
  exact (congrFun (sout_C_0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 (0 : Fin 1) o)).symm

/-- Window 3's array after the region: row p holds, per column, the sum of the raw products over the 32768 rows of core p / 8. -/
def G0_3 (c : Dev nD) : S16x256.Idx → EReal := fun j =>
  ∑ r' : Fin 32768, RAW0 V c ⟨((j 0).val / 8) * 32768 + r'.val, by have := idx2_lt0 j; have := r'.isLt; omega⟩ (j 1)

/-- Row j of window 3's final contents, for a row of core g and column o. -/
theorem G0_3_eq (c : Dev nD) (j : S16x256.Idx) (g : ℕ) (hg : g < 2) (o : Fin 256) (h0 : (j 0).val / 8 = g) (h1 : j 1 = o) :
    G0_3 V c j = ∑ r' : Fin 32768, RAW0 V c ⟨g * 32768 + r'.val, by have := r'.isLt; omega⟩ o := by
  subst h0 h1; rfl

-- from here on the sum is opened only through the lemma above
attribute [irreducible] G0_3

theorem flushed0_3_eq (c : Dev nD) (t : Fin cfg0.N) (hf : (cfg0.win 3).flush t = true) :
    (dat0 V c).flushed 3 t = ((cfg0.win 3).blk t).view.read (Elt Ideal) (G0_3 V c) := by
  have h1 : t.val % 16 = 15 := (flush0_3 t).mp hf
  have hN := lt_N0 t
  show (cfg0.win 3).cut (grid0.coords t) ((dat0 V c).after 3 t) = _
  rw [after0_3]
  funext j
  obtain ⟨p, o, rfl⟩ : ∃ (p : Fin 8) (o : Fin 256), j = ix2 p o := ⟨j 0, j 1, eq_ix2 j⟩
  refine (outs_3 V c t h1 p o).trans ?_
  rw [acc0_eq V c 0 o t.val t.isLt, h1]
  refine (core_tiles V c o (t.val / 16) (by omega)).trans ?_
  have e0 : ((((cfg0.win 3).blk t).view.emb (ix2 p o)) 0).val = (t.val / 16) * 8 + p.val := by
    show win0_3.index t (0 : Fin 2) * 8 + 1 * p.val = _; rw [(idx0_3 t).1]; omega
  have e1 : (((cfg0.win 3).blk t).view.emb (ix2 p o)) 1 = o := Fin.ext (by
    show win0_3.index t (1 : Fin 2) * 256 + 1 * o.val = o.val; rw [(idx0_3 t).2]; omega)
  show _ = G0_3 V c (((cfg0.win 3).blk t).view.emb (ix2 p o))
  exact (G0_3_eq V c (((cfg0.win 3).blk t).view.emb (ix2 p o)) (t.val / 16) (by omega) o (by rw [e0]; have := p.isLt; omega) e1).symm

theorem mem_blk0_3 (t : Fin cfg0.N) (i : S16x256.Idx) :
    i ∈ ((cfg0.win 3).blk t).view.set ↔ ∀ a : Fin 2, win0_3.index t a * S8x256.size a ≤ (i a).val ∧ (i a).val < win0_3.index t a * S8x256.size a + S8x256.size a := by
  show i ∈ ((View.whole main_v20_1).slice (win0_3.rect t)).set ↔ _
  rw [View.set_slice_whole, Rect.mem_set_unit]
  exact Iff.rfl

theorem final0_3 (c : Dev nD) : (dat0 V c).arrAt 3 cfg0.N = G0_3 V c :=
  (dat0 V c).arrAt_eq_of_cover 3 (G0_3 V c) (fun t hf => flushed0_3_eq V c t hf) fun i => by
    have hi0 : (i 0).val < 16 := idx2_lt0 i
    have hi1 : (i 1).val < 256 := idx2_lt1 i
    refine ⟨⟨16 * ((i 0).val / 8) + 15, by rw [show cfg0.N = 32 from N_0]; omega⟩, (flush0_3 _).mpr (by dsimp only; omega), ?_⟩
    rw [mem_blk0_3]
    intro a
    match a with
    | ⟨0, _⟩ => show win0_3.index _ (0 : Fin 2) * 8 ≤ (i 0).val ∧ (i 0).val < win0_3.index _ (0 : Fin 2) * 8 + 8; rw [(idx0_3 _).1]; dsimp only; omega
    | ⟨1, _⟩ => show win0_3.index _ (1 : Fin 2) * 256 ≤ (i 1).val ∧ (i 1).val < win0_3.index _ (1 : Fin 2) * 256 + 256; rw [(idx0_3 _).2]; omega

set_option maxHeartbeats 1000000 in
/-- At a core's last step window 4's buffer holds, in each of its eight rows, the accumulator it was stored from. -/
theorem outs_4 (c : Dev nD) (t : Fin cfg0.N) (h1 : t.val % 16 = 15) (p : Fin 8) (o : Fin 256) :
    (outsAt0 V c t.val t.isLt).2.2.1 (ix2 p o) = (outsAt0 V c t.val t.isLt).2.2.2.2 (ix2 (0 : Fin 1) o) := by
  have h0 : ¬t.val % 16 = 0 := by omega
  rw [outsAt0_C V c t h0 h1]
  dsimp only
  refine (congrFun (out_C_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 p o)).trans ?_
  refine (pay2_apply _ p o).trans ?_
  exact (congrFun (sout_C_1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2.2.1 (outsAt0 V c (t.val - 1) (Nat.lt_of_le_of_lt (Nat.sub_le _ _) t.isLt)).2.2.2.2) (ix2 (0 : Fin 1) o)).symm

/-- Window 4's array after the region: row p holds, per column, the sum of the squares of the raw products over the 32768 rows of core p / 8. -/
def G0_4 (c : Dev nD) : S16x256.Idx → EReal := fun j =>
  ∑ r' : Fin 32768, RAW0 V c ⟨((j 0).val / 8) * 32768 + r'.val, by have := idx2_lt0 j; have := r'.isLt; omega⟩ (j 1) * RAW0 V c ⟨((j 0).val / 8) * 32768 + r'.val, by have := idx2_lt0 j; have := r'.isLt; omega⟩ (j 1)

/-- Row j of window 4's final contents, for a row of core g and column o. -/
theorem G0_4_eq (c : Dev nD) (j : S16x256.Idx) (g : ℕ) (hg : g < 2) (o : Fin 256) (h0 : (j 0).val / 8 = g) (h1 : j 1 = o) :
    G0_4 V c j = ∑ r' : Fin 32768, RAW0 V c ⟨g * 32768 + r'.val, by have := r'.isLt; omega⟩ o * RAW0 V c ⟨g * 32768 + r'.val, by have := r'.isLt; omega⟩ o := by
  subst h0 h1; rfl

-- from here on the sum is opened only through the lemma above
attribute [irreducible] G0_4

theorem flushed0_4_eq (c : Dev nD) (t : Fin cfg0.N) (hf : (cfg0.win 4).flush t = true) :
    (dat0 V c).flushed 4 t = ((cfg0.win 4).blk t).view.read (Elt Ideal) (G0_4 V c) := by
  have h1 : t.val % 16 = 15 := (flush0_4 t).mp hf
  have hN := lt_N0 t
  show (cfg0.win 4).cut (grid0.coords t) ((dat0 V c).after 4 t) = _
  rw [after0_4]
  funext j
  obtain ⟨p, o, rfl⟩ : ∃ (p : Fin 8) (o : Fin 256), j = ix2 p o := ⟨j 0, j 1, eq_ix2 j⟩
  refine (outs_4 V c t h1 p o).trans ?_
  rw [acc1_eq V c 0 o t.val t.isLt, h1]
  refine (core_tilesSq V c o (t.val / 16) (by omega)).trans ?_
  have e0 : ((((cfg0.win 4).blk t).view.emb (ix2 p o)) 0).val = (t.val / 16) * 8 + p.val := by
    show win0_4.index t (0 : Fin 2) * 8 + 1 * p.val = _; rw [(idx0_4 t).1]; omega
  have e1 : (((cfg0.win 4).blk t).view.emb (ix2 p o)) 1 = o := Fin.ext (by
    show win0_4.index t (1 : Fin 2) * 256 + 1 * o.val = o.val; rw [(idx0_4 t).2]; omega)
  show _ = G0_4 V c (((cfg0.win 4).blk t).view.emb (ix2 p o))
  exact (G0_4_eq V c (((cfg0.win 4).blk t).view.emb (ix2 p o)) (t.val / 16) (by omega) o (by rw [e0]; have := p.isLt; omega) e1).symm

theorem mem_blk0_4 (t : Fin cfg0.N) (i : S16x256.Idx) :
    i ∈ ((cfg0.win 4).blk t).view.set ↔ ∀ a : Fin 2, win0_4.index t a * S8x256.size a ≤ (i a).val ∧ (i a).val < win0_4.index t a * S8x256.size a + S8x256.size a := by
  show i ∈ ((View.whole main_v20_2).slice (win0_4.rect t)).set ↔ _
  rw [View.set_slice_whole, Rect.mem_set_unit]
  exact Iff.rfl

theorem final0_4 (c : Dev nD) : (dat0 V c).arrAt 4 cfg0.N = G0_4 V c :=
  (dat0 V c).arrAt_eq_of_cover 4 (G0_4 V c) (fun t hf => flushed0_4_eq V c t hf) fun i => by
    have hi0 : (i 0).val < 16 := idx2_lt0 i
    have hi1 : (i 1).val < 256 := idx2_lt1 i
    refine ⟨⟨16 * ((i 0).val / 8) + 15, by rw [show cfg0.N = 32 from N_0]; omega⟩, (flush0_4 _).mpr (by dsimp only; omega), ?_⟩
    rw [mem_blk0_4]
    intro a
    match a with
    | ⟨0, _⟩ => show win0_4.index _ (0 : Fin 2) * 8 ≤ (i 0).val ∧ (i 0).val < win0_4.index _ (0 : Fin 2) * 8 + 8; rw [(idx0_4 _).1]; dsimp only; omega
    | ⟨1, _⟩ => show win0_4.index _ (1 : Fin 2) * 256 ≤ (i 1).val ∧ (i 1).val < win0_4.index _ (1 : Fin 2) * 256 + 256; rw [(idx0_4 _).2]; omega

/-! ## The three arrays, entry by entry -/

/-- The raw products are the specification's, of the binarised shifted input and the weights. -/
theorem RAW0_eq (c : Dev nD) :
    RAW0 V c = Spec.raw (fun r i => Spec.sgn (A0_0 V c (ix2 r i) - half)) (fun o i => A0_1 V c (ix2 o i)) := rfl

theorem value0_3 (c : Dev nD) (p : Fin 16) (o : Fin 256) :
    (dat0 V c).arrAt 3 cfg0.N (ix2 p o)
      = ∑ r' : Fin 32768, RAW0 V c ⟨(p.val / 8) * 32768 + r'.val, by have := p.isLt; have := r'.isLt; omega⟩ o :=
  (congrFun (final0_3 V c) (ix2 p o)).trans (G0_3_eq V c (ix2 p o) (p.val / 8) (by have := p.isLt; omega) o rfl rfl)

theorem value0_4 (c : Dev nD) (p : Fin 16) (o : Fin 256) :
    (dat0 V c).arrAt 4 cfg0.N (ix2 p o)
      = ∑ r' : Fin 32768, RAW0 V c ⟨(p.val / 8) * 32768 + r'.val, by have := p.isLt; have := r'.isLt; omega⟩ o
          * RAW0 V c ⟨(p.val / 8) * 32768 + r'.val, by have := p.isLt; have := r'.isLt; omega⟩ o :=
  (congrFun (final0_4 V c) (ix2 p o)).trans (G0_4_eq V c (ix2 p o) (p.val / 8) (by have := p.isLt; omega) o rfl rfl)

end Cert.KernelIdeal.Hand

end
-- ==== Proof.KI.GlueBin0.lean ====
import proofs.«118595_j1726576853663_2_alg».proof.Proof.Gen.KernelIdeal.Launch
import proofs.«118595_j1726576853663_2_alg».proof.Proof.KI.GlueLib
import Idealize.ShloMosaic.Lib.StableHlo.Run

/-!
Weight matrix 0 (main_arg1, shape S256x784) binarised by the host before the first region, read at an index: the
comparison with a zero array (hostOps0: main_v1, with the words for +1 and −1 in main_cst_0, main_cst_1), the selection between
a +1 array and a −1 array (hostOps0_1: main_v2), and the change of format, which keeps every value (hostOps0_2: main_v3).
Together: entry i of main_v3 is 1 where entry i of main_arg1 is at least 0, else −1.
-/

noncomputable section

namespace Cert.KernelIdeal.Hand

open Idealize.ShloMosaic Idealize.ShloMosaic.TcCoe Idealize.ShloMosaic.ValueIdx
open Cert.KernelIdeal Cert.KernelIdeal.Gen

variable (W : Valuation τ sig (Elt Ideal))

/-! ### Stretch by stretch: each written buffer as the operations' term over the contents before the stretch -/

theorem hostOps0_main_v1 :
    (StableHlo.after (hostOps0 (F := Ideal)) W (Proc.devRef .tc main_v1) : S256x784.Idx → BitVec 1)
      = cmpf .oge (W (Proc.devRef .tc main_arg1) : S256x784.Idx → EReal) (broadcastInDim (s := S_) S256x784 ![] bcast_S_S256x784 (constant (F := Ideal) S_ .f32 0x00000000#32)) := by
  dsimp only [hostOps0]; after_results; all_goals rfl

theorem hostOps0_main_cst_0 :
    (StableHlo.after (hostOps0 (F := Ideal)) W (Proc.devRef .tc main_cst_0) : S_.Idx → EReal) = constant (F := Ideal) S_ .f32 0x3F800000#32 := by
  dsimp only [hostOps0]; after_results; all_goals rfl

theorem hostOps0_main_cst_1 :
    (StableHlo.after (hostOps0 (F := Ideal)) W (Proc.devRef .tc main_cst_1) : S_.Idx → EReal) = constant (F := Ideal) S_ .f32 0xBF800000#32 := by
  dsimp only [hostOps0]; after_results; all_goals rfl

theorem hostOps0_1_main_v2 :
    (StableHlo.after (hostOps0_1 (F := Ideal)) W (Proc.devRef .tc main_v2) : S256x784.Idx → EReal)
      = select (W (Proc.devRef .tc main_v1) : S256x784.Idx → BitVec 1) (broadcastInDim (s := S_) S256x784 ![] bcast_S_S256x784 (W (Proc.devRef .tc main_cst_0) : S_.Idx → EReal)) (broadcastInDim (s := S_) S256x784 ![] bcast_S_S256x784 (W (Proc.devRef .tc main_cst_1) : S_.Idx → EReal)) := by
  dsimp only [hostOps0_1]; after_results; all_goals rfl

theorem hostOps0_2_main_v3 :
    (StableHlo.after (hostOps0_2 (F := Ideal)) W (Proc.devRef .tc main_v3) : S256x784.Idx → EReal) = (W (Proc.devRef .tc main_v2) : S256x784.Idx → EReal) := by
  dsimp only [hostOps0_2]; after_results; all_goals rfl

/-! ### At an index -/

/-- The comparison's bit: whether the weight is at least 0. -/
theorem hostOps0_main_v1_at (w : S256x784.Idx → EReal) (hw : (W (Proc.devRef .tc main_arg1) : S256x784.Idx → EReal) = w) (i : S256x784.Idx) :
    (StableHlo.after (hostOps0 (F := Ideal)) W (Proc.devRef .tc main_v1) : S256x784.Idx → BitVec 1) i = Ideal.cmp .oge (w i) 0 := by
  subst hw
  refine (congrFun (hostOps0_main_v1 W) i).trans ?_
  rw [cmpf_apply, broadcastInDim_scalar_apply, constant_apply, Ideal.cmpf_def, Ideal.ofBits_zero_f32]

/-- The selection: the first scalar where the bit is set, else the second. -/
theorem hostOps0_1_main_v2_at (c : S256x784.Idx → BitVec 1) (p q : S_.Idx → EReal) (hc : (W (Proc.devRef .tc main_v1) : S256x784.Idx → BitVec 1) = c) (hp : (W (Proc.devRef .tc main_cst_0) : S_.Idx → EReal) = p)
    (hq : (W (Proc.devRef .tc main_cst_1) : S_.Idx → EReal) = q) (i : S256x784.Idx) :
    (StableHlo.after (hostOps0_1 (F := Ideal)) W (Proc.devRef .tc main_v2) : S256x784.Idx → EReal) i = Scalar.select (c i) (p ix0) (q ix0) := by
  subst hc; subst hp; subst hq
  refine (congrFun (hostOps0_1_main_v2 W) i).trans ?_
  rw [select_apply, broadcastInDim_scalar_apply, broadcastInDim_scalar_apply]

/-! ### The three stretches together -/

/-- The binarised matrix as one term of the weight. -/
theorem wb0_term :
    (StableHlo.after (hostOps0_2 (F := Ideal)) (StableHlo.after (hostOps0_1 (F := Ideal)) (StableHlo.after (hostOps0 (F := Ideal)) W))
        (Proc.devRef .tc main_v3) : S256x784.Idx → EReal)
      = Glue.binarized bcast_S_S256x784 (W (Proc.devRef .tc main_arg1) : S256x784.Idx → EReal) := by
  dsimp only [hostOps0, hostOps0_1, hostOps0_2]; after_results; all_goals rfl

/-- Entry i of the binarised matrix: 1 where the weight is at least 0, else −1. -/
theorem wb0_at (w : S256x784.Idx → EReal) (hw : (W (Proc.devRef .tc main_arg1) : S256x784.Idx → EReal) = w) (i : S256x784.Idx) :
    (StableHlo.after (hostOps0_2 (F := Ideal)) (StableHlo.after (hostOps0_1 (F := Ideal)) (StableHlo.after (hostOps0 (F := Ideal)) W))
        (Proc.devRef .tc main_v3) : S256x784.Idx → EReal) i
      = (if 0 ≤ w i then (1 : EReal) else -1) := by
  subst hw
  exact (congrFun (wb0_term W) i).trans (Glue.binarized_apply _ _ i)

end Cert.KernelIdeal.Hand
-- ==== Proof.LibBatchNormVar.lean ====
/-
  The variance of finitely many numbers, computed two ways (general: nothing here mentions a program).

  For real numbers x_i, i in a finite index set of M > 0 elements, with mean μ = (∑ x_i) / M:

      (∑ x_i²) / M − μ · μ  =  (∑ (x_i − μ)²) / M   (expand the square: ∑ (x_i − μ)² = ∑ x_i² − 2 μ ∑ x_i + M μ² and ∑ x_i = M μ),

  the right side is a mean of squares, so it is ≥ 0, and clamping the left side from below at 0 changes nothing.

  § 1 states this over the reals. § 2 carries sums, products and differences of real numbers through the coercion into
  the extended reals. § 3 states the identity on the extended reals, the operations spelt as the ideal float values
  spell them (the extended reals' +, −, ·, maximum, and the quotient Ideal.div by a nonzero real), for entries that are all finite:
  first over two abstract totals a = ∑ x_i² and b = ∑ x_i given as coercions of real sums, then with every sum written out.
-/
import Mathlib.Data.EReal.Inv
import Mathlib.Algebra.BigOperators.Field
import Mathlib.Algebra.Order.BigOperators.Ring.Finset
import Idealize.ShloMosaic.PureOps.Ideal

open scoped BigOperators
open Idealize.ShloMosaic

namespace Cert.LibBatchNormVar

variable {ι : Type*} [Fintype ι]

/-! ## § 1 Over the reals -/

/-- THE SUM OF SQUARED DEVIATIONS: with M the number of entries and μ = (∑ x) / M,
    ∑ (x_i − μ)² = ∑ x_i² − M · (μ · μ). -/
theorem sum_sq_dev (x : ι → ℝ) (M : ℝ) (hM : (Fintype.card ι : ℝ) = M) (h0 : M ≠ 0) :
    ∑ i, (x i - (∑ j, x j) / M) ^ 2 = ∑ i, x i ^ 2 - M * ((∑ j, x j) / M * ((∑ j, x j) / M)) := by
  have hsq : ∀ i, (x i - (∑ j, x j) / M) ^ 2 = x i ^ 2 - 2 * ((∑ j, x j) / M) * x i + ((∑ j, x j) / M) ^ 2 :=
    fun i => by ring
  simp only [hsq, Finset.sum_add_distrib, Finset.sum_sub_distrib, ← Finset.mul_sum, Finset.sum_const,
    Finset.card_univ, nsmul_eq_mul, hM]
  field_simp
  ring

/-- THE VARIANCE, TWO WAYS: the mean of the squares minus the square of the mean is the mean of the squared
    deviations from the mean. -/
theorem var_real (x : ι → ℝ) (M : ℝ) (hM : (Fintype.card ι : ℝ) = M) (h0 : M ≠ 0) :
    (∑ i, x i ^ 2) / M - (∑ i, x i) / M * ((∑ i, x i) / M) = (∑ i, (x i - (∑ j, x j) / M) ^ 2) / M := by
  rw [sum_sq_dev x M hM h0]
  field_simp

/-- The mean of the squared deviations is not negative. -/
theorem var_real_nonneg (x : ι → ℝ) (M : ℝ) (hpos : 0 < M) : 0 ≤ (∑ i, (x i - (∑ j, x j) / M) ^ 2) / M :=
  div_nonneg (Finset.sum_nonneg fun i _ => sq_nonneg _) hpos.le

/-- So the mean of the squares minus the square of the mean is not negative. -/
theorem var_real_nonneg' (x : ι → ℝ) (M : ℝ) (hM : (Fintype.card ι : ℝ) = M) (hpos : 0 < M) :
    0 ≤ (∑ i, x i ^ 2) / M - (∑ i, x i) / M * ((∑ i, x i) / M) := by
  rw [var_real x M hM hpos.ne']; exact var_real_nonneg x M hpos

/-- CLAMPING AT ZERO IS THE IDENTITY on the variance computed as the mean of squares minus the square of the mean. -/
theorem max_var_real (x : ι → ℝ) (M : ℝ) (hM : (Fintype.card ι : ℝ) = M) (hpos : 0 < M) :
    max ((∑ i, x i ^ 2) / M - (∑ i, x i) / M * ((∑ i, x i) / M)) 0 = (∑ i, (x i - (∑ j, x j) / M) ^ 2) / M := by
  rw [max_eq_left (var_real_nonneg' x M hM hpos), var_real x M hM hpos.ne']

/-! ## § 2 Real numbers inside the extended reals -/

/-- The coercion of a finite sum of reals is the sum of the coercions. -/
theorem coe_sum {κ : Type*} (s : Finset κ) (f : κ → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

/-- A family of extended reals each of which is a real number is the coercion of a family of reals. -/
theorem exists_real_family {κ : Type*} (x : κ → EReal) (hx : ∀ i, ∃ r : ℝ, x i = (r : EReal)) :
    ∃ y : κ → ℝ, x = fun i => (y i : EReal) :=
  ⟨fun i => (hx i).choose, funext fun i => (hx i).choose_spec⟩

/-- A finite sum of real numbers, taken in the extended reals, is a real number. -/
theorem exists_real_sum {κ : Type*} (s : Finset κ) (x : κ → EReal) (hx : ∀ i, ∃ r : ℝ, x i = (r : EReal)) :
    ∃ r : ℝ, ∑ i ∈ s, x i = (r : EReal) := by
  obtain ⟨y, rfl⟩ := exists_real_family x hx
  exact ⟨∑ i ∈ s, y i, (coe_sum s y).symm⟩

/-- A product of two real numbers, taken in the extended reals, is a real number. -/
theorem exists_real_mul {a b : EReal} (ha : ∃ r : ℝ, a = (r : EReal)) (hb : ∃ r : ℝ, b = (r : EReal)) :
    ∃ r : ℝ, a * b = (r : EReal) := by
  obtain ⟨r, rfl⟩ := ha; obtain ⟨q, rfl⟩ := hb; exact ⟨r * q, (EReal.coe_mul r q).symm⟩

/-- The quotient of a real number by a nonzero real number, as the ideal float values divide, is the real quotient. -/
theorem div_coe_coe (r : ℝ) {M : ℝ} (h0 : M ≠ 0) : Ideal.div (r : EReal) (M : EReal) = ((r / M : ℝ) : EReal) := by
  rw [Ideal.div_coe h0, ← EReal.coe_mul, mul_one_div]

/-! ## § 3 On the extended reals -/

/-- THE VARIANCE ON THE EXTENDED REALS, over abstract totals: if a is the (real) sum of the squares and b the (real) sum
    of the entries, M > 0 their number, then  max (a / M − (b / M) · (b / M)) 0  is the mean of the squared deviations
    from the mean, a real number. The quotients are the ideal float values' quotient by the real M. -/
theorem max_var_ereal_of_totals (x : ι → ℝ) (M : ℝ) (hM : (Fintype.card ι : ℝ) = M) (hpos : 0 < M) (a b : EReal)
    (ha : a = ((∑ i, x i ^ 2 : ℝ) : EReal)) (hb : b = ((∑ i, x i : ℝ) : EReal)) :
    max (Ideal.div a (M : EReal) - Ideal.div b (M : EReal) * Ideal.div b (M : EReal)) 0
      = (((∑ i, (x i - (∑ j, x j) / M) ^ 2) / M : ℝ) : EReal) := by
  subst ha; subst hb
  rw [div_coe_coe _ hpos.ne', div_coe_coe _ hpos.ne', ← EReal.coe_mul, ← EReal.coe_sub,
    max_eq_left (EReal.coe_nonneg.mpr (var_real_nonneg' x M hM hpos)), var_real x M hM hpos.ne']

/-- The same with the clamp's operands in the other order. -/
theorem max_var_ereal_of_totals' (x : ι → ℝ) (M : ℝ) (hM : (Fintype.card ι : ℝ) = M) (hpos : 0 < M) (a b : EReal)
    (ha : a = ((∑ i, x i ^ 2 : ℝ) : EReal)) (hb : b = ((∑ i, x i : ℝ) : EReal)) :
    max 0 (Ideal.div a (M : EReal) - Ideal.div b (M : EReal) * Ideal.div b (M : EReal))
      = (((∑ i, (x i - (∑ j, x j) / M) ^ 2) / M : ℝ) : EReal) := by
  rw [max_comm]; exact max_var_ereal_of_totals x M hM hpos a b ha hb

/-- The same with each quotient written as the product with the reciprocal 1 / M (a folded constant). -/
theorem max_var_ereal_of_totals_mul (x : ι → ℝ) (M : ℝ) (hM : (Fintype.card ι : ℝ) = M) (hpos : 0 < M) (a b : EReal)
    (ha : a = ((∑ i, x i ^ 2 : ℝ) : EReal)) (hb : b = ((∑ i, x i : ℝ) : EReal)) :
    max (a * ((1 / M : ℝ) : EReal) - b * ((1 / M : ℝ) : EReal) * (b * ((1 / M : ℝ) : EReal))) 0
      = (((∑ i, (x i - (∑ j, x j) / M) ^ 2) / M : ℝ) : EReal) := by
  rw [← Ideal.div_coe hpos.ne', ← Ideal.div_coe hpos.ne']
  exact max_var_ereal_of_totals x M hM hpos a b ha hb

/-- The mean of the squared deviations on the extended reals, every operation written out, is the coercion of the
    real one: for real entries y_i,  (∑ (y_i − (∑ y) / M) · (y_i − (∑ y) / M)) / M. -/
theorem mean_sq_dev_ereal (y : ι → ℝ) (M : ℝ) (h0 : M ≠ 0) :
    Ideal.div (∑ i, ((y i : EReal) - Ideal.div (∑ j, (y j : EReal)) (M : EReal))
        * ((y i : EReal) - Ideal.div (∑ j, (y j : EReal)) (M : EReal))) (M : EReal)
      = (((∑ i, (y i - (∑ j, y j) / M) ^ 2) / M : ℝ) : EReal) := by
  rw [← coe_sum, div_coe_coe _ h0]
  simp only [← EReal.coe_sub, ← EReal.coe_mul]
  rw [← coe_sum, div_coe_coe _ h0]
  simp only [sq]

/-- THE VARIANCE ON THE EXTENDED REALS, every sum written out: for entries that are all real numbers, M > 0 their
    number,  max ((∑ x_i · x_i) / M − ((∑ x_i) / M) · ((∑ x_i) / M)) 0 = (∑ (x_i − (∑ x) / M) · (x_i − (∑ x) / M)) / M:
    the left side is how one pass over the data takes the variance (sum and sum of squares, clamped at 0), the right side
    how two passes take it (the mean first, then the mean of the squared deviations). -/
theorem max_var_ereal (x : ι → EReal) (hx : ∀ i, ∃ r : ℝ, x i = (r : EReal)) (M : ℝ) (hM : (Fintype.card ι : ℝ) = M)
    (hpos : 0 < M) :
    max (Ideal.div (∑ i, x i * x i) (M : EReal) - Ideal.div (∑ i, x i) (M : EReal) * Ideal.div (∑ i, x i) (M : EReal)) 0
      = Ideal.div (∑ i, (x i - Ideal.div (∑ j, x j) (M : EReal)) * (x i - Ideal.div (∑ j, x j) (M : EReal))) (M : EReal) := by
  obtain ⟨y, rfl⟩ := exists_real_family x hx
  rw [mean_sq_dev_ereal y M hpos.ne']
  refine max_var_ereal_of_totals y M hM hpos _ _ ?_ (coe_sum _ _).symm
  rw [coe_sum]
  exact Finset.sum_congr rfl fun i _ => by rw [sq, EReal.coe_mul]

/-- The one-pass variance of real entries is a real number that is not negative (so adding a positive ε to it and
    taking the reciprocal square root stays away from every corner). -/
theorem exists_real_max_var (x : ι → EReal) (hx : ∀ i, ∃ r : ℝ, x i = (r : EReal)) (M : ℝ) (hM : (Fintype.card ι : ℝ) = M)
    (hpos : 0 < M) :
    ∃ v : ℝ, 0 ≤ v ∧
      max (Ideal.div (∑ i, x i * x i) (M : EReal) - Ideal.div (∑ i, x i) (M : EReal) * Ideal.div (∑ i, x i) (M : EReal)) 0
        = (v : EReal) := by
  obtain ⟨y, rfl⟩ := exists_real_family x hx
  refine ⟨_, var_real_nonneg y M hpos, max_var_ereal_of_totals y M hM hpos _ _ ?_ (coe_sum _ _).symm⟩
  rw [coe_sum]
  exact Finset.sum_congr rfl fun i _ => by rw [sq, EReal.coe_mul]

end Cert.LibBatchNormVar
-- ==== Proof.LibTwoCoreSum.lean ====
/-
  A finite sum cut into groups of tiles (general: nothing here mentions a program). Everything holds in every additive
  commutative monoid, in particular on the extended reals, whose addition is commutative and associative everywhere, the
  infinities included: no finiteness hypothesis appears.

  § 1  REGROUPING IN THREE LEVELS. A sum over G * T * B consecutive indices is the sum over the G groups of the sum over
       each group's T tiles of the sum over each tile's B indices, index r of tile t of group g being (g * T + t) * B + r
       (sum_groups), also against a length N known to be G * T * B (sum_groups_of_eq), and at the literal sizes
       65536 = 2 * 16 * 2048 (sum_2_16_2048).
  § 2  THE ACCUMULATOR THAT IS CLEARED AT THE START OF EVERY GROUP. A sequence over the points n = 0, 1, 2, … that at a
       point with n % T = 0 is 0 + a n and at every other point is its value at n − 1 plus a n, holds at point g * T + i
       (i < T) the sum of a (g * T), …, a (g * T + i) (resetting_sum); at the last point of a group the group's sum over
       Fin T (resetting_sum_last).
  § 3  BOTH TOGETHER: the accumulators' values at the last point of each group, summed over the groups, are the sum over
       the whole axis (sum_groups_of_resetting).
-/
import Mathlib.Algebra.BigOperators.Fin
import Mathlib.Algebra.BigOperators.Intervals
import proofs.«118595_j1726576853663_2_alg».proof.Proof.LibTileSum

open scoped BigOperators

namespace Cert.LibTwoCoreSum

open Cert.LibTileSum

variable {M : Type*} [AddCommMonoid M]

/-! ## § 1 Regrouping in three levels -/

/-- Index r of tile t of group g, among G groups of T tiles of B indices each, is below G * T * B. -/
theorem group_lt {G T B : ℕ} (g : Fin G) (t : Fin T) (r : Fin B) : (g.val * T + t.val) * B + r.val < G * T * B :=
  tile_lt (T := G * T) (B := B) ⟨g.val * T + t.val, tile_lt g t⟩ r

/-- REGROUPING IN THREE LEVELS: a sum over G * T * B indices is the sum over the groups g, the tiles t of a group and
    the indices r of a tile, of the term at index (g * T + t) * B + r. (Cut the axis into G * T tiles of B, then the
    G * T tiles into G groups of T.) -/
theorem sum_groups {G T B : ℕ} (f : Fin (G * T * B) → M) :
    ∑ k, f k = ∑ g : Fin G, ∑ t : Fin T, ∑ r : Fin B, f ⟨(g.val * T + t.val) * B + r.val, group_lt g t r⟩ := by
  rw [sum_tiles (T := G * T) (B := B) f,
    sum_tiles (T := G) (B := T) fun q : Fin (G * T) => ∑ r : Fin B, f ⟨q.val * B + r.val, tile_lt q r⟩]

/-- The same against a length N = G * T * B: the form in which a literal length meets literal group, tile and row
    counts without a product inside the index type. -/
theorem sum_groups_of_eq {N G T B : ℕ} (h : N = G * T * B) (f : Fin N → M) :
    ∑ k, f k = ∑ g : Fin G, ∑ t : Fin T, ∑ r : Fin B,
      f ⟨(g.val * T + t.val) * B + r.val, h ▸ group_lt g t r⟩ := by
  subst h
  exact sum_groups f

/-- REGROUPING at 65536 = 2 * 16 * 2048: a sum over Fin 65536 is the sum over 2 groups of 16 tiles of 2048 indices,
    index r of tile t of group g being (g * 16 + t) * 2048 + r. -/
theorem sum_2_16_2048 (f : Fin 65536 → M) :
    ∑ k, f k = ∑ g : Fin 2, ∑ t : Fin 16, ∑ r : Fin 2048,
      f ⟨(g.val * 16 + t.val) * 2048 + r.val, by have := g.isLt; have := t.isLt; have := r.isLt; omega⟩ :=
  sum_groups_of_eq (N := 65536) (G := 2) (T := 16) (B := 2048) rfl f

/-- Every index below G * T * B is index r of tile t of group g for some (g, t, r): r the remainder by B, and the
    quotient by B split by T. -/
theorem exists_group {G T B : ℕ} (k : ℕ) (hk : k < G * T * B) :
    ∃ (g : Fin G) (t : Fin T) (r : Fin B), k = (g.val * T + t.val) * B + r.val := by
  obtain ⟨q, r, hq⟩ := exists_tile (T := G * T) (B := B) k hk
  obtain ⟨g, t, hg⟩ := exists_tile (T := G) (B := T) q.val q.isLt
  exact ⟨g, t, r, by rw [hq, hg, Nat.mul_comm B, Nat.mul_comm T]⟩

/-! ## § 2 The accumulator cleared at the start of every group -/

/-- THE RESETTING ACCUMULATOR. Let S n be what an accumulator holds after point n, where a point with n % T = 0 clears
    it and adds a n (0 + a n) and every other point adds a n to what the point before left. Then after point g * T + i,
    i < T, it holds a (g * T) + ⋯ + a (g * T + i): the points of group g up to the i-th, and nothing of the groups before. -/
theorem resetting_sum (S a : ℕ → M) (T : ℕ)
    (h0 : ∀ n, n % T = 0 → S n = 0 + a n) (hs : ∀ n, n % T ≠ 0 → S n = S (n - 1) + a n) (g i : ℕ) (hi : i < T) :
    S (g * T + i) = ∑ j ∈ Finset.range (i + 1), a (g * T + j) := by
  have hT : 0 < T := Nat.lt_of_le_of_lt (Nat.zero_le _) hi
  refine running_sum_of_lt (fun j => S (g * T + j)) (fun j => a (g * T + j)) ?_ i fun j hj => ?_
  · exact h0 _ (by simp [Nat.mul_mod_left])
  · have hne : (g * T + (j + 1)) % T ≠ 0 := by
      rw [Nat.add_comm, Nat.add_mul_mod_self_right, Nat.mod_eq_of_lt (by omega)]; omega
    exact hs _ hne

/-- After the LAST point of group g (point g * T + (T − 1), here with T = T' + 1) the accumulator holds the sum of the
    group's T terms, written over Fin T. -/
theorem resetting_sum_last (S a : ℕ → M) (T' : ℕ)
    (h0 : ∀ n, n % (T' + 1) = 0 → S n = 0 + a n) (hs : ∀ n, n % (T' + 1) ≠ 0 → S n = S (n - 1) + a n) (g : ℕ) :
    S (g * (T' + 1) + T') = ∑ t : Fin (T' + 1), a (g * (T' + 1) + t.val) := by
  rw [resetting_sum S a (T' + 1) h0 hs g T' (Nat.lt_succ_self _), Finset.sum_range]

/-! ## § 3 Groups of tiles, accumulated tile by tile -/

/-- THE WHOLE SUM FROM THE GROUPS' ACCUMULATORS. Cut an axis of G * (T' + 1) * B entries into G groups of T' + 1 tiles
    of B entries; let point n = g * (T' + 1) + t add the sum of tile t of group g to an accumulator that the first point
    of every group clears. Then the accumulators' values after the last point of each group, summed over the groups,
    are the sum over the whole axis. -/
theorem sum_groups_of_resetting {G T' B : ℕ} (f : Fin (G * (T' + 1) * B) → M) (S a : ℕ → M)
    (h0 : ∀ n, n % (T' + 1) = 0 → S n = 0 + a n) (hs : ∀ n, n % (T' + 1) ≠ 0 → S n = S (n - 1) + a n)
    (ha : ∀ (g : Fin G) (t : Fin (T' + 1)),
      a (g.val * (T' + 1) + t.val) = ∑ r : Fin B, f ⟨(g.val * (T' + 1) + t.val) * B + r.val, group_lt g t r⟩) :
    ∑ g : Fin G, S (g.val * (T' + 1) + T') = ∑ k, f k := by
  rw [sum_groups f]
  refine Finset.sum_congr rfl fun g _ => ?_
  rw [resetting_sum_last S a T' h0 hs g.val]
  exact Finset.sum_congr rfl fun t _ => ha g t

end Cert.LibTwoCoreSum
-- ==== Proof.LibOnlineSoftmax.lean ====
/-
  The maximum and the sum of exponentials of finitely many real numbers, accumulated tile by tile (general: nothing here
  mentions a program). The numbers sit in the extended reals as coercions of reals; exp is the ideal float values'
  exponential (exp ⊥ = 0, exp of a real the real exponential), − and · the extended reals'.

  With μ the maximum of all the y's, a softmax needs μ and Σ = ∑ exp (y − μ). One pass over the data, a tile at a time,
  keeps a running maximum m and a running sum s taken relative to it: from m = −∞ (⊥), s = 0, tile t gives
      m' = max m (max of tile t),      s' = s · exp (m − m') + ∑_{r in tile t} exp (y_r − m').
  The factor exp (m − m') moves what was summed relative to m over to m': exp (y − m) · exp (m − m') = exp (y − m').
  At the first tile s = 0, and 0 times anything is 0 on the extended reals, so the value of exp (⊥ − m') does not matter.
  After the last tile m is the maximum of all the entries and s the sum of exp (y − m) over all of them.
  Two (or G) such passes over disjoint parts, with results (m_g, s_g), combine the same way:
      μ = max_g m_g,      ∑_g s_g · exp (m_g − μ) = ∑_{all} exp (y − μ).

  § 1  the real-number core (exponentials rescale).            § 2  the same on the extended reals.
  § 3  maxima: a fold of max is a supremum, regrouped by tiles and by groups of tiles; the supremum of finitely many reals is real.
  § 4  THE ONLINE RECURRENCE: from the state before the first tile (online_softmax), from the state after it
       (online_softmax_after), and for an accumulator cleared at the start of every group of T points (resetting_online).
  § 5  THE COMBINATION of the groups' results, and the whole on an axis of G * T * B entries (combine, softmax_groups).
-/
import Mathlib.Data.EReal.Inv
import Mathlib.Analysis.SpecialFunctions.Exp
import Mathlib.Order.Fin.Basic
import Idealize.ShloMosaic.PureOps.Ideal
import proofs.«118595_j1726576853663_2_alg».proof.Proof.LibBatchNormVar
import proofs.«118595_j1726576853663_2_alg».proof.Proof.LibTwoCoreSum

open scoped BigOperators
open Idealize.ShloMosaic

namespace Cert.LibOnlineSoftmax

open Cert.LibBatchNormVar Cert.LibTileSum Cert.LibTwoCoreSum

/-! ## § 1 The real-number core -/

/-- exp (a − b) · exp (b − c) = exp (a − c). -/
theorem exp_sub_mul_exp_sub (a b c : ℝ) : Real.exp (a - b) * Real.exp (b - c) = Real.exp (a - c) := by
  rw [← Real.exp_add]; congr 1; ring

/-- RESCALING: a sum of exponentials taken relative to μ, times exp (μ − ν), is the sum taken relative to ν. -/
theorem rescale_real {κ : Type*} (s : Finset κ) (y : κ → ℝ) (μ ν : ℝ) :
    (∑ i ∈ s, Real.exp (y i - μ)) * Real.exp (μ - ν) = ∑ i ∈ s, Real.exp (y i - ν) := by
  rw [Finset.sum_mul]
  exact Finset.sum_congr rfl fun i _ => exp_sub_mul_exp_sub _ _ _

/-! ## § 2 On the extended reals -/

/-- The exponential of a difference of two reals, taken in the extended reals, is the real exponential. -/
theorem exp_coe_sub (a b : ℝ) : Ideal.exp ((a : EReal) - (b : EReal)) = ((Real.exp (a - b) : ℝ) : EReal) := by
  rw [← EReal.coe_sub, Ideal.exp_coe]

/-- RESCALING on the extended reals, for real entries and real reference points μ, ν. -/
theorem rescale {κ : Type*} (s : Finset κ) (y : κ → ℝ) (μ ν : ℝ) :
    (∑ i ∈ s, Ideal.exp ((y i : EReal) - (μ : EReal))) * Ideal.exp ((μ : EReal) - (ν : EReal))
      = ∑ i ∈ s, Ideal.exp ((y i : EReal) - (ν : EReal)) := by
  simp only [exp_coe_sub]
  rw [← coe_sum, ← EReal.coe_mul, rescale_real, coe_sum]

/-- RESCALING a sum over tiles of sums over each tile's entries. -/
theorem rescale₂ {κ κ' : Type*} (s : Finset κ) (u : Finset κ') (y : κ → κ' → ℝ) (μ ν : ℝ) :
    (∑ t ∈ s, ∑ r ∈ u, Ideal.exp ((y t r : EReal) - (μ : EReal))) * Ideal.exp ((μ : EReal) - (ν : EReal))
      = ∑ t ∈ s, ∑ r ∈ u, Ideal.exp ((y t r : EReal) - (ν : EReal)) := by
  rw [← Finset.sum_product', ← Finset.sum_product']
  exact rescale (s ×ˢ u) (fun p => y p.1 p.2) μ ν

/-- At the first tile the running sum is 0 and 0 · exp (⊥ − m) = 0, whatever m is: only the tile's own sum is left. -/
theorem zero_mul_exp_add (m b : EReal) : 0 * Ideal.exp (⊥ - m) + b = b := by rw [zero_mul, zero_add]

/-! ## § 3 Maxima -/

/-- A fold of max from ⊥ over a finite set is the supremum over it. -/
theorem fold_max_bot {κ : Type*} (s : Finset κ) (f : κ → EReal) : s.fold max ⊥ f = s.sup f := rfl

/-- A fold of max from any start b is the larger of b and the supremum. -/
theorem fold_max {κ : Type*} (s : Finset κ) (b : EReal) (f : κ → EReal) : s.fold max b f = max b (s.sup f) := by
  induction s using Finset.cons_induction with
  | empty => simp
  | cons a s ha ih => rw [Finset.fold_cons, ih, Finset.sup_cons, max_left_comm]

/-- The supremum of finitely many real numbers, at least one, taken in the extended reals, is a real number. -/
theorem exists_real_sup {κ : Type*} (s : Finset κ) (hs : s.Nonempty) (f : κ → EReal)
    (hf : ∀ i ∈ s, ∃ r : ℝ, f i = (r : EReal)) : ∃ r : ℝ, s.sup f = (r : EReal) := by
  induction hs using Finset.Nonempty.cons_induction with
  | singleton a => simpa using hf a (Finset.mem_singleton_self a)
  | cons a s ha hs ih =>
    obtain ⟨r, hr⟩ := hf a (Finset.mem_cons_self a s)
    obtain ⟨q, hq⟩ := ih fun i hi => hf i (Finset.mem_cons.mpr (Or.inr hi))
    exact ⟨max r q, by rw [Finset.sup_cons, hr, hq, EReal.coe_strictMono.monotone.map_max]⟩

/-- The supremum over tiles of the suprema over each tile's real entries is a real number (at least one tile, at
    least one entry per tile). -/
theorem exists_real_sup₂ {κ : Type*} {B : ℕ} (hB : 0 < B) (s : Finset κ) (hs : s.Nonempty) (y : κ → Fin B → ℝ) :
    ∃ r : ℝ, (s.sup fun t => Finset.univ.sup fun r => (y t r : EReal)) = (r : EReal) :=
  haveI : Nonempty (Fin B) := ⟨⟨0, hB⟩⟩
  exists_real_sup s hs _ fun t _ => exists_real_sup Finset.univ Finset.univ_nonempty _ fun r _ => ⟨y t r, rfl⟩

section Regroup
variable {α : Type*} [SemilatticeSup α] [OrderBot α]

/-- A supremum over the first n naturals is the supremum over Fin n. -/
theorem sup_range_eq_sup_fin (n : ℕ) (f : ℕ → α) : (Finset.range n).sup f = Finset.univ.sup fun t : Fin n => f t.val := by
  apply le_antisymm
  · exact Finset.sup_le fun t ht =>
      Finset.le_sup (f := fun t : Fin n => f t.val) (Finset.mem_univ ⟨t, Finset.mem_range.mp ht⟩)
  · exact Finset.sup_le fun t _ => Finset.le_sup (Finset.mem_range.mpr t.isLt)

/-- REGROUPING A SUPREMUM BY TILES: over T * B indices it is the supremum over the tiles of the supremum over each
    tile's B indices, index r of tile t being t * B + r. -/
theorem sup_tiles {T B : ℕ} (f : Fin (T * B) → α) :
    Finset.univ.sup f = Finset.univ.sup fun t : Fin T => Finset.univ.sup fun r : Fin B => f ⟨t.val * B + r.val, tile_lt t r⟩ := by
  apply le_antisymm
  · refine Finset.sup_le fun k _ => ?_
    obtain ⟨t, r, hk⟩ := exists_tile (T := T) (B := B) k.val k.isLt
    have hk' : k = ⟨t.val * B + r.val, tile_lt t r⟩ := Fin.ext (by rw [hk, Nat.mul_comm])
    rw [hk']
    exact le_trans (Finset.le_sup (f := fun r : Fin B => f ⟨t.val * B + r.val, tile_lt t r⟩) (Finset.mem_univ r))
      (Finset.le_sup (f := fun t : Fin T => Finset.univ.sup fun r : Fin B => f ⟨t.val * B + r.val, tile_lt t r⟩)
        (Finset.mem_univ t))
  · exact Finset.sup_le fun t _ => Finset.sup_le fun r _ => Finset.le_sup (Finset.mem_univ _)

/-- REGROUPING A SUPREMUM IN THREE LEVELS: over G * T * B indices it is the supremum over the groups, the tiles of a
    group and the indices of a tile, index r of tile t of group g being (g * T + t) * B + r. -/
theorem sup_groups {G T B : ℕ} (f : Fin (G * T * B) → α) :
    Finset.univ.sup f = Finset.univ.sup fun g : Fin G => Finset.univ.sup fun t : Fin T => Finset.univ.sup fun r : Fin B =>
      f ⟨(g.val * T + t.val) * B + r.val, group_lt g t r⟩ := by
  rw [sup_tiles (T := G * T) (B := B) f,
    sup_tiles (T := G) (B := T) fun q : Fin (G * T) => Finset.univ.sup fun r : Fin B => f ⟨q.val * B + r.val, tile_lt q r⟩]

end Regroup

/-! ## § 4 The online recurrence -/

variable {B : ℕ}

/-- THE ONLINE RECURRENCE, from the state BEFORE the first tile. Tiles t = 0, 1, … of B > 0 real entries y t r each;
    m t and s t the running maximum and running sum before tile t (after t tiles): m 0 = ⊥, s 0 = 0, and tile t gives
    m (t+1) = max (m t) (the tile's maximum), s (t+1) = s t · exp (m t − m (t+1)) + ∑_r exp (y t r − m (t+1)). Then
    after n tiles m n is the maximum of all their entries and s n the sum of exp (y − m n) over all of them. -/
theorem online_softmax (hB : 0 < B) (y : ℕ → Fin B → ℝ) (m s : ℕ → EReal) (n : ℕ) (hm0 : m 0 = ⊥) (hs0 : s 0 = 0)
    (hm : ∀ t, t < n → m (t + 1) = max (m t) (Finset.univ.sup fun r => (y t r : EReal)))
    (hs : ∀ t, t < n → s (t + 1) = s t * Ideal.exp (m t - m (t + 1)) + ∑ r, Ideal.exp ((y t r : EReal) - m (t + 1))) :
    m n = (Finset.range n).sup (fun t => Finset.univ.sup fun r => (y t r : EReal))
      ∧ s n = ∑ t ∈ Finset.range n, ∑ r, Ideal.exp ((y t r : EReal) - m n) := by
  induction n with
  | zero => simp [hm0, hs0]
  | succ n ih =>
    obtain ⟨ihm, ihs⟩ := ih (fun t ht => hm t (Nat.lt_succ_of_lt ht)) (fun t ht => hs t (Nat.lt_succ_of_lt ht))
    have hm' : m (n + 1) = (Finset.range (n + 1)).sup (fun t => Finset.univ.sup fun r => (y t r : EReal)) := by
      rw [hm n (Nat.lt_succ_self n), ihm, Finset.range_add_one, Finset.sup_insert, max_comm]
    refine ⟨hm', ?_⟩
    rw [hs n (Nat.lt_succ_self n), Finset.sum_range_succ]
    congr 1
    rcases Nat.eq_zero_or_pos n with rfl | hn
    · rw [hs0, zero_mul, Finset.range_zero, Finset.sum_empty]
    · obtain ⟨μ, hμ⟩ : ∃ μ : ℝ, m n = (μ : EReal) := by
        rw [ihm]; exact exists_real_sup₂ hB _ (Finset.nonempty_range_iff.mpr hn.ne') y
      obtain ⟨ν, hν⟩ : ∃ ν : ℝ, m (n + 1) = (ν : EReal) := by
        rw [hm']; exact exists_real_sup₂ hB _ (Finset.nonempty_range_iff.mpr (Nat.succ_ne_zero n)) y
      rw [ihs, hμ, hν]
      exact rescale₂ _ _ _ μ ν

/-- THE ONLINE RECURRENCE, from the state AFTER the first tile. M t and S t the running maximum and sum after tile t;
    the first tile is taken from a cleared state (M 0 = max ⊥ (tile 0's maximum), S 0 = 0 · exp (⊥ − M 0) + tile 0's sum
    relative to M 0), every later tile from what the tile before left. Then after tile n, M n is the maximum of the
    entries of tiles 0 … n and S n the sum of exp (y − M n) over them. -/
theorem online_softmax_after (hB : 0 < B) (y : ℕ → Fin B → ℝ) (M S : ℕ → EReal) (n : ℕ)
    (hM0 : M 0 = max ⊥ (Finset.univ.sup fun r => (y 0 r : EReal)))
    (hS0 : S 0 = 0 * Ideal.exp (⊥ - M 0) + ∑ r, Ideal.exp ((y 0 r : EReal) - M 0))
    (hM : ∀ t, t < n → M (t + 1) = max (M t) (Finset.univ.sup fun r => (y (t + 1) r : EReal)))
    (hS : ∀ t, t < n → S (t + 1) = S t * Ideal.exp (M t - M (t + 1)) + ∑ r, Ideal.exp ((y (t + 1) r : EReal) - M (t + 1))) :
    M n = (Finset.range (n + 1)).sup (fun t => Finset.univ.sup fun r => (y t r : EReal))
      ∧ S n = ∑ t ∈ Finset.range (n + 1), ∑ r, Ideal.exp ((y t r : EReal) - M n) := by
  refine online_softmax hB y (fun t => Nat.casesOn t ⊥ M) (fun t => Nat.casesOn t 0 S) (n + 1) rfl rfl
    (fun t ht => ?_) (fun t ht => ?_)
  · cases t with
    | zero => exact hM0
    | succ t => exact hM t (Nat.lt_of_succ_lt_succ ht)
  · cases t with
    | zero => exact hS0
    | succ t => exact hS t (Nat.lt_of_succ_lt_succ ht)

/-- THE ONLINE RECURRENCE WITH AN ACCUMULATOR CLEARED AT THE START OF EVERY GROUP. Points n = 0, 1, 2, …, each with its
    tile y n of B > 0 real entries; M n, S n what the running maximum and sum hold after point n, where a point with
    n % T = 0 starts from the cleared state (⊥, 0) and every other point from what point n − 1 left. Then after point
    g * T + i (i < T), M is the maximum of the entries of tiles g * T, …, g * T + i and S the sum of exp (y − M) over them:
    nothing of the groups before. -/
theorem resetting_online (hB : 0 < B) (y : ℕ → Fin B → ℝ) (M S : ℕ → EReal) (T : ℕ)
    (hM0 : ∀ n, n % T = 0 → M n = max ⊥ (Finset.univ.sup fun r => (y n r : EReal)))
    (hS0 : ∀ n, n % T = 0 → S n = 0 * Ideal.exp (⊥ - M n) + ∑ r, Ideal.exp ((y n r : EReal) - M n))
    (hM : ∀ n, n % T ≠ 0 → M n = max (M (n - 1)) (Finset.univ.sup fun r => (y n r : EReal)))
    (hS : ∀ n, n % T ≠ 0 → S n = S (n - 1) * Ideal.exp (M (n - 1) - M n) + ∑ r, Ideal.exp ((y n r : EReal) - M n))
    (g i : ℕ) (hi : i < T) :
    M (g * T + i) = (Finset.range (i + 1)).sup (fun j => Finset.univ.sup fun r => (y (g * T + j) r : EReal))
      ∧ S (g * T + i) = ∑ j ∈ Finset.range (i + 1), ∑ r, Ideal.exp ((y (g * T + j) r : EReal) - M (g * T + i)) := by
  have hne : ∀ j, j < i → (g * T + (j + 1)) % T ≠ 0 := fun j hj => by
    rw [Nat.add_comm, Nat.add_mul_mod_self_right, Nat.mod_eq_of_lt (by omega)]; omega
  have h00 : (g * T + 0) % T = 0 := by simp [Nat.mul_mod_left]
  exact online_softmax_after hB (fun j => y (g * T + j)) (fun j => M (g * T + j)) (fun j => S (g * T + j)) i
    (hM0 _ h00) (hS0 _ h00) (fun j hj => hM _ (hne j hj)) (fun j hj => hS _ (hne j hj))

/-- After the LAST point of group g (T = T' + 1 points per group) the cleared-per-group running maximum and sum hold the
    group's maximum and its sum of exp (y − maximum), written over Fin T. -/
theorem resetting_online_last (hB : 0 < B) (y : ℕ → Fin B → ℝ) (M S : ℕ → EReal) (T' : ℕ)
    (hM0 : ∀ n, n % (T' + 1) = 0 → M n = max ⊥ (Finset.univ.sup fun r => (y n r : EReal)))
    (hS0 : ∀ n, n % (T' + 1) = 0 → S n = 0 * Ideal.exp (⊥ - M n) + ∑ r, Ideal.exp ((y n r : EReal) - M n))
    (hM : ∀ n, n % (T' + 1) ≠ 0 → M n = max (M (n - 1)) (Finset.univ.sup fun r => (y n r : EReal)))
    (hS : ∀ n, n % (T' + 1) ≠ 0 →
      S n = S (n - 1) * Ideal.exp (M (n - 1) - M n) + ∑ r, Ideal.exp ((y n r : EReal) - M n))
    (g : ℕ) :
    M (g * (T' + 1) + T')
        = Finset.univ.sup (fun t : Fin (T' + 1) => Finset.univ.sup fun r => (y (g * (T' + 1) + t.val) r : EReal))
      ∧ S (g * (T' + 1) + T')
        = ∑ t : Fin (T' + 1), ∑ r, Ideal.exp ((y (g * (T' + 1) + t.val) r : EReal) - M (g * (T' + 1) + T')) := by
  obtain ⟨h1, h2⟩ := resetting_online hB y M S (T' + 1) hM0 hS0 hM hS g T' (Nat.lt_succ_self _)
  refine ⟨?_, ?_⟩
  · rw [h1, sup_range_eq_sup_fin]
  · rw [h2, Finset.sum_range]

/-! ## § 5 Combining the groups -/

/-- THE COMBINATION. Groups g of a finite family, each with its real entries y g i (i in a finite set u g … here one
    set u for all), its maximum-so-far m g a real number and its sum s g = ∑_i exp (y g i − m g). For ANY real μ
    (the overall maximum in a softmax), ∑_g s g · exp (m g − μ) = ∑_g ∑_i exp (y g i − μ). -/
theorem combine {γ κ : Type*} (G : Finset γ) (u : Finset κ) (y : γ → κ → ℝ) (m : γ → ℝ) (s : γ → EReal) (μ : ℝ)
    (hs : ∀ g ∈ G, s g = ∑ i ∈ u, Ideal.exp ((y g i : EReal) - (m g : EReal))) :
    ∑ g ∈ G, s g * Ideal.exp ((m g : EReal) - (μ : EReal)) = ∑ g ∈ G, ∑ i ∈ u, Ideal.exp ((y g i : EReal) - (μ : EReal)) :=
  Finset.sum_congr rfl fun g hg => by rw [hs g hg]; exact rescale u (y g) (m g) μ

/-- THE WHOLE SOFTMAX DENOMINATOR ON AN AXIS OF G * B ENTRIES (G, B > 0), from the parts' results. Real entries z k; part
    g's result (m g, s g) is the maximum of its B entries and the sum of exp (z − m g) over them. Then the maximum of the
    m g is the maximum of all the entries, and ∑_g s g · exp (m g − that) is the sum of exp (z − that) over all of them. -/
theorem softmax_parts {G B : ℕ} (hG : 0 < G) (hB : 0 < B) (z : Fin (G * B) → ℝ) (m s : Fin G → EReal)
    (hm : ∀ g : Fin G, m g = Finset.univ.sup fun r : Fin B => (z ⟨g.val * B + r.val, tile_lt g r⟩ : EReal))
    (hs : ∀ g : Fin G, s g = ∑ r : Fin B, Ideal.exp ((z ⟨g.val * B + r.val, tile_lt g r⟩ : EReal) - m g)) :
    Finset.univ.sup m = Finset.univ.sup (fun k => (z k : EReal))
      ∧ ∑ g, s g * Ideal.exp (m g - Finset.univ.sup m) = ∑ k, Ideal.exp ((z k : EReal) - Finset.univ.sup m) := by
  haveI : Nonempty (Fin G) := ⟨⟨0, hG⟩⟩
  haveI : Nonempty (Fin B) := ⟨⟨0, hB⟩⟩
  have hsup : Finset.univ.sup m = Finset.univ.sup (fun k => (z k : EReal)) := by
    rw [sup_tiles (fun k => (z k : EReal))]
    exact congrArg _ (funext hm)
  refine ⟨hsup, ?_⟩
  have hmr : ∀ g : Fin G, ∃ μ : ℝ, m g = (μ : EReal) := fun g => by
    rw [hm g]; exact exists_real_sup _ Finset.univ_nonempty _ fun r _ => ⟨_, rfl⟩
  obtain ⟨mr, hmr⟩ := exists_real_family m hmr
  obtain ⟨μ, hμ⟩ : ∃ μ : ℝ, Finset.univ.sup m = (μ : EReal) :=
    exists_real_sup _ Finset.univ_nonempty _ fun g _ => ⟨mr g, congrFun hmr g⟩
  rw [hμ, sum_tiles fun k => Ideal.exp ((z k : EReal) - (μ : EReal))]
  refine Finset.sum_congr rfl fun g _ => ?_
  rw [hs g, congrFun hmr g]
  exact rescale _ (fun r : Fin B => z ⟨g.val * B + r.val, tile_lt g r⟩) (mr g) μ

/-- THE WHOLE SOFTMAX DENOMINATOR ON AN AXIS OF G * T * B ENTRIES (G, T, B > 0), from the groups' results. Real entries
    z k; group g's result (m g, s g) is the maximum of its T * B entries and the sum of exp (z − m g) over them (what
    the online recurrence leaves after the group's last tile). Then the maximum of the m g is the maximum of all the
    entries, and ∑_g s g · exp (m g − that) is the sum of exp (z − that) over all the entries. -/
theorem softmax_groups {G T B : ℕ} (hG : 0 < G) (hT : 0 < T) (hB : 0 < B) (z : Fin (G * T * B) → ℝ) (m s : Fin G → EReal)
    (hm : ∀ g : Fin G, m g = Finset.univ.sup fun t : Fin T => Finset.univ.sup fun r : Fin B =>
      (z ⟨(g.val * T + t.val) * B + r.val, group_lt g t r⟩ : EReal))
    (hs : ∀ g : Fin G, s g = ∑ t : Fin T, ∑ r : Fin B,
      Ideal.exp ((z ⟨(g.val * T + t.val) * B + r.val, group_lt g t r⟩ : EReal) - m g)) :
    Finset.univ.sup m = Finset.univ.sup (fun k => (z k : EReal))
      ∧ ∑ g, s g * Ideal.exp (m g - Finset.univ.sup m) = ∑ k, Ideal.exp ((z k : EReal) - Finset.univ.sup m) := by
  haveI : Nonempty (Fin G) := ⟨⟨0, hG⟩⟩
  haveI : Nonempty (Fin T) := ⟨⟨0, hT⟩⟩
  have hsup : Finset.univ.sup m = Finset.univ.sup (fun k => (z k : EReal)) := by
    rw [sup_groups (fun k => (z k : EReal))]
    exact congrArg _ (funext hm)
  refine ⟨hsup, ?_⟩
  have hmr : ∀ g : Fin G, ∃ μ : ℝ, m g = (μ : EReal) := fun g => by
    rw [hm g]; exact exists_real_sup₂ hB _ Finset.univ_nonempty _
  obtain ⟨mr, hmr⟩ := exists_real_family m hmr
  obtain ⟨μ, hμ⟩ : ∃ μ : ℝ, Finset.univ.sup m = (μ : EReal) :=
    exists_real_sup _ Finset.univ_nonempty _ fun g _ => ⟨mr g, congrFun hmr g⟩
  rw [hμ, sum_groups fun k => Ideal.exp ((z k : EReal) - (μ : EReal))]
  refine Finset.sum_congr rfl fun g _ => ?_
  rw [hs g, congrFun hmr g]
  exact rescale₂ _ _ (fun (t : Fin T) (r : Fin B) => z ⟨(g.val * T + t.val) * B + r.val, group_lt g t r⟩) (mr g) μ

end Cert.LibOnlineSoftmax
-- ==== Proof.BridgeMath.lean ====
/-
  The mathematics between the two programs, over the functions of Spec alone.

  § 1  FINITENESS. A sign is 1 or −1, a real number; a raw product-sum of real entries is a real number; so are a mean, a
       one-pass variance (which is moreover ≥ 0) and a normalised value of real data.
  § 2  THE VARIANCE. For a real-valued batch x of 65536 rows, the one-pass variance (column sum and column sum of squares,
       clamped at 0) is the two-pass variance (mean of squared deviations): varK (colSum x) (colSumSq x) = varR x.
       The column sums themselves, taken as two halves of 32768 rows, add up to the column sums.
  § 3  THE SOFTMAX. For a real-valued y of 65536 rows, each half of 32768 rows reduced to (its maximum m, its sum s of
       exp (y − m)), the overall maximum μ = max of the two m and the denominator ∑_c s_c · exp (m_c − μ) give
       exp (y r o − μ) / denominator = softmax0 y r o.
-/
import proofs.«118595_j1726576853663_2_alg».proof.Proof.Spec
import proofs.«118595_j1726576853663_2_alg».proof.Proof.LibBatchNormVar
import proofs.«118595_j1726576853663_2_alg».proof.Proof.LibTwoCoreSum
import proofs.«118595_j1726576853663_2_alg».proof.Proof.LibOnlineSoftmax

open scoped BigOperators
open Idealize.ShloMosaic

namespace Cert.BridgeMath

open Cert.Spec Cert.LibBatchNormVar Cert.LibTileSum Cert.LibTwoCoreSum Cert.LibOnlineSoftmax

variable {M N K : ℕ}

/-! ## § 1 Finiteness -/

/-- A sign is 1 or −1. -/
theorem sgn_eq (v : EReal) : sgn v = 1 ∨ sgn v = -1 := by
  unfold sgn; split
  · exact Or.inl rfl
  · exact Or.inr rfl

/-- A sign is a real number. -/
theorem sgn_real (v : EReal) : ∃ q : ℝ, sgn v = (q : EReal) := by
  rcases sgn_eq v with h | h
  · exact ⟨1, by rw [h, EReal.coe_one]⟩
  · exact ⟨-1, by rw [h, EReal.coe_neg, EReal.coe_one]⟩

/-- A raw product-sum of real entries is a real number. -/
theorem raw_real (a : Fin M → Fin K → EReal) (w : Fin N → Fin K → EReal)
    (ha : ∀ r i, ∃ q : ℝ, a r i = (q : EReal)) (hw : ∀ o i, ∃ q : ℝ, w o i = (q : EReal)) (r : Fin M) (o : Fin N) :
    ∃ q : ℝ, raw a w r o = (q : EReal) :=
  exists_real_sum _ _ fun i => exists_real_mul (ha r i) (hw o i)

/-- A raw product-sum of signs is a real number, whatever the signs are taken of. -/
theorem raw_sgn_real (a : Fin M → Fin K → EReal) (w : Fin N → Fin K → EReal) (r : Fin M) (o : Fin N) :
    ∃ q : ℝ, raw (fun r i => sgn (a r i)) (fun o i => sgn (w o i)) r o = (q : EReal) :=
  raw_real _ _ (fun r i => sgn_real (a r i)) (fun o i => sgn_real (w o i)) r o

/-- A two-index family of extended reals each of which is a real number is the coercion of a family of reals. -/
theorem exists_real_family₂ {α β : Type*} (x : α → β → EReal) (hx : ∀ r o, ∃ q : ℝ, x r o = (q : EReal)) :
    ∃ X : α → β → ℝ, x = fun r o => (X r o : EReal) :=
  ⟨fun r o => (hx r o).choose, funext fun r => funext fun o => (hx r o).choose_spec⟩

/-- The column sum of a real-valued batch is a real number. -/
theorem colSum_real (x : Fin M → Fin N → EReal) (hx : ∀ r o, ∃ q : ℝ, x r o = (q : EReal)) (o : Fin N) :
    ∃ q : ℝ, colSum x o = (q : EReal) :=
  exists_real_sum _ _ fun r => hx r o

/-- The mean from a real column sum is a real number. -/
theorem meanOf_real (S : Fin N → EReal) (hS : ∀ o, ∃ q : ℝ, S o = (q : EReal)) (o : Fin N) :
    ∃ q : ℝ, meanOf S o = (q : EReal) := by
  obtain ⟨q, hq⟩ := hS o
  exact ⟨q / 65536, by unfold meanOf bsz; rw [hq, div_coe_coe q (by norm_num)]⟩

/-- The stabiliser ε is the real number 10995116 · 2⁻⁴⁰ (binary32: exponent field 110, fraction field 2606508). -/
theorem eps_eq : eps = (((10995116 : ℝ) * (2 : ℝ) ^ (-40 : ℤ) : ℝ) : EReal) := by
  unfold eps; simp [Ideal.ofBits, Ideal.ieee]

/-- ε is a positive real number. -/
theorem eps_real_pos : ∃ e : ℝ, 0 < e ∧ eps = (e : EReal) := ⟨_, by positivity, eps_eq⟩

/-- The reciprocal square root of a real v ≥ 0 plus a real e > 0 is a real number: no corner of it is met. -/
theorem rsqrt_real {v e : ℝ} (hv : 0 ≤ v) (he : 0 < e) : ∃ q : ℝ, Ideal.rsqrt ((v : EReal) + (e : EReal)) = (q : EReal) := by
  rw [← EReal.coe_add, Ideal.rsqrt_coe, if_neg (by linarith), if_neg (by linarith)]
  exact ⟨_, rfl⟩

/-- A normalised value of real data, with real γ, β and mean and a real variance ≥ 0, is a real number. -/
theorem norm_real (γ β mean var : Fin N → EReal) (x : Fin M → Fin N → EReal)
    (hγ : ∀ o, ∃ q : ℝ, γ o = (q : EReal)) (hβ : ∀ o, ∃ q : ℝ, β o = (q : EReal))
    (hmean : ∀ o, ∃ q : ℝ, mean o = (q : EReal)) (hvar : ∀ o, ∃ v : ℝ, 0 ≤ v ∧ var o = (v : EReal))
    (hx : ∀ r o, ∃ q : ℝ, x r o = (q : EReal)) (r : Fin M) (o : Fin N) :
    ∃ q : ℝ, Spec.norm γ β mean var x r o = (q : EReal) := by
  obtain ⟨g, hg⟩ := hγ o; obtain ⟨b, hb⟩ := hβ o; obtain ⟨mu, hmu⟩ := hmean o; obtain ⟨v, hv0, hv⟩ := hvar o
  obtain ⟨xx, hxx⟩ := hx r o; obtain ⟨e, he0, he⟩ := eps_real_pos
  obtain ⟨q, hq⟩ := rsqrt_real hv0 he0
  refine ⟨g * (xx - mu) * q + b, ?_⟩
  unfold Spec.norm
  rw [hg, hb, hmu, hv, hxx, he, hq, ← EReal.coe_sub, ← EReal.coe_mul, ← EReal.coe_mul, ← EReal.coe_add]

/-! ## § 2 The variance -/

/-- THE VARIANCE, ONE PASS AGAINST TWO: on a real-valued batch of 65536 rows the kernel form of the variance, from the
    column sums and the column sums of squares, is the reference form, the mean of the squared deviations. -/
theorem varK_eq_varR (x : Fin 65536 → Fin N → EReal) (hx : ∀ r o, ∃ q : ℝ, x r o = (q : EReal)) :
    varK (colSum x) (colSumSq x) = varR x := by
  funext o
  exact max_var_ereal (fun r => x r o) (fun r => hx r o) 65536 (by simp) (by norm_num)

/-- The one-pass variance of a real-valued batch of 65536 rows is a real number, not negative. -/
theorem varK_real (x : Fin 65536 → Fin N → EReal) (hx : ∀ r o, ∃ q : ℝ, x r o = (q : EReal)) (o : Fin N) :
    ∃ v : ℝ, 0 ≤ v ∧ varK (colSum x) (colSumSq x) o = (v : EReal) :=
  exists_real_max_var (fun r => x r o) (fun r => hx r o) 65536 (by simp) (by norm_num)

/-- THE COLUMN SUMS FROM THE TWO HALVES: the sums over rows 0 … 32767 and over rows 32768 … 65535 add up to the column
    sum (in any order of association; here half c is rows c * 32768 + r'). No finiteness is needed. -/
theorem colSum_halves (x : Fin 65536 → Fin N → EReal) (o : Fin N) :
    ∑ c : Fin 2, ∑ r' : Fin 32768, x ⟨c.val * 32768 + r'.val, by have := c.isLt; have := r'.isLt; omega⟩ o = colSum x o :=
  (sum_tiles (T := 2) (B := 32768) fun k : Fin (2 * 32768) => x k o).symm

/-- The same for the column sums of squares. -/
theorem colSumSq_halves (x : Fin 65536 → Fin N → EReal) (o : Fin N) :
    ∑ c : Fin 2, ∑ r' : Fin 32768,
        x ⟨c.val * 32768 + r'.val, by have := c.isLt; have := r'.isLt; omega⟩ o
          * x ⟨c.val * 32768 + r'.val, by have := c.isLt; have := r'.isLt; omega⟩ o
      = colSumSq x o :=
  (sum_tiles (T := 2) (B := 32768) fun k : Fin (2 * 32768) => x k o * x k o).symm

/-- A half's sum from its 16 tiles of 2048 rows: rows c * 32768 + (t * 2048 + r). -/
theorem half_tiles (f : Fin 32768 → EReal) :
    ∑ r', f r' = ∑ t : Fin 16, ∑ r : Fin 2048, f ⟨t.val * 2048 + r.val, by have := t.isLt; have := r.isLt; omega⟩ :=
  sum_tiles (T := 16) (B := 2048) f

/-! ## § 3 The softmax -/

/-- THE SOFTMAX FROM THE TWO HALVES. y a real-valued array of 65536 rows; for each half c (rows c * 32768 + r') let
    m c o be the half's column maximum and s c o its column sum of exp (y − m c o). With μ o the larger of the two maxima
    and the denominator ∑_c s c o · exp (m c o − μ o), the quotient exp (y r o − μ o) / denominator is softmax0 y r o. -/
theorem softmax_halves (y : Fin 65536 → Fin N → EReal) (hy : ∀ r o, ∃ q : ℝ, y r o = (q : EReal))
    (m s : Fin 2 → Fin N → EReal)
    (hm : ∀ (c : Fin 2) (o : Fin N), m c o = Finset.univ.sup fun r' : Fin 32768 =>
      y ⟨c.val * 32768 + r'.val, by have := c.isLt; have := r'.isLt; omega⟩ o)
    (hs : ∀ (c : Fin 2) (o : Fin N), s c o = ∑ r' : Fin 32768,
      Ideal.exp (y ⟨c.val * 32768 + r'.val, by have := c.isLt; have := r'.isLt; omega⟩ o - m c o))
    (r : Fin 65536) (o : Fin N) :
    Ideal.div (Ideal.exp (y r o - Finset.univ.sup fun c => m c o))
        (∑ c, s c o * Ideal.exp (m c o - Finset.univ.sup fun c => m c o))
      = softmax0 y r o := by
  obtain ⟨Y, rfl⟩ := exists_real_family₂ y hy
  obtain ⟨h1, h2⟩ := softmax_parts (G := 2) (B := 32768) (by norm_num) (by norm_num) (fun k : Fin (2 * 32768) => Y k o)
    (fun c => m c o) (fun c => s c o) (fun c => hm c o) (fun c => hs c o)
  unfold softmax0 colMax
  rw [h2, h1]

/-- The overall maximum from the two halves' maxima is the column maximum. -/
theorem colMax_halves (y : Fin 65536 → Fin N → EReal) (m : Fin 2 → Fin N → EReal)
    (hm : ∀ (c : Fin 2) (o : Fin N), m c o = Finset.univ.sup fun r' : Fin 32768 =>
      y ⟨c.val * 32768 + r'.val, by have := c.isLt; have := r'.isLt; omega⟩ o)
    (o : Fin N) : (Finset.univ.sup fun c => m c o) = colMax y o := by
  unfold colMax
  rw [sup_tiles (T := 2) (B := 32768) fun k : Fin (2 * 32768) => y k o]
  exact congrArg _ (funext fun c => hm c o)

end Cert.BridgeMath
-- ==== Proof.BridgeNet.lean ====
/-
  The network written with the one-pass variance is the network written with the two-pass variance.

  Every layer's products are sums of products of signs, so they are real numbers whatever the layer before produced;
  on a real-valued batch of 65536 rows the two forms of the variance agree; so the two forms of the normalisation agree
  layer after layer, with no hypothesis on the arguments. With real γ and β at the last layer its normalised values are
  real, and the softmax assembled from the two halves of the batch (each half's column maximum and column sum of
  exponentials relative to it, rescaled to the overall maximum) is the softmax.
-/
import proofs.«118595_j1726576853663_2_alg».proof.Proof.SpecNet
import proofs.«118595_j1726576853663_2_alg».proof.Proof.BridgeMath

open scoped BigOperators
open Idealize.ShloMosaic

namespace Cert.BridgeNet

open Cert.Spec Cert.BridgeMath

variable {M N K : ℕ}

/-! ## § 1 The two normalisations agree -/

/-- A layer's products are real numbers, whatever its input and weights are. -/
theorem rawNext_real (y : Fin M → Fin K → EReal) (w : Fin N → Fin K → EReal) (r : Fin M) (o : Fin N) :
    ∃ q : ℝ, rawNext y w r o = (q : EReal) :=
  raw_sgn_real y w r o

/-- The first layer's products are real numbers. -/
theorem raw0_real (P : Params) (r : Fin 65536) (o : Fin 256) : ∃ q : ℝ, P.raw0 r o = (q : EReal) :=
  raw_sgn_real (fun r i => P.x r i - half) P.w0 r o

/-- On a real-valued batch of 65536 rows the normalisation with the one-pass variance is the normalisation with the
    two-pass variance, for any γ and β. -/
theorem normK_eq_normR (γ β : Fin N → EReal) (x : Fin 65536 → Fin N → EReal) (hx : ∀ r o, ∃ q : ℝ, x r o = (q : EReal)) :
    normK γ β x = normR γ β x := by
  unfold normK normR
  rw [varK_eq_varR x hx]

variable (P : Params)

theorem raw1K_eq : P.raw1K = P.raw1R := by
  unfold Params.raw1K Params.raw1R
  rw [normK_eq_normR _ _ _ (raw0_real P)]

/-- Every later layer's products are real numbers. -/
theorem raw1R_real (r : Fin 65536) (o : Fin 256) : ∃ q : ℝ, P.raw1R r o = (q : EReal) := rawNext_real _ _ r o
theorem raw2R_real (r : Fin 65536) (o : Fin 256) : ∃ q : ℝ, P.raw2R r o = (q : EReal) := rawNext_real _ _ r o
theorem raw3R_real (r : Fin 65536) (o : Fin 256) : ∃ q : ℝ, P.raw3R r o = (q : EReal) := rawNext_real _ _ r o
theorem raw4R_real (r : Fin 65536) (o : Fin 10) : ∃ q : ℝ, P.raw4R r o = (q : EReal) := rawNext_real _ _ r o
theorem raw4K_real (r : Fin 65536) (o : Fin 10) : ∃ q : ℝ, P.raw4K r o = (q : EReal) := rawNext_real _ _ r o

theorem raw2K_eq : P.raw2K = P.raw2R := by
  unfold Params.raw2K Params.raw2R
  rw [raw1K_eq, normK_eq_normR _ _ P.raw1R (raw1R_real P)]

theorem raw3K_eq : P.raw3K = P.raw3R := by
  unfold Params.raw3K Params.raw3R
  rw [raw2K_eq, normK_eq_normR _ _ P.raw2R (raw2R_real P)]

theorem raw4K_eq : P.raw4K = P.raw4R := by
  unfold Params.raw4K Params.raw4R
  rw [raw3K_eq, normK_eq_normR _ _ P.raw3R (raw3R_real P)]

theorem y4K_eq : P.y4K = P.y4R := by
  unfold Params.y4K Params.y4R
  rw [raw4K_eq, normK_eq_normR _ _ P.raw4R (raw4R_real P)]

/-- THE TWO NETWORKS AGREE, with no hypothesis on the arguments. -/
theorem outK_eq : P.outK = P.outR := by
  unfold Params.outK Params.outR
  rw [y4K_eq]

/-! ## § 2 The last layer's normalised values are real -/

/-- The normalisation with the one-pass variance of a real-valued batch of 65536 rows, with real γ and β, is real-valued. -/
theorem normK_real (γ β : Fin N → EReal) (x : Fin 65536 → Fin N → EReal)
    (hγ : ∀ o, ∃ q : ℝ, γ o = (q : EReal)) (hβ : ∀ o, ∃ q : ℝ, β o = (q : EReal))
    (hx : ∀ r o, ∃ q : ℝ, x r o = (q : EReal)) (r : Fin 65536) (o : Fin N) :
    ∃ q : ℝ, normK γ β x r o = (q : EReal) :=
  norm_real γ β _ _ x hγ hβ (meanOf_real _ (colSum_real x hx)) (varK_real x hx) hx r o

/-- With real γ and β at the last layer, its normalised values are real numbers. -/
theorem y4K_real (hg : ∀ o, ∃ q : ℝ, P.g4 o = (q : EReal)) (hb : ∀ o, ∃ q : ℝ, P.b4 o = (q : EReal))
    (r : Fin 65536) (o : Fin 10) : ∃ q : ℝ, P.y4K r o = (q : EReal) :=
  normK_real _ _ P.raw4K hg hb (raw4K_real P) r o

/-! ## § 3 The softmax from the two halves -/

/-- The supremum over two indices is the larger of the two values. -/
theorem sup_fin_two (f : Fin 2 → EReal) : Finset.univ.sup f = max (f 0) (f 1) := by
  apply le_antisymm
  · refine Finset.sup_le fun c _ => ?_
    rcases Fin.exists_fin_two.mp ⟨c, rfl⟩ with h | h
    · rw [h]; exact le_max_left _ _
    · rw [h]; exact le_max_right _ _
  · exact max_le (Finset.le_sup (Finset.mem_univ 0)) (Finset.le_sup (Finset.mem_univ 1))

/-- A fold of max from ⊥ over the two values, first 0 then 1, is their supremum. -/
theorem max_bot_01 (f : Fin 2 → EReal) : max (max ⊥ (f 0)) (f 1) = Finset.univ.sup f := by
  rw [sup_fin_two, max_bot_left]

/-- The same fold in the other order. -/
theorem max_bot_10 (f : Fin 2 → EReal) : max (max ⊥ (f 1)) (f 0) = Finset.univ.sup f := by
  rw [sup_fin_two, max_bot_left, max_comm]

/-- A sum over two indices started from 0, associated to the right, -/
theorem zero_add_sum_two (f : Fin 2 → EReal) : 0 + (f 0 + f 1) = ∑ c, f c := by
  rw [zero_add, Fin.sum_univ_two]

/-- and associated to the left. -/
theorem zero_add_sum_two' (f : Fin 2 → EReal) : 0 + f 0 + f 1 = ∑ c, f c := by
  rw [zero_add, Fin.sum_univ_two]

section Final

variable (hg : ∀ o, ∃ q : ℝ, P.g4 o = (q : EReal)) (hb : ∀ o, ∃ q : ℝ, P.b4 o = (q : EReal))
  (m s : Fin 2 → Fin 10 → EReal)
  (hm : ∀ (c : Fin 2) (o : Fin 10), m c o = Finset.univ.sup fun r' : Fin 32768 =>
    P.y4K ⟨c.val * 32768 + r'.val, by have := c.isLt; have := r'.isLt; omega⟩ o)
  (hs : ∀ (c : Fin 2) (o : Fin 10), s c o = ∑ r' : Fin 32768,
    Ideal.exp (P.y4K ⟨c.val * 32768 + r'.val, by have := c.isLt; have := r'.isLt; omega⟩ o - m c o))

include hg hb hm hs

/-- THE FINAL FORM. With real γ and β at the last layer; m c o the column maximum of the last layer's normalised values
    over half c of the batch and s c o the column sum of their exponentials relative to m c o: the quotient of
    exp (y − the larger maximum) by the rescaled sum of the two s is the reference form of the network's result. -/
theorem out_halves (r : Fin 65536) (o : Fin 10) :
    Ideal.div (Ideal.exp (P.y4K r o - Finset.univ.sup fun c => m c o))
        (∑ c, s c o * Ideal.exp (m c o - Finset.univ.sup fun c => m c o))
      = P.outR r o := by
  rw [← outK_eq]
  exact softmax_halves P.y4K (y4K_real P hg hb) m s hm hs r o

/-- The same over any spelling of the overall maximum and of the denominator: gmax any expression equal to the supremum of
    the two maxima, gsum any expression equal to the sum over the two halves of s · exp (m − gmax). -/
theorem out_of_gmax_gsum (r : Fin 65536) (o : Fin 10) (gmax gsum : EReal)
    (hgmax : gmax = Finset.univ.sup fun c => m c o) (hgsum : gsum = ∑ c, s c o * Ideal.exp (m c o - gmax)) :
    Ideal.div (Ideal.exp (P.y4K r o - gmax)) gsum = P.outR r o := by
  subst hgmax; subst hgsum
  exact out_halves P hg hb m s hm hs r o

/-- The maximum folded from ⊥ over half 0 then half 1; the sum started from 0, associated to the right. -/
theorem out_fold01_right (r : Fin 65536) (o : Fin 10) :
    Ideal.div (Ideal.exp (P.y4K r o - max (max ⊥ (m 0 o)) (m 1 o)))
        (0 + (s 0 o * Ideal.exp (m 0 o - max (max ⊥ (m 0 o)) (m 1 o))
          + s 1 o * Ideal.exp (m 1 o - max (max ⊥ (m 0 o)) (m 1 o))))
      = P.outR r o :=
  out_of_gmax_gsum P hg hb m s hm hs r o _ _ (max_bot_01 fun c => m c o)
    (zero_add_sum_two fun c => s c o * Ideal.exp (m c o - max (max ⊥ (m 0 o)) (m 1 o)))

/-- The maximum folded from ⊥ over half 0 then half 1; the sum started from 0, associated to the left. -/
theorem out_fold01_left (r : Fin 65536) (o : Fin 10) :
    Ideal.div (Ideal.exp (P.y4K r o - max (max ⊥ (m 0 o)) (m 1 o)))
        (0 + s 0 o * Ideal.exp (m 0 o - max (max ⊥ (m 0 o)) (m 1 o))
          + s 1 o * Ideal.exp (m 1 o - max (max ⊥ (m 0 o)) (m 1 o)))
      = P.outR r o :=
  out_of_gmax_gsum P hg hb m s hm hs r o _ _ (max_bot_01 fun c => m c o)
    (zero_add_sum_two' fun c => s c o * Ideal.exp (m c o - max (max ⊥ (m 0 o)) (m 1 o)))

/-- The maximum folded from ⊥ over half 1 then half 0; the sum started from 0, associated to the right. -/
theorem out_fold10_right (r : Fin 65536) (o : Fin 10) :
    Ideal.div (Ideal.exp (P.y4K r o - max (max ⊥ (m 1 o)) (m 0 o)))
        (0 + (s 0 o * Ideal.exp (m 0 o - max (max ⊥ (m 1 o)) (m 0 o))
          + s 1 o * Ideal.exp (m 1 o - max (max ⊥ (m 1 o)) (m 0 o))))
      = P.outR r o :=
  out_of_gmax_gsum P hg hb m s hm hs r o _ _ (max_bot_10 fun c => m c o)
    (zero_add_sum_two fun c => s c o * Ideal.exp (m c o - max (max ⊥ (m 1 o)) (m 0 o)))

/-- The maximum folded from ⊥ over half 1 then half 0; the sum started from 0, associated to the left. -/
theorem out_fold10_left (r : Fin 65536) (o : Fin 10) :
    Ideal.div (Ideal.exp (P.y4K r o - max (max ⊥ (m 1 o)) (m 0 o)))
        (0 + s 0 o * Ideal.exp (m 0 o - max (max ⊥ (m 1 o)) (m 0 o))
          + s 1 o * Ideal.exp (m 1 o - max (max ⊥ (m 1 o)) (m 0 o)))
      = P.outR r o :=
  out_of_gmax_gsum P hg hb m s hm hs r o _ _ (max_bot_10 fun c => m c o)
    (zero_add_sum_two' fun c => s c o * Ideal.exp (m c o - max (max ⊥ (m 1 o)) (m 0 o)))

end Final

end Cert.BridgeNet
-- ==== Proof.BridgeAdapters.lean ====
/-
  The same facts read off arrays of 16 rows. The two halves' results (column sums, column sums of squares, column maxima,
  column sums of exponentials) sit in arrays of 16 rows, rows 0 … 7 holding half 0's value and rows 8 … 15 half 1's: row p
  belongs to half p / 8. The totals are taken from rows 0 and 8.
-/
import proofs.«118595_j1726576853663_2_alg».proof.Proof.BridgeNet

open scoped BigOperators
open Idealize.ShloMosaic

namespace Cert.BridgeNet

open Cert.Spec Cert.BridgeMath Cert.LibTileSum

variable {N K : ℕ}

/-! ## Rows and halves -/

/-- Row p of 16 belongs to half p / 8; if that is half c, entry r' of "row p's half" is entry r' of half c. -/
theorem core_idx (p : Fin 16) (c : Fin 2) (h : p.val / 8 = c.val) (r' : Fin 32768) :
    (⟨(p.val / 8) * 32768 + r'.val, by have := p.isLt; have := r'.isLt; omega⟩ : Fin 65536)
      = ⟨c.val * 32768 + r'.val, by have := c.isLt; have := r'.isLt; omega⟩ :=
  Fin.ext (by show p.val / 8 * 32768 + r'.val = c.val * 32768 + r'.val; rw [h])

/-- The first row of half c among the 16 rows: row 8 c. -/
def rowOf (c : Fin 2) : Fin 16 := ⟨c.val * 8, by have := c.isLt; omega⟩

theorem rowOf_zero : rowOf 0 = 0 := rfl
theorem rowOf_one : rowOf 1 = 8 := rfl
theorem rowOf_div (c : Fin 2) : (rowOf c).val / 8 = c.val := Nat.mul_div_cancel _ (by norm_num)

/-- THE TOTAL FROM ROWS 0 AND 8: if row p holds the sum of f over its half, rows 0 and 8 add up to the sum of f over
    everything. No finiteness is needed. -/
theorem sum_rows_0_8 (f : Fin 65536 → EReal) (S : Fin 16 → EReal)
    (hS : ∀ p : Fin 16, S p = ∑ r' : Fin 32768,
      f ⟨(p.val / 8) * 32768 + r'.val, by have := p.isLt; have := r'.isLt; omega⟩) :
    S 0 + S 8 = ∑ k, f k := by
  rw [hS 0, hS 8, sum_tiles (T := 2) (B := 32768) f, Fin.sum_univ_two]
  exact congrArg₂ (· + ·)
    (Finset.sum_congr rfl fun r' _ => congrArg f (core_idx 0 0 (by decide) r'))
    (Finset.sum_congr rfl fun r' _ => congrArg f (core_idx 8 1 (by decide) r'))

/-! ## (A) The batch statistics from rows 0 and 8 -/

section Stats

variable (x : Fin 65536 → Fin N → EReal) (S Q : Fin 16 → Fin N → EReal)
  (hS : ∀ (p : Fin 16) (o : Fin N), S p o = ∑ r' : Fin 32768,
    x ⟨(p.val / 8) * 32768 + r'.val, by have := p.isLt; have := r'.isLt; omega⟩ o)
  (hQ : ∀ (p : Fin 16) (o : Fin N), Q p o = ∑ r' : Fin 32768,
    x ⟨(p.val / 8) * 32768 + r'.val, by have := p.isLt; have := r'.isLt; omega⟩ o
      * x ⟨(p.val / 8) * 32768 + r'.val, by have := p.isLt; have := r'.isLt; omega⟩ o)

include hS in
/-- Rows 0 and 8 of the halves' column sums add up to the column sum. -/
theorem colSum_rows_0_8 (o : Fin N) : S 0 o + S 8 o = colSum x o :=
  sum_rows_0_8 (fun k => x k o) (fun p => S p o) (fun p => hS p o)

include hQ in
/-- Rows 0 and 8 of the halves' column sums of squares add up to the column sum of squares. -/
theorem colSumSq_rows_0_8 (o : Fin N) : Q 0 o + Q 8 o = colSumSq x o :=
  sum_rows_0_8 (fun k => x k o * x k o) (fun p => Q p o) (fun p => hQ p o)

include hS in
/-- The mean from rows 0 and 8, at a column. -/
theorem mean_rows_0_8 (o : Fin N) : Ideal.div (S 0 o + S 8 o) bsz = meanOf (colSum x) o := by
  rw [colSum_rows_0_8 x S hS o]; rfl

include hS hQ in
/-- The one-pass variance from rows 0 and 8, at a column. -/
theorem var_rows_0_8 (o : Fin N) :
    max (Ideal.div (Q 0 o + Q 8 o) bsz - Ideal.div (S 0 o + S 8 o) bsz * Ideal.div (S 0 o + S 8 o) bsz) 0
      = varK (colSum x) (colSumSq x) o := by
  rw [colSum_rows_0_8 x S hS o, colSumSq_rows_0_8 x Q hQ o]; rfl

include hS in
/-- The mean from rows 0 and 8, as a function of the column. -/
theorem stats_halves_mean : (fun o => Ideal.div (S 0 o + S 8 o) bsz) = meanOf (colSum x) :=
  funext fun o => mean_rows_0_8 x S hS o

include hS hQ in
/-- The one-pass variance from rows 0 and 8, as a function of the column. -/
theorem stats_halves_var :
    (fun o => max (Ideal.div (Q 0 o + Q 8 o) bsz - Ideal.div (S 0 o + S 8 o) bsz * Ideal.div (S 0 o + S 8 o) bsz) 0)
      = varK (colSum x) (colSumSq x) :=
  funext fun o => var_rows_0_8 x S Q hS hQ o

/-! ## (C) A whole layer at once -/

include hS hQ in
/-- A LAYER'S NORMALISATION from rows 0 and 8 of the halves' sums and sums of squares: on a real-valued batch it is the
    normalisation with the two-pass variance. -/
theorem norm_rows_0_8 (γ β : Fin N → EReal) (hx : ∀ r o, ∃ q : ℝ, x r o = (q : EReal)) :
    Spec.norm γ β (fun o => Ideal.div (S 0 o + S 8 o) bsz)
        (fun o => max (Ideal.div (Q 0 o + Q 8 o) bsz - Ideal.div (S 0 o + S 8 o) bsz * Ideal.div (S 0 o + S 8 o) bsz) 0) x
      = normR γ β x := by
  rw [stats_halves_mean x S hS, stats_halves_var x S Q hS hQ, varK_eq_varR x hx]; rfl

include hS hQ in
/-- The same with the one-pass statistics kept: it is normK. -/
theorem norm_rows_0_8_K (γ β : Fin N → EReal) :
    Spec.norm γ β (fun o => Ideal.div (S 0 o + S 8 o) bsz)
        (fun o => max (Ideal.div (Q 0 o + Q 8 o) bsz - Ideal.div (S 0 o + S 8 o) bsz * Ideal.div (S 0 o + S 8 o) bsz) 0) x
      = normK γ β x := by
  rw [stats_halves_mean x S hS, stats_halves_var x S Q hS hQ]; rfl

include hS hQ in
/-- And the next layer's products from it. -/
theorem rawNext_rows_0_8 {N' : ℕ} (γ β : Fin N → EReal) (hx : ∀ r o, ∃ q : ℝ, x r o = (q : EReal)) (w : Fin N' → Fin N → EReal) :
    rawNext (Spec.norm γ β (fun o => Ideal.div (S 0 o + S 8 o) bsz)
        (fun o => max (Ideal.div (Q 0 o + Q 8 o) bsz - Ideal.div (S 0 o + S 8 o) bsz * Ideal.div (S 0 o + S 8 o) bsz) 0) x) w
      = rawNext (normR γ β x) w := by
  rw [norm_rows_0_8 x S Q hS hQ γ β hx]

end Stats

/-! ## (B) The softmax from rows 0 and 8 -/

section Softmax

variable (P : Params) (hg : ∀ o, ∃ q : ℝ, P.g4 o = (q : EReal)) (hb : ∀ o, ∃ q : ℝ, P.b4 o = (q : EReal))
  (Mx Sx : Fin 16 → Fin 10 → EReal)
  (hM : ∀ (p : Fin 16) (o : Fin 10), Mx p o = Finset.univ.sup fun r' : Fin 32768 =>
    P.y4K ⟨(p.val / 8) * 32768 + r'.val, by have := p.isLt; have := r'.isLt; omega⟩ o)
  (hS : ∀ (p : Fin 16) (o : Fin 10), Sx p o = ∑ r' : Fin 32768,
    Ideal.exp (P.y4K ⟨(p.val / 8) * 32768 + r'.val, by have := p.isLt; have := r'.isLt; omega⟩ o - Mx p o))

include hg hb hM hS

/-- THE RESULT FROM ROWS 0 AND 8 of the halves' maxima and sums of exponentials: with the overall maximum
    max (Mx 0 o) (Mx 8 o) and the denominator Sx 0 o · exp (Mx 0 o − it) + Sx 8 o · exp (Mx 8 o − it), the quotient is the
    reference form of the network's result. -/
theorem out_rows_0_8 (r : Fin 65536) (o : Fin 10) :
    Ideal.div (Ideal.exp (P.y4K r o - max (Mx 0 o) (Mx 8 o)))
        (Sx 0 o * Ideal.exp (Mx 0 o - max (Mx 0 o) (Mx 8 o)) + Sx 8 o * Ideal.exp (Mx 8 o - max (Mx 0 o) (Mx 8 o)))
      = P.outR r o := by
  refine out_of_gmax_gsum P hg hb (fun c o => Mx (rowOf c) o) (fun c o => Sx (rowOf c) o) (fun c o => ?_) (fun c o => ?_)
    r o _ _ ?_ ?_
  · rw [hM (rowOf c) o]
    exact congrArg _ (funext fun r' => congrArg (fun k => P.y4K k o) (core_idx (rowOf c) c (rowOf_div c) r'))
  · rw [hS (rowOf c) o]
    exact Finset.sum_congr rfl fun r' _ =>
      congrArg (fun k => Ideal.exp (P.y4K k o - Mx (rowOf c) o)) (core_idx (rowOf c) c (rowOf_div c) r')
  · rw [sup_fin_two]; rfl
  · rw [Fin.sum_univ_two]; rfl

/-- The same over any spelling of the overall maximum and the denominator. -/
theorem out_rows_0_8_of (r : Fin 65536) (o : Fin 10) (gmax gsum : EReal) (hgmax : gmax = max (Mx 0 o) (Mx 8 o))
    (hgsum : gsum = Sx 0 o * Ideal.exp (Mx 0 o - gmax) + Sx 8 o * Ideal.exp (Mx 8 o - gmax)) :
    Ideal.div (Ideal.exp (P.y4K r o - gmax)) gsum = P.outR r o := by
  subst hgmax; subst hgsum
  exact out_rows_0_8 P hg hb Mx Sx hM hS r o

end Softmax

end Cert.BridgeNet
-- ==== Proof.KI.ForwardMath.lean ====
import proofs.«118595_j1726576853663_2_alg».proof.Proof.SpecArgs
import proofs.«118595_j1726576853663_2_alg».proof.Proof.BridgeAdapters
import Idealize.ShloMosaic.Lib.ValueIdx

/-!
One layer of the kernel's forward pass, and its softmax tail, as statements about arrays read at indices.

A layer's region is handed the previous layer's products as an array xa, the batch mean and variance as [1, N] rows,
the scale and shift as [1, N] rows, and the binarised weights as an array. When the mean and variance rows hold what the
host forms from rows 0 and 8 of the two halves' column sums S and column sums of squares Q, the normalised value the
region computes is the specification's normalisation with the one-pass variance (norm_step), so the products it writes are
the specification's next layer (layer_step), and so are their sums over a half (by congruence). The tail: with the halves'
column maxima and sums of exponentials in rows 0 and 8, the quotient the last region writes is the network's result
(tail_step).
-/

open scoped BigOperators

namespace Cert.KernelIdeal.Hand.Fwd

open Idealize.ShloMosaic Idealize.ShloMosaic.ValueIdx Cert.Spec Cert.BridgeNet

variable {N N' : ℕ}

section Step

variable (x : Fin 65536 → Fin N → EReal) (S Q : Fin 16 → Fin N → EReal)
  (hS : ∀ (p : Fin 16) (o : Fin N), S p o = ∑ r' : Fin 32768,
    x ⟨(p.val / 8) * 32768 + r'.val, by have := p.isLt; have := r'.isLt; omega⟩ o)
  (hQ : ∀ (p : Fin 16) (o : Fin N), Q p o = ∑ r' : Fin 32768,
    x ⟨(p.val / 8) * 32768 + r'.val, by have := p.isLt; have := r'.isLt; omega⟩ o
      * x ⟨(p.val / 8) * 32768 + r'.val, by have := p.isLt; have := r'.isLt; omega⟩ o)
  (g b : Fin N → EReal)
  (xa : (⟨2, ![65536, N]⟩ : Shape).Idx → EReal) (mean var ga be : (⟨2, ![1, N]⟩ : Shape).Idx → EReal)
  (hx : ∀ r i, xa (ix2 r i) = x r i)
  (hmean : ∀ i, mean (ix2 (0 : Fin 1) i) = Ideal.div (S 0 i + S 8 i) bsz)
  (hvar : ∀ i, var (ix2 (0 : Fin 1) i)
    = max (Ideal.div (Q 0 i + Q 8 i) bsz - Ideal.div (S 0 i + S 8 i) bsz * Ideal.div (S 0 i + S 8 i) bsz) 0)
  (hga : ∀ i, ga (ix2 (0 : Fin 1) i) = g i) (hbe : ∀ i, be (ix2 (0 : Fin 1) i) = b i)

include hS hQ hx hmean hvar hga hbe

/-- The normalised value a region computes from its input rows is the specification's, with the one-pass variance. -/
theorem norm_fun :
    Spec.norm (fun i => ga (ix2 (0 : Fin 1) i)) (fun i => be (ix2 (0 : Fin 1) i)) (fun i => mean (ix2 (0 : Fin 1) i))
        (fun i => var (ix2 (0 : Fin 1) i)) (fun r i => xa (ix2 r i))
      = normK g b x := by
  have e1 : (fun i => ga (ix2 (0 : Fin 1) i)) = g := funext hga
  have e2 : (fun i => be (ix2 (0 : Fin 1) i)) = b := funext hbe
  have e3 : (fun i => mean (ix2 (0 : Fin 1) i)) = fun o => Ideal.div (S 0 o + S 8 o) bsz := funext hmean
  have e4 : (fun i => var (ix2 (0 : Fin 1) i))
      = fun o => max (Ideal.div (Q 0 o + Q 8 o) bsz - Ideal.div (S 0 o + S 8 o) bsz * Ideal.div (S 0 o + S 8 o) bsz) 0 :=
    funext hvar
  have e5 : (fun r i => xa (ix2 r i)) = x := funext fun r => funext fun i => hx r i
  rw [e1, e2, e3, e4, e5]
  exact norm_rows_0_8_K x S Q hS hQ g b

theorem norm_step (r : Fin 65536) (o : Fin N) :
    Spec.norm (fun i => ga (ix2 (0 : Fin 1) i)) (fun i => be (ix2 (0 : Fin 1) i)) (fun i => mean (ix2 (0 : Fin 1) i))
        (fun i => var (ix2 (0 : Fin 1) i)) (fun r i => xa (ix2 r i)) r o
      = normK g b x r o :=
  congrFun (congrFun (norm_fun x S Q hS hQ g b xa mean var ga be hx hmean hvar hga hbe) r) o

/-- The products a region writes from those normalised values and the binarised weights are the specification's next
    layer. -/
theorem layer_step (w : Fin N' → Fin N → EReal) (wb : (⟨2, ![N', N]⟩ : Shape).Idx → EReal)
    (hwb : ∀ o i, wb (ix2 o i) = (if 0 ≤ w o i then (1 : EReal) else -1)) (r : Fin 65536) (o : Fin N') :
    Spec.raw (fun r i => Spec.sgn (Spec.norm (fun i => ga (ix2 (0 : Fin 1) i)) (fun i => be (ix2 (0 : Fin 1) i))
          (fun i => mean (ix2 (0 : Fin 1) i)) (fun i => var (ix2 (0 : Fin 1) i)) (fun r i => xa (ix2 r i)) r i))
        (fun o i => wb (ix2 o i)) r o
      = rawNext (normK g b x) w r o := by
  have e6 : (fun o i => wb (ix2 o i)) = wbin w := funext fun o => funext fun i => hwb o i
  rw [norm_fun x S Q hS hQ g b xa mean var ga be hx hmean hvar hga hbe, e6]
  rfl

end Step

/-! ## The first layer -/

/-- The first layer's products from the pixel array and the binarised first weights. -/
theorem layer0_step (P : Params) (xa : (⟨2, ![65536, 784]⟩ : Shape).Idx → EReal) (wb : (⟨2, ![256, 784]⟩ : Shape).Idx → EReal)
    (hx : ∀ r i, xa (ix2 r i) = P.x r i) (hwb : ∀ o i, wb (ix2 o i) = (if 0 ≤ P.w0 o i then (1 : EReal) else -1))
    (r : Fin 65536) (o : Fin 256) :
    Spec.raw (fun r i => Spec.sgn (xa (ix2 r i) - half)) (fun o i => wb (ix2 o i)) r o = P.raw0 r o := by
  have e1 : (fun r i => Spec.sgn (xa (ix2 r i) - half)) = fun r i => Spec.sgn (P.x r i - half) :=
    funext fun r => funext fun i => by rw [hx r i]
  have e2 : (fun o i => wb (ix2 o i)) = wbin P.w0 := funext fun o => funext fun i => hwb o i
  rw [e1, e2]
  rfl

/-! ## The tail -/

section Tail

variable (P : Params) (hg : ∀ o, ∃ q : ℝ, P.g4 o = (q : EReal)) (hb : ∀ o, ∃ q : ℝ, P.b4 o = (q : EReal))
  (Mx Sx : Fin 16 → Fin 10 → EReal)
  (hM : ∀ (p : Fin 16) (o : Fin 10), Mx p o = Finset.univ.sup fun r' : Fin 32768 =>
    P.y4K ⟨(p.val / 8) * 32768 + r'.val, by have := p.isLt; have := r'.isLt; omega⟩ o)
  (hSx : ∀ (p : Fin 16) (o : Fin 10), Sx p o = ∑ r' : Fin 32768,
    Ideal.exp (P.y4K ⟨(p.val / 8) * 32768 + r'.val, by have := p.isLt; have := r'.isLt; omega⟩ o - Mx p o))

include hg hb hM hSx

/-- The quotient the last region writes, from the overall maximum and the rescaled sum the host forms out of rows 0 and 8
    of the halves' maxima and sums, is the network's result. -/
theorem tail_step (y : Fin 65536 → Fin 10 → EReal) (hy : ∀ r o, y r o = P.y4K r o)
    (gmax gsum : (⟨2, ![1, 10]⟩ : Shape).Idx → EReal)
    (hgmax : ∀ o, gmax (ix2 (0 : Fin 1) o) = max (Mx 0 o) (Mx 8 o))
    (hgsum : ∀ o, gsum (ix2 (0 : Fin 1) o)
      = Sx 0 o * Ideal.exp (Mx 0 o - max (Mx 0 o) (Mx 8 o)) + Sx 8 o * Ideal.exp (Mx 8 o - max (Mx 0 o) (Mx 8 o)))
    (r : Fin 65536) (o : Fin 10) :
    Ideal.div (Ideal.exp (y r o - gmax (ix2 (0 : Fin 1) o))) (gsum (ix2 (0 : Fin 1) o)) = P.outR r o := by
  rw [hy r o]
  refine out_rows_0_8_of P hg hb Mx Sx hM hSx r o _ _ (hgmax o) ?_
  rw [hgsum o, hgmax o]

end Tail

end Cert.KernelIdeal.Hand.Fwd

/-! ## The state after a layer, and its step

A layer's region writes three arrays: the products R, and per half of the batch the column sums S and the column sums of
squares Q, half c's in rows 8c … 8c+7 of a 16-row array. -/

namespace Cert.KernelIdeal.Hand.Fwd

open Idealize.ShloMosaic Idealize.ShloMosaic.ValueIdx Cert.Spec Cert.BridgeNet

variable {N N' : ℕ}

/-- The three arrays hold the layer's products x, and their sums and sums of squares over each half. -/
structure LayerAt (x : Fin 65536 → Fin N → EReal)
    (R : (⟨2, ![65536, N]⟩ : Shape).Idx → EReal) (S Q : (⟨2, ![16, N]⟩ : Shape).Idx → EReal) : Prop where
  raw : ∀ r o, R (ix2 r o) = x r o
  sum : ∀ (p : Fin 16) (o : Fin N), S (ix2 p o) = ∑ r' : Fin 32768,
    x ⟨(p.val / 8) * 32768 + r'.val, by have := p.isLt; have := r'.isLt; omega⟩ o
  sq : ∀ (p : Fin 16) (o : Fin N), Q (ix2 p o) = ∑ r' : Fin 32768,
    x ⟨(p.val / 8) * 32768 + r'.val, by have := p.isLt; have := r'.isLt; omega⟩ o
      * x ⟨(p.val / 8) * 32768 + r'.val, by have := p.isLt; have := r'.isLt; omega⟩ o

/-- From a function's values to the three arrays: if the arrays hold f and its half sums, and f is x, they hold x. -/
theorem LayerAt.of_eq {f x : Fin 65536 → Fin N → EReal} (hf : f = x)
    {R : (⟨2, ![65536, N]⟩ : Shape).Idx → EReal} {S Q : (⟨2, ![16, N]⟩ : Shape).Idx → EReal}
    (h : LayerAt f R S Q) : LayerAt x R S Q := hf ▸ h

/-- The first layer. -/
theorem LayerAt.zero (P : Params) (xa : (⟨2, ![65536, 784]⟩ : Shape).Idx → EReal) (wb : (⟨2, ![256, 784]⟩ : Shape).Idx → EReal)
    (hx : ∀ r i, xa (ix2 r i) = P.x r i) (hwb : ∀ o i, wb (ix2 o i) = (if 0 ≤ P.w0 o i then (1 : EReal) else -1))
    {R : (⟨2, ![65536, 256]⟩ : Shape).Idx → EReal} {S Q : (⟨2, ![16, 256]⟩ : Shape).Idx → EReal}
    (h : LayerAt (Spec.raw (fun r i => Spec.sgn (xa (ix2 r i) - half)) (fun o i => wb (ix2 o i))) R S Q) :
    LayerAt P.raw0 R S Q :=
  h.of_eq (funext fun r => funext fun o => layer0_step P xa wb hx hwb r o)

section Next

variable {x : Fin 65536 → Fin N → EReal}
  {R : (⟨2, ![65536, N]⟩ : Shape).Idx → EReal} {S Q : (⟨2, ![16, N]⟩ : Shape).Idx → EReal} (L : LayerAt x R S Q)
  (g b : Fin N → EReal) (mean var ga be : (⟨2, ![1, N]⟩ : Shape).Idx → EReal)
  (hmean : ∀ i, mean (ix2 (0 : Fin 1) i) = Ideal.div (S (ix2 (0 : Fin 16) i) + S (ix2 (8 : Fin 16) i)) bsz)
  (hvar : ∀ i, var (ix2 (0 : Fin 1) i)
    = max (Ideal.div (Q (ix2 (0 : Fin 16) i) + Q (ix2 (8 : Fin 16) i)) bsz
        - Ideal.div (S (ix2 (0 : Fin 16) i) + S (ix2 (8 : Fin 16) i)) bsz
          * Ideal.div (S (ix2 (0 : Fin 16) i) + S (ix2 (8 : Fin 16) i)) bsz) 0)
  (hga : ∀ i, ga (ix2 (0 : Fin 1) i) = g i) (hbe : ∀ i, be (ix2 (0 : Fin 1) i) = b i)

include L hmean hvar hga hbe

/-- The normalised values the next region computes from the arrays and the host's rows are the specification's. -/
theorem LayerAt.norm_eq :
    Spec.norm (fun i => ga (ix2 (0 : Fin 1) i)) (fun i => be (ix2 (0 : Fin 1) i)) (fun i => mean (ix2 (0 : Fin 1) i))
        (fun i => var (ix2 (0 : Fin 1) i)) (fun r i => R (ix2 r i))
      = normK g b x :=
  norm_fun x (fun p o => S (ix2 p o)) (fun p o => Q (ix2 p o)) L.sum L.sq g b R mean var ga be L.raw hmean hvar hga hbe

/-- The next layer: the arrays the next region writes hold the specification's next products and their half sums. -/
theorem LayerAt.next (w : Fin N' → Fin N → EReal) (wb : (⟨2, ![N', N]⟩ : Shape).Idx → EReal)
    (hwb : ∀ o i, wb (ix2 o i) = (if 0 ≤ w o i then (1 : EReal) else -1))
    {R' : (⟨2, ![65536, N']⟩ : Shape).Idx → EReal} {S' Q' : (⟨2, ![16, N']⟩ : Shape).Idx → EReal}
    (h : LayerAt (Spec.raw (fun r i => Spec.sgn (Spec.norm (fun i => ga (ix2 (0 : Fin 1) i)) (fun i => be (ix2 (0 : Fin 1) i))
            (fun i => mean (ix2 (0 : Fin 1) i)) (fun i => var (ix2 (0 : Fin 1) i)) (fun r i => R (ix2 r i)) r i))
          (fun o i => wb (ix2 o i))) R' S' Q') :
    LayerAt (rawNext (normK g b x) w) R' S' Q' :=
  h.of_eq (funext fun r => funext fun o =>
    layer_step x (fun p o => S (ix2 p o)) (fun p o => Q (ix2 p o)) L.sum L.sq g b R mean var ga be L.raw hmean hvar hga hbe
      w wb hwb r o)

end Next

/-! ## The tail over arrays -/

/-- The last region's quotient is the network's result: y the last layer's normalised values (equal to the
    specification's), Mx and Sx the halves' column maxima and sums of exponentials of y in 16-row arrays, gmax and gsum
    the rows the host forms from their rows 0 and 8. -/
theorem tail_arrays (P : Params) (hg : ∀ o, ∃ q : ℝ, P.g4 o = (q : EReal)) (hb : ∀ o, ∃ q : ℝ, P.b4 o = (q : EReal))
    (y : Fin 65536 → Fin 10 → EReal) (hy : y = P.y4K)
    (Mx Sx : (⟨2, ![16, 10]⟩ : Shape).Idx → EReal)
    (hM : ∀ (p : Fin 16) (o : Fin 10), Mx (ix2 p o) = Finset.univ.sup fun r' : Fin 32768 =>
      y ⟨(p.val / 8) * 32768 + r'.val, by have := p.isLt; have := r'.isLt; omega⟩ o)
    (hSx : ∀ (p : Fin 16) (o : Fin 10), Sx (ix2 p o) = ∑ r' : Fin 32768,
      Ideal.exp (y ⟨(p.val / 8) * 32768 + r'.val, by have := p.isLt; have := r'.isLt; omega⟩ o - Mx (ix2 p o)))
    (gmax gsum : (⟨2, ![1, 10]⟩ : Shape).Idx → EReal)
    (hgmax : ∀ o, gmax (ix2 (0 : Fin 1) o) = max (Mx (ix2 (0 : Fin 16) o)) (Mx (ix2 (8 : Fin 16) o)))
    (hgsum : ∀ o, gsum (ix2 (0 : Fin 1) o)
      = Sx (ix2 (0 : Fin 16) o) * Ideal.exp (Mx (ix2 (0 : Fin 16) o) - max (Mx (ix2 (0 : Fin 16) o)) (Mx (ix2 (8 : Fin 16) o)))
        + Sx (ix2 (8 : Fin 16) o) * Ideal.exp (Mx (ix2 (8 : Fin 16) o) - max (Mx (ix2 (0 : Fin 16) o)) (Mx (ix2 (8 : Fin 16) o))))
    (r : Fin 65536) (o : Fin 10) :
    Ideal.div (Ideal.exp (y r o - gmax (ix2 (0 : Fin 1) o))) (gsum (ix2 (0 : Fin 1) o)) = P.outR r o := by
  subst hy
  exact tail_step P hg hb (fun p o => Mx (ix2 p o)) (fun p o => Sx (ix2 p o)) hM hSx P.y4K (fun _ _ => rfl) gmax gsum
    hgmax hgsum r o

end Cert.KernelIdeal.Hand.Fwd

/-! ## The functions a region computes from its input arrays, named -/

namespace Cert.KernelIdeal.Hand.Fwd

open Idealize.ShloMosaic Idealize.ShloMosaic.ValueIdx Cert.Spec

variable {N N' : ℕ}

/-- The normalised values from the products array and the four [1, N] rows (mean, variance, scale, shift). -/
noncomputable abbrev normOf (xa : (⟨2, ![65536, N]⟩ : Shape).Idx → EReal) (mean var ga be : (⟨2, ![1, N]⟩ : Shape).Idx → EReal) :
    Fin 65536 → Fin N → EReal :=
  Spec.norm (fun i => ga (ix2 (0 : Fin 1) i)) (fun i => be (ix2 (0 : Fin 1) i)) (fun i => mean (ix2 (0 : Fin 1) i))
    (fun i => var (ix2 (0 : Fin 1) i)) (fun r i => xa (ix2 r i))

/-- The next products from those and the binarised weights array. -/
noncomputable abbrev rawOf (xa : (⟨2, ![65536, N]⟩ : Shape).Idx → EReal) (mean var ga be : (⟨2, ![1, N]⟩ : Shape).Idx → EReal)
    (wb : (⟨2, ![N', N]⟩ : Shape).Idx → EReal) : Fin 65536 → Fin N' → EReal :=
  Spec.raw (fun r i => Spec.sgn (normOf xa mean var ga be r i)) (fun o i => wb (ix2 o i))

/-- The first products from the pixel array and the binarised first weights array. -/
noncomputable abbrev raw0Of (xa : (⟨2, ![65536, 784]⟩ : Shape).Idx → EReal) (wb : (⟨2, ![256, 784]⟩ : Shape).Idx → EReal) :
    Fin 65536 → Fin 256 → EReal :=
  Spec.raw (fun r i => Spec.sgn (xa (ix2 r i) - half)) (fun o i => wb (ix2 o i))

end Cert.KernelIdeal.Hand.Fwd
-- ==== Proof.KI.Forward0.lean ====
import proofs.«118595_j1726576853663_2_alg».proof.Proof.KI.Chain
import proofs.«118595_j1726576853663_2_alg».proof.Proof.KI.Params
import proofs.«118595_j1726576853663_2_alg».proof.Proof.KI.R0.Value
import proofs.«118595_j1726576853663_2_alg».proof.Proof.KI.GlueBin0
import proofs.«118595_j1726576853663_2_alg».proof.Proof.KI.ForwardMath

/-!
The first layer at the boundary after region 0: the three arrays region 0 writes hold the network's first products
and their sums and sums of squares over each half of the batch. Region 0 reads the pixel array, which is the launch
memory's, and the binarised first weights, written by the first three stretches of host operations.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ) (ρ : Dev nD → PrngReg)

theorem layer0_at (c : Dev nD) :
    Fwd.LayerAt (PK m c).raw0 (W12 m ρ c (Proc.devRef .tc main_v20_0)) (W12 m ρ c (Proc.devRef .tc main_v20_1)) (W12 m ρ c (Proc.devRef .tc main_v20_2)) := by
  have hxa : (V11 m ρ c (Pipeline.arrRef spec0 0) : S65536x784.Idx → EReal)
      = (m ((c : Thread nD τ).loc main_arg0) : S65536x784.Idx → EReal) := W11_main_arg0_b m ρ c
  have hwbA : (V11 m ρ c (Pipeline.arrRef spec0 1) : S256x784.Idx → EReal)
      = (W3 m ρ c (Proc.devRef .tc main_v3) : S256x784.Idx → EReal) := W11_main_v3_from3 m ρ c
  have Lr : Fwd.LayerAt (RAW0 (V11 m ρ) c) ((dat0 (V11 m ρ) c).arrAt 2 cfg0.N) ((dat0 (V11 m ρ) c).arrAt 3 cfg0.N)
      ((dat0 (V11 m ρ) c).arrAt 4 cfg0.N) :=
    ⟨value0_2 (V11 m ρ) c, value0_3 (V11 m ρ) c, value0_4 (V11 m ρ) c⟩
  have hR : RAW0 (V11 m ρ) c = (PK m c).raw0 := funext fun r => funext fun o =>
    Fwd.layer0_step (PK m c) (V11 m ρ c (Pipeline.arrRef spec0 0)) (V11 m ρ c (Pipeline.arrRef spec0 1))
      (fun r i => congrFun hxa (ix2 r i))
      (fun o i => (congrFun hwbA (ix2 o i)).trans (wb0_at (W0 m ρ c) _ (W0_main_arg1 m ρ c) (ix2 o i))) r o
  have L0 := Lr.of_eq hR
  exact ⟨fun r o => (congrFun (W12_arr m ρ c 2 : (W12 m ρ c (Proc.devRef .tc main_v20_0) : S65536x256.Idx → EReal) = _) (ix2 r o)).trans (L0.raw r o),
    fun p o => (congrFun (W12_arr m ρ c 3 : (W12 m ρ c (Proc.devRef .tc main_v20_1) : S16x256.Idx → EReal) = _) (ix2 p o)).trans (L0.sum p o),
    fun p o => (congrFun (W12_arr m ρ c 4 : (W12 m ρ c (Proc.devRef .tc main_v20_2) : S16x256.Idx → EReal) = _) (ix2 p o)).trans (L0.sq p o)⟩

end Cert.KernelIdeal.Hand

end
-- ==== Proof.KI.GlueBin1.lean ====
import proofs.«118595_j1726576853663_2_alg».proof.Proof.Gen.KernelIdeal.Launch
import proofs.«118595_j1726576853663_2_alg».proof.Proof.KI.GlueLib
import Idealize.ShloMosaic.Lib.StableHlo.Run

/-!
Weight matrix 1 (main_arg2, shape S256x256) binarised by the host before the first region, read at an index: the
comparison with a zero array (hostOps0_2: main_v5, with the words for +1 and −1 in main_cst_3, main_cst_4), the selection between
a +1 array and a −1 array (hostOps0_3: main_v6), and the change of format, which keeps every value (hostOps0_4: main_v7).
Together: entry i of main_v7 is 1 where entry i of main_arg2 is at least 0, else −1.
-/

noncomputable section

namespace Cert.KernelIdeal.Hand

open Idealize.ShloMosaic Idealize.ShloMosaic.TcCoe Idealize.ShloMosaic.ValueIdx
open Cert.KernelIdeal Cert.KernelIdeal.Gen

variable (W : Valuation τ sig (Elt Ideal))

/-! ### Stretch by stretch: each written buffer as the operations' term over the contents before the stretch -/

theorem hostOps0_2_main_v5 :
    (StableHlo.after (hostOps0_2 (F := Ideal)) W (Proc.devRef .tc main_v5) : S256x256.Idx → BitVec 1)
      = cmpf .oge (W (Proc.devRef .tc main_arg2) : S256x256.Idx → EReal) (broadcastInDim (s := S_) S256x256 ![] bcast_S_S256x256 (constant (F := Ideal) S_ .f32 0x00000000#32)) := by
  dsimp only [hostOps0_2]; after_results; all_goals rfl

theorem hostOps0_2_main_cst_3 :
    (StableHlo.after (hostOps0_2 (F := Ideal)) W (Proc.devRef .tc main_cst_3) : S_.Idx → EReal) = constant (F := Ideal) S_ .f32 0x3F800000#32 := by
  dsimp only [hostOps0_2]; after_results; all_goals rfl

theorem hostOps0_2_main_cst_4 :
    (StableHlo.after (hostOps0_2 (F := Ideal)) W (Proc.devRef .tc main_cst_4) : S_.Idx → EReal) = constant (F := Ideal) S_ .f32 0xBF800000#32 := by
  dsimp only [hostOps0_2]; after_results; all_goals rfl

theorem hostOps0_3_main_v6 :
    (StableHlo.after (hostOps0_3 (F := Ideal)) W (Proc.devRef .tc main_v6) : S256x256.Idx → EReal)
      = select (W (Proc.devRef .tc main_v5) : S256x256.Idx → BitVec 1) (broadcastInDim (s := S_) S256x256 ![] bcast_S_S256x256 (W (Proc.devRef .tc main_cst_3) : S_.Idx → EReal)) (broadcastInDim (s := S_) S256x256 ![] bcast_S_S256x256 (W (Proc.devRef .tc main_cst_4) : S_.Idx → EReal)) := by
  dsimp only [hostOps0_3]; after_results; all_goals rfl

theorem hostOps0_4_main_v7 :
    (StableHlo.after (hostOps0_4 (F := Ideal)) W (Proc.devRef .tc main_v7) : S256x256.Idx → EReal) = (W (Proc.devRef .tc main_v6) : S256x256.Idx → EReal) := by
  dsimp only [hostOps0_4]; after_results; all_goals rfl

/-! ### At an index -/

/-- The comparison's bit: whether the weight is at least 0. -/
theorem hostOps0_2_main_v5_at (w : S256x256.Idx → EReal) (hw : (W (Proc.devRef .tc main_arg2) : S256x256.Idx → EReal) = w) (i : S256x256.Idx) :
    (StableHlo.after (hostOps0_2 (F := Ideal)) W (Proc.devRef .tc main_v5) : S256x256.Idx → BitVec 1) i = Ideal.cmp .oge (w i) 0 := by
  subst hw
  refine (congrFun (hostOps0_2_main_v5 W) i).trans ?_
  rw [cmpf_apply, broadcastInDim_scalar_apply, constant_apply, Ideal.cmpf_def, Ideal.ofBits_zero_f32]

/-- The selection: the first scalar where the bit is set, else the second. -/
theorem hostOps0_3_main_v6_at (c : S256x256.Idx → BitVec 1) (p q : S_.Idx → EReal) (hc : (W (Proc.devRef .tc main_v5) : S256x256.Idx → BitVec 1) = c) (hp : (W (Proc.devRef .tc main_cst_3) : S_.Idx → EReal) = p)
    (hq : (W (Proc.devRef .tc main_cst_4) : S_.Idx → EReal) = q) (i : S256x256.Idx) :
    (StableHlo.after (hostOps0_3 (F := Ideal)) W (Proc.devRef .tc main_v6) : S256x256.Idx → EReal) i = Scalar.select (c i) (p ix0) (q ix0) := by
  subst hc; subst hp; subst hq
  refine (congrFun (hostOps0_3_main_v6 W) i).trans ?_
  rw [select_apply, broadcastInDim_scalar_apply, broadcastInDim_scalar_apply]

/-! ### The three stretches together -/

/-- The binarised matrix as one term of the weight. -/
theorem wb1_term :
    (StableHlo.after (hostOps0_4 (F := Ideal)) (StableHlo.after (hostOps0_3 (F := Ideal)) (StableHlo.after (hostOps0_2 (F := Ideal)) W))
        (Proc.devRef .tc main_v7) : S256x256.Idx → EReal)
      = Glue.binarized bcast_S_S256x256 (W (Proc.devRef .tc main_arg2) : S256x256.Idx → EReal) := by
  dsimp only [hostOps0_2, hostOps0_3, hostOps0_4]; after_results; all_goals rfl

/-- Entry i of the binarised matrix: 1 where the weight is at least 0, else −1. -/
theorem wb1_at (w : S256x256.Idx → EReal) (hw : (W (Proc.devRef .tc main_arg2) : S256x256.Idx → EReal) = w) (i : S256x256.Idx) :
    (StableHlo.after (hostOps0_4 (F := Ideal)) (StableHlo.after (hostOps0_3 (F := Ideal)) (StableHlo.after (hostOps0_2 (F := Ideal)) W))
        (Proc.devRef .tc main_v7) : S256x256.Idx → EReal) i
      = (if 0 ≤ w i then (1 : EReal) else -1) := by
  subst hw
  exact (congrFun (wb1_term W) i).trans (Glue.binarized_apply _ _ i)

end Cert.KernelIdeal.Hand
-- ==== Proof.KI.GlueStats1.lean ====
import proofs.«118595_j1726576853663_2_alg».proof.Proof.Gen.KernelIdeal.Launch
import proofs.«118595_j1726576853663_2_alg».proof.Proof.KI.GlueLib
import Idealize.ShloMosaic.Lib.StableHlo.Run

/-!
The host operations after region 0, read at an index (N = 256). Core c leaves its column sums in row 8c of
main_v20_1 and its column sums of squares in row 8c of main_v20_2. The host adds rows 0 and 8 and divides by the batch
size 65536: the mean main_v32; the same for the squares, minus the square of the mean, not below zero: the variance
main_v38; and lays the scale main_arg6 and the shift main_arg11 as [1, 256] rows main_v39, main_v40.
-/

noncomputable section

namespace Cert.KernelIdeal.Hand

open Idealize.ShloMosaic Idealize.ShloMosaic.TcCoe Idealize.ShloMosaic.ValueIdx
open Cert.KernelIdeal Cert.KernelIdeal.Gen

variable (W : Valuation τ sig (Elt Ideal))

/-- The mean as the operations' term. -/
theorem hostOps1_mean :
    (StableHlo.after (hostOps1 (F := Ideal)) W (Proc.devRef .tc main_v32) : S1x256.Idx → EReal)
      = Glue.coreMean shapeCasts_S16x256_S2x8x256 slices_S2x8x256_S2x1x256_0_0_0 shapeCasts_S2x1x256_S2x256 reducesTo_S2x256_S256_d0 h_S_ bcast_S256_S1x256_1 bcast_S_S1x256 (W (Proc.devRef .tc main_v20_1) : S16x256.Idx → EReal) := by
  dsimp only [hostOps1]; after_results_simp; rfl

/-- The variance as the operations' term. -/
theorem hostOps1_var :
    (StableHlo.after (hostOps1 (F := Ideal)) W (Proc.devRef .tc main_v38) : S1x256.Idx → EReal)
      = Glue.coreVar shapeCasts_S16x256_S2x8x256 slices_S2x8x256_S2x1x256_0_0_0 shapeCasts_S2x1x256_S2x256 reducesTo_S2x256_S256_d0 h_S_ bcast_S256_S1x256_1 bcast_S_S1x256 (W (Proc.devRef .tc main_v20_1) : S16x256.Idx → EReal) (W (Proc.devRef .tc main_v20_2) : S16x256.Idx → EReal) := by
  dsimp only [hostOps1]; after_results_simp; rfl

/-- The scale and the shift as the operations' terms. -/
theorem hostOps1_gamma :
    (StableHlo.after (hostOps1 (F := Ideal)) W (Proc.devRef .tc main_v39) : S1x256.Idx → EReal)
      = shapeCast S1x256 (W (Proc.devRef .tc main_arg6) : S256.Idx → EReal) shapeCasts_S256_S1x256 := by
  dsimp only [hostOps1]; after_results_simp; rfl

theorem hostOps1_beta :
    (StableHlo.after (hostOps1 (F := Ideal)) W (Proc.devRef .tc main_v40) : S1x256.Idx → EReal)
      = shapeCast S1x256 (W (Proc.devRef .tc main_arg11) : S256.Idx → EReal) shapeCasts_S256_S1x256 := by
  dsimp only [hostOps1]; after_results_simp; rfl

/-! The entries, over the input arrays as variables: S the column sums, Q the column sums of squares (both [16, 256],
core c's row in row 8c), g a [256] vector, each equal to the contents of its buffer before the stretch. -/

/-- mean (0, j) = (S (0, j) + S (8, j)) / 65536. -/
theorem hostOps1_mean_at (S : S16x256.Idx → EReal) (hS : (W (Proc.devRef .tc main_v20_1) : S16x256.Idx → EReal) = S)
    (u : Fin 1) (j : Fin 256) :
    (StableHlo.after (hostOps1 (F := Ideal)) W (Proc.devRef .tc main_v32) : S1x256.Idx → EReal) (ix2 u j)
      = Ideal.div (S (ix2 (0 : Fin 16) j) + S (ix2 (8 : Fin 16) j)) ((65536 : ℝ) : EReal) := by
  subst hS
  exact (congrFun (hostOps1_mean W) (ix2 u j)).trans (Glue.coreMean_apply _ _ _ _ _ _ _ (by decide) _ u j)

/-- var (0, j) = max ((Q (0, j) + Q (8, j)) / 65536 − mean (0, j)², 0). -/
theorem hostOps1_var_at (S Q : S16x256.Idx → EReal) (hS : (W (Proc.devRef .tc main_v20_1) : S16x256.Idx → EReal) = S)
    (hQ : (W (Proc.devRef .tc main_v20_2) : S16x256.Idx → EReal) = Q) (u : Fin 1) (j : Fin 256) :
    (StableHlo.after (hostOps1 (F := Ideal)) W (Proc.devRef .tc main_v38) : S1x256.Idx → EReal) (ix2 u j)
      = max (Ideal.div (Q (ix2 (0 : Fin 16) j) + Q (ix2 (8 : Fin 16) j)) ((65536 : ℝ) : EReal)
              - Ideal.div (S (ix2 (0 : Fin 16) j) + S (ix2 (8 : Fin 16) j)) ((65536 : ℝ) : EReal)
                * Ideal.div (S (ix2 (0 : Fin 16) j) + S (ix2 (8 : Fin 16) j)) ((65536 : ℝ) : EReal)) 0 := by
  subst hS; subst hQ
  exact (congrFun (hostOps1_var W) (ix2 u j)).trans (Glue.coreVar_apply _ _ _ _ _ _ _ (by decide) _ _ u j)

/-- The scale and shift rows read the vectors. -/
theorem hostOps1_gamma_at (g : S256.Idx → EReal) (hg : (W (Proc.devRef .tc main_arg6) : S256.Idx → EReal) = g)
    (u : Fin 1) (j : Fin 256) :
    (StableHlo.after (hostOps1 (F := Ideal)) W (Proc.devRef .tc main_v39) : S1x256.Idx → EReal) (ix2 u j) = g (ix1 j) := by
  subst hg
  exact (congrFun (hostOps1_gamma W) (ix2 u j)).trans (shapeCast_a_1a_apply _ _ u j)

theorem hostOps1_beta_at (g : S256.Idx → EReal) (hg : (W (Proc.devRef .tc main_arg11) : S256.Idx → EReal) = g)
    (u : Fin 1) (j : Fin 256) :
    (StableHlo.after (hostOps1 (F := Ideal)) W (Proc.devRef .tc main_v40) : S1x256.Idx → EReal) (ix2 u j) = g (ix1 j) := by
  subst hg
  exact (congrFun (hostOps1_beta W) (ix2 u j)).trans (shapeCast_a_1a_apply _ _ u j)

end Cert.KernelIdeal.Hand
-- ==== Proof.KI.Forward1.lean ====
import proofs.«118595_j1726576853663_2_alg».proof.Proof.KI.Chain
import proofs.«118595_j1726576853663_2_alg».proof.Proof.KI.Params
import proofs.«118595_j1726576853663_2_alg».proof.Proof.KI.GlueBin1
import proofs.«118595_j1726576853663_2_alg».proof.Proof.KI.GlueStats1
import proofs.«118595_j1726576853663_2_alg».proof.Proof.KI.ForwardMath

/-!
Layer 1: from the boundary after region 0 to the boundary after region 1. If the three arrays region 0 wrote
hold products x with their half sums, then the three arrays region 1 writes hold the specification's next products
from x, with theirs. Region 1 reads x's array; the mean, variance, scale and shift rows the host formed after region
0; and the binarised weights main_v7, written before the first region. What region 1 computes from its input arrays
is taken as the hypothesis H1.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ) (ρ : Dev nD → PrngReg)

set_option maxHeartbeats 4000000 in
theorem layer1_step
    (H1 : ∀ (V : (c : Dev nD) → (b : Ref sig .tc) → Buf (Elt Ideal) ((c : Thread nD τ).loc b)) (c : Dev nD),
      Fwd.LayerAt (Fwd.rawOf (N := 256) (N' := 256) (V c (Pipeline.arrRef spec1 0)) (V c (Pipeline.arrRef spec1 1))
          (V c (Pipeline.arrRef spec1 2)) (V c (Pipeline.arrRef spec1 3)) (V c (Pipeline.arrRef spec1 4))
          (V c (Pipeline.arrRef spec1 5)))
        ((dat1 V c).arrAt 6 cfg1.N) ((dat1 V c).arrAt 7 cfg1.N) ((dat1 V c).arrAt 8 cfg1.N))
    (c : Dev nD) (x : Fin 65536 → Fin 256 → EReal)
    (L : Fwd.LayerAt x (W12 m ρ c (Proc.devRef .tc main_v20_0)) (W12 m ρ c (Proc.devRef .tc main_v20_1)) (W12 m ρ c (Proc.devRef .tc main_v20_2))) :
    Fwd.LayerAt (Spec.rawNext (Spec.normK (PK m c).g0 (PK m c).b0 x) (PK m c).w1)
      (W14 m ρ c (Proc.devRef .tc main_v41_0)) (W14 m ρ c (Proc.devRef .tc main_v41_1)) (W14 m ρ c (Proc.devRef .tc main_v41_2)) := by
  have hxa : (V13 m ρ c (Pipeline.arrRef spec1 0) : S65536x256.Idx → EReal)
      = (W12 m ρ c (Proc.devRef .tc main_v20_0) : S65536x256.Idx → EReal) := W13_main_v20_0_from12 m ρ c
  have hwbA : (V13 m ρ c (Pipeline.arrRef spec1 5) : S256x256.Idx → EReal)
      = (W5 m ρ c (Proc.devRef .tc main_v7) : S256x256.Idx → EReal) := W13_main_v7_from5 m ρ c
  have L' : Fwd.LayerAt x (V13 m ρ c (Pipeline.arrRef spec1 0) : S65536x256.Idx → EReal)
      (W12 m ρ c (Proc.devRef .tc main_v20_1)) (W12 m ρ c (Proc.devRef .tc main_v20_2)) :=
    ⟨fun r i => (congrFun hxa (ix2 r i)).trans (L.raw r i), L.sum, L.sq⟩
  have Ln := Fwd.LayerAt.next (N := 256) (N' := 256) L' (PK m c).g0 (PK m c).b0
    (V13 m ρ c (Pipeline.arrRef spec1 1)) (V13 m ρ c (Pipeline.arrRef spec1 2))
    (V13 m ρ c (Pipeline.arrRef spec1 3)) (V13 m ρ c (Pipeline.arrRef spec1 4))
    (fun i => hostOps1_mean_at (W12 m ρ c) _ rfl 0 i)
    (fun i => hostOps1_var_at (W12 m ρ c) _ _ rfl rfl 0 i)
    (fun i => hostOps1_gamma_at (W12 m ρ c) _ (W12_main_arg6_b m ρ c) 0 i)
    (fun i => hostOps1_beta_at (W12 m ρ c) _ (W12_main_arg11_b m ρ c) 0 i)
    (PK m c).w1 (V13 m ρ c (Pipeline.arrRef spec1 5))
    (fun o i => (congrFun hwbA (ix2 o i)).trans (wb1_at (W2 m ρ c) _ (W2_main_arg2_b m ρ c) (ix2 o i)))
    (H1 (V13 m ρ) c)
  exact ⟨fun r o => (congrFun (W14_arr m ρ c 6 : (W14 m ρ c (Proc.devRef .tc main_v41_0) : S65536x256.Idx → EReal) = _) (ix2 r o)).trans (Ln.raw r o),
    fun p o => (congrFun (W14_arr m ρ c 7 : (W14 m ρ c (Proc.devRef .tc main_v41_1) : S16x256.Idx → EReal) = _) (ix2 p o)).trans (Ln.sum p o),
    fun p o => (congrFun (W14_arr m ρ c 8 : (W14 m ρ c (Proc.devRef .tc main_v41_2) : S16x256.Idx → EReal) = _) (ix2 p o)).trans (Ln.sq p o)⟩

end Cert.KernelIdeal.Hand

end
-- ==== Proof.KI.GlueBin2.lean ====
import proofs.«118595_j1726576853663_2_alg».proof.Proof.Gen.KernelIdeal.Launch
import proofs.«118595_j1726576853663_2_alg».proof.Proof.KI.GlueLib
import Idealize.ShloMosaic.Lib.StableHlo.Run

/-!
Weight matrix 2 (main_arg3, shape S256x256) binarised by the host before the first region, read at an index: the
comparison with a zero array (hostOps0_4: main_v9, with the words for +1 and −1 in main_cst_6, main_cst_7), the selection between
a +1 array and a −1 array (hostOps0_5: main_v10), and the change of format, which keeps every value (hostOps0_6: main_v11).
Together: entry i of main_v11 is 1 where entry i of main_arg3 is at least 0, else −1.
-/

noncomputable section

namespace Cert.KernelIdeal.Hand

open Idealize.ShloMosaic Idealize.ShloMosaic.TcCoe Idealize.ShloMosaic.ValueIdx
open Cert.KernelIdeal Cert.KernelIdeal.Gen

variable (W : Valuation τ sig (Elt Ideal))

/-! ### Stretch by stretch: each written buffer as the operations' term over the contents before the stretch -/

theorem hostOps0_4_main_v9 :
    (StableHlo.after (hostOps0_4 (F := Ideal)) W (Proc.devRef .tc main_v9) : S256x256.Idx → BitVec 1)
      = cmpf .oge (W (Proc.devRef .tc main_arg3) : S256x256.Idx → EReal) (broadcastInDim (s := S_) S256x256 ![] bcast_S_S256x256 (constant (F := Ideal) S_ .f32 0x00000000#32)) := by
  dsimp only [hostOps0_4]; after_results; all_goals rfl

theorem hostOps0_4_main_cst_6 :
    (StableHlo.after (hostOps0_4 (F := Ideal)) W (Proc.devRef .tc main_cst_6) : S_.Idx → EReal) = constant (F := Ideal) S_ .f32 0x3F800000#32 := by
  dsimp only [hostOps0_4]; after_results; all_goals rfl

theorem hostOps0_4_main_cst_7 :
    (StableHlo.after (hostOps0_4 (F := Ideal)) W (Proc.devRef .tc main_cst_7) : S_.Idx → EReal) = constant (F := Ideal) S_ .f32 0xBF800000#32 := by
  dsimp only [hostOps0_4]; after_results; all_goals rfl

theorem hostOps0_5_main_v10 :
    (StableHlo.after (hostOps0_5 (F := Ideal)) W (Proc.devRef .tc main_v10) : S256x256.Idx → EReal)
      = select (W (Proc.devRef .tc main_v9) : S256x256.Idx → BitVec 1) (broadcastInDim (s := S_) S256x256 ![] bcast_S_S256x256 (W (Proc.devRef .tc main_cst_6) : S_.Idx → EReal)) (broadcastInDim (s := S_) S256x256 ![] bcast_S_S256x256 (W (Proc.devRef .tc main_cst_7) : S_.Idx → EReal)) := by
  dsimp only [hostOps0_5]; after_results; all_goals rfl

theorem hostOps0_6_main_v11 :
    (StableHlo.after (hostOps0_6 (F := Ideal)) W (Proc.devRef .tc main_v11) : S256x256.Idx → EReal) = (W (Proc.devRef .tc main_v10) : S256x256.Idx → EReal) := by
  dsimp only [hostOps0_6]; after_results; all_goals rfl

/-! ### At an index -/

/-- The comparison's bit: whether the weight is at least 0. -/
theorem hostOps0_4_main_v9_at (w : S256x256.Idx → EReal) (hw : (W (Proc.devRef .tc main_arg3) : S256x256.Idx → EReal) = w) (i : S256x256.Idx) :
    (StableHlo.after (hostOps0_4 (F := Ideal)) W (Proc.devRef .tc main_v9) : S256x256.Idx → BitVec 1) i = Ideal.cmp .oge (w i) 0 := by
  subst hw
  refine (congrFun (hostOps0_4_main_v9 W) i).trans ?_
  rw [cmpf_apply, broadcastInDim_scalar_apply, constant_apply, Ideal.cmpf_def, Ideal.ofBits_zero_f32]

/-- The selection: the first scalar where the bit is set, else the second. -/
theorem hostOps0_5_main_v10_at (c : S256x256.Idx → BitVec 1) (p q : S_.Idx → EReal) (hc : (W (Proc.devRef .tc main_v9) : S256x256.Idx → BitVec 1) = c) (hp : (W (Proc.devRef .tc main_cst_6) : S_.Idx → EReal) = p)
    (hq : (W (Proc.devRef .tc main_cst_7) : S_.Idx → EReal) = q) (i : S256x256.Idx) :
    (StableHlo.after (hostOps0_5 (F := Ideal)) W (Proc.devRef .tc main_v10) : S256x256.Idx → EReal) i = Scalar.select (c i) (p ix0) (q ix0) := by
  subst hc; subst hp; subst hq
  refine (congrFun (hostOps0_5_main_v10 W) i).trans ?_
  rw [select_apply, broadcastInDim_scalar_apply, broadcastInDim_scalar_apply]

/-! ### The three stretches together -/

/-- The binarised matrix as one term of the weight. -/
theorem wb2_term :
    (StableHlo.after (hostOps0_6 (F := Ideal)) (StableHlo.after (hostOps0_5 (F := Ideal)) (StableHlo.after (hostOps0_4 (F := Ideal)) W))
        (Proc.devRef .tc main_v11) : S256x256.Idx → EReal)
      = Glue.binarized bcast_S_S256x256 (W (Proc.devRef .tc main_arg3) : S256x256.Idx → EReal) := by
  dsimp only [hostOps0_4, hostOps0_5, hostOps0_6]; after_results; all_goals rfl

/-- Entry i of the binarised matrix: 1 where the weight is at least 0, else −1. -/
theorem wb2_at (w : S256x256.Idx → EReal) (hw : (W (Proc.devRef .tc main_arg3) : S256x256.Idx → EReal) = w) (i : S256x256.Idx) :
    (StableHlo.after (hostOps0_6 (F := Ideal)) (StableHlo.after (hostOps0_5 (F := Ideal)) (StableHlo.after (hostOps0_4 (F := Ideal)) W))
        (Proc.devRef .tc main_v11) : S256x256.Idx → EReal) i
      = (if 0 ≤ w i then (1 : EReal) else -1) := by
  subst hw
  exact (congrFun (wb2_term W) i).trans (Glue.binarized_apply _ _ i)

end Cert.KernelIdeal.Hand
-- ==== Proof.KI.GlueStats2.lean ====
import proofs.«118595_j1726576853663_2_alg».proof.Proof.Gen.KernelIdeal.Launch
import proofs.«118595_j1726576853663_2_alg».proof.Proof.KI.GlueLib
import Idealize.ShloMosaic.Lib.StableHlo.Run

/-!
The host operations after region 1, read at an index (N = 256). Core c leaves its column sums in row 8c of
main_v41_1 and its column sums of squares in row 8c of main_v41_2. The host adds rows 0 and 8 and divides by the batch
size 65536: the mean main_v53; the same for the squares, minus the square of the mean, not below zero: the variance
main_v59; and lays the scale main_arg7 and the shift main_arg12 as [1, 256] rows main_v60, main_v61.
-/

noncomputable section

namespace Cert.KernelIdeal.Hand

open Idealize.ShloMosaic Idealize.ShloMosaic.TcCoe Idealize.ShloMosaic.ValueIdx
open Cert.KernelIdeal Cert.KernelIdeal.Gen

variable (W : Valuation τ sig (Elt Ideal))

/-- The mean as the operations' term. -/
theorem hostOps2_mean :
    (StableHlo.after (hostOps2 (F := Ideal)) W (Proc.devRef .tc main_v53) : S1x256.Idx → EReal)
      = Glue.coreMean shapeCasts_S16x256_S2x8x256 slices_S2x8x256_S2x1x256_0_0_0 shapeCasts_S2x1x256_S2x256 reducesTo_S2x256_S256_d0 h_S_ bcast_S256_S1x256_1 bcast_S_S1x256 (W (Proc.devRef .tc main_v41_1) : S16x256.Idx → EReal) := by
  dsimp only [hostOps2]; after_results_simp; rfl

/-- The variance as the operations' term. -/
theorem hostOps2_var :
    (StableHlo.after (hostOps2 (F := Ideal)) W (Proc.devRef .tc main_v59) : S1x256.Idx → EReal)
      = Glue.coreVar shapeCasts_S16x256_S2x8x256 slices_S2x8x256_S2x1x256_0_0_0 shapeCasts_S2x1x256_S2x256 reducesTo_S2x256_S256_d0 h_S_ bcast_S256_S1x256_1 bcast_S_S1x256 (W (Proc.devRef .tc main_v41_1) : S16x256.Idx → EReal) (W (Proc.devRef .tc main_v41_2) : S16x256.Idx → EReal) := by
  dsimp only [hostOps2]; after_results_simp; rfl

/-- The scale and the shift as the operations' terms. -/
theorem hostOps2_gamma :
    (StableHlo.after (hostOps2 (F := Ideal)) W (Proc.devRef .tc main_v60) : S1x256.Idx → EReal)
      = shapeCast S1x256 (W (Proc.devRef .tc main_arg7) : S256.Idx → EReal) shapeCasts_S256_S1x256 := by
  dsimp only [hostOps2]; after_results_simp; rfl

theorem hostOps2_beta :
    (StableHlo.after (hostOps2 (F := Ideal)) W (Proc.devRef .tc main_v61) : S1x256.Idx → EReal)
      = shapeCast S1x256 (W (Proc.devRef .tc main_arg12) : S256.Idx → EReal) shapeCasts_S256_S1x256 := by
  dsimp only [hostOps2]; after_results_simp; rfl

/-! The entries, over the input arrays as variables: S the column sums, Q the column sums of squares (both [16, 256],
core c's row in row 8c), g a [256] vector, each equal to the contents of its buffer before the stretch. -/

/-- mean (0, j) = (S (0, j) + S (8, j)) / 65536. -/
theorem hostOps2_mean_at (S : S16x256.Idx → EReal) (hS : (W (Proc.devRef .tc main_v41_1) : S16x256.Idx → EReal) = S)
    (u : Fin 1) (j : Fin 256) :
    (StableHlo.after (hostOps2 (F := Ideal)) W (Proc.devRef .tc main_v53) : S1x256.Idx → EReal) (ix2 u j)
      = Ideal.div (S (ix2 (0 : Fin 16) j) + S (ix2 (8 : Fin 16) j)) ((65536 : ℝ) : EReal) := by
  subst hS
  exact (congrFun (hostOps2_mean W) (ix2 u j)).trans (Glue.coreMean_apply _ _ _ _ _ _ _ (by decide) _ u j)

/-- var (0, j) = max ((Q (0, j) + Q (8, j)) / 65536 − mean (0, j)², 0). -/
theorem hostOps2_var_at (S Q : S16x256.Idx → EReal) (hS : (W (Proc.devRef .tc main_v41_1) : S16x256.Idx → EReal) = S)
    (hQ : (W (Proc.devRef .tc main_v41_2) : S16x256.Idx → EReal) = Q) (u : Fin 1) (j : Fin 256) :
    (StableHlo.after (hostOps2 (F := Ideal)) W (Proc.devRef .tc main_v59) : S1x256.Idx → EReal) (ix2 u j)
      = max (Ideal.div (Q (ix2 (0 : Fin 16) j) + Q (ix2 (8 : Fin 16) j)) ((65536 : ℝ) : EReal)
              - Ideal.div (S (ix2 (0 : Fin 16) j) + S (ix2 (8 : Fin 16) j)) ((65536 : ℝ) : EReal)
                * Ideal.div (S (ix2 (0 : Fin 16) j) + S (ix2 (8 : Fin 16) j)) ((65536 : ℝ) : EReal)) 0 := by
  subst hS; subst hQ
  exact (congrFun (hostOps2_var W) (ix2 u j)).trans (Glue.coreVar_apply _ _ _ _ _ _ _ (by decide) _ _ u j)

/-- The scale and shift rows read the vectors. -/
theorem hostOps2_gamma_at (g : S256.Idx → EReal) (hg : (W (Proc.devRef .tc main_arg7) : S256.Idx → EReal) = g)
    (u : Fin 1) (j : Fin 256) :
    (StableHlo.after (hostOps2 (F := Ideal)) W (Proc.devRef .tc main_v60) : S1x256.Idx → EReal) (ix2 u j) = g (ix1 j) := by
  subst hg
  exact (congrFun (hostOps2_gamma W) (ix2 u j)).trans (shapeCast_a_1a_apply _ _ u j)

theorem hostOps2_beta_at (g : S256.Idx → EReal) (hg : (W (Proc.devRef .tc main_arg12) : S256.Idx → EReal) = g)
    (u : Fin 1) (j : Fin 256) :
    (StableHlo.after (hostOps2 (F := Ideal)) W (Proc.devRef .tc main_v61) : S1x256.Idx → EReal) (ix2 u j) = g (ix1 j) := by
  subst hg
  exact (congrFun (hostOps2_beta W) (ix2 u j)).trans (shapeCast_a_1a_apply _ _ u j)

end Cert.KernelIdeal.Hand
-- ==== Proof.KI.Forward2.lean ====
import proofs.«118595_j1726576853663_2_alg».proof.Proof.KI.Chain
import proofs.«118595_j1726576853663_2_alg».proof.Proof.KI.Params
import proofs.«118595_j1726576853663_2_alg».proof.Proof.KI.GlueBin2
import proofs.«118595_j1726576853663_2_alg».proof.Proof.KI.GlueStats2
import proofs.«118595_j1726576853663_2_alg».proof.Proof.KI.ForwardMath

/-!
Layer 2: from the boundary after region 1 to the boundary after region 2. If the three arrays region 1 wrote
hold products x with their half sums, then the three arrays region 2 writes hold the specification's next products
from x, with theirs. Region 2 reads x's array; the mean, variance, scale and shift rows the host formed after region
1; and the binarised weights main_v11, written before the first region. What region 2 computes from its input arrays
is taken as the hypothesis H2.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ) (ρ : Dev nD → PrngReg)

set_option maxHeartbeats 4000000 in
theorem layer2_step
    (H2 : ∀ (V : (c : Dev nD) → (b : Ref sig .tc) → Buf (Elt Ideal) ((c : Thread nD τ).loc b)) (c : Dev nD),
      Fwd.LayerAt (Fwd.rawOf (N := 256) (N' := 256) (V c (Pipeline.arrRef spec2 0)) (V c (Pipeline.arrRef spec2 1))
          (V c (Pipeline.arrRef spec2 2)) (V c (Pipeline.arrRef spec2 3)) (V c (Pipeline.arrRef spec2 4))
          (V c (Pipeline.arrRef spec2 5)))
        ((dat2 V c).arrAt 6 cfg2.N) ((dat2 V c).arrAt 7 cfg2.N) ((dat2 V c).arrAt 8 cfg2.N))
    (c : Dev nD) (x : Fin 65536 → Fin 256 → EReal)
    (L : Fwd.LayerAt x (W14 m ρ c (Proc.devRef .tc main_v41_0)) (W14 m ρ c (Proc.devRef .tc main_v41_1)) (W14 m ρ c (Proc.devRef .tc main_v41_2))) :
    Fwd.LayerAt (Spec.rawNext (Spec.normK (PK m c).g1 (PK m c).b1 x) (PK m c).w2)
      (W16 m ρ c (Proc.devRef .tc main_v62_0)) (W16 m ρ c (Proc.devRef .tc main_v62_1)) (W16 m ρ c (Proc.devRef .tc main_v62_2)) := by
  have hxa : (V15 m ρ c (Pipeline.arrRef spec2 0) : S65536x256.Idx → EReal)
      = (W14 m ρ c (Proc.devRef .tc main_v41_0) : S65536x256.Idx → EReal) := W15_main_v41_0_from14 m ρ c
  have hwbA : (V15 m ρ c (Pipeline.arrRef spec2 5) : S256x256.Idx → EReal)
      = (W7 m ρ c (Proc.devRef .tc main_v11) : S256x256.Idx → EReal) := W15_main_v11_from7 m ρ c
  have L' : Fwd.LayerAt x (V15 m ρ c (Pipeline.arrRef spec2 0) : S65536x256.Idx → EReal)
      (W14 m ρ c (Proc.devRef .tc main_v41_1)) (W14 m ρ c (Proc.devRef .tc main_v41_2)) :=
    ⟨fun r i => (congrFun hxa (ix2 r i)).trans (L.raw r i), L.sum, L.sq⟩
  have Ln := Fwd.LayerAt.next (N := 256) (N' := 256) L' (PK m c).g1 (PK m c).b1
    (V15 m ρ c (Pipeline.arrRef spec2 1)) (V15 m ρ c (Pipeline.arrRef spec2 2))
    (V15 m ρ c (Pipeline.arrRef spec2 3)) (V15 m ρ c (Pipeline.arrRef spec2 4))
    (fun i => hostOps2_mean_at (W14 m ρ c) _ rfl 0 i)
    (fun i => hostOps2_var_at (W14 m ρ c) _ _ rfl rfl 0 i)
    (fun i => hostOps2_gamma_at (W14 m ρ c) _ (W14_main_arg7_b m ρ c) 0 i)
    (fun i => hostOps2_beta_at (W14 m ρ c) _ (W14_main_arg12_b m ρ c) 0 i)
    (PK m c).w2 (V15 m ρ c (Pipeline.arrRef spec2 5))
    (fun o i => (congrFun hwbA (ix2 o i)).trans (wb2_at (W4 m ρ c) _ (W4_main_arg3_b m ρ c) (ix2 o i)))
    (H2 (V15 m ρ) c)
  exact ⟨fun r o => (congrFun (W16_arr m ρ c 6 : (W16 m ρ c (Proc.devRef .tc main_v62_0) : S65536x256.Idx → EReal) = _) (ix2 r o)).trans (Ln.raw r o),
    fun p o => (congrFun (W16_arr m ρ c 7 : (W16 m ρ c (Proc.devRef .tc main_v62_1) : S16x256.Idx → EReal) = _) (ix2 p o)).trans (Ln.sum p o),
    fun p o => (congrFun (W16_arr m ρ c 8 : (W16 m ρ c (Proc.devRef .tc main_v62_2) : S16x256.Idx → EReal) = _) (ix2 p o)).trans (Ln.sq p o)⟩

end Cert.KernelIdeal.Hand

end
-- ==== Proof.KI.GlueBin3.lean ====
import proofs.«118595_j1726576853663_2_alg».proof.Proof.Gen.KernelIdeal.Launch
import proofs.«118595_j1726576853663_2_alg».proof.Proof.KI.GlueLib
import Idealize.ShloMosaic.Lib.StableHlo.Run

/-!
Weight matrix 3 (main_arg4, shape S256x256) binarised by the host before the first region, read at an index: the
comparison with a zero array (hostOps0_6: main_v13, with the words for +1 and −1 in main_cst_9, main_cst_10), the selection between
a +1 array and a −1 array (hostOps0_7: main_v14), and the change of format, which keeps every value (hostOps0_8: main_v15).
Together: entry i of main_v15 is 1 where entry i of main_arg4 is at least 0, else −1.
-/

noncomputable section

namespace Cert.KernelIdeal.Hand

open Idealize.ShloMosaic Idealize.ShloMosaic.TcCoe Idealize.ShloMosaic.ValueIdx
open Cert.KernelIdeal Cert.KernelIdeal.Gen

variable (W : Valuation τ sig (Elt Ideal))

/-! ### Stretch by stretch: each written buffer as the operations' term over the contents before the stretch -/

theorem hostOps0_6_main_v13 :
    (StableHlo.after (hostOps0_6 (F := Ideal)) W (Proc.devRef .tc main_v13) : S256x256.Idx → BitVec 1)
      = cmpf .oge (W (Proc.devRef .tc main_arg4) : S256x256.Idx → EReal) (broadcastInDim (s := S_) S256x256 ![] bcast_S_S256x256 (constant (F := Ideal) S_ .f32 0x00000000#32)) := by
  dsimp only [hostOps0_6]; after_results; all_goals rfl

theorem hostOps0_6_main_cst_9 :
    (StableHlo.after (hostOps0_6 (F := Ideal)) W (Proc.devRef .tc main_cst_9) : S_.Idx → EReal) = constant (F := Ideal) S_ .f32 0x3F800000#32 := by
  dsimp only [hostOps0_6]; after_results; all_goals rfl

theorem hostOps0_6_main_cst_10 :
    (StableHlo.after (hostOps0_6 (F := Ideal)) W (Proc.devRef .tc main_cst_10) : S_.Idx → EReal) = constant (F := Ideal) S_ .f32 0xBF800000#32 := by
  dsimp only [hostOps0_6]; after_results; all_goals rfl

theorem hostOps0_7_main_v14 :
    (StableHlo.after (hostOps0_7 (F := Ideal)) W (Proc.devRef .tc main_v14) : S256x256.Idx → EReal)
      = select (W (Proc.devRef .tc main_v13) : S256x256.Idx → BitVec 1) (broadcastInDim (s := S_) S256x256 ![] bcast_S_S256x256 (W (Proc.devRef .tc main_cst_9) : S_.Idx → EReal)) (broadcastInDim (s := S_) S256x256 ![] bcast_S_S256x256 (W (Proc.devRef .tc main_cst_10) : S_.Idx → EReal)) := by
  dsimp only [hostOps0_7]; after_results; all_goals rfl

theorem hostOps0_8_main_v15 :
    (StableHlo.after (hostOps0_8 (F := Ideal)) W (Proc.devRef .tc main_v15) : S256x256.Idx → EReal) = (W (Proc.devRef .tc main_v14) : S256x256.Idx → EReal) := by
  dsimp only [hostOps0_8]; after_results; all_goals rfl

/-! ### At an index -/

/-- The comparison's bit: whether the weight is at least 0. -/
theorem hostOps0_6_main_v13_at (w : S256x256.Idx → EReal) (hw : (W (Proc.devRef .tc main_arg4) : S256x256.Idx → EReal) = w) (i : S256x256.Idx) :
    (StableHlo.after (hostOps0_6 (F := Ideal)) W (Proc.devRef .tc main_v13) : S256x256.Idx → BitVec 1) i = Ideal.cmp .oge (w i) 0 := by
  subst hw
  refine (congrFun (hostOps0_6_main_v13 W) i).trans ?_
  rw [cmpf_apply, broadcastInDim_scalar_apply, constant_apply, Ideal.cmpf_def, Ideal.ofBits_zero_f32]

/-- The selection: the first scalar where the bit is set, else the second. -/
theorem hostOps0_7_main_v14_at (c : S256x256.Idx → BitVec 1) (p q : S_.Idx → EReal) (hc : (W (Proc.devRef .tc main_v13) : S256x256.Idx → BitVec 1) = c) (hp : (W (Proc.devRef .tc main_cst_9) : S_.Idx → EReal) = p)
    (hq : (W (Proc.devRef .tc main_cst_10) : S_.Idx → EReal) = q) (i : S256x256.Idx) :
    (StableHlo.after (hostOps0_7 (F := Ideal)) W (Proc.devRef .tc main_v14) : S256x256.Idx → EReal) i = Scalar.select (c i) (p ix0) (q ix0) := by
  subst hc; subst hp; subst hq
  refine (congrFun (hostOps0_7_main_v14 W) i).trans ?_
  rw [select_apply, broadcastInDim_scalar_apply, broadcastInDim_scalar_apply]

/-! ### The three stretches together -/

/-- The binarised matrix as one term of the weight. -/
theorem wb3_term :
    (StableHlo.after (hostOps0_8 (F := Ideal)) (StableHlo.after (hostOps0_7 (F := Ideal)) (StableHlo.after (hostOps0_6 (F := Ideal)) W))
        (Proc.devRef .tc main_v15) : S256x256.Idx → EReal)
      = Glue.binarized bcast_S_S256x256 (W (Proc.devRef .tc main_arg4) : S256x256.Idx → EReal) := by
  dsimp only [hostOps0_6, hostOps0_7, hostOps0_8]; after_results; all_goals rfl

/-- Entry i of the binarised matrix: 1 where the weight is at least 0, else −1. -/
theorem wb3_at (w : S256x256.Idx → EReal) (hw : (W (Proc.devRef .tc main_arg4) : S256x256.Idx → EReal) = w) (i : S256x256.Idx) :
    (StableHlo.after (hostOps0_8 (F := Ideal)) (StableHlo.after (hostOps0_7 (F := Ideal)) (StableHlo.after (hostOps0_6 (F := Ideal)) W))
        (Proc.devRef .tc main_v15) : S256x256.Idx → EReal) i
      = (if 0 ≤ w i then (1 : EReal) else -1) := by
  subst hw
  exact (congrFun (wb3_term W) i).trans (Glue.binarized_apply _ _ i)

end Cert.KernelIdeal.Hand
-- ==== Proof.KI.GlueStats3.lean ====
import proofs.«118595_j1726576853663_2_alg».proof.Proof.Gen.KernelIdeal.Launch
import proofs.«118595_j1726576853663_2_alg».proof.Proof.KI.GlueLib
import Idealize.ShloMosaic.Lib.StableHlo.Run

/-!
The host operations after region 2, read at an index (N = 256). Core c leaves its column sums in row 8c of
main_v62_1 and its column sums of squares in row 8c of main_v62_2. The host adds rows 0 and 8 and divides by the batch
size 65536: the mean main_v74; the same for the squares, minus the square of the mean, not below zero: the variance
main_v80; and lays the scale main_arg8 and the shift main_arg13 as [1, 256] rows main_v81, main_v82.
-/

noncomputable section

namespace Cert.KernelIdeal.Hand

open Idealize.ShloMosaic Idealize.ShloMosaic.TcCoe Idealize.ShloMosaic.ValueIdx
open Cert.KernelIdeal Cert.KernelIdeal.Gen

variable (W : Valuation τ sig (Elt Ideal))

/-- The mean as the operations' term. -/
theorem hostOps3_mean :
    (StableHlo.after (hostOps3 (F := Ideal)) W (Proc.devRef .tc main_v74) : S1x256.Idx → EReal)
      = Glue.coreMean shapeCasts_S16x256_S2x8x256 slices_S2x8x256_S2x1x256_0_0_0 shapeCasts_S2x1x256_S2x256 reducesTo_S2x256_S256_d0 h_S_ bcast_S256_S1x256_1 bcast_S_S1x256 (W (Proc.devRef .tc main_v62_1) : S16x256.Idx → EReal) := by
  dsimp only [hostOps3]; after_results_simp; rfl

/-- The variance as the operations' term. -/
theorem hostOps3_var :
    (StableHlo.after (hostOps3 (F := Ideal)) W (Proc.devRef .tc main_v80) : S1x256.Idx → EReal)
      = Glue.coreVar shapeCasts_S16x256_S2x8x256 slices_S2x8x256_S2x1x256_0_0_0 shapeCasts_S2x1x256_S2x256 reducesTo_S2x256_S256_d0 h_S_ bcast_S256_S1x256_1 bcast_S_S1x256 (W (Proc.devRef .tc main_v62_1) : S16x256.Idx → EReal) (W (Proc.devRef .tc main_v62_2) : S16x256.Idx → EReal) := by
  dsimp only [hostOps3]; after_results_simp; rfl

/-- The scale and the shift as the operations' terms. -/
theorem hostOps3_gamma :
    (StableHlo.after (hostOps3 (F := Ideal)) W (Proc.devRef .tc main_v81) : S1x256.Idx → EReal)
      = shapeCast S1x256 (W (Proc.devRef .tc main_arg8) : S256.Idx → EReal) shapeCasts_S256_S1x256 := by
  dsimp only [hostOps3]; after_results_simp; rfl

theorem hostOps3_beta :
    (StableHlo.after (hostOps3 (F := Ideal)) W (Proc.devRef .tc main_v82) : S1x256.Idx → EReal)
      = shapeCast S1x256 (W (Proc.devRef .tc main_arg13) : S256.Idx → EReal) shapeCasts_S256_S1x256 := by
  dsimp only [hostOps3]; after_results_simp; rfl

/-! The entries, over the input arrays as variables: S the column sums, Q the column sums of squares (both [16, 256],
core c's row in row 8c), g a [256] vector, each equal to the contents of its buffer before the stretch. -/

/-- mean (0, j) = (S (0, j) + S (8, j)) / 65536. -/
theorem hostOps3_mean_at (S : S16x256.Idx → EReal) (hS : (W (Proc.devRef .tc main_v62_1) : S16x256.Idx → EReal) = S)
    (u : Fin 1) (j : Fin 256) :
    (StableHlo.after (hostOps3 (F := Ideal)) W (Proc.devRef .tc main_v74) : S1x256.Idx → EReal) (ix2 u j)
      = Ideal.div (S (ix2 (0 : Fin 16) j) + S (ix2 (8 : Fin 16) j)) ((65536 : ℝ) : EReal) := by
  subst hS
  exact (congrFun (hostOps3_mean W) (ix2 u j)).trans (Glue.coreMean_apply _ _ _ _ _ _ _ (by decide) _ u j)

/-- var (0, j) = max ((Q (0, j) + Q (8, j)) / 65536 − mean (0, j)², 0). -/
theorem hostOps3_var_at (S Q : S16x256.Idx → EReal) (hS : (W (Proc.devRef .tc main_v62_1) : S16x256.Idx → EReal) = S)
    (hQ : (W (Proc.devRef .tc main_v62_2) : S16x256.Idx → EReal) = Q) (u : Fin 1) (j : Fin 256) :
    (StableHlo.after (hostOps3 (F := Ideal)) W (Proc.devRef .tc main_v80) : S1x256.Idx → EReal) (ix2 u j)
      = max (Ideal.div (Q (ix2 (0 : Fin 16) j) + Q (ix2 (8 : Fin 16) j)) ((65536 : ℝ) : EReal)
              - Ideal.div (S (ix2 (0 : Fin 16) j) + S (ix2 (8 : Fin 16) j)) ((65536 : ℝ) : EReal)
                * Ideal.div (S (ix2 (0 : Fin 16) j) + S (ix2 (8 : Fin 16) j)) ((65536 : ℝ) : EReal)) 0 := by
  subst hS; subst hQ
  exact (congrFun (hostOps3_var W) (ix2 u j)).trans (Glue.coreVar_apply _ _ _ _ _ _ _ (by decide) _ _ u j)

/-- The scale and shift rows read the vectors. -/
theorem hostOps3_gamma_at (g : S256.Idx → EReal) (hg : (W (Proc.devRef .tc main_arg8) : S256.Idx → EReal) = g)
    (u : Fin 1) (j : Fin 256) :
    (StableHlo.after (hostOps3 (F := Ideal)) W (Proc.devRef .tc main_v81) : S1x256.Idx → EReal) (ix2 u j) = g (ix1 j) := by
  subst hg
  exact (congrFun (hostOps3_gamma W) (ix2 u j)).trans (shapeCast_a_1a_apply _ _ u j)

theorem hostOps3_beta_at (g : S256.Idx → EReal) (hg : (W (Proc.devRef .tc main_arg13) : S256.Idx → EReal) = g)
    (u : Fin 1) (j : Fin 256) :
    (StableHlo.after (hostOps3 (F := Ideal)) W (Proc.devRef .tc main_v82) : S1x256.Idx → EReal) (ix2 u j) = g (ix1 j) := by
  subst hg
  exact (congrFun (hostOps3_beta W) (ix2 u j)).trans (shapeCast_a_1a_apply _ _ u j)

end Cert.KernelIdeal.Hand
-- ==== Proof.KI.Forward3.lean ====
import proofs.«118595_j1726576853663_2_alg».proof.Proof.KI.Chain
import proofs.«118595_j1726576853663_2_alg».proof.Proof.KI.Params
import proofs.«118595_j1726576853663_2_alg».proof.Proof.KI.GlueBin3
import proofs.«118595_j1726576853663_2_alg».proof.Proof.KI.GlueStats3
import proofs.«118595_j1726576853663_2_alg».proof.Proof.KI.ForwardMath

/-!
Layer 3: from the boundary after region 2 to the boundary after region 3. If the three arrays region 2 wrote
hold products x with their half sums, then the three arrays region 3 writes hold the specification's next products
from x, with theirs. Region 3 reads x's array; the mean, variance, scale and shift rows the host formed after region
2; and the binarised weights main_v15, written before the first region. What region 3 computes from its input arrays
is taken as the hypothesis H3.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ) (ρ : Dev nD → PrngReg)

set_option maxHeartbeats 4000000 in
theorem layer3_step
    (H3 : ∀ (V : (c : Dev nD) → (b : Ref sig .tc) → Buf (Elt Ideal) ((c : Thread nD τ).loc b)) (c : Dev nD),
      Fwd.LayerAt (Fwd.rawOf (N := 256) (N' := 256) (V c (Pipeline.arrRef spec3 0)) (V c (Pipeline.arrRef spec3 1))
          (V c (Pipeline.arrRef spec3 2)) (V c (Pipeline.arrRef spec3 3)) (V c (Pipeline.arrRef spec3 4))
          (V c (Pipeline.arrRef spec3 5)))
        ((dat3 V c).arrAt 6 cfg3.N) ((dat3 V c).arrAt 7 cfg3.N) ((dat3 V c).arrAt 8 cfg3.N))
    (c : Dev nD) (x : Fin 65536 → Fin 256 → EReal)
    (L : Fwd.LayerAt x (W16 m ρ c (Proc.devRef .tc main_v62_0)) (W16 m ρ c (Proc.devRef .tc main_v62_1)) (W16 m ρ c (Proc.devRef .tc main_v62_2))) :
    Fwd.LayerAt (Spec.rawNext (Spec.normK (PK m c).g2 (PK m c).b2 x) (PK m c).w3)
      (W18 m ρ c (Proc.devRef .tc main_v83_0)) (W18 m ρ c (Proc.devRef .tc main_v83_1)) (W18 m ρ c (Proc.devRef .tc main_v83_2)) := by
  have hxa : (V17 m ρ c (Pipeline.arrRef spec3 0) : S65536x256.Idx → EReal)
      = (W16 m ρ c (Proc.devRef .tc main_v62_0) : S65536x256.Idx → EReal) := W17_main_v62_0_from16 m ρ c
  have hwbA : (V17 m ρ c (Pipeline.arrRef spec3 5) : S256x256.Idx → EReal)
      = (W9 m ρ c (Proc.devRef .tc main_v15) : S256x256.Idx → EReal) := W17_main_v15_from9 m ρ c
  have L' : Fwd.LayerAt x (V17 m ρ c (Pipeline.arrRef spec3 0) : S65536x256.Idx → EReal)
      (W16 m ρ c (Proc.devRef .tc main_v62_1)) (W16 m ρ c (Proc.devRef .tc main_v62_2)) :=
    ⟨fun r i => (congrFun hxa (ix2 r i)).trans (L.raw r i), L.sum, L.sq⟩
  have Ln := Fwd.LayerAt.next (N := 256) (N' := 256) L' (PK m c).g2 (PK m c).b2
    (V17 m ρ c (Pipeline.arrRef spec3 1)) (V17 m ρ c (Pipeline.arrRef spec3 2))
    (V17 m ρ c (Pipeline.arrRef spec3 3)) (V17 m ρ c (Pipeline.arrRef spec3 4))
    (fun i => hostOps3_mean_at (W16 m ρ c) _ rfl 0 i)
    (fun i => hostOps3_var_at (W16 m ρ c) _ _ rfl rfl 0 i)
    (fun i => hostOps3_gamma_at (W16 m ρ c) _ (W16_main_arg8_b m ρ c) 0 i)
    (fun i => hostOps3_beta_at (W16 m ρ c) _ (W16_main_arg13_b m ρ c) 0 i)
    (PK m c).w3 (V17 m ρ c (Pipeline.arrRef spec3 5))
    (fun o i => (congrFun hwbA (ix2 o i)).trans (wb3_at (W6 m ρ c) _ (W6_main_arg4_b m ρ c) (ix2 o i)))
    (H3 (V17 m ρ) c)
  exact ⟨fun r o => (congrFun (W18_arr m ρ c 6 : (W18 m ρ c (Proc.devRef .tc main_v83_0) : S65536x256.Idx → EReal) = _) (ix2 r o)).trans (Ln.raw r o),
    fun p o => (congrFun (W18_arr m ρ c 7 : (W18 m ρ c (Proc.devRef .tc main_v83_1) : S16x256.Idx → EReal) = _) (ix2 p o)).trans (Ln.sum p o),
    fun p o => (congrFun (W18_arr m ρ c 8 : (W18 m ρ c (Proc.devRef .tc main_v83_2) : S16x256.Idx → EReal) = _) (ix2 p o)).trans (Ln.sq p o)⟩

end Cert.KernelIdeal.Hand

end
-- ==== Proof.KI.GlueBin4.lean ====
import proofs.«118595_j1726576853663_2_alg».proof.Proof.Gen.KernelIdeal.Launch
import proofs.«118595_j1726576853663_2_alg».proof.Proof.KI.GlueLib
import Idealize.ShloMosaic.Lib.StableHlo.Run

/-!
Weight matrix 4 (main_arg5, shape S10x256) binarised by the host before the first region, read at an index: the
comparison with a zero array (hostOps0_8: main_v17, with the words for +1 and −1 in main_cst_12, main_cst_13), the selection between
a +1 array and a −1 array (hostOps0_9: main_v18), and the change of format, which keeps every value (hostOps0_10: main_v19).
Together: entry i of main_v19 is 1 where entry i of main_arg5 is at least 0, else −1.
-/

noncomputable section

namespace Cert.KernelIdeal.Hand

open Idealize.ShloMosaic Idealize.ShloMosaic.TcCoe Idealize.ShloMosaic.ValueIdx
open Cert.KernelIdeal Cert.KernelIdeal.Gen

variable (W : Valuation τ sig (Elt Ideal))

/-! ### Stretch by stretch: each written buffer as the operations' term over the contents before the stretch -/

theorem hostOps0_8_main_v17 :
    (StableHlo.after (hostOps0_8 (F := Ideal)) W (Proc.devRef .tc main_v17) : S10x256.Idx → BitVec 1)
      = cmpf .oge (W (Proc.devRef .tc main_arg5) : S10x256.Idx → EReal) (broadcastInDim (s := S_) S10x256 ![] bcast_S_S10x256 (constant (F := Ideal) S_ .f32 0x00000000#32)) := by
  dsimp only [hostOps0_8]; after_results; all_goals rfl

theorem hostOps0_8_main_cst_12 :
    (StableHlo.after (hostOps0_8 (F := Ideal)) W (Proc.devRef .tc main_cst_12) : S_.Idx → EReal) = constant (F := Ideal) S_ .f32 0x3F800000#32 := by
  dsimp only [hostOps0_8]; after_results; all_goals rfl

theorem hostOps0_8_main_cst_13 :
    (StableHlo.after (hostOps0_8 (F := Ideal)) W (Proc.devRef .tc main_cst_13) : S_.Idx → EReal) = constant (F := Ideal) S_ .f32 0xBF800000#32 := by
  dsimp only [hostOps0_8]; after_results; all_goals rfl

theorem hostOps0_9_main_v18 :
    (StableHlo.after (hostOps0_9 (F := Ideal)) W (Proc.devRef .tc main_v18) : S10x256.Idx → EReal)
      = select (W (Proc.devRef .tc main_v17) : S10x256.Idx → BitVec 1) (broadcastInDim (s := S_) S10x256 ![] bcast_S_S10x256 (W (Proc.devRef .tc main_cst_12) : S_.Idx → EReal)) (broadcastInDim (s := S_) S10x256 ![] bcast_S_S10x256 (W (Proc.devRef .tc main_cst_13) : S_.Idx → EReal)) := by
  dsimp only [hostOps0_9]; after_results; all_goals rfl

theorem hostOps0_10_main_v19 :
    (StableHlo.after (hostOps0_10 (F := Ideal)) W (Proc.devRef .tc main_v19) : S10x256.Idx → EReal) = (W (Proc.devRef .tc main_v18) : S10x256.Idx → EReal) := by
  dsimp only [hostOps0_10]; after_results; all_goals rfl

/-! ### At an index -/

/-- The comparison's bit: whether the weight is at least 0. -/
theorem hostOps0_8_main_v17_at (w : S10x256.Idx → EReal) (hw : (W (Proc.devRef .tc main_arg5) : S10x256.Idx → EReal) = w) (i : S10x256.Idx) :
    (StableHlo.after (hostOps0_8 (F := Ideal)) W (Proc.devRef .tc main_v17) : S10x256.Idx → BitVec 1) i = Ideal.cmp .oge (w i) 0 := by
  subst hw
  refine (congrFun (hostOps0_8_main_v17 W) i).trans ?_
  rw [cmpf_apply, broadcastInDim_scalar_apply, constant_apply, Ideal.cmpf_def, Ideal.ofBits_zero_f32]

/-- The selection: the first scalar where the bit is set, else the second. -/
theorem hostOps0_9_main_v18_at (c : S10x256.Idx → BitVec 1) (p q : S_.Idx → EReal) (hc : (W (Proc.devRef .tc main_v17) : S10x256.Idx → BitVec 1) = c) (hp : (W (Proc.devRef .tc main_cst_12) : S_.Idx → EReal) = p)
    (hq : (W (Proc.devRef .tc main_cst_13) : S_.Idx → EReal) = q) (i : S10x256.Idx) :
    (StableHlo.after (hostOps0_9 (F := Ideal)) W (Proc.devRef .tc main_v18) : S10x256.Idx → EReal) i = Scalar.select (c i) (p ix0) (q ix0) := by
  subst hc; subst hp; subst hq
  refine (congrFun (hostOps0_9_main_v18 W) i).trans ?_
  rw [select_apply, broadcastInDim_scalar_apply, broadcastInDim_scalar_apply]

/-! ### The three stretches together -/

/-- The binarised matrix as one term of the weight. -/
theorem wb4_term :
    (StableHlo.after (hostOps0_10 (F := Ideal)) (StableHlo.after (hostOps0_9 (F := Ideal)) (StableHlo.after (hostOps0_8 (F := Ideal)) W))
        (Proc.devRef .tc main_v19) : S10x256.Idx → EReal)
      = Glue.binarized bcast_S_S10x256 (W (Proc.devRef .tc main_arg5) : S10x256.Idx → EReal) := by
  dsimp only [hostOps0_8, hostOps0_9, hostOps0_10]; after_results; all_goals rfl

/-- Entry i of the binarised matrix: 1 where the weight is at least 0, else −1. -/
theorem wb4_at (w : S10x256.Idx → EReal) (hw : (W (Proc.devRef .tc main_arg5) : S10x256.Idx → EReal) = w) (i : S10x256.Idx) :
    (StableHlo.after (hostOps0_10 (F := Ideal)) (StableHlo.after (hostOps0_9 (F := Ideal)) (StableHlo.after (hostOps0_8 (F := Ideal)) W))
        (Proc.devRef .tc main_v19) : S10x256.Idx → EReal) i
      = (if 0 ≤ w i then (1 : EReal) else -1) := by
  subst hw
  exact (congrFun (wb4_term W) i).trans (Glue.binarized_apply _ _ i)

end Cert.KernelIdeal.Hand
-- ==== Proof.KI.GlueStats4.lean ====
import proofs.«118595_j1726576853663_2_alg».proof.Proof.Gen.KernelIdeal.Launch
import proofs.«118595_j1726576853663_2_alg».proof.Proof.KI.GlueLib
import Idealize.ShloMosaic.Lib.StableHlo.Run

/-!
The host operations after region 3, read at an index (N = 256). Core c leaves its column sums in row 8c of
main_v83_1 and its column sums of squares in row 8c of main_v83_2. The host adds rows 0 and 8 and divides by the batch
size 65536: the mean main_v95; the same for the squares, minus the square of the mean, not below zero: the variance
main_v101; and lays the scale main_arg9 and the shift main_arg14 as [1, 256] rows main_v102, main_v103.
-/

noncomputable section

namespace Cert.KernelIdeal.Hand

open Idealize.ShloMosaic Idealize.ShloMosaic.TcCoe Idealize.ShloMosaic.ValueIdx
open Cert.KernelIdeal Cert.KernelIdeal.Gen

variable (W : Valuation τ sig (Elt Ideal))

/-- The mean as the operations' term. -/
theorem hostOps4_mean :
    (StableHlo.after (hostOps4 (F := Ideal)) W (Proc.devRef .tc main_v95) : S1x256.Idx → EReal)
      = Glue.coreMean shapeCasts_S16x256_S2x8x256 slices_S2x8x256_S2x1x256_0_0_0 shapeCasts_S2x1x256_S2x256 reducesTo_S2x256_S256_d0 h_S_ bcast_S256_S1x256_1 bcast_S_S1x256 (W (Proc.devRef .tc main_v83_1) : S16x256.Idx → EReal) := by
  dsimp only [hostOps4]; after_results_simp; rfl

/-- The variance as the operations' term. -/
theorem hostOps4_var :
    (StableHlo.after (hostOps4 (F := Ideal)) W (Proc.devRef .tc main_v101) : S1x256.Idx → EReal)
      = Glue.coreVar shapeCasts_S16x256_S2x8x256 slices_S2x8x256_S2x1x256_0_0_0 shapeCasts_S2x1x256_S2x256 reducesTo_S2x256_S256_d0 h_S_ bcast_S256_S1x256_1 bcast_S_S1x256 (W (Proc.devRef .tc main_v83_1) : S16x256.Idx → EReal) (W (Proc.devRef .tc main_v83_2) : S16x256.Idx → EReal) := by
  dsimp only [hostOps4]; after_results_simp; rfl

/-- The scale and the shift as the operations' terms. -/
theorem hostOps4_gamma :
    (StableHlo.after (hostOps4 (F := Ideal)) W (Proc.devRef .tc main_v102) : S1x256.Idx → EReal)
      = shapeCast S1x256 (W (Proc.devRef .tc main_arg9) : S256.Idx → EReal) shapeCasts_S256_S1x256 := by
  dsimp only [hostOps4]; after_results_simp; rfl

theorem hostOps4_beta :
    (StableHlo.after (hostOps4 (F := Ideal)) W (Proc.devRef .tc main_v103) : S1x256.Idx → EReal)
      = shapeCast S1x256 (W (Proc.devRef .tc main_arg14) : S256.Idx → EReal) shapeCasts_S256_S1x256 := by
  dsimp only [hostOps4]; after_results_simp; rfl

/-! The entries, over the input arrays as variables: S the column sums, Q the column sums of squares (both [16, 256],
core c's row in row 8c), g a [256] vector, each equal to the contents of its buffer before the stretch. -/

/-- mean (0, j) = (S (0, j) + S (8, j)) / 65536. -/
theorem hostOps4_mean_at (S : S16x256.Idx → EReal) (hS : (W (Proc.devRef .tc main_v83_1) : S16x256.Idx → EReal) = S)
    (u : Fin 1) (j : Fin 256) :
    (StableHlo.after (hostOps4 (F := Ideal)) W (Proc.devRef .tc main_v95) : S1x256.Idx → EReal) (ix2 u j)
      = Ideal.div (S (ix2 (0 : Fin 16) j) + S (ix2 (8 : Fin 16) j)) ((65536 : ℝ) : EReal) := by
  subst hS
  exact (congrFun (hostOps4_mean W) (ix2 u j)).trans (Glue.coreMean_apply _ _ _ _ _ _ _ (by decide) _ u j)

/-- var (0, j) = max ((Q (0, j) + Q (8, j)) / 65536 − mean (0, j)², 0). -/
theorem hostOps4_var_at (S Q : S16x256.Idx → EReal) (hS : (W (Proc.devRef .tc main_v83_1) : S16x256.Idx → EReal) = S)
    (hQ : (W (Proc.devRef .tc main_v83_2) : S16x256.Idx → EReal) = Q) (u : Fin 1) (j : Fin 256) :
    (StableHlo.after (hostOps4 (F := Ideal)) W (Proc.devRef .tc main_v101) : S1x256.Idx → EReal) (ix2 u j)
      = max (Ideal.div (Q (ix2 (0 : Fin 16) j) + Q (ix2 (8 : Fin 16) j)) ((65536 : ℝ) : EReal)
              - Ideal.div (S (ix2 (0 : Fin 16) j) + S (ix2 (8 : Fin 16) j)) ((65536 : ℝ) : EReal)
                * Ideal.div (S (ix2 (0 : Fin 16) j) + S (ix2 (8 : Fin 16) j)) ((65536 : ℝ) : EReal)) 0 := by
  subst hS; subst hQ
  exact (congrFun (hostOps4_var W) (ix2 u j)).trans (Glue.coreVar_apply _ _ _ _ _ _ _ (by decide) _ _ u j)

/-- The scale and shift rows read the vectors. -/
theorem hostOps4_gamma_at (g : S256.Idx → EReal) (hg : (W (Proc.devRef .tc main_arg9) : S256.Idx → EReal) = g)
    (u : Fin 1) (j : Fin 256) :
    (StableHlo.after (hostOps4 (F := Ideal)) W (Proc.devRef .tc main_v102) : S1x256.Idx → EReal) (ix2 u j) = g (ix1 j) := by
  subst hg
  exact (congrFun (hostOps4_gamma W) (ix2 u j)).trans (shapeCast_a_1a_apply _ _ u j)

theorem hostOps4_beta_at (g : S256.Idx → EReal) (hg : (W (Proc.devRef .tc main_arg14) : S256.Idx → EReal) = g)
    (u : Fin 1) (j : Fin 256) :
    (StableHlo.after (hostOps4 (F := Ideal)) W (Proc.devRef .tc main_v103) : S1x256.Idx → EReal) (ix2 u j) = g (ix1 j) := by
  subst hg
  exact (congrFun (hostOps4_beta W) (ix2 u j)).trans (shapeCast_a_1a_apply _ _ u j)

end Cert.KernelIdeal.Hand
-- ==== Proof.KI.Forward4.lean ====
import proofs.«118595_j1726576853663_2_alg».proof.Proof.KI.Chain
import proofs.«118595_j1726576853663_2_alg».proof.Proof.KI.Params
import proofs.«118595_j1726576853663_2_alg».proof.Proof.KI.GlueBin4
import proofs.«118595_j1726576853663_2_alg».proof.Proof.KI.GlueStats4
import proofs.«118595_j1726576853663_2_alg».proof.Proof.KI.ForwardMath

/-!
Layer 4: from the boundary after region 3 to the boundary after region 4. If the three arrays region 3 wrote
hold products x with their half sums, then the three arrays region 4 writes hold the specification's next products
from x, with theirs. Region 4 reads x's array; the mean, variance, scale and shift rows the host formed after region
3; and the binarised weights main_v19, written before the first region. What region 4 computes from its input arrays
is taken as the hypothesis H4.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ) (ρ : Dev nD → PrngReg)

set_option maxHeartbeats 4000000 in
theorem layer4_step
    (H4 : ∀ (V : (c : Dev nD) → (b : Ref sig .tc) → Buf (Elt Ideal) ((c : Thread nD τ).loc b)) (c : Dev nD),
      Fwd.LayerAt (Fwd.rawOf (N := 256) (N' := 10) (V c (Pipeline.arrRef spec4 0)) (V c (Pipeline.arrRef spec4 1))
          (V c (Pipeline.arrRef spec4 2)) (V c (Pipeline.arrRef spec4 3)) (V c (Pipeline.arrRef spec4 4))
          (V c (Pipeline.arrRef spec4 5)))
        ((dat4 V c).arrAt 6 cfg4.N) ((dat4 V c).arrAt 7 cfg4.N) ((dat4 V c).arrAt 8 cfg4.N))
    (c : Dev nD) (x : Fin 65536 → Fin 256 → EReal)
    (L : Fwd.LayerAt x (W18 m ρ c (Proc.devRef .tc main_v83_0)) (W18 m ρ c (Proc.devRef .tc main_v83_1)) (W18 m ρ c (Proc.devRef .tc main_v83_2))) :
    Fwd.LayerAt (Spec.rawNext (Spec.normK (PK m c).g3 (PK m c).b3 x) (PK m c).w4)
      (W20 m ρ c (Proc.devRef .tc main_v104_0)) (W20 m ρ c (Proc.devRef .tc main_v104_1)) (W20 m ρ c (Proc.devRef .tc main_v104_2)) := by
  have hxa : (V19 m ρ c (Pipeline.arrRef spec4 0) : S65536x256.Idx → EReal)
      = (W18 m ρ c (Proc.devRef .tc main_v83_0) : S65536x256.Idx → EReal) := W19_main_v83_0_from18 m ρ c
  have hwbA : (V19 m ρ c (Pipeline.arrRef spec4 5) : S10x256.Idx → EReal)
      = (W11 m ρ c (Proc.devRef .tc main_v19) : S10x256.Idx → EReal) := W19_main_v19_from11 m ρ c
  have L' : Fwd.LayerAt x (V19 m ρ c (Pipeline.arrRef spec4 0) : S65536x256.Idx → EReal)
      (W18 m ρ c (Proc.devRef .tc main_v83_1)) (W18 m ρ c (Proc.devRef .tc main_v83_2)) :=
    ⟨fun r i => (congrFun hxa (ix2 r i)).trans (L.raw r i), L.sum, L.sq⟩
  have Ln := Fwd.LayerAt.next (N := 256) (N' := 10) L' (PK m c).g3 (PK m c).b3
    (V19 m ρ c (Pipeline.arrRef spec4 1)) (V19 m ρ c (Pipeline.arrRef spec4 2))
    (V19 m ρ c (Pipeline.arrRef spec4 3)) (V19 m ρ c (Pipeline.arrRef spec4 4))
    (fun i => hostOps4_mean_at (W18 m ρ c) _ rfl 0 i)
    (fun i => hostOps4_var_at (W18 m ρ c) _ _ rfl rfl 0 i)
    (fun i => hostOps4_gamma_at (W18 m ρ c) _ (W18_main_arg9_b m ρ c) 0 i)
    (fun i => hostOps4_beta_at (W18 m ρ c) _ (W18_main_arg14_b m ρ c) 0 i)
    (PK m c).w4 (V19 m ρ c (Pipeline.arrRef spec4 5))
    (fun o i => (congrFun hwbA (ix2 o i)).trans (wb4_at (W8 m ρ c) _ (W8_main_arg5_b m ρ c) (ix2 o i)))
    (H4 (V19 m ρ) c)
  exact ⟨fun r o => (congrFun (W20_arr m ρ c 6 : (W20 m ρ c (Proc.devRef .tc main_v104_0) : S65536x10.Idx → EReal) = _) (ix2 r o)).trans (Ln.raw r o),
    fun p o => (congrFun (W20_arr m ρ c 7 : (W20 m ρ c (Proc.devRef .tc main_v104_1) : S16x10.Idx → EReal) = _) (ix2 p o)).trans (Ln.sum p o),
    fun p o => (congrFun (W20_arr m ρ c 8 : (W20 m ρ c (Proc.devRef .tc main_v104_2) : S16x10.Idx → EReal) = _) (ix2 p o)).trans (Ln.sq p o)⟩

end Cert.KernelIdeal.Hand

end
-- ==== Proof.KI.R6.Value.lean ====
/- What REGION 6 of @main (the softmax normalisation) leaves in its output array, over the extended reals: entry (r, o)
   is exp(y r o − gmax o) / gsum o, where y is the batch-normalised value γ o * (x r o − mean o) * rsqrt(var o + ε) + β o
   of the raw array x and gmax, gsum are the row vectors the region is handed. The body computes this block by block
   (2048 rows per point, 32 points), each point's block written back; the blocks tile the 65536 rows. -/
import proofs.«118595_j1726576853663_2_alg».proof.Proof.KI.R6.Frame
import proofs.«118595_j1726576853663_2_alg».proof.Proof.Spec
import Idealize.ShloMosaic.Lib.ValueIdx
import Idealize.ShloMosaic.Lib.ValueLayout
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

-- the buffer contents when the region is entered, over the extended reals
variable (V : (c : Dev nD) → (b : Ref sig .tc) → Buf (Elt Ideal) ((c : Thread nD τ).loc b))

theorem hz6 : (![0, 0] : Fin 2 → Nat) = fun _ => 0 := funext fun a => by fin_cases a <;> rfl

/-! ## The body's arithmetic at an index -/

/-- A row vector broadcast over the 2048 rows of a block reads, at (p, q), the vector at q. -/
theorem bcast6 (v : Vec Ideal S1x10 .f32) (p : Fin 2048) (q : Fin 10) :
    broadcastTo S2048x10 v broadcasts_S1x10_S2048x10 (ix2 p q) = v (ix2 (0 : Fin 1) q) :=
  broadcastTo_1b_ab_apply (a := 2048) (b := 10) v broadcasts_S1x10_S2048x10 p q

/-- The stored quotient at (p, q): the exponential of the normalised value minus the maximum, over the sum. -/
theorem k6pay1_apply (v0 : Vec Ideal S2048x10 .f32) (v2 v7 v9 v17 v21 v26 : Vec Ideal S1x10 .f32) (p : Fin 2048) (q : Fin 10) :
    k6_pay1 v0 v2 v7 v9 v17 v21 v26 (ix2 p q)
      = Ideal.div (Ideal.exp (v7 (ix2 0 q) * (v0 (ix2 p q) - v9 (ix2 0 q)) * Ideal.rsqrt (v2 (ix2 0 q) + Spec.eps) + v17 (ix2 0 q) - v21 (ix2 0 q))) (v26 (ix2 0 q)) := by
  unfold k6_pay1
  simp only [shapeCast_self]
  show Ideal.div (Ideal.exp (_ * (_ - _) * _ + _ - _)) _ = _
  rw [bcast6, bcast6, bcast6, bcast6, bcast6, bcast6]
  rfl

/-! ## Where the blocks sit in their arrays -/

/-- The block indices, decided over the grid: at point t the raw block and the output block are block t of the rows;
    each row vector is its array. -/
theorem idx6 : ∀ t : Fin cfg6.N, win6_0.index t (0 : Fin 2) = t.val ∧ win6_0.index t (1 : Fin 2) = 0
    ∧ win6_7.index t (0 : Fin 2) = t.val ∧ win6_7.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0 :=
  (by decide +kernel : ∀ t : Fin grid6.N, _)

/-- Window 0's block at point t read at (p, q) is its array at row 2048 t + p, column q. -/
theorem read6_0 (X : S65536x10.Idx → Elt Ideal .f32) (t : Fin cfg6.N) (p : Fin 2048) (q : Fin 10) :
    ((cfg6.win 0).blk t).view.read (Elt Ideal) X (ix2 p q) = X (ix2 (⟨2048 * t.val + p.val, (by have hN : cfg6.N = 32 := N_6; have := t.isLt; have := p.isLt; omega)⟩ : Fin 65536) q) := by
  obtain ⟨h00, h01, h70, h71, -⟩ := idx6 t
  show X (((cfg6.win 0).blk t).view.emb (ix2 p q)) = X _
  refine congrArg X (funext fun a => Fin.ext ?_)
  match a with
  | ⟨0, _⟩ => show win6_0.index t (0 : Fin 2) * 2048 + 1 * p.val = 2048 * t.val + p.val; rw [h00]; omega
  | ⟨1, _⟩ => show win6_0.index t (1 : Fin 2) * 10 + 1 * q.val = q.val; rw [h01]; omega

/-- Window 7's block at point t read at (p, q) is its array at row 2048 t + p, column q. -/
theorem read6_7 (X : S65536x10.Idx → Elt Ideal .f32) (t : Fin cfg6.N) (p : Fin 2048) (q : Fin 10) :
    ((cfg6.win 7).blk t).view.read (Elt Ideal) X (ix2 p q) = X (ix2 (⟨2048 * t.val + p.val, (by have hN : cfg6.N = 32 := N_6; have := t.isLt; have := p.isLt; omega)⟩ : Fin 65536) q) := by
  obtain ⟨h00, h01, h70, h71, -⟩ := idx6 t
  show X (((cfg6.win 7).blk t).view.emb (ix2 p q)) = X _
  refine congrArg X (funext fun a => Fin.ext ?_)
  match a with
  | ⟨0, _⟩ => show win6_7.index t (0 : Fin 2) * 2048 + 1 * p.val = 2048 * t.val + p.val; rw [h70]; omega
  | ⟨1, _⟩ => show win6_7.index t (1 : Fin 2) * 10 + 1 * q.val = q.val; rw [h71]; omega

/-- Window 1's block, at any point, is its row vector. -/
theorem read6_1 (X : S1x10.Idx → Elt Ideal .f32) (t : Fin cfg6.N) (q : Fin 10) :
    ((cfg6.win 1).blk t).view.read (Elt Ideal) X (ix2 (0 : Fin 1) q) = X (ix2 (0 : Fin 1) q) := by
  obtain ⟨-, -, -, -, h0, h1, -, -, -, -, -, -, -, -, -, -⟩ := idx6 t
  show X (((cfg6.win 1).blk t).view.emb (ix2 (0 : Fin 1) q)) = X _
  refine congrArg X (funext fun a => Fin.ext ?_)
  match a with
  | ⟨0, _⟩ => show win6_1.index t (0 : Fin 2) * 1 + 1 * 0 = 0; rw [h0]
  | ⟨1, _⟩ => show win6_1.index t (1 : Fin 2) * 10 + 1 * q.val = q.val; rw [h1]; omega

/-- Window 2's block, at any point, is its row vector. -/
theorem read6_2 (X : S1x10.Idx → Elt Ideal .f32) (t : Fin cfg6.N) (q : Fin 10) :
    ((cfg6.win 2).blk t).view.read (Elt Ideal) X (ix2 (0 : Fin 1) q) = X (ix2 (0 : Fin 1) q) := by
  obtain ⟨-, -, -, -, -, -, h0, h1, -, -, -, -, -, -, -, -⟩ := idx6 t
  show X (((cfg6.win 2).blk t).view.emb (ix2 (0 : Fin 1) q)) = X _
  refine congrArg X (funext fun a => Fin.ext ?_)
  match a with
  | ⟨0, _⟩ => show win6_2.index t (0 : Fin 2) * 1 + 1 * 0 = 0; rw [h0]
  | ⟨1, _⟩ => show win6_2.index t (1 : Fin 2) * 10 + 1 * q.val = q.val; rw [h1]; omega

/-- Window 3's block, at any point, is its row vector. -/
theorem read6_3 (X : S1x10.Idx → Elt Ideal .f32) (t : Fin cfg6.N) (q : Fin 10) :
    ((cfg6.win 3).blk t).view.read (Elt Ideal) X (ix2 (0 : Fin 1) q) = X (ix2 (0 : Fin 1) q) := by
  obtain ⟨-, -, -, -, -, -, -, -, h0, h1, -, -, -, -, -, -⟩ := idx6 t
  show X (((cfg6.win 3).blk t).view.emb (ix2 (0 : Fin 1) q)) = X _
  refine congrArg X (funext fun a => Fin.ext ?_)
  match a with
  | ⟨0, _⟩ => show win6_3.index t (0 : Fin 2) * 1 + 1 * 0 = 0; rw [h0]
  | ⟨1, _⟩ => show win6_3.index t (1 : Fin 2) * 10 + 1 * q.val = q.val; rw [h1]; omega

/-- Window 4's block, at any point, is its row vector. -/
theorem read6_4 (X : S1x10.Idx → Elt Ideal .f32) (t : Fin cfg6.N) (q : Fin 10) :
    ((cfg6.win 4).blk t).view.read (Elt Ideal) X (ix2 (0 : Fin 1) q) = X (ix2 (0 : Fin 1) q) := by
  obtain ⟨-, -, -, -, -, -, -, -, -, -, h0, h1, -, -, -, -⟩ := idx6 t
  show X (((cfg6.win 4).blk t).view.emb (ix2 (0 : Fin 1) q)) = X _
  refine congrArg X (funext fun a => Fin.ext ?_)
  match a with
  | ⟨0, _⟩ => show win6_4.index t (0 : Fin 2) * 1 + 1 * 0 = 0; rw [h0]
  | ⟨1, _⟩ => show win6_4.index t (1 : Fin 2) * 10 + 1 * q.val = q.val; rw [h1]; omega

/-- Window 5's block, at any point, is its row vector. -/
theorem read6_5 (X : S1x10.Idx → Elt Ideal .f32) (t : Fin cfg6.N) (q : Fin 10) :
    ((cfg6.win 5).blk t).view.read (Elt Ideal) X (ix2 (0 : Fin 1) q) = X (ix2 (0 : Fin 1) q) := by
  obtain ⟨-, -, -, -, -, -, -, -, -, -, -, -, h0, h1, -, -⟩ := idx6 t
  show X (((cfg6.win 5).blk t).view.emb (ix2 (0 : Fin 1) q)) = X _
  refine congrArg X (funext fun a => Fin.ext ?_)
  match a with
  | ⟨0, _⟩ => show win6_5.index t (0 : Fin 2) * 1 + 1 * 0 = 0; rw [h0]
  | ⟨1, _⟩ => show win6_5.index t (1 : Fin 2) * 10 + 1 * q.val = q.val; rw [h1]; omega

/-- Window 6's block, at any point, is its row vector. -/
theorem read6_6 (X : S1x10.Idx → Elt Ideal .f32) (t : Fin cfg6.N) (q : Fin 10) :
    ((cfg6.win 6).blk t).view.read (Elt Ideal) X (ix2 (0 : Fin 1) q) = X (ix2 (0 : Fin 1) q) := by
  obtain ⟨-, -, -, -, -, -, -, -, -, -, -, -, -, -, h0, h1⟩ := idx6 t
  show X (((cfg6.win 6).blk t).view.emb (ix2 (0 : Fin 1) q)) = X _
  refine congrArg X (funext fun a => Fin.ext ?_)
  match a with
  | ⟨0, _⟩ => show win6_6.index t (0 : Fin 2) * 1 + 1 * 0 = 0; rw [h0]
  | ⟨1, _⟩ => show win6_6.index t (1 : Fin 2) * 10 + 1 * q.val = q.val; rw [h1]; omega

/-! ## The whole array -/

/-- The normalised value at row r, column o, from the raw array and the four row vectors. -/
def y6 (x : S65536x10.Idx → Elt Ideal .f32) (mean var gamma beta : S1x10.Idx → Elt Ideal .f32) (r : Fin 65536) (o : Fin 10) : EReal :=
  Spec.norm (fun o => gamma (ix2 (0 : Fin 1) o)) (fun o => beta (ix2 (0 : Fin 1) o)) (fun o => mean (ix2 (0 : Fin 1) o)) (fun o => var (ix2 (0 : Fin 1) o))
    (fun r o => x (ix2 r o)) r o

/-- What the output array ends holding, index by index. -/
def G6 (x : S65536x10.Idx → Elt Ideal .f32) (mean var gamma beta gmax gsum : S1x10.Idx → Elt Ideal .f32) : S65536x10.Idx → Elt Ideal .f32 :=
  fun i => Ideal.div (Ideal.exp (y6 x mean var gamma beta (i 0) (i 1) - gmax (ix2 (0 : Fin 1) (i 1)))) (gsum (ix2 (0 : Fin 1) (i 1)))

/-- The seven input arrays as the region finds them. -/
abbrev G6V (c : Dev nD) : S65536x10.Idx → Elt Ideal .f32 :=
  G6 (V c (Pipeline.arrRef spec6 0)) (V c (Pipeline.arrRef spec6 1)) (V c (Pipeline.arrRef spec6 2)) (V c (Pipeline.arrRef spec6 3))
    (V c (Pipeline.arrRef spec6 4)) (V c (Pipeline.arrRef spec6 5)) (V c (Pipeline.arrRef spec6 6))

/-- What point t writes back is block t of that function. -/
theorem flushed6_7_eq (c : Dev nD) (t : Fin cfg6.N) :
    (dat6 V c).flushed 7 t = ((cfg6.win 7).blk t).view.read (Elt Ideal) (G6V V c) := by
  show (cfg6.win 7).cut (grid6.coords t) ((dat6 V c).after 7 t) = _
  rw [after6_7]
  unfold out6_7
  rw [View.canon_unit_zero hz6]
  simp only [View.ld_unit_zero (S := S2048x10) hz6, View.ld_unit_zero (S := S1x10) hz6]
  funext j
  obtain ⟨p, q, rfl⟩ : ∃ (p : Fin 2048) (q : Fin 10), j = ix2 p q := ⟨j 0, j 1, eq_ix2 j⟩
  refine (k6pay1_apply (iblk6 V c 0 t) (iblk6 V c 2 t) (iblk6 V c 3 t) (iblk6 V c 1 t) (iblk6 V c 4 t) (iblk6 V c 5 t) (iblk6 V c 6 t) p q).trans ?_
  refine ((read6_7 (G6V V c) t p q).trans ?_).symm
  unfold iblk6
  rw [read6_0 (V c (Pipeline.arrRef spec6 0)) t p q, read6_1 (V c (Pipeline.arrRef spec6 1)) t q, read6_2 (V c (Pipeline.arrRef spec6 2)) t q, read6_3 (V c (Pipeline.arrRef spec6 3)) t q, read6_4 (V c (Pipeline.arrRef spec6 4)) t q, read6_5 (V c (Pipeline.arrRef spec6 5)) t q, read6_6 (V c (Pipeline.arrRef spec6 6)) t q]
  rfl

/-- Every row is in some point's block: row r in block r / 2048. -/
theorem cover6_7V (i : S65536x10.Idx) : ∃ t : Fin cfg6.N, (cfg6.win 7).flush t = true ∧ i ∈ ((cfg6.win 7).blk t).view.set := by
  have hi0 : (i 0).val < 65536 := (i 0).isLt
  have hi1 : (i 1).val < 10 := (i 1).isLt
  have hN : cfg6.N = 32 := N_6
  obtain ⟨t, ht⟩ : ∃ t : Fin cfg6.N, t.val = (i 0).val / 2048 := ⟨⟨(i 0).val / 2048, by omega⟩, rfl⟩
  refine ⟨t, flush6_7 t, ?_⟩
  obtain ⟨-, -, h70, h71, -⟩ := idx6 t
  show i ∈ ((View.whole main_v140).slice (win6_7.rect t)).set
  rw [View.set_slice_whole, Rect.mem_set_unit]
  intro a
  match a with
  | ⟨0, _⟩ => show win6_7.index t (0 : Fin 2) * 2048 ≤ (i 0).val ∧ (i 0).val < win6_7.index t (0 : Fin 2) * 2048 + 2048; rw [h70, ht]; omega
  | ⟨1, _⟩ => show win6_7.index t (1 : Fin 2) * 10 ≤ (i 1).val ∧ (i 1).val < win6_7.index t (1 : Fin 2) * 10 + 10; rw [h71]; omega

/-- THE ARRAY after the region. -/
theorem final6_7 (c : Dev nD) : (dat6 V c).arrAt 7 cfg6.N = G6V V c :=
  (dat6 V c).arrAt_eq_of_cover 7 (G6V V c) (fun t _ => flushed6_7_eq V c t) cover6_7V

/-- At row r, column o: the exponential of the normalised value minus the maximum handed in, over the sum handed in. -/
theorem value6 (c : Dev nD) (r : Fin 65536) (o : Fin 10) :
    (dat6 V c).arrAt 7 cfg6.N (ix2 r o)
      = Ideal.div (Ideal.exp (y6 (V c (Pipeline.arrRef spec6 0)) (V c (Pipeline.arrRef spec6 1)) (V c (Pipeline.arrRef spec6 2)) (V c (Pipeline.arrRef spec6 3)) (V c (Pipeline.arrRef spec6 4)) r o
          - (V c (Pipeline.arrRef spec6 5) : S1x10.Idx → Elt Ideal .f32) (ix2 (0 : Fin 1) o)))
        ((V c (Pipeline.arrRef spec6 6) : S1x10.Idx → Elt Ideal .f32) (ix2 (0 : Fin 1) o)) := by
  rw [final6_7]; rfl

end Cert.KernelIdeal.Hand

end
-- ==== Proof.KI.GlueStats5.lean ====
import proofs.«118595_j1726576853663_2_alg».proof.Proof.Gen.KernelIdeal.Launch
import proofs.«118595_j1726576853663_2_alg».proof.Proof.KI.GlueLib
import Idealize.ShloMosaic.Lib.StableHlo.Run

/-!
The host operations after region 4, read at an index (N = 10). Core c leaves its column sums in row 8c of
main_v104_1 and its column sums of squares in row 8c of main_v104_2. The host adds rows 0 and 8 and divides by the batch
size 65536: the mean main_v116; the same for the squares, minus the square of the mean, not below zero: the variance
main_v122; and lays the scale main_arg10 and the shift main_arg15 as [1, 10] rows main_v123, main_v124.
-/

noncomputable section

namespace Cert.KernelIdeal.Hand

open Idealize.ShloMosaic Idealize.ShloMosaic.TcCoe Idealize.ShloMosaic.ValueIdx
open Cert.KernelIdeal Cert.KernelIdeal.Gen

variable (W : Valuation τ sig (Elt Ideal))

/-- The mean as the operations' term. -/
theorem hostOps5_mean :
    (StableHlo.after (hostOps5 (F := Ideal)) W (Proc.devRef .tc main_v116) : S1x10.Idx → EReal)
      = Glue.coreMean shapeCasts_S16x10_S2x8x10 slices_S2x8x10_S2x1x10_0_0_0 shapeCasts_S2x1x10_S2x10 reducesTo_S2x10_S10_d0 h_S_ bcast_S10_S1x10_1 bcast_S_S1x10 (W (Proc.devRef .tc main_v104_1) : S16x10.Idx → EReal) := by
  dsimp only [hostOps5]; after_results_simp; rfl

/-- The variance as the operations' term. -/
theorem hostOps5_var :
    (StableHlo.after (hostOps5 (F := Ideal)) W (Proc.devRef .tc main_v122) : S1x10.Idx → EReal)
      = Glue.coreVar shapeCasts_S16x10_S2x8x10 slices_S2x8x10_S2x1x10_0_0_0 shapeCasts_S2x1x10_S2x10 reducesTo_S2x10_S10_d0 h_S_ bcast_S10_S1x10_1 bcast_S_S1x10 (W (Proc.devRef .tc main_v104_1) : S16x10.Idx → EReal) (W (Proc.devRef .tc main_v104_2) : S16x10.Idx → EReal) := by
  dsimp only [hostOps5]; after_results_simp; rfl

/-- The scale and the shift as the operations' terms. -/
theorem hostOps5_gamma :
    (StableHlo.after (hostOps5 (F := Ideal)) W (Proc.devRef .tc main_v123) : S1x10.Idx → EReal)
      = shapeCast S1x10 (W (Proc.devRef .tc main_arg10) : S10.Idx → EReal) shapeCasts_S10_S1x10 := by
  dsimp only [hostOps5]; after_results_simp; rfl

theorem hostOps5_beta :
    (StableHlo.after (hostOps5 (F := Ideal)) W (Proc.devRef .tc main_v124) : S1x10.Idx → EReal)
      = shapeCast S1x10 (W (Proc.devRef .tc main_arg15) : S10.Idx → EReal) shapeCasts_S10_S1x10 := by
  dsimp only [hostOps5]; after_results_simp; rfl

/-! The entries, over the input arrays as variables: S the column sums, Q the column sums of squares (both [16, 10],
core c's row in row 8c), g a [10] vector, each equal to the contents of its buffer before the stretch. -/

/-- mean (0, j) = (S (0, j) + S (8, j)) / 65536. -/
theorem hostOps5_mean_at (S : S16x10.Idx → EReal) (hS : (W (Proc.devRef .tc main_v104_1) : S16x10.Idx → EReal) = S)
    (u : Fin 1) (j : Fin 10) :
    (StableHlo.after (hostOps5 (F := Ideal)) W (Proc.devRef .tc main_v116) : S1x10.Idx → EReal) (ix2 u j)
      = Ideal.div (S (ix2 (0 : Fin 16) j) + S (ix2 (8 : Fin 16) j)) ((65536 : ℝ) : EReal) := by
  subst hS
  exact (congrFun (hostOps5_mean W) (ix2 u j)).trans (Glue.coreMean_apply _ _ _ _ _ _ _ (by decide) _ u j)

/-- var (0, j) = max ((Q (0, j) + Q (8, j)) / 65536 − mean (0, j)², 0). -/
theorem hostOps5_var_at (S Q : S16x10.Idx → EReal) (hS : (W (Proc.devRef .tc main_v104_1) : S16x10.Idx → EReal) = S)
    (hQ : (W (Proc.devRef .tc main_v104_2) : S16x10.Idx → EReal) = Q) (u : Fin 1) (j : Fin 10) :
    (StableHlo.after (hostOps5 (F := Ideal)) W (Proc.devRef .tc main_v122) : S1x10.Idx → EReal) (ix2 u j)
      = max (Ideal.div (Q (ix2 (0 : Fin 16) j) + Q (ix2 (8 : Fin 16) j)) ((65536 : ℝ) : EReal)
              - Ideal.div (S (ix2 (0 : Fin 16) j) + S (ix2 (8 : Fin 16) j)) ((65536 : ℝ) : EReal)
                * Ideal.div (S (ix2 (0 : Fin 16) j) + S (ix2 (8 : Fin 16) j)) ((65536 : ℝ) : EReal)) 0 := by
  subst hS; subst hQ
  exact (congrFun (hostOps5_var W) (ix2 u j)).trans (Glue.coreVar_apply _ _ _ _ _ _ _ (by decide) _ _ u j)

/-- The scale and shift rows read the vectors. -/
theorem hostOps5_gamma_at (g : S10.Idx → EReal) (hg : (W (Proc.devRef .tc main_arg10) : S10.Idx → EReal) = g)
    (u : Fin 1) (j : Fin 10) :
    (StableHlo.after (hostOps5 (F := Ideal)) W (Proc.devRef .tc main_v123) : S1x10.Idx → EReal) (ix2 u j) = g (ix1 j) := by
  subst hg
  exact (congrFun (hostOps5_gamma W) (ix2 u j)).trans (shapeCast_a_1a_apply _ _ u j)

theorem hostOps5_beta_at (g : S10.Idx → EReal) (hg : (W (Proc.devRef .tc main_arg15) : S10.Idx → EReal) = g)
    (u : Fin 1) (j : Fin 10) :
    (StableHlo.after (hostOps5 (F := Ideal)) W (Proc.devRef .tc main_v124) : S1x10.Idx → EReal) (ix2 u j) = g (ix1 j) := by
  subst hg
  exact (congrFun (hostOps5_beta W) (ix2 u j)).trans (shapeCast_a_1a_apply _ _ u j)

end Cert.KernelIdeal.Hand
-- ==== Proof.KI.GlueSoftmax.lean ====
import proofs.«118595_j1726576853663_2_alg».proof.Proof.Gen.KernelIdeal.Launch
import proofs.«118595_j1726576853663_2_alg».proof.Proof.KI.GlueLib
import Idealize.ShloMosaic.Lib.StableHlo.Run

/-!
The host operations after region 5, read at an index. Core c leaves the running maximum of its rows in row 8c of
main_v125_0 and the sum of exponentials about that maximum in row 8c of main_v125_1. The host takes the larger of the
two maxima (from −∞): main_v133; rescales each core's sum by the exponential of its maximum minus the common one and
adds the two (from zero): main_v139.
-/

noncomputable section

namespace Cert.KernelIdeal.Hand

open Idealize.ShloMosaic Idealize.ShloMosaic.TcCoe Idealize.ShloMosaic.ValueIdx
open Cert.KernelIdeal Cert.KernelIdeal.Gen

variable (W : Valuation τ sig (Elt Ideal))

/-- The common maximum as the operations' term. -/
theorem hostOps6_gmax :
    (StableHlo.after (hostOps6 (F := Ideal)) W (Proc.devRef .tc main_v133) : S1x10.Idx → EReal)
      = Glue.coreMax shapeCasts_S16x10_S2x8x10 slices_S2x8x10_S2x1x10_0_0_0 shapeCasts_S2x1x10_S2x10 reducesTo_S2x10_S10_d0 h_S_ bcast_S10_S1x10_1 (W (Proc.devRef .tc main_v125_0) : S16x10.Idx → EReal) := by
  dsimp only [hostOps6]; after_results_simp; rfl

/-- The common sum as the operations' term. -/
theorem hostOps6_gsum :
    (StableHlo.after (hostOps6 (F := Ideal)) W (Proc.devRef .tc main_v139) : S1x10.Idx → EReal)
      = Glue.coreExpSum shapeCasts_S16x10_S2x8x10 slices_S2x8x10_S2x1x10_0_0_0 shapeCasts_S2x1x10_S2x10 reducesTo_S2x10_S10_d0 h_S_ bcast_S10_S1x10_1 bcast_S1x10_S2x10_0_1
          (W (Proc.devRef .tc main_v125_0) : S16x10.Idx → EReal) (W (Proc.devRef .tc main_v125_1) : S16x10.Idx → EReal) := by
  dsimp only [hostOps6]; after_results_simp; rfl

/-! The entries, over the input arrays as variables: M the cores' maxima, S their sums (both [16, 10], core c's row in
row 8c), each equal to the contents of its buffer before the stretch. -/

/-- gmax (0, j) = max (M (0, j)) (M (8, j)). -/
theorem hostOps6_gmax_at (M : S16x10.Idx → EReal) (hM : (W (Proc.devRef .tc main_v125_0) : S16x10.Idx → EReal) = M)
    (u : Fin 1) (j : Fin 10) :
    (StableHlo.after (hostOps6 (F := Ideal)) W (Proc.devRef .tc main_v133) : S1x10.Idx → EReal) (ix2 u j)
      = max (M (ix2 (0 : Fin 16) j)) (M (ix2 (8 : Fin 16) j)) := by
  subst hM
  exact (congrFun (hostOps6_gmax W) (ix2 u j)).trans (Glue.coreMax_apply _ _ _ _ _ _ (by decide) _ u j)

/-- gsum (0, j) = S (0, j) · exp (M (0, j) − gmax) + S (8, j) · exp (M (8, j) − gmax). -/
theorem hostOps6_gsum_at (M S : S16x10.Idx → EReal) (hM : (W (Proc.devRef .tc main_v125_0) : S16x10.Idx → EReal) = M)
    (hS : (W (Proc.devRef .tc main_v125_1) : S16x10.Idx → EReal) = S) (u : Fin 1) (j : Fin 10) :
    (StableHlo.after (hostOps6 (F := Ideal)) W (Proc.devRef .tc main_v139) : S1x10.Idx → EReal) (ix2 u j)
      = S (ix2 (0 : Fin 16) j) * Ideal.exp (M (ix2 (0 : Fin 16) j) - max (M (ix2 (0 : Fin 16) j)) (M (ix2 (8 : Fin 16) j)))
        + S (ix2 (8 : Fin 16) j) * Ideal.exp (M (ix2 (8 : Fin 16) j) - max (M (ix2 (0 : Fin 16) j)) (M (ix2 (8 : Fin 16) j))) := by
  subst hM; subst hS
  exact (congrFun (hostOps6_gsum W) (ix2 u j)).trans (Glue.coreExpSum_apply _ _ _ _ _ _ _ (by decide) _ _ u j)

end Cert.KernelIdeal.Hand
-- ==== Proof.KI.ForwardTail.lean ====
import proofs.«118595_j1726576853663_2_alg».proof.Proof.KI.Chain
import proofs.«118595_j1726576853663_2_alg».proof.Proof.KI.Params
import proofs.«118595_j1726576853663_2_alg».proof.Proof.KI.R6.Value
import proofs.«118595_j1726576853663_2_alg».proof.Proof.KI.GlueStats5
import proofs.«118595_j1726576853663_2_alg».proof.Proof.KI.GlueSoftmax
import proofs.«118595_j1726576853663_2_alg».proof.Proof.KI.ForwardMath
import proofs.«118595_j1726576853663_2_alg».proof.Proof.BridgeNet

/-!
The tail: from the boundary after region 4 to the result. Region 5 reads the last products and the rows the host formed
after region 4, and leaves per half the column maxima and the column sums of exponentials of the normalised values; the
host forms the overall maximum and the rescaled sum from rows 0 and 8; region 6 divides. With the last scale and shift
real-valued the normalised values are real, and the quotient is the network's result. What region 5 leaves, on
real-valued normalised values, is taken as the hypothesis H5.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ) (ρ : Dev nD → PrngReg)

set_option maxHeartbeats 4000000 in
theorem tail_at
    (H5 : ∀ (V : (c : Dev nD) → (b : Ref sig .tc) → Buf (Elt Ideal) ((c : Thread nD τ).loc b)) (c : Dev nD),
      (∀ r o, ∃ q : ℝ, Fwd.normOf (N := 10) (V c (Pipeline.arrRef spec5 0)) (V c (Pipeline.arrRef spec5 1)) (V c (Pipeline.arrRef spec5 2)) (V c (Pipeline.arrRef spec5 3)) (V c (Pipeline.arrRef spec5 4)) r o = (q : EReal)) →
      (∀ (p : Fin 16) (o : Fin 10), ((dat5 V c).arrAt 5 cfg5.N : S16x10.Idx → EReal) (ix2 p o)
          = Finset.univ.sup fun r' : Fin 32768 => Fwd.normOf (N := 10) (V c (Pipeline.arrRef spec5 0)) (V c (Pipeline.arrRef spec5 1)) (V c (Pipeline.arrRef spec5 2)) (V c (Pipeline.arrRef spec5 3)) (V c (Pipeline.arrRef spec5 4)) ⟨(p.val / 8) * 32768 + r'.val, by have := p.isLt; have := r'.isLt; omega⟩ o)
      ∧ (∀ (p : Fin 16) (o : Fin 10), ((dat5 V c).arrAt 6 cfg5.N : S16x10.Idx → EReal) (ix2 p o)
          = ∑ r' : Fin 32768, Ideal.exp (Fwd.normOf (N := 10) (V c (Pipeline.arrRef spec5 0)) (V c (Pipeline.arrRef spec5 1)) (V c (Pipeline.arrRef spec5 2)) (V c (Pipeline.arrRef spec5 3)) (V c (Pipeline.arrRef spec5 4)) ⟨(p.val / 8) * 32768 + r'.val, by have := p.isLt; have := r'.isLt; omega⟩ o
              - ((dat5 V c).arrAt 5 cfg5.N : S16x10.Idx → EReal) (ix2 p o))))
    (c : Dev nD)
    (hg : ∀ o : S10.Idx, ∃ q : ℝ, m ((c.tc : Thread nD τ).loc main_arg10) o = (q : EReal))
    (hb : ∀ o : S10.Idx, ∃ q : ℝ, m ((c.tc : Thread nD τ).loc main_arg15) o = (q : EReal))
    (L : Fwd.LayerAt (PK m c).raw4K (W20 m ρ c (Proc.devRef .tc main_v104_0)) (W20 m ρ c (Proc.devRef .tc main_v104_1)) (W20 m ρ c (Proc.devRef .tc main_v104_2)))
    (r : Fin 65536) (o : Fin 10) :
    (W24 m ρ c (Proc.devRef .tc main_v140) : S65536x10.Idx → EReal) (ix2 r o) = (PK m c).outR r o := by
  have hPg : ∀ o', ∃ q : ℝ, (PK m c).g4 o' = (q : EReal) := fun o' => hg (ix1 o')
  have hPb : ∀ o', ∃ q : ℝ, (PK m c).b4 o' = (q : EReal) := fun o' => hb (ix1 o')
  -- region 5's input arrays
  have hx5 : ((V21 m ρ c (Pipeline.arrRef spec5 0)) : S65536x10.Idx → EReal) = (W20 m ρ c (Proc.devRef .tc main_v104_0) : S65536x10.Idx → EReal) :=
    W21_main_v104_0_from20 m ρ c
  have L' : Fwd.LayerAt (PK m c).raw4K ((V21 m ρ c (Pipeline.arrRef spec5 0)) : S65536x10.Idx → EReal) (W20 m ρ c (Proc.devRef .tc main_v104_1)) (W20 m ρ c (Proc.devRef .tc main_v104_2)) :=
    ⟨fun r i => (congrFun hx5 (ix2 r i)).trans (L.raw r i), L.sum, L.sq⟩
  -- its normalised values are the specification's
  have hY : Fwd.normOf (N := 10) (V21 m ρ c (Pipeline.arrRef spec5 0)) (V21 m ρ c (Pipeline.arrRef spec5 1)) (V21 m ρ c (Pipeline.arrRef spec5 2)) (V21 m ρ c (Pipeline.arrRef spec5 3)) (V21 m ρ c (Pipeline.arrRef spec5 4)) = (PK m c).y4K :=
    Fwd.LayerAt.norm_eq (N := 10) L' (PK m c).g4 (PK m c).b4 (V21 m ρ c (Pipeline.arrRef spec5 1)) (V21 m ρ c (Pipeline.arrRef spec5 2)) (V21 m ρ c (Pipeline.arrRef spec5 3)) (V21 m ρ c (Pipeline.arrRef spec5 4))
      (fun i => hostOps5_mean_at (W20 m ρ c) _ rfl 0 i)
      (fun i => hostOps5_var_at (W20 m ρ c) _ _ rfl rfl 0 i)
      (fun i => hostOps5_gamma_at (W20 m ρ c) _ (W20_main_arg10_b m ρ c) 0 i)
      (fun i => hostOps5_beta_at (W20 m ρ c) _ (W20_main_arg15_b m ρ c) 0 i)
  have hfin : ∀ r o, ∃ q : ℝ, Fwd.normOf (N := 10) (V21 m ρ c (Pipeline.arrRef spec5 0)) (V21 m ρ c (Pipeline.arrRef spec5 1)) (V21 m ρ c (Pipeline.arrRef spec5 2)) (V21 m ρ c (Pipeline.arrRef spec5 3)) (V21 m ρ c (Pipeline.arrRef spec5 4)) r o = (q : EReal) := fun r o => by
    rw [hY]; exact Cert.BridgeNet.y4K_real (PK m c) hPg hPb r o
  obtain ⟨hM5, hS5⟩ := H5 (V21 m ρ) c hfin
  -- what region 5 left, at the boundary after it
  have eM : ∀ (p : Fin 16) (o : Fin 10), (W22 m ρ c (Proc.devRef .tc main_v125_0) : S16x10.Idx → EReal) (ix2 p o)
      = ((dat5 (V21 m ρ) c).arrAt 5 cfg5.N : S16x10.Idx → EReal) (ix2 p o) := fun p o =>
    congrFun (W22_arr m ρ c 5 : (W22 m ρ c (Proc.devRef .tc main_v125_0) : S16x10.Idx → EReal) = _) (ix2 p o)
  have eS : ∀ (p : Fin 16) (o : Fin 10), (W22 m ρ c (Proc.devRef .tc main_v125_1) : S16x10.Idx → EReal) (ix2 p o)
      = ((dat5 (V21 m ρ) c).arrAt 6 cfg5.N : S16x10.Idx → EReal) (ix2 p o) := fun p o =>
    congrFun (W22_arr m ρ c 6 : (W22 m ρ c (Proc.devRef .tc main_v125_1) : S16x10.Idx → EReal) = _) (ix2 p o)
  have hM : ∀ (p : Fin 16) (o : Fin 10), (W22 m ρ c (Proc.devRef .tc main_v125_0) : S16x10.Idx → EReal) (ix2 p o)
      = Finset.univ.sup fun r' : Fin 32768 => (PK m c).y4K ⟨(p.val / 8) * 32768 + r'.val, by have := p.isLt; have := r'.isLt; omega⟩ o := fun p o => by
    rw [eM p o, hM5 p o, hY]
  have hSx : ∀ (p : Fin 16) (o : Fin 10), (W22 m ρ c (Proc.devRef .tc main_v125_1) : S16x10.Idx → EReal) (ix2 p o)
      = ∑ r' : Fin 32768, Ideal.exp ((PK m c).y4K ⟨(p.val / 8) * 32768 + r'.val, by have := p.isLt; have := r'.isLt; omega⟩ o
          - (W22 m ρ c (Proc.devRef .tc main_v125_0) : S16x10.Idx → EReal) (ix2 p o)) := fun p o => by
    rw [eS p o, hS5 p o, hY, eM p o]
  -- region 6's input arrays are region 5's, and the two rows the host formed in between
  have e0 : ((V23 m ρ c (Pipeline.arrRef spec6 0)) : S65536x10.Idx → EReal) = ((V21 m ρ c (Pipeline.arrRef spec5 0)) : S65536x10.Idx → EReal) :=
    (W23_main_v104_0_from20 m ρ c).trans (W21_main_v104_0_from20 m ρ c).symm
  have e1 : ((V23 m ρ c (Pipeline.arrRef spec6 1)) : S1x10.Idx → EReal) = ((V21 m ρ c (Pipeline.arrRef spec5 1)) : S1x10.Idx → EReal) := W23_main_v116_from21 m ρ c
  have e2 : ((V23 m ρ c (Pipeline.arrRef spec6 2)) : S1x10.Idx → EReal) = ((V21 m ρ c (Pipeline.arrRef spec5 2)) : S1x10.Idx → EReal) := W23_main_v122_from21 m ρ c
  have e3 : ((V23 m ρ c (Pipeline.arrRef spec6 3)) : S1x10.Idx → EReal) = ((V21 m ρ c (Pipeline.arrRef spec5 3)) : S1x10.Idx → EReal) := W23_main_v123_from21 m ρ c
  have e4 : ((V23 m ρ c (Pipeline.arrRef spec6 4)) : S1x10.Idx → EReal) = ((V21 m ρ c (Pipeline.arrRef spec5 4)) : S1x10.Idx → EReal) := W23_main_v124_from21 m ρ c
  have hy6 : y6 (V23 m ρ c (Pipeline.arrRef spec6 0)) (V23 m ρ c (Pipeline.arrRef spec6 1)) (V23 m ρ c (Pipeline.arrRef spec6 2)) (V23 m ρ c (Pipeline.arrRef spec6 3)) (V23 m ρ c (Pipeline.arrRef spec6 4)) r o = (PK m c).y4K r o := by
    rw [e0, e1, e2, e3, e4]
    exact congrFun (congrFun hY r) o
  refine (congrFun (W24_arr m ρ c 7 : (W24 m ρ c (Proc.devRef .tc main_v140) : S65536x10.Idx → EReal) = _) (ix2 r o)).trans ?_
  refine (value6 (V23 m ρ) c r o).trans ?_
  rw [hy6]
  exact Fwd.tail_arrays (PK m c) hPg hPb (PK m c).y4K rfl (W22 m ρ c (Proc.devRef .tc main_v125_0)) (W22 m ρ c (Proc.devRef .tc main_v125_1)) hM hSx
    (V23 m ρ c (Pipeline.arrRef spec6 5)) (V23 m ρ c (Pipeline.arrRef spec6 6))
    (fun o => hostOps6_gmax_at (W22 m ρ c) _ rfl 0 o)
    (fun o => hostOps6_gsum_at (W22 m ρ c) _ _ rfl rfl 0 o) r o

end Cert.KernelIdeal.Hand

end
-- ==== Proof.KI.Forward.lean ====
import proofs.«118595_j1726576853663_2_alg».proof.Proof.KI.Forward0
import proofs.«118595_j1726576853663_2_alg».proof.Proof.KI.Forward1
import proofs.«118595_j1726576853663_2_alg».proof.Proof.KI.Forward2
import proofs.«118595_j1726576853663_2_alg».proof.Proof.KI.Forward3
import proofs.«118595_j1726576853663_2_alg».proof.Proof.KI.Forward4
import proofs.«118595_j1726576853663_2_alg».proof.Proof.KI.ForwardTail

/-!
The kernel's result: layer after layer from the launch memory, the array the last region writes holds, entry by entry,
the network's result as the reference computes it, provided the last layer's scale and shift are real-valued. What
regions 1 to 5 compute from their input arrays enters as the hypotheses H1 … H5.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ) (ρ : Dev nD → PrngReg)

set_option maxHeartbeats 4000000 in
theorem kernel_value_of
    (H1 : ∀ (V : (c : Dev nD) → (b : Ref sig .tc) → Buf (Elt Ideal) ((c : Thread nD τ).loc b)) (c : Dev nD),
      Fwd.LayerAt (Fwd.rawOf (N := 256) (N' := 256) (V c (Pipeline.arrRef spec1 0)) (V c (Pipeline.arrRef spec1 1))
          (V c (Pipeline.arrRef spec1 2)) (V c (Pipeline.arrRef spec1 3)) (V c (Pipeline.arrRef spec1 4))
          (V c (Pipeline.arrRef spec1 5)))
        ((dat1 V c).arrAt 6 cfg1.N) ((dat1 V c).arrAt 7 cfg1.N) ((dat1 V c).arrAt 8 cfg1.N))
    (H2 : ∀ (V : (c : Dev nD) → (b : Ref sig .tc) → Buf (Elt Ideal) ((c : Thread nD τ).loc b)) (c : Dev nD),
      Fwd.LayerAt (Fwd.rawOf (N := 256) (N' := 256) (V c (Pipeline.arrRef spec2 0)) (V c (Pipeline.arrRef spec2 1))
          (V c (Pipeline.arrRef spec2 2)) (V c (Pipeline.arrRef spec2 3)) (V c (Pipeline.arrRef spec2 4))
          (V c (Pipeline.arrRef spec2 5)))
        ((dat2 V c).arrAt 6 cfg2.N) ((dat2 V c).arrAt 7 cfg2.N) ((dat2 V c).arrAt 8 cfg2.N))
    (H3 : ∀ (V : (c : Dev nD) → (b : Ref sig .tc) → Buf (Elt Ideal) ((c : Thread nD τ).loc b)) (c : Dev nD),
      Fwd.LayerAt (Fwd.rawOf (N := 256) (N' := 256) (V c (Pipeline.arrRef spec3 0)) (V c (Pipeline.arrRef spec3 1))
          (V c (Pipeline.arrRef spec3 2)) (V c (Pipeline.arrRef spec3 3)) (V c (Pipeline.arrRef spec3 4))
          (V c (Pipeline.arrRef spec3 5)))
        ((dat3 V c).arrAt 6 cfg3.N) ((dat3 V c).arrAt 7 cfg3.N) ((dat3 V c).arrAt 8 cfg3.N))
    (H4 : ∀ (V : (c : Dev nD) → (b : Ref sig .tc) → Buf (Elt Ideal) ((c : Thread nD τ).loc b)) (c : Dev nD),
      Fwd.LayerAt (Fwd.rawOf (N := 256) (N' := 10) (V c (Pipeline.arrRef spec4 0)) (V c (Pipeline.arrRef spec4 1))
          (V c (Pipeline.arrRef spec4 2)) (V c (Pipeline.arrRef spec4 3)) (V c (Pipeline.arrRef spec4 4))
          (V c (Pipeline.arrRef spec4 5)))
        ((dat4 V c).arrAt 6 cfg4.N) ((dat4 V c).arrAt 7 cfg4.N) ((dat4 V c).arrAt 8 cfg4.N))
    (H5 : ∀ (V : (c : Dev nD) → (b : Ref sig .tc) → Buf (Elt Ideal) ((c : Thread nD τ).loc b)) (c : Dev nD),
      (∀ r o, ∃ q : ℝ, Fwd.normOf (N := 10) (V c (Pipeline.arrRef spec5 0)) (V c (Pipeline.arrRef spec5 1)) (V c (Pipeline.arrRef spec5 2)) (V c (Pipeline.arrRef spec5 3)) (V c (Pipeline.arrRef spec5 4)) r o = (q : EReal)) →
      (∀ (p : Fin 16) (o : Fin 10), ((dat5 V c).arrAt 5 cfg5.N : S16x10.Idx → EReal) (ix2 p o)
          = Finset.univ.sup fun r' : Fin 32768 => Fwd.normOf (N := 10) (V c (Pipeline.arrRef spec5 0)) (V c (Pipeline.arrRef spec5 1)) (V c (Pipeline.arrRef spec5 2)) (V c (Pipeline.arrRef spec5 3)) (V c (Pipeline.arrRef spec5 4)) ⟨(p.val / 8) * 32768 + r'.val, by have := p.isLt; have := r'.isLt; omega⟩ o)
      ∧ (∀ (p : Fin 16) (o : Fin 10), ((dat5 V c).arrAt 6 cfg5.N : S16x10.Idx → EReal) (ix2 p o)
          = ∑ r' : Fin 32768, Ideal.exp (Fwd.normOf (N := 10) (V c (Pipeline.arrRef spec5 0)) (V c (Pipeline.arrRef spec5 1)) (V c (Pipeline.arrRef spec5 2)) (V c (Pipeline.arrRef spec5 3)) (V c (Pipeline.arrRef spec5 4)) ⟨(p.val / 8) * 32768 + r'.val, by have := p.isLt; have := r'.isLt; omega⟩ o
              - ((dat5 V c).arrAt 5 cfg5.N : S16x10.Idx → EReal) (ix2 p o))))
    (c : Dev nD)
    (hg : ∀ o : S10.Idx, ∃ q : ℝ, m ((c.tc : Thread nD τ).loc main_arg10) o = (q : EReal))
    (hb : ∀ o : S10.Idx, ∃ q : ℝ, m ((c.tc : Thread nD τ).loc main_arg15) o = (q : EReal))
    (r : Fin 65536) (o : Fin 10) :
    (W24 m ρ c (Proc.devRef .tc main_v140) : S65536x10.Idx → EReal) (ix2 r o) = (PK m c).outR r o :=
  tail_at m ρ H5 c hg hb
    (layer4_step m ρ H4 c _ (layer3_step m ρ H3 c _ (layer2_step m ρ H2 c _ (layer1_step m ρ H1 c _ (layer0_at m ρ c))))) r o

end Cert.KernelIdeal.Hand

end
-- ==== Proof.KI.R1.ValuePieces.lean ====
/- Region 1: what the pieces the runs found say. In every control case output 6 is left holding the step's raw products (the matrix
   product of the signs of the normalised previous layer with the weights); an accumulator is left holding what it held (zero at a
   core's first point) plus the step's column sums, of the raw products for accumulator 0 and of their squares for accumulator 1; at
   a core's last point outputs 7 and 8 are left holding the accumulators laid along eight rows. -/
import proofs.«118595_j1726576853663_2_alg».proof.Proof.KI.R1.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_1 : (![0, 0] : Fin 2 → Nat) = fun _ => 0 := funext fun a => by fin_cases a <;> rfl

theorem out1_A_6_eq (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) :
    out1_A_6 c i arg2 harg2 arg3 harg3 arg4 harg4 arg5 harg5 arg6 harg6 arg7 harg7 arg8 harg8 arg9 harg9 arg10 harg10 arg11 harg11 arg12 harg12 hc0 hc1 x0 x1 x2 x3 x4 x5 = k1_pay7 x0 x2 x3 x1 x4 x5 := by
  unfold out1_A_6
  rw [View.read_writes_eq_canon _ _ _ (cover1_A_6 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun1_A
  dsimp only
  sl_unfold_words
  rw [View.canon_unit_zero hz2_1]
  simp only [View.readAt_eq_ld, harg2.read_unread, harg3.read_unread, harg4.read_unread, harg5.read_unread, harg6.read_unread, harg7.read_unread, View.ld_unit_zero (S := S2048x256) hz2_1, View.ld_unit_zero (S := S1x256) hz2_1, View.ld_unit_zero (S := S256x256) hz2_1]

theorem out1_B_6_eq (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    out1_B_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k1_pay7 x0 x2 x3 x1 x4 x5 := by
  unfold out1_B_6
  rw [View.read_writes_eq_canon _ _ _ (cover1_B_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun1_B
  dsimp only
  sl_unfold_words
  rw [View.canon_unit_zero hz2_1]
  simp only [View.readAt_eq_ld, harg2.read_unread, harg3.read_unread, harg4.read_unread, harg5.read_unread, harg6.read_unread, harg7.read_unread, View.ld_unit_zero (S := S2048x256) hz2_1, View.ld_unit_zero (S := S1x256) hz2_1, View.ld_unit_zero (S := S256x256) hz2_1]

theorem out1_C_6_eq (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    out1_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k1_pay7 x0 x2 x3 x1 x4 x5 := by
  unfold out1_C_6
  rw [View.read_writes_eq_canon _ _ _ (cover1_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun1_C
  dsimp only
  sl_unfold_words
  rw [View.canon_unit_zero hz2_1]
  simp only [View.readAt_eq_ld, harg2.read_unread, harg3.read_unread, harg4.read_unread, harg5.read_unread, harg6.read_unread, harg7.read_unread, View.ld_unit_zero (S := S2048x256) hz2_1, View.ld_unit_zero (S := S1x256) hz2_1, View.ld_unit_zero (S := S256x256) hz2_1]

theorem sout1_A_0_eq (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) :
    sout1_A_0 c i arg2 harg2 arg3 harg3 arg4 harg4 arg5 harg5 arg6 harg6 arg7 harg7 arg8 harg8 arg9 harg9 arg10 harg10 arg11 harg11 arg12 harg12 hc0 hc1 x0 x1 x2 x3 x4 x5 = k1_pay1 (k1_pay7 x0 x2 x3 x1 x4 x5) (k1_pay5 (F := F)) := by
  unfold sout1_A_0
  rw [View.read_writes_eq_canon _ _ _ (scover1_A_0 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun1_A
  dsimp only
  sl_unfold_words
  rw [View.canon_cons_unit_zero (S := S1x256) hz2_1, View.readCov_unit_zero (S := S1x256) _ hz2_1]
  simp only [View.readAt_eq_ld, harg2.read_unread, harg3.read_unread, harg4.read_unread, harg5.read_unread, harg6.read_unread, harg7.read_unread, View.ld_unit_zero (S := S2048x256) hz2_1, View.ld_unit_zero (S := S1x256) hz2_1, View.ld_unit_zero (S := S256x256) hz2_1]

theorem sout1_A_1_eq (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) :
    sout1_A_1 c i arg2 harg2 arg3 harg3 arg4 harg4 arg5 harg5 arg6 harg6 arg7 harg7 arg8 harg8 arg9 harg9 arg10 harg10 arg11 harg11 arg12 harg12 hc0 hc1 x0 x1 x2 x3 x4 x5 = k1_pay2 (k1_pay7 x0 x2 x3 x1 x4 x5) (k1_pay6 (F := F)) := by
  unfold sout1_A_1
  rw [View.read_writes_eq_canon _ _ _ (scover1_A_1 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun1_A
  dsimp only
  sl_unfold_words
  rw [View.canon_cons_unit_zero (S := S1x256) hz2_1, View.readCov_unit_zero (S := S1x256) _ hz2_1]
  simp only [View.readAt_eq_ld, harg2.read_unread, harg3.read_unread, harg4.read_unread, harg5.read_unread, harg6.read_unread, harg7.read_unread, View.ld_unit_zero (S := S2048x256) hz2_1, View.ld_unit_zero (S := S1x256) hz2_1, View.ld_unit_zero (S := S256x256) hz2_1]

theorem sout1_B_0_eq (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    sout1_B_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k1_pay1 (k1_pay7 x0 x2 x3 x1 x4 x5) xs0 := by
  unfold sout1_B_0
  rw [View.read_writes_eq_canon _ _ _ (scover1_B_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun1_B
  dsimp only
  sl_unfold_words
  rw [View.canon_unit_zero hz2_1]
  simp only [View.readAt_eq_ld, harg2.read_unread, harg3.read_unread, harg4.read_unread, harg5.read_unread, harg6.read_unread, harg7.read_unread, harg11.read_unread, View.ld_unit_zero (S := S2048x256) hz2_1, View.ld_unit_zero (S := S1x256) hz2_1, View.ld_unit_zero (S := S256x256) hz2_1]

theorem sout1_B_1_eq (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : ¬cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    sout1_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k1_pay2 (k1_pay7 x0 x2 x3 x1 x4 x5) xs1 := by
  unfold sout1_B_1
  rw [View.read_writes_eq_canon _ _ _ (scover1_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun1_B
  dsimp only
  sl_unfold_words
  rw [View.canon_unit_zero hz2_1]
  simp only [View.readAt_eq_ld, harg2.read_unread, harg3.read_unread, harg4.read_unread, harg5.read_unread, harg6.read_unread, harg7.read_unread, harg12.read_unread, View.ld_unit_zero (S := S2048x256) hz2_1, View.ld_unit_zero (S := S1x256) hz2_1, View.ld_unit_zero (S := S256x256) hz2_1]

theorem sout1_C_0_eq (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    sout1_C_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k1_pay1 (k1_pay7 x0 x2 x3 x1 x4 x5) xs0 := by
  unfold sout1_C_0
  rw [View.read_writes_eq_canon _ _ _ (scover1_C_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun1_C
  dsimp only
  sl_unfold_words
  rw [View.canon_unit_zero hz2_1]
  simp only [View.readAt_eq_ld, harg2.read_unread, harg3.read_unread, harg4.read_unread, harg5.read_unread, harg6.read_unread, harg7.read_unread, harg11.read_unread, View.ld_unit_zero (S := S2048x256) hz2_1, View.ld_unit_zero (S := S1x256) hz2_1, View.ld_unit_zero (S := S256x256) hz2_1]

theorem sout1_C_1_eq (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    sout1_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k1_pay2 (k1_pay7 x0 x2 x3 x1 x4 x5) xs1 := by
  unfold sout1_C_1
  rw [View.read_writes_eq_canon _ _ _ (scover1_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun1_C
  dsimp only
  sl_unfold_words
  rw [View.canon_unit_zero hz2_1]
  simp only [View.readAt_eq_ld, harg2.read_unread, harg3.read_unread, harg4.read_unread, harg5.read_unread, harg6.read_unread, harg7.read_unread, harg12.read_unread, View.ld_unit_zero (S := S2048x256) hz2_1, View.ld_unit_zero (S := S1x256) hz2_1, View.ld_unit_zero (S := S256x256) hz2_1]

theorem out1_C_7_eq (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    out1_C_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k1_pay3 (k1_pay1 (k1_pay7 x0 x2 x3 x1 x4 x5) xs0) := by
  unfold out1_C_7
  rw [View.read_writes_eq_canon _ _ _ (cover1_C_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun1_C
  dsimp only
  sl_unfold_words
  rw [View.canon_unit_zero hz2_1, View.readCov_unit_zero (S := S1x256) _ hz2_1]
  simp only [View.readAt_eq_ld, harg2.read_unread, harg3.read_unread, harg4.read_unread, harg5.read_unread, harg6.read_unread, harg7.read_unread, harg11.read_unread, View.ld_unit_zero (S := S2048x256) hz2_1, View.ld_unit_zero (S := S1x256) hz2_1, View.ld_unit_zero (S := S256x256) hz2_1]

theorem out1_C_8_eq (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond1_0 i) (hc1 : cond1_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    out1_C_8 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k1_pay4 (k1_pay2 (k1_pay7 x0 x2 x3 x1 x4 x5) xs1) := by
  unfold out1_C_8
  rw [View.read_writes_eq_canon _ _ _ (cover1_C_8 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun1_C
  dsimp only
  sl_unfold_words
  rw [View.canon_unit_zero hz2_1, View.readCov_unit_zero (S := S1x256) _ hz2_1]
  simp only [View.readAt_eq_ld, harg2.read_unread, harg3.read_unread, harg4.read_unread, harg5.read_unread, harg6.read_unread, harg7.read_unread, harg12.read_unread, View.ld_unit_zero (S := S2048x256) hz2_1, View.ld_unit_zero (S := S1x256) hz2_1, View.ld_unit_zero (S := S256x256) hz2_1]

end Cert.KernelIdeal.Hand

end
-- ==== Proof.KI.R1.Pay.lean ====
/- Region 1, the body's arithmetic read entry by entry over the extended reals: a raw product entry is the sum over the
   256 features of the sign of the previous layer's normalised value times the weight, the normalised value being
   γ · (x − mean) · rsqrt (var + ε) + β; the accumulators gain the step's 2048 rows' column sums (of the raw products, and
   of their squares); the stored partial sums lay an accumulator along eight rows; the cleared accumulators are 0. -/
import proofs.«118595_j1726576853663_2_alg».proof.Proof.Gen.KernelIdeal.Skeleton
import proofs.«118595_j1726576853663_2_alg».proof.Proof.KI.GlueLib
import proofs.«118595_j1726576853663_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-- Selecting +1 where an entry is at least zero and −1 elsewhere is the sign function of the specification. -/
theorem k1_sgn_select (v : EReal) :
    Scalar.select (Ideal.cmp .oge v (Ideal.ofBits .f32 0x00000000#32)) (Ideal.ofBits .f32 0x3F800000#32) (Ideal.ofBits .f32 0xBF800000#32)
      = Spec.sgn v := by
  rw [Ideal.ofBits_zero_f32, Glue.ofBits_one_f32, Glue.ofBits_neg_one_f32]
  unfold Scalar.select Ideal.cmp Spec.sgn
  by_cases h : (0 : EReal) ≤ v
  · simp [h]
  · simp [h]

/-- The operand indices of the product at output entry (r, o) and feature i: row r of the activations at i, row o of
    the weights at i. -/
theorem k1_lhsIdx (r : Fin 2048) (o : Fin 256) (i : Fin 256) :
    dot_S2048x256_S256x256_S2048x256_1_1_0_0_n_n.lhsIdx (ix2 r o) ((contrEquiv1 dot_S2048x256_S256x256_S2048x256_1_1_0_0_n_n 256 rfl rfl).symm i) = ix2 r i :=
  funext fun a => Fin.ext (by match a with | ⟨0, _⟩ => rfl | ⟨1, _⟩ => rfl)
theorem k1_rhsIdx (r : Fin 2048) (o : Fin 256) (i : Fin 256) :
    dot_S2048x256_S256x256_S2048x256_1_1_0_0_n_n.rhsIdx (ix2 r o) ((contrEquiv1 dot_S2048x256_S256x256_S2048x256_1_1_0_0_n_n 256 rfl rfl).symm i) = ix2 o i :=
  funext fun a => Fin.ext (by match a with | ⟨0, _⟩ => rfl | ⟨1, _⟩ => rfl)

/-- One row of a [1, 256] array copied down 2048 rows reads, at (r, i), the row at (0, i). -/
theorem k1_bcast_rows (v : Vec Ideal S1x256 .f32) (r : Fin 2048) (i : Fin 256) :
    broadcastTo S2048x256 v broadcasts_S1x256_S2048x256 (ix2 r i) = v (ix2 (0 : Fin 1) i) := by
  refine broadcastTo_apply _ broadcasts_S1x256_S2048x256 (ix2 r i) (ix2 (0 : Fin 1) i) ?_
  intro a
  match a with
  | ⟨0, _⟩ => rfl
  | ⟨1, _⟩ => rfl

/-- The normalised value the body forms at (r, i): γ · (x − mean) · rsqrt (var + ε) + β, the four vectors read in row 0. -/
theorem k1_norm_apply (x : Vec Ideal S2048x256 .f32) (var gamma mean beta : Vec Ideal S1x256 .f32) (r : Fin 2048) (i : Fin 256) :
    gamma (ix2 (0 : Fin 1) i) * (x (ix2 r i) - mean (ix2 (0 : Fin 1) i))
        * Ideal.rsqrt (var (ix2 (0 : Fin 1) i) + Ideal.ofBits .f32 0x3727C5AC#32) + beta (ix2 (0 : Fin 1) i)
      = Spec.norm (fun i => gamma (ix2 (0 : Fin 1) i)) (fun i => beta (ix2 (0 : Fin 1) i)) (fun i => mean (ix2 (0 : Fin 1) i))
          (fun i => var (ix2 (0 : Fin 1) i)) (fun r i => x (ix2 r i)) r i := rfl

/-- A raw product entry: the sum over the features of the sign of the normalised previous value times the weight. -/
theorem k1_pay7_apply (x : Vec Ideal S2048x256 .f32) (var gamma mean beta : Vec Ideal S1x256 .f32) (wb : Vec Ideal S256x256 .bf16)
    (r : Fin 2048) (o : Fin 256) :
    k1_pay7 (F := Ideal) x var gamma mean beta wb (ix2 r o)
      = Spec.raw (fun r i => Spec.sgn (Spec.norm (fun i => gamma (ix2 (0 : Fin 1) i)) (fun i => beta (ix2 (0 : Fin 1) i))
          (fun i => mean (ix2 (0 : Fin 1) i)) (fun i => var (ix2 (0 : Fin 1) i)) (fun r i => x (ix2 r i)) r i))
          (fun o i => wb (ix2 o i)) r o := by
  unfold k1_pay7
  refine (Ideal.matmul_constant_zero_apply dot_S2048x256_S256x256_S2048x256_1_1_0_0_n_n none _ _ (ix2 r o)).trans ?_
  refine (Equiv.sum_comp (contrEquiv1 dot_S2048x256_S256x256_S2048x256_1_1_0_0_n_n 256 rfl rfl).symm _).symm.trans ?_
  unfold Spec.raw
  refine Finset.sum_congr rfl fun i _ => ?_
  beta_reduce
  rw [k1_lhsIdx r o i, k1_rhsIdx r o i]
  refine congrArg₂ (· * ·) ?_ ?_
  · refine (k1_sgn_select _).trans (congrArg Spec.sgn ?_)
    refine Eq.trans ?_ (k1_norm_apply x var gamma mean beta r i)
    refine congrArg₂ (· + ·) (congrArg₂ (· * ·) (congrArg₂ (· * ·) ?_ (congrArg₂ (· - ·) ?_ ?_)) ?_) ?_
    · exact (k1_bcast_rows _ r i).trans (congrFun (shapeCast_self gamma _) _)
    · exact congrFun (shapeCast_self x _) _
    · exact (k1_bcast_rows _ r i).trans (congrFun (shapeCast_self mean _) _)
    · refine (k1_bcast_rows _ r i).trans ?_
      exact congrArg (fun t => Ideal.rsqrt (t + Ideal.ofBits .f32 0x3727C5AC#32)) (congrFun (shapeCast_self var _) _)
    · exact (k1_bcast_rows _ r i).trans (congrFun (shapeCast_self beta _) _)
  · exact congrFun (shapeCast_self wb _) _

/-- The column-sum accumulator after a step: what it held plus the step's 2048 raw products in that column. -/
theorem k1_pay1_apply (raw : FVec Ideal S2048x256 .f32) (acc : Vec Ideal S1x256 .f32) (u : Fin 1) (o : Fin 256) :
    k1_pay1 (F := Ideal) raw acc (ix2 u o) = acc (ix2 u o) + ∑ r : Fin 2048, raw (ix2 r o) := by
  unfold k1_pay1
  refine (congrFun (shapeCast_self _ shapeCasts_S1x256_S1x256) (ix2 u o)).trans ?_
  refine congrArg (acc (ix2 u o) + ·) ?_
  refine (shapeCast_apply _ shapeCasts_S256_S1x256 (ix2 u o) (ix1 o) ?_).trans ?_
  · rw [Shape.rowMajor_val_one, Shape.rowMajor_val_two]
    show o.val = u.val * 256 + o.val
    have := u.isLt; omega
  refine (Ideal.multiReduction_add_single raw _ reduces_S2048x256_S256 _ _ (ix1 o)).trans ?_
  exact Finset.sum_congr rfl fun r _ => congrArg raw (Glue.lift_row reduces_S2048x256_S256 o r)

/-- The sum-of-squares accumulator after a step: what it held plus the squares of the step's raw products. -/
theorem k1_pay2_apply (raw : FVec Ideal S2048x256 .f32) (acc : Vec Ideal S1x256 .f32) (u : Fin 1) (o : Fin 256) :
    k1_pay2 (F := Ideal) raw acc (ix2 u o) = acc (ix2 u o) + ∑ r : Fin 2048, raw (ix2 r o) * raw (ix2 r o) := by
  unfold k1_pay2
  refine (congrFun (shapeCast_self _ shapeCasts_S1x256_S1x256) (ix2 u o)).trans ?_
  refine congrArg (acc (ix2 u o) + ·) ?_
  refine (shapeCast_apply _ shapeCasts_S256_S1x256 (ix2 u o) (ix1 o) ?_).trans ?_
  · rw [Shape.rowMajor_val_one, Shape.rowMajor_val_two]
    show o.val = u.val * 256 + o.val
    have := u.isLt; omega
  refine (Ideal.multiReduction_add_single (mulf raw raw) _ reduces_S2048x256_S256 _ _ (ix1 o)).trans ?_
  exact Finset.sum_congr rfl fun r _ => congrArg (fun j => raw j * raw j) (Glue.lift_row reduces_S2048x256_S256 o r)

/-- An accumulator laid along eight rows reads, in every row, the accumulator's entry of the column. -/
theorem k1_pay3_apply (v : Vec Ideal S1x256 .f32) (p : Fin 8) (o : Fin 256) :
    k1_pay3 (F := Ideal) v (ix2 p o) = v (ix2 (0 : Fin 1) o) := by
  unfold k1_pay3
  refine (broadcastTo_apply _ broadcasts_S1x256_S8x256 (ix2 p o) (ix2 (0 : Fin 1) o) ?_).trans ?_
  · intro a
    match a with
    | ⟨0, _⟩ => rfl
    | ⟨1, _⟩ => rfl
  exact congrFun (shapeCast_self v _) _
theorem k1_pay4_apply (v : Vec Ideal S1x256 .f32) (p : Fin 8) (o : Fin 256) :
    k1_pay4 (F := Ideal) v (ix2 p o) = v (ix2 (0 : Fin 1) o) := by
  unfold k1_pay4
  refine (broadcastTo_apply _ broadcasts_S1x256_S8x256 (ix2 p o) (ix2 (0 : Fin 1) o) ?_).trans ?_
  · intro a
    match a with
    | ⟨0, _⟩ => rfl
    | ⟨1, _⟩ => rfl
  exact congrFun (shapeCast_self v _) _

/-- The cleared accumulators. -/
theorem k1_pay5_apply (j : S1x256.Idx) : k1_pay5 (F := Ideal) j = 0 := by
  unfold k1_pay5
  refine (congrFun (shapeCast_self _ shapeCasts_S1x256_S1x256) j).trans ?_
  exact Ideal.ofBits_zero_f32
theorem k1_pay6_apply (j : S1x256.Idx) : k1_pay6 (F := Ideal) j = 0 := by
  unfold k1_pay6
  refine (congrFun (shapeCast_self _ shapeCasts_S1x256_S1x256) j).trans ?_
  exact Ideal.ofBits_zero_f32

end Cert.KernelIdeal.Hand

end
-- ==== Proof.KI.R1.ValueBlk.lean ====
/- Region 1 over the extended reals, the blocks the body reads: at grid point t rows 2048 t … 2048 t + 2047 of the previous
   layer's raw products, and the whole of the mean, variance, γ, β and weight arrays; the step's product is those rows of
   this layer's raw products. -/
import proofs.«118595_j1726576853663_2_alg».proof.Proof.KI.R1.ValuePieces
import proofs.«118595_j1726576853663_2_alg».proof.Proof.KI.R1.Pay

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the buffers' contents when the region is entered, over the extended reals
variable (V : (c : Dev nD) → (b : Ref sig .tc) → Buf (Elt Ideal) ((c : Thread nD τ).loc b))

/-- The previous raw products, the batch mean and variance, γ, β and the weights as the region finds them. -/
abbrev A1_0 (c : Dev nD) : S65536x256.Idx → EReal := V c (Pipeline.arrRef spec1 0)
abbrev A1_1 (c : Dev nD) : S1x256.Idx → EReal := V c (Pipeline.arrRef spec1 1)
abbrev A1_2 (c : Dev nD) : S1x256.Idx → EReal := V c (Pipeline.arrRef spec1 2)
abbrev A1_3 (c : Dev nD) : S1x256.Idx → EReal := V c (Pipeline.arrRef spec1 3)
abbrev A1_4 (c : Dev nD) : S1x256.Idx → EReal := V c (Pipeline.arrRef spec1 4)
abbrev A1_5 (c : Dev nD) : S256x256.Idx → EReal := V c (Pipeline.arrRef spec1 5)

/-- This layer's raw products: the signs of the normalised previous raw products against the weights. -/
def RAW1 (c : Dev nD) : Fin 65536 → Fin 256 → EReal :=
  Spec.raw (fun r i => Spec.sgn (Spec.norm (fun i => A1_3 V c (ix2 (0 : Fin 1) i)) (fun i => A1_4 V c (ix2 (0 : Fin 1) i))
      (fun i => A1_1 V c (ix2 (0 : Fin 1) i)) (fun i => A1_2 V c (ix2 (0 : Fin 1) i)) (fun r i => A1_0 V c (ix2 r i)) r i))
    (fun o i => A1_5 V c (ix2 o i))

/-! ## The printed index maps, decided over the grid -/

theorem idx1_0 : ∀ t : Fin cfg1.N, win1_0.index t (0 : Fin 2) = t.val ∧ win1_0.index t (1 : Fin 2) = 0 :=
  (by decide +kernel : ∀ t : Fin grid1.N, _)
theorem idx1_1 : ∀ t : Fin cfg1.N, win1_1.index t (0 : Fin 2) = 0 ∧ win1_1.index t (1 : Fin 2) = 0 :=
  (by decide +kernel : ∀ t : Fin grid1.N, _)
theorem idx1_2 : ∀ t : Fin cfg1.N, win1_2.index t (0 : Fin 2) = 0 ∧ win1_2.index t (1 : Fin 2) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 2) = 0 ∧ win1_5.index t (1 : Fin 2) = 0 :=
  (by decide +kernel : ∀ t : Fin grid1.N, _)
theorem idx1_6 : ∀ t : Fin cfg1.N, win1_6.index t (0 : Fin 2) = t.val ∧ win1_6.index t (1 : Fin 2) = 0 :=
  (by decide +kernel : ∀ t : Fin grid1.N, _)
theorem idx1_7 : ∀ t : Fin cfg1.N, win1_7.index t (0 : Fin 2) = t.val / 16 ∧ win1_7.index t (1 : Fin 2) = 0 :=
  (by decide +kernel : ∀ t : Fin grid1.N, _)
theorem idx1_8 : ∀ t : Fin cfg1.N, win1_8.index t (0 : Fin 2) = t.val / 16 ∧ win1_8.index t (1 : Fin 2) = 0 :=
  (by decide +kernel : ∀ t : Fin grid1.N, _)

theorem lt_N1 (t : Fin cfg1.N) : t.val < 32 := lt_of_lt_of_eq t.isLt (show cfg1.N = 32 from N_1)

/-! ## The input blocks -/

/-- Row r of the previous raw products' block at point t is row 2048 t + r of the array. -/
theorem iblk1_0_apply (c : Dev nD) (t : Fin cfg1.N) (r : Fin 2048) (i : Fin 256) (hr : 2048 * t.val + r.val < 65536) :
    (iblk1 V c 0 t : Vec Ideal S2048x256 .f32) (ix2 r i) = A1_0 V c (ix2 ⟨2048 * t.val + r.val, hr⟩ i) := by
  show V c (Pipeline.arrRef spec1 0) (((cfg1.win 0).blk t).view.emb (ix2 r i)) = V c (Pipeline.arrRef spec1 0) _
  refine congrArg (V c (Pipeline.arrRef spec1 0)) ?_
  funext a; apply Fin.ext
  match a with
  | ⟨0, _⟩ => show win1_0.index t (0 : Fin 2) * 2048 + 1 * r.val = 2048 * t.val + r.val; rw [(idx1_0 t).1]; omega
  | ⟨1, _⟩ => show win1_0.index t (1 : Fin 2) * 256 + 1 * i.val = i.val; rw [(idx1_0 t).2]; omega

/-- Window 1's block is its whole one-row array, at every point. -/
theorem iblk1_1_apply (c : Dev nD) (t : Fin cfg1.N) (u : Fin 1) (i : Fin 256) :
    (iblk1 V c 1 t : Vec Ideal S1x256 .f32) (ix2 u i) = A1_1 V c (ix2 u i) := by
  show V c (Pipeline.arrRef spec1 1) (((cfg1.win 1).blk t).view.emb (ix2 u i)) = V c (Pipeline.arrRef spec1 1) _
  refine congrArg (V c (Pipeline.arrRef spec1 1)) ?_
  funext a; apply Fin.ext
  match a with
  | ⟨0, _⟩ => show win1_1.index t (0 : Fin 2) * 1 + 1 * u.val = u.val; rw [(idx1_1 t).1]; omega
  | ⟨1, _⟩ => show win1_1.index t (1 : Fin 2) * 256 + 1 * i.val = i.val; rw [(idx1_1 t).2]; omega

/-- Window 2's block is its whole one-row array, at every point. -/
theorem iblk1_2_apply (c : Dev nD) (t : Fin cfg1.N) (u : Fin 1) (i : Fin 256) :
    (iblk1 V c 2 t : Vec Ideal S1x256 .f32) (ix2 u i) = A1_2 V c (ix2 u i) := by
  show V c (Pipeline.arrRef spec1 2) (((cfg1.win 2).blk t).view.emb (ix2 u i)) = V c (Pipeline.arrRef spec1 2) _
  refine congrArg (V c (Pipeline.arrRef spec1 2)) ?_
  funext a; apply Fin.ext
  match a with
  | ⟨0, _⟩ => show win1_2.index t (0 : Fin 2) * 1 + 1 * u.val = u.val; rw [(idx1_2 t).1]; omega
  | ⟨1, _⟩ => show win1_2.index t (1 : Fin 2) * 256 + 1 * i.val = i.val; rw [(idx1_2 t).2]; omega

/-- Window 3's block is its whole one-row array, at every point. -/
theorem iblk1_3_apply (c : Dev nD) (t : Fin cfg1.N) (u : Fin 1) (i : Fin 256) :
    (iblk1 V c 3 t : Vec Ideal S1x256 .f32) (ix2 u i) = A1_3 V c (ix2 u i) := by
  show V c (Pipeline.arrRef spec1 3) (((cfg1.win 3).blk t).view.emb (ix2 u i)) = V c (Pipeline.arrRef spec1 3) _
  refine congrArg (V c (Pipeline.arrRef spec1 3)) ?_
  funext a; apply Fin.ext
  match a with
  | ⟨0, _⟩ => show win1_3.index t (0 : Fin 2) * 1 + 1 * u.val = u.val; rw [(idx1_3 t).1]; omega
  | ⟨1, _⟩ => show win1_3.index t (1 : Fin 2) * 256 + 1 * i.val = i.val; rw [(idx1_3 t).2]; omega

/-- Window 4's block is its whole one-row array, at every point. -/
theorem iblk1_4_apply (c : Dev nD) (t : Fin cfg1.N) (u : Fin 1) (i : Fin 256) :
    (iblk1 V c 4 t : Vec Ideal S1x256 .f32) (ix2 u i) = A1_4 V c (ix2 u i) := by
  show V c (Pipeline.arrRef spec1 4) (((cfg1.win 4).blk t).view.emb (ix2 u i)) = V c (Pipeline.arrRef spec1 4) _
  refine congrArg (V c (Pipeline.arrRef spec1 4)) ?_
  funext a; apply Fin.ext
  match a with
  | ⟨0, _⟩ => show win1_4.index t (0 : Fin 2) * 1 + 1 * u.val = u.val; rw [(idx1_4 t).1]; omega
  | ⟨1, _⟩ => show win1_4.index t (1 : Fin 2) * 256 + 1 * i.val = i.val; rw [(idx1_4 t).2]; omega

/-- The weights' block is the whole weight matrix, at every point. -/
theorem iblk1_5_apply (c : Dev nD) (t : Fin cfg1.N) (o : Fin 256) (i : Fin 256) :
    (iblk1 V c 5 t : Vec Ideal S256x256 .bf16) (ix2 o i) = A1_5 V c (ix2 o i) := by
  show V c (Pipeline.arrRef spec1 5) (((cfg1.win 5).blk t).view.emb (ix2 o i)) = V c (Pipeline.arrRef spec1 5) _
  refine congrArg (V c (Pipeline.arrRef spec1 5)) ?_
  funext a; apply Fin.ext
  match a with
  | ⟨0, _⟩ => show win1_5.index t (0 : Fin 2) * 256 + 1 * o.val = o.val; rw [(idx1_5 t).1]; omega
  | ⟨1, _⟩ => show win1_5.index t (1 : Fin 2) * 256 + 1 * i.val = i.val; rw [(idx1_5 t).2]; omega

/-- The step's product at point t: rows 2048 t … of this layer's raw products. -/
theorem pay7_blk1 (c : Dev nD) (t : Fin cfg1.N) (r : Fin 2048) (o : Fin 256) (hr : 2048 * t.val + r.val < 65536) :
    k1_pay7 (F := Ideal) (iblk1 V c 0 t) (iblk1 V c 2 t) (iblk1 V c 3 t) (iblk1 V c 1 t) (iblk1 V c 4 t) (iblk1 V c 5 t) (ix2 r o) = RAW1 V c ⟨2048 * t.val + r.val, hr⟩ o := by
  refine (k1_pay7_apply (iblk1 V c 0 t) (iblk1 V c 2 t) (iblk1 V c 3 t) (iblk1 V c 1 t) (iblk1 V c 4 t) (iblk1 V c 5 t) r o).trans ?_
  unfold RAW1 Spec.raw
  refine Finset.sum_congr rfl fun i _ => ?_
  refine congrArg₂ (· * ·) (congrArg Spec.sgn ?_) (iblk1_5_apply V c t o i)
  unfold Spec.norm
  exact congrArg₂ (· + ·)
    (congrArg₂ (· * ·)
      (congrArg₂ (· * ·) (iblk1_3_apply V c t 0 i) (congrArg₂ (· - ·) (iblk1_0_apply V c t r i hr) (iblk1_1_apply V c t 0 i)))
      (congrArg (fun v => Ideal.rsqrt (v + Spec.eps)) (iblk1_2_apply V c t 0 i)))
    (iblk1_4_apply V c t 0 i)

end Cert.KernelIdeal.Hand

end
-- ==== Proof.KI.R1.ValueRaw.lean ====
/- Region 1 over the extended reals, the raw output: after grid point t its staging buffer holds rows
   2048 t … 2048 t + 2047 of this layer's raw products, which the point writes back; the 32 points cover all 65536 rows. -/
import proofs.«118595_j1726576853663_2_alg».proof.Proof.KI.R1.ValueBlk

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the buffers' contents when the region is entered, over the extended reals
variable (V : (c : Dev nD) → (b : Ref sig .tc) → Buf (Elt Ideal) ((c : Thread nD τ).loc b))

/-! ## What the raw output's staging buffer holds after point t -/

set_option maxHeartbeats 1000000 in
theorem outs1_6 (c : Dev nD) (t : Fin cfg1.N) : (outsAt1 V c t.val t.isLt).1 = k1_pay7 (F := Ideal) (iblk1 V c 0 t) (iblk1 V c 2 t) (iblk1 V c 3 t) (iblk1 V c 1 t) (iblk1 V c 4 t) (iblk1 V c 5 t) := by
  by_cases h0 : t.val % 16 = 0
  · have h1 : ¬t.val % 16 = 15 := by omega
    rw [outsAt1_A V c t h0 h1]
    dsimp only
    exact out1_A_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)
  · by_cases h1 : t.val % 16 = 15
    · rw [outsAt1_C V c t h0 h1]
      dsimp only
      exact out1_C_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2
    · rw [outsAt1_B V c t h0 h1]
      dsimp only
      exact out1_B_6_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2

/-! ## From the blocks to the array -/

/-- This layer's raw products as contents of the raw output's array. -/
def G1_6 (c : Dev nD) : S65536x256.Idx → EReal := fun j => RAW1 V c (j 0) (j 1)

theorem flushed1_6_eq (c : Dev nD) (t : Fin cfg1.N) :
    (dat1 V c).flushed 6 t = ((cfg1.win 6).blk t).view.read (Elt Ideal) (G1_6 V c) := by
  show (cfg1.win 6).cut (grid1.coords t) ((dat1 V c).after 6 t) = _
  rw [after1_6, outs1_6]
  funext j
  obtain ⟨r, o, rfl⟩ : ∃ (r : Fin 2048) (o : Fin 256), j = ix2 r o := ⟨j 0, j 1, eq_ix2 j⟩
  have hN := lt_N1 t
  have hr : 2048 * t.val + r.val < 65536 := by have := r.isLt; omega
  refine (pay7_blk1 V c t r o hr).trans ?_
  show RAW1 V c _ _ = G1_6 V c (((cfg1.win 6).blk t).view.emb (ix2 r o))
  unfold G1_6
  refine congrArg₂ (RAW1 V c) (Fin.ext ?_) (Fin.ext ?_)
  · show 2048 * t.val + r.val = win1_6.index t (0 : Fin 2) * 2048 + 1 * r.val; rw [(idx1_6 t).1]; omega
  · show o.val = win1_6.index t (1 : Fin 2) * 256 + 1 * o.val; rw [(idx1_6 t).2]; omega

theorem mem_blk1_6 (t : Fin cfg1.N) (i : S65536x256.Idx) :
    i ∈ ((cfg1.win 6).blk t).view.set ↔ ∀ a : Fin 2, win1_6.index t a * S2048x256.size a ≤ (i a).val ∧ (i a).val < win1_6.index t a * S2048x256.size a + S2048x256.size a := by
  show i ∈ ((View.whole main_v41_0).slice (win1_6.rect t)).set ↔ _
  rw [View.set_slice_whole, Rect.mem_set_unit]
  exact Iff.rfl

/-- THE RAW OUTPUT after the region: this layer's raw products, every entry. -/
theorem final1_6 (c : Dev nD) : (dat1 V c).arrAt 6 cfg1.N = G1_6 V c :=
  (dat1 V c).arrAt_eq_of_cover 6 (G1_6 V c) (fun t _ => flushed1_6_eq V c t) fun i => by
    have hi0 : (i 0).val < 65536 := (i 0).isLt
    have hi1 : (i 1).val < 256 := (i 1).isLt
    refine ⟨⟨(i 0).val / 2048, by rw [show cfg1.N = 32 from N_1]; omega⟩, flush1_6 _, ?_⟩
    rw [mem_blk1_6]
    intro a
    match a with
    | ⟨0, _⟩ => show win1_6.index _ (0 : Fin 2) * 2048 ≤ (i 0).val ∧ (i 0).val < win1_6.index _ (0 : Fin 2) * 2048 + 2048; rw [(idx1_6 _).1]; dsimp only; omega
    | ⟨1, _⟩ => show win1_6.index _ (1 : Fin 2) * 256 ≤ (i 1).val ∧ (i 1).val < win1_6.index _ (1 : Fin 2) * 256 + 256; rw [(idx1_6 _).2]; omega

/-- The same entry by entry. -/
theorem value1_6 (c : Dev nD) (r : Fin 65536) (o : Fin 256) :
    (dat1 V c).arrAt 6 cfg1.N (ix2 r o) = RAW1 V c r o :=
  congrFun (final1_6 V c) (ix2 r o)

end Cert.KernelIdeal.Hand

end
-- ==== Proof.KI.R1.ValueAcc.lean ====
/- Region 1 over the extended reals, the two accumulators. After grid point t the column-sum accumulator holds the sum of
   this layer's raw products' columns over the rows of the tiles 16 (t / 16) … t of the point's core (it is cleared at a
   core's first step), the other accumulator the same for the squares. -/
import proofs.«118595_j1726576853663_2_alg».proof.Proof.KI.R1.ValueRaw
import proofs.«118595_j1726576853663_2_alg».proof.Proof.LibTileSum

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the buffers' contents when the region is entered, over the extended reals
variable (V : (c : Dev nD) → (b : Ref sig .tc) → Buf (Elt Ideal) ((c : Thread nD τ).loc b))

/-- Tile k's column sums: rows 2048 k … 2048 k + 2047 of the raw products (nothing beyond the 32 tiles). -/
def tile1 (c : Dev nD) (o : Fin 256) (k : ℕ) : EReal :=
  if h : k < 32 then ∑ r : Fin 2048, RAW1 V c ⟨2048 * k + r.val, by have := r.isLt; omega⟩ o else 0
/-- The same for the squares. -/
def tileSq1 (c : Dev nD) (o : Fin 256) (k : ℕ) : EReal :=
  if h : k < 32 then ∑ r : Fin 2048, RAW1 V c ⟨2048 * k + r.val, by have := r.isLt; omega⟩ o * RAW1 V c ⟨2048 * k + r.val, by have := r.isLt; omega⟩ o else 0

/-- One step of the column-sum accumulator at point t: the tile's column sums are added. -/
theorem step1_sum (c : Dev nD) (t : Fin cfg1.N) (acc : Vec Ideal S1x256 .f32) (u : Fin 1) (o : Fin 256) :
    k1_pay1 (F := Ideal) (k1_pay7 (F := Ideal) (iblk1 V c 0 t) (iblk1 V c 2 t) (iblk1 V c 3 t) (iblk1 V c 1 t) (iblk1 V c 4 t) (iblk1 V c 5 t)) acc (ix2 u o) = acc (ix2 u o) + tile1 V c o t.val := by
  refine (k1_pay1_apply _ acc u o).trans ?_
  refine congrArg (acc (ix2 u o) + ·) ?_
  unfold tile1; rw [dif_pos (lt_N1 t)]
  exact Finset.sum_congr rfl fun r _ => pay7_blk1 V c t r o _
theorem step1_sq (c : Dev nD) (t : Fin cfg1.N) (acc : Vec Ideal S1x256 .f32) (u : Fin 1) (o : Fin 256) :
    k1_pay2 (F := Ideal) (k1_pay7 (F := Ideal) (iblk1 V c 0 t) (iblk1 V c 2 t) (iblk1 V c 3 t) (iblk1 V c 1 t) (iblk1 V c 4 t) (iblk1 V c 5 t)) acc (ix2 u o) = acc (ix2 u o) + tileSq1 V c o t.val := by
  refine (k1_pay2_apply _ acc u o).trans ?_
  refine congrArg (acc (ix2 u o) + ·) ?_
  unfold tileSq1; rw [dif_pos (lt_N1 t)]
  exact Finset.sum_congr rfl fun r _ => congrArg₂ (· * ·) (pay7_blk1 V c t r o _) (pay7_blk1 V c t r o _)

/-! ## The accumulators point by point -/

set_option maxHeartbeats 1000000 in
/-- At a core's first step the column-sum accumulator is the first tile's column sums (from zero). -/
theorem accS1_first (c : Dev nD) (t : Fin cfg1.N) (h0 : t.val % 16 = 0) (u : Fin 1) (o : Fin 256) :
    (outsAt1 V c t.val t.isLt).2.2.2.1 (ix2 u o) = 0 + tile1 V c o t.val := by
  have h1 : ¬t.val % 16 = 15 := by omega
  rw [outsAt1_A V c t h0 h1]
  dsimp only
  refine (congrFun (sout1_A_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) (ix2 u o)).trans ?_
  refine (step1_sum V c t _ u o).trans ?_
  rw [k1_pay5_apply]
set_option maxHeartbeats 1000000 in
theorem accQ1_first (c : Dev nD) (t : Fin cfg1.N) (h0 : t.val % 16 = 0) (u : Fin 1) (o : Fin 256) :
    (outsAt1 V c t.val t.isLt).2.2.2.2 (ix2 u o) = 0 + tileSq1 V c o t.val := by
  have h1 : ¬t.val % 16 = 15 := by omega
  rw [outsAt1_A V c t h0 h1]
  dsimp only
  refine (congrFun (sout1_A_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) (iblk1 V c 4 t) (iblk1 V c 5 t)) (ix2 u o)).trans ?_
  refine (step1_sq V c t _ u o).trans ?_
  rw [k1_pay6_apply]

set_option maxHeartbeats 1000000 in
/-- At any later step the tile's column sums are added to what the step before left. -/
theorem accS1_next (c : Dev nD) (t : Fin cfg1.N) (h0 : ¬t.val % 16 = 0) (u : Fin 1) (o : Fin 256) :
    (outsAt1 V c t.val t.isLt).2.2.2.1 (ix2 u o) = (outsAt1 V c (t.val - 1) (Nat.lt_of_le_of_lt (Nat.sub_le _ _) t.isLt)).2.2.2.1 (ix2 u o) + tile1 V c o t.val := by
  by_cases h1 : t.val % 16 = 15
  · rw [outsAt1_C V c t h0 h1]
    dsimp only
    refine (congrFun (sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 u o)).trans ?_
    exact step1_sum V c t _ u o
  · rw [outsAt1_B V c t h0 h1]
    dsimp only
    refine (congrFun (sout1_B_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 u o)).trans ?_
    exact step1_sum V c t _ u o
set_option maxHeartbeats 1000000 in
theorem accQ1_next (c : Dev nD) (t : Fin cfg1.N) (h0 : ¬t.val % 16 = 0) (u : Fin 1) (o : Fin 256) :
    (outsAt1 V c t.val t.isLt).2.2.2.2 (ix2 u o) = (outsAt1 V c (t.val - 1) (Nat.lt_of_le_of_lt (Nat.sub_le _ _) t.isLt)).2.2.2.2 (ix2 u o) + tileSq1 V c o t.val := by
  by_cases h1 : t.val % 16 = 15
  · rw [outsAt1_C V c t h0 h1]
    dsimp only
    refine (congrFun (sout1_C_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 u o)).trans ?_
    exact step1_sq V c t _ u o
  · rw [outsAt1_B V c t h0 h1]
    dsimp only
    refine (congrFun (sout1_B_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 u o)).trans ?_
    exact step1_sq V c t _ u o

/-! ## The accumulators in closed form: by induction on the point -/

/-- A sequence that restarts at 0 + a n when n is a multiple of 16 and otherwise adds a n to its predecessor is,
    at n, the sum of a over the steps 16 (n / 16) … n. -/
theorem restart_sum1 (S a : ℕ → EReal) (N : ℕ)
    (hA : ∀ n, n < N → n % 16 = 0 → S n = 0 + a n)
    (hB : ∀ n, n < N → ¬n % 16 = 0 → S n = S (n - 1) + a n) :
    ∀ n, n < N → S n = ∑ k ∈ Finset.range (n % 16 + 1), a (16 * (n / 16) + k) := by
  intro n
  induction n with
  | zero => intro h; rw [hA 0 h rfl, zero_add]; simp
  | succ n ih =>
    intro h
    by_cases h0 : (n + 1) % 16 = 0
    · rw [hA _ h h0, zero_add, h0, Finset.sum_range_succ, Finset.sum_range_zero, zero_add]
      exact congrArg a (by omega)
    · rw [hB _ h h0, show n + 1 - 1 = n from rfl, ih (by omega)]
      have e1 : (n + 1) % 16 = n % 16 + 1 := by omega
      have e2 : (n + 1) / 16 = n / 16 := by omega
      rw [e1, e2, Finset.sum_range_succ _ (n % 16 + 1)]
      exact congrArg (_ + a ·) (by omega)

/-- The column-sum accumulator after point n: the tiles 16 (n / 16) … n of the point's core. -/
theorem accS1_eq (c : Dev nD) (u : Fin 1) (o : Fin 256) (n : ℕ) (h : n < cfg1.N) :
    (outsAt1 V c n h).2.2.2.1 (ix2 u o) = ∑ k ∈ Finset.range (n % 16 + 1), tile1 V c o (16 * (n / 16) + k) := by
  have key := restart_sum1 (fun n => if h : n < cfg1.N then (outsAt1 V c n h).2.2.2.1 (ix2 u o) else 0) (tile1 V c o) cfg1.N
    (fun n hn h0 => by beta_reduce; rw [dif_pos hn]; exact accS1_first V c ⟨n, hn⟩ h0 u o)
    (fun n hn h0 => by
      beta_reduce
      rw [dif_pos hn, dif_pos (show n - 1 < cfg1.N by omega)]
      exact accS1_next V c ⟨n, hn⟩ h0 u o) n h
  beta_reduce at key
  rw [dif_pos h] at key
  exact key
theorem accQ1_eq (c : Dev nD) (u : Fin 1) (o : Fin 256) (n : ℕ) (h : n < cfg1.N) :
    (outsAt1 V c n h).2.2.2.2 (ix2 u o) = ∑ k ∈ Finset.range (n % 16 + 1), tileSq1 V c o (16 * (n / 16) + k) := by
  have key := restart_sum1 (fun n => if h : n < cfg1.N then (outsAt1 V c n h).2.2.2.2 (ix2 u o) else 0) (tileSq1 V c o) cfg1.N
    (fun n hn h0 => by beta_reduce; rw [dif_pos hn]; exact accQ1_first V c ⟨n, hn⟩ h0 u o)
    (fun n hn h0 => by
      beta_reduce
      rw [dif_pos hn, dif_pos (show n - 1 < cfg1.N by omega)]
      exact accQ1_next V c ⟨n, hn⟩ h0 u o) n h
  beta_reduce at key
  rw [dif_pos h] at key
  exact key

/-- A core's sixteen tiles are its 32768 rows. -/
theorem core_tiles1 (c : Dev nD) (o : Fin 256) (g : ℕ) (hg : g < 2) :
    ∑ k ∈ Finset.range 16, tile1 V c o (16 * g + k)
      = ∑ r' : Fin 32768, RAW1 V c ⟨g * 32768 + r'.val, by have := r'.isLt; omega⟩ o := by
  rw [Finset.sum_range, Cert.LibTileSum.sum_tiles_of_eq (N := 32768) (T := 16) (B := 2048) rfl]
  refine Finset.sum_congr rfl fun k _ => ?_
  unfold tile1; rw [dif_pos (by have := k.isLt; omega)]
  refine Finset.sum_congr rfl fun r _ => ?_
  have e : (⟨2048 * (16 * g + k.val) + r.val, by have := k.isLt; have := r.isLt; omega⟩ : Fin 65536)
      = ⟨g * 32768 + (2048 * k.val + r.val), by have := k.isLt; have := r.isLt; omega⟩ := Fin.ext (by show 2048 * (16 * g + k.val) + r.val = g * 32768 + (2048 * k.val + r.val); omega)
  exact congrArg (fun q => RAW1 V c q o) e
theorem core_tilesSq1 (c : Dev nD) (o : Fin 256) (g : ℕ) (hg : g < 2) :
    ∑ k ∈ Finset.range 16, tileSq1 V c o (16 * g + k)
      = ∑ r' : Fin 32768, RAW1 V c ⟨g * 32768 + r'.val, by have := r'.isLt; omega⟩ o * RAW1 V c ⟨g * 32768 + r'.val, by have := r'.isLt; omega⟩ o := by
  rw [Finset.sum_range, Cert.LibTileSum.sum_tiles_of_eq (N := 32768) (T := 16) (B := 2048) rfl]
  refine Finset.sum_congr rfl fun k _ => ?_
  unfold tileSq1; rw [dif_pos (by have := k.isLt; omega)]
  refine Finset.sum_congr rfl fun r _ => ?_
  have e : (⟨2048 * (16 * g + k.val) + r.val, by have := k.isLt; have := r.isLt; omega⟩ : Fin 65536)
      = ⟨g * 32768 + (2048 * k.val + r.val), by have := k.isLt; have := r.isLt; omega⟩ := Fin.ext (by show 2048 * (16 * g + k.val) + r.val = g * 32768 + (2048 * k.val + r.val); omega)
  exact congrArg (fun q => RAW1 V c q o * RAW1 V c q o) e

end Cert.KernelIdeal.Hand

end
-- ==== Proof.KI.R1.Value.lean ====
/- Region 1 over the extended reals, what its three output arrays hold after the region:
   * the raw output: entry (r, o) is this layer's raw product Σ_i sgn (normalised previous raw product at (r, i)) · w o i;
   * the column-sum window: row p, column o is the sum of the raw products of column o over the 32768 rows of core p / 8
     (rows (p / 8) · 32768 + r'), the same in each of a core's eight rows;
   * the sum-of-squares window: the same sums of the squares. -/
import proofs.«118595_j1726576853663_2_alg».proof.Proof.KI.R1.ValueAcc

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the buffers' contents when the region is entered, over the extended reals
variable (V : (c : Dev nD) → (b : Ref sig .tc) → Buf (Elt Ideal) ((c : Thread nD τ).loc b))

set_option maxHeartbeats 1000000 in
/-- At a core's last step window 7's buffer holds, in each of its eight rows, the accumulator it was stored from. -/
theorem outs1_7 (c : Dev nD) (t : Fin cfg1.N) (h1 : t.val % 16 = 15) (p : Fin 8) (o : Fin 256) :
    (outsAt1 V c t.val t.isLt).2.1 (ix2 p o) = (outsAt1 V c t.val t.isLt).2.2.2.1 (ix2 (0 : Fin 1) o) := by
  have h0 : ¬t.val % 16 = 0 := by omega
  rw [outsAt1_C V c t h0 h1]
  dsimp only
  refine (congrFun (out1_C_7_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 p o)).trans ?_
  refine (k1_pay3_apply _ p o).trans ?_
  exact (congrFun (sout1_C_0_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 (0 : Fin 1) o)).symm

/-- Window 7's array after the region: row p holds, per column, the sum of the raw products over the 32768 rows of core p / 8. -/
def G1_7 (c : Dev nD) : S16x256.Idx → EReal := fun j =>
  ∑ r' : Fin 32768, RAW1 V c ⟨((j 0).val / 8) * 32768 + r'.val, by have := idx2_lt0 j; have := r'.isLt; omega⟩ (j 1)

theorem flushed1_7_eq (c : Dev nD) (t : Fin cfg1.N) (hf : (cfg1.win 7).flush t = true) :
    (dat1 V c).flushed 7 t = ((cfg1.win 7).blk t).view.read (Elt Ideal) (G1_7 V c) := by
  have h1 : t.val % 16 = 15 := (flush1_7 t).mp hf
  have hN := lt_N1 t
  show (cfg1.win 7).cut (grid1.coords t) ((dat1 V c).after 7 t) = _
  rw [after1_7]
  funext j
  obtain ⟨p, o, rfl⟩ : ∃ (p : Fin 8) (o : Fin 256), j = ix2 p o := ⟨j 0, j 1, eq_ix2 j⟩
  refine (outs1_7 V c t h1 p o).trans ?_
  rw [accS1_eq V c 0 o t.val t.isLt, h1]
  refine (core_tiles1 V c o (t.val / 16) (by omega)).trans ?_
  have hG : ∀ G : S16x256.Idx → EReal,
      ((cfg1.win 7).blk t).view.read (Elt Ideal) G (ix2 p o) = G (((cfg1.win 7).blk t).view.emb (ix2 p o)) := fun _ => rfl
  refine Eq.trans ?_ (hG (G1_7 V c)).symm
  unfold G1_7
  have e0 : ((((cfg1.win 7).blk t).view.emb (ix2 p o)) 0).val = (t.val / 16) * 8 + p.val := by
    show win1_7.index t (0 : Fin 2) * 8 + 1 * p.val = _; rw [(idx1_7 t).1]; omega
  have e1 : (((cfg1.win 7).blk t).view.emb (ix2 p o)) 1 = o := Fin.ext (by
    show win1_7.index t (1 : Fin 2) * 256 + 1 * o.val = o.val; rw [(idx1_7 t).2]; omega)
  refine Finset.sum_congr rfl fun r' _ => ?_
  have eq : (⟨(t.val / 16) * 32768 + r'.val, by have := r'.isLt; omega⟩ : Fin 65536)
      = ⟨((((cfg1.win 7).blk t).view.emb (ix2 p o)) 0).val / 8 * 32768 + r'.val, by rw [e0]; have := r'.isLt; have := p.isLt; omega⟩ :=
    Fin.ext (by show (t.val / 16) * 32768 + r'.val = _ / 8 * 32768 + r'.val; rw [e0]; have := p.isLt; omega)
  exact congrArg₂ (RAW1 V c) eq e1.symm

theorem mem_blk1_7 (t : Fin cfg1.N) (i : S16x256.Idx) :
    i ∈ ((cfg1.win 7).blk t).view.set ↔ ∀ a : Fin 2, win1_7.index t a * S8x256.size a ≤ (i a).val ∧ (i a).val < win1_7.index t a * S8x256.size a + S8x256.size a := by
  show i ∈ ((View.whole main_v41_1).slice (win1_7.rect t)).set ↔ _
  rw [View.set_slice_whole, Rect.mem_set_unit]
  exact Iff.rfl

theorem final1_7 (c : Dev nD) : (dat1 V c).arrAt 7 cfg1.N = G1_7 V c :=
  (dat1 V c).arrAt_eq_of_cover 7 (G1_7 V c) (fun t hf => flushed1_7_eq V c t hf) fun i => by
    have hi0 : (i 0).val < 16 := idx2_lt0 i
    have hi1 : (i 1).val < 256 := idx2_lt1 i
    refine ⟨⟨16 * ((i 0).val / 8) + 15, by rw [show cfg1.N = 32 from N_1]; omega⟩, (flush1_7 _).mpr (by dsimp only; omega), ?_⟩
    rw [mem_blk1_7]
    intro a
    match a with
    | ⟨0, _⟩ => show win1_7.index _ (0 : Fin 2) * 8 ≤ (i 0).val ∧ (i 0).val < win1_7.index _ (0 : Fin 2) * 8 + 8; rw [(idx1_7 _).1]; dsimp only; omega
    | ⟨1, _⟩ => show win1_7.index _ (1 : Fin 2) * 256 ≤ (i 1).val ∧ (i 1).val < win1_7.index _ (1 : Fin 2) * 256 + 256; rw [(idx1_7 _).2]; omega

set_option maxHeartbeats 1000000 in
/-- At a core's last step window 8's buffer holds, in each of its eight rows, the accumulator it was stored from. -/
theorem outs1_8 (c : Dev nD) (t : Fin cfg1.N) (h1 : t.val % 16 = 15) (p : Fin 8) (o : Fin 256) :
    (outsAt1 V c t.val t.isLt).2.2.1 (ix2 p o) = (outsAt1 V c t.val t.isLt).2.2.2.2 (ix2 (0 : Fin 1) o) := by
  have h0 : ¬t.val % 16 = 0 := by omega
  rw [outsAt1_C V c t h0 h1]
  dsimp only
  refine (congrFun (out1_C_8_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 p o)).trans ?_
  refine (k1_pay4_apply _ p o).trans ?_
  exact (congrFun (sout1_C_1_eq (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (iblk1 V c 4 t) (iblk1 V c 5 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) (ix2 (0 : Fin 1) o)).symm

/-- Window 8's array after the region: row p holds, per column, the sum of the squares of the raw products over the 32768 rows of core p / 8. -/
def G1_8 (c : Dev nD) : S16x256.Idx → EReal := fun j =>
  ∑ r' : Fin 32768, RAW1 V c ⟨((j 0).val / 8) * 32768 + r'.val, by have := idx2_lt0 j; have := r'.isLt; omega⟩ (j 1) * RAW1 V c ⟨((j 0).val / 8) * 32768 + r'.val, by have := idx2_lt0 j; have := r'.isLt; omega⟩ (j 1)

theorem flushed1_8_eq (c : Dev nD) (t : Fin cfg1.N) (hf : (cfg1.win 8).flush t = true) :
    (dat1 V c).flushed 8 t = ((cfg1.win 8).blk t).view.read (Elt Ideal) (G1_8 V c) := by
  have h1 : t.val % 16 = 15 := (flush1_8 t).mp hf
  have hN := lt_N1 t
  show (cfg1.win 8).cut (grid1.coords t) ((dat1 V c).after 8 t) = _
  rw [after1_8]
  funext j
  obtain ⟨p, o, rfl⟩ : ∃ (p : Fin 8) (o : Fin 256), j = ix2 p o := ⟨j 0, j 1, eq_ix2 j⟩
  refine (outs1_8 V c t h1 p o).trans ?_
  rw [accQ1_eq V c 0 o t.val t.isLt, h1]
  refine (core_tilesSq1 V c o (t.val / 16) (by omega)).trans ?_
  have hG : ∀ G : S16x256.Idx → EReal,
      ((cfg1.win 8).blk t).view.read (Elt Ideal) G (ix2 p o) = G (((cfg1.win 8).blk t).view.emb (ix2 p o)) := fun _ => rfl
  refine Eq.trans ?_ (hG (G1_8 V c)).symm
  unfold G1_8
  have e0 : ((((cfg1.win 8).blk t).view.emb (ix2 p o)) 0).val = (t.val / 16) * 8 + p.val := by
    show win1_8.index t (0 : Fin 2) * 8 + 1 * p.val = _; rw [(idx1_8 t).1]; omega
  have e1 : (((cfg1.win 8).blk t).view.emb (ix2 p o)) 1 = o := Fin.ext (by
    show win1_8.index t (1 : Fin 2) * 256 + 1 * o.val = o.val; rw [(idx1_8 t).2]; omega)
  refine Finset.sum_congr rfl fun r' _ => ?_
  have eq : (⟨(t.val / 16) * 32768 + r'.val, by have := r'.isLt; omega⟩ : Fin 65536)
      = ⟨((((cfg1.win 8).blk t).view.emb (ix2 p o)) 0).val / 8 * 32768 + r'.val, by rw [e0]; have := r'.isLt; have := p.isLt; omega⟩ :=
    Fin.ext (by show (t.val / 16) * 32768 + r'.val = _ / 8 * 32768 + r'.val; rw [e0]; have := p.isLt; omega)
  exact congrArg₂ (fun q o' => RAW1 V c q o' * RAW1 V c q o') eq e1.symm

theorem mem_blk1_8 (t : Fin cfg1.N) (i : S16x256.Idx) :
    i ∈ ((cfg1.win 8).blk t).view.set ↔ ∀ a : Fin 2, win1_8.index t a * S8x256.size a ≤ (i a).val ∧ (i a).val < win1_8.index t a * S8x256.size a + S8x256.size a := by
  show i ∈ ((View.whole main_v41_2).slice (win1_8.rect t)).set ↔ _
  rw [View.set_slice_whole, Rect.mem_set_unit]
  exact Iff.rfl

theorem final1_8 (c : Dev nD) : (dat1 V c).arrAt 8 cfg1.N = G1_8 V c :=
  (dat1 V c).arrAt_eq_of_cover 8 (G1_8 V c) (fun t hf => flushed1_8_eq V c t hf) fun i => by
    have hi0 : (i 0).val < 16 := idx2_lt0 i
    have hi1 : (i 1).val < 256 := idx2_lt1 i
    refine ⟨⟨16 * ((i 0).val / 8) + 15, by rw [show cfg1.N = 32 from N_1]; omega⟩, (flush1_8 _).mpr (by dsimp only; omega), ?_⟩
    rw [mem_blk1_8]
    intro a
    match a with
    | ⟨0, _⟩ => show win1_8.index _ (0 : Fin 2) * 8 ≤ (i 0).val ∧ (i 0).val < win1_8.index _ (0 : Fin 2) * 8 + 8; rw [(idx1_8 _).1]; dsimp only; omega
    | ⟨1, _⟩ => show win1_8.index _ (1 : Fin 2) * 256 ≤ (i 1).val ∧ (i 1).val < win1_8.index _ (1 : Fin 2) * 256 + 256; rw [(idx1_8 _).2]; omega

/-! ## The three arrays, entry by entry -/

/-- The raw products are the specification's, of the signs of the normalised previous raw products and the weights. -/
theorem RAW1_eq (c : Dev nD) :
    RAW1 V c = Spec.raw (fun r i => Spec.sgn (Spec.norm (fun i => A1_3 V c (ix2 (0 : Fin 1) i)) (fun i => A1_4 V c (ix2 (0 : Fin 1) i))
        (fun i => A1_1 V c (ix2 (0 : Fin 1) i)) (fun i => A1_2 V c (ix2 (0 : Fin 1) i)) (fun r i => A1_0 V c (ix2 r i)) r i))
      (fun o i => A1_5 V c (ix2 o i)) := rfl

theorem value1_7 (c : Dev nD) (p : Fin 16) (o : Fin 256) :
    (dat1 V c).arrAt 7 cfg1.N (ix2 p o)
      = ∑ r' : Fin 32768, RAW1 V c ⟨(p.val / 8) * 32768 + r'.val, by have := p.isLt; have := r'.isLt; omega⟩ o :=
  congrFun (final1_7 V c) (ix2 p o)

theorem value1_8 (c : Dev nD) (p : Fin 16) (o : Fin 256) :
    (dat1 V c).arrAt 8 cfg1.N (ix2 p o)
      = ∑ r' : Fin 32768, RAW1 V c ⟨(p.val / 8) * 32768 + r'.val, by have := p.isLt; have := r'.isLt; omega⟩ o
          * RAW1 V c ⟨(p.val / 8) * 32768 + r'.val, by have := p.isLt; have := r'.isLt; omega⟩ o :=
  congrFun (final1_8 V c) (ix2 p o)

end Cert.KernelIdeal.Hand

end
-- ==== Proof.KI.R2.ValuePieces.lean ====
/- Region 2: what the pieces the runs found say. In every control case output 6 is left holding the step's raw products (the matrix
   product of the signs of the normalised previous layer with the weights); an accumulator is left holding what it held (zero at a
   core's first point) plus the step's column sums, of the raw products for accumulator 0 and of their squares for accumulator 1; at
   a core's last point outputs 7 and 8 are left holding the accumulators laid along eight rows. -/
import proofs.«118595_j1726576853663_2_alg».proof.Proof.KI.R2.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_2 : (![0, 0] : Fin 2 → Nat) = fun _ => 0 := funext fun a => by fin_cases a <;> rfl

theorem out2_A_6_eq (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) :
    out2_A_6 c i arg2 harg2 arg3 harg3 arg4 harg4 arg5 harg5 arg6 harg6 arg7 harg7 arg8 harg8 arg9 harg9 arg10 harg10 arg11 harg11 arg12 harg12 hc0 hc1 x0 x1 x2 x3 x4 x5 = k2_pay7 x0 x2 x3 x1 x4 x5 := by
  unfold out2_A_6
  rw [View.read_writes_eq_canon _ _ _ (cover2_A_6 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun2_A
  dsimp only
  sl_unfold_words
  rw [View.canon_unit_zero hz2_2]
  simp only [View.readAt_eq_ld, harg2.read_unread, harg3.read_unread, harg4.read_unread, harg5.read_unread, harg6.read_unread, harg7.read_unread, View.ld_unit_zero (S := S2048x256) hz2_2, View.ld_unit_zero (S := S1x256) hz2_2, View.ld_unit_zero (S := S256x256) hz2_2]

theorem out2_B_6_eq (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    out2_B_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k2_pay7 x0 x2 x3 x1 x4 x5 := by
  unfold out2_B_6
  rw [View.read_writes_eq_canon _ _ _ (cover2_B_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun2_B
  dsimp only
  sl_unfold_words
  rw [View.canon_unit_zero hz2_2]
  simp only [View.readAt_eq_ld, harg2.read_unread, harg3.read_unread, harg4.read_unread, harg5.read_unread, harg6.read_unread, harg7.read_unread, View.ld_unit_zero (S := S2048x256) hz2_2, View.ld_unit_zero (S := S1x256) hz2_2, View.ld_unit_zero (S := S256x256) hz2_2]

theorem out2_C_6_eq (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    out2_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k2_pay7 x0 x2 x3 x1 x4 x5 := by
  unfold out2_C_6
  rw [View.read_writes_eq_canon _ _ _ (cover2_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun2_C
  dsimp only
  sl_unfold_words
  rw [View.canon_unit_zero hz2_2]
  simp only [View.readAt_eq_ld, harg2.read_unread, harg3.read_unread, harg4.read_unread, harg5.read_unread, harg6.read_unread, harg7.read_unread, View.ld_unit_zero (S := S2048x256) hz2_2, View.ld_unit_zero (S := S1x256) hz2_2, View.ld_unit_zero (S := S256x256) hz2_2]

theorem sout2_A_0_eq (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) :
    sout2_A_0 c i arg2 harg2 arg3 harg3 arg4 harg4 arg5 harg5 arg6 harg6 arg7 harg7 arg8 harg8 arg9 harg9 arg10 harg10 arg11 harg11 arg12 harg12 hc0 hc1 x0 x1 x2 x3 x4 x5 = k2_pay1 (k2_pay7 x0 x2 x3 x1 x4 x5) (k2_pay5 (F := F)) := by
  unfold sout2_A_0
  rw [View.read_writes_eq_canon _ _ _ (scover2_A_0 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun2_A
  dsimp only
  sl_unfold_words
  rw [View.canon_cons_unit_zero (S := S1x256) hz2_2, View.readCov_unit_zero (S := S1x256) _ hz2_2]
  simp only [View.readAt_eq_ld, harg2.read_unread, harg3.read_unread, harg4.read_unread, harg5.read_unread, harg6.read_unread, harg7.read_unread, View.ld_unit_zero (S := S2048x256) hz2_2, View.ld_unit_zero (S := S1x256) hz2_2, View.ld_unit_zero (S := S256x256) hz2_2]

theorem sout2_A_1_eq (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) :
    sout2_A_1 c i arg2 harg2 arg3 harg3 arg4 harg4 arg5 harg5 arg6 harg6 arg7 harg7 arg8 harg8 arg9 harg9 arg10 harg10 arg11 harg11 arg12 harg12 hc0 hc1 x0 x1 x2 x3 x4 x5 = k2_pay2 (k2_pay7 x0 x2 x3 x1 x4 x5) (k2_pay6 (F := F)) := by
  unfold sout2_A_1
  rw [View.read_writes_eq_canon _ _ _ (scover2_A_1 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun2_A
  dsimp only
  sl_unfold_words
  rw [View.canon_cons_unit_zero (S := S1x256) hz2_2, View.readCov_unit_zero (S := S1x256) _ hz2_2]
  simp only [View.readAt_eq_ld, harg2.read_unread, harg3.read_unread, harg4.read_unread, harg5.read_unread, harg6.read_unread, harg7.read_unread, View.ld_unit_zero (S := S2048x256) hz2_2, View.ld_unit_zero (S := S1x256) hz2_2, View.ld_unit_zero (S := S256x256) hz2_2]

theorem sout2_B_0_eq (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    sout2_B_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k2_pay1 (k2_pay7 x0 x2 x3 x1 x4 x5) xs0 := by
  unfold sout2_B_0
  rw [View.read_writes_eq_canon _ _ _ (scover2_B_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun2_B
  dsimp only
  sl_unfold_words
  rw [View.canon_unit_zero hz2_2]
  simp only [View.readAt_eq_ld, harg2.read_unread, harg3.read_unread, harg4.read_unread, harg5.read_unread, harg6.read_unread, harg7.read_unread, harg11.read_unread, View.ld_unit_zero (S := S2048x256) hz2_2, View.ld_unit_zero (S := S1x256) hz2_2, View.ld_unit_zero (S := S256x256) hz2_2]

theorem sout2_B_1_eq (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : ¬cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    sout2_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k2_pay2 (k2_pay7 x0 x2 x3 x1 x4 x5) xs1 := by
  unfold sout2_B_1
  rw [View.read_writes_eq_canon _ _ _ (scover2_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun2_B
  dsimp only
  sl_unfold_words
  rw [View.canon_unit_zero hz2_2]
  simp only [View.readAt_eq_ld, harg2.read_unread, harg3.read_unread, harg4.read_unread, harg5.read_unread, harg6.read_unread, harg7.read_unread, harg12.read_unread, View.ld_unit_zero (S := S2048x256) hz2_2, View.ld_unit_zero (S := S1x256) hz2_2, View.ld_unit_zero (S := S256x256) hz2_2]

theorem sout2_C_0_eq (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    sout2_C_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k2_pay1 (k2_pay7 x0 x2 x3 x1 x4 x5) xs0 := by
  unfold sout2_C_0
  rw [View.read_writes_eq_canon _ _ _ (scover2_C_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun2_C
  dsimp only
  sl_unfold_words
  rw [View.canon_unit_zero hz2_2]
  simp only [View.readAt_eq_ld, harg2.read_unread, harg3.read_unread, harg4.read_unread, harg5.read_unread, harg6.read_unread, harg7.read_unread, harg11.read_unread, View.ld_unit_zero (S := S2048x256) hz2_2, View.ld_unit_zero (S := S1x256) hz2_2, View.ld_unit_zero (S := S256x256) hz2_2]

theorem sout2_C_1_eq (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    sout2_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k2_pay2 (k2_pay7 x0 x2 x3 x1 x4 x5) xs1 := by
  unfold sout2_C_1
  rw [View.read_writes_eq_canon _ _ _ (scover2_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun2_C
  dsimp only
  sl_unfold_words
  rw [View.canon_unit_zero hz2_2]
  simp only [View.readAt_eq_ld, harg2.read_unread, harg3.read_unread, harg4.read_unread, harg5.read_unread, harg6.read_unread, harg7.read_unread, harg12.read_unread, View.ld_unit_zero (S := S2048x256) hz2_2, View.ld_unit_zero (S := S1x256) hz2_2, View.ld_unit_zero (S := S256x256) hz2_2]

theorem out2_C_7_eq (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    out2_C_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k2_pay3 (k2_pay1 (k2_pay7 x0 x2 x3 x1 x4 x5) xs0) := by
  unfold out2_C_7
  rw [View.read_writes_eq_canon _ _ _ (cover2_C_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun2_C
  dsimp only
  sl_unfold_words
  rw [View.canon_unit_zero hz2_2, View.readCov_unit_zero (S := S1x256) _ hz2_2]
  simp only [View.readAt_eq_ld, harg2.read_unread, harg3.read_unread, harg4.read_unread, harg5.read_unread, harg6.read_unread, harg7.read_unread, harg11.read_unread, View.ld_unit_zero (S := S2048x256) hz2_2, View.ld_unit_zero (S := S1x256) hz2_2, View.ld_unit_zero (S := S256x256) hz2_2]

theorem out2_C_8_eq (c : Dev nD) (i : grid2.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond2_0 i) (hc1 : cond2_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    out2_C_8 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k2_pay4 (k2_pay2 (k2_pay7 x0 x2 x3 x1 x4 x5) xs1) := by
  unfold out2_C_8
  rw [View.read_writes_eq_canon _ _ _ (cover2_C_8 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun2_C
  dsimp only
  sl_unfold_words
  rw [View.canon_unit_zero hz2_2, View.readCov_unit_zero (S := S1x256) _ hz2_2]
  simp only [View.readAt_eq_ld, harg2.read_unread, harg3.read_unread, harg4.read_unread, harg5.read_unread, harg6.read_unread, harg7.read_unread, harg12.read_unread, View.ld_unit_zero (S := S2048x256) hz2_2, View.ld_unit_zero (S := S1x256) hz2_2, View.ld_unit_zero (S := S256x256) hz2_2]

end Cert.KernelIdeal.Hand

end
-- ==== Proof.KI.R2.Pay.lean ====
/- Region 2, the body's arithmetic read entry by entry over the extended reals: a raw product entry is the sum over the
   256 features of the sign of the previous layer's normalised value times the weight, the normalised value being
   γ · (x − mean) · rsqrt (var + ε) + β; the accumulators gain the step's 2048 rows' column sums (of the raw products, and
   of their squares); the stored partial sums lay an accumulator along eight rows; the cleared accumulators are 0. -/
import proofs.«118595_j1726576853663_2_alg».proof.Proof.Gen.KernelIdeal.Skeleton
import proofs.«118595_j1726576853663_2_alg».proof.Proof.KI.GlueLib
import proofs.«118595_j1726576853663_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-- Selecting +1 where an entry is at least zero and −1 elsewhere is the sign function of the specification. -/
theorem k2_sgn_select (v : EReal) :
    Scalar.select (Ideal.cmp .oge v (Ideal.ofBits .f32 0x00000000#32)) (Ideal.ofBits .f32 0x3F800000#32) (Ideal.ofBits .f32 0xBF800000#32)
      = Spec.sgn v := by
  rw [Ideal.ofBits_zero_f32, Glue.ofBits_one_f32, Glue.ofBits_neg_one_f32]
  unfold Scalar.select Ideal.cmp Spec.sgn
  by_cases h : (0 : EReal) ≤ v
  · simp [h]
  · simp [h]

/-- The operand indices of the product at output entry (r, o) and feature i: row r of the activations at i, row o of
    the weights at i. -/
theorem k2_lhsIdx (r : Fin 2048) (o : Fin 256) (i : Fin 256) :
    dot_S2048x256_S256x256_S2048x256_1_1_0_0_n_n.lhsIdx (ix2 r o) ((contrEquiv1 dot_S2048x256_S256x256_S2048x256_1_1_0_0_n_n 256 rfl rfl).symm i) = ix2 r i :=
  funext fun a => Fin.ext (by match a with | ⟨0, _⟩ => rfl | ⟨1, _⟩ => rfl)
theorem k2_rhsIdx (r : Fin 2048) (o : Fin 256) (i : Fin 256) :
    dot_S2048x256_S256x256_S2048x256_1_1_0_0_n_n.rhsIdx (ix2 r o) ((contrEquiv1 dot_S2048x256_S256x256_S2048x256_1_1_0_0_n_n 256 rfl rfl).symm i) = ix2 o i :=
  funext fun a => Fin.ext (by match a with | ⟨0, _⟩ => rfl | ⟨1, _⟩ => rfl)

/-- One row of a [1, 256] array copied down 2048 rows reads, at (r, i), the row at (0, i). -/
theorem k2_bcast_rows (v : Vec Ideal S1x256 .f32) (r : Fin 2048) (i : Fin 256) :
    broadcastTo S2048x256 v broadcasts_S1x256_S2048x256 (ix2 r i) = v (ix2 (0 : Fin 1) i) := by
  refine broadcastTo_apply _ broadcasts_S1x256_S2048x256 (ix2 r i) (ix2 (0 : Fin 1) i) ?_
  intro a
  match a with
  | ⟨0, _⟩ => rfl
  | ⟨1, _⟩ => rfl

/-- The normalised value the body forms at (r, i): γ · (x − mean) · rsqrt (var + ε) + β, the four vectors read in row 0. -/
theorem k2_norm_apply (x : Vec Ideal S2048x256 .f32) (var gamma mean beta : Vec Ideal S1x256 .f32) (r : Fin 2048) (i : Fin 256) :
    gamma (ix2 (0 : Fin 1) i) * (x (ix2 r i) - mean (ix2 (0 : Fin 1) i))
        * Ideal.rsqrt (var (ix2 (0 : Fin 1) i) + Ideal.ofBits .f32 0x3727C5AC#32) + beta (ix2 (0 : Fin 1) i)
      = Spec.norm (fun i => gamma (ix2 (0 : Fin 1) i)) (fun i => beta (ix2 (0 : Fin 1) i)) (fun i => mean (ix2 (0 : Fin 1) i))
          (fun i => var (ix2 (0 : Fin 1) i)) (fun r i => x (ix2 r i)) r i := rfl

/-- A raw product entry: the sum over the features of the sign of the normalised previous value times the weight. -/
theorem k2_pay7_apply (x : Vec Ideal S2048x256 .f32) (var gamma mean beta : Vec Ideal S1x256 .f32) (wb : Vec Ideal S256x256 .bf16)
    (r : Fin 2048) (o : Fin 256) :
    k2_pay7 (F := Ideal) x var gamma mean beta wb (ix2 r o)
      = Spec.raw (fun r i => Spec.sgn (Spec.norm (fun i => gamma (ix2 (0 : Fin 1) i)) (fun i => beta (ix2 (0 : Fin 1) i))
          (fun i => mean (ix2 (0 : Fin 1) i)) (fun i => var (ix2 (0 : Fin 1) i)) (fun r i => x (ix2 r i)) r i))
          (fun o i => wb (ix2 o i)) r o := by
  unfold k2_pay7
  refine (Ideal.matmul_constant_zero_apply dot_S2048x256_S256x256_S2048x256_1_1_0_0_n_n none _ _ (ix2 r o)).trans ?_
  refine (Equiv.sum_comp (contrEquiv1 dot_S2048x256_S256x256_S2048x256_1_1_0_0_n_n 256 rfl rfl).symm _).symm.trans ?_
  unfold Spec.raw
  refine Finset.sum_congr rfl fun i _ => ?_
  beta_reduce
  rw [k2_lhsIdx r o i, k2_rhsIdx r o i]
  refine congrArg₂ (· * ·) ?_ ?_
  · refine (k2_sgn_select _).trans (congrArg Spec.sgn ?_)
    refine Eq.trans ?_ (k2_norm_apply x var gamma mean beta r i)
    refine congrArg₂ (· + ·) (congrArg₂ (· * ·) (congrArg₂ (· * ·) ?_ (congrArg₂ (· - ·) ?_ ?_)) ?_) ?_
    · exact (k2_bcast_rows _ r i).trans (congrFun (shapeCast_self gamma _) _)
    · exact congrFun (shapeCast_self x _) _
    · exact (k2_bcast_rows _ r i).trans (congrFun (shapeCast_self mean _) _)
    · refine (k2_bcast_rows _ r i).trans ?_
      exact congrArg (fun t => Ideal.rsqrt (t + Ideal.ofBits .f32 0x3727C5AC#32)) (congrFun (shapeCast_self var _) _)
    · exact (k2_bcast_rows _ r i).trans (congrFun (shapeCast_self beta _) _)
  · exact congrFun (shapeCast_self wb _) _

/-- The column-sum accumulator after a step: what it held plus the step's 2048 raw products in that column. -/
theorem k2_pay1_apply (raw : FVec Ideal S2048x256 .f32) (acc : Vec Ideal S1x256 .f32) (u : Fin 1) (o : Fin 256) :
    k2_pay1 (F := Ideal) raw acc (ix2 u o) = acc (ix2 u o) + ∑ r : Fin 2048, raw (ix2 r o) := by
  unfold k2_pay1
  refine (congrFun (shapeCast_self _ shapeCasts_S1x256_S1x256) (ix2 u o)).trans ?_
  refine congrArg (acc (ix2 u o) + ·) ?_
  refine (shapeCast_apply _ shapeCasts_S256_S1x256 (ix2 u o) (ix1 o) ?_).trans ?_
  · rw [Shape.rowMajor_val_one, Shape.rowMajor_val_two]
    show o.val = u.val * 256 + o.val
    have := u.isLt; omega
  refine (Ideal.multiReduction_add_single raw _ reduces_S2048x256_S256 _ _ (ix1 o)).trans ?_
  exact Finset.sum_congr rfl fun r _ => congrArg raw (Glue.lift_row reduces_S2048x256_S256 o r)

/-- The sum-of-squares accumulator after a step: what it held plus the squares of the step's raw products. -/
theorem k2_pay2_apply (raw : FVec Ideal S2048x256 .f32) (acc : Vec Ideal S1x256 .f32) (u : Fin 1) (o : Fin 256) :
    k2_pay2 (F := Ideal) raw acc (ix2 u o) = acc (ix2 u o) + ∑ r : Fin 2048, raw (ix2 r o) * raw (ix2 r o) := by
  unfold k2_pay2
  refine (congrFun (shapeCast_self _ shapeCasts_S1x256_S1x256) (ix2 u o)).trans ?_
  refine congrArg (acc (ix2 u o) + ·) ?_
  refine (shapeCast_apply _ shapeCasts_S256_S1x256 (ix2 u o) (ix1 o) ?_).trans ?_
  · rw [Shape.rowMajor_val_one, Shape.rowMajor_val_two]
    show o.val = u.val * 256 + o.val
    have := u.isLt; omega
  refine (Ideal.multiReduction_add_single (mulf raw raw) _ reduces_S2048x256_S256 _ _ (ix1 o)).trans ?_
  exact Finset.sum_congr rfl fun r _ => congrArg (fun j => raw j * raw j) (Glue.lift_row reduces_S2048x256_S256 o r)

/-- An accumulator laid along eight rows reads, in every row, the accumulator's entry of the column. -/
theorem k2_pay3_apply (v : Vec Ideal S1x256 .f32) (p : Fin 8) (o : Fin 256) :
    k2_pay3 (F := Ideal) v (ix2 p o) = v (ix2 (0 : Fin 1) o) := by
  unfold k2_pay3
  refine (broadcastTo_apply _ broadcasts_S1x256_S8x256 (ix2 p o) (ix2 (0 : Fin 1) o) ?_).trans ?_
  · intro a
    match a with
    | ⟨0, _⟩ => rfl
    | ⟨1, _⟩ => rfl
  exact congrFun (shapeCast_self v _) _
theorem k2_pay4_apply (v : Vec Ideal S1x256 .f32) (p : Fin 8) (o : Fin 256) :
    k2_pay4 (F := Ideal) v (ix2 p o) = v (ix2 (0 : Fin 1) o) := by
  unfold k2_pay4
  refine (broadcastTo_apply _ broadcasts_S1x256_S8x256 (ix2 p o) (ix2 (0 : Fin 1) o) ?_).trans ?_
  · intro a
    match a with
    | ⟨0, _⟩ => rfl
    | ⟨1, _⟩ => rfl
  exact congrFun (shapeCast_self v _) _

/-- The cleared accumulators. -/
theorem k2_pay5_apply (j : S1x256.Idx) : k2_pay5 (F := Ideal) j = 0 := by
  unfold k2_pay5
  refine (congrFun (shapeCast_self _ shapeCasts_S1x256_S1x256) j).trans ?_
  exact Ideal.ofBits_zero_f32
theorem k2_pay6_apply (j : S1x256.Idx) : k2_pay6 (F := Ideal) j = 0 := by
  unfold k2_pay6
  refine (congrFun (shapeCast_self _ shapeCasts_S1x256_S1x256) j).trans ?_
  exact Ideal.ofBits_zero_f32

end Cert.KernelIdeal.Hand

end
-- ==== Proof.KI.R2.ValueBlk.lean ====
/- Region 2 over the extended reals, the blocks: at grid point t the body reads rows 2048 t … 2048 t + 2047 of the previous layer's
   raw products, the whole of the four [1, 256] statistics and parameter rows and the whole weight matrix; the step's product is rows
   2048 t … of this layer's raw products: the sum over the 256 features of the sign of the normalised previous value times the weight. -/
import proofs.«118595_j1726576853663_2_alg».proof.Proof.KI.R2.ValuePieces
import proofs.«118595_j1726576853663_2_alg».proof.Proof.KI.R2.Pay

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the TensorCore's buffer contents when the region is entered, over the extended reals
variable (V : (c : Dev nD) → (b : Ref sig .tc) → Buf (Elt Ideal) ((c : Thread nD τ).loc b))

/-- The windows' arrays as the region finds them: the previous raw products, mean, variance, scale, shift, weights. -/
abbrev A2_0 (c : Dev nD) : S65536x256.Idx → EReal := V c (Pipeline.arrRef spec2 0)
abbrev A2_1 (c : Dev nD) : S1x256.Idx → EReal := V c (Pipeline.arrRef spec2 1)
abbrev A2_2 (c : Dev nD) : S1x256.Idx → EReal := V c (Pipeline.arrRef spec2 2)
abbrev A2_3 (c : Dev nD) : S1x256.Idx → EReal := V c (Pipeline.arrRef spec2 3)
abbrev A2_4 (c : Dev nD) : S1x256.Idx → EReal := V c (Pipeline.arrRef spec2 4)
abbrev A2_5 (c : Dev nD) : S256x256.Idx → EReal := V c (Pipeline.arrRef spec2 5)

/-- This layer's raw products: the signs of the normalised previous layer against the weights. -/
def RAW2 (c : Dev nD) : Fin 65536 → Fin 256 → EReal :=
  Spec.raw (fun r i => Spec.sgn (Spec.norm (fun i => A2_3 V c (ix2 (0 : Fin 1) i)) (fun i => A2_4 V c (ix2 (0 : Fin 1) i))
      (fun i => A2_1 V c (ix2 (0 : Fin 1) i)) (fun i => A2_2 V c (ix2 (0 : Fin 1) i)) (fun r i => A2_0 V c (ix2 r i)) r i))
    (fun o i => A2_5 V c (ix2 o i))

/-! ## The printed index maps, decided over the grid -/

theorem idx2_0 : ∀ t : Fin cfg2.N, win2_0.index t (0 : Fin 2) = t.val ∧ win2_0.index t (1 : Fin 2) = 0 :=
  (by decide +kernel : ∀ t : Fin grid2.N, _)
theorem idx2_1 : ∀ t : Fin cfg2.N, win2_1.index t (0 : Fin 2) = 0 ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = t.val ∧ win2_6.index t (1 : Fin 2) = 0 :=
  (by decide +kernel : ∀ t : Fin grid2.N, _)
theorem idx2_7 : ∀ t : Fin cfg2.N, win2_7.index t (0 : Fin 2) = t.val / 16 ∧ win2_7.index t (1 : Fin 2) = 0 :=
  (by decide +kernel : ∀ t : Fin grid2.N, _)
theorem idx2_8 : ∀ t : Fin cfg2.N, win2_8.index t (0 : Fin 2) = t.val / 16 ∧ win2_8.index t (1 : Fin 2) = 0 :=
  (by decide +kernel : ∀ t : Fin grid2.N, _)

theorem lt_N2 (t : Fin cfg2.N) : t.val < 32 := lt_of_lt_of_eq t.isLt (show cfg2.N = 32 from N_2)

/-! ## The input blocks -/

/-- Row r of the input block at point t is row 2048 t + r of the previous raw products. -/
theorem iblk2_0_apply (c : Dev nD) (t : Fin cfg2.N) (r : Fin 2048) (i : Fin 256) (hr : 2048 * t.val + r.val < 65536) :
    (iblk2 V c 0 t : Vec Ideal S2048x256 .f32) (ix2 r i) = A2_0 V c (ix2 ⟨2048 * t.val + r.val, hr⟩ i) := by
  show V c (Pipeline.arrRef spec2 0) (((cfg2.win 0).blk t).view.emb (ix2 r i)) = V c (Pipeline.arrRef spec2 0) _
  refine congrArg (V c (Pipeline.arrRef spec2 0)) ?_
  funext a; apply Fin.ext
  match a with
  | ⟨0, _⟩ => show win2_0.index t (0 : Fin 2) * 2048 + 1 * r.val = 2048 * t.val + r.val; rw [(idx2_0 t).1]; omega
  | ⟨1, _⟩ => show win2_0.index t (1 : Fin 2) * 256 + 1 * i.val = i.val; rw [(idx2_0 t).2]; omega

/-- The blocks of the statistics and parameter rows are the whole rows, at every point. -/
theorem iblk2_1_apply (c : Dev nD) (t : Fin cfg2.N) (u : Fin 1) (i : Fin 256) :
    (iblk2 V c 1 t : Vec Ideal S1x256 .f32) (ix2 u i) = A2_1 V c (ix2 u i) := by
  show V c (Pipeline.arrRef spec2 1) (((cfg2.win 1).blk t).view.emb (ix2 u i)) = V c (Pipeline.arrRef spec2 1) _
  refine congrArg (V c (Pipeline.arrRef spec2 1)) ?_
  funext a; apply Fin.ext
  match a with
  | ⟨0, _⟩ => show win2_1.index t (0 : Fin 2) * 1 + 1 * u.val = u.val; rw [(idx2_1 t).1]; omega
  | ⟨1, _⟩ => show win2_1.index t (1 : Fin 2) * 256 + 1 * i.val = i.val; rw [(idx2_1 t).2]; omega
theorem iblk2_2_apply (c : Dev nD) (t : Fin cfg2.N) (u : Fin 1) (i : Fin 256) :
    (iblk2 V c 2 t : Vec Ideal S1x256 .f32) (ix2 u i) = A2_2 V c (ix2 u i) := by
  show V c (Pipeline.arrRef spec2 2) (((cfg2.win 2).blk t).view.emb (ix2 u i)) = V c (Pipeline.arrRef spec2 2) _
  refine congrArg (V c (Pipeline.arrRef spec2 2)) ?_
  funext a; apply Fin.ext
  match a with
  | ⟨0, _⟩ => show win2_2.index t (0 : Fin 2) * 1 + 1 * u.val = u.val; rw [(idx2_2 t).1]; omega
  | ⟨1, _⟩ => show win2_2.index t (1 : Fin 2) * 256 + 1 * i.val = i.val; rw [(idx2_2 t).2]; omega
theorem iblk2_3_apply (c : Dev nD) (t : Fin cfg2.N) (u : Fin 1) (i : Fin 256) :
    (iblk2 V c 3 t : Vec Ideal S1x256 .f32) (ix2 u i) = A2_3 V c (ix2 u i) := by
  show V c (Pipeline.arrRef spec2 3) (((cfg2.win 3).blk t).view.emb (ix2 u i)) = V c (Pipeline.arrRef spec2 3) _
  refine congrArg (V c (Pipeline.arrRef spec2 3)) ?_
  funext a; apply Fin.ext
  match a with
  | ⟨0, _⟩ => show win2_3.index t (0 : Fin 2) * 1 + 1 * u.val = u.val; rw [(idx2_3 t).1]; omega
  | ⟨1, _⟩ => show win2_3.index t (1 : Fin 2) * 256 + 1 * i.val = i.val; rw [(idx2_3 t).2]; omega
theorem iblk2_4_apply (c : Dev nD) (t : Fin cfg2.N) (u : Fin 1) (i : Fin 256) :
    (iblk2 V c 4 t : Vec Ideal S1x256 .f32) (ix2 u i) = A2_4 V c (ix2 u i) := by
  show V c (Pipeline.arrRef spec2 4) (((cfg2.win 4).blk t).view.emb (ix2 u i)) = V c (Pipeline.arrRef spec2 4) _
  refine congrArg (V c (Pipeline.arrRef spec2 4)) ?_
  funext a; apply Fin.ext
  match a with
  | ⟨0, _⟩ => show win2_4.index t (0 : Fin 2) * 1 + 1 * u.val = u.val; rw [(idx2_4 t).1]; omega
  | ⟨1, _⟩ => show win2_4.index t (1 : Fin 2) * 256 + 1 * i.val = i.val; rw [(idx2_4 t).2]; omega

/-- The weights' block is the whole weight matrix, at every point. -/
theorem iblk2_5_apply (c : Dev nD) (t : Fin cfg2.N) (o : Fin 256) (i : Fin 256) :
    (iblk2 V c 5 t : Vec Ideal S256x256 .bf16) (ix2 o i) = A2_5 V c (ix2 o i) := by
  show V c (Pipeline.arrRef spec2 5) (((cfg2.win 5).blk t).view.emb (ix2 o i)) = V c (Pipeline.arrRef spec2 5) _
  refine congrArg (V c (Pipeline.arrRef spec2 5)) ?_
  funext a; apply Fin.ext
  match a with
  | ⟨0, _⟩ => show win2_5.index t (0 : Fin 2) * 256 + 1 * o.val = o.val; rw [(idx2_5 t).1]; omega
  | ⟨1, _⟩ => show win2_5.index t (1 : Fin 2) * 256 + 1 * i.val = i.val; rw [(idx2_5 t).2]; omega

/-- The normalised value depends on its five arguments only through their entries at the column and the row read. -/
theorem norm_congr2 {M M' : ℕ} (γ γ' β β' μ μ' v v' : Fin 256 → EReal) (x : Fin M → Fin 256 → EReal) (x' : Fin M' → Fin 256 → EReal)
    (r : Fin M) (r' : Fin M') (i : Fin 256) (hγ : γ i = γ' i) (hβ : β i = β' i) (hμ : μ i = μ' i) (hv : v i = v' i) (hx : x r i = x' r' i) :
    Spec.norm γ β μ v x r i = Spec.norm γ' β' μ' v' x' r' i := by
  unfold Spec.norm; rw [hγ, hβ, hμ, hv, hx]

/-- The step's product at point t: rows 2048 t … of this layer's raw products. -/
theorem pay7_blk2 (c : Dev nD) (t : Fin cfg2.N) (r : Fin 2048) (o : Fin 256) (hr : 2048 * t.val + r.val < 65536) :
    k2_pay7 (F := Ideal) (iblk2 V c 0 t) (iblk2 V c 2 t) (iblk2 V c 3 t) (iblk2 V c 1 t) (iblk2 V c 4 t) (iblk2 V c 5 t) (ix2 r o) = RAW2 V c ⟨2048 * t.val + r.val, hr⟩ o := by
  refine (k2_pay7_apply (iblk2 V c 0 t) (iblk2 V c 2 t) (iblk2 V c 3 t) (iblk2 V c 1 t) (iblk2 V c 4 t) (iblk2 V c 5 t) r o).trans ?_
  unfold RAW2 Spec.raw
  refine Finset.sum_congr rfl fun i _ => ?_
  refine congrArg₂ (· * ·) (congrArg Spec.sgn ?_) (iblk2_5_apply V c t o i)
  exact norm_congr2 _ _ _ _ _ _ _ _ _ _ r ⟨2048 * t.val + r.val, hr⟩ i (iblk2_3_apply V c t 0 i) (iblk2_4_apply V c t 0 i)
    (iblk2_1_apply V c t 0 i) (iblk2_2_apply V c t 0 i) (iblk2_0_apply V c t r i hr)

end Cert.KernelIdeal.Hand

end
-- ==== Proof.KI.R2.ValueRaw.lean ====
/- Region 2 over the extended reals, the raw output: after grid point t its staging buffer holds rows 2048 t … 2048 t + 2047 of
   this layer's raw products, which the point writes back; the 32 points cover all 65536 rows. -/
import proofs.«118595_j1726576853663_2_alg».proof.Proof.KI.R2.ValueBlk

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the TensorCore's buffer contents when the region is entered, over the extended reals
variable (V : (c : Dev nD) → (b : Ref sig .tc) → Buf (Elt Ideal) ((c : Thread nD τ).loc b))

/-! ## What the raw output's staging buffer holds after point t -/

set_option maxHeartbeats 1000000 in
theorem outs2_6 (c : Dev nD) (t : Fin cfg2.N) : (outsAt2 V c t.val t.isLt).1 = k2_pay7 (F := Ideal) (iblk2 V c 0 t) (iblk2 V c 2 t) (iblk2 V c 3 t) (iblk2 V c 1 t) (iblk2 V c 4 t) (iblk2 V c 5 t) := by
  by_cases h0 : t.val % 16 = 0
  · have h1 : ¬t.val % 16 = 15 := by omega
    rw [outsAt2_A V c t h0 h1]
    dsimp only
    exact out2_A_6_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)
  · by_cases h1 : t.val % 16 = 15
    · rw [outsAt2_C V c t h0 h1]
      dsimp only
      exact out2_C_6_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2
    · rw [outsAt2_B V c t h0 h1]
      dsimp only
      exact out2_B_6_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2

/-! ## From the blocks to the array -/

/-- This layer's raw products as contents of the raw output's array. -/
def G2_6 (c : Dev nD) : S65536x256.Idx → EReal := fun j => RAW2 V c (j 0) (j 1)

theorem flushed2_6_eq (c : Dev nD) (t : Fin cfg2.N) :
    (dat2 V c).flushed 6 t = ((cfg2.win 6).blk t).view.read (Elt Ideal) (G2_6 V c) := by
  show (cfg2.win 6).cut (grid2.coords t) ((dat2 V c).after 6 t) = _
  rw [after2_6, outs2_6]
  funext j
  obtain ⟨r, o, rfl⟩ : ∃ (r : Fin 2048) (o : Fin 256), j = ix2 r o := ⟨j 0, j 1, eq_ix2 j⟩
  have hN := lt_N2 t
  have hr : 2048 * t.val + r.val < 65536 := by have := r.isLt; omega
  refine (pay7_blk2 V c t r o hr).trans ?_
  show RAW2 V c _ _ = G2_6 V c (((cfg2.win 6).blk t).view.emb (ix2 r o))
  unfold G2_6
  refine congrArg₂ (RAW2 V c) (Fin.ext ?_) (Fin.ext ?_)
  · show 2048 * t.val + r.val = win2_6.index t (0 : Fin 2) * 2048 + 1 * r.val; rw [(idx2_6 t).1]; omega
  · show o.val = win2_6.index t (1 : Fin 2) * 256 + 1 * o.val; rw [(idx2_6 t).2]; omega

theorem mem_blk2_6 (t : Fin cfg2.N) (i : S65536x256.Idx) :
    i ∈ ((cfg2.win 6).blk t).view.set ↔ ∀ a : Fin 2, win2_6.index t a * S2048x256.size a ≤ (i a).val ∧ (i a).val < win2_6.index t a * S2048x256.size a + S2048x256.size a := by
  show i ∈ ((View.whole main_v62_0).slice (win2_6.rect t)).set ↔ _
  rw [View.set_slice_whole, Rect.mem_set_unit]
  exact Iff.rfl

/-- THE RAW OUTPUT after the region: this layer's raw products, every entry. -/
theorem final2_6 (c : Dev nD) : (dat2 V c).arrAt 6 cfg2.N = G2_6 V c :=
  (dat2 V c).arrAt_eq_of_cover 6 (G2_6 V c) (fun t _ => flushed2_6_eq V c t) fun i => by
    have hi0 : (i 0).val < 65536 := (i 0).isLt
    have hi1 : (i 1).val < 256 := (i 1).isLt
    refine ⟨⟨(i 0).val / 2048, by rw [show cfg2.N = 32 from N_2]; omega⟩, flush2_6 _, ?_⟩
    rw [mem_blk2_6]
    intro a
    match a with
    | ⟨0, _⟩ => show win2_6.index _ (0 : Fin 2) * 2048 ≤ (i 0).val ∧ (i 0).val < win2_6.index _ (0 : Fin 2) * 2048 + 2048; rw [(idx2_6 _).1]; dsimp only; omega
    | ⟨1, _⟩ => show win2_6.index _ (1 : Fin 2) * 256 ≤ (i 1).val ∧ (i 1).val < win2_6.index _ (1 : Fin 2) * 256 + 256; rw [(idx2_6 _).2]; omega

/-- The same entry by entry. -/
theorem value2_6 (c : Dev nD) (r : Fin 65536) (o : Fin 256) :
    (dat2 V c).arrAt 6 cfg2.N (ix2 r o) = RAW2 V c r o :=
  congrFun (final2_6 V c) (ix2 r o)

end Cert.KernelIdeal.Hand

end
-- ==== Proof.KI.LibRestart.lean ====
/- A running sum that restarts every sixteen steps (general: nothing here mentions a program). A sequence that at a step
   divisible by 16 is 0 + a n and at every other step is its predecessor plus a n holds, at step n, the sum of a over the steps
   16 (n / 16), …, n. Addition in the extended reals is commutative and associative everywhere, so no finiteness is asked. -/
import Mathlib.Algebra.BigOperators.Intervals
import Mathlib.Data.EReal.Basic

open scoped BigOperators

namespace Cert.LibRestart

/-- By induction on the step: a restart begins a new sum, any other step extends the current one by its last term. -/
theorem restart_sum16 (S a : ℕ → EReal) (N : ℕ)
    (hA : ∀ n, n < N → n % 16 = 0 → S n = 0 + a n)
    (hB : ∀ n, n < N → ¬n % 16 = 0 → S n = S (n - 1) + a n) :
    ∀ n, n < N → S n = ∑ k ∈ Finset.range (n % 16 + 1), a (16 * (n / 16) + k) := by
  intro n
  induction n with
  | zero => intro h; rw [hA 0 h rfl, zero_add]; simp
  | succ n ih =>
    intro h
    by_cases h0 : (n + 1) % 16 = 0
    · rw [hA _ h h0, zero_add, h0, Finset.sum_range_succ, Finset.sum_range_zero, zero_add]
      exact congrArg a (by omega)
    · rw [hB _ h h0, show n + 1 - 1 = n from rfl, ih (by omega)]
      have e1 : (n + 1) % 16 = n % 16 + 1 := by omega
      have e2 : (n + 1) / 16 = n / 16 := by omega
      rw [e1, e2, Finset.sum_range_succ _ (n % 16 + 1)]
      exact congrArg (_ + a ·) (by omega)

end Cert.LibRestart
-- ==== Proof.KI.R2.ValueAcc.lean ====
/- Region 2 over the extended reals, the two accumulators. After grid point t the column-sum accumulator holds the sum of this layer's
   raw products' columns over the rows of the tiles 16 (t / 16) … t of the point's core (it is zeroed at a core's first step), the other
   accumulator the same for the squares. -/
import proofs.«118595_j1726576853663_2_alg».proof.Proof.KI.R2.ValueRaw
import proofs.«118595_j1726576853663_2_alg».proof.Proof.KI.LibRestart
import proofs.«118595_j1726576853663_2_alg».proof.Proof.LibTileSum

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the TensorCore's buffer contents when the region is entered, over the extended reals
variable (V : (c : Dev nD) → (b : Ref sig .tc) → Buf (Elt Ideal) ((c : Thread nD τ).loc b))

/-- Tile k's column sums: rows 2048 k … 2048 k + 2047 of the raw products (nothing beyond the 32 tiles). -/
def tile2 (c : Dev nD) (o : Fin 256) (k : ℕ) : EReal :=
  if h : k < 32 then ∑ r : Fin 2048, RAW2 V c ⟨2048 * k + r.val, by have := r.isLt; omega⟩ o else 0
/-- The same for the squares. -/
def tileSq2 (c : Dev nD) (o : Fin 256) (k : ℕ) : EReal :=
  if h : k < 32 then ∑ r : Fin 2048, RAW2 V c ⟨2048 * k + r.val, by have := r.isLt; omega⟩ o * RAW2 V c ⟨2048 * k + r.val, by have := r.isLt; omega⟩ o else 0

/-- One step of the column-sum accumulator at point t: the tile's column sums are added. -/
theorem step2_pay1 (c : Dev nD) (t : Fin cfg2.N) (acc : Vec Ideal S1x256 .f32) (u : Fin 1) (o : Fin 256) :
    k2_pay1 (F := Ideal) (k2_pay7 (F := Ideal) (iblk2 V c 0 t) (iblk2 V c 2 t) (iblk2 V c 3 t) (iblk2 V c 1 t) (iblk2 V c 4 t) (iblk2 V c 5 t)) acc (ix2 u o) = acc (ix2 u o) + tile2 V c o t.val := by
  refine (k2_pay1_apply _ acc u o).trans ?_
  refine congrArg (acc (ix2 u o) + ·) ?_
  unfold tile2; rw [dif_pos (lt_N2 t)]
  exact Finset.sum_congr rfl fun r _ => pay7_blk2 V c t r o _
theorem step2_pay2 (c : Dev nD) (t : Fin cfg2.N) (acc : Vec Ideal S1x256 .f32) (u : Fin 1) (o : Fin 256) :
    k2_pay2 (F := Ideal) (k2_pay7 (F := Ideal) (iblk2 V c 0 t) (iblk2 V c 2 t) (iblk2 V c 3 t) (iblk2 V c 1 t) (iblk2 V c 4 t) (iblk2 V c 5 t)) acc (ix2 u o) = acc (ix2 u o) + tileSq2 V c o t.val := by
  refine (k2_pay2_apply _ acc u o).trans ?_
  refine congrArg (acc (ix2 u o) + ·) ?_
  unfold tileSq2; rw [dif_pos (lt_N2 t)]
  exact Finset.sum_congr rfl fun r _ => congrArg₂ (· * ·) (pay7_blk2 V c t r o _) (pay7_blk2 V c t r o _)

/-! ## The accumulators point by point -/

set_option maxHeartbeats 1000000 in
/-- At a core's first step accumulator 0 is the first tile's sums (from zero). -/
theorem acc0_first2 (c : Dev nD) (t : Fin cfg2.N) (h0 : t.val % 16 = 0) (u : Fin 1) (o : Fin 256) :
    (outsAt2 V c t.val t.isLt).2.2.2.1 (ix2 u o) = 0 + tile2 V c o t.val := by
  have h1 : ¬t.val % 16 = 15 := by omega
  rw [outsAt2_A V c t h0 h1]
  dsimp only
  refine (congrFun (sout2_A_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) (ix2 u o)).trans ?_
  refine (step2_pay1 V c t _ u o).trans ?_
  rw [k2_pay5_apply]

set_option maxHeartbeats 1000000 in
/-- At any later step the tile's sums are added to what the step before left. -/
theorem acc0_next2 (c : Dev nD) (t : Fin cfg2.N) (h0 : ¬t.val % 16 = 0) (u : Fin 1) (o : Fin 256) :
    (outsAt2 V c t.val t.isLt).2.2.2.1 (ix2 u o) = (outsAt2 V c (t.val - 1) (Nat.lt_of_le_of_lt (Nat.sub_le _ _) t.isLt)).2.2.2.1 (ix2 u o) + tile2 V c o t.val := by
  by_cases h1 : t.val % 16 = 15
  · rw [outsAt2_C V c t h0 h1]
    dsimp only
    refine (congrFun (sout2_C_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix2 u o)).trans ?_
    exact step2_pay1 V c t _ u o
  · rw [outsAt2_B V c t h0 h1]
    dsimp only
    refine (congrFun (sout2_B_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix2 u o)).trans ?_
    exact step2_pay1 V c t _ u o

set_option maxHeartbeats 1000000 in
/-- At a core's first step accumulator 1 is the first tile's sums (from zero). -/
theorem acc1_first2 (c : Dev nD) (t : Fin cfg2.N) (h0 : t.val % 16 = 0) (u : Fin 1) (o : Fin 256) :
    (outsAt2 V c t.val t.isLt).2.2.2.2 (ix2 u o) = 0 + tileSq2 V c o t.val := by
  have h1 : ¬t.val % 16 = 15 := by omega
  rw [outsAt2_A V c t h0 h1]
  dsimp only
  refine (congrFun (sout2_A_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t) (iblk2 V c 5 t)) (ix2 u o)).trans ?_
  refine (step2_pay2 V c t _ u o).trans ?_
  rw [k2_pay6_apply]

set_option maxHeartbeats 1000000 in
/-- At any later step the tile's sums are added to what the step before left. -/
theorem acc1_next2 (c : Dev nD) (t : Fin cfg2.N) (h0 : ¬t.val % 16 = 0) (u : Fin 1) (o : Fin 256) :
    (outsAt2 V c t.val t.isLt).2.2.2.2 (ix2 u o) = (outsAt2 V c (t.val - 1) (Nat.lt_of_le_of_lt (Nat.sub_le _ _) t.isLt)).2.2.2.2 (ix2 u o) + tileSq2 V c o t.val := by
  by_cases h1 : t.val % 16 = 15
  · rw [outsAt2_C V c t h0 h1]
    dsimp only
    refine (congrFun (sout2_C_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix2 u o)).trans ?_
    exact step2_pay2 V c t _ u o
  · rw [outsAt2_B V c t h0 h1]
    dsimp only
    refine (congrFun (sout2_B_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix2 u o)).trans ?_
    exact step2_pay2 V c t _ u o

/-! ## The accumulators in closed form: by induction on the point -/

/-- Accumulator 0 after point n: the tiles 16 (n / 16) … n of the point's core. -/
theorem acc0_eq2 (c : Dev nD) (u : Fin 1) (o : Fin 256) (n : ℕ) (h : n < cfg2.N) :
    (outsAt2 V c n h).2.2.2.1 (ix2 u o) = ∑ k ∈ Finset.range (n % 16 + 1), tile2 V c o (16 * (n / 16) + k) := by
  have key := Cert.LibRestart.restart_sum16 (fun n => if h : n < cfg2.N then (outsAt2 V c n h).2.2.2.1 (ix2 u o) else 0) (tile2 V c o) cfg2.N
    (fun n hn h0 => by beta_reduce; rw [dif_pos hn]; exact acc0_first2 V c ⟨n, hn⟩ h0 u o)
    (fun n hn h0 => by
      beta_reduce
      rw [dif_pos hn, dif_pos (show n - 1 < cfg2.N by omega)]
      exact acc0_next2 V c ⟨n, hn⟩ h0 u o) n h
  beta_reduce at key
  rw [dif_pos h] at key
  exact key

/-- Accumulator 1 after point n: the tiles 16 (n / 16) … n of the point's core. -/
theorem acc1_eq2 (c : Dev nD) (u : Fin 1) (o : Fin 256) (n : ℕ) (h : n < cfg2.N) :
    (outsAt2 V c n h).2.2.2.2 (ix2 u o) = ∑ k ∈ Finset.range (n % 16 + 1), tileSq2 V c o (16 * (n / 16) + k) := by
  have key := Cert.LibRestart.restart_sum16 (fun n => if h : n < cfg2.N then (outsAt2 V c n h).2.2.2.2 (ix2 u o) else 0) (tileSq2 V c o) cfg2.N
    (fun n hn h0 => by beta_reduce; rw [dif_pos hn]; exact acc1_first2 V c ⟨n, hn⟩ h0 u o)
    (fun n hn h0 => by
      beta_reduce
      rw [dif_pos hn, dif_pos (show n - 1 < cfg2.N by omega)]
      exact acc1_next2 V c ⟨n, hn⟩ h0 u o) n h
  beta_reduce at key
  rw [dif_pos h] at key
  exact key

/-- A core's sixteen tiles are its 32768 rows. -/
theorem core_tiles2 (c : Dev nD) (o : Fin 256) (g : ℕ) (hg : g < 2) :
    ∑ k ∈ Finset.range 16, tile2 V c o (16 * g + k)
      = ∑ r' : Fin 32768, RAW2 V c ⟨g * 32768 + r'.val, by have := r'.isLt; omega⟩ o := by
  rw [Finset.sum_range, Cert.LibTileSum.sum_tiles_of_eq (N := 32768) (T := 16) (B := 2048) rfl]
  refine Finset.sum_congr rfl fun k _ => ?_
  unfold tile2; rw [dif_pos (by have := k.isLt; omega)]
  refine Finset.sum_congr rfl fun r _ => ?_
  have e : (⟨2048 * (16 * g + k.val) + r.val, by have := k.isLt; have := r.isLt; omega⟩ : Fin 65536)
      = ⟨g * 32768 + (2048 * k.val + r.val), by have := k.isLt; have := r.isLt; omega⟩ := Fin.ext (by show 2048 * (16 * g + k.val) + r.val = g * 32768 + (2048 * k.val + r.val); omega)
  exact congrArg (fun q => RAW2 V c q o) e
theorem core_tilesSq2 (c : Dev nD) (o : Fin 256) (g : ℕ) (hg : g < 2) :
    ∑ k ∈ Finset.range 16, tileSq2 V c o (16 * g + k)
      = ∑ r' : Fin 32768, RAW2 V c ⟨g * 32768 + r'.val, by have := r'.isLt; omega⟩ o * RAW2 V c ⟨g * 32768 + r'.val, by have := r'.isLt; omega⟩ o := by
  rw [Finset.sum_range, Cert.LibTileSum.sum_tiles_of_eq (N := 32768) (T := 16) (B := 2048) rfl]
  refine Finset.sum_congr rfl fun k _ => ?_
  unfold tileSq2; rw [dif_pos (by have := k.isLt; omega)]
  refine Finset.sum_congr rfl fun r _ => ?_
  have e : (⟨2048 * (16 * g + k.val) + r.val, by have := k.isLt; have := r.isLt; omega⟩ : Fin 65536)
      = ⟨g * 32768 + (2048 * k.val + r.val), by have := k.isLt; have := r.isLt; omega⟩ := Fin.ext (by show 2048 * (16 * g + k.val) + r.val = g * 32768 + (2048 * k.val + r.val); omega)
  exact congrArg (fun q => RAW2 V c q o * RAW2 V c q o) e

end Cert.KernelIdeal.Hand

end
-- ==== Proof.KI.R2.ValueSums.lean ====
/- Region 2 over the extended reals, the two partial-sum outputs. At a core's last step the accumulators are stored along the eight
   rows of the core's block of windows 7 and 8, which that point writes back: rows 8 g … 8 g + 7 of window 7 end holding the column sums
   of this layer's raw products over core g's 32768 rows, and of window 8 the column sums of their squares. -/
import proofs.«118595_j1726576853663_2_alg».proof.Proof.KI.R2.ValueAcc

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the TensorCore's buffer contents when the region is entered, over the extended reals
variable (V : (c : Dev nD) → (b : Ref sig .tc) → Buf (Elt Ideal) ((c : Thread nD τ).loc b))

set_option maxHeartbeats 1000000 in
/-- At a core's last step window 7's staging buffer holds accumulator 0 in each of its eight rows. -/
theorem outs2_7 (c : Dev nD) (t : Fin cfg2.N) (h1 : t.val % 16 = 15) (p : Fin 8) (o : Fin 256) :
    (outsAt2 V c t.val t.isLt).2.1 (ix2 p o) = (outsAt2 V c t.val t.isLt).2.2.2.1 (ix2 (0 : Fin 1) o) := by
  have h0 : ¬t.val % 16 = 0 := by omega
  rw [outsAt2_C V c t h0 h1]
  dsimp only
  refine (congrFun (out2_C_7_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix2 p o)).trans ?_
  refine (k2_pay3_apply _ p o).trans ?_
  exact (congrFun (sout2_C_0_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix2 (0 : Fin 1) o)).symm

/-- A block of window 7's array read back: row p of the block at point t is row 8 (t / 16) + p of the array. -/
theorem read_blk2_7 (G : S16x256.Idx → EReal) (t : Fin cfg2.N) (p : Fin 8) (o : Fin 256) (hp : t.val / 16 * 8 + p.val < 16) :
    (((cfg2.win 7).blk t).view.read (Elt Ideal) G : Vec Ideal S8x256 .f32) (ix2 p o) = G (ix2 ⟨t.val / 16 * 8 + p.val, hp⟩ o) := by
  show G (((cfg2.win 7).blk t).view.emb (ix2 p o)) = G _
  refine congrArg G ?_
  funext a; apply Fin.ext
  match a with
  | ⟨0, _⟩ => show win2_7.index t (0 : Fin 2) * 8 + 1 * p.val = t.val / 16 * 8 + p.val; rw [(idx2_7 t).1]; omega
  | ⟨1, _⟩ => show win2_7.index t (1 : Fin 2) * 256 + 1 * o.val = o.val; rw [(idx2_7 t).2]; omega

/-- Core g's sums as contents of window 7's array: rows 8 g … 8 g + 7 all hold them. -/
def G2_7 (c : Dev nD) : S16x256.Idx → EReal := fun j => ∑ r' : Fin 32768, RAW2 V c ⟨(j 0).val / 8 * 32768 + r'.val, by have := idx2_lt0 j; have := r'.isLt; omega⟩ (j 1)

theorem flushed2_7_eq (c : Dev nD) (t : Fin cfg2.N) (hf : (cfg2.win 7).flush t = true) :
    (dat2 V c).flushed 7 t = ((cfg2.win 7).blk t).view.read (Elt Ideal) (G2_7 V c) := by
  have h1 : t.val % 16 = 15 := (flush2_7 t).mp hf
  have hN := lt_N2 t
  show (cfg2.win 7).cut (grid2.coords t) ((dat2 V c).after 7 t) = _
  rw [after2_7]
  funext j
  obtain ⟨p, o, rfl⟩ : ∃ (p : Fin 8) (o : Fin 256), j = ix2 p o := ⟨j 0, j 1, eq_ix2 j⟩
  refine (outs2_7 V c t h1 p o).trans ?_
  refine (acc0_eq2 V c 0 o t.val t.isLt).trans ?_
  have e16 : t.val % 16 + 1 = 16 := by omega
  rw [e16]
  refine (core_tiles2 V c o (t.val / 16) (by omega)).trans ?_
  have hp : t.val / 16 * 8 + p.val < 16 := by have := p.isLt; omega
  refine Eq.trans ?_ (read_blk2_7 (G2_7 V c) t p o hp).symm
  unfold G2_7
  refine Finset.sum_congr rfl fun r' _ => ?_
  have e : RAW2 V c ⟨t.val / 16 * 32768 + r'.val, by have := r'.isLt; omega⟩ o
      = RAW2 V c ⟨(t.val / 16 * 8 + p.val) / 8 * 32768 + r'.val, by have := r'.isLt; omega⟩ o :=
    congrArg (fun q => RAW2 V c q o) (Fin.ext (by show t.val / 16 * 32768 + r'.val = (t.val / 16 * 8 + p.val) / 8 * 32768 + r'.val; omega))
  exact e

theorem mem_blk2_7 (t : Fin cfg2.N) (i : S16x256.Idx) :
    i ∈ ((cfg2.win 7).blk t).view.set ↔ ∀ a : Fin 2, win2_7.index t a * S8x256.size a ≤ (i a).val ∧ (i a).val < win2_7.index t a * S8x256.size a + S8x256.size a := by
  show i ∈ ((View.whole main_v62_1).slice (win2_7.rect t)).set ↔ _
  rw [View.set_slice_whole, Rect.mem_set_unit]
  exact Iff.rfl

/-- WINDOW 7 after the region: core g's sums in rows 8 g … 8 g + 7, every entry. -/
theorem final2_7 (c : Dev nD) : (dat2 V c).arrAt 7 cfg2.N = G2_7 V c :=
  (dat2 V c).arrAt_eq_of_cover 7 (G2_7 V c) (fun t hf => flushed2_7_eq V c t hf) fun i => by
    have hi0 : (i 0).val < 16 := (i 0).isLt
    have hi1 : (i 1).val < 256 := (i 1).isLt
    refine ⟨⟨(i 0).val / 8 * 16 + 15, by rw [show cfg2.N = 32 from N_2]; omega⟩, (flush2_7 _).mpr (by dsimp only; omega), ?_⟩
    rw [mem_blk2_7]
    intro a
    match a with
    | ⟨0, _⟩ => show win2_7.index _ (0 : Fin 2) * 8 ≤ (i 0).val ∧ (i 0).val < win2_7.index _ (0 : Fin 2) * 8 + 8; rw [(idx2_7 _).1]; dsimp only; omega
    | ⟨1, _⟩ => show win2_7.index _ (1 : Fin 2) * 256 ≤ (i 1).val ∧ (i 1).val < win2_7.index _ (1 : Fin 2) * 256 + 256; rw [(idx2_7 _).2]; omega

/-- The same entry by entry: row p belongs to core p / 8. -/
theorem value2_7 (c : Dev nD) (p : Fin 16) (o : Fin 256) :
    (dat2 V c).arrAt 7 cfg2.N (ix2 p o) = ∑ r' : Fin 32768, RAW2 V c ⟨p.val / 8 * 32768 + r'.val, by have := p.isLt; have := r'.isLt; omega⟩ o :=
  congrFun (final2_7 V c) (ix2 p o)

set_option maxHeartbeats 1000000 in
/-- At a core's last step window 8's staging buffer holds accumulator 1 in each of its eight rows. -/
theorem outs2_8 (c : Dev nD) (t : Fin cfg2.N) (h1 : t.val % 16 = 15) (p : Fin 8) (o : Fin 256) :
    (outsAt2 V c t.val t.isLt).2.2.1 (ix2 p o) = (outsAt2 V c t.val t.isLt).2.2.2.2 (ix2 (0 : Fin 1) o) := by
  have h0 : ¬t.val % 16 = 0 := by omega
  rw [outsAt2_C V c t h0 h1]
  dsimp only
  refine (congrFun (out2_C_8_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix2 p o)).trans ?_
  refine (k2_pay4_apply _ p o).trans ?_
  exact (congrFun (sout2_C_1_eq (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.2.2.1 (outsAt2 V c (t.val - 1) (Nat.lt_of_le_of_lt (Nat.sub_le _ _) t.isLt)).2.2.2.2) (ix2 (0 : Fin 1) o)).symm

/-- A block of window 8's array read back: row p of the block at point t is row 8 (t / 16) + p of the array. -/
theorem read_blk2_8 (G : S16x256.Idx → EReal) (t : Fin cfg2.N) (p : Fin 8) (o : Fin 256) (hp : t.val / 16 * 8 + p.val < 16) :
    (((cfg2.win 8).blk t).view.read (Elt Ideal) G : Vec Ideal S8x256 .f32) (ix2 p o) = G (ix2 ⟨t.val / 16 * 8 + p.val, hp⟩ o) := by
  show G (((cfg2.win 8).blk t).view.emb (ix2 p o)) = G _
  refine congrArg G ?_
  funext a; apply Fin.ext
  match a with
  | ⟨0, _⟩ => show win2_8.index t (0 : Fin 2) * 8 + 1 * p.val = t.val / 16 * 8 + p.val; rw [(idx2_8 t).1]; omega
  | ⟨1, _⟩ => show win2_8.index t (1 : Fin 2) * 256 + 1 * o.val = o.val; rw [(idx2_8 t).2]; omega

/-- Core g's sums as contents of window 8's array: rows 8 g … 8 g + 7 all hold them. -/
def G2_8 (c : Dev nD) : S16x256.Idx → EReal := fun j => ∑ r' : Fin 32768, RAW2 V c ⟨(j 0).val / 8 * 32768 + r'.val, by have := idx2_lt0 j; have := r'.isLt; omega⟩ (j 1) * RAW2 V c ⟨(j 0).val / 8 * 32768 + r'.val, by have := idx2_lt0 j; have := r'.isLt; omega⟩ (j 1)

theorem flushed2_8_eq (c : Dev nD) (t : Fin cfg2.N) (hf : (cfg2.win 8).flush t = true) :
    (dat2 V c).flushed 8 t = ((cfg2.win 8).blk t).view.read (Elt Ideal) (G2_8 V c) := by
  have h1 : t.val % 16 = 15 := (flush2_8 t).mp hf
  have hN := lt_N2 t
  show (cfg2.win 8).cut (grid2.coords t) ((dat2 V c).after 8 t) = _
  rw [after2_8]
  funext j
  obtain ⟨p, o, rfl⟩ : ∃ (p : Fin 8) (o : Fin 256), j = ix2 p o := ⟨j 0, j 1, eq_ix2 j⟩
  refine (outs2_8 V c t h1 p o).trans ?_
  refine (acc1_eq2 V c 0 o t.val t.isLt).trans ?_
  have e16 : t.val % 16 + 1 = 16 := by omega
  rw [e16]
  refine (core_tilesSq2 V c o (t.val / 16) (by omega)).trans ?_
  have hp : t.val / 16 * 8 + p.val < 16 := by have := p.isLt; omega
  refine Eq.trans ?_ (read_blk2_8 (G2_8 V c) t p o hp).symm
  unfold G2_8
  refine Finset.sum_congr rfl fun r' _ => ?_
  have e : RAW2 V c ⟨t.val / 16 * 32768 + r'.val, by have := r'.isLt; omega⟩ o
      = RAW2 V c ⟨(t.val / 16 * 8 + p.val) / 8 * 32768 + r'.val, by have := r'.isLt; omega⟩ o :=
    congrArg (fun q => RAW2 V c q o) (Fin.ext (by show t.val / 16 * 32768 + r'.val = (t.val / 16 * 8 + p.val) / 8 * 32768 + r'.val; omega))
  exact congrArg₂ (· * ·) e e

theorem mem_blk2_8 (t : Fin cfg2.N) (i : S16x256.Idx) :
    i ∈ ((cfg2.win 8).blk t).view.set ↔ ∀ a : Fin 2, win2_8.index t a * S8x256.size a ≤ (i a).val ∧ (i a).val < win2_8.index t a * S8x256.size a + S8x256.size a := by
  show i ∈ ((View.whole main_v62_2).slice (win2_8.rect t)).set ↔ _
  rw [View.set_slice_whole, Rect.mem_set_unit]
  exact Iff.rfl

/-- WINDOW 8 after the region: core g's sums in rows 8 g … 8 g + 7, every entry. -/
theorem final2_8 (c : Dev nD) : (dat2 V c).arrAt 8 cfg2.N = G2_8 V c :=
  (dat2 V c).arrAt_eq_of_cover 8 (G2_8 V c) (fun t hf => flushed2_8_eq V c t hf) fun i => by
    have hi0 : (i 0).val < 16 := (i 0).isLt
    have hi1 : (i 1).val < 256 := (i 1).isLt
    refine ⟨⟨(i 0).val / 8 * 16 + 15, by rw [show cfg2.N = 32 from N_2]; omega⟩, (flush2_8 _).mpr (by dsimp only; omega), ?_⟩
    rw [mem_blk2_8]
    intro a
    match a with
    | ⟨0, _⟩ => show win2_8.index _ (0 : Fin 2) * 8 ≤ (i 0).val ∧ (i 0).val < win2_8.index _ (0 : Fin 2) * 8 + 8; rw [(idx2_8 _).1]; dsimp only; omega
    | ⟨1, _⟩ => show win2_8.index _ (1 : Fin 2) * 256 ≤ (i 1).val ∧ (i 1).val < win2_8.index _ (1 : Fin 2) * 256 + 256; rw [(idx2_8 _).2]; omega

/-- The same entry by entry: row p belongs to core p / 8. -/
theorem value2_8 (c : Dev nD) (p : Fin 16) (o : Fin 256) :
    (dat2 V c).arrAt 8 cfg2.N (ix2 p o) = ∑ r' : Fin 32768, RAW2 V c ⟨p.val / 8 * 32768 + r'.val, by have := p.isLt; have := r'.isLt; omega⟩ o * RAW2 V c ⟨p.val / 8 * 32768 + r'.val, by have := p.isLt; have := r'.isLt; omega⟩ o :=
  congrFun (final2_8 V c) (ix2 p o)

end Cert.KernelIdeal.Hand

end
-- ==== Proof.KI.R3.ValuePieces.lean ====
/- Region 3: what the pieces the runs found say. In every control case output 6 is left holding the step's raw products (the matrix
   product of the signs of the normalised previous layer with the weights); an accumulator is left holding what it held (zero at a
   core's first point) plus the step's column sums, of the raw products for accumulator 0 and of their squares for accumulator 1; at
   a core's last point outputs 7 and 8 are left holding the accumulators laid along eight rows. -/
import proofs.«118595_j1726576853663_2_alg».proof.Proof.KI.R3.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_3 : (![0, 0] : Fin 2 → Nat) = fun _ => 0 := funext fun a => by fin_cases a <;> rfl

theorem out3_A_6_eq (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) :
    out3_A_6 c i arg2 harg2 arg3 harg3 arg4 harg4 arg5 harg5 arg6 harg6 arg7 harg7 arg8 harg8 arg9 harg9 arg10 harg10 arg11 harg11 arg12 harg12 hc0 hc1 x0 x1 x2 x3 x4 x5 = k3_pay7 x0 x2 x3 x1 x4 x5 := by
  unfold out3_A_6
  rw [View.read_writes_eq_canon _ _ _ (cover3_A_6 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun3_A
  dsimp only
  sl_unfold_words
  rw [View.canon_unit_zero hz2_3]
  simp only [View.readAt_eq_ld, harg2.read_unread, harg3.read_unread, harg4.read_unread, harg5.read_unread, harg6.read_unread, harg7.read_unread, View.ld_unit_zero (S := S2048x256) hz2_3, View.ld_unit_zero (S := S1x256) hz2_3, View.ld_unit_zero (S := S256x256) hz2_3]

theorem out3_B_6_eq (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    out3_B_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k3_pay7 x0 x2 x3 x1 x4 x5 := by
  unfold out3_B_6
  rw [View.read_writes_eq_canon _ _ _ (cover3_B_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun3_B
  dsimp only
  sl_unfold_words
  rw [View.canon_unit_zero hz2_3]
  simp only [View.readAt_eq_ld, harg2.read_unread, harg3.read_unread, harg4.read_unread, harg5.read_unread, harg6.read_unread, harg7.read_unread, View.ld_unit_zero (S := S2048x256) hz2_3, View.ld_unit_zero (S := S1x256) hz2_3, View.ld_unit_zero (S := S256x256) hz2_3]

theorem out3_C_6_eq (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    out3_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k3_pay7 x0 x2 x3 x1 x4 x5 := by
  unfold out3_C_6
  rw [View.read_writes_eq_canon _ _ _ (cover3_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun3_C
  dsimp only
  sl_unfold_words
  rw [View.canon_unit_zero hz2_3]
  simp only [View.readAt_eq_ld, harg2.read_unread, harg3.read_unread, harg4.read_unread, harg5.read_unread, harg6.read_unread, harg7.read_unread, View.ld_unit_zero (S := S2048x256) hz2_3, View.ld_unit_zero (S := S1x256) hz2_3, View.ld_unit_zero (S := S256x256) hz2_3]

theorem sout3_A_0_eq (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) :
    sout3_A_0 c i arg2 harg2 arg3 harg3 arg4 harg4 arg5 harg5 arg6 harg6 arg7 harg7 arg8 harg8 arg9 harg9 arg10 harg10 arg11 harg11 arg12 harg12 hc0 hc1 x0 x1 x2 x3 x4 x5 = k3_pay1 (k3_pay7 x0 x2 x3 x1 x4 x5) (k3_pay5 (F := F)) := by
  unfold sout3_A_0
  rw [View.read_writes_eq_canon _ _ _ (scover3_A_0 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun3_A
  dsimp only
  sl_unfold_words
  rw [View.canon_cons_unit_zero (S := S1x256) hz2_3, View.readCov_unit_zero (S := S1x256) _ hz2_3]
  simp only [View.readAt_eq_ld, harg2.read_unread, harg3.read_unread, harg4.read_unread, harg5.read_unread, harg6.read_unread, harg7.read_unread, View.ld_unit_zero (S := S2048x256) hz2_3, View.ld_unit_zero (S := S1x256) hz2_3, View.ld_unit_zero (S := S256x256) hz2_3]

theorem sout3_A_1_eq (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) :
    sout3_A_1 c i arg2 harg2 arg3 harg3 arg4 harg4 arg5 harg5 arg6 harg6 arg7 harg7 arg8 harg8 arg9 harg9 arg10 harg10 arg11 harg11 arg12 harg12 hc0 hc1 x0 x1 x2 x3 x4 x5 = k3_pay2 (k3_pay7 x0 x2 x3 x1 x4 x5) (k3_pay6 (F := F)) := by
  unfold sout3_A_1
  rw [View.read_writes_eq_canon _ _ _ (scover3_A_1 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun3_A
  dsimp only
  sl_unfold_words
  rw [View.canon_cons_unit_zero (S := S1x256) hz2_3, View.readCov_unit_zero (S := S1x256) _ hz2_3]
  simp only [View.readAt_eq_ld, harg2.read_unread, harg3.read_unread, harg4.read_unread, harg5.read_unread, harg6.read_unread, harg7.read_unread, View.ld_unit_zero (S := S2048x256) hz2_3, View.ld_unit_zero (S := S1x256) hz2_3, View.ld_unit_zero (S := S256x256) hz2_3]

theorem sout3_B_0_eq (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    sout3_B_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k3_pay1 (k3_pay7 x0 x2 x3 x1 x4 x5) xs0 := by
  unfold sout3_B_0
  rw [View.read_writes_eq_canon _ _ _ (scover3_B_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun3_B
  dsimp only
  sl_unfold_words
  rw [View.canon_unit_zero hz2_3]
  simp only [View.readAt_eq_ld, harg2.read_unread, harg3.read_unread, harg4.read_unread, harg5.read_unread, harg6.read_unread, harg7.read_unread, harg11.read_unread, View.ld_unit_zero (S := S2048x256) hz2_3, View.ld_unit_zero (S := S1x256) hz2_3, View.ld_unit_zero (S := S256x256) hz2_3]

theorem sout3_B_1_eq (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : ¬cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    sout3_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k3_pay2 (k3_pay7 x0 x2 x3 x1 x4 x5) xs1 := by
  unfold sout3_B_1
  rw [View.read_writes_eq_canon _ _ _ (scover3_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun3_B
  dsimp only
  sl_unfold_words
  rw [View.canon_unit_zero hz2_3]
  simp only [View.readAt_eq_ld, harg2.read_unread, harg3.read_unread, harg4.read_unread, harg5.read_unread, harg6.read_unread, harg7.read_unread, harg12.read_unread, View.ld_unit_zero (S := S2048x256) hz2_3, View.ld_unit_zero (S := S1x256) hz2_3, View.ld_unit_zero (S := S256x256) hz2_3]

theorem sout3_C_0_eq (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    sout3_C_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k3_pay1 (k3_pay7 x0 x2 x3 x1 x4 x5) xs0 := by
  unfold sout3_C_0
  rw [View.read_writes_eq_canon _ _ _ (scover3_C_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun3_C
  dsimp only
  sl_unfold_words
  rw [View.canon_unit_zero hz2_3]
  simp only [View.readAt_eq_ld, harg2.read_unread, harg3.read_unread, harg4.read_unread, harg5.read_unread, harg6.read_unread, harg7.read_unread, harg11.read_unread, View.ld_unit_zero (S := S2048x256) hz2_3, View.ld_unit_zero (S := S1x256) hz2_3, View.ld_unit_zero (S := S256x256) hz2_3]

theorem sout3_C_1_eq (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    sout3_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k3_pay2 (k3_pay7 x0 x2 x3 x1 x4 x5) xs1 := by
  unfold sout3_C_1
  rw [View.read_writes_eq_canon _ _ _ (scover3_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun3_C
  dsimp only
  sl_unfold_words
  rw [View.canon_unit_zero hz2_3]
  simp only [View.readAt_eq_ld, harg2.read_unread, harg3.read_unread, harg4.read_unread, harg5.read_unread, harg6.read_unread, harg7.read_unread, harg12.read_unread, View.ld_unit_zero (S := S2048x256) hz2_3, View.ld_unit_zero (S := S1x256) hz2_3, View.ld_unit_zero (S := S256x256) hz2_3]

theorem out3_C_7_eq (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    out3_C_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k3_pay3 (k3_pay1 (k3_pay7 x0 x2 x3 x1 x4 x5) xs0) := by
  unfold out3_C_7
  rw [View.read_writes_eq_canon _ _ _ (cover3_C_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun3_C
  dsimp only
  sl_unfold_words
  rw [View.canon_unit_zero hz2_3, View.readCov_unit_zero (S := S1x256) _ hz2_3]
  simp only [View.readAt_eq_ld, harg2.read_unread, harg3.read_unread, harg4.read_unread, harg5.read_unread, harg6.read_unread, harg7.read_unread, harg11.read_unread, View.ld_unit_zero (S := S2048x256) hz2_3, View.ld_unit_zero (S := S1x256) hz2_3, View.ld_unit_zero (S := S256x256) hz2_3]

theorem out3_C_8_eq (c : Dev nD) (i : grid3.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .bf16) (harg7 : arg7.IsWhole) (arg8 : Memref sig .tc .vmem S2048x256 .f32) (harg8 : arg8.IsWhole) (arg9 : Memref sig .tc .vmem S8x256 .f32) (harg9 : arg9.IsWhole) (arg10 : Memref sig .tc .vmem S8x256 .f32) (harg10 : arg10.IsWhole) (arg11 : Memref sig .tc .vmem S1x256 .f32) (harg11 : arg11.IsWhole) (arg12 : Memref sig .tc .vmem S1x256 .f32) (harg12 : arg12.IsWhole) (hc0 : ¬cond3_0 i) (hc1 : cond3_1 i)
    (x0 : Vec F S2048x256 .f32) (x1 : Vec F S1x256 .f32) (x2 : Vec F S1x256 .f32) (x3 : Vec F S1x256 .f32) (x4 : Vec F S1x256 .f32) (x5 : Vec F S256x256 .bf16) (xs0 : Vec F S1x256 .f32) (xs1 : Vec F S1x256 .f32) :
    out3_C_8 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k3_pay4 (k3_pay2 (k3_pay7 x0 x2 x3 x1 x4 x5) xs1) := by
  unfold out3_C_8
  rw [View.read_writes_eq_canon _ _ _ (cover3_C_8 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun3_C
  dsimp only
  sl_unfold_words
  rw [View.canon_unit_zero hz2_3, View.readCov_unit_zero (S := S1x256) _ hz2_3]
  simp only [View.readAt_eq_ld, harg2.read_unread, harg3.read_unread, harg4.read_unread, harg5.read_unread, harg6.read_unread, harg7.read_unread, harg12.read_unread, View.ld_unit_zero (S := S2048x256) hz2_3, View.ld_unit_zero (S := S1x256) hz2_3, View.ld_unit_zero (S := S256x256) hz2_3]

end Cert.KernelIdeal.Hand

end
-- ==== Proof.KI.R3.Pay.lean ====
/- Region 3, the body's arithmetic read entry by entry over the extended reals: a raw product entry is the sum over the
   256 features of the sign of the previous layer's normalised value times the weight, the normalised value being
   γ · (x − mean) · rsqrt (var + ε) + β; the accumulators gain the step's 2048 rows' column sums (of the raw products, and
   of their squares); the stored partial sums lay an accumulator along eight rows; the cleared accumulators are 0. -/
import proofs.«118595_j1726576853663_2_alg».proof.Proof.Gen.KernelIdeal.Skeleton
import proofs.«118595_j1726576853663_2_alg».proof.Proof.KI.GlueLib
import proofs.«118595_j1726576853663_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-- Selecting +1 where an entry is at least zero and −1 elsewhere is the sign function of the specification. -/
theorem k3_sgn_select (v : EReal) :
    Scalar.select (Ideal.cmp .oge v (Ideal.ofBits .f32 0x00000000#32)) (Ideal.ofBits .f32 0x3F800000#32) (Ideal.ofBits .f32 0xBF800000#32)
      = Spec.sgn v := by
  rw [Ideal.ofBits_zero_f32, Glue.ofBits_one_f32, Glue.ofBits_neg_one_f32]
  unfold Scalar.select Ideal.cmp Spec.sgn
  by_cases h : (0 : EReal) ≤ v
  · simp [h]
  · simp [h]

/-- The operand indices of the product at output entry (r, o) and feature i: row r of the activations at i, row o of
    the weights at i. -/
theorem k3_lhsIdx (r : Fin 2048) (o : Fin 256) (i : Fin 256) :
    dot_S2048x256_S256x256_S2048x256_1_1_0_0_n_n.lhsIdx (ix2 r o) ((contrEquiv1 dot_S2048x256_S256x256_S2048x256_1_1_0_0_n_n 256 rfl rfl).symm i) = ix2 r i :=
  funext fun a => Fin.ext (by match a with | ⟨0, _⟩ => rfl | ⟨1, _⟩ => rfl)
theorem k3_rhsIdx (r : Fin 2048) (o : Fin 256) (i : Fin 256) :
    dot_S2048x256_S256x256_S2048x256_1_1_0_0_n_n.rhsIdx (ix2 r o) ((contrEquiv1 dot_S2048x256_S256x256_S2048x256_1_1_0_0_n_n 256 rfl rfl).symm i) = ix2 o i :=
  funext fun a => Fin.ext (by match a with | ⟨0, _⟩ => rfl | ⟨1, _⟩ => rfl)

/-- One row of a [1, 256] array copied down 2048 rows reads, at (r, i), the row at (0, i). -/
theorem k3_bcast_rows (v : Vec Ideal S1x256 .f32) (r : Fin 2048) (i : Fin 256) :
    broadcastTo S2048x256 v broadcasts_S1x256_S2048x256 (ix2 r i) = v (ix2 (0 : Fin 1) i) := by
  refine broadcastTo_apply _ broadcasts_S1x256_S2048x256 (ix2 r i) (ix2 (0 : Fin 1) i) ?_
  intro a
  match a with
  | ⟨0, _⟩ => rfl
  | ⟨1, _⟩ => rfl

/-- The normalised value the body forms at (r, i): γ · (x − mean) · rsqrt (var + ε) + β, the four vectors read in row 0. -/
theorem k3_norm_apply (x : Vec Ideal S2048x256 .f32) (var gamma mean beta : Vec Ideal S1x256 .f32) (r : Fin 2048) (i : Fin 256) :
    gamma (ix2 (0 : Fin 1) i) * (x (ix2 r i) - mean (ix2 (0 : Fin 1) i))
        * Ideal.rsqrt (var (ix2 (0 : Fin 1) i) + Ideal.ofBits .f32 0x3727C5AC#32) + beta (ix2 (0 : Fin 1) i)
      = Spec.norm (fun i => gamma (ix2 (0 : Fin 1) i)) (fun i => beta (ix2 (0 : Fin 1) i)) (fun i => mean (ix2 (0 : Fin 1) i))
          (fun i => var (ix2 (0 : Fin 1) i)) (fun r i => x (ix2 r i)) r i := rfl

/-- A raw product entry: the sum over the features of the sign of the normalised previous value times the weight. -/
theorem k3_pay7_apply (x : Vec Ideal S2048x256 .f32) (var gamma mean beta : Vec Ideal S1x256 .f32) (wb : Vec Ideal S256x256 .bf16)
    (r : Fin 2048) (o : Fin 256) :
    k3_pay7 (F := Ideal) x var gamma mean beta wb (ix2 r o)
      = Spec.raw (fun r i => Spec.sgn (Spec.norm (fun i => gamma (ix2 (0 : Fin 1) i)) (fun i => beta (ix2 (0 : Fin 1) i))
          (fun i => mean (ix2 (0 : Fin 1) i)) (fun i => var (ix2 (0 : Fin 1) i)) (fun r i => x (ix2 r i)) r i))
          (fun o i => wb (ix2 o i)) r o := by
  unfold k3_pay7
  refine (Ideal.matmul_constant_zero_apply dot_S2048x256_S256x256_S2048x256_1_1_0_0_n_n none _ _ (ix2 r o)).trans ?_
  refine (Equiv.sum_comp (contrEquiv1 dot_S2048x256_S256x256_S2048x256_1_1_0_0_n_n 256 rfl rfl).symm _).symm.trans ?_
  unfold Spec.raw
  refine Finset.sum_congr rfl fun i _ => ?_
  beta_reduce
  rw [k3_lhsIdx r o i, k3_rhsIdx r o i]
  refine congrArg₂ (· * ·) ?_ ?_
  · refine (k3_sgn_select _).trans (congrArg Spec.sgn ?_)
    refine Eq.trans ?_ (k3_norm_apply x var gamma mean beta r i)
    refine congrArg₂ (· + ·) (congrArg₂ (· * ·) (congrArg₂ (· * ·) ?_ (congrArg₂ (· - ·) ?_ ?_)) ?_) ?_
    · exact (k3_bcast_rows _ r i).trans (congrFun (shapeCast_self gamma _) _)
    · exact congrFun (shapeCast_self x _) _
    · exact (k3_bcast_rows _ r i).trans (congrFun (shapeCast_self mean _) _)
    · refine (k3_bcast_rows _ r i).trans ?_
      exact congrArg (fun t => Ideal.rsqrt (t + Ideal.ofBits .f32 0x3727C5AC#32)) (congrFun (shapeCast_self var _) _)
    · exact (k3_bcast_rows _ r i).trans (congrFun (shapeCast_self beta _) _)
  · exact congrFun (shapeCast_self wb _) _

/-- The column-sum accumulator after a step: what it held plus the step's 2048 raw products in that column. -/
theorem k3_pay1_apply (raw : FVec Ideal S2048x256 .f32) (acc : Vec Ideal S1x256 .f32) (u : Fin 1) (o : Fin 256) :
    k3_pay1 (F := Ideal) raw acc (ix2 u o) = acc (ix2 u o) + ∑ r : Fin 2048, raw (ix2 r o) := by
  unfold k3_pay1
  refine (congrFun (shapeCast_self _ shapeCasts_S1x256_S1x256) (ix2 u o)).trans ?_
  refine congrArg (acc (ix2 u o) + ·) ?_
  refine (shapeCast_apply _ shapeCasts_S256_S1x256 (ix2 u o) (ix1 o) ?_).trans ?_
  · rw [Shape.rowMajor_val_one, Shape.rowMajor_val_two]
    show o.val = u.val * 256 + o.val
    have := u.isLt; omega
  refine (Ideal.multiReduction_add_single raw _ reduces_S2048x256_S256 _ _ (ix1 o)).trans ?_
  exact Finset.sum_congr rfl fun r _ => congrArg raw (Glue.lift_row reduces_S2048x256_S256 o r)

/-- The sum-of-squares accumulator after a step: what it held plus the squares of the step's raw products. -/
theorem k3_pay2_apply (raw : FVec Ideal S2048x256 .f32) (acc : Vec Ideal S1x256 .f32) (u : Fin 1) (o : Fin 256) :
    k3_pay2 (F := Ideal) raw acc (ix2 u o) = acc (ix2 u o) + ∑ r : Fin 2048, raw (ix2 r o) * raw (ix2 r o) := by
  unfold k3_pay2
  refine (congrFun (shapeCast_self _ shapeCasts_S1x256_S1x256) (ix2 u o)).trans ?_
  refine congrArg (acc (ix2 u o) + ·) ?_
  refine (shapeCast_apply _ shapeCasts_S256_S1x256 (ix2 u o) (ix1 o) ?_).trans ?_
  · rw [Shape.rowMajor_val_one, Shape.rowMajor_val_two]
    show o.val = u.val * 256 + o.val
    have := u.isLt; omega
  refine (Ideal.multiReduction_add_single (mulf raw raw) _ reduces_S2048x256_S256 _ _ (ix1 o)).trans ?_
  exact Finset.sum_congr rfl fun r _ => congrArg (fun j => raw j * raw j) (Glue.lift_row reduces_S2048x256_S256 o r)

/-- An accumulator laid along eight rows reads, in every row, the accumulator's entry of the column. -/
theorem k3_pay3_apply (v : Vec Ideal S1x256 .f32) (p : Fin 8) (o : Fin 256) :
    k3_pay3 (F := Ideal) v (ix2 p o) = v (ix2 (0 : Fin 1) o) := by
  unfold k3_pay3
  refine (broadcastTo_apply _ broadcasts_S1x256_S8x256 (ix2 p o) (ix2 (0 : Fin 1) o) ?_).trans ?_
  · intro a
    match a with
    | ⟨0, _⟩ => rfl
    | ⟨1, _⟩ => rfl
  exact congrFun (shapeCast_self v _) _
theorem k3_pay4_apply (v : Vec Ideal S1x256 .f32) (p : Fin 8) (o : Fin 256) :
    k3_pay4 (F := Ideal) v (ix2 p o) = v (ix2 (0 : Fin 1) o) := by
  unfold k3_pay4
  refine (broadcastTo_apply _ broadcasts_S1x256_S8x256 (ix2 p o) (ix2 (0 : Fin 1) o) ?_).trans ?_
  · intro a
    match a with
    | ⟨0, _⟩ => rfl
    | ⟨1, _⟩ => rfl
  exact congrFun (shapeCast_self v _) _

/-- The cleared accumulators. -/
theorem k3_pay5_apply (j : S1x256.Idx) : k3_pay5 (F := Ideal) j = 0 := by
  unfold k3_pay5
  refine (congrFun (shapeCast_self _ shapeCasts_S1x256_S1x256) j).trans ?_
  exact Ideal.ofBits_zero_f32
theorem k3_pay6_apply (j : S1x256.Idx) : k3_pay6 (F := Ideal) j = 0 := by
  unfold k3_pay6
  refine (congrFun (shapeCast_self _ shapeCasts_S1x256_S1x256) j).trans ?_
  exact Ideal.ofBits_zero_f32

end Cert.KernelIdeal.Hand

end
-- ==== Proof.KI.R3.ValueBlk.lean ====
/- Region 3 over the extended reals, the blocks: at grid point t the body reads rows 2048 t … 2048 t + 2047 of the previous layer's
   raw products, the whole of the four [1, 256] statistics and parameter rows and the whole weight matrix; the step's product is rows
   2048 t … of this layer's raw products: the sum over the 256 features of the sign of the normalised previous value times the weight. -/
import proofs.«118595_j1726576853663_2_alg».proof.Proof.KI.R3.ValuePieces
import proofs.«118595_j1726576853663_2_alg».proof.Proof.KI.R3.Pay

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the TensorCore's buffer contents when the region is entered, over the extended reals
variable (V : (c : Dev nD) → (b : Ref sig .tc) → Buf (Elt Ideal) ((c : Thread nD τ).loc b))

/-- The windows' arrays as the region finds them: the previous raw products, mean, variance, scale, shift, weights. -/
abbrev A3_0 (c : Dev nD) : S65536x256.Idx → EReal := V c (Pipeline.arrRef spec3 0)
abbrev A3_1 (c : Dev nD) : S1x256.Idx → EReal := V c (Pipeline.arrRef spec3 1)
abbrev A3_2 (c : Dev nD) : S1x256.Idx → EReal := V c (Pipeline.arrRef spec3 2)
abbrev A3_3 (c : Dev nD) : S1x256.Idx → EReal := V c (Pipeline.arrRef spec3 3)
abbrev A3_4 (c : Dev nD) : S1x256.Idx → EReal := V c (Pipeline.arrRef spec3 4)
abbrev A3_5 (c : Dev nD) : S256x256.Idx → EReal := V c (Pipeline.arrRef spec3 5)

/-- This layer's raw products: the signs of the normalised previous layer against the weights. -/
def RAW3 (c : Dev nD) : Fin 65536 → Fin 256 → EReal :=
  Spec.raw (fun r i => Spec.sgn (Spec.norm (fun i => A3_3 V c (ix2 (0 : Fin 1) i)) (fun i => A3_4 V c (ix2 (0 : Fin 1) i))
      (fun i => A3_1 V c (ix2 (0 : Fin 1) i)) (fun i => A3_2 V c (ix2 (0 : Fin 1) i)) (fun r i => A3_0 V c (ix2 r i)) r i))
    (fun o i => A3_5 V c (ix2 o i))

/-! ## The printed index maps, decided over the grid -/

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = 0 ∧ win3_1.index t (1 : Fin 2) = 0 :=
  (by decide +kernel : ∀ t : Fin grid3.N, _)
theorem idx3_2 : ∀ t : Fin cfg3.N, win3_2.index t (0 : Fin 2) = 0 ∧ win3_2.index t (1 : Fin 2) = 0 :=
  (by decide +kernel : ∀ t : Fin grid3.N, _)
theorem idx3_3 : ∀ t : Fin cfg3.N, win3_3.index t (0 : Fin 2) = 0 ∧ win3_3.index t (1 : Fin 2) = 0 :=
  (by decide +kernel : ∀ t : Fin grid3.N, _)
theorem idx3_4 : ∀ t : Fin cfg3.N, win3_4.index t (0 : Fin 2) = 0 ∧ win3_4.index t (1 : Fin 2) = 0 :=
  (by decide +kernel : ∀ t : Fin grid3.N, _)
theorem idx3_5 : ∀ t : Fin cfg3.N, win3_5.index t (0 : Fin 2) = 0 ∧ win3_5.index t (1 : Fin 2) = 0 :=
  (by decide +kernel : ∀ t : Fin grid3.N, _)
theorem idx3_6 : ∀ t : Fin cfg3.N, win3_6.index t (0 : Fin 2) = t.val ∧ win3_6.index t (1 : Fin 2) = 0 :=
  (by decide +kernel : ∀ t : Fin grid3.N, _)
theorem idx3_7 : ∀ t : Fin cfg3.N, win3_7.index t (0 : Fin 2) = t.val / 16 ∧ win3_7.index t (1 : Fin 2) = 0 :=
  (by decide +kernel : ∀ t : Fin grid3.N, _)
theorem idx3_8 : ∀ t : Fin cfg3.N, win3_8.index t (0 : Fin 2) = t.val / 16 ∧ win3_8.index t (1 : Fin 2) = 0 :=
  (by decide +kernel : ∀ t : Fin grid3.N, _)

theorem lt_N3 (t : Fin cfg3.N) : t.val < 32 := lt_of_lt_of_eq t.isLt (show cfg3.N = 32 from N_3)

/-! ## The input blocks -/

/-- Row r of the input block at point t is row 2048 t + r of the previous raw products. -/
theorem iblk3_0_apply (c : Dev nD) (t : Fin cfg3.N) (r : Fin 2048) (i : Fin 256) (hr : 2048 * t.val + r.val < 65536) :
    (iblk3 V c 0 t : Vec Ideal S2048x256 .f32) (ix2 r i) = A3_0 V c (ix2 ⟨2048 * t.val + r.val, hr⟩ i) := by
  show V c (Pipeline.arrRef spec3 0) (((cfg3.win 0).blk t).view.emb (ix2 r i)) = V c (Pipeline.arrRef spec3 0) _
  refine congrArg (V c (Pipeline.arrRef spec3 0)) ?_
  funext a; apply Fin.ext
  match a with
  | ⟨0, _⟩ => show win3_0.index t (0 : Fin 2) * 2048 + 1 * r.val = 2048 * t.val + r.val; rw [(idx3_0 t).1]; omega
  | ⟨1, _⟩ => show win3_0.index t (1 : Fin 2) * 256 + 1 * i.val = i.val; rw [(idx3_0 t).2]; omega

/-- The blocks of the statistics and parameter rows are the whole rows, at every point. -/
theorem iblk3_1_apply (c : Dev nD) (t : Fin cfg3.N) (u : Fin 1) (i : Fin 256) :
    (iblk3 V c 1 t : Vec Ideal S1x256 .f32) (ix2 u i) = A3_1 V c (ix2 u i) := by
  show V c (Pipeline.arrRef spec3 1) (((cfg3.win 1).blk t).view.emb (ix2 u i)) = V c (Pipeline.arrRef spec3 1) _
  refine congrArg (V c (Pipeline.arrRef spec3 1)) ?_
  funext a; apply Fin.ext
  match a with
  | ⟨0, _⟩ => show win3_1.index t (0 : Fin 2) * 1 + 1 * u.val = u.val; rw [(idx3_1 t).1]; omega
  | ⟨1, _⟩ => show win3_1.index t (1 : Fin 2) * 256 + 1 * i.val = i.val; rw [(idx3_1 t).2]; omega
theorem iblk3_2_apply (c : Dev nD) (t : Fin cfg3.N) (u : Fin 1) (i : Fin 256) :
    (iblk3 V c 2 t : Vec Ideal S1x256 .f32) (ix2 u i) = A3_2 V c (ix2 u i) := by
  show V c (Pipeline.arrRef spec3 2) (((cfg3.win 2).blk t).view.emb (ix2 u i)) = V c (Pipeline.arrRef spec3 2) _
  refine congrArg (V c (Pipeline.arrRef spec3 2)) ?_
  funext a; apply Fin.ext
  match a with
  | ⟨0, _⟩ => show win3_2.index t (0 : Fin 2) * 1 + 1 * u.val = u.val; rw [(idx3_2 t).1]; omega
  | ⟨1, _⟩ => show win3_2.index t (1 : Fin 2) * 256 + 1 * i.val = i.val; rw [(idx3_2 t).2]; omega
theorem iblk3_3_apply (c : Dev nD) (t : Fin cfg3.N) (u : Fin 1) (i : Fin 256) :
    (iblk3 V c 3 t : Vec Ideal S1x256 .f32) (ix2 u i) = A3_3 V c (ix2 u i) := by
  show V c (Pipeline.arrRef spec3 3) (((cfg3.win 3).blk t).view.emb (ix2 u i)) = V c (Pipeline.arrRef spec3 3) _
  refine congrArg (V c (Pipeline.arrRef spec3 3)) ?_
  funext a; apply Fin.ext
  match a with
  | ⟨0, _⟩ => show win3_3.index t (0 : Fin 2) * 1 + 1 * u.val = u.val; rw [(idx3_3 t).1]; omega
  | ⟨1, _⟩ => show win3_3.index t (1 : Fin 2) * 256 + 1 * i.val = i.val; rw [(idx3_3 t).2]; omega
theorem iblk3_4_apply (c : Dev nD) (t : Fin cfg3.N) (u : Fin 1) (i : Fin 256) :
    (iblk3 V c 4 t : Vec Ideal S1x256 .f32) (ix2 u i) = A3_4 V c (ix2 u i) := by
  show V c (Pipeline.arrRef spec3 4) (((cfg3.win 4).blk t).view.emb (ix2 u i)) = V c (Pipeline.arrRef spec3 4) _
  refine congrArg (V c (Pipeline.arrRef spec3 4)) ?_
  funext a; apply Fin.ext
  match a with
  | ⟨0, _⟩ => show win3_4.index t (0 : Fin 2) * 1 + 1 * u.val = u.val; rw [(idx3_4 t).1]; omega
  | ⟨1, _⟩ => show win3_4.index t (1 : Fin 2) * 256 + 1 * i.val = i.val; rw [(idx3_4 t).2]; omega

/-- The weights' block is the whole weight matrix, at every point. -/
theorem iblk3_5_apply (c : Dev nD) (t : Fin cfg3.N) (o : Fin 256) (i : Fin 256) :
    (iblk3 V c 5 t : Vec Ideal S256x256 .bf16) (ix2 o i) = A3_5 V c (ix2 o i) := by
  show V c (Pipeline.arrRef spec3 5) (((cfg3.win 5).blk t).view.emb (ix2 o i)) = V c (Pipeline.arrRef spec3 5) _
  refine congrArg (V c (Pipeline.arrRef spec3 5)) ?_
  funext a; apply Fin.ext
  match a with
  | ⟨0, _⟩ => show win3_5.index t (0 : Fin 2) * 256 + 1 * o.val = o.val; rw [(idx3_5 t).1]; omega
  | ⟨1, _⟩ => show win3_5.index t (1 : Fin 2) * 256 + 1 * i.val = i.val; rw [(idx3_5 t).2]; omega

/-- The normalised value depends on its five arguments only through their entries at the column and the row read. -/
theorem norm_congr3 {M M' : ℕ} (γ γ' β β' μ μ' v v' : Fin 256 → EReal) (x : Fin M → Fin 256 → EReal) (x' : Fin M' → Fin 256 → EReal)
    (r : Fin M) (r' : Fin M') (i : Fin 256) (hγ : γ i = γ' i) (hβ : β i = β' i) (hμ : μ i = μ' i) (hv : v i = v' i) (hx : x r i = x' r' i) :
    Spec.norm γ β μ v x r i = Spec.norm γ' β' μ' v' x' r' i := by
  unfold Spec.norm; rw [hγ, hβ, hμ, hv, hx]

/-- The step's product at point t: rows 2048 t … of this layer's raw products. -/
theorem pay7_blk3 (c : Dev nD) (t : Fin cfg3.N) (r : Fin 2048) (o : Fin 256) (hr : 2048 * t.val + r.val < 65536) :
    k3_pay7 (F := Ideal) (iblk3 V c 0 t) (iblk3 V c 2 t) (iblk3 V c 3 t) (iblk3 V c 1 t) (iblk3 V c 4 t) (iblk3 V c 5 t) (ix2 r o) = RAW3 V c ⟨2048 * t.val + r.val, hr⟩ o := by
  refine (k3_pay7_apply (iblk3 V c 0 t) (iblk3 V c 2 t) (iblk3 V c 3 t) (iblk3 V c 1 t) (iblk3 V c 4 t) (iblk3 V c 5 t) r o).trans ?_
  unfold RAW3 Spec.raw
  refine Finset.sum_congr rfl fun i _ => ?_
  refine congrArg₂ (· * ·) (congrArg Spec.sgn ?_) (iblk3_5_apply V c t o i)
  exact norm_congr3 _ _ _ _ _ _ _ _ _ _ r ⟨2048 * t.val + r.val, hr⟩ i (iblk3_3_apply V c t 0 i) (iblk3_4_apply V c t 0 i)
    (iblk3_1_apply V c t 0 i) (iblk3_2_apply V c t 0 i) (iblk3_0_apply V c t r i hr)

end Cert.KernelIdeal.Hand

end
-- ==== Proof.KI.R3.ValueRaw.lean ====
/- Region 3 over the extended reals, the raw output: after grid point t its staging buffer holds rows 2048 t … 2048 t + 2047 of
   this layer's raw products, which the point writes back; the 32 points cover all 65536 rows. -/
import proofs.«118595_j1726576853663_2_alg».proof.Proof.KI.R3.ValueBlk

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the TensorCore's buffer contents when the region is entered, over the extended reals
variable (V : (c : Dev nD) → (b : Ref sig .tc) → Buf (Elt Ideal) ((c : Thread nD τ).loc b))

/-! ## What the raw output's staging buffer holds after point t -/

set_option maxHeartbeats 1000000 in
theorem outs3_6 (c : Dev nD) (t : Fin cfg3.N) : (outsAt3 V c t.val t.isLt).1 = k3_pay7 (F := Ideal) (iblk3 V c 0 t) (iblk3 V c 2 t) (iblk3 V c 3 t) (iblk3 V c 1 t) (iblk3 V c 4 t) (iblk3 V c 5 t) := by
  by_cases h0 : t.val % 16 = 0
  · have h1 : ¬t.val % 16 = 15 := by omega
    rw [outsAt3_A V c t h0 h1]
    dsimp only
    exact out3_A_6_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)
  · by_cases h1 : t.val % 16 = 15
    · rw [outsAt3_C V c t h0 h1]
      dsimp only
      exact out3_C_6_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2
    · rw [outsAt3_B V c t h0 h1]
      dsimp only
      exact out3_B_6_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2

/-! ## From the blocks to the array -/

/-- This layer's raw products as contents of the raw output's array. -/
def G3_6 (c : Dev nD) : S65536x256.Idx → EReal := fun j => RAW3 V c (j 0) (j 1)

theorem flushed3_6_eq (c : Dev nD) (t : Fin cfg3.N) :
    (dat3 V c).flushed 6 t = ((cfg3.win 6).blk t).view.read (Elt Ideal) (G3_6 V c) := by
  show (cfg3.win 6).cut (grid3.coords t) ((dat3 V c).after 6 t) = _
  rw [after3_6, outs3_6]
  funext j
  obtain ⟨r, o, rfl⟩ : ∃ (r : Fin 2048) (o : Fin 256), j = ix2 r o := ⟨j 0, j 1, eq_ix2 j⟩
  have hN := lt_N3 t
  have hr : 2048 * t.val + r.val < 65536 := by have := r.isLt; omega
  refine (pay7_blk3 V c t r o hr).trans ?_
  show RAW3 V c _ _ = G3_6 V c (((cfg3.win 6).blk t).view.emb (ix2 r o))
  unfold G3_6
  refine congrArg₂ (RAW3 V c) (Fin.ext ?_) (Fin.ext ?_)
  · show 2048 * t.val + r.val = win3_6.index t (0 : Fin 2) * 2048 + 1 * r.val; rw [(idx3_6 t).1]; omega
  · show o.val = win3_6.index t (1 : Fin 2) * 256 + 1 * o.val; rw [(idx3_6 t).2]; omega

theorem mem_blk3_6 (t : Fin cfg3.N) (i : S65536x256.Idx) :
    i ∈ ((cfg3.win 6).blk t).view.set ↔ ∀ a : Fin 2, win3_6.index t a * S2048x256.size a ≤ (i a).val ∧ (i a).val < win3_6.index t a * S2048x256.size a + S2048x256.size a := by
  show i ∈ ((View.whole main_v83_0).slice (win3_6.rect t)).set ↔ _
  rw [View.set_slice_whole, Rect.mem_set_unit]
  exact Iff.rfl

/-- THE RAW OUTPUT after the region: this layer's raw products, every entry. -/
theorem final3_6 (c : Dev nD) : (dat3 V c).arrAt 6 cfg3.N = G3_6 V c :=
  (dat3 V c).arrAt_eq_of_cover 6 (G3_6 V c) (fun t _ => flushed3_6_eq V c t) fun i => by
    have hi0 : (i 0).val < 65536 := (i 0).isLt
    have hi1 : (i 1).val < 256 := (i 1).isLt
    refine ⟨⟨(i 0).val / 2048, by rw [show cfg3.N = 32 from N_3]; omega⟩, flush3_6 _, ?_⟩
    rw [mem_blk3_6]
    intro a
    match a with
    | ⟨0, _⟩ => show win3_6.index _ (0 : Fin 2) * 2048 ≤ (i 0).val ∧ (i 0).val < win3_6.index _ (0 : Fin 2) * 2048 + 2048; rw [(idx3_6 _).1]; dsimp only; omega
    | ⟨1, _⟩ => show win3_6.index _ (1 : Fin 2) * 256 ≤ (i 1).val ∧ (i 1).val < win3_6.index _ (1 : Fin 2) * 256 + 256; rw [(idx3_6 _).2]; omega

/-- The same entry by entry. -/
theorem value3_6 (c : Dev nD) (r : Fin 65536) (o : Fin 256) :
    (dat3 V c).arrAt 6 cfg3.N (ix2 r o) = RAW3 V c r o :=
  congrFun (final3_6 V c) (ix2 r o)

end Cert.KernelIdeal.Hand

end
-- ==== Proof.KI.R3.ValueAcc.lean ====
/- Region 3 over the extended reals, the two accumulators. After grid point t the column-sum accumulator holds the sum of this layer's
   raw products' columns over the rows of the tiles 16 (t / 16) … t of the point's core (it is zeroed at a core's first step), the other
   accumulator the same for the squares. -/
import proofs.«118595_j1726576853663_2_alg».proof.Proof.KI.R3.ValueRaw
import proofs.«118595_j1726576853663_2_alg».proof.Proof.KI.LibRestart
import proofs.«118595_j1726576853663_2_alg».proof.Proof.LibTileSum

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the TensorCore's buffer contents when the region is entered, over the extended reals
variable (V : (c : Dev nD) → (b : Ref sig .tc) → Buf (Elt Ideal) ((c : Thread nD τ).loc b))

/-- Tile k's column sums: rows 2048 k … 2048 k + 2047 of the raw products (nothing beyond the 32 tiles). -/
def tile3 (c : Dev nD) (o : Fin 256) (k : ℕ) : EReal :=
  if h : k < 32 then ∑ r : Fin 2048, RAW3 V c ⟨2048 * k + r.val, by have := r.isLt; omega⟩ o else 0
/-- The same for the squares. -/
def tileSq3 (c : Dev nD) (o : Fin 256) (k : ℕ) : EReal :=
  if h : k < 32 then ∑ r : Fin 2048, RAW3 V c ⟨2048 * k + r.val, by have := r.isLt; omega⟩ o * RAW3 V c ⟨2048 * k + r.val, by have := r.isLt; omega⟩ o else 0

/-- One step of the column-sum accumulator at point t: the tile's column sums are added. -/
theorem step3_pay1 (c : Dev nD) (t : Fin cfg3.N) (acc : Vec Ideal S1x256 .f32) (u : Fin 1) (o : Fin 256) :
    k3_pay1 (F := Ideal) (k3_pay7 (F := Ideal) (iblk3 V c 0 t) (iblk3 V c 2 t) (iblk3 V c 3 t) (iblk3 V c 1 t) (iblk3 V c 4 t) (iblk3 V c 5 t)) acc (ix2 u o) = acc (ix2 u o) + tile3 V c o t.val := by
  refine (k3_pay1_apply _ acc u o).trans ?_
  refine congrArg (acc (ix2 u o) + ·) ?_
  unfold tile3; rw [dif_pos (lt_N3 t)]
  exact Finset.sum_congr rfl fun r _ => pay7_blk3 V c t r o _
theorem step3_pay2 (c : Dev nD) (t : Fin cfg3.N) (acc : Vec Ideal S1x256 .f32) (u : Fin 1) (o : Fin 256) :
    k3_pay2 (F := Ideal) (k3_pay7 (F := Ideal) (iblk3 V c 0 t) (iblk3 V c 2 t) (iblk3 V c 3 t) (iblk3 V c 1 t) (iblk3 V c 4 t) (iblk3 V c 5 t)) acc (ix2 u o) = acc (ix2 u o) + tileSq3 V c o t.val := by
  refine (k3_pay2_apply _ acc u o).trans ?_
  refine congrArg (acc (ix2 u o) + ·) ?_
  unfold tileSq3; rw [dif_pos (lt_N3 t)]
  exact Finset.sum_congr rfl fun r _ => congrArg₂ (· * ·) (pay7_blk3 V c t r o _) (pay7_blk3 V c t r o _)

/-! ## The accumulators point by point -/

set_option maxHeartbeats 1000000 in
/-- At a core's first step accumulator 0 is the first tile's sums (from zero). -/
theorem acc0_first3 (c : Dev nD) (t : Fin cfg3.N) (h0 : t.val % 16 = 0) (u : Fin 1) (o : Fin 256) :
    (outsAt3 V c t.val t.isLt).2.2.2.1 (ix2 u o) = 0 + tile3 V c o t.val := by
  have h1 : ¬t.val % 16 = 15 := by omega
  rw [outsAt3_A V c t h0 h1]
  dsimp only
  refine (congrFun (sout3_A_0_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)) (ix2 u o)).trans ?_
  refine (step3_pay1 V c t _ u o).trans ?_
  rw [k3_pay5_apply]

set_option maxHeartbeats 1000000 in
/-- At any later step the tile's sums are added to what the step before left. -/
theorem acc0_next3 (c : Dev nD) (t : Fin cfg3.N) (h0 : ¬t.val % 16 = 0) (u : Fin 1) (o : Fin 256) :
    (outsAt3 V c t.val t.isLt).2.2.2.1 (ix2 u o) = (outsAt3 V c (t.val - 1) (Nat.lt_of_le_of_lt (Nat.sub_le _ _) t.isLt)).2.2.2.1 (ix2 u o) + tile3 V c o t.val := by
  by_cases h1 : t.val % 16 = 15
  · rw [outsAt3_C V c t h0 h1]
    dsimp only
    refine (congrFun (sout3_C_0_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) (ix2 u o)).trans ?_
    exact step3_pay1 V c t _ u o
  · rw [outsAt3_B V c t h0 h1]
    dsimp only
    refine (congrFun (sout3_B_0_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) (ix2 u o)).trans ?_
    exact step3_pay1 V c t _ u o

set_option maxHeartbeats 1000000 in
/-- At a core's first step accumulator 1 is the first tile's sums (from zero). -/
theorem acc1_first3 (c : Dev nD) (t : Fin cfg3.N) (h0 : t.val % 16 = 0) (u : Fin 1) (o : Fin 256) :
    (outsAt3 V c t.val t.isLt).2.2.2.2 (ix2 u o) = 0 + tileSq3 V c o t.val := by
  have h1 : ¬t.val % 16 = 15 := by omega
  rw [outsAt3_A V c t h0 h1]
  dsimp only
  refine (congrFun (sout3_A_1_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)) (ix2 u o)).trans ?_
  refine (step3_pay2 V c t _ u o).trans ?_
  rw [k3_pay6_apply]

set_option maxHeartbeats 1000000 in
/-- At any later step the tile's sums are added to what the step before left. -/
theorem acc1_next3 (c : Dev nD) (t : Fin cfg3.N) (h0 : ¬t.val % 16 = 0) (u : Fin 1) (o : Fin 256) :
    (outsAt3 V c t.val t.isLt).2.2.2.2 (ix2 u o) = (outsAt3 V c (t.val - 1) (Nat.lt_of_le_of_lt (Nat.sub_le _ _) t.isLt)).2.2.2.2 (ix2 u o) + tileSq3 V c o t.val := by
  by_cases h1 : t.val % 16 = 15
  · rw [outsAt3_C V c t h0 h1]
    dsimp only
    refine (congrFun (sout3_C_1_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) (ix2 u o)).trans ?_
    exact step3_pay2 V c t _ u o
  · rw [outsAt3_B V c t h0 h1]
    dsimp only
    refine (congrFun (sout3_B_1_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) (ix2 u o)).trans ?_
    exact step3_pay2 V c t _ u o

/-! ## The accumulators in closed form: by induction on the point -/

/-- Accumulator 0 after point n: the tiles 16 (n / 16) … n of the point's core. -/
theorem acc0_eq3 (c : Dev nD) (u : Fin 1) (o : Fin 256) (n : ℕ) (h : n < cfg3.N) :
    (outsAt3 V c n h).2.2.2.1 (ix2 u o) = ∑ k ∈ Finset.range (n % 16 + 1), tile3 V c o (16 * (n / 16) + k) := by
  have key := Cert.LibRestart.restart_sum16 (fun n => if h : n < cfg3.N then (outsAt3 V c n h).2.2.2.1 (ix2 u o) else 0) (tile3 V c o) cfg3.N
    (fun n hn h0 => by beta_reduce; rw [dif_pos hn]; exact acc0_first3 V c ⟨n, hn⟩ h0 u o)
    (fun n hn h0 => by
      beta_reduce
      rw [dif_pos hn, dif_pos (show n - 1 < cfg3.N by omega)]
      exact acc0_next3 V c ⟨n, hn⟩ h0 u o) n h
  beta_reduce at key
  rw [dif_pos h] at key
  exact key

/-- Accumulator 1 after point n: the tiles 16 (n / 16) … n of the point's core. -/
theorem acc1_eq3 (c : Dev nD) (u : Fin 1) (o : Fin 256) (n : ℕ) (h : n < cfg3.N) :
    (outsAt3 V c n h).2.2.2.2 (ix2 u o) = ∑ k ∈ Finset.range (n % 16 + 1), tileSq3 V c o (16 * (n / 16) + k) := by
  have key := Cert.LibRestart.restart_sum16 (fun n => if h : n < cfg3.N then (outsAt3 V c n h).2.2.2.2 (ix2 u o) else 0) (tileSq3 V c o) cfg3.N
    (fun n hn h0 => by beta_reduce; rw [dif_pos hn]; exact acc1_first3 V c ⟨n, hn⟩ h0 u o)
    (fun n hn h0 => by
      beta_reduce
      rw [dif_pos hn, dif_pos (show n - 1 < cfg3.N by omega)]
      exact acc1_next3 V c ⟨n, hn⟩ h0 u o) n h
  beta_reduce at key
  rw [dif_pos h] at key
  exact key

/-- A core's sixteen tiles are its 32768 rows. -/
theorem core_tiles3 (c : Dev nD) (o : Fin 256) (g : ℕ) (hg : g < 2) :
    ∑ k ∈ Finset.range 16, tile3 V c o (16 * g + k)
      = ∑ r' : Fin 32768, RAW3 V c ⟨g * 32768 + r'.val, by have := r'.isLt; omega⟩ o := by
  rw [Finset.sum_range, Cert.LibTileSum.sum_tiles_of_eq (N := 32768) (T := 16) (B := 2048) rfl]
  refine Finset.sum_congr rfl fun k _ => ?_
  unfold tile3; rw [dif_pos (by have := k.isLt; omega)]
  refine Finset.sum_congr rfl fun r _ => ?_
  have e : (⟨2048 * (16 * g + k.val) + r.val, by have := k.isLt; have := r.isLt; omega⟩ : Fin 65536)
      = ⟨g * 32768 + (2048 * k.val + r.val), by have := k.isLt; have := r.isLt; omega⟩ := Fin.ext (by show 2048 * (16 * g + k.val) + r.val = g * 32768 + (2048 * k.val + r.val); omega)
  exact congrArg (fun q => RAW3 V c q o) e
theorem core_tilesSq3 (c : Dev nD) (o : Fin 256) (g : ℕ) (hg : g < 2) :
    ∑ k ∈ Finset.range 16, tileSq3 V c o (16 * g + k)
      = ∑ r' : Fin 32768, RAW3 V c ⟨g * 32768 + r'.val, by have := r'.isLt; omega⟩ o * RAW3 V c ⟨g * 32768 + r'.val, by have := r'.isLt; omega⟩ o := by
  rw [Finset.sum_range, Cert.LibTileSum.sum_tiles_of_eq (N := 32768) (T := 16) (B := 2048) rfl]
  refine Finset.sum_congr rfl fun k _ => ?_
  unfold tileSq3; rw [dif_pos (by have := k.isLt; omega)]
  refine Finset.sum_congr rfl fun r _ => ?_
  have e : (⟨2048 * (16 * g + k.val) + r.val, by have := k.isLt; have := r.isLt; omega⟩ : Fin 65536)
      = ⟨g * 32768 + (2048 * k.val + r.val), by have := k.isLt; have := r.isLt; omega⟩ := Fin.ext (by show 2048 * (16 * g + k.val) + r.val = g * 32768 + (2048 * k.val + r.val); omega)
  exact congrArg (fun q => RAW3 V c q o * RAW3 V c q o) e

end Cert.KernelIdeal.Hand

end
-- ==== Proof.KI.R3.ValueSums.lean ====
/- Region 3 over the extended reals, the two partial-sum outputs. At a core's last step the accumulators are stored along the eight
   rows of the core's block of windows 7 and 8, which that point writes back: rows 8 g … 8 g + 7 of window 7 end holding the column sums
   of this layer's raw products over core g's 32768 rows, and of window 8 the column sums of their squares. -/
import proofs.«118595_j1726576853663_2_alg».proof.Proof.KI.R3.ValueAcc

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the TensorCore's buffer contents when the region is entered, over the extended reals
variable (V : (c : Dev nD) → (b : Ref sig .tc) → Buf (Elt Ideal) ((c : Thread nD τ).loc b))

set_option maxHeartbeats 1000000 in
/-- At a core's last step window 7's staging buffer holds accumulator 0 in each of its eight rows. -/
theorem outs3_7 (c : Dev nD) (t : Fin cfg3.N) (h1 : t.val % 16 = 15) (p : Fin 8) (o : Fin 256) :
    (outsAt3 V c t.val t.isLt).2.1 (ix2 p o) = (outsAt3 V c t.val t.isLt).2.2.2.1 (ix2 (0 : Fin 1) o) := by
  have h0 : ¬t.val % 16 = 0 := by omega
  rw [outsAt3_C V c t h0 h1]
  dsimp only
  refine (congrFun (out3_C_7_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) (ix2 p o)).trans ?_
  refine (k3_pay3_apply _ p o).trans ?_
  exact (congrFun (sout3_C_0_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) (ix2 (0 : Fin 1) o)).symm

/-- A block of window 7's array read back: row p of the block at point t is row 8 (t / 16) + p of the array. -/
theorem read_blk3_7 (G : S16x256.Idx → EReal) (t : Fin cfg3.N) (p : Fin 8) (o : Fin 256) (hp : t.val / 16 * 8 + p.val < 16) :
    (((cfg3.win 7).blk t).view.read (Elt Ideal) G : Vec Ideal S8x256 .f32) (ix2 p o) = G (ix2 ⟨t.val / 16 * 8 + p.val, hp⟩ o) := by
  show G (((cfg3.win 7).blk t).view.emb (ix2 p o)) = G _
  refine congrArg G ?_
  funext a; apply Fin.ext
  match a with
  | ⟨0, _⟩ => show win3_7.index t (0 : Fin 2) * 8 + 1 * p.val = t.val / 16 * 8 + p.val; rw [(idx3_7 t).1]; omega
  | ⟨1, _⟩ => show win3_7.index t (1 : Fin 2) * 256 + 1 * o.val = o.val; rw [(idx3_7 t).2]; omega

/-- Core g's sums as contents of window 7's array: rows 8 g … 8 g + 7 all hold them. -/
def G3_7 (c : Dev nD) : S16x256.Idx → EReal := fun j => ∑ r' : Fin 32768, RAW3 V c ⟨(j 0).val / 8 * 32768 + r'.val, by have := idx2_lt0 j; have := r'.isLt; omega⟩ (j 1)

theorem flushed3_7_eq (c : Dev nD) (t : Fin cfg3.N) (hf : (cfg3.win 7).flush t = true) :
    (dat3 V c).flushed 7 t = ((cfg3.win 7).blk t).view.read (Elt Ideal) (G3_7 V c) := by
  have h1 : t.val % 16 = 15 := (flush3_7 t).mp hf
  have hN := lt_N3 t
  show (cfg3.win 7).cut (grid3.coords t) ((dat3 V c).after 7 t) = _
  rw [after3_7]
  funext j
  obtain ⟨p, o, rfl⟩ : ∃ (p : Fin 8) (o : Fin 256), j = ix2 p o := ⟨j 0, j 1, eq_ix2 j⟩
  refine (outs3_7 V c t h1 p o).trans ?_
  refine (acc0_eq3 V c 0 o t.val t.isLt).trans ?_
  have e16 : t.val % 16 + 1 = 16 := by omega
  rw [e16]
  refine (core_tiles3 V c o (t.val / 16) (by omega)).trans ?_
  have hp : t.val / 16 * 8 + p.val < 16 := by have := p.isLt; omega
  refine Eq.trans ?_ (read_blk3_7 (G3_7 V c) t p o hp).symm
  unfold G3_7
  refine Finset.sum_congr rfl fun r' _ => ?_
  have e : RAW3 V c ⟨t.val / 16 * 32768 + r'.val, by have := r'.isLt; omega⟩ o
      = RAW3 V c ⟨(t.val / 16 * 8 + p.val) / 8 * 32768 + r'.val, by have := r'.isLt; omega⟩ o :=
    congrArg (fun q => RAW3 V c q o) (Fin.ext (by show t.val / 16 * 32768 + r'.val = (t.val / 16 * 8 + p.val) / 8 * 32768 + r'.val; omega))
  exact e

theorem mem_blk3_7 (t : Fin cfg3.N) (i : S16x256.Idx) :
    i ∈ ((cfg3.win 7).blk t).view.set ↔ ∀ a : Fin 2, win3_7.index t a * S8x256.size a ≤ (i a).val ∧ (i a).val < win3_7.index t a * S8x256.size a + S8x256.size a := by
  show i ∈ ((View.whole main_v83_1).slice (win3_7.rect t)).set ↔ _
  rw [View.set_slice_whole, Rect.mem_set_unit]
  exact Iff.rfl

/-- WINDOW 7 after the region: core g's sums in rows 8 g … 8 g + 7, every entry. -/
theorem final3_7 (c : Dev nD) : (dat3 V c).arrAt 7 cfg3.N = G3_7 V c :=
  (dat3 V c).arrAt_eq_of_cover 7 (G3_7 V c) (fun t hf => flushed3_7_eq V c t hf) fun i => by
    have hi0 : (i 0).val < 16 := (i 0).isLt
    have hi1 : (i 1).val < 256 := (i 1).isLt
    refine ⟨⟨(i 0).val / 8 * 16 + 15, by rw [show cfg3.N = 32 from N_3]; omega⟩, (flush3_7 _).mpr (by dsimp only; omega), ?_⟩
    rw [mem_blk3_7]
    intro a
    match a with
    | ⟨0, _⟩ => show win3_7.index _ (0 : Fin 2) * 8 ≤ (i 0).val ∧ (i 0).val < win3_7.index _ (0 : Fin 2) * 8 + 8; rw [(idx3_7 _).1]; dsimp only; omega
    | ⟨1, _⟩ => show win3_7.index _ (1 : Fin 2) * 256 ≤ (i 1).val ∧ (i 1).val < win3_7.index _ (1 : Fin 2) * 256 + 256; rw [(idx3_7 _).2]; omega

/-- The same entry by entry: row p belongs to core p / 8. -/
theorem value3_7 (c : Dev nD) (p : Fin 16) (o : Fin 256) :
    (dat3 V c).arrAt 7 cfg3.N (ix2 p o) = ∑ r' : Fin 32768, RAW3 V c ⟨p.val / 8 * 32768 + r'.val, by have := p.isLt; have := r'.isLt; omega⟩ o :=
  congrFun (final3_7 V c) (ix2 p o)

set_option maxHeartbeats 1000000 in
/-- At a core's last step window 8's staging buffer holds accumulator 1 in each of its eight rows. -/
theorem outs3_8 (c : Dev nD) (t : Fin cfg3.N) (h1 : t.val % 16 = 15) (p : Fin 8) (o : Fin 256) :
    (outsAt3 V c t.val t.isLt).2.2.1 (ix2 p o) = (outsAt3 V c t.val t.isLt).2.2.2.2 (ix2 (0 : Fin 1) o) := by
  have h0 : ¬t.val % 16 = 0 := by omega
  rw [outsAt3_C V c t h0 h1]
  dsimp only
  refine (congrFun (out3_C_8_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) (ix2 p o)).trans ?_
  refine (k3_pay4_apply _ p o).trans ?_
  exact (congrFun (sout3_C_1_eq (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.2.2.1 (outsAt3 V c (t.val - 1) (Nat.lt_of_le_of_lt (Nat.sub_le _ _) t.isLt)).2.2.2.2) (ix2 (0 : Fin 1) o)).symm

/-- A block of window 8's array read back: row p of the block at point t is row 8 (t / 16) + p of the array. -/
theorem read_blk3_8 (G : S16x256.Idx → EReal) (t : Fin cfg3.N) (p : Fin 8) (o : Fin 256) (hp : t.val / 16 * 8 + p.val < 16) :
    (((cfg3.win 8).blk t).view.read (Elt Ideal) G : Vec Ideal S8x256 .f32) (ix2 p o) = G (ix2 ⟨t.val / 16 * 8 + p.val, hp⟩ o) := by
  show G (((cfg3.win 8).blk t).view.emb (ix2 p o)) = G _
  refine congrArg G ?_
  funext a; apply Fin.ext
  match a with
  | ⟨0, _⟩ => show win3_8.index t (0 : Fin 2) * 8 + 1 * p.val = t.val / 16 * 8 + p.val; rw [(idx3_8 t).1]; omega
  | ⟨1, _⟩ => show win3_8.index t (1 : Fin 2) * 256 + 1 * o.val = o.val; rw [(idx3_8 t).2]; omega

/-- Core g's sums as contents of window 8's array: rows 8 g … 8 g + 7 all hold them. -/
def G3_8 (c : Dev nD) : S16x256.Idx → EReal := fun j => ∑ r' : Fin 32768, RAW3 V c ⟨(j 0).val / 8 * 32768 + r'.val, by have := idx2_lt0 j; have := r'.isLt; omega⟩ (j 1) * RAW3 V c ⟨(j 0).val / 8 * 32768 + r'.val, by have := idx2_lt0 j; have := r'.isLt; omega⟩ (j 1)

theorem flushed3_8_eq (c : Dev nD) (t : Fin cfg3.N) (hf : (cfg3.win 8).flush t = true) :
    (dat3 V c).flushed 8 t = ((cfg3.win 8).blk t).view.read (Elt Ideal) (G3_8 V c) := by
  have h1 : t.val % 16 = 15 := (flush3_8 t).mp hf
  have hN := lt_N3 t
  show (cfg3.win 8).cut (grid3.coords t) ((dat3 V c).after 8 t) = _
  rw [after3_8]
  funext j
  obtain ⟨p, o, rfl⟩ : ∃ (p : Fin 8) (o : Fin 256), j = ix2 p o := ⟨j 0, j 1, eq_ix2 j⟩
  refine (outs3_8 V c t h1 p o).trans ?_
  refine (acc1_eq3 V c 0 o t.val t.isLt).trans ?_
  have e16 : t.val % 16 + 1 = 16 := by omega
  rw [e16]
  refine (core_tilesSq3 V c o (t.val / 16) (by omega)).trans ?_
  have hp : t.val / 16 * 8 + p.val < 16 := by have := p.isLt; omega
  refine Eq.trans ?_ (read_blk3_8 (G3_8 V c) t p o hp).symm
  unfold G3_8
  refine Finset.sum_congr rfl fun r' _ => ?_
  have e : RAW3 V c ⟨t.val / 16 * 32768 + r'.val, by have := r'.isLt; omega⟩ o
      = RAW3 V c ⟨(t.val / 16 * 8 + p.val) / 8 * 32768 + r'.val, by have := r'.isLt; omega⟩ o :=
    congrArg (fun q => RAW3 V c q o) (Fin.ext (by show t.val / 16 * 32768 + r'.val = (t.val / 16 * 8 + p.val) / 8 * 32768 + r'.val; omega))
  exact congrArg₂ (· * ·) e e

theorem mem_blk3_8 (t : Fin cfg3.N) (i : S16x256.Idx) :
    i ∈ ((cfg3.win 8).blk t).view.set ↔ ∀ a : Fin 2, win3_8.index t a * S8x256.size a ≤ (i a).val ∧ (i a).val < win3_8.index t a * S8x256.size a + S8x256.size a := by
  show i ∈ ((View.whole main_v83_2).slice (win3_8.rect t)).set ↔ _
  rw [View.set_slice_whole, Rect.mem_set_unit]
  exact Iff.rfl

/-- WINDOW 8 after the region: core g's sums in rows 8 g … 8 g + 7, every entry. -/
theorem final3_8 (c : Dev nD) : (dat3 V c).arrAt 8 cfg3.N = G3_8 V c :=
  (dat3 V c).arrAt_eq_of_cover 8 (G3_8 V c) (fun t hf => flushed3_8_eq V c t hf) fun i => by
    have hi0 : (i 0).val < 16 := (i 0).isLt
    have hi1 : (i 1).val < 256 := (i 1).isLt
    refine ⟨⟨(i 0).val / 8 * 16 + 15, by rw [show cfg3.N = 32 from N_3]; omega⟩, (flush3_8 _).mpr (by dsimp only; omega), ?_⟩
    rw [mem_blk3_8]
    intro a
    match a with
    | ⟨0, _⟩ => show win3_8.index _ (0 : Fin 2) * 8 ≤ (i 0).val ∧ (i 0).val < win3_8.index _ (0 : Fin 2) * 8 + 8; rw [(idx3_8 _).1]; dsimp only; omega
    | ⟨1, _⟩ => show win3_8.index _ (1 : Fin 2) * 256 ≤ (i 1).val ∧ (i 1).val < win3_8.index _ (1 : Fin 2) * 256 + 256; rw [(idx3_8 _).2]; omega

/-- The same entry by entry: row p belongs to core p / 8. -/
theorem value3_8 (c : Dev nD) (p : Fin 16) (o : Fin 256) :
    (dat3 V c).arrAt 8 cfg3.N (ix2 p o) = ∑ r' : Fin 32768, RAW3 V c ⟨p.val / 8 * 32768 + r'.val, by have := p.isLt; have := r'.isLt; omega⟩ o * RAW3 V c ⟨p.val / 8 * 32768 + r'.val, by have := p.isLt; have := r'.isLt; omega⟩ o :=
  congrFun (final3_8 V c) (ix2 p o)

end Cert.KernelIdeal.Hand

end
-- ==== Proof.KI.R4.ValuePieces.lean ====
/- Region 4: what the pieces the runs found say. In every control case output 6 is left holding the step's raw products (the matrix
   product of the signs of the normalised previous layer with the weights); an accumulator is left holding what it held (zero at a
   core's first point) plus the step's column sums, of the raw products for accumulator 0 and of their squares for accumulator 1; at
   a core's last point outputs 7 and 8 are left holding the accumulators laid along eight rows. -/
import proofs.«118595_j1726576853663_2_alg».proof.Proof.KI.R4.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_4 : (![0, 0] : Fin 2 → Nat) = fun _ => 0 := funext fun a => by fin_cases a <;> rfl

theorem out4_A_6_eq (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) :
    out4_A_6 c i arg2 harg2 arg3 harg3 arg4 harg4 arg5 harg5 arg6 harg6 arg7 harg7 arg8 harg8 arg9 harg9 arg10 harg10 arg11 harg11 arg12 harg12 hc0 hc1 x0 x1 x2 x3 x4 x5 = k4_pay7 x0 x2 x3 x1 x4 x5 := by
  unfold out4_A_6
  rw [View.read_writes_eq_canon _ _ _ (cover4_A_6 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun4_A
  dsimp only
  sl_unfold_words
  rw [View.canon_unit_zero hz2_4]
  simp only [View.readAt_eq_ld, harg2.read_unread, harg3.read_unread, harg4.read_unread, harg5.read_unread, harg6.read_unread, harg7.read_unread, View.ld_unit_zero (S := S2048x256) hz2_4, View.ld_unit_zero (S := S1x256) hz2_4, View.ld_unit_zero (S := S10x256) hz2_4, View.ld_unit_zero (S := S1x10) hz2_4]

theorem out4_B_6_eq (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) :
    out4_B_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k4_pay7 x0 x2 x3 x1 x4 x5 := by
  unfold out4_B_6
  rw [View.read_writes_eq_canon _ _ _ (cover4_B_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun4_B
  dsimp only
  sl_unfold_words
  rw [View.canon_unit_zero hz2_4]
  simp only [View.readAt_eq_ld, harg2.read_unread, harg3.read_unread, harg4.read_unread, harg5.read_unread, harg6.read_unread, harg7.read_unread, View.ld_unit_zero (S := S2048x256) hz2_4, View.ld_unit_zero (S := S1x256) hz2_4, View.ld_unit_zero (S := S10x256) hz2_4, View.ld_unit_zero (S := S1x10) hz2_4]

theorem out4_C_6_eq (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) :
    out4_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k4_pay7 x0 x2 x3 x1 x4 x5 := by
  unfold out4_C_6
  rw [View.read_writes_eq_canon _ _ _ (cover4_C_6 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun4_C
  dsimp only
  sl_unfold_words
  rw [View.canon_unit_zero hz2_4]
  simp only [View.readAt_eq_ld, harg2.read_unread, harg3.read_unread, harg4.read_unread, harg5.read_unread, harg6.read_unread, harg7.read_unread, View.ld_unit_zero (S := S2048x256) hz2_4, View.ld_unit_zero (S := S1x256) hz2_4, View.ld_unit_zero (S := S10x256) hz2_4, View.ld_unit_zero (S := S1x10) hz2_4]

theorem sout4_A_0_eq (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) :
    sout4_A_0 c i arg2 harg2 arg3 harg3 arg4 harg4 arg5 harg5 arg6 harg6 arg7 harg7 arg8 harg8 arg9 harg9 arg10 harg10 arg11 harg11 arg12 harg12 hc0 hc1 x0 x1 x2 x3 x4 x5 = k4_pay1 (k4_pay7 x0 x2 x3 x1 x4 x5) (k4_pay5 (F := F)) := by
  unfold sout4_A_0
  rw [View.read_writes_eq_canon _ _ _ (scover4_A_0 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun4_A
  dsimp only
  sl_unfold_words
  rw [View.canon_cons_unit_zero (S := S1x10) hz2_4, View.readCov_unit_zero (S := S1x10) _ hz2_4]
  simp only [View.readAt_eq_ld, harg2.read_unread, harg3.read_unread, harg4.read_unread, harg5.read_unread, harg6.read_unread, harg7.read_unread, View.ld_unit_zero (S := S2048x256) hz2_4, View.ld_unit_zero (S := S1x256) hz2_4, View.ld_unit_zero (S := S10x256) hz2_4, View.ld_unit_zero (S := S1x10) hz2_4]

theorem sout4_A_1_eq (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) :
    sout4_A_1 c i arg2 harg2 arg3 harg3 arg4 harg4 arg5 harg5 arg6 harg6 arg7 harg7 arg8 harg8 arg9 harg9 arg10 harg10 arg11 harg11 arg12 harg12 hc0 hc1 x0 x1 x2 x3 x4 x5 = k4_pay2 (k4_pay7 x0 x2 x3 x1 x4 x5) (k4_pay6 (F := F)) := by
  unfold sout4_A_1
  rw [View.read_writes_eq_canon _ _ _ (scover4_A_1 c i arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun4_A
  dsimp only
  sl_unfold_words
  rw [View.canon_cons_unit_zero (S := S1x10) hz2_4, View.readCov_unit_zero (S := S1x10) _ hz2_4]
  simp only [View.readAt_eq_ld, harg2.read_unread, harg3.read_unread, harg4.read_unread, harg5.read_unread, harg6.read_unread, harg7.read_unread, View.ld_unit_zero (S := S2048x256) hz2_4, View.ld_unit_zero (S := S1x256) hz2_4, View.ld_unit_zero (S := S10x256) hz2_4, View.ld_unit_zero (S := S1x10) hz2_4]

theorem sout4_B_0_eq (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) :
    sout4_B_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k4_pay1 (k4_pay7 x0 x2 x3 x1 x4 x5) xs0 := by
  unfold sout4_B_0
  rw [View.read_writes_eq_canon _ _ _ (scover4_B_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun4_B
  dsimp only
  sl_unfold_words
  rw [View.canon_unit_zero hz2_4]
  simp only [View.readAt_eq_ld, harg2.read_unread, harg3.read_unread, harg4.read_unread, harg5.read_unread, harg6.read_unread, harg7.read_unread, harg11.read_unread, View.ld_unit_zero (S := S2048x256) hz2_4, View.ld_unit_zero (S := S1x256) hz2_4, View.ld_unit_zero (S := S10x256) hz2_4, View.ld_unit_zero (S := S1x10) hz2_4]

theorem sout4_B_1_eq (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : ¬cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) :
    sout4_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k4_pay2 (k4_pay7 x0 x2 x3 x1 x4 x5) xs1 := by
  unfold sout4_B_1
  rw [View.read_writes_eq_canon _ _ _ (scover4_B_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun4_B
  dsimp only
  sl_unfold_words
  rw [View.canon_unit_zero hz2_4]
  simp only [View.readAt_eq_ld, harg2.read_unread, harg3.read_unread, harg4.read_unread, harg5.read_unread, harg6.read_unread, harg7.read_unread, harg12.read_unread, View.ld_unit_zero (S := S2048x256) hz2_4, View.ld_unit_zero (S := S1x256) hz2_4, View.ld_unit_zero (S := S10x256) hz2_4, View.ld_unit_zero (S := S1x10) hz2_4]

theorem sout4_C_0_eq (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) :
    sout4_C_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k4_pay1 (k4_pay7 x0 x2 x3 x1 x4 x5) xs0 := by
  unfold sout4_C_0
  rw [View.read_writes_eq_canon _ _ _ (scover4_C_0 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun4_C
  dsimp only
  sl_unfold_words
  rw [View.canon_unit_zero hz2_4]
  simp only [View.readAt_eq_ld, harg2.read_unread, harg3.read_unread, harg4.read_unread, harg5.read_unread, harg6.read_unread, harg7.read_unread, harg11.read_unread, View.ld_unit_zero (S := S2048x256) hz2_4, View.ld_unit_zero (S := S1x256) hz2_4, View.ld_unit_zero (S := S10x256) hz2_4, View.ld_unit_zero (S := S1x10) hz2_4]

theorem sout4_C_1_eq (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) :
    sout4_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k4_pay2 (k4_pay7 x0 x2 x3 x1 x4 x5) xs1 := by
  unfold sout4_C_1
  rw [View.read_writes_eq_canon _ _ _ (scover4_C_1 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun4_C
  dsimp only
  sl_unfold_words
  rw [View.canon_unit_zero hz2_4]
  simp only [View.readAt_eq_ld, harg2.read_unread, harg3.read_unread, harg4.read_unread, harg5.read_unread, harg6.read_unread, harg7.read_unread, harg12.read_unread, View.ld_unit_zero (S := S2048x256) hz2_4, View.ld_unit_zero (S := S1x256) hz2_4, View.ld_unit_zero (S := S10x256) hz2_4, View.ld_unit_zero (S := S1x10) hz2_4]

theorem out4_C_7_eq (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) :
    out4_C_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k4_pay3 (k4_pay1 (k4_pay7 x0 x2 x3 x1 x4 x5) xs0) := by
  unfold out4_C_7
  rw [View.read_writes_eq_canon _ _ _ (cover4_C_7 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun4_C
  dsimp only
  sl_unfold_words
  rw [View.canon_unit_zero hz2_4, View.readCov_unit_zero (S := S1x10) _ hz2_4]
  simp only [View.readAt_eq_ld, harg2.read_unread, harg3.read_unread, harg4.read_unread, harg5.read_unread, harg6.read_unread, harg7.read_unread, harg11.read_unread, View.ld_unit_zero (S := S2048x256) hz2_4, View.ld_unit_zero (S := S1x256) hz2_4, View.ld_unit_zero (S := S10x256) hz2_4, View.ld_unit_zero (S := S1x10) hz2_4]

theorem out4_C_8_eq (c : Dev nD) (i : grid4.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S10x256 .bf16) (harg7 : arg7.IsWhole) (arg8 : Memref sig .tc .vmem S2048x10 .f32) (harg8 : arg8.IsWhole) (arg9 : Memref sig .tc .vmem S8x10 .f32) (harg9 : arg9.IsWhole) (arg10 : Memref sig .tc .vmem S8x10 .f32) (harg10 : arg10.IsWhole) (arg11 : Memref sig .tc .vmem S1x10 .f32) (harg11 : arg11.IsWhole) (arg12 : Memref sig .tc .vmem S1x10 .f32) (harg12 : arg12.IsWhole) (hc0 : ¬cond4_0 i) (hc1 : cond4_1 i)
    (x0 : Vec F S2048x256 .f32) (x1 : Vec F S1x256 .f32) (x2 : Vec F S1x256 .f32) (x3 : Vec F S1x256 .f32) (x4 : Vec F S1x256 .f32) (x5 : Vec F S10x256 .bf16) (xs0 : Vec F S1x10 .f32) (xs1 : Vec F S1x10 .f32) :
    out4_C_8 c i arg2 harg2 arg3 harg3 arg4 harg4 arg5 harg5 arg6 harg6 arg7 harg7 arg8 harg8 arg9 harg9 arg10 harg10 arg11 harg11 arg12 harg12 hc0 hc1 x0 x1 x2 x3 x4 x5 xs0 xs1 = k4_pay4 (k4_pay2 (k4_pay7 x0 x2 x3 x1 x4 x5) xs1) := by
  unfold out4_C_8
  rw [View.read_writes_eq_canon _ _ _ (cover4_C_8 c i arg2 harg2 arg3 harg3 arg4 harg4 arg5 harg5 arg6 harg6 arg7 harg7 arg8 harg8 arg9 harg9 arg10 harg10 arg11 harg11 arg12 harg12 hc0 hc1 x0 x1 x2 x3 x4 x5 xs0 xs1)]
  unfold kernelRun4_C
  dsimp only
  sl_unfold_words
  rw [View.canon_unit_zero hz2_4, View.readCov_unit_zero (S := S1x10) _ hz2_4]
  simp only [View.readAt_eq_ld, harg2.read_unread, harg3.read_unread, harg4.read_unread, harg5.read_unread, harg6.read_unread, harg7.read_unread, harg12.read_unread, View.ld_unit_zero (S := S2048x256) hz2_4, View.ld_unit_zero (S := S1x256) hz2_4, View.ld_unit_zero (S := S10x256) hz2_4, View.ld_unit_zero (S := S1x10) hz2_4]

end Cert.KernelIdeal.Hand

end
-- ==== Proof.KI.R4.Pay.lean ====
/- Region 4, the body's arithmetic read entry by entry over the extended reals: a raw product entry is the sum over the
   256 features of the sign of the previous layer's normalised value times the weight, the normalised value being
   γ · (x − mean) · rsqrt (var + ε) + β; the accumulators gain the step's 2048 rows' column sums (of the raw products, and
   of their squares); the stored partial sums lay an accumulator along eight rows; the cleared accumulators are 0. -/
import proofs.«118595_j1726576853663_2_alg».proof.Proof.Gen.KernelIdeal.Skeleton
import proofs.«118595_j1726576853663_2_alg».proof.Proof.KI.GlueLib
import proofs.«118595_j1726576853663_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx
open scoped BigOperators

/-- Selecting +1 where an entry is at least zero and −1 elsewhere is the sign function of the specification. -/
theorem k4_sgn_select (v : EReal) :
    Scalar.select (Ideal.cmp .oge v (Ideal.ofBits .f32 0x00000000#32)) (Ideal.ofBits .f32 0x3F800000#32) (Ideal.ofBits .f32 0xBF800000#32)
      = Spec.sgn v := by
  rw [Ideal.ofBits_zero_f32, Glue.ofBits_one_f32, Glue.ofBits_neg_one_f32]
  unfold Scalar.select Ideal.cmp Spec.sgn
  by_cases h : (0 : EReal) ≤ v
  · simp [h]
  · simp [h]

/-- The operand indices of the product at output entry (r, o) and feature i: row r of the activations at i, row o of
    the weights at i. -/
theorem k4_lhsIdx (r : Fin 2048) (o : Fin 10) (i : Fin 256) :
    dot_S2048x256_S10x256_S2048x10_1_1_0_0_n_n.lhsIdx (ix2 r o) ((contrEquiv1 dot_S2048x256_S10x256_S2048x10_1_1_0_0_n_n 256 rfl rfl).symm i) = ix2 r i :=
  funext fun a => Fin.ext (by match a with | ⟨0, _⟩ => rfl | ⟨1, _⟩ => rfl)
theorem k4_rhsIdx (r : Fin 2048) (o : Fin 10) (i : Fin 256) :
    dot_S2048x256_S10x256_S2048x10_1_1_0_0_n_n.rhsIdx (ix2 r o) ((contrEquiv1 dot_S2048x256_S10x256_S2048x10_1_1_0_0_n_n 256 rfl rfl).symm i) = ix2 o i :=
  funext fun a => Fin.ext (by match a with | ⟨0, _⟩ => rfl | ⟨1, _⟩ => rfl)

/-- One row of a [1, 256] array copied down 2048 rows reads, at (r, i), the row at (0, i). -/
theorem k4_bcast_rows (v : Vec Ideal S1x256 .f32) (r : Fin 2048) (i : Fin 256) :
    broadcastTo S2048x256 v broadcasts_S1x256_S2048x256 (ix2 r i) = v (ix2 (0 : Fin 1) i) := by
  refine broadcastTo_apply _ broadcasts_S1x256_S2048x256 (ix2 r i) (ix2 (0 : Fin 1) i) ?_
  intro a
  match a with
  | ⟨0, _⟩ => rfl
  | ⟨1, _⟩ => rfl

/-- The normalised value the body forms at (r, i): γ · (x − mean) · rsqrt (var + ε) + β, the four vectors read in row 0. -/
theorem k4_norm_apply (x : Vec Ideal S2048x256 .f32) (var gamma mean beta : Vec Ideal S1x256 .f32) (r : Fin 2048) (i : Fin 256) :
    gamma (ix2 (0 : Fin 1) i) * (x (ix2 r i) - mean (ix2 (0 : Fin 1) i))
        * Ideal.rsqrt (var (ix2 (0 : Fin 1) i) + Ideal.ofBits .f32 0x3727C5AC#32) + beta (ix2 (0 : Fin 1) i)
      = Spec.norm (fun i => gamma (ix2 (0 : Fin 1) i)) (fun i => beta (ix2 (0 : Fin 1) i)) (fun i => mean (ix2 (0 : Fin 1) i))
          (fun i => var (ix2 (0 : Fin 1) i)) (fun r i => x (ix2 r i)) r i := rfl

/-- A raw product entry: the sum over the features of the sign of the normalised previous value times the weight. -/
theorem k4_pay7_apply (x : Vec Ideal S2048x256 .f32) (var gamma mean beta : Vec Ideal S1x256 .f32) (wb : Vec Ideal S10x256 .bf16)
    (r : Fin 2048) (o : Fin 10) :
    k4_pay7 (F := Ideal) x var gamma mean beta wb (ix2 r o)
      = Spec.raw (fun r i => Spec.sgn (Spec.norm (fun i => gamma (ix2 (0 : Fin 1) i)) (fun i => beta (ix2 (0 : Fin 1) i))
          (fun i => mean (ix2 (0 : Fin 1) i)) (fun i => var (ix2 (0 : Fin 1) i)) (fun r i => x (ix2 r i)) r i))
          (fun o i => wb (ix2 o i)) r o := by
  unfold k4_pay7
  refine (Ideal.matmul_constant_zero_apply dot_S2048x256_S10x256_S2048x10_1_1_0_0_n_n none _ _ (ix2 r o)).trans ?_
  refine (Equiv.sum_comp (contrEquiv1 dot_S2048x256_S10x256_S2048x10_1_1_0_0_n_n 256 rfl rfl).symm _).symm.trans ?_
  unfold Spec.raw
  refine Finset.sum_congr rfl fun i _ => ?_
  beta_reduce
  rw [k4_lhsIdx r o i, k4_rhsIdx r o i]
  refine congrArg₂ (· * ·) ?_ ?_
  · refine (k4_sgn_select _).trans (congrArg Spec.sgn ?_)
    refine Eq.trans ?_ (k4_norm_apply x var gamma mean beta r i)
    refine congrArg₂ (· + ·) (congrArg₂ (· * ·) (congrArg₂ (· * ·) ?_ (congrArg₂ (· - ·) ?_ ?_)) ?_) ?_
    · exact (k4_bcast_rows _ r i).trans (congrFun (shapeCast_self gamma _) _)
    · exact congrFun (shapeCast_self x _) _
    · exact (k4_bcast_rows _ r i).trans (congrFun (shapeCast_self mean _) _)
    · refine (k4_bcast_rows _ r i).trans ?_
      exact congrArg (fun t => Ideal.rsqrt (t + Ideal.ofBits .f32 0x3727C5AC#32)) (congrFun (shapeCast_self var _) _)
    · exact (k4_bcast_rows _ r i).trans (congrFun (shapeCast_self beta _) _)
  · exact congrFun (shapeCast_self wb _) _

/-- The column-sum accumulator after a step: what it held plus the step's 2048 raw products in that column. -/
theorem k4_pay1_apply (raw : FVec Ideal S2048x10 .f32) (acc : Vec Ideal S1x10 .f32) (u : Fin 1) (o : Fin 10) :
    k4_pay1 (F := Ideal) raw acc (ix2 u o) = acc (ix2 u o) + ∑ r : Fin 2048, raw (ix2 r o) := by
  unfold k4_pay1
  refine (congrFun (shapeCast_self _ shapeCasts_S1x10_S1x10) (ix2 u o)).trans ?_
  refine congrArg (acc (ix2 u o) + ·) ?_
  refine (shapeCast_apply _ shapeCasts_S10_S1x10 (ix2 u o) (ix1 o) ?_).trans ?_
  · rw [Shape.rowMajor_val_one, Shape.rowMajor_val_two]
    show o.val = u.val * 10 + o.val
    have := u.isLt; omega
  refine (Ideal.multiReduction_add_single raw _ reduces_S2048x10_S10 _ _ (ix1 o)).trans ?_
  exact Finset.sum_congr rfl fun r _ => congrArg raw (Glue.lift_row reduces_S2048x10_S10 o r)

/-- The sum-of-squares accumulator after a step: what it held plus the squares of the step's raw products. -/
theorem k4_pay2_apply (raw : FVec Ideal S2048x10 .f32) (acc : Vec Ideal S1x10 .f32) (u : Fin 1) (o : Fin 10) :
    k4_pay2 (F := Ideal) raw acc (ix2 u o) = acc (ix2 u o) + ∑ r : Fin 2048, raw (ix2 r o) * raw (ix2 r o) := by
  unfold k4_pay2
  refine (congrFun (shapeCast_self _ shapeCasts_S1x10_S1x10) (ix2 u o)).trans ?_
  refine congrArg (acc (ix2 u o) + ·) ?_
  refine (shapeCast_apply _ shapeCasts_S10_S1x10 (ix2 u o) (ix1 o) ?_).trans ?_
  · rw [Shape.rowMajor_val_one, Shape.rowMajor_val_two]
    show o.val = u.val * 10 + o.val
    have := u.isLt; omega
  refine (Ideal.multiReduction_add_single (mulf raw raw) _ reduces_S2048x10_S10 _ _ (ix1 o)).trans ?_
  exact Finset.sum_congr rfl fun r _ => congrArg (fun j => raw j * raw j) (Glue.lift_row reduces_S2048x10_S10 o r)

/-- An accumulator laid along eight rows reads, in every row, the accumulator's entry of the column. -/
theorem k4_pay3_apply (v : Vec Ideal S1x10 .f32) (p : Fin 8) (o : Fin 10) :
    k4_pay3 (F := Ideal) v (ix2 p o) = v (ix2 (0 : Fin 1) o) := by
  unfold k4_pay3
  refine (broadcastTo_apply _ broadcasts_S1x10_S8x10 (ix2 p o) (ix2 (0 : Fin 1) o) ?_).trans ?_
  · intro a
    match a with
    | ⟨0, _⟩ => rfl
    | ⟨1, _⟩ => rfl
  exact congrFun (shapeCast_self v _) _
theorem k4_pay4_apply (v : Vec Ideal S1x10 .f32) (p : Fin 8) (o : Fin 10) :
    k4_pay4 (F := Ideal) v (ix2 p o) = v (ix2 (0 : Fin 1) o) := by
  unfold k4_pay4
  refine (broadcastTo_apply _ broadcasts_S1x10_S8x10 (ix2 p o) (ix2 (0 : Fin 1) o) ?_).trans ?_
  · intro a
    match a with
    | ⟨0, _⟩ => rfl
    | ⟨1, _⟩ => rfl
  exact congrFun (shapeCast_self v _) _

/-- The cleared accumulators. -/
theorem k4_pay5_apply (j : S1x10.Idx) : k4_pay5 (F := Ideal) j = 0 := by
  unfold k4_pay5
  refine (congrFun (shapeCast_self _ shapeCasts_S1x10_S1x10) j).trans ?_
  exact Ideal.ofBits_zero_f32
theorem k4_pay6_apply (j : S1x10.Idx) : k4_pay6 (F := Ideal) j = 0 := by
  unfold k4_pay6
  refine (congrFun (shapeCast_self _ shapeCasts_S1x10_S1x10) j).trans ?_
  exact Ideal.ofBits_zero_f32

end Cert.KernelIdeal.Hand

end
-- ==== Proof.KI.R4.ValueBlk.lean ====
/- Region 4 over the extended reals, the blocks: at grid point t the body reads rows 2048 t … 2048 t + 2047 of the previous layer's
   raw products, the whole of the four [1, 256] statistics and parameter rows and the whole weight matrix; the step's product is rows
   2048 t … of this layer's raw products: the sum over the 256 features of the sign of the normalised previous value times the weight. -/
import proofs.«118595_j1726576853663_2_alg».proof.Proof.KI.R4.ValuePieces
import proofs.«118595_j1726576853663_2_alg».proof.Proof.KI.R4.Pay

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the TensorCore's buffer contents when the region is entered, over the extended reals
variable (V : (c : Dev nD) → (b : Ref sig .tc) → Buf (Elt Ideal) ((c : Thread nD τ).loc b))

/-- The windows' arrays as the region finds them: the previous raw products, mean, variance, scale, shift, weights. -/
abbrev A4_0 (c : Dev nD) : S65536x256.Idx → EReal := V c (Pipeline.arrRef spec4 0)
abbrev A4_1 (c : Dev nD) : S1x256.Idx → EReal := V c (Pipeline.arrRef spec4 1)
abbrev A4_2 (c : Dev nD) : S1x256.Idx → EReal := V c (Pipeline.arrRef spec4 2)
abbrev A4_3 (c : Dev nD) : S1x256.Idx → EReal := V c (Pipeline.arrRef spec4 3)
abbrev A4_4 (c : Dev nD) : S1x256.Idx → EReal := V c (Pipeline.arrRef spec4 4)
abbrev A4_5 (c : Dev nD) : S10x256.Idx → EReal := V c (Pipeline.arrRef spec4 5)

/-- This layer's raw products: the signs of the normalised previous layer against the weights. -/
def RAW4 (c : Dev nD) : Fin 65536 → Fin 10 → EReal :=
  Spec.raw (fun r i => Spec.sgn (Spec.norm (fun i => A4_3 V c (ix2 (0 : Fin 1) i)) (fun i => A4_4 V c (ix2 (0 : Fin 1) i))
      (fun i => A4_1 V c (ix2 (0 : Fin 1) i)) (fun i => A4_2 V c (ix2 (0 : Fin 1) i)) (fun r i => A4_0 V c (ix2 r i)) r i))
    (fun o i => A4_5 V c (ix2 o i))

/-! ## The printed index maps, decided over the grid -/

theorem idx4_0 : ∀ t : Fin cfg4.N, win4_0.index t (0 : Fin 2) = t.val ∧ win4_0.index t (1 : Fin 2) = 0 :=
  (by decide +kernel : ∀ t : Fin grid4.N, _)
theorem idx4_1 : ∀ t : Fin cfg4.N, win4_1.index t (0 : Fin 2) = 0 ∧ win4_1.index t (1 : Fin 2) = 0 :=
  (by decide +kernel : ∀ t : Fin grid4.N, _)
theorem idx4_2 : ∀ t : Fin cfg4.N, win4_2.index t (0 : Fin 2) = 0 ∧ win4_2.index t (1 : Fin 2) = 0 :=
  (by decide +kernel : ∀ t : Fin grid4.N, _)
theorem idx4_3 : ∀ t : Fin cfg4.N, win4_3.index t (0 : Fin 2) = 0 ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_5 : ∀ t : Fin cfg4.N, win4_5.index t (0 : Fin 2) = 0 ∧ win4_5.index t (1 : Fin 2) = 0 :=
  (by decide +kernel : ∀ t : Fin grid4.N, _)
theorem idx4_6 : ∀ t : Fin cfg4.N, win4_6.index t (0 : Fin 2) = t.val ∧ win4_6.index t (1 : Fin 2) = 0 :=
  (by decide +kernel : ∀ t : Fin grid4.N, _)
theorem idx4_7 : ∀ t : Fin cfg4.N, win4_7.index t (0 : Fin 2) = t.val / 16 ∧ win4_7.index t (1 : Fin 2) = 0 :=
  (by decide +kernel : ∀ t : Fin grid4.N, _)
theorem idx4_8 : ∀ t : Fin cfg4.N, win4_8.index t (0 : Fin 2) = t.val / 16 ∧ win4_8.index t (1 : Fin 2) = 0 :=
  (by decide +kernel : ∀ t : Fin grid4.N, _)

theorem lt_N4 (t : Fin cfg4.N) : t.val < 32 := lt_of_lt_of_eq t.isLt (show cfg4.N = 32 from N_4)

/-! ## The input blocks -/

/-- Row r of the input block at point t is row 2048 t + r of the previous raw products. -/
theorem iblk4_0_apply (c : Dev nD) (t : Fin cfg4.N) (r : Fin 2048) (i : Fin 256) (hr : 2048 * t.val + r.val < 65536) :
    (iblk4 V c 0 t : Vec Ideal S2048x256 .f32) (ix2 r i) = A4_0 V c (ix2 ⟨2048 * t.val + r.val, hr⟩ i) := by
  show V c (Pipeline.arrRef spec4 0) (((cfg4.win 0).blk t).view.emb (ix2 r i)) = V c (Pipeline.arrRef spec4 0) _
  refine congrArg (V c (Pipeline.arrRef spec4 0)) ?_
  funext a; apply Fin.ext
  match a with
  | ⟨0, _⟩ => show win4_0.index t (0 : Fin 2) * 2048 + 1 * r.val = 2048 * t.val + r.val; rw [(idx4_0 t).1]; omega
  | ⟨1, _⟩ => show win4_0.index t (1 : Fin 2) * 256 + 1 * i.val = i.val; rw [(idx4_0 t).2]; omega

/-- The blocks of the statistics and parameter rows are the whole rows, at every point. -/
theorem iblk4_1_apply (c : Dev nD) (t : Fin cfg4.N) (u : Fin 1) (i : Fin 256) :
    (iblk4 V c 1 t : Vec Ideal S1x256 .f32) (ix2 u i) = A4_1 V c (ix2 u i) := by
  show V c (Pipeline.arrRef spec4 1) (((cfg4.win 1).blk t).view.emb (ix2 u i)) = V c (Pipeline.arrRef spec4 1) _
  refine congrArg (V c (Pipeline.arrRef spec4 1)) ?_
  funext a; apply Fin.ext
  match a with
  | ⟨0, _⟩ => show win4_1.index t (0 : Fin 2) * 1 + 1 * u.val = u.val; rw [(idx4_1 t).1]; omega
  | ⟨1, _⟩ => show win4_1.index t (1 : Fin 2) * 256 + 1 * i.val = i.val; rw [(idx4_1 t).2]; omega
theorem iblk4_2_apply (c : Dev nD) (t : Fin cfg4.N) (u : Fin 1) (i : Fin 256) :
    (iblk4 V c 2 t : Vec Ideal S1x256 .f32) (ix2 u i) = A4_2 V c (ix2 u i) := by
  show V c (Pipeline.arrRef spec4 2) (((cfg4.win 2).blk t).view.emb (ix2 u i)) = V c (Pipeline.arrRef spec4 2) _
  refine congrArg (V c (Pipeline.arrRef spec4 2)) ?_
  funext a; apply Fin.ext
  match a with
  | ⟨0, _⟩ => show win4_2.index t (0 : Fin 2) * 1 + 1 * u.val = u.val; rw [(idx4_2 t).1]; omega
  | ⟨1, _⟩ => show win4_2.index t (1 : Fin 2) * 256 + 1 * i.val = i.val; rw [(idx4_2 t).2]; omega
theorem iblk4_3_apply (c : Dev nD) (t : Fin cfg4.N) (u : Fin 1) (i : Fin 256) :
    (iblk4 V c 3 t : Vec Ideal S1x256 .f32) (ix2 u i) = A4_3 V c (ix2 u i) := by
  show V c (Pipeline.arrRef spec4 3) (((cfg4.win 3).blk t).view.emb (ix2 u i)) = V c (Pipeline.arrRef spec4 3) _
  refine congrArg (V c (Pipeline.arrRef spec4 3)) ?_
  funext a; apply Fin.ext
  match a with
  | ⟨0, _⟩ => show win4_3.index t (0 : Fin 2) * 1 + 1 * u.val = u.val; rw [(idx4_3 t).1]; omega
  | ⟨1, _⟩ => show win4_3.index t (1 : Fin 2) * 256 + 1 * i.val = i.val; rw [(idx4_3 t).2]; omega
theorem iblk4_4_apply (c : Dev nD) (t : Fin cfg4.N) (u : Fin 1) (i : Fin 256) :
    (iblk4 V c 4 t : Vec Ideal S1x256 .f32) (ix2 u i) = A4_4 V c (ix2 u i) := by
  show V c (Pipeline.arrRef spec4 4) (((cfg4.win 4).blk t).view.emb (ix2 u i)) = V c (Pipeline.arrRef spec4 4) _
  refine congrArg (V c (Pipeline.arrRef spec4 4)) ?_
  funext a; apply Fin.ext
  match a with
  | ⟨0, _⟩ => show win4_4.index t (0 : Fin 2) * 1 + 1 * u.val = u.val; rw [(idx4_4 t).1]; omega
  | ⟨1, _⟩ => show win4_4.index t (1 : Fin 2) * 256 + 1 * i.val = i.val; rw [(idx4_4 t).2]; omega

/-- The weights' block is the whole weight matrix, at every point. -/
theorem iblk4_5_apply (c : Dev nD) (t : Fin cfg4.N) (o : Fin 10) (i : Fin 256) :
    (iblk4 V c 5 t : Vec Ideal S10x256 .bf16) (ix2 o i) = A4_5 V c (ix2 o i) := by
  show V c (Pipeline.arrRef spec4 5) (((cfg4.win 5).blk t).view.emb (ix2 o i)) = V c (Pipeline.arrRef spec4 5) _
  refine congrArg (V c (Pipeline.arrRef spec4 5)) ?_
  funext a; apply Fin.ext
  match a with
  | ⟨0, _⟩ => show win4_5.index t (0 : Fin 2) * 10 + 1 * o.val = o.val; rw [(idx4_5 t).1]; omega
  | ⟨1, _⟩ => show win4_5.index t (1 : Fin 2) * 256 + 1 * i.val = i.val; rw [(idx4_5 t).2]; omega

/-- The normalised value depends on its five arguments only through their entries at the column and the row read. -/
theorem norm_congr4 {M M' : ℕ} (γ γ' β β' μ μ' v v' : Fin 256 → EReal) (x : Fin M → Fin 256 → EReal) (x' : Fin M' → Fin 256 → EReal)
    (r : Fin M) (r' : Fin M') (i : Fin 256) (hγ : γ i = γ' i) (hβ : β i = β' i) (hμ : μ i = μ' i) (hv : v i = v' i) (hx : x r i = x' r' i) :
    Spec.norm γ β μ v x r i = Spec.norm γ' β' μ' v' x' r' i := by
  unfold Spec.norm; rw [hγ, hβ, hμ, hv, hx]

/-- The step's product at point t: rows 2048 t … of this layer's raw products. -/
theorem pay7_blk4 (c : Dev nD) (t : Fin cfg4.N) (r : Fin 2048) (o : Fin 10) (hr : 2048 * t.val + r.val < 65536) :
    k4_pay7 (F := Ideal) (iblk4 V c 0 t) (iblk4 V c 2 t) (iblk4 V c 3 t) (iblk4 V c 1 t) (iblk4 V c 4 t) (iblk4 V c 5 t) (ix2 r o) = RAW4 V c ⟨2048 * t.val + r.val, hr⟩ o := by
  refine (k4_pay7_apply (iblk4 V c 0 t) (iblk4 V c 2 t) (iblk4 V c 3 t) (iblk4 V c 1 t) (iblk4 V c 4 t) (iblk4 V c 5 t) r o).trans ?_
  unfold RAW4 Spec.raw
  refine Finset.sum_congr rfl fun i _ => ?_
  refine congrArg₂ (· * ·) (congrArg Spec.sgn ?_) (iblk4_5_apply V c t o i)
  exact norm_congr4 _ _ _ _ _ _ _ _ _ _ r ⟨2048 * t.val + r.val, hr⟩ i (iblk4_3_apply V c t 0 i) (iblk4_4_apply V c t 0 i)
    (iblk4_1_apply V c t 0 i) (iblk4_2_apply V c t 0 i) (iblk4_0_apply V c t r i hr)

end Cert.KernelIdeal.Hand

end
-- ==== Proof.KI.R4.ValueRaw.lean ====
/- Region 4 over the extended reals, the raw output: after grid point t its staging buffer holds rows 2048 t … 2048 t + 2047 of
   this layer's raw products, which the point writes back; the 32 points cover all 65536 rows. -/
import proofs.«118595_j1726576853663_2_alg».proof.Proof.KI.R4.ValueBlk

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the TensorCore's buffer contents when the region is entered, over the extended reals
variable (V : (c : Dev nD) → (b : Ref sig .tc) → Buf (Elt Ideal) ((c : Thread nD τ).loc b))

/-! ## What the raw output's staging buffer holds after point t -/

set_option maxHeartbeats 1000000 in
theorem outs4_6 (c : Dev nD) (t : Fin cfg4.N) : (outsAt4 V c t.val t.isLt).1 = k4_pay7 (F := Ideal) (iblk4 V c 0 t) (iblk4 V c 2 t) (iblk4 V c 3 t) (iblk4 V c 1 t) (iblk4 V c 4 t) (iblk4 V c 5 t) := by
  by_cases h0 : t.val % 16 = 0
  · have h1 : ¬t.val % 16 = 15 := by omega
    rw [outsAt4_A V c t h0 h1]
    dsimp only
    exact out4_A_6_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t)
  · by_cases h1 : t.val % 16 = 15
    · rw [outsAt4_C V c t h0 h1]
      dsimp only
      exact out4_C_6_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2
    · rw [outsAt4_B V c t h0 h1]
      dsimp only
      exact out4_B_6_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2

/-! ## From the blocks to the array -/

/-- This layer's raw products as contents of the raw output's array. -/
def G4_6 (c : Dev nD) : S65536x10.Idx → EReal := fun j => RAW4 V c (j 0) (j 1)

theorem flushed4_6_eq (c : Dev nD) (t : Fin cfg4.N) :
    (dat4 V c).flushed 6 t = ((cfg4.win 6).blk t).view.read (Elt Ideal) (G4_6 V c) := by
  show (cfg4.win 6).cut (grid4.coords t) ((dat4 V c).after 6 t) = _
  rw [after4_6, outs4_6]
  funext j
  obtain ⟨r, o, rfl⟩ : ∃ (r : Fin 2048) (o : Fin 10), j = ix2 r o := ⟨j 0, j 1, eq_ix2 j⟩
  have hN := lt_N4 t
  have hr : 2048 * t.val + r.val < 65536 := by have := r.isLt; omega
  refine (pay7_blk4 V c t r o hr).trans ?_
  show RAW4 V c _ _ = G4_6 V c (((cfg4.win 6).blk t).view.emb (ix2 r o))
  unfold G4_6
  refine congrArg₂ (RAW4 V c) (Fin.ext ?_) (Fin.ext ?_)
  · show 2048 * t.val + r.val = win4_6.index t (0 : Fin 2) * 2048 + 1 * r.val; rw [(idx4_6 t).1]; omega
  · show o.val = win4_6.index t (1 : Fin 2) * 10 + 1 * o.val; rw [(idx4_6 t).2]; omega

theorem mem_blk4_6 (t : Fin cfg4.N) (i : S65536x10.Idx) :
    i ∈ ((cfg4.win 6).blk t).view.set ↔ ∀ a : Fin 2, win4_6.index t a * S2048x10.size a ≤ (i a).val ∧ (i a).val < win4_6.index t a * S2048x10.size a + S2048x10.size a := by
  show i ∈ ((View.whole main_v104_0).slice (win4_6.rect t)).set ↔ _
  rw [View.set_slice_whole, Rect.mem_set_unit]
  exact Iff.rfl

/-- THE RAW OUTPUT after the region: this layer's raw products, every entry. -/
theorem final4_6 (c : Dev nD) : (dat4 V c).arrAt 6 cfg4.N = G4_6 V c :=
  (dat4 V c).arrAt_eq_of_cover 6 (G4_6 V c) (fun t _ => flushed4_6_eq V c t) fun i => by
    have hi0 : (i 0).val < 65536 := (i 0).isLt
    have hi1 : (i 1).val < 10 := (i 1).isLt
    refine ⟨⟨(i 0).val / 2048, by rw [show cfg4.N = 32 from N_4]; omega⟩, flush4_6 _, ?_⟩
    rw [mem_blk4_6]
    intro a
    match a with
    | ⟨0, _⟩ => show win4_6.index _ (0 : Fin 2) * 2048 ≤ (i 0).val ∧ (i 0).val < win4_6.index _ (0 : Fin 2) * 2048 + 2048; rw [(idx4_6 _).1]; dsimp only; omega
    | ⟨1, _⟩ => show win4_6.index _ (1 : Fin 2) * 10 ≤ (i 1).val ∧ (i 1).val < win4_6.index _ (1 : Fin 2) * 10 + 10; rw [(idx4_6 _).2]; omega

/-- The same entry by entry. -/
theorem value4_6 (c : Dev nD) (r : Fin 65536) (o : Fin 10) :
    (dat4 V c).arrAt 6 cfg4.N (ix2 r o) = RAW4 V c r o :=
  congrFun (final4_6 V c) (ix2 r o)

end Cert.KernelIdeal.Hand

end
-- ==== Proof.KI.R4.ValueAcc.lean ====
/- Region 4 over the extended reals, the two accumulators. After grid point t the column-sum accumulator holds the sum of this layer's
   raw products' columns over the rows of the tiles 16 (t / 16) … t of the point's core (it is zeroed at a core's first step), the other
   accumulator the same for the squares. -/
import proofs.«118595_j1726576853663_2_alg».proof.Proof.KI.R4.ValueRaw
import proofs.«118595_j1726576853663_2_alg».proof.Proof.KI.LibRestart
import proofs.«118595_j1726576853663_2_alg».proof.Proof.LibTileSum

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the TensorCore's buffer contents when the region is entered, over the extended reals
variable (V : (c : Dev nD) → (b : Ref sig .tc) → Buf (Elt Ideal) ((c : Thread nD τ).loc b))

/-- Tile k's column sums: rows 2048 k … 2048 k + 2047 of the raw products (nothing beyond the 32 tiles). -/
def tile4 (c : Dev nD) (o : Fin 10) (k : ℕ) : EReal :=
  if h : k < 32 then ∑ r : Fin 2048, RAW4 V c ⟨2048 * k + r.val, by have := r.isLt; omega⟩ o else 0
/-- The same for the squares. -/
def tileSq4 (c : Dev nD) (o : Fin 10) (k : ℕ) : EReal :=
  if h : k < 32 then ∑ r : Fin 2048, RAW4 V c ⟨2048 * k + r.val, by have := r.isLt; omega⟩ o * RAW4 V c ⟨2048 * k + r.val, by have := r.isLt; omega⟩ o else 0

/-- One step of the column-sum accumulator at point t: the tile's column sums are added. -/
theorem step4_pay1 (c : Dev nD) (t : Fin cfg4.N) (acc : Vec Ideal S1x10 .f32) (u : Fin 1) (o : Fin 10) :
    k4_pay1 (F := Ideal) (k4_pay7 (F := Ideal) (iblk4 V c 0 t) (iblk4 V c 2 t) (iblk4 V c 3 t) (iblk4 V c 1 t) (iblk4 V c 4 t) (iblk4 V c 5 t)) acc (ix2 u o) = acc (ix2 u o) + tile4 V c o t.val := by
  refine (k4_pay1_apply _ acc u o).trans ?_
  refine congrArg (acc (ix2 u o) + ·) ?_
  unfold tile4; rw [dif_pos (lt_N4 t)]
  exact Finset.sum_congr rfl fun r _ => pay7_blk4 V c t r o _
theorem step4_pay2 (c : Dev nD) (t : Fin cfg4.N) (acc : Vec Ideal S1x10 .f32) (u : Fin 1) (o : Fin 10) :
    k4_pay2 (F := Ideal) (k4_pay7 (F := Ideal) (iblk4 V c 0 t) (iblk4 V c 2 t) (iblk4 V c 3 t) (iblk4 V c 1 t) (iblk4 V c 4 t) (iblk4 V c 5 t)) acc (ix2 u o) = acc (ix2 u o) + tileSq4 V c o t.val := by
  refine (k4_pay2_apply _ acc u o).trans ?_
  refine congrArg (acc (ix2 u o) + ·) ?_
  unfold tileSq4; rw [dif_pos (lt_N4 t)]
  exact Finset.sum_congr rfl fun r _ => congrArg₂ (· * ·) (pay7_blk4 V c t r o _) (pay7_blk4 V c t r o _)

/-! ## The accumulators point by point -/

set_option maxHeartbeats 1000000 in
/-- At a core's first step accumulator 0 is the first tile's sums (from zero). -/
theorem acc0_first4 (c : Dev nD) (t : Fin cfg4.N) (h0 : t.val % 16 = 0) (u : Fin 1) (o : Fin 10) :
    (outsAt4 V c t.val t.isLt).2.2.2.1 (ix2 u o) = 0 + tile4 V c o t.val := by
  have h1 : ¬t.val % 16 = 15 := by omega
  rw [outsAt4_A V c t h0 h1]
  dsimp only
  refine (congrFun (sout4_A_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t)) (ix2 u o)).trans ?_
  refine (step4_pay1 V c t _ u o).trans ?_
  rw [k4_pay5_apply]

set_option maxHeartbeats 1000000 in
/-- At any later step the tile's sums are added to what the step before left. -/
theorem acc0_next4 (c : Dev nD) (t : Fin cfg4.N) (h0 : ¬t.val % 16 = 0) (u : Fin 1) (o : Fin 10) :
    (outsAt4 V c t.val t.isLt).2.2.2.1 (ix2 u o) = (outsAt4 V c (t.val - 1) (Nat.lt_of_le_of_lt (Nat.sub_le _ _) t.isLt)).2.2.2.1 (ix2 u o) + tile4 V c o t.val := by
  by_cases h1 : t.val % 16 = 15
  · rw [outsAt4_C V c t h0 h1]
    dsimp only
    refine (congrFun (sout4_C_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) (ix2 u o)).trans ?_
    exact step4_pay1 V c t _ u o
  · rw [outsAt4_B V c t h0 h1]
    dsimp only
    refine (congrFun (sout4_B_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) (ix2 u o)).trans ?_
    exact step4_pay1 V c t _ u o

set_option maxHeartbeats 1000000 in
/-- At a core's first step accumulator 1 is the first tile's sums (from zero). -/
theorem acc1_first4 (c : Dev nD) (t : Fin cfg4.N) (h0 : t.val % 16 = 0) (u : Fin 1) (o : Fin 10) :
    (outsAt4 V c t.val t.isLt).2.2.2.2 (ix2 u o) = 0 + tileSq4 V c o t.val := by
  have h1 : ¬t.val % 16 = 15 := by omega
  rw [outsAt4_A V c t h0 h1]
  dsimp only
  refine (congrFun (sout4_A_1_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t) (iblk4 V c 5 t)) (ix2 u o)).trans ?_
  refine (step4_pay2 V c t _ u o).trans ?_
  rw [k4_pay6_apply]

set_option maxHeartbeats 1000000 in
/-- At any later step the tile's sums are added to what the step before left. -/
theorem acc1_next4 (c : Dev nD) (t : Fin cfg4.N) (h0 : ¬t.val % 16 = 0) (u : Fin 1) (o : Fin 10) :
    (outsAt4 V c t.val t.isLt).2.2.2.2 (ix2 u o) = (outsAt4 V c (t.val - 1) (Nat.lt_of_le_of_lt (Nat.sub_le _ _) t.isLt)).2.2.2.2 (ix2 u o) + tileSq4 V c o t.val := by
  by_cases h1 : t.val % 16 = 15
  · rw [outsAt4_C V c t h0 h1]
    dsimp only
    refine (congrFun (sout4_C_1_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) (ix2 u o)).trans ?_
    exact step4_pay2 V c t _ u o
  · rw [outsAt4_B V c t h0 h1]
    dsimp only
    refine (congrFun (sout4_B_1_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) (ix2 u o)).trans ?_
    exact step4_pay2 V c t _ u o

/-! ## The accumulators in closed form: by induction on the point -/

/-- Accumulator 0 after point n: the tiles 16 (n / 16) … n of the point's core. -/
theorem acc0_eq4 (c : Dev nD) (u : Fin 1) (o : Fin 10) (n : ℕ) (h : n < cfg4.N) :
    (outsAt4 V c n h).2.2.2.1 (ix2 u o) = ∑ k ∈ Finset.range (n % 16 + 1), tile4 V c o (16 * (n / 16) + k) := by
  have key := Cert.LibRestart.restart_sum16 (fun n => if h : n < cfg4.N then (outsAt4 V c n h).2.2.2.1 (ix2 u o) else 0) (tile4 V c o) cfg4.N
    (fun n hn h0 => by beta_reduce; rw [dif_pos hn]; exact acc0_first4 V c ⟨n, hn⟩ h0 u o)
    (fun n hn h0 => by
      beta_reduce
      rw [dif_pos hn, dif_pos (show n - 1 < cfg4.N by omega)]
      exact acc0_next4 V c ⟨n, hn⟩ h0 u o) n h
  beta_reduce at key
  rw [dif_pos h] at key
  exact key

/-- Accumulator 1 after point n: the tiles 16 (n / 16) … n of the point's core. -/
theorem acc1_eq4 (c : Dev nD) (u : Fin 1) (o : Fin 10) (n : ℕ) (h : n < cfg4.N) :
    (outsAt4 V c n h).2.2.2.2 (ix2 u o) = ∑ k ∈ Finset.range (n % 16 + 1), tileSq4 V c o (16 * (n / 16) + k) := by
  have key := Cert.LibRestart.restart_sum16 (fun n => if h : n < cfg4.N then (outsAt4 V c n h).2.2.2.2 (ix2 u o) else 0) (tileSq4 V c o) cfg4.N
    (fun n hn h0 => by beta_reduce; rw [dif_pos hn]; exact acc1_first4 V c ⟨n, hn⟩ h0 u o)
    (fun n hn h0 => by
      beta_reduce
      rw [dif_pos hn, dif_pos (show n - 1 < cfg4.N by omega)]
      exact acc1_next4 V c ⟨n, hn⟩ h0 u o) n h
  beta_reduce at key
  rw [dif_pos h] at key
  exact key

/-- A core's sixteen tiles are its 32768 rows. -/
theorem core_tiles4 (c : Dev nD) (o : Fin 10) (g : ℕ) (hg : g < 2) :
    ∑ k ∈ Finset.range 16, tile4 V c o (16 * g + k)
      = ∑ r' : Fin 32768, RAW4 V c ⟨g * 32768 + r'.val, by have := r'.isLt; omega⟩ o := by
  rw [Finset.sum_range, Cert.LibTileSum.sum_tiles_of_eq (N := 32768) (T := 16) (B := 2048) rfl]
  refine Finset.sum_congr rfl fun k _ => ?_
  unfold tile4; rw [dif_pos (by have := k.isLt; omega)]
  refine Finset.sum_congr rfl fun r _ => ?_
  have e : (⟨2048 * (16 * g + k.val) + r.val, by have := k.isLt; have := r.isLt; omega⟩ : Fin 65536)
      = ⟨g * 32768 + (2048 * k.val + r.val), by have := k.isLt; have := r.isLt; omega⟩ := Fin.ext (by show 2048 * (16 * g + k.val) + r.val = g * 32768 + (2048 * k.val + r.val); omega)
  exact congrArg (fun q => RAW4 V c q o) e
theorem core_tilesSq4 (c : Dev nD) (o : Fin 10) (g : ℕ) (hg : g < 2) :
    ∑ k ∈ Finset.range 16, tileSq4 V c o (16 * g + k)
      = ∑ r' : Fin 32768, RAW4 V c ⟨g * 32768 + r'.val, by have := r'.isLt; omega⟩ o * RAW4 V c ⟨g * 32768 + r'.val, by have := r'.isLt; omega⟩ o := by
  rw [Finset.sum_range, Cert.LibTileSum.sum_tiles_of_eq (N := 32768) (T := 16) (B := 2048) rfl]
  refine Finset.sum_congr rfl fun k _ => ?_
  unfold tileSq4; rw [dif_pos (by have := k.isLt; omega)]
  refine Finset.sum_congr rfl fun r _ => ?_
  have e : (⟨2048 * (16 * g + k.val) + r.val, by have := k.isLt; have := r.isLt; omega⟩ : Fin 65536)
      = ⟨g * 32768 + (2048 * k.val + r.val), by have := k.isLt; have := r.isLt; omega⟩ := Fin.ext (by show 2048 * (16 * g + k.val) + r.val = g * 32768 + (2048 * k.val + r.val); omega)
  exact congrArg (fun q => RAW4 V c q o * RAW4 V c q o) e

end Cert.KernelIdeal.Hand

end
-- ==== Proof.KI.R4.ValueSums.lean ====
/- Region 4 over the extended reals, the two partial-sum outputs. At a core's last step the accumulators are stored along the eight
   rows of the core's block of windows 7 and 8, which that point writes back: rows 8 g … 8 g + 7 of window 7 end holding the column sums
   of this layer's raw products over core g's 32768 rows, and of window 8 the column sums of their squares. -/
import proofs.«118595_j1726576853663_2_alg».proof.Proof.KI.R4.ValueAcc

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

-- the TensorCore's buffer contents when the region is entered, over the extended reals
variable (V : (c : Dev nD) → (b : Ref sig .tc) → Buf (Elt Ideal) ((c : Thread nD τ).loc b))

set_option maxHeartbeats 1000000 in
/-- At a core's last step window 7's staging buffer holds accumulator 0 in each of its eight rows. -/
theorem outs4_7 (c : Dev nD) (t : Fin cfg4.N) (h1 : t.val % 16 = 15) (p : Fin 8) (o : Fin 10) :
    (outsAt4 V c t.val t.isLt).2.1 (ix2 p o) = (outsAt4 V c t.val t.isLt).2.2.2.1 (ix2 (0 : Fin 1) o) := by
  have h0 : ¬t.val % 16 = 0 := by omega
  rw [outsAt4_C V c t h0 h1]
  dsimp only
  refine (congrFun (out4_C_7_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) (ix2 p o)).trans ?_
  refine (k4_pay3_apply _ p o).trans ?_
  exact (congrFun (sout4_C_0_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) (ix2 (0 : Fin 1) o)).symm

/-- A block of window 7's array read back: row p of the block at point t is row 8 (t / 16) + p of the array. -/
theorem read_blk4_7 (G : S16x10.Idx → EReal) (t : Fin cfg4.N) (p : Fin 8) (o : Fin 10) (hp : t.val / 16 * 8 + p.val < 16) :
    (((cfg4.win 7).blk t).view.read (Elt Ideal) G : Vec Ideal S8x10 .f32) (ix2 p o) = G (ix2 ⟨t.val / 16 * 8 + p.val, hp⟩ o) := by
  show G (((cfg4.win 7).blk t).view.emb (ix2 p o)) = G _
  refine congrArg G ?_
  funext a; apply Fin.ext
  match a with
  | ⟨0, _⟩ => show win4_7.index t (0 : Fin 2) * 8 + 1 * p.val = t.val / 16 * 8 + p.val; rw [(idx4_7 t).1]; omega
  | ⟨1, _⟩ => show win4_7.index t (1 : Fin 2) * 10 + 1 * o.val = o.val; rw [(idx4_7 t).2]; omega

/-- Core g's sums as contents of window 7's array: rows 8 g … 8 g + 7 all hold them. -/
def G4_7 (c : Dev nD) : S16x10.Idx → EReal := fun j => ∑ r' : Fin 32768, RAW4 V c ⟨(j 0).val / 8 * 32768 + r'.val, by have := idx2_lt0 j; have := r'.isLt; omega⟩ (j 1)

theorem flushed4_7_eq (c : Dev nD) (t : Fin cfg4.N) (hf : (cfg4.win 7).flush t = true) :
    (dat4 V c).flushed 7 t = ((cfg4.win 7).blk t).view.read (Elt Ideal) (G4_7 V c) := by
  have h1 : t.val % 16 = 15 := (flush4_7 t).mp hf
  have hN := lt_N4 t
  show (cfg4.win 7).cut (grid4.coords t) ((dat4 V c).after 7 t) = _
  rw [after4_7]
  funext j
  obtain ⟨p, o, rfl⟩ : ∃ (p : Fin 8) (o : Fin 10), j = ix2 p o := ⟨j 0, j 1, eq_ix2 j⟩
  refine (outs4_7 V c t h1 p o).trans ?_
  refine (acc0_eq4 V c 0 o t.val t.isLt).trans ?_
  have e16 : t.val % 16 + 1 = 16 := by omega
  rw [e16]
  refine (core_tiles4 V c o (t.val / 16) (by omega)).trans ?_
  have hp : t.val / 16 * 8 + p.val < 16 := by have := p.isLt; omega
  refine Eq.trans ?_ (read_blk4_7 (G4_7 V c) t p o hp).symm
  unfold G4_7
  refine Finset.sum_congr rfl fun r' _ => ?_
  have e : RAW4 V c ⟨t.val / 16 * 32768 + r'.val, by have := r'.isLt; omega⟩ o
      = RAW4 V c ⟨(t.val / 16 * 8 + p.val) / 8 * 32768 + r'.val, by have := r'.isLt; omega⟩ o :=
    congrArg (fun q => RAW4 V c q o) (Fin.ext (by show t.val / 16 * 32768 + r'.val = (t.val / 16 * 8 + p.val) / 8 * 32768 + r'.val; omega))
  exact e

theorem mem_blk4_7 (t : Fin cfg4.N) (i : S16x10.Idx) :
    i ∈ ((cfg4.win 7).blk t).view.set ↔ ∀ a : Fin 2, win4_7.index t a * S8x10.size a ≤ (i a).val ∧ (i a).val < win4_7.index t a * S8x10.size a + S8x10.size a := by
  show i ∈ ((View.whole main_v104_1).slice (win4_7.rect t)).set ↔ _
  rw [View.set_slice_whole, Rect.mem_set_unit]
  exact Iff.rfl

/-- WINDOW 7 after the region: core g's sums in rows 8 g … 8 g + 7, every entry. -/
theorem final4_7 (c : Dev nD) : (dat4 V c).arrAt 7 cfg4.N = G4_7 V c :=
  (dat4 V c).arrAt_eq_of_cover 7 (G4_7 V c) (fun t hf => flushed4_7_eq V c t hf) fun i => by
    have hi0 : (i 0).val < 16 := (i 0).isLt
    have hi1 : (i 1).val < 10 := (i 1).isLt
    refine ⟨⟨(i 0).val / 8 * 16 + 15, by rw [show cfg4.N = 32 from N_4]; omega⟩, (flush4_7 _).mpr (by dsimp only; omega), ?_⟩
    rw [mem_blk4_7]
    intro a
    match a with
    | ⟨0, _⟩ => show win4_7.index _ (0 : Fin 2) * 8 ≤ (i 0).val ∧ (i 0).val < win4_7.index _ (0 : Fin 2) * 8 + 8; rw [(idx4_7 _).1]; dsimp only; omega
    | ⟨1, _⟩ => show win4_7.index _ (1 : Fin 2) * 10 ≤ (i 1).val ∧ (i 1).val < win4_7.index _ (1 : Fin 2) * 10 + 10; rw [(idx4_7 _).2]; omega

/-- The same entry by entry: row p belongs to core p / 8. -/
theorem value4_7 (c : Dev nD) (p : Fin 16) (o : Fin 10) :
    (dat4 V c).arrAt 7 cfg4.N (ix2 p o) = ∑ r' : Fin 32768, RAW4 V c ⟨p.val / 8 * 32768 + r'.val, by have := p.isLt; have := r'.isLt; omega⟩ o :=
  congrFun (final4_7 V c) (ix2 p o)

set_option maxHeartbeats 1000000 in
/-- At a core's last step window 8's staging buffer holds accumulator 1 in each of its eight rows. -/
theorem outs4_8 (c : Dev nD) (t : Fin cfg4.N) (h1 : t.val % 16 = 15) (p : Fin 8) (o : Fin 10) :
    (outsAt4 V c t.val t.isLt).2.2.1 (ix2 p o) = (outsAt4 V c t.val t.isLt).2.2.2.2 (ix2 (0 : Fin 1) o) := by
  have h0 : ¬t.val % 16 = 0 := by omega
  rw [outsAt4_C V c t h0 h1]
  dsimp only
  refine (congrFun (out4_C_8_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) (ix2 p o)).trans ?_
  refine (k4_pay4_apply _ p o).trans ?_
  exact (congrFun (sout4_C_1_eq (F := Ideal) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (iblk4 V c 5 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) (ix2 (0 : Fin 1) o)).symm

/-- A block of window 8's array read back: row p of the block at point t is row 8 (t / 16) + p of the array. -/
theorem read_blk4_8 (G : S16x10.Idx → EReal) (t : Fin cfg4.N) (p : Fin 8) (o : Fin 10) (hp : t.val / 16 * 8 + p.val < 16) :
    (((cfg4.win 8).blk t).view.read (Elt Ideal) G : Vec Ideal S8x10 .f32) (ix2 p o) = G (ix2 ⟨t.val / 16 * 8 + p.val, hp⟩ o) := by
  show G (((cfg4.win 8).blk t).view.emb (ix2 p o)) = G _
  refine congrArg G ?_
  funext a; apply Fin.ext
  match a with
  | ⟨0, _⟩ => show win4_8.index t (0 : Fin 2) * 8 + 1 * p.val = t.val / 16 * 8 + p.val; rw [(idx4_8 t).1]; omega
  | ⟨1, _⟩ => show win4_8.index t (1 : Fin 2) * 10 + 1 * o.val = o.val; rw [(idx4_8 t).2]; omega

/-- Core g's sums as contents of window 8's array: rows 8 g … 8 g + 7 all hold them. -/
def G4_8 (c : Dev nD) : S16x10.Idx → EReal := fun j => ∑ r' : Fin 32768, RAW4 V c ⟨(j 0).val / 8 * 32768 + r'.val, by have := idx2_lt0 j; have := r'.isLt; omega⟩ (j 1) * RAW4 V c ⟨(j 0).val / 8 * 32768 + r'.val, by have := idx2_lt0 j; have := r'.isLt; omega⟩ (j 1)

theorem flushed4_8_eq (c : Dev nD) (t : Fin cfg4.N) (hf : (cfg4.win 8).flush t = true) :
    (dat4 V c).flushed 8 t = ((cfg4.win 8).blk t).view.read (Elt Ideal) (G4_8 V c) := by
  have h1 : t.val % 16 = 15 := (flush4_8 t).mp hf
  have hN := lt_N4 t
  show (cfg4.win 8).cut (grid4.coords t) ((dat4 V c).after 8 t) = _
  rw [after4_8]
  funext j
  obtain ⟨p, o, rfl⟩ : ∃ (p : Fin 8) (o : Fin 10), j = ix2 p o := ⟨j 0, j 1, eq_ix2 j⟩
  refine (outs4_8 V c t h1 p o).trans ?_
  refine (acc1_eq4 V c 0 o t.val t.isLt).trans ?_
  have e16 : t.val % 16 + 1 = 16 := by omega
  rw [e16]
  refine (core_tilesSq4 V c o (t.val / 16) (by omega)).trans ?_
  have hp : t.val / 16 * 8 + p.val < 16 := by have := p.isLt; omega
  refine Eq.trans ?_ (read_blk4_8 (G4_8 V c) t p o hp).symm
  unfold G4_8
  refine Finset.sum_congr rfl fun r' _ => ?_
  have e : RAW4 V c ⟨t.val / 16 * 32768 + r'.val, by have := r'.isLt; omega⟩ o
      = RAW4 V c ⟨(t.val / 16 * 8 + p.val) / 8 * 32768 + r'.val, by have := r'.isLt; omega⟩ o :=
    congrArg (fun q => RAW4 V c q o) (Fin.ext (by show t.val / 16 * 32768 + r'.val = (t.val / 16 * 8 + p.val) / 8 * 32768 + r'.val; omega))
  exact congrArg₂ (· * ·) e e

theorem mem_blk4_8 (t : Fin cfg4.N) (i : S16x10.Idx) :
    i ∈ ((cfg4.win 8).blk t).view.set ↔ ∀ a : Fin 2, win4_8.index t a * S8x10.size a ≤ (i a).val ∧ (i a).val < win4_8.index t a * S8x10.size a + S8x10.size a := by
  show i ∈ ((View.whole main_v104_2).slice (win4_8.rect t)).set ↔ _
  rw [View.set_slice_whole, Rect.mem_set_unit]
  exact Iff.rfl

/-- WINDOW 8 after the region: core g's sums in rows 8 g … 8 g + 7, every entry. -/
theorem final4_8 (c : Dev nD) : (dat4 V c).arrAt 8 cfg4.N = G4_8 V c :=
  (dat4 V c).arrAt_eq_of_cover 8 (G4_8 V c) (fun t hf => flushed4_8_eq V c t hf) fun i => by
    have hi0 : (i 0).val < 16 := (i 0).isLt
    have hi1 : (i 1).val < 10 := (i 1).isLt
    refine ⟨⟨(i 0).val / 8 * 16 + 15, by rw [show cfg4.N = 32 from N_4]; omega⟩, (flush4_8 _).mpr (by dsimp only; omega), ?_⟩
    rw [mem_blk4_8]
    intro a
    match a with
    | ⟨0, _⟩ => show win4_8.index _ (0 : Fin 2) * 8 ≤ (i 0).val ∧ (i 0).val < win4_8.index _ (0 : Fin 2) * 8 + 8; rw [(idx4_8 _).1]; dsimp only; omega
    | ⟨1, _⟩ => show win4_8.index _ (1 : Fin 2) * 10 ≤ (i 1).val ∧ (i 1).val < win4_8.index _ (1 : Fin 2) * 10 + 10; rw [(idx4_8 _).2]; omega

/-- The same entry by entry: row p belongs to core p / 8. -/
theorem value4_8 (c : Dev nD) (p : Fin 16) (o : Fin 10) :
    (dat4 V c).arrAt 8 cfg4.N (ix2 p o) = ∑ r' : Fin 32768, RAW4 V c ⟨p.val / 8 * 32768 + r'.val, by have := p.isLt; have := r'.isLt; omega⟩ o * RAW4 V c ⟨p.val / 8 * 32768 + r'.val, by have := p.isLt; have := r'.isLt; omega⟩ o :=
  congrFun (final4_8 V c) (ix2 p o)

end Cert.KernelIdeal.Hand

end
-- ==== Proof.KI.R5.Value.lean ====
/- What REGION 5 of @main (the softmax statistics) leaves in its two output arrays, over the extended reals. With
   y r o = γ o * (x r o − mean o) * rsqrt(var o + ε) + β o the batch-normalised value of the raw array x, the region walks
   the 65536 rows in 32 blocks of 2048, 16 blocks per core; per column it keeps a running maximum M and a running sum S,
   cleared at the first block of a core and updated at each block by
       M' = max M (the block's column maximum),   S' = S * exp(M − M') + Σ_{rows of the block} exp(y − M'),
   and after the last block of a core writes M and S, repeated over 8 rows, into that core's block of the two outputs.
   So rows 8g … 8g+7 of output 5 hold the maximum of y over core g's 32768 rows and those of output 6 the sum of
   exp(y − that maximum) over them — the second under the hypothesis that y is real-valued there. -/
import proofs.«118595_j1726576853663_2_alg».proof.Proof.KI.R5.Frame
import proofs.«118595_j1726576853663_2_alg».proof.Proof.Spec
import proofs.«118595_j1726576853663_2_alg».proof.Proof.LibOnlineSoftmax
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.Tactic
open Idealize.ShloMosaic.Pipeline (Dat)

theorem hz5 : (![0, 0] : Fin 2 → Nat) = fun _ => 0 := funext fun a => by fin_cases a <;> rfl

/-! ## What each kind of point leaves, as terms of the body's arithmetic (at any F) -/

section Pieces
variable {F : FTy → Type} [FloatOps F]

/-- At a clearing point the running maximum becomes the new maximum over the cleared one. -/
theorem piece5_A_0 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : cond5_0 i) (hc1 : ¬cond5_1 i) (x0 : Vec F S2048x10 .f32) (x1 : Vec F S1x10 .f32) (x2 : Vec F S1x10 .f32) (x3 : Vec F S1x10 .f32) (x4 : Vec F S1x10 .f32) :
    sout5_A_0 c i arg2 harg2 arg3 harg3 arg4 harg4 arg5 harg5 arg6 harg6 arg7 harg7 arg8 harg8 arg9 harg9 arg10 harg10 hc0 hc1 x0 x1 x2 x3 x4 = k5_pay2 (k5_pay8 x0 x2 x3 x1 x4 k5_pay5) := by
  unfold sout5_A_0
  rw [View.read_writes_eq_canon _ _ _ (scover5_A_0 c i arg2 harg2 arg3 harg3 arg4 harg4 arg5 harg5 arg6 harg6 arg7 harg7 arg8 harg8 arg9 harg9 arg10 harg10 hc0 hc1 x0 x1 x2 x3 x4)]
  unfold kernelRun5_A
  dsimp only
  try sl_unfold_words
  rw [View.canon_cons_unit_zero hz5]
  simp only [View.readAt_eq_ld, harg2.read_unread, harg3.read_unread, harg4.read_unread, harg5.read_unread, harg6.read_unread, harg9.read_unread, harg10.read_unread, View.ld_unit_zero (S := S2048x10) hz5, View.ld_unit_zero (S := S1x10) hz5, View.readCov_unit_zero (S := S1x10) _ hz5]
  all_goals rfl

/-- At a clearing point the running sum becomes the update of the cleared sum. -/
theorem piece5_A_1 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : cond5_0 i) (hc1 : ¬cond5_1 i) (x0 : Vec F S2048x10 .f32) (x1 : Vec F S1x10 .f32) (x2 : Vec F S1x10 .f32) (x3 : Vec F S1x10 .f32) (x4 : Vec F S1x10 .f32) :
    sout5_A_1 c i arg2 harg2 arg3 harg3 arg4 harg4 arg5 harg5 arg6 harg6 arg7 harg7 arg8 harg8 arg9 harg9 arg10 harg10 hc0 hc1 x0 x1 x2 x3 x4 = k5_pay1 (k5_pay9 x0 x2 x3 x1 x4 k5_pay5 k5_pay5) (k5_pay10 x0 x2 x3 x1 x4 k5_pay5) k5_pay6 := by
  unfold sout5_A_1
  rw [View.read_writes_eq_canon _ _ _ (scover5_A_1 c i arg2 harg2 arg3 harg3 arg4 harg4 arg5 harg5 arg6 harg6 arg7 harg7 arg8 harg8 arg9 harg9 arg10 harg10 hc0 hc1 x0 x1 x2 x3 x4)]
  unfold kernelRun5_A
  dsimp only
  try sl_unfold_words
  rw [View.canon_cons_unit_zero hz5]
  simp only [View.readAt_eq_ld, harg2.read_unread, harg3.read_unread, harg4.read_unread, harg5.read_unread, harg6.read_unread, harg9.read_unread, harg10.read_unread, View.ld_unit_zero (S := S2048x10) hz5, View.ld_unit_zero (S := S1x10) hz5, View.readCov_unit_zero (S := S1x10) _ hz5]
  all_goals rfl

/-- At a middle point the running maximum is updated from what the point before left. -/
theorem piece5_B_0 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : ¬cond5_1 i) (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) :
    sout5_B_0 c i arg2 harg2 arg3 harg3 arg4 harg4 arg5 harg5 arg6 harg6 arg7 harg7 arg8 harg8 arg9 harg9 arg10 harg10 hc0 hc1 x0 x1 x2 x3 x4 xs0 xs1 = k5_pay2 (k5_pay8 x0 x2 x3 x1 x4 xs0) := by
  unfold sout5_B_0
  rw [View.read_writes_eq_canon _ _ _ (scover5_B_0 c i arg2 harg2 arg3 harg3 arg4 harg4 arg5 harg5 arg6 harg6 arg7 harg7 arg8 harg8 arg9 harg9 arg10 harg10 hc0 hc1 x0 x1 x2 x3 x4 xs0 xs1)]
  unfold kernelRun5_B
  dsimp only
  try sl_unfold_words
  rw [View.canon_cons_unit_zero hz5]
  simp only [View.readAt_eq_ld, harg2.read_unread, harg3.read_unread, harg4.read_unread, harg5.read_unread, harg6.read_unread, harg9.read_unread, harg10.read_unread, View.ld_unit_zero (S := S2048x10) hz5, View.ld_unit_zero (S := S1x10) hz5, View.readCov_unit_zero (S := S1x10) _ hz5]
  all_goals rfl

/-- At a middle point the running sum is updated from what the point before left. -/
theorem piece5_B_1 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : ¬cond5_1 i) (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) :
    sout5_B_1 c i arg2 harg2 arg3 harg3 arg4 harg4 arg5 harg5 arg6 harg6 arg7 harg7 arg8 harg8 arg9 harg9 arg10 harg10 hc0 hc1 x0 x1 x2 x3 x4 xs0 xs1 = k5_pay1 (k5_pay9 x0 x2 x3 x1 x4 xs0 xs0) (k5_pay10 x0 x2 x3 x1 x4 xs0) xs1 := by
  unfold sout5_B_1
  rw [View.read_writes_eq_canon _ _ _ (scover5_B_1 c i arg2 harg2 arg3 harg3 arg4 harg4 arg5 harg5 arg6 harg6 arg7 harg7 arg8 harg8 arg9 harg9 arg10 harg10 hc0 hc1 x0 x1 x2 x3 x4 xs0 xs1)]
  unfold kernelRun5_B
  dsimp only
  try sl_unfold_words
  rw [View.canon_cons_unit_zero hz5]
  simp only [View.readAt_eq_ld, harg2.read_unread, harg3.read_unread, harg4.read_unread, harg5.read_unread, harg6.read_unread, harg9.read_unread, harg10.read_unread, View.ld_unit_zero (S := S2048x10) hz5, View.ld_unit_zero (S := S1x10) hz5, View.readCov_unit_zero (S := S1x10) _ hz5]
  all_goals rfl

/-- At a core's last point the running maximum is updated as at a middle point, -/
theorem piece5_C_0 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i) (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) :
    sout5_C_0 c i arg2 harg2 arg3 harg3 arg4 harg4 arg5 harg5 arg6 harg6 arg7 harg7 arg8 harg8 arg9 harg9 arg10 harg10 hc0 hc1 x0 x1 x2 x3 x4 xs0 xs1 = k5_pay2 (k5_pay8 x0 x2 x3 x1 x4 xs0) := by
  unfold sout5_C_0
  rw [View.read_writes_eq_canon _ _ _ (scover5_C_0 c i arg2 harg2 arg3 harg3 arg4 harg4 arg5 harg5 arg6 harg6 arg7 harg7 arg8 harg8 arg9 harg9 arg10 harg10 hc0 hc1 x0 x1 x2 x3 x4 xs0 xs1)]
  unfold kernelRun5_C
  dsimp only
  try sl_unfold_words
  rw [View.canon_cons_unit_zero hz5]
  simp only [View.readAt_eq_ld, harg2.read_unread, harg3.read_unread, harg4.read_unread, harg5.read_unread, harg6.read_unread, harg9.read_unread, harg10.read_unread, View.ld_unit_zero (S := S2048x10) hz5, View.ld_unit_zero (S := S1x10) hz5, View.readCov_unit_zero (S := S1x10) _ hz5]
  all_goals rfl

/-- and so is the running sum; -/
theorem piece5_C_1 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i) (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) :
    sout5_C_1 c i arg2 harg2 arg3 harg3 arg4 harg4 arg5 harg5 arg6 harg6 arg7 harg7 arg8 harg8 arg9 harg9 arg10 harg10 hc0 hc1 x0 x1 x2 x3 x4 xs0 xs1 = k5_pay1 (k5_pay9 x0 x2 x3 x1 x4 xs0 xs0) (k5_pay10 x0 x2 x3 x1 x4 xs0) xs1 := by
  unfold sout5_C_1
  rw [View.read_writes_eq_canon _ _ _ (scover5_C_1 c i arg2 harg2 arg3 harg3 arg4 harg4 arg5 harg5 arg6 harg6 arg7 harg7 arg8 harg8 arg9 harg9 arg10 harg10 hc0 hc1 x0 x1 x2 x3 x4 xs0 xs1)]
  unfold kernelRun5_C
  dsimp only
  try sl_unfold_words
  rw [View.canon_cons_unit_zero hz5]
  simp only [View.readAt_eq_ld, harg2.read_unread, harg3.read_unread, harg4.read_unread, harg5.read_unread, harg6.read_unread, harg9.read_unread, harg10.read_unread, View.ld_unit_zero (S := S2048x10) hz5, View.ld_unit_zero (S := S1x10) hz5, View.readCov_unit_zero (S := S1x10) _ hz5]
  all_goals rfl

/-- and each is then stored, repeated over 8 rows, into its output block. -/
theorem piece5_C_o5 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i) (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) :
    out5_C_5 c i arg2 harg2 arg3 harg3 arg4 harg4 arg5 harg5 arg6 harg6 arg7 harg7 arg8 harg8 arg9 harg9 arg10 harg10 hc0 hc1 x0 x1 x2 x3 x4 xs0 xs1 = k5_pay3 (k5_pay2 (k5_pay8 x0 x2 x3 x1 x4 xs0)) := by
  unfold out5_C_5
  rw [View.read_writes_eq_canon _ _ _ (cover5_C_5 c i arg2 harg2 arg3 harg3 arg4 harg4 arg5 harg5 arg6 harg6 arg7 harg7 arg8 harg8 arg9 harg9 arg10 harg10 hc0 hc1 x0 x1 x2 x3 x4 xs0 xs1)]
  unfold kernelRun5_C
  dsimp only
  try sl_unfold_words
  rw [View.canon_cons_unit_zero hz5]
  simp only [View.readAt_eq_ld, harg2.read_unread, harg3.read_unread, harg4.read_unread, harg5.read_unread, harg6.read_unread, harg9.read_unread, harg10.read_unread, View.ld_unit_zero (S := S2048x10) hz5, View.ld_unit_zero (S := S1x10) hz5, View.readCov_unit_zero (S := S1x10) _ hz5]
  all_goals rfl
theorem piece5_C_o6 (c : Dev nD) (i : grid5.Coords) (arg2 : Memref sig .tc .vmem S2048x10 .f32) (harg2 : arg2.IsWhole) (arg3 : Memref sig .tc .vmem S1x10 .f32) (harg3 : arg3.IsWhole) (arg4 : Memref sig .tc .vmem S1x10 .f32) (harg4 : arg4.IsWhole) (arg5 : Memref sig .tc .vmem S1x10 .f32) (harg5 : arg5.IsWhole) (arg6 : Memref sig .tc .vmem S1x10 .f32) (harg6 : arg6.IsWhole) (arg7 : Memref sig .tc .vmem S8x10 .f32) (harg7 : arg7.IsWhole) (arg8 : Memref sig .tc .vmem S8x10 .f32) (harg8 : arg8.IsWhole) (arg9 : Memref sig .tc .vmem S1x10 .f32) (harg9 : arg9.IsWhole) (arg10 : Memref sig .tc .vmem S1x10 .f32) (harg10 : arg10.IsWhole) (hc0 : ¬cond5_0 i) (hc1 : cond5_1 i) (x0 : Vec F S2048x10 .f32) (x1 : Vec F S1x10 .f32) (x2 : Vec F S1x10 .f32) (x3 : Vec F S1x10 .f32) (x4 : Vec F S1x10 .f32) (xs0 : Vec F S1x10 .f32) (xs1 : Vec F S1x10 .f32) :
    out5_C_6 c i arg2 harg2 arg3 harg3 arg4 harg4 arg5 harg5 arg6 harg6 arg7 harg7 arg8 harg8 arg9 harg9 arg10 harg10 hc0 hc1 x0 x1 x2 x3 x4 xs0 xs1 = k5_pay4 (k5_pay1 (k5_pay9 x0 x2 x3 x1 x4 xs0 xs0) (k5_pay10 x0 x2 x3 x1 x4 xs0) xs1) := by
  unfold out5_C_6
  rw [View.read_writes_eq_canon _ _ _ (cover5_C_6 c i arg2 harg2 arg3 harg3 arg4 harg4 arg5 harg5 arg6 harg6 arg7 harg7 arg8 harg8 arg9 harg9 arg10 harg10 hc0 hc1 x0 x1 x2 x3 x4 xs0 xs1)]
  unfold kernelRun5_C
  dsimp only
  try sl_unfold_words
  rw [View.canon_cons_unit_zero hz5]
  simp only [View.readAt_eq_ld, harg2.read_unread, harg3.read_unread, harg4.read_unread, harg5.read_unread, harg6.read_unread, harg9.read_unread, harg10.read_unread, View.ld_unit_zero (S := S2048x10) hz5, View.ld_unit_zero (S := S1x10) hz5, View.readCov_unit_zero (S := S1x10) _ hz5]
  all_goals rfl

end Pieces

/-! ## The body's arithmetic at an index, over the extended reals -/

/-- A row vector broadcast over the 2048 rows of a block reads, at (p, q), the vector at q; the same over 8 rows. -/
theorem bcast5 (v : Vec Ideal S1x10 .f32) (p : Fin 2048) (q : Fin 10) :
    broadcastTo S2048x10 v broadcasts_S1x10_S2048x10 (ix2 p q) = v (ix2 (0 : Fin 1) q) :=
  broadcastTo_1b_ab_apply (a := 2048) (b := 10) v broadcasts_S1x10_S2048x10 p q
theorem bcast5_8 (v : Vec Ideal S1x10 .f32) (p : Fin 8) (q : Fin 10) :
    broadcastTo S8x10 v broadcasts_S1x10_S8x10 (ix2 p q) = v (ix2 (0 : Fin 1) q) :=
  broadcastTo_1b_ab_apply (a := 8) (b := 10) v broadcasts_S1x10_S8x10 p q

/-- A vector of 10 cast to one row of 10 reads, at (0, q), the vector at q. -/
theorem cast5 (v : FVec Ideal S10 .f32) (q : Fin 10) : shapeCast S1x10 v shapeCasts_S10_S1x10 (ix2 (0 : Fin 1) q) = v (ix1 q) :=
  shapeCast_a_1a_apply (a := 10) v shapeCasts_S10_S1x10 0 q

/-- The index a reduction down the rows inserts: row p of column q. -/
theorem lift5 (q : Fin 10) (p : Fin 2048) : reduces_S2048x10_S10.lift (ix1 q) p = ix2 p q :=
  funext fun a => by match a with | ⟨0, _⟩ => exact Fin.ext rfl | ⟨1, _⟩ => exact Fin.ext rfl

/-- The word of minus infinity is the bottom element. -/
theorem ofBits_ninf5 : Ideal.ofBits .f32 0xFF800000#32 = (⊥ : EReal) := by simp [Ideal.ofBits, Ideal.ieee]

/-- The normalised value of a block at (p, q): γ q * (x p q − mean q) * rsqrt (var q + ε) + β q. -/
def yblk5 (x0 : Vec Ideal S2048x10 .f32) (mean var gamma beta : Vec Ideal S1x10 .f32) (p : Fin 2048) (q : Fin 10) : EReal :=
  gamma (ix2 (0 : Fin 1) q) * (x0 (ix2 p q) - mean (ix2 (0 : Fin 1) q)) * Ideal.rsqrt (var (ix2 (0 : Fin 1) q) + Spec.eps) + beta (ix2 (0 : Fin 1) q)

theorem k5pay7_apply (v3 : Vec Ideal S2048x10 .f32) (v5 v10 v12 v20 : Vec Ideal S1x10 .f32) (p : Fin 2048) (q : Fin 10) :
    k5_pay7 v3 v5 v10 v12 v20 (ix2 p q) = yblk5 v3 v12 v5 v10 v20 p q := by
  unfold k5_pay7 yblk5
  simp only [shapeCast_self]
  show _ * (_ - _) * _ + _ = _
  rw [bcast5, bcast5, bcast5, bcast5]
  rfl

/-- The new running maximum at column q: the larger of the old one and the block's column maximum. -/
theorem k5pay8_apply (v3 : Vec Ideal S2048x10 .f32) (v5 v10 v12 v20 v26 : Vec Ideal S1x10 .f32) (q : Fin 10) :
    k5_pay8 v3 v5 v10 v12 v20 v26 (ix2 (0 : Fin 1) q)
      = max (v26 (ix2 (0 : Fin 1) q)) (Finset.univ.sup fun p : Fin 2048 => yblk5 v3 v12 v5 v10 v20 p q) := by
  unfold k5_pay8
  show max (v26 (ix2 (0 : Fin 1) q)) (shapeCast S1x10 (multiReduction (F := Ideal) .maximumf [0] S10 (k5_pay7 v3 v5 v10 v12 v20) 0xFF800000#32 reduces_S2048x10_S10 (.inl rfl) rfl) shapeCasts_S10_S1x10 (ix2 (0 : Fin 1) q)) = _
  refine congrArg (max (v26 (ix2 (0 : Fin 1) q))) ?_
  refine (cast5 _ q).trans ?_
  refine (Ideal.multiReduction_maximumf_single (k5_pay7 v3 v5 v10 v12 v20) 0xFF800000#32 reduces_S2048x10_S10 (.inl rfl) rfl (ix1 q)).trans ?_
  show Finset.fold max (Ideal.ofBits .f32 0xFF800000#32) (k5_pay7 v3 v5 v10 v12 v20 ∘ reduces_S2048x10_S10.lift (ix1 q)) (Finset.univ : Finset (Fin 2048)) = _
  rw [ofBits_ninf5]
  show (Finset.univ : Finset (Fin 2048)).sup (k5_pay7 v3 v5 v10 v12 v20 ∘ reduces_S2048x10_S10.lift (ix1 q)) = _
  refine congrArg (Finset.univ : Finset (Fin 2048)).sup (funext fun p => ?_)
  show k5_pay7 v3 v5 v10 v12 v20 (reduces_S2048x10_S10.lift (ix1 q) p) = _
  rw [lift5 q p]
  exact k5pay7_apply v3 v5 v10 v12 v20 p q

/-- The rescaling factor at column q: exp (old maximum − new maximum). -/
theorem k5pay9_apply (v3 : Vec Ideal S2048x10 .f32) (v5 v10 v12 v20 v26 v28 : Vec Ideal S1x10 .f32) (q : Fin 10) :
    k5_pay9 v3 v5 v10 v12 v20 v26 v28 (ix2 (0 : Fin 1) q)
      = Ideal.exp (v28 (ix2 (0 : Fin 1) q) - k5_pay8 v3 v5 v10 v12 v20 v26 (ix2 (0 : Fin 1) q)) := rfl

/-- The block's column sum of exponentials relative to the new maximum. -/
theorem k5pay10_apply (v3 : Vec Ideal S2048x10 .f32) (v5 v10 v12 v20 v26 : Vec Ideal S1x10 .f32) (q : Fin 10) :
    k5_pay10 v3 v5 v10 v12 v20 v26 (ix2 (0 : Fin 1) q)
      = ∑ p : Fin 2048, Ideal.exp (yblk5 v3 v12 v5 v10 v20 p q - k5_pay8 v3 v5 v10 v12 v20 v26 (ix2 (0 : Fin 1) q)) := by
  unfold k5_pay10
  refine (cast5 _ q).trans ?_
  refine (Ideal.multiReduction_add_single _ 0x00000000#32 reduces_S2048x10_S10 (.inl rfl) rfl (ix1 q)).trans ?_
  show ∑ p : Fin 2048, _ = _
  refine Finset.sum_congr rfl fun p _ => ?_
  rw [lift5 q p]
  show Ideal.exp (k5_pay7 v3 v5 v10 v12 v20 (ix2 p q) - broadcastTo S2048x10 (k5_pay8 v3 v5 v10 v12 v20 v26) broadcasts_S1x10_S2048x10 (ix2 p q)) = _
  rw [bcast5, k5pay7_apply]

/-- The new running sum: old sum times the rescaling factor, plus the block's sum. -/
theorem k5pay1_apply (v30 v35 : FVec Ideal S1x10 .f32) (v36 : Vec Ideal S1x10 .f32) (q : Fin 10) :
    k5_pay1 v30 v35 v36 (ix2 (0 : Fin 1) q) = v36 (ix2 (0 : Fin 1) q) * v30 (ix2 (0 : Fin 1) q) + v35 (ix2 (0 : Fin 1) q) := by
  unfold k5_pay1; simp only [shapeCast_self]; rfl
theorem k5pay2_eq (v27 : FVec Ideal S1x10 .f32) : k5_pay2 v27 = v27 := by unfold k5_pay2; simp only [shapeCast_self]
theorem k5pay3_apply (v48 : Vec Ideal S1x10 .f32) (p : Fin 8) (q : Fin 10) : k5_pay3 v48 (ix2 p q) = v48 (ix2 (0 : Fin 1) q) := by
  unfold k5_pay3; simp only [shapeCast_self]; exact bcast5_8 v48 p q
theorem k5pay4_apply (v52 : Vec Ideal S1x10 .f32) (p : Fin 8) (q : Fin 10) : k5_pay4 v52 (ix2 p q) = v52 (ix2 (0 : Fin 1) q) := by
  unfold k5_pay4; simp only [shapeCast_self]; exact bcast5_8 v52 p q
/-- The cleared accumulators: minus infinity and zero. -/
theorem k5pay5_apply (q : Fin 10) : k5_pay5 (F := Ideal) (ix2 (0 : Fin 1) q) = ⊥ := by
  unfold k5_pay5; simp only [shapeCast_self]; exact ofBits_ninf5
theorem k5pay6_apply (q : Fin 10) : k5_pay6 (F := Ideal) (ix2 (0 : Fin 1) q) = 0 := by
  unfold k5_pay6; simp only [shapeCast_self]; exact Ideal.ofBits_zero_f32

/-- ONE STEP of the running maximum, from accumulator contents `s0`. -/
theorem step5_max (x0 : Vec Ideal S2048x10 .f32) (x1 x2 x3 x4 s0 : Vec Ideal S1x10 .f32) (q : Fin 10) :
    k5_pay2 (k5_pay8 x0 x2 x3 x1 x4 s0) (ix2 (0 : Fin 1) q)
      = max (s0 (ix2 (0 : Fin 1) q)) (Finset.univ.sup fun p : Fin 2048 => yblk5 x0 x1 x2 x3 x4 p q) := by
  rw [k5pay2_eq]; exact k5pay8_apply x0 x2 x3 x1 x4 s0 q

/-- ONE STEP of the running sum, from accumulator contents `s0`, `s1`, relative to the new maximum. -/
theorem step5_sum (x0 : Vec Ideal S2048x10 .f32) (x1 x2 x3 x4 s0 s1 : Vec Ideal S1x10 .f32) (q : Fin 10) :
    k5_pay1 (k5_pay9 x0 x2 x3 x1 x4 s0 s0) (k5_pay10 x0 x2 x3 x1 x4 s0) s1 (ix2 (0 : Fin 1) q)
      = s1 (ix2 (0 : Fin 1) q) * Ideal.exp (s0 (ix2 (0 : Fin 1) q) - k5_pay2 (k5_pay8 x0 x2 x3 x1 x4 s0) (ix2 (0 : Fin 1) q))
        + ∑ p : Fin 2048, Ideal.exp (yblk5 x0 x1 x2 x3 x4 p q - k5_pay2 (k5_pay8 x0 x2 x3 x1 x4 s0) (ix2 (0 : Fin 1) q)) := by
  rw [k5pay1_apply, k5pay9_apply, k5pay10_apply, k5pay2_eq]

/-! ## The accumulators point by point -/

-- the buffer contents when the region is entered, over the extended reals
variable (V : (c : Dev nD) → (b : Ref sig .tc) → Buf (Elt Ideal) ((c : Thread nD τ).loc b))

/-- The normalised value of point t's block at (p, q). -/
def yb5 (c : Dev nD) (t : Fin cfg5.N) (p : Fin 2048) (q : Fin 10) : EReal :=
  yblk5 (iblk5 V c 0 t) (iblk5 V c 1 t) (iblk5 V c 2 t) (iblk5 V c 3 t) (iblk5 V c 4 t) p q

/-- The running maximum and the running sum of column q after point n (a placeholder beyond the grid). -/
def Macc5 (c : Dev nD) (q : Fin 10) (n : ℕ) : EReal :=
  if h : n < cfg5.N then ((outsAt5 V c n h).2.2.1 : Vec Ideal S1x10 .f32) (ix2 (0 : Fin 1) q) else ⊥
def Sacc5 (c : Dev nD) (q : Fin 10) (n : ℕ) : EReal :=
  if h : n < cfg5.N then ((outsAt5 V c n h).2.2.2 : Vec Ideal S1x10 .f32) (ix2 (0 : Fin 1) q) else 0

theorem Macc5_lt (c : Dev nD) (q : Fin 10) (t : Fin cfg5.N) :
    Macc5 V c q t.val = ((outsAt5 V c t.val t.isLt).2.2.1 : Vec Ideal S1x10 .f32) (ix2 (0 : Fin 1) q) := dif_pos t.isLt
theorem Sacc5_lt (c : Dev nD) (q : Fin 10) (t : Fin cfg5.N) :
    Sacc5 V c q t.val = ((outsAt5 V c t.val t.isLt).2.2.2 : Vec Ideal S1x10 .f32) (ix2 (0 : Fin 1) q) := dif_pos t.isLt

/-- At a core's first point the accumulators restart: the block's maximum over the cleared maximum, the block's sum
    over the cleared sum. -/
theorem acc5_first (c : Dev nD) (q : Fin 10) (t : Fin cfg5.N) (h0 : t.val % 16 = 0) :
    Macc5 V c q t.val = max ⊥ (Finset.univ.sup fun p : Fin 2048 => yb5 V c t p q)
      ∧ Sacc5 V c q t.val = 0 * Ideal.exp (⊥ - Macc5 V c q t.val) + ∑ p : Fin 2048, Ideal.exp (yb5 V c t p q - Macc5 V c q t.val) := by
  have h1 : ¬t.val % 16 = 15 := by omega
  have eM : Macc5 V c q t.val = k5_pay2 (k5_pay8 (iblk5 V c 0 t) (iblk5 V c 2 t) (iblk5 V c 3 t) (iblk5 V c 1 t) (iblk5 V c 4 t) (k5_pay5 (F := Ideal))) (ix2 (0 : Fin 1) q) := by
    rw [Macc5_lt, outsAt5_A V c t h0 h1]; dsimp only
    exact congrFun (piece5_A_0 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t)) (ix2 (0 : Fin 1) q)
  have eS : Sacc5 V c q t.val = k5_pay1 (k5_pay9 (iblk5 V c 0 t) (iblk5 V c 2 t) (iblk5 V c 3 t) (iblk5 V c 1 t) (iblk5 V c 4 t) (k5_pay5 (F := Ideal)) (k5_pay5 (F := Ideal))) (k5_pay10 (iblk5 V c 0 t) (iblk5 V c 2 t) (iblk5 V c 3 t) (iblk5 V c 1 t) (iblk5 V c 4 t) (k5_pay5 (F := Ideal))) (k5_pay6 (F := Ideal)) (ix2 (0 : Fin 1) q) := by
    rw [Sacc5_lt, outsAt5_A V c t h0 h1]; dsimp only
    exact congrFun (piece5_A_1 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) ((hcond5_0 t).mpr h0) (fun h => h1 ((hcond5_1 t).mp h)) (iblk5 V c 0 t) (iblk5 V c 1 t) (iblk5 V c 2 t) (iblk5 V c 3 t) (iblk5 V c 4 t)) (ix2 (0 : Fin 1) q)
  refine ⟨?_, ?_⟩
  · rw [eM, step5_max, k5pay5_apply]; rfl
  · rw [eS, step5_sum, k5pay5_apply, k5pay6_apply, eM]; rfl

/-- At every other point they are updated from what the point before left. -/
theorem acc5_next (c : Dev nD) (q : Fin 10) (t : Fin cfg5.N) (h0 : ¬t.val % 16 = 0) :
    Macc5 V c q t.val = max (Macc5 V c q (t.val - 1)) (Finset.univ.sup fun p : Fin 2048 => yb5 V c t p q)
      ∧ Sacc5 V c q t.val = Sacc5 V c q (t.val - 1) * Ideal.exp (Macc5 V c q (t.val - 1) - Macc5 V c q t.val)
          + ∑ p : Fin 2048, Ideal.exp (yb5 V c t p q - Macc5 V c q t.val) := by
  have hp : t.val - 1 < cfg5.N := Nat.lt_of_le_of_lt (Nat.sub_le _ _) t.isLt
  have ePM : Macc5 V c q (t.val - 1) = (((outsAt5 V c (t.val - 1) (Nat.lt_of_le_of_lt (Nat.sub_le _ _) t.isLt))).2.2.1 : Vec Ideal S1x10 .f32) (ix2 (0 : Fin 1) q) := dif_pos hp
  have ePS : Sacc5 V c q (t.val - 1) = (((outsAt5 V c (t.val - 1) (Nat.lt_of_le_of_lt (Nat.sub_le _ _) t.isLt))).2.2.2 : Vec Ideal S1x10 .f32) (ix2 (0 : Fin 1) q) := dif_pos hp
  have eM : Macc5 V c q t.val = k5_pay2 (k5_pay8 (iblk5 V c 0 t) (iblk5 V c 2 t) (iblk5 V c 3 t) (iblk5 V c 1 t) (iblk5 V c 4 t) ((outsAt5 V c (t.val - 1) (Nat.lt_of_le_of_lt (Nat.sub_le _ _) t.isLt))).2.2.1) (ix2 (0 : Fin 1) q) := by
    rw [Macc5_lt]
    by_cases h1 : t.val % 16 = 15
    · rw [outsAt5_C V c t h0 h1]; dsimp only
      exact congrFun (piece5_C_0 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) ((outsAt5 V c (t.val - 1) (Nat.lt_of_le_of_lt (Nat.sub_le _ _) t.isLt))).2.2.1 ((outsAt5 V c (t.val - 1) (Nat.lt_of_le_of_lt (Nat.sub_le _ _) t.isLt))).2.2.2) (ix2 (0 : Fin 1) q)
    · rw [outsAt5_B V c t h0 h1]; dsimp only
      exact congrFun (piece5_B_0 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) ((outsAt5 V c (t.val - 1) (Nat.lt_of_le_of_lt (Nat.sub_le _ _) t.isLt))).2.2.1 ((outsAt5 V c (t.val - 1) (Nat.lt_of_le_of_lt (Nat.sub_le _ _) t.isLt))).2.2.2) (ix2 (0 : Fin 1) q)
  have eS : Sacc5 V c q t.val = k5_pay1 (k5_pay9 (iblk5 V c 0 t) (iblk5 V c 2 t) (iblk5 V c 3 t) (iblk5 V c 1 t) (iblk5 V c 4 t) ((outsAt5 V c (t.val - 1) (Nat.lt_of_le_of_lt (Nat.sub_le _ _) t.isLt))).2.2.1 ((outsAt5 V c (t.val - 1) (Nat.lt_of_le_of_lt (Nat.sub_le _ _) t.isLt))).2.2.1) (k5_pay10 (iblk5 V c 0 t) (iblk5 V c 2 t) (iblk5 V c 3 t) (iblk5 V c 1 t) (iblk5 V c 4 t) ((outsAt5 V c (t.val - 1) (Nat.lt_of_le_of_lt (Nat.sub_le _ _) t.isLt))).2.2.1) ((outsAt5 V c (t.val - 1) (Nat.lt_of_le_of_lt (Nat.sub_le _ _) t.isLt))).2.2.2 (ix2 (0 : Fin 1) q) := by
    rw [Sacc5_lt]
    by_cases h1 : t.val % 16 = 15
    · rw [outsAt5_C V c t h0 h1]; dsimp only
      exact congrFun (piece5_C_1 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) ((outsAt5 V c (t.val - 1) (Nat.lt_of_le_of_lt (Nat.sub_le _ _) t.isLt))).2.2.1 ((outsAt5 V c (t.val - 1) (Nat.lt_of_le_of_lt (Nat.sub_le _ _) t.isLt))).2.2.2) (ix2 (0 : Fin 1) q)
    · rw [outsAt5_B V c t h0 h1]; dsimp only
      exact congrFun (piece5_B_1 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) (fun h => h1 ((hcond5_1 t).mp h)) (iblk5 V c 0 t) (iblk5 V c 1 t) (iblk5 V c 2 t) (iblk5 V c 3 t) (iblk5 V c 4 t) ((outsAt5 V c (t.val - 1) (Nat.lt_of_le_of_lt (Nat.sub_le _ _) t.isLt))).2.2.1 ((outsAt5 V c (t.val - 1) (Nat.lt_of_le_of_lt (Nat.sub_le _ _) t.isLt))).2.2.2) (ix2 (0 : Fin 1) q)
  refine ⟨?_, ?_⟩
  · rw [eM, step5_max, ePM]; rfl
  · rw [eS, step5_sum, ePS, ePM, eM]; rfl

/-- THE STATISTICS OF A CORE: for core g, after its last point the running maximum of column q is the maximum of the
    normalised values over the core's 16 blocks of 2048 rows, and the running sum the sum of exp (y − that maximum) over
    them — for y real-valued there (`yr` its real values, block by block). -/
theorem core5_stats (c : Dev nD) (q : Fin 10) (g : ℕ) (hg : g < 2) (yr : ℕ → Fin 2048 → ℝ)
    (hy : ∀ (t : Fin cfg5.N) (p : Fin 2048), yb5 V c t p q = ((yr t.val p : ℝ) : EReal)) :
    Macc5 V c q (g * 16 + 15) = (Finset.range 16).sup (fun j => Finset.univ.sup fun r : Fin 2048 => ((yr (g * 16 + j) r : ℝ) : EReal))
      ∧ Sacc5 V c q (g * 16 + 15)
          = ∑ j ∈ Finset.range 16, ∑ r : Fin 2048, Ideal.exp (((yr (g * 16 + j) r : ℝ) : EReal) - Macc5 V c q (g * 16 + 15)) := by
  have hN : cfg5.N = 32 := N_5
  have hsup : ∀ t : Fin cfg5.N, (Finset.univ.sup fun p : Fin 2048 => yb5 V c t p q) = Finset.univ.sup fun r : Fin 2048 => ((yr t.val r : ℝ) : EReal) :=
    fun t => congrArg (Finset.univ : Finset (Fin 2048)).sup (funext fun p => hy t p)
  have hsum : ∀ (t : Fin cfg5.N) (m : EReal), (∑ p : Fin 2048, Ideal.exp (yb5 V c t p q - m)) = ∑ r : Fin 2048, Ideal.exp (((yr t.val r : ℝ) : EReal) - m) :=
    fun t m => Finset.sum_congr rfl fun p _ => by rw [hy t p]
  have key := Cert.LibOnlineSoftmax.online_softmax_after (B := 2048) (by norm_num) (fun j r => yr (g * 16 + j) r)
    (fun j => Macc5 V c q (g * 16 + j)) (fun j => Sacc5 V c q (g * 16 + j)) 15
    (by
      have := (acc5_first V c q ⟨g * 16 + 0, by omega⟩ (by show (g * 16 + 0) % 16 = 0; omega)).1
      rw [hsup] at this; exact this)
    (by
      have := (acc5_first V c q ⟨g * 16 + 0, by omega⟩ (by show (g * 16 + 0) % 16 = 0; omega)).2
      rw [hsum] at this; exact this)
    (fun j hj => by
      have := (acc5_next V c q ⟨g * 16 + (j + 1), by omega⟩ (by show ¬(g * 16 + (j + 1)) % 16 = 0; omega)).1
      rw [hsup] at this
      rw [show (⟨g * 16 + (j + 1), by omega⟩ : Fin cfg5.N).val - 1 = g * 16 + j from by show g * 16 + (j + 1) - 1 = g * 16 + j; omega] at this
      exact this)
    (fun j hj => by
      have := (acc5_next V c q ⟨g * 16 + (j + 1), by omega⟩ (by show ¬(g * 16 + (j + 1)) % 16 = 0; omega)).2
      rw [hsum] at this
      rw [show (⟨g * 16 + (j + 1), by omega⟩ : Fin cfg5.N).val - 1 = g * 16 + j from by show g * 16 + (j + 1) - 1 = g * 16 + j; omega] at this
      exact this)
  exact key

/-! ## Where the blocks sit in their arrays -/

/-- The block indices, decided over the grid: at point t the raw block is block t of the rows; each row vector is its
    array; each output block is block t / 16 (the core's) of the 16 rows. -/
theorem idx5 : ∀ t : Fin cfg5.N, win5_0.index t (0 : Fin 2) = t.val ∧ win5_0.index t (1 : Fin 2) = 0
    ∧ win5_5.index t (0 : Fin 2) = t.val / 16 ∧ win5_5.index t (1 : Fin 2) = 0
    ∧ win5_6.index t (0 : Fin 2) = t.val / 16 ∧ win5_6.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Window 0's block at point t read at (p, q) is its array at row 2048 t + p, column q. -/
theorem read5_0 (X : S65536x10.Idx → Elt Ideal .f32) (t : Fin cfg5.N) (p : Fin 2048) (q : Fin 10) :
    ((cfg5.win 0).blk t).view.read (Elt Ideal) X (ix2 p q) = X (ix2 (⟨2048 * t.val + p.val, (by have hN : cfg5.N = 32 := N_5; have := t.isLt; have := p.isLt; omega)⟩ : Fin 65536) q) := by
  obtain ⟨h0, h1, -⟩ := idx5 t
  show X (((cfg5.win 0).blk t).view.emb (ix2 p q)) = X _
  refine congrArg X (funext fun a => Fin.ext ?_)
  match a with
  | ⟨0, _⟩ => show win5_0.index t (0 : Fin 2) * 2048 + 1 * p.val = 2048 * t.val + p.val; rw [h0]; omega
  | ⟨1, _⟩ => show win5_0.index t (1 : Fin 2) * 10 + 1 * q.val = q.val; rw [h1]; omega

/-- Window 1's block, at any point, is its row vector. -/
theorem read5_1 (X : S1x10.Idx → Elt Ideal .f32) (t : Fin cfg5.N) (q : Fin 10) :
    ((cfg5.win 1).blk t).view.read (Elt Ideal) X (ix2 (0 : Fin 1) q) = X (ix2 (0 : Fin 1) q) := by
  obtain ⟨-, -, -, -, -, -, h0, h1, -, -, -, -, -, -⟩ := idx5 t
  show X (((cfg5.win 1).blk t).view.emb (ix2 (0 : Fin 1) q)) = X _
  refine congrArg X (funext fun a => Fin.ext ?_)
  match a with
  | ⟨0, _⟩ => show win5_1.index t (0 : Fin 2) * 1 + 1 * 0 = 0; rw [h0]
  | ⟨1, _⟩ => show win5_1.index t (1 : Fin 2) * 10 + 1 * q.val = q.val; rw [h1]; omega

/-- Window 2's block, at any point, is its row vector. -/
theorem read5_2 (X : S1x10.Idx → Elt Ideal .f32) (t : Fin cfg5.N) (q : Fin 10) :
    ((cfg5.win 2).blk t).view.read (Elt Ideal) X (ix2 (0 : Fin 1) q) = X (ix2 (0 : Fin 1) q) := by
  obtain ⟨-, -, -, -, -, -, -, -, h0, h1, -, -, -, -⟩ := idx5 t
  show X (((cfg5.win 2).blk t).view.emb (ix2 (0 : Fin 1) q)) = X _
  refine congrArg X (funext fun a => Fin.ext ?_)
  match a with
  | ⟨0, _⟩ => show win5_2.index t (0 : Fin 2) * 1 + 1 * 0 = 0; rw [h0]
  | ⟨1, _⟩ => show win5_2.index t (1 : Fin 2) * 10 + 1 * q.val = q.val; rw [h1]; omega

/-- Window 3's block, at any point, is its row vector. -/
theorem read5_3 (X : S1x10.Idx → Elt Ideal .f32) (t : Fin cfg5.N) (q : Fin 10) :
    ((cfg5.win 3).blk t).view.read (Elt Ideal) X (ix2 (0 : Fin 1) q) = X (ix2 (0 : Fin 1) q) := by
  obtain ⟨-, -, -, -, -, -, -, -, -, -, h0, h1, -, -⟩ := idx5 t
  show X (((cfg5.win 3).blk t).view.emb (ix2 (0 : Fin 1) q)) = X _
  refine congrArg X (funext fun a => Fin.ext ?_)
  match a with
  | ⟨0, _⟩ => show win5_3.index t (0 : Fin 2) * 1 + 1 * 0 = 0; rw [h0]
  | ⟨1, _⟩ => show win5_3.index t (1 : Fin 2) * 10 + 1 * q.val = q.val; rw [h1]; omega

/-- Window 4's block, at any point, is its row vector. -/
theorem read5_4 (X : S1x10.Idx → Elt Ideal .f32) (t : Fin cfg5.N) (q : Fin 10) :
    ((cfg5.win 4).blk t).view.read (Elt Ideal) X (ix2 (0 : Fin 1) q) = X (ix2 (0 : Fin 1) q) := by
  obtain ⟨-, -, -, -, -, -, -, -, -, -, -, -, h0, h1⟩ := idx5 t
  show X (((cfg5.win 4).blk t).view.emb (ix2 (0 : Fin 1) q)) = X _
  refine congrArg X (funext fun a => Fin.ext ?_)
  match a with
  | ⟨0, _⟩ => show win5_4.index t (0 : Fin 2) * 1 + 1 * 0 = 0; rw [h0]
  | ⟨1, _⟩ => show win5_4.index t (1 : Fin 2) * 10 + 1 * q.val = q.val; rw [h1]; omega

/-- Output window 5's block at point t read at (p, q) is its array at row 8 (t / 16) + p, column q. -/
theorem read5_5 (X : S16x10.Idx → Elt Ideal .f32) (t : Fin cfg5.N) (p : Fin 8) (q : Fin 10) :
    ((cfg5.win 5).blk t).view.read (Elt Ideal) X (ix2 p q) = X (ix2 (⟨8 * (t.val / 16) + p.val, (by have hN : cfg5.N = 32 := N_5; have := t.isLt; have := p.isLt; omega)⟩ : Fin 16) q) := by
  obtain ⟨-, -, h50, h51, -⟩ := idx5 t
  show X (((cfg5.win 5).blk t).view.emb (ix2 p q)) = X _
  refine congrArg X (funext fun a => Fin.ext ?_)
  match a with
  | ⟨0, _⟩ => show win5_5.index t (0 : Fin 2) * 8 + 1 * p.val = 8 * (t.val / 16) + p.val; rw [h50]; omega
  | ⟨1, _⟩ => show win5_5.index t (1 : Fin 2) * 10 + 1 * q.val = q.val; rw [h51]; omega

/-- Output window 6's block at point t read at (p, q) is its array at row 8 (t / 16) + p, column q. -/
theorem read5_6 (X : S16x10.Idx → Elt Ideal .f32) (t : Fin cfg5.N) (p : Fin 8) (q : Fin 10) :
    ((cfg5.win 6).blk t).view.read (Elt Ideal) X (ix2 p q) = X (ix2 (⟨8 * (t.val / 16) + p.val, (by have hN : cfg5.N = 32 := N_5; have := t.isLt; have := p.isLt; omega)⟩ : Fin 16) q) := by
  obtain ⟨-, -, -, -, h50, h51, -⟩ := idx5 t
  show X (((cfg5.win 6).blk t).view.emb (ix2 p q)) = X _
  refine congrArg X (funext fun a => Fin.ext ?_)
  match a with
  | ⟨0, _⟩ => show win5_6.index t (0 : Fin 2) * 8 + 1 * p.val = 8 * (t.val / 16) + p.val; rw [h50]; omega
  | ⟨1, _⟩ => show win5_6.index t (1 : Fin 2) * 10 + 1 * q.val = q.val; rw [h51]; omega

/-- The normalised value at row r, column o, from the raw array and the four row vectors. -/
def y5 (x : S65536x10.Idx → Elt Ideal .f32) (mean var gamma beta : S1x10.Idx → Elt Ideal .f32) (r : Fin 65536) (o : Fin 10) : EReal :=
  Spec.norm (fun o => gamma (ix2 (0 : Fin 1) o)) (fun o => beta (ix2 (0 : Fin 1) o)) (fun o => mean (ix2 (0 : Fin 1) o)) (fun o => var (ix2 (0 : Fin 1) o))
    (fun r o => x (ix2 r o)) r o

/-- The block's normalised value is the whole array's at row 2048 t + p. -/
theorem yb5_eq (c : Dev nD) (t : Fin cfg5.N) (p : Fin 2048) (q : Fin 10) :
    yb5 V c t p q = y5 (V c (Pipeline.arrRef spec5 0)) (V c (Pipeline.arrRef spec5 1)) (V c (Pipeline.arrRef spec5 2)) (V c (Pipeline.arrRef spec5 3)) (V c (Pipeline.arrRef spec5 4))
      (⟨2048 * t.val + p.val, (by have hN : cfg5.N = 32 := N_5; have := t.isLt; have := p.isLt; omega)⟩ : Fin 65536) q := by
  unfold yb5 yblk5 iblk5
  rw [read5_0 (V c (Pipeline.arrRef spec5 0)) t p q, read5_1 (V c (Pipeline.arrRef spec5 1)) t q, read5_2 (V c (Pipeline.arrRef spec5 2)) t q, read5_3 (V c (Pipeline.arrRef spec5 3)) t q, read5_4 (V c (Pipeline.arrRef spec5 4)) t q]
  rfl

/-! ## The two output arrays -/

/-- What the two output arrays end holding: rows 8g … 8g + 7 the statistics of core g. -/
def GM5 (c : Dev nD) : S16x10.Idx → Elt Ideal .f32 := fun i => Macc5 V c (i 1) ((i 0).val / 8 * 16 + 15)
def GS5 (c : Dev nD) : S16x10.Idx → Elt Ideal .f32 := fun i => Sacc5 V c (i 1) ((i 0).val / 8 * 16 + 15)

/-- What a core's last point writes back into output 5 is that core's block of `GM5`. -/
theorem flushed5_5_eq (c : Dev nD) (t : Fin cfg5.N) (hf : (cfg5.win 5).flush t = true) :
    (dat5 V c).flushed 5 t = ((cfg5.win 5).blk t).view.read (Elt Ideal) (GM5 V c) := by
  have hN : cfg5.N = 32 := N_5
  have h1 : t.val % 16 = 15 := (flush5_5 t).mp hf
  have h0 : ¬t.val % 16 = 0 := by omega
  show (cfg5.win 5).cut (grid5.coords t) ((dat5 V c).after 5 t) = _
  rw [after5_5, outsAt5_C V c t h0 h1]; dsimp only
  funext j
  obtain ⟨p, q, rfl⟩ : ∃ (p : Fin 8) (q : Fin 10), j = ix2 p q := ⟨j 0, j 1, eq_ix2 j⟩
  refine (congrFun (piece5_C_o5 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) ((outsAt5 V c (t.val - 1) (Nat.lt_of_le_of_lt (Nat.sub_le _ _) t.isLt))).2.2.1 ((outsAt5 V c (t.val - 1) (Nat.lt_of_le_of_lt (Nat.sub_le _ _) t.isLt))).2.2.2) (ix2 p q)).trans ?_
  refine (k5pay3_apply _ p q).trans ?_
  refine ((read5_5 (GM5 V c) t p q).trans ?_).symm
  show Macc5 V c q ((8 * (t.val / 16) + p.val) / 8 * 16 + 15) = _
  have hp : p.val < 8 := p.isLt
  have ht : t.val < 32 := lt_of_lt_of_eq t.isLt hN
  rw [show (8 * (t.val / 16) + p.val) / 8 * 16 + 15 = t.val from by omega, Macc5_lt, outsAt5_C V c t h0 h1]; dsimp only
  exact congrFun (piece5_C_0 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) ((outsAt5 V c (t.val - 1) (Nat.lt_of_le_of_lt (Nat.sub_le _ _) t.isLt))).2.2.1 ((outsAt5 V c (t.val - 1) (Nat.lt_of_le_of_lt (Nat.sub_le _ _) t.isLt))).2.2.2) (ix2 (0 : Fin 1) q)

/-- Every row of output 5 is in the block some core's last point writes back: row r in core r / 8's. -/
theorem cover5_5V (i : S16x10.Idx) : ∃ t : Fin cfg5.N, (cfg5.win 5).flush t = true ∧ i ∈ ((cfg5.win 5).blk t).view.set := by
  have hi0 : (i 0).val < 16 := (i 0).isLt
  have hi1 : (i 1).val < 10 := (i 1).isLt
  have hN : cfg5.N = 32 := N_5
  obtain ⟨t, ht⟩ : ∃ t : Fin cfg5.N, t.val = (i 0).val / 8 * 16 + 15 := ⟨⟨(i 0).val / 8 * 16 + 15, by omega⟩, rfl⟩
  refine ⟨t, (flush5_5 t).mpr (by rw [ht]; omega), ?_⟩
  obtain ⟨-, -, h50, h51, -⟩ := idx5 t
  show i ∈ ((View.whole main_v125_0).slice (win5_5.rect t)).set
  rw [View.set_slice_whole, Rect.mem_set_unit]
  intro a
  match a with
  | ⟨0, _⟩ => show win5_5.index t (0 : Fin 2) * 8 ≤ (i 0).val ∧ (i 0).val < win5_5.index t (0 : Fin 2) * 8 + 8; rw [h50, ht]; omega
  | ⟨1, _⟩ => show win5_5.index t (1 : Fin 2) * 10 ≤ (i 1).val ∧ (i 1).val < win5_5.index t (1 : Fin 2) * 10 + 10; rw [h51]; omega

/-- THE ARRAY of output 5 after the region. -/
theorem final5_5 (c : Dev nD) : (dat5 V c).arrAt 5 cfg5.N = GM5 V c :=
  (dat5 V c).arrAt_eq_of_cover 5 (GM5 V c) (fun t hf => flushed5_5_eq V c t hf) (cover5_5V)

/-- What a core's last point writes back into output 6 is that core's block of `GS5`. -/
theorem flushed5_6_eq (c : Dev nD) (t : Fin cfg5.N) (hf : (cfg5.win 6).flush t = true) :
    (dat5 V c).flushed 6 t = ((cfg5.win 6).blk t).view.read (Elt Ideal) (GS5 V c) := by
  have hN : cfg5.N = 32 := N_5
  have h1 : t.val % 16 = 15 := (flush5_6 t).mp hf
  have h0 : ¬t.val % 16 = 0 := by omega
  show (cfg5.win 6).cut (grid5.coords t) ((dat5 V c).after 6 t) = _
  rw [after5_6, outsAt5_C V c t h0 h1]; dsimp only
  funext j
  obtain ⟨p, q, rfl⟩ : ∃ (p : Fin 8) (q : Fin 10), j = ix2 p q := ⟨j 0, j 1, eq_ix2 j⟩
  refine (congrFun (piece5_C_o6 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) ((outsAt5 V c (t.val - 1) (Nat.lt_of_le_of_lt (Nat.sub_le _ _) t.isLt))).2.2.1 ((outsAt5 V c (t.val - 1) (Nat.lt_of_le_of_lt (Nat.sub_le _ _) t.isLt))).2.2.2) (ix2 p q)).trans ?_
  refine (k5pay4_apply _ p q).trans ?_
  refine ((read5_6 (GS5 V c) t p q).trans ?_).symm
  show Sacc5 V c q ((8 * (t.val / 16) + p.val) / 8 * 16 + 15) = _
  have hp : p.val < 8 := p.isLt
  have ht : t.val < 32 := lt_of_lt_of_eq t.isLt hN
  rw [show (8 * (t.val / 16) + p.val) / 8 * 16 + 15 = t.val from by omega, Sacc5_lt, outsAt5_C V c t h0 h1]; dsimp only
  exact congrFun (piece5_C_1 (F := Ideal) c (grid5.coords t) (ms5_0 t) (hs5_0 t) (ms5_1 t) (hs5_1 t) (ms5_2 t) (hs5_2 t) (ms5_3 t) (hs5_3 t) (ms5_4 t) (hs5_4 t) (ms5_5 t) (hs5_5 t) (ms5_6 t) (hs5_6 t) scM5_0 (Memref.isWhole_whole _) scM5_1 (Memref.isWhole_whole _) (fun h => h0 ((hcond5_0 t).mp h)) ((hcond5_1 t).mpr h1) (iblk5 V c 0 t) (iblk5 V c 1 t) (iblk5 V c 2 t) (iblk5 V c 3 t) (iblk5 V c 4 t) ((outsAt5 V c (t.val - 1) (Nat.lt_of_le_of_lt (Nat.sub_le _ _) t.isLt))).2.2.1 ((outsAt5 V c (t.val - 1) (Nat.lt_of_le_of_lt (Nat.sub_le _ _) t.isLt))).2.2.2) (ix2 (0 : Fin 1) q)

/-- Every row of output 6 is in the block some core's last point writes back: row r in core r / 8's. -/
theorem cover5_6V (i : S16x10.Idx) : ∃ t : Fin cfg5.N, (cfg5.win 6).flush t = true ∧ i ∈ ((cfg5.win 6).blk t).view.set := by
  have hi0 : (i 0).val < 16 := (i 0).isLt
  have hi1 : (i 1).val < 10 := (i 1).isLt
  have hN : cfg5.N = 32 := N_5
  obtain ⟨t, ht⟩ : ∃ t : Fin cfg5.N, t.val = (i 0).val / 8 * 16 + 15 := ⟨⟨(i 0).val / 8 * 16 + 15, by omega⟩, rfl⟩
  refine ⟨t, (flush5_6 t).mpr (by rw [ht]; omega), ?_⟩
  obtain ⟨-, -, -, -, h50, h51, -⟩ := idx5 t
  show i ∈ ((View.whole main_v125_1).slice (win5_6.rect t)).set
  rw [View.set_slice_whole, Rect.mem_set_unit]
  intro a
  match a with
  | ⟨0, _⟩ => show win5_6.index t (0 : Fin 2) * 8 ≤ (i 0).val ∧ (i 0).val < win5_6.index t (0 : Fin 2) * 8 + 8; rw [h50, ht]; omega
  | ⟨1, _⟩ => show win5_6.index t (1 : Fin 2) * 10 ≤ (i 1).val ∧ (i 1).val < win5_6.index t (1 : Fin 2) * 10 + 10; rw [h51]; omega

/-- THE ARRAY of output 6 after the region. -/
theorem final5_6 (c : Dev nD) : (dat5 V c).arrAt 6 cfg5.N = GS5 V c :=
  (dat5 V c).arrAt_eq_of_cover 6 (GS5 V c) (fun t hf => flushed5_6_eq V c t hf) (cover5_6V)

/-- Output 5 at row p, column o: the running maximum of column o after the last point of core p / 8. -/
theorem value5_max (c : Dev nD) (p : Fin 16) (o : Fin 10) :
    (dat5 V c).arrAt 5 cfg5.N (ix2 p o) = Macc5 V c o (p.val / 8 * 16 + 15) := by
  rw [final5_5]; rfl

/-- Output 6 at row p, column o: the running sum of column o after the last point of core p / 8. -/
theorem value5_sum (c : Dev nD) (p : Fin 16) (o : Fin 10) :
    (dat5 V c).arrAt 6 cfg5.N (ix2 p o) = Sacc5 V c o (p.val / 8 * 16 + 15) := by
  rw [final5_6]; rfl

end Cert.KernelIdeal.Hand

end
-- ==== Proof.KI.R5.Value32.lean ====
/- REGION 5's two outputs in the flat per-core form: with Y r o the batch-normalised value of the raw array at row r,
   column o, rows 8g … 8g + 7 of output 5 hold the maximum of Y over core g's 32768 rows g * 32768 … g * 32768 + 32767
   and those of output 6 the sum of exp (Y − that maximum) over the same rows — for Y real-valued. The per-core
   statistics were obtained block by block (16 blocks of 2048 rows); here the maximum over blocks of the maxima
   within a block is regrouped into one maximum over the core's rows, and the sum likewise. -/
import proofs.«118595_j1726576853663_2_alg».proof.Proof.KI.R5.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)

-- the buffer contents when the region is entered, over the extended reals
variable (V : (c : Dev nD) → (b : Ref sig .tc) → Buf (Elt Ideal) ((c : Thread nD τ).loc b))

/-- The normalised value of the raw array as the region finds it, at row r, column o. -/
abbrev Y5 (c : Dev nD) (r : Fin 65536) (o : Fin 10) : EReal :=
  y5 (V c (Pipeline.arrRef spec5 0)) (V c (Pipeline.arrRef spec5 1)) (V c (Pipeline.arrRef spec5 2)) (V c (Pipeline.arrRef spec5 3)) (V c (Pipeline.arrRef spec5 4)) r o

/-- Real values of column o block by block: row r of block n is row 2048 n + r of the array (0 past its end). -/
def yr5 (qf : Fin 65536 → Fin 10 → ℝ) (o : Fin 10) (n : ℕ) (r : Fin 2048) : ℝ :=
  if h : 2048 * n + r.val < 65536 then qf ⟨2048 * n + r.val, h⟩ o else 0
theorem yr5_of_lt (qf : Fin 65536 → Fin 10 → ℝ) (o : Fin 10) (n : ℕ) (r : Fin 2048) (h : 2048 * n + r.val < 65536) :
    yr5 qf o n r = qf ⟨2048 * n + r.val, h⟩ o := dif_pos h

/-- THE STATISTICS OF A CORE over its 32768 rows: after core g's last point the running maximum of column o is the
    maximum of Y over rows g * 32768 + r', and the running sum the sum of exp (Y − that maximum) over them. -/
theorem core5_stats32 (c : Dev nD) (o : Fin 10) (g : ℕ) (hg : g < 2) (hY : ∀ r o, ∃ q : ℝ, Y5 V c r o = (q : EReal)) :
    Macc5 V c o (g * 16 + 15) = Finset.univ.sup (fun r' : Fin 32768 => Y5 V c ⟨g * 32768 + r'.val, (by have := r'.isLt; omega)⟩ o)
      ∧ Sacc5 V c o (g * 16 + 15)
          = ∑ r' : Fin 32768, Ideal.exp (Y5 V c ⟨g * 32768 + r'.val, (by have := r'.isLt; omega)⟩ o - Macc5 V c o (g * 16 + 15)) := by
  have hN : cfg5.N = 32 := N_5
  choose qf hq using hY
  have hy : ∀ (t : Fin cfg5.N) (p : Fin 2048), yb5 V c t p o = ((yr5 qf o t.val p : ℝ) : EReal) := by
    intro t p
    have ht : t.val < 32 := lt_of_lt_of_eq t.isLt hN
    have hlt : 2048 * t.val + p.val < 65536 := by have := p.isLt; omega
    rw [yr5_of_lt qf o t.val p hlt, ← hq]
    exact yb5_eq V c t p o
  obtain ⟨hM, hS⟩ := core5_stats V c o g hg (yr5 qf o) hy
  have hent : ∀ (j : Fin 16) (r : Fin 2048), ((yr5 qf o (g * 16 + j.val) r : ℝ) : EReal)
      = Y5 V c ⟨g * 32768 + (j.val * 2048 + r.val), by have := j.isLt; have := r.isLt; omega⟩ o := by
    intro j r
    have hlt : 2048 * (g * 16 + j.val) + r.val < 65536 := by have := j.isLt; have := r.isLt; omega
    rw [yr5_of_lt qf o (g * 16 + j.val) r hlt, ← hq]
    exact congrArg (fun k : Fin 65536 => Y5 V c k o) (Fin.ext (by show 2048 * (g * 16 + j.val) + r.val = g * 32768 + (j.val * 2048 + r.val); omega))
  refine ⟨?_, ?_⟩
  · refine hM.trans ?_
    refine (Cert.LibOnlineSoftmax.sup_range_eq_sup_fin 16 (fun j => Finset.univ.sup fun r : Fin 2048 => ((yr5 qf o (g * 16 + j) r : ℝ) : EReal))).trans ?_
    refine Eq.trans ?_ (Cert.LibOnlineSoftmax.sup_tiles (T := 16) (B := 2048) (fun r' : Fin 32768 => Y5 V c ⟨g * 32768 + r'.val, (by have := r'.isLt; omega)⟩ o)).symm
    refine congrArg (Finset.univ : Finset (Fin 16)).sup (funext fun j => congrArg (Finset.univ : Finset (Fin 2048)).sup (funext fun r => ?_))
    exact hent j r
  · refine hS.trans ?_
    refine (Finset.sum_range (fun j => ∑ r : Fin 2048, Ideal.exp (((yr5 qf o (g * 16 + j) r : ℝ) : EReal) - Macc5 V c o (g * 16 + 15)))).trans ?_
    refine Eq.trans ?_ (Cert.LibTileSum.sum_tiles (T := 16) (B := 2048) (fun r' : Fin 32768 => Ideal.exp (Y5 V c ⟨g * 32768 + r'.val, (by have := r'.isLt; omega)⟩ o - Macc5 V c o (g * 16 + 15)))).symm
    refine Finset.sum_congr rfl fun j _ => Finset.sum_congr rfl fun r _ => ?_
    exact congrArg (fun z : EReal => Ideal.exp (z - Macc5 V c o (g * 16 + 15))) (hent j r)

/-- Output 5 at row p, column o: the maximum of Y over the 32768 rows of core p / 8. -/
theorem value5_max32 (c : Dev nD) (hY : ∀ r o, ∃ q : ℝ, Y5 V c r o = (q : EReal)) (p : Fin 16) (o : Fin 10) :
    (dat5 V c).arrAt 5 cfg5.N (ix2 p o)
      = Finset.univ.sup fun r' : Fin 32768 => Y5 V c ⟨p.val / 8 * 32768 + r'.val, by have := p.isLt; have := r'.isLt; omega⟩ o :=
  (value5_max V c p o).trans (core5_stats32 V c o (p.val / 8) (by have := p.isLt; omega) hY).1

/-- Output 6 at row p, column o: the sum over the same rows of exp (Y − what output 5 holds there). -/
theorem value5_sum32 (c : Dev nD) (hY : ∀ r o, ∃ q : ℝ, Y5 V c r o = (q : EReal)) (p : Fin 16) (o : Fin 10) :
    (dat5 V c).arrAt 6 cfg5.N (ix2 p o)
      = ∑ r' : Fin 32768, Ideal.exp (Y5 V c ⟨p.val / 8 * 32768 + r'.val, by have := p.isLt; have := r'.isLt; omega⟩ o
          - (dat5 V c).arrAt 5 cfg5.N (ix2 p o)) := by
  rw [value5_max V c p o]
  exact (value5_sum V c p o).trans (core5_stats32 V c o (p.val / 8) (by have := p.isLt; omega) hY).2

end Cert.KernelIdeal.Hand

end
-- ==== Proof.KI.ForwardClosed.lean ====
import proofs.«118595_j1726576853663_2_alg».proof.Proof.KI.Forward
import proofs.«118595_j1726576853663_2_alg».proof.Proof.KI.R1.Value
import proofs.«118595_j1726576853663_2_alg».proof.Proof.KI.R2.ValueSums
import proofs.«118595_j1726576853663_2_alg».proof.Proof.KI.R3.ValueSums
import proofs.«118595_j1726576853663_2_alg».proof.Proof.KI.R4.ValueSums
import proofs.«118595_j1726576853663_2_alg».proof.Proof.KI.R5.Value32

/-!
The kernel's result, with what each region computes supplied by the regions' value theorems: the array the last region
writes holds, entry by entry, the network's result as the reference computes it, provided the last layer's scale and
shift are real-valued.
-/

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

variable (m : (ℓ : Loc nD τ sig) → Buf (Elt Ideal) ℓ) (ρ : Dev nD → PrngReg)

set_option maxHeartbeats 4000000 in
theorem kernel_value (c : Dev nD)
    (hg : ∀ o : S10.Idx, ∃ q : ℝ, m ((c.tc : Thread nD τ).loc main_arg10) o = (q : EReal))
    (hb : ∀ o : S10.Idx, ∃ q : ℝ, m ((c.tc : Thread nD τ).loc main_arg15) o = (q : EReal))
    (r : Fin 65536) (o : Fin 10) :
    (W24 m ρ c (Proc.devRef .tc main_v140) : S65536x10.Idx → EReal) (ix2 r o) = (PK m c).outR r o :=
  kernel_value_of m ρ
    (fun V c => ⟨value1_6 V c, value1_7 V c, value1_8 V c⟩)
    (fun V c => ⟨value2_6 V c, value2_7 V c, value2_8 V c⟩)
    (fun V c => ⟨value3_6 V c, value3_7 V c, value3_8 V c⟩)
    (fun V c => ⟨value4_6 V c, value4_7 V c, value4_8 V c⟩)
    (fun V c hY => ⟨value5_max32 V c hY, value5_sum32 V c hY⟩)
    c hg hb r o

end Cert.KernelIdeal.Hand

end
-- ==== Proof.Ref.Ssa.lean ====
/- The reference's operations in single-assignment form. Every tensor value of the flattened @main has a buffer of
   its own, and the buffers are numbered in the order the operations write them: the operation at position k of the
   list writes the buffer of index n + k and reads buffers of smaller index only. So once the whole line has run,
   every buffer still holds what its own operation wrote, and each operation's equation — result = function of the
   operands — holds of the FINAL contents: the program can be read as a system of equations, with no list prefixes. -/
import Idealize.ShloMosaic.Lib.StableHlo.Run

noncomputable section

namespace Cert.ReferenceIdeal.Hand

open Idealize.ShloMosaic Idealize.ShloMosaic.TcCoe Idealize.SL.Sem Idealize.ShloMosaic.StableHlo

variable {τ : Topo} {sig : RefSig} {Val : EltTy → Type}

/-- The operation at position j of the list writes exactly buffers of index `n + j`. -/
def Asc : List (HloOp τ sig Val) → Nat → Prop
  | [], _ => True
  | op :: l, n => (∀ r : Ref sig .tc, Proc.devRef (τ := τ) .tc r ∈ op.writes → r.idx.val = n) ∧ Asc l (n + 1)

/-- An operation whose one written buffer is `y`, of index `n`. -/
theorem writesAt {op : HloOp τ sig Val} (y : Ref sig .tc) (hw : op.writes = {Proc.devRef (τ := τ) .tc y}) {n : Nat}
    (hy : y.idx.val = n) : ∀ r : Ref sig .tc, Proc.devRef (τ := τ) .tc r ∈ op.writes → r.idx.val = n := by
  intro r hr
  rw [hw, Finset.mem_singleton] at hr
  rw [Proc.devRef_injective _ hr]
  exact hy

theorem asc_append : ∀ (l₁ l₂ : List (HloOp τ sig Val)) (n : Nat), Asc l₁ n → Asc l₂ (n + l₁.length) → Asc (l₁ ++ l₂) n
  | [], l₂, n, _, h₂ => by simpa using h₂
  | op :: l₁, l₂, n, h₁, h₂ => by
    refine ⟨h₁.1, asc_append l₁ l₂ (n + 1) h₁.2 ?_⟩
    have e : n + 1 + l₁.length = n + (op :: l₁).length := by simp only [List.length_cons]; omega
    rw [e]; exact h₂

/-- A buffer of index below the line's first keeps its contents. -/
theorem after_stable : ∀ (l : List (HloOp τ sig Val)) (n : Nat), Asc l n → ∀ (V : Valuation τ sig Val) (r : Ref sig .tc),
    r.idx.val < n → after l V (Proc.devRef .tc r) = V (Proc.devRef .tc r)
  | [], _, _, _, _, _ => rfl
  | op :: l, n, h, V, r, hr => by
    rw [after_cons, after_stable l (n + 1) h.2 _ r (Nat.lt_succ_of_lt hr)]
    exact op.result_of_not_mem V fun hm => absurd (h.1 r hm) (Nat.ne_of_lt hr)

/-- A buffer of index at most `n + k` holds, after the whole line, what the operation at position k left there. -/
theorem after_at : ∀ (l : List (HloOp τ sig Val)) (n : Nat), Asc l n → ∀ (V : Valuation τ sig Val) (k : Nat)
    (op : HloOp τ sig Val), l[k]? = some op → ∀ r : Ref sig .tc, r.idx.val ≤ n + k →
    after l V (Proc.devRef .tc r) = op.result (after (l.take k) V) (Proc.devRef .tc r)
  | [], _, _, _, _, _, hop, _, _ => by simp at hop
  | op0 :: l, n, h, V, 0, op, hop, r, hr => by
    have e : op0 = op := by simpa using hop
    subst e
    rw [after_cons, List.take_zero, after_nil]
    exact after_stable l (n + 1) h.2 _ r (by omega)
  | op0 :: l, n, h, V, k + 1, op, hop, r, hr => by
    rw [after_cons, List.take_succ_cons, after_cons]
    exact after_at l (n + 1) h.2 _ k op (by simpa using hop) r (by omega)

variable {l : List (HloOp τ sig Val)} {n : Nat}

private theorem ne_of_idx_lt {x y : Ref sig .tc} {m : Nat} (hy : y.idx.val = m) (hx : x.idx.val < m) : x ≠ y := by
  intro e; rw [e] at hx; omega

/-- The equation of a constant, at the final contents. -/
theorem ssa_nullary (h : Asc l n) (V : Valuation τ sig Val) (k : Nat) {y : Ref sig .tc} {v : y.ty.Contents Val} {hy}
    (hop : l[k]? = some (nullary y v hy)) (hyk : y.idx.val = n + k) :
    after l V (Proc.devRef .tc y) = v := by
  rw [after_at l n h V k _ hop y (le_of_eq hyk), nullary_result]

/-- The equation of a one-operand operation, at the final contents. -/
theorem ssa_unary (h : Asc l n) (V : Valuation τ sig Val) (k : Nat) {x y : Ref sig .tc} {f : x.ty.Contents Val → y.ty.Contents Val}
    {hx hy} (hop : l[k]? = some (unary x y f hx hy)) (hyk : y.idx.val = n + k) (hxk : x.idx.val < n + k) :
    after l V (Proc.devRef .tc y) = f (after l V (Proc.devRef .tc x)) := by
  have ex : after l V (Proc.devRef .tc x) = after (l.take k) V (Proc.devRef .tc x) := by
    rw [after_at l n h V k _ hop x (le_of_lt hxk)]
    exact unary_result_ne (x := x) (y := y) f hx hy _ (ne_of_idx_lt hyk hxk)
  rw [after_at l n h V k _ hop y (le_of_eq hyk), unary_result, ex]

/-- The equation of a two-operand operation, at the final contents. -/
theorem ssa_binary (h : Asc l n) (V : Valuation τ sig Val) (k : Nat) {a b y : Ref sig .tc}
    {f : a.ty.Contents Val → b.ty.Contents Val → y.ty.Contents Val} {ha hb hy}
    (hop : l[k]? = some (binary a b y f ha hb hy)) (hyk : y.idx.val = n + k) (hak : a.idx.val < n + k) (hbk : b.idx.val < n + k) :
    after l V (Proc.devRef .tc y) = f (after l V (Proc.devRef .tc a)) (after l V (Proc.devRef .tc b)) := by
  have ea : after l V (Proc.devRef .tc a) = after (l.take k) V (Proc.devRef .tc a) := by
    rw [after_at l n h V k _ hop a (le_of_lt hak)]
    exact binary_result_ne (a := a) (b := b) (y := y) f ha hb hy _ (ne_of_idx_lt hyk hak)
  have eb : after l V (Proc.devRef .tc b) = after (l.take k) V (Proc.devRef .tc b) := by
    rw [after_at l n h V k _ hop b (le_of_lt hbk)]
    exact binary_result_ne (a := a) (b := b) (y := y) f ha hb hy _ (ne_of_idx_lt hyk hbk)
  rw [after_at l n h V k _ hop y (le_of_eq hyk), binary_result, ea, eb]

/-- The equation of a three-operand operation, at the final contents. -/
theorem ssa_ternary (h : Asc l n) (V : Valuation τ sig Val) (k : Nat) {c a b y : Ref sig .tc}
    {f : c.ty.Contents Val → a.ty.Contents Val → b.ty.Contents Val → y.ty.Contents Val} {hc ha hb hy}
    (hop : l[k]? = some (ternary c a b y f hc ha hb hy)) (hyk : y.idx.val = n + k)
    (hck : c.idx.val < n + k) (hak : a.idx.val < n + k) (hbk : b.idx.val < n + k) :
    after l V (Proc.devRef .tc y)
      = f (after l V (Proc.devRef .tc c)) (after l V (Proc.devRef .tc a)) (after l V (Proc.devRef .tc b)) := by
  have ec : after l V (Proc.devRef .tc c) = after (l.take k) V (Proc.devRef .tc c) := by
    rw [after_at l n h V k _ hop c (le_of_lt hck)]
    exact ternary_result_ne (c := c) (a := a) (b := b) (y := y) f hc ha hb hy _ (ne_of_idx_lt hyk hck)
  have ea : after l V (Proc.devRef .tc a) = after (l.take k) V (Proc.devRef .tc a) := by
    rw [after_at l n h V k _ hop a (le_of_lt hak)]
    exact ternary_result_ne (c := c) (a := a) (b := b) (y := y) f hc ha hb hy _ (ne_of_idx_lt hyk hak)
  have eb : after l V (Proc.devRef .tc b) = after (l.take k) V (Proc.devRef .tc b) := by
    rw [after_at l n h V k _ hop b (le_of_lt hbk)]
    exact ternary_result_ne (c := c) (a := a) (b := b) (y := y) f hc ha hb hy _ (ne_of_idx_lt hyk hbk)
  rw [after_at l n h V k _ hop y (le_of_eq hyk), ternary_result, ec, ea, eb]

end Cert.ReferenceIdeal.Hand

end
-- ==== Proof.Ref.A0.lean ====
/- Window 0 of the reference writes its buffers in order: the operation at position j writes the buffer of index 16 + j. -/
import proofs.«118595_j1726576853663_2_alg».proof.Proof.Ref.W0
import proofs.«118595_j1726576853663_2_alg».proof.Proof.Ref.Ssa

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem asc0 : Asc (ops0 : List (HloOp τ sig (Elt F))) 16 :=
  ⟨writesAt main_cst rfl rfl, writesAt main_v0 rfl rfl, writesAt main_v1 rfl rfl, writesAt main_cst_0 rfl rfl,
    writesAt main_v2 rfl rfl, writesAt main_v3 rfl rfl, writesAt main_cst_1 rfl rfl, writesAt main_cst_2 rfl rfl,
    writesAt main_call0_v0 rfl rfl, writesAt main_call0_v1 rfl rfl, writesAt main_v4 rfl rfl, writesAt main_v5 rfl rfl,
    writesAt main_cst_3 rfl rfl, writesAt main_v6 rfl rfl, writesAt main_v7 rfl rfl, writesAt main_cst_4 rfl rfl,
    writesAt main_cst_5 rfl rfl, writesAt main_call1_v0 rfl rfl, writesAt main_call1_v1 rfl rfl, writesAt main_v8 rfl rfl,
    writesAt main_v9 rfl rfl, writesAt main_v10 rfl rfl, writesAt main_v11 rfl rfl, writesAt main_cst_6 rfl rfl,
    writesAt main_v12 rfl rfl, writesAt main_cst_7 rfl rfl, writesAt main_v13 rfl rfl, writesAt main_v14 rfl rfl,
    writesAt main_c rfl rfl, writesAt main_call2_cst rfl rfl, writesAt main_call2_v0 rfl rfl, writesAt main_call2_v1 rfl rfl,
    writesAt main_call2_cst_0 rfl rfl, writesAt main_call2_v2 rfl rfl, writesAt main_call2_v3 rfl rfl, writesAt main_call2_v4 rfl rfl,
    writesAt main_call2_v5 rfl rfl, writesAt main_call2_v6 rfl rfl, writesAt main_call2_v7 rfl rfl, writesAt main_call2_cst_1 rfl rfl,
    writesAt main_call2_v8 rfl rfl, writesAt main_call2_cst_2 rfl rfl, writesAt main_call2_v9 rfl rfl, writesAt main_call2_v10 rfl rfl,
    writesAt main_call2_v11 rfl rfl, writesAt main_call2_cst_3 rfl rfl, writesAt main_call2_v12 rfl rfl, writesAt main_call2_cst_4 rfl rfl,
    writesAt main_call2_call0_v0 rfl rfl, writesAt main_call2_call0_v1 rfl rfl, writesAt main_v15 rfl rfl, writesAt main_v16 rfl rfl,
    writesAt main_v17 rfl rfl, writesAt main_v18 rfl rfl, writesAt main_v19 rfl rfl, writesAt main_v20 rfl rfl,
    writesAt main_v21 rfl rfl, writesAt main_cst_8 rfl rfl, writesAt main_v22 rfl rfl, writesAt main_v23 rfl rfl,
    writesAt main_v24 rfl rfl, writesAt main_v25 rfl rfl, writesAt main_v26 rfl rfl, writesAt main_v27 rfl rfl,
    writesAt main_v28 rfl rfl, writesAt main_v29 rfl rfl, writesAt main_v30 rfl rfl, writesAt main_cst_9 rfl rfl,
    writesAt main_v31 rfl rfl, writesAt main_v32 rfl rfl, writesAt main_cst_10 rfl rfl, writesAt main_cst_11 rfl rfl,
    writesAt main_call3_v0 rfl rfl, writesAt main_call3_v1 rfl rfl, writesAt main_v33 rfl rfl, writesAt main_v34 rfl rfl,
    writesAt main_cst_12 rfl rfl, writesAt main_v35 rfl rfl, writesAt main_v36 rfl rfl, writesAt main_cst_13 rfl rfl,
    writesAt main_cst_14 rfl rfl, writesAt main_call4_v0 rfl rfl, writesAt main_call4_v1 rfl rfl, writesAt main_v37 rfl rfl,
    writesAt main_v38 rfl rfl, writesAt main_v39 rfl rfl, writesAt main_v40 rfl rfl, writesAt main_cst_15 rfl rfl,
    writesAt main_v41 rfl rfl,
    trivial⟩

end Cert.ReferenceIdeal.Hand

end
-- ==== Proof.Ref.A1.lean ====
/- Window 1 of the reference writes its buffers in order: the operation at position j writes the buffer of index 105 + j. -/
import proofs.«118595_j1726576853663_2_alg».proof.Proof.Ref.W1
import proofs.«118595_j1726576853663_2_alg».proof.Proof.Ref.Ssa

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem asc1 : Asc (ops1 : List (HloOp τ sig (Elt F))) 105 :=
  ⟨writesAt main_cst_16 rfl rfl, writesAt main_v42 rfl rfl, writesAt main_v43 rfl rfl, writesAt main_c_17 rfl rfl,
    writesAt main_call5_cst rfl rfl, writesAt main_call5_v0 rfl rfl, writesAt main_call5_v1 rfl rfl, writesAt main_call5_cst_0 rfl rfl,
    writesAt main_call5_v2 rfl rfl, writesAt main_call5_v3 rfl rfl, writesAt main_call5_v4 rfl rfl, writesAt main_call5_v5 rfl rfl,
    writesAt main_call5_v6 rfl rfl, writesAt main_call5_v7 rfl rfl, writesAt main_call5_cst_1 rfl rfl, writesAt main_call5_v8 rfl rfl,
    writesAt main_call5_cst_2 rfl rfl, writesAt main_call5_v9 rfl rfl, writesAt main_call5_v10 rfl rfl, writesAt main_call5_v11 rfl rfl,
    writesAt main_call5_cst_3 rfl rfl, writesAt main_call5_v12 rfl rfl, writesAt main_call5_cst_4 rfl rfl, writesAt main_call5_call0_v0 rfl rfl,
    writesAt main_call5_call0_v1 rfl rfl, writesAt main_v44 rfl rfl, writesAt main_v45 rfl rfl, writesAt main_v46 rfl rfl,
    writesAt main_v47 rfl rfl, writesAt main_v48 rfl rfl, writesAt main_v49 rfl rfl, writesAt main_v50 rfl rfl,
    writesAt main_cst_18 rfl rfl, writesAt main_v51 rfl rfl, writesAt main_v52 rfl rfl, writesAt main_v53 rfl rfl,
    writesAt main_v54 rfl rfl, writesAt main_v55 rfl rfl, writesAt main_v56 rfl rfl, writesAt main_v57 rfl rfl,
    writesAt main_v58 rfl rfl, writesAt main_v59 rfl rfl, writesAt main_cst_19 rfl rfl, writesAt main_v60 rfl rfl,
    writesAt main_v61 rfl rfl, writesAt main_cst_20 rfl rfl, writesAt main_cst_21 rfl rfl, writesAt main_call6_v0 rfl rfl,
    writesAt main_call6_v1 rfl rfl, writesAt main_v62 rfl rfl, writesAt main_v63 rfl rfl, writesAt main_cst_22 rfl rfl,
    writesAt main_v64 rfl rfl, writesAt main_v65 rfl rfl, writesAt main_cst_23 rfl rfl, writesAt main_cst_24 rfl rfl,
    writesAt main_call7_v0 rfl rfl, writesAt main_call7_v1 rfl rfl, writesAt main_v66 rfl rfl, writesAt main_v67 rfl rfl,
    writesAt main_v68 rfl rfl, writesAt main_v69 rfl rfl, writesAt main_cst_25 rfl rfl, writesAt main_v70 rfl rfl,
    writesAt main_cst_26 rfl rfl, writesAt main_v71 rfl rfl, writesAt main_v72 rfl rfl, writesAt main_c_27 rfl rfl,
    writesAt main_call8_cst rfl rfl, writesAt main_call8_v0 rfl rfl, writesAt main_call8_v1 rfl rfl, writesAt main_call8_cst_0 rfl rfl,
    writesAt main_call8_v2 rfl rfl, writesAt main_call8_v3 rfl rfl, writesAt main_call8_v4 rfl rfl, writesAt main_call8_v5 rfl rfl,
    writesAt main_call8_v6 rfl rfl, writesAt main_call8_v7 rfl rfl, writesAt main_call8_cst_1 rfl rfl, writesAt main_call8_v8 rfl rfl,
    writesAt main_call8_cst_2 rfl rfl, writesAt main_call8_v9 rfl rfl, writesAt main_call8_v10 rfl rfl, writesAt main_call8_v11 rfl rfl,
    writesAt main_call8_cst_3 rfl rfl, writesAt main_call8_v12 rfl rfl, writesAt main_call8_cst_4 rfl rfl, writesAt main_call8_call0_v0 rfl rfl,
    writesAt main_call8_call0_v1 rfl rfl, writesAt main_v73 rfl rfl, writesAt main_v74 rfl rfl, writesAt main_v75 rfl rfl,
    writesAt main_v76 rfl rfl, writesAt main_v77 rfl rfl, writesAt main_v78 rfl rfl, writesAt main_v79 rfl rfl,
    writesAt main_cst_28 rfl rfl, writesAt main_v80 rfl rfl, writesAt main_v81 rfl rfl, writesAt main_v82 rfl rfl,
    writesAt main_v83 rfl rfl, writesAt main_v84 rfl rfl, writesAt main_v85 rfl rfl, writesAt main_v86 rfl rfl,
    writesAt main_v87 rfl rfl, writesAt main_v88 rfl rfl,
    trivial⟩

end Cert.ReferenceIdeal.Hand

end
-- ==== Proof.Ref.A2.lean ====
/- Window 2 of the reference writes its buffers in order: the operation at position j writes the buffer of index 211 + j. -/
import proofs.«118595_j1726576853663_2_alg».proof.Proof.Ref.W2
import proofs.«118595_j1726576853663_2_alg».proof.Proof.Ref.Ssa

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem asc2 : Asc (ops2 : List (HloOp τ sig (Elt F))) 211 :=
  ⟨writesAt main_cst_29 rfl rfl, writesAt main_v89 rfl rfl, writesAt main_v90 rfl rfl, writesAt main_cst_30 rfl rfl,
    writesAt main_cst_31 rfl rfl, writesAt main_call9_v0 rfl rfl, writesAt main_call9_v1 rfl rfl, writesAt main_v91 rfl rfl,
    writesAt main_v92 rfl rfl, writesAt main_cst_32 rfl rfl, writesAt main_v93 rfl rfl, writesAt main_v94 rfl rfl,
    writesAt main_cst_33 rfl rfl, writesAt main_cst_34 rfl rfl, writesAt main_call10_v0 rfl rfl, writesAt main_call10_v1 rfl rfl,
    writesAt main_v95 rfl rfl, writesAt main_v96 rfl rfl, writesAt main_v97 rfl rfl, writesAt main_v98 rfl rfl,
    writesAt main_cst_35 rfl rfl, writesAt main_v99 rfl rfl, writesAt main_cst_36 rfl rfl, writesAt main_v100 rfl rfl,
    writesAt main_v101 rfl rfl, writesAt main_c_37 rfl rfl, writesAt main_call11_cst rfl rfl, writesAt main_call11_v0 rfl rfl,
    writesAt main_call11_v1 rfl rfl, writesAt main_call11_cst_0 rfl rfl, writesAt main_call11_v2 rfl rfl, writesAt main_call11_v3 rfl rfl,
    writesAt main_call11_v4 rfl rfl, writesAt main_call11_v5 rfl rfl, writesAt main_call11_v6 rfl rfl, writesAt main_call11_v7 rfl rfl,
    writesAt main_call11_cst_1 rfl rfl, writesAt main_call11_v8 rfl rfl, writesAt main_call11_cst_2 rfl rfl, writesAt main_call11_v9 rfl rfl,
    writesAt main_call11_v10 rfl rfl, writesAt main_call11_v11 rfl rfl, writesAt main_call11_cst_3 rfl rfl, writesAt main_call11_v12 rfl rfl,
    writesAt main_call11_cst_4 rfl rfl, writesAt main_call11_call0_v0 rfl rfl, writesAt main_call11_call0_v1 rfl rfl, writesAt main_v102 rfl rfl,
    writesAt main_v103 rfl rfl, writesAt main_v104 rfl rfl, writesAt main_v105 rfl rfl, writesAt main_v106 rfl rfl,
    writesAt main_v107 rfl rfl, writesAt main_v108 rfl rfl, writesAt main_cst_38 rfl rfl, writesAt main_v109 rfl rfl,
    writesAt main_v110 rfl rfl, writesAt main_v111 rfl rfl, writesAt main_v112 rfl rfl, writesAt main_v113 rfl rfl,
    writesAt main_v114 rfl rfl, writesAt main_v115 rfl rfl, writesAt main_v116 rfl rfl, writesAt main_v117 rfl rfl,
    writesAt main_cst_39 rfl rfl, writesAt main_v118 rfl rfl, writesAt main_v119 rfl rfl, writesAt main_cst_40 rfl rfl,
    writesAt main_cst_41 rfl rfl, writesAt main_call12_v0 rfl rfl, writesAt main_call12_v1 rfl rfl, writesAt main_v120 rfl rfl,
    writesAt main_v121 rfl rfl, writesAt main_cst_42 rfl rfl, writesAt main_v122 rfl rfl, writesAt main_v123 rfl rfl,
    writesAt main_cst_43 rfl rfl, writesAt main_cst_44 rfl rfl, writesAt main_call13_v0 rfl rfl, writesAt main_call13_v1 rfl rfl,
    writesAt main_v124 rfl rfl, writesAt main_v125 rfl rfl, writesAt main_v126 rfl rfl, writesAt main_v127 rfl rfl,
    writesAt main_cst_45 rfl rfl, writesAt main_v128 rfl rfl, writesAt main_cst_46 rfl rfl, writesAt main_v129 rfl rfl,
    writesAt main_v130 rfl rfl,
    trivial⟩

end Cert.ReferenceIdeal.Hand

end
-- ==== Proof.Ref.A3.lean ====
/- Window 3 of the reference writes its buffers in order: the operation at position j writes the buffer of index 300 + j. -/
import proofs.«118595_j1726576853663_2_alg».proof.Proof.Ref.W3
import proofs.«118595_j1726576853663_2_alg».proof.Proof.Ref.Ssa

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem asc3 : Asc (ops3 : List (HloOp τ sig (Elt F))) 300 :=
  ⟨writesAt main_c_47 rfl rfl, writesAt main_call14_cst rfl rfl, writesAt main_call14_v0 rfl rfl, writesAt main_call14_v1 rfl rfl,
    writesAt main_call14_cst_0 rfl rfl, writesAt main_call14_v2 rfl rfl, writesAt main_call14_v3 rfl rfl, writesAt main_call14_v4 rfl rfl,
    writesAt main_call14_v5 rfl rfl, writesAt main_call14_v6 rfl rfl, writesAt main_call14_v7 rfl rfl, writesAt main_call14_cst_1 rfl rfl,
    writesAt main_call14_v8 rfl rfl, writesAt main_call14_cst_2 rfl rfl, writesAt main_call14_v9 rfl rfl, writesAt main_call14_v10 rfl rfl,
    writesAt main_call14_v11 rfl rfl, writesAt main_call14_cst_3 rfl rfl, writesAt main_call14_v12 rfl rfl, writesAt main_call14_cst_4 rfl rfl,
    writesAt main_call14_call0_v0 rfl rfl, writesAt main_call14_call0_v1 rfl rfl, writesAt main_v131 rfl rfl, writesAt main_v132 rfl rfl,
    writesAt main_v133 rfl rfl, writesAt main_v134 rfl rfl, writesAt main_v135 rfl rfl, writesAt main_v136 rfl rfl,
    writesAt main_v137 rfl rfl, writesAt main_cst_48 rfl rfl, writesAt main_v138 rfl rfl, writesAt main_v139 rfl rfl,
    writesAt main_v140 rfl rfl, writesAt main_v141 rfl rfl, writesAt main_v142 rfl rfl, writesAt main_v143 rfl rfl,
    writesAt main_v144 rfl rfl, writesAt main_v145 rfl rfl, writesAt main_v146 rfl rfl, writesAt main_cst_49 rfl rfl,
    writesAt main_v147 rfl rfl, writesAt main_cst_50 rfl rfl, writesAt main_v148 rfl rfl, writesAt main_v149 rfl rfl,
    writesAt main_v150 rfl rfl, writesAt main_v151 rfl rfl, writesAt main_v152 rfl rfl, writesAt main_v153 rfl rfl,
    writesAt main_cst_51 rfl rfl, writesAt main_v154 rfl rfl, writesAt main_v155 rfl rfl, writesAt main_v156 rfl rfl,
    writesAt main_v157 rfl rfl,
    trivial⟩

end Cert.ReferenceIdeal.Hand

end
-- ==== Proof.Ref.Asc.lean ====
/- The whole line writes its buffers in order from index 16 (the first buffer after the sixteen arguments), and the
   final contents of each buffer, named `rd V r`. -/
import proofs.«118595_j1726576853663_2_alg».proof.Proof.Ref.Run
import proofs.«118595_j1726576853663_2_alg».proof.Proof.Ref.A0
import proofs.«118595_j1726576853663_2_alg».proof.Proof.Ref.A1
import proofs.«118595_j1726576853663_2_alg».proof.Proof.Ref.A2
import proofs.«118595_j1726576853663_2_alg».proof.Proof.Ref.A3

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem ops_asc : Asc (ops : List (HloOp τ sig (Elt F))) 16 :=
  asc_append _ _ 16 asc0 (asc_append _ _ 105 asc1 (asc_append _ _ 211 asc2 asc3))

/-- What buffer `r` holds once @main's operations have run from contents `V`. -/
def rd (V : Valuation τ sig (Elt F)) (r : Ref sig .tc) : r.ty.Contents (Elt F) := after ops V (Proc.devRef .tc r)

theorem rd_def (V : Valuation τ sig (Elt F)) (r : Ref sig .tc) : rd V r = after ops V (Proc.devRef .tc r) := rfl

/-- An argument of @main holds its launch contents. -/
theorem rd_arg (V : Valuation τ sig (Elt F)) (r : Ref sig .tc) (hr : r.idx.val < 16) : rd V r = V (Proc.devRef .tc r) :=
  after_ops_arg V r hr

end Cert.ReferenceIdeal.Hand

end
-- ==== Proof.Ref.E0.lean ====
/- The equations of window 0's operations at the final contents: each buffer is its operation's function of the
   final contents of the operands (a call's operations over that call's buffers). -/
import proofs.«118595_j1726576853663_2_alg».proof.Proof.Ref.Asc

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem e_main_cst (V : Valuation τ sig (Elt F)) : rd V main_cst = (constant S_ .f32 0x3F000000#32) :=
  ssa_nullary ops_asc V 0 rfl rfl
theorem e_main_v0 (V : Valuation τ sig (Elt F)) : rd V main_v0 = (broadcastInDim S65536x784 ![] bcast_S_S65536x784 : (⟨S_, .f32⟩ : BufTy).Contents (Elt F) → (⟨S65536x784, .f32⟩ : BufTy).Contents (Elt F)) (rd V main_cst) :=
  ssa_unary ops_asc V 1 rfl rfl (by decide)
theorem e_main_v1 (V : Valuation τ sig (Elt F)) : rd V main_v1 = (subf : (⟨S65536x784, .f32⟩ : BufTy).Contents (Elt F) → (⟨S65536x784, .f32⟩ : BufTy).Contents (Elt F) → (⟨S65536x784, .f32⟩ : BufTy).Contents (Elt F)) (rd V main_arg0) (rd V main_v0) :=
  ssa_binary ops_asc V 2 rfl rfl (by decide) (by decide)
theorem e_main_cst_0 (V : Valuation τ sig (Elt F)) : rd V main_cst_0 = (constant S_ .f32 0x00000000#32) :=
  ssa_nullary ops_asc V 3 rfl rfl
theorem e_main_v2 (V : Valuation τ sig (Elt F)) : rd V main_v2 = (broadcastInDim S65536x784 ![] bcast_S_S65536x784 : (⟨S_, .f32⟩ : BufTy).Contents (Elt F) → (⟨S65536x784, .f32⟩ : BufTy).Contents (Elt F)) (rd V main_cst_0) :=
  ssa_unary ops_asc V 4 rfl rfl (by decide)
theorem e_main_v3 (V : Valuation τ sig (Elt F)) : rd V main_v3 = (cmpf .oge : (⟨S65536x784, .f32⟩ : BufTy).Contents (Elt F) → (⟨S65536x784, .f32⟩ : BufTy).Contents (Elt F) → (⟨S65536x784, .i1⟩ : BufTy).Contents (Elt F)) (rd V main_v1) (rd V main_v2) :=
  ssa_binary ops_asc V 5 rfl rfl (by decide) (by decide)
theorem e_main_cst_1 (V : Valuation τ sig (Elt F)) : rd V main_cst_1 = (constant S_ .f32 0x3F800000#32) :=
  ssa_nullary ops_asc V 6 rfl rfl
theorem e_main_cst_2 (V : Valuation τ sig (Elt F)) : rd V main_cst_2 = (constant S_ .f32 0xBF800000#32) :=
  ssa_nullary ops_asc V 7 rfl rfl
theorem e_main_call0_v0 (V : Valuation τ sig (Elt F)) : rd V main_call0_v0 = (broadcastInDim S65536x784 ![] bcast_S_S65536x784) (rd V main_cst_1) :=
  ssa_unary ops_asc V 8 rfl rfl (by decide)
theorem e_main_call0_v1 (V : Valuation τ sig (Elt F)) : rd V main_call0_v1 = (broadcastInDim S65536x784 ![] bcast_S_S65536x784) (rd V main_cst_2) :=
  ssa_unary ops_asc V 9 rfl rfl (by decide)
theorem e_main_v4 (V : Valuation τ sig (Elt F)) : rd V main_v4 = select (rd V main_v3) (rd V main_call0_v0) (rd V main_call0_v1) :=
  ssa_ternary ops_asc V 10 rfl rfl (by decide) (by decide) (by decide)
theorem e_main_v5 (V : Valuation τ sig (Elt F)) : rd V main_v5 = (id : (⟨S65536x784, .f32⟩ : BufTy).Contents (Elt F) → (⟨S65536x784, .f32⟩ : BufTy).Contents (Elt F)) (rd V main_v4) :=
  ssa_unary ops_asc V 11 rfl rfl (by decide)
theorem e_main_cst_3 (V : Valuation τ sig (Elt F)) : rd V main_cst_3 = (constant S_ .f32 0x00000000#32) :=
  ssa_nullary ops_asc V 12 rfl rfl
theorem e_main_v6 (V : Valuation τ sig (Elt F)) : rd V main_v6 = (broadcastInDim S256x784 ![] bcast_S_S256x784 : (⟨S_, .f32⟩ : BufTy).Contents (Elt F) → (⟨S256x784, .f32⟩ : BufTy).Contents (Elt F)) (rd V main_cst_3) :=
  ssa_unary ops_asc V 13 rfl rfl (by decide)
theorem e_main_v7 (V : Valuation τ sig (Elt F)) : rd V main_v7 = (cmpf .oge : (⟨S256x784, .f32⟩ : BufTy).Contents (Elt F) → (⟨S256x784, .f32⟩ : BufTy).Contents (Elt F) → (⟨S256x784, .i1⟩ : BufTy).Contents (Elt F)) (rd V main_arg1) (rd V main_v6) :=
  ssa_binary ops_asc V 14 rfl rfl (by decide) (by decide)
theorem e_main_cst_4 (V : Valuation τ sig (Elt F)) : rd V main_cst_4 = (constant S_ .f32 0x3F800000#32) :=
  ssa_nullary ops_asc V 15 rfl rfl
theorem e_main_cst_5 (V : Valuation τ sig (Elt F)) : rd V main_cst_5 = (constant S_ .f32 0xBF800000#32) :=
  ssa_nullary ops_asc V 16 rfl rfl
theorem e_main_call1_v0 (V : Valuation τ sig (Elt F)) : rd V main_call1_v0 = (broadcastInDim S256x784 ![] bcast_S_S256x784) (rd V main_cst_4) :=
  ssa_unary ops_asc V 17 rfl rfl (by decide)
theorem e_main_call1_v1 (V : Valuation τ sig (Elt F)) : rd V main_call1_v1 = (broadcastInDim S256x784 ![] bcast_S_S256x784) (rd V main_cst_5) :=
  ssa_unary ops_asc V 18 rfl rfl (by decide)
theorem e_main_v8 (V : Valuation τ sig (Elt F)) : rd V main_v8 = select (rd V main_v7) (rd V main_call1_v0) (rd V main_call1_v1) :=
  ssa_ternary ops_asc V 19 rfl rfl (by decide) (by decide) (by decide)
theorem e_main_v9 (V : Valuation τ sig (Elt F)) : rd V main_v9 = (id : (⟨S256x784, .f32⟩ : BufTy).Contents (Elt F) → (⟨S256x784, .f32⟩ : BufTy).Contents (Elt F)) (rd V main_v8) :=
  ssa_unary ops_asc V 20 rfl rfl (by decide)
theorem e_main_v10 (V : Valuation τ sig (Elt F)) : rd V main_v10 = ((transpose S784x256 [1, 0] · transposes_S256x784_S784x256_1_0) : (⟨S256x784, .f32⟩ : BufTy).Contents (Elt F) → (⟨S784x256, .f32⟩ : BufTy).Contents (Elt F)) (rd V main_v9) :=
  ssa_unary ops_asc V 21 rfl rfl (by decide)
theorem e_main_v11 (V : Valuation τ sig (Elt F)) : rd V main_v11 = ((fun l r => Host.dotGeneral dot_S65536x784_S784x256_S65536x256_1_0_0_1_n_n none l r) : (⟨S65536x784, .f32⟩ : BufTy).Contents (Elt F) → (⟨S784x256, .f32⟩ : BufTy).Contents (Elt F) → (⟨S65536x256, .f32⟩ : BufTy).Contents (Elt F)) (rd V main_v5) (rd V main_v10) :=
  ssa_binary ops_asc V 22 rfl rfl (by decide) (by decide)
theorem e_main_cst_6 (V : Valuation τ sig (Elt F)) : rd V main_cst_6 = (constant S_ .f32 0x00000000#32) :=
  ssa_nullary ops_asc V 23 rfl rfl
theorem e_main_v12 (V : Valuation τ sig (Elt F)) : rd V main_v12 = ((fun x v => Host.reduceAdd x v reducesTo_S65536x256_S256_d0 h_S_) : (⟨S65536x256, .f32⟩ : BufTy).Contents (Elt F) → (⟨S_, .f32⟩ : BufTy).Contents (Elt F) → (⟨S256, .f32⟩ : BufTy).Contents (Elt F)) (rd V main_v11) (rd V main_cst_6) :=
  ssa_binary ops_asc V 24 rfl rfl (by decide) (by decide)
theorem e_main_cst_7 (V : Valuation τ sig (Elt F)) : rd V main_cst_7 = (constant S_ .f32 0x47800000#32) :=
  ssa_nullary ops_asc V 25 rfl rfl
theorem e_main_v13 (V : Valuation τ sig (Elt F)) : rd V main_v13 = (broadcastInDim S256 ![] bcast_S_S256 : (⟨S_, .f32⟩ : BufTy).Contents (Elt F) → (⟨S256, .f32⟩ : BufTy).Contents (Elt F)) (rd V main_cst_7) :=
  ssa_unary ops_asc V 26 rfl rfl (by decide)
theorem e_main_v14 (V : Valuation τ sig (Elt F)) : rd V main_v14 = (Host.divf : (⟨S256, .f32⟩ : BufTy).Contents (Elt F) → (⟨S256, .f32⟩ : BufTy).Contents (Elt F) → (⟨S256, .f32⟩ : BufTy).Contents (Elt F)) (rd V main_v12) (rd V main_v13) :=
  ssa_binary ops_asc V 27 rfl rfl (by decide) (by decide)
theorem e_main_c (V : Valuation τ sig (Elt F)) : rd V main_c = (constantI S_ 32 0#32) :=
  ssa_nullary ops_asc V 28 rfl rfl
theorem e_main_call2_cst (V : Valuation τ sig (Elt F)) : rd V main_call2_cst = (constant S_ .f32 0x00000000#32) :=
  ssa_nullary ops_asc V 29 rfl rfl
theorem e_main_call2_v0 (V : Valuation τ sig (Elt F)) : rd V main_call2_v0 = (fun x v => Host.reduceAdd x v reducesTo_S65536x256_S256_d0 h_S_) (rd V main_v11) (rd V main_call2_cst) :=
  ssa_binary ops_asc V 30 rfl rfl (by decide) (by decide)
theorem e_main_call2_v1 (V : Valuation τ sig (Elt F)) : rd V main_call2_v1 = (broadcastInDim S1x256 ![1] bcast_S256_S1x256_1) (rd V main_call2_v0) :=
  ssa_unary ops_asc V 31 rfl rfl (by decide)
theorem e_main_call2_cst_0 (V : Valuation τ sig (Elt F)) : rd V main_call2_cst_0 = (constant S_ .f32 0x47800000#32) :=
  ssa_nullary ops_asc V 32 rfl rfl
theorem e_main_call2_v2 (V : Valuation τ sig (Elt F)) : rd V main_call2_v2 = (broadcastInDim S1x256 ![] bcast_S_S1x256) (rd V main_call2_cst_0) :=
  ssa_unary ops_asc V 33 rfl rfl (by decide)
theorem e_main_call2_v3 (V : Valuation τ sig (Elt F)) : rd V main_call2_v3 = Host.divf (rd V main_call2_v1) (rd V main_call2_v2) :=
  ssa_binary ops_asc V 34 rfl rfl (by decide) (by decide)
theorem e_main_call2_v4 (V : Valuation τ sig (Elt F)) : rd V main_call2_v4 = (broadcastInDim S65536x256 ![0, 1] bcast_S1x256_S65536x256_0_1) (rd V main_call2_v3) :=
  ssa_unary ops_asc V 35 rfl rfl (by decide)
theorem e_main_call2_v5 (V : Valuation τ sig (Elt F)) : rd V main_call2_v5 = subf (rd V main_v11) (rd V main_call2_v4) :=
  ssa_binary ops_asc V 36 rfl rfl (by decide) (by decide)
theorem e_main_call2_v6 (V : Valuation τ sig (Elt F)) : rd V main_call2_v6 = mulf (rd V main_call2_v5) (rd V main_call2_v5) :=
  ssa_binary ops_asc V 37 rfl rfl (by decide) (by decide)
theorem e_main_call2_v7 (V : Valuation τ sig (Elt F)) : rd V main_call2_v7 = (sitofp .f32) (rd V main_c) :=
  ssa_unary ops_asc V 38 rfl rfl (by decide)
theorem e_main_call2_cst_1 (V : Valuation τ sig (Elt F)) : rd V main_call2_cst_1 = (constant S_ .f32 0x47800000#32) :=
  ssa_nullary ops_asc V 39 rfl rfl
theorem e_main_call2_v8 (V : Valuation τ sig (Elt F)) : rd V main_call2_v8 = subf (rd V main_call2_cst_1) (rd V main_call2_v7) :=
  ssa_binary ops_asc V 40 rfl rfl (by decide) (by decide)
theorem e_main_call2_cst_2 (V : Valuation τ sig (Elt F)) : rd V main_call2_cst_2 = (constant S_ .f32 0x00000000#32) :=
  ssa_nullary ops_asc V 41 rfl rfl
theorem e_main_call2_v9 (V : Valuation τ sig (Elt F)) : rd V main_call2_v9 = (fun x v => Host.reduceAdd x v reducesTo_S65536x256_S256_d0 h_S_) (rd V main_call2_v6) (rd V main_call2_cst_2) :=
  ssa_binary ops_asc V 42 rfl rfl (by decide) (by decide)
theorem e_main_call2_v10 (V : Valuation τ sig (Elt F)) : rd V main_call2_v10 = (broadcastInDim S256 ![] bcast_S_S256) (rd V main_call2_v8) :=
  ssa_unary ops_asc V 43 rfl rfl (by decide)
theorem e_main_call2_v11 (V : Valuation τ sig (Elt F)) : rd V main_call2_v11 = Host.divf (rd V main_call2_v9) (rd V main_call2_v10) :=
  ssa_binary ops_asc V 44 rfl rfl (by decide) (by decide)
theorem e_main_call2_cst_3 (V : Valuation τ sig (Elt F)) : rd V main_call2_cst_3 = (constant S_ .f32 0x00000000#32) :=
  ssa_nullary ops_asc V 45 rfl rfl
theorem e_main_call2_v12 (V : Valuation τ sig (Elt F)) : rd V main_call2_v12 = (cmpf .ogt) (rd V main_call2_v8) (rd V main_call2_cst_3) :=
  ssa_binary ops_asc V 46 rfl rfl (by decide) (by decide)
theorem e_main_call2_cst_4 (V : Valuation τ sig (Elt F)) : rd V main_call2_cst_4 = (constant S_ .f32 0x7FC00000#32) :=
  ssa_nullary ops_asc V 47 rfl rfl
theorem e_main_call2_call0_v0 (V : Valuation τ sig (Elt F)) : rd V main_call2_call0_v0 = id (rd V main_call2_cst_4) :=
  ssa_unary ops_asc V 48 rfl rfl (by decide)
theorem e_main_call2_call0_v1 (V : Valuation τ sig (Elt F)) : rd V main_call2_call0_v1 = (broadcastInDim S256 ![] bcast_S_S256) (rd V main_call2_call0_v0) :=
  ssa_unary ops_asc V 49 rfl rfl (by decide)
set_option maxHeartbeats 1000000 in
theorem e_main_v15 (V : Valuation τ sig (Elt F)) : rd V main_v15 = select (broadcastInDim S256 ![] bcast_S_S256 (rd V main_call2_v12)) (rd V main_call2_v11) (rd V main_call2_call0_v1) :=
  ssa_ternary ops_asc V 50 rfl rfl (by decide) (by decide) (by decide)
theorem e_main_v16 (V : Valuation τ sig (Elt F)) : rd V main_v16 = (broadcastInDim S1x256 ![1] bcast_S256_S1x256_1 : (⟨S256, .f32⟩ : BufTy).Contents (Elt F) → (⟨S1x256, .f32⟩ : BufTy).Contents (Elt F)) (rd V main_v14) :=
  ssa_unary ops_asc V 51 rfl rfl (by decide)
theorem e_main_v17 (V : Valuation τ sig (Elt F)) : rd V main_v17 = (broadcastInDim S65536x256 ![0, 1] bcast_S1x256_S65536x256_0_1 : (⟨S1x256, .f32⟩ : BufTy).Contents (Elt F) → (⟨S65536x256, .f32⟩ : BufTy).Contents (Elt F)) (rd V main_v16) :=
  ssa_unary ops_asc V 52 rfl rfl (by decide)
theorem e_main_v18 (V : Valuation τ sig (Elt F)) : rd V main_v18 = (subf : (⟨S65536x256, .f32⟩ : BufTy).Contents (Elt F) → (⟨S65536x256, .f32⟩ : BufTy).Contents (Elt F) → (⟨S65536x256, .f32⟩ : BufTy).Contents (Elt F)) (rd V main_v11) (rd V main_v17) :=
  ssa_binary ops_asc V 53 rfl rfl (by decide) (by decide)
theorem e_main_v19 (V : Valuation τ sig (Elt F)) : rd V main_v19 = (broadcastInDim S1x256 ![1] bcast_S256_S1x256_1 : (⟨S256, .f32⟩ : BufTy).Contents (Elt F) → (⟨S1x256, .f32⟩ : BufTy).Contents (Elt F)) (rd V main_arg6) :=
  ssa_unary ops_asc V 54 rfl rfl (by decide)
theorem e_main_v20 (V : Valuation τ sig (Elt F)) : rd V main_v20 = (broadcastInDim S65536x256 ![0, 1] bcast_S1x256_S65536x256_0_1 : (⟨S1x256, .f32⟩ : BufTy).Contents (Elt F) → (⟨S65536x256, .f32⟩ : BufTy).Contents (Elt F)) (rd V main_v19) :=
  ssa_unary ops_asc V 55 rfl rfl (by decide)
theorem e_main_v21 (V : Valuation τ sig (Elt F)) : rd V main_v21 = (mulf : (⟨S65536x256, .f32⟩ : BufTy).Contents (Elt F) → (⟨S65536x256, .f32⟩ : BufTy).Contents (Elt F) → (⟨S65536x256, .f32⟩ : BufTy).Contents (Elt F)) (rd V main_v20) (rd V main_v18) :=
  ssa_binary ops_asc V 56 rfl rfl (by decide) (by decide)
theorem e_main_cst_8 (V : Valuation τ sig (Elt F)) : rd V main_cst_8 = (constant S_ .f32 0x3727C5AC#32) :=
  ssa_nullary ops_asc V 57 rfl rfl
theorem e_main_v22 (V : Valuation τ sig (Elt F)) : rd V main_v22 = (broadcastInDim S256 ![] bcast_S_S256 : (⟨S_, .f32⟩ : BufTy).Contents (Elt F) → (⟨S256, .f32⟩ : BufTy).Contents (Elt F)) (rd V main_cst_8) :=
  ssa_unary ops_asc V 58 rfl rfl (by decide)
theorem e_main_v23 (V : Valuation τ sig (Elt F)) : rd V main_v23 = (addf : (⟨S256, .f32⟩ : BufTy).Contents (Elt F) → (⟨S256, .f32⟩ : BufTy).Contents (Elt F) → (⟨S256, .f32⟩ : BufTy).Contents (Elt F)) (rd V main_v15) (rd V main_v22) :=
  ssa_binary ops_asc V 59 rfl rfl (by decide) (by decide)
theorem e_main_v24 (V : Valuation τ sig (Elt F)) : rd V main_v24 = (Host.rsqrt : (⟨S256, .f32⟩ : BufTy).Contents (Elt F) → (⟨S256, .f32⟩ : BufTy).Contents (Elt F)) (rd V main_v23) :=
  ssa_unary ops_asc V 60 rfl rfl (by decide)
theorem e_main_v25 (V : Valuation τ sig (Elt F)) : rd V main_v25 = (broadcastInDim S1x256 ![1] bcast_S256_S1x256_1 : (⟨S256, .f32⟩ : BufTy).Contents (Elt F) → (⟨S1x256, .f32⟩ : BufTy).Contents (Elt F)) (rd V main_v24) :=
  ssa_unary ops_asc V 61 rfl rfl (by decide)
theorem e_main_v26 (V : Valuation τ sig (Elt F)) : rd V main_v26 = (broadcastInDim S65536x256 ![0, 1] bcast_S1x256_S65536x256_0_1 : (⟨S1x256, .f32⟩ : BufTy).Contents (Elt F) → (⟨S65536x256, .f32⟩ : BufTy).Contents (Elt F)) (rd V main_v25) :=
  ssa_unary ops_asc V 62 rfl rfl (by decide)
theorem e_main_v27 (V : Valuation τ sig (Elt F)) : rd V main_v27 = (mulf : (⟨S65536x256, .f32⟩ : BufTy).Contents (Elt F) → (⟨S65536x256, .f32⟩ : BufTy).Contents (Elt F) → (⟨S65536x256, .f32⟩ : BufTy).Contents (Elt F)) (rd V main_v21) (rd V main_v26) :=
  ssa_binary ops_asc V 63 rfl rfl (by decide) (by decide)
theorem e_main_v28 (V : Valuation τ sig (Elt F)) : rd V main_v28 = (broadcastInDim S1x256 ![1] bcast_S256_S1x256_1 : (⟨S256, .f32⟩ : BufTy).Contents (Elt F) → (⟨S1x256, .f32⟩ : BufTy).Contents (Elt F)) (rd V main_arg11) :=
  ssa_unary ops_asc V 64 rfl rfl (by decide)
theorem e_main_v29 (V : Valuation τ sig (Elt F)) : rd V main_v29 = (broadcastInDim S65536x256 ![0, 1] bcast_S1x256_S65536x256_0_1 : (⟨S1x256, .f32⟩ : BufTy).Contents (Elt F) → (⟨S65536x256, .f32⟩ : BufTy).Contents (Elt F)) (rd V main_v28) :=
  ssa_unary ops_asc V 65 rfl rfl (by decide)
theorem e_main_v30 (V : Valuation τ sig (Elt F)) : rd V main_v30 = (addf : (⟨S65536x256, .f32⟩ : BufTy).Contents (Elt F) → (⟨S65536x256, .f32⟩ : BufTy).Contents (Elt F) → (⟨S65536x256, .f32⟩ : BufTy).Contents (Elt F)) (rd V main_v27) (rd V main_v29) :=
  ssa_binary ops_asc V 66 rfl rfl (by decide) (by decide)
theorem e_main_cst_9 (V : Valuation τ sig (Elt F)) : rd V main_cst_9 = (constant S_ .f32 0x00000000#32) :=
  ssa_nullary ops_asc V 67 rfl rfl
theorem e_main_v31 (V : Valuation τ sig (Elt F)) : rd V main_v31 = (broadcastInDim S65536x256 ![] bcast_S_S65536x256 : (⟨S_, .f32⟩ : BufTy).Contents (Elt F) → (⟨S65536x256, .f32⟩ : BufTy).Contents (Elt F)) (rd V main_cst_9) :=
  ssa_unary ops_asc V 68 rfl rfl (by decide)
theorem e_main_v32 (V : Valuation τ sig (Elt F)) : rd V main_v32 = (cmpf .oge : (⟨S65536x256, .f32⟩ : BufTy).Contents (Elt F) → (⟨S65536x256, .f32⟩ : BufTy).Contents (Elt F) → (⟨S65536x256, .i1⟩ : BufTy).Contents (Elt F)) (rd V main_v30) (rd V main_v31) :=
  ssa_binary ops_asc V 69 rfl rfl (by decide) (by decide)
theorem e_main_cst_10 (V : Valuation τ sig (Elt F)) : rd V main_cst_10 = (constant S_ .f32 0x3F800000#32) :=
  ssa_nullary ops_asc V 70 rfl rfl
theorem e_main_cst_11 (V : Valuation τ sig (Elt F)) : rd V main_cst_11 = (constant S_ .f32 0xBF800000#32) :=
  ssa_nullary ops_asc V 71 rfl rfl
theorem e_main_call3_v0 (V : Valuation τ sig (Elt F)) : rd V main_call3_v0 = (broadcastInDim S65536x256 ![] bcast_S_S65536x256) (rd V main_cst_10) :=
  ssa_unary ops_asc V 72 rfl rfl (by decide)
theorem e_main_call3_v1 (V : Valuation τ sig (Elt F)) : rd V main_call3_v1 = (broadcastInDim S65536x256 ![] bcast_S_S65536x256) (rd V main_cst_11) :=
  ssa_unary ops_asc V 73 rfl rfl (by decide)
theorem e_main_v33 (V : Valuation τ sig (Elt F)) : rd V main_v33 = select (rd V main_v32) (rd V main_call3_v0) (rd V main_call3_v1) :=
  ssa_ternary ops_asc V 74 rfl rfl (by decide) (by decide) (by decide)
theorem e_main_v34 (V : Valuation τ sig (Elt F)) : rd V main_v34 = (id : (⟨S65536x256, .f32⟩ : BufTy).Contents (Elt F) → (⟨S65536x256, .f32⟩ : BufTy).Contents (Elt F)) (rd V main_v33) :=
  ssa_unary ops_asc V 75 rfl rfl (by decide)
theorem e_main_cst_12 (V : Valuation τ sig (Elt F)) : rd V main_cst_12 = (constant S_ .f32 0x00000000#32) :=
  ssa_nullary ops_asc V 76 rfl rfl
theorem e_main_v35 (V : Valuation τ sig (Elt F)) : rd V main_v35 = (broadcastInDim S256x256 ![] bcast_S_S256x256 : (⟨S_, .f32⟩ : BufTy).Contents (Elt F) → (⟨S256x256, .f32⟩ : BufTy).Contents (Elt F)) (rd V main_cst_12) :=
  ssa_unary ops_asc V 77 rfl rfl (by decide)
theorem e_main_v36 (V : Valuation τ sig (Elt F)) : rd V main_v36 = (cmpf .oge : (⟨S256x256, .f32⟩ : BufTy).Contents (Elt F) → (⟨S256x256, .f32⟩ : BufTy).Contents (Elt F) → (⟨S256x256, .i1⟩ : BufTy).Contents (Elt F)) (rd V main_arg2) (rd V main_v35) :=
  ssa_binary ops_asc V 78 rfl rfl (by decide) (by decide)
theorem e_main_cst_13 (V : Valuation τ sig (Elt F)) : rd V main_cst_13 = (constant S_ .f32 0x3F800000#32) :=
  ssa_nullary ops_asc V 79 rfl rfl
theorem e_main_cst_14 (V : Valuation τ sig (Elt F)) : rd V main_cst_14 = (constant S_ .f32 0xBF800000#32) :=
  ssa_nullary ops_asc V 80 rfl rfl
theorem e_main_call4_v0 (V : Valuation τ sig (Elt F)) : rd V main_call4_v0 = (broadcastInDim S256x256 ![] bcast_S_S256x256) (rd V main_cst_13) :=
  ssa_unary ops_asc V 81 rfl rfl (by decide)
theorem e_main_call4_v1 (V : Valuation τ sig (Elt F)) : rd V main_call4_v1 = (broadcastInDim S256x256 ![] bcast_S_S256x256) (rd V main_cst_14) :=
  ssa_unary ops_asc V 82 rfl rfl (by decide)
theorem e_main_v37 (V : Valuation τ sig (Elt F)) : rd V main_v37 = select (rd V main_v36) (rd V main_call4_v0) (rd V main_call4_v1) :=
  ssa_ternary ops_asc V 83 rfl rfl (by decide) (by decide) (by decide)
theorem e_main_v38 (V : Valuation τ sig (Elt F)) : rd V main_v38 = (id : (⟨S256x256, .f32⟩ : BufTy).Contents (Elt F) → (⟨S256x256, .f32⟩ : BufTy).Contents (Elt F)) (rd V main_v37) :=
  ssa_unary ops_asc V 84 rfl rfl (by decide)
theorem e_main_v39 (V : Valuation τ sig (Elt F)) : rd V main_v39 = ((transpose S256x256 [1, 0] · transposes_S256x256_S256x256_1_0) : (⟨S256x256, .f32⟩ : BufTy).Contents (Elt F) → (⟨S256x256, .f32⟩ : BufTy).Contents (Elt F)) (rd V main_v38) :=
  ssa_unary ops_asc V 85 rfl rfl (by decide)
theorem e_main_v40 (V : Valuation τ sig (Elt F)) : rd V main_v40 = ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)) (rd V main_v34) (rd V main_v39) :=
  ssa_binary ops_asc V 86 rfl rfl (by decide) (by decide)
theorem e_main_cst_15 (V : Valuation τ sig (Elt F)) : rd V main_cst_15 = (constant S_ .f32 0x00000000#32) :=
  ssa_nullary ops_asc V 87 rfl rfl
theorem e_main_v41 (V : Valuation τ sig (Elt F)) : rd V main_v41 = ((fun x v => Host.reduceAdd x v reducesTo_S65536x256_S256_d0 h_S_) : (⟨S65536x256, .f32⟩ : BufTy).Contents (Elt F) → (⟨S_, .f32⟩ : BufTy).Contents (Elt F) → (⟨S256, .f32⟩ : BufTy).Contents (Elt F)) (rd V main_v40) (rd V main_cst_15) :=
  ssa_binary ops_asc V 88 rfl rfl (by decide) (by decide)

end Cert.ReferenceIdeal.Hand

end
-- ==== Proof.Ref.E1.lean ====
/- The equations of window 1's operations at the final contents: each buffer is its operation's function of the
   final contents of the operands (a call's operations over that call's buffers). -/
import proofs.«118595_j1726576853663_2_alg».proof.Proof.Ref.Asc

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem e_main_cst_16 (V : Valuation τ sig (Elt F)) : rd V main_cst_16 = (constant S_ .f32 0x47800000#32) :=
  ssa_nullary ops_asc V 89 rfl rfl
theorem e_main_v42 (V : Valuation τ sig (Elt F)) : rd V main_v42 = (broadcastInDim S256 ![] bcast_S_S256 : (⟨S_, .f32⟩ : BufTy).Contents (Elt F) → (⟨S256, .f32⟩ : BufTy).Contents (Elt F)) (rd V main_cst_16) :=
  ssa_unary ops_asc V 90 rfl rfl (by decide)
theorem e_main_v43 (V : Valuation τ sig (Elt F)) : rd V main_v43 = (Host.divf : (⟨S256, .f32⟩ : BufTy).Contents (Elt F) → (⟨S256, .f32⟩ : BufTy).Contents (Elt F) → (⟨S256, .f32⟩ : BufTy).Contents (Elt F)) (rd V main_v41) (rd V main_v42) :=
  ssa_binary ops_asc V 91 rfl rfl (by decide) (by decide)
theorem e_main_c_17 (V : Valuation τ sig (Elt F)) : rd V main_c_17 = (constantI S_ 32 0#32) :=
  ssa_nullary ops_asc V 92 rfl rfl
theorem e_main_call5_cst (V : Valuation τ sig (Elt F)) : rd V main_call5_cst = (constant S_ .f32 0x00000000#32) :=
  ssa_nullary ops_asc V 93 rfl rfl
theorem e_main_call5_v0 (V : Valuation τ sig (Elt F)) : rd V main_call5_v0 = (fun x v => Host.reduceAdd x v reducesTo_S65536x256_S256_d0 h_S_) (rd V main_v40) (rd V main_call5_cst) :=
  ssa_binary ops_asc V 94 rfl rfl (by decide) (by decide)
theorem e_main_call5_v1 (V : Valuation τ sig (Elt F)) : rd V main_call5_v1 = (broadcastInDim S1x256 ![1] bcast_S256_S1x256_1) (rd V main_call5_v0) :=
  ssa_unary ops_asc V 95 rfl rfl (by decide)
theorem e_main_call5_cst_0 (V : Valuation τ sig (Elt F)) : rd V main_call5_cst_0 = (constant S_ .f32 0x47800000#32) :=
  ssa_nullary ops_asc V 96 rfl rfl
theorem e_main_call5_v2 (V : Valuation τ sig (Elt F)) : rd V main_call5_v2 = (broadcastInDim S1x256 ![] bcast_S_S1x256) (rd V main_call5_cst_0) :=
  ssa_unary ops_asc V 97 rfl rfl (by decide)
theorem e_main_call5_v3 (V : Valuation τ sig (Elt F)) : rd V main_call5_v3 = Host.divf (rd V main_call5_v1) (rd V main_call5_v2) :=
  ssa_binary ops_asc V 98 rfl rfl (by decide) (by decide)
theorem e_main_call5_v4 (V : Valuation τ sig (Elt F)) : rd V main_call5_v4 = (broadcastInDim S65536x256 ![0, 1] bcast_S1x256_S65536x256_0_1) (rd V main_call5_v3) :=
  ssa_unary ops_asc V 99 rfl rfl (by decide)
theorem e_main_call5_v5 (V : Valuation τ sig (Elt F)) : rd V main_call5_v5 = subf (rd V main_v40) (rd V main_call5_v4) :=
  ssa_binary ops_asc V 100 rfl rfl (by decide) (by decide)
theorem e_main_call5_v6 (V : Valuation τ sig (Elt F)) : rd V main_call5_v6 = mulf (rd V main_call5_v5) (rd V main_call5_v5) :=
  ssa_binary ops_asc V 101 rfl rfl (by decide) (by decide)
theorem e_main_call5_v7 (V : Valuation τ sig (Elt F)) : rd V main_call5_v7 = (sitofp .f32) (rd V main_c_17) :=
  ssa_unary ops_asc V 102 rfl rfl (by decide)
theorem e_main_call5_cst_1 (V : Valuation τ sig (Elt F)) : rd V main_call5_cst_1 = (constant S_ .f32 0x47800000#32) :=
  ssa_nullary ops_asc V 103 rfl rfl
theorem e_main_call5_v8 (V : Valuation τ sig (Elt F)) : rd V main_call5_v8 = subf (rd V main_call5_cst_1) (rd V main_call5_v7) :=
  ssa_binary ops_asc V 104 rfl rfl (by decide) (by decide)
theorem e_main_call5_cst_2 (V : Valuation τ sig (Elt F)) : rd V main_call5_cst_2 = (constant S_ .f32 0x00000000#32) :=
  ssa_nullary ops_asc V 105 rfl rfl
theorem e_main_call5_v9 (V : Valuation τ sig (Elt F)) : rd V main_call5_v9 = (fun x v => Host.reduceAdd x v reducesTo_S65536x256_S256_d0 h_S_) (rd V main_call5_v6) (rd V main_call5_cst_2) :=
  ssa_binary ops_asc V 106 rfl rfl (by decide) (by decide)
theorem e_main_call5_v10 (V : Valuation τ sig (Elt F)) : rd V main_call5_v10 = (broadcastInDim S256 ![] bcast_S_S256) (rd V main_call5_v8) :=
  ssa_unary ops_asc V 107 rfl rfl (by decide)
theorem e_main_call5_v11 (V : Valuation τ sig (Elt F)) : rd V main_call5_v11 = Host.divf (rd V main_call5_v9) (rd V main_call5_v10) :=
  ssa_binary ops_asc V 108 rfl rfl (by decide) (by decide)
theorem e_main_call5_cst_3 (V : Valuation τ sig (Elt F)) : rd V main_call5_cst_3 = (constant S_ .f32 0x00000000#32) :=
  ssa_nullary ops_asc V 109 rfl rfl
theorem e_main_call5_v12 (V : Valuation τ sig (Elt F)) : rd V main_call5_v12 = (cmpf .ogt) (rd V main_call5_v8) (rd V main_call5_cst_3) :=
  ssa_binary ops_asc V 110 rfl rfl (by decide) (by decide)
theorem e_main_call5_cst_4 (V : Valuation τ sig (Elt F)) : rd V main_call5_cst_4 = (constant S_ .f32 0x7FC00000#32) :=
  ssa_nullary ops_asc V 111 rfl rfl
theorem e_main_call5_call0_v0 (V : Valuation τ sig (Elt F)) : rd V main_call5_call0_v0 = id (rd V main_call5_cst_4) :=
  ssa_unary ops_asc V 112 rfl rfl (by decide)
theorem e_main_call5_call0_v1 (V : Valuation τ sig (Elt F)) : rd V main_call5_call0_v1 = (broadcastInDim S256 ![] bcast_S_S256) (rd V main_call5_call0_v0) :=
  ssa_unary ops_asc V 113 rfl rfl (by decide)
set_option maxHeartbeats 1000000 in
theorem e_main_v44 (V : Valuation τ sig (Elt F)) : rd V main_v44 = select (broadcastInDim S256 ![] bcast_S_S256 (rd V main_call5_v12)) (rd V main_call5_v11) (rd V main_call5_call0_v1) :=
  ssa_ternary ops_asc V 114 rfl rfl (by decide) (by decide) (by decide)
theorem e_main_v45 (V : Valuation τ sig (Elt F)) : rd V main_v45 = (broadcastInDim S1x256 ![1] bcast_S256_S1x256_1 : (⟨S256, .f32⟩ : BufTy).Contents (Elt F) → (⟨S1x256, .f32⟩ : BufTy).Contents (Elt F)) (rd V main_v43) :=
  ssa_unary ops_asc V 115 rfl rfl (by decide)
theorem e_main_v46 (V : Valuation τ sig (Elt F)) : rd V main_v46 = (broadcastInDim S65536x256 ![0, 1] bcast_S1x256_S65536x256_0_1 : (⟨S1x256, .f32⟩ : BufTy).Contents (Elt F) → (⟨S65536x256, .f32⟩ : BufTy).Contents (Elt F)) (rd V main_v45) :=
  ssa_unary ops_asc V 116 rfl rfl (by decide)
theorem e_main_v47 (V : Valuation τ sig (Elt F)) : rd V main_v47 = (subf : (⟨S65536x256, .f32⟩ : BufTy).Contents (Elt F) → (⟨S65536x256, .f32⟩ : BufTy).Contents (Elt F) → (⟨S65536x256, .f32⟩ : BufTy).Contents (Elt F)) (rd V main_v40) (rd V main_v46) :=
  ssa_binary ops_asc V 117 rfl rfl (by decide) (by decide)
theorem e_main_v48 (V : Valuation τ sig (Elt F)) : rd V main_v48 = (broadcastInDim S1x256 ![1] bcast_S256_S1x256_1 : (⟨S256, .f32⟩ : BufTy).Contents (Elt F) → (⟨S1x256, .f32⟩ : BufTy).Contents (Elt F)) (rd V main_arg7) :=
  ssa_unary ops_asc V 118 rfl rfl (by decide)
theorem e_main_v49 (V : Valuation τ sig (Elt F)) : rd V main_v49 = (broadcastInDim S65536x256 ![0, 1] bcast_S1x256_S65536x256_0_1 : (⟨S1x256, .f32⟩ : BufTy).Contents (Elt F) → (⟨S65536x256, .f32⟩ : BufTy).Contents (Elt F)) (rd V main_v48) :=
  ssa_unary ops_asc V 119 rfl rfl (by decide)
theorem e_main_v50 (V : Valuation τ sig (Elt F)) : rd V main_v50 = (mulf : (⟨S65536x256, .f32⟩ : BufTy).Contents (Elt F) → (⟨S65536x256, .f32⟩ : BufTy).Contents (Elt F) → (⟨S65536x256, .f32⟩ : BufTy).Contents (Elt F)) (rd V main_v49) (rd V main_v47) :=
  ssa_binary ops_asc V 120 rfl rfl (by decide) (by decide)
theorem e_main_cst_18 (V : Valuation τ sig (Elt F)) : rd V main_cst_18 = (constant S_ .f32 0x3727C5AC#32) :=
  ssa_nullary ops_asc V 121 rfl rfl
theorem e_main_v51 (V : Valuation τ sig (Elt F)) : rd V main_v51 = (broadcastInDim S256 ![] bcast_S_S256 : (⟨S_, .f32⟩ : BufTy).Contents (Elt F) → (⟨S256, .f32⟩ : BufTy).Contents (Elt F)) (rd V main_cst_18) :=
  ssa_unary ops_asc V 122 rfl rfl (by decide)
theorem e_main_v52 (V : Valuation τ sig (Elt F)) : rd V main_v52 = (addf : (⟨S256, .f32⟩ : BufTy).Contents (Elt F) → (⟨S256, .f32⟩ : BufTy).Contents (Elt F) → (⟨S256, .f32⟩ : BufTy).Contents (Elt F)) (rd V main_v44) (rd V main_v51) :=
  ssa_binary ops_asc V 123 rfl rfl (by decide) (by decide)
theorem e_main_v53 (V : Valuation τ sig (Elt F)) : rd V main_v53 = (Host.rsqrt : (⟨S256, .f32⟩ : BufTy).Contents (Elt F) → (⟨S256, .f32⟩ : BufTy).Contents (Elt F)) (rd V main_v52) :=
  ssa_unary ops_asc V 124 rfl rfl (by decide)
theorem e_main_v54 (V : Valuation τ sig (Elt F)) : rd V main_v54 = (broadcastInDim S1x256 ![1] bcast_S256_S1x256_1 : (⟨S256, .f32⟩ : BufTy).Contents (Elt F) → (⟨S1x256, .f32⟩ : BufTy).Contents (Elt F)) (rd V main_v53) :=
  ssa_unary ops_asc V 125 rfl rfl (by decide)
theorem e_main_v55 (V : Valuation τ sig (Elt F)) : rd V main_v55 = (broadcastInDim S65536x256 ![0, 1] bcast_S1x256_S65536x256_0_1 : (⟨S1x256, .f32⟩ : BufTy).Contents (Elt F) → (⟨S65536x256, .f32⟩ : BufTy).Contents (Elt F)) (rd V main_v54) :=
  ssa_unary ops_asc V 126 rfl rfl (by decide)
theorem e_main_v56 (V : Valuation τ sig (Elt F)) : rd V main_v56 = (mulf : (⟨S65536x256, .f32⟩ : BufTy).Contents (Elt F) → (⟨S65536x256, .f32⟩ : BufTy).Contents (Elt F) → (⟨S65536x256, .f32⟩ : BufTy).Contents (Elt F)) (rd V main_v50) (rd V main_v55) :=
  ssa_binary ops_asc V 127 rfl rfl (by decide) (by decide)
theorem e_main_v57 (V : Valuation τ sig (Elt F)) : rd V main_v57 = (broadcastInDim S1x256 ![1] bcast_S256_S1x256_1 : (⟨S256, .f32⟩ : BufTy).Contents (Elt F) → (⟨S1x256, .f32⟩ : BufTy).Contents (Elt F)) (rd V main_arg12) :=
  ssa_unary ops_asc V 128 rfl rfl (by decide)
theorem e_main_v58 (V : Valuation τ sig (Elt F)) : rd V main_v58 = (broadcastInDim S65536x256 ![0, 1] bcast_S1x256_S65536x256_0_1 : (⟨S1x256, .f32⟩ : BufTy).Contents (Elt F) → (⟨S65536x256, .f32⟩ : BufTy).Contents (Elt F)) (rd V main_v57) :=
  ssa_unary ops_asc V 129 rfl rfl (by decide)
theorem e_main_v59 (V : Valuation τ sig (Elt F)) : rd V main_v59 = (addf : (⟨S65536x256, .f32⟩ : BufTy).Contents (Elt F) → (⟨S65536x256, .f32⟩ : BufTy).Contents (Elt F) → (⟨S65536x256, .f32⟩ : BufTy).Contents (Elt F)) (rd V main_v56) (rd V main_v58) :=
  ssa_binary ops_asc V 130 rfl rfl (by decide) (by decide)
theorem e_main_cst_19 (V : Valuation τ sig (Elt F)) : rd V main_cst_19 = (constant S_ .f32 0x00000000#32) :=
  ssa_nullary ops_asc V 131 rfl rfl
theorem e_main_v60 (V : Valuation τ sig (Elt F)) : rd V main_v60 = (broadcastInDim S65536x256 ![] bcast_S_S65536x256 : (⟨S_, .f32⟩ : BufTy).Contents (Elt F) → (⟨S65536x256, .f32⟩ : BufTy).Contents (Elt F)) (rd V main_cst_19) :=
  ssa_unary ops_asc V 132 rfl rfl (by decide)
theorem e_main_v61 (V : Valuation τ sig (Elt F)) : rd V main_v61 = (cmpf .oge : (⟨S65536x256, .f32⟩ : BufTy).Contents (Elt F) → (⟨S65536x256, .f32⟩ : BufTy).Contents (Elt F) → (⟨S65536x256, .i1⟩ : BufTy).Contents (Elt F)) (rd V main_v59) (rd V main_v60) :=
  ssa_binary ops_asc V 133 rfl rfl (by decide) (by decide)
theorem e_main_cst_20 (V : Valuation τ sig (Elt F)) : rd V main_cst_20 = (constant S_ .f32 0x3F800000#32) :=
  ssa_nullary ops_asc V 134 rfl rfl
theorem e_main_cst_21 (V : Valuation τ sig (Elt F)) : rd V main_cst_21 = (constant S_ .f32 0xBF800000#32) :=
  ssa_nullary ops_asc V 135 rfl rfl
theorem e_main_call6_v0 (V : Valuation τ sig (Elt F)) : rd V main_call6_v0 = (broadcastInDim S65536x256 ![] bcast_S_S65536x256) (rd V main_cst_20) :=
  ssa_unary ops_asc V 136 rfl rfl (by decide)
theorem e_main_call6_v1 (V : Valuation τ sig (Elt F)) : rd V main_call6_v1 = (broadcastInDim S65536x256 ![] bcast_S_S65536x256) (rd V main_cst_21) :=
  ssa_unary ops_asc V 137 rfl rfl (by decide)
theorem e_main_v62 (V : Valuation τ sig (Elt F)) : rd V main_v62 = select (rd V main_v61) (rd V main_call6_v0) (rd V main_call6_v1) :=
  ssa_ternary ops_asc V 138 rfl rfl (by decide) (by decide) (by decide)
theorem e_main_v63 (V : Valuation τ sig (Elt F)) : rd V main_v63 = (id : (⟨S65536x256, .f32⟩ : BufTy).Contents (Elt F) → (⟨S65536x256, .f32⟩ : BufTy).Contents (Elt F)) (rd V main_v62) :=
  ssa_unary ops_asc V 139 rfl rfl (by decide)
theorem e_main_cst_22 (V : Valuation τ sig (Elt F)) : rd V main_cst_22 = (constant S_ .f32 0x00000000#32) :=
  ssa_nullary ops_asc V 140 rfl rfl
theorem e_main_v64 (V : Valuation τ sig (Elt F)) : rd V main_v64 = (broadcastInDim S256x256 ![] bcast_S_S256x256 : (⟨S_, .f32⟩ : BufTy).Contents (Elt F) → (⟨S256x256, .f32⟩ : BufTy).Contents (Elt F)) (rd V main_cst_22) :=
  ssa_unary ops_asc V 141 rfl rfl (by decide)
theorem e_main_v65 (V : Valuation τ sig (Elt F)) : rd V main_v65 = (cmpf .oge : (⟨S256x256, .f32⟩ : BufTy).Contents (Elt F) → (⟨S256x256, .f32⟩ : BufTy).Contents (Elt F) → (⟨S256x256, .i1⟩ : BufTy).Contents (Elt F)) (rd V main_arg3) (rd V main_v64) :=
  ssa_binary ops_asc V 142 rfl rfl (by decide) (by decide)
theorem e_main_cst_23 (V : Valuation τ sig (Elt F)) : rd V main_cst_23 = (constant S_ .f32 0x3F800000#32) :=
  ssa_nullary ops_asc V 143 rfl rfl
theorem e_main_cst_24 (V : Valuation τ sig (Elt F)) : rd V main_cst_24 = (constant S_ .f32 0xBF800000#32) :=
  ssa_nullary ops_asc V 144 rfl rfl
theorem e_main_call7_v0 (V : Valuation τ sig (Elt F)) : rd V main_call7_v0 = (broadcastInDim S256x256 ![] bcast_S_S256x256) (rd V main_cst_23) :=
  ssa_unary ops_asc V 145 rfl rfl (by decide)
theorem e_main_call7_v1 (V : Valuation τ sig (Elt F)) : rd V main_call7_v1 = (broadcastInDim S256x256 ![] bcast_S_S256x256) (rd V main_cst_24) :=
  ssa_unary ops_asc V 146 rfl rfl (by decide)
theorem e_main_v66 (V : Valuation τ sig (Elt F)) : rd V main_v66 = select (rd V main_v65) (rd V main_call7_v0) (rd V main_call7_v1) :=
  ssa_ternary ops_asc V 147 rfl rfl (by decide) (by decide) (by decide)
theorem e_main_v67 (V : Valuation τ sig (Elt F)) : rd V main_v67 = (id : (⟨S256x256, .f32⟩ : BufTy).Contents (Elt F) → (⟨S256x256, .f32⟩ : BufTy).Contents (Elt F)) (rd V main_v66) :=
  ssa_unary ops_asc V 148 rfl rfl (by decide)
theorem e_main_v68 (V : Valuation τ sig (Elt F)) : rd V main_v68 = ((transpose S256x256 [1, 0] · transposes_S256x256_S256x256_1_0) : (⟨S256x256, .f32⟩ : BufTy).Contents (Elt F) → (⟨S256x256, .f32⟩ : BufTy).Contents (Elt F)) (rd V main_v67) :=
  ssa_unary ops_asc V 149 rfl rfl (by decide)
theorem e_main_v69 (V : Valuation τ sig (Elt F)) : rd V main_v69 = ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)) (rd V main_v63) (rd V main_v68) :=
  ssa_binary ops_asc V 150 rfl rfl (by decide) (by decide)
theorem e_main_cst_25 (V : Valuation τ sig (Elt F)) : rd V main_cst_25 = (constant S_ .f32 0x00000000#32) :=
  ssa_nullary ops_asc V 151 rfl rfl
theorem e_main_v70 (V : Valuation τ sig (Elt F)) : rd V main_v70 = ((fun x v => Host.reduceAdd x v reducesTo_S65536x256_S256_d0 h_S_) : (⟨S65536x256, .f32⟩ : BufTy).Contents (Elt F) → (⟨S_, .f32⟩ : BufTy).Contents (Elt F) → (⟨S256, .f32⟩ : BufTy).Contents (Elt F)) (rd V main_v69) (rd V main_cst_25) :=
  ssa_binary ops_asc V 152 rfl rfl (by decide) (by decide)
theorem e_main_cst_26 (V : Valuation τ sig (Elt F)) : rd V main_cst_26 = (constant S_ .f32 0x47800000#32) :=
  ssa_nullary ops_asc V 153 rfl rfl
theorem e_main_v71 (V : Valuation τ sig (Elt F)) : rd V main_v71 = (broadcastInDim S256 ![] bcast_S_S256 : (⟨S_, .f32⟩ : BufTy).Contents (Elt F) → (⟨S256, .f32⟩ : BufTy).Contents (Elt F)) (rd V main_cst_26) :=
  ssa_unary ops_asc V 154 rfl rfl (by decide)
theorem e_main_v72 (V : Valuation τ sig (Elt F)) : rd V main_v72 = (Host.divf : (⟨S256, .f32⟩ : BufTy).Contents (Elt F) → (⟨S256, .f32⟩ : BufTy).Contents (Elt F) → (⟨S256, .f32⟩ : BufTy).Contents (Elt F)) (rd V main_v70) (rd V main_v71) :=
  ssa_binary ops_asc V 155 rfl rfl (by decide) (by decide)
theorem e_main_c_27 (V : Valuation τ sig (Elt F)) : rd V main_c_27 = (constantI S_ 32 0#32) :=
  ssa_nullary ops_asc V 156 rfl rfl
theorem e_main_call8_cst (V : Valuation τ sig (Elt F)) : rd V main_call8_cst = (constant S_ .f32 0x00000000#32) :=
  ssa_nullary ops_asc V 157 rfl rfl
theorem e_main_call8_v0 (V : Valuation τ sig (Elt F)) : rd V main_call8_v0 = (fun x v => Host.reduceAdd x v reducesTo_S65536x256_S256_d0 h_S_) (rd V main_v69) (rd V main_call8_cst) :=
  ssa_binary ops_asc V 158 rfl rfl (by decide) (by decide)
theorem e_main_call8_v1 (V : Valuation τ sig (Elt F)) : rd V main_call8_v1 = (broadcastInDim S1x256 ![1] bcast_S256_S1x256_1) (rd V main_call8_v0) :=
  ssa_unary ops_asc V 159 rfl rfl (by decide)
theorem e_main_call8_cst_0 (V : Valuation τ sig (Elt F)) : rd V main_call8_cst_0 = (constant S_ .f32 0x47800000#32) :=
  ssa_nullary ops_asc V 160 rfl rfl
theorem e_main_call8_v2 (V : Valuation τ sig (Elt F)) : rd V main_call8_v2 = (broadcastInDim S1x256 ![] bcast_S_S1x256) (rd V main_call8_cst_0) :=
  ssa_unary ops_asc V 161 rfl rfl (by decide)
theorem e_main_call8_v3 (V : Valuation τ sig (Elt F)) : rd V main_call8_v3 = Host.divf (rd V main_call8_v1) (rd V main_call8_v2) :=
  ssa_binary ops_asc V 162 rfl rfl (by decide) (by decide)
theorem e_main_call8_v4 (V : Valuation τ sig (Elt F)) : rd V main_call8_v4 = (broadcastInDim S65536x256 ![0, 1] bcast_S1x256_S65536x256_0_1) (rd V main_call8_v3) :=
  ssa_unary ops_asc V 163 rfl rfl (by decide)
theorem e_main_call8_v5 (V : Valuation τ sig (Elt F)) : rd V main_call8_v5 = subf (rd V main_v69) (rd V main_call8_v4) :=
  ssa_binary ops_asc V 164 rfl rfl (by decide) (by decide)
theorem e_main_call8_v6 (V : Valuation τ sig (Elt F)) : rd V main_call8_v6 = mulf (rd V main_call8_v5) (rd V main_call8_v5) :=
  ssa_binary ops_asc V 165 rfl rfl (by decide) (by decide)
theorem e_main_call8_v7 (V : Valuation τ sig (Elt F)) : rd V main_call8_v7 = (sitofp .f32) (rd V main_c_27) :=
  ssa_unary ops_asc V 166 rfl rfl (by decide)
theorem e_main_call8_cst_1 (V : Valuation τ sig (Elt F)) : rd V main_call8_cst_1 = (constant S_ .f32 0x47800000#32) :=
  ssa_nullary ops_asc V 167 rfl rfl
theorem e_main_call8_v8 (V : Valuation τ sig (Elt F)) : rd V main_call8_v8 = subf (rd V main_call8_cst_1) (rd V main_call8_v7) :=
  ssa_binary ops_asc V 168 rfl rfl (by decide) (by decide)
theorem e_main_call8_cst_2 (V : Valuation τ sig (Elt F)) : rd V main_call8_cst_2 = (constant S_ .f32 0x00000000#32) :=
  ssa_nullary ops_asc V 169 rfl rfl
theorem e_main_call8_v9 (V : Valuation τ sig (Elt F)) : rd V main_call8_v9 = (fun x v => Host.reduceAdd x v reducesTo_S65536x256_S256_d0 h_S_) (rd V main_call8_v6) (rd V main_call8_cst_2) :=
  ssa_binary ops_asc V 170 rfl rfl (by decide) (by decide)
theorem e_main_call8_v10 (V : Valuation τ sig (Elt F)) : rd V main_call8_v10 = (broadcastInDim S256 ![] bcast_S_S256) (rd V main_call8_v8) :=
  ssa_unary ops_asc V 171 rfl rfl (by decide)
theorem e_main_call8_v11 (V : Valuation τ sig (Elt F)) : rd V main_call8_v11 = Host.divf (rd V main_call8_v9) (rd V main_call8_v10) :=
  ssa_binary ops_asc V 172 rfl rfl (by decide) (by decide)
theorem e_main_call8_cst_3 (V : Valuation τ sig (Elt F)) : rd V main_call8_cst_3 = (constant S_ .f32 0x00000000#32) :=
  ssa_nullary ops_asc V 173 rfl rfl
theorem e_main_call8_v12 (V : Valuation τ sig (Elt F)) : rd V main_call8_v12 = (cmpf .ogt) (rd V main_call8_v8) (rd V main_call8_cst_3) :=
  ssa_binary ops_asc V 174 rfl rfl (by decide) (by decide)
theorem e_main_call8_cst_4 (V : Valuation τ sig (Elt F)) : rd V main_call8_cst_4 = (constant S_ .f32 0x7FC00000#32) :=
  ssa_nullary ops_asc V 175 rfl rfl
theorem e_main_call8_call0_v0 (V : Valuation τ sig (Elt F)) : rd V main_call8_call0_v0 = id (rd V main_call8_cst_4) :=
  ssa_unary ops_asc V 176 rfl rfl (by decide)
theorem e_main_call8_call0_v1 (V : Valuation τ sig (Elt F)) : rd V main_call8_call0_v1 = (broadcastInDim S256 ![] bcast_S_S256) (rd V main_call8_call0_v0) :=
  ssa_unary ops_asc V 177 rfl rfl (by decide)
set_option maxHeartbeats 1000000 in
theorem e_main_v73 (V : Valuation τ sig (Elt F)) : rd V main_v73 = select (broadcastInDim S256 ![] bcast_S_S256 (rd V main_call8_v12)) (rd V main_call8_v11) (rd V main_call8_call0_v1) :=
  ssa_ternary ops_asc V 178 rfl rfl (by decide) (by decide) (by decide)
theorem e_main_v74 (V : Valuation τ sig (Elt F)) : rd V main_v74 = (broadcastInDim S1x256 ![1] bcast_S256_S1x256_1 : (⟨S256, .f32⟩ : BufTy).Contents (Elt F) → (⟨S1x256, .f32⟩ : BufTy).Contents (Elt F)) (rd V main_v72) :=
  ssa_unary ops_asc V 179 rfl rfl (by decide)
theorem e_main_v75 (V : Valuation τ sig (Elt F)) : rd V main_v75 = (broadcastInDim S65536x256 ![0, 1] bcast_S1x256_S65536x256_0_1 : (⟨S1x256, .f32⟩ : BufTy).Contents (Elt F) → (⟨S65536x256, .f32⟩ : BufTy).Contents (Elt F)) (rd V main_v74) :=
  ssa_unary ops_asc V 180 rfl rfl (by decide)
theorem e_main_v76 (V : Valuation τ sig (Elt F)) : rd V main_v76 = (subf : (⟨S65536x256, .f32⟩ : BufTy).Contents (Elt F) → (⟨S65536x256, .f32⟩ : BufTy).Contents (Elt F) → (⟨S65536x256, .f32⟩ : BufTy).Contents (Elt F)) (rd V main_v69) (rd V main_v75) :=
  ssa_binary ops_asc V 181 rfl rfl (by decide) (by decide)
theorem e_main_v77 (V : Valuation τ sig (Elt F)) : rd V main_v77 = (broadcastInDim S1x256 ![1] bcast_S256_S1x256_1 : (⟨S256, .f32⟩ : BufTy).Contents (Elt F) → (⟨S1x256, .f32⟩ : BufTy).Contents (Elt F)) (rd V main_arg8) :=
  ssa_unary ops_asc V 182 rfl rfl (by decide)
theorem e_main_v78 (V : Valuation τ sig (Elt F)) : rd V main_v78 = (broadcastInDim S65536x256 ![0, 1] bcast_S1x256_S65536x256_0_1 : (⟨S1x256, .f32⟩ : BufTy).Contents (Elt F) → (⟨S65536x256, .f32⟩ : BufTy).Contents (Elt F)) (rd V main_v77) :=
  ssa_unary ops_asc V 183 rfl rfl (by decide)
theorem e_main_v79 (V : Valuation τ sig (Elt F)) : rd V main_v79 = (mulf : (⟨S65536x256, .f32⟩ : BufTy).Contents (Elt F) → (⟨S65536x256, .f32⟩ : BufTy).Contents (Elt F) → (⟨S65536x256, .f32⟩ : BufTy).Contents (Elt F)) (rd V main_v78) (rd V main_v76) :=
  ssa_binary ops_asc V 184 rfl rfl (by decide) (by decide)
theorem e_main_cst_28 (V : Valuation τ sig (Elt F)) : rd V main_cst_28 = (constant S_ .f32 0x3727C5AC#32) :=
  ssa_nullary ops_asc V 185 rfl rfl
theorem e_main_v80 (V : Valuation τ sig (Elt F)) : rd V main_v80 = (broadcastInDim S256 ![] bcast_S_S256 : (⟨S_, .f32⟩ : BufTy).Contents (Elt F) → (⟨S256, .f32⟩ : BufTy).Contents (Elt F)) (rd V main_cst_28) :=
  ssa_unary ops_asc V 186 rfl rfl (by decide)
theorem e_main_v81 (V : Valuation τ sig (Elt F)) : rd V main_v81 = (addf : (⟨S256, .f32⟩ : BufTy).Contents (Elt F) → (⟨S256, .f32⟩ : BufTy).Contents (Elt F) → (⟨S256, .f32⟩ : BufTy).Contents (Elt F)) (rd V main_v73) (rd V main_v80) :=
  ssa_binary ops_asc V 187 rfl rfl (by decide) (by decide)
theorem e_main_v82 (V : Valuation τ sig (Elt F)) : rd V main_v82 = (Host.rsqrt : (⟨S256, .f32⟩ : BufTy).Contents (Elt F) → (⟨S256, .f32⟩ : BufTy).Contents (Elt F)) (rd V main_v81) :=
  ssa_unary ops_asc V 188 rfl rfl (by decide)
theorem e_main_v83 (V : Valuation τ sig (Elt F)) : rd V main_v83 = (broadcastInDim S1x256 ![1] bcast_S256_S1x256_1 : (⟨S256, .f32⟩ : BufTy).Contents (Elt F) → (⟨S1x256, .f32⟩ : BufTy).Contents (Elt F)) (rd V main_v82) :=
  ssa_unary ops_asc V 189 rfl rfl (by decide)
theorem e_main_v84 (V : Valuation τ sig (Elt F)) : rd V main_v84 = (broadcastInDim S65536x256 ![0, 1] bcast_S1x256_S65536x256_0_1 : (⟨S1x256, .f32⟩ : BufTy).Contents (Elt F) → (⟨S65536x256, .f32⟩ : BufTy).Contents (Elt F)) (rd V main_v83) :=
  ssa_unary ops_asc V 190 rfl rfl (by decide)
theorem e_main_v85 (V : Valuation τ sig (Elt F)) : rd V main_v85 = (mulf : (⟨S65536x256, .f32⟩ : BufTy).Contents (Elt F) → (⟨S65536x256, .f32⟩ : BufTy).Contents (Elt F) → (⟨S65536x256, .f32⟩ : BufTy).Contents (Elt F)) (rd V main_v79) (rd V main_v84) :=
  ssa_binary ops_asc V 191 rfl rfl (by decide) (by decide)
theorem e_main_v86 (V : Valuation τ sig (Elt F)) : rd V main_v86 = (broadcastInDim S1x256 ![1] bcast_S256_S1x256_1 : (⟨S256, .f32⟩ : BufTy).Contents (Elt F) → (⟨S1x256, .f32⟩ : BufTy).Contents (Elt F)) (rd V main_arg13) :=
  ssa_unary ops_asc V 192 rfl rfl (by decide)
theorem e_main_v87 (V : Valuation τ sig (Elt F)) : rd V main_v87 = (broadcastInDim S65536x256 ![0, 1] bcast_S1x256_S65536x256_0_1 : (⟨S1x256, .f32⟩ : BufTy).Contents (Elt F) → (⟨S65536x256, .f32⟩ : BufTy).Contents (Elt F)) (rd V main_v86) :=
  ssa_unary ops_asc V 193 rfl rfl (by decide)
theorem e_main_v88 (V : Valuation τ sig (Elt F)) : rd V main_v88 = (addf : (⟨S65536x256, .f32⟩ : BufTy).Contents (Elt F) → (⟨S65536x256, .f32⟩ : BufTy).Contents (Elt F) → (⟨S65536x256, .f32⟩ : BufTy).Contents (Elt F)) (rd V main_v85) (rd V main_v87) :=
  ssa_binary ops_asc V 194 rfl rfl (by decide) (by decide)

end Cert.ReferenceIdeal.Hand

end
-- ==== Proof.Ref.E2.lean ====
/- The equations of window 2's operations at the final contents: each buffer is its operation's function of the
   final contents of the operands (a call's operations over that call's buffers). -/
import proofs.«118595_j1726576853663_2_alg».proof.Proof.Ref.Asc

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem e_main_cst_29 (V : Valuation τ sig (Elt F)) : rd V main_cst_29 = (constant S_ .f32 0x00000000#32) :=
  ssa_nullary ops_asc V 195 rfl rfl
theorem e_main_v89 (V : Valuation τ sig (Elt F)) : rd V main_v89 = (broadcastInDim S65536x256 ![] bcast_S_S65536x256 : (⟨S_, .f32⟩ : BufTy).Contents (Elt F) → (⟨S65536x256, .f32⟩ : BufTy).Contents (Elt F)) (rd V main_cst_29) :=
  ssa_unary ops_asc V 196 rfl rfl (by decide)
theorem e_main_v90 (V : Valuation τ sig (Elt F)) : rd V main_v90 = (cmpf .oge : (⟨S65536x256, .f32⟩ : BufTy).Contents (Elt F) → (⟨S65536x256, .f32⟩ : BufTy).Contents (Elt F) → (⟨S65536x256, .i1⟩ : BufTy).Contents (Elt F)) (rd V main_v88) (rd V main_v89) :=
  ssa_binary ops_asc V 197 rfl rfl (by decide) (by decide)
theorem e_main_cst_30 (V : Valuation τ sig (Elt F)) : rd V main_cst_30 = (constant S_ .f32 0x3F800000#32) :=
  ssa_nullary ops_asc V 198 rfl rfl
theorem e_main_cst_31 (V : Valuation τ sig (Elt F)) : rd V main_cst_31 = (constant S_ .f32 0xBF800000#32) :=
  ssa_nullary ops_asc V 199 rfl rfl
theorem e_main_call9_v0 (V : Valuation τ sig (Elt F)) : rd V main_call9_v0 = (broadcastInDim S65536x256 ![] bcast_S_S65536x256) (rd V main_cst_30) :=
  ssa_unary ops_asc V 200 rfl rfl (by decide)
theorem e_main_call9_v1 (V : Valuation τ sig (Elt F)) : rd V main_call9_v1 = (broadcastInDim S65536x256 ![] bcast_S_S65536x256) (rd V main_cst_31) :=
  ssa_unary ops_asc V 201 rfl rfl (by decide)
theorem e_main_v91 (V : Valuation τ sig (Elt F)) : rd V main_v91 = select (rd V main_v90) (rd V main_call9_v0) (rd V main_call9_v1) :=
  ssa_ternary ops_asc V 202 rfl rfl (by decide) (by decide) (by decide)
theorem e_main_v92 (V : Valuation τ sig (Elt F)) : rd V main_v92 = (id : (⟨S65536x256, .f32⟩ : BufTy).Contents (Elt F) → (⟨S65536x256, .f32⟩ : BufTy).Contents (Elt F)) (rd V main_v91) :=
  ssa_unary ops_asc V 203 rfl rfl (by decide)
theorem e_main_cst_32 (V : Valuation τ sig (Elt F)) : rd V main_cst_32 = (constant S_ .f32 0x00000000#32) :=
  ssa_nullary ops_asc V 204 rfl rfl
theorem e_main_v93 (V : Valuation τ sig (Elt F)) : rd V main_v93 = (broadcastInDim S256x256 ![] bcast_S_S256x256 : (⟨S_, .f32⟩ : BufTy).Contents (Elt F) → (⟨S256x256, .f32⟩ : BufTy).Contents (Elt F)) (rd V main_cst_32) :=
  ssa_unary ops_asc V 205 rfl rfl (by decide)
theorem e_main_v94 (V : Valuation τ sig (Elt F)) : rd V main_v94 = (cmpf .oge : (⟨S256x256, .f32⟩ : BufTy).Contents (Elt F) → (⟨S256x256, .f32⟩ : BufTy).Contents (Elt F) → (⟨S256x256, .i1⟩ : BufTy).Contents (Elt F)) (rd V main_arg4) (rd V main_v93) :=
  ssa_binary ops_asc V 206 rfl rfl (by decide) (by decide)
theorem e_main_cst_33 (V : Valuation τ sig (Elt F)) : rd V main_cst_33 = (constant S_ .f32 0x3F800000#32) :=
  ssa_nullary ops_asc V 207 rfl rfl
theorem e_main_cst_34 (V : Valuation τ sig (Elt F)) : rd V main_cst_34 = (constant S_ .f32 0xBF800000#32) :=
  ssa_nullary ops_asc V 208 rfl rfl
theorem e_main_call10_v0 (V : Valuation τ sig (Elt F)) : rd V main_call10_v0 = (broadcastInDim S256x256 ![] bcast_S_S256x256) (rd V main_cst_33) :=
  ssa_unary ops_asc V 209 rfl rfl (by decide)
theorem e_main_call10_v1 (V : Valuation τ sig (Elt F)) : rd V main_call10_v1 = (broadcastInDim S256x256 ![] bcast_S_S256x256) (rd V main_cst_34) :=
  ssa_unary ops_asc V 210 rfl rfl (by decide)
theorem e_main_v95 (V : Valuation τ sig (Elt F)) : rd V main_v95 = select (rd V main_v94) (rd V main_call10_v0) (rd V main_call10_v1) :=
  ssa_ternary ops_asc V 211 rfl rfl (by decide) (by decide) (by decide)
theorem e_main_v96 (V : Valuation τ sig (Elt F)) : rd V main_v96 = (id : (⟨S256x256, .f32⟩ : BufTy).Contents (Elt F) → (⟨S256x256, .f32⟩ : BufTy).Contents (Elt F)) (rd V main_v95) :=
  ssa_unary ops_asc V 212 rfl rfl (by decide)
theorem e_main_v97 (V : Valuation τ sig (Elt F)) : rd V main_v97 = ((transpose S256x256 [1, 0] · transposes_S256x256_S256x256_1_0) : (⟨S256x256, .f32⟩ : BufTy).Contents (Elt F) → (⟨S256x256, .f32⟩ : BufTy).Contents (Elt F)) (rd V main_v96) :=
  ssa_unary ops_asc V 213 rfl rfl (by decide)
theorem e_main_v98 (V : Valuation τ sig (Elt F)) : rd V main_v98 = ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)) (rd V main_v92) (rd V main_v97) :=
  ssa_binary ops_asc V 214 rfl rfl (by decide) (by decide)
theorem e_main_cst_35 (V : Valuation τ sig (Elt F)) : rd V main_cst_35 = (constant S_ .f32 0x00000000#32) :=
  ssa_nullary ops_asc V 215 rfl rfl
theorem e_main_v99 (V : Valuation τ sig (Elt F)) : rd V main_v99 = ((fun x v => Host.reduceAdd x v reducesTo_S65536x256_S256_d0 h_S_) : (⟨S65536x256, .f32⟩ : BufTy).Contents (Elt F) → (⟨S_, .f32⟩ : BufTy).Contents (Elt F) → (⟨S256, .f32⟩ : BufTy).Contents (Elt F)) (rd V main_v98) (rd V main_cst_35) :=
  ssa_binary ops_asc V 216 rfl rfl (by decide) (by decide)
theorem e_main_cst_36 (V : Valuation τ sig (Elt F)) : rd V main_cst_36 = (constant S_ .f32 0x47800000#32) :=
  ssa_nullary ops_asc V 217 rfl rfl
theorem e_main_v100 (V : Valuation τ sig (Elt F)) : rd V main_v100 = (broadcastInDim S256 ![] bcast_S_S256 : (⟨S_, .f32⟩ : BufTy).Contents (Elt F) → (⟨S256, .f32⟩ : BufTy).Contents (Elt F)) (rd V main_cst_36) :=
  ssa_unary ops_asc V 218 rfl rfl (by decide)
theorem e_main_v101 (V : Valuation τ sig (Elt F)) : rd V main_v101 = (Host.divf : (⟨S256, .f32⟩ : BufTy).Contents (Elt F) → (⟨S256, .f32⟩ : BufTy).Contents (Elt F) → (⟨S256, .f32⟩ : BufTy).Contents (Elt F)) (rd V main_v99) (rd V main_v100) :=
  ssa_binary ops_asc V 219 rfl rfl (by decide) (by decide)
theorem e_main_c_37 (V : Valuation τ sig (Elt F)) : rd V main_c_37 = (constantI S_ 32 0#32) :=
  ssa_nullary ops_asc V 220 rfl rfl
theorem e_main_call11_cst (V : Valuation τ sig (Elt F)) : rd V main_call11_cst = (constant S_ .f32 0x00000000#32) :=
  ssa_nullary ops_asc V 221 rfl rfl
theorem e_main_call11_v0 (V : Valuation τ sig (Elt F)) : rd V main_call11_v0 = (fun x v => Host.reduceAdd x v reducesTo_S65536x256_S256_d0 h_S_) (rd V main_v98) (rd V main_call11_cst) :=
  ssa_binary ops_asc V 222 rfl rfl (by decide) (by decide)
theorem e_main_call11_v1 (V : Valuation τ sig (Elt F)) : rd V main_call11_v1 = (broadcastInDim S1x256 ![1] bcast_S256_S1x256_1) (rd V main_call11_v0) :=
  ssa_unary ops_asc V 223 rfl rfl (by decide)
theorem e_main_call11_cst_0 (V : Valuation τ sig (Elt F)) : rd V main_call11_cst_0 = (constant S_ .f32 0x47800000#32) :=
  ssa_nullary ops_asc V 224 rfl rfl
theorem e_main_call11_v2 (V : Valuation τ sig (Elt F)) : rd V main_call11_v2 = (broadcastInDim S1x256 ![] bcast_S_S1x256) (rd V main_call11_cst_0) :=
  ssa_unary ops_asc V 225 rfl rfl (by decide)
theorem e_main_call11_v3 (V : Valuation τ sig (Elt F)) : rd V main_call11_v3 = Host.divf (rd V main_call11_v1) (rd V main_call11_v2) :=
  ssa_binary ops_asc V 226 rfl rfl (by decide) (by decide)
theorem e_main_call11_v4 (V : Valuation τ sig (Elt F)) : rd V main_call11_v4 = (broadcastInDim S65536x256 ![0, 1] bcast_S1x256_S65536x256_0_1) (rd V main_call11_v3) :=
  ssa_unary ops_asc V 227 rfl rfl (by decide)
theorem e_main_call11_v5 (V : Valuation τ sig (Elt F)) : rd V main_call11_v5 = subf (rd V main_v98) (rd V main_call11_v4) :=
  ssa_binary ops_asc V 228 rfl rfl (by decide) (by decide)
theorem e_main_call11_v6 (V : Valuation τ sig (Elt F)) : rd V main_call11_v6 = mulf (rd V main_call11_v5) (rd V main_call11_v5) :=
  ssa_binary ops_asc V 229 rfl rfl (by decide) (by decide)
theorem e_main_call11_v7 (V : Valuation τ sig (Elt F)) : rd V main_call11_v7 = (sitofp .f32) (rd V main_c_37) :=
  ssa_unary ops_asc V 230 rfl rfl (by decide)
theorem e_main_call11_cst_1 (V : Valuation τ sig (Elt F)) : rd V main_call11_cst_1 = (constant S_ .f32 0x47800000#32) :=
  ssa_nullary ops_asc V 231 rfl rfl
theorem e_main_call11_v8 (V : Valuation τ sig (Elt F)) : rd V main_call11_v8 = subf (rd V main_call11_cst_1) (rd V main_call11_v7) :=
  ssa_binary ops_asc V 232 rfl rfl (by decide) (by decide)
theorem e_main_call11_cst_2 (V : Valuation τ sig (Elt F)) : rd V main_call11_cst_2 = (constant S_ .f32 0x00000000#32) :=
  ssa_nullary ops_asc V 233 rfl rfl
theorem e_main_call11_v9 (V : Valuation τ sig (Elt F)) : rd V main_call11_v9 = (fun x v => Host.reduceAdd x v reducesTo_S65536x256_S256_d0 h_S_) (rd V main_call11_v6) (rd V main_call11_cst_2) :=
  ssa_binary ops_asc V 234 rfl rfl (by decide) (by decide)
theorem e_main_call11_v10 (V : Valuation τ sig (Elt F)) : rd V main_call11_v10 = (broadcastInDim S256 ![] bcast_S_S256) (rd V main_call11_v8) :=
  ssa_unary ops_asc V 235 rfl rfl (by decide)
theorem e_main_call11_v11 (V : Valuation τ sig (Elt F)) : rd V main_call11_v11 = Host.divf (rd V main_call11_v9) (rd V main_call11_v10) :=
  ssa_binary ops_asc V 236 rfl rfl (by decide) (by decide)
theorem e_main_call11_cst_3 (V : Valuation τ sig (Elt F)) : rd V main_call11_cst_3 = (constant S_ .f32 0x00000000#32) :=
  ssa_nullary ops_asc V 237 rfl rfl
theorem e_main_call11_v12 (V : Valuation τ sig (Elt F)) : rd V main_call11_v12 = (cmpf .ogt) (rd V main_call11_v8) (rd V main_call11_cst_3) :=
  ssa_binary ops_asc V 238 rfl rfl (by decide) (by decide)
theorem e_main_call11_cst_4 (V : Valuation τ sig (Elt F)) : rd V main_call11_cst_4 = (constant S_ .f32 0x7FC00000#32) :=
  ssa_nullary ops_asc V 239 rfl rfl
theorem e_main_call11_call0_v0 (V : Valuation τ sig (Elt F)) : rd V main_call11_call0_v0 = id (rd V main_call11_cst_4) :=
  ssa_unary ops_asc V 240 rfl rfl (by decide)
theorem e_main_call11_call0_v1 (V : Valuation τ sig (Elt F)) : rd V main_call11_call0_v1 = (broadcastInDim S256 ![] bcast_S_S256) (rd V main_call11_call0_v0) :=
  ssa_unary ops_asc V 241 rfl rfl (by decide)
set_option maxHeartbeats 1000000 in
theorem e_main_v102 (V : Valuation τ sig (Elt F)) : rd V main_v102 = select (broadcastInDim S256 ![] bcast_S_S256 (rd V main_call11_v12)) (rd V main_call11_v11) (rd V main_call11_call0_v1) :=
  ssa_ternary ops_asc V 242 rfl rfl (by decide) (by decide) (by decide)
theorem e_main_v103 (V : Valuation τ sig (Elt F)) : rd V main_v103 = (broadcastInDim S1x256 ![1] bcast_S256_S1x256_1 : (⟨S256, .f32⟩ : BufTy).Contents (Elt F) → (⟨S1x256, .f32⟩ : BufTy).Contents (Elt F)) (rd V main_v101) :=
  ssa_unary ops_asc V 243 rfl rfl (by decide)
theorem e_main_v104 (V : Valuation τ sig (Elt F)) : rd V main_v104 = (broadcastInDim S65536x256 ![0, 1] bcast_S1x256_S65536x256_0_1 : (⟨S1x256, .f32⟩ : BufTy).Contents (Elt F) → (⟨S65536x256, .f32⟩ : BufTy).Contents (Elt F)) (rd V main_v103) :=
  ssa_unary ops_asc V 244 rfl rfl (by decide)
theorem e_main_v105 (V : Valuation τ sig (Elt F)) : rd V main_v105 = (subf : (⟨S65536x256, .f32⟩ : BufTy).Contents (Elt F) → (⟨S65536x256, .f32⟩ : BufTy).Contents (Elt F) → (⟨S65536x256, .f32⟩ : BufTy).Contents (Elt F)) (rd V main_v98) (rd V main_v104) :=
  ssa_binary ops_asc V 245 rfl rfl (by decide) (by decide)
theorem e_main_v106 (V : Valuation τ sig (Elt F)) : rd V main_v106 = (broadcastInDim S1x256 ![1] bcast_S256_S1x256_1 : (⟨S256, .f32⟩ : BufTy).Contents (Elt F) → (⟨S1x256, .f32⟩ : BufTy).Contents (Elt F)) (rd V main_arg9) :=
  ssa_unary ops_asc V 246 rfl rfl (by decide)
theorem e_main_v107 (V : Valuation τ sig (Elt F)) : rd V main_v107 = (broadcastInDim S65536x256 ![0, 1] bcast_S1x256_S65536x256_0_1 : (⟨S1x256, .f32⟩ : BufTy).Contents (Elt F) → (⟨S65536x256, .f32⟩ : BufTy).Contents (Elt F)) (rd V main_v106) :=
  ssa_unary ops_asc V 247 rfl rfl (by decide)
theorem e_main_v108 (V : Valuation τ sig (Elt F)) : rd V main_v108 = (mulf : (⟨S65536x256, .f32⟩ : BufTy).Contents (Elt F) → (⟨S65536x256, .f32⟩ : BufTy).Contents (Elt F) → (⟨S65536x256, .f32⟩ : BufTy).Contents (Elt F)) (rd V main_v107) (rd V main_v105) :=
  ssa_binary ops_asc V 248 rfl rfl (by decide) (by decide)
theorem e_main_cst_38 (V : Valuation τ sig (Elt F)) : rd V main_cst_38 = (constant S_ .f32 0x3727C5AC#32) :=
  ssa_nullary ops_asc V 249 rfl rfl
theorem e_main_v109 (V : Valuation τ sig (Elt F)) : rd V main_v109 = (broadcastInDim S256 ![] bcast_S_S256 : (⟨S_, .f32⟩ : BufTy).Contents (Elt F) → (⟨S256, .f32⟩ : BufTy).Contents (Elt F)) (rd V main_cst_38) :=
  ssa_unary ops_asc V 250 rfl rfl (by decide)
theorem e_main_v110 (V : Valuation τ sig (Elt F)) : rd V main_v110 = (addf : (⟨S256, .f32⟩ : BufTy).Contents (Elt F) → (⟨S256, .f32⟩ : BufTy).Contents (Elt F) → (⟨S256, .f32⟩ : BufTy).Contents (Elt F)) (rd V main_v102) (rd V main_v109) :=
  ssa_binary ops_asc V 251 rfl rfl (by decide) (by decide)
theorem e_main_v111 (V : Valuation τ sig (Elt F)) : rd V main_v111 = (Host.rsqrt : (⟨S256, .f32⟩ : BufTy).Contents (Elt F) → (⟨S256, .f32⟩ : BufTy).Contents (Elt F)) (rd V main_v110) :=
  ssa_unary ops_asc V 252 rfl rfl (by decide)
theorem e_main_v112 (V : Valuation τ sig (Elt F)) : rd V main_v112 = (broadcastInDim S1x256 ![1] bcast_S256_S1x256_1 : (⟨S256, .f32⟩ : BufTy).Contents (Elt F) → (⟨S1x256, .f32⟩ : BufTy).Contents (Elt F)) (rd V main_v111) :=
  ssa_unary ops_asc V 253 rfl rfl (by decide)
theorem e_main_v113 (V : Valuation τ sig (Elt F)) : rd V main_v113 = (broadcastInDim S65536x256 ![0, 1] bcast_S1x256_S65536x256_0_1 : (⟨S1x256, .f32⟩ : BufTy).Contents (Elt F) → (⟨S65536x256, .f32⟩ : BufTy).Contents (Elt F)) (rd V main_v112) :=
  ssa_unary ops_asc V 254 rfl rfl (by decide)
theorem e_main_v114 (V : Valuation τ sig (Elt F)) : rd V main_v114 = (mulf : (⟨S65536x256, .f32⟩ : BufTy).Contents (Elt F) → (⟨S65536x256, .f32⟩ : BufTy).Contents (Elt F) → (⟨S65536x256, .f32⟩ : BufTy).Contents (Elt F)) (rd V main_v108) (rd V main_v113) :=
  ssa_binary ops_asc V 255 rfl rfl (by decide) (by decide)
theorem e_main_v115 (V : Valuation τ sig (Elt F)) : rd V main_v115 = (broadcastInDim S1x256 ![1] bcast_S256_S1x256_1 : (⟨S256, .f32⟩ : BufTy).Contents (Elt F) → (⟨S1x256, .f32⟩ : BufTy).Contents (Elt F)) (rd V main_arg14) :=
  ssa_unary ops_asc V 256 rfl rfl (by decide)
theorem e_main_v116 (V : Valuation τ sig (Elt F)) : rd V main_v116 = (broadcastInDim S65536x256 ![0, 1] bcast_S1x256_S65536x256_0_1 : (⟨S1x256, .f32⟩ : BufTy).Contents (Elt F) → (⟨S65536x256, .f32⟩ : BufTy).Contents (Elt F)) (rd V main_v115) :=
  ssa_unary ops_asc V 257 rfl rfl (by decide)
theorem e_main_v117 (V : Valuation τ sig (Elt F)) : rd V main_v117 = (addf : (⟨S65536x256, .f32⟩ : BufTy).Contents (Elt F) → (⟨S65536x256, .f32⟩ : BufTy).Contents (Elt F) → (⟨S65536x256, .f32⟩ : BufTy).Contents (Elt F)) (rd V main_v114) (rd V main_v116) :=
  ssa_binary ops_asc V 258 rfl rfl (by decide) (by decide)
theorem e_main_cst_39 (V : Valuation τ sig (Elt F)) : rd V main_cst_39 = (constant S_ .f32 0x00000000#32) :=
  ssa_nullary ops_asc V 259 rfl rfl
theorem e_main_v118 (V : Valuation τ sig (Elt F)) : rd V main_v118 = (broadcastInDim S65536x256 ![] bcast_S_S65536x256 : (⟨S_, .f32⟩ : BufTy).Contents (Elt F) → (⟨S65536x256, .f32⟩ : BufTy).Contents (Elt F)) (rd V main_cst_39) :=
  ssa_unary ops_asc V 260 rfl rfl (by decide)
theorem e_main_v119 (V : Valuation τ sig (Elt F)) : rd V main_v119 = (cmpf .oge : (⟨S65536x256, .f32⟩ : BufTy).Contents (Elt F) → (⟨S65536x256, .f32⟩ : BufTy).Contents (Elt F) → (⟨S65536x256, .i1⟩ : BufTy).Contents (Elt F)) (rd V main_v117) (rd V main_v118) :=
  ssa_binary ops_asc V 261 rfl rfl (by decide) (by decide)
theorem e_main_cst_40 (V : Valuation τ sig (Elt F)) : rd V main_cst_40 = (constant S_ .f32 0x3F800000#32) :=
  ssa_nullary ops_asc V 262 rfl rfl
theorem e_main_cst_41 (V : Valuation τ sig (Elt F)) : rd V main_cst_41 = (constant S_ .f32 0xBF800000#32) :=
  ssa_nullary ops_asc V 263 rfl rfl
theorem e_main_call12_v0 (V : Valuation τ sig (Elt F)) : rd V main_call12_v0 = (broadcastInDim S65536x256 ![] bcast_S_S65536x256) (rd V main_cst_40) :=
  ssa_unary ops_asc V 264 rfl rfl (by decide)
theorem e_main_call12_v1 (V : Valuation τ sig (Elt F)) : rd V main_call12_v1 = (broadcastInDim S65536x256 ![] bcast_S_S65536x256) (rd V main_cst_41) :=
  ssa_unary ops_asc V 265 rfl rfl (by decide)
theorem e_main_v120 (V : Valuation τ sig (Elt F)) : rd V main_v120 = select (rd V main_v119) (rd V main_call12_v0) (rd V main_call12_v1) :=
  ssa_ternary ops_asc V 266 rfl rfl (by decide) (by decide) (by decide)
theorem e_main_v121 (V : Valuation τ sig (Elt F)) : rd V main_v121 = (id : (⟨S65536x256, .f32⟩ : BufTy).Contents (Elt F) → (⟨S65536x256, .f32⟩ : BufTy).Contents (Elt F)) (rd V main_v120) :=
  ssa_unary ops_asc V 267 rfl rfl (by decide)
theorem e_main_cst_42 (V : Valuation τ sig (Elt F)) : rd V main_cst_42 = (constant S_ .f32 0x00000000#32) :=
  ssa_nullary ops_asc V 268 rfl rfl
theorem e_main_v122 (V : Valuation τ sig (Elt F)) : rd V main_v122 = (broadcastInDim S10x256 ![] bcast_S_S10x256 : (⟨S_, .f32⟩ : BufTy).Contents (Elt F) → (⟨S10x256, .f32⟩ : BufTy).Contents (Elt F)) (rd V main_cst_42) :=
  ssa_unary ops_asc V 269 rfl rfl (by decide)
theorem e_main_v123 (V : Valuation τ sig (Elt F)) : rd V main_v123 = (cmpf .oge : (⟨S10x256, .f32⟩ : BufTy).Contents (Elt F) → (⟨S10x256, .f32⟩ : BufTy).Contents (Elt F) → (⟨S10x256, .i1⟩ : BufTy).Contents (Elt F)) (rd V main_arg5) (rd V main_v122) :=
  ssa_binary ops_asc V 270 rfl rfl (by decide) (by decide)
theorem e_main_cst_43 (V : Valuation τ sig (Elt F)) : rd V main_cst_43 = (constant S_ .f32 0x3F800000#32) :=
  ssa_nullary ops_asc V 271 rfl rfl
theorem e_main_cst_44 (V : Valuation τ sig (Elt F)) : rd V main_cst_44 = (constant S_ .f32 0xBF800000#32) :=
  ssa_nullary ops_asc V 272 rfl rfl
theorem e_main_call13_v0 (V : Valuation τ sig (Elt F)) : rd V main_call13_v0 = (broadcastInDim S10x256 ![] bcast_S_S10x256) (rd V main_cst_43) :=
  ssa_unary ops_asc V 273 rfl rfl (by decide)
theorem e_main_call13_v1 (V : Valuation τ sig (Elt F)) : rd V main_call13_v1 = (broadcastInDim S10x256 ![] bcast_S_S10x256) (rd V main_cst_44) :=
  ssa_unary ops_asc V 274 rfl rfl (by decide)
theorem e_main_v124 (V : Valuation τ sig (Elt F)) : rd V main_v124 = select (rd V main_v123) (rd V main_call13_v0) (rd V main_call13_v1) :=
  ssa_ternary ops_asc V 275 rfl rfl (by decide) (by decide) (by decide)
theorem e_main_v125 (V : Valuation τ sig (Elt F)) : rd V main_v125 = (id : (⟨S10x256, .f32⟩ : BufTy).Contents (Elt F) → (⟨S10x256, .f32⟩ : BufTy).Contents (Elt F)) (rd V main_v124) :=
  ssa_unary ops_asc V 276 rfl rfl (by decide)
theorem e_main_v126 (V : Valuation τ sig (Elt F)) : rd V main_v126 = ((transpose S256x10 [1, 0] · transposes_S10x256_S256x10_1_0) : (⟨S10x256, .f32⟩ : BufTy).Contents (Elt F) → (⟨S256x10, .f32⟩ : BufTy).Contents (Elt F)) (rd V main_v125) :=
  ssa_unary ops_asc V 277 rfl rfl (by decide)
theorem e_main_v127 (V : Valuation τ sig (Elt F)) : rd V main_v127 = ((fun l r => Host.dotGeneral dot_S65536x256_S256x10_S65536x10_1_0_0_1_n_n none l r) : (⟨S65536x256, .f32⟩ : BufTy).Contents (Elt F) → (⟨S256x10, .f32⟩ : BufTy).Contents (Elt F) → (⟨S65536x10, .f32⟩ : BufTy).Contents (Elt F)) (rd V main_v121) (rd V main_v126) :=
  ssa_binary ops_asc V 278 rfl rfl (by decide) (by decide)
theorem e_main_cst_45 (V : Valuation τ sig (Elt F)) : rd V main_cst_45 = (constant S_ .f32 0x00000000#32) :=
  ssa_nullary ops_asc V 279 rfl rfl
theorem e_main_v128 (V : Valuation τ sig (Elt F)) : rd V main_v128 = ((fun x v => Host.reduceAdd x v reducesTo_S65536x10_S10_d0 h_S_) : (⟨S65536x10, .f32⟩ : BufTy).Contents (Elt F) → (⟨S_, .f32⟩ : BufTy).Contents (Elt F) → (⟨S10, .f32⟩ : BufTy).Contents (Elt F)) (rd V main_v127) (rd V main_cst_45) :=
  ssa_binary ops_asc V 280 rfl rfl (by decide) (by decide)
theorem e_main_cst_46 (V : Valuation τ sig (Elt F)) : rd V main_cst_46 = (constant S_ .f32 0x47800000#32) :=
  ssa_nullary ops_asc V 281 rfl rfl
theorem e_main_v129 (V : Valuation τ sig (Elt F)) : rd V main_v129 = (broadcastInDim S10 ![] bcast_S_S10 : (⟨S_, .f32⟩ : BufTy).Contents (Elt F) → (⟨S10, .f32⟩ : BufTy).Contents (Elt F)) (rd V main_cst_46) :=
  ssa_unary ops_asc V 282 rfl rfl (by decide)
theorem e_main_v130 (V : Valuation τ sig (Elt F)) : rd V main_v130 = (Host.divf : (⟨S10, .f32⟩ : BufTy).Contents (Elt F) → (⟨S10, .f32⟩ : BufTy).Contents (Elt F) → (⟨S10, .f32⟩ : BufTy).Contents (Elt F)) (rd V main_v128) (rd V main_v129) :=
  ssa_binary ops_asc V 283 rfl rfl (by decide) (by decide)

end Cert.ReferenceIdeal.Hand

end
-- ==== Proof.Ref.E3.lean ====
/- The equations of window 3's operations at the final contents: each buffer is its operation's function of the
   final contents of the operands (a call's operations over that call's buffers). -/
import proofs.«118595_j1726576853663_2_alg».proof.Proof.Ref.Asc

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem e_main_c_47 (V : Valuation τ sig (Elt F)) : rd V main_c_47 = (constantI S_ 32 0#32) :=
  ssa_nullary ops_asc V 284 rfl rfl
theorem e_main_call14_cst (V : Valuation τ sig (Elt F)) : rd V main_call14_cst = (constant S_ .f32 0x00000000#32) :=
  ssa_nullary ops_asc V 285 rfl rfl
theorem e_main_call14_v0 (V : Valuation τ sig (Elt F)) : rd V main_call14_v0 = (fun x v => Host.reduceAdd x v reducesTo_S65536x10_S10_d0 h_S_) (rd V main_v127) (rd V main_call14_cst) :=
  ssa_binary ops_asc V 286 rfl rfl (by decide) (by decide)
theorem e_main_call14_v1 (V : Valuation τ sig (Elt F)) : rd V main_call14_v1 = (broadcastInDim S1x10 ![1] bcast_S10_S1x10_1) (rd V main_call14_v0) :=
  ssa_unary ops_asc V 287 rfl rfl (by decide)
theorem e_main_call14_cst_0 (V : Valuation τ sig (Elt F)) : rd V main_call14_cst_0 = (constant S_ .f32 0x47800000#32) :=
  ssa_nullary ops_asc V 288 rfl rfl
theorem e_main_call14_v2 (V : Valuation τ sig (Elt F)) : rd V main_call14_v2 = (broadcastInDim S1x10 ![] bcast_S_S1x10) (rd V main_call14_cst_0) :=
  ssa_unary ops_asc V 289 rfl rfl (by decide)
theorem e_main_call14_v3 (V : Valuation τ sig (Elt F)) : rd V main_call14_v3 = Host.divf (rd V main_call14_v1) (rd V main_call14_v2) :=
  ssa_binary ops_asc V 290 rfl rfl (by decide) (by decide)
theorem e_main_call14_v4 (V : Valuation τ sig (Elt F)) : rd V main_call14_v4 = (broadcastInDim S65536x10 ![0, 1] bcast_S1x10_S65536x10_0_1) (rd V main_call14_v3) :=
  ssa_unary ops_asc V 291 rfl rfl (by decide)
theorem e_main_call14_v5 (V : Valuation τ sig (Elt F)) : rd V main_call14_v5 = subf (rd V main_v127) (rd V main_call14_v4) :=
  ssa_binary ops_asc V 292 rfl rfl (by decide) (by decide)
theorem e_main_call14_v6 (V : Valuation τ sig (Elt F)) : rd V main_call14_v6 = mulf (rd V main_call14_v5) (rd V main_call14_v5) :=
  ssa_binary ops_asc V 293 rfl rfl (by decide) (by decide)
theorem e_main_call14_v7 (V : Valuation τ sig (Elt F)) : rd V main_call14_v7 = (sitofp .f32) (rd V main_c_47) :=
  ssa_unary ops_asc V 294 rfl rfl (by decide)
theorem e_main_call14_cst_1 (V : Valuation τ sig (Elt F)) : rd V main_call14_cst_1 = (constant S_ .f32 0x47800000#32) :=
  ssa_nullary ops_asc V 295 rfl rfl
theorem e_main_call14_v8 (V : Valuation τ sig (Elt F)) : rd V main_call14_v8 = subf (rd V main_call14_cst_1) (rd V main_call14_v7) :=
  ssa_binary ops_asc V 296 rfl rfl (by decide) (by decide)
theorem e_main_call14_cst_2 (V : Valuation τ sig (Elt F)) : rd V main_call14_cst_2 = (constant S_ .f32 0x00000000#32) :=
  ssa_nullary ops_asc V 297 rfl rfl
theorem e_main_call14_v9 (V : Valuation τ sig (Elt F)) : rd V main_call14_v9 = (fun x v => Host.reduceAdd x v reducesTo_S65536x10_S10_d0 h_S_) (rd V main_call14_v6) (rd V main_call14_cst_2) :=
  ssa_binary ops_asc V 298 rfl rfl (by decide) (by decide)
theorem e_main_call14_v10 (V : Valuation τ sig (Elt F)) : rd V main_call14_v10 = (broadcastInDim S10 ![] bcast_S_S10) (rd V main_call14_v8) :=
  ssa_unary ops_asc V 299 rfl rfl (by decide)
theorem e_main_call14_v11 (V : Valuation τ sig (Elt F)) : rd V main_call14_v11 = Host.divf (rd V main_call14_v9) (rd V main_call14_v10) :=
  ssa_binary ops_asc V 300 rfl rfl (by decide) (by decide)
theorem e_main_call14_cst_3 (V : Valuation τ sig (Elt F)) : rd V main_call14_cst_3 = (constant S_ .f32 0x00000000#32) :=
  ssa_nullary ops_asc V 301 rfl rfl
theorem e_main_call14_v12 (V : Valuation τ sig (Elt F)) : rd V main_call14_v12 = (cmpf .ogt) (rd V main_call14_v8) (rd V main_call14_cst_3) :=
  ssa_binary ops_asc V 302 rfl rfl (by decide) (by decide)
theorem e_main_call14_cst_4 (V : Valuation τ sig (Elt F)) : rd V main_call14_cst_4 = (constant S_ .f32 0x7FC00000#32) :=
  ssa_nullary ops_asc V 303 rfl rfl
theorem e_main_call14_call0_v0 (V : Valuation τ sig (Elt F)) : rd V main_call14_call0_v0 = id (rd V main_call14_cst_4) :=
  ssa_unary ops_asc V 304 rfl rfl (by decide)
theorem e_main_call14_call0_v1 (V : Valuation τ sig (Elt F)) : rd V main_call14_call0_v1 = (broadcastInDim S10 ![] bcast_S_S10) (rd V main_call14_call0_v0) :=
  ssa_unary ops_asc V 305 rfl rfl (by decide)
set_option maxHeartbeats 1000000 in
theorem e_main_v131 (V : Valuation τ sig (Elt F)) : rd V main_v131 = select (broadcastInDim S10 ![] bcast_S_S10 (rd V main_call14_v12)) (rd V main_call14_v11) (rd V main_call14_call0_v1) :=
  ssa_ternary ops_asc V 306 rfl rfl (by decide) (by decide) (by decide)
theorem e_main_v132 (V : Valuation τ sig (Elt F)) : rd V main_v132 = (broadcastInDim S1x10 ![1] bcast_S10_S1x10_1 : (⟨S10, .f32⟩ : BufTy).Contents (Elt F) → (⟨S1x10, .f32⟩ : BufTy).Contents (Elt F)) (rd V main_v130) :=
  ssa_unary ops_asc V 307 rfl rfl (by decide)
theorem e_main_v133 (V : Valuation τ sig (Elt F)) : rd V main_v133 = (broadcastInDim S65536x10 ![0, 1] bcast_S1x10_S65536x10_0_1 : (⟨S1x10, .f32⟩ : BufTy).Contents (Elt F) → (⟨S65536x10, .f32⟩ : BufTy).Contents (Elt F)) (rd V main_v132) :=
  ssa_unary ops_asc V 308 rfl rfl (by decide)
theorem e_main_v134 (V : Valuation τ sig (Elt F)) : rd V main_v134 = (subf : (⟨S65536x10, .f32⟩ : BufTy).Contents (Elt F) → (⟨S65536x10, .f32⟩ : BufTy).Contents (Elt F) → (⟨S65536x10, .f32⟩ : BufTy).Contents (Elt F)) (rd V main_v127) (rd V main_v133) :=
  ssa_binary ops_asc V 309 rfl rfl (by decide) (by decide)
theorem e_main_v135 (V : Valuation τ sig (Elt F)) : rd V main_v135 = (broadcastInDim S1x10 ![1] bcast_S10_S1x10_1 : (⟨S10, .f32⟩ : BufTy).Contents (Elt F) → (⟨S1x10, .f32⟩ : BufTy).Contents (Elt F)) (rd V main_arg10) :=
  ssa_unary ops_asc V 310 rfl rfl (by decide)
theorem e_main_v136 (V : Valuation τ sig (Elt F)) : rd V main_v136 = (broadcastInDim S65536x10 ![0, 1] bcast_S1x10_S65536x10_0_1 : (⟨S1x10, .f32⟩ : BufTy).Contents (Elt F) → (⟨S65536x10, .f32⟩ : BufTy).Contents (Elt F)) (rd V main_v135) :=
  ssa_unary ops_asc V 311 rfl rfl (by decide)
theorem e_main_v137 (V : Valuation τ sig (Elt F)) : rd V main_v137 = (mulf : (⟨S65536x10, .f32⟩ : BufTy).Contents (Elt F) → (⟨S65536x10, .f32⟩ : BufTy).Contents (Elt F) → (⟨S65536x10, .f32⟩ : BufTy).Contents (Elt F)) (rd V main_v136) (rd V main_v134) :=
  ssa_binary ops_asc V 312 rfl rfl (by decide) (by decide)
theorem e_main_cst_48 (V : Valuation τ sig (Elt F)) : rd V main_cst_48 = (constant S_ .f32 0x3727C5AC#32) :=
  ssa_nullary ops_asc V 313 rfl rfl
theorem e_main_v138 (V : Valuation τ sig (Elt F)) : rd V main_v138 = (broadcastInDim S10 ![] bcast_S_S10 : (⟨S_, .f32⟩ : BufTy).Contents (Elt F) → (⟨S10, .f32⟩ : BufTy).Contents (Elt F)) (rd V main_cst_48) :=
  ssa_unary ops_asc V 314 rfl rfl (by decide)
theorem e_main_v139 (V : Valuation τ sig (Elt F)) : rd V main_v139 = (addf : (⟨S10, .f32⟩ : BufTy).Contents (Elt F) → (⟨S10, .f32⟩ : BufTy).Contents (Elt F) → (⟨S10, .f32⟩ : BufTy).Contents (Elt F)) (rd V main_v131) (rd V main_v138) :=
  ssa_binary ops_asc V 315 rfl rfl (by decide) (by decide)
theorem e_main_v140 (V : Valuation τ sig (Elt F)) : rd V main_v140 = (Host.rsqrt : (⟨S10, .f32⟩ : BufTy).Contents (Elt F) → (⟨S10, .f32⟩ : BufTy).Contents (Elt F)) (rd V main_v139) :=
  ssa_unary ops_asc V 316 rfl rfl (by decide)
theorem e_main_v141 (V : Valuation τ sig (Elt F)) : rd V main_v141 = (broadcastInDim S1x10 ![1] bcast_S10_S1x10_1 : (⟨S10, .f32⟩ : BufTy).Contents (Elt F) → (⟨S1x10, .f32⟩ : BufTy).Contents (Elt F)) (rd V main_v140) :=
  ssa_unary ops_asc V 317 rfl rfl (by decide)
theorem e_main_v142 (V : Valuation τ sig (Elt F)) : rd V main_v142 = (broadcastInDim S65536x10 ![0, 1] bcast_S1x10_S65536x10_0_1 : (⟨S1x10, .f32⟩ : BufTy).Contents (Elt F) → (⟨S65536x10, .f32⟩ : BufTy).Contents (Elt F)) (rd V main_v141) :=
  ssa_unary ops_asc V 318 rfl rfl (by decide)
theorem e_main_v143 (V : Valuation τ sig (Elt F)) : rd V main_v143 = (mulf : (⟨S65536x10, .f32⟩ : BufTy).Contents (Elt F) → (⟨S65536x10, .f32⟩ : BufTy).Contents (Elt F) → (⟨S65536x10, .f32⟩ : BufTy).Contents (Elt F)) (rd V main_v137) (rd V main_v142) :=
  ssa_binary ops_asc V 319 rfl rfl (by decide) (by decide)
theorem e_main_v144 (V : Valuation τ sig (Elt F)) : rd V main_v144 = (broadcastInDim S1x10 ![1] bcast_S10_S1x10_1 : (⟨S10, .f32⟩ : BufTy).Contents (Elt F) → (⟨S1x10, .f32⟩ : BufTy).Contents (Elt F)) (rd V main_arg15) :=
  ssa_unary ops_asc V 320 rfl rfl (by decide)
theorem e_main_v145 (V : Valuation τ sig (Elt F)) : rd V main_v145 = (broadcastInDim S65536x10 ![0, 1] bcast_S1x10_S65536x10_0_1 : (⟨S1x10, .f32⟩ : BufTy).Contents (Elt F) → (⟨S65536x10, .f32⟩ : BufTy).Contents (Elt F)) (rd V main_v144) :=
  ssa_unary ops_asc V 321 rfl rfl (by decide)
theorem e_main_v146 (V : Valuation τ sig (Elt F)) : rd V main_v146 = (addf : (⟨S65536x10, .f32⟩ : BufTy).Contents (Elt F) → (⟨S65536x10, .f32⟩ : BufTy).Contents (Elt F) → (⟨S65536x10, .f32⟩ : BufTy).Contents (Elt F)) (rd V main_v143) (rd V main_v145) :=
  ssa_binary ops_asc V 322 rfl rfl (by decide) (by decide)
theorem e_main_cst_49 (V : Valuation τ sig (Elt F)) : rd V main_cst_49 = (constant S_ .f32 0xFF800000#32) :=
  ssa_nullary ops_asc V 323 rfl rfl
theorem e_main_v147 (V : Valuation τ sig (Elt F)) : rd V main_v147 = ((fun x v => Host.reduce FloatOps.maximumf x v reducesTo_S65536x10_S10_d0 h_S_) : (⟨S65536x10, .f32⟩ : BufTy).Contents (Elt F) → (⟨S_, .f32⟩ : BufTy).Contents (Elt F) → (⟨S10, .f32⟩ : BufTy).Contents (Elt F)) (rd V main_v146) (rd V main_cst_49) :=
  ssa_binary ops_asc V 324 rfl rfl (by decide) (by decide)
theorem e_main_cst_50 (V : Valuation τ sig (Elt F)) : rd V main_cst_50 = (constant S_ .f32 0xFF800000#32) :=
  ssa_nullary ops_asc V 325 rfl rfl
theorem e_main_v148 (V : Valuation τ sig (Elt F)) : rd V main_v148 = (broadcastInDim S10 ![] bcast_S_S10 : (⟨S_, .f32⟩ : BufTy).Contents (Elt F) → (⟨S10, .f32⟩ : BufTy).Contents (Elt F)) (rd V main_cst_50) :=
  ssa_unary ops_asc V 326 rfl rfl (by decide)
theorem e_main_v149 (V : Valuation τ sig (Elt F)) : rd V main_v149 = (maximumf : (⟨S10, .f32⟩ : BufTy).Contents (Elt F) → (⟨S10, .f32⟩ : BufTy).Contents (Elt F) → (⟨S10, .f32⟩ : BufTy).Contents (Elt F)) (rd V main_v148) (rd V main_v147) :=
  ssa_binary ops_asc V 327 rfl rfl (by decide) (by decide)
theorem e_main_v150 (V : Valuation τ sig (Elt F)) : rd V main_v150 = (broadcastInDim S1x10 ![1] bcast_S10_S1x10_1 : (⟨S10, .f32⟩ : BufTy).Contents (Elt F) → (⟨S1x10, .f32⟩ : BufTy).Contents (Elt F)) (rd V main_v149) :=
  ssa_unary ops_asc V 328 rfl rfl (by decide)
theorem e_main_v151 (V : Valuation τ sig (Elt F)) : rd V main_v151 = (broadcastInDim S65536x10 ![0, 1] bcast_S1x10_S65536x10_0_1 : (⟨S1x10, .f32⟩ : BufTy).Contents (Elt F) → (⟨S65536x10, .f32⟩ : BufTy).Contents (Elt F)) (rd V main_v150) :=
  ssa_unary ops_asc V 329 rfl rfl (by decide)
theorem e_main_v152 (V : Valuation τ sig (Elt F)) : rd V main_v152 = (subf : (⟨S65536x10, .f32⟩ : BufTy).Contents (Elt F) → (⟨S65536x10, .f32⟩ : BufTy).Contents (Elt F) → (⟨S65536x10, .f32⟩ : BufTy).Contents (Elt F)) (rd V main_v146) (rd V main_v151) :=
  ssa_binary ops_asc V 330 rfl rfl (by decide) (by decide)
theorem e_main_v153 (V : Valuation τ sig (Elt F)) : rd V main_v153 = (Host.exp : (⟨S65536x10, .f32⟩ : BufTy).Contents (Elt F) → (⟨S65536x10, .f32⟩ : BufTy).Contents (Elt F)) (rd V main_v152) :=
  ssa_unary ops_asc V 331 rfl rfl (by decide)
theorem e_main_cst_51 (V : Valuation τ sig (Elt F)) : rd V main_cst_51 = (constant S_ .f32 0x00000000#32) :=
  ssa_nullary ops_asc V 332 rfl rfl
theorem e_main_v154 (V : Valuation τ sig (Elt F)) : rd V main_v154 = ((fun x v => Host.reduceAdd x v reducesTo_S65536x10_S10_d0 h_S_) : (⟨S65536x10, .f32⟩ : BufTy).Contents (Elt F) → (⟨S_, .f32⟩ : BufTy).Contents (Elt F) → (⟨S10, .f32⟩ : BufTy).Contents (Elt F)) (rd V main_v153) (rd V main_cst_51) :=
  ssa_binary ops_asc V 333 rfl rfl (by decide) (by decide)
theorem e_main_v155 (V : Valuation τ sig (Elt F)) : rd V main_v155 = (broadcastInDim S1x10 ![1] bcast_S10_S1x10_1 : (⟨S10, .f32⟩ : BufTy).Contents (Elt F) → (⟨S1x10, .f32⟩ : BufTy).Contents (Elt F)) (rd V main_v154) :=
  ssa_unary ops_asc V 334 rfl rfl (by decide)
theorem e_main_v156 (V : Valuation τ sig (Elt F)) : rd V main_v156 = (broadcastInDim S65536x10 ![0, 1] bcast_S1x10_S65536x10_0_1 : (⟨S1x10, .f32⟩ : BufTy).Contents (Elt F) → (⟨S65536x10, .f32⟩ : BufTy).Contents (Elt F)) (rd V main_v155) :=
  ssa_unary ops_asc V 335 rfl rfl (by decide)
theorem e_main_v157 (V : Valuation τ sig (Elt F)) : rd V main_v157 = (Host.divf : (⟨S65536x10, .f32⟩ : BufTy).Contents (Elt F) → (⟨S65536x10, .f32⟩ : BufTy).Contents (Elt F) → (⟨S65536x10, .f32⟩ : BufTy).Contents (Elt F)) (rd V main_v153) (rd V main_v156) :=
  ssa_binary ops_asc V 336 rfl rfl (by decide) (by decide)

end Cert.ReferenceIdeal.Hand

end
-- ==== Proof.Ref.IdealOps.lean ====
/- The reference's host operations read at an index at the ideal values, over matrices, rows and vectors of any
   extents: a vector as a one-row matrix, a one-row matrix down the rows, a matrix transposed, a plain matrix
   product, a sum and a maximum down the columns; the five bit patterns the program uses as extended reals; and the
   binarisation  select (x ≥ 0) 1 (−1)  as the sign function of the specification. -/
import Idealize.ShloMosaic.Lib.IdealHost
import Idealize.ShloMosaic.Lib.KernelVsHost
import Idealize.ShloMosaic.Lib.StackMember
import Idealize.ShloMosaic.Lib.Pipeline.Value
import proofs.«118595_j1726576853663_2_alg».proof.Proof.SpecArgs

noncomputable section

namespace Cert.ReferenceIdeal.Hand

open Idealize.ShloMosaic Idealize.ShloMosaic.ValueIdx

variable {α : Type} {m n k : ℕ}

/-- A vector as a one-row matrix, read at (0, t), is the vector at t. -/
theorem bcast_vec_row (h : (⟨1, ![n]⟩ : Shape).BroadcastsInDim ⟨2, ![1, n]⟩ ![1]) (x : (⟨1, ![n]⟩ : Shape).Idx → α) (t : Fin n) :
    broadcastInDim ⟨2, ![1, n]⟩ ![1] h x (ix2 (0 : Fin 1) t) = x (ix1 t) := by
  refine broadcastInDim_apply ![1] h x (ix2 (0 : Fin 1) t) (ix1 t) ?_
  intro a
  fin_cases a
  show t.val = if n = 1 then 0 else t.val
  split_ifs with hn
  · have := t.isLt; omega
  · rfl

/-- A transposed matrix read at (a, b) is the matrix at (b, a). -/
theorem transpose_swap (h : (⟨2, ![m, n]⟩ : Shape).Transposes [1, 0] ⟨2, ![n, m]⟩) (x : (⟨2, ![m, n]⟩ : Shape).Idx → α)
    (a : Fin n) (b : Fin m) : transpose ⟨2, ![n, m]⟩ [1, 0] x h (ix2 a b) = x (ix2 b a) := by
  refine transpose_apply [1, 0] x h (ix2 a b) (ix2 b a) ?_
  intro c
  fin_cases c <;> rfl

/-- The plain product of an m×k by a k×n matrix, whatever proof the record carries. -/
theorem dot_apply {φ₁ φ₂ : FTy} (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) none A B (ix2 a b) = ∑ c : Fin k, A (ix2 a c) * B (ix2 c b) :=
  StackMember.dotGeneral_plain_apply none A B a b

/-- The reduced index t with row r put back is (r, t). -/
theorem lift_rows (h : (⟨2, ![m, n]⟩ : Shape).Reduces [0] (⟨1, ![n]⟩ : Shape)) (t : Fin n)
    (r : Fin ((⟨2, ![m, n]⟩ : Shape).size 0)) : h.lift (ix1 t) r = ix2 (⟨r.val, r.isLt⟩ : Fin m) t := by
  funext c; apply Fin.ext
  fin_cases c <;> rfl

/-- The host's sum down the columns: the initial value plus the column's entries. -/
theorem reduceAdd_rows (h' : (⟨2, ![m, n]⟩ : Shape).ReducesTo [0] (⟨1, ![n]⟩ : Shape))
    (h : (⟨2, ![m, n]⟩ : Shape).Reduces [0] (⟨1, ![n]⟩ : Shape)) (hu : 0 < (⟨0, ![]⟩ : Shape).numel)
    (x : FVec Ideal ⟨2, ![m, n]⟩ .f32) (init : FVec Ideal ⟨0, ![]⟩ .f32) (t : Fin n) :
    Host.reduceAdd x init h' hu (ix1 t) = init ix0 + ∑ r : Fin m, x (ix2 r t) := by
  rw [hostReduceAdd_apply, Ideal.hostReduceAdd_single h' h]
  congr 1
  · exact congrArg init (funext fun a => a.elim0)
  · exact Finset.sum_congr rfl fun r _ => congrArg x (lift_rows h t r)

/-- The host's maximum down the columns: the fold of max from the initial value over the column's entries. -/
theorem reduceMax_rows (h' : (⟨2, ![m, n]⟩ : Shape).ReducesTo [0] (⟨1, ![n]⟩ : Shape))
    (h : (⟨2, ![m, n]⟩ : Shape).Reduces [0] (⟨1, ![n]⟩ : Shape)) (hu : 0 < (⟨0, ![]⟩ : Shape).numel)
    (x : FVec Ideal ⟨2, ![m, n]⟩ .f32) (init : FVec Ideal ⟨0, ![]⟩ .f32) (t : Fin n) :
    Host.reduce FloatOps.maximumf x init h' hu (ix1 t)
      = (Finset.univ : Finset (Fin m)).fold max (init ix0) (fun r => x (ix2 r t)) := by
  rw [Host.reduce_eq_fold_single FloatOps.maximumf x init h' h hu]
  have hf : (x ∘ h.lift (ix1 t)) = fun r : Fin m => x (ix2 r t) := funext fun r => congrArg x (lift_rows h t r)
  have hi : init (Shape.Idx.first hu) = init ix0 := congrArg init (funext fun a => a.elim0)
  rw [hf, hi]
  rfl

/-! ## The bit patterns -/

theorem c_neg_one : Ideal.ofBits .f32 0xBF800000#32 = -1 := by
  have h : Ideal.ofBits .f32 0xBF800000#32 = ((-(1 : ℝ)) : EReal) := by
    simp [Ideal.ofBits, Ideal.ieee, -EReal.coe_mul, -EReal.coe_neg]; norm_num
  rw [h, EReal.coe_one]

theorem c_bsz : Ideal.ofBits .f32 0x47800000#32 = Cert.Spec.bsz := by
  unfold Cert.Spec.bsz
  simp [Ideal.ofBits, Ideal.ieee, -EReal.coe_mul]; norm_num

theorem c_neg_inf : Ideal.ofBits .f32 0xFF800000#32 = ⊥ := by
  simp [Ideal.ofBits, Ideal.ieee]

/-- The host's reciprocal square root and exponential at an index. -/
theorem hostRsqrt_apply {s : Shape} {φ : FTy} (a : FVec Ideal s φ) (i : s.Idx) : Host.rsqrt a i = Ideal.rsqrt (a i) := rfl
theorem hostExp_apply {s : Shape} {φ : FTy} (a : FVec Ideal s φ) (i : s.Idx) : Host.exp a i = Ideal.exp (a i) := rfl

/-- An integer constant reads its word everywhere. -/
theorem constI_apply {s : Shape} {w : ℕ} (b : BitVec w) (i : s.Idx) : constantI s w b i = b := rfl

/-- The integer 0 converted to a float is 0. -/
theorem sitofp_zero : FloatOps.sitofp (F := Ideal) .f32 (0#32 : BitVec 32) = 0 := by
  show (((0#32 : BitVec 32).toInt : ℝ) : EReal) = 0
  simp

/-- The column-reduction facts at the program's two widths. -/
theorem red256 : (⟨2, ![65536, 256]⟩ : Shape).Reduces [0] (⟨1, ![256]⟩ : Shape) := by decide
theorem red10 : (⟨2, ![65536, 10]⟩ : Shape).Reduces [0] (⟨1, ![10]⟩ : Shape) := by decide

/-! ## Binarisation -/

/-- select (y ≥ 0) 1 (−1), on elements, is the specification's sign. -/
theorem sgn_elem (y : EReal) :
    Scalar.select (FloatOps.cmpf (F := Ideal) (φ := .f32) .oge y (Ideal.ofBits .f32 0x00000000#32))
      (Ideal.ofBits .f32 0x3F800000#32) (Ideal.ofBits .f32 0xBF800000#32) = Cert.Spec.sgn y := by
  rw [Ideal.ofBits_zero_f32, Ideal.ofBits_one_f32, c_neg_one]
  unfold Cert.Spec.sgn
  show (if Ideal.cmp .oge y 0 = 1 then (1 : EReal) else -1) = _
  unfold Ideal.cmp
  by_cases h : (0 : EReal) ≤ y
  · simp [h]
  · simp [h]

/-- The scalar 65536 − 0 that the variance divides by, and its test against 0. -/
theorem bsz_sub_zero : Cert.Spec.bsz - 0 = Cert.Spec.bsz := sub_zero _

theorem bsz_pos : (0 : EReal) < Cert.Spec.bsz := by
  unfold Cert.Spec.bsz
  exact_mod_cast (by norm_num : (0 : ℝ) < 65536)

/-- select on the test 65536 > 0 takes the first branch. -/
theorem sel_bsz_pos {β : Type} (a b : β) :
    Scalar.select (FloatOps.cmpf (F := Ideal) (φ := .f32) .ogt Cert.Spec.bsz 0) a b = a := by
  show (if Ideal.cmp .ogt Cert.Spec.bsz 0 = 1 then a else b) = a
  unfold Ideal.cmp
  simp [bsz_pos]

end Cert.ReferenceIdeal.Hand

end
-- ==== Proof.Ref.Shapes.lean ====
/- The generic index lemmas at the program's own shapes and shape facts, one per use: a scalar to each shape, a vector
   as a row, a row down the rows, the three transposes, the two column sums, the column maximum, the three products. -/
import proofs.«118595_j1726576853663_2_alg».proof.Proof.Gen.ReferenceIdeal
import proofs.«118595_j1726576853663_2_alg».proof.Proof.Ref.IdealOps

noncomputable section

namespace Cert.ReferenceIdeal.Hand

open Cert.ReferenceIdeal Cert.ReferenceIdeal.Gen Idealize.ShloMosaic Idealize.ShloMosaic.ValueIdx

theorem bc_S65536x784 {α : Type} (x : S_.Idx → α) (j : S65536x784.Idx) : broadcastInDim S65536x784 ![] bcast_S_S65536x784 x j = x ix0 :=
  broadcastInDim_scalar_apply _ x j

theorem bc_S256x784 {α : Type} (x : S_.Idx → α) (j : S256x784.Idx) : broadcastInDim S256x784 ![] bcast_S_S256x784 x j = x ix0 :=
  broadcastInDim_scalar_apply _ x j

theorem bc_S256 {α : Type} (x : S_.Idx → α) (j : S256.Idx) : broadcastInDim S256 ![] bcast_S_S256 x j = x ix0 :=
  broadcastInDim_scalar_apply _ x j

theorem bc_S1x256 {α : Type} (x : S_.Idx → α) (j : S1x256.Idx) : broadcastInDim S1x256 ![] bcast_S_S1x256 x j = x ix0 :=
  broadcastInDim_scalar_apply _ x j

theorem bc_S65536x256 {α : Type} (x : S_.Idx → α) (j : S65536x256.Idx) : broadcastInDim S65536x256 ![] bcast_S_S65536x256 x j = x ix0 :=
  broadcastInDim_scalar_apply _ x j

theorem bc_S256x256 {α : Type} (x : S_.Idx → α) (j : S256x256.Idx) : broadcastInDim S256x256 ![] bcast_S_S256x256 x j = x ix0 :=
  broadcastInDim_scalar_apply _ x j

theorem bc_S10x256 {α : Type} (x : S_.Idx → α) (j : S10x256.Idx) : broadcastInDim S10x256 ![] bcast_S_S10x256 x j = x ix0 :=
  broadcastInDim_scalar_apply _ x j

theorem bc_S10 {α : Type} (x : S_.Idx → α) (j : S10.Idx) : broadcastInDim S10 ![] bcast_S_S10 x j = x ix0 :=
  broadcastInDim_scalar_apply _ x j

theorem bc_S1x10 {α : Type} (x : S_.Idx → α) (j : S1x10.Idx) : broadcastInDim S1x10 ![] bcast_S_S1x10 x j = x ix0 :=
  broadcastInDim_scalar_apply _ x j

theorem row_S1x256 {α : Type} (x : S256.Idx → α) (t : Fin 256) :
    broadcastInDim S1x256 ![1] bcast_S256_S1x256_1 x (ix2 (0 : Fin 1) t) = x (ix1 t) :=
  bcast_vec_row _ x t

theorem row_S1x10 {α : Type} (x : S10.Idx → α) (t : Fin 10) :
    broadcastInDim S1x10 ![1] bcast_S10_S1x10_1 x (ix2 (0 : Fin 1) t) = x (ix1 t) :=
  bcast_vec_row _ x t

theorem rows_S65536x256 {α : Type} (y : S1x256.Idx → α) (r : Fin 65536) (t : Fin 256) :
    broadcastInDim S65536x256 ![0, 1] bcast_S1x256_S65536x256_0_1 y (ix2 r t) = y (ix2 (0 : Fin 1) t) :=
  broadcastInDim_oneRow_apply _ y r t

theorem rows_S65536x10 {α : Type} (y : S1x10.Idx → α) (r : Fin 65536) (t : Fin 10) :
    broadcastInDim S65536x10 ![0, 1] bcast_S1x10_S65536x10_0_1 y (ix2 r t) = y (ix2 (0 : Fin 1) t) :=
  broadcastInDim_oneRow_apply _ y r t

theorem tr_S784x256 {α : Type} (x : S256x784.Idx → α) (p : Fin 784) (q : Fin 256) :
    transpose S784x256 [1, 0] x transposes_S256x784_S784x256_1_0 (ix2 p q) = x (ix2 q p) :=
  transpose_swap _ x p q

theorem tr_S256x256 {α : Type} (x : S256x256.Idx → α) (p : Fin 256) (q : Fin 256) :
    transpose S256x256 [1, 0] x transposes_S256x256_S256x256_1_0 (ix2 p q) = x (ix2 q p) :=
  transpose_swap _ x p q

theorem tr_S256x10 {α : Type} (x : S10x256.Idx → α) (p : Fin 256) (q : Fin 10) :
    transpose S256x10 [1, 0] x transposes_S10x256_S256x10_1_0 (ix2 p q) = x (ix2 q p) :=
  transpose_swap _ x p q

theorem sum_S65536x256 (x : FVec Ideal S65536x256 .f32) (init : FVec Ideal S_ .f32) (t : Fin 256) :
    Host.reduceAdd x init reducesTo_S65536x256_S256_d0 h_S_ (ix1 t) = init ix0 + ∑ r : Fin 65536, x (ix2 r t) :=
  reduceAdd_rows _ red256 _ x init t

theorem sum_S65536x10 (x : FVec Ideal S65536x10 .f32) (init : FVec Ideal S_ .f32) (t : Fin 10) :
    Host.reduceAdd x init reducesTo_S65536x10_S10_d0 h_S_ (ix1 t) = init ix0 + ∑ r : Fin 65536, x (ix2 r t) :=
  reduceAdd_rows _ red10 _ x init t

theorem max_S65536x10 (x : FVec Ideal S65536x10 .f32) (init : FVec Ideal S_ .f32) (t : Fin 10) :
    Host.reduce FloatOps.maximumf x init reducesTo_S65536x10_S10_d0 h_S_ (ix1 t)
      = (Finset.univ : Finset (Fin 65536)).fold max (init ix0) (fun r => x (ix2 r t)) :=
  reduceMax_rows _ red10 _ x init t

theorem dotv_784_256 (A : FVec Ideal S65536x784 .f32) (B : FVec Ideal S784x256 .f32) (a : Fin 65536) (b : Fin 256) :
    Host.dotGeneral dot_S65536x784_S784x256_S65536x256_1_0_0_1_n_n none A B (ix2 a b) = ∑ c : Fin 784, A (ix2 a c) * B (ix2 c b) :=
  dot_apply _ A B a b

theorem dotv_256_256 (A : FVec Ideal S65536x256 .f32) (B : FVec Ideal S256x256 .f32) (a : Fin 65536) (b : Fin 256) :
    Host.dotGeneral dot_S65536x256_S256x256_S65536x256_1_0_0_1_n_n none A B (ix2 a b) = ∑ c : Fin 256, A (ix2 a c) * B (ix2 c b) :=
  dot_apply _ A B a b

theorem dotv_256_10 (A : FVec Ideal S65536x256 .f32) (B : FVec Ideal S256x10 .f32) (a : Fin 65536) (b : Fin 10) :
    Host.dotGeneral dot_S65536x256_S256x10_S65536x10_1_0_0_1_n_n none A B (ix2 a b) = ∑ c : Fin 256, A (ix2 a c) * B (ix2 c b) :=
  dot_apply _ A B a b

end Cert.ReferenceIdeal.Hand

end
-- ==== Proof.Ref.P.lean ====
/- The broadcasts and transposes of the reference read at an index: each such buffer at an index is its operand at the
   corresponding index (a scalar everywhere, a vector along a row, a row down the rows, a matrix at the swapped pair). -/
import proofs.«118595_j1726576853663_2_alg».proof.Proof.Ref.E0
import proofs.«118595_j1726576853663_2_alg».proof.Proof.Ref.E1
import proofs.«118595_j1726576853663_2_alg».proof.Proof.Ref.E2
import proofs.«118595_j1726576853663_2_alg».proof.Proof.Ref.E3
import proofs.«118595_j1726576853663_2_alg».proof.Proof.Ref.Shapes

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

theorem p_main_v0 (V : Valuation τ sig (Elt Ideal)) (j : S65536x784.Idx) : rd V main_v0 j = rd V main_cst ix0 := by
  rw [e_main_v0]; exact bc_S65536x784 _ j
theorem p_main_v2 (V : Valuation τ sig (Elt Ideal)) (j : S65536x784.Idx) : rd V main_v2 j = rd V main_cst_0 ix0 := by
  rw [e_main_v2]; exact bc_S65536x784 _ j
theorem p_main_call0_v0 (V : Valuation τ sig (Elt Ideal)) (j : S65536x784.Idx) : rd V main_call0_v0 j = rd V main_cst_1 ix0 := by
  rw [e_main_call0_v0]; exact bc_S65536x784 _ j
theorem p_main_call0_v1 (V : Valuation τ sig (Elt Ideal)) (j : S65536x784.Idx) : rd V main_call0_v1 j = rd V main_cst_2 ix0 := by
  rw [e_main_call0_v1]; exact bc_S65536x784 _ j
theorem p_main_v6 (V : Valuation τ sig (Elt Ideal)) (j : S256x784.Idx) : rd V main_v6 j = rd V main_cst_3 ix0 := by
  rw [e_main_v6]; exact bc_S256x784 _ j
theorem p_main_call1_v0 (V : Valuation τ sig (Elt Ideal)) (j : S256x784.Idx) : rd V main_call1_v0 j = rd V main_cst_4 ix0 := by
  rw [e_main_call1_v0]; exact bc_S256x784 _ j
theorem p_main_call1_v1 (V : Valuation τ sig (Elt Ideal)) (j : S256x784.Idx) : rd V main_call1_v1 j = rd V main_cst_5 ix0 := by
  rw [e_main_call1_v1]; exact bc_S256x784 _ j
theorem p_main_v10 (V : Valuation τ sig (Elt Ideal)) (p : Fin 784) (q : Fin 256) : rd V main_v10 (ix2 p q) = rd V main_v9 (ix2 q p) := by
  rw [e_main_v10]; exact tr_S784x256 _ p q
theorem p_main_v13 (V : Valuation τ sig (Elt Ideal)) (j : S256.Idx) : rd V main_v13 j = rd V main_cst_7 ix0 := by
  rw [e_main_v13]; exact bc_S256 _ j
theorem p_main_call2_v1 (V : Valuation τ sig (Elt Ideal)) (t : Fin 256) : rd V main_call2_v1 (ix2 (0 : Fin 1) t) = rd V main_call2_v0 (ix1 t) := by
  rw [e_main_call2_v1]; exact row_S1x256 _ t
theorem p_main_call2_v2 (V : Valuation τ sig (Elt Ideal)) (j : S1x256.Idx) : rd V main_call2_v2 j = rd V main_call2_cst_0 ix0 := by
  rw [e_main_call2_v2]; exact bc_S1x256 _ j
theorem p_main_call2_v4 (V : Valuation τ sig (Elt Ideal)) (r : Fin 65536) (t : Fin 256) : rd V main_call2_v4 (ix2 r t) = rd V main_call2_v3 (ix2 (0 : Fin 1) t) := by
  rw [e_main_call2_v4]; exact rows_S65536x256 _ r t
theorem p_main_call2_v10 (V : Valuation τ sig (Elt Ideal)) (j : S256.Idx) : rd V main_call2_v10 j = rd V main_call2_v8 ix0 := by
  rw [e_main_call2_v10]; exact bc_S256 _ j
theorem p_main_call2_call0_v1 (V : Valuation τ sig (Elt Ideal)) (j : S256.Idx) : rd V main_call2_call0_v1 j = rd V main_call2_call0_v0 ix0 := by
  rw [e_main_call2_call0_v1]; exact bc_S256 _ j
theorem p_main_v15 (V : Valuation τ sig (Elt Ideal)) (t : Fin 256) :
    rd V main_v15 (ix1 t) = Scalar.select (rd V main_call2_v12 ix0) (rd V main_call2_v11 (ix1 t)) (rd V main_call2_call0_v1 (ix1 t)) := by
  rw [e_main_v15, select_apply, bc_S256]
theorem p_main_v16 (V : Valuation τ sig (Elt Ideal)) (t : Fin 256) : rd V main_v16 (ix2 (0 : Fin 1) t) = rd V main_v14 (ix1 t) := by
  rw [e_main_v16]; exact row_S1x256 _ t
theorem p_main_v17 (V : Valuation τ sig (Elt Ideal)) (r : Fin 65536) (t : Fin 256) : rd V main_v17 (ix2 r t) = rd V main_v16 (ix2 (0 : Fin 1) t) := by
  rw [e_main_v17]; exact rows_S65536x256 _ r t
theorem p_main_v19 (V : Valuation τ sig (Elt Ideal)) (t : Fin 256) : rd V main_v19 (ix2 (0 : Fin 1) t) = rd V main_arg6 (ix1 t) := by
  rw [e_main_v19]; exact row_S1x256 _ t
theorem p_main_v20 (V : Valuation τ sig (Elt Ideal)) (r : Fin 65536) (t : Fin 256) : rd V main_v20 (ix2 r t) = rd V main_v19 (ix2 (0 : Fin 1) t) := by
  rw [e_main_v20]; exact rows_S65536x256 _ r t
theorem p_main_v22 (V : Valuation τ sig (Elt Ideal)) (j : S256.Idx) : rd V main_v22 j = rd V main_cst_8 ix0 := by
  rw [e_main_v22]; exact bc_S256 _ j
theorem p_main_v25 (V : Valuation τ sig (Elt Ideal)) (t : Fin 256) : rd V main_v25 (ix2 (0 : Fin 1) t) = rd V main_v24 (ix1 t) := by
  rw [e_main_v25]; exact row_S1x256 _ t
theorem p_main_v26 (V : Valuation τ sig (Elt Ideal)) (r : Fin 65536) (t : Fin 256) : rd V main_v26 (ix2 r t) = rd V main_v25 (ix2 (0 : Fin 1) t) := by
  rw [e_main_v26]; exact rows_S65536x256 _ r t
theorem p_main_v28 (V : Valuation τ sig (Elt Ideal)) (t : Fin 256) : rd V main_v28 (ix2 (0 : Fin 1) t) = rd V main_arg11 (ix1 t) := by
  rw [e_main_v28]; exact row_S1x256 _ t
theorem p_main_v29 (V : Valuation τ sig (Elt Ideal)) (r : Fin 65536) (t : Fin 256) : rd V main_v29 (ix2 r t) = rd V main_v28 (ix2 (0 : Fin 1) t) := by
  rw [e_main_v29]; exact rows_S65536x256 _ r t
theorem p_main_v31 (V : Valuation τ sig (Elt Ideal)) (j : S65536x256.Idx) : rd V main_v31 j = rd V main_cst_9 ix0 := by
  rw [e_main_v31]; exact bc_S65536x256 _ j
theorem p_main_call3_v0 (V : Valuation τ sig (Elt Ideal)) (j : S65536x256.Idx) : rd V main_call3_v0 j = rd V main_cst_10 ix0 := by
  rw [e_main_call3_v0]; exact bc_S65536x256 _ j
theorem p_main_call3_v1 (V : Valuation τ sig (Elt Ideal)) (j : S65536x256.Idx) : rd V main_call3_v1 j = rd V main_cst_11 ix0 := by
  rw [e_main_call3_v1]; exact bc_S65536x256 _ j
theorem p_main_v35 (V : Valuation τ sig (Elt Ideal)) (j : S256x256.Idx) : rd V main_v35 j = rd V main_cst_12 ix0 := by
  rw [e_main_v35]; exact bc_S256x256 _ j
theorem p_main_call4_v0 (V : Valuation τ sig (Elt Ideal)) (j : S256x256.Idx) : rd V main_call4_v0 j = rd V main_cst_13 ix0 := by
  rw [e_main_call4_v0]; exact bc_S256x256 _ j
theorem p_main_call4_v1 (V : Valuation τ sig (Elt Ideal)) (j : S256x256.Idx) : rd V main_call4_v1 j = rd V main_cst_14 ix0 := by
  rw [e_main_call4_v1]; exact bc_S256x256 _ j
theorem p_main_v39 (V : Valuation τ sig (Elt Ideal)) (p : Fin 256) (q : Fin 256) : rd V main_v39 (ix2 p q) = rd V main_v38 (ix2 q p) := by
  rw [e_main_v39]; exact tr_S256x256 _ p q
theorem p_main_v42 (V : Valuation τ sig (Elt Ideal)) (j : S256.Idx) : rd V main_v42 j = rd V main_cst_16 ix0 := by
  rw [e_main_v42]; exact bc_S256 _ j
theorem p_main_call5_v1 (V : Valuation τ sig (Elt Ideal)) (t : Fin 256) : rd V main_call5_v1 (ix2 (0 : Fin 1) t) = rd V main_call5_v0 (ix1 t) := by
  rw [e_main_call5_v1]; exact row_S1x256 _ t
theorem p_main_call5_v2 (V : Valuation τ sig (Elt Ideal)) (j : S1x256.Idx) : rd V main_call5_v2 j = rd V main_call5_cst_0 ix0 := by
  rw [e_main_call5_v2]; exact bc_S1x256 _ j
theorem p_main_call5_v4 (V : Valuation τ sig (Elt Ideal)) (r : Fin 65536) (t : Fin 256) : rd V main_call5_v4 (ix2 r t) = rd V main_call5_v3 (ix2 (0 : Fin 1) t) := by
  rw [e_main_call5_v4]; exact rows_S65536x256 _ r t
theorem p_main_call5_v10 (V : Valuation τ sig (Elt Ideal)) (j : S256.Idx) : rd V main_call5_v10 j = rd V main_call5_v8 ix0 := by
  rw [e_main_call5_v10]; exact bc_S256 _ j
theorem p_main_call5_call0_v1 (V : Valuation τ sig (Elt Ideal)) (j : S256.Idx) : rd V main_call5_call0_v1 j = rd V main_call5_call0_v0 ix0 := by
  rw [e_main_call5_call0_v1]; exact bc_S256 _ j
theorem p_main_v44 (V : Valuation τ sig (Elt Ideal)) (t : Fin 256) :
    rd V main_v44 (ix1 t) = Scalar.select (rd V main_call5_v12 ix0) (rd V main_call5_v11 (ix1 t)) (rd V main_call5_call0_v1 (ix1 t)) := by
  rw [e_main_v44, select_apply, bc_S256]
theorem p_main_v45 (V : Valuation τ sig (Elt Ideal)) (t : Fin 256) : rd V main_v45 (ix2 (0 : Fin 1) t) = rd V main_v43 (ix1 t) := by
  rw [e_main_v45]; exact row_S1x256 _ t
theorem p_main_v46 (V : Valuation τ sig (Elt Ideal)) (r : Fin 65536) (t : Fin 256) : rd V main_v46 (ix2 r t) = rd V main_v45 (ix2 (0 : Fin 1) t) := by
  rw [e_main_v46]; exact rows_S65536x256 _ r t
theorem p_main_v48 (V : Valuation τ sig (Elt Ideal)) (t : Fin 256) : rd V main_v48 (ix2 (0 : Fin 1) t) = rd V main_arg7 (ix1 t) := by
  rw [e_main_v48]; exact row_S1x256 _ t
theorem p_main_v49 (V : Valuation τ sig (Elt Ideal)) (r : Fin 65536) (t : Fin 256) : rd V main_v49 (ix2 r t) = rd V main_v48 (ix2 (0 : Fin 1) t) := by
  rw [e_main_v49]; exact rows_S65536x256 _ r t
theorem p_main_v51 (V : Valuation τ sig (Elt Ideal)) (j : S256.Idx) : rd V main_v51 j = rd V main_cst_18 ix0 := by
  rw [e_main_v51]; exact bc_S256 _ j
theorem p_main_v54 (V : Valuation τ sig (Elt Ideal)) (t : Fin 256) : rd V main_v54 (ix2 (0 : Fin 1) t) = rd V main_v53 (ix1 t) := by
  rw [e_main_v54]; exact row_S1x256 _ t
theorem p_main_v55 (V : Valuation τ sig (Elt Ideal)) (r : Fin 65536) (t : Fin 256) : rd V main_v55 (ix2 r t) = rd V main_v54 (ix2 (0 : Fin 1) t) := by
  rw [e_main_v55]; exact rows_S65536x256 _ r t
theorem p_main_v57 (V : Valuation τ sig (Elt Ideal)) (t : Fin 256) : rd V main_v57 (ix2 (0 : Fin 1) t) = rd V main_arg12 (ix1 t) := by
  rw [e_main_v57]; exact row_S1x256 _ t
theorem p_main_v58 (V : Valuation τ sig (Elt Ideal)) (r : Fin 65536) (t : Fin 256) : rd V main_v58 (ix2 r t) = rd V main_v57 (ix2 (0 : Fin 1) t) := by
  rw [e_main_v58]; exact rows_S65536x256 _ r t
theorem p_main_v60 (V : Valuation τ sig (Elt Ideal)) (j : S65536x256.Idx) : rd V main_v60 j = rd V main_cst_19 ix0 := by
  rw [e_main_v60]; exact bc_S65536x256 _ j
theorem p_main_call6_v0 (V : Valuation τ sig (Elt Ideal)) (j : S65536x256.Idx) : rd V main_call6_v0 j = rd V main_cst_20 ix0 := by
  rw [e_main_call6_v0]; exact bc_S65536x256 _ j
theorem p_main_call6_v1 (V : Valuation τ sig (Elt Ideal)) (j : S65536x256.Idx) : rd V main_call6_v1 j = rd V main_cst_21 ix0 := by
  rw [e_main_call6_v1]; exact bc_S65536x256 _ j
theorem p_main_v64 (V : Valuation τ sig (Elt Ideal)) (j : S256x256.Idx) : rd V main_v64 j = rd V main_cst_22 ix0 := by
  rw [e_main_v64]; exact bc_S256x256 _ j
theorem p_main_call7_v0 (V : Valuation τ sig (Elt Ideal)) (j : S256x256.Idx) : rd V main_call7_v0 j = rd V main_cst_23 ix0 := by
  rw [e_main_call7_v0]; exact bc_S256x256 _ j
theorem p_main_call7_v1 (V : Valuation τ sig (Elt Ideal)) (j : S256x256.Idx) : rd V main_call7_v1 j = rd V main_cst_24 ix0 := by
  rw [e_main_call7_v1]; exact bc_S256x256 _ j
theorem p_main_v68 (V : Valuation τ sig (Elt Ideal)) (p : Fin 256) (q : Fin 256) : rd V main_v68 (ix2 p q) = rd V main_v67 (ix2 q p) := by
  rw [e_main_v68]; exact tr_S256x256 _ p q
theorem p_main_v71 (V : Valuation τ sig (Elt Ideal)) (j : S256.Idx) : rd V main_v71 j = rd V main_cst_26 ix0 := by
  rw [e_main_v71]; exact bc_S256 _ j
theorem p_main_call8_v1 (V : Valuation τ sig (Elt Ideal)) (t : Fin 256) : rd V main_call8_v1 (ix2 (0 : Fin 1) t) = rd V main_call8_v0 (ix1 t) := by
  rw [e_main_call8_v1]; exact row_S1x256 _ t
theorem p_main_call8_v2 (V : Valuation τ sig (Elt Ideal)) (j : S1x256.Idx) : rd V main_call8_v2 j = rd V main_call8_cst_0 ix0 := by
  rw [e_main_call8_v2]; exact bc_S1x256 _ j
theorem p_main_call8_v4 (V : Valuation τ sig (Elt Ideal)) (r : Fin 65536) (t : Fin 256) : rd V main_call8_v4 (ix2 r t) = rd V main_call8_v3 (ix2 (0 : Fin 1) t) := by
  rw [e_main_call8_v4]; exact rows_S65536x256 _ r t
theorem p_main_call8_v10 (V : Valuation τ sig (Elt Ideal)) (j : S256.Idx) : rd V main_call8_v10 j = rd V main_call8_v8 ix0 := by
  rw [e_main_call8_v10]; exact bc_S256 _ j
theorem p_main_call8_call0_v1 (V : Valuation τ sig (Elt Ideal)) (j : S256.Idx) : rd V main_call8_call0_v1 j = rd V main_call8_call0_v0 ix0 := by
  rw [e_main_call8_call0_v1]; exact bc_S256 _ j
theorem p_main_v73 (V : Valuation τ sig (Elt Ideal)) (t : Fin 256) :
    rd V main_v73 (ix1 t) = Scalar.select (rd V main_call8_v12 ix0) (rd V main_call8_v11 (ix1 t)) (rd V main_call8_call0_v1 (ix1 t)) := by
  rw [e_main_v73, select_apply, bc_S256]
theorem p_main_v74 (V : Valuation τ sig (Elt Ideal)) (t : Fin 256) : rd V main_v74 (ix2 (0 : Fin 1) t) = rd V main_v72 (ix1 t) := by
  rw [e_main_v74]; exact row_S1x256 _ t
theorem p_main_v75 (V : Valuation τ sig (Elt Ideal)) (r : Fin 65536) (t : Fin 256) : rd V main_v75 (ix2 r t) = rd V main_v74 (ix2 (0 : Fin 1) t) := by
  rw [e_main_v75]; exact rows_S65536x256 _ r t
theorem p_main_v77 (V : Valuation τ sig (Elt Ideal)) (t : Fin 256) : rd V main_v77 (ix2 (0 : Fin 1) t) = rd V main_arg8 (ix1 t) := by
  rw [e_main_v77]; exact row_S1x256 _ t
theorem p_main_v78 (V : Valuation τ sig (Elt Ideal)) (r : Fin 65536) (t : Fin 256) : rd V main_v78 (ix2 r t) = rd V main_v77 (ix2 (0 : Fin 1) t) := by
  rw [e_main_v78]; exact rows_S65536x256 _ r t
theorem p_main_v80 (V : Valuation τ sig (Elt Ideal)) (j : S256.Idx) : rd V main_v80 j = rd V main_cst_28 ix0 := by
  rw [e_main_v80]; exact bc_S256 _ j
theorem p_main_v83 (V : Valuation τ sig (Elt Ideal)) (t : Fin 256) : rd V main_v83 (ix2 (0 : Fin 1) t) = rd V main_v82 (ix1 t) := by
  rw [e_main_v83]; exact row_S1x256 _ t
theorem p_main_v84 (V : Valuation τ sig (Elt Ideal)) (r : Fin 65536) (t : Fin 256) : rd V main_v84 (ix2 r t) = rd V main_v83 (ix2 (0 : Fin 1) t) := by
  rw [e_main_v84]; exact rows_S65536x256 _ r t
theorem p_main_v86 (V : Valuation τ sig (Elt Ideal)) (t : Fin 256) : rd V main_v86 (ix2 (0 : Fin 1) t) = rd V main_arg13 (ix1 t) := by
  rw [e_main_v86]; exact row_S1x256 _ t
theorem p_main_v87 (V : Valuation τ sig (Elt Ideal)) (r : Fin 65536) (t : Fin 256) : rd V main_v87 (ix2 r t) = rd V main_v86 (ix2 (0 : Fin 1) t) := by
  rw [e_main_v87]; exact rows_S65536x256 _ r t
theorem p_main_v89 (V : Valuation τ sig (Elt Ideal)) (j : S65536x256.Idx) : rd V main_v89 j = rd V main_cst_29 ix0 := by
  rw [e_main_v89]; exact bc_S65536x256 _ j
theorem p_main_call9_v0 (V : Valuation τ sig (Elt Ideal)) (j : S65536x256.Idx) : rd V main_call9_v0 j = rd V main_cst_30 ix0 := by
  rw [e_main_call9_v0]; exact bc_S65536x256 _ j
theorem p_main_call9_v1 (V : Valuation τ sig (Elt Ideal)) (j : S65536x256.Idx) : rd V main_call9_v1 j = rd V main_cst_31 ix0 := by
  rw [e_main_call9_v1]; exact bc_S65536x256 _ j
theorem p_main_v93 (V : Valuation τ sig (Elt Ideal)) (j : S256x256.Idx) : rd V main_v93 j = rd V main_cst_32 ix0 := by
  rw [e_main_v93]; exact bc_S256x256 _ j
theorem p_main_call10_v0 (V : Valuation τ sig (Elt Ideal)) (j : S256x256.Idx) : rd V main_call10_v0 j = rd V main_cst_33 ix0 := by
  rw [e_main_call10_v0]; exact bc_S256x256 _ j
theorem p_main_call10_v1 (V : Valuation τ sig (Elt Ideal)) (j : S256x256.Idx) : rd V main_call10_v1 j = rd V main_cst_34 ix0 := by
  rw [e_main_call10_v1]; exact bc_S256x256 _ j
theorem p_main_v97 (V : Valuation τ sig (Elt Ideal)) (p : Fin 256) (q : Fin 256) : rd V main_v97 (ix2 p q) = rd V main_v96 (ix2 q p) := by
  rw [e_main_v97]; exact tr_S256x256 _ p q
theorem p_main_v100 (V : Valuation τ sig (Elt Ideal)) (j : S256.Idx) : rd V main_v100 j = rd V main_cst_36 ix0 := by
  rw [e_main_v100]; exact bc_S256 _ j
theorem p_main_call11_v1 (V : Valuation τ sig (Elt Ideal)) (t : Fin 256) : rd V main_call11_v1 (ix2 (0 : Fin 1) t) = rd V main_call11_v0 (ix1 t) := by
  rw [e_main_call11_v1]; exact row_S1x256 _ t
theorem p_main_call11_v2 (V : Valuation τ sig (Elt Ideal)) (j : S1x256.Idx) : rd V main_call11_v2 j = rd V main_call11_cst_0 ix0 := by
  rw [e_main_call11_v2]; exact bc_S1x256 _ j
theorem p_main_call11_v4 (V : Valuation τ sig (Elt Ideal)) (r : Fin 65536) (t : Fin 256) : rd V main_call11_v4 (ix2 r t) = rd V main_call11_v3 (ix2 (0 : Fin 1) t) := by
  rw [e_main_call11_v4]; exact rows_S65536x256 _ r t
theorem p_main_call11_v10 (V : Valuation τ sig (Elt Ideal)) (j : S256.Idx) : rd V main_call11_v10 j = rd V main_call11_v8 ix0 := by
  rw [e_main_call11_v10]; exact bc_S256 _ j
theorem p_main_call11_call0_v1 (V : Valuation τ sig (Elt Ideal)) (j : S256.Idx) : rd V main_call11_call0_v1 j = rd V main_call11_call0_v0 ix0 := by
  rw [e_main_call11_call0_v1]; exact bc_S256 _ j
theorem p_main_v102 (V : Valuation τ sig (Elt Ideal)) (t : Fin 256) :
    rd V main_v102 (ix1 t) = Scalar.select (rd V main_call11_v12 ix0) (rd V main_call11_v11 (ix1 t)) (rd V main_call11_call0_v1 (ix1 t)) := by
  rw [e_main_v102, select_apply, bc_S256]
theorem p_main_v103 (V : Valuation τ sig (Elt Ideal)) (t : Fin 256) : rd V main_v103 (ix2 (0 : Fin 1) t) = rd V main_v101 (ix1 t) := by
  rw [e_main_v103]; exact row_S1x256 _ t
theorem p_main_v104 (V : Valuation τ sig (Elt Ideal)) (r : Fin 65536) (t : Fin 256) : rd V main_v104 (ix2 r t) = rd V main_v103 (ix2 (0 : Fin 1) t) := by
  rw [e_main_v104]; exact rows_S65536x256 _ r t
theorem p_main_v106 (V : Valuation τ sig (Elt Ideal)) (t : Fin 256) : rd V main_v106 (ix2 (0 : Fin 1) t) = rd V main_arg9 (ix1 t) := by
  rw [e_main_v106]; exact row_S1x256 _ t
theorem p_main_v107 (V : Valuation τ sig (Elt Ideal)) (r : Fin 65536) (t : Fin 256) : rd V main_v107 (ix2 r t) = rd V main_v106 (ix2 (0 : Fin 1) t) := by
  rw [e_main_v107]; exact rows_S65536x256 _ r t
theorem p_main_v109 (V : Valuation τ sig (Elt Ideal)) (j : S256.Idx) : rd V main_v109 j = rd V main_cst_38 ix0 := by
  rw [e_main_v109]; exact bc_S256 _ j
theorem p_main_v112 (V : Valuation τ sig (Elt Ideal)) (t : Fin 256) : rd V main_v112 (ix2 (0 : Fin 1) t) = rd V main_v111 (ix1 t) := by
  rw [e_main_v112]; exact row_S1x256 _ t
theorem p_main_v113 (V : Valuation τ sig (Elt Ideal)) (r : Fin 65536) (t : Fin 256) : rd V main_v113 (ix2 r t) = rd V main_v112 (ix2 (0 : Fin 1) t) := by
  rw [e_main_v113]; exact rows_S65536x256 _ r t
theorem p_main_v115 (V : Valuation τ sig (Elt Ideal)) (t : Fin 256) : rd V main_v115 (ix2 (0 : Fin 1) t) = rd V main_arg14 (ix1 t) := by
  rw [e_main_v115]; exact row_S1x256 _ t
theorem p_main_v116 (V : Valuation τ sig (Elt Ideal)) (r : Fin 65536) (t : Fin 256) : rd V main_v116 (ix2 r t) = rd V main_v115 (ix2 (0 : Fin 1) t) := by
  rw [e_main_v116]; exact rows_S65536x256 _ r t
theorem p_main_v118 (V : Valuation τ sig (Elt Ideal)) (j : S65536x256.Idx) : rd V main_v118 j = rd V main_cst_39 ix0 := by
  rw [e_main_v118]; exact bc_S65536x256 _ j
theorem p_main_call12_v0 (V : Valuation τ sig (Elt Ideal)) (j : S65536x256.Idx) : rd V main_call12_v0 j = rd V main_cst_40 ix0 := by
  rw [e_main_call12_v0]; exact bc_S65536x256 _ j
theorem p_main_call12_v1 (V : Valuation τ sig (Elt Ideal)) (j : S65536x256.Idx) : rd V main_call12_v1 j = rd V main_cst_41 ix0 := by
  rw [e_main_call12_v1]; exact bc_S65536x256 _ j
theorem p_main_v122 (V : Valuation τ sig (Elt Ideal)) (j : S10x256.Idx) : rd V main_v122 j = rd V main_cst_42 ix0 := by
  rw [e_main_v122]; exact bc_S10x256 _ j
theorem p_main_call13_v0 (V : Valuation τ sig (Elt Ideal)) (j : S10x256.Idx) : rd V main_call13_v0 j = rd V main_cst_43 ix0 := by
  rw [e_main_call13_v0]; exact bc_S10x256 _ j
theorem p_main_call13_v1 (V : Valuation τ sig (Elt Ideal)) (j : S10x256.Idx) : rd V main_call13_v1 j = rd V main_cst_44 ix0 := by
  rw [e_main_call13_v1]; exact bc_S10x256 _ j
theorem p_main_v126 (V : Valuation τ sig (Elt Ideal)) (p : Fin 256) (q : Fin 10) : rd V main_v126 (ix2 p q) = rd V main_v125 (ix2 q p) := by
  rw [e_main_v126]; exact tr_S256x10 _ p q
theorem p_main_v129 (V : Valuation τ sig (Elt Ideal)) (j : S10.Idx) : rd V main_v129 j = rd V main_cst_46 ix0 := by
  rw [e_main_v129]; exact bc_S10 _ j
theorem p_main_call14_v1 (V : Valuation τ sig (Elt Ideal)) (t : Fin 10) : rd V main_call14_v1 (ix2 (0 : Fin 1) t) = rd V main_call14_v0 (ix1 t) := by
  rw [e_main_call14_v1]; exact row_S1x10 _ t
theorem p_main_call14_v2 (V : Valuation τ sig (Elt Ideal)) (j : S1x10.Idx) : rd V main_call14_v2 j = rd V main_call14_cst_0 ix0 := by
  rw [e_main_call14_v2]; exact bc_S1x10 _ j
theorem p_main_call14_v4 (V : Valuation τ sig (Elt Ideal)) (r : Fin 65536) (t : Fin 10) : rd V main_call14_v4 (ix2 r t) = rd V main_call14_v3 (ix2 (0 : Fin 1) t) := by
  rw [e_main_call14_v4]; exact rows_S65536x10 _ r t
theorem p_main_call14_v10 (V : Valuation τ sig (Elt Ideal)) (j : S10.Idx) : rd V main_call14_v10 j = rd V main_call14_v8 ix0 := by
  rw [e_main_call14_v10]; exact bc_S10 _ j
theorem p_main_call14_call0_v1 (V : Valuation τ sig (Elt Ideal)) (j : S10.Idx) : rd V main_call14_call0_v1 j = rd V main_call14_call0_v0 ix0 := by
  rw [e_main_call14_call0_v1]; exact bc_S10 _ j
theorem p_main_v131 (V : Valuation τ sig (Elt Ideal)) (t : Fin 10) :
    rd V main_v131 (ix1 t) = Scalar.select (rd V main_call14_v12 ix0) (rd V main_call14_v11 (ix1 t)) (rd V main_call14_call0_v1 (ix1 t)) := by
  rw [e_main_v131, select_apply, bc_S10]
theorem p_main_v132 (V : Valuation τ sig (Elt Ideal)) (t : Fin 10) : rd V main_v132 (ix2 (0 : Fin 1) t) = rd V main_v130 (ix1 t) := by
  rw [e_main_v132]; exact row_S1x10 _ t
theorem p_main_v133 (V : Valuation τ sig (Elt Ideal)) (r : Fin 65536) (t : Fin 10) : rd V main_v133 (ix2 r t) = rd V main_v132 (ix2 (0 : Fin 1) t) := by
  rw [e_main_v133]; exact rows_S65536x10 _ r t
theorem p_main_v135 (V : Valuation τ sig (Elt Ideal)) (t : Fin 10) : rd V main_v135 (ix2 (0 : Fin 1) t) = rd V main_arg10 (ix1 t) := by
  rw [e_main_v135]; exact row_S1x10 _ t
theorem p_main_v136 (V : Valuation τ sig (Elt Ideal)) (r : Fin 65536) (t : Fin 10) : rd V main_v136 (ix2 r t) = rd V main_v135 (ix2 (0 : Fin 1) t) := by
  rw [e_main_v136]; exact rows_S65536x10 _ r t
theorem p_main_v138 (V : Valuation τ sig (Elt Ideal)) (j : S10.Idx) : rd V main_v138 j = rd V main_cst_48 ix0 := by
  rw [e_main_v138]; exact bc_S10 _ j
theorem p_main_v141 (V : Valuation τ sig (Elt Ideal)) (t : Fin 10) : rd V main_v141 (ix2 (0 : Fin 1) t) = rd V main_v140 (ix1 t) := by
  rw [e_main_v141]; exact row_S1x10 _ t
theorem p_main_v142 (V : Valuation τ sig (Elt Ideal)) (r : Fin 65536) (t : Fin 10) : rd V main_v142 (ix2 r t) = rd V main_v141 (ix2 (0 : Fin 1) t) := by
  rw [e_main_v142]; exact rows_S65536x10 _ r t
theorem p_main_v144 (V : Valuation τ sig (Elt Ideal)) (t : Fin 10) : rd V main_v144 (ix2 (0 : Fin 1) t) = rd V main_arg15 (ix1 t) := by
  rw [e_main_v144]; exact row_S1x10 _ t
theorem p_main_v145 (V : Valuation τ sig (Elt Ideal)) (r : Fin 65536) (t : Fin 10) : rd V main_v145 (ix2 r t) = rd V main_v144 (ix2 (0 : Fin 1) t) := by
  rw [e_main_v145]; exact rows_S65536x10 _ r t
theorem p_main_v148 (V : Valuation τ sig (Elt Ideal)) (j : S10.Idx) : rd V main_v148 j = rd V main_cst_50 ix0 := by
  rw [e_main_v148]; exact bc_S10 _ j
theorem p_main_v150 (V : Valuation τ sig (Elt Ideal)) (t : Fin 10) : rd V main_v150 (ix2 (0 : Fin 1) t) = rd V main_v149 (ix1 t) := by
  rw [e_main_v150]; exact row_S1x10 _ t
theorem p_main_v151 (V : Valuation τ sig (Elt Ideal)) (r : Fin 65536) (t : Fin 10) : rd V main_v151 (ix2 r t) = rd V main_v150 (ix2 (0 : Fin 1) t) := by
  rw [e_main_v151]; exact rows_S65536x10 _ r t
theorem p_main_v155 (V : Valuation τ sig (Elt Ideal)) (t : Fin 10) : rd V main_v155 (ix2 (0 : Fin 1) t) = rd V main_v154 (ix1 t) := by
  rw [e_main_v155]; exact row_S1x10 _ t
theorem p_main_v156 (V : Valuation τ sig (Elt Ideal)) (r : Fin 65536) (t : Fin 10) : rd V main_v156 (ix2 r t) = rd V main_v155 (ix2 (0 : Fin 1) t) := by
  rw [e_main_v156]; exact rows_S65536x10 _ r t

end Cert.ReferenceIdeal.Hand

end
-- ==== Proof.Ref.L0.lean ====
/- Layer 0 of the reference read at an index: its binarised weights, its products, the column mean, the
   variance call, the normalised values and the next layer's binarised activations, each from the
   equations of the operations that compute it. -/
import proofs.«118595_j1726576853663_2_alg».proof.Proof.Ref.E0
import proofs.«118595_j1726576853663_2_alg».proof.Proof.Ref.E1
import proofs.«118595_j1726576853663_2_alg».proof.Proof.Ref.E2
import proofs.«118595_j1726576853663_2_alg».proof.Proof.Ref.E3
import proofs.«118595_j1726576853663_2_alg».proof.Proof.Ref.P

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

/-- The binarised, shifted pixels. -/
theorem act0 (V : Valuation τ sig (Elt Ideal)) (r : Fin 65536) (i : Fin 784) :
    rd V main_v5 (ix2 r i) = Spec.sgn (Spec.mat (n0 := 65536) (n1 := 784) (V (Proc.devRef .tc main_arg0)) r i - Spec.half) := by
  simp only [e_main_cst, p_main_v0, e_main_v1, e_main_cst_0, p_main_v2, e_main_v3, e_main_cst_1, e_main_cst_2, p_main_call0_v0, p_main_call0_v1, e_main_v4, e_main_v5, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10, sgn_elem, rd_arg V main_arg0 (by decide)]
  exact sgn_elem _

/-- The binarised weights, transposed. -/
theorem wts0 (V : Valuation τ sig (Elt Ideal)) (i : Fin 784) (o : Fin 256) :
    rd V main_v10 (ix2 i o) = Spec.wbin (Spec.mat (n0 := 256) (n1 := 784) (V (Proc.devRef .tc main_arg1))) o i := by
  simp only [e_main_cst_3, p_main_v6, e_main_v7, e_main_cst_4, e_main_cst_5, p_main_call1_v0, p_main_call1_v1, e_main_v8, e_main_v9, p_main_v10, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10, sgn_elem, rd_arg V main_arg1 (by decide)]
  exact sgn_elem _

/-- The layer's products from its activations. -/
theorem raw0 (V : Valuation τ sig (Elt Ideal)) (A : Fin 65536 → Fin 784 → EReal) (hA : ∀ r i, rd V main_v5 (ix2 r i) = A r i)
    (r : Fin 65536) (o : Fin 256) :
    rd V main_v11 (ix2 r o) = Spec.raw A (Spec.wbin (Spec.mat (n0 := 256) (n1 := 784) (V (Proc.devRef .tc main_arg1)))) r o := by
  simp only [e_main_v11, dotv_784_256, hA, wts0]
  rfl

/-- The column mean. -/
theorem mean0 (V : Valuation τ sig (Elt Ideal)) (X : Fin 65536 → Fin 256 → EReal) (hX : ∀ r o, rd V main_v11 (ix2 r o) = X r o) (o : Fin 256) :
    rd V main_v14 (ix1 o) = Spec.meanOf (Spec.colSum X) o := by
  simp only [e_main_cst_6, e_main_v12, e_main_cst_7, p_main_v13, e_main_v14, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10, Ideal.ofBits_zero_f32, c_bsz, zero_add, hX]
  rfl

/-- The variance call: the mean of the squared deviations from the column mean. -/
theorem var0 (V : Valuation τ sig (Elt Ideal)) (X : Fin 65536 → Fin 256 → EReal) (hX : ∀ r o, rd V main_v11 (ix2 r o) = X r o) (o : Fin 256) :
    rd V main_v15 (ix1 o) = Spec.varR X o := by
  simp only [e_main_c, e_main_call2_cst, e_main_call2_v0, p_main_call2_v1, e_main_call2_cst_0, p_main_call2_v2, e_main_call2_v3, p_main_call2_v4, e_main_call2_v5, e_main_call2_v6, e_main_call2_v7, e_main_call2_cst_1, e_main_call2_v8, e_main_call2_cst_2, e_main_call2_v9, p_main_call2_v10, e_main_call2_v11, e_main_call2_cst_3, e_main_call2_v12, e_main_call2_cst_4, e_main_call2_call0_v0, p_main_call2_call0_v1, p_main_v15, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10,
    sitofp_apply, constI_apply, sitofp_zero, Ideal.ofBits_zero_f32, c_bsz, zero_add, sub_zero, sel_bsz_pos, hX]
  rfl

/-- The normalised values. -/
theorem norm0 (V : Valuation τ sig (Elt Ideal)) (X : Fin 65536 → Fin 256 → EReal) (hX : ∀ r o, rd V main_v11 (ix2 r o) = X r o)
    (r : Fin 65536) (o : Fin 256) :
    rd V main_v30 (ix2 r o) = Spec.normR (Spec.vec (n := 256) (V (Proc.devRef .tc main_arg6))) (Spec.vec (n := 256) (V (Proc.devRef .tc main_arg11))) X r o := by
  simp only [p_main_v16, p_main_v17, e_main_v18, p_main_v19, p_main_v20, e_main_v21, e_main_cst_8, p_main_v22, e_main_v23, e_main_v24, p_main_v25, p_main_v26, e_main_v27, p_main_v28, p_main_v29, e_main_v30, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10, hostRsqrt_apply,
    mean0 V X hX, var0 V X hX, hX, rd_arg V main_arg6 (by decide), rd_arg V main_arg11 (by decide)]
  rfl

/-- The next layer's binarised activations. -/
theorem act1 (V : Valuation τ sig (Elt Ideal)) (Y : Fin 65536 → Fin 256 → EReal) (hY : ∀ r o, rd V main_v30 (ix2 r o) = Y r o)
    (r : Fin 65536) (i : Fin 256) : rd V main_v34 (ix2 r i) = Spec.sgn (Y r i) := by
  simp only [e_main_cst_9, p_main_v31, e_main_v32, e_main_cst_10, e_main_cst_11, p_main_call3_v0, p_main_call3_v1, e_main_v33, e_main_v34, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10, sgn_elem, hY]
  exact sgn_elem _

end Cert.ReferenceIdeal.Hand

end
-- ==== Proof.Ref.L1.lean ====
/- Layer 1 of the reference read at an index: its binarised weights, its products, the column mean, the
   variance call, the normalised values and the next layer's binarised activations, each from the
   equations of the operations that compute it. -/
import proofs.«118595_j1726576853663_2_alg».proof.Proof.Ref.E0
import proofs.«118595_j1726576853663_2_alg».proof.Proof.Ref.E1
import proofs.«118595_j1726576853663_2_alg».proof.Proof.Ref.E2
import proofs.«118595_j1726576853663_2_alg».proof.Proof.Ref.E3
import proofs.«118595_j1726576853663_2_alg».proof.Proof.Ref.P

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

/-- The binarised weights, transposed. -/
theorem wts1 (V : Valuation τ sig (Elt Ideal)) (i : Fin 256) (o : Fin 256) :
    rd V main_v39 (ix2 i o) = Spec.wbin (Spec.mat (n0 := 256) (n1 := 256) (V (Proc.devRef .tc main_arg2))) o i := by
  simp only [e_main_cst_12, p_main_v35, e_main_v36, e_main_cst_13, e_main_cst_14, p_main_call4_v0, p_main_call4_v1, e_main_v37, e_main_v38, p_main_v39, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10, sgn_elem, rd_arg V main_arg2 (by decide)]
  exact sgn_elem _

/-- The layer's products from its activations. -/
theorem raw1 (V : Valuation τ sig (Elt Ideal)) (A : Fin 65536 → Fin 256 → EReal) (hA : ∀ r i, rd V main_v34 (ix2 r i) = A r i)
    (r : Fin 65536) (o : Fin 256) :
    rd V main_v40 (ix2 r o) = Spec.raw A (Spec.wbin (Spec.mat (n0 := 256) (n1 := 256) (V (Proc.devRef .tc main_arg2)))) r o := by
  simp only [e_main_v40, dotv_256_256, hA, wts1]
  rfl

/-- The column mean. -/
theorem mean1 (V : Valuation τ sig (Elt Ideal)) (X : Fin 65536 → Fin 256 → EReal) (hX : ∀ r o, rd V main_v40 (ix2 r o) = X r o) (o : Fin 256) :
    rd V main_v43 (ix1 o) = Spec.meanOf (Spec.colSum X) o := by
  simp only [e_main_cst_15, e_main_v41, e_main_cst_16, p_main_v42, e_main_v43, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10, Ideal.ofBits_zero_f32, c_bsz, zero_add, hX]
  rfl

/-- The variance call: the mean of the squared deviations from the column mean. -/
theorem var1 (V : Valuation τ sig (Elt Ideal)) (X : Fin 65536 → Fin 256 → EReal) (hX : ∀ r o, rd V main_v40 (ix2 r o) = X r o) (o : Fin 256) :
    rd V main_v44 (ix1 o) = Spec.varR X o := by
  simp only [e_main_c_17, e_main_call5_cst, e_main_call5_v0, p_main_call5_v1, e_main_call5_cst_0, p_main_call5_v2, e_main_call5_v3, p_main_call5_v4, e_main_call5_v5, e_main_call5_v6, e_main_call5_v7, e_main_call5_cst_1, e_main_call5_v8, e_main_call5_cst_2, e_main_call5_v9, p_main_call5_v10, e_main_call5_v11, e_main_call5_cst_3, e_main_call5_v12, e_main_call5_cst_4, e_main_call5_call0_v0, p_main_call5_call0_v1, p_main_v44, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10,
    sitofp_apply, constI_apply, sitofp_zero, Ideal.ofBits_zero_f32, c_bsz, zero_add, sub_zero, sel_bsz_pos, hX]
  rfl

/-- The normalised values. -/
theorem norm1 (V : Valuation τ sig (Elt Ideal)) (X : Fin 65536 → Fin 256 → EReal) (hX : ∀ r o, rd V main_v40 (ix2 r o) = X r o)
    (r : Fin 65536) (o : Fin 256) :
    rd V main_v59 (ix2 r o) = Spec.normR (Spec.vec (n := 256) (V (Proc.devRef .tc main_arg7))) (Spec.vec (n := 256) (V (Proc.devRef .tc main_arg12))) X r o := by
  simp only [p_main_v45, p_main_v46, e_main_v47, p_main_v48, p_main_v49, e_main_v50, e_main_cst_18, p_main_v51, e_main_v52, e_main_v53, p_main_v54, p_main_v55, e_main_v56, p_main_v57, p_main_v58, e_main_v59, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10, hostRsqrt_apply,
    mean1 V X hX, var1 V X hX, hX, rd_arg V main_arg7 (by decide), rd_arg V main_arg12 (by decide)]
  rfl

/-- The next layer's binarised activations. -/
theorem act2 (V : Valuation τ sig (Elt Ideal)) (Y : Fin 65536 → Fin 256 → EReal) (hY : ∀ r o, rd V main_v59 (ix2 r o) = Y r o)
    (r : Fin 65536) (i : Fin 256) : rd V main_v63 (ix2 r i) = Spec.sgn (Y r i) := by
  simp only [e_main_cst_19, p_main_v60, e_main_v61, e_main_cst_20, e_main_cst_21, p_main_call6_v0, p_main_call6_v1, e_main_v62, e_main_v63, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10, sgn_elem, hY]
  exact sgn_elem _

end Cert.ReferenceIdeal.Hand

end
-- ==== Proof.Ref.L2.lean ====
/- Layer 2 of the reference read at an index: its binarised weights, its products, the column mean, the
   variance call, the normalised values and the next layer's binarised activations, each from the
   equations of the operations that compute it. -/
import proofs.«118595_j1726576853663_2_alg».proof.Proof.Ref.E0
import proofs.«118595_j1726576853663_2_alg».proof.Proof.Ref.E1
import proofs.«118595_j1726576853663_2_alg».proof.Proof.Ref.E2
import proofs.«118595_j1726576853663_2_alg».proof.Proof.Ref.E3
import proofs.«118595_j1726576853663_2_alg».proof.Proof.Ref.P

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

/-- The binarised weights, transposed. -/
theorem wts2 (V : Valuation τ sig (Elt Ideal)) (i : Fin 256) (o : Fin 256) :
    rd V main_v68 (ix2 i o) = Spec.wbin (Spec.mat (n0 := 256) (n1 := 256) (V (Proc.devRef .tc main_arg3))) o i := by
  simp only [e_main_cst_22, p_main_v64, e_main_v65, e_main_cst_23, e_main_cst_24, p_main_call7_v0, p_main_call7_v1, e_main_v66, e_main_v67, p_main_v68, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10, sgn_elem, rd_arg V main_arg3 (by decide)]
  exact sgn_elem _

/-- The layer's products from its activations. -/
theorem raw2 (V : Valuation τ sig (Elt Ideal)) (A : Fin 65536 → Fin 256 → EReal) (hA : ∀ r i, rd V main_v63 (ix2 r i) = A r i)
    (r : Fin 65536) (o : Fin 256) :
    rd V main_v69 (ix2 r o) = Spec.raw A (Spec.wbin (Spec.mat (n0 := 256) (n1 := 256) (V (Proc.devRef .tc main_arg3)))) r o := by
  simp only [e_main_v69, dotv_256_256, hA, wts2]
  rfl

/-- The column mean. -/
theorem mean2 (V : Valuation τ sig (Elt Ideal)) (X : Fin 65536 → Fin 256 → EReal) (hX : ∀ r o, rd V main_v69 (ix2 r o) = X r o) (o : Fin 256) :
    rd V main_v72 (ix1 o) = Spec.meanOf (Spec.colSum X) o := by
  simp only [e_main_cst_25, e_main_v70, e_main_cst_26, p_main_v71, e_main_v72, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10, Ideal.ofBits_zero_f32, c_bsz, zero_add, hX]
  rfl

/-- The variance call: the mean of the squared deviations from the column mean. -/
theorem var2 (V : Valuation τ sig (Elt Ideal)) (X : Fin 65536 → Fin 256 → EReal) (hX : ∀ r o, rd V main_v69 (ix2 r o) = X r o) (o : Fin 256) :
    rd V main_v73 (ix1 o) = Spec.varR X o := by
  simp only [e_main_c_27, e_main_call8_cst, e_main_call8_v0, p_main_call8_v1, e_main_call8_cst_0, p_main_call8_v2, e_main_call8_v3, p_main_call8_v4, e_main_call8_v5, e_main_call8_v6, e_main_call8_v7, e_main_call8_cst_1, e_main_call8_v8, e_main_call8_cst_2, e_main_call8_v9, p_main_call8_v10, e_main_call8_v11, e_main_call8_cst_3, e_main_call8_v12, e_main_call8_cst_4, e_main_call8_call0_v0, p_main_call8_call0_v1, p_main_v73, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10,
    sitofp_apply, constI_apply, sitofp_zero, Ideal.ofBits_zero_f32, c_bsz, zero_add, sub_zero, sel_bsz_pos, hX]
  rfl

/-- The normalised values. -/
theorem norm2 (V : Valuation τ sig (Elt Ideal)) (X : Fin 65536 → Fin 256 → EReal) (hX : ∀ r o, rd V main_v69 (ix2 r o) = X r o)
    (r : Fin 65536) (o : Fin 256) :
    rd V main_v88 (ix2 r o) = Spec.normR (Spec.vec (n := 256) (V (Proc.devRef .tc main_arg8))) (Spec.vec (n := 256) (V (Proc.devRef .tc main_arg13))) X r o := by
  simp only [p_main_v74, p_main_v75, e_main_v76, p_main_v77, p_main_v78, e_main_v79, e_main_cst_28, p_main_v80, e_main_v81, e_main_v82, p_main_v83, p_main_v84, e_main_v85, p_main_v86, p_main_v87, e_main_v88, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10, hostRsqrt_apply,
    mean2 V X hX, var2 V X hX, hX, rd_arg V main_arg8 (by decide), rd_arg V main_arg13 (by decide)]
  rfl

/-- The next layer's binarised activations. -/
theorem act3 (V : Valuation τ sig (Elt Ideal)) (Y : Fin 65536 → Fin 256 → EReal) (hY : ∀ r o, rd V main_v88 (ix2 r o) = Y r o)
    (r : Fin 65536) (i : Fin 256) : rd V main_v92 (ix2 r i) = Spec.sgn (Y r i) := by
  simp only [e_main_cst_29, p_main_v89, e_main_v90, e_main_cst_30, e_main_cst_31, p_main_call9_v0, p_main_call9_v1, e_main_v91, e_main_v92, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10, sgn_elem, hY]
  exact sgn_elem _

end Cert.ReferenceIdeal.Hand

end
-- ==== Proof.Ref.L3.lean ====
/- Layer 3 of the reference read at an index: its binarised weights, its products, the column mean, the
   variance call, the normalised values and the next layer's binarised activations, each from the
   equations of the operations that compute it. -/
import proofs.«118595_j1726576853663_2_alg».proof.Proof.Ref.E0
import proofs.«118595_j1726576853663_2_alg».proof.Proof.Ref.E1
import proofs.«118595_j1726576853663_2_alg».proof.Proof.Ref.E2
import proofs.«118595_j1726576853663_2_alg».proof.Proof.Ref.E3
import proofs.«118595_j1726576853663_2_alg».proof.Proof.Ref.P

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

/-- The binarised weights, transposed. -/
theorem wts3 (V : Valuation τ sig (Elt Ideal)) (i : Fin 256) (o : Fin 256) :
    rd V main_v97 (ix2 i o) = Spec.wbin (Spec.mat (n0 := 256) (n1 := 256) (V (Proc.devRef .tc main_arg4))) o i := by
  simp only [e_main_cst_32, p_main_v93, e_main_v94, e_main_cst_33, e_main_cst_34, p_main_call10_v0, p_main_call10_v1, e_main_v95, e_main_v96, p_main_v97, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10, sgn_elem, rd_arg V main_arg4 (by decide)]
  exact sgn_elem _

/-- The layer's products from its activations. -/
theorem raw3 (V : Valuation τ sig (Elt Ideal)) (A : Fin 65536 → Fin 256 → EReal) (hA : ∀ r i, rd V main_v92 (ix2 r i) = A r i)
    (r : Fin 65536) (o : Fin 256) :
    rd V main_v98 (ix2 r o) = Spec.raw A (Spec.wbin (Spec.mat (n0 := 256) (n1 := 256) (V (Proc.devRef .tc main_arg4)))) r o := by
  simp only [e_main_v98, dotv_256_256, hA, wts3]
  rfl

/-- The column mean. -/
theorem mean3 (V : Valuation τ sig (Elt Ideal)) (X : Fin 65536 → Fin 256 → EReal) (hX : ∀ r o, rd V main_v98 (ix2 r o) = X r o) (o : Fin 256) :
    rd V main_v101 (ix1 o) = Spec.meanOf (Spec.colSum X) o := by
  simp only [e_main_cst_35, e_main_v99, e_main_cst_36, p_main_v100, e_main_v101, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10, Ideal.ofBits_zero_f32, c_bsz, zero_add, hX]
  rfl

/-- The variance call: the mean of the squared deviations from the column mean. -/
theorem var3 (V : Valuation τ sig (Elt Ideal)) (X : Fin 65536 → Fin 256 → EReal) (hX : ∀ r o, rd V main_v98 (ix2 r o) = X r o) (o : Fin 256) :
    rd V main_v102 (ix1 o) = Spec.varR X o := by
  simp only [e_main_c_37, e_main_call11_cst, e_main_call11_v0, p_main_call11_v1, e_main_call11_cst_0, p_main_call11_v2, e_main_call11_v3, p_main_call11_v4, e_main_call11_v5, e_main_call11_v6, e_main_call11_v7, e_main_call11_cst_1, e_main_call11_v8, e_main_call11_cst_2, e_main_call11_v9, p_main_call11_v10, e_main_call11_v11, e_main_call11_cst_3, e_main_call11_v12, e_main_call11_cst_4, e_main_call11_call0_v0, p_main_call11_call0_v1, p_main_v102, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10,
    sitofp_apply, constI_apply, sitofp_zero, Ideal.ofBits_zero_f32, c_bsz, zero_add, sub_zero, sel_bsz_pos, hX]
  rfl

/-- The normalised values. -/
theorem norm3 (V : Valuation τ sig (Elt Ideal)) (X : Fin 65536 → Fin 256 → EReal) (hX : ∀ r o, rd V main_v98 (ix2 r o) = X r o)
    (r : Fin 65536) (o : Fin 256) :
    rd V main_v117 (ix2 r o) = Spec.normR (Spec.vec (n := 256) (V (Proc.devRef .tc main_arg9))) (Spec.vec (n := 256) (V (Proc.devRef .tc main_arg14))) X r o := by
  simp only [p_main_v103, p_main_v104, e_main_v105, p_main_v106, p_main_v107, e_main_v108, e_main_cst_38, p_main_v109, e_main_v110, e_main_v111, p_main_v112, p_main_v113, e_main_v114, p_main_v115, p_main_v116, e_main_v117, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10, hostRsqrt_apply,
    mean3 V X hX, var3 V X hX, hX, rd_arg V main_arg9 (by decide), rd_arg V main_arg14 (by decide)]
  rfl

/-- The next layer's binarised activations. -/
theorem act4 (V : Valuation τ sig (Elt Ideal)) (Y : Fin 65536 → Fin 256 → EReal) (hY : ∀ r o, rd V main_v117 (ix2 r o) = Y r o)
    (r : Fin 65536) (i : Fin 256) : rd V main_v121 (ix2 r i) = Spec.sgn (Y r i) := by
  simp only [e_main_cst_39, p_main_v118, e_main_v119, e_main_cst_40, e_main_cst_41, p_main_call12_v0, p_main_call12_v1, e_main_v120, e_main_v121, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10, sgn_elem, hY]
  exact sgn_elem _

end Cert.ReferenceIdeal.Hand

end
-- ==== Proof.Ref.L4.lean ====
/- Layer 4 of the reference read at an index: its binarised weights, its products, the column mean, the
   variance call, the normalised values, each from the
   equations of the operations that compute it. -/
import proofs.«118595_j1726576853663_2_alg».proof.Proof.Ref.E0
import proofs.«118595_j1726576853663_2_alg».proof.Proof.Ref.E1
import proofs.«118595_j1726576853663_2_alg».proof.Proof.Ref.E2
import proofs.«118595_j1726576853663_2_alg».proof.Proof.Ref.E3
import proofs.«118595_j1726576853663_2_alg».proof.Proof.Ref.P

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

/-- The binarised weights, transposed. -/
theorem wts4 (V : Valuation τ sig (Elt Ideal)) (i : Fin 256) (o : Fin 10) :
    rd V main_v126 (ix2 i o) = Spec.wbin (Spec.mat (n0 := 10) (n1 := 256) (V (Proc.devRef .tc main_arg5))) o i := by
  simp only [e_main_cst_42, p_main_v122, e_main_v123, e_main_cst_43, e_main_cst_44, p_main_call13_v0, p_main_call13_v1, e_main_v124, e_main_v125, p_main_v126, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10, sgn_elem, rd_arg V main_arg5 (by decide)]
  exact sgn_elem _

/-- The layer's products from its activations. -/
theorem raw4 (V : Valuation τ sig (Elt Ideal)) (A : Fin 65536 → Fin 256 → EReal) (hA : ∀ r i, rd V main_v121 (ix2 r i) = A r i)
    (r : Fin 65536) (o : Fin 10) :
    rd V main_v127 (ix2 r o) = Spec.raw A (Spec.wbin (Spec.mat (n0 := 10) (n1 := 256) (V (Proc.devRef .tc main_arg5)))) r o := by
  simp only [e_main_v127, dotv_256_10, hA, wts4]
  rfl

/-- The column mean. -/
theorem mean4 (V : Valuation τ sig (Elt Ideal)) (X : Fin 65536 → Fin 10 → EReal) (hX : ∀ r o, rd V main_v127 (ix2 r o) = X r o) (o : Fin 10) :
    rd V main_v130 (ix1 o) = Spec.meanOf (Spec.colSum X) o := by
  simp only [e_main_cst_45, e_main_v128, e_main_cst_46, p_main_v129, e_main_v130, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10, Ideal.ofBits_zero_f32, c_bsz, zero_add, hX]
  rfl

/-- The variance call: the mean of the squared deviations from the column mean. -/
theorem var4 (V : Valuation τ sig (Elt Ideal)) (X : Fin 65536 → Fin 10 → EReal) (hX : ∀ r o, rd V main_v127 (ix2 r o) = X r o) (o : Fin 10) :
    rd V main_v131 (ix1 o) = Spec.varR X o := by
  simp only [e_main_c_47, e_main_call14_cst, e_main_call14_v0, p_main_call14_v1, e_main_call14_cst_0, p_main_call14_v2, e_main_call14_v3, p_main_call14_v4, e_main_call14_v5, e_main_call14_v6, e_main_call14_v7, e_main_call14_cst_1, e_main_call14_v8, e_main_call14_cst_2, e_main_call14_v9, p_main_call14_v10, e_main_call14_v11, e_main_call14_cst_3, e_main_call14_v12, e_main_call14_cst_4, e_main_call14_call0_v0, p_main_call14_call0_v1, p_main_v131, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10,
    sitofp_apply, constI_apply, sitofp_zero, Ideal.ofBits_zero_f32, c_bsz, zero_add, sub_zero, sel_bsz_pos, hX]
  rfl

/-- The normalised values. -/
theorem norm4 (V : Valuation τ sig (Elt Ideal)) (X : Fin 65536 → Fin 10 → EReal) (hX : ∀ r o, rd V main_v127 (ix2 r o) = X r o)
    (r : Fin 65536) (o : Fin 10) :
    rd V main_v146 (ix2 r o) = Spec.normR (Spec.vec (n := 10) (V (Proc.devRef .tc main_arg10))) (Spec.vec (n := 10) (V (Proc.devRef .tc main_arg15))) X r o := by
  simp only [p_main_v132, p_main_v133, e_main_v134, p_main_v135, p_main_v136, e_main_v137, e_main_cst_48, p_main_v138, e_main_v139, e_main_v140, p_main_v141, p_main_v142, e_main_v143, p_main_v144, p_main_v145, e_main_v146, id_eq, select_apply, cmpf_apply, hostDivf_apply, subf_apply, mulf_apply, addf_apply, constant_apply, bc_S65536x784, bc_S256x784, bc_S256, bc_S1x256, bc_S65536x256, bc_S256x256, bc_S10x256, bc_S10, bc_S1x10, row_S1x256, row_S1x10, rows_S65536x256, rows_S65536x10, tr_S784x256, tr_S256x256, tr_S256x10, sum_S65536x256, sum_S65536x10, max_S65536x10, dotv_784_256, dotv_256_256, dotv_256_10, hostRsqrt_apply,
    mean4 V X hX, var4 V X hX, hX, rd_arg V main_arg10 (by decide), rd_arg V main_arg15 (by decide)]
  rfl

end Cert.ReferenceIdeal.Hand

end
-- ==== Proof.Ref.Soft.lean ====
/- The reference's softmax down the columns read at an index: the column maximum (a fold of max from −∞, which is
   the supremum), the exponentials of the differences, their column sum, and the quotient. -/
import proofs.«118595_j1726576853663_2_alg».proof.Proof.Ref.E0
import proofs.«118595_j1726576853663_2_alg».proof.Proof.Ref.E1
import proofs.«118595_j1726576853663_2_alg».proof.Proof.Ref.E2
import proofs.«118595_j1726576853663_2_alg».proof.Proof.Ref.E3
import proofs.«118595_j1726576853663_2_alg».proof.Proof.Ref.P

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

/-- Folding max from the bottom element over a finite family is its supremum: both are the least upper bound. -/
theorem fold_max_bot_eq_sup {ι : Type} (s : Finset ι) (f : ι → EReal) : s.fold max ⊥ f = s.sup f := by
  apply le_antisymm
  · rw [Finset.fold_max_le]
    exact ⟨bot_le, fun x hx => Finset.le_sup hx⟩
  · rw [Finset.sup_le_iff]
    intro x hx
    rw [Finset.le_fold_max]
    exact Or.inr ⟨x, hx, le_rfl⟩

/-- The specification's column maximum as that fold. -/
theorem colMax_eq_fold {M N : ℕ} (Y : Fin M → Fin N → EReal) (o : Fin N) :
    Spec.colMax Y o = (Finset.univ : Finset (Fin M)).fold max ⊥ (fun r => Y r o) :=
  (fold_max_bot_eq_sup Finset.univ fun r => Y r o).symm

/-- The column maximum: the reduction from −∞, joined once more with −∞. -/
theorem colmax4 (V : Valuation τ sig (Elt Ideal)) (Y : Fin 65536 → Fin 10 → EReal) (hY : ∀ r o, rd V main_v146 (ix2 r o) = Y r o)
    (o : Fin 10) : rd V main_v149 (ix1 o) = Spec.colMax Y o := by
  rw [e_main_v149, maximumf_apply, p_main_v148]
  simp only [e_main_cst_50, e_main_v147, max_S65536x10, e_main_cst_49, constant_apply, c_neg_inf, hY]
  rw [max_bot_left]
  exact (colMax_eq_fold Y o).symm

/-- The softmax of the last layer's normalised values. -/
theorem softmax (V : Valuation τ sig (Elt Ideal)) (Y : Fin 65536 → Fin 10 → EReal) (hY : ∀ r o, rd V main_v146 (ix2 r o) = Y r o)
    (r : Fin 65536) (o : Fin 10) : rd V main_v157 (ix2 r o) = Spec.softmax0 Y r o := by
  have hmax : ∀ r' : Fin 65536, rd V main_v151 (ix2 r' o) = Spec.colMax Y o := fun r' => by
    rw [p_main_v151, p_main_v150, colmax4 V Y hY]
  have hexp : ∀ r' : Fin 65536, rd V main_v153 (ix2 r' o) = Ideal.exp (Y r' o - Spec.colMax Y o) := fun r' => by
    rw [e_main_v153, hostExp_apply, e_main_v152, subf_apply, hY, hmax]
  have hsum : rd V main_v156 (ix2 r o) = (∑ r' : Fin 65536, Ideal.exp (Y r' o - Spec.colMax Y o) : EReal) := by
    rw [p_main_v156, p_main_v155]
    simp only [e_main_v154, sum_S65536x10, e_main_cst_51, constant_apply, Ideal.ofBits_zero_f32, zero_add, hexp]
  rw [e_main_v157, hostDivf_apply, hexp, hsum]
  rfl

end Cert.ReferenceIdeal.Hand

end
-- ==== Proof.Ref.Read.lean ====
/- The reference's result read at an index: the layers composed. Each layer's products land in the specification's
   `raw` over the previous layer's signs, its statistics in `meanOf (colSum ·)` and `varR`, its normalised values in
   `normR`, and the last layer's in the column softmax: the whole is the specification's `outR` of the sixteen
   arguments' launch contents. -/
import proofs.«118595_j1726576853663_2_alg».proof.Proof.Ref.L0
import proofs.«118595_j1726576853663_2_alg».proof.Proof.Ref.L1
import proofs.«118595_j1726576853663_2_alg».proof.Proof.Ref.L2
import proofs.«118595_j1726576853663_2_alg».proof.Proof.Ref.L3
import proofs.«118595_j1726576853663_2_alg».proof.Proof.Ref.L4
import proofs.«118595_j1726576853663_2_alg».proof.Proof.Ref.Soft

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

/-- The reference's result buffer, after its operations have run from contents `W`, at row r and column o, is the
    specification's network of the sixteen arguments' contents. -/
theorem ref_value (W : Valuation τ sig (Elt Ideal)) (r : Fin 65536) (o : Fin 10) :
    (after (ops (F := Ideal)) W (Proc.devRef .tc main_v157) : S65536x10.Idx → EReal) (ix2 r o)
      = (Cert.Spec.Params.ofArgs (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15))).outR r o := by
  have h0 : ∀ r o, rd W main_v11 (ix2 r o) = (Cert.Spec.Params.ofArgs (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15))).raw0 r o :=
    fun r o => raw0 W _ (act0 W) r o
  have h1 : ∀ r o, rd W main_v40 (ix2 r o) = (Cert.Spec.Params.ofArgs (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15))).raw1R r o :=
    fun r o => raw1 W _ (act1 W _ (norm0 W _ h0)) r o
  have h2 : ∀ r o, rd W main_v69 (ix2 r o) = (Cert.Spec.Params.ofArgs (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15))).raw2R r o :=
    fun r o => raw2 W _ (act2 W _ (norm1 W _ h1)) r o
  have h3 : ∀ r o, rd W main_v98 (ix2 r o) = (Cert.Spec.Params.ofArgs (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15))).raw3R r o :=
    fun r o => raw3 W _ (act3 W _ (norm2 W _ h2)) r o
  have h4 : ∀ r o, rd W main_v127 (ix2 r o) = (Cert.Spec.Params.ofArgs (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) (W (Proc.devRef .tc main_arg15))).raw4R r o :=
    fun r o => raw4 W _ (act4 W _ (norm3 W _ h3)) r o
  exact softmax W _ (norm4 W _ h4) r o

end Cert.ReferenceIdeal.Hand

end
-- ==== Proof.Finite.lean ====
/- Finiteness out of the precondition: the printed predicate is the conjunction, over the sixteen argument arrays, of
   "every entry's absolute value is below +inf"; an extended real whose absolute value is below +inf is a real number.
   Only the last layer's scale and shift (arguments 10 and 15) are needed as reals: they enter the softmax. -/
import proofs.«118595_j1726576853663_2_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Pre_finite_inputs.Hand

open Idealize.ShloMosaic Cert.Pre_finite_inputs Cert.Pre_finite_inputs.Facts

variable [Facts]

instance : Subsingleton S_.Idx := ⟨fun a b => funext fun d => d.elim0⟩

/-- An extended real whose absolute value compares below the +inf pattern is a real number. -/
theorem real_of_abs_lt_inf (x : EReal)
    (h : FloatOps.cmpf (F := Ideal) .olt (FloatOps.hostAbsf (φ := .f32) x) (FloatOps.ofBits .f32 0x7F800000#32) = 1#1) : ∃ q : ℝ, x = (q : EReal) := by
  have h' : Ideal.cmp .olt (max x (-x)) (Ideal.ofBits .f32 0x7F800000#32) = 1#1 := h
  simp [Ideal.cmp, Ideal.ofBits, Ideal.ieee] at h'
  have hb : (decide (x < ⊤) && decide (-x < ⊤)) = true := by
    cases hh : (decide (x < ⊤) && decide (-x < ⊤))
    · rw [hh] at h'; exact absurd h' (by decide)
    · rfl
  simp at hb
  refine ⟨x.toReal, (EReal.coe_toReal (ne_of_lt hb.1) ?_).symm⟩
  intro hbot; rw [hbot] at hb; simp at hb

/-- One conjunct: when the reduction by "and" of the entrywise test is 1, every entry is a real. -/
theorem real_of_all {s : Shape} (a : FVec Ideal s .f32) (hb : S_.BroadcastsInDim s (![] : Fin 0 → Fin s.rank)) {axes : List (Fin s.rank)} (hr : s.ReducesTo axes S_) (h0 : 0 < S_.numel)
    (h : Host.reduce IntOp.andi (cmpf .olt (Host.absf a) (broadcastInDim s ![] hb (constant S_ .f32 0x7F800000#32))) (constantI S_ 1 1#1) hr h0 (fun d => d.elim0) = 1#1)
    (o : s.Idx) : ∃ q : ℝ, a o = (q : EReal) := by
  have h2 := Host.reduce_andi_all _ _ _ _ _ h o
  simp only [cmpf, Host.absf, broadcastInDim, constant] at h2
  exact real_of_abs_lt_inf _ h2

/-- The last layer's scale and shift are arrays of reals under the precondition. -/
theorem real_arg10_arg15 (a0 : FVec Ideal S65536x784 .f32) (a1 : FVec Ideal S256x784 .f32) (a2 a3 a4 : FVec Ideal S256x256 .f32) (a5 : FVec Ideal S10x256 .f32)
    (a6 a7 a8 a9 : FVec Ideal S256 .f32) (a10 : FVec Ideal S10 .f32) (a11 a12 a13 a14 : FVec Ideal S256 .f32) (a15 : FVec Ideal S10 .f32)
    (h : fn (F := Ideal) a0 a1 a2 a3 a4 a5 a6 a7 a8 a9 a10 a11 a12 a13 a14 a15 = fun _ => 1#1) :
    (∀ o : S10.Idx, ∃ q : ℝ, a10 o = (q : EReal)) ∧ (∀ o : S10.Idx, ∃ q : ℝ, a15 o = (q : EReal)) := by
  have h0 := congrFun h (fun d => d.elim0)
  dsimp only [fn, fn_part1, fn_part2, fn_part3, fn_part4] at h0
  have p78 := IntOp.andi_eq_one.1 h0
  have p73 := IntOp.andi_eq_one.1 p78.1
  have p68 := IntOp.andi_eq_one.1 p73.1
  have p63 := IntOp.andi_eq_one.1 p68.1
  have p58 := IntOp.andi_eq_one.1 p63.1
  have p53 := IntOp.andi_eq_one.1 p58.1
  exact ⟨fun o => real_of_all a10 _ _ _ p53.2 o, fun o => real_of_all a15 _ _ _ p78.2 o⟩

end Cert.Pre_finite_inputs.Hand

end
-- ==== Proof.Bridge.lean ====
/- The algebraic claim: from memories agreeing on the sixteen arguments, at exact extended-real arithmetic the kernel's
   program and the reference both run and end with the same result array. The kernel's run names every unscoped buffer
   at the end; its result array, read through the seven regions and the host operations between them, is the network's
   function of the arguments with the kernel's form of the variance and the two-core online softmax; the reference's fold
   of host operations is the same network with the reference's forms; the two are one function because every layer's
   products are real numbers (finite sums of ±1's) and the last layer's scale and shift are real by the precondition. -/
import proofs.«118595_j1726576853663_2_alg».proof.Defs
import proofs.«118595_j1726576853663_2_alg».proof.Proof.KI.ForwardClosed
import proofs.«118595_j1726576853663_2_alg».proof.Proof.Ref.Run
import proofs.«118595_j1726576853663_2_alg».proof.Proof.Ref.Read
import proofs.«118595_j1726576853663_2_alg».proof.Proof.Finite

set_option maxRecDepth 16384

noncomputable section

namespace Cert.Bridge

open Idealize.ShloMosaic Idealize.ShloMosaic.TcCoe Idealize.SL.Sem Idealize.ShloMosaic.ValueIdx

theorem algebraic : Cert.algebraic_KernelIdeal_ReferenceIdeal := by
  intro m ρ m' ρ' hpre hagree
  refine ⟨fun c => Cert.KernelIdeal.Hand.W24 m ρ c (Proc.devRef .tc Cert.KernelIdeal.main_v140), ?_, ?_⟩
  · exact (θ_run _ _ _).mono (fun r h c => ⟨h c _ (Cert.KernelIdeal.Hand.mem_uc Cert.KernelIdeal.main_v140 (by decide)),
      (h c _ (Cert.KernelIdeal.Hand.mem_uc Cert.KernelIdeal.main_arg0 (by decide))).trans (Cert.KernelIdeal.Hand.W24_main_arg0 m ρ c),
      (h c _ (Cert.KernelIdeal.Hand.mem_uc Cert.KernelIdeal.main_arg1 (by decide))).trans (Cert.KernelIdeal.Hand.W24_main_arg1 m ρ c),
      (h c _ (Cert.KernelIdeal.Hand.mem_uc Cert.KernelIdeal.main_arg2 (by decide))).trans (Cert.KernelIdeal.Hand.W24_main_arg2 m ρ c),
      (h c _ (Cert.KernelIdeal.Hand.mem_uc Cert.KernelIdeal.main_arg3 (by decide))).trans (Cert.KernelIdeal.Hand.W24_main_arg3 m ρ c),
      (h c _ (Cert.KernelIdeal.Hand.mem_uc Cert.KernelIdeal.main_arg4 (by decide))).trans (Cert.KernelIdeal.Hand.W24_main_arg4 m ρ c),
      (h c _ (Cert.KernelIdeal.Hand.mem_uc Cert.KernelIdeal.main_arg5 (by decide))).trans (Cert.KernelIdeal.Hand.W24_main_arg5 m ρ c),
      (h c _ (Cert.KernelIdeal.Hand.mem_uc Cert.KernelIdeal.main_arg6 (by decide))).trans (Cert.KernelIdeal.Hand.W24_main_arg6 m ρ c),
      (h c _ (Cert.KernelIdeal.Hand.mem_uc Cert.KernelIdeal.main_arg7 (by decide))).trans (Cert.KernelIdeal.Hand.W24_main_arg7 m ρ c),
      (h c _ (Cert.KernelIdeal.Hand.mem_uc Cert.KernelIdeal.main_arg8 (by decide))).trans (Cert.KernelIdeal.Hand.W24_main_arg8 m ρ c),
      (h c _ (Cert.KernelIdeal.Hand.mem_uc Cert.KernelIdeal.main_arg9 (by decide))).trans (Cert.KernelIdeal.Hand.W24_main_arg9 m ρ c),
      (h c _ (Cert.KernelIdeal.Hand.mem_uc Cert.KernelIdeal.main_arg10 (by decide))).trans (Cert.KernelIdeal.Hand.W24_main_arg10 m ρ c),
      (h c _ (Cert.KernelIdeal.Hand.mem_uc Cert.KernelIdeal.main_arg11 (by decide))).trans (Cert.KernelIdeal.Hand.W24_main_arg11 m ρ c),
      (h c _ (Cert.KernelIdeal.Hand.mem_uc Cert.KernelIdeal.main_arg12 (by decide))).trans (Cert.KernelIdeal.Hand.W24_main_arg12 m ρ c),
      (h c _ (Cert.KernelIdeal.Hand.mem_uc Cert.KernelIdeal.main_arg13 (by decide))).trans (Cert.KernelIdeal.Hand.W24_main_arg13 m ρ c),
      (h c _ (Cert.KernelIdeal.Hand.mem_uc Cert.KernelIdeal.main_arg14 (by decide))).trans (Cert.KernelIdeal.Hand.W24_main_arg14 m ρ c),
      (h c _ (Cert.KernelIdeal.Hand.mem_uc Cert.KernelIdeal.main_arg15 (by decide))).trans (Cert.KernelIdeal.Hand.W24_main_arg15 m ρ c)⟩)
      (Cert.KernelIdeal.Hand.run_main (F := Ideal) m ρ)
  · refine (θ_run _ _ _).mono (fun r h c => ⟨(h c).1.trans ?_, (h c).2⟩) (Cert.ReferenceIdeal.Hand.run (F := Ideal) m' ρ')
    have hfin := Cert.Pre_finite_inputs.Hand.real_arg10_arg15 _ _ _ _ _ _ _ _ _ _ _ _ _ _ _ _ (hpre c)
    obtain ⟨h0, h1, h2, h3, h4, h5, h6, h7, h8, h9, h10, h11, h12, h13, h14, h15⟩ := hagree c
    have hP : Cert.Spec.Params.ofArgs (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))
        = Cert.KernelIdeal.Hand.PK m c := by
      unfold Cert.KernelIdeal.Hand.PK
      rw [h0, h1, h2, h3, h4, h5, h6, h7, h8, h9, h10, h11, h12, h13, h14, h15]
    funext j
    obtain ⟨r, o, rfl⟩ : ∃ (r : Fin 65536) (o : Fin 10), j = ix2 r o := ⟨j 0, j 1, eq_ix2 j⟩
    refine (Cert.ReferenceIdeal.Hand.ref_value (fun b => m' (c, b)) r o).trans ?_
    refine Eq.trans ?_ (Cert.KernelIdeal.Hand.kernel_value m ρ c hfin.1 hfin.2 r o).symm
    exact congrArg (fun P : Cert.Spec.Params => P.outR r o) hP

end Cert.Bridge

end
-- ==== Proof.lean ====
/- The certificate's claims put together. The three frames: the word-level kernel and the idealised kernel by the run of
   their seven regions (every argument array is read back through the boundaries of @main to the launch memory), the
   reference by its run as a list of host operations. The idealisation rewrote nothing, so its claim is trivial. The
   algebraic claim: at exact extended-real arithmetic both programs compute the same function of the sixteen arguments —
   five layers of sign-binarised products normalised by their batch statistics, then a softmax down each column — the
   kernel accumulating the statistics per core over tiles of 2048 rows and writing the variance as the mean of squares
   minus the square of the mean, the reference as the mean of squared deviations; the two agree because every product is a
   finite sum of ±1's, hence a real number. -/
import proofs.«118595_j1726576853663_2_alg».proof.Defs
import proofs.«118595_j1726576853663_2_alg».proof.Proof.Gen.Kernel
import proofs.«118595_j1726576853663_2_alg».proof.Proof.Gen.KernelIdeal
import proofs.«118595_j1726576853663_2_alg».proof.Proof.Gen.ReferenceIdeal
import proofs.«118595_j1726576853663_2_alg».proof.Proof.Gen.Pre_finite_inputs
import proofs.«118595_j1726576853663_2_alg».proof.Proof.K.Assembly
import proofs.«118595_j1726576853663_2_alg».proof.Proof.KI.Assembly
import proofs.«118595_j1726576853663_2_alg».proof.Proof.Ref.Run
import proofs.«118595_j1726576853663_2_alg».proof.Proof.Bridge

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.ReferenceIdeal.Hand.frame_ri,
  trivial,
  Cert.Bridge.algebraic⟩

end Cert.Proof

end
